-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S800000x3 : Shape := ⟨2, ![800000, 3]⟩
abbrev S5x64 : Shape := ⟨2, ![5, 64]⟩
abbrev S6x64 : Shape := ⟨2, ![6, 64]⟩
abbrev S2x64 : Shape := ⟨2, ![2, 64]⟩
abbrev S_ : Shape := ⟨0, ![]⟩

class Facts : Prop where
  bcast_S_S5x64 : S_.BroadcastsInDim S5x64 (![] : Fin 0 → Fin S5x64.rank)
  reducesTo_S5x64_S_d0_1 : S5x64.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S2x64 : S_.BroadcastsInDim S2x64 (![] : Fin 0 → Fin S2x64.rank)
  reducesTo_S2x64_S_d0_1 : S2x64.ReducesTo [0, 1] S_
  bcast_S_S800000x3 : S_.BroadcastsInDim S800000x3 (![] : Fin 0 → Fin S800000x3.rank)
  reducesTo_S800000x3_S_d0_1 : S800000x3.ReducesTo [0, 1] S_

variable [Facts]

def fn_part1 {F : FTy → Type} [FloatOps F] (main_arg0 : IVec S800000x3 32) (main_v13 : IVec S_ 1) (main_v15 : IVec S800000x3 1) (main_c_5 : IVec S_ 32) : IVec S_ 1 :=
  let main_v16 : IVec S800000x3 32 := broadcastInDim S800000x3 ![] bcast_S_S800000x3 main_c_5
  let main_v17 : IVec S800000x3 1 := cmpi .sle main_arg0 main_v16
  let main_v18 : IVec S800000x3 1 := andi main_v15 main_v17
  let main_c_6 : IVec S_ 1 := constantI S_ 1 1#1
  let main_v19 : IVec S_ 1 := (fun x v => Host.reduce IntOp.andi x v reducesTo_S800000x3_S_d0_1 h_S_) main_v18 main_c_6
  let main_v20 : IVec S_ 1 := andi main_v13 main_v19
  main_v20

def fn {F : FTy → Type} [FloatOps F] (main_arg0 : IVec S800000x3 32) (main_arg1 : FVec F S5x64 .f32) (main_arg2 : FVec F S6x64 .f32) (main_arg3 : FVec F S2x64 .f32) : IVec S_ 1 :=
  let main_v0 : FVec F S5x64 .f32 := Host.absf main_arg1
  let main_cst : FVec F S_ .f32 := constant S_ .f32 0x7F800000#32
  let main_v1 : FVec F S5x64 .f32 := broadcastInDim S5x64 ![] bcast_S_S5x64 main_cst
  let main_v2 : IVec S5x64 1 := cmpf .olt main_v0 main_v1
  let main_c : IVec S_ 1 := constantI S_ 1 1#1
  let main_v3 : IVec S_ 1 := (fun x v => Host.reduce IntOp.andi x v reducesTo_S5x64_S_d0_1 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S2x64 .f32 := Host.absf main_arg3
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_c_4 : IVec S_ 32 := constantI S_ 32 0#32
  let main_v14 : IVec S800000x3 32 := broadcastInDim S800000x3 ![] bcast_S_S800000x3 main_c_4
  let main_v15 : IVec S800000x3 1 := cmpi .sge main_arg0 main_v14
  let main_c_5 : IVec S_ 32 := constantI S_ 32 1#32
  fn_part1 (F := F) main_arg0 main_v13 main_v15 main_c_5
-- ==== Kernel.lean ====
abbrev S800000x3 : Shape := ⟨2, ![800000, 3]⟩
abbrev S5x64 : Shape := ⟨2, ![5, 64]⟩
abbrev S6x64 : Shape := ⟨2, ![6, 64]⟩
abbrev S2x64 : Shape := ⟨2, ![2, 64]⟩
abbrev S3x800000 : Shape := ⟨2, ![3, 800000]⟩
abbrev S2400000 : Shape := ⟨1, ![2400000]⟩
abbrev S320 : Shape := ⟨1, ![320]⟩
abbrev S384 : Shape := ⟨1, ![384]⟩
abbrev S128 : Shape := ⟨1, ![128]⟩
abbrev S8x6250x8x128 : Shape := ⟨4, ![8, 6250, 8, 128]⟩
abbrev S4096 : Shape := ⟨1, ![4096]⟩
abbrev S2304 : Shape := ⟨1, ![2304]⟩
abbrev S8x6x8x128 : Shape := ⟨4, ![8, 6, 8, 128]⟩
abbrev S_ : Shape := ⟨0, ![]⟩
abbrev S16 : Shape := ⟨1, ![16]⟩
abbrev S768 : Shape := ⟨1, ![768]⟩
abbrev S1x1x1x16 : Shape := ⟨4, ![1, 1, 1, 16]⟩
abbrev S6250x128x8x8 : Shape := ⟨4, ![6250, 128, 8, 8]⟩
abbrev S800000x64 : Shape := ⟨2, ![800000, 64]⟩

abbrev nBuf : Table → Nat
  | .hbm => 12
  | .local .scVector .vmem => 9
  | _ => 0

abbrev bufTy : (tb : Table) → Fin (nBuf tb) → BufTy
  | .hbm, ⟨0, _⟩ => ⟨S800000x3, .i32⟩
  | .hbm, ⟨1, _⟩ => ⟨S5x64, .f32⟩
  | .hbm, ⟨2, _⟩ => ⟨S6x64, .f32⟩
  | .hbm, ⟨3, _⟩ => ⟨S2x64, .f32⟩
  | .hbm, ⟨4, _⟩ => ⟨S3x800000, .i32⟩
  | .hbm, ⟨5, _⟩ => ⟨S2400000, .i32⟩
  | .hbm, ⟨6, _⟩ => ⟨S320, .f32⟩
  | .hbm, ⟨7, _⟩ => ⟨S384, .f32⟩
  | .hbm, ⟨8, _⟩ => ⟨S128, .f32⟩
  | .hbm, ⟨9, _⟩ => ⟨S8x6250x8x128, .f32⟩
  | .hbm, ⟨10, _⟩ => ⟨S6250x128x8x8, .f32⟩
  | .hbm, ⟨11, _⟩ => ⟨S800000x64, .f32⟩
  | .local .scVector .vmem, ⟨0, _⟩ => ⟨S320, .f32⟩
  | .local .scVector .vmem, ⟨1, _⟩ => ⟨S384, .f32⟩
  | .local .scVector .vmem, ⟨2, _⟩ => ⟨S128, .f32⟩
  | .local .scVector .vmem, ⟨3, _⟩ => ⟨S4096, .f32⟩
  | .local .scVector .vmem, ⟨4, _⟩ => ⟨S4096, .f32⟩
  | .local .scVector .vmem, ⟨5, _⟩ => ⟨S2304, .i32⟩
  | .local .scVector .vmem, ⟨6, _⟩ => ⟨S2304, .i32⟩
  | .local .scVector .vmem, ⟨7, _⟩ => ⟨S8x6x8x128, .f32⟩
  | .local .scVector .vmem, ⟨8, _⟩ => ⟨S8x6x8x128, .f32⟩
  | _, _ => ⟨S800000x3, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev main_v5_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v1088 : IVec S16 32) : Prop :=
  (∀ a x, ((![v1088] : Fin 1 → IVec S16 32) a x).toNat < S4096.size a)
instance k0_chk1.dec : ∀ (v1088 : IVec S16 32), Decidable (k0_chk1 v1088) := fun v1088 => decidable_of_iff' _ (Iff.of_eq (k0_chk1.eq_1 v1088))
theorem k0_idx1_inb : ∀ (v1088 : IVec S16 32) (k0_hw1 : k0_chk1 v1088), ∀ a x, ((![v1088] : Fin 1 → IVec S16 32) a x).toNat < S4096.size a := fun v1088 k0_hw1 => k0_hw1

def k0_chk2 (v1096 : IVec S16 32) : Prop :=
  (∀ a x, ((![v1096] : Fin 1 → IVec S16 32) a x).toNat < S4096.size a)
instance k0_chk2.dec : ∀ (v1096 : IVec S16 32), Decidable (k0_chk2 v1096) := fun v1096 => decidable_of_iff' _ (Iff.of_eq (k0_chk2.eq_1 v1096))
theorem k0_idx2_inb : ∀ (v1096 : IVec S16 32) (k0_hw2 : k0_chk2 v1096), ∀ a x, ((![v1096] : Fin 1 → IVec S16 32) a x).toNat < S4096.size a := fun v1096 k0_hw2 => k0_hw2

def k0_chk3 (v1104 : IVec S16 32) : Prop :=
  (∀ a x, ((![v1104] : Fin 1 → IVec S16 32) a x).toNat < S4096.size a)
instance k0_chk3.dec : ∀ (v1104 : IVec S16 32), Decidable (k0_chk3 v1104) := fun v1104 => decidable_of_iff' _ (Iff.of_eq (k0_chk3.eq_1 v1104))
theorem k0_idx3_inb : ∀ (v1104 : IVec S16 32) (k0_hw3 : k0_chk3 v1104), ∀ a x, ((![v1104] : Fin 1 → IVec S16 32) a x).toNat < S4096.size a := fun v1104 k0_hw3 => k0_hw3

def k0_chk4 (v1112 : IVec S16 32) : Prop :=
  (∀ a x, ((![v1112] : Fin 1 → IVec S16 32) a x).toNat < S4096.size a)
instance k0_chk4.dec : ∀ (v1112 : IVec S16 32), Decidable (k0_chk4 v1112) := fun v1112 => decidable_of_iff' _ (Iff.of_eq (k0_chk4.eq_1 v1112))
theorem k0_idx4_inb : ∀ (v1112 : IVec S16 32) (k0_hw4 : k0_chk4 v1112), ∀ a x, ((![v1112] : Fin 1 → IVec S16 32) a x).toNat < S4096.size a := fun v1112 k0_hw4 => k0_hw4

def k0_chk5 (v1120 : IVec S16 32) : Prop :=
  (∀ a x, ((![v1120] : Fin 1 → IVec S16 32) a x).toNat < S4096.size a)
instance k0_chk5.dec : ∀ (v1120 : IVec S16 32), Decidable (k0_chk5 v1120) := fun v1120 => decidable_of_iff' _ (Iff.of_eq (k0_chk5.eq_1 v1120))
theorem k0_idx5_inb : ∀ (v1120 : IVec S16 32) (k0_hw5 : k0_chk5 v1120), ∀ a x, ((![v1120] : Fin 1 → IVec S16 32) a x).toNat < S4096.size a := fun v1120 k0_hw5 => k0_hw5

def k0_chk6 (v1128 : IVec S16 32) : Prop :=
  (∀ a x, ((![v1128] : Fin 1 → IVec S16 32) a x).toNat < S4096.size a)
instance k0_chk6.dec : ∀ (v1128 : IVec S16 32), Decidable (k0_chk6 v1128) := fun v1128 => decidable_of_iff' _ (Iff.of_eq (k0_chk6.eq_1 v1128))
theorem k0_idx6_inb : ∀ (v1128 : IVec S16 32) (k0_hw6 : k0_chk6 v1128), ∀ a x, ((![v1128] : Fin 1 → IVec S16 32) a x).toNat < S4096.size a := fun v1128 k0_hw6 => k0_hw6

def k0_chk7 (v1136 : IVec S16 32) : Prop :=
  (∀ a x, ((![v1136] : Fin 1 → IVec S16 32) a x).toNat < S4096.size a)
instance k0_chk7.dec : ∀ (v1136 : IVec S16 32), Decidable (k0_chk7 v1136) := fun v1136 => decidable_of_iff' _ (Iff.of_eq (k0_chk7.eq_1 v1136))
theorem k0_idx7_inb : ∀ (v1136 : IVec S16 32) (k0_hw7 : k0_chk7 v1136), ∀ a x, ((![v1136] : Fin 1 → IVec S16 32) a x).toNat < S4096.size a := fun v1136 k0_hw7 => k0_hw7

def k0_chk8 (v1144 : IVec S16 32) : Prop :=
  (∀ a x, ((![v1144] : Fin 1 → IVec S16 32) a x).toNat < S4096.size a)
instance k0_chk8.dec : ∀ (v1144 : IVec S16 32), Decidable (k0_chk8 v1144) := fun v1144 => decidable_of_iff' _ (Iff.of_eq (k0_chk8.eq_1 v1144))
theorem k0_idx8_inb : ∀ (v1144 : IVec S16 32) (k0_hw8 : k0_chk8 v1144), ∀ a x, ((![v1144] : Fin 1 → IVec S16 32) a x).toNat < S4096.size a := fun v1144 k0_hw8 => k0_hw8

def k0_chk9 (v1152 : IVec S16 32) : Prop :=
  (∀ a x, ((![v1152] : Fin 1 → IVec S16 32) a x).toNat < S4096.size a)
instance k0_chk9.dec : ∀ (v1152 : IVec S16 32), Decidable (k0_chk9 v1152) := fun v1152 => decidable_of_iff' _ (Iff.of_eq (k0_chk9.eq_1 v1152))
theorem k0_idx9_inb : ∀ (v1152 : IVec S16 32) (k0_hw9 : k0_chk9 v1152), ∀ a x, ((![v1152] : Fin 1 → IVec S16 32) a x).toNat < S4096.size a := fun v1152 k0_hw9 => k0_hw9

def k0_chk10 (v1160 : IVec S16 32) : Prop :=
  (∀ a x, ((![v1160] : Fin 1 → IVec S16 32) a x).toNat < S4096.size a)
instance k0_chk10.dec : ∀ (v1160 : IVec S16 32), Decidable (k0_chk10 v1160) := fun v1160 => decidable_of_iff' _ (Iff.of_eq (k0_chk10.eq_1 v1160))
theorem k0_idx10_inb : ∀ (v1160 : IVec S16 32) (k0_hw10 : k0_chk10 v1160), ∀ a x, ((![v1160] : Fin 1 → IVec S16 32) a x).toNat < S4096.size a := fun v1160 k0_hw10 => k0_hw10

def k0_chk11 (v1168 : IVec S16 32) : Prop :=
  (∀ a x, ((![v1168] : Fin 1 → IVec S16 32) a x).toNat < S4096.size a)
instance k0_chk11.dec : ∀ (v1168 : IVec S16 32), Decidable (k0_chk11 v1168) := fun v1168 => decidable_of_iff' _ (Iff.of_eq (k0_chk11.eq_1 v1168))
theorem k0_idx11_inb : ∀ (v1168 : IVec S16 32) (k0_hw11 : k0_chk11 v1168), ∀ a x, ((![v1168] : Fin 1 → IVec S16 32) a x).toNat < S4096.size a := fun v1168 k0_hw11 => k0_hw11

def k0_chk12 (v1176 : IVec S16 32) : Prop :=
  (∀ a x, ((![v1176] : Fin 1 → IVec S16 32) a x).toNat < S4096.size a)
instance k0_chk12.dec : ∀ (v1176 : IVec S16 32), Decidable (k0_chk12 v1176) := fun v1176 => decidable_of_iff' _ (Iff.of_eq (k0_chk12.eq_1 v1176))
theorem k0_idx12_inb : ∀ (v1176 : IVec S16 32) (k0_hw12 : k0_chk12 v1176), ∀ a x, ((![v1176] : Fin 1 → IVec S16 32) a x).toNat < S4096.size a := fun v1176 k0_hw12 => k0_hw12

def k0_chk13 (v1184 : IVec S16 32) : Prop :=
  (∀ a x, ((![v1184] : Fin 1 → IVec S16 32) a x).toNat < S4096.size a)
instance k0_chk13.dec : ∀ (v1184 : IVec S16 32), Decidable (k0_chk13 v1184) := fun v1184 => decidable_of_iff' _ (Iff.of_eq (k0_chk13.eq_1 v1184))
theorem k0_idx13_inb : ∀ (v1184 : IVec S16 32) (k0_hw13 : k0_chk13 v1184), ∀ a x, ((![v1184] : Fin 1 → IVec S16 32) a x).toNat < S4096.size a := fun v1184 k0_hw13 => k0_hw13

def k0_chk14 (v1192 : IVec S16 32) : Prop :=
  (∀ a x, ((![v1192] : Fin 1 → IVec S16 32) a x).toNat < S4096.size a)
instance k0_chk14.dec : ∀ (v1192 : IVec S16 32), Decidable (k0_chk14 v1192) := fun v1192 => decidable_of_iff' _ (Iff.of_eq (k0_chk14.eq_1 v1192))
theorem k0_idx14_inb : ∀ (v1192 : IVec S16 32) (k0_hw14 : k0_chk14 v1192), ∀ a x, ((![v1192] : Fin 1 → IVec S16 32) a x).toNat < S4096.size a := fun v1192 k0_hw14 => k0_hw14

def k0_chk15 (v1200 : IVec S16 32) : Prop :=
  (∀ a x, ((![v1200] : Fin 1 → IVec S16 32) a x).toNat < S4096.size a)
instance k0_chk15.dec : ∀ (v1200 : IVec S16 32), Decidable (k0_chk15 v1200) := fun v1200 => decidable_of_iff' _ (Iff.of_eq (k0_chk15.eq_1 v1200))
theorem k0_idx15_inb : ∀ (v1200 : IVec S16 32) (k0_hw15 : k0_chk15 v1200), ∀ a x, ((![v1200] : Fin 1 → IVec S16 32) a x).toNat < S4096.size a := fun v1200 k0_hw15 => k0_hw15

def k0_chk16 (v1208 : IVec S16 32) : Prop :=
  (∀ a x, ((![v1208] : Fin 1 → IVec S16 32) a x).toNat < S4096.size a)
instance k0_chk16.dec : ∀ (v1208 : IVec S16 32), Decidable (k0_chk16 v1208) := fun v1208 => decidable_of_iff' _ (Iff.of_eq (k0_chk16.eq_1 v1208))
theorem k0_idx16_inb : ∀ (v1208 : IVec S16 32) (k0_hw16 : k0_chk16 v1208), ∀ a x, ((![v1208] : Fin 1 → IVec S16 32) a x).toNat < S4096.size a := fun v1208 k0_hw16 => k0_hw16

def k0_chk17 (v1216 : IVec S16 32) : Prop :=
  (∀ a x, ((![v1216] : Fin 1 → IVec S16 32) a x).toNat < S4096.size a)
instance k0_chk17.dec : ∀ (v1216 : IVec S16 32), Decidable (k0_chk17 v1216) := fun v1216 => decidable_of_iff' _ (Iff.of_eq (k0_chk17.eq_1 v1216))
theorem k0_idx17_inb : ∀ (v1216 : IVec S16 32) (k0_hw17 : k0_chk17 v1216), ∀ a x, ((![v1216] : Fin 1 → IVec S16 32) a x).toNat < S4096.size a := fun v1216 k0_hw17 => k0_hw17

def k0_chk18 (v1224 : IVec S16 32) : Prop :=
  (∀ a x, ((![v1224] : Fin 1 → IVec S16 32) a x).toNat < S4096.size a)
instance k0_chk18.dec : ∀ (v1224 : IVec S16 32), Decidable (k0_chk18 v1224) := fun v1224 => decidable_of_iff' _ (Iff.of_eq (k0_chk18.eq_1 v1224))
theorem k0_idx18_inb : ∀ (v1224 : IVec S16 32) (k0_hw18 : k0_chk18 v1224), ∀ a x, ((![v1224] : Fin 1 → IVec S16 32) a x).toNat < S4096.size a := fun v1224 k0_hw18 => k0_hw18

def k0_chk19 (v1232 : IVec S16 32) : Prop :=
  (∀ a x, ((![v1232] : Fin 1 → IVec S16 32) a x).toNat < S4096.size a)
instance k0_chk19.dec : ∀ (v1232 : IVec S16 32), Decidable (k0_chk19 v1232) := fun v1232 => decidable_of_iff' _ (Iff.of_eq (k0_chk19.eq_1 v1232))
theorem k0_idx19_inb : ∀ (v1232 : IVec S16 32) (k0_hw19 : k0_chk19 v1232), ∀ a x, ((![v1232] : Fin 1 → IVec S16 32) a x).toNat < S4096.size a := fun v1232 k0_hw19 => k0_hw19

def k0_chk20 (v1240 : IVec S16 32) : Prop :=
  (∀ a x, ((![v1240] : Fin 1 → IVec S16 32) a x).toNat < S4096.size a)
instance k0_chk20.dec : ∀ (v1240 : IVec S16 32), Decidable (k0_chk20 v1240) := fun v1240 => decidable_of_iff' _ (Iff.of_eq (k0_chk20.eq_1 v1240))
theorem k0_idx20_inb : ∀ (v1240 : IVec S16 32) (k0_hw20 : k0_chk20 v1240), ∀ a x, ((![v1240] : Fin 1 → IVec S16 32) a x).toNat < S4096.size a := fun v1240 k0_hw20 => k0_hw20

def k0_chk21 (v1248 : IVec S16 32) : Prop :=
  (∀ a x, ((![v1248] : Fin 1 → IVec S16 32) a x).toNat < S4096.size a)
instance k0_chk21.dec : ∀ (v1248 : IVec S16 32), Decidable (k0_chk21 v1248) := fun v1248 => decidable_of_iff' _ (Iff.of_eq (k0_chk21.eq_1 v1248))
theorem k0_idx21_inb : ∀ (v1248 : IVec S16 32) (k0_hw21 : k0_chk21 v1248), ∀ a x, ((![v1248] : Fin 1 → IVec S16 32) a x).toNat < S4096.size a := fun v1248 k0_hw21 => k0_hw21

def k0_chk22 (v1256 : IVec S16 32) : Prop :=
  (∀ a x, ((![v1256] : Fin 1 → IVec S16 32) a x).toNat < S4096.size a)
instance k0_chk22.dec : ∀ (v1256 : IVec S16 32), Decidable (k0_chk22 v1256) := fun v1256 => decidable_of_iff' _ (Iff.of_eq (k0_chk22.eq_1 v1256))
theorem k0_idx22_inb : ∀ (v1256 : IVec S16 32) (k0_hw22 : k0_chk22 v1256), ∀ a x, ((![v1256] : Fin 1 → IVec S16 32) a x).toNat < S4096.size a := fun v1256 k0_hw22 => k0_hw22

def k0_chk23 (v1264 : IVec S16 32) : Prop :=
  (∀ a x, ((![v1264] : Fin 1 → IVec S16 32) a x).toNat < S4096.size a)
instance k0_chk23.dec : ∀ (v1264 : IVec S16 32), Decidable (k0_chk23 v1264) := fun v1264 => decidable_of_iff' _ (Iff.of_eq (k0_chk23.eq_1 v1264))
theorem k0_idx23_inb : ∀ (v1264 : IVec S16 32) (k0_hw23 : k0_chk23 v1264), ∀ a x, ((![v1264] : Fin 1 → IVec S16 32) a x).toNat < S4096.size a := fun v1264 k0_hw23 => k0_hw23

def k0_chk24 (v1272 : IVec S16 32) : Prop :=
  (∀ a x, ((![v1272] : Fin 1 → IVec S16 32) a x).toNat < S4096.size a)
instance k0_chk24.dec : ∀ (v1272 : IVec S16 32), Decidable (k0_chk24 v1272) := fun v1272 => decidable_of_iff' _ (Iff.of_eq (k0_chk24.eq_1 v1272))
theorem k0_idx24_inb : ∀ (v1272 : IVec S16 32) (k0_hw24 : k0_chk24 v1272), ∀ a x, ((![v1272] : Fin 1 → IVec S16 32) a x).toNat < S4096.size a := fun v1272 k0_hw24 => k0_hw24

def k0_chk25 (v1280 : IVec S16 32) : Prop :=
  (∀ a x, ((![v1280] : Fin 1 → IVec S16 32) a x).toNat < S4096.size a)
instance k0_chk25.dec : ∀ (v1280 : IVec S16 32), Decidable (k0_chk25 v1280) := fun v1280 => decidable_of_iff' _ (Iff.of_eq (k0_chk25.eq_1 v1280))
theorem k0_idx25_inb : ∀ (v1280 : IVec S16 32) (k0_hw25 : k0_chk25 v1280), ∀ a x, ((![v1280] : Fin 1 → IVec S16 32) a x).toNat < S4096.size a := fun v1280 k0_hw25 => k0_hw25

def k0_chk26 (v1288 : IVec S16 32) : Prop :=
  (∀ a x, ((![v1288] : Fin 1 → IVec S16 32) a x).toNat < S4096.size a)
instance k0_chk26.dec : ∀ (v1288 : IVec S16 32), Decidable (k0_chk26 v1288) := fun v1288 => decidable_of_iff' _ (Iff.of_eq (k0_chk26.eq_1 v1288))
theorem k0_idx26_inb : ∀ (v1288 : IVec S16 32) (k0_hw26 : k0_chk26 v1288), ∀ a x, ((![v1288] : Fin 1 → IVec S16 32) a x).toNat < S4096.size a := fun v1288 k0_hw26 => k0_hw26

def k0_chk27 (v1296 : IVec S16 32) : Prop :=
  (∀ a x, ((![v1296] : Fin 1 → IVec S16 32) a x).toNat < S4096.size a)
instance k0_chk27.dec : ∀ (v1296 : IVec S16 32), Decidable (k0_chk27 v1296) := fun v1296 => decidable_of_iff' _ (Iff.of_eq (k0_chk27.eq_1 v1296))
theorem k0_idx27_inb : ∀ (v1296 : IVec S16 32) (k0_hw27 : k0_chk27 v1296), ∀ a x, ((![v1296] : Fin 1 → IVec S16 32) a x).toNat < S4096.size a := fun v1296 k0_hw27 => k0_hw27

def k0_chk28 (v1304 : IVec S16 32) : Prop :=
  (∀ a x, ((![v1304] : Fin 1 → IVec S16 32) a x).toNat < S4096.size a)
instance k0_chk28.dec : ∀ (v1304 : IVec S16 32), Decidable (k0_chk28 v1304) := fun v1304 => decidable_of_iff' _ (Iff.of_eq (k0_chk28.eq_1 v1304))
theorem k0_idx28_inb : ∀ (v1304 : IVec S16 32) (k0_hw28 : k0_chk28 v1304), ∀ a x, ((![v1304] : Fin 1 → IVec S16 32) a x).toNat < S4096.size a := fun v1304 k0_hw28 => k0_hw28

def k0_chk29 (v1312 : IVec S16 32) : Prop :=
  (∀ a x, ((![v1312] : Fin 1 → IVec S16 32) a x).toNat < S4096.size a)
instance k0_chk29.dec : ∀ (v1312 : IVec S16 32), Decidable (k0_chk29 v1312) := fun v1312 => decidable_of_iff' _ (Iff.of_eq (k0_chk29.eq_1 v1312))
theorem k0_idx29_inb : ∀ (v1312 : IVec S16 32) (k0_hw29 : k0_chk29 v1312), ∀ a x, ((![v1312] : Fin 1 → IVec S16 32) a x).toNat < S4096.size a := fun v1312 k0_hw29 => k0_hw29

def k0_chk30 (v1320 : IVec S16 32) : Prop :=
  (∀ a x, ((![v1320] : Fin 1 → IVec S16 32) a x).toNat < S4096.size a)
instance k0_chk30.dec : ∀ (v1320 : IVec S16 32), Decidable (k0_chk30 v1320) := fun v1320 => decidable_of_iff' _ (Iff.of_eq (k0_chk30.eq_1 v1320))
theorem k0_idx30_inb : ∀ (v1320 : IVec S16 32) (k0_hw30 : k0_chk30 v1320), ∀ a x, ((![v1320] : Fin 1 → IVec S16 32) a x).toNat < S4096.size a := fun v1320 k0_hw30 => k0_hw30

def k0_chk31 (v1328 : IVec S16 32) : Prop :=
  (∀ a x, ((![v1328] : Fin 1 → IVec S16 32) a x).toNat < S4096.size a)
instance k0_chk31.dec : ∀ (v1328 : IVec S16 32), Decidable (k0_chk31 v1328) := fun v1328 => decidable_of_iff' _ (Iff.of_eq (k0_chk31.eq_1 v1328))
theorem k0_idx31_inb : ∀ (v1328 : IVec S16 32) (k0_hw31 : k0_chk31 v1328), ∀ a x, ((![v1328] : Fin 1 → IVec S16 32) a x).toNat < S4096.size a := fun v1328 k0_hw31 => k0_hw31

def k0_chk32 (v1336 : IVec S16 32) : Prop :=
  (∀ a x, ((![v1336] : Fin 1 → IVec S16 32) a x).toNat < S4096.size a)
instance k0_chk32.dec : ∀ (v1336 : IVec S16 32), Decidable (k0_chk32 v1336) := fun v1336 => decidable_of_iff' _ (Iff.of_eq (k0_chk32.eq_1 v1336))
theorem k0_idx32_inb : ∀ (v1336 : IVec S16 32) (k0_hw32 : k0_chk32 v1336), ∀ a x, ((![v1336] : Fin 1 → IVec S16 32) a x).toNat < S4096.size a := fun v1336 k0_hw32 => k0_hw32

def k0_chk33 (v1344 : IVec S16 32) : Prop :=
  (∀ a x, ((![v1344] : Fin 1 → IVec S16 32) a x).toNat < S4096.size a)
instance k0_chk33.dec : ∀ (v1344 : IVec S16 32), Decidable (k0_chk33 v1344) := fun v1344 => decidable_of_iff' _ (Iff.of_eq (k0_chk33.eq_1 v1344))
theorem k0_idx33_inb : ∀ (v1344 : IVec S16 32) (k0_hw33 : k0_chk33 v1344), ∀ a x, ((![v1344] : Fin 1 → IVec S16 32) a x).toNat < S4096.size a := fun v1344 k0_hw33 => k0_hw33

def k0_chk34 (v1352 : IVec S16 32) : Prop :=
  (∀ a x, ((![v1352] : Fin 1 → IVec S16 32) a x).toNat < S4096.size a)
instance k0_chk34.dec : ∀ (v1352 : IVec S16 32), Decidable (k0_chk34 v1352) := fun v1352 => decidable_of_iff' _ (Iff.of_eq (k0_chk34.eq_1 v1352))
theorem k0_idx34_inb : ∀ (v1352 : IVec S16 32) (k0_hw34 : k0_chk34 v1352), ∀ a x, ((![v1352] : Fin 1 → IVec S16 32) a x).toNat < S4096.size a := fun v1352 k0_hw34 => k0_hw34

def k0_chk35 (v1360 : IVec S16 32) : Prop :=
  (∀ a x, ((![v1360] : Fin 1 → IVec S16 32) a x).toNat < S4096.size a)
instance k0_chk35.dec : ∀ (v1360 : IVec S16 32), Decidable (k0_chk35 v1360) := fun v1360 => decidable_of_iff' _ (Iff.of_eq (k0_chk35.eq_1 v1360))
theorem k0_idx35_inb : ∀ (v1360 : IVec S16 32) (k0_hw35 : k0_chk35 v1360), ∀ a x, ((![v1360] : Fin 1 → IVec S16 32) a x).toNat < S4096.size a := fun v1360 k0_hw35 => k0_hw35

def k0_chk36 (v1368 : IVec S16 32) : Prop :=
  (∀ a x, ((![v1368] : Fin 1 → IVec S16 32) a x).toNat < S4096.size a)
instance k0_chk36.dec : ∀ (v1368 : IVec S16 32), Decidable (k0_chk36 v1368) := fun v1368 => decidable_of_iff' _ (Iff.of_eq (k0_chk36.eq_1 v1368))
theorem k0_idx36_inb : ∀ (v1368 : IVec S16 32) (k0_hw36 : k0_chk36 v1368), ∀ a x, ((![v1368] : Fin 1 → IVec S16 32) a x).toNat < S4096.size a := fun v1368 k0_hw36 => k0_hw36

def k0_chk37 (v1376 : IVec S16 32) : Prop :=
  (∀ a x, ((![v1376] : Fin 1 → IVec S16 32) a x).toNat < S4096.size a)
instance k0_chk37.dec : ∀ (v1376 : IVec S16 32), Decidable (k0_chk37 v1376) := fun v1376 => decidable_of_iff' _ (Iff.of_eq (k0_chk37.eq_1 v1376))
theorem k0_idx37_inb : ∀ (v1376 : IVec S16 32) (k0_hw37 : k0_chk37 v1376), ∀ a x, ((![v1376] : Fin 1 → IVec S16 32) a x).toNat < S4096.size a := fun v1376 k0_hw37 => k0_hw37

def k0_chk38 (v1384 : IVec S16 32) : Prop :=
  (∀ a x, ((![v1384] : Fin 1 → IVec S16 32) a x).toNat < S4096.size a)
instance k0_chk38.dec : ∀ (v1384 : IVec S16 32), Decidable (k0_chk38 v1384) := fun v1384 => decidable_of_iff' _ (Iff.of_eq (k0_chk38.eq_1 v1384))
theorem k0_idx38_inb : ∀ (v1384 : IVec S16 32) (k0_hw38 : k0_chk38 v1384), ∀ a x, ((![v1384] : Fin 1 → IVec S16 32) a x).toNat < S4096.size a := fun v1384 k0_hw38 => k0_hw38

def k0_chk39 (v1392 : IVec S16 32) : Prop :=
  (∀ a x, ((![v1392] : Fin 1 → IVec S16 32) a x).toNat < S4096.size a)
instance k0_chk39.dec : ∀ (v1392 : IVec S16 32), Decidable (k0_chk39 v1392) := fun v1392 => decidable_of_iff' _ (Iff.of_eq (k0_chk39.eq_1 v1392))
theorem k0_idx39_inb : ∀ (v1392 : IVec S16 32) (k0_hw39 : k0_chk39 v1392), ∀ a x, ((![v1392] : Fin 1 → IVec S16 32) a x).toNat < S4096.size a := fun v1392 k0_hw39 => k0_hw39

def k0_chk40 (v1400 : IVec S16 32) : Prop :=
  (∀ a x, ((![v1400] : Fin 1 → IVec S16 32) a x).toNat < S4096.size a)
instance k0_chk40.dec : ∀ (v1400 : IVec S16 32), Decidable (k0_chk40 v1400) := fun v1400 => decidable_of_iff' _ (Iff.of_eq (k0_chk40.eq_1 v1400))
theorem k0_idx40_inb : ∀ (v1400 : IVec S16 32) (k0_hw40 : k0_chk40 v1400), ∀ a x, ((![v1400] : Fin 1 → IVec S16 32) a x).toNat < S4096.size a := fun v1400 k0_hw40 => k0_hw40

def k0_chk41 (v1408 : IVec S16 32) : Prop :=
  (∀ a x, ((![v1408] : Fin 1 → IVec S16 32) a x).toNat < S4096.size a)
instance k0_chk41.dec : ∀ (v1408 : IVec S16 32), Decidable (k0_chk41 v1408) := fun v1408 => decidable_of_iff' _ (Iff.of_eq (k0_chk41.eq_1 v1408))
theorem k0_idx41_inb : ∀ (v1408 : IVec S16 32) (k0_hw41 : k0_chk41 v1408), ∀ a x, ((![v1408] : Fin 1 → IVec S16 32) a x).toNat < S4096.size a := fun v1408 k0_hw41 => k0_hw41

def k0_chk42 (v1416 : IVec S16 32) : Prop :=
  (∀ a x, ((![v1416] : Fin 1 → IVec S16 32) a x).toNat < S4096.size a)
instance k0_chk42.dec : ∀ (v1416 : IVec S16 32), Decidable (k0_chk42 v1416) := fun v1416 => decidable_of_iff' _ (Iff.of_eq (k0_chk42.eq_1 v1416))
theorem k0_idx42_inb : ∀ (v1416 : IVec S16 32) (k0_hw42 : k0_chk42 v1416), ∀ a x, ((![v1416] : Fin 1 → IVec S16 32) a x).toNat < S4096.size a := fun v1416 k0_hw42 => k0_hw42

def k0_chk43 (v1424 : IVec S16 32) : Prop :=
  (∀ a x, ((![v1424] : Fin 1 → IVec S16 32) a x).toNat < S4096.size a)
instance k0_chk43.dec : ∀ (v1424 : IVec S16 32), Decidable (k0_chk43 v1424) := fun v1424 => decidable_of_iff' _ (Iff.of_eq (k0_chk43.eq_1 v1424))
theorem k0_idx43_inb : ∀ (v1424 : IVec S16 32) (k0_hw43 : k0_chk43 v1424), ∀ a x, ((![v1424] : Fin 1 → IVec S16 32) a x).toNat < S4096.size a := fun v1424 k0_hw43 => k0_hw43

def k0_chk44 (v1432 : IVec S16 32) : Prop :=
  (∀ a x, ((![v1432] : Fin 1 → IVec S16 32) a x).toNat < S4096.size a)
instance k0_chk44.dec : ∀ (v1432 : IVec S16 32), Decidable (k0_chk44 v1432) := fun v1432 => decidable_of_iff' _ (Iff.of_eq (k0_chk44.eq_1 v1432))
theorem k0_idx44_inb : ∀ (v1432 : IVec S16 32) (k0_hw44 : k0_chk44 v1432), ∀ a x, ((![v1432] : Fin 1 → IVec S16 32) a x).toNat < S4096.size a := fun v1432 k0_hw44 => k0_hw44

def k0_chk45 (v1440 : IVec S16 32) : Prop :=
  (∀ a x, ((![v1440] : Fin 1 → IVec S16 32) a x).toNat < S4096.size a)
instance k0_chk45.dec : ∀ (v1440 : IVec S16 32), Decidable (k0_chk45 v1440) := fun v1440 => decidable_of_iff' _ (Iff.of_eq (k0_chk45.eq_1 v1440))
theorem k0_idx45_inb : ∀ (v1440 : IVec S16 32) (k0_hw45 : k0_chk45 v1440), ∀ a x, ((![v1440] : Fin 1 → IVec S16 32) a x).toNat < S4096.size a := fun v1440 k0_hw45 => k0_hw45

def k0_chk46 (v1448 : IVec S16 32) : Prop :=
  (∀ a x, ((![v1448] : Fin 1 → IVec S16 32) a x).toNat < S4096.size a)
instance k0_chk46.dec : ∀ (v1448 : IVec S16 32), Decidable (k0_chk46 v1448) := fun v1448 => decidable_of_iff' _ (Iff.of_eq (k0_chk46.eq_1 v1448))
theorem k0_idx46_inb : ∀ (v1448 : IVec S16 32) (k0_hw46 : k0_chk46 v1448), ∀ a x, ((![v1448] : Fin 1 → IVec S16 32) a x).toNat < S4096.size a := fun v1448 k0_hw46 => k0_hw46

def k0_chk47 (v1456 : IVec S16 32) : Prop :=
  (∀ a x, ((![v1456] : Fin 1 → IVec S16 32) a x).toNat < S4096.size a)
instance k0_chk47.dec : ∀ (v1456 : IVec S16 32), Decidable (k0_chk47 v1456) := fun v1456 => decidable_of_iff' _ (Iff.of_eq (k0_chk47.eq_1 v1456))
theorem k0_idx47_inb : ∀ (v1456 : IVec S16 32) (k0_hw47 : k0_chk47 v1456), ∀ a x, ((![v1456] : Fin 1 → IVec S16 32) a x).toNat < S4096.size a := fun v1456 k0_hw47 => k0_hw47

def k0_chk48 (v1464 : IVec S16 32) : Prop :=
  (∀ a x, ((![v1464] : Fin 1 → IVec S16 32) a x).toNat < S4096.size a)
instance k0_chk48.dec : ∀ (v1464 : IVec S16 32), Decidable (k0_chk48 v1464) := fun v1464 => decidable_of_iff' _ (Iff.of_eq (k0_chk48.eq_1 v1464))
theorem k0_idx48_inb : ∀ (v1464 : IVec S16 32) (k0_hw48 : k0_chk48 v1464), ∀ a x, ((![v1464] : Fin 1 → IVec S16 32) a x).toNat < S4096.size a := fun v1464 k0_hw48 => k0_hw48

def k0_chk49 (v1472 : IVec S16 32) : Prop :=
  (∀ a x, ((![v1472] : Fin 1 → IVec S16 32) a x).toNat < S4096.size a)
instance k0_chk49.dec : ∀ (v1472 : IVec S16 32), Decidable (k0_chk49 v1472) := fun v1472 => decidable_of_iff' _ (Iff.of_eq (k0_chk49.eq_1 v1472))
theorem k0_idx49_inb : ∀ (v1472 : IVec S16 32) (k0_hw49 : k0_chk49 v1472), ∀ a x, ((![v1472] : Fin 1 → IVec S16 32) a x).toNat < S4096.size a := fun v1472 k0_hw49 => k0_hw49

def k0_chk50 (v1480 : IVec S16 32) : Prop :=
  (∀ a x, ((![v1480] : Fin 1 → IVec S16 32) a x).toNat < S4096.size a)
instance k0_chk50.dec : ∀ (v1480 : IVec S16 32), Decidable (k0_chk50 v1480) := fun v1480 => decidable_of_iff' _ (Iff.of_eq (k0_chk50.eq_1 v1480))
theorem k0_idx50_inb : ∀ (v1480 : IVec S16 32) (k0_hw50 : k0_chk50 v1480), ∀ a x, ((![v1480] : Fin 1 → IVec S16 32) a x).toNat < S4096.size a := fun v1480 k0_hw50 => k0_hw50

def k0_chk51 (v1488 : IVec S16 32) : Prop :=
  (∀ a x, ((![v1488] : Fin 1 → IVec S16 32) a x).toNat < S4096.size a)
instance k0_chk51.dec : ∀ (v1488 : IVec S16 32), Decidable (k0_chk51 v1488) := fun v1488 => decidable_of_iff' _ (Iff.of_eq (k0_chk51.eq_1 v1488))
theorem k0_idx51_inb : ∀ (v1488 : IVec S16 32) (k0_hw51 : k0_chk51 v1488), ∀ a x, ((![v1488] : Fin 1 → IVec S16 32) a x).toNat < S4096.size a := fun v1488 k0_hw51 => k0_hw51

def k0_chk52 (v1496 : IVec S16 32) : Prop :=
  (∀ a x, ((![v1496] : Fin 1 → IVec S16 32) a x).toNat < S4096.size a)
instance k0_chk52.dec : ∀ (v1496 : IVec S16 32), Decidable (k0_chk52 v1496) := fun v1496 => decidable_of_iff' _ (Iff.of_eq (k0_chk52.eq_1 v1496))
theorem k0_idx52_inb : ∀ (v1496 : IVec S16 32) (k0_hw52 : k0_chk52 v1496), ∀ a x, ((![v1496] : Fin 1 → IVec S16 32) a x).toNat < S4096.size a := fun v1496 k0_hw52 => k0_hw52

def k0_chk53 (v1504 : IVec S16 32) : Prop :=
  (∀ a x, ((![v1504] : Fin 1 → IVec S16 32) a x).toNat < S4096.size a)
instance k0_chk53.dec : ∀ (v1504 : IVec S16 32), Decidable (k0_chk53 v1504) := fun v1504 => decidable_of_iff' _ (Iff.of_eq (k0_chk53.eq_1 v1504))
theorem k0_idx53_inb : ∀ (v1504 : IVec S16 32) (k0_hw53 : k0_chk53 v1504), ∀ a x, ((![v1504] : Fin 1 → IVec S16 32) a x).toNat < S4096.size a := fun v1504 k0_hw53 => k0_hw53

def k0_chk54 (v1512 : IVec S16 32) : Prop :=
  (∀ a x, ((![v1512] : Fin 1 → IVec S16 32) a x).toNat < S4096.size a)
instance k0_chk54.dec : ∀ (v1512 : IVec S16 32), Decidable (k0_chk54 v1512) := fun v1512 => decidable_of_iff' _ (Iff.of_eq (k0_chk54.eq_1 v1512))
theorem k0_idx54_inb : ∀ (v1512 : IVec S16 32) (k0_hw54 : k0_chk54 v1512), ∀ a x, ((![v1512] : Fin 1 → IVec S16 32) a x).toNat < S4096.size a := fun v1512 k0_hw54 => k0_hw54

def k0_chk55 (v1520 : IVec S16 32) : Prop :=
  (∀ a x, ((![v1520] : Fin 1 → IVec S16 32) a x).toNat < S4096.size a)
instance k0_chk55.dec : ∀ (v1520 : IVec S16 32), Decidable (k0_chk55 v1520) := fun v1520 => decidable_of_iff' _ (Iff.of_eq (k0_chk55.eq_1 v1520))
theorem k0_idx55_inb : ∀ (v1520 : IVec S16 32) (k0_hw55 : k0_chk55 v1520), ∀ a x, ((![v1520] : Fin 1 → IVec S16 32) a x).toNat < S4096.size a := fun v1520 k0_hw55 => k0_hw55

def k0_chk56 (v1528 : IVec S16 32) : Prop :=
  (∀ a x, ((![v1528] : Fin 1 → IVec S16 32) a x).toNat < S4096.size a)
instance k0_chk56.dec : ∀ (v1528 : IVec S16 32), Decidable (k0_chk56 v1528) := fun v1528 => decidable_of_iff' _ (Iff.of_eq (k0_chk56.eq_1 v1528))
theorem k0_idx56_inb : ∀ (v1528 : IVec S16 32) (k0_hw56 : k0_chk56 v1528), ∀ a x, ((![v1528] : Fin 1 → IVec S16 32) a x).toNat < S4096.size a := fun v1528 k0_hw56 => k0_hw56

def k0_chk57 (v1536 : IVec S16 32) : Prop :=
  (∀ a x, ((![v1536] : Fin 1 → IVec S16 32) a x).toNat < S4096.size a)
instance k0_chk57.dec : ∀ (v1536 : IVec S16 32), Decidable (k0_chk57 v1536) := fun v1536 => decidable_of_iff' _ (Iff.of_eq (k0_chk57.eq_1 v1536))
theorem k0_idx57_inb : ∀ (v1536 : IVec S16 32) (k0_hw57 : k0_chk57 v1536), ∀ a x, ((![v1536] : Fin 1 → IVec S16 32) a x).toNat < S4096.size a := fun v1536 k0_hw57 => k0_hw57

def k0_chk58 (v1544 : IVec S16 32) : Prop :=
  (∀ a x, ((![v1544] : Fin 1 → IVec S16 32) a x).toNat < S4096.size a)
instance k0_chk58.dec : ∀ (v1544 : IVec S16 32), Decidable (k0_chk58 v1544) := fun v1544 => decidable_of_iff' _ (Iff.of_eq (k0_chk58.eq_1 v1544))
theorem k0_idx58_inb : ∀ (v1544 : IVec S16 32) (k0_hw58 : k0_chk58 v1544), ∀ a x, ((![v1544] : Fin 1 → IVec S16 32) a x).toNat < S4096.size a := fun v1544 k0_hw58 => k0_hw58

def k0_chk59 (v1552 : IVec S16 32) : Prop :=
  (∀ a x, ((![v1552] : Fin 1 → IVec S16 32) a x).toNat < S4096.size a)
instance k0_chk59.dec : ∀ (v1552 : IVec S16 32), Decidable (k0_chk59 v1552) := fun v1552 => decidable_of_iff' _ (Iff.of_eq (k0_chk59.eq_1 v1552))
theorem k0_idx59_inb : ∀ (v1552 : IVec S16 32) (k0_hw59 : k0_chk59 v1552), ∀ a x, ((![v1552] : Fin 1 → IVec S16 32) a x).toNat < S4096.size a := fun v1552 k0_hw59 => k0_hw59

def k0_chk60 (v1560 : IVec S16 32) : Prop :=
  (∀ a x, ((![v1560] : Fin 1 → IVec S16 32) a x).toNat < S4096.size a)
instance k0_chk60.dec : ∀ (v1560 : IVec S16 32), Decidable (k0_chk60 v1560) := fun v1560 => decidable_of_iff' _ (Iff.of_eq (k0_chk60.eq_1 v1560))
theorem k0_idx60_inb : ∀ (v1560 : IVec S16 32) (k0_hw60 : k0_chk60 v1560), ∀ a x, ((![v1560] : Fin 1 → IVec S16 32) a x).toNat < S4096.size a := fun v1560 k0_hw60 => k0_hw60

def k0_chk61 (v1568 : IVec S16 32) : Prop :=
  (∀ a x, ((![v1568] : Fin 1 → IVec S16 32) a x).toNat < S4096.size a)
instance k0_chk61.dec : ∀ (v1568 : IVec S16 32), Decidable (k0_chk61 v1568) := fun v1568 => decidable_of_iff' _ (Iff.of_eq (k0_chk61.eq_1 v1568))
theorem k0_idx61_inb : ∀ (v1568 : IVec S16 32) (k0_hw61 : k0_chk61 v1568), ∀ a x, ((![v1568] : Fin 1 → IVec S16 32) a x).toNat < S4096.size a := fun v1568 k0_hw61 => k0_hw61

def k0_chk62 (v1576 : IVec S16 32) : Prop :=
  (∀ a x, ((![v1576] : Fin 1 → IVec S16 32) a x).toNat < S4096.size a)
instance k0_chk62.dec : ∀ (v1576 : IVec S16 32), Decidable (k0_chk62 v1576) := fun v1576 => decidable_of_iff' _ (Iff.of_eq (k0_chk62.eq_1 v1576))
theorem k0_idx62_inb : ∀ (v1576 : IVec S16 32) (k0_hw62 : k0_chk62 v1576), ∀ a x, ((![v1576] : Fin 1 → IVec S16 32) a x).toNat < S4096.size a := fun v1576 k0_hw62 => k0_hw62

def k0_chk63 (v1584 : IVec S16 32) : Prop :=
  (∀ a x, ((![v1584] : Fin 1 → IVec S16 32) a x).toNat < S4096.size a)
instance k0_chk63.dec : ∀ (v1584 : IVec S16 32), Decidable (k0_chk63 v1584) := fun v1584 => decidable_of_iff' _ (Iff.of_eq (k0_chk63.eq_1 v1584))
theorem k0_idx63_inb : ∀ (v1584 : IVec S16 32) (k0_hw63 : k0_chk63 v1584), ∀ a x, ((![v1584] : Fin 1 → IVec S16 32) a x).toNat < S4096.size a := fun v1584 k0_hw63 => k0_hw63

def k0_chk64 (v1592 : IVec S16 32) : Prop :=
  (∀ a x, ((![v1592] : Fin 1 → IVec S16 32) a x).toNat < S4096.size a)
instance k0_chk64.dec : ∀ (v1592 : IVec S16 32), Decidable (k0_chk64 v1592) := fun v1592 => decidable_of_iff' _ (Iff.of_eq (k0_chk64.eq_1 v1592))
theorem k0_idx64_inb : ∀ (v1592 : IVec S16 32) (k0_hw64 : k0_chk64 v1592), ∀ a x, ((![v1592] : Fin 1 → IVec S16 32) a x).toNat < S4096.size a := fun v1592 k0_hw64 => k0_hw64

def k0_chk65 (v1600 : IVec S16 32) : Prop :=
  (∀ a x, ((![v1600] : Fin 1 → IVec S16 32) a x).toNat < S4096.size a)
instance k0_chk65.dec : ∀ (v1600 : IVec S16 32), Decidable (k0_chk65 v1600) := fun v1600 => decidable_of_iff' _ (Iff.of_eq (k0_chk65.eq_1 v1600))
theorem k0_idx65_inb : ∀ (v1600 : IVec S16 32) (k0_hw65 : k0_chk65 v1600), ∀ a x, ((![v1600] : Fin 1 → IVec S16 32) a x).toNat < S4096.size a := fun v1600 k0_hw65 => k0_hw65

def k0_chk66 (v1608 : IVec S16 32) : Prop :=
  (∀ a x, ((![v1608] : Fin 1 → IVec S16 32) a x).toNat < S4096.size a)
instance k0_chk66.dec : ∀ (v1608 : IVec S16 32), Decidable (k0_chk66 v1608) := fun v1608 => decidable_of_iff' _ (Iff.of_eq (k0_chk66.eq_1 v1608))
theorem k0_idx66_inb : ∀ (v1608 : IVec S16 32) (k0_hw66 : k0_chk66 v1608), ∀ a x, ((![v1608] : Fin 1 → IVec S16 32) a x).toNat < S4096.size a := fun v1608 k0_hw66 => k0_hw66

def k0_chk67 (v1616 : IVec S16 32) : Prop :=
  (∀ a x, ((![v1616] : Fin 1 → IVec S16 32) a x).toNat < S4096.size a)
instance k0_chk67.dec : ∀ (v1616 : IVec S16 32), Decidable (k0_chk67 v1616) := fun v1616 => decidable_of_iff' _ (Iff.of_eq (k0_chk67.eq_1 v1616))
theorem k0_idx67_inb : ∀ (v1616 : IVec S16 32) (k0_hw67 : k0_chk67 v1616), ∀ a x, ((![v1616] : Fin 1 → IVec S16 32) a x).toNat < S4096.size a := fun v1616 k0_hw67 => k0_hw67

def k0_chk68 (v1624 : IVec S16 32) : Prop :=
  (∀ a x, ((![v1624] : Fin 1 → IVec S16 32) a x).toNat < S4096.size a)
instance k0_chk68.dec : ∀ (v1624 : IVec S16 32), Decidable (k0_chk68 v1624) := fun v1624 => decidable_of_iff' _ (Iff.of_eq (k0_chk68.eq_1 v1624))
theorem k0_idx68_inb : ∀ (v1624 : IVec S16 32) (k0_hw68 : k0_chk68 v1624), ∀ a x, ((![v1624] : Fin 1 → IVec S16 32) a x).toNat < S4096.size a := fun v1624 k0_hw68 => k0_hw68

def k0_chk69 (v1632 : IVec S16 32) : Prop :=
  (∀ a x, ((![v1632] : Fin 1 → IVec S16 32) a x).toNat < S4096.size a)
instance k0_chk69.dec : ∀ (v1632 : IVec S16 32), Decidable (k0_chk69 v1632) := fun v1632 => decidable_of_iff' _ (Iff.of_eq (k0_chk69.eq_1 v1632))
theorem k0_idx69_inb : ∀ (v1632 : IVec S16 32) (k0_hw69 : k0_chk69 v1632), ∀ a x, ((![v1632] : Fin 1 → IVec S16 32) a x).toNat < S4096.size a := fun v1632 k0_hw69 => k0_hw69

def k0_chk70 (v1640 : IVec S16 32) : Prop :=
  (∀ a x, ((![v1640] : Fin 1 → IVec S16 32) a x).toNat < S4096.size a)
instance k0_chk70.dec : ∀ (v1640 : IVec S16 32), Decidable (k0_chk70 v1640) := fun v1640 => decidable_of_iff' _ (Iff.of_eq (k0_chk70.eq_1 v1640))
theorem k0_idx70_inb : ∀ (v1640 : IVec S16 32) (k0_hw70 : k0_chk70 v1640), ∀ a x, ((![v1640] : Fin 1 → IVec S16 32) a x).toNat < S4096.size a := fun v1640 k0_hw70 => k0_hw70

def k0_chk71 (v1648 : IVec S16 32) : Prop :=
  (∀ a x, ((![v1648] : Fin 1 → IVec S16 32) a x).toNat < S4096.size a)
instance k0_chk71.dec : ∀ (v1648 : IVec S16 32), Decidable (k0_chk71 v1648) := fun v1648 => decidable_of_iff' _ (Iff.of_eq (k0_chk71.eq_1 v1648))
theorem k0_idx71_inb : ∀ (v1648 : IVec S16 32) (k0_hw71 : k0_chk71 v1648), ∀ a x, ((![v1648] : Fin 1 → IVec S16 32) a x).toNat < S4096.size a := fun v1648 k0_hw71 => k0_hw71

def k0_chk72 (v1656 : IVec S16 32) : Prop :=
  (∀ a x, ((![v1656] : Fin 1 → IVec S16 32) a x).toNat < S4096.size a)
instance k0_chk72.dec : ∀ (v1656 : IVec S16 32), Decidable (k0_chk72 v1656) := fun v1656 => decidable_of_iff' _ (Iff.of_eq (k0_chk72.eq_1 v1656))
theorem k0_idx72_inb : ∀ (v1656 : IVec S16 32) (k0_hw72 : k0_chk72 v1656), ∀ a x, ((![v1656] : Fin 1 → IVec S16 32) a x).toNat < S4096.size a := fun v1656 k0_hw72 => k0_hw72

def k0_chk73 (v1664 : IVec S16 32) : Prop :=
  (∀ a x, ((![v1664] : Fin 1 → IVec S16 32) a x).toNat < S4096.size a)
instance k0_chk73.dec : ∀ (v1664 : IVec S16 32), Decidable (k0_chk73 v1664) := fun v1664 => decidable_of_iff' _ (Iff.of_eq (k0_chk73.eq_1 v1664))
theorem k0_idx73_inb : ∀ (v1664 : IVec S16 32) (k0_hw73 : k0_chk73 v1664), ∀ a x, ((![v1664] : Fin 1 → IVec S16 32) a x).toNat < S4096.size a := fun v1664 k0_hw73 => k0_hw73

def k0_chk74 (v1672 : IVec S16 32) : Prop :=
  (∀ a x, ((![v1672] : Fin 1 → IVec S16 32) a x).toNat < S4096.size a)
instance k0_chk74.dec : ∀ (v1672 : IVec S16 32), Decidable (k0_chk74 v1672) := fun v1672 => decidable_of_iff' _ (Iff.of_eq (k0_chk74.eq_1 v1672))
theorem k0_idx74_inb : ∀ (v1672 : IVec S16 32) (k0_hw74 : k0_chk74 v1672), ∀ a x, ((![v1672] : Fin 1 → IVec S16 32) a x).toNat < S4096.size a := fun v1672 k0_hw74 => k0_hw74

def k0_chk75 (v1680 : IVec S16 32) : Prop :=
  (∀ a x, ((![v1680] : Fin 1 → IVec S16 32) a x).toNat < S4096.size a)
instance k0_chk75.dec : ∀ (v1680 : IVec S16 32), Decidable (k0_chk75 v1680) := fun v1680 => decidable_of_iff' _ (Iff.of_eq (k0_chk75.eq_1 v1680))
theorem k0_idx75_inb : ∀ (v1680 : IVec S16 32) (k0_hw75 : k0_chk75 v1680), ∀ a x, ((![v1680] : Fin 1 → IVec S16 32) a x).toNat < S4096.size a := fun v1680 k0_hw75 => k0_hw75

def k0_chk76 (v1688 : IVec S16 32) : Prop :=
  (∀ a x, ((![v1688] : Fin 1 → IVec S16 32) a x).toNat < S4096.size a)
instance k0_chk76.dec : ∀ (v1688 : IVec S16 32), Decidable (k0_chk76 v1688) := fun v1688 => decidable_of_iff' _ (Iff.of_eq (k0_chk76.eq_1 v1688))
theorem k0_idx76_inb : ∀ (v1688 : IVec S16 32) (k0_hw76 : k0_chk76 v1688), ∀ a x, ((![v1688] : Fin 1 → IVec S16 32) a x).toNat < S4096.size a := fun v1688 k0_hw76 => k0_hw76

def k0_chk77 (v1696 : IVec S16 32) : Prop :=
  (∀ a x, ((![v1696] : Fin 1 → IVec S16 32) a x).toNat < S4096.size a)
instance k0_chk77.dec : ∀ (v1696 : IVec S16 32), Decidable (k0_chk77 v1696) := fun v1696 => decidable_of_iff' _ (Iff.of_eq (k0_chk77.eq_1 v1696))
theorem k0_idx77_inb : ∀ (v1696 : IVec S16 32) (k0_hw77 : k0_chk77 v1696), ∀ a x, ((![v1696] : Fin 1 → IVec S16 32) a x).toNat < S4096.size a := fun v1696 k0_hw77 => k0_hw77

def k0_chk78 (v1704 : IVec S16 32) : Prop :=
  (∀ a x, ((![v1704] : Fin 1 → IVec S16 32) a x).toNat < S4096.size a)
instance k0_chk78.dec : ∀ (v1704 : IVec S16 32), Decidable (k0_chk78 v1704) := fun v1704 => decidable_of_iff' _ (Iff.of_eq (k0_chk78.eq_1 v1704))
theorem k0_idx78_inb : ∀ (v1704 : IVec S16 32) (k0_hw78 : k0_chk78 v1704), ∀ a x, ((![v1704] : Fin 1 → IVec S16 32) a x).toNat < S4096.size a := fun v1704 k0_hw78 => k0_hw78

def k0_chk79 (v1712 : IVec S16 32) : Prop :=
  (∀ a x, ((![v1712] : Fin 1 → IVec S16 32) a x).toNat < S4096.size a)
instance k0_chk79.dec : ∀ (v1712 : IVec S16 32), Decidable (k0_chk79 v1712) := fun v1712 => decidable_of_iff' _ (Iff.of_eq (k0_chk79.eq_1 v1712))
theorem k0_idx79_inb : ∀ (v1712 : IVec S16 32) (k0_hw79 : k0_chk79 v1712), ∀ a x, ((![v1712] : Fin 1 → IVec S16 32) a x).toNat < S4096.size a := fun v1712 k0_hw79 => k0_hw79

def k0_chk80 (v1720 : IVec S16 32) : Prop :=
  (∀ a x, ((![v1720] : Fin 1 → IVec S16 32) a x).toNat < S4096.size a)
instance k0_chk80.dec : ∀ (v1720 : IVec S16 32), Decidable (k0_chk80 v1720) := fun v1720 => decidable_of_iff' _ (Iff.of_eq (k0_chk80.eq_1 v1720))
theorem k0_idx80_inb : ∀ (v1720 : IVec S16 32) (k0_hw80 : k0_chk80 v1720), ∀ a x, ((![v1720] : Fin 1 → IVec S16 32) a x).toNat < S4096.size a := fun v1720 k0_hw80 => k0_hw80

def k0_chk81 (v1728 : IVec S16 32) : Prop :=
  (∀ a x, ((![v1728] : Fin 1 → IVec S16 32) a x).toNat < S4096.size a)
instance k0_chk81.dec : ∀ (v1728 : IVec S16 32), Decidable (k0_chk81 v1728) := fun v1728 => decidable_of_iff' _ (Iff.of_eq (k0_chk81.eq_1 v1728))
theorem k0_idx81_inb : ∀ (v1728 : IVec S16 32) (k0_hw81 : k0_chk81 v1728), ∀ a x, ((![v1728] : Fin 1 → IVec S16 32) a x).toNat < S4096.size a := fun v1728 k0_hw81 => k0_hw81

def k0_chk82 (v1736 : IVec S16 32) : Prop :=
  (∀ a x, ((![v1736] : Fin 1 → IVec S16 32) a x).toNat < S4096.size a)
instance k0_chk82.dec : ∀ (v1736 : IVec S16 32), Decidable (k0_chk82 v1736) := fun v1736 => decidable_of_iff' _ (Iff.of_eq (k0_chk82.eq_1 v1736))
theorem k0_idx82_inb : ∀ (v1736 : IVec S16 32) (k0_hw82 : k0_chk82 v1736), ∀ a x, ((![v1736] : Fin 1 → IVec S16 32) a x).toNat < S4096.size a := fun v1736 k0_hw82 => k0_hw82

def k0_chk83 (v1744 : IVec S16 32) : Prop :=
  (∀ a x, ((![v1744] : Fin 1 → IVec S16 32) a x).toNat < S4096.size a)
instance k0_chk83.dec : ∀ (v1744 : IVec S16 32), Decidable (k0_chk83 v1744) := fun v1744 => decidable_of_iff' _ (Iff.of_eq (k0_chk83.eq_1 v1744))
theorem k0_idx83_inb : ∀ (v1744 : IVec S16 32) (k0_hw83 : k0_chk83 v1744), ∀ a x, ((![v1744] : Fin 1 → IVec S16 32) a x).toNat < S4096.size a := fun v1744 k0_hw83 => k0_hw83

def k0_chk84 (v1752 : IVec S16 32) : Prop :=
  (∀ a x, ((![v1752] : Fin 1 → IVec S16 32) a x).toNat < S4096.size a)
instance k0_chk84.dec : ∀ (v1752 : IVec S16 32), Decidable (k0_chk84 v1752) := fun v1752 => decidable_of_iff' _ (Iff.of_eq (k0_chk84.eq_1 v1752))
theorem k0_idx84_inb : ∀ (v1752 : IVec S16 32) (k0_hw84 : k0_chk84 v1752), ∀ a x, ((![v1752] : Fin 1 → IVec S16 32) a x).toNat < S4096.size a := fun v1752 k0_hw84 => k0_hw84

def k0_chk85 (v1760 : IVec S16 32) : Prop :=
  (∀ a x, ((![v1760] : Fin 1 → IVec S16 32) a x).toNat < S4096.size a)
instance k0_chk85.dec : ∀ (v1760 : IVec S16 32), Decidable (k0_chk85 v1760) := fun v1760 => decidable_of_iff' _ (Iff.of_eq (k0_chk85.eq_1 v1760))
theorem k0_idx85_inb : ∀ (v1760 : IVec S16 32) (k0_hw85 : k0_chk85 v1760), ∀ a x, ((![v1760] : Fin 1 → IVec S16 32) a x).toNat < S4096.size a := fun v1760 k0_hw85 => k0_hw85

def k0_chk86 (v1768 : IVec S16 32) : Prop :=
  (∀ a x, ((![v1768] : Fin 1 → IVec S16 32) a x).toNat < S4096.size a)
instance k0_chk86.dec : ∀ (v1768 : IVec S16 32), Decidable (k0_chk86 v1768) := fun v1768 => decidable_of_iff' _ (Iff.of_eq (k0_chk86.eq_1 v1768))
theorem k0_idx86_inb : ∀ (v1768 : IVec S16 32) (k0_hw86 : k0_chk86 v1768), ∀ a x, ((![v1768] : Fin 1 → IVec S16 32) a x).toNat < S4096.size a := fun v1768 k0_hw86 => k0_hw86

def k0_chk87 (v1776 : IVec S16 32) : Prop :=
  (∀ a x, ((![v1776] : Fin 1 → IVec S16 32) a x).toNat < S4096.size a)
instance k0_chk87.dec : ∀ (v1776 : IVec S16 32), Decidable (k0_chk87 v1776) := fun v1776 => decidable_of_iff' _ (Iff.of_eq (k0_chk87.eq_1 v1776))
theorem k0_idx87_inb : ∀ (v1776 : IVec S16 32) (k0_hw87 : k0_chk87 v1776), ∀ a x, ((![v1776] : Fin 1 → IVec S16 32) a x).toNat < S4096.size a := fun v1776 k0_hw87 => k0_hw87

def k0_chk88 (v1784 : IVec S16 32) : Prop :=
  (∀ a x, ((![v1784] : Fin 1 → IVec S16 32) a x).toNat < S4096.size a)
instance k0_chk88.dec : ∀ (v1784 : IVec S16 32), Decidable (k0_chk88 v1784) := fun v1784 => decidable_of_iff' _ (Iff.of_eq (k0_chk88.eq_1 v1784))
theorem k0_idx88_inb : ∀ (v1784 : IVec S16 32) (k0_hw88 : k0_chk88 v1784), ∀ a x, ((![v1784] : Fin 1 → IVec S16 32) a x).toNat < S4096.size a := fun v1784 k0_hw88 => k0_hw88

def k0_chk89 (v1792 : IVec S16 32) : Prop :=
  (∀ a x, ((![v1792] : Fin 1 → IVec S16 32) a x).toNat < S4096.size a)
instance k0_chk89.dec : ∀ (v1792 : IVec S16 32), Decidable (k0_chk89 v1792) := fun v1792 => decidable_of_iff' _ (Iff.of_eq (k0_chk89.eq_1 v1792))
theorem k0_idx89_inb : ∀ (v1792 : IVec S16 32) (k0_hw89 : k0_chk89 v1792), ∀ a x, ((![v1792] : Fin 1 → IVec S16 32) a x).toNat < S4096.size a := fun v1792 k0_hw89 => k0_hw89

def k0_chk90 (v1800 : IVec S16 32) : Prop :=
  (∀ a x, ((![v1800] : Fin 1 → IVec S16 32) a x).toNat < S4096.size a)
instance k0_chk90.dec : ∀ (v1800 : IVec S16 32), Decidable (k0_chk90 v1800) := fun v1800 => decidable_of_iff' _ (Iff.of_eq (k0_chk90.eq_1 v1800))
theorem k0_idx90_inb : ∀ (v1800 : IVec S16 32) (k0_hw90 : k0_chk90 v1800), ∀ a x, ((![v1800] : Fin 1 → IVec S16 32) a x).toNat < S4096.size a := fun v1800 k0_hw90 => k0_hw90

def k0_chk91 (v1808 : IVec S16 32) : Prop :=
  (∀ a x, ((![v1808] : Fin 1 → IVec S16 32) a x).toNat < S4096.size a)
instance k0_chk91.dec : ∀ (v1808 : IVec S16 32), Decidable (k0_chk91 v1808) := fun v1808 => decidable_of_iff' _ (Iff.of_eq (k0_chk91.eq_1 v1808))
theorem k0_idx91_inb : ∀ (v1808 : IVec S16 32) (k0_hw91 : k0_chk91 v1808), ∀ a x, ((![v1808] : Fin 1 → IVec S16 32) a x).toNat < S4096.size a := fun v1808 k0_hw91 => k0_hw91

def k0_chk92 (v1816 : IVec S16 32) : Prop :=
  (∀ a x, ((![v1816] : Fin 1 → IVec S16 32) a x).toNat < S4096.size a)
instance k0_chk92.dec : ∀ (v1816 : IVec S16 32), Decidable (k0_chk92 v1816) := fun v1816 => decidable_of_iff' _ (Iff.of_eq (k0_chk92.eq_1 v1816))
theorem k0_idx92_inb : ∀ (v1816 : IVec S16 32) (k0_hw92 : k0_chk92 v1816), ∀ a x, ((![v1816] : Fin 1 → IVec S16 32) a x).toNat < S4096.size a := fun v1816 k0_hw92 => k0_hw92

def k0_chk93 (v1824 : IVec S16 32) : Prop :=
  (∀ a x, ((![v1824] : Fin 1 → IVec S16 32) a x).toNat < S4096.size a)
instance k0_chk93.dec : ∀ (v1824 : IVec S16 32), Decidable (k0_chk93 v1824) := fun v1824 => decidable_of_iff' _ (Iff.of_eq (k0_chk93.eq_1 v1824))
theorem k0_idx93_inb : ∀ (v1824 : IVec S16 32) (k0_hw93 : k0_chk93 v1824), ∀ a x, ((![v1824] : Fin 1 → IVec S16 32) a x).toNat < S4096.size a := fun v1824 k0_hw93 => k0_hw93

def k0_chk94 (v1832 : IVec S16 32) : Prop :=
  (∀ a x, ((![v1832] : Fin 1 → IVec S16 32) a x).toNat < S4096.size a)
instance k0_chk94.dec : ∀ (v1832 : IVec S16 32), Decidable (k0_chk94 v1832) := fun v1832 => decidable_of_iff' _ (Iff.of_eq (k0_chk94.eq_1 v1832))
theorem k0_idx94_inb : ∀ (v1832 : IVec S16 32) (k0_hw94 : k0_chk94 v1832), ∀ a x, ((![v1832] : Fin 1 → IVec S16 32) a x).toNat < S4096.size a := fun v1832 k0_hw94 => k0_hw94

def k0_chk95 (v1840 : IVec S16 32) : Prop :=
  (∀ a x, ((![v1840] : Fin 1 → IVec S16 32) a x).toNat < S4096.size a)
instance k0_chk95.dec : ∀ (v1840 : IVec S16 32), Decidable (k0_chk95 v1840) := fun v1840 => decidable_of_iff' _ (Iff.of_eq (k0_chk95.eq_1 v1840))
theorem k0_idx95_inb : ∀ (v1840 : IVec S16 32) (k0_hw95 : k0_chk95 v1840), ∀ a x, ((![v1840] : Fin 1 → IVec S16 32) a x).toNat < S4096.size a := fun v1840 k0_hw95 => k0_hw95

def k0_chk96 (v1848 : IVec S16 32) : Prop :=
  (∀ a x, ((![v1848] : Fin 1 → IVec S16 32) a x).toNat < S4096.size a)
instance k0_chk96.dec : ∀ (v1848 : IVec S16 32), Decidable (k0_chk96 v1848) := fun v1848 => decidable_of_iff' _ (Iff.of_eq (k0_chk96.eq_1 v1848))
theorem k0_idx96_inb : ∀ (v1848 : IVec S16 32) (k0_hw96 : k0_chk96 v1848), ∀ a x, ((![v1848] : Fin 1 → IVec S16 32) a x).toNat < S4096.size a := fun v1848 k0_hw96 => k0_hw96

def k0_chk97 (v1856 : IVec S16 32) : Prop :=
  (∀ a x, ((![v1856] : Fin 1 → IVec S16 32) a x).toNat < S4096.size a)
instance k0_chk97.dec : ∀ (v1856 : IVec S16 32), Decidable (k0_chk97 v1856) := fun v1856 => decidable_of_iff' _ (Iff.of_eq (k0_chk97.eq_1 v1856))
theorem k0_idx97_inb : ∀ (v1856 : IVec S16 32) (k0_hw97 : k0_chk97 v1856), ∀ a x, ((![v1856] : Fin 1 → IVec S16 32) a x).toNat < S4096.size a := fun v1856 k0_hw97 => k0_hw97

def k0_chk98 (v1864 : IVec S16 32) : Prop :=
  (∀ a x, ((![v1864] : Fin 1 → IVec S16 32) a x).toNat < S4096.size a)
instance k0_chk98.dec : ∀ (v1864 : IVec S16 32), Decidable (k0_chk98 v1864) := fun v1864 => decidable_of_iff' _ (Iff.of_eq (k0_chk98.eq_1 v1864))
theorem k0_idx98_inb : ∀ (v1864 : IVec S16 32) (k0_hw98 : k0_chk98 v1864), ∀ a x, ((![v1864] : Fin 1 → IVec S16 32) a x).toNat < S4096.size a := fun v1864 k0_hw98 => k0_hw98

def k0_chk99 (v1872 : IVec S16 32) : Prop :=
  (∀ a x, ((![v1872] : Fin 1 → IVec S16 32) a x).toNat < S4096.size a)
instance k0_chk99.dec : ∀ (v1872 : IVec S16 32), Decidable (k0_chk99 v1872) := fun v1872 => decidable_of_iff' _ (Iff.of_eq (k0_chk99.eq_1 v1872))
theorem k0_idx99_inb : ∀ (v1872 : IVec S16 32) (k0_hw99 : k0_chk99 v1872), ∀ a x, ((![v1872] : Fin 1 → IVec S16 32) a x).toNat < S4096.size a := fun v1872 k0_hw99 => k0_hw99

def k0_chk100 (v1880 : IVec S16 32) : Prop :=
  (∀ a x, ((![v1880] : Fin 1 → IVec S16 32) a x).toNat < S4096.size a)
instance k0_chk100.dec : ∀ (v1880 : IVec S16 32), Decidable (k0_chk100 v1880) := fun v1880 => decidable_of_iff' _ (Iff.of_eq (k0_chk100.eq_1 v1880))
theorem k0_idx100_inb : ∀ (v1880 : IVec S16 32) (k0_hw100 : k0_chk100 v1880), ∀ a x, ((![v1880] : Fin 1 → IVec S16 32) a x).toNat < S4096.size a := fun v1880 k0_hw100 => k0_hw100

def k0_chk101 (v1888 : IVec S16 32) : Prop :=
  (∀ a x, ((![v1888] : Fin 1 → IVec S16 32) a x).toNat < S4096.size a)
instance k0_chk101.dec : ∀ (v1888 : IVec S16 32), Decidable (k0_chk101 v1888) := fun v1888 => decidable_of_iff' _ (Iff.of_eq (k0_chk101.eq_1 v1888))
theorem k0_idx101_inb : ∀ (v1888 : IVec S16 32) (k0_hw101 : k0_chk101 v1888), ∀ a x, ((![v1888] : Fin 1 → IVec S16 32) a x).toNat < S4096.size a := fun v1888 k0_hw101 => k0_hw101

def k0_chk102 (v1896 : IVec S16 32) : Prop :=
  (∀ a x, ((![v1896] : Fin 1 → IVec S16 32) a x).toNat < S4096.size a)
instance k0_chk102.dec : ∀ (v1896 : IVec S16 32), Decidable (k0_chk102 v1896) := fun v1896 => decidable_of_iff' _ (Iff.of_eq (k0_chk102.eq_1 v1896))
theorem k0_idx102_inb : ∀ (v1896 : IVec S16 32) (k0_hw102 : k0_chk102 v1896), ∀ a x, ((![v1896] : Fin 1 → IVec S16 32) a x).toNat < S4096.size a := fun v1896 k0_hw102 => k0_hw102

def k0_chk103 (v1904 : IVec S16 32) : Prop :=
  (∀ a x, ((![v1904] : Fin 1 → IVec S16 32) a x).toNat < S4096.size a)
instance k0_chk103.dec : ∀ (v1904 : IVec S16 32), Decidable (k0_chk103 v1904) := fun v1904 => decidable_of_iff' _ (Iff.of_eq (k0_chk103.eq_1 v1904))
theorem k0_idx103_inb : ∀ (v1904 : IVec S16 32) (k0_hw103 : k0_chk103 v1904), ∀ a x, ((![v1904] : Fin 1 → IVec S16 32) a x).toNat < S4096.size a := fun v1904 k0_hw103 => k0_hw103

def k0_chk104 (v1912 : IVec S16 32) : Prop :=
  (∀ a x, ((![v1912] : Fin 1 → IVec S16 32) a x).toNat < S4096.size a)
instance k0_chk104.dec : ∀ (v1912 : IVec S16 32), Decidable (k0_chk104 v1912) := fun v1912 => decidable_of_iff' _ (Iff.of_eq (k0_chk104.eq_1 v1912))
theorem k0_idx104_inb : ∀ (v1912 : IVec S16 32) (k0_hw104 : k0_chk104 v1912), ∀ a x, ((![v1912] : Fin 1 → IVec S16 32) a x).toNat < S4096.size a := fun v1912 k0_hw104 => k0_hw104

def k0_chk105 (v1920 : IVec S16 32) : Prop :=
  (∀ a x, ((![v1920] : Fin 1 → IVec S16 32) a x).toNat < S4096.size a)
instance k0_chk105.dec : ∀ (v1920 : IVec S16 32), Decidable (k0_chk105 v1920) := fun v1920 => decidable_of_iff' _ (Iff.of_eq (k0_chk105.eq_1 v1920))
theorem k0_idx105_inb : ∀ (v1920 : IVec S16 32) (k0_hw105 : k0_chk105 v1920), ∀ a x, ((![v1920] : Fin 1 → IVec S16 32) a x).toNat < S4096.size a := fun v1920 k0_hw105 => k0_hw105

def k0_chk106 (v1928 : IVec S16 32) : Prop :=
  (∀ a x, ((![v1928] : Fin 1 → IVec S16 32) a x).toNat < S4096.size a)
instance k0_chk106.dec : ∀ (v1928 : IVec S16 32), Decidable (k0_chk106 v1928) := fun v1928 => decidable_of_iff' _ (Iff.of_eq (k0_chk106.eq_1 v1928))
theorem k0_idx106_inb : ∀ (v1928 : IVec S16 32) (k0_hw106 : k0_chk106 v1928), ∀ a x, ((![v1928] : Fin 1 → IVec S16 32) a x).toNat < S4096.size a := fun v1928 k0_hw106 => k0_hw106

def k0_chk107 (v1936 : IVec S16 32) : Prop :=
  (∀ a x, ((![v1936] : Fin 1 → IVec S16 32) a x).toNat < S4096.size a)
instance k0_chk107.dec : ∀ (v1936 : IVec S16 32), Decidable (k0_chk107 v1936) := fun v1936 => decidable_of_iff' _ (Iff.of_eq (k0_chk107.eq_1 v1936))
theorem k0_idx107_inb : ∀ (v1936 : IVec S16 32) (k0_hw107 : k0_chk107 v1936), ∀ a x, ((![v1936] : Fin 1 → IVec S16 32) a x).toNat < S4096.size a := fun v1936 k0_hw107 => k0_hw107

def k0_chk108 (v1944 : IVec S16 32) : Prop :=
  (∀ a x, ((![v1944] : Fin 1 → IVec S16 32) a x).toNat < S4096.size a)
instance k0_chk108.dec : ∀ (v1944 : IVec S16 32), Decidable (k0_chk108 v1944) := fun v1944 => decidable_of_iff' _ (Iff.of_eq (k0_chk108.eq_1 v1944))
theorem k0_idx108_inb : ∀ (v1944 : IVec S16 32) (k0_hw108 : k0_chk108 v1944), ∀ a x, ((![v1944] : Fin 1 → IVec S16 32) a x).toNat < S4096.size a := fun v1944 k0_hw108 => k0_hw108

def k0_chk109 (v1952 : IVec S16 32) : Prop :=
  (∀ a x, ((![v1952] : Fin 1 → IVec S16 32) a x).toNat < S4096.size a)
instance k0_chk109.dec : ∀ (v1952 : IVec S16 32), Decidable (k0_chk109 v1952) := fun v1952 => decidable_of_iff' _ (Iff.of_eq (k0_chk109.eq_1 v1952))
theorem k0_idx109_inb : ∀ (v1952 : IVec S16 32) (k0_hw109 : k0_chk109 v1952), ∀ a x, ((![v1952] : Fin 1 → IVec S16 32) a x).toNat < S4096.size a := fun v1952 k0_hw109 => k0_hw109

def k0_chk110 (v1960 : IVec S16 32) : Prop :=
  (∀ a x, ((![v1960] : Fin 1 → IVec S16 32) a x).toNat < S4096.size a)
instance k0_chk110.dec : ∀ (v1960 : IVec S16 32), Decidable (k0_chk110 v1960) := fun v1960 => decidable_of_iff' _ (Iff.of_eq (k0_chk110.eq_1 v1960))
theorem k0_idx110_inb : ∀ (v1960 : IVec S16 32) (k0_hw110 : k0_chk110 v1960), ∀ a x, ((![v1960] : Fin 1 → IVec S16 32) a x).toNat < S4096.size a := fun v1960 k0_hw110 => k0_hw110

def k0_chk111 (v1968 : IVec S16 32) : Prop :=
  (∀ a x, ((![v1968] : Fin 1 → IVec S16 32) a x).toNat < S4096.size a)
instance k0_chk111.dec : ∀ (v1968 : IVec S16 32), Decidable (k0_chk111 v1968) := fun v1968 => decidable_of_iff' _ (Iff.of_eq (k0_chk111.eq_1 v1968))
theorem k0_idx111_inb : ∀ (v1968 : IVec S16 32) (k0_hw111 : k0_chk111 v1968), ∀ a x, ((![v1968] : Fin 1 → IVec S16 32) a x).toNat < S4096.size a := fun v1968 k0_hw111 => k0_hw111

def k0_chk112 (v1976 : IVec S16 32) : Prop :=
  (∀ a x, ((![v1976] : Fin 1 → IVec S16 32) a x).toNat < S4096.size a)
instance k0_chk112.dec : ∀ (v1976 : IVec S16 32), Decidable (k0_chk112 v1976) := fun v1976 => decidable_of_iff' _ (Iff.of_eq (k0_chk112.eq_1 v1976))
theorem k0_idx112_inb : ∀ (v1976 : IVec S16 32) (k0_hw112 : k0_chk112 v1976), ∀ a x, ((![v1976] : Fin 1 → IVec S16 32) a x).toNat < S4096.size a := fun v1976 k0_hw112 => k0_hw112

def k0_chk113 (v1984 : IVec S16 32) : Prop :=
  (∀ a x, ((![v1984] : Fin 1 → IVec S16 32) a x).toNat < S4096.size a)
instance k0_chk113.dec : ∀ (v1984 : IVec S16 32), Decidable (k0_chk113 v1984) := fun v1984 => decidable_of_iff' _ (Iff.of_eq (k0_chk113.eq_1 v1984))
theorem k0_idx113_inb : ∀ (v1984 : IVec S16 32) (k0_hw113 : k0_chk113 v1984), ∀ a x, ((![v1984] : Fin 1 → IVec S16 32) a x).toNat < S4096.size a := fun v1984 k0_hw113 => k0_hw113

def k0_chk114 (v1992 : IVec S16 32) : Prop :=
  (∀ a x, ((![v1992] : Fin 1 → IVec S16 32) a x).toNat < S4096.size a)
instance k0_chk114.dec : ∀ (v1992 : IVec S16 32), Decidable (k0_chk114 v1992) := fun v1992 => decidable_of_iff' _ (Iff.of_eq (k0_chk114.eq_1 v1992))
theorem k0_idx114_inb : ∀ (v1992 : IVec S16 32) (k0_hw114 : k0_chk114 v1992), ∀ a x, ((![v1992] : Fin 1 → IVec S16 32) a x).toNat < S4096.size a := fun v1992 k0_hw114 => k0_hw114

def k0_chk115 (v2000 : IVec S16 32) : Prop :=
  (∀ a x, ((![v2000] : Fin 1 → IVec S16 32) a x).toNat < S4096.size a)
instance k0_chk115.dec : ∀ (v2000 : IVec S16 32), Decidable (k0_chk115 v2000) := fun v2000 => decidable_of_iff' _ (Iff.of_eq (k0_chk115.eq_1 v2000))
theorem k0_idx115_inb : ∀ (v2000 : IVec S16 32) (k0_hw115 : k0_chk115 v2000), ∀ a x, ((![v2000] : Fin 1 → IVec S16 32) a x).toNat < S4096.size a := fun v2000 k0_hw115 => k0_hw115

def k0_chk116 (v2008 : IVec S16 32) : Prop :=
  (∀ a x, ((![v2008] : Fin 1 → IVec S16 32) a x).toNat < S4096.size a)
instance k0_chk116.dec : ∀ (v2008 : IVec S16 32), Decidable (k0_chk116 v2008) := fun v2008 => decidable_of_iff' _ (Iff.of_eq (k0_chk116.eq_1 v2008))
theorem k0_idx116_inb : ∀ (v2008 : IVec S16 32) (k0_hw116 : k0_chk116 v2008), ∀ a x, ((![v2008] : Fin 1 → IVec S16 32) a x).toNat < S4096.size a := fun v2008 k0_hw116 => k0_hw116

def k0_chk117 (v2016 : IVec S16 32) : Prop :=
  (∀ a x, ((![v2016] : Fin 1 → IVec S16 32) a x).toNat < S4096.size a)
instance k0_chk117.dec : ∀ (v2016 : IVec S16 32), Decidable (k0_chk117 v2016) := fun v2016 => decidable_of_iff' _ (Iff.of_eq (k0_chk117.eq_1 v2016))
theorem k0_idx117_inb : ∀ (v2016 : IVec S16 32) (k0_hw117 : k0_chk117 v2016), ∀ a x, ((![v2016] : Fin 1 → IVec S16 32) a x).toNat < S4096.size a := fun v2016 k0_hw117 => k0_hw117

def k0_chk118 (v2024 : IVec S16 32) : Prop :=
  (∀ a x, ((![v2024] : Fin 1 → IVec S16 32) a x).toNat < S4096.size a)
instance k0_chk118.dec : ∀ (v2024 : IVec S16 32), Decidable (k0_chk118 v2024) := fun v2024 => decidable_of_iff' _ (Iff.of_eq (k0_chk118.eq_1 v2024))
theorem k0_idx118_inb : ∀ (v2024 : IVec S16 32) (k0_hw118 : k0_chk118 v2024), ∀ a x, ((![v2024] : Fin 1 → IVec S16 32) a x).toNat < S4096.size a := fun v2024 k0_hw118 => k0_hw118

def k0_chk119 (v2032 : IVec S16 32) : Prop :=
  (∀ a x, ((![v2032] : Fin 1 → IVec S16 32) a x).toNat < S4096.size a)
instance k0_chk119.dec : ∀ (v2032 : IVec S16 32), Decidable (k0_chk119 v2032) := fun v2032 => decidable_of_iff' _ (Iff.of_eq (k0_chk119.eq_1 v2032))
theorem k0_idx119_inb : ∀ (v2032 : IVec S16 32) (k0_hw119 : k0_chk119 v2032), ∀ a x, ((![v2032] : Fin 1 → IVec S16 32) a x).toNat < S4096.size a := fun v2032 k0_hw119 => k0_hw119

def k0_chk120 (v2040 : IVec S16 32) : Prop :=
  (∀ a x, ((![v2040] : Fin 1 → IVec S16 32) a x).toNat < S4096.size a)
instance k0_chk120.dec : ∀ (v2040 : IVec S16 32), Decidable (k0_chk120 v2040) := fun v2040 => decidable_of_iff' _ (Iff.of_eq (k0_chk120.eq_1 v2040))
theorem k0_idx120_inb : ∀ (v2040 : IVec S16 32) (k0_hw120 : k0_chk120 v2040), ∀ a x, ((![v2040] : Fin 1 → IVec S16 32) a x).toNat < S4096.size a := fun v2040 k0_hw120 => k0_hw120

def k0_chk121 (v2048 : IVec S16 32) : Prop :=
  (∀ a x, ((![v2048] : Fin 1 → IVec S16 32) a x).toNat < S4096.size a)
instance k0_chk121.dec : ∀ (v2048 : IVec S16 32), Decidable (k0_chk121 v2048) := fun v2048 => decidable_of_iff' _ (Iff.of_eq (k0_chk121.eq_1 v2048))
theorem k0_idx121_inb : ∀ (v2048 : IVec S16 32) (k0_hw121 : k0_chk121 v2048), ∀ a x, ((![v2048] : Fin 1 → IVec S16 32) a x).toNat < S4096.size a := fun v2048 k0_hw121 => k0_hw121

def k0_chk122 (v2056 : IVec S16 32) : Prop :=
  (∀ a x, ((![v2056] : Fin 1 → IVec S16 32) a x).toNat < S4096.size a)
instance k0_chk122.dec : ∀ (v2056 : IVec S16 32), Decidable (k0_chk122 v2056) := fun v2056 => decidable_of_iff' _ (Iff.of_eq (k0_chk122.eq_1 v2056))
theorem k0_idx122_inb : ∀ (v2056 : IVec S16 32) (k0_hw122 : k0_chk122 v2056), ∀ a x, ((![v2056] : Fin 1 → IVec S16 32) a x).toNat < S4096.size a := fun v2056 k0_hw122 => k0_hw122

def k0_chk123 (v2064 : IVec S16 32) : Prop :=
  (∀ a x, ((![v2064] : Fin 1 → IVec S16 32) a x).toNat < S4096.size a)
instance k0_chk123.dec : ∀ (v2064 : IVec S16 32), Decidable (k0_chk123 v2064) := fun v2064 => decidable_of_iff' _ (Iff.of_eq (k0_chk123.eq_1 v2064))
theorem k0_idx123_inb : ∀ (v2064 : IVec S16 32) (k0_hw123 : k0_chk123 v2064), ∀ a x, ((![v2064] : Fin 1 → IVec S16 32) a x).toNat < S4096.size a := fun v2064 k0_hw123 => k0_hw123

def k0_chk124 (v2072 : IVec S16 32) : Prop :=
  (∀ a x, ((![v2072] : Fin 1 → IVec S16 32) a x).toNat < S4096.size a)
instance k0_chk124.dec : ∀ (v2072 : IVec S16 32), Decidable (k0_chk124 v2072) := fun v2072 => decidable_of_iff' _ (Iff.of_eq (k0_chk124.eq_1 v2072))
theorem k0_idx124_inb : ∀ (v2072 : IVec S16 32) (k0_hw124 : k0_chk124 v2072), ∀ a x, ((![v2072] : Fin 1 → IVec S16 32) a x).toNat < S4096.size a := fun v2072 k0_hw124 => k0_hw124

def k0_chk125 (v2080 : IVec S16 32) : Prop :=
  (∀ a x, ((![v2080] : Fin 1 → IVec S16 32) a x).toNat < S4096.size a)
instance k0_chk125.dec : ∀ (v2080 : IVec S16 32), Decidable (k0_chk125 v2080) := fun v2080 => decidable_of_iff' _ (Iff.of_eq (k0_chk125.eq_1 v2080))
theorem k0_idx125_inb : ∀ (v2080 : IVec S16 32) (k0_hw125 : k0_chk125 v2080), ∀ a x, ((![v2080] : Fin 1 → IVec S16 32) a x).toNat < S4096.size a := fun v2080 k0_hw125 => k0_hw125

def k0_chk126 (v2088 : IVec S16 32) : Prop :=
  (∀ a x, ((![v2088] : Fin 1 → IVec S16 32) a x).toNat < S4096.size a)
instance k0_chk126.dec : ∀ (v2088 : IVec S16 32), Decidable (k0_chk126 v2088) := fun v2088 => decidable_of_iff' _ (Iff.of_eq (k0_chk126.eq_1 v2088))
theorem k0_idx126_inb : ∀ (v2088 : IVec S16 32) (k0_hw126 : k0_chk126 v2088), ∀ a x, ((![v2088] : Fin 1 → IVec S16 32) a x).toNat < S4096.size a := fun v2088 k0_hw126 => k0_hw126

def k0_chk127 (v2096 : IVec S16 32) : Prop :=
  (∀ a x, ((![v2096] : Fin 1 → IVec S16 32) a x).toNat < S4096.size a)
instance k0_chk127.dec : ∀ (v2096 : IVec S16 32), Decidable (k0_chk127 v2096) := fun v2096 => decidable_of_iff' _ (Iff.of_eq (k0_chk127.eq_1 v2096))
theorem k0_idx127_inb : ∀ (v2096 : IVec S16 32) (k0_hw127 : k0_chk127 v2096), ∀ a x, ((![v2096] : Fin 1 → IVec S16 32) a x).toNat < S4096.size a := fun v2096 k0_hw127 => k0_hw127

def k0_chk128 (v2104 : IVec S16 32) : Prop :=
  (∀ a x, ((![v2104] : Fin 1 → IVec S16 32) a x).toNat < S4096.size a)
instance k0_chk128.dec : ∀ (v2104 : IVec S16 32), Decidable (k0_chk128 v2104) := fun v2104 => decidable_of_iff' _ (Iff.of_eq (k0_chk128.eq_1 v2104))
theorem k0_idx128_inb : ∀ (v2104 : IVec S16 32) (k0_hw128 : k0_chk128 v2104), ∀ a x, ((![v2104] : Fin 1 → IVec S16 32) a x).toNat < S4096.size a := fun v2104 k0_hw128 => k0_hw128

def k0_chk129 (v2112 : IVec S16 32) : Prop :=
  (∀ a x, ((![v2112] : Fin 1 → IVec S16 32) a x).toNat < S4096.size a)
instance k0_chk129.dec : ∀ (v2112 : IVec S16 32), Decidable (k0_chk129 v2112) := fun v2112 => decidable_of_iff' _ (Iff.of_eq (k0_chk129.eq_1 v2112))
theorem k0_idx129_inb : ∀ (v2112 : IVec S16 32) (k0_hw129 : k0_chk129 v2112), ∀ a x, ((![v2112] : Fin 1 → IVec S16 32) a x).toNat < S4096.size a := fun v2112 k0_hw129 => k0_hw129

def k0_chk130 (v2120 : IVec S16 32) : Prop :=
  (∀ a x, ((![v2120] : Fin 1 → IVec S16 32) a x).toNat < S4096.size a)
instance k0_chk130.dec : ∀ (v2120 : IVec S16 32), Decidable (k0_chk130 v2120) := fun v2120 => decidable_of_iff' _ (Iff.of_eq (k0_chk130.eq_1 v2120))
theorem k0_idx130_inb : ∀ (v2120 : IVec S16 32) (k0_hw130 : k0_chk130 v2120), ∀ a x, ((![v2120] : Fin 1 → IVec S16 32) a x).toNat < S4096.size a := fun v2120 k0_hw130 => k0_hw130

def k0_chk131 (v2128 : IVec S16 32) : Prop :=
  (∀ a x, ((![v2128] : Fin 1 → IVec S16 32) a x).toNat < S4096.size a)
instance k0_chk131.dec : ∀ (v2128 : IVec S16 32), Decidable (k0_chk131 v2128) := fun v2128 => decidable_of_iff' _ (Iff.of_eq (k0_chk131.eq_1 v2128))
theorem k0_idx131_inb : ∀ (v2128 : IVec S16 32) (k0_hw131 : k0_chk131 v2128), ∀ a x, ((![v2128] : Fin 1 → IVec S16 32) a x).toNat < S4096.size a := fun v2128 k0_hw131 => k0_hw131

def k0_chk132 (v2136 : IVec S16 32) : Prop :=
  (∀ a x, ((![v2136] : Fin 1 → IVec S16 32) a x).toNat < S4096.size a)
instance k0_chk132.dec : ∀ (v2136 : IVec S16 32), Decidable (k0_chk132 v2136) := fun v2136 => decidable_of_iff' _ (Iff.of_eq (k0_chk132.eq_1 v2136))
theorem k0_idx132_inb : ∀ (v2136 : IVec S16 32) (k0_hw132 : k0_chk132 v2136), ∀ a x, ((![v2136] : Fin 1 → IVec S16 32) a x).toNat < S4096.size a := fun v2136 k0_hw132 => k0_hw132

def k0_chk133 (v2144 : IVec S16 32) : Prop :=
  (∀ a x, ((![v2144] : Fin 1 → IVec S16 32) a x).toNat < S4096.size a)
instance k0_chk133.dec : ∀ (v2144 : IVec S16 32), Decidable (k0_chk133 v2144) := fun v2144 => decidable_of_iff' _ (Iff.of_eq (k0_chk133.eq_1 v2144))
theorem k0_idx133_inb : ∀ (v2144 : IVec S16 32) (k0_hw133 : k0_chk133 v2144), ∀ a x, ((![v2144] : Fin 1 → IVec S16 32) a x).toNat < S4096.size a := fun v2144 k0_hw133 => k0_hw133

def k0_chk134 (v2152 : IVec S16 32) : Prop :=
  (∀ a x, ((![v2152] : Fin 1 → IVec S16 32) a x).toNat < S4096.size a)
instance k0_chk134.dec : ∀ (v2152 : IVec S16 32), Decidable (k0_chk134 v2152) := fun v2152 => decidable_of_iff' _ (Iff.of_eq (k0_chk134.eq_1 v2152))
theorem k0_idx134_inb : ∀ (v2152 : IVec S16 32) (k0_hw134 : k0_chk134 v2152), ∀ a x, ((![v2152] : Fin 1 → IVec S16 32) a x).toNat < S4096.size a := fun v2152 k0_hw134 => k0_hw134

def k0_chk135 (v2160 : IVec S16 32) : Prop :=
  (∀ a x, ((![v2160] : Fin 1 → IVec S16 32) a x).toNat < S4096.size a)
instance k0_chk135.dec : ∀ (v2160 : IVec S16 32), Decidable (k0_chk135 v2160) := fun v2160 => decidable_of_iff' _ (Iff.of_eq (k0_chk135.eq_1 v2160))
theorem k0_idx135_inb : ∀ (v2160 : IVec S16 32) (k0_hw135 : k0_chk135 v2160), ∀ a x, ((![v2160] : Fin 1 → IVec S16 32) a x).toNat < S4096.size a := fun v2160 k0_hw135 => k0_hw135

def k0_chk136 (v2168 : IVec S16 32) : Prop :=
  (∀ a x, ((![v2168] : Fin 1 → IVec S16 32) a x).toNat < S4096.size a)
instance k0_chk136.dec : ∀ (v2168 : IVec S16 32), Decidable (k0_chk136 v2168) := fun v2168 => decidable_of_iff' _ (Iff.of_eq (k0_chk136.eq_1 v2168))
theorem k0_idx136_inb : ∀ (v2168 : IVec S16 32) (k0_hw136 : k0_chk136 v2168), ∀ a x, ((![v2168] : Fin 1 → IVec S16 32) a x).toNat < S4096.size a := fun v2168 k0_hw136 => k0_hw136

def k0_chk137 (v2176 : IVec S16 32) : Prop :=
  (∀ a x, ((![v2176] : Fin 1 → IVec S16 32) a x).toNat < S4096.size a)
instance k0_chk137.dec : ∀ (v2176 : IVec S16 32), Decidable (k0_chk137 v2176) := fun v2176 => decidable_of_iff' _ (Iff.of_eq (k0_chk137.eq_1 v2176))
theorem k0_idx137_inb : ∀ (v2176 : IVec S16 32) (k0_hw137 : k0_chk137 v2176), ∀ a x, ((![v2176] : Fin 1 → IVec S16 32) a x).toNat < S4096.size a := fun v2176 k0_hw137 => k0_hw137

def k0_chk138 (v2184 : IVec S16 32) : Prop :=
  (∀ a x, ((![v2184] : Fin 1 → IVec S16 32) a x).toNat < S4096.size a)
instance k0_chk138.dec : ∀ (v2184 : IVec S16 32), Decidable (k0_chk138 v2184) := fun v2184 => decidable_of_iff' _ (Iff.of_eq (k0_chk138.eq_1 v2184))
theorem k0_idx138_inb : ∀ (v2184 : IVec S16 32) (k0_hw138 : k0_chk138 v2184), ∀ a x, ((![v2184] : Fin 1 → IVec S16 32) a x).toNat < S4096.size a := fun v2184 k0_hw138 => k0_hw138

def k0_chk139 (v2192 : IVec S16 32) : Prop :=
  (∀ a x, ((![v2192] : Fin 1 → IVec S16 32) a x).toNat < S4096.size a)
instance k0_chk139.dec : ∀ (v2192 : IVec S16 32), Decidable (k0_chk139 v2192) := fun v2192 => decidable_of_iff' _ (Iff.of_eq (k0_chk139.eq_1 v2192))
theorem k0_idx139_inb : ∀ (v2192 : IVec S16 32) (k0_hw139 : k0_chk139 v2192), ∀ a x, ((![v2192] : Fin 1 → IVec S16 32) a x).toNat < S4096.size a := fun v2192 k0_hw139 => k0_hw139

def k0_chk140 (v2200 : IVec S16 32) : Prop :=
  (∀ a x, ((![v2200] : Fin 1 → IVec S16 32) a x).toNat < S4096.size a)
instance k0_chk140.dec : ∀ (v2200 : IVec S16 32), Decidable (k0_chk140 v2200) := fun v2200 => decidable_of_iff' _ (Iff.of_eq (k0_chk140.eq_1 v2200))
theorem k0_idx140_inb : ∀ (v2200 : IVec S16 32) (k0_hw140 : k0_chk140 v2200), ∀ a x, ((![v2200] : Fin 1 → IVec S16 32) a x).toNat < S4096.size a := fun v2200 k0_hw140 => k0_hw140

def k0_chk141 (v2208 : IVec S16 32) : Prop :=
  (∀ a x, ((![v2208] : Fin 1 → IVec S16 32) a x).toNat < S4096.size a)
instance k0_chk141.dec : ∀ (v2208 : IVec S16 32), Decidable (k0_chk141 v2208) := fun v2208 => decidable_of_iff' _ (Iff.of_eq (k0_chk141.eq_1 v2208))
theorem k0_idx141_inb : ∀ (v2208 : IVec S16 32) (k0_hw141 : k0_chk141 v2208), ∀ a x, ((![v2208] : Fin 1 → IVec S16 32) a x).toNat < S4096.size a := fun v2208 k0_hw141 => k0_hw141

def k0_chk142 (v2216 : IVec S16 32) : Prop :=
  (∀ a x, ((![v2216] : Fin 1 → IVec S16 32) a x).toNat < S4096.size a)
instance k0_chk142.dec : ∀ (v2216 : IVec S16 32), Decidable (k0_chk142 v2216) := fun v2216 => decidable_of_iff' _ (Iff.of_eq (k0_chk142.eq_1 v2216))
theorem k0_idx142_inb : ∀ (v2216 : IVec S16 32) (k0_hw142 : k0_chk142 v2216), ∀ a x, ((![v2216] : Fin 1 → IVec S16 32) a x).toNat < S4096.size a := fun v2216 k0_hw142 => k0_hw142

def k0_chk143 (v2224 : IVec S16 32) : Prop :=
  (∀ a x, ((![v2224] : Fin 1 → IVec S16 32) a x).toNat < S4096.size a)
instance k0_chk143.dec : ∀ (v2224 : IVec S16 32), Decidable (k0_chk143 v2224) := fun v2224 => decidable_of_iff' _ (Iff.of_eq (k0_chk143.eq_1 v2224))
theorem k0_idx143_inb : ∀ (v2224 : IVec S16 32) (k0_hw143 : k0_chk143 v2224), ∀ a x, ((![v2224] : Fin 1 → IVec S16 32) a x).toNat < S4096.size a := fun v2224 k0_hw143 => k0_hw143

def k0_chk144 (v2232 : IVec S16 32) : Prop :=
  (∀ a x, ((![v2232] : Fin 1 → IVec S16 32) a x).toNat < S4096.size a)
instance k0_chk144.dec : ∀ (v2232 : IVec S16 32), Decidable (k0_chk144 v2232) := fun v2232 => decidable_of_iff' _ (Iff.of_eq (k0_chk144.eq_1 v2232))
theorem k0_idx144_inb : ∀ (v2232 : IVec S16 32) (k0_hw144 : k0_chk144 v2232), ∀ a x, ((![v2232] : Fin 1 → IVec S16 32) a x).toNat < S4096.size a := fun v2232 k0_hw144 => k0_hw144

def k0_chk145 (v2240 : IVec S16 32) : Prop :=
  (∀ a x, ((![v2240] : Fin 1 → IVec S16 32) a x).toNat < S4096.size a)
instance k0_chk145.dec : ∀ (v2240 : IVec S16 32), Decidable (k0_chk145 v2240) := fun v2240 => decidable_of_iff' _ (Iff.of_eq (k0_chk145.eq_1 v2240))
theorem k0_idx145_inb : ∀ (v2240 : IVec S16 32) (k0_hw145 : k0_chk145 v2240), ∀ a x, ((![v2240] : Fin 1 → IVec S16 32) a x).toNat < S4096.size a := fun v2240 k0_hw145 => k0_hw145

def k0_chk146 (v2248 : IVec S16 32) : Prop :=
  (∀ a x, ((![v2248] : Fin 1 → IVec S16 32) a x).toNat < S4096.size a)
instance k0_chk146.dec : ∀ (v2248 : IVec S16 32), Decidable (k0_chk146 v2248) := fun v2248 => decidable_of_iff' _ (Iff.of_eq (k0_chk146.eq_1 v2248))
theorem k0_idx146_inb : ∀ (v2248 : IVec S16 32) (k0_hw146 : k0_chk146 v2248), ∀ a x, ((![v2248] : Fin 1 → IVec S16 32) a x).toNat < S4096.size a := fun v2248 k0_hw146 => k0_hw146

def k0_chk147 (v2256 : IVec S16 32) : Prop :=
  (∀ a x, ((![v2256] : Fin 1 → IVec S16 32) a x).toNat < S4096.size a)
instance k0_chk147.dec : ∀ (v2256 : IVec S16 32), Decidable (k0_chk147 v2256) := fun v2256 => decidable_of_iff' _ (Iff.of_eq (k0_chk147.eq_1 v2256))
theorem k0_idx147_inb : ∀ (v2256 : IVec S16 32) (k0_hw147 : k0_chk147 v2256), ∀ a x, ((![v2256] : Fin 1 → IVec S16 32) a x).toNat < S4096.size a := fun v2256 k0_hw147 => k0_hw147

def k0_chk148 (v2264 : IVec S16 32) : Prop :=
  (∀ a x, ((![v2264] : Fin 1 → IVec S16 32) a x).toNat < S4096.size a)
instance k0_chk148.dec : ∀ (v2264 : IVec S16 32), Decidable (k0_chk148 v2264) := fun v2264 => decidable_of_iff' _ (Iff.of_eq (k0_chk148.eq_1 v2264))
theorem k0_idx148_inb : ∀ (v2264 : IVec S16 32) (k0_hw148 : k0_chk148 v2264), ∀ a x, ((![v2264] : Fin 1 → IVec S16 32) a x).toNat < S4096.size a := fun v2264 k0_hw148 => k0_hw148

def k0_chk149 (v2272 : IVec S16 32) : Prop :=
  (∀ a x, ((![v2272] : Fin 1 → IVec S16 32) a x).toNat < S4096.size a)
instance k0_chk149.dec : ∀ (v2272 : IVec S16 32), Decidable (k0_chk149 v2272) := fun v2272 => decidable_of_iff' _ (Iff.of_eq (k0_chk149.eq_1 v2272))
theorem k0_idx149_inb : ∀ (v2272 : IVec S16 32) (k0_hw149 : k0_chk149 v2272), ∀ a x, ((![v2272] : Fin 1 → IVec S16 32) a x).toNat < S4096.size a := fun v2272 k0_hw149 => k0_hw149

def k0_chk150 (v2280 : IVec S16 32) : Prop :=
  (∀ a x, ((![v2280] : Fin 1 → IVec S16 32) a x).toNat < S4096.size a)
instance k0_chk150.dec : ∀ (v2280 : IVec S16 32), Decidable (k0_chk150 v2280) := fun v2280 => decidable_of_iff' _ (Iff.of_eq (k0_chk150.eq_1 v2280))
theorem k0_idx150_inb : ∀ (v2280 : IVec S16 32) (k0_hw150 : k0_chk150 v2280), ∀ a x, ((![v2280] : Fin 1 → IVec S16 32) a x).toNat < S4096.size a := fun v2280 k0_hw150 => k0_hw150

def k0_chk151 (v2288 : IVec S16 32) : Prop :=
  (∀ a x, ((![v2288] : Fin 1 → IVec S16 32) a x).toNat < S4096.size a)
instance k0_chk151.dec : ∀ (v2288 : IVec S16 32), Decidable (k0_chk151 v2288) := fun v2288 => decidable_of_iff' _ (Iff.of_eq (k0_chk151.eq_1 v2288))
theorem k0_idx151_inb : ∀ (v2288 : IVec S16 32) (k0_hw151 : k0_chk151 v2288), ∀ a x, ((![v2288] : Fin 1 → IVec S16 32) a x).toNat < S4096.size a := fun v2288 k0_hw151 => k0_hw151

def k0_chk152 (v2296 : IVec S16 32) : Prop :=
  (∀ a x, ((![v2296] : Fin 1 → IVec S16 32) a x).toNat < S4096.size a)
instance k0_chk152.dec : ∀ (v2296 : IVec S16 32), Decidable (k0_chk152 v2296) := fun v2296 => decidable_of_iff' _ (Iff.of_eq (k0_chk152.eq_1 v2296))
theorem k0_idx152_inb : ∀ (v2296 : IVec S16 32) (k0_hw152 : k0_chk152 v2296), ∀ a x, ((![v2296] : Fin 1 → IVec S16 32) a x).toNat < S4096.size a := fun v2296 k0_hw152 => k0_hw152

def k0_chk153 (v2304 : IVec S16 32) : Prop :=
  (∀ a x, ((![v2304] : Fin 1 → IVec S16 32) a x).toNat < S4096.size a)
instance k0_chk153.dec : ∀ (v2304 : IVec S16 32), Decidable (k0_chk153 v2304) := fun v2304 => decidable_of_iff' _ (Iff.of_eq (k0_chk153.eq_1 v2304))
theorem k0_idx153_inb : ∀ (v2304 : IVec S16 32) (k0_hw153 : k0_chk153 v2304), ∀ a x, ((![v2304] : Fin 1 → IVec S16 32) a x).toNat < S4096.size a := fun v2304 k0_hw153 => k0_hw153

def k0_chk154 (v2312 : IVec S16 32) : Prop :=
  (∀ a x, ((![v2312] : Fin 1 → IVec S16 32) a x).toNat < S4096.size a)
instance k0_chk154.dec : ∀ (v2312 : IVec S16 32), Decidable (k0_chk154 v2312) := fun v2312 => decidable_of_iff' _ (Iff.of_eq (k0_chk154.eq_1 v2312))
theorem k0_idx154_inb : ∀ (v2312 : IVec S16 32) (k0_hw154 : k0_chk154 v2312), ∀ a x, ((![v2312] : Fin 1 → IVec S16 32) a x).toNat < S4096.size a := fun v2312 k0_hw154 => k0_hw154

def k0_chk155 (v2320 : IVec S16 32) : Prop :=
  (∀ a x, ((![v2320] : Fin 1 → IVec S16 32) a x).toNat < S4096.size a)
instance k0_chk155.dec : ∀ (v2320 : IVec S16 32), Decidable (k0_chk155 v2320) := fun v2320 => decidable_of_iff' _ (Iff.of_eq (k0_chk155.eq_1 v2320))
theorem k0_idx155_inb : ∀ (v2320 : IVec S16 32) (k0_hw155 : k0_chk155 v2320), ∀ a x, ((![v2320] : Fin 1 → IVec S16 32) a x).toNat < S4096.size a := fun v2320 k0_hw155 => k0_hw155

def k0_chk156 (v2328 : IVec S16 32) : Prop :=
  (∀ a x, ((![v2328] : Fin 1 → IVec S16 32) a x).toNat < S4096.size a)
instance k0_chk156.dec : ∀ (v2328 : IVec S16 32), Decidable (k0_chk156 v2328) := fun v2328 => decidable_of_iff' _ (Iff.of_eq (k0_chk156.eq_1 v2328))
theorem k0_idx156_inb : ∀ (v2328 : IVec S16 32) (k0_hw156 : k0_chk156 v2328), ∀ a x, ((![v2328] : Fin 1 → IVec S16 32) a x).toNat < S4096.size a := fun v2328 k0_hw156 => k0_hw156

def k0_chk157 (v2336 : IVec S16 32) : Prop :=
  (∀ a x, ((![v2336] : Fin 1 → IVec S16 32) a x).toNat < S4096.size a)
instance k0_chk157.dec : ∀ (v2336 : IVec S16 32), Decidable (k0_chk157 v2336) := fun v2336 => decidable_of_iff' _ (Iff.of_eq (k0_chk157.eq_1 v2336))
theorem k0_idx157_inb : ∀ (v2336 : IVec S16 32) (k0_hw157 : k0_chk157 v2336), ∀ a x, ((![v2336] : Fin 1 → IVec S16 32) a x).toNat < S4096.size a := fun v2336 k0_hw157 => k0_hw157

def k0_chk158 (v2344 : IVec S16 32) : Prop :=
  (∀ a x, ((![v2344] : Fin 1 → IVec S16 32) a x).toNat < S4096.size a)
instance k0_chk158.dec : ∀ (v2344 : IVec S16 32), Decidable (k0_chk158 v2344) := fun v2344 => decidable_of_iff' _ (Iff.of_eq (k0_chk158.eq_1 v2344))
theorem k0_idx158_inb : ∀ (v2344 : IVec S16 32) (k0_hw158 : k0_chk158 v2344), ∀ a x, ((![v2344] : Fin 1 → IVec S16 32) a x).toNat < S4096.size a := fun v2344 k0_hw158 => k0_hw158

def k0_chk159 (v2352 : IVec S16 32) : Prop :=
  (∀ a x, ((![v2352] : Fin 1 → IVec S16 32) a x).toNat < S4096.size a)
instance k0_chk159.dec : ∀ (v2352 : IVec S16 32), Decidable (k0_chk159 v2352) := fun v2352 => decidable_of_iff' _ (Iff.of_eq (k0_chk159.eq_1 v2352))
theorem k0_idx159_inb : ∀ (v2352 : IVec S16 32) (k0_hw159 : k0_chk159 v2352), ∀ a x, ((![v2352] : Fin 1 → IVec S16 32) a x).toNat < S4096.size a := fun v2352 k0_hw159 => k0_hw159

def k0_chk160 (v2360 : IVec S16 32) : Prop :=
  (∀ a x, ((![v2360] : Fin 1 → IVec S16 32) a x).toNat < S4096.size a)
instance k0_chk160.dec : ∀ (v2360 : IVec S16 32), Decidable (k0_chk160 v2360) := fun v2360 => decidable_of_iff' _ (Iff.of_eq (k0_chk160.eq_1 v2360))
theorem k0_idx160_inb : ∀ (v2360 : IVec S16 32) (k0_hw160 : k0_chk160 v2360), ∀ a x, ((![v2360] : Fin 1 → IVec S16 32) a x).toNat < S4096.size a := fun v2360 k0_hw160 => k0_hw160

def k0_chk161 (v2368 : IVec S16 32) : Prop :=
  (∀ a x, ((![v2368] : Fin 1 → IVec S16 32) a x).toNat < S4096.size a)
instance k0_chk161.dec : ∀ (v2368 : IVec S16 32), Decidable (k0_chk161 v2368) := fun v2368 => decidable_of_iff' _ (Iff.of_eq (k0_chk161.eq_1 v2368))
theorem k0_idx161_inb : ∀ (v2368 : IVec S16 32) (k0_hw161 : k0_chk161 v2368), ∀ a x, ((![v2368] : Fin 1 → IVec S16 32) a x).toNat < S4096.size a := fun v2368 k0_hw161 => k0_hw161

def k0_chk162 (v2376 : IVec S16 32) : Prop :=
  (∀ a x, ((![v2376] : Fin 1 → IVec S16 32) a x).toNat < S4096.size a)
instance k0_chk162.dec : ∀ (v2376 : IVec S16 32), Decidable (k0_chk162 v2376) := fun v2376 => decidable_of_iff' _ (Iff.of_eq (k0_chk162.eq_1 v2376))
theorem k0_idx162_inb : ∀ (v2376 : IVec S16 32) (k0_hw162 : k0_chk162 v2376), ∀ a x, ((![v2376] : Fin 1 → IVec S16 32) a x).toNat < S4096.size a := fun v2376 k0_hw162 => k0_hw162

def k0_chk163 (v2384 : IVec S16 32) : Prop :=
  (∀ a x, ((![v2384] : Fin 1 → IVec S16 32) a x).toNat < S4096.size a)
instance k0_chk163.dec : ∀ (v2384 : IVec S16 32), Decidable (k0_chk163 v2384) := fun v2384 => decidable_of_iff' _ (Iff.of_eq (k0_chk163.eq_1 v2384))
theorem k0_idx163_inb : ∀ (v2384 : IVec S16 32) (k0_hw163 : k0_chk163 v2384), ∀ a x, ((![v2384] : Fin 1 → IVec S16 32) a x).toNat < S4096.size a := fun v2384 k0_hw163 => k0_hw163

def k0_chk164 (v2392 : IVec S16 32) : Prop :=
  (∀ a x, ((![v2392] : Fin 1 → IVec S16 32) a x).toNat < S4096.size a)
instance k0_chk164.dec : ∀ (v2392 : IVec S16 32), Decidable (k0_chk164 v2392) := fun v2392 => decidable_of_iff' _ (Iff.of_eq (k0_chk164.eq_1 v2392))
theorem k0_idx164_inb : ∀ (v2392 : IVec S16 32) (k0_hw164 : k0_chk164 v2392), ∀ a x, ((![v2392] : Fin 1 → IVec S16 32) a x).toNat < S4096.size a := fun v2392 k0_hw164 => k0_hw164

def k0_chk165 (v2400 : IVec S16 32) : Prop :=
  (∀ a x, ((![v2400] : Fin 1 → IVec S16 32) a x).toNat < S4096.size a)
instance k0_chk165.dec : ∀ (v2400 : IVec S16 32), Decidable (k0_chk165 v2400) := fun v2400 => decidable_of_iff' _ (Iff.of_eq (k0_chk165.eq_1 v2400))
theorem k0_idx165_inb : ∀ (v2400 : IVec S16 32) (k0_hw165 : k0_chk165 v2400), ∀ a x, ((![v2400] : Fin 1 → IVec S16 32) a x).toNat < S4096.size a := fun v2400 k0_hw165 => k0_hw165

def k0_chk166 (v2408 : IVec S16 32) : Prop :=
  (∀ a x, ((![v2408] : Fin 1 → IVec S16 32) a x).toNat < S4096.size a)
instance k0_chk166.dec : ∀ (v2408 : IVec S16 32), Decidable (k0_chk166 v2408) := fun v2408 => decidable_of_iff' _ (Iff.of_eq (k0_chk166.eq_1 v2408))
theorem k0_idx166_inb : ∀ (v2408 : IVec S16 32) (k0_hw166 : k0_chk166 v2408), ∀ a x, ((![v2408] : Fin 1 → IVec S16 32) a x).toNat < S4096.size a := fun v2408 k0_hw166 => k0_hw166

def k0_chk167 (v2416 : IVec S16 32) : Prop :=
  (∀ a x, ((![v2416] : Fin 1 → IVec S16 32) a x).toNat < S4096.size a)
instance k0_chk167.dec : ∀ (v2416 : IVec S16 32), Decidable (k0_chk167 v2416) := fun v2416 => decidable_of_iff' _ (Iff.of_eq (k0_chk167.eq_1 v2416))
theorem k0_idx167_inb : ∀ (v2416 : IVec S16 32) (k0_hw167 : k0_chk167 v2416), ∀ a x, ((![v2416] : Fin 1 → IVec S16 32) a x).toNat < S4096.size a := fun v2416 k0_hw167 => k0_hw167

def k0_chk168 (v2424 : IVec S16 32) : Prop :=
  (∀ a x, ((![v2424] : Fin 1 → IVec S16 32) a x).toNat < S4096.size a)
instance k0_chk168.dec : ∀ (v2424 : IVec S16 32), Decidable (k0_chk168 v2424) := fun v2424 => decidable_of_iff' _ (Iff.of_eq (k0_chk168.eq_1 v2424))
theorem k0_idx168_inb : ∀ (v2424 : IVec S16 32) (k0_hw168 : k0_chk168 v2424), ∀ a x, ((![v2424] : Fin 1 → IVec S16 32) a x).toNat < S4096.size a := fun v2424 k0_hw168 => k0_hw168

def k0_chk169 (v2432 : IVec S16 32) : Prop :=
  (∀ a x, ((![v2432] : Fin 1 → IVec S16 32) a x).toNat < S4096.size a)
instance k0_chk169.dec : ∀ (v2432 : IVec S16 32), Decidable (k0_chk169 v2432) := fun v2432 => decidable_of_iff' _ (Iff.of_eq (k0_chk169.eq_1 v2432))
theorem k0_idx169_inb : ∀ (v2432 : IVec S16 32) (k0_hw169 : k0_chk169 v2432), ∀ a x, ((![v2432] : Fin 1 → IVec S16 32) a x).toNat < S4096.size a := fun v2432 k0_hw169 => k0_hw169

def k0_chk170 (v2440 : IVec S16 32) : Prop :=
  (∀ a x, ((![v2440] : Fin 1 → IVec S16 32) a x).toNat < S4096.size a)
instance k0_chk170.dec : ∀ (v2440 : IVec S16 32), Decidable (k0_chk170 v2440) := fun v2440 => decidable_of_iff' _ (Iff.of_eq (k0_chk170.eq_1 v2440))
theorem k0_idx170_inb : ∀ (v2440 : IVec S16 32) (k0_hw170 : k0_chk170 v2440), ∀ a x, ((![v2440] : Fin 1 → IVec S16 32) a x).toNat < S4096.size a := fun v2440 k0_hw170 => k0_hw170

def k0_chk171 (v2448 : IVec S16 32) : Prop :=
  (∀ a x, ((![v2448] : Fin 1 → IVec S16 32) a x).toNat < S4096.size a)
instance k0_chk171.dec : ∀ (v2448 : IVec S16 32), Decidable (k0_chk171 v2448) := fun v2448 => decidable_of_iff' _ (Iff.of_eq (k0_chk171.eq_1 v2448))
theorem k0_idx171_inb : ∀ (v2448 : IVec S16 32) (k0_hw171 : k0_chk171 v2448), ∀ a x, ((![v2448] : Fin 1 → IVec S16 32) a x).toNat < S4096.size a := fun v2448 k0_hw171 => k0_hw171

def k0_chk172 (v2456 : IVec S16 32) : Prop :=
  (∀ a x, ((![v2456] : Fin 1 → IVec S16 32) a x).toNat < S4096.size a)
instance k0_chk172.dec : ∀ (v2456 : IVec S16 32), Decidable (k0_chk172 v2456) := fun v2456 => decidable_of_iff' _ (Iff.of_eq (k0_chk172.eq_1 v2456))
theorem k0_idx172_inb : ∀ (v2456 : IVec S16 32) (k0_hw172 : k0_chk172 v2456), ∀ a x, ((![v2456] : Fin 1 → IVec S16 32) a x).toNat < S4096.size a := fun v2456 k0_hw172 => k0_hw172

def k0_chk173 (v2464 : IVec S16 32) : Prop :=
  (∀ a x, ((![v2464] : Fin 1 → IVec S16 32) a x).toNat < S4096.size a)
instance k0_chk173.dec : ∀ (v2464 : IVec S16 32), Decidable (k0_chk173 v2464) := fun v2464 => decidable_of_iff' _ (Iff.of_eq (k0_chk173.eq_1 v2464))
theorem k0_idx173_inb : ∀ (v2464 : IVec S16 32) (k0_hw173 : k0_chk173 v2464), ∀ a x, ((![v2464] : Fin 1 → IVec S16 32) a x).toNat < S4096.size a := fun v2464 k0_hw173 => k0_hw173

def k0_chk174 (v2472 : IVec S16 32) : Prop :=
  (∀ a x, ((![v2472] : Fin 1 → IVec S16 32) a x).toNat < S4096.size a)
instance k0_chk174.dec : ∀ (v2472 : IVec S16 32), Decidable (k0_chk174 v2472) := fun v2472 => decidable_of_iff' _ (Iff.of_eq (k0_chk174.eq_1 v2472))
theorem k0_idx174_inb : ∀ (v2472 : IVec S16 32) (k0_hw174 : k0_chk174 v2472), ∀ a x, ((![v2472] : Fin 1 → IVec S16 32) a x).toNat < S4096.size a := fun v2472 k0_hw174 => k0_hw174

def k0_chk175 (v2480 : IVec S16 32) : Prop :=
  (∀ a x, ((![v2480] : Fin 1 → IVec S16 32) a x).toNat < S4096.size a)
instance k0_chk175.dec : ∀ (v2480 : IVec S16 32), Decidable (k0_chk175 v2480) := fun v2480 => decidable_of_iff' _ (Iff.of_eq (k0_chk175.eq_1 v2480))
theorem k0_idx175_inb : ∀ (v2480 : IVec S16 32) (k0_hw175 : k0_chk175 v2480), ∀ a x, ((![v2480] : Fin 1 → IVec S16 32) a x).toNat < S4096.size a := fun v2480 k0_hw175 => k0_hw175

def k0_chk176 (v2488 : IVec S16 32) : Prop :=
  (∀ a x, ((![v2488] : Fin 1 → IVec S16 32) a x).toNat < S4096.size a)
instance k0_chk176.dec : ∀ (v2488 : IVec S16 32), Decidable (k0_chk176 v2488) := fun v2488 => decidable_of_iff' _ (Iff.of_eq (k0_chk176.eq_1 v2488))
theorem k0_idx176_inb : ∀ (v2488 : IVec S16 32) (k0_hw176 : k0_chk176 v2488), ∀ a x, ((![v2488] : Fin 1 → IVec S16 32) a x).toNat < S4096.size a := fun v2488 k0_hw176 => k0_hw176

def k0_chk177 (v2496 : IVec S16 32) : Prop :=
  (∀ a x, ((![v2496] : Fin 1 → IVec S16 32) a x).toNat < S4096.size a)
instance k0_chk177.dec : ∀ (v2496 : IVec S16 32), Decidable (k0_chk177 v2496) := fun v2496 => decidable_of_iff' _ (Iff.of_eq (k0_chk177.eq_1 v2496))
theorem k0_idx177_inb : ∀ (v2496 : IVec S16 32) (k0_hw177 : k0_chk177 v2496), ∀ a x, ((![v2496] : Fin 1 → IVec S16 32) a x).toNat < S4096.size a := fun v2496 k0_hw177 => k0_hw177

def k0_chk178 (v2504 : IVec S16 32) : Prop :=
  (∀ a x, ((![v2504] : Fin 1 → IVec S16 32) a x).toNat < S4096.size a)
instance k0_chk178.dec : ∀ (v2504 : IVec S16 32), Decidable (k0_chk178 v2504) := fun v2504 => decidable_of_iff' _ (Iff.of_eq (k0_chk178.eq_1 v2504))
theorem k0_idx178_inb : ∀ (v2504 : IVec S16 32) (k0_hw178 : k0_chk178 v2504), ∀ a x, ((![v2504] : Fin 1 → IVec S16 32) a x).toNat < S4096.size a := fun v2504 k0_hw178 => k0_hw178

def k0_chk179 (v2512 : IVec S16 32) : Prop :=
  (∀ a x, ((![v2512] : Fin 1 → IVec S16 32) a x).toNat < S4096.size a)
instance k0_chk179.dec : ∀ (v2512 : IVec S16 32), Decidable (k0_chk179 v2512) := fun v2512 => decidable_of_iff' _ (Iff.of_eq (k0_chk179.eq_1 v2512))
theorem k0_idx179_inb : ∀ (v2512 : IVec S16 32) (k0_hw179 : k0_chk179 v2512), ∀ a x, ((![v2512] : Fin 1 → IVec S16 32) a x).toNat < S4096.size a := fun v2512 k0_hw179 => k0_hw179

def k0_chk180 (v2520 : IVec S16 32) : Prop :=
  (∀ a x, ((![v2520] : Fin 1 → IVec S16 32) a x).toNat < S4096.size a)
instance k0_chk180.dec : ∀ (v2520 : IVec S16 32), Decidable (k0_chk180 v2520) := fun v2520 => decidable_of_iff' _ (Iff.of_eq (k0_chk180.eq_1 v2520))
theorem k0_idx180_inb : ∀ (v2520 : IVec S16 32) (k0_hw180 : k0_chk180 v2520), ∀ a x, ((![v2520] : Fin 1 → IVec S16 32) a x).toNat < S4096.size a := fun v2520 k0_hw180 => k0_hw180

def k0_chk181 (v2528 : IVec S16 32) : Prop :=
  (∀ a x, ((![v2528] : Fin 1 → IVec S16 32) a x).toNat < S4096.size a)
instance k0_chk181.dec : ∀ (v2528 : IVec S16 32), Decidable (k0_chk181 v2528) := fun v2528 => decidable_of_iff' _ (Iff.of_eq (k0_chk181.eq_1 v2528))
theorem k0_idx181_inb : ∀ (v2528 : IVec S16 32) (k0_hw181 : k0_chk181 v2528), ∀ a x, ((![v2528] : Fin 1 → IVec S16 32) a x).toNat < S4096.size a := fun v2528 k0_hw181 => k0_hw181

def k0_chk182 (v2536 : IVec S16 32) : Prop :=
  (∀ a x, ((![v2536] : Fin 1 → IVec S16 32) a x).toNat < S4096.size a)
instance k0_chk182.dec : ∀ (v2536 : IVec S16 32), Decidable (k0_chk182 v2536) := fun v2536 => decidable_of_iff' _ (Iff.of_eq (k0_chk182.eq_1 v2536))
theorem k0_idx182_inb : ∀ (v2536 : IVec S16 32) (k0_hw182 : k0_chk182 v2536), ∀ a x, ((![v2536] : Fin 1 → IVec S16 32) a x).toNat < S4096.size a := fun v2536 k0_hw182 => k0_hw182

def k0_chk183 (v2544 : IVec S16 32) : Prop :=
  (∀ a x, ((![v2544] : Fin 1 → IVec S16 32) a x).toNat < S4096.size a)
instance k0_chk183.dec : ∀ (v2544 : IVec S16 32), Decidable (k0_chk183 v2544) := fun v2544 => decidable_of_iff' _ (Iff.of_eq (k0_chk183.eq_1 v2544))
theorem k0_idx183_inb : ∀ (v2544 : IVec S16 32) (k0_hw183 : k0_chk183 v2544), ∀ a x, ((![v2544] : Fin 1 → IVec S16 32) a x).toNat < S4096.size a := fun v2544 k0_hw183 => k0_hw183

def k0_chk184 (v2552 : IVec S16 32) : Prop :=
  (∀ a x, ((![v2552] : Fin 1 → IVec S16 32) a x).toNat < S4096.size a)
instance k0_chk184.dec : ∀ (v2552 : IVec S16 32), Decidable (k0_chk184 v2552) := fun v2552 => decidable_of_iff' _ (Iff.of_eq (k0_chk184.eq_1 v2552))
theorem k0_idx184_inb : ∀ (v2552 : IVec S16 32) (k0_hw184 : k0_chk184 v2552), ∀ a x, ((![v2552] : Fin 1 → IVec S16 32) a x).toNat < S4096.size a := fun v2552 k0_hw184 => k0_hw184

def k0_chk185 (v2560 : IVec S16 32) : Prop :=
  (∀ a x, ((![v2560] : Fin 1 → IVec S16 32) a x).toNat < S4096.size a)
instance k0_chk185.dec : ∀ (v2560 : IVec S16 32), Decidable (k0_chk185 v2560) := fun v2560 => decidable_of_iff' _ (Iff.of_eq (k0_chk185.eq_1 v2560))
theorem k0_idx185_inb : ∀ (v2560 : IVec S16 32) (k0_hw185 : k0_chk185 v2560), ∀ a x, ((![v2560] : Fin 1 → IVec S16 32) a x).toNat < S4096.size a := fun v2560 k0_hw185 => k0_hw185

def k0_chk186 (v2568 : IVec S16 32) : Prop :=
  (∀ a x, ((![v2568] : Fin 1 → IVec S16 32) a x).toNat < S4096.size a)
instance k0_chk186.dec : ∀ (v2568 : IVec S16 32), Decidable (k0_chk186 v2568) := fun v2568 => decidable_of_iff' _ (Iff.of_eq (k0_chk186.eq_1 v2568))
theorem k0_idx186_inb : ∀ (v2568 : IVec S16 32) (k0_hw186 : k0_chk186 v2568), ∀ a x, ((![v2568] : Fin 1 → IVec S16 32) a x).toNat < S4096.size a := fun v2568 k0_hw186 => k0_hw186

def k0_chk187 (v2576 : IVec S16 32) : Prop :=
  (∀ a x, ((![v2576] : Fin 1 → IVec S16 32) a x).toNat < S4096.size a)
instance k0_chk187.dec : ∀ (v2576 : IVec S16 32), Decidable (k0_chk187 v2576) := fun v2576 => decidable_of_iff' _ (Iff.of_eq (k0_chk187.eq_1 v2576))
theorem k0_idx187_inb : ∀ (v2576 : IVec S16 32) (k0_hw187 : k0_chk187 v2576), ∀ a x, ((![v2576] : Fin 1 → IVec S16 32) a x).toNat < S4096.size a := fun v2576 k0_hw187 => k0_hw187

def k0_chk188 (v2584 : IVec S16 32) : Prop :=
  (∀ a x, ((![v2584] : Fin 1 → IVec S16 32) a x).toNat < S4096.size a)
instance k0_chk188.dec : ∀ (v2584 : IVec S16 32), Decidable (k0_chk188 v2584) := fun v2584 => decidable_of_iff' _ (Iff.of_eq (k0_chk188.eq_1 v2584))
theorem k0_idx188_inb : ∀ (v2584 : IVec S16 32) (k0_hw188 : k0_chk188 v2584), ∀ a x, ((![v2584] : Fin 1 → IVec S16 32) a x).toNat < S4096.size a := fun v2584 k0_hw188 => k0_hw188

def k0_chk189 (v2592 : IVec S16 32) : Prop :=
  (∀ a x, ((![v2592] : Fin 1 → IVec S16 32) a x).toNat < S4096.size a)
instance k0_chk189.dec : ∀ (v2592 : IVec S16 32), Decidable (k0_chk189 v2592) := fun v2592 => decidable_of_iff' _ (Iff.of_eq (k0_chk189.eq_1 v2592))
theorem k0_idx189_inb : ∀ (v2592 : IVec S16 32) (k0_hw189 : k0_chk189 v2592), ∀ a x, ((![v2592] : Fin 1 → IVec S16 32) a x).toNat < S4096.size a := fun v2592 k0_hw189 => k0_hw189

def k0_chk190 (v2600 : IVec S16 32) : Prop :=
  (∀ a x, ((![v2600] : Fin 1 → IVec S16 32) a x).toNat < S4096.size a)
instance k0_chk190.dec : ∀ (v2600 : IVec S16 32), Decidable (k0_chk190 v2600) := fun v2600 => decidable_of_iff' _ (Iff.of_eq (k0_chk190.eq_1 v2600))
theorem k0_idx190_inb : ∀ (v2600 : IVec S16 32) (k0_hw190 : k0_chk190 v2600), ∀ a x, ((![v2600] : Fin 1 → IVec S16 32) a x).toNat < S4096.size a := fun v2600 k0_hw190 => k0_hw190

def k0_chk191 (v2608 : IVec S16 32) : Prop :=
  (∀ a x, ((![v2608] : Fin 1 → IVec S16 32) a x).toNat < S4096.size a)
instance k0_chk191.dec : ∀ (v2608 : IVec S16 32), Decidable (k0_chk191 v2608) := fun v2608 => decidable_of_iff' _ (Iff.of_eq (k0_chk191.eq_1 v2608))
theorem k0_idx191_inb : ∀ (v2608 : IVec S16 32) (k0_hw191 : k0_chk191 v2608), ∀ a x, ((![v2608] : Fin 1 → IVec S16 32) a x).toNat < S4096.size a := fun v2608 k0_hw191 => k0_hw191

def k0_chk192 (v2616 : IVec S16 32) : Prop :=
  (∀ a x, ((![v2616] : Fin 1 → IVec S16 32) a x).toNat < S4096.size a)
instance k0_chk192.dec : ∀ (v2616 : IVec S16 32), Decidable (k0_chk192 v2616) := fun v2616 => decidable_of_iff' _ (Iff.of_eq (k0_chk192.eq_1 v2616))
theorem k0_idx192_inb : ∀ (v2616 : IVec S16 32) (k0_hw192 : k0_chk192 v2616), ∀ a x, ((![v2616] : Fin 1 → IVec S16 32) a x).toNat < S4096.size a := fun v2616 k0_hw192 => k0_hw192

def k0_chk193 (v2624 : IVec S16 32) : Prop :=
  (∀ a x, ((![v2624] : Fin 1 → IVec S16 32) a x).toNat < S4096.size a)
instance k0_chk193.dec : ∀ (v2624 : IVec S16 32), Decidable (k0_chk193 v2624) := fun v2624 => decidable_of_iff' _ (Iff.of_eq (k0_chk193.eq_1 v2624))
theorem k0_idx193_inb : ∀ (v2624 : IVec S16 32) (k0_hw193 : k0_chk193 v2624), ∀ a x, ((![v2624] : Fin 1 → IVec S16 32) a x).toNat < S4096.size a := fun v2624 k0_hw193 => k0_hw193

def k0_chk194 (v2632 : IVec S16 32) : Prop :=
  (∀ a x, ((![v2632] : Fin 1 → IVec S16 32) a x).toNat < S4096.size a)
instance k0_chk194.dec : ∀ (v2632 : IVec S16 32), Decidable (k0_chk194 v2632) := fun v2632 => decidable_of_iff' _ (Iff.of_eq (k0_chk194.eq_1 v2632))
theorem k0_idx194_inb : ∀ (v2632 : IVec S16 32) (k0_hw194 : k0_chk194 v2632), ∀ a x, ((![v2632] : Fin 1 → IVec S16 32) a x).toNat < S4096.size a := fun v2632 k0_hw194 => k0_hw194

def k0_chk195 (v2640 : IVec S16 32) : Prop :=
  (∀ a x, ((![v2640] : Fin 1 → IVec S16 32) a x).toNat < S4096.size a)
instance k0_chk195.dec : ∀ (v2640 : IVec S16 32), Decidable (k0_chk195 v2640) := fun v2640 => decidable_of_iff' _ (Iff.of_eq (k0_chk195.eq_1 v2640))
theorem k0_idx195_inb : ∀ (v2640 : IVec S16 32) (k0_hw195 : k0_chk195 v2640), ∀ a x, ((![v2640] : Fin 1 → IVec S16 32) a x).toNat < S4096.size a := fun v2640 k0_hw195 => k0_hw195

def k0_chk196 (v2648 : IVec S16 32) : Prop :=
  (∀ a x, ((![v2648] : Fin 1 → IVec S16 32) a x).toNat < S4096.size a)
instance k0_chk196.dec : ∀ (v2648 : IVec S16 32), Decidable (k0_chk196 v2648) := fun v2648 => decidable_of_iff' _ (Iff.of_eq (k0_chk196.eq_1 v2648))
theorem k0_idx196_inb : ∀ (v2648 : IVec S16 32) (k0_hw196 : k0_chk196 v2648), ∀ a x, ((![v2648] : Fin 1 → IVec S16 32) a x).toNat < S4096.size a := fun v2648 k0_hw196 => k0_hw196

def k0_chk197 (v2656 : IVec S16 32) : Prop :=
  (∀ a x, ((![v2656] : Fin 1 → IVec S16 32) a x).toNat < S4096.size a)
instance k0_chk197.dec : ∀ (v2656 : IVec S16 32), Decidable (k0_chk197 v2656) := fun v2656 => decidable_of_iff' _ (Iff.of_eq (k0_chk197.eq_1 v2656))
theorem k0_idx197_inb : ∀ (v2656 : IVec S16 32) (k0_hw197 : k0_chk197 v2656), ∀ a x, ((![v2656] : Fin 1 → IVec S16 32) a x).toNat < S4096.size a := fun v2656 k0_hw197 => k0_hw197

def k0_chk198 (v2664 : IVec S16 32) : Prop :=
  (∀ a x, ((![v2664] : Fin 1 → IVec S16 32) a x).toNat < S4096.size a)
instance k0_chk198.dec : ∀ (v2664 : IVec S16 32), Decidable (k0_chk198 v2664) := fun v2664 => decidable_of_iff' _ (Iff.of_eq (k0_chk198.eq_1 v2664))
theorem k0_idx198_inb : ∀ (v2664 : IVec S16 32) (k0_hw198 : k0_chk198 v2664), ∀ a x, ((![v2664] : Fin 1 → IVec S16 32) a x).toNat < S4096.size a := fun v2664 k0_hw198 => k0_hw198

def k0_chk199 (v2672 : IVec S16 32) : Prop :=
  (∀ a x, ((![v2672] : Fin 1 → IVec S16 32) a x).toNat < S4096.size a)
instance k0_chk199.dec : ∀ (v2672 : IVec S16 32), Decidable (k0_chk199 v2672) := fun v2672 => decidable_of_iff' _ (Iff.of_eq (k0_chk199.eq_1 v2672))
theorem k0_idx199_inb : ∀ (v2672 : IVec S16 32) (k0_hw199 : k0_chk199 v2672), ∀ a x, ((![v2672] : Fin 1 → IVec S16 32) a x).toNat < S4096.size a := fun v2672 k0_hw199 => k0_hw199

def k0_chk200 (v2680 : IVec S16 32) : Prop :=
  (∀ a x, ((![v2680] : Fin 1 → IVec S16 32) a x).toNat < S4096.size a)
instance k0_chk200.dec : ∀ (v2680 : IVec S16 32), Decidable (k0_chk200 v2680) := fun v2680 => decidable_of_iff' _ (Iff.of_eq (k0_chk200.eq_1 v2680))
theorem k0_idx200_inb : ∀ (v2680 : IVec S16 32) (k0_hw200 : k0_chk200 v2680), ∀ a x, ((![v2680] : Fin 1 → IVec S16 32) a x).toNat < S4096.size a := fun v2680 k0_hw200 => k0_hw200

def k0_chk201 (v2688 : IVec S16 32) : Prop :=
  (∀ a x, ((![v2688] : Fin 1 → IVec S16 32) a x).toNat < S4096.size a)
instance k0_chk201.dec : ∀ (v2688 : IVec S16 32), Decidable (k0_chk201 v2688) := fun v2688 => decidable_of_iff' _ (Iff.of_eq (k0_chk201.eq_1 v2688))
theorem k0_idx201_inb : ∀ (v2688 : IVec S16 32) (k0_hw201 : k0_chk201 v2688), ∀ a x, ((![v2688] : Fin 1 → IVec S16 32) a x).toNat < S4096.size a := fun v2688 k0_hw201 => k0_hw201

def k0_chk202 (v2696 : IVec S16 32) : Prop :=
  (∀ a x, ((![v2696] : Fin 1 → IVec S16 32) a x).toNat < S4096.size a)
instance k0_chk202.dec : ∀ (v2696 : IVec S16 32), Decidable (k0_chk202 v2696) := fun v2696 => decidable_of_iff' _ (Iff.of_eq (k0_chk202.eq_1 v2696))
theorem k0_idx202_inb : ∀ (v2696 : IVec S16 32) (k0_hw202 : k0_chk202 v2696), ∀ a x, ((![v2696] : Fin 1 → IVec S16 32) a x).toNat < S4096.size a := fun v2696 k0_hw202 => k0_hw202

def k0_chk203 (v2704 : IVec S16 32) : Prop :=
  (∀ a x, ((![v2704] : Fin 1 → IVec S16 32) a x).toNat < S4096.size a)
instance k0_chk203.dec : ∀ (v2704 : IVec S16 32), Decidable (k0_chk203 v2704) := fun v2704 => decidable_of_iff' _ (Iff.of_eq (k0_chk203.eq_1 v2704))
theorem k0_idx203_inb : ∀ (v2704 : IVec S16 32) (k0_hw203 : k0_chk203 v2704), ∀ a x, ((![v2704] : Fin 1 → IVec S16 32) a x).toNat < S4096.size a := fun v2704 k0_hw203 => k0_hw203

def k0_chk204 (v2712 : IVec S16 32) : Prop :=
  (∀ a x, ((![v2712] : Fin 1 → IVec S16 32) a x).toNat < S4096.size a)
instance k0_chk204.dec : ∀ (v2712 : IVec S16 32), Decidable (k0_chk204 v2712) := fun v2712 => decidable_of_iff' _ (Iff.of_eq (k0_chk204.eq_1 v2712))
theorem k0_idx204_inb : ∀ (v2712 : IVec S16 32) (k0_hw204 : k0_chk204 v2712), ∀ a x, ((![v2712] : Fin 1 → IVec S16 32) a x).toNat < S4096.size a := fun v2712 k0_hw204 => k0_hw204

def k0_chk205 (v2720 : IVec S16 32) : Prop :=
  (∀ a x, ((![v2720] : Fin 1 → IVec S16 32) a x).toNat < S4096.size a)
instance k0_chk205.dec : ∀ (v2720 : IVec S16 32), Decidable (k0_chk205 v2720) := fun v2720 => decidable_of_iff' _ (Iff.of_eq (k0_chk205.eq_1 v2720))
theorem k0_idx205_inb : ∀ (v2720 : IVec S16 32) (k0_hw205 : k0_chk205 v2720), ∀ a x, ((![v2720] : Fin 1 → IVec S16 32) a x).toNat < S4096.size a := fun v2720 k0_hw205 => k0_hw205

def k0_chk206 (v2728 : IVec S16 32) : Prop :=
  (∀ a x, ((![v2728] : Fin 1 → IVec S16 32) a x).toNat < S4096.size a)
instance k0_chk206.dec : ∀ (v2728 : IVec S16 32), Decidable (k0_chk206 v2728) := fun v2728 => decidable_of_iff' _ (Iff.of_eq (k0_chk206.eq_1 v2728))
theorem k0_idx206_inb : ∀ (v2728 : IVec S16 32) (k0_hw206 : k0_chk206 v2728), ∀ a x, ((![v2728] : Fin 1 → IVec S16 32) a x).toNat < S4096.size a := fun v2728 k0_hw206 => k0_hw206

def k0_chk207 (v2736 : IVec S16 32) : Prop :=
  (∀ a x, ((![v2736] : Fin 1 → IVec S16 32) a x).toNat < S4096.size a)
instance k0_chk207.dec : ∀ (v2736 : IVec S16 32), Decidable (k0_chk207 v2736) := fun v2736 => decidable_of_iff' _ (Iff.of_eq (k0_chk207.eq_1 v2736))
theorem k0_idx207_inb : ∀ (v2736 : IVec S16 32) (k0_hw207 : k0_chk207 v2736), ∀ a x, ((![v2736] : Fin 1 → IVec S16 32) a x).toNat < S4096.size a := fun v2736 k0_hw207 => k0_hw207

def k0_chk208 (v2744 : IVec S16 32) : Prop :=
  (∀ a x, ((![v2744] : Fin 1 → IVec S16 32) a x).toNat < S4096.size a)
instance k0_chk208.dec : ∀ (v2744 : IVec S16 32), Decidable (k0_chk208 v2744) := fun v2744 => decidable_of_iff' _ (Iff.of_eq (k0_chk208.eq_1 v2744))
theorem k0_idx208_inb : ∀ (v2744 : IVec S16 32) (k0_hw208 : k0_chk208 v2744), ∀ a x, ((![v2744] : Fin 1 → IVec S16 32) a x).toNat < S4096.size a := fun v2744 k0_hw208 => k0_hw208

def k0_chk209 (v2752 : IVec S16 32) : Prop :=
  (∀ a x, ((![v2752] : Fin 1 → IVec S16 32) a x).toNat < S4096.size a)
instance k0_chk209.dec : ∀ (v2752 : IVec S16 32), Decidable (k0_chk209 v2752) := fun v2752 => decidable_of_iff' _ (Iff.of_eq (k0_chk209.eq_1 v2752))
theorem k0_idx209_inb : ∀ (v2752 : IVec S16 32) (k0_hw209 : k0_chk209 v2752), ∀ a x, ((![v2752] : Fin 1 → IVec S16 32) a x).toNat < S4096.size a := fun v2752 k0_hw209 => k0_hw209

def k0_chk210 (v2760 : IVec S16 32) : Prop :=
  (∀ a x, ((![v2760] : Fin 1 → IVec S16 32) a x).toNat < S4096.size a)
instance k0_chk210.dec : ∀ (v2760 : IVec S16 32), Decidable (k0_chk210 v2760) := fun v2760 => decidable_of_iff' _ (Iff.of_eq (k0_chk210.eq_1 v2760))
theorem k0_idx210_inb : ∀ (v2760 : IVec S16 32) (k0_hw210 : k0_chk210 v2760), ∀ a x, ((![v2760] : Fin 1 → IVec S16 32) a x).toNat < S4096.size a := fun v2760 k0_hw210 => k0_hw210

def k0_chk211 (v2768 : IVec S16 32) : Prop :=
  (∀ a x, ((![v2768] : Fin 1 → IVec S16 32) a x).toNat < S4096.size a)
instance k0_chk211.dec : ∀ (v2768 : IVec S16 32), Decidable (k0_chk211 v2768) := fun v2768 => decidable_of_iff' _ (Iff.of_eq (k0_chk211.eq_1 v2768))
theorem k0_idx211_inb : ∀ (v2768 : IVec S16 32) (k0_hw211 : k0_chk211 v2768), ∀ a x, ((![v2768] : Fin 1 → IVec S16 32) a x).toNat < S4096.size a := fun v2768 k0_hw211 => k0_hw211

def k0_chk212 (v2776 : IVec S16 32) : Prop :=
  (∀ a x, ((![v2776] : Fin 1 → IVec S16 32) a x).toNat < S4096.size a)
instance k0_chk212.dec : ∀ (v2776 : IVec S16 32), Decidable (k0_chk212 v2776) := fun v2776 => decidable_of_iff' _ (Iff.of_eq (k0_chk212.eq_1 v2776))
theorem k0_idx212_inb : ∀ (v2776 : IVec S16 32) (k0_hw212 : k0_chk212 v2776), ∀ a x, ((![v2776] : Fin 1 → IVec S16 32) a x).toNat < S4096.size a := fun v2776 k0_hw212 => k0_hw212

def k0_chk213 (v2784 : IVec S16 32) : Prop :=
  (∀ a x, ((![v2784] : Fin 1 → IVec S16 32) a x).toNat < S4096.size a)
instance k0_chk213.dec : ∀ (v2784 : IVec S16 32), Decidable (k0_chk213 v2784) := fun v2784 => decidable_of_iff' _ (Iff.of_eq (k0_chk213.eq_1 v2784))
theorem k0_idx213_inb : ∀ (v2784 : IVec S16 32) (k0_hw213 : k0_chk213 v2784), ∀ a x, ((![v2784] : Fin 1 → IVec S16 32) a x).toNat < S4096.size a := fun v2784 k0_hw213 => k0_hw213

def k0_chk214 (v2792 : IVec S16 32) : Prop :=
  (∀ a x, ((![v2792] : Fin 1 → IVec S16 32) a x).toNat < S4096.size a)
instance k0_chk214.dec : ∀ (v2792 : IVec S16 32), Decidable (k0_chk214 v2792) := fun v2792 => decidable_of_iff' _ (Iff.of_eq (k0_chk214.eq_1 v2792))
theorem k0_idx214_inb : ∀ (v2792 : IVec S16 32) (k0_hw214 : k0_chk214 v2792), ∀ a x, ((![v2792] : Fin 1 → IVec S16 32) a x).toNat < S4096.size a := fun v2792 k0_hw214 => k0_hw214

def k0_chk215 (v2800 : IVec S16 32) : Prop :=
  (∀ a x, ((![v2800] : Fin 1 → IVec S16 32) a x).toNat < S4096.size a)
instance k0_chk215.dec : ∀ (v2800 : IVec S16 32), Decidable (k0_chk215 v2800) := fun v2800 => decidable_of_iff' _ (Iff.of_eq (k0_chk215.eq_1 v2800))
theorem k0_idx215_inb : ∀ (v2800 : IVec S16 32) (k0_hw215 : k0_chk215 v2800), ∀ a x, ((![v2800] : Fin 1 → IVec S16 32) a x).toNat < S4096.size a := fun v2800 k0_hw215 => k0_hw215

def k0_chk216 (v2808 : IVec S16 32) : Prop :=
  (∀ a x, ((![v2808] : Fin 1 → IVec S16 32) a x).toNat < S4096.size a)
instance k0_chk216.dec : ∀ (v2808 : IVec S16 32), Decidable (k0_chk216 v2808) := fun v2808 => decidable_of_iff' _ (Iff.of_eq (k0_chk216.eq_1 v2808))
theorem k0_idx216_inb : ∀ (v2808 : IVec S16 32) (k0_hw216 : k0_chk216 v2808), ∀ a x, ((![v2808] : Fin 1 → IVec S16 32) a x).toNat < S4096.size a := fun v2808 k0_hw216 => k0_hw216

def k0_chk217 (v2816 : IVec S16 32) : Prop :=
  (∀ a x, ((![v2816] : Fin 1 → IVec S16 32) a x).toNat < S4096.size a)
instance k0_chk217.dec : ∀ (v2816 : IVec S16 32), Decidable (k0_chk217 v2816) := fun v2816 => decidable_of_iff' _ (Iff.of_eq (k0_chk217.eq_1 v2816))
theorem k0_idx217_inb : ∀ (v2816 : IVec S16 32) (k0_hw217 : k0_chk217 v2816), ∀ a x, ((![v2816] : Fin 1 → IVec S16 32) a x).toNat < S4096.size a := fun v2816 k0_hw217 => k0_hw217

def k0_chk218 (v2824 : IVec S16 32) : Prop :=
  (∀ a x, ((![v2824] : Fin 1 → IVec S16 32) a x).toNat < S4096.size a)
instance k0_chk218.dec : ∀ (v2824 : IVec S16 32), Decidable (k0_chk218 v2824) := fun v2824 => decidable_of_iff' _ (Iff.of_eq (k0_chk218.eq_1 v2824))
theorem k0_idx218_inb : ∀ (v2824 : IVec S16 32) (k0_hw218 : k0_chk218 v2824), ∀ a x, ((![v2824] : Fin 1 → IVec S16 32) a x).toNat < S4096.size a := fun v2824 k0_hw218 => k0_hw218

def k0_chk219 (v2832 : IVec S16 32) : Prop :=
  (∀ a x, ((![v2832] : Fin 1 → IVec S16 32) a x).toNat < S4096.size a)
instance k0_chk219.dec : ∀ (v2832 : IVec S16 32), Decidable (k0_chk219 v2832) := fun v2832 => decidable_of_iff' _ (Iff.of_eq (k0_chk219.eq_1 v2832))
theorem k0_idx219_inb : ∀ (v2832 : IVec S16 32) (k0_hw219 : k0_chk219 v2832), ∀ a x, ((![v2832] : Fin 1 → IVec S16 32) a x).toNat < S4096.size a := fun v2832 k0_hw219 => k0_hw219

def k0_chk220 (v2840 : IVec S16 32) : Prop :=
  (∀ a x, ((![v2840] : Fin 1 → IVec S16 32) a x).toNat < S4096.size a)
instance k0_chk220.dec : ∀ (v2840 : IVec S16 32), Decidable (k0_chk220 v2840) := fun v2840 => decidable_of_iff' _ (Iff.of_eq (k0_chk220.eq_1 v2840))
theorem k0_idx220_inb : ∀ (v2840 : IVec S16 32) (k0_hw220 : k0_chk220 v2840), ∀ a x, ((![v2840] : Fin 1 → IVec S16 32) a x).toNat < S4096.size a := fun v2840 k0_hw220 => k0_hw220

def k0_chk221 (v2848 : IVec S16 32) : Prop :=
  (∀ a x, ((![v2848] : Fin 1 → IVec S16 32) a x).toNat < S4096.size a)
instance k0_chk221.dec : ∀ (v2848 : IVec S16 32), Decidable (k0_chk221 v2848) := fun v2848 => decidable_of_iff' _ (Iff.of_eq (k0_chk221.eq_1 v2848))
theorem k0_idx221_inb : ∀ (v2848 : IVec S16 32) (k0_hw221 : k0_chk221 v2848), ∀ a x, ((![v2848] : Fin 1 → IVec S16 32) a x).toNat < S4096.size a := fun v2848 k0_hw221 => k0_hw221

def k0_chk222 (v2856 : IVec S16 32) : Prop :=
  (∀ a x, ((![v2856] : Fin 1 → IVec S16 32) a x).toNat < S4096.size a)
instance k0_chk222.dec : ∀ (v2856 : IVec S16 32), Decidable (k0_chk222 v2856) := fun v2856 => decidable_of_iff' _ (Iff.of_eq (k0_chk222.eq_1 v2856))
theorem k0_idx222_inb : ∀ (v2856 : IVec S16 32) (k0_hw222 : k0_chk222 v2856), ∀ a x, ((![v2856] : Fin 1 → IVec S16 32) a x).toNat < S4096.size a := fun v2856 k0_hw222 => k0_hw222

def k0_chk223 (v2864 : IVec S16 32) : Prop :=
  (∀ a x, ((![v2864] : Fin 1 → IVec S16 32) a x).toNat < S4096.size a)
instance k0_chk223.dec : ∀ (v2864 : IVec S16 32), Decidable (k0_chk223 v2864) := fun v2864 => decidable_of_iff' _ (Iff.of_eq (k0_chk223.eq_1 v2864))
theorem k0_idx223_inb : ∀ (v2864 : IVec S16 32) (k0_hw223 : k0_chk223 v2864), ∀ a x, ((![v2864] : Fin 1 → IVec S16 32) a x).toNat < S4096.size a := fun v2864 k0_hw223 => k0_hw223

def k0_chk224 (v2872 : IVec S16 32) : Prop :=
  (∀ a x, ((![v2872] : Fin 1 → IVec S16 32) a x).toNat < S4096.size a)
instance k0_chk224.dec : ∀ (v2872 : IVec S16 32), Decidable (k0_chk224 v2872) := fun v2872 => decidable_of_iff' _ (Iff.of_eq (k0_chk224.eq_1 v2872))
theorem k0_idx224_inb : ∀ (v2872 : IVec S16 32) (k0_hw224 : k0_chk224 v2872), ∀ a x, ((![v2872] : Fin 1 → IVec S16 32) a x).toNat < S4096.size a := fun v2872 k0_hw224 => k0_hw224

def k0_chk225 (v2880 : IVec S16 32) : Prop :=
  (∀ a x, ((![v2880] : Fin 1 → IVec S16 32) a x).toNat < S4096.size a)
instance k0_chk225.dec : ∀ (v2880 : IVec S16 32), Decidable (k0_chk225 v2880) := fun v2880 => decidable_of_iff' _ (Iff.of_eq (k0_chk225.eq_1 v2880))
theorem k0_idx225_inb : ∀ (v2880 : IVec S16 32) (k0_hw225 : k0_chk225 v2880), ∀ a x, ((![v2880] : Fin 1 → IVec S16 32) a x).toNat < S4096.size a := fun v2880 k0_hw225 => k0_hw225

def k0_chk226 (v2888 : IVec S16 32) : Prop :=
  (∀ a x, ((![v2888] : Fin 1 → IVec S16 32) a x).toNat < S4096.size a)
instance k0_chk226.dec : ∀ (v2888 : IVec S16 32), Decidable (k0_chk226 v2888) := fun v2888 => decidable_of_iff' _ (Iff.of_eq (k0_chk226.eq_1 v2888))
theorem k0_idx226_inb : ∀ (v2888 : IVec S16 32) (k0_hw226 : k0_chk226 v2888), ∀ a x, ((![v2888] : Fin 1 → IVec S16 32) a x).toNat < S4096.size a := fun v2888 k0_hw226 => k0_hw226

def k0_chk227 (v2896 : IVec S16 32) : Prop :=
  (∀ a x, ((![v2896] : Fin 1 → IVec S16 32) a x).toNat < S4096.size a)
instance k0_chk227.dec : ∀ (v2896 : IVec S16 32), Decidable (k0_chk227 v2896) := fun v2896 => decidable_of_iff' _ (Iff.of_eq (k0_chk227.eq_1 v2896))
theorem k0_idx227_inb : ∀ (v2896 : IVec S16 32) (k0_hw227 : k0_chk227 v2896), ∀ a x, ((![v2896] : Fin 1 → IVec S16 32) a x).toNat < S4096.size a := fun v2896 k0_hw227 => k0_hw227

def k0_chk228 (v2904 : IVec S16 32) : Prop :=
  (∀ a x, ((![v2904] : Fin 1 → IVec S16 32) a x).toNat < S4096.size a)
instance k0_chk228.dec : ∀ (v2904 : IVec S16 32), Decidable (k0_chk228 v2904) := fun v2904 => decidable_of_iff' _ (Iff.of_eq (k0_chk228.eq_1 v2904))
theorem k0_idx228_inb : ∀ (v2904 : IVec S16 32) (k0_hw228 : k0_chk228 v2904), ∀ a x, ((![v2904] : Fin 1 → IVec S16 32) a x).toNat < S4096.size a := fun v2904 k0_hw228 => k0_hw228

def k0_chk229 (v2912 : IVec S16 32) : Prop :=
  (∀ a x, ((![v2912] : Fin 1 → IVec S16 32) a x).toNat < S4096.size a)
instance k0_chk229.dec : ∀ (v2912 : IVec S16 32), Decidable (k0_chk229 v2912) := fun v2912 => decidable_of_iff' _ (Iff.of_eq (k0_chk229.eq_1 v2912))
theorem k0_idx229_inb : ∀ (v2912 : IVec S16 32) (k0_hw229 : k0_chk229 v2912), ∀ a x, ((![v2912] : Fin 1 → IVec S16 32) a x).toNat < S4096.size a := fun v2912 k0_hw229 => k0_hw229

def k0_chk230 (v2920 : IVec S16 32) : Prop :=
  (∀ a x, ((![v2920] : Fin 1 → IVec S16 32) a x).toNat < S4096.size a)
instance k0_chk230.dec : ∀ (v2920 : IVec S16 32), Decidable (k0_chk230 v2920) := fun v2920 => decidable_of_iff' _ (Iff.of_eq (k0_chk230.eq_1 v2920))
theorem k0_idx230_inb : ∀ (v2920 : IVec S16 32) (k0_hw230 : k0_chk230 v2920), ∀ a x, ((![v2920] : Fin 1 → IVec S16 32) a x).toNat < S4096.size a := fun v2920 k0_hw230 => k0_hw230

def k0_chk231 (v2928 : IVec S16 32) : Prop :=
  (∀ a x, ((![v2928] : Fin 1 → IVec S16 32) a x).toNat < S4096.size a)
instance k0_chk231.dec : ∀ (v2928 : IVec S16 32), Decidable (k0_chk231 v2928) := fun v2928 => decidable_of_iff' _ (Iff.of_eq (k0_chk231.eq_1 v2928))
theorem k0_idx231_inb : ∀ (v2928 : IVec S16 32) (k0_hw231 : k0_chk231 v2928), ∀ a x, ((![v2928] : Fin 1 → IVec S16 32) a x).toNat < S4096.size a := fun v2928 k0_hw231 => k0_hw231

def k0_chk232 (v2936 : IVec S16 32) : Prop :=
  (∀ a x, ((![v2936] : Fin 1 → IVec S16 32) a x).toNat < S4096.size a)
instance k0_chk232.dec : ∀ (v2936 : IVec S16 32), Decidable (k0_chk232 v2936) := fun v2936 => decidable_of_iff' _ (Iff.of_eq (k0_chk232.eq_1 v2936))
theorem k0_idx232_inb : ∀ (v2936 : IVec S16 32) (k0_hw232 : k0_chk232 v2936), ∀ a x, ((![v2936] : Fin 1 → IVec S16 32) a x).toNat < S4096.size a := fun v2936 k0_hw232 => k0_hw232

def k0_chk233 (v2944 : IVec S16 32) : Prop :=
  (∀ a x, ((![v2944] : Fin 1 → IVec S16 32) a x).toNat < S4096.size a)
instance k0_chk233.dec : ∀ (v2944 : IVec S16 32), Decidable (k0_chk233 v2944) := fun v2944 => decidable_of_iff' _ (Iff.of_eq (k0_chk233.eq_1 v2944))
theorem k0_idx233_inb : ∀ (v2944 : IVec S16 32) (k0_hw233 : k0_chk233 v2944), ∀ a x, ((![v2944] : Fin 1 → IVec S16 32) a x).toNat < S4096.size a := fun v2944 k0_hw233 => k0_hw233

def k0_chk234 (v2952 : IVec S16 32) : Prop :=
  (∀ a x, ((![v2952] : Fin 1 → IVec S16 32) a x).toNat < S4096.size a)
instance k0_chk234.dec : ∀ (v2952 : IVec S16 32), Decidable (k0_chk234 v2952) := fun v2952 => decidable_of_iff' _ (Iff.of_eq (k0_chk234.eq_1 v2952))
theorem k0_idx234_inb : ∀ (v2952 : IVec S16 32) (k0_hw234 : k0_chk234 v2952), ∀ a x, ((![v2952] : Fin 1 → IVec S16 32) a x).toNat < S4096.size a := fun v2952 k0_hw234 => k0_hw234

def k0_chk235 (v2960 : IVec S16 32) : Prop :=
  (∀ a x, ((![v2960] : Fin 1 → IVec S16 32) a x).toNat < S4096.size a)
instance k0_chk235.dec : ∀ (v2960 : IVec S16 32), Decidable (k0_chk235 v2960) := fun v2960 => decidable_of_iff' _ (Iff.of_eq (k0_chk235.eq_1 v2960))
theorem k0_idx235_inb : ∀ (v2960 : IVec S16 32) (k0_hw235 : k0_chk235 v2960), ∀ a x, ((![v2960] : Fin 1 → IVec S16 32) a x).toNat < S4096.size a := fun v2960 k0_hw235 => k0_hw235

def k0_chk236 (v2968 : IVec S16 32) : Prop :=
  (∀ a x, ((![v2968] : Fin 1 → IVec S16 32) a x).toNat < S4096.size a)
instance k0_chk236.dec : ∀ (v2968 : IVec S16 32), Decidable (k0_chk236 v2968) := fun v2968 => decidable_of_iff' _ (Iff.of_eq (k0_chk236.eq_1 v2968))
theorem k0_idx236_inb : ∀ (v2968 : IVec S16 32) (k0_hw236 : k0_chk236 v2968), ∀ a x, ((![v2968] : Fin 1 → IVec S16 32) a x).toNat < S4096.size a := fun v2968 k0_hw236 => k0_hw236

def k0_chk237 (v2976 : IVec S16 32) : Prop :=
  (∀ a x, ((![v2976] : Fin 1 → IVec S16 32) a x).toNat < S4096.size a)
instance k0_chk237.dec : ∀ (v2976 : IVec S16 32), Decidable (k0_chk237 v2976) := fun v2976 => decidable_of_iff' _ (Iff.of_eq (k0_chk237.eq_1 v2976))
theorem k0_idx237_inb : ∀ (v2976 : IVec S16 32) (k0_hw237 : k0_chk237 v2976), ∀ a x, ((![v2976] : Fin 1 → IVec S16 32) a x).toNat < S4096.size a := fun v2976 k0_hw237 => k0_hw237

def k0_chk238 (v2984 : IVec S16 32) : Prop :=
  (∀ a x, ((![v2984] : Fin 1 → IVec S16 32) a x).toNat < S4096.size a)
instance k0_chk238.dec : ∀ (v2984 : IVec S16 32), Decidable (k0_chk238 v2984) := fun v2984 => decidable_of_iff' _ (Iff.of_eq (k0_chk238.eq_1 v2984))
theorem k0_idx238_inb : ∀ (v2984 : IVec S16 32) (k0_hw238 : k0_chk238 v2984), ∀ a x, ((![v2984] : Fin 1 → IVec S16 32) a x).toNat < S4096.size a := fun v2984 k0_hw238 => k0_hw238

def k0_chk239 (v2992 : IVec S16 32) : Prop :=
  (∀ a x, ((![v2992] : Fin 1 → IVec S16 32) a x).toNat < S4096.size a)
instance k0_chk239.dec : ∀ (v2992 : IVec S16 32), Decidable (k0_chk239 v2992) := fun v2992 => decidable_of_iff' _ (Iff.of_eq (k0_chk239.eq_1 v2992))
theorem k0_idx239_inb : ∀ (v2992 : IVec S16 32) (k0_hw239 : k0_chk239 v2992), ∀ a x, ((![v2992] : Fin 1 → IVec S16 32) a x).toNat < S4096.size a := fun v2992 k0_hw239 => k0_hw239

def k0_chk240 (v3000 : IVec S16 32) : Prop :=
  (∀ a x, ((![v3000] : Fin 1 → IVec S16 32) a x).toNat < S4096.size a)
instance k0_chk240.dec : ∀ (v3000 : IVec S16 32), Decidable (k0_chk240 v3000) := fun v3000 => decidable_of_iff' _ (Iff.of_eq (k0_chk240.eq_1 v3000))
theorem k0_idx240_inb : ∀ (v3000 : IVec S16 32) (k0_hw240 : k0_chk240 v3000), ∀ a x, ((![v3000] : Fin 1 → IVec S16 32) a x).toNat < S4096.size a := fun v3000 k0_hw240 => k0_hw240

def k0_chk241 (v3008 : IVec S16 32) : Prop :=
  (∀ a x, ((![v3008] : Fin 1 → IVec S16 32) a x).toNat < S4096.size a)
instance k0_chk241.dec : ∀ (v3008 : IVec S16 32), Decidable (k0_chk241 v3008) := fun v3008 => decidable_of_iff' _ (Iff.of_eq (k0_chk241.eq_1 v3008))
theorem k0_idx241_inb : ∀ (v3008 : IVec S16 32) (k0_hw241 : k0_chk241 v3008), ∀ a x, ((![v3008] : Fin 1 → IVec S16 32) a x).toNat < S4096.size a := fun v3008 k0_hw241 => k0_hw241

def k0_chk242 (v3016 : IVec S16 32) : Prop :=
  (∀ a x, ((![v3016] : Fin 1 → IVec S16 32) a x).toNat < S4096.size a)
instance k0_chk242.dec : ∀ (v3016 : IVec S16 32), Decidable (k0_chk242 v3016) := fun v3016 => decidable_of_iff' _ (Iff.of_eq (k0_chk242.eq_1 v3016))
theorem k0_idx242_inb : ∀ (v3016 : IVec S16 32) (k0_hw242 : k0_chk242 v3016), ∀ a x, ((![v3016] : Fin 1 → IVec S16 32) a x).toNat < S4096.size a := fun v3016 k0_hw242 => k0_hw242

def k0_chk243 (v3024 : IVec S16 32) : Prop :=
  (∀ a x, ((![v3024] : Fin 1 → IVec S16 32) a x).toNat < S4096.size a)
instance k0_chk243.dec : ∀ (v3024 : IVec S16 32), Decidable (k0_chk243 v3024) := fun v3024 => decidable_of_iff' _ (Iff.of_eq (k0_chk243.eq_1 v3024))
theorem k0_idx243_inb : ∀ (v3024 : IVec S16 32) (k0_hw243 : k0_chk243 v3024), ∀ a x, ((![v3024] : Fin 1 → IVec S16 32) a x).toNat < S4096.size a := fun v3024 k0_hw243 => k0_hw243

def k0_chk244 (v3032 : IVec S16 32) : Prop :=
  (∀ a x, ((![v3032] : Fin 1 → IVec S16 32) a x).toNat < S4096.size a)
instance k0_chk244.dec : ∀ (v3032 : IVec S16 32), Decidable (k0_chk244 v3032) := fun v3032 => decidable_of_iff' _ (Iff.of_eq (k0_chk244.eq_1 v3032))
theorem k0_idx244_inb : ∀ (v3032 : IVec S16 32) (k0_hw244 : k0_chk244 v3032), ∀ a x, ((![v3032] : Fin 1 → IVec S16 32) a x).toNat < S4096.size a := fun v3032 k0_hw244 => k0_hw244

def k0_chk245 (v3040 : IVec S16 32) : Prop :=
  (∀ a x, ((![v3040] : Fin 1 → IVec S16 32) a x).toNat < S4096.size a)
instance k0_chk245.dec : ∀ (v3040 : IVec S16 32), Decidable (k0_chk245 v3040) := fun v3040 => decidable_of_iff' _ (Iff.of_eq (k0_chk245.eq_1 v3040))
theorem k0_idx245_inb : ∀ (v3040 : IVec S16 32) (k0_hw245 : k0_chk245 v3040), ∀ a x, ((![v3040] : Fin 1 → IVec S16 32) a x).toNat < S4096.size a := fun v3040 k0_hw245 => k0_hw245

def k0_chk246 (v3048 : IVec S16 32) : Prop :=
  (∀ a x, ((![v3048] : Fin 1 → IVec S16 32) a x).toNat < S4096.size a)
instance k0_chk246.dec : ∀ (v3048 : IVec S16 32), Decidable (k0_chk246 v3048) := fun v3048 => decidable_of_iff' _ (Iff.of_eq (k0_chk246.eq_1 v3048))
theorem k0_idx246_inb : ∀ (v3048 : IVec S16 32) (k0_hw246 : k0_chk246 v3048), ∀ a x, ((![v3048] : Fin 1 → IVec S16 32) a x).toNat < S4096.size a := fun v3048 k0_hw246 => k0_hw246

def k0_chk247 (v3056 : IVec S16 32) : Prop :=
  (∀ a x, ((![v3056] : Fin 1 → IVec S16 32) a x).toNat < S4096.size a)
instance k0_chk247.dec : ∀ (v3056 : IVec S16 32), Decidable (k0_chk247 v3056) := fun v3056 => decidable_of_iff' _ (Iff.of_eq (k0_chk247.eq_1 v3056))
theorem k0_idx247_inb : ∀ (v3056 : IVec S16 32) (k0_hw247 : k0_chk247 v3056), ∀ a x, ((![v3056] : Fin 1 → IVec S16 32) a x).toNat < S4096.size a := fun v3056 k0_hw247 => k0_hw247

def k0_chk248 (v3064 : IVec S16 32) : Prop :=
  (∀ a x, ((![v3064] : Fin 1 → IVec S16 32) a x).toNat < S4096.size a)
instance k0_chk248.dec : ∀ (v3064 : IVec S16 32), Decidable (k0_chk248 v3064) := fun v3064 => decidable_of_iff' _ (Iff.of_eq (k0_chk248.eq_1 v3064))
theorem k0_idx248_inb : ∀ (v3064 : IVec S16 32) (k0_hw248 : k0_chk248 v3064), ∀ a x, ((![v3064] : Fin 1 → IVec S16 32) a x).toNat < S4096.size a := fun v3064 k0_hw248 => k0_hw248

def k0_chk249 (v3072 : IVec S16 32) : Prop :=
  (∀ a x, ((![v3072] : Fin 1 → IVec S16 32) a x).toNat < S4096.size a)
instance k0_chk249.dec : ∀ (v3072 : IVec S16 32), Decidable (k0_chk249 v3072) := fun v3072 => decidable_of_iff' _ (Iff.of_eq (k0_chk249.eq_1 v3072))
theorem k0_idx249_inb : ∀ (v3072 : IVec S16 32) (k0_hw249 : k0_chk249 v3072), ∀ a x, ((![v3072] : Fin 1 → IVec S16 32) a x).toNat < S4096.size a := fun v3072 k0_hw249 => k0_hw249

def k0_chk250 (v3080 : IVec S16 32) : Prop :=
  (∀ a x, ((![v3080] : Fin 1 → IVec S16 32) a x).toNat < S4096.size a)
instance k0_chk250.dec : ∀ (v3080 : IVec S16 32), Decidable (k0_chk250 v3080) := fun v3080 => decidable_of_iff' _ (Iff.of_eq (k0_chk250.eq_1 v3080))
theorem k0_idx250_inb : ∀ (v3080 : IVec S16 32) (k0_hw250 : k0_chk250 v3080), ∀ a x, ((![v3080] : Fin 1 → IVec S16 32) a x).toNat < S4096.size a := fun v3080 k0_hw250 => k0_hw250

def k0_chk251 (v3088 : IVec S16 32) : Prop :=
  (∀ a x, ((![v3088] : Fin 1 → IVec S16 32) a x).toNat < S4096.size a)
instance k0_chk251.dec : ∀ (v3088 : IVec S16 32), Decidable (k0_chk251 v3088) := fun v3088 => decidable_of_iff' _ (Iff.of_eq (k0_chk251.eq_1 v3088))
theorem k0_idx251_inb : ∀ (v3088 : IVec S16 32) (k0_hw251 : k0_chk251 v3088), ∀ a x, ((![v3088] : Fin 1 → IVec S16 32) a x).toNat < S4096.size a := fun v3088 k0_hw251 => k0_hw251

def k0_chk252 (v3096 : IVec S16 32) : Prop :=
  (∀ a x, ((![v3096] : Fin 1 → IVec S16 32) a x).toNat < S4096.size a)
instance k0_chk252.dec : ∀ (v3096 : IVec S16 32), Decidable (k0_chk252 v3096) := fun v3096 => decidable_of_iff' _ (Iff.of_eq (k0_chk252.eq_1 v3096))
theorem k0_idx252_inb : ∀ (v3096 : IVec S16 32) (k0_hw252 : k0_chk252 v3096), ∀ a x, ((![v3096] : Fin 1 → IVec S16 32) a x).toNat < S4096.size a := fun v3096 k0_hw252 => k0_hw252

def k0_chk253 (v3104 : IVec S16 32) : Prop :=
  (∀ a x, ((![v3104] : Fin 1 → IVec S16 32) a x).toNat < S4096.size a)
instance k0_chk253.dec : ∀ (v3104 : IVec S16 32), Decidable (k0_chk253 v3104) := fun v3104 => decidable_of_iff' _ (Iff.of_eq (k0_chk253.eq_1 v3104))
theorem k0_idx253_inb : ∀ (v3104 : IVec S16 32) (k0_hw253 : k0_chk253 v3104), ∀ a x, ((![v3104] : Fin 1 → IVec S16 32) a x).toNat < S4096.size a := fun v3104 k0_hw253 => k0_hw253

def k0_chk254 (v3112 : IVec S16 32) : Prop :=
  (∀ a x, ((![v3112] : Fin 1 → IVec S16 32) a x).toNat < S4096.size a)
instance k0_chk254.dec : ∀ (v3112 : IVec S16 32), Decidable (k0_chk254 v3112) := fun v3112 => decidable_of_iff' _ (Iff.of_eq (k0_chk254.eq_1 v3112))
theorem k0_idx254_inb : ∀ (v3112 : IVec S16 32) (k0_hw254 : k0_chk254 v3112), ∀ a x, ((![v3112] : Fin 1 → IVec S16 32) a x).toNat < S4096.size a := fun v3112 k0_hw254 => k0_hw254

def k0_chk255 (v3120 : IVec S16 32) : Prop :=
  (∀ a x, ((![v3120] : Fin 1 → IVec S16 32) a x).toNat < S4096.size a)
instance k0_chk255.dec : ∀ (v3120 : IVec S16 32), Decidable (k0_chk255 v3120) := fun v3120 => decidable_of_iff' _ (Iff.of_eq (k0_chk255.eq_1 v3120))
theorem k0_idx255_inb : ∀ (v3120 : IVec S16 32) (k0_hw255 : k0_chk255 v3120), ∀ a x, ((![v3120] : Fin 1 → IVec S16 32) a x).toNat < S4096.size a := fun v3120 k0_hw255 => k0_hw255

def k0_chk256 (v3128 : IVec S16 32) : Prop :=
  (∀ a x, ((![v3128] : Fin 1 → IVec S16 32) a x).toNat < S4096.size a)
instance k0_chk256.dec : ∀ (v3128 : IVec S16 32), Decidable (k0_chk256 v3128) := fun v3128 => decidable_of_iff' _ (Iff.of_eq (k0_chk256.eq_1 v3128))
theorem k0_idx256_inb : ∀ (v3128 : IVec S16 32) (k0_hw256 : k0_chk256 v3128), ∀ a x, ((![v3128] : Fin 1 → IVec S16 32) a x).toNat < S4096.size a := fun v3128 k0_hw256 => k0_hw256
def k0_off1 (i : grid0.Coords) (c0_i32_1431 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c195_i32_1426 : BitVec 32 := 195#32
  let v3135 : BitVec 32 := Scalar.muli v1 c195_i32_1426
  let c10_i32_1427 : BitVec 32 := 10#32
  let v3136 : BitVec 32 := Scalar.minsi v1 c10_i32_1427
  let v3137 : BitVec 32 := Scalar.addi v3135 v3136
  let c8_i32_1428 : BitVec 32 := 8#32
  let v3138 : BitVec 32 := Scalar.muli v3137 c8_i32_1428
  let c16_i32_1430 : BitVec 32 := 16#32
  let v3141 : BitVec 32 := Scalar.muli v3138 c16_i32_1430
  let v3142 : BitVec 32 := Scalar.addi c0_i32_1431 v3141
  ![v3142.toNat]
def k0_off2 (i : grid0.Coords) (c0_i32_1438 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c195_i32_1426 : BitVec 32 := 195#32
  let v3135 : BitVec 32 := Scalar.muli v1 c195_i32_1426
  let c10_i32_1427 : BitVec 32 := 10#32
  let v3136 : BitVec 32 := Scalar.minsi v1 c10_i32_1427
  let v3137 : BitVec 32 := Scalar.addi v3135 v3136
  let c8_i32_1428 : BitVec 32 := 8#32
  let v3138 : BitVec 32 := Scalar.muli v3137 c8_i32_1428
  let c48_i32_1436 : BitVec 32 := 48#32
  let v3157 : BitVec 32 := Scalar.addi v3138 c48_i32_1436
  let c16_i32_1437 : BitVec 32 := 16#32
  let v3158 : BitVec 32 := Scalar.muli v3157 c16_i32_1437
  let v3159 : BitVec 32 := Scalar.addi c0_i32_1438 v3158
  ![v3159.toNat]
@[reducible] def k0_t1_loop : Scf.Loop 32 :=
  let c0_i32_1448 : BitVec 32 := 0#32
  let c16_i32_1449 : BitVec 32 := 16#32
  let v3174 : BitVec 32 := Scalar.addi c0_i32_1448 c16_i32_1449
  let c1_i32_1450 : BitVec 32 := 1#32
  ⟨c0_i32_1448, v3174, c1_i32_1450⟩
def k0_cond1 (k0_t1 : Fin k0_t1_loop.trips) : BitVec 1 :=
  let c0_i32_1448 : BitVec 32 := 0#32
  let c1_i32_1450 : BitVec 32 := 1#32
  let arg20 : BitVec 32 := Scf.iv c0_i32_1448 c1_i32_1450 k0_t1
  let c2_i32_1494 : BitVec 32 := 2#32
  let v3205 : BitVec 32 := Scalar.muli arg20 c2_i32_1494
  let c2_i32_1497 : BitVec 32 := 2#32
  let v3209 : BitVec 1 := Scalar.cmpi .sge v3205 c2_i32_1497
  let v3210 : BitVec 32 := Scalar.extui v3209
  let c0_i32_1498 : BitVec 32 := 0#32
  let v3211 : BitVec 1 := Scalar.cmpi .ne v3210 c0_i32_1498
  v3211

def k0_off3 (i : grid0.Coords) (k0_t1 : Fin k0_t1_loop.trips) : Fin 4 → Nat :=
  let c0_i32_1572 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c195_i32_1426 : BitVec 32 := 195#32
  let v3135 : BitVec 32 := Scalar.muli v1 c195_i32_1426
  let c10_i32_1427 : BitVec 32 := 10#32
  let v3136 : BitVec 32 := Scalar.minsi v1 c10_i32_1427
  let v3137 : BitVec 32 := Scalar.addi v3135 v3136
  let c8_i32_1428 : BitVec 32 := 8#32
  let v3138 : BitVec 32 := Scalar.muli v3137 c8_i32_1428
  let c0_i32_1448 : BitVec 32 := 0#32
  let c1_i32_1450 : BitVec 32 := 1#32
  let arg20 : BitVec 32 := Scf.iv c0_i32_1448 c1_i32_1450 k0_t1
  let c2_i32_1494 : BitVec 32 := 2#32
  let v3205 : BitVec 32 := Scalar.muli arg20 c2_i32_1494
  let c48_i32_1495 : BitVec 32 := 48#32
  let v3206 : BitVec 32 := Scalar.muli v3205 c48_i32_1495
  let v3207 : BitVec 32 := Scalar.addi v3138 v3206
  let c3_i32_1496 : BitVec 32 := 3#32
  let v3208 : BitVec 32 := Scalar.shrui v3207 c3_i32_1496
  let c0_i32_1573 : BitVec 32 := 0#32
  let c0_i32_1574 : BitVec 32 := 0#32
  ![0, v3208.toNat, 0, 0]
@[reducible] def k0_t2_loop : Scf.Loop 32 :=
  let c0_i32_1512 : BitVec 32 := 0#32
  let c48_i32_1513 : BitVec 32 := 48#32
  let v3224 : BitVec 32 := Scalar.addi c0_i32_1512 c48_i32_1513
  let c1_i32_1514 : BitVec 32 := 1#32
  ⟨c0_i32_1512, v3224, c1_i32_1514⟩
def k0_off4 (k0_t2 : Fin k0_t2_loop.trips) : Fin 1 → Nat :=
  let c0_i32_1512 : BitVec 32 := 0#32
  let c1_i32_1514 : BitVec 32 := 1#32
  let arg21 : BitVec 32 := Scf.iv c0_i32_1512 c1_i32_1514 k0_t2
  let c16_i32_1572 : BitVec 32 := 16#32
  let v3286 : BitVec 32 := Scalar.muli arg21 c16_i32_1572
  let v3287 : Index := Scalar.indexCast v3286
  ![v3287.toNat]
def k0_off5 (k0_t2 : Fin k0_t2_loop.trips) (c768_i32_1574 : BitVec 32) : Fin 1 → Nat :=
  let c0_i32_1512 : BitVec 32 := 0#32
  let c1_i32_1514 : BitVec 32 := 1#32
  let arg21 : BitVec 32 := Scf.iv c0_i32_1512 c1_i32_1514 k0_t2
  let c16_i32_1573 : BitVec 32 := 16#32
  let v3289 : BitVec 32 := Scalar.muli arg21 c16_i32_1573
  let v3290 : BitVec 32 := Scalar.addi c768_i32_1574 v3289
  let v3291 : Index := Scalar.indexCast v3290
  ![v3291.toNat]

def k0_chk257 (v3307 : IVec S16 32) : Prop :=
  (∀ a x, ((![v3307] : Fin 1 → IVec S16 32) a x).toNat < S4096.size a)
instance k0_chk257.dec : ∀ (v3307 : IVec S16 32), Decidable (k0_chk257 v3307) := fun v3307 => decidable_of_iff' _ (Iff.of_eq (k0_chk257.eq_1 v3307))
theorem k0_idx257_inb : ∀ (v3307 : IVec S16 32) (k0_hw257 : k0_chk257 v3307), ∀ a x, ((![v3307] : Fin 1 → IVec S16 32) a x).toNat < S4096.size a := fun v3307 k0_hw257 => k0_hw257

def k0_chk258 (v3310 : IVec S16 32) : Prop :=
  (∀ a x, ((![v3310] : Fin 1 → IVec S16 32) a x).toNat < S4096.size a)
instance k0_chk258.dec : ∀ (v3310 : IVec S16 32), Decidable (k0_chk258 v3310) := fun v3310 => decidable_of_iff' _ (Iff.of_eq (k0_chk258.eq_1 v3310))
theorem k0_idx258_inb : ∀ (v3310 : IVec S16 32) (k0_hw258 : k0_chk258 v3310), ∀ a x, ((![v3310] : Fin 1 → IVec S16 32) a x).toNat < S4096.size a := fun v3310 k0_hw258 => k0_hw258

def k0_chk259 (v3313 : IVec S16 32) : Prop :=
  (∀ a x, ((![v3313] : Fin 1 → IVec S16 32) a x).toNat < S4096.size a)
instance k0_chk259.dec : ∀ (v3313 : IVec S16 32), Decidable (k0_chk259 v3313) := fun v3313 => decidable_of_iff' _ (Iff.of_eq (k0_chk259.eq_1 v3313))
theorem k0_idx259_inb : ∀ (v3313 : IVec S16 32) (k0_hw259 : k0_chk259 v3313), ∀ a x, ((![v3313] : Fin 1 → IVec S16 32) a x).toNat < S4096.size a := fun v3313 k0_hw259 => k0_hw259

def k0_chk260 (v3316 : IVec S16 32) : Prop :=
  (∀ a x, ((![v3316] : Fin 1 → IVec S16 32) a x).toNat < S4096.size a)
instance k0_chk260.dec : ∀ (v3316 : IVec S16 32), Decidable (k0_chk260 v3316) := fun v3316 => decidable_of_iff' _ (Iff.of_eq (k0_chk260.eq_1 v3316))
theorem k0_idx260_inb : ∀ (v3316 : IVec S16 32) (k0_hw260 : k0_chk260 v3316), ∀ a x, ((![v3316] : Fin 1 → IVec S16 32) a x).toNat < S4096.size a := fun v3316 k0_hw260 => k0_hw260

def k0_chk261 (v3319 : IVec S16 32) : Prop :=
  (∀ a x, ((![v3319] : Fin 1 → IVec S16 32) a x).toNat < S4096.size a)
instance k0_chk261.dec : ∀ (v3319 : IVec S16 32), Decidable (k0_chk261 v3319) := fun v3319 => decidable_of_iff' _ (Iff.of_eq (k0_chk261.eq_1 v3319))
theorem k0_idx261_inb : ∀ (v3319 : IVec S16 32) (k0_hw261 : k0_chk261 v3319), ∀ a x, ((![v3319] : Fin 1 → IVec S16 32) a x).toNat < S4096.size a := fun v3319 k0_hw261 => k0_hw261

def k0_chk262 (v3322 : IVec S16 32) : Prop :=
  (∀ a x, ((![v3322] : Fin 1 → IVec S16 32) a x).toNat < S4096.size a)
instance k0_chk262.dec : ∀ (v3322 : IVec S16 32), Decidable (k0_chk262 v3322) := fun v3322 => decidable_of_iff' _ (Iff.of_eq (k0_chk262.eq_1 v3322))
theorem k0_idx262_inb : ∀ (v3322 : IVec S16 32) (k0_hw262 : k0_chk262 v3322), ∀ a x, ((![v3322] : Fin 1 → IVec S16 32) a x).toNat < S4096.size a := fun v3322 k0_hw262 => k0_hw262

def k0_chk263 (v3325 : IVec S16 32) : Prop :=
  (∀ a x, ((![v3325] : Fin 1 → IVec S16 32) a x).toNat < S4096.size a)
instance k0_chk263.dec : ∀ (v3325 : IVec S16 32), Decidable (k0_chk263 v3325) := fun v3325 => decidable_of_iff' _ (Iff.of_eq (k0_chk263.eq_1 v3325))
theorem k0_idx263_inb : ∀ (v3325 : IVec S16 32) (k0_hw263 : k0_chk263 v3325), ∀ a x, ((![v3325] : Fin 1 → IVec S16 32) a x).toNat < S4096.size a := fun v3325 k0_hw263 => k0_hw263

def k0_chk264 (v3328 : IVec S16 32) : Prop :=
  (∀ a x, ((![v3328] : Fin 1 → IVec S16 32) a x).toNat < S4096.size a)
instance k0_chk264.dec : ∀ (v3328 : IVec S16 32), Decidable (k0_chk264 v3328) := fun v3328 => decidable_of_iff' _ (Iff.of_eq (k0_chk264.eq_1 v3328))
theorem k0_idx264_inb : ∀ (v3328 : IVec S16 32) (k0_hw264 : k0_chk264 v3328), ∀ a x, ((![v3328] : Fin 1 → IVec S16 32) a x).toNat < S4096.size a := fun v3328 k0_hw264 => k0_hw264
def k0_off6 (k0_t2 : Fin k0_t2_loop.trips) : Fin 4 → Nat :=
  let c0_i32_1584 : BitVec 32 := 0#32
  let v3330 : Index := Scalar.indexCast c0_i32_1584
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3331 : Index := Scalar.indexCast v3303
  let c0_i32_1585 : BitVec 32 := 0#32
  let v3332 : Index := Scalar.indexCast c0_i32_1585
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3333 : Index := Scalar.indexCast v3305
  ![0, v3331.toNat, 0, v3333.toNat]
def k0_off7 (k0_t2 : Fin k0_t2_loop.trips) : Fin 4 → Nat :=
  let c0_i32_1586 : BitVec 32 := 0#32
  let v3335 : Index := Scalar.indexCast c0_i32_1586
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3336 : Index := Scalar.indexCast v3303
  let c1_i32_1587 : BitVec 32 := 1#32
  let v3337 : Index := Scalar.indexCast c1_i32_1587
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3338 : Index := Scalar.indexCast v3305
  ![0, v3336.toNat, 1, v3338.toNat]
def k0_off8 (k0_t2 : Fin k0_t2_loop.trips) : Fin 4 → Nat :=
  let c0_i32_1588 : BitVec 32 := 0#32
  let v3340 : Index := Scalar.indexCast c0_i32_1588
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3341 : Index := Scalar.indexCast v3303
  let c2_i32_1589 : BitVec 32 := 2#32
  let v3342 : Index := Scalar.indexCast c2_i32_1589
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3343 : Index := Scalar.indexCast v3305
  ![0, v3341.toNat, 2, v3343.toNat]
def k0_off9 (k0_t2 : Fin k0_t2_loop.trips) : Fin 4 → Nat :=
  let c0_i32_1590 : BitVec 32 := 0#32
  let v3345 : Index := Scalar.indexCast c0_i32_1590
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3346 : Index := Scalar.indexCast v3303
  let c3_i32_1591 : BitVec 32 := 3#32
  let v3347 : Index := Scalar.indexCast c3_i32_1591
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3348 : Index := Scalar.indexCast v3305
  ![0, v3346.toNat, 3, v3348.toNat]
def k0_off10 (k0_t2 : Fin k0_t2_loop.trips) : Fin 4 → Nat :=
  let c0_i32_1592 : BitVec 32 := 0#32
  let v3350 : Index := Scalar.indexCast c0_i32_1592
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3351 : Index := Scalar.indexCast v3303
  let c4_i32_1593 : BitVec 32 := 4#32
  let v3352 : Index := Scalar.indexCast c4_i32_1593
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3353 : Index := Scalar.indexCast v3305
  ![0, v3351.toNat, 4, v3353.toNat]
def k0_off11 (k0_t2 : Fin k0_t2_loop.trips) : Fin 4 → Nat :=
  let c0_i32_1594 : BitVec 32 := 0#32
  let v3355 : Index := Scalar.indexCast c0_i32_1594
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3356 : Index := Scalar.indexCast v3303
  let c5_i32_1595 : BitVec 32 := 5#32
  let v3357 : Index := Scalar.indexCast c5_i32_1595
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3358 : Index := Scalar.indexCast v3305
  ![0, v3356.toNat, 5, v3358.toNat]
def k0_off12 (k0_t2 : Fin k0_t2_loop.trips) : Fin 4 → Nat :=
  let c0_i32_1596 : BitVec 32 := 0#32
  let v3360 : Index := Scalar.indexCast c0_i32_1596
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3361 : Index := Scalar.indexCast v3303
  let c6_i32_1597 : BitVec 32 := 6#32
  let v3362 : Index := Scalar.indexCast c6_i32_1597
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3363 : Index := Scalar.indexCast v3305
  ![0, v3361.toNat, 6, v3363.toNat]
def k0_off13 (k0_t2 : Fin k0_t2_loop.trips) : Fin 4 → Nat :=
  let c0_i32_1598 : BitVec 32 := 0#32
  let v3365 : Index := Scalar.indexCast c0_i32_1598
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3366 : Index := Scalar.indexCast v3303
  let c7_i32_1599 : BitVec 32 := 7#32
  let v3367 : Index := Scalar.indexCast c7_i32_1599
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3368 : Index := Scalar.indexCast v3305
  ![0, v3366.toNat, 7, v3368.toNat]

def k0_chk265 (v3371 : IVec S16 32) : Prop :=
  (∀ a x, ((![v3371] : Fin 1 → IVec S16 32) a x).toNat < S4096.size a)
instance k0_chk265.dec : ∀ (v3371 : IVec S16 32), Decidable (k0_chk265 v3371) := fun v3371 => decidable_of_iff' _ (Iff.of_eq (k0_chk265.eq_1 v3371))
theorem k0_idx265_inb : ∀ (v3371 : IVec S16 32) (k0_hw265 : k0_chk265 v3371), ∀ a x, ((![v3371] : Fin 1 → IVec S16 32) a x).toNat < S4096.size a := fun v3371 k0_hw265 => k0_hw265

def k0_chk266 (v3374 : IVec S16 32) : Prop :=
  (∀ a x, ((![v3374] : Fin 1 → IVec S16 32) a x).toNat < S4096.size a)
instance k0_chk266.dec : ∀ (v3374 : IVec S16 32), Decidable (k0_chk266 v3374) := fun v3374 => decidable_of_iff' _ (Iff.of_eq (k0_chk266.eq_1 v3374))
theorem k0_idx266_inb : ∀ (v3374 : IVec S16 32) (k0_hw266 : k0_chk266 v3374), ∀ a x, ((![v3374] : Fin 1 → IVec S16 32) a x).toNat < S4096.size a := fun v3374 k0_hw266 => k0_hw266

def k0_chk267 (v3377 : IVec S16 32) : Prop :=
  (∀ a x, ((![v3377] : Fin 1 → IVec S16 32) a x).toNat < S4096.size a)
instance k0_chk267.dec : ∀ (v3377 : IVec S16 32), Decidable (k0_chk267 v3377) := fun v3377 => decidable_of_iff' _ (Iff.of_eq (k0_chk267.eq_1 v3377))
theorem k0_idx267_inb : ∀ (v3377 : IVec S16 32) (k0_hw267 : k0_chk267 v3377), ∀ a x, ((![v3377] : Fin 1 → IVec S16 32) a x).toNat < S4096.size a := fun v3377 k0_hw267 => k0_hw267

def k0_chk268 (v3380 : IVec S16 32) : Prop :=
  (∀ a x, ((![v3380] : Fin 1 → IVec S16 32) a x).toNat < S4096.size a)
instance k0_chk268.dec : ∀ (v3380 : IVec S16 32), Decidable (k0_chk268 v3380) := fun v3380 => decidable_of_iff' _ (Iff.of_eq (k0_chk268.eq_1 v3380))
theorem k0_idx268_inb : ∀ (v3380 : IVec S16 32) (k0_hw268 : k0_chk268 v3380), ∀ a x, ((![v3380] : Fin 1 → IVec S16 32) a x).toNat < S4096.size a := fun v3380 k0_hw268 => k0_hw268

def k0_chk269 (v3383 : IVec S16 32) : Prop :=
  (∀ a x, ((![v3383] : Fin 1 → IVec S16 32) a x).toNat < S4096.size a)
instance k0_chk269.dec : ∀ (v3383 : IVec S16 32), Decidable (k0_chk269 v3383) := fun v3383 => decidable_of_iff' _ (Iff.of_eq (k0_chk269.eq_1 v3383))
theorem k0_idx269_inb : ∀ (v3383 : IVec S16 32) (k0_hw269 : k0_chk269 v3383), ∀ a x, ((![v3383] : Fin 1 → IVec S16 32) a x).toNat < S4096.size a := fun v3383 k0_hw269 => k0_hw269

def k0_chk270 (v3386 : IVec S16 32) : Prop :=
  (∀ a x, ((![v3386] : Fin 1 → IVec S16 32) a x).toNat < S4096.size a)
instance k0_chk270.dec : ∀ (v3386 : IVec S16 32), Decidable (k0_chk270 v3386) := fun v3386 => decidable_of_iff' _ (Iff.of_eq (k0_chk270.eq_1 v3386))
theorem k0_idx270_inb : ∀ (v3386 : IVec S16 32) (k0_hw270 : k0_chk270 v3386), ∀ a x, ((![v3386] : Fin 1 → IVec S16 32) a x).toNat < S4096.size a := fun v3386 k0_hw270 => k0_hw270

def k0_chk271 (v3389 : IVec S16 32) : Prop :=
  (∀ a x, ((![v3389] : Fin 1 → IVec S16 32) a x).toNat < S4096.size a)
instance k0_chk271.dec : ∀ (v3389 : IVec S16 32), Decidable (k0_chk271 v3389) := fun v3389 => decidable_of_iff' _ (Iff.of_eq (k0_chk271.eq_1 v3389))
theorem k0_idx271_inb : ∀ (v3389 : IVec S16 32) (k0_hw271 : k0_chk271 v3389), ∀ a x, ((![v3389] : Fin 1 → IVec S16 32) a x).toNat < S4096.size a := fun v3389 k0_hw271 => k0_hw271

def k0_chk272 (v3392 : IVec S16 32) : Prop :=
  (∀ a x, ((![v3392] : Fin 1 → IVec S16 32) a x).toNat < S4096.size a)
instance k0_chk272.dec : ∀ (v3392 : IVec S16 32), Decidable (k0_chk272 v3392) := fun v3392 => decidable_of_iff' _ (Iff.of_eq (k0_chk272.eq_1 v3392))
theorem k0_idx272_inb : ∀ (v3392 : IVec S16 32) (k0_hw272 : k0_chk272 v3392), ∀ a x, ((![v3392] : Fin 1 → IVec S16 32) a x).toNat < S4096.size a := fun v3392 k0_hw272 => k0_hw272
def k0_off14 (k0_t2 : Fin k0_t2_loop.trips) : Fin 4 → Nat :=
  let c1_i32_1601 : BitVec 32 := 1#32
  let v3394 : Index := Scalar.indexCast c1_i32_1601
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3395 : Index := Scalar.indexCast v3303
  let c0_i32_1602 : BitVec 32 := 0#32
  let v3396 : Index := Scalar.indexCast c0_i32_1602
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3397 : Index := Scalar.indexCast v3305
  ![1, v3395.toNat, 0, v3397.toNat]
def k0_off15 (k0_t2 : Fin k0_t2_loop.trips) : Fin 4 → Nat :=
  let c1_i32_1603 : BitVec 32 := 1#32
  let v3399 : Index := Scalar.indexCast c1_i32_1603
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3400 : Index := Scalar.indexCast v3303
  let c1_i32_1604 : BitVec 32 := 1#32
  let v3401 : Index := Scalar.indexCast c1_i32_1604
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3402 : Index := Scalar.indexCast v3305
  ![1, v3400.toNat, 1, v3402.toNat]
def k0_off16 (k0_t2 : Fin k0_t2_loop.trips) : Fin 4 → Nat :=
  let c1_i32_1605 : BitVec 32 := 1#32
  let v3404 : Index := Scalar.indexCast c1_i32_1605
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3405 : Index := Scalar.indexCast v3303
  let c2_i32_1606 : BitVec 32 := 2#32
  let v3406 : Index := Scalar.indexCast c2_i32_1606
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3407 : Index := Scalar.indexCast v3305
  ![1, v3405.toNat, 2, v3407.toNat]
def k0_off17 (k0_t2 : Fin k0_t2_loop.trips) : Fin 4 → Nat :=
  let c1_i32_1607 : BitVec 32 := 1#32
  let v3409 : Index := Scalar.indexCast c1_i32_1607
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3410 : Index := Scalar.indexCast v3303
  let c3_i32_1608 : BitVec 32 := 3#32
  let v3411 : Index := Scalar.indexCast c3_i32_1608
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3412 : Index := Scalar.indexCast v3305
  ![1, v3410.toNat, 3, v3412.toNat]
def k0_off18 (k0_t2 : Fin k0_t2_loop.trips) : Fin 4 → Nat :=
  let c1_i32_1609 : BitVec 32 := 1#32
  let v3414 : Index := Scalar.indexCast c1_i32_1609
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3415 : Index := Scalar.indexCast v3303
  let c4_i32_1610 : BitVec 32 := 4#32
  let v3416 : Index := Scalar.indexCast c4_i32_1610
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3417 : Index := Scalar.indexCast v3305
  ![1, v3415.toNat, 4, v3417.toNat]
def k0_off19 (k0_t2 : Fin k0_t2_loop.trips) : Fin 4 → Nat :=
  let c1_i32_1611 : BitVec 32 := 1#32
  let v3419 : Index := Scalar.indexCast c1_i32_1611
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3420 : Index := Scalar.indexCast v3303
  let c5_i32_1612 : BitVec 32 := 5#32
  let v3421 : Index := Scalar.indexCast c5_i32_1612
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3422 : Index := Scalar.indexCast v3305
  ![1, v3420.toNat, 5, v3422.toNat]
def k0_off20 (k0_t2 : Fin k0_t2_loop.trips) : Fin 4 → Nat :=
  let c1_i32_1613 : BitVec 32 := 1#32
  let v3424 : Index := Scalar.indexCast c1_i32_1613
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3425 : Index := Scalar.indexCast v3303
  let c6_i32_1614 : BitVec 32 := 6#32
  let v3426 : Index := Scalar.indexCast c6_i32_1614
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3427 : Index := Scalar.indexCast v3305
  ![1, v3425.toNat, 6, v3427.toNat]
def k0_off21 (k0_t2 : Fin k0_t2_loop.trips) : Fin 4 → Nat :=
  let c1_i32_1615 : BitVec 32 := 1#32
  let v3429 : Index := Scalar.indexCast c1_i32_1615
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3430 : Index := Scalar.indexCast v3303
  let c7_i32_1616 : BitVec 32 := 7#32
  let v3431 : Index := Scalar.indexCast c7_i32_1616
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3432 : Index := Scalar.indexCast v3305
  ![1, v3430.toNat, 7, v3432.toNat]

def k0_chk273 (v3435 : IVec S16 32) : Prop :=
  (∀ a x, ((![v3435] : Fin 1 → IVec S16 32) a x).toNat < S4096.size a)
instance k0_chk273.dec : ∀ (v3435 : IVec S16 32), Decidable (k0_chk273 v3435) := fun v3435 => decidable_of_iff' _ (Iff.of_eq (k0_chk273.eq_1 v3435))
theorem k0_idx273_inb : ∀ (v3435 : IVec S16 32) (k0_hw273 : k0_chk273 v3435), ∀ a x, ((![v3435] : Fin 1 → IVec S16 32) a x).toNat < S4096.size a := fun v3435 k0_hw273 => k0_hw273

def k0_chk274 (v3438 : IVec S16 32) : Prop :=
  (∀ a x, ((![v3438] : Fin 1 → IVec S16 32) a x).toNat < S4096.size a)
instance k0_chk274.dec : ∀ (v3438 : IVec S16 32), Decidable (k0_chk274 v3438) := fun v3438 => decidable_of_iff' _ (Iff.of_eq (k0_chk274.eq_1 v3438))
theorem k0_idx274_inb : ∀ (v3438 : IVec S16 32) (k0_hw274 : k0_chk274 v3438), ∀ a x, ((![v3438] : Fin 1 → IVec S16 32) a x).toNat < S4096.size a := fun v3438 k0_hw274 => k0_hw274

def k0_chk275 (v3441 : IVec S16 32) : Prop :=
  (∀ a x, ((![v3441] : Fin 1 → IVec S16 32) a x).toNat < S4096.size a)
instance k0_chk275.dec : ∀ (v3441 : IVec S16 32), Decidable (k0_chk275 v3441) := fun v3441 => decidable_of_iff' _ (Iff.of_eq (k0_chk275.eq_1 v3441))
theorem k0_idx275_inb : ∀ (v3441 : IVec S16 32) (k0_hw275 : k0_chk275 v3441), ∀ a x, ((![v3441] : Fin 1 → IVec S16 32) a x).toNat < S4096.size a := fun v3441 k0_hw275 => k0_hw275

def k0_chk276 (v3444 : IVec S16 32) : Prop :=
  (∀ a x, ((![v3444] : Fin 1 → IVec S16 32) a x).toNat < S4096.size a)
instance k0_chk276.dec : ∀ (v3444 : IVec S16 32), Decidable (k0_chk276 v3444) := fun v3444 => decidable_of_iff' _ (Iff.of_eq (k0_chk276.eq_1 v3444))
theorem k0_idx276_inb : ∀ (v3444 : IVec S16 32) (k0_hw276 : k0_chk276 v3444), ∀ a x, ((![v3444] : Fin 1 → IVec S16 32) a x).toNat < S4096.size a := fun v3444 k0_hw276 => k0_hw276

def k0_chk277 (v3447 : IVec S16 32) : Prop :=
  (∀ a x, ((![v3447] : Fin 1 → IVec S16 32) a x).toNat < S4096.size a)
instance k0_chk277.dec : ∀ (v3447 : IVec S16 32), Decidable (k0_chk277 v3447) := fun v3447 => decidable_of_iff' _ (Iff.of_eq (k0_chk277.eq_1 v3447))
theorem k0_idx277_inb : ∀ (v3447 : IVec S16 32) (k0_hw277 : k0_chk277 v3447), ∀ a x, ((![v3447] : Fin 1 → IVec S16 32) a x).toNat < S4096.size a := fun v3447 k0_hw277 => k0_hw277

def k0_chk278 (v3450 : IVec S16 32) : Prop :=
  (∀ a x, ((![v3450] : Fin 1 → IVec S16 32) a x).toNat < S4096.size a)
instance k0_chk278.dec : ∀ (v3450 : IVec S16 32), Decidable (k0_chk278 v3450) := fun v3450 => decidable_of_iff' _ (Iff.of_eq (k0_chk278.eq_1 v3450))
theorem k0_idx278_inb : ∀ (v3450 : IVec S16 32) (k0_hw278 : k0_chk278 v3450), ∀ a x, ((![v3450] : Fin 1 → IVec S16 32) a x).toNat < S4096.size a := fun v3450 k0_hw278 => k0_hw278

def k0_chk279 (v3453 : IVec S16 32) : Prop :=
  (∀ a x, ((![v3453] : Fin 1 → IVec S16 32) a x).toNat < S4096.size a)
instance k0_chk279.dec : ∀ (v3453 : IVec S16 32), Decidable (k0_chk279 v3453) := fun v3453 => decidable_of_iff' _ (Iff.of_eq (k0_chk279.eq_1 v3453))
theorem k0_idx279_inb : ∀ (v3453 : IVec S16 32) (k0_hw279 : k0_chk279 v3453), ∀ a x, ((![v3453] : Fin 1 → IVec S16 32) a x).toNat < S4096.size a := fun v3453 k0_hw279 => k0_hw279

def k0_chk280 (v3456 : IVec S16 32) : Prop :=
  (∀ a x, ((![v3456] : Fin 1 → IVec S16 32) a x).toNat < S4096.size a)
instance k0_chk280.dec : ∀ (v3456 : IVec S16 32), Decidable (k0_chk280 v3456) := fun v3456 => decidable_of_iff' _ (Iff.of_eq (k0_chk280.eq_1 v3456))
theorem k0_idx280_inb : ∀ (v3456 : IVec S16 32) (k0_hw280 : k0_chk280 v3456), ∀ a x, ((![v3456] : Fin 1 → IVec S16 32) a x).toNat < S4096.size a := fun v3456 k0_hw280 => k0_hw280
def k0_off22 (k0_t2 : Fin k0_t2_loop.trips) : Fin 4 → Nat :=
  let c2_i32_1617 : BitVec 32 := 2#32
  let v3458 : Index := Scalar.indexCast c2_i32_1617
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3459 : Index := Scalar.indexCast v3303
  let c0_i32_1618 : BitVec 32 := 0#32
  let v3460 : Index := Scalar.indexCast c0_i32_1618
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3461 : Index := Scalar.indexCast v3305
  ![2, v3459.toNat, 0, v3461.toNat]
def k0_off23 (k0_t2 : Fin k0_t2_loop.trips) : Fin 4 → Nat :=
  let c2_i32_1619 : BitVec 32 := 2#32
  let v3463 : Index := Scalar.indexCast c2_i32_1619
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3464 : Index := Scalar.indexCast v3303
  let c1_i32_1620 : BitVec 32 := 1#32
  let v3465 : Index := Scalar.indexCast c1_i32_1620
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3466 : Index := Scalar.indexCast v3305
  ![2, v3464.toNat, 1, v3466.toNat]
def k0_off24 (k0_t2 : Fin k0_t2_loop.trips) : Fin 4 → Nat :=
  let c2_i32_1621 : BitVec 32 := 2#32
  let v3468 : Index := Scalar.indexCast c2_i32_1621
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3469 : Index := Scalar.indexCast v3303
  let c2_i32_1622 : BitVec 32 := 2#32
  let v3470 : Index := Scalar.indexCast c2_i32_1622
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3471 : Index := Scalar.indexCast v3305
  ![2, v3469.toNat, 2, v3471.toNat]
def k0_off25 (k0_t2 : Fin k0_t2_loop.trips) : Fin 4 → Nat :=
  let c2_i32_1623 : BitVec 32 := 2#32
  let v3473 : Index := Scalar.indexCast c2_i32_1623
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3474 : Index := Scalar.indexCast v3303
  let c3_i32_1624 : BitVec 32 := 3#32
  let v3475 : Index := Scalar.indexCast c3_i32_1624
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3476 : Index := Scalar.indexCast v3305
  ![2, v3474.toNat, 3, v3476.toNat]
def k0_off26 (k0_t2 : Fin k0_t2_loop.trips) : Fin 4 → Nat :=
  let c2_i32_1625 : BitVec 32 := 2#32
  let v3478 : Index := Scalar.indexCast c2_i32_1625
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3479 : Index := Scalar.indexCast v3303
  let c4_i32_1626 : BitVec 32 := 4#32
  let v3480 : Index := Scalar.indexCast c4_i32_1626
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3481 : Index := Scalar.indexCast v3305
  ![2, v3479.toNat, 4, v3481.toNat]
def k0_off27 (k0_t2 : Fin k0_t2_loop.trips) : Fin 4 → Nat :=
  let c2_i32_1627 : BitVec 32 := 2#32
  let v3483 : Index := Scalar.indexCast c2_i32_1627
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3484 : Index := Scalar.indexCast v3303
  let c5_i32_1628 : BitVec 32 := 5#32
  let v3485 : Index := Scalar.indexCast c5_i32_1628
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3486 : Index := Scalar.indexCast v3305
  ![2, v3484.toNat, 5, v3486.toNat]
def k0_off28 (k0_t2 : Fin k0_t2_loop.trips) : Fin 4 → Nat :=
  let c2_i32_1629 : BitVec 32 := 2#32
  let v3488 : Index := Scalar.indexCast c2_i32_1629
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3489 : Index := Scalar.indexCast v3303
  let c6_i32_1630 : BitVec 32 := 6#32
  let v3490 : Index := Scalar.indexCast c6_i32_1630
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3491 : Index := Scalar.indexCast v3305
  ![2, v3489.toNat, 6, v3491.toNat]
def k0_off29 (k0_t2 : Fin k0_t2_loop.trips) : Fin 4 → Nat :=
  let c2_i32_1631 : BitVec 32 := 2#32
  let v3493 : Index := Scalar.indexCast c2_i32_1631
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3494 : Index := Scalar.indexCast v3303
  let c7_i32_1632 : BitVec 32 := 7#32
  let v3495 : Index := Scalar.indexCast c7_i32_1632
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3496 : Index := Scalar.indexCast v3305
  ![2, v3494.toNat, 7, v3496.toNat]

def k0_chk281 (v3499 : IVec S16 32) : Prop :=
  (∀ a x, ((![v3499] : Fin 1 → IVec S16 32) a x).toNat < S4096.size a)
instance k0_chk281.dec : ∀ (v3499 : IVec S16 32), Decidable (k0_chk281 v3499) := fun v3499 => decidable_of_iff' _ (Iff.of_eq (k0_chk281.eq_1 v3499))
theorem k0_idx281_inb : ∀ (v3499 : IVec S16 32) (k0_hw281 : k0_chk281 v3499), ∀ a x, ((![v3499] : Fin 1 → IVec S16 32) a x).toNat < S4096.size a := fun v3499 k0_hw281 => k0_hw281

def k0_chk282 (v3502 : IVec S16 32) : Prop :=
  (∀ a x, ((![v3502] : Fin 1 → IVec S16 32) a x).toNat < S4096.size a)
instance k0_chk282.dec : ∀ (v3502 : IVec S16 32), Decidable (k0_chk282 v3502) := fun v3502 => decidable_of_iff' _ (Iff.of_eq (k0_chk282.eq_1 v3502))
theorem k0_idx282_inb : ∀ (v3502 : IVec S16 32) (k0_hw282 : k0_chk282 v3502), ∀ a x, ((![v3502] : Fin 1 → IVec S16 32) a x).toNat < S4096.size a := fun v3502 k0_hw282 => k0_hw282

def k0_chk283 (v3505 : IVec S16 32) : Prop :=
  (∀ a x, ((![v3505] : Fin 1 → IVec S16 32) a x).toNat < S4096.size a)
instance k0_chk283.dec : ∀ (v3505 : IVec S16 32), Decidable (k0_chk283 v3505) := fun v3505 => decidable_of_iff' _ (Iff.of_eq (k0_chk283.eq_1 v3505))
theorem k0_idx283_inb : ∀ (v3505 : IVec S16 32) (k0_hw283 : k0_chk283 v3505), ∀ a x, ((![v3505] : Fin 1 → IVec S16 32) a x).toNat < S4096.size a := fun v3505 k0_hw283 => k0_hw283

def k0_chk284 (v3508 : IVec S16 32) : Prop :=
  (∀ a x, ((![v3508] : Fin 1 → IVec S16 32) a x).toNat < S4096.size a)
instance k0_chk284.dec : ∀ (v3508 : IVec S16 32), Decidable (k0_chk284 v3508) := fun v3508 => decidable_of_iff' _ (Iff.of_eq (k0_chk284.eq_1 v3508))
theorem k0_idx284_inb : ∀ (v3508 : IVec S16 32) (k0_hw284 : k0_chk284 v3508), ∀ a x, ((![v3508] : Fin 1 → IVec S16 32) a x).toNat < S4096.size a := fun v3508 k0_hw284 => k0_hw284

def k0_chk285 (v3511 : IVec S16 32) : Prop :=
  (∀ a x, ((![v3511] : Fin 1 → IVec S16 32) a x).toNat < S4096.size a)
instance k0_chk285.dec : ∀ (v3511 : IVec S16 32), Decidable (k0_chk285 v3511) := fun v3511 => decidable_of_iff' _ (Iff.of_eq (k0_chk285.eq_1 v3511))
theorem k0_idx285_inb : ∀ (v3511 : IVec S16 32) (k0_hw285 : k0_chk285 v3511), ∀ a x, ((![v3511] : Fin 1 → IVec S16 32) a x).toNat < S4096.size a := fun v3511 k0_hw285 => k0_hw285

def k0_chk286 (v3514 : IVec S16 32) : Prop :=
  (∀ a x, ((![v3514] : Fin 1 → IVec S16 32) a x).toNat < S4096.size a)
instance k0_chk286.dec : ∀ (v3514 : IVec S16 32), Decidable (k0_chk286 v3514) := fun v3514 => decidable_of_iff' _ (Iff.of_eq (k0_chk286.eq_1 v3514))
theorem k0_idx286_inb : ∀ (v3514 : IVec S16 32) (k0_hw286 : k0_chk286 v3514), ∀ a x, ((![v3514] : Fin 1 → IVec S16 32) a x).toNat < S4096.size a := fun v3514 k0_hw286 => k0_hw286

def k0_chk287 (v3517 : IVec S16 32) : Prop :=
  (∀ a x, ((![v3517] : Fin 1 → IVec S16 32) a x).toNat < S4096.size a)
instance k0_chk287.dec : ∀ (v3517 : IVec S16 32), Decidable (k0_chk287 v3517) := fun v3517 => decidable_of_iff' _ (Iff.of_eq (k0_chk287.eq_1 v3517))
theorem k0_idx287_inb : ∀ (v3517 : IVec S16 32) (k0_hw287 : k0_chk287 v3517), ∀ a x, ((![v3517] : Fin 1 → IVec S16 32) a x).toNat < S4096.size a := fun v3517 k0_hw287 => k0_hw287

def k0_chk288 (v3520 : IVec S16 32) : Prop :=
  (∀ a x, ((![v3520] : Fin 1 → IVec S16 32) a x).toNat < S4096.size a)
instance k0_chk288.dec : ∀ (v3520 : IVec S16 32), Decidable (k0_chk288 v3520) := fun v3520 => decidable_of_iff' _ (Iff.of_eq (k0_chk288.eq_1 v3520))
theorem k0_idx288_inb : ∀ (v3520 : IVec S16 32) (k0_hw288 : k0_chk288 v3520), ∀ a x, ((![v3520] : Fin 1 → IVec S16 32) a x).toNat < S4096.size a := fun v3520 k0_hw288 => k0_hw288
def k0_off30 (k0_t2 : Fin k0_t2_loop.trips) : Fin 4 → Nat :=
  let c3_i32_1634 : BitVec 32 := 3#32
  let v3522 : Index := Scalar.indexCast c3_i32_1634
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3523 : Index := Scalar.indexCast v3303
  let c0_i32_1635 : BitVec 32 := 0#32
  let v3524 : Index := Scalar.indexCast c0_i32_1635
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3525 : Index := Scalar.indexCast v3305
  ![3, v3523.toNat, 0, v3525.toNat]
def k0_off31 (k0_t2 : Fin k0_t2_loop.trips) : Fin 4 → Nat :=
  let c3_i32_1636 : BitVec 32 := 3#32
  let v3527 : Index := Scalar.indexCast c3_i32_1636
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3528 : Index := Scalar.indexCast v3303
  let c1_i32_1637 : BitVec 32 := 1#32
  let v3529 : Index := Scalar.indexCast c1_i32_1637
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3530 : Index := Scalar.indexCast v3305
  ![3, v3528.toNat, 1, v3530.toNat]
def k0_off32 (k0_t2 : Fin k0_t2_loop.trips) : Fin 4 → Nat :=
  let c3_i32_1638 : BitVec 32 := 3#32
  let v3532 : Index := Scalar.indexCast c3_i32_1638
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3533 : Index := Scalar.indexCast v3303
  let c2_i32_1639 : BitVec 32 := 2#32
  let v3534 : Index := Scalar.indexCast c2_i32_1639
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3535 : Index := Scalar.indexCast v3305
  ![3, v3533.toNat, 2, v3535.toNat]
def k0_off33 (k0_t2 : Fin k0_t2_loop.trips) : Fin 4 → Nat :=
  let c3_i32_1640 : BitVec 32 := 3#32
  let v3537 : Index := Scalar.indexCast c3_i32_1640
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3538 : Index := Scalar.indexCast v3303
  let c3_i32_1641 : BitVec 32 := 3#32
  let v3539 : Index := Scalar.indexCast c3_i32_1641
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3540 : Index := Scalar.indexCast v3305
  ![3, v3538.toNat, 3, v3540.toNat]
def k0_off34 (k0_t2 : Fin k0_t2_loop.trips) : Fin 4 → Nat :=
  let c3_i32_1642 : BitVec 32 := 3#32
  let v3542 : Index := Scalar.indexCast c3_i32_1642
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3543 : Index := Scalar.indexCast v3303
  let c4_i32_1643 : BitVec 32 := 4#32
  let v3544 : Index := Scalar.indexCast c4_i32_1643
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3545 : Index := Scalar.indexCast v3305
  ![3, v3543.toNat, 4, v3545.toNat]
def k0_off35 (k0_t2 : Fin k0_t2_loop.trips) : Fin 4 → Nat :=
  let c3_i32_1644 : BitVec 32 := 3#32
  let v3547 : Index := Scalar.indexCast c3_i32_1644
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3548 : Index := Scalar.indexCast v3303
  let c5_i32_1645 : BitVec 32 := 5#32
  let v3549 : Index := Scalar.indexCast c5_i32_1645
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3550 : Index := Scalar.indexCast v3305
  ![3, v3548.toNat, 5, v3550.toNat]
def k0_off36 (k0_t2 : Fin k0_t2_loop.trips) : Fin 4 → Nat :=
  let c3_i32_1646 : BitVec 32 := 3#32
  let v3552 : Index := Scalar.indexCast c3_i32_1646
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3553 : Index := Scalar.indexCast v3303
  let c6_i32_1647 : BitVec 32 := 6#32
  let v3554 : Index := Scalar.indexCast c6_i32_1647
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3555 : Index := Scalar.indexCast v3305
  ![3, v3553.toNat, 6, v3555.toNat]
def k0_off37 (k0_t2 : Fin k0_t2_loop.trips) : Fin 4 → Nat :=
  let c3_i32_1648 : BitVec 32 := 3#32
  let v3557 : Index := Scalar.indexCast c3_i32_1648
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3558 : Index := Scalar.indexCast v3303
  let c7_i32_1649 : BitVec 32 := 7#32
  let v3559 : Index := Scalar.indexCast c7_i32_1649
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3560 : Index := Scalar.indexCast v3305
  ![3, v3558.toNat, 7, v3560.toNat]

def k0_chk289 (v3563 : IVec S16 32) : Prop :=
  (∀ a x, ((![v3563] : Fin 1 → IVec S16 32) a x).toNat < S4096.size a)
instance k0_chk289.dec : ∀ (v3563 : IVec S16 32), Decidable (k0_chk289 v3563) := fun v3563 => decidable_of_iff' _ (Iff.of_eq (k0_chk289.eq_1 v3563))
theorem k0_idx289_inb : ∀ (v3563 : IVec S16 32) (k0_hw289 : k0_chk289 v3563), ∀ a x, ((![v3563] : Fin 1 → IVec S16 32) a x).toNat < S4096.size a := fun v3563 k0_hw289 => k0_hw289

def k0_chk290 (v3566 : IVec S16 32) : Prop :=
  (∀ a x, ((![v3566] : Fin 1 → IVec S16 32) a x).toNat < S4096.size a)
instance k0_chk290.dec : ∀ (v3566 : IVec S16 32), Decidable (k0_chk290 v3566) := fun v3566 => decidable_of_iff' _ (Iff.of_eq (k0_chk290.eq_1 v3566))
theorem k0_idx290_inb : ∀ (v3566 : IVec S16 32) (k0_hw290 : k0_chk290 v3566), ∀ a x, ((![v3566] : Fin 1 → IVec S16 32) a x).toNat < S4096.size a := fun v3566 k0_hw290 => k0_hw290

def k0_chk291 (v3569 : IVec S16 32) : Prop :=
  (∀ a x, ((![v3569] : Fin 1 → IVec S16 32) a x).toNat < S4096.size a)
instance k0_chk291.dec : ∀ (v3569 : IVec S16 32), Decidable (k0_chk291 v3569) := fun v3569 => decidable_of_iff' _ (Iff.of_eq (k0_chk291.eq_1 v3569))
theorem k0_idx291_inb : ∀ (v3569 : IVec S16 32) (k0_hw291 : k0_chk291 v3569), ∀ a x, ((![v3569] : Fin 1 → IVec S16 32) a x).toNat < S4096.size a := fun v3569 k0_hw291 => k0_hw291

def k0_chk292 (v3572 : IVec S16 32) : Prop :=
  (∀ a x, ((![v3572] : Fin 1 → IVec S16 32) a x).toNat < S4096.size a)
instance k0_chk292.dec : ∀ (v3572 : IVec S16 32), Decidable (k0_chk292 v3572) := fun v3572 => decidable_of_iff' _ (Iff.of_eq (k0_chk292.eq_1 v3572))
theorem k0_idx292_inb : ∀ (v3572 : IVec S16 32) (k0_hw292 : k0_chk292 v3572), ∀ a x, ((![v3572] : Fin 1 → IVec S16 32) a x).toNat < S4096.size a := fun v3572 k0_hw292 => k0_hw292

def k0_chk293 (v3575 : IVec S16 32) : Prop :=
  (∀ a x, ((![v3575] : Fin 1 → IVec S16 32) a x).toNat < S4096.size a)
instance k0_chk293.dec : ∀ (v3575 : IVec S16 32), Decidable (k0_chk293 v3575) := fun v3575 => decidable_of_iff' _ (Iff.of_eq (k0_chk293.eq_1 v3575))
theorem k0_idx293_inb : ∀ (v3575 : IVec S16 32) (k0_hw293 : k0_chk293 v3575), ∀ a x, ((![v3575] : Fin 1 → IVec S16 32) a x).toNat < S4096.size a := fun v3575 k0_hw293 => k0_hw293

def k0_chk294 (v3578 : IVec S16 32) : Prop :=
  (∀ a x, ((![v3578] : Fin 1 → IVec S16 32) a x).toNat < S4096.size a)
instance k0_chk294.dec : ∀ (v3578 : IVec S16 32), Decidable (k0_chk294 v3578) := fun v3578 => decidable_of_iff' _ (Iff.of_eq (k0_chk294.eq_1 v3578))
theorem k0_idx294_inb : ∀ (v3578 : IVec S16 32) (k0_hw294 : k0_chk294 v3578), ∀ a x, ((![v3578] : Fin 1 → IVec S16 32) a x).toNat < S4096.size a := fun v3578 k0_hw294 => k0_hw294

def k0_chk295 (v3581 : IVec S16 32) : Prop :=
  (∀ a x, ((![v3581] : Fin 1 → IVec S16 32) a x).toNat < S4096.size a)
instance k0_chk295.dec : ∀ (v3581 : IVec S16 32), Decidable (k0_chk295 v3581) := fun v3581 => decidable_of_iff' _ (Iff.of_eq (k0_chk295.eq_1 v3581))
theorem k0_idx295_inb : ∀ (v3581 : IVec S16 32) (k0_hw295 : k0_chk295 v3581), ∀ a x, ((![v3581] : Fin 1 → IVec S16 32) a x).toNat < S4096.size a := fun v3581 k0_hw295 => k0_hw295

def k0_chk296 (v3584 : IVec S16 32) : Prop :=
  (∀ a x, ((![v3584] : Fin 1 → IVec S16 32) a x).toNat < S4096.size a)
instance k0_chk296.dec : ∀ (v3584 : IVec S16 32), Decidable (k0_chk296 v3584) := fun v3584 => decidable_of_iff' _ (Iff.of_eq (k0_chk296.eq_1 v3584))
theorem k0_idx296_inb : ∀ (v3584 : IVec S16 32) (k0_hw296 : k0_chk296 v3584), ∀ a x, ((![v3584] : Fin 1 → IVec S16 32) a x).toNat < S4096.size a := fun v3584 k0_hw296 => k0_hw296
def k0_off38 (k0_t2 : Fin k0_t2_loop.trips) : Fin 4 → Nat :=
  let c4_i32_1650 : BitVec 32 := 4#32
  let v3586 : Index := Scalar.indexCast c4_i32_1650
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3587 : Index := Scalar.indexCast v3303
  let c0_i32_1651 : BitVec 32 := 0#32
  let v3588 : Index := Scalar.indexCast c0_i32_1651
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3589 : Index := Scalar.indexCast v3305
  ![4, v3587.toNat, 0, v3589.toNat]
def k0_off39 (k0_t2 : Fin k0_t2_loop.trips) : Fin 4 → Nat :=
  let c4_i32_1652 : BitVec 32 := 4#32
  let v3591 : Index := Scalar.indexCast c4_i32_1652
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3592 : Index := Scalar.indexCast v3303
  let c1_i32_1653 : BitVec 32 := 1#32
  let v3593 : Index := Scalar.indexCast c1_i32_1653
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3594 : Index := Scalar.indexCast v3305
  ![4, v3592.toNat, 1, v3594.toNat]
def k0_off40 (k0_t2 : Fin k0_t2_loop.trips) : Fin 4 → Nat :=
  let c4_i32_1654 : BitVec 32 := 4#32
  let v3596 : Index := Scalar.indexCast c4_i32_1654
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3597 : Index := Scalar.indexCast v3303
  let c2_i32_1655 : BitVec 32 := 2#32
  let v3598 : Index := Scalar.indexCast c2_i32_1655
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3599 : Index := Scalar.indexCast v3305
  ![4, v3597.toNat, 2, v3599.toNat]
def k0_off41 (k0_t2 : Fin k0_t2_loop.trips) : Fin 4 → Nat :=
  let c4_i32_1656 : BitVec 32 := 4#32
  let v3601 : Index := Scalar.indexCast c4_i32_1656
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3602 : Index := Scalar.indexCast v3303
  let c3_i32_1657 : BitVec 32 := 3#32
  let v3603 : Index := Scalar.indexCast c3_i32_1657
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3604 : Index := Scalar.indexCast v3305
  ![4, v3602.toNat, 3, v3604.toNat]
def k0_off42 (k0_t2 : Fin k0_t2_loop.trips) : Fin 4 → Nat :=
  let c4_i32_1658 : BitVec 32 := 4#32
  let v3606 : Index := Scalar.indexCast c4_i32_1658
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3607 : Index := Scalar.indexCast v3303
  let c4_i32_1659 : BitVec 32 := 4#32
  let v3608 : Index := Scalar.indexCast c4_i32_1659
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3609 : Index := Scalar.indexCast v3305
  ![4, v3607.toNat, 4, v3609.toNat]
def k0_off43 (k0_t2 : Fin k0_t2_loop.trips) : Fin 4 → Nat :=
  let c4_i32_1660 : BitVec 32 := 4#32
  let v3611 : Index := Scalar.indexCast c4_i32_1660
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3612 : Index := Scalar.indexCast v3303
  let c5_i32_1661 : BitVec 32 := 5#32
  let v3613 : Index := Scalar.indexCast c5_i32_1661
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3614 : Index := Scalar.indexCast v3305
  ![4, v3612.toNat, 5, v3614.toNat]
def k0_off44 (k0_t2 : Fin k0_t2_loop.trips) : Fin 4 → Nat :=
  let c4_i32_1662 : BitVec 32 := 4#32
  let v3616 : Index := Scalar.indexCast c4_i32_1662
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3617 : Index := Scalar.indexCast v3303
  let c6_i32_1663 : BitVec 32 := 6#32
  let v3618 : Index := Scalar.indexCast c6_i32_1663
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3619 : Index := Scalar.indexCast v3305
  ![4, v3617.toNat, 6, v3619.toNat]
def k0_off45 (k0_t2 : Fin k0_t2_loop.trips) : Fin 4 → Nat :=
  let c4_i32_1664 : BitVec 32 := 4#32
  let v3621 : Index := Scalar.indexCast c4_i32_1664
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3622 : Index := Scalar.indexCast v3303
  let c7_i32_1665 : BitVec 32 := 7#32
  let v3623 : Index := Scalar.indexCast c7_i32_1665
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3624 : Index := Scalar.indexCast v3305
  ![4, v3622.toNat, 7, v3624.toNat]

def k0_chk297 (v3627 : IVec S16 32) : Prop :=
  (∀ a x, ((![v3627] : Fin 1 → IVec S16 32) a x).toNat < S4096.size a)
instance k0_chk297.dec : ∀ (v3627 : IVec S16 32), Decidable (k0_chk297 v3627) := fun v3627 => decidable_of_iff' _ (Iff.of_eq (k0_chk297.eq_1 v3627))
theorem k0_idx297_inb : ∀ (v3627 : IVec S16 32) (k0_hw297 : k0_chk297 v3627), ∀ a x, ((![v3627] : Fin 1 → IVec S16 32) a x).toNat < S4096.size a := fun v3627 k0_hw297 => k0_hw297

def k0_chk298 (v3630 : IVec S16 32) : Prop :=
  (∀ a x, ((![v3630] : Fin 1 → IVec S16 32) a x).toNat < S4096.size a)
instance k0_chk298.dec : ∀ (v3630 : IVec S16 32), Decidable (k0_chk298 v3630) := fun v3630 => decidable_of_iff' _ (Iff.of_eq (k0_chk298.eq_1 v3630))
theorem k0_idx298_inb : ∀ (v3630 : IVec S16 32) (k0_hw298 : k0_chk298 v3630), ∀ a x, ((![v3630] : Fin 1 → IVec S16 32) a x).toNat < S4096.size a := fun v3630 k0_hw298 => k0_hw298

def k0_chk299 (v3633 : IVec S16 32) : Prop :=
  (∀ a x, ((![v3633] : Fin 1 → IVec S16 32) a x).toNat < S4096.size a)
instance k0_chk299.dec : ∀ (v3633 : IVec S16 32), Decidable (k0_chk299 v3633) := fun v3633 => decidable_of_iff' _ (Iff.of_eq (k0_chk299.eq_1 v3633))
theorem k0_idx299_inb : ∀ (v3633 : IVec S16 32) (k0_hw299 : k0_chk299 v3633), ∀ a x, ((![v3633] : Fin 1 → IVec S16 32) a x).toNat < S4096.size a := fun v3633 k0_hw299 => k0_hw299

def k0_chk300 (v3636 : IVec S16 32) : Prop :=
  (∀ a x, ((![v3636] : Fin 1 → IVec S16 32) a x).toNat < S4096.size a)
instance k0_chk300.dec : ∀ (v3636 : IVec S16 32), Decidable (k0_chk300 v3636) := fun v3636 => decidable_of_iff' _ (Iff.of_eq (k0_chk300.eq_1 v3636))
theorem k0_idx300_inb : ∀ (v3636 : IVec S16 32) (k0_hw300 : k0_chk300 v3636), ∀ a x, ((![v3636] : Fin 1 → IVec S16 32) a x).toNat < S4096.size a := fun v3636 k0_hw300 => k0_hw300

def k0_chk301 (v3639 : IVec S16 32) : Prop :=
  (∀ a x, ((![v3639] : Fin 1 → IVec S16 32) a x).toNat < S4096.size a)
instance k0_chk301.dec : ∀ (v3639 : IVec S16 32), Decidable (k0_chk301 v3639) := fun v3639 => decidable_of_iff' _ (Iff.of_eq (k0_chk301.eq_1 v3639))
theorem k0_idx301_inb : ∀ (v3639 : IVec S16 32) (k0_hw301 : k0_chk301 v3639), ∀ a x, ((![v3639] : Fin 1 → IVec S16 32) a x).toNat < S4096.size a := fun v3639 k0_hw301 => k0_hw301

def k0_chk302 (v3642 : IVec S16 32) : Prop :=
  (∀ a x, ((![v3642] : Fin 1 → IVec S16 32) a x).toNat < S4096.size a)
instance k0_chk302.dec : ∀ (v3642 : IVec S16 32), Decidable (k0_chk302 v3642) := fun v3642 => decidable_of_iff' _ (Iff.of_eq (k0_chk302.eq_1 v3642))
theorem k0_idx302_inb : ∀ (v3642 : IVec S16 32) (k0_hw302 : k0_chk302 v3642), ∀ a x, ((![v3642] : Fin 1 → IVec S16 32) a x).toNat < S4096.size a := fun v3642 k0_hw302 => k0_hw302

def k0_chk303 (v3645 : IVec S16 32) : Prop :=
  (∀ a x, ((![v3645] : Fin 1 → IVec S16 32) a x).toNat < S4096.size a)
instance k0_chk303.dec : ∀ (v3645 : IVec S16 32), Decidable (k0_chk303 v3645) := fun v3645 => decidable_of_iff' _ (Iff.of_eq (k0_chk303.eq_1 v3645))
theorem k0_idx303_inb : ∀ (v3645 : IVec S16 32) (k0_hw303 : k0_chk303 v3645), ∀ a x, ((![v3645] : Fin 1 → IVec S16 32) a x).toNat < S4096.size a := fun v3645 k0_hw303 => k0_hw303

def k0_chk304 (v3648 : IVec S16 32) : Prop :=
  (∀ a x, ((![v3648] : Fin 1 → IVec S16 32) a x).toNat < S4096.size a)
instance k0_chk304.dec : ∀ (v3648 : IVec S16 32), Decidable (k0_chk304 v3648) := fun v3648 => decidable_of_iff' _ (Iff.of_eq (k0_chk304.eq_1 v3648))
theorem k0_idx304_inb : ∀ (v3648 : IVec S16 32) (k0_hw304 : k0_chk304 v3648), ∀ a x, ((![v3648] : Fin 1 → IVec S16 32) a x).toNat < S4096.size a := fun v3648 k0_hw304 => k0_hw304
def k0_off46 (k0_t2 : Fin k0_t2_loop.trips) : Fin 4 → Nat :=
  let c5_i32_1666 : BitVec 32 := 5#32
  let v3650 : Index := Scalar.indexCast c5_i32_1666
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3651 : Index := Scalar.indexCast v3303
  let c0_i32_1667 : BitVec 32 := 0#32
  let v3652 : Index := Scalar.indexCast c0_i32_1667
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3653 : Index := Scalar.indexCast v3305
  ![5, v3651.toNat, 0, v3653.toNat]
def k0_off47 (k0_t2 : Fin k0_t2_loop.trips) : Fin 4 → Nat :=
  let c5_i32_1668 : BitVec 32 := 5#32
  let v3655 : Index := Scalar.indexCast c5_i32_1668
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3656 : Index := Scalar.indexCast v3303
  let c1_i32_1669 : BitVec 32 := 1#32
  let v3657 : Index := Scalar.indexCast c1_i32_1669
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3658 : Index := Scalar.indexCast v3305
  ![5, v3656.toNat, 1, v3658.toNat]
def k0_off48 (k0_t2 : Fin k0_t2_loop.trips) : Fin 4 → Nat :=
  let c5_i32_1670 : BitVec 32 := 5#32
  let v3660 : Index := Scalar.indexCast c5_i32_1670
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3661 : Index := Scalar.indexCast v3303
  let c2_i32_1671 : BitVec 32 := 2#32
  let v3662 : Index := Scalar.indexCast c2_i32_1671
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3663 : Index := Scalar.indexCast v3305
  ![5, v3661.toNat, 2, v3663.toNat]
def k0_off49 (k0_t2 : Fin k0_t2_loop.trips) : Fin 4 → Nat :=
  let c5_i32_1672 : BitVec 32 := 5#32
  let v3665 : Index := Scalar.indexCast c5_i32_1672
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3666 : Index := Scalar.indexCast v3303
  let c3_i32_1673 : BitVec 32 := 3#32
  let v3667 : Index := Scalar.indexCast c3_i32_1673
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3668 : Index := Scalar.indexCast v3305
  ![5, v3666.toNat, 3, v3668.toNat]
def k0_off50 (k0_t2 : Fin k0_t2_loop.trips) : Fin 4 → Nat :=
  let c5_i32_1674 : BitVec 32 := 5#32
  let v3670 : Index := Scalar.indexCast c5_i32_1674
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3671 : Index := Scalar.indexCast v3303
  let c4_i32_1675 : BitVec 32 := 4#32
  let v3672 : Index := Scalar.indexCast c4_i32_1675
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3673 : Index := Scalar.indexCast v3305
  ![5, v3671.toNat, 4, v3673.toNat]
def k0_off51 (k0_t2 : Fin k0_t2_loop.trips) : Fin 4 → Nat :=
  let c5_i32_1676 : BitVec 32 := 5#32
  let v3675 : Index := Scalar.indexCast c5_i32_1676
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3676 : Index := Scalar.indexCast v3303
  let c5_i32_1677 : BitVec 32 := 5#32
  let v3677 : Index := Scalar.indexCast c5_i32_1677
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3678 : Index := Scalar.indexCast v3305
  ![5, v3676.toNat, 5, v3678.toNat]
def k0_off52 (k0_t2 : Fin k0_t2_loop.trips) : Fin 4 → Nat :=
  let c5_i32_1678 : BitVec 32 := 5#32
  let v3680 : Index := Scalar.indexCast c5_i32_1678
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3681 : Index := Scalar.indexCast v3303
  let c6_i32_1679 : BitVec 32 := 6#32
  let v3682 : Index := Scalar.indexCast c6_i32_1679
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3683 : Index := Scalar.indexCast v3305
  ![5, v3681.toNat, 6, v3683.toNat]
def k0_off53 (k0_t2 : Fin k0_t2_loop.trips) : Fin 4 → Nat :=
  let c5_i32_1680 : BitVec 32 := 5#32
  let v3685 : Index := Scalar.indexCast c5_i32_1680
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3686 : Index := Scalar.indexCast v3303
  let c7_i32_1681 : BitVec 32 := 7#32
  let v3687 : Index := Scalar.indexCast c7_i32_1681
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3688 : Index := Scalar.indexCast v3305
  ![5, v3686.toNat, 7, v3688.toNat]

def k0_chk305 (v3691 : IVec S16 32) : Prop :=
  (∀ a x, ((![v3691] : Fin 1 → IVec S16 32) a x).toNat < S4096.size a)
instance k0_chk305.dec : ∀ (v3691 : IVec S16 32), Decidable (k0_chk305 v3691) := fun v3691 => decidable_of_iff' _ (Iff.of_eq (k0_chk305.eq_1 v3691))
theorem k0_idx305_inb : ∀ (v3691 : IVec S16 32) (k0_hw305 : k0_chk305 v3691), ∀ a x, ((![v3691] : Fin 1 → IVec S16 32) a x).toNat < S4096.size a := fun v3691 k0_hw305 => k0_hw305

def k0_chk306 (v3694 : IVec S16 32) : Prop :=
  (∀ a x, ((![v3694] : Fin 1 → IVec S16 32) a x).toNat < S4096.size a)
instance k0_chk306.dec : ∀ (v3694 : IVec S16 32), Decidable (k0_chk306 v3694) := fun v3694 => decidable_of_iff' _ (Iff.of_eq (k0_chk306.eq_1 v3694))
theorem k0_idx306_inb : ∀ (v3694 : IVec S16 32) (k0_hw306 : k0_chk306 v3694), ∀ a x, ((![v3694] : Fin 1 → IVec S16 32) a x).toNat < S4096.size a := fun v3694 k0_hw306 => k0_hw306

def k0_chk307 (v3697 : IVec S16 32) : Prop :=
  (∀ a x, ((![v3697] : Fin 1 → IVec S16 32) a x).toNat < S4096.size a)
instance k0_chk307.dec : ∀ (v3697 : IVec S16 32), Decidable (k0_chk307 v3697) := fun v3697 => decidable_of_iff' _ (Iff.of_eq (k0_chk307.eq_1 v3697))
theorem k0_idx307_inb : ∀ (v3697 : IVec S16 32) (k0_hw307 : k0_chk307 v3697), ∀ a x, ((![v3697] : Fin 1 → IVec S16 32) a x).toNat < S4096.size a := fun v3697 k0_hw307 => k0_hw307

def k0_chk308 (v3700 : IVec S16 32) : Prop :=
  (∀ a x, ((![v3700] : Fin 1 → IVec S16 32) a x).toNat < S4096.size a)
instance k0_chk308.dec : ∀ (v3700 : IVec S16 32), Decidable (k0_chk308 v3700) := fun v3700 => decidable_of_iff' _ (Iff.of_eq (k0_chk308.eq_1 v3700))
theorem k0_idx308_inb : ∀ (v3700 : IVec S16 32) (k0_hw308 : k0_chk308 v3700), ∀ a x, ((![v3700] : Fin 1 → IVec S16 32) a x).toNat < S4096.size a := fun v3700 k0_hw308 => k0_hw308

def k0_chk309 (v3703 : IVec S16 32) : Prop :=
  (∀ a x, ((![v3703] : Fin 1 → IVec S16 32) a x).toNat < S4096.size a)
instance k0_chk309.dec : ∀ (v3703 : IVec S16 32), Decidable (k0_chk309 v3703) := fun v3703 => decidable_of_iff' _ (Iff.of_eq (k0_chk309.eq_1 v3703))
theorem k0_idx309_inb : ∀ (v3703 : IVec S16 32) (k0_hw309 : k0_chk309 v3703), ∀ a x, ((![v3703] : Fin 1 → IVec S16 32) a x).toNat < S4096.size a := fun v3703 k0_hw309 => k0_hw309

def k0_chk310 (v3706 : IVec S16 32) : Prop :=
  (∀ a x, ((![v3706] : Fin 1 → IVec S16 32) a x).toNat < S4096.size a)
instance k0_chk310.dec : ∀ (v3706 : IVec S16 32), Decidable (k0_chk310 v3706) := fun v3706 => decidable_of_iff' _ (Iff.of_eq (k0_chk310.eq_1 v3706))
theorem k0_idx310_inb : ∀ (v3706 : IVec S16 32) (k0_hw310 : k0_chk310 v3706), ∀ a x, ((![v3706] : Fin 1 → IVec S16 32) a x).toNat < S4096.size a := fun v3706 k0_hw310 => k0_hw310

def k0_chk311 (v3709 : IVec S16 32) : Prop :=
  (∀ a x, ((![v3709] : Fin 1 → IVec S16 32) a x).toNat < S4096.size a)
instance k0_chk311.dec : ∀ (v3709 : IVec S16 32), Decidable (k0_chk311 v3709) := fun v3709 => decidable_of_iff' _ (Iff.of_eq (k0_chk311.eq_1 v3709))
theorem k0_idx311_inb : ∀ (v3709 : IVec S16 32) (k0_hw311 : k0_chk311 v3709), ∀ a x, ((![v3709] : Fin 1 → IVec S16 32) a x).toNat < S4096.size a := fun v3709 k0_hw311 => k0_hw311

def k0_chk312 (v3712 : IVec S16 32) : Prop :=
  (∀ a x, ((![v3712] : Fin 1 → IVec S16 32) a x).toNat < S4096.size a)
instance k0_chk312.dec : ∀ (v3712 : IVec S16 32), Decidable (k0_chk312 v3712) := fun v3712 => decidable_of_iff' _ (Iff.of_eq (k0_chk312.eq_1 v3712))
theorem k0_idx312_inb : ∀ (v3712 : IVec S16 32) (k0_hw312 : k0_chk312 v3712), ∀ a x, ((![v3712] : Fin 1 → IVec S16 32) a x).toNat < S4096.size a := fun v3712 k0_hw312 => k0_hw312
def k0_off54 (k0_t2 : Fin k0_t2_loop.trips) : Fin 4 → Nat :=
  let c6_i32_1682 : BitVec 32 := 6#32
  let v3714 : Index := Scalar.indexCast c6_i32_1682
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3715 : Index := Scalar.indexCast v3303
  let c0_i32_1683 : BitVec 32 := 0#32
  let v3716 : Index := Scalar.indexCast c0_i32_1683
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3717 : Index := Scalar.indexCast v3305
  ![6, v3715.toNat, 0, v3717.toNat]
def k0_off55 (k0_t2 : Fin k0_t2_loop.trips) : Fin 4 → Nat :=
  let c6_i32_1684 : BitVec 32 := 6#32
  let v3719 : Index := Scalar.indexCast c6_i32_1684
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3720 : Index := Scalar.indexCast v3303
  let c1_i32_1685 : BitVec 32 := 1#32
  let v3721 : Index := Scalar.indexCast c1_i32_1685
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3722 : Index := Scalar.indexCast v3305
  ![6, v3720.toNat, 1, v3722.toNat]
def k0_off56 (k0_t2 : Fin k0_t2_loop.trips) : Fin 4 → Nat :=
  let c6_i32_1686 : BitVec 32 := 6#32
  let v3724 : Index := Scalar.indexCast c6_i32_1686
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3725 : Index := Scalar.indexCast v3303
  let c2_i32_1687 : BitVec 32 := 2#32
  let v3726 : Index := Scalar.indexCast c2_i32_1687
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3727 : Index := Scalar.indexCast v3305
  ![6, v3725.toNat, 2, v3727.toNat]
def k0_off57 (k0_t2 : Fin k0_t2_loop.trips) : Fin 4 → Nat :=
  let c6_i32_1688 : BitVec 32 := 6#32
  let v3729 : Index := Scalar.indexCast c6_i32_1688
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3730 : Index := Scalar.indexCast v3303
  let c3_i32_1689 : BitVec 32 := 3#32
  let v3731 : Index := Scalar.indexCast c3_i32_1689
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3732 : Index := Scalar.indexCast v3305
  ![6, v3730.toNat, 3, v3732.toNat]
def k0_off58 (k0_t2 : Fin k0_t2_loop.trips) : Fin 4 → Nat :=
  let c6_i32_1690 : BitVec 32 := 6#32
  let v3734 : Index := Scalar.indexCast c6_i32_1690
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3735 : Index := Scalar.indexCast v3303
  let c4_i32_1691 : BitVec 32 := 4#32
  let v3736 : Index := Scalar.indexCast c4_i32_1691
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3737 : Index := Scalar.indexCast v3305
  ![6, v3735.toNat, 4, v3737.toNat]
def k0_off59 (k0_t2 : Fin k0_t2_loop.trips) : Fin 4 → Nat :=
  let c6_i32_1692 : BitVec 32 := 6#32
  let v3739 : Index := Scalar.indexCast c6_i32_1692
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3740 : Index := Scalar.indexCast v3303
  let c5_i32_1693 : BitVec 32 := 5#32
  let v3741 : Index := Scalar.indexCast c5_i32_1693
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3742 : Index := Scalar.indexCast v3305
  ![6, v3740.toNat, 5, v3742.toNat]
def k0_off60 (k0_t2 : Fin k0_t2_loop.trips) : Fin 4 → Nat :=
  let c6_i32_1694 : BitVec 32 := 6#32
  let v3744 : Index := Scalar.indexCast c6_i32_1694
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3745 : Index := Scalar.indexCast v3303
  let c6_i32_1695 : BitVec 32 := 6#32
  let v3746 : Index := Scalar.indexCast c6_i32_1695
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3747 : Index := Scalar.indexCast v3305
  ![6, v3745.toNat, 6, v3747.toNat]
def k0_off61 (k0_t2 : Fin k0_t2_loop.trips) : Fin 4 → Nat :=
  let c6_i32_1696 : BitVec 32 := 6#32
  let v3749 : Index := Scalar.indexCast c6_i32_1696
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3750 : Index := Scalar.indexCast v3303
  let c7_i32_1697 : BitVec 32 := 7#32
  let v3751 : Index := Scalar.indexCast c7_i32_1697
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3752 : Index := Scalar.indexCast v3305
  ![6, v3750.toNat, 7, v3752.toNat]

def k0_chk313 (v3755 : IVec S16 32) : Prop :=
  (∀ a x, ((![v3755] : Fin 1 → IVec S16 32) a x).toNat < S4096.size a)
instance k0_chk313.dec : ∀ (v3755 : IVec S16 32), Decidable (k0_chk313 v3755) := fun v3755 => decidable_of_iff' _ (Iff.of_eq (k0_chk313.eq_1 v3755))
theorem k0_idx313_inb : ∀ (v3755 : IVec S16 32) (k0_hw313 : k0_chk313 v3755), ∀ a x, ((![v3755] : Fin 1 → IVec S16 32) a x).toNat < S4096.size a := fun v3755 k0_hw313 => k0_hw313

def k0_chk314 (v3758 : IVec S16 32) : Prop :=
  (∀ a x, ((![v3758] : Fin 1 → IVec S16 32) a x).toNat < S4096.size a)
instance k0_chk314.dec : ∀ (v3758 : IVec S16 32), Decidable (k0_chk314 v3758) := fun v3758 => decidable_of_iff' _ (Iff.of_eq (k0_chk314.eq_1 v3758))
theorem k0_idx314_inb : ∀ (v3758 : IVec S16 32) (k0_hw314 : k0_chk314 v3758), ∀ a x, ((![v3758] : Fin 1 → IVec S16 32) a x).toNat < S4096.size a := fun v3758 k0_hw314 => k0_hw314

def k0_chk315 (v3761 : IVec S16 32) : Prop :=
  (∀ a x, ((![v3761] : Fin 1 → IVec S16 32) a x).toNat < S4096.size a)
instance k0_chk315.dec : ∀ (v3761 : IVec S16 32), Decidable (k0_chk315 v3761) := fun v3761 => decidable_of_iff' _ (Iff.of_eq (k0_chk315.eq_1 v3761))
theorem k0_idx315_inb : ∀ (v3761 : IVec S16 32) (k0_hw315 : k0_chk315 v3761), ∀ a x, ((![v3761] : Fin 1 → IVec S16 32) a x).toNat < S4096.size a := fun v3761 k0_hw315 => k0_hw315

def k0_chk316 (v3764 : IVec S16 32) : Prop :=
  (∀ a x, ((![v3764] : Fin 1 → IVec S16 32) a x).toNat < S4096.size a)
instance k0_chk316.dec : ∀ (v3764 : IVec S16 32), Decidable (k0_chk316 v3764) := fun v3764 => decidable_of_iff' _ (Iff.of_eq (k0_chk316.eq_1 v3764))
theorem k0_idx316_inb : ∀ (v3764 : IVec S16 32) (k0_hw316 : k0_chk316 v3764), ∀ a x, ((![v3764] : Fin 1 → IVec S16 32) a x).toNat < S4096.size a := fun v3764 k0_hw316 => k0_hw316

def k0_chk317 (v3767 : IVec S16 32) : Prop :=
  (∀ a x, ((![v3767] : Fin 1 → IVec S16 32) a x).toNat < S4096.size a)
instance k0_chk317.dec : ∀ (v3767 : IVec S16 32), Decidable (k0_chk317 v3767) := fun v3767 => decidable_of_iff' _ (Iff.of_eq (k0_chk317.eq_1 v3767))
theorem k0_idx317_inb : ∀ (v3767 : IVec S16 32) (k0_hw317 : k0_chk317 v3767), ∀ a x, ((![v3767] : Fin 1 → IVec S16 32) a x).toNat < S4096.size a := fun v3767 k0_hw317 => k0_hw317

def k0_chk318 (v3770 : IVec S16 32) : Prop :=
  (∀ a x, ((![v3770] : Fin 1 → IVec S16 32) a x).toNat < S4096.size a)
instance k0_chk318.dec : ∀ (v3770 : IVec S16 32), Decidable (k0_chk318 v3770) := fun v3770 => decidable_of_iff' _ (Iff.of_eq (k0_chk318.eq_1 v3770))
theorem k0_idx318_inb : ∀ (v3770 : IVec S16 32) (k0_hw318 : k0_chk318 v3770), ∀ a x, ((![v3770] : Fin 1 → IVec S16 32) a x).toNat < S4096.size a := fun v3770 k0_hw318 => k0_hw318

def k0_chk319 (v3773 : IVec S16 32) : Prop :=
  (∀ a x, ((![v3773] : Fin 1 → IVec S16 32) a x).toNat < S4096.size a)
instance k0_chk319.dec : ∀ (v3773 : IVec S16 32), Decidable (k0_chk319 v3773) := fun v3773 => decidable_of_iff' _ (Iff.of_eq (k0_chk319.eq_1 v3773))
theorem k0_idx319_inb : ∀ (v3773 : IVec S16 32) (k0_hw319 : k0_chk319 v3773), ∀ a x, ((![v3773] : Fin 1 → IVec S16 32) a x).toNat < S4096.size a := fun v3773 k0_hw319 => k0_hw319

def k0_chk320 (v3776 : IVec S16 32) : Prop :=
  (∀ a x, ((![v3776] : Fin 1 → IVec S16 32) a x).toNat < S4096.size a)
instance k0_chk320.dec : ∀ (v3776 : IVec S16 32), Decidable (k0_chk320 v3776) := fun v3776 => decidable_of_iff' _ (Iff.of_eq (k0_chk320.eq_1 v3776))
theorem k0_idx320_inb : ∀ (v3776 : IVec S16 32) (k0_hw320 : k0_chk320 v3776), ∀ a x, ((![v3776] : Fin 1 → IVec S16 32) a x).toNat < S4096.size a := fun v3776 k0_hw320 => k0_hw320
def k0_off62 (k0_t2 : Fin k0_t2_loop.trips) : Fin 4 → Nat :=
  let c7_i32_1698 : BitVec 32 := 7#32
  let v3778 : Index := Scalar.indexCast c7_i32_1698
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3779 : Index := Scalar.indexCast v3303
  let c0_i32_1699 : BitVec 32 := 0#32
  let v3780 : Index := Scalar.indexCast c0_i32_1699
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3781 : Index := Scalar.indexCast v3305
  ![7, v3779.toNat, 0, v3781.toNat]
def k0_off63 (k0_t2 : Fin k0_t2_loop.trips) : Fin 4 → Nat :=
  let c7_i32_1700 : BitVec 32 := 7#32
  let v3783 : Index := Scalar.indexCast c7_i32_1700
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3784 : Index := Scalar.indexCast v3303
  let c1_i32_1701 : BitVec 32 := 1#32
  let v3785 : Index := Scalar.indexCast c1_i32_1701
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3786 : Index := Scalar.indexCast v3305
  ![7, v3784.toNat, 1, v3786.toNat]
def k0_off64 (k0_t2 : Fin k0_t2_loop.trips) : Fin 4 → Nat :=
  let c7_i32_1702 : BitVec 32 := 7#32
  let v3788 : Index := Scalar.indexCast c7_i32_1702
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3789 : Index := Scalar.indexCast v3303
  let c2_i32_1703 : BitVec 32 := 2#32
  let v3790 : Index := Scalar.indexCast c2_i32_1703
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3791 : Index := Scalar.indexCast v3305
  ![7, v3789.toNat, 2, v3791.toNat]
def k0_off65 (k0_t2 : Fin k0_t2_loop.trips) : Fin 4 → Nat :=
  let c7_i32_1704 : BitVec 32 := 7#32
  let v3793 : Index := Scalar.indexCast c7_i32_1704
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3794 : Index := Scalar.indexCast v3303
  let c3_i32_1705 : BitVec 32 := 3#32
  let v3795 : Index := Scalar.indexCast c3_i32_1705
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3796 : Index := Scalar.indexCast v3305
  ![7, v3794.toNat, 3, v3796.toNat]
def k0_off66 (k0_t2 : Fin k0_t2_loop.trips) : Fin 4 → Nat :=
  let c7_i32_1706 : BitVec 32 := 7#32
  let v3798 : Index := Scalar.indexCast c7_i32_1706
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3799 : Index := Scalar.indexCast v3303
  let c4_i32_1707 : BitVec 32 := 4#32
  let v3800 : Index := Scalar.indexCast c4_i32_1707
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3801 : Index := Scalar.indexCast v3305
  ![7, v3799.toNat, 4, v3801.toNat]
def k0_off67 (k0_t2 : Fin k0_t2_loop.trips) : Fin 4 → Nat :=
  let c7_i32_1708 : BitVec 32 := 7#32
  let v3803 : Index := Scalar.indexCast c7_i32_1708
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3804 : Index := Scalar.indexCast v3303
  let c5_i32_1709 : BitVec 32 := 5#32
  let v3805 : Index := Scalar.indexCast c5_i32_1709
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3806 : Index := Scalar.indexCast v3305
  ![7, v3804.toNat, 5, v3806.toNat]
def k0_off68 (k0_t2 : Fin k0_t2_loop.trips) : Fin 4 → Nat :=
  let c7_i32_1710 : BitVec 32 := 7#32
  let v3808 : Index := Scalar.indexCast c7_i32_1710
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3809 : Index := Scalar.indexCast v3303
  let c6_i32_1711 : BitVec 32 := 6#32
  let v3810 : Index := Scalar.indexCast c6_i32_1711
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3811 : Index := Scalar.indexCast v3305
  ![7, v3809.toNat, 6, v3811.toNat]
def k0_off69 (k0_t2 : Fin k0_t2_loop.trips) : Fin 4 → Nat :=
  let c7_i32_1712 : BitVec 32 := 7#32
  let v3813 : Index := Scalar.indexCast c7_i32_1712
  let c0_i32_1512 : BitVec 32 := 0#32
  let c1_i32_1514 : BitVec 32 := 1#32
  let arg21 : BitVec 32 := Scf.iv c0_i32_1512 c1_i32_1514 k0_t2
  let c3_i32_1579 : BitVec 32 := 3#32
  let v3303 : BitVec 32 := Scalar.shrui arg21 c3_i32_1579
  let v3814 : Index := Scalar.indexCast v3303
  let c7_i32_1713 : BitVec 32 := 7#32
  let v3815 : Index := Scalar.indexCast c7_i32_1713
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3816 : Index := Scalar.indexCast v3305
  ![7, v3814.toNat, 7, v3816.toNat]
def k0_off70 (i : grid0.Coords) (k0_t1 : Fin k0_t1_loop.trips) : Fin 4 → Nat :=
  let c0_i32_1516 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c195_i32_1426 : BitVec 32 := 195#32
  let v3135 : BitVec 32 := Scalar.muli v1 c195_i32_1426
  let c10_i32_1427 : BitVec 32 := 10#32
  let v3136 : BitVec 32 := Scalar.minsi v1 c10_i32_1427
  let v3137 : BitVec 32 := Scalar.addi v3135 v3136
  let c8_i32_1428 : BitVec 32 := 8#32
  let v3138 : BitVec 32 := Scalar.muli v3137 c8_i32_1428
  let c0_i32_1448 : BitVec 32 := 0#32
  let c1_i32_1450 : BitVec 32 := 1#32
  let arg20 : BitVec 32 := Scf.iv c0_i32_1448 c1_i32_1450 k0_t1
  let c2_i32_1494 : BitVec 32 := 2#32
  let v3205 : BitVec 32 := Scalar.muli arg20 c2_i32_1494
  let c48_i32_1495 : BitVec 32 := 48#32
  let v3206 : BitVec 32 := Scalar.muli v3205 c48_i32_1495
  let v3207 : BitVec 32 := Scalar.addi v3138 v3206
  let c3_i32_1496 : BitVec 32 := 3#32
  let v3208 : BitVec 32 := Scalar.shrui v3207 c3_i32_1496
  let c0_i32_1517 : BitVec 32 := 0#32
  let c0_i32_1518 : BitVec 32 := 0#32
  ![0, v3208.toNat, 0, 0]
def k0_off71 (i : grid0.Coords) (k0_t1 : Fin k0_t1_loop.trips) (c0_i32_1523 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c195_i32_1426 : BitVec 32 := 195#32
  let v3135 : BitVec 32 := Scalar.muli v1 c195_i32_1426
  let c10_i32_1427 : BitVec 32 := 10#32
  let v3136 : BitVec 32 := Scalar.minsi v1 c10_i32_1427
  let v3137 : BitVec 32 := Scalar.addi v3135 v3136
  let c8_i32_1428 : BitVec 32 := 8#32
  let v3138 : BitVec 32 := Scalar.muli v3137 c8_i32_1428
  let c0_i32_1448 : BitVec 32 := 0#32
  let c1_i32_1450 : BitVec 32 := 1#32
  let arg20 : BitVec 32 := Scf.iv c0_i32_1448 c1_i32_1450 k0_t1
  let c2_i32_1494 : BitVec 32 := 2#32
  let v3205 : BitVec 32 := Scalar.muli arg20 c2_i32_1494
  let c48_i32_1495 : BitVec 32 := 48#32
  let v3206 : BitVec 32 := Scalar.muli v3205 c48_i32_1495
  let v3207 : BitVec 32 := Scalar.addi v3138 v3206
  let c96_i32 : BitVec 32 := 96#32
  let v3227 : BitVec 32 := Scalar.addi v3207 c96_i32
  let c195_i32 : BitVec 32 := 195#32
  let c10_i32_1424 : BitVec 32 := 10#32
  let v3131 : BitVec 1 := Scalar.cmpi .slt v1 c10_i32_1424
  let v3132 : BitVec 32 := Scalar.extui v3131
  let v3133 : BitVec 32 := Scalar.addi c195_i32 v3132
  let c8_i32_1425 : BitVec 32 := 8#32
  let v3134 : BitVec 32 := Scalar.muli v3133 c8_i32_1425
  let v3139 : BitVec 32 := Scalar.addi v3138 v3134
  let c48_i32_1429 : BitVec 32 := 48#32
  let v3140 : BitVec 32 := Scalar.subi v3139 c48_i32_1429
  let v3228 : BitVec 32 := Scalar.minsi v3227 v3140
  let c16_i32_1522 : BitVec 32 := 16#32
  let v3229 : BitVec 32 := Scalar.muli v3228 c16_i32_1522
  let v3230 : BitVec 32 := Scalar.addi c0_i32_1523 v3229
  ![v3230.toNat]
def k0_cond2 (k0_t1 : Fin k0_t1_loop.trips) : BitVec 1 :=
  let c0_i32_1448 : BitVec 32 := 0#32
  let c1_i32_1450 : BitVec 32 := 1#32
  let arg20 : BitVec 32 := Scf.iv c0_i32_1448 c1_i32_1450 k0_t1
  let c2_i32_1532 : BitVec 32 := 2#32
  let v3245 : BitVec 32 := Scalar.muli arg20 c2_i32_1532
  let c1_i32_1533 : BitVec 32 := 1#32
  let v3246 : BitVec 32 := Scalar.addi v3245 c1_i32_1533
  let c2_i32_1536 : BitVec 32 := 2#32
  let v3250 : BitVec 1 := Scalar.cmpi .sge v3246 c2_i32_1536
  let v3251 : BitVec 32 := Scalar.extui v3250
  let c0_i32_1537 : BitVec 32 := 0#32
  let v3252 : BitVec 1 := Scalar.cmpi .ne v3251 c0_i32_1537
  v3252

def k0_off72 (i : grid0.Coords) (k0_t1 : Fin k0_t1_loop.trips) : Fin 4 → Nat :=
  let c0_i32_1572 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c195_i32_1426 : BitVec 32 := 195#32
  let v3135 : BitVec 32 := Scalar.muli v1 c195_i32_1426
  let c10_i32_1427 : BitVec 32 := 10#32
  let v3136 : BitVec 32 := Scalar.minsi v1 c10_i32_1427
  let v3137 : BitVec 32 := Scalar.addi v3135 v3136
  let c8_i32_1428 : BitVec 32 := 8#32
  let v3138 : BitVec 32 := Scalar.muli v3137 c8_i32_1428
  let c0_i32_1448 : BitVec 32 := 0#32
  let c1_i32_1450 : BitVec 32 := 1#32
  let arg20 : BitVec 32 := Scf.iv c0_i32_1448 c1_i32_1450 k0_t1
  let c2_i32_1532 : BitVec 32 := 2#32
  let v3245 : BitVec 32 := Scalar.muli arg20 c2_i32_1532
  let c1_i32_1533 : BitVec 32 := 1#32
  let v3246 : BitVec 32 := Scalar.addi v3245 c1_i32_1533
  let c48_i32_1534 : BitVec 32 := 48#32
  let v3247 : BitVec 32 := Scalar.muli v3246 c48_i32_1534
  let v3248 : BitVec 32 := Scalar.addi v3138 v3247
  let c3_i32_1535 : BitVec 32 := 3#32
  let v3249 : BitVec 32 := Scalar.shrui v3248 c3_i32_1535
  let c0_i32_1573 : BitVec 32 := 0#32
  let c0_i32_1574 : BitVec 32 := 0#32
  ![0, v3249.toNat, 0, 0]
@[reducible] def k0_t3_loop : Scf.Loop 32 :=
  let c0_i32_1551 : BitVec 32 := 0#32
  let c48_i32_1552 : BitVec 32 := 48#32
  let v3265 : BitVec 32 := Scalar.addi c0_i32_1551 c48_i32_1552
  let c1_i32_1553 : BitVec 32 := 1#32
  ⟨c0_i32_1551, v3265, c1_i32_1553⟩
def k0_off73 (k0_t3 : Fin k0_t3_loop.trips) : Fin 1 → Nat :=
  let c0_i32_1551 : BitVec 32 := 0#32
  let c1_i32_1553 : BitVec 32 := 1#32
  let arg21 : BitVec 32 := Scf.iv c0_i32_1551 c1_i32_1553 k0_t3
  let c16_i32_1572 : BitVec 32 := 16#32
  let v3286 : BitVec 32 := Scalar.muli arg21 c16_i32_1572
  let v3287 : Index := Scalar.indexCast v3286
  ![v3287.toNat]
def k0_off74 (k0_t3 : Fin k0_t3_loop.trips) (c768_i32_1574 : BitVec 32) : Fin 1 → Nat :=
  let c0_i32_1551 : BitVec 32 := 0#32
  let c1_i32_1553 : BitVec 32 := 1#32
  let arg21 : BitVec 32 := Scf.iv c0_i32_1551 c1_i32_1553 k0_t3
  let c16_i32_1573 : BitVec 32 := 16#32
  let v3289 : BitVec 32 := Scalar.muli arg21 c16_i32_1573
  let v3290 : BitVec 32 := Scalar.addi c768_i32_1574 v3289
  let v3291 : Index := Scalar.indexCast v3290
  ![v3291.toNat]

def k0_chk321 (v3307 : IVec S16 32) : Prop :=
  (∀ a x, ((![v3307] : Fin 1 → IVec S16 32) a x).toNat < S4096.size a)
instance k0_chk321.dec : ∀ (v3307 : IVec S16 32), Decidable (k0_chk321 v3307) := fun v3307 => decidable_of_iff' _ (Iff.of_eq (k0_chk321.eq_1 v3307))
theorem k0_idx321_inb : ∀ (v3307 : IVec S16 32) (k0_hw321 : k0_chk321 v3307), ∀ a x, ((![v3307] : Fin 1 → IVec S16 32) a x).toNat < S4096.size a := fun v3307 k0_hw321 => k0_hw321

def k0_chk322 (v3310 : IVec S16 32) : Prop :=
  (∀ a x, ((![v3310] : Fin 1 → IVec S16 32) a x).toNat < S4096.size a)
instance k0_chk322.dec : ∀ (v3310 : IVec S16 32), Decidable (k0_chk322 v3310) := fun v3310 => decidable_of_iff' _ (Iff.of_eq (k0_chk322.eq_1 v3310))
theorem k0_idx322_inb : ∀ (v3310 : IVec S16 32) (k0_hw322 : k0_chk322 v3310), ∀ a x, ((![v3310] : Fin 1 → IVec S16 32) a x).toNat < S4096.size a := fun v3310 k0_hw322 => k0_hw322

def k0_chk323 (v3313 : IVec S16 32) : Prop :=
  (∀ a x, ((![v3313] : Fin 1 → IVec S16 32) a x).toNat < S4096.size a)
instance k0_chk323.dec : ∀ (v3313 : IVec S16 32), Decidable (k0_chk323 v3313) := fun v3313 => decidable_of_iff' _ (Iff.of_eq (k0_chk323.eq_1 v3313))
theorem k0_idx323_inb : ∀ (v3313 : IVec S16 32) (k0_hw323 : k0_chk323 v3313), ∀ a x, ((![v3313] : Fin 1 → IVec S16 32) a x).toNat < S4096.size a := fun v3313 k0_hw323 => k0_hw323

def k0_chk324 (v3316 : IVec S16 32) : Prop :=
  (∀ a x, ((![v3316] : Fin 1 → IVec S16 32) a x).toNat < S4096.size a)
instance k0_chk324.dec : ∀ (v3316 : IVec S16 32), Decidable (k0_chk324 v3316) := fun v3316 => decidable_of_iff' _ (Iff.of_eq (k0_chk324.eq_1 v3316))
theorem k0_idx324_inb : ∀ (v3316 : IVec S16 32) (k0_hw324 : k0_chk324 v3316), ∀ a x, ((![v3316] : Fin 1 → IVec S16 32) a x).toNat < S4096.size a := fun v3316 k0_hw324 => k0_hw324

def k0_chk325 (v3319 : IVec S16 32) : Prop :=
  (∀ a x, ((![v3319] : Fin 1 → IVec S16 32) a x).toNat < S4096.size a)
instance k0_chk325.dec : ∀ (v3319 : IVec S16 32), Decidable (k0_chk325 v3319) := fun v3319 => decidable_of_iff' _ (Iff.of_eq (k0_chk325.eq_1 v3319))
theorem k0_idx325_inb : ∀ (v3319 : IVec S16 32) (k0_hw325 : k0_chk325 v3319), ∀ a x, ((![v3319] : Fin 1 → IVec S16 32) a x).toNat < S4096.size a := fun v3319 k0_hw325 => k0_hw325

def k0_chk326 (v3322 : IVec S16 32) : Prop :=
  (∀ a x, ((![v3322] : Fin 1 → IVec S16 32) a x).toNat < S4096.size a)
instance k0_chk326.dec : ∀ (v3322 : IVec S16 32), Decidable (k0_chk326 v3322) := fun v3322 => decidable_of_iff' _ (Iff.of_eq (k0_chk326.eq_1 v3322))
theorem k0_idx326_inb : ∀ (v3322 : IVec S16 32) (k0_hw326 : k0_chk326 v3322), ∀ a x, ((![v3322] : Fin 1 → IVec S16 32) a x).toNat < S4096.size a := fun v3322 k0_hw326 => k0_hw326

def k0_chk327 (v3325 : IVec S16 32) : Prop :=
  (∀ a x, ((![v3325] : Fin 1 → IVec S16 32) a x).toNat < S4096.size a)
instance k0_chk327.dec : ∀ (v3325 : IVec S16 32), Decidable (k0_chk327 v3325) := fun v3325 => decidable_of_iff' _ (Iff.of_eq (k0_chk327.eq_1 v3325))
theorem k0_idx327_inb : ∀ (v3325 : IVec S16 32) (k0_hw327 : k0_chk327 v3325), ∀ a x, ((![v3325] : Fin 1 → IVec S16 32) a x).toNat < S4096.size a := fun v3325 k0_hw327 => k0_hw327

def k0_chk328 (v3328 : IVec S16 32) : Prop :=
  (∀ a x, ((![v3328] : Fin 1 → IVec S16 32) a x).toNat < S4096.size a)
instance k0_chk328.dec : ∀ (v3328 : IVec S16 32), Decidable (k0_chk328 v3328) := fun v3328 => decidable_of_iff' _ (Iff.of_eq (k0_chk328.eq_1 v3328))
theorem k0_idx328_inb : ∀ (v3328 : IVec S16 32) (k0_hw328 : k0_chk328 v3328), ∀ a x, ((![v3328] : Fin 1 → IVec S16 32) a x).toNat < S4096.size a := fun v3328 k0_hw328 => k0_hw328
def k0_off75 (k0_t3 : Fin k0_t3_loop.trips) : Fin 4 → Nat :=
  let c0_i32_1584 : BitVec 32 := 0#32
  let v3330 : Index := Scalar.indexCast c0_i32_1584
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3331 : Index := Scalar.indexCast v3303
  let c0_i32_1585 : BitVec 32 := 0#32
  let v3332 : Index := Scalar.indexCast c0_i32_1585
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3333 : Index := Scalar.indexCast v3305
  ![0, v3331.toNat, 0, v3333.toNat]
def k0_off76 (k0_t3 : Fin k0_t3_loop.trips) : Fin 4 → Nat :=
  let c0_i32_1586 : BitVec 32 := 0#32
  let v3335 : Index := Scalar.indexCast c0_i32_1586
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3336 : Index := Scalar.indexCast v3303
  let c1_i32_1587 : BitVec 32 := 1#32
  let v3337 : Index := Scalar.indexCast c1_i32_1587
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3338 : Index := Scalar.indexCast v3305
  ![0, v3336.toNat, 1, v3338.toNat]
def k0_off77 (k0_t3 : Fin k0_t3_loop.trips) : Fin 4 → Nat :=
  let c0_i32_1588 : BitVec 32 := 0#32
  let v3340 : Index := Scalar.indexCast c0_i32_1588
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3341 : Index := Scalar.indexCast v3303
  let c2_i32_1589 : BitVec 32 := 2#32
  let v3342 : Index := Scalar.indexCast c2_i32_1589
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3343 : Index := Scalar.indexCast v3305
  ![0, v3341.toNat, 2, v3343.toNat]
def k0_off78 (k0_t3 : Fin k0_t3_loop.trips) : Fin 4 → Nat :=
  let c0_i32_1590 : BitVec 32 := 0#32
  let v3345 : Index := Scalar.indexCast c0_i32_1590
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3346 : Index := Scalar.indexCast v3303
  let c3_i32_1591 : BitVec 32 := 3#32
  let v3347 : Index := Scalar.indexCast c3_i32_1591
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3348 : Index := Scalar.indexCast v3305
  ![0, v3346.toNat, 3, v3348.toNat]
def k0_off79 (k0_t3 : Fin k0_t3_loop.trips) : Fin 4 → Nat :=
  let c0_i32_1592 : BitVec 32 := 0#32
  let v3350 : Index := Scalar.indexCast c0_i32_1592
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3351 : Index := Scalar.indexCast v3303
  let c4_i32_1593 : BitVec 32 := 4#32
  let v3352 : Index := Scalar.indexCast c4_i32_1593
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3353 : Index := Scalar.indexCast v3305
  ![0, v3351.toNat, 4, v3353.toNat]
def k0_off80 (k0_t3 : Fin k0_t3_loop.trips) : Fin 4 → Nat :=
  let c0_i32_1594 : BitVec 32 := 0#32
  let v3355 : Index := Scalar.indexCast c0_i32_1594
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3356 : Index := Scalar.indexCast v3303
  let c5_i32_1595 : BitVec 32 := 5#32
  let v3357 : Index := Scalar.indexCast c5_i32_1595
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3358 : Index := Scalar.indexCast v3305
  ![0, v3356.toNat, 5, v3358.toNat]
def k0_off81 (k0_t3 : Fin k0_t3_loop.trips) : Fin 4 → Nat :=
  let c0_i32_1596 : BitVec 32 := 0#32
  let v3360 : Index := Scalar.indexCast c0_i32_1596
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3361 : Index := Scalar.indexCast v3303
  let c6_i32_1597 : BitVec 32 := 6#32
  let v3362 : Index := Scalar.indexCast c6_i32_1597
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3363 : Index := Scalar.indexCast v3305
  ![0, v3361.toNat, 6, v3363.toNat]
def k0_off82 (k0_t3 : Fin k0_t3_loop.trips) : Fin 4 → Nat :=
  let c0_i32_1598 : BitVec 32 := 0#32
  let v3365 : Index := Scalar.indexCast c0_i32_1598
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3366 : Index := Scalar.indexCast v3303
  let c7_i32_1599 : BitVec 32 := 7#32
  let v3367 : Index := Scalar.indexCast c7_i32_1599
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3368 : Index := Scalar.indexCast v3305
  ![0, v3366.toNat, 7, v3368.toNat]

def k0_chk329 (v3371 : IVec S16 32) : Prop :=
  (∀ a x, ((![v3371] : Fin 1 → IVec S16 32) a x).toNat < S4096.size a)
instance k0_chk329.dec : ∀ (v3371 : IVec S16 32), Decidable (k0_chk329 v3371) := fun v3371 => decidable_of_iff' _ (Iff.of_eq (k0_chk329.eq_1 v3371))
theorem k0_idx329_inb : ∀ (v3371 : IVec S16 32) (k0_hw329 : k0_chk329 v3371), ∀ a x, ((![v3371] : Fin 1 → IVec S16 32) a x).toNat < S4096.size a := fun v3371 k0_hw329 => k0_hw329

def k0_chk330 (v3374 : IVec S16 32) : Prop :=
  (∀ a x, ((![v3374] : Fin 1 → IVec S16 32) a x).toNat < S4096.size a)
instance k0_chk330.dec : ∀ (v3374 : IVec S16 32), Decidable (k0_chk330 v3374) := fun v3374 => decidable_of_iff' _ (Iff.of_eq (k0_chk330.eq_1 v3374))
theorem k0_idx330_inb : ∀ (v3374 : IVec S16 32) (k0_hw330 : k0_chk330 v3374), ∀ a x, ((![v3374] : Fin 1 → IVec S16 32) a x).toNat < S4096.size a := fun v3374 k0_hw330 => k0_hw330

def k0_chk331 (v3377 : IVec S16 32) : Prop :=
  (∀ a x, ((![v3377] : Fin 1 → IVec S16 32) a x).toNat < S4096.size a)
instance k0_chk331.dec : ∀ (v3377 : IVec S16 32), Decidable (k0_chk331 v3377) := fun v3377 => decidable_of_iff' _ (Iff.of_eq (k0_chk331.eq_1 v3377))
theorem k0_idx331_inb : ∀ (v3377 : IVec S16 32) (k0_hw331 : k0_chk331 v3377), ∀ a x, ((![v3377] : Fin 1 → IVec S16 32) a x).toNat < S4096.size a := fun v3377 k0_hw331 => k0_hw331

def k0_chk332 (v3380 : IVec S16 32) : Prop :=
  (∀ a x, ((![v3380] : Fin 1 → IVec S16 32) a x).toNat < S4096.size a)
instance k0_chk332.dec : ∀ (v3380 : IVec S16 32), Decidable (k0_chk332 v3380) := fun v3380 => decidable_of_iff' _ (Iff.of_eq (k0_chk332.eq_1 v3380))
theorem k0_idx332_inb : ∀ (v3380 : IVec S16 32) (k0_hw332 : k0_chk332 v3380), ∀ a x, ((![v3380] : Fin 1 → IVec S16 32) a x).toNat < S4096.size a := fun v3380 k0_hw332 => k0_hw332

def k0_chk333 (v3383 : IVec S16 32) : Prop :=
  (∀ a x, ((![v3383] : Fin 1 → IVec S16 32) a x).toNat < S4096.size a)
instance k0_chk333.dec : ∀ (v3383 : IVec S16 32), Decidable (k0_chk333 v3383) := fun v3383 => decidable_of_iff' _ (Iff.of_eq (k0_chk333.eq_1 v3383))
theorem k0_idx333_inb : ∀ (v3383 : IVec S16 32) (k0_hw333 : k0_chk333 v3383), ∀ a x, ((![v3383] : Fin 1 → IVec S16 32) a x).toNat < S4096.size a := fun v3383 k0_hw333 => k0_hw333

def k0_chk334 (v3386 : IVec S16 32) : Prop :=
  (∀ a x, ((![v3386] : Fin 1 → IVec S16 32) a x).toNat < S4096.size a)
instance k0_chk334.dec : ∀ (v3386 : IVec S16 32), Decidable (k0_chk334 v3386) := fun v3386 => decidable_of_iff' _ (Iff.of_eq (k0_chk334.eq_1 v3386))
theorem k0_idx334_inb : ∀ (v3386 : IVec S16 32) (k0_hw334 : k0_chk334 v3386), ∀ a x, ((![v3386] : Fin 1 → IVec S16 32) a x).toNat < S4096.size a := fun v3386 k0_hw334 => k0_hw334

def k0_chk335 (v3389 : IVec S16 32) : Prop :=
  (∀ a x, ((![v3389] : Fin 1 → IVec S16 32) a x).toNat < S4096.size a)
instance k0_chk335.dec : ∀ (v3389 : IVec S16 32), Decidable (k0_chk335 v3389) := fun v3389 => decidable_of_iff' _ (Iff.of_eq (k0_chk335.eq_1 v3389))
theorem k0_idx335_inb : ∀ (v3389 : IVec S16 32) (k0_hw335 : k0_chk335 v3389), ∀ a x, ((![v3389] : Fin 1 → IVec S16 32) a x).toNat < S4096.size a := fun v3389 k0_hw335 => k0_hw335

def k0_chk336 (v3392 : IVec S16 32) : Prop :=
  (∀ a x, ((![v3392] : Fin 1 → IVec S16 32) a x).toNat < S4096.size a)
instance k0_chk336.dec : ∀ (v3392 : IVec S16 32), Decidable (k0_chk336 v3392) := fun v3392 => decidable_of_iff' _ (Iff.of_eq (k0_chk336.eq_1 v3392))
theorem k0_idx336_inb : ∀ (v3392 : IVec S16 32) (k0_hw336 : k0_chk336 v3392), ∀ a x, ((![v3392] : Fin 1 → IVec S16 32) a x).toNat < S4096.size a := fun v3392 k0_hw336 => k0_hw336
def k0_off83 (k0_t3 : Fin k0_t3_loop.trips) : Fin 4 → Nat :=
  let c1_i32_1601 : BitVec 32 := 1#32
  let v3394 : Index := Scalar.indexCast c1_i32_1601
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3395 : Index := Scalar.indexCast v3303
  let c0_i32_1602 : BitVec 32 := 0#32
  let v3396 : Index := Scalar.indexCast c0_i32_1602
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3397 : Index := Scalar.indexCast v3305
  ![1, v3395.toNat, 0, v3397.toNat]
def k0_off84 (k0_t3 : Fin k0_t3_loop.trips) : Fin 4 → Nat :=
  let c1_i32_1603 : BitVec 32 := 1#32
  let v3399 : Index := Scalar.indexCast c1_i32_1603
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3400 : Index := Scalar.indexCast v3303
  let c1_i32_1604 : BitVec 32 := 1#32
  let v3401 : Index := Scalar.indexCast c1_i32_1604
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3402 : Index := Scalar.indexCast v3305
  ![1, v3400.toNat, 1, v3402.toNat]
def k0_off85 (k0_t3 : Fin k0_t3_loop.trips) : Fin 4 → Nat :=
  let c1_i32_1605 : BitVec 32 := 1#32
  let v3404 : Index := Scalar.indexCast c1_i32_1605
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3405 : Index := Scalar.indexCast v3303
  let c2_i32_1606 : BitVec 32 := 2#32
  let v3406 : Index := Scalar.indexCast c2_i32_1606
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3407 : Index := Scalar.indexCast v3305
  ![1, v3405.toNat, 2, v3407.toNat]
def k0_off86 (k0_t3 : Fin k0_t3_loop.trips) : Fin 4 → Nat :=
  let c1_i32_1607 : BitVec 32 := 1#32
  let v3409 : Index := Scalar.indexCast c1_i32_1607
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3410 : Index := Scalar.indexCast v3303
  let c3_i32_1608 : BitVec 32 := 3#32
  let v3411 : Index := Scalar.indexCast c3_i32_1608
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3412 : Index := Scalar.indexCast v3305
  ![1, v3410.toNat, 3, v3412.toNat]
def k0_off87 (k0_t3 : Fin k0_t3_loop.trips) : Fin 4 → Nat :=
  let c1_i32_1609 : BitVec 32 := 1#32
  let v3414 : Index := Scalar.indexCast c1_i32_1609
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3415 : Index := Scalar.indexCast v3303
  let c4_i32_1610 : BitVec 32 := 4#32
  let v3416 : Index := Scalar.indexCast c4_i32_1610
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3417 : Index := Scalar.indexCast v3305
  ![1, v3415.toNat, 4, v3417.toNat]
def k0_off88 (k0_t3 : Fin k0_t3_loop.trips) : Fin 4 → Nat :=
  let c1_i32_1611 : BitVec 32 := 1#32
  let v3419 : Index := Scalar.indexCast c1_i32_1611
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3420 : Index := Scalar.indexCast v3303
  let c5_i32_1612 : BitVec 32 := 5#32
  let v3421 : Index := Scalar.indexCast c5_i32_1612
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3422 : Index := Scalar.indexCast v3305
  ![1, v3420.toNat, 5, v3422.toNat]
def k0_off89 (k0_t3 : Fin k0_t3_loop.trips) : Fin 4 → Nat :=
  let c1_i32_1613 : BitVec 32 := 1#32
  let v3424 : Index := Scalar.indexCast c1_i32_1613
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3425 : Index := Scalar.indexCast v3303
  let c6_i32_1614 : BitVec 32 := 6#32
  let v3426 : Index := Scalar.indexCast c6_i32_1614
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3427 : Index := Scalar.indexCast v3305
  ![1, v3425.toNat, 6, v3427.toNat]
def k0_off90 (k0_t3 : Fin k0_t3_loop.trips) : Fin 4 → Nat :=
  let c1_i32_1615 : BitVec 32 := 1#32
  let v3429 : Index := Scalar.indexCast c1_i32_1615
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3430 : Index := Scalar.indexCast v3303
  let c7_i32_1616 : BitVec 32 := 7#32
  let v3431 : Index := Scalar.indexCast c7_i32_1616
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3432 : Index := Scalar.indexCast v3305
  ![1, v3430.toNat, 7, v3432.toNat]

def k0_chk337 (v3435 : IVec S16 32) : Prop :=
  (∀ a x, ((![v3435] : Fin 1 → IVec S16 32) a x).toNat < S4096.size a)
instance k0_chk337.dec : ∀ (v3435 : IVec S16 32), Decidable (k0_chk337 v3435) := fun v3435 => decidable_of_iff' _ (Iff.of_eq (k0_chk337.eq_1 v3435))
theorem k0_idx337_inb : ∀ (v3435 : IVec S16 32) (k0_hw337 : k0_chk337 v3435), ∀ a x, ((![v3435] : Fin 1 → IVec S16 32) a x).toNat < S4096.size a := fun v3435 k0_hw337 => k0_hw337

def k0_chk338 (v3438 : IVec S16 32) : Prop :=
  (∀ a x, ((![v3438] : Fin 1 → IVec S16 32) a x).toNat < S4096.size a)
instance k0_chk338.dec : ∀ (v3438 : IVec S16 32), Decidable (k0_chk338 v3438) := fun v3438 => decidable_of_iff' _ (Iff.of_eq (k0_chk338.eq_1 v3438))
theorem k0_idx338_inb : ∀ (v3438 : IVec S16 32) (k0_hw338 : k0_chk338 v3438), ∀ a x, ((![v3438] : Fin 1 → IVec S16 32) a x).toNat < S4096.size a := fun v3438 k0_hw338 => k0_hw338

def k0_chk339 (v3441 : IVec S16 32) : Prop :=
  (∀ a x, ((![v3441] : Fin 1 → IVec S16 32) a x).toNat < S4096.size a)
instance k0_chk339.dec : ∀ (v3441 : IVec S16 32), Decidable (k0_chk339 v3441) := fun v3441 => decidable_of_iff' _ (Iff.of_eq (k0_chk339.eq_1 v3441))
theorem k0_idx339_inb : ∀ (v3441 : IVec S16 32) (k0_hw339 : k0_chk339 v3441), ∀ a x, ((![v3441] : Fin 1 → IVec S16 32) a x).toNat < S4096.size a := fun v3441 k0_hw339 => k0_hw339

def k0_chk340 (v3444 : IVec S16 32) : Prop :=
  (∀ a x, ((![v3444] : Fin 1 → IVec S16 32) a x).toNat < S4096.size a)
instance k0_chk340.dec : ∀ (v3444 : IVec S16 32), Decidable (k0_chk340 v3444) := fun v3444 => decidable_of_iff' _ (Iff.of_eq (k0_chk340.eq_1 v3444))
theorem k0_idx340_inb : ∀ (v3444 : IVec S16 32) (k0_hw340 : k0_chk340 v3444), ∀ a x, ((![v3444] : Fin 1 → IVec S16 32) a x).toNat < S4096.size a := fun v3444 k0_hw340 => k0_hw340

def k0_chk341 (v3447 : IVec S16 32) : Prop :=
  (∀ a x, ((![v3447] : Fin 1 → IVec S16 32) a x).toNat < S4096.size a)
instance k0_chk341.dec : ∀ (v3447 : IVec S16 32), Decidable (k0_chk341 v3447) := fun v3447 => decidable_of_iff' _ (Iff.of_eq (k0_chk341.eq_1 v3447))
theorem k0_idx341_inb : ∀ (v3447 : IVec S16 32) (k0_hw341 : k0_chk341 v3447), ∀ a x, ((![v3447] : Fin 1 → IVec S16 32) a x).toNat < S4096.size a := fun v3447 k0_hw341 => k0_hw341

def k0_chk342 (v3450 : IVec S16 32) : Prop :=
  (∀ a x, ((![v3450] : Fin 1 → IVec S16 32) a x).toNat < S4096.size a)
instance k0_chk342.dec : ∀ (v3450 : IVec S16 32), Decidable (k0_chk342 v3450) := fun v3450 => decidable_of_iff' _ (Iff.of_eq (k0_chk342.eq_1 v3450))
theorem k0_idx342_inb : ∀ (v3450 : IVec S16 32) (k0_hw342 : k0_chk342 v3450), ∀ a x, ((![v3450] : Fin 1 → IVec S16 32) a x).toNat < S4096.size a := fun v3450 k0_hw342 => k0_hw342

def k0_chk343 (v3453 : IVec S16 32) : Prop :=
  (∀ a x, ((![v3453] : Fin 1 → IVec S16 32) a x).toNat < S4096.size a)
instance k0_chk343.dec : ∀ (v3453 : IVec S16 32), Decidable (k0_chk343 v3453) := fun v3453 => decidable_of_iff' _ (Iff.of_eq (k0_chk343.eq_1 v3453))
theorem k0_idx343_inb : ∀ (v3453 : IVec S16 32) (k0_hw343 : k0_chk343 v3453), ∀ a x, ((![v3453] : Fin 1 → IVec S16 32) a x).toNat < S4096.size a := fun v3453 k0_hw343 => k0_hw343

def k0_chk344 (v3456 : IVec S16 32) : Prop :=
  (∀ a x, ((![v3456] : Fin 1 → IVec S16 32) a x).toNat < S4096.size a)
instance k0_chk344.dec : ∀ (v3456 : IVec S16 32), Decidable (k0_chk344 v3456) := fun v3456 => decidable_of_iff' _ (Iff.of_eq (k0_chk344.eq_1 v3456))
theorem k0_idx344_inb : ∀ (v3456 : IVec S16 32) (k0_hw344 : k0_chk344 v3456), ∀ a x, ((![v3456] : Fin 1 → IVec S16 32) a x).toNat < S4096.size a := fun v3456 k0_hw344 => k0_hw344
def k0_off91 (k0_t3 : Fin k0_t3_loop.trips) : Fin 4 → Nat :=
  let c2_i32_1617 : BitVec 32 := 2#32
  let v3458 : Index := Scalar.indexCast c2_i32_1617
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3459 : Index := Scalar.indexCast v3303
  let c0_i32_1618 : BitVec 32 := 0#32
  let v3460 : Index := Scalar.indexCast c0_i32_1618
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3461 : Index := Scalar.indexCast v3305
  ![2, v3459.toNat, 0, v3461.toNat]
def k0_off92 (k0_t3 : Fin k0_t3_loop.trips) : Fin 4 → Nat :=
  let c2_i32_1619 : BitVec 32 := 2#32
  let v3463 : Index := Scalar.indexCast c2_i32_1619
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3464 : Index := Scalar.indexCast v3303
  let c1_i32_1620 : BitVec 32 := 1#32
  let v3465 : Index := Scalar.indexCast c1_i32_1620
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3466 : Index := Scalar.indexCast v3305
  ![2, v3464.toNat, 1, v3466.toNat]
def k0_off93 (k0_t3 : Fin k0_t3_loop.trips) : Fin 4 → Nat :=
  let c2_i32_1621 : BitVec 32 := 2#32
  let v3468 : Index := Scalar.indexCast c2_i32_1621
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3469 : Index := Scalar.indexCast v3303
  let c2_i32_1622 : BitVec 32 := 2#32
  let v3470 : Index := Scalar.indexCast c2_i32_1622
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3471 : Index := Scalar.indexCast v3305
  ![2, v3469.toNat, 2, v3471.toNat]
def k0_off94 (k0_t3 : Fin k0_t3_loop.trips) : Fin 4 → Nat :=
  let c2_i32_1623 : BitVec 32 := 2#32
  let v3473 : Index := Scalar.indexCast c2_i32_1623
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3474 : Index := Scalar.indexCast v3303
  let c3_i32_1624 : BitVec 32 := 3#32
  let v3475 : Index := Scalar.indexCast c3_i32_1624
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3476 : Index := Scalar.indexCast v3305
  ![2, v3474.toNat, 3, v3476.toNat]
def k0_off95 (k0_t3 : Fin k0_t3_loop.trips) : Fin 4 → Nat :=
  let c2_i32_1625 : BitVec 32 := 2#32
  let v3478 : Index := Scalar.indexCast c2_i32_1625
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3479 : Index := Scalar.indexCast v3303
  let c4_i32_1626 : BitVec 32 := 4#32
  let v3480 : Index := Scalar.indexCast c4_i32_1626
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3481 : Index := Scalar.indexCast v3305
  ![2, v3479.toNat, 4, v3481.toNat]
def k0_off96 (k0_t3 : Fin k0_t3_loop.trips) : Fin 4 → Nat :=
  let c2_i32_1627 : BitVec 32 := 2#32
  let v3483 : Index := Scalar.indexCast c2_i32_1627
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3484 : Index := Scalar.indexCast v3303
  let c5_i32_1628 : BitVec 32 := 5#32
  let v3485 : Index := Scalar.indexCast c5_i32_1628
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3486 : Index := Scalar.indexCast v3305
  ![2, v3484.toNat, 5, v3486.toNat]
def k0_off97 (k0_t3 : Fin k0_t3_loop.trips) : Fin 4 → Nat :=
  let c2_i32_1629 : BitVec 32 := 2#32
  let v3488 : Index := Scalar.indexCast c2_i32_1629
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3489 : Index := Scalar.indexCast v3303
  let c6_i32_1630 : BitVec 32 := 6#32
  let v3490 : Index := Scalar.indexCast c6_i32_1630
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3491 : Index := Scalar.indexCast v3305
  ![2, v3489.toNat, 6, v3491.toNat]
def k0_off98 (k0_t3 : Fin k0_t3_loop.trips) : Fin 4 → Nat :=
  let c2_i32_1631 : BitVec 32 := 2#32
  let v3493 : Index := Scalar.indexCast c2_i32_1631
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3494 : Index := Scalar.indexCast v3303
  let c7_i32_1632 : BitVec 32 := 7#32
  let v3495 : Index := Scalar.indexCast c7_i32_1632
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3496 : Index := Scalar.indexCast v3305
  ![2, v3494.toNat, 7, v3496.toNat]

def k0_chk345 (v3499 : IVec S16 32) : Prop :=
  (∀ a x, ((![v3499] : Fin 1 → IVec S16 32) a x).toNat < S4096.size a)
instance k0_chk345.dec : ∀ (v3499 : IVec S16 32), Decidable (k0_chk345 v3499) := fun v3499 => decidable_of_iff' _ (Iff.of_eq (k0_chk345.eq_1 v3499))
theorem k0_idx345_inb : ∀ (v3499 : IVec S16 32) (k0_hw345 : k0_chk345 v3499), ∀ a x, ((![v3499] : Fin 1 → IVec S16 32) a x).toNat < S4096.size a := fun v3499 k0_hw345 => k0_hw345

def k0_chk346 (v3502 : IVec S16 32) : Prop :=
  (∀ a x, ((![v3502] : Fin 1 → IVec S16 32) a x).toNat < S4096.size a)
instance k0_chk346.dec : ∀ (v3502 : IVec S16 32), Decidable (k0_chk346 v3502) := fun v3502 => decidable_of_iff' _ (Iff.of_eq (k0_chk346.eq_1 v3502))
theorem k0_idx346_inb : ∀ (v3502 : IVec S16 32) (k0_hw346 : k0_chk346 v3502), ∀ a x, ((![v3502] : Fin 1 → IVec S16 32) a x).toNat < S4096.size a := fun v3502 k0_hw346 => k0_hw346

def k0_chk347 (v3505 : IVec S16 32) : Prop :=
  (∀ a x, ((![v3505] : Fin 1 → IVec S16 32) a x).toNat < S4096.size a)
instance k0_chk347.dec : ∀ (v3505 : IVec S16 32), Decidable (k0_chk347 v3505) := fun v3505 => decidable_of_iff' _ (Iff.of_eq (k0_chk347.eq_1 v3505))
theorem k0_idx347_inb : ∀ (v3505 : IVec S16 32) (k0_hw347 : k0_chk347 v3505), ∀ a x, ((![v3505] : Fin 1 → IVec S16 32) a x).toNat < S4096.size a := fun v3505 k0_hw347 => k0_hw347

def k0_chk348 (v3508 : IVec S16 32) : Prop :=
  (∀ a x, ((![v3508] : Fin 1 → IVec S16 32) a x).toNat < S4096.size a)
instance k0_chk348.dec : ∀ (v3508 : IVec S16 32), Decidable (k0_chk348 v3508) := fun v3508 => decidable_of_iff' _ (Iff.of_eq (k0_chk348.eq_1 v3508))
theorem k0_idx348_inb : ∀ (v3508 : IVec S16 32) (k0_hw348 : k0_chk348 v3508), ∀ a x, ((![v3508] : Fin 1 → IVec S16 32) a x).toNat < S4096.size a := fun v3508 k0_hw348 => k0_hw348

def k0_chk349 (v3511 : IVec S16 32) : Prop :=
  (∀ a x, ((![v3511] : Fin 1 → IVec S16 32) a x).toNat < S4096.size a)
instance k0_chk349.dec : ∀ (v3511 : IVec S16 32), Decidable (k0_chk349 v3511) := fun v3511 => decidable_of_iff' _ (Iff.of_eq (k0_chk349.eq_1 v3511))
theorem k0_idx349_inb : ∀ (v3511 : IVec S16 32) (k0_hw349 : k0_chk349 v3511), ∀ a x, ((![v3511] : Fin 1 → IVec S16 32) a x).toNat < S4096.size a := fun v3511 k0_hw349 => k0_hw349

def k0_chk350 (v3514 : IVec S16 32) : Prop :=
  (∀ a x, ((![v3514] : Fin 1 → IVec S16 32) a x).toNat < S4096.size a)
instance k0_chk350.dec : ∀ (v3514 : IVec S16 32), Decidable (k0_chk350 v3514) := fun v3514 => decidable_of_iff' _ (Iff.of_eq (k0_chk350.eq_1 v3514))
theorem k0_idx350_inb : ∀ (v3514 : IVec S16 32) (k0_hw350 : k0_chk350 v3514), ∀ a x, ((![v3514] : Fin 1 → IVec S16 32) a x).toNat < S4096.size a := fun v3514 k0_hw350 => k0_hw350

def k0_chk351 (v3517 : IVec S16 32) : Prop :=
  (∀ a x, ((![v3517] : Fin 1 → IVec S16 32) a x).toNat < S4096.size a)
instance k0_chk351.dec : ∀ (v3517 : IVec S16 32), Decidable (k0_chk351 v3517) := fun v3517 => decidable_of_iff' _ (Iff.of_eq (k0_chk351.eq_1 v3517))
theorem k0_idx351_inb : ∀ (v3517 : IVec S16 32) (k0_hw351 : k0_chk351 v3517), ∀ a x, ((![v3517] : Fin 1 → IVec S16 32) a x).toNat < S4096.size a := fun v3517 k0_hw351 => k0_hw351

def k0_chk352 (v3520 : IVec S16 32) : Prop :=
  (∀ a x, ((![v3520] : Fin 1 → IVec S16 32) a x).toNat < S4096.size a)
instance k0_chk352.dec : ∀ (v3520 : IVec S16 32), Decidable (k0_chk352 v3520) := fun v3520 => decidable_of_iff' _ (Iff.of_eq (k0_chk352.eq_1 v3520))
theorem k0_idx352_inb : ∀ (v3520 : IVec S16 32) (k0_hw352 : k0_chk352 v3520), ∀ a x, ((![v3520] : Fin 1 → IVec S16 32) a x).toNat < S4096.size a := fun v3520 k0_hw352 => k0_hw352
def k0_off99 (k0_t3 : Fin k0_t3_loop.trips) : Fin 4 → Nat :=
  let c3_i32_1634 : BitVec 32 := 3#32
  let v3522 : Index := Scalar.indexCast c3_i32_1634
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3523 : Index := Scalar.indexCast v3303
  let c0_i32_1635 : BitVec 32 := 0#32
  let v3524 : Index := Scalar.indexCast c0_i32_1635
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3525 : Index := Scalar.indexCast v3305
  ![3, v3523.toNat, 0, v3525.toNat]
def k0_off100 (k0_t3 : Fin k0_t3_loop.trips) : Fin 4 → Nat :=
  let c3_i32_1636 : BitVec 32 := 3#32
  let v3527 : Index := Scalar.indexCast c3_i32_1636
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3528 : Index := Scalar.indexCast v3303
  let c1_i32_1637 : BitVec 32 := 1#32
  let v3529 : Index := Scalar.indexCast c1_i32_1637
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3530 : Index := Scalar.indexCast v3305
  ![3, v3528.toNat, 1, v3530.toNat]
def k0_off101 (k0_t3 : Fin k0_t3_loop.trips) : Fin 4 → Nat :=
  let c3_i32_1638 : BitVec 32 := 3#32
  let v3532 : Index := Scalar.indexCast c3_i32_1638
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3533 : Index := Scalar.indexCast v3303
  let c2_i32_1639 : BitVec 32 := 2#32
  let v3534 : Index := Scalar.indexCast c2_i32_1639
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3535 : Index := Scalar.indexCast v3305
  ![3, v3533.toNat, 2, v3535.toNat]
def k0_off102 (k0_t3 : Fin k0_t3_loop.trips) : Fin 4 → Nat :=
  let c3_i32_1640 : BitVec 32 := 3#32
  let v3537 : Index := Scalar.indexCast c3_i32_1640
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3538 : Index := Scalar.indexCast v3303
  let c3_i32_1641 : BitVec 32 := 3#32
  let v3539 : Index := Scalar.indexCast c3_i32_1641
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3540 : Index := Scalar.indexCast v3305
  ![3, v3538.toNat, 3, v3540.toNat]
def k0_off103 (k0_t3 : Fin k0_t3_loop.trips) : Fin 4 → Nat :=
  let c3_i32_1642 : BitVec 32 := 3#32
  let v3542 : Index := Scalar.indexCast c3_i32_1642
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3543 : Index := Scalar.indexCast v3303
  let c4_i32_1643 : BitVec 32 := 4#32
  let v3544 : Index := Scalar.indexCast c4_i32_1643
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3545 : Index := Scalar.indexCast v3305
  ![3, v3543.toNat, 4, v3545.toNat]
def k0_off104 (k0_t3 : Fin k0_t3_loop.trips) : Fin 4 → Nat :=
  let c3_i32_1644 : BitVec 32 := 3#32
  let v3547 : Index := Scalar.indexCast c3_i32_1644
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3548 : Index := Scalar.indexCast v3303
  let c5_i32_1645 : BitVec 32 := 5#32
  let v3549 : Index := Scalar.indexCast c5_i32_1645
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3550 : Index := Scalar.indexCast v3305
  ![3, v3548.toNat, 5, v3550.toNat]
def k0_off105 (k0_t3 : Fin k0_t3_loop.trips) : Fin 4 → Nat :=
  let c3_i32_1646 : BitVec 32 := 3#32
  let v3552 : Index := Scalar.indexCast c3_i32_1646
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3553 : Index := Scalar.indexCast v3303
  let c6_i32_1647 : BitVec 32 := 6#32
  let v3554 : Index := Scalar.indexCast c6_i32_1647
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3555 : Index := Scalar.indexCast v3305
  ![3, v3553.toNat, 6, v3555.toNat]
def k0_off106 (k0_t3 : Fin k0_t3_loop.trips) : Fin 4 → Nat :=
  let c3_i32_1648 : BitVec 32 := 3#32
  let v3557 : Index := Scalar.indexCast c3_i32_1648
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3558 : Index := Scalar.indexCast v3303
  let c7_i32_1649 : BitVec 32 := 7#32
  let v3559 : Index := Scalar.indexCast c7_i32_1649
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3560 : Index := Scalar.indexCast v3305
  ![3, v3558.toNat, 7, v3560.toNat]

def k0_chk353 (v3563 : IVec S16 32) : Prop :=
  (∀ a x, ((![v3563] : Fin 1 → IVec S16 32) a x).toNat < S4096.size a)
instance k0_chk353.dec : ∀ (v3563 : IVec S16 32), Decidable (k0_chk353 v3563) := fun v3563 => decidable_of_iff' _ (Iff.of_eq (k0_chk353.eq_1 v3563))
theorem k0_idx353_inb : ∀ (v3563 : IVec S16 32) (k0_hw353 : k0_chk353 v3563), ∀ a x, ((![v3563] : Fin 1 → IVec S16 32) a x).toNat < S4096.size a := fun v3563 k0_hw353 => k0_hw353

def k0_chk354 (v3566 : IVec S16 32) : Prop :=
  (∀ a x, ((![v3566] : Fin 1 → IVec S16 32) a x).toNat < S4096.size a)
instance k0_chk354.dec : ∀ (v3566 : IVec S16 32), Decidable (k0_chk354 v3566) := fun v3566 => decidable_of_iff' _ (Iff.of_eq (k0_chk354.eq_1 v3566))
theorem k0_idx354_inb : ∀ (v3566 : IVec S16 32) (k0_hw354 : k0_chk354 v3566), ∀ a x, ((![v3566] : Fin 1 → IVec S16 32) a x).toNat < S4096.size a := fun v3566 k0_hw354 => k0_hw354

def k0_chk355 (v3569 : IVec S16 32) : Prop :=
  (∀ a x, ((![v3569] : Fin 1 → IVec S16 32) a x).toNat < S4096.size a)
instance k0_chk355.dec : ∀ (v3569 : IVec S16 32), Decidable (k0_chk355 v3569) := fun v3569 => decidable_of_iff' _ (Iff.of_eq (k0_chk355.eq_1 v3569))
theorem k0_idx355_inb : ∀ (v3569 : IVec S16 32) (k0_hw355 : k0_chk355 v3569), ∀ a x, ((![v3569] : Fin 1 → IVec S16 32) a x).toNat < S4096.size a := fun v3569 k0_hw355 => k0_hw355

def k0_chk356 (v3572 : IVec S16 32) : Prop :=
  (∀ a x, ((![v3572] : Fin 1 → IVec S16 32) a x).toNat < S4096.size a)
instance k0_chk356.dec : ∀ (v3572 : IVec S16 32), Decidable (k0_chk356 v3572) := fun v3572 => decidable_of_iff' _ (Iff.of_eq (k0_chk356.eq_1 v3572))
theorem k0_idx356_inb : ∀ (v3572 : IVec S16 32) (k0_hw356 : k0_chk356 v3572), ∀ a x, ((![v3572] : Fin 1 → IVec S16 32) a x).toNat < S4096.size a := fun v3572 k0_hw356 => k0_hw356

def k0_chk357 (v3575 : IVec S16 32) : Prop :=
  (∀ a x, ((![v3575] : Fin 1 → IVec S16 32) a x).toNat < S4096.size a)
instance k0_chk357.dec : ∀ (v3575 : IVec S16 32), Decidable (k0_chk357 v3575) := fun v3575 => decidable_of_iff' _ (Iff.of_eq (k0_chk357.eq_1 v3575))
theorem k0_idx357_inb : ∀ (v3575 : IVec S16 32) (k0_hw357 : k0_chk357 v3575), ∀ a x, ((![v3575] : Fin 1 → IVec S16 32) a x).toNat < S4096.size a := fun v3575 k0_hw357 => k0_hw357

def k0_chk358 (v3578 : IVec S16 32) : Prop :=
  (∀ a x, ((![v3578] : Fin 1 → IVec S16 32) a x).toNat < S4096.size a)
instance k0_chk358.dec : ∀ (v3578 : IVec S16 32), Decidable (k0_chk358 v3578) := fun v3578 => decidable_of_iff' _ (Iff.of_eq (k0_chk358.eq_1 v3578))
theorem k0_idx358_inb : ∀ (v3578 : IVec S16 32) (k0_hw358 : k0_chk358 v3578), ∀ a x, ((![v3578] : Fin 1 → IVec S16 32) a x).toNat < S4096.size a := fun v3578 k0_hw358 => k0_hw358

def k0_chk359 (v3581 : IVec S16 32) : Prop :=
  (∀ a x, ((![v3581] : Fin 1 → IVec S16 32) a x).toNat < S4096.size a)
instance k0_chk359.dec : ∀ (v3581 : IVec S16 32), Decidable (k0_chk359 v3581) := fun v3581 => decidable_of_iff' _ (Iff.of_eq (k0_chk359.eq_1 v3581))
theorem k0_idx359_inb : ∀ (v3581 : IVec S16 32) (k0_hw359 : k0_chk359 v3581), ∀ a x, ((![v3581] : Fin 1 → IVec S16 32) a x).toNat < S4096.size a := fun v3581 k0_hw359 => k0_hw359

def k0_chk360 (v3584 : IVec S16 32) : Prop :=
  (∀ a x, ((![v3584] : Fin 1 → IVec S16 32) a x).toNat < S4096.size a)
instance k0_chk360.dec : ∀ (v3584 : IVec S16 32), Decidable (k0_chk360 v3584) := fun v3584 => decidable_of_iff' _ (Iff.of_eq (k0_chk360.eq_1 v3584))
theorem k0_idx360_inb : ∀ (v3584 : IVec S16 32) (k0_hw360 : k0_chk360 v3584), ∀ a x, ((![v3584] : Fin 1 → IVec S16 32) a x).toNat < S4096.size a := fun v3584 k0_hw360 => k0_hw360
def k0_off107 (k0_t3 : Fin k0_t3_loop.trips) : Fin 4 → Nat :=
  let c4_i32_1650 : BitVec 32 := 4#32
  let v3586 : Index := Scalar.indexCast c4_i32_1650
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3587 : Index := Scalar.indexCast v3303
  let c0_i32_1651 : BitVec 32 := 0#32
  let v3588 : Index := Scalar.indexCast c0_i32_1651
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3589 : Index := Scalar.indexCast v3305
  ![4, v3587.toNat, 0, v3589.toNat]
def k0_off108 (k0_t3 : Fin k0_t3_loop.trips) : Fin 4 → Nat :=
  let c4_i32_1652 : BitVec 32 := 4#32
  let v3591 : Index := Scalar.indexCast c4_i32_1652
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3592 : Index := Scalar.indexCast v3303
  let c1_i32_1653 : BitVec 32 := 1#32
  let v3593 : Index := Scalar.indexCast c1_i32_1653
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3594 : Index := Scalar.indexCast v3305
  ![4, v3592.toNat, 1, v3594.toNat]
def k0_off109 (k0_t3 : Fin k0_t3_loop.trips) : Fin 4 → Nat :=
  let c4_i32_1654 : BitVec 32 := 4#32
  let v3596 : Index := Scalar.indexCast c4_i32_1654
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3597 : Index := Scalar.indexCast v3303
  let c2_i32_1655 : BitVec 32 := 2#32
  let v3598 : Index := Scalar.indexCast c2_i32_1655
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3599 : Index := Scalar.indexCast v3305
  ![4, v3597.toNat, 2, v3599.toNat]
def k0_off110 (k0_t3 : Fin k0_t3_loop.trips) : Fin 4 → Nat :=
  let c4_i32_1656 : BitVec 32 := 4#32
  let v3601 : Index := Scalar.indexCast c4_i32_1656
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3602 : Index := Scalar.indexCast v3303
  let c3_i32_1657 : BitVec 32 := 3#32
  let v3603 : Index := Scalar.indexCast c3_i32_1657
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3604 : Index := Scalar.indexCast v3305
  ![4, v3602.toNat, 3, v3604.toNat]
def k0_off111 (k0_t3 : Fin k0_t3_loop.trips) : Fin 4 → Nat :=
  let c4_i32_1658 : BitVec 32 := 4#32
  let v3606 : Index := Scalar.indexCast c4_i32_1658
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3607 : Index := Scalar.indexCast v3303
  let c4_i32_1659 : BitVec 32 := 4#32
  let v3608 : Index := Scalar.indexCast c4_i32_1659
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3609 : Index := Scalar.indexCast v3305
  ![4, v3607.toNat, 4, v3609.toNat]
def k0_off112 (k0_t3 : Fin k0_t3_loop.trips) : Fin 4 → Nat :=
  let c4_i32_1660 : BitVec 32 := 4#32
  let v3611 : Index := Scalar.indexCast c4_i32_1660
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3612 : Index := Scalar.indexCast v3303
  let c5_i32_1661 : BitVec 32 := 5#32
  let v3613 : Index := Scalar.indexCast c5_i32_1661
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3614 : Index := Scalar.indexCast v3305
  ![4, v3612.toNat, 5, v3614.toNat]
def k0_off113 (k0_t3 : Fin k0_t3_loop.trips) : Fin 4 → Nat :=
  let c4_i32_1662 : BitVec 32 := 4#32
  let v3616 : Index := Scalar.indexCast c4_i32_1662
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3617 : Index := Scalar.indexCast v3303
  let c6_i32_1663 : BitVec 32 := 6#32
  let v3618 : Index := Scalar.indexCast c6_i32_1663
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3619 : Index := Scalar.indexCast v3305
  ![4, v3617.toNat, 6, v3619.toNat]
def k0_off114 (k0_t3 : Fin k0_t3_loop.trips) : Fin 4 → Nat :=
  let c4_i32_1664 : BitVec 32 := 4#32
  let v3621 : Index := Scalar.indexCast c4_i32_1664
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3622 : Index := Scalar.indexCast v3303
  let c7_i32_1665 : BitVec 32 := 7#32
  let v3623 : Index := Scalar.indexCast c7_i32_1665
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3624 : Index := Scalar.indexCast v3305
  ![4, v3622.toNat, 7, v3624.toNat]

def k0_chk361 (v3627 : IVec S16 32) : Prop :=
  (∀ a x, ((![v3627] : Fin 1 → IVec S16 32) a x).toNat < S4096.size a)
instance k0_chk361.dec : ∀ (v3627 : IVec S16 32), Decidable (k0_chk361 v3627) := fun v3627 => decidable_of_iff' _ (Iff.of_eq (k0_chk361.eq_1 v3627))
theorem k0_idx361_inb : ∀ (v3627 : IVec S16 32) (k0_hw361 : k0_chk361 v3627), ∀ a x, ((![v3627] : Fin 1 → IVec S16 32) a x).toNat < S4096.size a := fun v3627 k0_hw361 => k0_hw361

def k0_chk362 (v3630 : IVec S16 32) : Prop :=
  (∀ a x, ((![v3630] : Fin 1 → IVec S16 32) a x).toNat < S4096.size a)
instance k0_chk362.dec : ∀ (v3630 : IVec S16 32), Decidable (k0_chk362 v3630) := fun v3630 => decidable_of_iff' _ (Iff.of_eq (k0_chk362.eq_1 v3630))
theorem k0_idx362_inb : ∀ (v3630 : IVec S16 32) (k0_hw362 : k0_chk362 v3630), ∀ a x, ((![v3630] : Fin 1 → IVec S16 32) a x).toNat < S4096.size a := fun v3630 k0_hw362 => k0_hw362

def k0_chk363 (v3633 : IVec S16 32) : Prop :=
  (∀ a x, ((![v3633] : Fin 1 → IVec S16 32) a x).toNat < S4096.size a)
instance k0_chk363.dec : ∀ (v3633 : IVec S16 32), Decidable (k0_chk363 v3633) := fun v3633 => decidable_of_iff' _ (Iff.of_eq (k0_chk363.eq_1 v3633))
theorem k0_idx363_inb : ∀ (v3633 : IVec S16 32) (k0_hw363 : k0_chk363 v3633), ∀ a x, ((![v3633] : Fin 1 → IVec S16 32) a x).toNat < S4096.size a := fun v3633 k0_hw363 => k0_hw363

def k0_chk364 (v3636 : IVec S16 32) : Prop :=
  (∀ a x, ((![v3636] : Fin 1 → IVec S16 32) a x).toNat < S4096.size a)
instance k0_chk364.dec : ∀ (v3636 : IVec S16 32), Decidable (k0_chk364 v3636) := fun v3636 => decidable_of_iff' _ (Iff.of_eq (k0_chk364.eq_1 v3636))
theorem k0_idx364_inb : ∀ (v3636 : IVec S16 32) (k0_hw364 : k0_chk364 v3636), ∀ a x, ((![v3636] : Fin 1 → IVec S16 32) a x).toNat < S4096.size a := fun v3636 k0_hw364 => k0_hw364

def k0_chk365 (v3639 : IVec S16 32) : Prop :=
  (∀ a x, ((![v3639] : Fin 1 → IVec S16 32) a x).toNat < S4096.size a)
instance k0_chk365.dec : ∀ (v3639 : IVec S16 32), Decidable (k0_chk365 v3639) := fun v3639 => decidable_of_iff' _ (Iff.of_eq (k0_chk365.eq_1 v3639))
theorem k0_idx365_inb : ∀ (v3639 : IVec S16 32) (k0_hw365 : k0_chk365 v3639), ∀ a x, ((![v3639] : Fin 1 → IVec S16 32) a x).toNat < S4096.size a := fun v3639 k0_hw365 => k0_hw365

def k0_chk366 (v3642 : IVec S16 32) : Prop :=
  (∀ a x, ((![v3642] : Fin 1 → IVec S16 32) a x).toNat < S4096.size a)
instance k0_chk366.dec : ∀ (v3642 : IVec S16 32), Decidable (k0_chk366 v3642) := fun v3642 => decidable_of_iff' _ (Iff.of_eq (k0_chk366.eq_1 v3642))
theorem k0_idx366_inb : ∀ (v3642 : IVec S16 32) (k0_hw366 : k0_chk366 v3642), ∀ a x, ((![v3642] : Fin 1 → IVec S16 32) a x).toNat < S4096.size a := fun v3642 k0_hw366 => k0_hw366

def k0_chk367 (v3645 : IVec S16 32) : Prop :=
  (∀ a x, ((![v3645] : Fin 1 → IVec S16 32) a x).toNat < S4096.size a)
instance k0_chk367.dec : ∀ (v3645 : IVec S16 32), Decidable (k0_chk367 v3645) := fun v3645 => decidable_of_iff' _ (Iff.of_eq (k0_chk367.eq_1 v3645))
theorem k0_idx367_inb : ∀ (v3645 : IVec S16 32) (k0_hw367 : k0_chk367 v3645), ∀ a x, ((![v3645] : Fin 1 → IVec S16 32) a x).toNat < S4096.size a := fun v3645 k0_hw367 => k0_hw367

def k0_chk368 (v3648 : IVec S16 32) : Prop :=
  (∀ a x, ((![v3648] : Fin 1 → IVec S16 32) a x).toNat < S4096.size a)
instance k0_chk368.dec : ∀ (v3648 : IVec S16 32), Decidable (k0_chk368 v3648) := fun v3648 => decidable_of_iff' _ (Iff.of_eq (k0_chk368.eq_1 v3648))
theorem k0_idx368_inb : ∀ (v3648 : IVec S16 32) (k0_hw368 : k0_chk368 v3648), ∀ a x, ((![v3648] : Fin 1 → IVec S16 32) a x).toNat < S4096.size a := fun v3648 k0_hw368 => k0_hw368
def k0_off115 (k0_t3 : Fin k0_t3_loop.trips) : Fin 4 → Nat :=
  let c5_i32_1666 : BitVec 32 := 5#32
  let v3650 : Index := Scalar.indexCast c5_i32_1666
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3651 : Index := Scalar.indexCast v3303
  let c0_i32_1667 : BitVec 32 := 0#32
  let v3652 : Index := Scalar.indexCast c0_i32_1667
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3653 : Index := Scalar.indexCast v3305
  ![5, v3651.toNat, 0, v3653.toNat]
def k0_off116 (k0_t3 : Fin k0_t3_loop.trips) : Fin 4 → Nat :=
  let c5_i32_1668 : BitVec 32 := 5#32
  let v3655 : Index := Scalar.indexCast c5_i32_1668
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3656 : Index := Scalar.indexCast v3303
  let c1_i32_1669 : BitVec 32 := 1#32
  let v3657 : Index := Scalar.indexCast c1_i32_1669
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3658 : Index := Scalar.indexCast v3305
  ![5, v3656.toNat, 1, v3658.toNat]
def k0_off117 (k0_t3 : Fin k0_t3_loop.trips) : Fin 4 → Nat :=
  let c5_i32_1670 : BitVec 32 := 5#32
  let v3660 : Index := Scalar.indexCast c5_i32_1670
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3661 : Index := Scalar.indexCast v3303
  let c2_i32_1671 : BitVec 32 := 2#32
  let v3662 : Index := Scalar.indexCast c2_i32_1671
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3663 : Index := Scalar.indexCast v3305
  ![5, v3661.toNat, 2, v3663.toNat]
def k0_off118 (k0_t3 : Fin k0_t3_loop.trips) : Fin 4 → Nat :=
  let c5_i32_1672 : BitVec 32 := 5#32
  let v3665 : Index := Scalar.indexCast c5_i32_1672
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3666 : Index := Scalar.indexCast v3303
  let c3_i32_1673 : BitVec 32 := 3#32
  let v3667 : Index := Scalar.indexCast c3_i32_1673
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3668 : Index := Scalar.indexCast v3305
  ![5, v3666.toNat, 3, v3668.toNat]
def k0_off119 (k0_t3 : Fin k0_t3_loop.trips) : Fin 4 → Nat :=
  let c5_i32_1674 : BitVec 32 := 5#32
  let v3670 : Index := Scalar.indexCast c5_i32_1674
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3671 : Index := Scalar.indexCast v3303
  let c4_i32_1675 : BitVec 32 := 4#32
  let v3672 : Index := Scalar.indexCast c4_i32_1675
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3673 : Index := Scalar.indexCast v3305
  ![5, v3671.toNat, 4, v3673.toNat]
def k0_off120 (k0_t3 : Fin k0_t3_loop.trips) : Fin 4 → Nat :=
  let c5_i32_1676 : BitVec 32 := 5#32
  let v3675 : Index := Scalar.indexCast c5_i32_1676
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3676 : Index := Scalar.indexCast v3303
  let c5_i32_1677 : BitVec 32 := 5#32
  let v3677 : Index := Scalar.indexCast c5_i32_1677
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3678 : Index := Scalar.indexCast v3305
  ![5, v3676.toNat, 5, v3678.toNat]
def k0_off121 (k0_t3 : Fin k0_t3_loop.trips) : Fin 4 → Nat :=
  let c5_i32_1678 : BitVec 32 := 5#32
  let v3680 : Index := Scalar.indexCast c5_i32_1678
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3681 : Index := Scalar.indexCast v3303
  let c6_i32_1679 : BitVec 32 := 6#32
  let v3682 : Index := Scalar.indexCast c6_i32_1679
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3683 : Index := Scalar.indexCast v3305
  ![5, v3681.toNat, 6, v3683.toNat]
def k0_off122 (k0_t3 : Fin k0_t3_loop.trips) : Fin 4 → Nat :=
  let c5_i32_1680 : BitVec 32 := 5#32
  let v3685 : Index := Scalar.indexCast c5_i32_1680
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3686 : Index := Scalar.indexCast v3303
  let c7_i32_1681 : BitVec 32 := 7#32
  let v3687 : Index := Scalar.indexCast c7_i32_1681
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3688 : Index := Scalar.indexCast v3305
  ![5, v3686.toNat, 7, v3688.toNat]

def k0_chk369 (v3691 : IVec S16 32) : Prop :=
  (∀ a x, ((![v3691] : Fin 1 → IVec S16 32) a x).toNat < S4096.size a)
instance k0_chk369.dec : ∀ (v3691 : IVec S16 32), Decidable (k0_chk369 v3691) := fun v3691 => decidable_of_iff' _ (Iff.of_eq (k0_chk369.eq_1 v3691))
theorem k0_idx369_inb : ∀ (v3691 : IVec S16 32) (k0_hw369 : k0_chk369 v3691), ∀ a x, ((![v3691] : Fin 1 → IVec S16 32) a x).toNat < S4096.size a := fun v3691 k0_hw369 => k0_hw369

def k0_chk370 (v3694 : IVec S16 32) : Prop :=
  (∀ a x, ((![v3694] : Fin 1 → IVec S16 32) a x).toNat < S4096.size a)
instance k0_chk370.dec : ∀ (v3694 : IVec S16 32), Decidable (k0_chk370 v3694) := fun v3694 => decidable_of_iff' _ (Iff.of_eq (k0_chk370.eq_1 v3694))
theorem k0_idx370_inb : ∀ (v3694 : IVec S16 32) (k0_hw370 : k0_chk370 v3694), ∀ a x, ((![v3694] : Fin 1 → IVec S16 32) a x).toNat < S4096.size a := fun v3694 k0_hw370 => k0_hw370

def k0_chk371 (v3697 : IVec S16 32) : Prop :=
  (∀ a x, ((![v3697] : Fin 1 → IVec S16 32) a x).toNat < S4096.size a)
instance k0_chk371.dec : ∀ (v3697 : IVec S16 32), Decidable (k0_chk371 v3697) := fun v3697 => decidable_of_iff' _ (Iff.of_eq (k0_chk371.eq_1 v3697))
theorem k0_idx371_inb : ∀ (v3697 : IVec S16 32) (k0_hw371 : k0_chk371 v3697), ∀ a x, ((![v3697] : Fin 1 → IVec S16 32) a x).toNat < S4096.size a := fun v3697 k0_hw371 => k0_hw371

def k0_chk372 (v3700 : IVec S16 32) : Prop :=
  (∀ a x, ((![v3700] : Fin 1 → IVec S16 32) a x).toNat < S4096.size a)
instance k0_chk372.dec : ∀ (v3700 : IVec S16 32), Decidable (k0_chk372 v3700) := fun v3700 => decidable_of_iff' _ (Iff.of_eq (k0_chk372.eq_1 v3700))
theorem k0_idx372_inb : ∀ (v3700 : IVec S16 32) (k0_hw372 : k0_chk372 v3700), ∀ a x, ((![v3700] : Fin 1 → IVec S16 32) a x).toNat < S4096.size a := fun v3700 k0_hw372 => k0_hw372

def k0_chk373 (v3703 : IVec S16 32) : Prop :=
  (∀ a x, ((![v3703] : Fin 1 → IVec S16 32) a x).toNat < S4096.size a)
instance k0_chk373.dec : ∀ (v3703 : IVec S16 32), Decidable (k0_chk373 v3703) := fun v3703 => decidable_of_iff' _ (Iff.of_eq (k0_chk373.eq_1 v3703))
theorem k0_idx373_inb : ∀ (v3703 : IVec S16 32) (k0_hw373 : k0_chk373 v3703), ∀ a x, ((![v3703] : Fin 1 → IVec S16 32) a x).toNat < S4096.size a := fun v3703 k0_hw373 => k0_hw373

def k0_chk374 (v3706 : IVec S16 32) : Prop :=
  (∀ a x, ((![v3706] : Fin 1 → IVec S16 32) a x).toNat < S4096.size a)
instance k0_chk374.dec : ∀ (v3706 : IVec S16 32), Decidable (k0_chk374 v3706) := fun v3706 => decidable_of_iff' _ (Iff.of_eq (k0_chk374.eq_1 v3706))
theorem k0_idx374_inb : ∀ (v3706 : IVec S16 32) (k0_hw374 : k0_chk374 v3706), ∀ a x, ((![v3706] : Fin 1 → IVec S16 32) a x).toNat < S4096.size a := fun v3706 k0_hw374 => k0_hw374

def k0_chk375 (v3709 : IVec S16 32) : Prop :=
  (∀ a x, ((![v3709] : Fin 1 → IVec S16 32) a x).toNat < S4096.size a)
instance k0_chk375.dec : ∀ (v3709 : IVec S16 32), Decidable (k0_chk375 v3709) := fun v3709 => decidable_of_iff' _ (Iff.of_eq (k0_chk375.eq_1 v3709))
theorem k0_idx375_inb : ∀ (v3709 : IVec S16 32) (k0_hw375 : k0_chk375 v3709), ∀ a x, ((![v3709] : Fin 1 → IVec S16 32) a x).toNat < S4096.size a := fun v3709 k0_hw375 => k0_hw375

def k0_chk376 (v3712 : IVec S16 32) : Prop :=
  (∀ a x, ((![v3712] : Fin 1 → IVec S16 32) a x).toNat < S4096.size a)
instance k0_chk376.dec : ∀ (v3712 : IVec S16 32), Decidable (k0_chk376 v3712) := fun v3712 => decidable_of_iff' _ (Iff.of_eq (k0_chk376.eq_1 v3712))
theorem k0_idx376_inb : ∀ (v3712 : IVec S16 32) (k0_hw376 : k0_chk376 v3712), ∀ a x, ((![v3712] : Fin 1 → IVec S16 32) a x).toNat < S4096.size a := fun v3712 k0_hw376 => k0_hw376
def k0_off123 (k0_t3 : Fin k0_t3_loop.trips) : Fin 4 → Nat :=
  let c6_i32_1682 : BitVec 32 := 6#32
  let v3714 : Index := Scalar.indexCast c6_i32_1682
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3715 : Index := Scalar.indexCast v3303
  let c0_i32_1683 : BitVec 32 := 0#32
  let v3716 : Index := Scalar.indexCast c0_i32_1683
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3717 : Index := Scalar.indexCast v3305
  ![6, v3715.toNat, 0, v3717.toNat]
def k0_off124 (k0_t3 : Fin k0_t3_loop.trips) : Fin 4 → Nat :=
  let c6_i32_1684 : BitVec 32 := 6#32
  let v3719 : Index := Scalar.indexCast c6_i32_1684
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3720 : Index := Scalar.indexCast v3303
  let c1_i32_1685 : BitVec 32 := 1#32
  let v3721 : Index := Scalar.indexCast c1_i32_1685
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3722 : Index := Scalar.indexCast v3305
  ![6, v3720.toNat, 1, v3722.toNat]
def k0_off125 (k0_t3 : Fin k0_t3_loop.trips) : Fin 4 → Nat :=
  let c6_i32_1686 : BitVec 32 := 6#32
  let v3724 : Index := Scalar.indexCast c6_i32_1686
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3725 : Index := Scalar.indexCast v3303
  let c2_i32_1687 : BitVec 32 := 2#32
  let v3726 : Index := Scalar.indexCast c2_i32_1687
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3727 : Index := Scalar.indexCast v3305
  ![6, v3725.toNat, 2, v3727.toNat]
def k0_off126 (k0_t3 : Fin k0_t3_loop.trips) : Fin 4 → Nat :=
  let c6_i32_1688 : BitVec 32 := 6#32
  let v3729 : Index := Scalar.indexCast c6_i32_1688
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3730 : Index := Scalar.indexCast v3303
  let c3_i32_1689 : BitVec 32 := 3#32
  let v3731 : Index := Scalar.indexCast c3_i32_1689
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3732 : Index := Scalar.indexCast v3305
  ![6, v3730.toNat, 3, v3732.toNat]
def k0_off127 (k0_t3 : Fin k0_t3_loop.trips) : Fin 4 → Nat :=
  let c6_i32_1690 : BitVec 32 := 6#32
  let v3734 : Index := Scalar.indexCast c6_i32_1690
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3735 : Index := Scalar.indexCast v3303
  let c4_i32_1691 : BitVec 32 := 4#32
  let v3736 : Index := Scalar.indexCast c4_i32_1691
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3737 : Index := Scalar.indexCast v3305
  ![6, v3735.toNat, 4, v3737.toNat]
def k0_off128 (k0_t3 : Fin k0_t3_loop.trips) : Fin 4 → Nat :=
  let c6_i32_1692 : BitVec 32 := 6#32
  let v3739 : Index := Scalar.indexCast c6_i32_1692
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3740 : Index := Scalar.indexCast v3303
  let c5_i32_1693 : BitVec 32 := 5#32
  let v3741 : Index := Scalar.indexCast c5_i32_1693
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3742 : Index := Scalar.indexCast v3305
  ![6, v3740.toNat, 5, v3742.toNat]
def k0_off129 (k0_t3 : Fin k0_t3_loop.trips) : Fin 4 → Nat :=
  let c6_i32_1694 : BitVec 32 := 6#32
  let v3744 : Index := Scalar.indexCast c6_i32_1694
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3745 : Index := Scalar.indexCast v3303
  let c6_i32_1695 : BitVec 32 := 6#32
  let v3746 : Index := Scalar.indexCast c6_i32_1695
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3747 : Index := Scalar.indexCast v3305
  ![6, v3745.toNat, 6, v3747.toNat]
def k0_off130 (k0_t3 : Fin k0_t3_loop.trips) : Fin 4 → Nat :=
  let c6_i32_1696 : BitVec 32 := 6#32
  let v3749 : Index := Scalar.indexCast c6_i32_1696
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3750 : Index := Scalar.indexCast v3303
  let c7_i32_1697 : BitVec 32 := 7#32
  let v3751 : Index := Scalar.indexCast c7_i32_1697
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3752 : Index := Scalar.indexCast v3305
  ![6, v3750.toNat, 7, v3752.toNat]

def k0_chk377 (v3755 : IVec S16 32) : Prop :=
  (∀ a x, ((![v3755] : Fin 1 → IVec S16 32) a x).toNat < S4096.size a)
instance k0_chk377.dec : ∀ (v3755 : IVec S16 32), Decidable (k0_chk377 v3755) := fun v3755 => decidable_of_iff' _ (Iff.of_eq (k0_chk377.eq_1 v3755))
theorem k0_idx377_inb : ∀ (v3755 : IVec S16 32) (k0_hw377 : k0_chk377 v3755), ∀ a x, ((![v3755] : Fin 1 → IVec S16 32) a x).toNat < S4096.size a := fun v3755 k0_hw377 => k0_hw377

def k0_chk378 (v3758 : IVec S16 32) : Prop :=
  (∀ a x, ((![v3758] : Fin 1 → IVec S16 32) a x).toNat < S4096.size a)
instance k0_chk378.dec : ∀ (v3758 : IVec S16 32), Decidable (k0_chk378 v3758) := fun v3758 => decidable_of_iff' _ (Iff.of_eq (k0_chk378.eq_1 v3758))
theorem k0_idx378_inb : ∀ (v3758 : IVec S16 32) (k0_hw378 : k0_chk378 v3758), ∀ a x, ((![v3758] : Fin 1 → IVec S16 32) a x).toNat < S4096.size a := fun v3758 k0_hw378 => k0_hw378

def k0_chk379 (v3761 : IVec S16 32) : Prop :=
  (∀ a x, ((![v3761] : Fin 1 → IVec S16 32) a x).toNat < S4096.size a)
instance k0_chk379.dec : ∀ (v3761 : IVec S16 32), Decidable (k0_chk379 v3761) := fun v3761 => decidable_of_iff' _ (Iff.of_eq (k0_chk379.eq_1 v3761))
theorem k0_idx379_inb : ∀ (v3761 : IVec S16 32) (k0_hw379 : k0_chk379 v3761), ∀ a x, ((![v3761] : Fin 1 → IVec S16 32) a x).toNat < S4096.size a := fun v3761 k0_hw379 => k0_hw379

def k0_chk380 (v3764 : IVec S16 32) : Prop :=
  (∀ a x, ((![v3764] : Fin 1 → IVec S16 32) a x).toNat < S4096.size a)
instance k0_chk380.dec : ∀ (v3764 : IVec S16 32), Decidable (k0_chk380 v3764) := fun v3764 => decidable_of_iff' _ (Iff.of_eq (k0_chk380.eq_1 v3764))
theorem k0_idx380_inb : ∀ (v3764 : IVec S16 32) (k0_hw380 : k0_chk380 v3764), ∀ a x, ((![v3764] : Fin 1 → IVec S16 32) a x).toNat < S4096.size a := fun v3764 k0_hw380 => k0_hw380

def k0_chk381 (v3767 : IVec S16 32) : Prop :=
  (∀ a x, ((![v3767] : Fin 1 → IVec S16 32) a x).toNat < S4096.size a)
instance k0_chk381.dec : ∀ (v3767 : IVec S16 32), Decidable (k0_chk381 v3767) := fun v3767 => decidable_of_iff' _ (Iff.of_eq (k0_chk381.eq_1 v3767))
theorem k0_idx381_inb : ∀ (v3767 : IVec S16 32) (k0_hw381 : k0_chk381 v3767), ∀ a x, ((![v3767] : Fin 1 → IVec S16 32) a x).toNat < S4096.size a := fun v3767 k0_hw381 => k0_hw381

def k0_chk382 (v3770 : IVec S16 32) : Prop :=
  (∀ a x, ((![v3770] : Fin 1 → IVec S16 32) a x).toNat < S4096.size a)
instance k0_chk382.dec : ∀ (v3770 : IVec S16 32), Decidable (k0_chk382 v3770) := fun v3770 => decidable_of_iff' _ (Iff.of_eq (k0_chk382.eq_1 v3770))
theorem k0_idx382_inb : ∀ (v3770 : IVec S16 32) (k0_hw382 : k0_chk382 v3770), ∀ a x, ((![v3770] : Fin 1 → IVec S16 32) a x).toNat < S4096.size a := fun v3770 k0_hw382 => k0_hw382

def k0_chk383 (v3773 : IVec S16 32) : Prop :=
  (∀ a x, ((![v3773] : Fin 1 → IVec S16 32) a x).toNat < S4096.size a)
instance k0_chk383.dec : ∀ (v3773 : IVec S16 32), Decidable (k0_chk383 v3773) := fun v3773 => decidable_of_iff' _ (Iff.of_eq (k0_chk383.eq_1 v3773))
theorem k0_idx383_inb : ∀ (v3773 : IVec S16 32) (k0_hw383 : k0_chk383 v3773), ∀ a x, ((![v3773] : Fin 1 → IVec S16 32) a x).toNat < S4096.size a := fun v3773 k0_hw383 => k0_hw383

def k0_chk384 (v3776 : IVec S16 32) : Prop :=
  (∀ a x, ((![v3776] : Fin 1 → IVec S16 32) a x).toNat < S4096.size a)
instance k0_chk384.dec : ∀ (v3776 : IVec S16 32), Decidable (k0_chk384 v3776) := fun v3776 => decidable_of_iff' _ (Iff.of_eq (k0_chk384.eq_1 v3776))
theorem k0_idx384_inb : ∀ (v3776 : IVec S16 32) (k0_hw384 : k0_chk384 v3776), ∀ a x, ((![v3776] : Fin 1 → IVec S16 32) a x).toNat < S4096.size a := fun v3776 k0_hw384 => k0_hw384
def k0_off131 (k0_t3 : Fin k0_t3_loop.trips) : Fin 4 → Nat :=
  let c7_i32_1698 : BitVec 32 := 7#32
  let v3778 : Index := Scalar.indexCast c7_i32_1698
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3779 : Index := Scalar.indexCast v3303
  let c0_i32_1699 : BitVec 32 := 0#32
  let v3780 : Index := Scalar.indexCast c0_i32_1699
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3781 : Index := Scalar.indexCast v3305
  ![7, v3779.toNat, 0, v3781.toNat]
def k0_off132 (k0_t3 : Fin k0_t3_loop.trips) : Fin 4 → Nat :=
  let c7_i32_1700 : BitVec 32 := 7#32
  let v3783 : Index := Scalar.indexCast c7_i32_1700
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3784 : Index := Scalar.indexCast v3303
  let c1_i32_1701 : BitVec 32 := 1#32
  let v3785 : Index := Scalar.indexCast c1_i32_1701
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3786 : Index := Scalar.indexCast v3305
  ![7, v3784.toNat, 1, v3786.toNat]
def k0_off133 (k0_t3 : Fin k0_t3_loop.trips) : Fin 4 → Nat :=
  let c7_i32_1702 : BitVec 32 := 7#32
  let v3788 : Index := Scalar.indexCast c7_i32_1702
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3789 : Index := Scalar.indexCast v3303
  let c2_i32_1703 : BitVec 32 := 2#32
  let v3790 : Index := Scalar.indexCast c2_i32_1703
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3791 : Index := Scalar.indexCast v3305
  ![7, v3789.toNat, 2, v3791.toNat]
def k0_off134 (k0_t3 : Fin k0_t3_loop.trips) : Fin 4 → Nat :=
  let c7_i32_1704 : BitVec 32 := 7#32
  let v3793 : Index := Scalar.indexCast c7_i32_1704
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3794 : Index := Scalar.indexCast v3303
  let c3_i32_1705 : BitVec 32 := 3#32
  let v3795 : Index := Scalar.indexCast c3_i32_1705
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3796 : Index := Scalar.indexCast v3305
  ![7, v3794.toNat, 3, v3796.toNat]
def k0_off135 (k0_t3 : Fin k0_t3_loop.trips) : Fin 4 → Nat :=
  let c7_i32_1706 : BitVec 32 := 7#32
  let v3798 : Index := Scalar.indexCast c7_i32_1706
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3799 : Index := Scalar.indexCast v3303
  let c4_i32_1707 : BitVec 32 := 4#32
  let v3800 : Index := Scalar.indexCast c4_i32_1707
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3801 : Index := Scalar.indexCast v3305
  ![7, v3799.toNat, 4, v3801.toNat]
def k0_off136 (k0_t3 : Fin k0_t3_loop.trips) : Fin 4 → Nat :=
  let c7_i32_1708 : BitVec 32 := 7#32
  let v3803 : Index := Scalar.indexCast c7_i32_1708
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3804 : Index := Scalar.indexCast v3303
  let c5_i32_1709 : BitVec 32 := 5#32
  let v3805 : Index := Scalar.indexCast c5_i32_1709
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3806 : Index := Scalar.indexCast v3305
  ![7, v3804.toNat, 5, v3806.toNat]
def k0_off137 (k0_t3 : Fin k0_t3_loop.trips) : Fin 4 → Nat :=
  let c7_i32_1710 : BitVec 32 := 7#32
  let v3808 : Index := Scalar.indexCast c7_i32_1710
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3809 : Index := Scalar.indexCast v3303
  let c6_i32_1711 : BitVec 32 := 6#32
  let v3810 : Index := Scalar.indexCast c6_i32_1711
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3811 : Index := Scalar.indexCast v3305
  ![7, v3809.toNat, 6, v3811.toNat]
def k0_off138 (k0_t3 : Fin k0_t3_loop.trips) : Fin 4 → Nat :=
  let c7_i32_1712 : BitVec 32 := 7#32
  let v3813 : Index := Scalar.indexCast c7_i32_1712
  let c0_i32_1551 : BitVec 32 := 0#32
  let c1_i32_1553 : BitVec 32 := 1#32
  let arg21 : BitVec 32 := Scf.iv c0_i32_1551 c1_i32_1553 k0_t3
  let c3_i32_1579 : BitVec 32 := 3#32
  let v3303 : BitVec 32 := Scalar.shrui arg21 c3_i32_1579
  let v3814 : Index := Scalar.indexCast v3303
  let c7_i32_1713 : BitVec 32 := 7#32
  let v3815 : Index := Scalar.indexCast c7_i32_1713
  let c7_i32_1580 : BitVec 32 := 7#32
  let v3304 : BitVec 32 := Scalar.andi arg21 c7_i32_1580
  let c16_i32_1581 : BitVec 32 := 16#32
  let v3305 : BitVec 32 := Scalar.muli v3304 c16_i32_1581
  let v3816 : Index := Scalar.indexCast v3305
  ![7, v3814.toNat, 7, v3816.toNat]
def k0_off139 (i : grid0.Coords) (k0_t1 : Fin k0_t1_loop.trips) : Fin 4 → Nat :=
  let c0_i32_1555 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c195_i32_1426 : BitVec 32 := 195#32
  let v3135 : BitVec 32 := Scalar.muli v1 c195_i32_1426
  let c10_i32_1427 : BitVec 32 := 10#32
  let v3136 : BitVec 32 := Scalar.minsi v1 c10_i32_1427
  let v3137 : BitVec 32 := Scalar.addi v3135 v3136
  let c8_i32_1428 : BitVec 32 := 8#32
  let v3138 : BitVec 32 := Scalar.muli v3137 c8_i32_1428
  let c0_i32_1448 : BitVec 32 := 0#32
  let c1_i32_1450 : BitVec 32 := 1#32
  let arg20 : BitVec 32 := Scf.iv c0_i32_1448 c1_i32_1450 k0_t1
  let c2_i32_1532 : BitVec 32 := 2#32
  let v3245 : BitVec 32 := Scalar.muli arg20 c2_i32_1532
  let c1_i32_1533 : BitVec 32 := 1#32
  let v3246 : BitVec 32 := Scalar.addi v3245 c1_i32_1533
  let c48_i32_1534 : BitVec 32 := 48#32
  let v3247 : BitVec 32 := Scalar.muli v3246 c48_i32_1534
  let v3248 : BitVec 32 := Scalar.addi v3138 v3247
  let c3_i32_1535 : BitVec 32 := 3#32
  let v3249 : BitVec 32 := Scalar.shrui v3248 c3_i32_1535
  let c0_i32_1556 : BitVec 32 := 0#32
  let c0_i32_1557 : BitVec 32 := 0#32
  ![0, v3249.toNat, 0, 0]
def k0_off140 (i : grid0.Coords) (k0_t1 : Fin k0_t1_loop.trips) (c0_i32_1563 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c195_i32_1426 : BitVec 32 := 195#32
  let v3135 : BitVec 32 := Scalar.muli v1 c195_i32_1426
  let c10_i32_1427 : BitVec 32 := 10#32
  let v3136 : BitVec 32 := Scalar.minsi v1 c10_i32_1427
  let v3137 : BitVec 32 := Scalar.addi v3135 v3136
  let c8_i32_1428 : BitVec 32 := 8#32
  let v3138 : BitVec 32 := Scalar.muli v3137 c8_i32_1428
  let c0_i32_1448 : BitVec 32 := 0#32
  let c1_i32_1450 : BitVec 32 := 1#32
  let arg20 : BitVec 32 := Scf.iv c0_i32_1448 c1_i32_1450 k0_t1
  let c2_i32_1532 : BitVec 32 := 2#32
  let v3245 : BitVec 32 := Scalar.muli arg20 c2_i32_1532
  let c1_i32_1533 : BitVec 32 := 1#32
  let v3246 : BitVec 32 := Scalar.addi v3245 c1_i32_1533
  let c48_i32_1534 : BitVec 32 := 48#32
  let v3247 : BitVec 32 := Scalar.muli v3246 c48_i32_1534
  let v3248 : BitVec 32 := Scalar.addi v3138 v3247
  let c96_i32_1561 : BitVec 32 := 96#32
  let v3268 : BitVec 32 := Scalar.addi v3248 c96_i32_1561
  let c195_i32 : BitVec 32 := 195#32
  let c10_i32_1424 : BitVec 32 := 10#32
  let v3131 : BitVec 1 := Scalar.cmpi .slt v1 c10_i32_1424
  let v3132 : BitVec 32 := Scalar.extui v3131
  let v3133 : BitVec 32 := Scalar.addi c195_i32 v3132
  let c8_i32_1425 : BitVec 32 := 8#32
  let v3134 : BitVec 32 := Scalar.muli v3133 c8_i32_1425
  let v3139 : BitVec 32 := Scalar.addi v3138 v3134
  let c48_i32_1429 : BitVec 32 := 48#32
  let v3140 : BitVec 32 := Scalar.subi v3139 c48_i32_1429
  let v3269 : BitVec 32 := Scalar.minsi v3268 v3140
  let c16_i32_1562 : BitVec 32 := 16#32
  let v3270 : BitVec 32 := Scalar.muli v3269 c16_i32_1562
  let v3271 : BitVec 32 := Scalar.addi c0_i32_1563 v3270
  ![v3271.toNat]
def k0_off141 (i : grid0.Coords) : Fin 4 → Nat :=
  let c0_i32_1453 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c195_i32_1426 : BitVec 32 := 195#32
  let v3135 : BitVec 32 := Scalar.muli v1 c195_i32_1426
  let c10_i32_1427 : BitVec 32 := 10#32
  let v3136 : BitVec 32 := Scalar.minsi v1 c10_i32_1427
  let v3137 : BitVec 32 := Scalar.addi v3135 v3136
  let c8_i32_1428 : BitVec 32 := 8#32
  let v3138 : BitVec 32 := Scalar.muli v3137 c8_i32_1428
  let c195_i32 : BitVec 32 := 195#32
  let c10_i32_1424 : BitVec 32 := 10#32
  let v3131 : BitVec 1 := Scalar.cmpi .slt v1 c10_i32_1424
  let v3132 : BitVec 32 := Scalar.extui v3131
  let v3133 : BitVec 32 := Scalar.addi c195_i32 v3132
  let c8_i32_1425 : BitVec 32 := 8#32
  let v3134 : BitVec 32 := Scalar.muli v3133 c8_i32_1425
  let v3139 : BitVec 32 := Scalar.addi v3138 v3134
  let c48_i32_1429 : BitVec 32 := 48#32
  let v3140 : BitVec 32 := Scalar.subi v3139 c48_i32_1429
  let c3_i32_1452 : BitVec 32 := 3#32
  let v3175 : BitVec 32 := Scalar.shrui v3140 c3_i32_1452
  let c0_i32_1454 : BitVec 32 := 0#32
  let c0_i32_1455 : BitVec 32 := 0#32
  ![0, v3175.toNat, 0, 0]
@[reducible] def k0_t4_loop : Scf.Loop 32 :=
  let c0_i32_1472 : BitVec 32 := 0#32
  let c48_i32_1473 : BitVec 32 := 48#32
  let v3190 : BitVec 32 := Scalar.addi c0_i32_1472 c48_i32_1473
  let c1_i32_1474 : BitVec 32 := 1#32
  ⟨c0_i32_1472, v3190, c1_i32_1474⟩
def k0_off142 (k0_t4 : Fin k0_t4_loop.trips) : Fin 1 → Nat :=
  let c0_i32_1472 : BitVec 32 := 0#32
  let c1_i32_1474 : BitVec 32 := 1#32
  let arg20 : BitVec 32 := Scf.iv c0_i32_1472 c1_i32_1474 k0_t4
  let c16_i32_1494 : BitVec 32 := 16#32
  let v3205 : BitVec 32 := Scalar.muli arg20 c16_i32_1494
  let v3206 : Index := Scalar.indexCast v3205
  ![v3206.toNat]
def k0_off143 (k0_t4 : Fin k0_t4_loop.trips) (c768_i32_1496 : BitVec 32) : Fin 1 → Nat :=
  let c0_i32_1472 : BitVec 32 := 0#32
  let c1_i32_1474 : BitVec 32 := 1#32
  let arg20 : BitVec 32 := Scf.iv c0_i32_1472 c1_i32_1474 k0_t4
  let c16_i32_1495 : BitVec 32 := 16#32
  let v3208 : BitVec 32 := Scalar.muli arg20 c16_i32_1495
  let v3209 : BitVec 32 := Scalar.addi c768_i32_1496 v3208
  let v3210 : Index := Scalar.indexCast v3209
  ![v3210.toNat]

def k0_chk385 (v3226 : IVec S16 32) : Prop :=
  (∀ a x, ((![v3226] : Fin 1 → IVec S16 32) a x).toNat < S4096.size a)
instance k0_chk385.dec : ∀ (v3226 : IVec S16 32), Decidable (k0_chk385 v3226) := fun v3226 => decidable_of_iff' _ (Iff.of_eq (k0_chk385.eq_1 v3226))
theorem k0_idx385_inb : ∀ (v3226 : IVec S16 32) (k0_hw385 : k0_chk385 v3226), ∀ a x, ((![v3226] : Fin 1 → IVec S16 32) a x).toNat < S4096.size a := fun v3226 k0_hw385 => k0_hw385

def k0_chk386 (v3229 : IVec S16 32) : Prop :=
  (∀ a x, ((![v3229] : Fin 1 → IVec S16 32) a x).toNat < S4096.size a)
instance k0_chk386.dec : ∀ (v3229 : IVec S16 32), Decidable (k0_chk386 v3229) := fun v3229 => decidable_of_iff' _ (Iff.of_eq (k0_chk386.eq_1 v3229))
theorem k0_idx386_inb : ∀ (v3229 : IVec S16 32) (k0_hw386 : k0_chk386 v3229), ∀ a x, ((![v3229] : Fin 1 → IVec S16 32) a x).toNat < S4096.size a := fun v3229 k0_hw386 => k0_hw386

def k0_chk387 (v3232 : IVec S16 32) : Prop :=
  (∀ a x, ((![v3232] : Fin 1 → IVec S16 32) a x).toNat < S4096.size a)
instance k0_chk387.dec : ∀ (v3232 : IVec S16 32), Decidable (k0_chk387 v3232) := fun v3232 => decidable_of_iff' _ (Iff.of_eq (k0_chk387.eq_1 v3232))
theorem k0_idx387_inb : ∀ (v3232 : IVec S16 32) (k0_hw387 : k0_chk387 v3232), ∀ a x, ((![v3232] : Fin 1 → IVec S16 32) a x).toNat < S4096.size a := fun v3232 k0_hw387 => k0_hw387

def k0_chk388 (v3235 : IVec S16 32) : Prop :=
  (∀ a x, ((![v3235] : Fin 1 → IVec S16 32) a x).toNat < S4096.size a)
instance k0_chk388.dec : ∀ (v3235 : IVec S16 32), Decidable (k0_chk388 v3235) := fun v3235 => decidable_of_iff' _ (Iff.of_eq (k0_chk388.eq_1 v3235))
theorem k0_idx388_inb : ∀ (v3235 : IVec S16 32) (k0_hw388 : k0_chk388 v3235), ∀ a x, ((![v3235] : Fin 1 → IVec S16 32) a x).toNat < S4096.size a := fun v3235 k0_hw388 => k0_hw388

def k0_chk389 (v3238 : IVec S16 32) : Prop :=
  (∀ a x, ((![v3238] : Fin 1 → IVec S16 32) a x).toNat < S4096.size a)
instance k0_chk389.dec : ∀ (v3238 : IVec S16 32), Decidable (k0_chk389 v3238) := fun v3238 => decidable_of_iff' _ (Iff.of_eq (k0_chk389.eq_1 v3238))
theorem k0_idx389_inb : ∀ (v3238 : IVec S16 32) (k0_hw389 : k0_chk389 v3238), ∀ a x, ((![v3238] : Fin 1 → IVec S16 32) a x).toNat < S4096.size a := fun v3238 k0_hw389 => k0_hw389

def k0_chk390 (v3241 : IVec S16 32) : Prop :=
  (∀ a x, ((![v3241] : Fin 1 → IVec S16 32) a x).toNat < S4096.size a)
instance k0_chk390.dec : ∀ (v3241 : IVec S16 32), Decidable (k0_chk390 v3241) := fun v3241 => decidable_of_iff' _ (Iff.of_eq (k0_chk390.eq_1 v3241))
theorem k0_idx390_inb : ∀ (v3241 : IVec S16 32) (k0_hw390 : k0_chk390 v3241), ∀ a x, ((![v3241] : Fin 1 → IVec S16 32) a x).toNat < S4096.size a := fun v3241 k0_hw390 => k0_hw390

def k0_chk391 (v3244 : IVec S16 32) : Prop :=
  (∀ a x, ((![v3244] : Fin 1 → IVec S16 32) a x).toNat < S4096.size a)
instance k0_chk391.dec : ∀ (v3244 : IVec S16 32), Decidable (k0_chk391 v3244) := fun v3244 => decidable_of_iff' _ (Iff.of_eq (k0_chk391.eq_1 v3244))
theorem k0_idx391_inb : ∀ (v3244 : IVec S16 32) (k0_hw391 : k0_chk391 v3244), ∀ a x, ((![v3244] : Fin 1 → IVec S16 32) a x).toNat < S4096.size a := fun v3244 k0_hw391 => k0_hw391

def k0_chk392 (v3247 : IVec S16 32) : Prop :=
  (∀ a x, ((![v3247] : Fin 1 → IVec S16 32) a x).toNat < S4096.size a)
instance k0_chk392.dec : ∀ (v3247 : IVec S16 32), Decidable (k0_chk392 v3247) := fun v3247 => decidable_of_iff' _ (Iff.of_eq (k0_chk392.eq_1 v3247))
theorem k0_idx392_inb : ∀ (v3247 : IVec S16 32) (k0_hw392 : k0_chk392 v3247), ∀ a x, ((![v3247] : Fin 1 → IVec S16 32) a x).toNat < S4096.size a := fun v3247 k0_hw392 => k0_hw392
def k0_off144 (k0_t4 : Fin k0_t4_loop.trips) : Fin 4 → Nat :=
  let c0_i32_1506 : BitVec 32 := 0#32
  let v3249 : Index := Scalar.indexCast c0_i32_1506
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3250 : Index := Scalar.indexCast v3222
  let c0_i32_1507 : BitVec 32 := 0#32
  let v3251 : Index := Scalar.indexCast c0_i32_1507
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3252 : Index := Scalar.indexCast v3224
  ![0, v3250.toNat, 0, v3252.toNat]
def k0_off145 (k0_t4 : Fin k0_t4_loop.trips) : Fin 4 → Nat :=
  let c0_i32_1508 : BitVec 32 := 0#32
  let v3254 : Index := Scalar.indexCast c0_i32_1508
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3255 : Index := Scalar.indexCast v3222
  let c1_i32_1509 : BitVec 32 := 1#32
  let v3256 : Index := Scalar.indexCast c1_i32_1509
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3257 : Index := Scalar.indexCast v3224
  ![0, v3255.toNat, 1, v3257.toNat]
def k0_off146 (k0_t4 : Fin k0_t4_loop.trips) : Fin 4 → Nat :=
  let c0_i32_1510 : BitVec 32 := 0#32
  let v3259 : Index := Scalar.indexCast c0_i32_1510
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3260 : Index := Scalar.indexCast v3222
  let c2_i32_1511 : BitVec 32 := 2#32
  let v3261 : Index := Scalar.indexCast c2_i32_1511
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3262 : Index := Scalar.indexCast v3224
  ![0, v3260.toNat, 2, v3262.toNat]
def k0_off147 (k0_t4 : Fin k0_t4_loop.trips) : Fin 4 → Nat :=
  let c0_i32_1512 : BitVec 32 := 0#32
  let v3264 : Index := Scalar.indexCast c0_i32_1512
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3265 : Index := Scalar.indexCast v3222
  let c3_i32_1513 : BitVec 32 := 3#32
  let v3266 : Index := Scalar.indexCast c3_i32_1513
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3267 : Index := Scalar.indexCast v3224
  ![0, v3265.toNat, 3, v3267.toNat]
def k0_off148 (k0_t4 : Fin k0_t4_loop.trips) : Fin 4 → Nat :=
  let c0_i32_1514 : BitVec 32 := 0#32
  let v3269 : Index := Scalar.indexCast c0_i32_1514
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3270 : Index := Scalar.indexCast v3222
  let c4_i32_1515 : BitVec 32 := 4#32
  let v3271 : Index := Scalar.indexCast c4_i32_1515
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3272 : Index := Scalar.indexCast v3224
  ![0, v3270.toNat, 4, v3272.toNat]
def k0_off149 (k0_t4 : Fin k0_t4_loop.trips) : Fin 4 → Nat :=
  let c0_i32_1516 : BitVec 32 := 0#32
  let v3274 : Index := Scalar.indexCast c0_i32_1516
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3275 : Index := Scalar.indexCast v3222
  let c5_i32_1517 : BitVec 32 := 5#32
  let v3276 : Index := Scalar.indexCast c5_i32_1517
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3277 : Index := Scalar.indexCast v3224
  ![0, v3275.toNat, 5, v3277.toNat]
def k0_off150 (k0_t4 : Fin k0_t4_loop.trips) : Fin 4 → Nat :=
  let c0_i32_1518 : BitVec 32 := 0#32
  let v3279 : Index := Scalar.indexCast c0_i32_1518
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3280 : Index := Scalar.indexCast v3222
  let c6_i32_1519 : BitVec 32 := 6#32
  let v3281 : Index := Scalar.indexCast c6_i32_1519
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3282 : Index := Scalar.indexCast v3224
  ![0, v3280.toNat, 6, v3282.toNat]
def k0_off151 (k0_t4 : Fin k0_t4_loop.trips) : Fin 4 → Nat :=
  let c0_i32_1520 : BitVec 32 := 0#32
  let v3284 : Index := Scalar.indexCast c0_i32_1520
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3285 : Index := Scalar.indexCast v3222
  let c7_i32_1521 : BitVec 32 := 7#32
  let v3286 : Index := Scalar.indexCast c7_i32_1521
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3287 : Index := Scalar.indexCast v3224
  ![0, v3285.toNat, 7, v3287.toNat]

def k0_chk393 (v3290 : IVec S16 32) : Prop :=
  (∀ a x, ((![v3290] : Fin 1 → IVec S16 32) a x).toNat < S4096.size a)
instance k0_chk393.dec : ∀ (v3290 : IVec S16 32), Decidable (k0_chk393 v3290) := fun v3290 => decidable_of_iff' _ (Iff.of_eq (k0_chk393.eq_1 v3290))
theorem k0_idx393_inb : ∀ (v3290 : IVec S16 32) (k0_hw393 : k0_chk393 v3290), ∀ a x, ((![v3290] : Fin 1 → IVec S16 32) a x).toNat < S4096.size a := fun v3290 k0_hw393 => k0_hw393

def k0_chk394 (v3293 : IVec S16 32) : Prop :=
  (∀ a x, ((![v3293] : Fin 1 → IVec S16 32) a x).toNat < S4096.size a)
instance k0_chk394.dec : ∀ (v3293 : IVec S16 32), Decidable (k0_chk394 v3293) := fun v3293 => decidable_of_iff' _ (Iff.of_eq (k0_chk394.eq_1 v3293))
theorem k0_idx394_inb : ∀ (v3293 : IVec S16 32) (k0_hw394 : k0_chk394 v3293), ∀ a x, ((![v3293] : Fin 1 → IVec S16 32) a x).toNat < S4096.size a := fun v3293 k0_hw394 => k0_hw394

def k0_chk395 (v3296 : IVec S16 32) : Prop :=
  (∀ a x, ((![v3296] : Fin 1 → IVec S16 32) a x).toNat < S4096.size a)
instance k0_chk395.dec : ∀ (v3296 : IVec S16 32), Decidable (k0_chk395 v3296) := fun v3296 => decidable_of_iff' _ (Iff.of_eq (k0_chk395.eq_1 v3296))
theorem k0_idx395_inb : ∀ (v3296 : IVec S16 32) (k0_hw395 : k0_chk395 v3296), ∀ a x, ((![v3296] : Fin 1 → IVec S16 32) a x).toNat < S4096.size a := fun v3296 k0_hw395 => k0_hw395

def k0_chk396 (v3299 : IVec S16 32) : Prop :=
  (∀ a x, ((![v3299] : Fin 1 → IVec S16 32) a x).toNat < S4096.size a)
instance k0_chk396.dec : ∀ (v3299 : IVec S16 32), Decidable (k0_chk396 v3299) := fun v3299 => decidable_of_iff' _ (Iff.of_eq (k0_chk396.eq_1 v3299))
theorem k0_idx396_inb : ∀ (v3299 : IVec S16 32) (k0_hw396 : k0_chk396 v3299), ∀ a x, ((![v3299] : Fin 1 → IVec S16 32) a x).toNat < S4096.size a := fun v3299 k0_hw396 => k0_hw396

def k0_chk397 (v3302 : IVec S16 32) : Prop :=
  (∀ a x, ((![v3302] : Fin 1 → IVec S16 32) a x).toNat < S4096.size a)
instance k0_chk397.dec : ∀ (v3302 : IVec S16 32), Decidable (k0_chk397 v3302) := fun v3302 => decidable_of_iff' _ (Iff.of_eq (k0_chk397.eq_1 v3302))
theorem k0_idx397_inb : ∀ (v3302 : IVec S16 32) (k0_hw397 : k0_chk397 v3302), ∀ a x, ((![v3302] : Fin 1 → IVec S16 32) a x).toNat < S4096.size a := fun v3302 k0_hw397 => k0_hw397

def k0_chk398 (v3305 : IVec S16 32) : Prop :=
  (∀ a x, ((![v3305] : Fin 1 → IVec S16 32) a x).toNat < S4096.size a)
instance k0_chk398.dec : ∀ (v3305 : IVec S16 32), Decidable (k0_chk398 v3305) := fun v3305 => decidable_of_iff' _ (Iff.of_eq (k0_chk398.eq_1 v3305))
theorem k0_idx398_inb : ∀ (v3305 : IVec S16 32) (k0_hw398 : k0_chk398 v3305), ∀ a x, ((![v3305] : Fin 1 → IVec S16 32) a x).toNat < S4096.size a := fun v3305 k0_hw398 => k0_hw398

def k0_chk399 (v3308 : IVec S16 32) : Prop :=
  (∀ a x, ((![v3308] : Fin 1 → IVec S16 32) a x).toNat < S4096.size a)
instance k0_chk399.dec : ∀ (v3308 : IVec S16 32), Decidable (k0_chk399 v3308) := fun v3308 => decidable_of_iff' _ (Iff.of_eq (k0_chk399.eq_1 v3308))
theorem k0_idx399_inb : ∀ (v3308 : IVec S16 32) (k0_hw399 : k0_chk399 v3308), ∀ a x, ((![v3308] : Fin 1 → IVec S16 32) a x).toNat < S4096.size a := fun v3308 k0_hw399 => k0_hw399

def k0_chk400 (v3311 : IVec S16 32) : Prop :=
  (∀ a x, ((![v3311] : Fin 1 → IVec S16 32) a x).toNat < S4096.size a)
instance k0_chk400.dec : ∀ (v3311 : IVec S16 32), Decidable (k0_chk400 v3311) := fun v3311 => decidable_of_iff' _ (Iff.of_eq (k0_chk400.eq_1 v3311))
theorem k0_idx400_inb : ∀ (v3311 : IVec S16 32) (k0_hw400 : k0_chk400 v3311), ∀ a x, ((![v3311] : Fin 1 → IVec S16 32) a x).toNat < S4096.size a := fun v3311 k0_hw400 => k0_hw400
def k0_off152 (k0_t4 : Fin k0_t4_loop.trips) : Fin 4 → Nat :=
  let c1_i32_1523 : BitVec 32 := 1#32
  let v3313 : Index := Scalar.indexCast c1_i32_1523
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3314 : Index := Scalar.indexCast v3222
  let c0_i32_1524 : BitVec 32 := 0#32
  let v3315 : Index := Scalar.indexCast c0_i32_1524
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3316 : Index := Scalar.indexCast v3224
  ![1, v3314.toNat, 0, v3316.toNat]
def k0_off153 (k0_t4 : Fin k0_t4_loop.trips) : Fin 4 → Nat :=
  let c1_i32_1525 : BitVec 32 := 1#32
  let v3318 : Index := Scalar.indexCast c1_i32_1525
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3319 : Index := Scalar.indexCast v3222
  let c1_i32_1526 : BitVec 32 := 1#32
  let v3320 : Index := Scalar.indexCast c1_i32_1526
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3321 : Index := Scalar.indexCast v3224
  ![1, v3319.toNat, 1, v3321.toNat]
def k0_off154 (k0_t4 : Fin k0_t4_loop.trips) : Fin 4 → Nat :=
  let c1_i32_1527 : BitVec 32 := 1#32
  let v3323 : Index := Scalar.indexCast c1_i32_1527
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3324 : Index := Scalar.indexCast v3222
  let c2_i32_1528 : BitVec 32 := 2#32
  let v3325 : Index := Scalar.indexCast c2_i32_1528
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3326 : Index := Scalar.indexCast v3224
  ![1, v3324.toNat, 2, v3326.toNat]
def k0_off155 (k0_t4 : Fin k0_t4_loop.trips) : Fin 4 → Nat :=
  let c1_i32_1529 : BitVec 32 := 1#32
  let v3328 : Index := Scalar.indexCast c1_i32_1529
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3329 : Index := Scalar.indexCast v3222
  let c3_i32_1530 : BitVec 32 := 3#32
  let v3330 : Index := Scalar.indexCast c3_i32_1530
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3331 : Index := Scalar.indexCast v3224
  ![1, v3329.toNat, 3, v3331.toNat]
def k0_off156 (k0_t4 : Fin k0_t4_loop.trips) : Fin 4 → Nat :=
  let c1_i32_1531 : BitVec 32 := 1#32
  let v3333 : Index := Scalar.indexCast c1_i32_1531
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3334 : Index := Scalar.indexCast v3222
  let c4_i32_1532 : BitVec 32 := 4#32
  let v3335 : Index := Scalar.indexCast c4_i32_1532
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3336 : Index := Scalar.indexCast v3224
  ![1, v3334.toNat, 4, v3336.toNat]
def k0_off157 (k0_t4 : Fin k0_t4_loop.trips) : Fin 4 → Nat :=
  let c1_i32_1533 : BitVec 32 := 1#32
  let v3338 : Index := Scalar.indexCast c1_i32_1533
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3339 : Index := Scalar.indexCast v3222
  let c5_i32_1534 : BitVec 32 := 5#32
  let v3340 : Index := Scalar.indexCast c5_i32_1534
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3341 : Index := Scalar.indexCast v3224
  ![1, v3339.toNat, 5, v3341.toNat]
def k0_off158 (k0_t4 : Fin k0_t4_loop.trips) : Fin 4 → Nat :=
  let c1_i32_1535 : BitVec 32 := 1#32
  let v3343 : Index := Scalar.indexCast c1_i32_1535
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3344 : Index := Scalar.indexCast v3222
  let c6_i32_1536 : BitVec 32 := 6#32
  let v3345 : Index := Scalar.indexCast c6_i32_1536
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3346 : Index := Scalar.indexCast v3224
  ![1, v3344.toNat, 6, v3346.toNat]
def k0_off159 (k0_t4 : Fin k0_t4_loop.trips) : Fin 4 → Nat :=
  let c1_i32_1537 : BitVec 32 := 1#32
  let v3348 : Index := Scalar.indexCast c1_i32_1537
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3349 : Index := Scalar.indexCast v3222
  let c7_i32_1538 : BitVec 32 := 7#32
  let v3350 : Index := Scalar.indexCast c7_i32_1538
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3351 : Index := Scalar.indexCast v3224
  ![1, v3349.toNat, 7, v3351.toNat]

def k0_chk401 (v3354 : IVec S16 32) : Prop :=
  (∀ a x, ((![v3354] : Fin 1 → IVec S16 32) a x).toNat < S4096.size a)
instance k0_chk401.dec : ∀ (v3354 : IVec S16 32), Decidable (k0_chk401 v3354) := fun v3354 => decidable_of_iff' _ (Iff.of_eq (k0_chk401.eq_1 v3354))
theorem k0_idx401_inb : ∀ (v3354 : IVec S16 32) (k0_hw401 : k0_chk401 v3354), ∀ a x, ((![v3354] : Fin 1 → IVec S16 32) a x).toNat < S4096.size a := fun v3354 k0_hw401 => k0_hw401

def k0_chk402 (v3357 : IVec S16 32) : Prop :=
  (∀ a x, ((![v3357] : Fin 1 → IVec S16 32) a x).toNat < S4096.size a)
instance k0_chk402.dec : ∀ (v3357 : IVec S16 32), Decidable (k0_chk402 v3357) := fun v3357 => decidable_of_iff' _ (Iff.of_eq (k0_chk402.eq_1 v3357))
theorem k0_idx402_inb : ∀ (v3357 : IVec S16 32) (k0_hw402 : k0_chk402 v3357), ∀ a x, ((![v3357] : Fin 1 → IVec S16 32) a x).toNat < S4096.size a := fun v3357 k0_hw402 => k0_hw402

def k0_chk403 (v3360 : IVec S16 32) : Prop :=
  (∀ a x, ((![v3360] : Fin 1 → IVec S16 32) a x).toNat < S4096.size a)
instance k0_chk403.dec : ∀ (v3360 : IVec S16 32), Decidable (k0_chk403 v3360) := fun v3360 => decidable_of_iff' _ (Iff.of_eq (k0_chk403.eq_1 v3360))
theorem k0_idx403_inb : ∀ (v3360 : IVec S16 32) (k0_hw403 : k0_chk403 v3360), ∀ a x, ((![v3360] : Fin 1 → IVec S16 32) a x).toNat < S4096.size a := fun v3360 k0_hw403 => k0_hw403

def k0_chk404 (v3363 : IVec S16 32) : Prop :=
  (∀ a x, ((![v3363] : Fin 1 → IVec S16 32) a x).toNat < S4096.size a)
instance k0_chk404.dec : ∀ (v3363 : IVec S16 32), Decidable (k0_chk404 v3363) := fun v3363 => decidable_of_iff' _ (Iff.of_eq (k0_chk404.eq_1 v3363))
theorem k0_idx404_inb : ∀ (v3363 : IVec S16 32) (k0_hw404 : k0_chk404 v3363), ∀ a x, ((![v3363] : Fin 1 → IVec S16 32) a x).toNat < S4096.size a := fun v3363 k0_hw404 => k0_hw404

def k0_chk405 (v3366 : IVec S16 32) : Prop :=
  (∀ a x, ((![v3366] : Fin 1 → IVec S16 32) a x).toNat < S4096.size a)
instance k0_chk405.dec : ∀ (v3366 : IVec S16 32), Decidable (k0_chk405 v3366) := fun v3366 => decidable_of_iff' _ (Iff.of_eq (k0_chk405.eq_1 v3366))
theorem k0_idx405_inb : ∀ (v3366 : IVec S16 32) (k0_hw405 : k0_chk405 v3366), ∀ a x, ((![v3366] : Fin 1 → IVec S16 32) a x).toNat < S4096.size a := fun v3366 k0_hw405 => k0_hw405

def k0_chk406 (v3369 : IVec S16 32) : Prop :=
  (∀ a x, ((![v3369] : Fin 1 → IVec S16 32) a x).toNat < S4096.size a)
instance k0_chk406.dec : ∀ (v3369 : IVec S16 32), Decidable (k0_chk406 v3369) := fun v3369 => decidable_of_iff' _ (Iff.of_eq (k0_chk406.eq_1 v3369))
theorem k0_idx406_inb : ∀ (v3369 : IVec S16 32) (k0_hw406 : k0_chk406 v3369), ∀ a x, ((![v3369] : Fin 1 → IVec S16 32) a x).toNat < S4096.size a := fun v3369 k0_hw406 => k0_hw406

def k0_chk407 (v3372 : IVec S16 32) : Prop :=
  (∀ a x, ((![v3372] : Fin 1 → IVec S16 32) a x).toNat < S4096.size a)
instance k0_chk407.dec : ∀ (v3372 : IVec S16 32), Decidable (k0_chk407 v3372) := fun v3372 => decidable_of_iff' _ (Iff.of_eq (k0_chk407.eq_1 v3372))
theorem k0_idx407_inb : ∀ (v3372 : IVec S16 32) (k0_hw407 : k0_chk407 v3372), ∀ a x, ((![v3372] : Fin 1 → IVec S16 32) a x).toNat < S4096.size a := fun v3372 k0_hw407 => k0_hw407

def k0_chk408 (v3375 : IVec S16 32) : Prop :=
  (∀ a x, ((![v3375] : Fin 1 → IVec S16 32) a x).toNat < S4096.size a)
instance k0_chk408.dec : ∀ (v3375 : IVec S16 32), Decidable (k0_chk408 v3375) := fun v3375 => decidable_of_iff' _ (Iff.of_eq (k0_chk408.eq_1 v3375))
theorem k0_idx408_inb : ∀ (v3375 : IVec S16 32) (k0_hw408 : k0_chk408 v3375), ∀ a x, ((![v3375] : Fin 1 → IVec S16 32) a x).toNat < S4096.size a := fun v3375 k0_hw408 => k0_hw408
def k0_off160 (k0_t4 : Fin k0_t4_loop.trips) : Fin 4 → Nat :=
  let c2_i32_1539 : BitVec 32 := 2#32
  let v3377 : Index := Scalar.indexCast c2_i32_1539
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3378 : Index := Scalar.indexCast v3222
  let c0_i32_1540 : BitVec 32 := 0#32
  let v3379 : Index := Scalar.indexCast c0_i32_1540
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3380 : Index := Scalar.indexCast v3224
  ![2, v3378.toNat, 0, v3380.toNat]
def k0_off161 (k0_t4 : Fin k0_t4_loop.trips) : Fin 4 → Nat :=
  let c2_i32_1541 : BitVec 32 := 2#32
  let v3382 : Index := Scalar.indexCast c2_i32_1541
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3383 : Index := Scalar.indexCast v3222
  let c1_i32_1542 : BitVec 32 := 1#32
  let v3384 : Index := Scalar.indexCast c1_i32_1542
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3385 : Index := Scalar.indexCast v3224
  ![2, v3383.toNat, 1, v3385.toNat]
def k0_off162 (k0_t4 : Fin k0_t4_loop.trips) : Fin 4 → Nat :=
  let c2_i32_1543 : BitVec 32 := 2#32
  let v3387 : Index := Scalar.indexCast c2_i32_1543
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3388 : Index := Scalar.indexCast v3222
  let c2_i32_1544 : BitVec 32 := 2#32
  let v3389 : Index := Scalar.indexCast c2_i32_1544
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3390 : Index := Scalar.indexCast v3224
  ![2, v3388.toNat, 2, v3390.toNat]
def k0_off163 (k0_t4 : Fin k0_t4_loop.trips) : Fin 4 → Nat :=
  let c2_i32_1545 : BitVec 32 := 2#32
  let v3392 : Index := Scalar.indexCast c2_i32_1545
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3393 : Index := Scalar.indexCast v3222
  let c3_i32_1546 : BitVec 32 := 3#32
  let v3394 : Index := Scalar.indexCast c3_i32_1546
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3395 : Index := Scalar.indexCast v3224
  ![2, v3393.toNat, 3, v3395.toNat]
def k0_off164 (k0_t4 : Fin k0_t4_loop.trips) : Fin 4 → Nat :=
  let c2_i32_1547 : BitVec 32 := 2#32
  let v3397 : Index := Scalar.indexCast c2_i32_1547
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3398 : Index := Scalar.indexCast v3222
  let c4_i32_1548 : BitVec 32 := 4#32
  let v3399 : Index := Scalar.indexCast c4_i32_1548
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3400 : Index := Scalar.indexCast v3224
  ![2, v3398.toNat, 4, v3400.toNat]
def k0_off165 (k0_t4 : Fin k0_t4_loop.trips) : Fin 4 → Nat :=
  let c2_i32_1549 : BitVec 32 := 2#32
  let v3402 : Index := Scalar.indexCast c2_i32_1549
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3403 : Index := Scalar.indexCast v3222
  let c5_i32_1550 : BitVec 32 := 5#32
  let v3404 : Index := Scalar.indexCast c5_i32_1550
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3405 : Index := Scalar.indexCast v3224
  ![2, v3403.toNat, 5, v3405.toNat]
def k0_off166 (k0_t4 : Fin k0_t4_loop.trips) : Fin 4 → Nat :=
  let c2_i32_1551 : BitVec 32 := 2#32
  let v3407 : Index := Scalar.indexCast c2_i32_1551
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3408 : Index := Scalar.indexCast v3222
  let c6_i32_1552 : BitVec 32 := 6#32
  let v3409 : Index := Scalar.indexCast c6_i32_1552
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3410 : Index := Scalar.indexCast v3224
  ![2, v3408.toNat, 6, v3410.toNat]
def k0_off167 (k0_t4 : Fin k0_t4_loop.trips) : Fin 4 → Nat :=
  let c2_i32_1553 : BitVec 32 := 2#32
  let v3412 : Index := Scalar.indexCast c2_i32_1553
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3413 : Index := Scalar.indexCast v3222
  let c7_i32_1554 : BitVec 32 := 7#32
  let v3414 : Index := Scalar.indexCast c7_i32_1554
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3415 : Index := Scalar.indexCast v3224
  ![2, v3413.toNat, 7, v3415.toNat]

def k0_chk409 (v3418 : IVec S16 32) : Prop :=
  (∀ a x, ((![v3418] : Fin 1 → IVec S16 32) a x).toNat < S4096.size a)
instance k0_chk409.dec : ∀ (v3418 : IVec S16 32), Decidable (k0_chk409 v3418) := fun v3418 => decidable_of_iff' _ (Iff.of_eq (k0_chk409.eq_1 v3418))
theorem k0_idx409_inb : ∀ (v3418 : IVec S16 32) (k0_hw409 : k0_chk409 v3418), ∀ a x, ((![v3418] : Fin 1 → IVec S16 32) a x).toNat < S4096.size a := fun v3418 k0_hw409 => k0_hw409

def k0_chk410 (v3421 : IVec S16 32) : Prop :=
  (∀ a x, ((![v3421] : Fin 1 → IVec S16 32) a x).toNat < S4096.size a)
instance k0_chk410.dec : ∀ (v3421 : IVec S16 32), Decidable (k0_chk410 v3421) := fun v3421 => decidable_of_iff' _ (Iff.of_eq (k0_chk410.eq_1 v3421))
theorem k0_idx410_inb : ∀ (v3421 : IVec S16 32) (k0_hw410 : k0_chk410 v3421), ∀ a x, ((![v3421] : Fin 1 → IVec S16 32) a x).toNat < S4096.size a := fun v3421 k0_hw410 => k0_hw410

def k0_chk411 (v3424 : IVec S16 32) : Prop :=
  (∀ a x, ((![v3424] : Fin 1 → IVec S16 32) a x).toNat < S4096.size a)
instance k0_chk411.dec : ∀ (v3424 : IVec S16 32), Decidable (k0_chk411 v3424) := fun v3424 => decidable_of_iff' _ (Iff.of_eq (k0_chk411.eq_1 v3424))
theorem k0_idx411_inb : ∀ (v3424 : IVec S16 32) (k0_hw411 : k0_chk411 v3424), ∀ a x, ((![v3424] : Fin 1 → IVec S16 32) a x).toNat < S4096.size a := fun v3424 k0_hw411 => k0_hw411

def k0_chk412 (v3427 : IVec S16 32) : Prop :=
  (∀ a x, ((![v3427] : Fin 1 → IVec S16 32) a x).toNat < S4096.size a)
instance k0_chk412.dec : ∀ (v3427 : IVec S16 32), Decidable (k0_chk412 v3427) := fun v3427 => decidable_of_iff' _ (Iff.of_eq (k0_chk412.eq_1 v3427))
theorem k0_idx412_inb : ∀ (v3427 : IVec S16 32) (k0_hw412 : k0_chk412 v3427), ∀ a x, ((![v3427] : Fin 1 → IVec S16 32) a x).toNat < S4096.size a := fun v3427 k0_hw412 => k0_hw412

def k0_chk413 (v3430 : IVec S16 32) : Prop :=
  (∀ a x, ((![v3430] : Fin 1 → IVec S16 32) a x).toNat < S4096.size a)
instance k0_chk413.dec : ∀ (v3430 : IVec S16 32), Decidable (k0_chk413 v3430) := fun v3430 => decidable_of_iff' _ (Iff.of_eq (k0_chk413.eq_1 v3430))
theorem k0_idx413_inb : ∀ (v3430 : IVec S16 32) (k0_hw413 : k0_chk413 v3430), ∀ a x, ((![v3430] : Fin 1 → IVec S16 32) a x).toNat < S4096.size a := fun v3430 k0_hw413 => k0_hw413

def k0_chk414 (v3433 : IVec S16 32) : Prop :=
  (∀ a x, ((![v3433] : Fin 1 → IVec S16 32) a x).toNat < S4096.size a)
instance k0_chk414.dec : ∀ (v3433 : IVec S16 32), Decidable (k0_chk414 v3433) := fun v3433 => decidable_of_iff' _ (Iff.of_eq (k0_chk414.eq_1 v3433))
theorem k0_idx414_inb : ∀ (v3433 : IVec S16 32) (k0_hw414 : k0_chk414 v3433), ∀ a x, ((![v3433] : Fin 1 → IVec S16 32) a x).toNat < S4096.size a := fun v3433 k0_hw414 => k0_hw414

def k0_chk415 (v3436 : IVec S16 32) : Prop :=
  (∀ a x, ((![v3436] : Fin 1 → IVec S16 32) a x).toNat < S4096.size a)
instance k0_chk415.dec : ∀ (v3436 : IVec S16 32), Decidable (k0_chk415 v3436) := fun v3436 => decidable_of_iff' _ (Iff.of_eq (k0_chk415.eq_1 v3436))
theorem k0_idx415_inb : ∀ (v3436 : IVec S16 32) (k0_hw415 : k0_chk415 v3436), ∀ a x, ((![v3436] : Fin 1 → IVec S16 32) a x).toNat < S4096.size a := fun v3436 k0_hw415 => k0_hw415

def k0_chk416 (v3439 : IVec S16 32) : Prop :=
  (∀ a x, ((![v3439] : Fin 1 → IVec S16 32) a x).toNat < S4096.size a)
instance k0_chk416.dec : ∀ (v3439 : IVec S16 32), Decidable (k0_chk416 v3439) := fun v3439 => decidable_of_iff' _ (Iff.of_eq (k0_chk416.eq_1 v3439))
theorem k0_idx416_inb : ∀ (v3439 : IVec S16 32) (k0_hw416 : k0_chk416 v3439), ∀ a x, ((![v3439] : Fin 1 → IVec S16 32) a x).toNat < S4096.size a := fun v3439 k0_hw416 => k0_hw416
def k0_off168 (k0_t4 : Fin k0_t4_loop.trips) : Fin 4 → Nat :=
  let c3_i32_1556 : BitVec 32 := 3#32
  let v3441 : Index := Scalar.indexCast c3_i32_1556
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3442 : Index := Scalar.indexCast v3222
  let c0_i32_1557 : BitVec 32 := 0#32
  let v3443 : Index := Scalar.indexCast c0_i32_1557
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3444 : Index := Scalar.indexCast v3224
  ![3, v3442.toNat, 0, v3444.toNat]
def k0_off169 (k0_t4 : Fin k0_t4_loop.trips) : Fin 4 → Nat :=
  let c3_i32_1558 : BitVec 32 := 3#32
  let v3446 : Index := Scalar.indexCast c3_i32_1558
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3447 : Index := Scalar.indexCast v3222
  let c1_i32_1559 : BitVec 32 := 1#32
  let v3448 : Index := Scalar.indexCast c1_i32_1559
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3449 : Index := Scalar.indexCast v3224
  ![3, v3447.toNat, 1, v3449.toNat]
def k0_off170 (k0_t4 : Fin k0_t4_loop.trips) : Fin 4 → Nat :=
  let c3_i32_1560 : BitVec 32 := 3#32
  let v3451 : Index := Scalar.indexCast c3_i32_1560
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3452 : Index := Scalar.indexCast v3222
  let c2_i32_1561 : BitVec 32 := 2#32
  let v3453 : Index := Scalar.indexCast c2_i32_1561
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3454 : Index := Scalar.indexCast v3224
  ![3, v3452.toNat, 2, v3454.toNat]
def k0_off171 (k0_t4 : Fin k0_t4_loop.trips) : Fin 4 → Nat :=
  let c3_i32_1562 : BitVec 32 := 3#32
  let v3456 : Index := Scalar.indexCast c3_i32_1562
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3457 : Index := Scalar.indexCast v3222
  let c3_i32_1563 : BitVec 32 := 3#32
  let v3458 : Index := Scalar.indexCast c3_i32_1563
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3459 : Index := Scalar.indexCast v3224
  ![3, v3457.toNat, 3, v3459.toNat]
def k0_off172 (k0_t4 : Fin k0_t4_loop.trips) : Fin 4 → Nat :=
  let c3_i32_1564 : BitVec 32 := 3#32
  let v3461 : Index := Scalar.indexCast c3_i32_1564
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3462 : Index := Scalar.indexCast v3222
  let c4_i32_1565 : BitVec 32 := 4#32
  let v3463 : Index := Scalar.indexCast c4_i32_1565
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3464 : Index := Scalar.indexCast v3224
  ![3, v3462.toNat, 4, v3464.toNat]
def k0_off173 (k0_t4 : Fin k0_t4_loop.trips) : Fin 4 → Nat :=
  let c3_i32_1566 : BitVec 32 := 3#32
  let v3466 : Index := Scalar.indexCast c3_i32_1566
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3467 : Index := Scalar.indexCast v3222
  let c5_i32_1567 : BitVec 32 := 5#32
  let v3468 : Index := Scalar.indexCast c5_i32_1567
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3469 : Index := Scalar.indexCast v3224
  ![3, v3467.toNat, 5, v3469.toNat]
def k0_off174 (k0_t4 : Fin k0_t4_loop.trips) : Fin 4 → Nat :=
  let c3_i32_1568 : BitVec 32 := 3#32
  let v3471 : Index := Scalar.indexCast c3_i32_1568
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3472 : Index := Scalar.indexCast v3222
  let c6_i32_1569 : BitVec 32 := 6#32
  let v3473 : Index := Scalar.indexCast c6_i32_1569
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3474 : Index := Scalar.indexCast v3224
  ![3, v3472.toNat, 6, v3474.toNat]
def k0_off175 (k0_t4 : Fin k0_t4_loop.trips) : Fin 4 → Nat :=
  let c3_i32_1570 : BitVec 32 := 3#32
  let v3476 : Index := Scalar.indexCast c3_i32_1570
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3477 : Index := Scalar.indexCast v3222
  let c7_i32_1571 : BitVec 32 := 7#32
  let v3478 : Index := Scalar.indexCast c7_i32_1571
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3479 : Index := Scalar.indexCast v3224
  ![3, v3477.toNat, 7, v3479.toNat]

def k0_chk417 (v3482 : IVec S16 32) : Prop :=
  (∀ a x, ((![v3482] : Fin 1 → IVec S16 32) a x).toNat < S4096.size a)
instance k0_chk417.dec : ∀ (v3482 : IVec S16 32), Decidable (k0_chk417 v3482) := fun v3482 => decidable_of_iff' _ (Iff.of_eq (k0_chk417.eq_1 v3482))
theorem k0_idx417_inb : ∀ (v3482 : IVec S16 32) (k0_hw417 : k0_chk417 v3482), ∀ a x, ((![v3482] : Fin 1 → IVec S16 32) a x).toNat < S4096.size a := fun v3482 k0_hw417 => k0_hw417

def k0_chk418 (v3485 : IVec S16 32) : Prop :=
  (∀ a x, ((![v3485] : Fin 1 → IVec S16 32) a x).toNat < S4096.size a)
instance k0_chk418.dec : ∀ (v3485 : IVec S16 32), Decidable (k0_chk418 v3485) := fun v3485 => decidable_of_iff' _ (Iff.of_eq (k0_chk418.eq_1 v3485))
theorem k0_idx418_inb : ∀ (v3485 : IVec S16 32) (k0_hw418 : k0_chk418 v3485), ∀ a x, ((![v3485] : Fin 1 → IVec S16 32) a x).toNat < S4096.size a := fun v3485 k0_hw418 => k0_hw418

def k0_chk419 (v3488 : IVec S16 32) : Prop :=
  (∀ a x, ((![v3488] : Fin 1 → IVec S16 32) a x).toNat < S4096.size a)
instance k0_chk419.dec : ∀ (v3488 : IVec S16 32), Decidable (k0_chk419 v3488) := fun v3488 => decidable_of_iff' _ (Iff.of_eq (k0_chk419.eq_1 v3488))
theorem k0_idx419_inb : ∀ (v3488 : IVec S16 32) (k0_hw419 : k0_chk419 v3488), ∀ a x, ((![v3488] : Fin 1 → IVec S16 32) a x).toNat < S4096.size a := fun v3488 k0_hw419 => k0_hw419

def k0_chk420 (v3491 : IVec S16 32) : Prop :=
  (∀ a x, ((![v3491] : Fin 1 → IVec S16 32) a x).toNat < S4096.size a)
instance k0_chk420.dec : ∀ (v3491 : IVec S16 32), Decidable (k0_chk420 v3491) := fun v3491 => decidable_of_iff' _ (Iff.of_eq (k0_chk420.eq_1 v3491))
theorem k0_idx420_inb : ∀ (v3491 : IVec S16 32) (k0_hw420 : k0_chk420 v3491), ∀ a x, ((![v3491] : Fin 1 → IVec S16 32) a x).toNat < S4096.size a := fun v3491 k0_hw420 => k0_hw420

def k0_chk421 (v3494 : IVec S16 32) : Prop :=
  (∀ a x, ((![v3494] : Fin 1 → IVec S16 32) a x).toNat < S4096.size a)
instance k0_chk421.dec : ∀ (v3494 : IVec S16 32), Decidable (k0_chk421 v3494) := fun v3494 => decidable_of_iff' _ (Iff.of_eq (k0_chk421.eq_1 v3494))
theorem k0_idx421_inb : ∀ (v3494 : IVec S16 32) (k0_hw421 : k0_chk421 v3494), ∀ a x, ((![v3494] : Fin 1 → IVec S16 32) a x).toNat < S4096.size a := fun v3494 k0_hw421 => k0_hw421

def k0_chk422 (v3497 : IVec S16 32) : Prop :=
  (∀ a x, ((![v3497] : Fin 1 → IVec S16 32) a x).toNat < S4096.size a)
instance k0_chk422.dec : ∀ (v3497 : IVec S16 32), Decidable (k0_chk422 v3497) := fun v3497 => decidable_of_iff' _ (Iff.of_eq (k0_chk422.eq_1 v3497))
theorem k0_idx422_inb : ∀ (v3497 : IVec S16 32) (k0_hw422 : k0_chk422 v3497), ∀ a x, ((![v3497] : Fin 1 → IVec S16 32) a x).toNat < S4096.size a := fun v3497 k0_hw422 => k0_hw422

def k0_chk423 (v3500 : IVec S16 32) : Prop :=
  (∀ a x, ((![v3500] : Fin 1 → IVec S16 32) a x).toNat < S4096.size a)
instance k0_chk423.dec : ∀ (v3500 : IVec S16 32), Decidable (k0_chk423 v3500) := fun v3500 => decidable_of_iff' _ (Iff.of_eq (k0_chk423.eq_1 v3500))
theorem k0_idx423_inb : ∀ (v3500 : IVec S16 32) (k0_hw423 : k0_chk423 v3500), ∀ a x, ((![v3500] : Fin 1 → IVec S16 32) a x).toNat < S4096.size a := fun v3500 k0_hw423 => k0_hw423

def k0_chk424 (v3503 : IVec S16 32) : Prop :=
  (∀ a x, ((![v3503] : Fin 1 → IVec S16 32) a x).toNat < S4096.size a)
instance k0_chk424.dec : ∀ (v3503 : IVec S16 32), Decidable (k0_chk424 v3503) := fun v3503 => decidable_of_iff' _ (Iff.of_eq (k0_chk424.eq_1 v3503))
theorem k0_idx424_inb : ∀ (v3503 : IVec S16 32) (k0_hw424 : k0_chk424 v3503), ∀ a x, ((![v3503] : Fin 1 → IVec S16 32) a x).toNat < S4096.size a := fun v3503 k0_hw424 => k0_hw424
def k0_off176 (k0_t4 : Fin k0_t4_loop.trips) : Fin 4 → Nat :=
  let c4_i32_1572 : BitVec 32 := 4#32
  let v3505 : Index := Scalar.indexCast c4_i32_1572
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3506 : Index := Scalar.indexCast v3222
  let c0_i32_1573 : BitVec 32 := 0#32
  let v3507 : Index := Scalar.indexCast c0_i32_1573
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3508 : Index := Scalar.indexCast v3224
  ![4, v3506.toNat, 0, v3508.toNat]
def k0_off177 (k0_t4 : Fin k0_t4_loop.trips) : Fin 4 → Nat :=
  let c4_i32_1574 : BitVec 32 := 4#32
  let v3510 : Index := Scalar.indexCast c4_i32_1574
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3511 : Index := Scalar.indexCast v3222
  let c1_i32_1575 : BitVec 32 := 1#32
  let v3512 : Index := Scalar.indexCast c1_i32_1575
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3513 : Index := Scalar.indexCast v3224
  ![4, v3511.toNat, 1, v3513.toNat]
def k0_off178 (k0_t4 : Fin k0_t4_loop.trips) : Fin 4 → Nat :=
  let c4_i32_1576 : BitVec 32 := 4#32
  let v3515 : Index := Scalar.indexCast c4_i32_1576
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3516 : Index := Scalar.indexCast v3222
  let c2_i32_1577 : BitVec 32 := 2#32
  let v3517 : Index := Scalar.indexCast c2_i32_1577
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3518 : Index := Scalar.indexCast v3224
  ![4, v3516.toNat, 2, v3518.toNat]
def k0_off179 (k0_t4 : Fin k0_t4_loop.trips) : Fin 4 → Nat :=
  let c4_i32_1578 : BitVec 32 := 4#32
  let v3520 : Index := Scalar.indexCast c4_i32_1578
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3521 : Index := Scalar.indexCast v3222
  let c3_i32_1579 : BitVec 32 := 3#32
  let v3522 : Index := Scalar.indexCast c3_i32_1579
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3523 : Index := Scalar.indexCast v3224
  ![4, v3521.toNat, 3, v3523.toNat]
def k0_off180 (k0_t4 : Fin k0_t4_loop.trips) : Fin 4 → Nat :=
  let c4_i32_1580 : BitVec 32 := 4#32
  let v3525 : Index := Scalar.indexCast c4_i32_1580
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3526 : Index := Scalar.indexCast v3222
  let c4_i32_1581 : BitVec 32 := 4#32
  let v3527 : Index := Scalar.indexCast c4_i32_1581
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3528 : Index := Scalar.indexCast v3224
  ![4, v3526.toNat, 4, v3528.toNat]
def k0_off181 (k0_t4 : Fin k0_t4_loop.trips) : Fin 4 → Nat :=
  let c4_i32_1582 : BitVec 32 := 4#32
  let v3530 : Index := Scalar.indexCast c4_i32_1582
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3531 : Index := Scalar.indexCast v3222
  let c5_i32_1583 : BitVec 32 := 5#32
  let v3532 : Index := Scalar.indexCast c5_i32_1583
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3533 : Index := Scalar.indexCast v3224
  ![4, v3531.toNat, 5, v3533.toNat]
def k0_off182 (k0_t4 : Fin k0_t4_loop.trips) : Fin 4 → Nat :=
  let c4_i32_1584 : BitVec 32 := 4#32
  let v3535 : Index := Scalar.indexCast c4_i32_1584
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3536 : Index := Scalar.indexCast v3222
  let c6_i32_1585 : BitVec 32 := 6#32
  let v3537 : Index := Scalar.indexCast c6_i32_1585
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3538 : Index := Scalar.indexCast v3224
  ![4, v3536.toNat, 6, v3538.toNat]
def k0_off183 (k0_t4 : Fin k0_t4_loop.trips) : Fin 4 → Nat :=
  let c4_i32_1586 : BitVec 32 := 4#32
  let v3540 : Index := Scalar.indexCast c4_i32_1586
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3541 : Index := Scalar.indexCast v3222
  let c7_i32_1587 : BitVec 32 := 7#32
  let v3542 : Index := Scalar.indexCast c7_i32_1587
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3543 : Index := Scalar.indexCast v3224
  ![4, v3541.toNat, 7, v3543.toNat]

def k0_chk425 (v3546 : IVec S16 32) : Prop :=
  (∀ a x, ((![v3546] : Fin 1 → IVec S16 32) a x).toNat < S4096.size a)
instance k0_chk425.dec : ∀ (v3546 : IVec S16 32), Decidable (k0_chk425 v3546) := fun v3546 => decidable_of_iff' _ (Iff.of_eq (k0_chk425.eq_1 v3546))
theorem k0_idx425_inb : ∀ (v3546 : IVec S16 32) (k0_hw425 : k0_chk425 v3546), ∀ a x, ((![v3546] : Fin 1 → IVec S16 32) a x).toNat < S4096.size a := fun v3546 k0_hw425 => k0_hw425

def k0_chk426 (v3549 : IVec S16 32) : Prop :=
  (∀ a x, ((![v3549] : Fin 1 → IVec S16 32) a x).toNat < S4096.size a)
instance k0_chk426.dec : ∀ (v3549 : IVec S16 32), Decidable (k0_chk426 v3549) := fun v3549 => decidable_of_iff' _ (Iff.of_eq (k0_chk426.eq_1 v3549))
theorem k0_idx426_inb : ∀ (v3549 : IVec S16 32) (k0_hw426 : k0_chk426 v3549), ∀ a x, ((![v3549] : Fin 1 → IVec S16 32) a x).toNat < S4096.size a := fun v3549 k0_hw426 => k0_hw426

def k0_chk427 (v3552 : IVec S16 32) : Prop :=
  (∀ a x, ((![v3552] : Fin 1 → IVec S16 32) a x).toNat < S4096.size a)
instance k0_chk427.dec : ∀ (v3552 : IVec S16 32), Decidable (k0_chk427 v3552) := fun v3552 => decidable_of_iff' _ (Iff.of_eq (k0_chk427.eq_1 v3552))
theorem k0_idx427_inb : ∀ (v3552 : IVec S16 32) (k0_hw427 : k0_chk427 v3552), ∀ a x, ((![v3552] : Fin 1 → IVec S16 32) a x).toNat < S4096.size a := fun v3552 k0_hw427 => k0_hw427

def k0_chk428 (v3555 : IVec S16 32) : Prop :=
  (∀ a x, ((![v3555] : Fin 1 → IVec S16 32) a x).toNat < S4096.size a)
instance k0_chk428.dec : ∀ (v3555 : IVec S16 32), Decidable (k0_chk428 v3555) := fun v3555 => decidable_of_iff' _ (Iff.of_eq (k0_chk428.eq_1 v3555))
theorem k0_idx428_inb : ∀ (v3555 : IVec S16 32) (k0_hw428 : k0_chk428 v3555), ∀ a x, ((![v3555] : Fin 1 → IVec S16 32) a x).toNat < S4096.size a := fun v3555 k0_hw428 => k0_hw428

def k0_chk429 (v3558 : IVec S16 32) : Prop :=
  (∀ a x, ((![v3558] : Fin 1 → IVec S16 32) a x).toNat < S4096.size a)
instance k0_chk429.dec : ∀ (v3558 : IVec S16 32), Decidable (k0_chk429 v3558) := fun v3558 => decidable_of_iff' _ (Iff.of_eq (k0_chk429.eq_1 v3558))
theorem k0_idx429_inb : ∀ (v3558 : IVec S16 32) (k0_hw429 : k0_chk429 v3558), ∀ a x, ((![v3558] : Fin 1 → IVec S16 32) a x).toNat < S4096.size a := fun v3558 k0_hw429 => k0_hw429

def k0_chk430 (v3561 : IVec S16 32) : Prop :=
  (∀ a x, ((![v3561] : Fin 1 → IVec S16 32) a x).toNat < S4096.size a)
instance k0_chk430.dec : ∀ (v3561 : IVec S16 32), Decidable (k0_chk430 v3561) := fun v3561 => decidable_of_iff' _ (Iff.of_eq (k0_chk430.eq_1 v3561))
theorem k0_idx430_inb : ∀ (v3561 : IVec S16 32) (k0_hw430 : k0_chk430 v3561), ∀ a x, ((![v3561] : Fin 1 → IVec S16 32) a x).toNat < S4096.size a := fun v3561 k0_hw430 => k0_hw430

def k0_chk431 (v3564 : IVec S16 32) : Prop :=
  (∀ a x, ((![v3564] : Fin 1 → IVec S16 32) a x).toNat < S4096.size a)
instance k0_chk431.dec : ∀ (v3564 : IVec S16 32), Decidable (k0_chk431 v3564) := fun v3564 => decidable_of_iff' _ (Iff.of_eq (k0_chk431.eq_1 v3564))
theorem k0_idx431_inb : ∀ (v3564 : IVec S16 32) (k0_hw431 : k0_chk431 v3564), ∀ a x, ((![v3564] : Fin 1 → IVec S16 32) a x).toNat < S4096.size a := fun v3564 k0_hw431 => k0_hw431

def k0_chk432 (v3567 : IVec S16 32) : Prop :=
  (∀ a x, ((![v3567] : Fin 1 → IVec S16 32) a x).toNat < S4096.size a)
instance k0_chk432.dec : ∀ (v3567 : IVec S16 32), Decidable (k0_chk432 v3567) := fun v3567 => decidable_of_iff' _ (Iff.of_eq (k0_chk432.eq_1 v3567))
theorem k0_idx432_inb : ∀ (v3567 : IVec S16 32) (k0_hw432 : k0_chk432 v3567), ∀ a x, ((![v3567] : Fin 1 → IVec S16 32) a x).toNat < S4096.size a := fun v3567 k0_hw432 => k0_hw432
def k0_off184 (k0_t4 : Fin k0_t4_loop.trips) : Fin 4 → Nat :=
  let c5_i32_1588 : BitVec 32 := 5#32
  let v3569 : Index := Scalar.indexCast c5_i32_1588
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3570 : Index := Scalar.indexCast v3222
  let c0_i32_1589 : BitVec 32 := 0#32
  let v3571 : Index := Scalar.indexCast c0_i32_1589
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3572 : Index := Scalar.indexCast v3224
  ![5, v3570.toNat, 0, v3572.toNat]
def k0_off185 (k0_t4 : Fin k0_t4_loop.trips) : Fin 4 → Nat :=
  let c5_i32_1590 : BitVec 32 := 5#32
  let v3574 : Index := Scalar.indexCast c5_i32_1590
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3575 : Index := Scalar.indexCast v3222
  let c1_i32_1591 : BitVec 32 := 1#32
  let v3576 : Index := Scalar.indexCast c1_i32_1591
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3577 : Index := Scalar.indexCast v3224
  ![5, v3575.toNat, 1, v3577.toNat]
def k0_off186 (k0_t4 : Fin k0_t4_loop.trips) : Fin 4 → Nat :=
  let c5_i32_1592 : BitVec 32 := 5#32
  let v3579 : Index := Scalar.indexCast c5_i32_1592
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3580 : Index := Scalar.indexCast v3222
  let c2_i32_1593 : BitVec 32 := 2#32
  let v3581 : Index := Scalar.indexCast c2_i32_1593
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3582 : Index := Scalar.indexCast v3224
  ![5, v3580.toNat, 2, v3582.toNat]
def k0_off187 (k0_t4 : Fin k0_t4_loop.trips) : Fin 4 → Nat :=
  let c5_i32_1594 : BitVec 32 := 5#32
  let v3584 : Index := Scalar.indexCast c5_i32_1594
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3585 : Index := Scalar.indexCast v3222
  let c3_i32_1595 : BitVec 32 := 3#32
  let v3586 : Index := Scalar.indexCast c3_i32_1595
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3587 : Index := Scalar.indexCast v3224
  ![5, v3585.toNat, 3, v3587.toNat]
def k0_off188 (k0_t4 : Fin k0_t4_loop.trips) : Fin 4 → Nat :=
  let c5_i32_1596 : BitVec 32 := 5#32
  let v3589 : Index := Scalar.indexCast c5_i32_1596
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3590 : Index := Scalar.indexCast v3222
  let c4_i32_1597 : BitVec 32 := 4#32
  let v3591 : Index := Scalar.indexCast c4_i32_1597
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3592 : Index := Scalar.indexCast v3224
  ![5, v3590.toNat, 4, v3592.toNat]
def k0_off189 (k0_t4 : Fin k0_t4_loop.trips) : Fin 4 → Nat :=
  let c5_i32_1598 : BitVec 32 := 5#32
  let v3594 : Index := Scalar.indexCast c5_i32_1598
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3595 : Index := Scalar.indexCast v3222
  let c5_i32_1599 : BitVec 32 := 5#32
  let v3596 : Index := Scalar.indexCast c5_i32_1599
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3597 : Index := Scalar.indexCast v3224
  ![5, v3595.toNat, 5, v3597.toNat]
def k0_off190 (k0_t4 : Fin k0_t4_loop.trips) : Fin 4 → Nat :=
  let c5_i32_1600 : BitVec 32 := 5#32
  let v3599 : Index := Scalar.indexCast c5_i32_1600
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3600 : Index := Scalar.indexCast v3222
  let c6_i32_1601 : BitVec 32 := 6#32
  let v3601 : Index := Scalar.indexCast c6_i32_1601
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3602 : Index := Scalar.indexCast v3224
  ![5, v3600.toNat, 6, v3602.toNat]
def k0_off191 (k0_t4 : Fin k0_t4_loop.trips) : Fin 4 → Nat :=
  let c5_i32_1602 : BitVec 32 := 5#32
  let v3604 : Index := Scalar.indexCast c5_i32_1602
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3605 : Index := Scalar.indexCast v3222
  let c7_i32_1603 : BitVec 32 := 7#32
  let v3606 : Index := Scalar.indexCast c7_i32_1603
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3607 : Index := Scalar.indexCast v3224
  ![5, v3605.toNat, 7, v3607.toNat]

def k0_chk433 (v3610 : IVec S16 32) : Prop :=
  (∀ a x, ((![v3610] : Fin 1 → IVec S16 32) a x).toNat < S4096.size a)
instance k0_chk433.dec : ∀ (v3610 : IVec S16 32), Decidable (k0_chk433 v3610) := fun v3610 => decidable_of_iff' _ (Iff.of_eq (k0_chk433.eq_1 v3610))
theorem k0_idx433_inb : ∀ (v3610 : IVec S16 32) (k0_hw433 : k0_chk433 v3610), ∀ a x, ((![v3610] : Fin 1 → IVec S16 32) a x).toNat < S4096.size a := fun v3610 k0_hw433 => k0_hw433

def k0_chk434 (v3613 : IVec S16 32) : Prop :=
  (∀ a x, ((![v3613] : Fin 1 → IVec S16 32) a x).toNat < S4096.size a)
instance k0_chk434.dec : ∀ (v3613 : IVec S16 32), Decidable (k0_chk434 v3613) := fun v3613 => decidable_of_iff' _ (Iff.of_eq (k0_chk434.eq_1 v3613))
theorem k0_idx434_inb : ∀ (v3613 : IVec S16 32) (k0_hw434 : k0_chk434 v3613), ∀ a x, ((![v3613] : Fin 1 → IVec S16 32) a x).toNat < S4096.size a := fun v3613 k0_hw434 => k0_hw434

def k0_chk435 (v3616 : IVec S16 32) : Prop :=
  (∀ a x, ((![v3616] : Fin 1 → IVec S16 32) a x).toNat < S4096.size a)
instance k0_chk435.dec : ∀ (v3616 : IVec S16 32), Decidable (k0_chk435 v3616) := fun v3616 => decidable_of_iff' _ (Iff.of_eq (k0_chk435.eq_1 v3616))
theorem k0_idx435_inb : ∀ (v3616 : IVec S16 32) (k0_hw435 : k0_chk435 v3616), ∀ a x, ((![v3616] : Fin 1 → IVec S16 32) a x).toNat < S4096.size a := fun v3616 k0_hw435 => k0_hw435

def k0_chk436 (v3619 : IVec S16 32) : Prop :=
  (∀ a x, ((![v3619] : Fin 1 → IVec S16 32) a x).toNat < S4096.size a)
instance k0_chk436.dec : ∀ (v3619 : IVec S16 32), Decidable (k0_chk436 v3619) := fun v3619 => decidable_of_iff' _ (Iff.of_eq (k0_chk436.eq_1 v3619))
theorem k0_idx436_inb : ∀ (v3619 : IVec S16 32) (k0_hw436 : k0_chk436 v3619), ∀ a x, ((![v3619] : Fin 1 → IVec S16 32) a x).toNat < S4096.size a := fun v3619 k0_hw436 => k0_hw436

def k0_chk437 (v3622 : IVec S16 32) : Prop :=
  (∀ a x, ((![v3622] : Fin 1 → IVec S16 32) a x).toNat < S4096.size a)
instance k0_chk437.dec : ∀ (v3622 : IVec S16 32), Decidable (k0_chk437 v3622) := fun v3622 => decidable_of_iff' _ (Iff.of_eq (k0_chk437.eq_1 v3622))
theorem k0_idx437_inb : ∀ (v3622 : IVec S16 32) (k0_hw437 : k0_chk437 v3622), ∀ a x, ((![v3622] : Fin 1 → IVec S16 32) a x).toNat < S4096.size a := fun v3622 k0_hw437 => k0_hw437

def k0_chk438 (v3625 : IVec S16 32) : Prop :=
  (∀ a x, ((![v3625] : Fin 1 → IVec S16 32) a x).toNat < S4096.size a)
instance k0_chk438.dec : ∀ (v3625 : IVec S16 32), Decidable (k0_chk438 v3625) := fun v3625 => decidable_of_iff' _ (Iff.of_eq (k0_chk438.eq_1 v3625))
theorem k0_idx438_inb : ∀ (v3625 : IVec S16 32) (k0_hw438 : k0_chk438 v3625), ∀ a x, ((![v3625] : Fin 1 → IVec S16 32) a x).toNat < S4096.size a := fun v3625 k0_hw438 => k0_hw438

def k0_chk439 (v3628 : IVec S16 32) : Prop :=
  (∀ a x, ((![v3628] : Fin 1 → IVec S16 32) a x).toNat < S4096.size a)
instance k0_chk439.dec : ∀ (v3628 : IVec S16 32), Decidable (k0_chk439 v3628) := fun v3628 => decidable_of_iff' _ (Iff.of_eq (k0_chk439.eq_1 v3628))
theorem k0_idx439_inb : ∀ (v3628 : IVec S16 32) (k0_hw439 : k0_chk439 v3628), ∀ a x, ((![v3628] : Fin 1 → IVec S16 32) a x).toNat < S4096.size a := fun v3628 k0_hw439 => k0_hw439

def k0_chk440 (v3631 : IVec S16 32) : Prop :=
  (∀ a x, ((![v3631] : Fin 1 → IVec S16 32) a x).toNat < S4096.size a)
instance k0_chk440.dec : ∀ (v3631 : IVec S16 32), Decidable (k0_chk440 v3631) := fun v3631 => decidable_of_iff' _ (Iff.of_eq (k0_chk440.eq_1 v3631))
theorem k0_idx440_inb : ∀ (v3631 : IVec S16 32) (k0_hw440 : k0_chk440 v3631), ∀ a x, ((![v3631] : Fin 1 → IVec S16 32) a x).toNat < S4096.size a := fun v3631 k0_hw440 => k0_hw440
def k0_off192 (k0_t4 : Fin k0_t4_loop.trips) : Fin 4 → Nat :=
  let c6_i32_1604 : BitVec 32 := 6#32
  let v3633 : Index := Scalar.indexCast c6_i32_1604
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3634 : Index := Scalar.indexCast v3222
  let c0_i32_1605 : BitVec 32 := 0#32
  let v3635 : Index := Scalar.indexCast c0_i32_1605
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3636 : Index := Scalar.indexCast v3224
  ![6, v3634.toNat, 0, v3636.toNat]
def k0_off193 (k0_t4 : Fin k0_t4_loop.trips) : Fin 4 → Nat :=
  let c6_i32_1606 : BitVec 32 := 6#32
  let v3638 : Index := Scalar.indexCast c6_i32_1606
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3639 : Index := Scalar.indexCast v3222
  let c1_i32_1607 : BitVec 32 := 1#32
  let v3640 : Index := Scalar.indexCast c1_i32_1607
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3641 : Index := Scalar.indexCast v3224
  ![6, v3639.toNat, 1, v3641.toNat]
def k0_off194 (k0_t4 : Fin k0_t4_loop.trips) : Fin 4 → Nat :=
  let c6_i32_1608 : BitVec 32 := 6#32
  let v3643 : Index := Scalar.indexCast c6_i32_1608
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3644 : Index := Scalar.indexCast v3222
  let c2_i32_1609 : BitVec 32 := 2#32
  let v3645 : Index := Scalar.indexCast c2_i32_1609
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3646 : Index := Scalar.indexCast v3224
  ![6, v3644.toNat, 2, v3646.toNat]
def k0_off195 (k0_t4 : Fin k0_t4_loop.trips) : Fin 4 → Nat :=
  let c6_i32_1610 : BitVec 32 := 6#32
  let v3648 : Index := Scalar.indexCast c6_i32_1610
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3649 : Index := Scalar.indexCast v3222
  let c3_i32_1611 : BitVec 32 := 3#32
  let v3650 : Index := Scalar.indexCast c3_i32_1611
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3651 : Index := Scalar.indexCast v3224
  ![6, v3649.toNat, 3, v3651.toNat]
def k0_off196 (k0_t4 : Fin k0_t4_loop.trips) : Fin 4 → Nat :=
  let c6_i32_1612 : BitVec 32 := 6#32
  let v3653 : Index := Scalar.indexCast c6_i32_1612
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3654 : Index := Scalar.indexCast v3222
  let c4_i32_1613 : BitVec 32 := 4#32
  let v3655 : Index := Scalar.indexCast c4_i32_1613
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3656 : Index := Scalar.indexCast v3224
  ![6, v3654.toNat, 4, v3656.toNat]
def k0_off197 (k0_t4 : Fin k0_t4_loop.trips) : Fin 4 → Nat :=
  let c6_i32_1614 : BitVec 32 := 6#32
  let v3658 : Index := Scalar.indexCast c6_i32_1614
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3659 : Index := Scalar.indexCast v3222
  let c5_i32_1615 : BitVec 32 := 5#32
  let v3660 : Index := Scalar.indexCast c5_i32_1615
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3661 : Index := Scalar.indexCast v3224
  ![6, v3659.toNat, 5, v3661.toNat]
def k0_off198 (k0_t4 : Fin k0_t4_loop.trips) : Fin 4 → Nat :=
  let c6_i32_1616 : BitVec 32 := 6#32
  let v3663 : Index := Scalar.indexCast c6_i32_1616
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3664 : Index := Scalar.indexCast v3222
  let c6_i32_1617 : BitVec 32 := 6#32
  let v3665 : Index := Scalar.indexCast c6_i32_1617
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3666 : Index := Scalar.indexCast v3224
  ![6, v3664.toNat, 6, v3666.toNat]
def k0_off199 (k0_t4 : Fin k0_t4_loop.trips) : Fin 4 → Nat :=
  let c6_i32_1618 : BitVec 32 := 6#32
  let v3668 : Index := Scalar.indexCast c6_i32_1618
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3669 : Index := Scalar.indexCast v3222
  let c7_i32_1619 : BitVec 32 := 7#32
  let v3670 : Index := Scalar.indexCast c7_i32_1619
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3671 : Index := Scalar.indexCast v3224
  ![6, v3669.toNat, 7, v3671.toNat]

def k0_chk441 (v3674 : IVec S16 32) : Prop :=
  (∀ a x, ((![v3674] : Fin 1 → IVec S16 32) a x).toNat < S4096.size a)
instance k0_chk441.dec : ∀ (v3674 : IVec S16 32), Decidable (k0_chk441 v3674) := fun v3674 => decidable_of_iff' _ (Iff.of_eq (k0_chk441.eq_1 v3674))
theorem k0_idx441_inb : ∀ (v3674 : IVec S16 32) (k0_hw441 : k0_chk441 v3674), ∀ a x, ((![v3674] : Fin 1 → IVec S16 32) a x).toNat < S4096.size a := fun v3674 k0_hw441 => k0_hw441

def k0_chk442 (v3677 : IVec S16 32) : Prop :=
  (∀ a x, ((![v3677] : Fin 1 → IVec S16 32) a x).toNat < S4096.size a)
instance k0_chk442.dec : ∀ (v3677 : IVec S16 32), Decidable (k0_chk442 v3677) := fun v3677 => decidable_of_iff' _ (Iff.of_eq (k0_chk442.eq_1 v3677))
theorem k0_idx442_inb : ∀ (v3677 : IVec S16 32) (k0_hw442 : k0_chk442 v3677), ∀ a x, ((![v3677] : Fin 1 → IVec S16 32) a x).toNat < S4096.size a := fun v3677 k0_hw442 => k0_hw442

def k0_chk443 (v3680 : IVec S16 32) : Prop :=
  (∀ a x, ((![v3680] : Fin 1 → IVec S16 32) a x).toNat < S4096.size a)
instance k0_chk443.dec : ∀ (v3680 : IVec S16 32), Decidable (k0_chk443 v3680) := fun v3680 => decidable_of_iff' _ (Iff.of_eq (k0_chk443.eq_1 v3680))
theorem k0_idx443_inb : ∀ (v3680 : IVec S16 32) (k0_hw443 : k0_chk443 v3680), ∀ a x, ((![v3680] : Fin 1 → IVec S16 32) a x).toNat < S4096.size a := fun v3680 k0_hw443 => k0_hw443

def k0_chk444 (v3683 : IVec S16 32) : Prop :=
  (∀ a x, ((![v3683] : Fin 1 → IVec S16 32) a x).toNat < S4096.size a)
instance k0_chk444.dec : ∀ (v3683 : IVec S16 32), Decidable (k0_chk444 v3683) := fun v3683 => decidable_of_iff' _ (Iff.of_eq (k0_chk444.eq_1 v3683))
theorem k0_idx444_inb : ∀ (v3683 : IVec S16 32) (k0_hw444 : k0_chk444 v3683), ∀ a x, ((![v3683] : Fin 1 → IVec S16 32) a x).toNat < S4096.size a := fun v3683 k0_hw444 => k0_hw444

def k0_chk445 (v3686 : IVec S16 32) : Prop :=
  (∀ a x, ((![v3686] : Fin 1 → IVec S16 32) a x).toNat < S4096.size a)
instance k0_chk445.dec : ∀ (v3686 : IVec S16 32), Decidable (k0_chk445 v3686) := fun v3686 => decidable_of_iff' _ (Iff.of_eq (k0_chk445.eq_1 v3686))
theorem k0_idx445_inb : ∀ (v3686 : IVec S16 32) (k0_hw445 : k0_chk445 v3686), ∀ a x, ((![v3686] : Fin 1 → IVec S16 32) a x).toNat < S4096.size a := fun v3686 k0_hw445 => k0_hw445

def k0_chk446 (v3689 : IVec S16 32) : Prop :=
  (∀ a x, ((![v3689] : Fin 1 → IVec S16 32) a x).toNat < S4096.size a)
instance k0_chk446.dec : ∀ (v3689 : IVec S16 32), Decidable (k0_chk446 v3689) := fun v3689 => decidable_of_iff' _ (Iff.of_eq (k0_chk446.eq_1 v3689))
theorem k0_idx446_inb : ∀ (v3689 : IVec S16 32) (k0_hw446 : k0_chk446 v3689), ∀ a x, ((![v3689] : Fin 1 → IVec S16 32) a x).toNat < S4096.size a := fun v3689 k0_hw446 => k0_hw446

def k0_chk447 (v3692 : IVec S16 32) : Prop :=
  (∀ a x, ((![v3692] : Fin 1 → IVec S16 32) a x).toNat < S4096.size a)
instance k0_chk447.dec : ∀ (v3692 : IVec S16 32), Decidable (k0_chk447 v3692) := fun v3692 => decidable_of_iff' _ (Iff.of_eq (k0_chk447.eq_1 v3692))
theorem k0_idx447_inb : ∀ (v3692 : IVec S16 32) (k0_hw447 : k0_chk447 v3692), ∀ a x, ((![v3692] : Fin 1 → IVec S16 32) a x).toNat < S4096.size a := fun v3692 k0_hw447 => k0_hw447

def k0_chk448 (v3695 : IVec S16 32) : Prop :=
  (∀ a x, ((![v3695] : Fin 1 → IVec S16 32) a x).toNat < S4096.size a)
instance k0_chk448.dec : ∀ (v3695 : IVec S16 32), Decidable (k0_chk448 v3695) := fun v3695 => decidable_of_iff' _ (Iff.of_eq (k0_chk448.eq_1 v3695))
theorem k0_idx448_inb : ∀ (v3695 : IVec S16 32) (k0_hw448 : k0_chk448 v3695), ∀ a x, ((![v3695] : Fin 1 → IVec S16 32) a x).toNat < S4096.size a := fun v3695 k0_hw448 => k0_hw448
def k0_off200 (k0_t4 : Fin k0_t4_loop.trips) : Fin 4 → Nat :=
  let c7_i32_1620 : BitVec 32 := 7#32
  let v3697 : Index := Scalar.indexCast c7_i32_1620
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3698 : Index := Scalar.indexCast v3222
  let c0_i32_1621 : BitVec 32 := 0#32
  let v3699 : Index := Scalar.indexCast c0_i32_1621
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3700 : Index := Scalar.indexCast v3224
  ![7, v3698.toNat, 0, v3700.toNat]
def k0_off201 (k0_t4 : Fin k0_t4_loop.trips) : Fin 4 → Nat :=
  let c7_i32_1622 : BitVec 32 := 7#32
  let v3702 : Index := Scalar.indexCast c7_i32_1622
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3703 : Index := Scalar.indexCast v3222
  let c1_i32_1623 : BitVec 32 := 1#32
  let v3704 : Index := Scalar.indexCast c1_i32_1623
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3705 : Index := Scalar.indexCast v3224
  ![7, v3703.toNat, 1, v3705.toNat]
def k0_off202 (k0_t4 : Fin k0_t4_loop.trips) : Fin 4 → Nat :=
  let c7_i32_1624 : BitVec 32 := 7#32
  let v3707 : Index := Scalar.indexCast c7_i32_1624
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3708 : Index := Scalar.indexCast v3222
  let c2_i32_1625 : BitVec 32 := 2#32
  let v3709 : Index := Scalar.indexCast c2_i32_1625
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3710 : Index := Scalar.indexCast v3224
  ![7, v3708.toNat, 2, v3710.toNat]
def k0_off203 (k0_t4 : Fin k0_t4_loop.trips) : Fin 4 → Nat :=
  let c7_i32_1626 : BitVec 32 := 7#32
  let v3712 : Index := Scalar.indexCast c7_i32_1626
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3713 : Index := Scalar.indexCast v3222
  let c3_i32_1627 : BitVec 32 := 3#32
  let v3714 : Index := Scalar.indexCast c3_i32_1627
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3715 : Index := Scalar.indexCast v3224
  ![7, v3713.toNat, 3, v3715.toNat]
def k0_off204 (k0_t4 : Fin k0_t4_loop.trips) : Fin 4 → Nat :=
  let c7_i32_1628 : BitVec 32 := 7#32
  let v3717 : Index := Scalar.indexCast c7_i32_1628
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3718 : Index := Scalar.indexCast v3222
  let c4_i32_1629 : BitVec 32 := 4#32
  let v3719 : Index := Scalar.indexCast c4_i32_1629
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3720 : Index := Scalar.indexCast v3224
  ![7, v3718.toNat, 4, v3720.toNat]
def k0_off205 (k0_t4 : Fin k0_t4_loop.trips) : Fin 4 → Nat :=
  let c7_i32_1630 : BitVec 32 := 7#32
  let v3722 : Index := Scalar.indexCast c7_i32_1630
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3723 : Index := Scalar.indexCast v3222
  let c5_i32_1631 : BitVec 32 := 5#32
  let v3724 : Index := Scalar.indexCast c5_i32_1631
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3725 : Index := Scalar.indexCast v3224
  ![7, v3723.toNat, 5, v3725.toNat]
def k0_off206 (k0_t4 : Fin k0_t4_loop.trips) : Fin 4 → Nat :=
  let c7_i32_1632 : BitVec 32 := 7#32
  let v3727 : Index := Scalar.indexCast c7_i32_1632
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3728 : Index := Scalar.indexCast v3222
  let c6_i32_1633 : BitVec 32 := 6#32
  let v3729 : Index := Scalar.indexCast c6_i32_1633
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3730 : Index := Scalar.indexCast v3224
  ![7, v3728.toNat, 6, v3730.toNat]
def k0_off207 (k0_t4 : Fin k0_t4_loop.trips) : Fin 4 → Nat :=
  let c7_i32_1634 : BitVec 32 := 7#32
  let v3732 : Index := Scalar.indexCast c7_i32_1634
  let c0_i32_1472 : BitVec 32 := 0#32
  let c1_i32_1474 : BitVec 32 := 1#32
  let arg20 : BitVec 32 := Scf.iv c0_i32_1472 c1_i32_1474 k0_t4
  let c3_i32_1501 : BitVec 32 := 3#32
  let v3222 : BitVec 32 := Scalar.shrui arg20 c3_i32_1501
  let v3733 : Index := Scalar.indexCast v3222
  let c7_i32_1635 : BitVec 32 := 7#32
  let v3734 : Index := Scalar.indexCast c7_i32_1635
  let c7_i32_1502 : BitVec 32 := 7#32
  let v3223 : BitVec 32 := Scalar.andi arg20 c7_i32_1502
  let c16_i32_1503 : BitVec 32 := 16#32
  let v3224 : BitVec 32 := Scalar.muli v3223 c16_i32_1503
  let v3735 : Index := Scalar.indexCast v3224
  ![7, v3733.toNat, 7, v3735.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S800000x3_S3x800000_1_0 : S800000x3.Transposes [1, 0] S3x800000
  shapeCasts_S3x800000_S2400000 : S3x800000.ShapeCasts S2400000
  shapeCasts_S5x64_S320 : S5x64.ShapeCasts S320
  shapeCasts_S6x64_S384 : S6x64.ShapeCasts S384
  shapeCasts_S2x64_S128 : S2x64.ShapeCasts S128
  inb_S320_S16_0 : ∀ a, (![0] : Fin 1 → Nat) a + S16.size a ≤ S320.size a
  h_S16 : 0 < S16.numel
  inb_S384_S16_0 : ∀ a, (![0] : Fin 1 → Nat) a + S16.size a ≤ S384.size a
  inb_S320_S16_16 : ∀ a, (![16] : Fin 1 → Nat) a + S16.size a ≤ S320.size a
  inb_S384_S16_16 : ∀ a, (![16] : Fin 1 → Nat) a + S16.size a ≤ S384.size a
  inb_S320_S16_32 : ∀ a, (![32] : Fin 1 → Nat) a + S16.size a ≤ S320.size a
  inb_S384_S16_32 : ∀ a, (![32] : Fin 1 → Nat) a + S16.size a ≤ S384.size a
  inb_S320_S16_48 : ∀ a, (![48] : Fin 1 → Nat) a + S16.size a ≤ S320.size a
  inb_S384_S16_48 : ∀ a, (![48] : Fin 1 → Nat) a + S16.size a ≤ S384.size a
  inb_S128_S16_0 : ∀ a, (![0] : Fin 1 → Nat) a + S16.size a ≤ S128.size a
  inb_S4096_S16_0 : ∀ a, (![0] : Fin 1 → Nat) a + S16.size a ≤ S4096.size a
  inb_S128_S16_16 : ∀ a, (![16] : Fin 1 → Nat) a + S16.size a ≤ S128.size a
  inb_S4096_S16_16 : ∀ a, (![16] : Fin 1 → Nat) a + S16.size a ≤ S4096.size a
  inb_S128_S16_32 : ∀ a, (![32] : Fin 1 → Nat) a + S16.size a ≤ S128.size a
  inb_S4096_S16_32 : ∀ a, (![32] : Fin 1 → Nat) a + S16.size a ≤ S4096.size a
  inb_S128_S16_48 : ∀ a, (![48] : Fin 1 → Nat) a + S16.size a ≤ S128.size a
  inb_S4096_S16_48 : ∀ a, (![48] : Fin 1 → Nat) a + S16.size a ≤ S4096.size a
  inb_S128_S16_64 : ∀ a, (![64] : Fin 1 → Nat) a + S16.size a ≤ S128.size a
  inb_S4096_S16_64 : ∀ a, (![64] : Fin 1 → Nat) a + S16.size a ≤ S4096.size a
  inb_S128_S16_80 : ∀ a, (![80] : Fin 1 → Nat) a + S16.size a ≤ S128.size a
  inb_S4096_S16_80 : ∀ a, (![80] : Fin 1 → Nat) a + S16.size a ≤ S4096.size a
  inb_S128_S16_96 : ∀ a, (![96] : Fin 1 → Nat) a + S16.size a ≤ S128.size a
  inb_S4096_S16_96 : ∀ a, (![96] : Fin 1 → Nat) a + S16.size a ≤ S4096.size a
  inb_S128_S16_112 : ∀ a, (![112] : Fin 1 → Nat) a + S16.size a ≤ S128.size a
  inb_S4096_S16_112 : ∀ a, (![112] : Fin 1 → Nat) a + S16.size a ≤ S4096.size a
  inb_S384_S16_64 : ∀ a, (![64] : Fin 1 → Nat) a + S16.size a ≤ S384.size a
  inb_S384_S16_80 : ∀ a, (![80] : Fin 1 → Nat) a + S16.size a ≤ S384.size a
  inb_S384_S16_96 : ∀ a, (![96] : Fin 1 → Nat) a + S16.size a ≤ S384.size a
  inb_S384_S16_112 : ∀ a, (![112] : Fin 1 → Nat) a + S16.size a ≤ S384.size a
  inb_S4096_S16_128 : ∀ a, (![128] : Fin 1 → Nat) a + S16.size a ≤ S4096.size a
  inb_S4096_S16_144 : ∀ a, (![144] : Fin 1 → Nat) a + S16.size a ≤ S4096.size a
  inb_S4096_S16_160 : ∀ a, (![160] : Fin 1 → Nat) a + S16.size a ≤ S4096.size a
  inb_S4096_S16_176 : ∀ a, (![176] : Fin 1 → Nat) a + S16.size a ≤ S4096.size a
  inb_S4096_S16_192 : ∀ a, (![192] : Fin 1 → Nat) a + S16.size a ≤ S4096.size a
  inb_S4096_S16_208 : ∀ a, (![208] : Fin 1 → Nat) a + S16.size a ≤ S4096.size a
  inb_S4096_S16_224 : ∀ a, (![224] : Fin 1 → Nat) a + S16.size a ≤ S4096.size a
  inb_S4096_S16_240 : ∀ a, (![240] : Fin 1 → Nat) a + S16.size a ≤ S4096.size a
  inb_S384_S16_128 : ∀ a, (![128] : Fin 1 → Nat) a + S16.size a ≤ S384.size a
  inb_S384_S16_144 : ∀ a, (![144] : Fin 1 → Nat) a + S16.size a ≤ S384.size a
  inb_S384_S16_160 : ∀ a, (![160] : Fin 1 → Nat) a + S16.size a ≤ S384.size a
  inb_S384_S16_176 : ∀ a, (![176] : Fin 1 → Nat) a + S16.size a ≤ S384.size a
  inb_S4096_S16_256 : ∀ a, (![256] : Fin 1 → Nat) a + S16.size a ≤ S4096.size a
  inb_S4096_S16_272 : ∀ a, (![272] : Fin 1 → Nat) a + S16.size a ≤ S4096.size a
  inb_S4096_S16_288 : ∀ a, (![288] : Fin 1 → Nat) a + S16.size a ≤ S4096.size a
  inb_S4096_S16_304 : ∀ a, (![304] : Fin 1 → Nat) a + S16.size a ≤ S4096.size a
  inb_S4096_S16_320 : ∀ a, (![320] : Fin 1 → Nat) a + S16.size a ≤ S4096.size a
  inb_S4096_S16_336 : ∀ a, (![336] : Fin 1 → Nat) a + S16.size a ≤ S4096.size a
  inb_S4096_S16_352 : ∀ a, (![352] : Fin 1 → Nat) a + S16.size a ≤ S4096.size a
  inb_S4096_S16_368 : ∀ a, (![368] : Fin 1 → Nat) a + S16.size a ≤ S4096.size a
  inb_S384_S16_192 : ∀ a, (![192] : Fin 1 → Nat) a + S16.size a ≤ S384.size a
  inb_S384_S16_208 : ∀ a, (![208] : Fin 1 → Nat) a + S16.size a ≤ S384.size a
  inb_S384_S16_224 : ∀ a, (![224] : Fin 1 → Nat) a + S16.size a ≤ S384.size a
  inb_S384_S16_240 : ∀ a, (![240] : Fin 1 → Nat) a + S16.size a ≤ S384.size a
  inb_S4096_S16_384 : ∀ a, (![384] : Fin 1 → Nat) a + S16.size a ≤ S4096.size a
  inb_S4096_S16_400 : ∀ a, (![400] : Fin 1 → Nat) a + S16.size a ≤ S4096.size a
  inb_S4096_S16_416 : ∀ a, (![416] : Fin 1 → Nat) a + S16.size a ≤ S4096.size a
  inb_S4096_S16_432 : ∀ a, (![432] : Fin 1 → Nat) a + S16.size a ≤ S4096.size a
  inb_S4096_S16_448 : ∀ a, (![448] : Fin 1 → Nat) a + S16.size a ≤ S4096.size a
  inb_S4096_S16_464 : ∀ a, (![464] : Fin 1 → Nat) a + S16.size a ≤ S4096.size a
  inb_S4096_S16_480 : ∀ a, (![480] : Fin 1 → Nat) a + S16.size a ≤ S4096.size a
  inb_S4096_S16_496 : ∀ a, (![496] : Fin 1 → Nat) a + S16.size a ≤ S4096.size a
  inb_S384_S16_256 : ∀ a, (![256] : Fin 1 → Nat) a + S16.size a ≤ S384.size a
  inb_S384_S16_272 : ∀ a, (![272] : Fin 1 → Nat) a + S16.size a ≤ S384.size a
  inb_S384_S16_288 : ∀ a, (![288] : Fin 1 → Nat) a + S16.size a ≤ S384.size a
  inb_S384_S16_304 : ∀ a, (![304] : Fin 1 → Nat) a + S16.size a ≤ S384.size a
  inb_S4096_S16_512 : ∀ a, (![512] : Fin 1 → Nat) a + S16.size a ≤ S4096.size a
  inb_S4096_S16_528 : ∀ a, (![528] : Fin 1 → Nat) a + S16.size a ≤ S4096.size a
  inb_S4096_S16_544 : ∀ a, (![544] : Fin 1 → Nat) a + S16.size a ≤ S4096.size a
  inb_S4096_S16_560 : ∀ a, (![560] : Fin 1 → Nat) a + S16.size a ≤ S4096.size a
  inb_S4096_S16_576 : ∀ a, (![576] : Fin 1 → Nat) a + S16.size a ≤ S4096.size a
  inb_S4096_S16_592 : ∀ a, (![592] : Fin 1 → Nat) a + S16.size a ≤ S4096.size a
  inb_S4096_S16_608 : ∀ a, (![608] : Fin 1 → Nat) a + S16.size a ≤ S4096.size a
  inb_S4096_S16_624 : ∀ a, (![624] : Fin 1 → Nat) a + S16.size a ≤ S4096.size a
  inb_S384_S16_320 : ∀ a, (![320] : Fin 1 → Nat) a + S16.size a ≤ S384.size a
  inb_S384_S16_336 : ∀ a, (![336] : Fin 1 → Nat) a + S16.size a ≤ S384.size a
  inb_S384_S16_352 : ∀ a, (![352] : Fin 1 → Nat) a + S16.size a ≤ S384.size a
  inb_S384_S16_368 : ∀ a, (![368] : Fin 1 → Nat) a + S16.size a ≤ S384.size a
  inb_S4096_S16_640 : ∀ a, (![640] : Fin 1 → Nat) a + S16.size a ≤ S4096.size a
  inb_S4096_S16_656 : ∀ a, (![656] : Fin 1 → Nat) a + S16.size a ≤ S4096.size a
  inb_S4096_S16_672 : ∀ a, (![672] : Fin 1 → Nat) a + S16.size a ≤ S4096.size a
  inb_S4096_S16_688 : ∀ a, (![688] : Fin 1 → Nat) a + S16.size a ≤ S4096.size a
  inb_S4096_S16_704 : ∀ a, (![704] : Fin 1 → Nat) a + S16.size a ≤ S4096.size a
  inb_S4096_S16_720 : ∀ a, (![720] : Fin 1 → Nat) a + S16.size a ≤ S4096.size a
  inb_S4096_S16_736 : ∀ a, (![736] : Fin 1 → Nat) a + S16.size a ≤ S4096.size a
  inb_S4096_S16_752 : ∀ a, (![752] : Fin 1 → Nat) a + S16.size a ≤ S4096.size a
  inb_S320_S16_64 : ∀ a, (![64] : Fin 1 → Nat) a + S16.size a ≤ S320.size a
  inb_S320_S16_80 : ∀ a, (![80] : Fin 1 → Nat) a + S16.size a ≤ S320.size a
  inb_S320_S16_96 : ∀ a, (![96] : Fin 1 → Nat) a + S16.size a ≤ S320.size a
  inb_S320_S16_112 : ∀ a, (![112] : Fin 1 → Nat) a + S16.size a ≤ S320.size a
  inb_S4096_S16_768 : ∀ a, (![768] : Fin 1 → Nat) a + S16.size a ≤ S4096.size a
  inb_S4096_S16_784 : ∀ a, (![784] : Fin 1 → Nat) a + S16.size a ≤ S4096.size a
  inb_S4096_S16_800 : ∀ a, (![800] : Fin 1 → Nat) a + S16.size a ≤ S4096.size a
  inb_S4096_S16_816 : ∀ a, (![816] : Fin 1 → Nat) a + S16.size a ≤ S4096.size a
  inb_S4096_S16_832 : ∀ a, (![832] : Fin 1 → Nat) a + S16.size a ≤ S4096.size a
  inb_S4096_S16_848 : ∀ a, (![848] : Fin 1 → Nat) a + S16.size a ≤ S4096.size a
  inb_S4096_S16_864 : ∀ a, (![864] : Fin 1 → Nat) a + S16.size a ≤ S4096.size a
  inb_S4096_S16_880 : ∀ a, (![880] : Fin 1 → Nat) a + S16.size a ≤ S4096.size a
  inb_S4096_S16_896 : ∀ a, (![896] : Fin 1 → Nat) a + S16.size a ≤ S4096.size a
  inb_S4096_S16_912 : ∀ a, (![912] : Fin 1 → Nat) a + S16.size a ≤ S4096.size a
  inb_S4096_S16_928 : ∀ a, (![928] : Fin 1 → Nat) a + S16.size a ≤ S4096.size a
  inb_S4096_S16_944 : ∀ a, (![944] : Fin 1 → Nat) a + S16.size a ≤ S4096.size a
  inb_S4096_S16_960 : ∀ a, (![960] : Fin 1 → Nat) a + S16.size a ≤ S4096.size a
  inb_S4096_S16_976 : ∀ a, (![976] : Fin 1 → Nat) a + S16.size a ≤ S4096.size a
  inb_S4096_S16_992 : ∀ a, (![992] : Fin 1 → Nat) a + S16.size a ≤ S4096.size a
  inb_S4096_S16_1008 : ∀ a, (![1008] : Fin 1 → Nat) a + S16.size a ≤ S4096.size a
  inb_S4096_S16_1024 : ∀ a, (![1024] : Fin 1 → Nat) a + S16.size a ≤ S4096.size a
  inb_S4096_S16_1040 : ∀ a, (![1040] : Fin 1 → Nat) a + S16.size a ≤ S4096.size a
  inb_S4096_S16_1056 : ∀ a, (![1056] : Fin 1 → Nat) a + S16.size a ≤ S4096.size a
  inb_S4096_S16_1072 : ∀ a, (![1072] : Fin 1 → Nat) a + S16.size a ≤ S4096.size a
  inb_S4096_S16_1088 : ∀ a, (![1088] : Fin 1 → Nat) a + S16.size a ≤ S4096.size a
  inb_S4096_S16_1104 : ∀ a, (![1104] : Fin 1 → Nat) a + S16.size a ≤ S4096.size a
  inb_S4096_S16_1120 : ∀ a, (![1120] : Fin 1 → Nat) a + S16.size a ≤ S4096.size a
  inb_S4096_S16_1136 : ∀ a, (![1136] : Fin 1 → Nat) a + S16.size a ≤ S4096.size a
  inb_S4096_S16_1152 : ∀ a, (![1152] : Fin 1 → Nat) a + S16.size a ≤ S4096.size a
  inb_S4096_S16_1168 : ∀ a, (![1168] : Fin 1 → Nat) a + S16.size a ≤ S4096.size a
  inb_S4096_S16_1184 : ∀ a, (![1184] : Fin 1 → Nat) a + S16.size a ≤ S4096.size a
  inb_S4096_S16_1200 : ∀ a, (![1200] : Fin 1 → Nat) a + S16.size a ≤ S4096.size a
  inb_S4096_S16_1216 : ∀ a, (![1216] : Fin 1 → Nat) a + S16.size a ≤ S4096.size a
  inb_S4096_S16_1232 : ∀ a, (![1232] : Fin 1 → Nat) a + S16.size a ≤ S4096.size a
  inb_S4096_S16_1248 : ∀ a, (![1248] : Fin 1 → Nat) a + S16.size a ≤ S4096.size a
  inb_S4096_S16_1264 : ∀ a, (![1264] : Fin 1 → Nat) a + S16.size a ≤ S4096.size a
  inb_S4096_S16_1280 : ∀ a, (![1280] : Fin 1 → Nat) a + S16.size a ≤ S4096.size a
  inb_S4096_S16_1296 : ∀ a, (![1296] : Fin 1 → Nat) a + S16.size a ≤ S4096.size a
  inb_S4096_S16_1312 : ∀ a, (![1312] : Fin 1 → Nat) a + S16.size a ≤ S4096.size a
  inb_S4096_S16_1328 : ∀ a, (![1328] : Fin 1 → Nat) a + S16.size a ≤ S4096.size a
  inb_S4096_S16_1344 : ∀ a, (![1344] : Fin 1 → Nat) a + S16.size a ≤ S4096.size a
  inb_S4096_S16_1360 : ∀ a, (![1360] : Fin 1 → Nat) a + S16.size a ≤ S4096.size a
  inb_S4096_S16_1376 : ∀ a, (![1376] : Fin 1 → Nat) a + S16.size a ≤ S4096.size a
  inb_S4096_S16_1392 : ∀ a, (![1392] : Fin 1 → Nat) a + S16.size a ≤ S4096.size a
  inb_S4096_S16_1408 : ∀ a, (![1408] : Fin 1 → Nat) a + S16.size a ≤ S4096.size a
  inb_S4096_S16_1424 : ∀ a, (![1424] : Fin 1 → Nat) a + S16.size a ≤ S4096.size a
  inb_S4096_S16_1440 : ∀ a, (![1440] : Fin 1 → Nat) a + S16.size a ≤ S4096.size a
  inb_S4096_S16_1456 : ∀ a, (![1456] : Fin 1 → Nat) a + S16.size a ≤ S4096.size a
  inb_S4096_S16_1472 : ∀ a, (![1472] : Fin 1 → Nat) a + S16.size a ≤ S4096.size a
  inb_S4096_S16_1488 : ∀ a, (![1488] : Fin 1 → Nat) a + S16.size a ≤ S4096.size a
  inb_S4096_S16_1504 : ∀ a, (![1504] : Fin 1 → Nat) a + S16.size a ≤ S4096.size a
  inb_S4096_S16_1520 : ∀ a, (![1520] : Fin 1 → Nat) a + S16.size a ≤ S4096.size a
  inb_S320_S16_128 : ∀ a, (![128] : Fin 1 → Nat) a + S16.size a ≤ S320.size a
  inb_S320_S16_144 : ∀ a, (![144] : Fin 1 → Nat) a + S16.size a ≤ S320.size a
  inb_S320_S16_160 : ∀ a, (![160] : Fin 1 → Nat) a + S16.size a ≤ S320.size a
  inb_S320_S16_176 : ∀ a, (![176] : Fin 1 → Nat) a + S16.size a ≤ S320.size a
  inb_S4096_S16_1536 : ∀ a, (![1536] : Fin 1 → Nat) a + S16.size a ≤ S4096.size a
  inb_S4096_S16_1552 : ∀ a, (![1552] : Fin 1 → Nat) a + S16.size a ≤ S4096.size a
  inb_S4096_S16_1568 : ∀ a, (![1568] : Fin 1 → Nat) a + S16.size a ≤ S4096.size a
  inb_S4096_S16_1584 : ∀ a, (![1584] : Fin 1 → Nat) a + S16.size a ≤ S4096.size a
  inb_S4096_S16_1600 : ∀ a, (![1600] : Fin 1 → Nat) a + S16.size a ≤ S4096.size a
  inb_S4096_S16_1616 : ∀ a, (![1616] : Fin 1 → Nat) a + S16.size a ≤ S4096.size a
  inb_S4096_S16_1632 : ∀ a, (![1632] : Fin 1 → Nat) a + S16.size a ≤ S4096.size a
  inb_S4096_S16_1648 : ∀ a, (![1648] : Fin 1 → Nat) a + S16.size a ≤ S4096.size a
  inb_S4096_S16_1664 : ∀ a, (![1664] : Fin 1 → Nat) a + S16.size a ≤ S4096.size a
  inb_S4096_S16_1680 : ∀ a, (![1680] : Fin 1 → Nat) a + S16.size a ≤ S4096.size a
  inb_S4096_S16_1696 : ∀ a, (![1696] : Fin 1 → Nat) a + S16.size a ≤ S4096.size a
  inb_S4096_S16_1712 : ∀ a, (![1712] : Fin 1 → Nat) a + S16.size a ≤ S4096.size a
  inb_S4096_S16_1728 : ∀ a, (![1728] : Fin 1 → Nat) a + S16.size a ≤ S4096.size a
  inb_S4096_S16_1744 : ∀ a, (![1744] : Fin 1 → Nat) a + S16.size a ≤ S4096.size a
  inb_S4096_S16_1760 : ∀ a, (![1760] : Fin 1 → Nat) a + S16.size a ≤ S4096.size a
  inb_S4096_S16_1776 : ∀ a, (![1776] : Fin 1 → Nat) a + S16.size a ≤ S4096.size a
  inb_S4096_S16_1792 : ∀ a, (![1792] : Fin 1 → Nat) a + S16.size a ≤ S4096.size a
  inb_S4096_S16_1808 : ∀ a, (![1808] : Fin 1 → Nat) a + S16.size a ≤ S4096.size a
  inb_S4096_S16_1824 : ∀ a, (![1824] : Fin 1 → Nat) a + S16.size a ≤ S4096.size a
  inb_S4096_S16_1840 : ∀ a, (![1840] : Fin 1 → Nat) a + S16.size a ≤ S4096.size a
  inb_S4096_S16_1856 : ∀ a, (![1856] : Fin 1 → Nat) a + S16.size a ≤ S4096.size a
  inb_S4096_S16_1872 : ∀ a, (![1872] : Fin 1 → Nat) a + S16.size a ≤ S4096.size a
  inb_S4096_S16_1888 : ∀ a, (![1888] : Fin 1 → Nat) a + S16.size a ≤ S4096.size a
  inb_S4096_S16_1904 : ∀ a, (![1904] : Fin 1 → Nat) a + S16.size a ≤ S4096.size a
  inb_S4096_S16_1920 : ∀ a, (![1920] : Fin 1 → Nat) a + S16.size a ≤ S4096.size a
  inb_S4096_S16_1936 : ∀ a, (![1936] : Fin 1 → Nat) a + S16.size a ≤ S4096.size a
  inb_S4096_S16_1952 : ∀ a, (![1952] : Fin 1 → Nat) a + S16.size a ≤ S4096.size a
  inb_S4096_S16_1968 : ∀ a, (![1968] : Fin 1 → Nat) a + S16.size a ≤ S4096.size a
  inb_S4096_S16_1984 : ∀ a, (![1984] : Fin 1 → Nat) a + S16.size a ≤ S4096.size a
  inb_S4096_S16_2000 : ∀ a, (![2000] : Fin 1 → Nat) a + S16.size a ≤ S4096.size a
  inb_S4096_S16_2016 : ∀ a, (![2016] : Fin 1 → Nat) a + S16.size a ≤ S4096.size a
  inb_S4096_S16_2032 : ∀ a, (![2032] : Fin 1 → Nat) a + S16.size a ≤ S4096.size a
  inb_S4096_S16_2048 : ∀ a, (![2048] : Fin 1 → Nat) a + S16.size a ≤ S4096.size a
  inb_S4096_S16_2064 : ∀ a, (![2064] : Fin 1 → Nat) a + S16.size a ≤ S4096.size a
  inb_S4096_S16_2080 : ∀ a, (![2080] : Fin 1 → Nat) a + S16.size a ≤ S4096.size a
  inb_S4096_S16_2096 : ∀ a, (![2096] : Fin 1 → Nat) a + S16.size a ≤ S4096.size a
  inb_S4096_S16_2112 : ∀ a, (![2112] : Fin 1 → Nat) a + S16.size a ≤ S4096.size a
  inb_S4096_S16_2128 : ∀ a, (![2128] : Fin 1 → Nat) a + S16.size a ≤ S4096.size a
  inb_S4096_S16_2144 : ∀ a, (![2144] : Fin 1 → Nat) a + S16.size a ≤ S4096.size a
  inb_S4096_S16_2160 : ∀ a, (![2160] : Fin 1 → Nat) a + S16.size a ≤ S4096.size a
  inb_S4096_S16_2176 : ∀ a, (![2176] : Fin 1 → Nat) a + S16.size a ≤ S4096.size a
  inb_S4096_S16_2192 : ∀ a, (![2192] : Fin 1 → Nat) a + S16.size a ≤ S4096.size a
  inb_S4096_S16_2208 : ∀ a, (![2208] : Fin 1 → Nat) a + S16.size a ≤ S4096.size a
  inb_S4096_S16_2224 : ∀ a, (![2224] : Fin 1 → Nat) a + S16.size a ≤ S4096.size a
  inb_S4096_S16_2240 : ∀ a, (![2240] : Fin 1 → Nat) a + S16.size a ≤ S4096.size a
  inb_S4096_S16_2256 : ∀ a, (![2256] : Fin 1 → Nat) a + S16.size a ≤ S4096.size a
  inb_S4096_S16_2272 : ∀ a, (![2272] : Fin 1 → Nat) a + S16.size a ≤ S4096.size a
  inb_S4096_S16_2288 : ∀ a, (![2288] : Fin 1 → Nat) a + S16.size a ≤ S4096.size a
  inb_S320_S16_192 : ∀ a, (![192] : Fin 1 → Nat) a + S16.size a ≤ S320.size a
  inb_S320_S16_208 : ∀ a, (![208] : Fin 1 → Nat) a + S16.size a ≤ S320.size a
  inb_S320_S16_224 : ∀ a, (![224] : Fin 1 → Nat) a + S16.size a ≤ S320.size a
  inb_S320_S16_240 : ∀ a, (![240] : Fin 1 → Nat) a + S16.size a ≤ S320.size a
  inb_S4096_S16_2304 : ∀ a, (![2304] : Fin 1 → Nat) a + S16.size a ≤ S4096.size a
  inb_S4096_S16_2320 : ∀ a, (![2320] : Fin 1 → Nat) a + S16.size a ≤ S4096.size a
  inb_S4096_S16_2336 : ∀ a, (![2336] : Fin 1 → Nat) a + S16.size a ≤ S4096.size a
  inb_S4096_S16_2352 : ∀ a, (![2352] : Fin 1 → Nat) a + S16.size a ≤ S4096.size a
  inb_S4096_S16_2368 : ∀ a, (![2368] : Fin 1 → Nat) a + S16.size a ≤ S4096.size a
  inb_S4096_S16_2384 : ∀ a, (![2384] : Fin 1 → Nat) a + S16.size a ≤ S4096.size a
  inb_S4096_S16_2400 : ∀ a, (![2400] : Fin 1 → Nat) a + S16.size a ≤ S4096.size a
  inb_S4096_S16_2416 : ∀ a, (![2416] : Fin 1 → Nat) a + S16.size a ≤ S4096.size a
  inb_S4096_S16_2432 : ∀ a, (![2432] : Fin 1 → Nat) a + S16.size a ≤ S4096.size a
  inb_S4096_S16_2448 : ∀ a, (![2448] : Fin 1 → Nat) a + S16.size a ≤ S4096.size a
  inb_S4096_S16_2464 : ∀ a, (![2464] : Fin 1 → Nat) a + S16.size a ≤ S4096.size a
  inb_S4096_S16_2480 : ∀ a, (![2480] : Fin 1 → Nat) a + S16.size a ≤ S4096.size a
  inb_S4096_S16_2496 : ∀ a, (![2496] : Fin 1 → Nat) a + S16.size a ≤ S4096.size a
  inb_S4096_S16_2512 : ∀ a, (![2512] : Fin 1 → Nat) a + S16.size a ≤ S4096.size a
  inb_S4096_S16_2528 : ∀ a, (![2528] : Fin 1 → Nat) a + S16.size a ≤ S4096.size a
  inb_S4096_S16_2544 : ∀ a, (![2544] : Fin 1 → Nat) a + S16.size a ≤ S4096.size a
  inb_S4096_S16_2560 : ∀ a, (![2560] : Fin 1 → Nat) a + S16.size a ≤ S4096.size a
  inb_S4096_S16_2576 : ∀ a, (![2576] : Fin 1 → Nat) a + S16.size a ≤ S4096.size a
  inb_S4096_S16_2592 : ∀ a, (![2592] : Fin 1 → Nat) a + S16.size a ≤ S4096.size a
  inb_S4096_S16_2608 : ∀ a, (![2608] : Fin 1 → Nat) a + S16.size a ≤ S4096.size a
  inb_S4096_S16_2624 : ∀ a, (![2624] : Fin 1 → Nat) a + S16.size a ≤ S4096.size a
  inb_S4096_S16_2640 : ∀ a, (![2640] : Fin 1 → Nat) a + S16.size a ≤ S4096.size a
  inb_S4096_S16_2656 : ∀ a, (![2656] : Fin 1 → Nat) a + S16.size a ≤ S4096.size a
  inb_S4096_S16_2672 : ∀ a, (![2672] : Fin 1 → Nat) a + S16.size a ≤ S4096.size a
  inb_S4096_S16_2688 : ∀ a, (![2688] : Fin 1 → Nat) a + S16.size a ≤ S4096.size a
  inb_S4096_S16_2704 : ∀ a, (![2704] : Fin 1 → Nat) a + S16.size a ≤ S4096.size a
  inb_S4096_S16_2720 : ∀ a, (![2720] : Fin 1 → Nat) a + S16.size a ≤ S4096.size a
  inb_S4096_S16_2736 : ∀ a, (![2736] : Fin 1 → Nat) a + S16.size a ≤ S4096.size a
  inb_S4096_S16_2752 : ∀ a, (![2752] : Fin 1 → Nat) a + S16.size a ≤ S4096.size a
  inb_S4096_S16_2768 : ∀ a, (![2768] : Fin 1 → Nat) a + S16.size a ≤ S4096.size a
  inb_S4096_S16_2784 : ∀ a, (![2784] : Fin 1 → Nat) a + S16.size a ≤ S4096.size a
  inb_S4096_S16_2800 : ∀ a, (![2800] : Fin 1 → Nat) a + S16.size a ≤ S4096.size a
  inb_S4096_S16_2816 : ∀ a, (![2816] : Fin 1 → Nat) a + S16.size a ≤ S4096.size a
  inb_S4096_S16_2832 : ∀ a, (![2832] : Fin 1 → Nat) a + S16.size a ≤ S4096.size a
  inb_S4096_S16_2848 : ∀ a, (![2848] : Fin 1 → Nat) a + S16.size a ≤ S4096.size a
  inb_S4096_S16_2864 : ∀ a, (![2864] : Fin 1 → Nat) a + S16.size a ≤ S4096.size a
  inb_S4096_S16_2880 : ∀ a, (![2880] : Fin 1 → Nat) a + S16.size a ≤ S4096.size a
  inb_S4096_S16_2896 : ∀ a, (![2896] : Fin 1 → Nat) a + S16.size a ≤ S4096.size a
  inb_S4096_S16_2912 : ∀ a, (![2912] : Fin 1 → Nat) a + S16.size a ≤ S4096.size a
  inb_S4096_S16_2928 : ∀ a, (![2928] : Fin 1 → Nat) a + S16.size a ≤ S4096.size a
  inb_S4096_S16_2944 : ∀ a, (![2944] : Fin 1 → Nat) a + S16.size a ≤ S4096.size a
  inb_S4096_S16_2960 : ∀ a, (![2960] : Fin 1 → Nat) a + S16.size a ≤ S4096.size a
  inb_S4096_S16_2976 : ∀ a, (![2976] : Fin 1 → Nat) a + S16.size a ≤ S4096.size a
  inb_S4096_S16_2992 : ∀ a, (![2992] : Fin 1 → Nat) a + S16.size a ≤ S4096.size a
  inb_S4096_S16_3008 : ∀ a, (![3008] : Fin 1 → Nat) a + S16.size a ≤ S4096.size a
  inb_S4096_S16_3024 : ∀ a, (![3024] : Fin 1 → Nat) a + S16.size a ≤ S4096.size a
  inb_S4096_S16_3040 : ∀ a, (![3040] : Fin 1 → Nat) a + S16.size a ≤ S4096.size a
  inb_S4096_S16_3056 : ∀ a, (![3056] : Fin 1 → Nat) a + S16.size a ≤ S4096.size a
  inb_S320_S16_256 : ∀ a, (![256] : Fin 1 → Nat) a + S16.size a ≤ S320.size a
  inb_S320_S16_272 : ∀ a, (![272] : Fin 1 → Nat) a + S16.size a ≤ S320.size a
  inb_S320_S16_288 : ∀ a, (![288] : Fin 1 → Nat) a + S16.size a ≤ S320.size a
  inb_S320_S16_304 : ∀ a, (![304] : Fin 1 → Nat) a + S16.size a ≤ S320.size a
  inb_S4096_S16_3072 : ∀ a, (![3072] : Fin 1 → Nat) a + S16.size a ≤ S4096.size a
  inb_S4096_S16_3088 : ∀ a, (![3088] : Fin 1 → Nat) a + S16.size a ≤ S4096.size a
  inb_S4096_S16_3104 : ∀ a, (![3104] : Fin 1 → Nat) a + S16.size a ≤ S4096.size a
  inb_S4096_S16_3120 : ∀ a, (![3120] : Fin 1 → Nat) a + S16.size a ≤ S4096.size a
  inb_S4096_S16_3136 : ∀ a, (![3136] : Fin 1 → Nat) a + S16.size a ≤ S4096.size a
  inb_S4096_S16_3152 : ∀ a, (![3152] : Fin 1 → Nat) a + S16.size a ≤ S4096.size a
  inb_S4096_S16_3168 : ∀ a, (![3168] : Fin 1 → Nat) a + S16.size a ≤ S4096.size a
  inb_S4096_S16_3184 : ∀ a, (![3184] : Fin 1 → Nat) a + S16.size a ≤ S4096.size a
  inb_S4096_S16_3200 : ∀ a, (![3200] : Fin 1 → Nat) a + S16.size a ≤ S4096.size a
  inb_S4096_S16_3216 : ∀ a, (![3216] : Fin 1 → Nat) a + S16.size a ≤ S4096.size a
  inb_S4096_S16_3232 : ∀ a, (![3232] : Fin 1 → Nat) a + S16.size a ≤ S4096.size a
  inb_S4096_S16_3248 : ∀ a, (![3248] : Fin 1 → Nat) a + S16.size a ≤ S4096.size a
  inb_S4096_S16_3264 : ∀ a, (![3264] : Fin 1 → Nat) a + S16.size a ≤ S4096.size a
  inb_S4096_S16_3280 : ∀ a, (![3280] : Fin 1 → Nat) a + S16.size a ≤ S4096.size a
  inb_S4096_S16_3296 : ∀ a, (![3296] : Fin 1 → Nat) a + S16.size a ≤ S4096.size a
  inb_S4096_S16_3312 : ∀ a, (![3312] : Fin 1 → Nat) a + S16.size a ≤ S4096.size a
  inb_S4096_S16_3328 : ∀ a, (![3328] : Fin 1 → Nat) a + S16.size a ≤ S4096.size a
  inb_S4096_S16_3344 : ∀ a, (![3344] : Fin 1 → Nat) a + S16.size a ≤ S4096.size a
  inb_S4096_S16_3360 : ∀ a, (![3360] : Fin 1 → Nat) a + S16.size a ≤ S4096.size a
  inb_S4096_S16_3376 : ∀ a, (![3376] : Fin 1 → Nat) a + S16.size a ≤ S4096.size a
  inb_S4096_S16_3392 : ∀ a, (![3392] : Fin 1 → Nat) a + S16.size a ≤ S4096.size a
  inb_S4096_S16_3408 : ∀ a, (![3408] : Fin 1 → Nat) a + S16.size a ≤ S4096.size a
  inb_S4096_S16_3424 : ∀ a, (![3424] : Fin 1 → Nat) a + S16.size a ≤ S4096.size a
  inb_S4096_S16_3440 : ∀ a, (![3440] : Fin 1 → Nat) a + S16.size a ≤ S4096.size a
  inb_S4096_S16_3456 : ∀ a, (![3456] : Fin 1 → Nat) a + S16.size a ≤ S4096.size a
  inb_S4096_S16_3472 : ∀ a, (![3472] : Fin 1 → Nat) a + S16.size a ≤ S4096.size a
  inb_S4096_S16_3488 : ∀ a, (![3488] : Fin 1 → Nat) a + S16.size a ≤ S4096.size a
  inb_S4096_S16_3504 : ∀ a, (![3504] : Fin 1 → Nat) a + S16.size a ≤ S4096.size a
  inb_S4096_S16_3520 : ∀ a, (![3520] : Fin 1 → Nat) a + S16.size a ≤ S4096.size a
  inb_S4096_S16_3536 : ∀ a, (![3536] : Fin 1 → Nat) a + S16.size a ≤ S4096.size a
  inb_S4096_S16_3552 : ∀ a, (![3552] : Fin 1 → Nat) a + S16.size a ≤ S4096.size a
  inb_S4096_S16_3568 : ∀ a, (![3568] : Fin 1 → Nat) a + S16.size a ≤ S4096.size a
  inb_S4096_S16_3584 : ∀ a, (![3584] : Fin 1 → Nat) a + S16.size a ≤ S4096.size a
  inb_S4096_S16_3600 : ∀ a, (![3600] : Fin 1 → Nat) a + S16.size a ≤ S4096.size a
  inb_S4096_S16_3616 : ∀ a, (![3616] : Fin 1 → Nat) a + S16.size a ≤ S4096.size a
  inb_S4096_S16_3632 : ∀ a, (![3632] : Fin 1 → Nat) a + S16.size a ≤ S4096.size a
  inb_S4096_S16_3648 : ∀ a, (![3648] : Fin 1 → Nat) a + S16.size a ≤ S4096.size a
  inb_S4096_S16_3664 : ∀ a, (![3664] : Fin 1 → Nat) a + S16.size a ≤ S4096.size a
  inb_S4096_S16_3680 : ∀ a, (![3680] : Fin 1 → Nat) a + S16.size a ≤ S4096.size a
  inb_S4096_S16_3696 : ∀ a, (![3696] : Fin 1 → Nat) a + S16.size a ≤ S4096.size a
  inb_S4096_S16_3712 : ∀ a, (![3712] : Fin 1 → Nat) a + S16.size a ≤ S4096.size a
  inb_S4096_S16_3728 : ∀ a, (![3728] : Fin 1 → Nat) a + S16.size a ≤ S4096.size a
  inb_S4096_S16_3744 : ∀ a, (![3744] : Fin 1 → Nat) a + S16.size a ≤ S4096.size a
  inb_S4096_S16_3760 : ∀ a, (![3760] : Fin 1 → Nat) a + S16.size a ≤ S4096.size a
  inb_S4096_S16_3776 : ∀ a, (![3776] : Fin 1 → Nat) a + S16.size a ≤ S4096.size a
  inb_S4096_S16_3792 : ∀ a, (![3792] : Fin 1 → Nat) a + S16.size a ≤ S4096.size a
  inb_S4096_S16_3808 : ∀ a, (![3808] : Fin 1 → Nat) a + S16.size a ≤ S4096.size a
  inb_S4096_S16_3824 : ∀ a, (![3824] : Fin 1 → Nat) a + S16.size a ≤ S4096.size a
  iota_S16_d0_w32_scVector : S16.Iotas .scVector 32 [0]
  h_S4096 : 0 < S4096.numel
  inb_S4096_S16_3840 : ∀ a, (![3840] : Fin 1 → Nat) a + S16.size a ≤ S4096.size a
  inb_S4096_S16_3856 : ∀ a, (![3856] : Fin 1 → Nat) a + S16.size a ≤ S4096.size a
  inb_S4096_S16_3872 : ∀ a, (![3872] : Fin 1 → Nat) a + S16.size a ≤ S4096.size a
  inb_S4096_S16_3888 : ∀ a, (![3888] : Fin 1 → Nat) a + S16.size a ≤ S4096.size a
  inb_S4096_S16_3904 : ∀ a, (![3904] : Fin 1 → Nat) a + S16.size a ≤ S4096.size a
  inb_S4096_S16_3920 : ∀ a, (![3920] : Fin 1 → Nat) a + S16.size a ≤ S4096.size a
  inb_S4096_S16_3936 : ∀ a, (![3936] : Fin 1 → Nat) a + S16.size a ≤ S4096.size a
  inb_S4096_S16_3952 : ∀ a, (![3952] : Fin 1 → Nat) a + S16.size a ≤ S4096.size a
  inb_S4096_S16_3968 : ∀ a, (![3968] : Fin 1 → Nat) a + S16.size a ≤ S4096.size a
  inb_S4096_S16_3984 : ∀ a, (![3984] : Fin 1 → Nat) a + S16.size a ≤ S4096.size a
  inb_S4096_S16_4000 : ∀ a, (![4000] : Fin 1 → Nat) a + S16.size a ≤ S4096.size a
  inb_S4096_S16_4016 : ∀ a, (![4016] : Fin 1 → Nat) a + S16.size a ≤ S4096.size a
  inb_S4096_S16_4032 : ∀ a, (![4032] : Fin 1 → Nat) a + S16.size a ≤ S4096.size a
  inb_S4096_S16_4048 : ∀ a, (![4048] : Fin 1 → Nat) a + S16.size a ≤ S4096.size a
  inb_S4096_S16_4064 : ∀ a, (![4064] : Fin 1 → Nat) a + S16.size a ≤ S4096.size a
  inb_S4096_S16_4080 : ∀ a, (![4080] : Fin 1 → Nat) a + S16.size a ≤ S4096.size a
  inb_S2304_S768_0 : ∀ a, (![0] : Fin 1 → Nat) a + S768.size a ≤ S2304.size a
  inb_S2304_S768_768 : ∀ a, (![768] : Fin 1 → Nat) a + S768.size a ≤ S2304.size a
  inb_S2304_S768_1536 : ∀ a, (![1536] : Fin 1 → Nat) a + S768.size a ≤ S2304.size a
  inb_S2400000_S768_0 : ∀ a, (![0] : Fin 1 → Nat) a + S768.size a ≤ S2400000.size a
  h_S1x1x1x16 : 0 < S1x1x1x16.numel
  shapeCasts_S1x1x1x16_S16 : S1x1x1x16.ShapeCasts S16
  shapeCasts_S16_S1x1x1x16 : S16.ShapeCasts S1x1x1x16
  transposes_S8x6250x8x128_S6250x128x8x8_1_3_0_2 : S8x6250x8x128.Transposes [1, 3, 0, 2] S6250x128x8x8
  shapeCasts_S6250x128x8x8_S800000x64 : S6250x128x8x8.ShapeCasts S800000x64
  hcc0_scratch9 : 0 + S_.numel ≤ 8
  hcc0_scratch10 : 1 + S_.numel ≤ 8
  hcc0_scratch11 : 2 + S_.numel ≤ 8
  hcc0_scratch12 : 3 + S_.numel ≤ 8
  hcc0_scoped0 : 4 + S_.numel ≤ 8
  hcc0_scoped1 : 5 + S_.numel ≤ 8
  hcc0_scoped2 : 6 + S_.numel ≤ 8
  hcc0_scoped3 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 3), ∀ a, (k0_off1 i (BitVec.ofNat 32 (800000 * r.val))) a + S768.size a ≤ S2400000.size a
  k0_off2_inb : ∀ i : grid0.Coords, ∀ (r : Fin 3), ∀ a, (k0_off2 i (BitVec.ofNat 32 (800000 * r.val))) a + S768.size a ≤ S2400000.size a
  k0_t1_ok : k0_t1_loop.OK
  k0_off3_inb : ∀ (i : grid0.Coords) (k0_t1 : Fin k0_t1_loop.trips), ∀ (k0_h1 : k0_cond1 k0_t1 = 1#1), ∀ a, (k0_off3 i k0_t1) a + S8x6x8x128.size a ≤ S8x6250x8x128.size a
  k0_t2_ok : k0_t2_loop.OK
  k0_off4_inb : ∀ k0_t2 : Fin k0_t2_loop.trips, ∀ a, (k0_off4 k0_t2) a + S16.size a ≤ S2304.size a
  k0_off5_inb : ∀ k0_t2 : Fin k0_t2_loop.trips, ∀ (r : Fin 2), ∀ a, (k0_off5 k0_t2 (BitVec.ofNat 32 (768 + 768 * r.val))) a + S16.size a ≤ S2304.size a
  k0_off6_inb : ∀ k0_t2 : Fin k0_t2_loop.trips, ∀ a, (k0_off6 k0_t2) a + S1x1x1x16.size a ≤ S8x6x8x128.size a
  k0_off7_inb : ∀ k0_t2 : Fin k0_t2_loop.trips, ∀ a, (k0_off7 k0_t2) a + S1x1x1x16.size a ≤ S8x6x8x128.size a
  k0_off8_inb : ∀ k0_t2 : Fin k0_t2_loop.trips, ∀ a, (k0_off8 k0_t2) a + S1x1x1x16.size a ≤ S8x6x8x128.size a
  k0_off9_inb : ∀ k0_t2 : Fin k0_t2_loop.trips, ∀ a, (k0_off9 k0_t2) a + S1x1x1x16.size a ≤ S8x6x8x128.size a
  k0_off10_inb : ∀ k0_t2 : Fin k0_t2_loop.trips, ∀ a, (k0_off10 k0_t2) a + S1x1x1x16.size a ≤ S8x6x8x128.size a
  k0_off11_inb : ∀ k0_t2 : Fin k0_t2_loop.trips, ∀ a, (k0_off11 k0_t2) a + S1x1x1x16.size a ≤ S8x6x8x128.size a
  k0_off12_inb : ∀ k0_t2 : Fin k0_t2_loop.trips, ∀ a, (k0_off12 k0_t2) a + S1x1x1x16.size a ≤ S8x6x8x128.size a
  k0_off13_inb : ∀ k0_t2 : Fin k0_t2_loop.trips, ∀ a, (k0_off13 k0_t2) a + S1x1x1x16.size a ≤ S8x6x8x128.size a
  k0_off14_inb : ∀ k0_t2 : Fin k0_t2_loop.trips, ∀ a, (k0_off14 k0_t2) a + S1x1x1x16.size a ≤ S8x6x8x128.size a
  k0_off15_inb : ∀ k0_t2 : Fin k0_t2_loop.trips, ∀ a, (k0_off15 k0_t2) a + S1x1x1x16.size a ≤ S8x6x8x128.size a
  k0_off16_inb : ∀ k0_t2 : Fin k0_t2_loop.trips, ∀ a, (k0_off16 k0_t2) a + S1x1x1x16.size a ≤ S8x6x8x128.size a
  k0_off17_inb : ∀ k0_t2 : Fin k0_t2_loop.trips, ∀ a, (k0_off17 k0_t2) a + S1x1x1x16.size a ≤ S8x6x8x128.size a
  k0_off18_inb : ∀ k0_t2 : Fin k0_t2_loop.trips, ∀ a, (k0_off18 k0_t2) a + S1x1x1x16.size a ≤ S8x6x8x128.size a
  k0_off19_inb : ∀ k0_t2 : Fin k0_t2_loop.trips, ∀ a, (k0_off19 k0_t2) a + S1x1x1x16.size a ≤ S8x6x8x128.size a
  k0_off20_inb : ∀ k0_t2 : Fin k0_t2_loop.trips, ∀ a, (k0_off20 k0_t2) a + S1x1x1x16.size a ≤ S8x6x8x128.size a
  k0_off21_inb : ∀ k0_t2 : Fin k0_t2_loop.trips, ∀ a, (k0_off21 k0_t2) a + S1x1x1x16.size a ≤ S8x6x8x128.size a
  k0_off22_inb : ∀ k0_t2 : Fin k0_t2_loop.trips, ∀ a, (k0_off22 k0_t2) a + S1x1x1x16.size a ≤ S8x6x8x128.size a
  k0_off23_inb : ∀ k0_t2 : Fin k0_t2_loop.trips, ∀ a, (k0_off23 k0_t2) a + S1x1x1x16.size a ≤ S8x6x8x128.size a
  k0_off24_inb : ∀ k0_t2 : Fin k0_t2_loop.trips, ∀ a, (k0_off24 k0_t2) a + S1x1x1x16.size a ≤ S8x6x8x128.size a
  k0_off25_inb : ∀ k0_t2 : Fin k0_t2_loop.trips, ∀ a, (k0_off25 k0_t2) a + S1x1x1x16.size a ≤ S8x6x8x128.size a
  k0_off26_inb : ∀ k0_t2 : Fin k0_t2_loop.trips, ∀ a, (k0_off26 k0_t2) a + S1x1x1x16.size a ≤ S8x6x8x128.size a
  k0_off27_inb : ∀ k0_t2 : Fin k0_t2_loop.trips, ∀ a, (k0_off27 k0_t2) a + S1x1x1x16.size a ≤ S8x6x8x128.size a
  k0_off28_inb : ∀ k0_t2 : Fin k0_t2_loop.trips, ∀ a, (k0_off28 k0_t2) a + S1x1x1x16.size a ≤ S8x6x8x128.size a
  k0_off29_inb : ∀ k0_t2 : Fin k0_t2_loop.trips, ∀ a, (k0_off29 k0_t2) a + S1x1x1x16.size a ≤ S8x6x8x128.size a
  k0_off30_inb : ∀ k0_t2 : Fin k0_t2_loop.trips, ∀ a, (k0_off30 k0_t2) a + S1x1x1x16.size a ≤ S8x6x8x128.size a
  k0_off31_inb : ∀ k0_t2 : Fin k0_t2_loop.trips, ∀ a, (k0_off31 k0_t2) a + S1x1x1x16.size a ≤ S8x6x8x128.size a
  k0_off32_inb : ∀ k0_t2 : Fin k0_t2_loop.trips, ∀ a, (k0_off32 k0_t2) a + S1x1x1x16.size a ≤ S8x6x8x128.size a
  k0_off33_inb : ∀ k0_t2 : Fin k0_t2_loop.trips, ∀ a, (k0_off33 k0_t2) a + S1x1x1x16.size a ≤ S8x6x8x128.size a
  k0_off34_inb : ∀ k0_t2 : Fin k0_t2_loop.trips, ∀ a, (k0_off34 k0_t2) a + S1x1x1x16.size a ≤ S8x6x8x128.size a
  k0_off35_inb : ∀ k0_t2 : Fin k0_t2_loop.trips, ∀ a, (k0_off35 k0_t2) a + S1x1x1x16.size a ≤ S8x6x8x128.size a
  k0_off36_inb : ∀ k0_t2 : Fin k0_t2_loop.trips, ∀ a, (k0_off36 k0_t2) a + S1x1x1x16.size a ≤ S8x6x8x128.size a
  k0_off37_inb : ∀ k0_t2 : Fin k0_t2_loop.trips, ∀ a, (k0_off37 k0_t2) a + S1x1x1x16.size a ≤ S8x6x8x128.size a
  k0_off38_inb : ∀ k0_t2 : Fin k0_t2_loop.trips, ∀ a, (k0_off38 k0_t2) a + S1x1x1x16.size a ≤ S8x6x8x128.size a
  k0_off39_inb : ∀ k0_t2 : Fin k0_t2_loop.trips, ∀ a, (k0_off39 k0_t2) a + S1x1x1x16.size a ≤ S8x6x8x128.size a
  k0_off40_inb : ∀ k0_t2 : Fin k0_t2_loop.trips, ∀ a, (k0_off40 k0_t2) a + S1x1x1x16.size a ≤ S8x6x8x128.size a
  k0_off41_inb : ∀ k0_t2 : Fin k0_t2_loop.trips, ∀ a, (k0_off41 k0_t2) a + S1x1x1x16.size a ≤ S8x6x8x128.size a
  k0_off42_inb : ∀ k0_t2 : Fin k0_t2_loop.trips, ∀ a, (k0_off42 k0_t2) a + S1x1x1x16.size a ≤ S8x6x8x128.size a
  k0_off43_inb : ∀ k0_t2 : Fin k0_t2_loop.trips, ∀ a, (k0_off43 k0_t2) a + S1x1x1x16.size a ≤ S8x6x8x128.size a
  k0_off44_inb : ∀ k0_t2 : Fin k0_t2_loop.trips, ∀ a, (k0_off44 k0_t2) a + S1x1x1x16.size a ≤ S8x6x8x128.size a
  k0_off45_inb : ∀ k0_t2 : Fin k0_t2_loop.trips, ∀ a, (k0_off45 k0_t2) a + S1x1x1x16.size a ≤ S8x6x8x128.size a
  k0_off46_inb : ∀ k0_t2 : Fin k0_t2_loop.trips, ∀ a, (k0_off46 k0_t2) a + S1x1x1x16.size a ≤ S8x6x8x128.size a
  k0_off47_inb : ∀ k0_t2 : Fin k0_t2_loop.trips, ∀ a, (k0_off47 k0_t2) a + S1x1x1x16.size a ≤ S8x6x8x128.size a
  k0_off48_inb : ∀ k0_t2 : Fin k0_t2_loop.trips, ∀ a, (k0_off48 k0_t2) a + S1x1x1x16.size a ≤ S8x6x8x128.size a
  k0_off49_inb : ∀ k0_t2 : Fin k0_t2_loop.trips, ∀ a, (k0_off49 k0_t2) a + S1x1x1x16.size a ≤ S8x6x8x128.size a
  k0_off50_inb : ∀ k0_t2 : Fin k0_t2_loop.trips, ∀ a, (k0_off50 k0_t2) a + S1x1x1x16.size a ≤ S8x6x8x128.size a
  k0_off51_inb : ∀ k0_t2 : Fin k0_t2_loop.trips, ∀ a, (k0_off51 k0_t2) a + S1x1x1x16.size a ≤ S8x6x8x128.size a
  k0_off52_inb : ∀ k0_t2 : Fin k0_t2_loop.trips, ∀ a, (k0_off52 k0_t2) a + S1x1x1x16.size a ≤ S8x6x8x128.size a
  k0_off53_inb : ∀ k0_t2 : Fin k0_t2_loop.trips, ∀ a, (k0_off53 k0_t2) a + S1x1x1x16.size a ≤ S8x6x8x128.size a
  k0_off54_inb : ∀ k0_t2 : Fin k0_t2_loop.trips, ∀ a, (k0_off54 k0_t2) a + S1x1x1x16.size a ≤ S8x6x8x128.size a
  k0_off55_inb : ∀ k0_t2 : Fin k0_t2_loop.trips, ∀ a, (k0_off55 k0_t2) a + S1x1x1x16.size a ≤ S8x6x8x128.size a
  k0_off56_inb : ∀ k0_t2 : Fin k0_t2_loop.trips, ∀ a, (k0_off56 k0_t2) a + S1x1x1x16.size a ≤ S8x6x8x128.size a
  k0_off57_inb : ∀ k0_t2 : Fin k0_t2_loop.trips, ∀ a, (k0_off57 k0_t2) a + S1x1x1x16.size a ≤ S8x6x8x128.size a
  k0_off58_inb : ∀ k0_t2 : Fin k0_t2_loop.trips, ∀ a, (k0_off58 k0_t2) a + S1x1x1x16.size a ≤ S8x6x8x128.size a
  k0_off59_inb : ∀ k0_t2 : Fin k0_t2_loop.trips, ∀ a, (k0_off59 k0_t2) a + S1x1x1x16.size a ≤ S8x6x8x128.size a
  k0_off60_inb : ∀ k0_t2 : Fin k0_t2_loop.trips, ∀ a, (k0_off60 k0_t2) a + S1x1x1x16.size a ≤ S8x6x8x128.size a
  k0_off61_inb : ∀ k0_t2 : Fin k0_t2_loop.trips, ∀ a, (k0_off61 k0_t2) a + S1x1x1x16.size a ≤ S8x6x8x128.size a
  k0_off62_inb : ∀ k0_t2 : Fin k0_t2_loop.trips, ∀ a, (k0_off62 k0_t2) a + S1x1x1x16.size a ≤ S8x6x8x128.size a
  k0_off63_inb : ∀ k0_t2 : Fin k0_t2_loop.trips, ∀ a, (k0_off63 k0_t2) a + S1x1x1x16.size a ≤ S8x6x8x128.size a
  k0_off64_inb : ∀ k0_t2 : Fin k0_t2_loop.trips, ∀ a, (k0_off64 k0_t2) a + S1x1x1x16.size a ≤ S8x6x8x128.size a
  k0_off65_inb : ∀ k0_t2 : Fin k0_t2_loop.trips, ∀ a, (k0_off65 k0_t2) a + S1x1x1x16.size a ≤ S8x6x8x128.size a
  k0_off66_inb : ∀ k0_t2 : Fin k0_t2_loop.trips, ∀ a, (k0_off66 k0_t2) a + S1x1x1x16.size a ≤ S8x6x8x128.size a
  k0_off67_inb : ∀ k0_t2 : Fin k0_t2_loop.trips, ∀ a, (k0_off67 k0_t2) a + S1x1x1x16.size a ≤ S8x6x8x128.size a
  k0_off68_inb : ∀ k0_t2 : Fin k0_t2_loop.trips, ∀ a, (k0_off68 k0_t2) a + S1x1x1x16.size a ≤ S8x6x8x128.size a
  k0_off69_inb : ∀ k0_t2 : Fin k0_t2_loop.trips, ∀ a, (k0_off69 k0_t2) a + S1x1x1x16.size a ≤ S8x6x8x128.size a
  k0_off70_inb : ∀ (i : grid0.Coords) (k0_t1 : Fin k0_t1_loop.trips), ∀ a, (k0_off70 i k0_t1) a + S8x6x8x128.size a ≤ S8x6250x8x128.size a
  k0_off71_inb : ∀ (i : grid0.Coords) (k0_t1 : Fin k0_t1_loop.trips), ∀ (r : Fin 3), ∀ a, (k0_off71 i k0_t1 (BitVec.ofNat 32 (800000 * r.val))) a + S768.size a ≤ S2400000.size a
  k0_off72_inb : ∀ (i : grid0.Coords) (k0_t1 : Fin k0_t1_loop.trips), ∀ (k0_h2 : k0_cond2 k0_t1 = 1#1), ∀ a, (k0_off72 i k0_t1) a + S8x6x8x128.size a ≤ S8x6250x8x128.size a
  k0_t3_ok : k0_t3_loop.OK
  k0_off73_inb : ∀ k0_t3 : Fin k0_t3_loop.trips, ∀ a, (k0_off73 k0_t3) a + S16.size a ≤ S2304.size a
  k0_off74_inb : ∀ k0_t3 : Fin k0_t3_loop.trips, ∀ (r : Fin 2), ∀ a, (k0_off74 k0_t3 (BitVec.ofNat 32 (768 + 768 * r.val))) a + S16.size a ≤ S2304.size a
  k0_off75_inb : ∀ k0_t3 : Fin k0_t3_loop.trips, ∀ a, (k0_off75 k0_t3) a + S1x1x1x16.size a ≤ S8x6x8x128.size a
  k0_off76_inb : ∀ k0_t3 : Fin k0_t3_loop.trips, ∀ a, (k0_off76 k0_t3) a + S1x1x1x16.size a ≤ S8x6x8x128.size a
  k0_off77_inb : ∀ k0_t3 : Fin k0_t3_loop.trips, ∀ a, (k0_off77 k0_t3) a + S1x1x1x16.size a ≤ S8x6x8x128.size a
  k0_off78_inb : ∀ k0_t3 : Fin k0_t3_loop.trips, ∀ a, (k0_off78 k0_t3) a + S1x1x1x16.size a ≤ S8x6x8x128.size a
  k0_off79_inb : ∀ k0_t3 : Fin k0_t3_loop.trips, ∀ a, (k0_off79 k0_t3) a + S1x1x1x16.size a ≤ S8x6x8x128.size a
  k0_off80_inb : ∀ k0_t3 : Fin k0_t3_loop.trips, ∀ a, (k0_off80 k0_t3) a + S1x1x1x16.size a ≤ S8x6x8x128.size a
  k0_off81_inb : ∀ k0_t3 : Fin k0_t3_loop.trips, ∀ a, (k0_off81 k0_t3) a + S1x1x1x16.size a ≤ S8x6x8x128.size a
  k0_off82_inb : ∀ k0_t3 : Fin k0_t3_loop.trips, ∀ a, (k0_off82 k0_t3) a + S1x1x1x16.size a ≤ S8x6x8x128.size a
  k0_off83_inb : ∀ k0_t3 : Fin k0_t3_loop.trips, ∀ a, (k0_off83 k0_t3) a + S1x1x1x16.size a ≤ S8x6x8x128.size a
  k0_off84_inb : ∀ k0_t3 : Fin k0_t3_loop.trips, ∀ a, (k0_off84 k0_t3) a + S1x1x1x16.size a ≤ S8x6x8x128.size a
  k0_off85_inb : ∀ k0_t3 : Fin k0_t3_loop.trips, ∀ a, (k0_off85 k0_t3) a + S1x1x1x16.size a ≤ S8x6x8x128.size a
  k0_off86_inb : ∀ k0_t3 : Fin k0_t3_loop.trips, ∀ a, (k0_off86 k0_t3) a + S1x1x1x16.size a ≤ S8x6x8x128.size a
  k0_off87_inb : ∀ k0_t3 : Fin k0_t3_loop.trips, ∀ a, (k0_off87 k0_t3) a + S1x1x1x16.size a ≤ S8x6x8x128.size a
  k0_off88_inb : ∀ k0_t3 : Fin k0_t3_loop.trips, ∀ a, (k0_off88 k0_t3) a + S1x1x1x16.size a ≤ S8x6x8x128.size a
  k0_off89_inb : ∀ k0_t3 : Fin k0_t3_loop.trips, ∀ a, (k0_off89 k0_t3) a + S1x1x1x16.size a ≤ S8x6x8x128.size a
  k0_off90_inb : ∀ k0_t3 : Fin k0_t3_loop.trips, ∀ a, (k0_off90 k0_t3) a + S1x1x1x16.size a ≤ S8x6x8x128.size a
  k0_off91_inb : ∀ k0_t3 : Fin k0_t3_loop.trips, ∀ a, (k0_off91 k0_t3) a + S1x1x1x16.size a ≤ S8x6x8x128.size a
  k0_off92_inb : ∀ k0_t3 : Fin k0_t3_loop.trips, ∀ a, (k0_off92 k0_t3) a + S1x1x1x16.size a ≤ S8x6x8x128.size a
  k0_off93_inb : ∀ k0_t3 : Fin k0_t3_loop.trips, ∀ a, (k0_off93 k0_t3) a + S1x1x1x16.size a ≤ S8x6x8x128.size a
  k0_off94_inb : ∀ k0_t3 : Fin k0_t3_loop.trips, ∀ a, (k0_off94 k0_t3) a + S1x1x1x16.size a ≤ S8x6x8x128.size a
  k0_off95_inb : ∀ k0_t3 : Fin k0_t3_loop.trips, ∀ a, (k0_off95 k0_t3) a + S1x1x1x16.size a ≤ S8x6x8x128.size a
  k0_off96_inb : ∀ k0_t3 : Fin k0_t3_loop.trips, ∀ a, (k0_off96 k0_t3) a + S1x1x1x16.size a ≤ S8x6x8x128.size a
  k0_off97_inb : ∀ k0_t3 : Fin k0_t3_loop.trips, ∀ a, (k0_off97 k0_t3) a + S1x1x1x16.size a ≤ S8x6x8x128.size a
  k0_off98_inb : ∀ k0_t3 : Fin k0_t3_loop.trips, ∀ a, (k0_off98 k0_t3) a + S1x1x1x16.size a ≤ S8x6x8x128.size a
  k0_off99_inb : ∀ k0_t3 : Fin k0_t3_loop.trips, ∀ a, (k0_off99 k0_t3) a + S1x1x1x16.size a ≤ S8x6x8x128.size a
  k0_off100_inb : ∀ k0_t3 : Fin k0_t3_loop.trips, ∀ a, (k0_off100 k0_t3) a + S1x1x1x16.size a ≤ S8x6x8x128.size a
  k0_off101_inb : ∀ k0_t3 : Fin k0_t3_loop.trips, ∀ a, (k0_off101 k0_t3) a + S1x1x1x16.size a ≤ S8x6x8x128.size a
  k0_off102_inb : ∀ k0_t3 : Fin k0_t3_loop.trips, ∀ a, (k0_off102 k0_t3) a + S1x1x1x16.size a ≤ S8x6x8x128.size a
  k0_off103_inb : ∀ k0_t3 : Fin k0_t3_loop.trips, ∀ a, (k0_off103 k0_t3) a + S1x1x1x16.size a ≤ S8x6x8x128.size a
  k0_off104_inb : ∀ k0_t3 : Fin k0_t3_loop.trips, ∀ a, (k0_off104 k0_t3) a + S1x1x1x16.size a ≤ S8x6x8x128.size a
  k0_off105_inb : ∀ k0_t3 : Fin k0_t3_loop.trips, ∀ a, (k0_off105 k0_t3) a + S1x1x1x16.size a ≤ S8x6x8x128.size a
  k0_off106_inb : ∀ k0_t3 : Fin k0_t3_loop.trips, ∀ a, (k0_off106 k0_t3) a + S1x1x1x16.size a ≤ S8x6x8x128.size a
  k0_off107_inb : ∀ k0_t3 : Fin k0_t3_loop.trips, ∀ a, (k0_off107 k0_t3) a + S1x1x1x16.size a ≤ S8x6x8x128.size a
  k0_off108_inb : ∀ k0_t3 : Fin k0_t3_loop.trips, ∀ a, (k0_off108 k0_t3) a + S1x1x1x16.size a ≤ S8x6x8x128.size a
  k0_off109_inb : ∀ k0_t3 : Fin k0_t3_loop.trips, ∀ a, (k0_off109 k0_t3) a + S1x1x1x16.size a ≤ S8x6x8x128.size a
  k0_off110_inb : ∀ k0_t3 : Fin k0_t3_loop.trips, ∀ a, (k0_off110 k0_t3) a + S1x1x1x16.size a ≤ S8x6x8x128.size a
  k0_off111_inb : ∀ k0_t3 : Fin k0_t3_loop.trips, ∀ a, (k0_off111 k0_t3) a + S1x1x1x16.size a ≤ S8x6x8x128.size a
  k0_off112_inb : ∀ k0_t3 : Fin k0_t3_loop.trips, ∀ a, (k0_off112 k0_t3) a + S1x1x1x16.size a ≤ S8x6x8x128.size a
  k0_off113_inb : ∀ k0_t3 : Fin k0_t3_loop.trips, ∀ a, (k0_off113 k0_t3) a + S1x1x1x16.size a ≤ S8x6x8x128.size a
  k0_off114_inb : ∀ k0_t3 : Fin k0_t3_loop.trips, ∀ a, (k0_off114 k0_t3) a + S1x1x1x16.size a ≤ S8x6x8x128.size a
  k0_off115_inb : ∀ k0_t3 : Fin k0_t3_loop.trips, ∀ a, (k0_off115 k0_t3) a + S1x1x1x16.size a ≤ S8x6x8x128.size a
  k0_off116_inb : ∀ k0_t3 : Fin k0_t3_loop.trips, ∀ a, (k0_off116 k0_t3) a + S1x1x1x16.size a ≤ S8x6x8x128.size a
  k0_off117_inb : ∀ k0_t3 : Fin k0_t3_loop.trips, ∀ a, (k0_off117 k0_t3) a + S1x1x1x16.size a ≤ S8x6x8x128.size a
  k0_off118_inb : ∀ k0_t3 : Fin k0_t3_loop.trips, ∀ a, (k0_off118 k0_t3) a + S1x1x1x16.size a ≤ S8x6x8x128.size a
  k0_off119_inb : ∀ k0_t3 : Fin k0_t3_loop.trips, ∀ a, (k0_off119 k0_t3) a + S1x1x1x16.size a ≤ S8x6x8x128.size a
  k0_off120_inb : ∀ k0_t3 : Fin k0_t3_loop.trips, ∀ a, (k0_off120 k0_t3) a + S1x1x1x16.size a ≤ S8x6x8x128.size a
  k0_off121_inb : ∀ k0_t3 : Fin k0_t3_loop.trips, ∀ a, (k0_off121 k0_t3) a + S1x1x1x16.size a ≤ S8x6x8x128.size a
  k0_off122_inb : ∀ k0_t3 : Fin k0_t3_loop.trips, ∀ a, (k0_off122 k0_t3) a + S1x1x1x16.size a ≤ S8x6x8x128.size a
  k0_off123_inb : ∀ k0_t3 : Fin k0_t3_loop.trips, ∀ a, (k0_off123 k0_t3) a + S1x1x1x16.size a ≤ S8x6x8x128.size a
  k0_off124_inb : ∀ k0_t3 : Fin k0_t3_loop.trips, ∀ a, (k0_off124 k0_t3) a + S1x1x1x16.size a ≤ S8x6x8x128.size a
  k0_off125_inb : ∀ k0_t3 : Fin k0_t3_loop.trips, ∀ a, (k0_off125 k0_t3) a + S1x1x1x16.size a ≤ S8x6x8x128.size a
  k0_off126_inb : ∀ k0_t3 : Fin k0_t3_loop.trips, ∀ a, (k0_off126 k0_t3) a + S1x1x1x16.size a ≤ S8x6x8x128.size a
  k0_off127_inb : ∀ k0_t3 : Fin k0_t3_loop.trips, ∀ a, (k0_off127 k0_t3) a + S1x1x1x16.size a ≤ S8x6x8x128.size a
  k0_off128_inb : ∀ k0_t3 : Fin k0_t3_loop.trips, ∀ a, (k0_off128 k0_t3) a + S1x1x1x16.size a ≤ S8x6x8x128.size a
  k0_off129_inb : ∀ k0_t3 : Fin k0_t3_loop.trips, ∀ a, (k0_off129 k0_t3) a + S1x1x1x16.size a ≤ S8x6x8x128.size a
  k0_off130_inb : ∀ k0_t3 : Fin k0_t3_loop.trips, ∀ a, (k0_off130 k0_t3) a + S1x1x1x16.size a ≤ S8x6x8x128.size a
  k0_off131_inb : ∀ k0_t3 : Fin k0_t3_loop.trips, ∀ a, (k0_off131 k0_t3) a + S1x1x1x16.size a ≤ S8x6x8x128.size a
  k0_off132_inb : ∀ k0_t3 : Fin k0_t3_loop.trips, ∀ a, (k0_off132 k0_t3) a + S1x1x1x16.size a ≤ S8x6x8x128.size a
  k0_off133_inb : ∀ k0_t3 : Fin k0_t3_loop.trips, ∀ a, (k0_off133 k0_t3) a + S1x1x1x16.size a ≤ S8x6x8x128.size a
  k0_off134_inb : ∀ k0_t3 : Fin k0_t3_loop.trips, ∀ a, (k0_off134 k0_t3) a + S1x1x1x16.size a ≤ S8x6x8x128.size a
  k0_off135_inb : ∀ k0_t3 : Fin k0_t3_loop.trips, ∀ a, (k0_off135 k0_t3) a + S1x1x1x16.size a ≤ S8x6x8x128.size a
  k0_off136_inb : ∀ k0_t3 : Fin k0_t3_loop.trips, ∀ a, (k0_off136 k0_t3) a + S1x1x1x16.size a ≤ S8x6x8x128.size a
  k0_off137_inb : ∀ k0_t3 : Fin k0_t3_loop.trips, ∀ a, (k0_off137 k0_t3) a + S1x1x1x16.size a ≤ S8x6x8x128.size a
  k0_off138_inb : ∀ k0_t3 : Fin k0_t3_loop.trips, ∀ a, (k0_off138 k0_t3) a + S1x1x1x16.size a ≤ S8x6x8x128.size a
  k0_off139_inb : ∀ (i : grid0.Coords) (k0_t1 : Fin k0_t1_loop.trips), ∀ a, (k0_off139 i k0_t1) a + S8x6x8x128.size a ≤ S8x6250x8x128.size a
  k0_off140_inb : ∀ (i : grid0.Coords) (k0_t1 : Fin k0_t1_loop.trips), ∀ (r : Fin 3), ∀ a, (k0_off140 i k0_t1 (BitVec.ofNat 32 (800000 * r.val))) a + S768.size a ≤ S2400000.size a
  k0_off141_inb : ∀ i : grid0.Coords, ∀ a, (k0_off141 i) a + S8x6x8x128.size a ≤ S8x6250x8x128.size a
  k0_t4_ok : k0_t4_loop.OK
  k0_off142_inb : ∀ k0_t4 : Fin k0_t4_loop.trips, ∀ a, (k0_off142 k0_t4) a + S16.size a ≤ S2304.size a
  k0_off143_inb : ∀ k0_t4 : Fin k0_t4_loop.trips, ∀ (r : Fin 2), ∀ a, (k0_off143 k0_t4 (BitVec.ofNat 32 (768 + 768 * r.val))) a + S16.size a ≤ S2304.size a
  k0_off144_inb : ∀ k0_t4 : Fin k0_t4_loop.trips, ∀ a, (k0_off144 k0_t4) a + S1x1x1x16.size a ≤ S8x6x8x128.size a
  k0_off145_inb : ∀ k0_t4 : Fin k0_t4_loop.trips, ∀ a, (k0_off145 k0_t4) a + S1x1x1x16.size a ≤ S8x6x8x128.size a
  k0_off146_inb : ∀ k0_t4 : Fin k0_t4_loop.trips, ∀ a, (k0_off146 k0_t4) a + S1x1x1x16.size a ≤ S8x6x8x128.size a
  k0_off147_inb : ∀ k0_t4 : Fin k0_t4_loop.trips, ∀ a, (k0_off147 k0_t4) a + S1x1x1x16.size a ≤ S8x6x8x128.size a
  k0_off148_inb : ∀ k0_t4 : Fin k0_t4_loop.trips, ∀ a, (k0_off148 k0_t4) a + S1x1x1x16.size a ≤ S8x6x8x128.size a
  k0_off149_inb : ∀ k0_t4 : Fin k0_t4_loop.trips, ∀ a, (k0_off149 k0_t4) a + S1x1x1x16.size a ≤ S8x6x8x128.size a
  k0_off150_inb : ∀ k0_t4 : Fin k0_t4_loop.trips, ∀ a, (k0_off150 k0_t4) a + S1x1x1x16.size a ≤ S8x6x8x128.size a
  k0_off151_inb : ∀ k0_t4 : Fin k0_t4_loop.trips, ∀ a, (k0_off151 k0_t4) a + S1x1x1x16.size a ≤ S8x6x8x128.size a
  k0_off152_inb : ∀ k0_t4 : Fin k0_t4_loop.trips, ∀ a, (k0_off152 k0_t4) a + S1x1x1x16.size a ≤ S8x6x8x128.size a
  k0_off153_inb : ∀ k0_t4 : Fin k0_t4_loop.trips, ∀ a, (k0_off153 k0_t4) a + S1x1x1x16.size a ≤ S8x6x8x128.size a
  k0_off154_inb : ∀ k0_t4 : Fin k0_t4_loop.trips, ∀ a, (k0_off154 k0_t4) a + S1x1x1x16.size a ≤ S8x6x8x128.size a
  k0_off155_inb : ∀ k0_t4 : Fin k0_t4_loop.trips, ∀ a, (k0_off155 k0_t4) a + S1x1x1x16.size a ≤ S8x6x8x128.size a
  k0_off156_inb : ∀ k0_t4 : Fin k0_t4_loop.trips, ∀ a, (k0_off156 k0_t4) a + S1x1x1x16.size a ≤ S8x6x8x128.size a
  k0_off157_inb : ∀ k0_t4 : Fin k0_t4_loop.trips, ∀ a, (k0_off157 k0_t4) a + S1x1x1x16.size a ≤ S8x6x8x128.size a
  k0_off158_inb : ∀ k0_t4 : Fin k0_t4_loop.trips, ∀ a, (k0_off158 k0_t4) a + S1x1x1x16.size a ≤ S8x6x8x128.size a
  k0_off159_inb : ∀ k0_t4 : Fin k0_t4_loop.trips, ∀ a, (k0_off159 k0_t4) a + S1x1x1x16.size a ≤ S8x6x8x128.size a
  k0_off160_inb : ∀ k0_t4 : Fin k0_t4_loop.trips, ∀ a, (k0_off160 k0_t4) a + S1x1x1x16.size a ≤ S8x6x8x128.size a
  k0_off161_inb : ∀ k0_t4 : Fin k0_t4_loop.trips, ∀ a, (k0_off161 k0_t4) a + S1x1x1x16.size a ≤ S8x6x8x128.size a
  k0_off162_inb : ∀ k0_t4 : Fin k0_t4_loop.trips, ∀ a, (k0_off162 k0_t4) a + S1x1x1x16.size a ≤ S8x6x8x128.size a
  k0_off163_inb : ∀ k0_t4 : Fin k0_t4_loop.trips, ∀ a, (k0_off163 k0_t4) a + S1x1x1x16.size a ≤ S8x6x8x128.size a
  k0_off164_inb : ∀ k0_t4 : Fin k0_t4_loop.trips, ∀ a, (k0_off164 k0_t4) a + S1x1x1x16.size a ≤ S8x6x8x128.size a
  k0_off165_inb : ∀ k0_t4 : Fin k0_t4_loop.trips, ∀ a, (k0_off165 k0_t4) a + S1x1x1x16.size a ≤ S8x6x8x128.size a
  k0_off166_inb : ∀ k0_t4 : Fin k0_t4_loop.trips, ∀ a, (k0_off166 k0_t4) a + S1x1x1x16.size a ≤ S8x6x8x128.size a
  k0_off167_inb : ∀ k0_t4 : Fin k0_t4_loop.trips, ∀ a, (k0_off167 k0_t4) a + S1x1x1x16.size a ≤ S8x6x8x128.size a
  k0_off168_inb : ∀ k0_t4 : Fin k0_t4_loop.trips, ∀ a, (k0_off168 k0_t4) a + S1x1x1x16.size a ≤ S8x6x8x128.size a
  k0_off169_inb : ∀ k0_t4 : Fin k0_t4_loop.trips, ∀ a, (k0_off169 k0_t4) a + S1x1x1x16.size a ≤ S8x6x8x128.size a
  k0_off170_inb : ∀ k0_t4 : Fin k0_t4_loop.trips, ∀ a, (k0_off170 k0_t4) a + S1x1x1x16.size a ≤ S8x6x8x128.size a
  k0_off171_inb : ∀ k0_t4 : Fin k0_t4_loop.trips, ∀ a, (k0_off171 k0_t4) a + S1x1x1x16.size a ≤ S8x6x8x128.size a
  k0_off172_inb : ∀ k0_t4 : Fin k0_t4_loop.trips, ∀ a, (k0_off172 k0_t4) a + S1x1x1x16.size a ≤ S8x6x8x128.size a
  k0_off173_inb : ∀ k0_t4 : Fin k0_t4_loop.trips, ∀ a, (k0_off173 k0_t4) a + S1x1x1x16.size a ≤ S8x6x8x128.size a
  k0_off174_inb : ∀ k0_t4 : Fin k0_t4_loop.trips, ∀ a, (k0_off174 k0_t4) a + S1x1x1x16.size a ≤ S8x6x8x128.size a
  k0_off175_inb : ∀ k0_t4 : Fin k0_t4_loop.trips, ∀ a, (k0_off175 k0_t4) a + S1x1x1x16.size a ≤ S8x6x8x128.size a
  k0_off176_inb : ∀ k0_t4 : Fin k0_t4_loop.trips, ∀ a, (k0_off176 k0_t4) a + S1x1x1x16.size a ≤ S8x6x8x128.size a
  k0_off177_inb : ∀ k0_t4 : Fin k0_t4_loop.trips, ∀ a, (k0_off177 k0_t4) a + S1x1x1x16.size a ≤ S8x6x8x128.size a
  k0_off178_inb : ∀ k0_t4 : Fin k0_t4_loop.trips, ∀ a, (k0_off178 k0_t4) a + S1x1x1x16.size a ≤ S8x6x8x128.size a
  k0_off179_inb : ∀ k0_t4 : Fin k0_t4_loop.trips, ∀ a, (k0_off179 k0_t4) a + S1x1x1x16.size a ≤ S8x6x8x128.size a
  k0_off180_inb : ∀ k0_t4 : Fin k0_t4_loop.trips, ∀ a, (k0_off180 k0_t4) a + S1x1x1x16.size a ≤ S8x6x8x128.size a
  k0_off181_inb : ∀ k0_t4 : Fin k0_t4_loop.trips, ∀ a, (k0_off181 k0_t4) a + S1x1x1x16.size a ≤ S8x6x8x128.size a
  k0_off182_inb : ∀ k0_t4 : Fin k0_t4_loop.trips, ∀ a, (k0_off182 k0_t4) a + S1x1x1x16.size a ≤ S8x6x8x128.size a
  k0_off183_inb : ∀ k0_t4 : Fin k0_t4_loop.trips, ∀ a, (k0_off183 k0_t4) a + S1x1x1x16.size a ≤ S8x6x8x128.size a
  k0_off184_inb : ∀ k0_t4 : Fin k0_t4_loop.trips, ∀ a, (k0_off184 k0_t4) a + S1x1x1x16.size a ≤ S8x6x8x128.size a
  k0_off185_inb : ∀ k0_t4 : Fin k0_t4_loop.trips, ∀ a, (k0_off185 k0_t4) a + S1x1x1x16.size a ≤ S8x6x8x128.size a
  k0_off186_inb : ∀ k0_t4 : Fin k0_t4_loop.trips, ∀ a, (k0_off186 k0_t4) a + S1x1x1x16.size a ≤ S8x6x8x128.size a
  k0_off187_inb : ∀ k0_t4 : Fin k0_t4_loop.trips, ∀ a, (k0_off187 k0_t4) a + S1x1x1x16.size a ≤ S8x6x8x128.size a
  k0_off188_inb : ∀ k0_t4 : Fin k0_t4_loop.trips, ∀ a, (k0_off188 k0_t4) a + S1x1x1x16.size a ≤ S8x6x8x128.size a
  k0_off189_inb : ∀ k0_t4 : Fin k0_t4_loop.trips, ∀ a, (k0_off189 k0_t4) a + S1x1x1x16.size a ≤ S8x6x8x128.size a
  k0_off190_inb : ∀ k0_t4 : Fin k0_t4_loop.trips, ∀ a, (k0_off190 k0_t4) a + S1x1x1x16.size a ≤ S8x6x8x128.size a
  k0_off191_inb : ∀ k0_t4 : Fin k0_t4_loop.trips, ∀ a, (k0_off191 k0_t4) a + S1x1x1x16.size a ≤ S8x6x8x128.size a
  k0_off192_inb : ∀ k0_t4 : Fin k0_t4_loop.trips, ∀ a, (k0_off192 k0_t4) a + S1x1x1x16.size a ≤ S8x6x8x128.size a
  k0_off193_inb : ∀ k0_t4 : Fin k0_t4_loop.trips, ∀ a, (k0_off193 k0_t4) a + S1x1x1x16.size a ≤ S8x6x8x128.size a
  k0_off194_inb : ∀ k0_t4 : Fin k0_t4_loop.trips, ∀ a, (k0_off194 k0_t4) a + S1x1x1x16.size a ≤ S8x6x8x128.size a
  k0_off195_inb : ∀ k0_t4 : Fin k0_t4_loop.trips, ∀ a, (k0_off195 k0_t4) a + S1x1x1x16.size a ≤ S8x6x8x128.size a
  k0_off196_inb : ∀ k0_t4 : Fin k0_t4_loop.trips, ∀ a, (k0_off196 k0_t4) a + S1x1x1x16.size a ≤ S8x6x8x128.size a
  k0_off197_inb : ∀ k0_t4 : Fin k0_t4_loop.trips, ∀ a, (k0_off197 k0_t4) a + S1x1x1x16.size a ≤ S8x6x8x128.size a
  k0_off198_inb : ∀ k0_t4 : Fin k0_t4_loop.trips, ∀ a, (k0_off198 k0_t4) a + S1x1x1x16.size a ≤ S8x6x8x128.size a
  k0_off199_inb : ∀ k0_t4 : Fin k0_t4_loop.trips, ∀ a, (k0_off199 k0_t4) a + S1x1x1x16.size a ≤ S8x6x8x128.size a
  k0_off200_inb : ∀ k0_t4 : Fin k0_t4_loop.trips, ∀ a, (k0_off200 k0_t4) a + S1x1x1x16.size a ≤ S8x6x8x128.size a
  k0_off201_inb : ∀ k0_t4 : Fin k0_t4_loop.trips, ∀ a, (k0_off201 k0_t4) a + S1x1x1x16.size a ≤ S8x6x8x128.size a
  k0_off202_inb : ∀ k0_t4 : Fin k0_t4_loop.trips, ∀ a, (k0_off202 k0_t4) a + S1x1x1x16.size a ≤ S8x6x8x128.size a
  k0_off203_inb : ∀ k0_t4 : Fin k0_t4_loop.trips, ∀ a, (k0_off203 k0_t4) a + S1x1x1x16.size a ≤ S8x6x8x128.size a
  k0_off204_inb : ∀ k0_t4 : Fin k0_t4_loop.trips, ∀ a, (k0_off204 k0_t4) a + S1x1x1x16.size a ≤ S8x6x8x128.size a
  k0_off205_inb : ∀ k0_t4 : Fin k0_t4_loop.trips, ∀ a, (k0_off205 k0_t4) a + S1x1x1x16.size a ≤ S8x6x8x128.size a
  k0_off206_inb : ∀ k0_t4 : Fin k0_t4_loop.trips, ∀ a, (k0_off206 k0_t4) a + S1x1x1x16.size a ≤ S8x6x8x128.size a
  k0_off207_inb : ∀ k0_t4 : Fin k0_t4_loop.trips, ∀ a, (k0_off207 k0_t4) a + S1x1x1x16.size a ≤ S8x6x8x128.size a

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3

class Facts : Prop extends Facts₀ where

variable [Facts]
-- ==== ReferenceIdeal.lean ====
abbrev S800000x3 : Shape := ⟨2, ![800000, 3]⟩
abbrev S5x64 : Shape := ⟨2, ![5, 64]⟩
abbrev S6x64 : Shape := ⟨2, ![6, 64]⟩
abbrev S2x64 : Shape := ⟨2, ![2, 64]⟩
abbrev S_ : Shape := ⟨0, ![]⟩
abbrev S800000x64 : Shape := ⟨2, ![800000, 64]⟩
abbrev S800000x1 : Shape := ⟨2, ![800000, 1]⟩
abbrev S800000 : Shape := ⟨1, ![800000]⟩
abbrev S1 : Shape := ⟨1, ![1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S800000x3, .i32⟩
  | .hbm, ⟨1, _⟩ => ⟨S5x64, .f32⟩
  | .hbm, ⟨2, _⟩ => ⟨S6x64, .f32⟩
  | .hbm, ⟨3, _⟩ => ⟨S2x64, .f32⟩
  | .hbm, ⟨4, _⟩ => ⟨S_, .f32⟩
  | .hbm, ⟨5, _⟩ => ⟨S800000x64, .f32⟩
  | .hbm, ⟨6, _⟩ => ⟨S800000x1, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S1, .i32⟩
  | .hbm, ⟨17, _⟩ => ⟨S_, .i32⟩
  | .hbm, ⟨18, _⟩ => ⟨S800000x1, .i32⟩
  | .hbm, ⟨19, _⟩ => ⟨S800000x1, .i1⟩
  | .hbm, ⟨20, _⟩ => ⟨S1x1, .i32⟩
  | .hbm, ⟨21, _⟩ => ⟨S800000x1, .i32⟩
  | .hbm, ⟨22, _⟩ => ⟨S800000x1, .i1⟩
  | .hbm, ⟨23, _⟩ => ⟨S800000x1, .i1⟩
  | .hbm, ⟨24, _⟩ => ⟨S_, .i1⟩
  | .hbm, ⟨25, _⟩ => ⟨S800000, .i1⟩
  | .hbm, ⟨26, _⟩ => ⟨S800000x64, .f32⟩
  | .hbm, ⟨27, _⟩ => ⟨S800000x64, .i1⟩
  | .hbm, ⟨28, _⟩ => ⟨S_, .f32⟩
  | .hbm, ⟨29, _⟩ => ⟨S800000x64, .f32⟩
  | .hbm, ⟨30, _⟩ => ⟨S800000x64, .f32⟩
  | .hbm, ⟨31, _⟩ => ⟨S800000x64, .f32⟩
  | .hbm, ⟨32, _⟩ => ⟨S800000x1, .i32⟩
  | .hbm, ⟨33, _⟩ => ⟨S800000, .i32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S1, .i32⟩
  | .hbm, ⟨43, _⟩ => ⟨S_, .i32⟩
  | .hbm, ⟨44, _⟩ => ⟨S800000x1, .i32⟩
  | .hbm, ⟨45, _⟩ => ⟨S800000x1, .i1⟩
  | .hbm, ⟨46, _⟩ => ⟨S1x1, .i32⟩
  | .hbm, ⟨47, _⟩ => ⟨S800000x1, .i32⟩
  | .hbm, ⟨48, _⟩ => ⟨S800000x1, .i1⟩
  | .hbm, ⟨49, _⟩ => ⟨S800000x1, .i1⟩
  | .hbm, ⟨50, _⟩ => ⟨S_, .i1⟩
  | .hbm, ⟨51, _⟩ => ⟨S800000, .i1⟩
  | .hbm, ⟨52, _⟩ => ⟨S800000x64, .f32⟩
  | .hbm, ⟨53, _⟩ => ⟨S800000x64, .i1⟩
  | .hbm, ⟨54, _⟩ => ⟨S_, .f32⟩
  | .hbm, ⟨55, _⟩ => ⟨S800000x64, .f32⟩
  | .hbm, ⟨56, _⟩ => ⟨S800000x64, .f32⟩
  | .hbm, ⟨57, _⟩ => ⟨S800000x64, .f32⟩
  | .hbm, ⟨58, _⟩ => ⟨S800000x1, .i32⟩
  | .hbm, ⟨59, _⟩ => ⟨S800000, .i32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S1, .i32⟩
  | .hbm, ⟨69, _⟩ => ⟨S_, .i32⟩
  | .hbm, ⟨70, _⟩ => ⟨S800000x1, .i32⟩
  | .hbm, ⟨71, _⟩ => ⟨S800000x1, .i1⟩
  | .hbm, ⟨72, _⟩ => ⟨S1x1, .i32⟩
  | .hbm, ⟨73, _⟩ => ⟨S800000x1, .i32⟩
  | .hbm, ⟨74, _⟩ => ⟨S800000x1, .i1⟩
  | .hbm, ⟨75, _⟩ => ⟨S800000x1, .i1⟩
  | .hbm, ⟨76, _⟩ => ⟨S_, .i1⟩
  | .hbm, ⟨77, _⟩ => ⟨S800000, .i1⟩
  | .hbm, ⟨78, _⟩ => ⟨S800000x64, .f32⟩
  | .hbm, ⟨79, _⟩ => ⟨S800000x64, .i1⟩
  | .hbm, ⟨80, _⟩ => ⟨S_, .f32⟩
  | .hbm, ⟨81, _⟩ => ⟨S800000x64, .f32⟩
  | .hbm, ⟨82, _⟩ => ⟨S800000x64, .f32⟩
  | .hbm, ⟨83, _⟩ => ⟨S800000x64, .f32⟩
  | _, _ => ⟨S800000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v11 : Ref sig .tc := ⟨.hbm, 82, rfl⟩
abbrev main_v12 : Ref sig .tc := ⟨.hbm, 83, rfl⟩

abbrev nD : Nat := 1
abbrev τ : Topo := Topo.v7x

variable {F : FTy → Type} [FloatOps F]

class Facts₀ : Prop where
  bcast_S_S800000x64 : S_.BroadcastsInDim S800000x64 (![] : Fin 0 → Fin S800000x64.rank)
  slices_S800000x3_S800000x1_0_0 : S800000x3.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  slices_S800000x3_S800000x1_0_1 : S800000x3.Slices ![0, 1] S800000x1
  slices_S800000x3_S800000x1_0_2 : S800000x3.Slices ![0, 2] S800000x1
  gather_S5x64_S800000x1_S800000x64_1_0_n_n_0_1_164_wf : GatherDims.WF S5x64 S800000x1 S800000x64 [1] [0] [] [0] [] 1 ![1, 64]
  gather_S6x64_S800000x1_S800000x64_1_0_n_n_0_1_164_wf : GatherDims.WF S6x64 S800000x1 S800000x64 [1] [0] [] [0] [] 1 ![1, 64]
  gather_S2x64_S800000x1_S800000x64_1_0_n_n_0_1_164_wf : GatherDims.WF S2x64 S800000x1 S800000x64 [1] [0] [] [0] [] 1 ![1, 64]

variable [Facts₀]

def gather_S5x64_S800000x1_S800000x64_1_0_n_n_0_1_164 : GatherDims S5x64 S800000x1 S800000x64 where
  offsetDims := [1]
  collapsedSliceDims := [0]
  operandBatchingDims := []
  startIndicesBatchingDims := []
  startIndexMap := [0]
  indexVectorDim := 1
  sliceSizes := ![1, 64]
  wf := gather_S5x64_S800000x1_S800000x64_1_0_n_n_0_1_164_wf
def gather_S6x64_S800000x1_S800000x64_1_0_n_n_0_1_164 : GatherDims S6x64 S800000x1 S800000x64 where
  offsetDims := [1]
  collapsedSliceDims := [0]
  operandBatchingDims := []
  startIndicesBatchingDims := []
  startIndexMap := [0]
  indexVectorDim := 1
  sliceSizes := ![1, 64]
  wf := gather_S6x64_S800000x1_S800000x64_1_0_n_n_0_1_164_wf
def gather_S2x64_S800000x1_S800000x64_1_0_n_n_0_1_164 : GatherDims S2x64 S800000x1 S800000x64 where
  offsetDims := [1]
  collapsedSliceDims := [0]
  operandBatchingDims := []
  startIndicesBatchingDims := []
  startIndexMap := [0]
  indexVectorDim := 1
  sliceSizes := ![1, 64]
  wf := gather_S2x64_S800000x1_S800000x64_1_0_n_n_0_1_164_wf

class Facts : Prop extends Facts₀ where

variable [Facts]
-- ==== Proof.Spec.lean ====
/-
  The specification both programs are compared with: a bond embedding. Every edge e carries three attribute
  words a(e,0), a(e,1), a(e,2); each names a row of its own table (5, 6 and 2 rows of 64 columns), and the
  embedding of the edge is the sum of the three named rows, column by column, on the extended reals:

      out(e, c) = (W0(a(e,0), c) + W1(a(e,1), c)) + W2(a(e,2), c).

  An attribute word is read as a row number by its value reduced into the table's extent (`rowOf`); where
  every word is 0 or 1 (`InRange`), the reduction changes nothing.
-/
import Idealize.ShloMosaic.PureOps.Ideal
import Idealize.ShloMosaic.Lib.ValueIdx

noncomputable section

namespace Cert.Spec

open Idealize.ShloMosaic Idealize.ShloMosaic.ValueIdx

abbrev SA : Shape := ⟨2, ![800000, 3]⟩
abbrev SW0 : Shape := ⟨2, ![5, 64]⟩
abbrev SW1 : Shape := ⟨2, ![6, 64]⟩
abbrev SW2 : Shape := ⟨2, ![2, 64]⟩
abbrev SO : Shape := ⟨2, ![800000, 64]⟩

/-- The row of an `n`-row table that a 32-bit attribute word names: its value, reduced into `0 … n-1`. -/
def rowOf (n : Nat) [NeZero n] (w : BitVec 32) : Fin n := Fin.ofNat n w.toNat

/-- Every attribute word is 0 or 1. -/
def InRange (a : IVec SA 32) : Prop := ∀ (e : Fin 800000) (f : Fin 3), a (ix2 e f) = 0#32 ∨ a (ix2 e f) = 1#32

/-- The embedding of edge `e` at column `c`: the three named rows, added left to right. -/
def outAt (a : IVec SA 32) (W0 : FVec Ideal SW0 .f32) (W1 : FVec Ideal SW1 .f32) (W2 : FVec Ideal SW2 .f32)
    (e : Fin 800000) (c : Fin 64) : Ideal .f32 :=
  (W0 (ix2 (rowOf 5 (a (ix2 e (0 : Fin 3)))) c) + W1 (ix2 (rowOf 6 (a (ix2 e (1 : Fin 3)))) c))
    + W2 (ix2 (rowOf 2 (a (ix2 e (2 : Fin 3)))) c)

/-- The whole result array. -/
def out (a : IVec SA 32) (W0 : FVec Ideal SW0 .f32) (W1 : FVec Ideal SW1 .f32) (W2 : FVec Ideal SW2 .f32) :
    FVec Ideal SO .f32 :=
  fun i => outAt a W0 W1 W2 (i 0) (i 1)

theorem out_apply (a : IVec SA 32) (W0 : FVec Ideal SW0 .f32) (W1 : FVec Ideal SW1 .f32) (W2 : FVec Ideal SW2 .f32)
    (e : Fin 800000) (c : Fin 64) : out a W0 W1 W2 (ix2 e c) = outAt a W0 W1 W2 e c := rfl

/-- A word that is 0 or 1 names row 0 or 1 of any table with at least two rows. -/
theorem rowOf_val {n : Nat} [NeZero n] (hn : 2 ≤ n) {w : BitVec 32} (h : w = 0#32 ∨ w = 1#32) :
    (rowOf n w).val = w.toNat := by
  rcases h with rfl | rfl
  · show (0 % n) = 0; exact Nat.zero_mod n
  · show (1 % n) = 1; exact Nat.mod_eq_of_lt (by omega)

end Cert.Spec

end
-- ==== Proof.PreRange.lean ====
/-
  The precondition, read back as a range fact. The printed predicate is a conjunction of one-bit words; its last
  conjunct is the reduction by `and`, over every entry of the attribute array, of the bit
  `(0 ≤ a(e,f)) and (a(e,f) ≤ 1)`, both comparisons signed. Where the predicate is 1 that reduction is 1, so the bit is 1 at
  each entry, so each attribute word read as a signed integer lies between 0 and 1, and such a word is 0 or 1.
  Everything is done at one entry `(e, f)`: no term here ranges over the index set.
-/
import proofs.«203789_g40862318854646_cont_8to1_b_1018_13_alg».proof.Pre_input_domain
import proofs.«203789_g40862318854646_cont_8to1_b_1018_13_alg».proof.Proof.Gen.Pre_input_domain
import proofs.«203789_g40862318854646_cont_8to1_b_1018_13_alg».proof.Proof.Spec
import Idealize.ShloMosaic.Lib.Affine
import Idealize.ShloMosaic.Lib.ReduceAll
import Idealize.ShloMosaic.Lib.ValueIdx

namespace Cert.PreRange

open Idealize.ShloMosaic Idealize.ShloMosaic.ValueIdx

/-- A 32-bit word whose signed value is at least that of the word 0 and at most that of the word 1 is one of the two. -/
theorem eq_zero_or_one_of_toInt (w : BitVec 32) (h0 : (0#32 : BitVec 32).toInt ≤ w.toInt)
    (h1 : w.toInt ≤ (1#32 : BitVec 32).toInt) : w = 0#32 ∨ w = 1#32 := by
  rw [show (0#32 : BitVec 32).toInt = 0 from by decide] at h0
  rw [show (1#32 : BitVec 32).toInt = 1 from by decide] at h1
  have e := BitVec.toInt_eq_toNat_cond w
  have hlt := w.isLt
  have hw : w.toNat = 0 ∨ w.toNat = 1 := by omega
  rcases hw with hw | hw
  · exact Or.inl (BitVec.eq_of_toNat_eq hw)
  · exact Or.inr (BitVec.eq_of_toNat_eq hw)

/-- The scalar shape has one index. -/
instance : Subsingleton Cert.Pre_input_domain.S_.Idx := ⟨fun _ _ => funext fun d => d.elim0⟩

/-- Where the printed precondition holds, every attribute word is 0 or 1, entry by entry. -/
theorem inRange_apply {F : FTy → Type} [FloatOps F] [Cert.Pre_input_domain.Facts]
    (a : IVec Cert.Pre_input_domain.S800000x3 32) (W0 : FVec F Cert.Pre_input_domain.S5x64 .f32)
    (W1 : FVec F Cert.Pre_input_domain.S6x64 .f32) (W2 : FVec F Cert.Pre_input_domain.S2x64 .f32)
    (h : Cert.Pre_input_domain.fn (F := F) a W0 W1 W2 = fun _ => 1#1) (e : Fin 800000) (f : Fin 3) :
    a (ix2 e f) = 0#32 ∨ a (ix2 e f) = 1#32 := by
  -- the predicate's one word, with the chain of operations in view
  have h0 := congrFun h ix0
  dsimp only [Cert.Pre_input_domain.fn, Cert.Pre_input_domain.fn_part1] at h0
  -- its last conjunct: the reduction by `and` over all entries is 1, hence so is the bit at (e, f)
  have hall := (IntOp.andi_eq_one.1 h0).2
  have hbit := Host.reduce_andi_all _ _ _ _ _ hall (ix2 e f)
  -- that bit is the conjunction of the two signed comparisons against the constants 0 and 1
  obtain ⟨hge, hle⟩ := IntOp.andi_eq_one.1 hbit
  exact eq_zero_or_one_of_toInt _ (IntOp.cmpi_sge.1 hge) (IntOp.cmpi_sle.1 hle)

/-- Where the printed precondition holds, the attribute array is in range. -/
theorem inRange {F : FTy → Type} [FloatOps F] [Cert.Pre_input_domain.Facts]
    (a : IVec Cert.Pre_input_domain.S800000x3 32) (W0 : FVec F Cert.Pre_input_domain.S5x64 .f32)
    (W1 : FVec F Cert.Pre_input_domain.S6x64 .f32) (W2 : FVec F Cert.Pre_input_domain.S2x64 .f32)
    (h : Cert.Pre_input_domain.fn (F := F) a W0 W1 W2 = fun _ => 1#1) : Cert.Spec.InRange a :=
  fun e f => inRange_apply a W0 W1 W2 h e f

end Cert.PreRange
-- ==== Proof.RefOps.lean ====
/-
  The reference program's run: its @main written out as the straight line of its eighty host operations
  (the three table lookups' bodies in place at their calls, each over its call's own buffers), and what
  every buffer holds after the line.
-/
import proofs.«203789_g40862318854646_cont_8to1_b_1018_13_alg».proof.ReferenceIdeal
import Idealize.ShloMosaic.Lib.StableHlo.Run

noncomputable section

namespace Cert.RefOps

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- @main's operations in order, each lookup's twenty-three (the negative-index shift and its select, the range
    mask and its reduction, the gather, the fill) listed where it is called. -/
abbrev ops : List (HloOp τ sig (Elt F)) :=
  [ nullary main_cst (constant S_ .f32 0x00000000#32),
    unary main_cst main_v0 (broadcastInDim S800000x64 ![] bcast_S_S800000x64 : (⟨S_, .f32⟩ : BufTy).Contents (Elt F) → (⟨S800000x64, .f32⟩ : BufTy).Contents (Elt F)),
    unary main_arg0 main_v1 ((extractStridedSlice S800000x1 ![0, 0] · slices_S800000x3_S800000x1_0_0) : (⟨S800000x3, .i32⟩ : BufTy).Contents (Elt F) → (⟨S800000x1, .i32⟩ : BufTy).Contents (Elt F)),
    reshape main_v1 main_v2 rfl shapeCasts_S800000x1_S800000,
    TRef.nullary main_call0.c (constantI S_ 32 0#32),
    TRef.unary main_call0.c main_call0.v0 (broadcastInDim S800000 ![] bcast_S_S800000),
    TRef.binary (.of main_v2 : TRef sig ⟨S800000, .i32⟩) main_call0.v0 main_call0.v1 (cmpi .slt),
    TRef.nullary main_call0.c_0 (constantI S_ 32 5#32),
    TRef.unary main_call0.c_0 main_call0.v2 (broadcastInDim S800000 ![] bcast_S_S800000),
    TRef.binary (.of main_v2 : TRef sig ⟨S800000, .i32⟩) main_call0.v2 main_call0.v3 addi,
    TRef.ternary main_call0.v1 main_call0.v3 (.of main_v2 : TRef sig ⟨S800000, .i32⟩) main_call0.call0.v0 select,
    TRef.unary main_call0.call0.v0 main_call0.v5 (broadcastInDim S800000x1 ![0] bcast_S800000_S800000x1_0),
    TRef.nullary main_call0.c_1 (constantI S1 32 4#32),
    TRef.nullary main_call0.c_2 (constantI S_ 32 0#32),
    TRef.unary main_call0.c_2 main_call0.v6 (broadcastInDim S800000x1 ![] bcast_S_S800000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S800000x1 ![0, 1] bcast_S1x1_S800000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S800000x1_S800000_d1 h_S_),
    TRef.binary (.of main_arg1 : TRef sig ⟨S5x64, .f32⟩) main_call0.v5 main_call0.v13 (fun x i => Host.gather gather_S5x64_S800000x1_S800000x64_1_0_n_n_0_1_164 x i),
    TRef.unary main_call0.v12 main_call0.v14 (broadcastInDim S800000x64 ![0] bcast_S800000_S800000x64_0),
    TRef.nullary main_call0.cst (constant S_ .f32 0x7FC00000#32),
    TRef.unary main_call0.cst main_call0.v15 (broadcastInDim S800000x64 ![] bcast_S_S800000x64),
    TRef.ternary main_call0.v14 main_call0.v13 main_call0.v15 main_call0.v16 select,
    binary main_v0 main_v3 main_v4 (addf : (⟨S800000x64, .f32⟩ : BufTy).Contents (Elt F) → (⟨S800000x64, .f32⟩ : BufTy).Contents (Elt F) → (⟨S800000x64, .f32⟩ : BufTy).Contents (Elt F)),
    unary main_arg0 main_v5 ((extractStridedSlice S800000x1 ![0, 1] · slices_S800000x3_S800000x1_0_1) : (⟨S800000x3, .i32⟩ : BufTy).Contents (Elt F) → (⟨S800000x1, .i32⟩ : BufTy).Contents (Elt F)),
    reshape main_v5 main_v6 rfl shapeCasts_S800000x1_S800000,
    TRef.nullary main_call1.c (constantI S_ 32 0#32),
    TRef.unary main_call1.c main_call1.v0 (broadcastInDim S800000 ![] bcast_S_S800000),
    TRef.binary (.of main_v6 : TRef sig ⟨S800000, .i32⟩) main_call1.v0 main_call1.v1 (cmpi .slt),
    TRef.nullary main_call1.c_0 (constantI S_ 32 6#32),
    TRef.unary main_call1.c_0 main_call1.v2 (broadcastInDim S800000 ![] bcast_S_S800000),
    TRef.binary (.of main_v6 : TRef sig ⟨S800000, .i32⟩) main_call1.v2 main_call1.v3 addi,
    TRef.ternary main_call1.v1 main_call1.v3 (.of main_v6 : TRef sig ⟨S800000, .i32⟩) main_call1.call0.v0 select,
    TRef.unary main_call1.call0.v0 main_call1.v5 (broadcastInDim S800000x1 ![0] bcast_S800000_S800000x1_0),
    TRef.nullary main_call1.c_1 (constantI S1 32 5#32),
    TRef.nullary main_call1.c_2 (constantI S_ 32 0#32),
    TRef.unary main_call1.c_2 main_call1.v6 (broadcastInDim S800000x1 ![] bcast_S_S800000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S800000x1 ![0, 1] bcast_S1x1_S800000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S800000x1_S800000_d1 h_S_),
    TRef.binary (.of main_arg2 : TRef sig ⟨S6x64, .f32⟩) main_call1.v5 main_call1.v13 (fun x i => Host.gather gather_S6x64_S800000x1_S800000x64_1_0_n_n_0_1_164 x i),
    TRef.unary main_call1.v12 main_call1.v14 (broadcastInDim S800000x64 ![0] bcast_S800000_S800000x64_0),
    TRef.nullary main_call1.cst (constant S_ .f32 0x7FC00000#32),
    TRef.unary main_call1.cst main_call1.v15 (broadcastInDim S800000x64 ![] bcast_S_S800000x64),
    TRef.ternary main_call1.v14 main_call1.v13 main_call1.v15 main_call1.v16 select,
    binary main_v4 main_v7 main_v8 (addf : (⟨S800000x64, .f32⟩ : BufTy).Contents (Elt F) → (⟨S800000x64, .f32⟩ : BufTy).Contents (Elt F) → (⟨S800000x64, .f32⟩ : BufTy).Contents (Elt F)),
    unary main_arg0 main_v9 ((extractStridedSlice S800000x1 ![0, 2] · slices_S800000x3_S800000x1_0_2) : (⟨S800000x3, .i32⟩ : BufTy).Contents (Elt F) → (⟨S800000x1, .i32⟩ : BufTy).Contents (Elt F)),
    reshape main_v9 main_v10 rfl shapeCasts_S800000x1_S800000,
    TRef.nullary main_call2.c (constantI S_ 32 0#32),
    TRef.unary main_call2.c main_call2.v0 (broadcastInDim S800000 ![] bcast_S_S800000),
    TRef.binary (.of main_v10 : TRef sig ⟨S800000, .i32⟩) main_call2.v0 main_call2.v1 (cmpi .slt),
    TRef.nullary main_call2.c_0 (constantI S_ 32 2#32),
    TRef.unary main_call2.c_0 main_call2.v2 (broadcastInDim S800000 ![] bcast_S_S800000),
    TRef.binary (.of main_v10 : TRef sig ⟨S800000, .i32⟩) main_call2.v2 main_call2.v3 addi,
    TRef.ternary main_call2.v1 main_call2.v3 (.of main_v10 : TRef sig ⟨S800000, .i32⟩) main_call2.call0.v0 select,
    TRef.unary main_call2.call0.v0 main_call2.v5 (broadcastInDim S800000x1 ![0] bcast_S800000_S800000x1_0),
    TRef.nullary main_call2.c_1 (constantI S1 32 1#32),
    TRef.nullary main_call2.c_2 (constantI S_ 32 0#32),
    TRef.unary main_call2.c_2 main_call2.v6 (broadcastInDim S800000x1 ![] bcast_S_S800000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S800000x1 ![0, 1] bcast_S1x1_S800000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S800000x1_S800000_d1 h_S_),
    TRef.binary (.of main_arg3 : TRef sig ⟨S2x64, .f32⟩) main_call2.v5 main_call2.v13 (fun x i => Host.gather gather_S2x64_S800000x1_S800000x64_1_0_n_n_0_1_164 x i),
    TRef.unary main_call2.v12 main_call2.v14 (broadcastInDim S800000x64 ![0] bcast_S800000_S800000x64_0),
    TRef.nullary main_call2.cst (constant S_ .f32 0x7FC00000#32),
    TRef.unary main_call2.cst main_call2.v15 (broadcastInDim S800000x64 ![] bcast_S_S800000x64),
    TRef.ternary main_call2.v14 main_call2.v13 main_call2.v15 main_call2.v16 select,
    binary main_v8 main_v11 main_v12 (addf : (⟨S800000x64, .f32⟩ : BufTy).Contents (Elt F) → (⟨S800000x64, .f32⟩ : BufTy).Contents (Elt F) → (⟨S800000x64, .f32⟩ : BufTy).Contents (Elt F)) ]

-- eighty binds re-associated: one level of recursion per statement
set_option maxRecDepth 4096 in
set_option maxHeartbeats 4000000 in
/-- @main is that straight line: the lookups' definitions unfolded at their calls, sequencing reassociated. -/
theorem main_eq (c : Dev nD) : main (F := F) c = seq ops := by
  simp only [main, fn_take.body, fn_take_0.body, fn_take_1.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

set_option maxRecDepth 4096 in
/-- From any memory with zero counters every weakly fair execution of @main terminates, each buffer at the
    fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefOps

end
-- ==== Proof.RefTerm.lean ====
/-
  The reference's result as one pure term of its four argument arrays — the stages of a table lookup named, the
  three lookups added to zero — and the run stated over it: every execution of @main ends with the result buffer at
  that term of the launch contents and the arguments unchanged.
-/
import proofs.«203789_g40862318854646_cont_8to1_b_1018_13_alg».proof.Proof.RefOps

noncomputable section

namespace Cert.RefRun

open Cert.ReferenceIdeal Cert.ReferenceIdeal.Facts₀ Cert.ReferenceIdeal.Facts Cert.RefOps
open Idealize.ShloMosaic Idealize.ShloMosaic.TcCoe Idealize.SL.Sem Idealize.ShloMosaic.StableHlo

variable {F : FTy → Type} [FloatOps F] [Cert.ReferenceIdeal.Facts]

/-! ## The reference's result as a pure term

The stages of one table lookup, named, and the whole result over them. -/

/-- Attribute column `k` of the edge array as a vector of words: the slice of that column, its unit axis dropped. -/
def col (k : Nat) (h : S800000x3.Slices ![0, k] S800000x1) (a : IVec S800000x3 32) : IVec S800000 32 :=
  fun i => shapeCast S800000 (extractStridedSlice S800000x1 ![0, k] a h) shapeCasts_S800000x1_S800000 i

/-- A lookup's row numbers: a negative word moved up by the table's extent `N`, any other left as it is. -/
def shifted (N : BitVec 32) (idx : IVec S800000 32) : IVec S800000 32 :=
  select (cmpi .slt idx (broadcastInDim S800000 ![] bcast_S_S800000 (constantI S_ 32 0#32)))
    (addi idx (broadcastInDim S800000 ![] bcast_S_S800000 (constantI S_ 32 N))) idx

/-- The row numbers as the gather's start indices, one per entry. -/
def startIdx (N : BitVec 32) (idx : IVec S800000 32) : IVec S800000x1 32 :=
  broadcastInDim S800000x1 ![0] bcast_S800000_S800000x1_0 (shifted N idx)

/-- Which entries' row numbers lie in `0 … M` (`M` the table's last row): the two tests, and-ed, reduced over the unit axis. -/
def inRangeMask (N M : BitVec 32) (idx : IVec S800000 32) : IVec S800000 1 :=
  Host.reduce IntOp.andi
    (andi (cmpi .sge (startIdx N idx) (broadcastInDim S800000x1 ![] bcast_S_S800000x1 (constantI S_ 32 0#32)))
      (cmpi .sle (startIdx N idx)
        (broadcastInDim S800000x1 ![0, 1] bcast_S1x1_S800000x1_0_1 (broadcastInDim S1x1 ![1] bcast_S1_S1x1_1 (constantI S1 32 M)))))
    (constantI S_ 1 1#1) reducesTo_S800000x1_S800000_d1 h_S_

/-- One table lookup in fill mode: the gathered rows where the row number is in range, the fill value elsewhere. -/
def takeFill {SW : Shape} (N M : BitVec 32) (g : GatherDims SW S800000x1 S800000x64) (W : FVec F SW .f32)
    (idx : IVec S800000 32) : FVec F S800000x64 .f32 :=
  select (broadcastInDim S800000x64 ![0] bcast_S800000_S800000x64_0 (inRangeMask N M idx))
    (Host.gather g W (startIdx N idx))
    (broadcastInDim S800000x64 ![] bcast_S_S800000x64 (constant S_ .f32 0x7FC00000#32))

/-- The reference's result for any float values: zero, plus the three lookups, added left to right. -/
def refOutF (a : IVec S800000x3 32) (W0 : FVec F S5x64 .f32) (W1 : FVec F S6x64 .f32) (W2 : FVec F S2x64 .f32) :
    FVec F S800000x64 .f32 :=
  addf (addf (addf (broadcastInDim S800000x64 ![] bcast_S_S800000x64 (constant S_ .f32 0x00000000#32))
        (takeFill 5#32 4#32 gather_S5x64_S800000x1_S800000x64_1_0_n_n_0_1_164 W0 (col 0 slices_S800000x3_S800000x1_0_0 a)))
      (takeFill 6#32 5#32 gather_S6x64_S800000x1_S800000x64_1_0_n_n_0_1_164 W1 (col 1 slices_S800000x3_S800000x1_0_1 a)))
    (takeFill 2#32 1#32 gather_S2x64_S800000x1_S800000x64_1_0_n_n_0_1_164 W2 (col 2 slices_S800000x3_S800000x1_0_2 a))

/-! ## The fold of the operations at the result and at the arguments -/

set_option maxRecDepth 8192 in
set_option maxHeartbeats 2000000 in
/-- After the eighty operations the result buffer holds `refOutF` of what the argument buffers held: each operation's
    result read at its own buffer, outermost first, the typed references' transports the identity at these literal
    references. -/
theorem out_eq (V : Valuation τ sig (Elt F)) : after ops V (main_v12 : DevRef τ sig)
    = refOutF (V (main_arg0 : DevRef τ sig)) (V (main_arg1 : DevRef τ sig)) (V (main_arg2 : DevRef τ sig))
        (V (main_arg3 : DevRef τ sig)) := by
  after_results_simp
  simp only [TRef.toBuf, TRef.ofBuf, cast_eq]
  unfold refOutF takeFill inRangeMask startIdx shifted col
  rfl

set_option maxRecDepth 8192 in
set_option maxHeartbeats 1000000 in
/-- No operation writes an argument. -/
theorem arg0_eq (V : Valuation τ sig (Elt F)) : after ops V (main_arg0 : DevRef τ sig) = V (main_arg0 : DevRef τ sig) := by
  after_results_simp
set_option maxRecDepth 8192 in
set_option maxHeartbeats 1000000 in
theorem arg1_eq (V : Valuation τ sig (Elt F)) : after ops V (main_arg1 : DevRef τ sig) = V (main_arg1 : DevRef τ sig) := by
  after_results_simp
set_option maxRecDepth 8192 in
set_option maxHeartbeats 1000000 in
theorem arg2_eq (V : Valuation τ sig (Elt F)) : after ops V (main_arg2 : DevRef τ sig) = V (main_arg2 : DevRef τ sig) := by
  after_results_simp
set_option maxRecDepth 8192 in
set_option maxHeartbeats 1000000 in
theorem arg3_eq (V : Valuation τ sig (Elt F)) : after ops V (main_arg3 : DevRef τ sig) = V (main_arg3 : DevRef τ sig) := by
  after_results_simp

/-- For any float values, from any memory with zero counters: every weakly fair execution of @main terminates with the
    result buffer at `refOutF` of the arguments' launch contents and the arguments unchanged. -/
theorem runF (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v12) = refOutF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v12).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m ρ)

end Cert.RefRun

end
-- ==== Proof.RefTake.lean ====
/-
  A table lookup in fill mode, read at an index. The host program looks row `w` of a table `[N, C]` up for every
  entry of a vector of 32-bit words: a negative word is first moved up by `N`, the word is then tested against
  `0 … N-1`, the row is gathered (the gather clamps its start index into range), and where the test failed the row
  is replaced by a fill value. Where every word is 0 or 1 and the table has at least two rows, the shift is not taken,
  the test holds everywhere, the clamp changes nothing, and the result at `(e, c)` is the table at `(w e, c)`.
-/
import Idealize.ShloMosaic.PureOps.Ideal
import Idealize.ShloMosaic.PureOps.Reduce
import Idealize.ShloMosaic.Lib.ValueIdx
import Idealize.ShloMosaic.Lib.Pipeline.Value

noncomputable section

namespace Cert.RefTake

open Idealize.ShloMosaic Idealize.ShloMosaic.ValueIdx

variable {α : Type}

/-! ## The gather of whole rows -/

/-- The dimension numbers of a gather of whole rows: operand `[N, C]`, start indices `[E, 1]` (one row number per
    entry), result `[E, C]`; the row axis collapsed, the column axis the result's offset axis. -/
abbrev rowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, c)`: the table at column `c` of the row the start index `idx[e, 0]` names, read
    signed and clamped into `0 … N-1`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show (1 : Fin 2) ∉ ([0] : List (Fin 2)) by decide)]
    rw [hs]
    rw [Nat.add_zero, Nat.zero_add]
    rfl

/-! ## Words that are 0 or 1 -/

/-- A word that is 0 or 1 is not negative … -/
theorem slt_zero_of01 {w : BitVec 32} (h : w = 0#32 ∨ w = 1#32) : IntOp.cmpi .slt w 0#32 = 0#1 := by
  rcases h with rfl | rfl <;> decide
/-- … is at least 0 … -/
theorem sge_zero_of01 {w : BitVec 32} (h : w = 0#32 ∨ w = 1#32) : IntOp.cmpi .sge w 0#32 = 1#1 := by
  rcases h with rfl | rfl <;> decide
/-- … and its value is its signed value, 0 or 1. -/
theorem toInt_toNat_of01 {w : BitVec 32} (h : w = 0#32 ∨ w = 1#32) : w.toInt.toNat = w.toNat := by
  rcases h with rfl | rfl <;> decide
theorem toNat_le_one_of01 {w : BitVec 32} (h : w = 0#32 ∨ w = 1#32) : w.toNat ≤ 1 := by
  rcases h with rfl | rfl <;> decide

/-! ## A reduction by `and` of ones -/

/-- A left fold by `and` from 1 over 1s is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A `reduce` by `and` from the initial value 1 of an array of 1s is 1 at every index. -/
theorem reduce_andi_ones {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  exact foldl_andi_ones x _ fun n _ => hx n

end Cert.RefTake

end
-- ==== Proof.RefRun.lean ====
/-
  The reference side of the comparison: the reference program's result as one pure term of its four argument
  arrays (`refOut`), its run (every execution ends with the result buffer at that term of the launch contents and
  the arguments unchanged), and the term read at an index against the specification — where every attribute word is
  0 or 1 it is the specification's sum of the three named table rows.
-/
import proofs.«203789_g40862318854646_cont_8to1_b_1018_13_alg».proof.Proof.RefTerm
import proofs.«203789_g40862318854646_cont_8to1_b_1018_13_alg».proof.Proof.RefTake
import proofs.«203789_g40862318854646_cont_8to1_b_1018_13_alg».proof.Proof.Spec
import Idealize.ShloMosaic.PureOps.Ideal.Laws

noncomputable section

namespace Cert.RefRun

open Cert.ReferenceIdeal Cert.ReferenceIdeal.Facts₀ Cert.ReferenceIdeal.Facts Cert.RefTake
open Idealize.ShloMosaic Idealize.ShloMosaic.TcCoe Idealize.SL.Sem Idealize.ShloMosaic.StableHlo Idealize.ShloMosaic.ValueIdx

variable {F : FTy → Type} [FloatOps F] [Cert.ReferenceIdeal.Facts]

/-! ## The stages read at an index -/

/-- Attribute column `k` at entry `e` is the edge array at `(e, k)`. -/
theorem col_apply (k : Nat) (hk : k < 3) (h : S800000x3.Slices ![0, k] S800000x1) (a : IVec S800000x3 32) (e : Fin 800000) :
    col k h a (ix1 e) = a (ix2 e ⟨k, hk⟩) := by
  unfold col
  refine (shapeCast_apply _ shapeCasts_S800000x1_S800000 (ix1 e) (ix2 e (0 : Fin 1)) ?_).trans ?_
  · rw [Shape.rowMajor_val_two, Shape.rowMajor_val_one]
    show e.val * 1 + 0 = e.val
    omega
  · refine extractStridedSlice_apply _ a h (ix2 e (0 : Fin 1)) (ix2 e ⟨k, hk⟩) fun b => ?_
    match b with
    | ⟨0, _⟩ => show e.val = 0 + e.val; omega
    | ⟨1, _⟩ => show k = k + 0; omega

/-- A vector broadcast to one start index per entry reads the entry's element. -/
theorem bcast_entries_apply (x : IVec S800000 32) (i : S800000x1.Idx) :
    broadcastInDim S800000x1 ![0] bcast_S800000_S800000x1_0 x i = x (ix1 (i 0)) := by
  unfold broadcastInDim
  refine congrArg x (funext fun a => Fin.ext ?_)
  match a with
  | ⟨0, _⟩ => rfl

section Take
variable (N M : BitVec 32) (idx : IVec S800000 32) (h01 : ∀ e : Fin 800000, idx (ix1 e) = 0#32 ∨ idx (ix1 e) = 1#32)
include h01

/-- A word that is 0 or 1 is not negative: the shift by the table's extent is not taken. -/
theorem shifted_apply (e : Fin 800000) : shifted N idx (ix1 e) = idx (ix1 e) := by
  show Scalar.select (IntOp.cmpi .slt (idx (ix1 e)) 0#32) (IntOp.addi (idx (ix1 e)) N) (idx (ix1 e)) = _
  rw [slt_zero_of01 (h01 e), select_zero]

/-- The start index of entry `i` is the entry's word. -/
theorem startIdx_apply (i : S800000x1.Idx) : startIdx N idx i = idx (ix1 (i 0)) :=
  (bcast_entries_apply (shifted N idx) i).trans (shifted_apply N idx h01 (i 0))

/-- With `0` and `1` both at most `M`, every entry passes the range test. -/
theorem inRangeMask_apply (hM0 : IntOp.cmpi .sle 0#32 M = 1#1) (hM1 : IntOp.cmpi .sle 1#32 M = 1#1) (j : S800000.Idx) :
    inRangeMask N M idx j = 1#1 := by
  unfold inRangeMask
  refine reduce_andi_ones _ _ _ _ rfl (fun i => ?_) j
  show IntOp.andi (IntOp.cmpi .sge (startIdx N idx i) 0#32) (IntOp.cmpi .sle (startIdx N idx i) M) = 1#1
  rw [startIdx_apply N idx h01 i]
  rcases h01 (i 0) with h | h
  · rw [h, hM0]; rfl
  · rw [h, hM1]; rfl

/-- The lookup at `(e, c)` of a table with at least two rows: the table at the row the entry's word names. -/
theorem takeFill_apply {n : Nat} (hn : 2 ≤ n) (hM0 : IntOp.cmpi .sle 0#32 M = 1#1) (hM1 : IntOp.cmpi .sle 1#32 M = 1#1)
    (wf : GatherDims.WF ⟨2, ![n, 64]⟩ ⟨2, ![800000, 1]⟩ ⟨2, ![800000, 64]⟩ [1] [0] [] [0] [] 1 ![1, 64])
    (W : FVec F ⟨2, ![n, 64]⟩ .f32) (e : Fin 800000) (c : Fin 64) :
    takeFill N M (rowsDims n 800000 64 wf) W idx (ix2 e c)
      = W (ix2 ⟨(idx (ix1 e)).toNat, by have := toNat_le_one_of01 (h01 e); omega⟩ c) := by
  have hm : broadcastInDim S800000x64 ![0] bcast_S800000_S800000x64_0 (inRangeMask N M idx) (ix2 e c) = 1#1 := by
    unfold broadcastInDim
    exact inRangeMask_apply N M idx h01 hM0 hM1 _
  unfold takeFill
  rw [select_apply, hm, select_one, gather_rows_apply (by omega)]
  refine congrArg W (congrArg (fun r => ix2 r c) (Fin.ext ?_))
  show min (startIdx N idx (ix2 e (0 : Fin 1))).toInt.toNat (n - 1) = (idx (ix1 e)).toNat
  rw [startIdx_apply N idx h01]
  show min (idx (ix1 e)).toInt.toNat (n - 1) = (idx (ix1 e)).toNat
  rw [toInt_toNat_of01 (h01 e)]
  have := toNat_le_one_of01 (h01 e)
  omega

end Take

/-! ## The result against the specification -/

/-- Where every attribute word is 0 or 1 the reference's result is the specification's: the zero it starts from adds
    nothing, each lookup reads its table at the row its word names, and the three rows are added left to right. -/
theorem refOutF_eq_spec (a : IVec S800000x3 32) (W0 : FVec Ideal S5x64 .f32) (W1 : FVec Ideal S6x64 .f32)
    (W2 : FVec Ideal S2x64 .f32) (h : Cert.Spec.InRange a) : refOutF a W0 W1 W2 = Cert.Spec.out a W0 W1 W2 := by
  funext i
  obtain ⟨e, c, rfl⟩ : ∃ (e : Fin 800000) (c : Fin 64), i = ix2 e c := ⟨i 0, i 1, eq_ix2 i⟩
  have h0 : ∀ e : Fin 800000, col 0 slices_S800000x3_S800000x1_0_0 a (ix1 e) = a (ix2 e (0 : Fin 3)) :=
    fun e => col_apply 0 (by omega) _ a e
  have h1 : ∀ e : Fin 800000, col 1 slices_S800000x3_S800000x1_0_1 a (ix1 e) = a (ix2 e (1 : Fin 3)) :=
    fun e => col_apply 1 (by omega) _ a e
  have h2 : ∀ e : Fin 800000, col 2 slices_S800000x3_S800000x1_0_2 a (ix1 e) = a (ix2 e (2 : Fin 3)) :=
    fun e => col_apply 2 (by omega) _ a e
  have t0 := takeFill_apply 5#32 4#32 (col 0 slices_S800000x3_S800000x1_0_0 a) (fun e => by rw [h0 e]; exact h e 0)
    (n := 5) (by omega) (by decide) (by decide) gather_S5x64_S800000x1_S800000x64_1_0_n_n_0_1_164_wf W0 e c
  have t1 := takeFill_apply 6#32 5#32 (col 1 slices_S800000x3_S800000x1_0_1 a) (fun e => by rw [h1 e]; exact h e 1)
    (n := 6) (by omega) (by decide) (by decide) gather_S6x64_S800000x1_S800000x64_1_0_n_n_0_1_164_wf W1 e c
  have t2 := takeFill_apply 2#32 1#32 (col 2 slices_S800000x3_S800000x1_0_2 a) (fun e => by rw [h2 e]; exact h e 2)
    (n := 2) (by omega) (by decide) (by decide) gather_S2x64_S800000x1_S800000x64_1_0_n_n_0_1_164_wf W2 e c
  rw [Cert.Spec.out_apply]
  unfold refOutF Cert.Spec.outAt
  rw [addf_apply, addf_apply, addf_apply]
  refine congrArg₂ (· + ·) (congrArg₂ (· + ·) ?_ ?_) ?_
  · show Ideal.ofBits .f32 0x00000000#32 + _ = _
    rw [Ideal.ofBits_zero_f32, zero_add]
    refine t0.trans (congrArg W0 (congrArg (fun r => ix2 r c) (Fin.ext ?_)))
    show (col 0 slices_S800000x3_S800000x1_0_0 a (ix1 e)).toNat = (Cert.Spec.rowOf 5 (a (ix2 e (0 : Fin 3)))).val
    rw [h0 e, Cert.Spec.rowOf_val (by omega) (h e 0)]
  · refine t1.trans (congrArg W1 (congrArg (fun r => ix2 r c) (Fin.ext ?_)))
    show (col 1 slices_S800000x3_S800000x1_0_1 a (ix1 e)).toNat = (Cert.Spec.rowOf 6 (a (ix2 e (1 : Fin 3)))).val
    rw [h1 e, Cert.Spec.rowOf_val (by omega) (h e 1)]
  · refine t2.trans (congrArg W2 (congrArg (fun r => ix2 r c) (Fin.ext ?_)))
    show (col 2 slices_S800000x3_S800000x1_0_2 a (ix1 e)).toNat = (Cert.Spec.rowOf 2 (a (ix2 e (2 : Fin 3)))).val
    rw [h2 e, Cert.Spec.rowOf_val (by omega) (h e 2)]

/-! ## The statements at the ideal instance -/

/-- The reference's result as one pure term of its four argument arrays: the composed host stages, on extended reals. -/
def refOut (a : IVec S800000x3 32) (W0 : FVec Ideal S5x64 .f32) (W1 : FVec Ideal S6x64 .f32) (W2 : FVec Ideal S2x64 .f32) :
    FVec Ideal S800000x64 .f32 :=
  refOutF a W0 W1 W2

/-- From any memory with zero counters every weakly fair execution of the reference's @main terminates, the result
    buffer at `refOut` of the arguments' launch contents, the four arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v12) = refOut (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  runF m ρ

/-- Where every attribute word is 0 or 1 the reference's result is the specification's. -/
theorem refOut_eq_spec (a : IVec S800000x3 32) (W0 : FVec Ideal S5x64 .f32) (W1 : FVec Ideal S6x64 .f32)
    (W2 : FVec Ideal S2x64 .f32) (h : Cert.Spec.InRange a) : refOut a W0 W1 W2 = Cert.Spec.out a W0 W1 W2 :=
  refOutF_eq_spec a W0 W1 W2 h

end Cert.RefRun

end
-- ==== Proof.SetupKI.lean ====
/-
  The set-up shared by the frame and the value of the program `KernelIdeal`: the program as the SparseCore launch
  theorem sees it, the ghost state (the launch handshakes' rounds beside the local transfers' counters), the
  arrays as the TensorCore and as a vector subcore address them, how the 6250 blocks of 128 edges are dealt to
  the 32 vector subcores (subcore w = 2·s + c owns the blocks lo w ≤ b < lo (w+1), lo w = 195·w + min w 10),
  and what the one call hands each subcore and takes back: a read share of the flattened attribute array and of
  the three flattened tables, and its own blocks of the result, which come back holding the embedding.
-/
import proofs.«203789_g40862318854646_cont_8to1_b_1018_13_alg».proof.Defs
import proofs.«203789_g40862318854646_cont_8to1_b_1018_13_alg».proof.Proof.Gen.KernelIdeal
import proofs.«203789_g40862318854646_cont_8to1_b_1018_13_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The flattened attribute array, the three flattened tables and the result, as locations of device `d`. -/
abbrev eaLoc (d : Dev nD) : Loc nD τ sig := (SparseCore.T d).loc main_v1
abbrev w0Loc (d : Dev nD) : Loc nD τ sig := (SparseCore.T d).loc main_v2
abbrev w1Loc (d : Dev nD) : Loc nD τ sig := (SparseCore.T d).loc main_v3
abbrev w2Loc (d : Dev nD) : Loc nD τ sig := (SparseCore.T d).loc main_v4
abbrev oLoc (d : Dev nD) : Loc nD τ sig := (SparseCore.T d).loc main_v5

/-! ## The deal of the blocks -/

/-- The first block of subcore number `w` (and, at `w + 1`, one past its last). -/
def lo (w : ℕ) : ℕ := 195 * w + min w 10

theorem lo_zero : lo 0 = 0 := rfl
theorem lo_32 : lo 32 = 6250 := rfl
theorem lo_mono {a b : ℕ} (h : a ≤ b) : lo a ≤ lo b := by unfold lo; omega
theorem lo_succ (w : ℕ) : lo (w + 1) = lo w + 195 + (if w < 10 then 1 else 0) := by unfold lo; split <;> omega

/-- The number of the subcore `s` of SparseCore `c`. -/
def wid (c : Fin 2) (s : Fin 16) : ℕ := 2 * s.val + c.val
theorem wid_lt (c : Fin 2) (s : Fin 16) : wid c s < 32 := by unfold wid; omega

/-- The elements of the result in the blocks of subcore number `w`. -/
def blocksOf (w : ℕ) : Finset S8x6250x8x128.Idx := Finset.univ.filter fun j => lo w ≤ (j 1).val ∧ (j 1).val < lo (w + 1)

/-! ## What the call's threads hold -/

local notation "𝕄" => MT nD τ sig (HIx 1) (Elt F) ℕ UU ℕ

variable (m : (ℓ : Loc nD τ sig) → Buf (Elt F) ℓ) (ρ : Dev nD → PrngReg)
variable [FloatOps F]

/-- @main's five host operations before the call: the attribute array transposed and flattened, the tables flattened. -/
abbrev op0 : HloOp τ sig (Elt F) := StableHlo.unary main_arg0 main_v0 ((transpose S3x800000 [1, 0] · transposes_S800000x3_S3x800000_1_0) : (⟨S800000x3, .i32⟩ : BufTy).Contents (Elt F) → (⟨S3x800000, .i32⟩ : BufTy).Contents (Elt F))
abbrev op1 : HloOp τ sig (Elt F) := StableHlo.reshape main_v0 main_v1 rfl shapeCasts_S3x800000_S2400000
abbrev op2 : HloOp τ sig (Elt F) := StableHlo.reshape main_arg1 main_v2 rfl shapeCasts_S5x64_S320
abbrev op3 : HloOp τ sig (Elt F) := StableHlo.reshape main_arg2 main_v3 rfl shapeCasts_S6x64_S384
abbrev op4 : HloOp τ sig (Elt F) := StableHlo.reshape main_arg3 main_v4 rfl shapeCasts_S2x64_S128

/-- The launch valuation of device `d`, and the valuation when the call starts. -/
def V0 (d : Dev nD) : Valuation τ sig (Elt F) := fun b => m (d, b)
def Vpre (d : Dev nD) : Valuation τ sig (Elt F) :=
  (op4 (F := F)).result ((op3 (F := F)).result ((op2 (F := F)).result ((op1 (F := F)).result ((op0 (F := F)).result (V0 m d)))))

/-- The contents the call finds: the flattened attributes and tables. -/
def eaC (d : Dev nD) : Buf (Elt F) (eaLoc d) := Vpre m d (Proc.devRef .tc (main_v1 : Ref sig .tc))
def w0C (d : Dev nD) : Buf (Elt F) (w0Loc d) := Vpre m d (Proc.devRef .tc (main_v2 : Ref sig .tc))
def w1C (d : Dev nD) : Buf (Elt F) (w1Loc d) := Vpre m d (Proc.devRef .tc (main_v3 : Ref sig .tc))
def w2C (d : Dev nD) : Buf (Elt F) (w2Loc d) := Vpre m d (Proc.devRef .tc (main_v4 : Ref sig .tc))
def oC (d : Dev nD) : Buf (Elt F) (oLoc d) := Vpre m d (Proc.devRef .tc (main_v5 : Ref sig .tc))

/-- Subcore number `w`'s read share of an array every subcore reads whole. -/
abbrev tok (w : ℕ) : PosShare TreeShare := Transfers.shareTokN fullShare w

/-- What subcore number `w` holds during the call: its read shares and its own blocks of the result at `fo`. -/
def tileRes (d : Dev nD) (w : ℕ) (fo : Buf (Elt F) (oLoc d)) : sProp 𝕄 :=
  iprop((eaLoc d ↦{tok w} eaC m d) ∗ (w0Loc d ↦{tok w} w0C m d) ∗ (w1Loc d ↦{tok w} w1C m d) ∗ (w2Loc d ↦{tok w} w2C m d)
    ∗ (oLoc d ↦[blocksOf w]{fullShare} fo))

-- What the result must hold in a subcore's blocks when it ends (a parameter: the frame asks nothing, the value the embedding).
variable (Good : (d : Dev nD) → Buf (Elt F) (oLoc d) → ℕ → Prop)

/-- The one call's payloads: each SparseCore takes its sixteen subcores' holdings and hands them back, the result's blocks written. -/
def P : (K (F := F)).Pay (nD := nD) (Val := Elt F) (Name := ℕ) (U := UU) where
  st := fun _ d c => bigSep Finset.univ fun i : Fin 16 => tileRes m d (2 * i.val + c.val) (oC m d)
  dn := fun _ d c => bigSep Finset.univ fun i : Fin 16 => iprop(∃ fo, ⌜Good d fo (2 * i.val + c.val)⌝ ∗ tileRes m d (2 * i.val + c.val) fo)
  go := fun _ d c i => tileRes m d (2 * i.val + c.val) (oC m d)
  td := fun _ d c i => iprop(∃ fo, ⌜Good d fo (2 * i.val + c.val)⌝ ∗ tileRes m d (2 * i.val + c.val) fo)
  x := fun _ _ => iprop(emp)

instance P_storable : (P (F := F) m Good).IsStorable where
  st _ d c := by unfold P tileRes; infer_instance
  dn _ d c := by unfold P tileRes; infer_instance
  go _ _ _ _ := by unfold P tileRes; infer_instance
  td _ _ _ _ := by unfold P tileRes; infer_instance

end Cert.Proof.KI

end
-- ==== Proof.TileDefsKI.lean ====
/-
  A vector subcore's own things, named: the kernel's eight DMA semaphores among the subcore's own cells and its
  nine scratch buffers among its own buffers (each carved out of the launch's big products once), and the arrays
  and scratches in the spelling the program addresses them by.
-/
import proofs.«203789_g40862318854646_cont_8to1_b_1018_13_alg».proof.Proof.SetupKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

variable (m : (ℓ : Loc nD τ sig) → Buf (Elt F) ℓ)
variable [FloatOps F]
variable (Good : (d : Dev nD) → Buf (Elt F) (oLoc d) → ℕ → Prop)

section Tile

variable (d : Dev nD) (L : grid0.Coords)

abbrev cV (L : grid0.Coords) : Fin τ.nSC := (L 0).castLE hcore0
abbrev jV (L : grid0.Coords) : Fin τ.nSub := (L 1).castLE hsub0
/-- The number of the subcore at grid point `L`. -/
abbrev wL (L : grid0.Coords) : ℕ := 2 * (L 1).val + (L 0).val

omit [FloatOps F] in
/-- The kernel's eight DMA semaphores are among the subcore's own cells: they are them, at zero, and the rest. -/
theorem ownSems0_V :
    (ownSems0 (V d (cV L) (jV L)) : sProp 𝕄)
      = iprop(semVal ((V d (cV L) (jV L)), SemLoc.dma cc0_scratch9.sem) 0
          ∗ semVal ((V d (cV L) (jV L)), SemLoc.dma cc0_scratch10.sem) 0
          ∗ semVal ((V d (cV L) (jV L)), SemLoc.dma cc0_scratch11.sem) 0
          ∗ semVal ((V d (cV L) (jV L)), SemLoc.dma cc0_scratch12.sem) 0
          ∗ semVal ((V d (cV L) (jV L)), SemLoc.dma cc0_scoped0.sem) 0
          ∗ semVal ((V d (cV L) (jV L)), SemLoc.dma cc0_scoped1.sem) 0
          ∗ semVal ((V d (cV L) (jV L)), SemLoc.dma cc0_scoped2.sem) 0
          ∗ semVal ((V d (cV L) (jV L)), SemLoc.dma cc0_scoped3.sem) 0
          ∗ bigSep (((((((((ownCells (V d (cV L) (jV L))).erase ((V d (cV L) (jV L)), SemLoc.dma cc0_scratch9.sem)).erase ((V d (cV L) (jV L)), SemLoc.dma cc0_scratch10.sem)).erase ((V d (cV L) (jV L)), SemLoc.dma cc0_scratch11.sem)).erase ((V d (cV L) (jV L)), SemLoc.dma cc0_scratch12.sem)).erase ((V d (cV L) (jV L)), SemLoc.dma cc0_scoped0.sem)).erase ((V d (cV L) (jV L)), SemLoc.dma cc0_scoped1.sem)).erase ((V d (cV L) (jV L)), SemLoc.dma cc0_scoped2.sem)).erase ((V d (cV L) (jV L)), SemLoc.dma cc0_scoped3.sem)) fun g => semVal g 0) := by
  unfold SparseCore.Cfg.ownSems0
  rw [SparseCore.bigSep_erase' ((mem_ownCells (g := (((V d (cV L) (jV L)), SemLoc.dma cc0_scratch9.sem) : GSem nD τ sig))).mpr ⟨rfl, by show (SemLoc.dma cc0_scratch9.sem : SemLoc sig).isScoped .scVector = true; decide⟩),
    SparseCore.bigSep_erase' (Finset.mem_erase.mpr ⟨fun e => absurd (SemLoc.dma.inj (Prod.mk.inj e).2) (show (cc0_scratch10.sem : DmaSem sig) ≠ cc0_scratch9.sem by decide), (mem_ownCells (g := (((V d (cV L) (jV L)), SemLoc.dma cc0_scratch10.sem) : GSem nD τ sig))).mpr ⟨rfl, by show (SemLoc.dma cc0_scratch10.sem : SemLoc sig).isScoped .scVector = true; decide⟩⟩),
    SparseCore.bigSep_erase' (Finset.mem_erase.mpr ⟨fun e => absurd (SemLoc.dma.inj (Prod.mk.inj e).2) (show (cc0_scratch11.sem : DmaSem sig) ≠ cc0_scratch10.sem by decide), Finset.mem_erase.mpr ⟨fun e => absurd (SemLoc.dma.inj (Prod.mk.inj e).2) (show (cc0_scratch11.sem : DmaSem sig) ≠ cc0_scratch9.sem by decide), (mem_ownCells (g := (((V d (cV L) (jV L)), SemLoc.dma cc0_scratch11.sem) : GSem nD τ sig))).mpr ⟨rfl, by show (SemLoc.dma cc0_scratch11.sem : SemLoc sig).isScoped .scVector = true; decide⟩⟩⟩),
    SparseCore.bigSep_erase' (Finset.mem_erase.mpr ⟨fun e => absurd (SemLoc.dma.inj (Prod.mk.inj e).2) (show (cc0_scratch12.sem : DmaSem sig) ≠ cc0_scratch11.sem by decide), Finset.mem_erase.mpr ⟨fun e => absurd (SemLoc.dma.inj (Prod.mk.inj e).2) (show (cc0_scratch12.sem : DmaSem sig) ≠ cc0_scratch10.sem by decide), Finset.mem_erase.mpr ⟨fun e => absurd (SemLoc.dma.inj (Prod.mk.inj e).2) (show (cc0_scratch12.sem : DmaSem sig) ≠ cc0_scratch9.sem by decide), (mem_ownCells (g := (((V d (cV L) (jV L)), SemLoc.dma cc0_scratch12.sem) : GSem nD τ sig))).mpr ⟨rfl, by show (SemLoc.dma cc0_scratch12.sem : SemLoc sig).isScoped .scVector = true; decide⟩⟩⟩⟩),
    SparseCore.bigSep_erase' (Finset.mem_erase.mpr ⟨fun e => absurd (SemLoc.dma.inj (Prod.mk.inj e).2) (show (cc0_scoped0.sem : DmaSem sig) ≠ cc0_scratch12.sem by decide), Finset.mem_erase.mpr ⟨fun e => absurd (SemLoc.dma.inj (Prod.mk.inj e).2) (show (cc0_scoped0.sem : DmaSem sig) ≠ cc0_scratch11.sem by decide), Finset.mem_erase.mpr ⟨fun e => absurd (SemLoc.dma.inj (Prod.mk.inj e).2) (show (cc0_scoped0.sem : DmaSem sig) ≠ cc0_scratch10.sem by decide), Finset.mem_erase.mpr ⟨fun e => absurd (SemLoc.dma.inj (Prod.mk.inj e).2) (show (cc0_scoped0.sem : DmaSem sig) ≠ cc0_scratch9.sem by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨fun e => absurd (SemLoc.dma.inj (Prod.mk.inj e).2) (show (cc0_scoped1.sem : DmaSem sig) ≠ cc0_scoped0.sem by decide), Finset.mem_erase.mpr ⟨fun e => absurd (SemLoc.dma.inj (Prod.mk.inj e).2) (show (cc0_scoped1.sem : DmaSem sig) ≠ cc0_scratch12.sem by decide), Finset.mem_erase.mpr ⟨fun e => absurd (SemLoc.dma.inj (Prod.mk.inj e).2) (show (cc0_scoped1.sem : DmaSem sig) ≠ cc0_scratch11.sem by decide), Finset.mem_erase.mpr ⟨fun e => absurd (SemLoc.dma.inj (Prod.mk.inj e).2) (show (cc0_scoped1.sem : DmaSem sig) ≠ cc0_scratch10.sem by decide), Finset.mem_erase.mpr ⟨fun e => absurd (SemLoc.dma.inj (Prod.mk.inj e).2) (show (cc0_scoped1.sem : DmaSem sig) ≠ cc0_scratch9.sem by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨fun e => absurd (SemLoc.dma.inj (Prod.mk.inj e).2) (show (cc0_scoped2.sem : DmaSem sig) ≠ cc0_scoped1.sem by decide), Finset.mem_erase.mpr ⟨fun e => absurd (SemLoc.dma.inj (Prod.mk.inj e).2) (show (cc0_scoped2.sem : DmaSem sig) ≠ cc0_scoped0.sem by decide), Finset.mem_erase.mpr ⟨fun e => absurd (SemLoc.dma.inj (Prod.mk.inj e).2) (show (cc0_scoped2.sem : DmaSem sig) ≠ cc0_scratch12.sem by decide), Finset.mem_erase.mpr ⟨fun e => absurd (SemLoc.dma.inj (Prod.mk.inj e).2) (show (cc0_scoped2.sem : DmaSem sig) ≠ cc0_scratch11.sem by decide), Finset.mem_erase.mpr ⟨fun e => absurd (SemLoc.dma.inj (Prod.mk.inj e).2) (show (cc0_scoped2.sem : DmaSem sig) ≠ cc0_scratch10.sem by decide), Finset.mem_erase.mpr ⟨fun e => absurd (SemLoc.dma.inj (Prod.mk.inj e).2) (show (cc0_scoped2.sem : DmaSem sig) ≠ cc0_scratch9.sem by decide), (mem_ownCells (g := (((V d (cV L) (jV L)), SemLoc.dma cc0_scoped2.sem) : GSem nD τ sig))).mpr ⟨rfl, by show (SemLoc.dma cc0_scoped2.sem : SemLoc sig).isScoped .scVector = true; decide⟩⟩⟩⟩⟩⟩⟩),
    SparseCore.bigSep_erase' (Finset.mem_erase.mpr ⟨fun e => absurd (SemLoc.dma.inj (Prod.mk.inj e).2) (show (cc0_scoped3.sem : DmaSem sig) ≠ cc0_scoped2.sem by decide), Finset.mem_erase.mpr ⟨fun e => absurd (SemLoc.dma.inj (Prod.mk.inj e).2) (show (cc0_scoped3.sem : DmaSem sig) ≠ cc0_scoped1.sem by decide), Finset.mem_erase.mpr ⟨fun e => absurd (SemLoc.dma.inj (Prod.mk.inj e).2) (show (cc0_scoped3.sem : DmaSem sig) ≠ cc0_scoped0.sem by decide), Finset.mem_erase.mpr ⟨fun e => absurd (SemLoc.dma.inj (Prod.mk.inj e).2) (show (cc0_scoped3.sem : DmaSem sig) ≠ cc0_scratch12.sem by decide), Finset.mem_erase.mpr ⟨fun e => absurd (SemLoc.dma.inj (Prod.mk.inj e).2) (show (cc0_scoped3.sem : DmaSem sig) ≠ cc0_scratch11.sem by decide), Finset.mem_erase.mpr ⟨fun e => absurd (SemLoc.dma.inj (Prod.mk.inj e).2) (show (cc0_scoped3.sem : DmaSem sig) ≠ cc0_scratch10.sem by decide), Finset.mem_erase.mpr ⟨fun e => absurd (SemLoc.dma.inj (Prod.mk.inj e).2) (show (cc0_scoped3.sem : DmaSem sig) ≠ cc0_scratch9.sem by decide), (mem_ownCells (g := (((V d (cV L) (jV L)), SemLoc.dma cc0_scoped3.sem) : GSem nD τ sig))).mpr ⟨rfl, by show (SemLoc.dma cc0_scoped3.sem : SemLoc sig).isScoped .scVector = true; decide⟩⟩⟩⟩⟩⟩⟩⟩)]

omit [FloatOps F] in
/-- The kernel's nine scratch buffers are among the subcore's own: they are them, at some contents, and the rest. -/
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := ((Proc.scVector (cV L) (jV L)).devRef cc0_scratch8)) rfl⟩⟩⟩⟩⟩⟩⟩⟩)]

omit [FloatOps F] in
theorem pts_ea (q : PosShare TreeShare) (f : Buf (Elt F) (eaLoc d)) :
    ((eaW).view.loc (V d (cV L) (jV L)) ↦{q} f : sProp 𝕄) = eaLoc d ↦{q} f := by
  simp only [Memref.view_whole, View.set_whole]
omit [FloatOps F] in
theorem pts_w0 (q : PosShare TreeShare) (f : Buf (Elt F) (w0Loc d)) :
    ((w0W).view.loc (V d (cV L) (jV L)) ↦{q} f : sProp 𝕄) = w0Loc d ↦{q} f := by
  simp only [Memref.view_whole, View.set_whole]
omit [FloatOps F] in
theorem pts_w1 (q : PosShare TreeShare) (f : Buf (Elt F) (w1Loc d)) :
    ((w1W).view.loc (V d (cV L) (jV L)) ↦{q} f : sProp 𝕄) = w1Loc d ↦{q} f := by
  simp only [Memref.view_whole, View.set_whole]
omit [FloatOps F] in
theorem pts_w2 (q : PosShare TreeShare) (f : Buf (Elt F) (w2Loc d)) :
    ((w2W).view.loc (V d (cV L) (jV L)) ↦{q} f : sProp 𝕄) = w2Loc d ↦{q} f := by
  simp only [Memref.view_whole, View.set_whole]

omit [FloatOps F] in
theorem pts_b0 (f : Buf (Elt F) ((V d (cV L) (jV L)).loc cc0_scratch0)) :
    ((b0W).view.loc (V d (cV L) (jV L)) ↦{fullShare} f : sProp 𝕄) = (V d (cV L) (jV L)).loc cc0_scratch0 ↦{fullShare} f := rfl
omit [FloatOps F] in
theorem pts_b1 (f : Buf (Elt F) ((V d (cV L) (jV L)).loc cc0_scratch1)) :
    ((b1W).view.loc (V d (cV L) (jV L)) ↦{fullShare} f : sProp 𝕄) = (V d (cV L) (jV L)).loc cc0_scratch1 ↦{fullShare} f := rfl
omit [FloatOps F] in
theorem pts_b2 (f : Buf (Elt F) ((V d (cV L) (jV L)).loc cc0_scratch2)) :
    ((b2W).view.loc (V d (cV L) (jV L)) ↦{fullShare} f : sProp 𝕄) = (V d (cV L) (jV L)).loc cc0_scratch2 ↦{fullShare} f := rfl
omit [FloatOps F] in
theorem pts_b3 (f : Buf (Elt F) ((V d (cV L) (jV L)).loc cc0_scratch3)) :
    ((b3W).view.loc (V d (cV L) (jV L)) ↦{fullShare} f : sProp 𝕄) = (V d (cV L) (jV L)).loc cc0_scratch3 ↦{fullShare} f := rfl
omit [FloatOps F] in
theorem pts_b4 (f : Buf (Elt F) ((V d (cV L) (jV L)).loc cc0_scratch4)) :
    ((b4W).view.loc (V d (cV L) (jV L)) ↦{fullShare} f : sProp 𝕄) = (V d (cV L) (jV L)).loc cc0_scratch4 ↦{fullShare} f := rfl
omit [FloatOps F] in
theorem pts_b5 (f : Buf (Elt F) ((V d (cV L) (jV L)).loc cc0_scratch5)) :
    ((b5W).view.loc (V d (cV L) (jV L)) ↦{fullShare} f : sProp 𝕄) = (V d (cV L) (jV L)).loc cc0_scratch5 ↦{fullShare} f := rfl
omit [FloatOps F] in
theorem pts_b6 (f : Buf (Elt F) ((V d (cV L) (jV L)).loc cc0_scratch6)) :
    ((b6W).view.loc (V d (cV L) (jV L)) ↦{fullShare} f : sProp 𝕄) = (V d (cV L) (jV L)).loc cc0_scratch6 ↦{fullShare} f := rfl
omit [FloatOps F] in
theorem pts_b7 (f : Buf (Elt F) ((V d (cV L) (jV L)).loc cc0_scratch7)) :
    ((b7W).view.loc (V d (cV L) (jV L)) ↦{fullShare} f : sProp 𝕄) = (V d (cV L) (jV L)).loc cc0_scratch7 ↦{fullShare} f := rfl
omit [FloatOps F] in
theorem pts_b8 (f : Buf (Elt F) ((V d (cV L) (jV L)).loc cc0_scratch8)) :
    ((b8W).view.loc (V d (cV L) (jV L)) ↦{fullShare} f : sProp 𝕄) = (V d (cV L) (jV L)).loc cc0_scratch8 ↦{fullShare} f := rfl

end Tile

end Cert.Proof.KI

end
-- ==== Proof.GoodKI.lean ====
/-
  What a vector subcore must leave in its blocks of the result, as the kernel lays the result out: element
  (c₁, b, c₂, l) of the [8, 6250, 8, 128] array is the embedding of edge e = 128·b + l at column c = 8·c₁ + c₂,
  read off the flattened arrays the call is handed: attribute f of edge e is word f·800000 + e of the flattened
  attributes, and row r, column c of a table is word 64·r + c of the flattened table. The three table words are
  added left to right.
-/
import proofs.«203789_g40862318854646_cont_8to1_b_1018_13_alg».proof.Proof.SetupKI
import Idealize.ShloMosaic.Lib.ValueIdx

noncomputable section

namespace Cert.Proof.KI

open Cert.KernelIdeal Cert.KernelIdeal.Gen
open Idealize.ShloMosaic Idealize.ShloMosaic.ValueIdx
open Idealize.ShloMosaic.SparseCore (S V T)

variable {F : FTy → Type}

/-- Word `n` of a flat array of `N` words (the position reduced into the extent: in range wherever it is used). -/
abbrev at1 {N : ℕ} [NeZero N] {α : Type} (x : (⟨1, ![N]⟩ : Shape).Idx → α) (n : ℕ) : α := x (ix1 (Fin.ofNat N n))

/-- The embedding at an element of the result as the kernel lays it out. -/
def kerVal [FloatOps F] (ea : IVec S2400000 32) (w0 : FVec F S320 .f32) (w1 : FVec F S384 .f32) (w2 : FVec F S128 .f32)
    (j : S8x6250x8x128.Idx) : F .f32 :=
  FloatOps.addf
    (FloatOps.addf (at1 w0 ((at1 ea (128 * (j 1).val + (j 3).val)).toNat * 64 + (8 * (j 0).val + (j 2).val)))
      (at1 w1 ((at1 ea (800000 + (128 * (j 1).val + (j 3).val))).toNat * 64 + (8 * (j 0).val + (j 2).val))))
    (at1 w2 ((at1 ea (1600000 + (128 * (j 1).val + (j 3).val))).toNat * 64 + (8 * (j 0).val + (j 2).val)))

/-! ## Inside a vector subcore: the combined table and one chunk -/

/-- Row `r` = 12·i0 + 2·i1 + i2 of the combined table at column `c`: the three tables' rows i0, i1, i2 added left to
    right, read off the flattened tables. -/
def tabVal [FloatOps F] (w0 : FVec F S320 .f32) (w1 : FVec F S384 .f32) (w2 : FVec F S128 .f32) (r c : ℕ) : F .f32 :=
  FloatOps.addf (FloatOps.addf (at1 w0 (64 * (r / 12) + c)) (at1 w1 (64 * (r % 12 / 2) + c))) (at1 w2 (64 * (r % 2) + c))

/-- The transposed table scratch holds the combined table wherever the kernel reads it: word 64·c + r is row `r`,
    column `c`, for the rows r ≤ 15 that attribute words 0 and 1 can name. -/
def TabT [FloatOps F] (w0 : FVec F S320 .f32) (w1 : FVec F S384 .f32) (w2 : FVec F S128 .f32) (ft : FVec F S4096 .f32) : Prop :=
  ∀ c r : ℕ, c < 64 → r ≤ 15 → at1 ft (64 * c + r) = tabVal w0 w1 w2 r c

/-- The combined row an edge names, from the attribute scratch of one chunk (768 edges, three columns of 768 words):
    position `p` of the chunk. -/
def combAt (fe : IVec S2304 32) (p : ℕ) : ℕ := (at1 fe p).toNat * 12 + (at1 fe (768 + p)).toNat * 2 + (at1 fe (1536 + p)).toNat

/-- What one chunk's output scratch holds when its 48 groups are done: element (c₁, b, c₂, l) is the table word of
    column 8·c₁ + c₂ at the combined row of the chunk's edge 128·b + l. -/
def gatherVal (ft : FVec F S4096 .f32) (fe : IVec S2304 32) (j : S8x6x8x128.Idx) : F .f32 :=
  at1 ft (64 * (8 * (j 0).val + (j 2).val) + combAt fe (128 * (j 1).val + (j 3).val))

variable (m : (ℓ : Loc nD τ sig) → Buf (Elt F) ℓ) [FloatOps F]

/-- Subcore number `w` has done its work: every element of its blocks holds the embedding. -/
def GoodV : (d : Dev nD) → Buf (Elt F) (oLoc d) → ℕ → Prop :=
  fun d fo w => ∀ j ∈ blocksOf w, fo j = kerVal (eaC m d) (w0C m d) (w1C m d) (w2C m d) j

/-- It speaks of the subcore's own blocks only. -/
theorem GoodV_local (d : Dev nD) (fo fo' : Buf (Elt F) (oLoc d)) (w : ℕ) (h : ∀ j ∈ blocksOf w, fo j = fo' j) :
    GoodV m d fo w → GoodV m d fo' w :=
  fun hg j hj => (h j hj).symm.trans (hg j hj)

/-! ## After the call -/

/-- @main's two host operations after the call: the result's axes permuted to (block, lane, column group, column) and
    flattened to [800000, 64]. -/
abbrev op5 : HloOp τ sig (Elt F) := StableHlo.unary main_v5 main_v6 ((transpose S6250x128x8x8 [1, 3, 0, 2] · transposes_S8x6250x8x128_S6250x128x8x8_1_3_0_2) : (⟨S8x6250x8x128, .f32⟩ : BufTy).Contents (Elt F) → (⟨S6250x128x8x8, .f32⟩ : BufTy).Contents (Elt F))
abbrev op6 : HloOp τ sig (Elt F) := StableHlo.reshape main_v6 main_v7 rfl shapeCasts_S6250x128x8x8_S800000x64

/-- The valuation after @main's last two host operations, from the call's result `fo`. -/
def Vpost (d : Dev nD) (fo : Buf (Elt F) (oLoc d)) : Valuation τ sig (Elt F) :=
  (op6 (F := F)).result ((op5 (F := F)).result (Function.update (Vpre m d) (Proc.devRef .tc (main_v5 : Ref sig .tc)) fo))

end Cert.Proof.KI

end
-- ==== Proof.TabKI.lean ====
/-
  The combined table a vector subcore builds before its main loop, as values. Word 64·r + c of the table scratch is
  row r = 12·i0 + 2·i1 + i2, column c, of the three tables' rows added left to right; the transposed scratch holds
  the same words with row and column exchanged. The stores are followed piece by piece: each of the table's 240
  sixteen-lane stores writes the words one function of the position names, and each of the transpose's 256
  sixteen-lane stores writes the table's words at the exchanged positions.
-/
import proofs.«203789_g40862318854646_cont_8to1_b_1018_13_alg».proof.Proof.GoodKI
import Idealize.ShloMosaic.Lib.Writes

noncomputable section

namespace Cert.Proof.KI

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Pieces that agree with one function, stacked in sixteens -/

section Stack
variable {sig : RefSig} {κ : Kind} {sp : Space} {e : EltTy} {Val : EltTy → Type} {n : ℕ}

/-- A piece writes the words one function `G` of the position names. -/
def Agree (G : (⟨1, ![n]⟩ : Shape).Idx → Val e) (p : View.Piece Val ⟨1, ![n]⟩ e) : Prop :=
  ∀ x : p.1.shape.Idx, p.2 x = G (p.1.emb x)

/-- The list's pieces all agree with `G`, and between them cover the first `16 k` words. -/
def Stack (G : (⟨1, ![n]⟩ : Shape).Idx → Val e) (k : ℕ) (L : List (View.Piece Val ⟨1, ![n]⟩ e)) : Prop :=
  (∀ p ∈ L, Agree G p) ∧ ∀ y : (⟨1, ![n]⟩ : Shape).Idx, (y 0).val < 16 * k → ∃ p ∈ L, y ∈ p.1.set

theorem stack_nil (G : (⟨1, ![n]⟩ : Shape).Idx → Val e) : Stack G 0 [] :=
  ⟨fun _ h => (nomatch h), fun y h => absurd h (by omega)⟩

/-- One more sixteen on top: the piece at offset `16 k`. -/
theorem stack_cons (G : (⟨1, ![n]⟩ : Shape).Idx → Val e) (k : ℕ) (L : List (View.Piece Val ⟨1, ![n]⟩ e))
    (o : ℕ) (h : ∀ a, (![o] : Fin 1 → ℕ) a + (![16] : Fin 1 → ℕ) a ≤ (⟨1, ![n]⟩ : Shape).size a)
    (w : (Rect.unit (s := ⟨1, ![n]⟩) ![o] ![16] h).shape.Idx → Val e) (ho : o = 16 * k)
    (hw : Agree G ⟨Rect.unit ![o] ![16] h, w⟩) (hL : Stack G k L) : Stack G (k + 1) (⟨Rect.unit ![o] ![16] h, w⟩ :: L) := by
  refine ⟨fun p hp => ?_, fun y hy => ?_⟩
  · rcases List.mem_cons.mp hp with rfl | hp
    · exact hw
    · exact hL.1 p hp
  · by_cases hlt : (y 0).val < 16 * k
    · obtain ⟨p, hp, hyp⟩ := hL.2 y hlt
      exact ⟨p, List.mem_cons_of_mem _ hp, hyp⟩
    · have hm : y ∈ (Rect.unit (s := ⟨1, ![n]⟩) ![o] ![16] h).set := by
        rw [Rect.mem_set_unit]
        intro a
        match a with
        | ⟨0, _⟩ =>
          subst ho
          show 16 * k ≤ (y 0).val ∧ (y 0).val < 16 * k + 16
          omega
      exact ⟨_, List.mem_cons_self, hm⟩

/-- What a stack leaves: every word below `16 k` reads `G` there, whatever the buffer held before. -/
theorem read_of_stack (v : View sig κ sp ⟨1, ![n]⟩ e) (f : v.ty.Contents Val) (G : (⟨1, ![n]⟩ : Shape).Idx → Val e) (k : ℕ)
    (L : List (View.Piece Val ⟨1, ![n]⟩ e)) (hL : Stack G k L) (y : (⟨1, ![n]⟩ : Shape).Idx) (hy : (y 0).val < 16 * k) :
    v.read Val (v.writes Val f L) y = G y :=
  View.read_writes_apply_of_pieces v f G L hL.1 y (hL.2 y hy)

end Stack

/-! ## The table's words -/

/-- Word `y` of the combined table as the flat 64 × 64 scratch holds it: row `y / 64`, column `y % 64`. -/
def tabWord (w0 : FVec F S320 .f32) (w1 : FVec F S384 .f32) (w2 : FVec F S128 .f32) : S4096.Idx → F .f32 :=
  fun y => tabVal w0 w1 w2 ((y 0).val / 64) ((y 0).val % 64)

/-- One of the table's stores: sixteen lanes at offset `o` (a multiple of 16 below 3840), the sum of the three
    tables' sixteen lanes at the offsets the row `o / 64` and the lane group `o % 64` name, left to right. -/
theorem agree_tab (w0 : FVec F S320 .f32) (w1 : FVec F S384 .f32) (w2 : FVec F S128 .f32)
    {sig : RefSig} {κ : Kind} {sp : Space}
    (v0 : View sig κ sp S320 .f32) (v1 : View sig κ sp S384 .f32) (v2 : View sig κ sp S128 .f32)
    (C0 : v0.ty.Contents (Elt F)) (C1 : v1.ty.Contents (Elt F)) (C2 : v2.ty.Contents (Elt F))
    (hC0 : ∀ i, v0.read (Elt F) C0 i = w0 i) (hC1 : ∀ i, v1.read (Elt F) C1 i = w1 i) (hC2 : ∀ i, v2.read (Elt F) C2 i = w2 i)
    (o o0 o1 o2 : ℕ) (h : ∀ a, (![o] : Fin 1 → ℕ) a + (![16] : Fin 1 → ℕ) a ≤ S4096.size a)
    (h0 : ∀ a, (![o0] : Fin 1 → ℕ) a + S16.size a ≤ S320.size a)
    (h1 : ∀ a, (![o1] : Fin 1 → ℕ) a + S16.size a ≤ S384.size a)
    (h2 : ∀ a, (![o2] : Fin 1 → ℕ) a + S16.size a ≤ S128.size a)
    (e0 : o0 = 64 * (o / 64 / 12) + o % 64) (e1 : o1 = 64 * (o / 64 % 12 / 2) + o % 64)
    (e2 : o2 = 64 * (o / 64 % 2) + o % 64) (e16 : o % 16 = 0) (elt : o + 16 ≤ 3840) :
    Agree (Val := Elt F) (e := .f32) (n := 4096) (tabWord w0 w1 w2) ⟨Rect.unit (s := S4096) ![o] ![16] h,
      addf (addf (View.readAt (Elt F) v0 (Rect.unit (s := S320) ![o0] S16.size h0).toLoadRect C0)
          (View.readAt (Elt F) v1 (Rect.unit (s := S384) ![o1] S16.size h1).toLoadRect C1))
        (View.readAt (Elt F) v2 (Rect.unit (s := S128) ![o2] S16.size h2).toLoadRect C2)⟩ := by
  intro x
  have hx : (x 0).val < 16 := (x 0).isLt
  show FloatOps.addf (FloatOps.addf
        (v0.read (Elt F) C0 ((Rect.unit (s := S320) ![o0] S16.size h0).toLoadRect.idx x))
        (v1.read (Elt F) C1 ((Rect.unit (s := S384) ![o1] S16.size h1).toLoadRect.idx x)))
      (v2.read (Elt F) C2 ((Rect.unit (s := S128) ![o2] S16.size h2).toLoadRect.idx x))
    = tabVal w0 w1 w2 ((o + 1 * (x 0).val) / 64) ((o + 1 * (x 0).val) % 64)
  rw [hC0, hC1, hC2]
  unfold tabVal at1
  refine congrArg₂ FloatOps.addf (congrArg₂ FloatOps.addf (congrArg w0 ?_) (congrArg w1 ?_)) (congrArg w2 ?_)
  · funext a
    match a with
    | ⟨0, _⟩ =>
    refine Fin.ext ?_
    show o0 + 1 * (x 0).val = (64 * ((o + 1 * (x 0).val) / 64 / 12) + (o + 1 * (x 0).val) % 64) % 320
    omega
  · funext a
    match a with
    | ⟨0, _⟩ =>
    refine Fin.ext ?_
    show o1 + 1 * (x 0).val = (64 * ((o + 1 * (x 0).val) / 64 % 12 / 2) + (o + 1 * (x 0).val) % 64) % 384
    omega
  · funext a
    match a with
    | ⟨0, _⟩ =>
    refine Fin.ext ?_
    show o2 + 1 * (x 0).val = (64 * ((o + 1 * (x 0).val) / 64 % 2) + (o + 1 * (x 0).val) % 64) % 128
    omega

/-! ## The transposed table's words -/

/-- A load of the whole buffer reads the buffer. -/
theorem readAt_whole_apply {sig : RefSig} {κ : Kind} {sp : Space} {s : Shape} {e : EltTy} {Val : EltTy → Type}
    (v : View sig κ sp s e) (f : v.ty.Contents Val) (y : s.Idx) :
    v.readAt Val (LoadRect.whole s) f y = v.read Val f y := by
  show v.read Val f ((LoadRect.whole s).idx y) = v.read Val f y
  refine congrArg (v.read Val f) (funext fun a => Fin.ext ?_)
  show 0 + 1 * (y a).val = (y a).val
  omega

/-- The transpose's index vectors: lane `x` of `(lanes + p) · 64 + q` is the word `(x + p) · 64 + q`, nothing wrapping. -/
theorem idx_lane (p q : BitVec 32) (hp : p.toNat ≤ 48) (hq : q.toNat < 64) (hi : S16.Iotas .scVector 32 [0]) (x : S16.Idx) :
    (addi (muli (addi (iota .scVector S16 32 [0] hi) (broadcast S16 p)) (broadcast S16 64#32)) (broadcast S16 q) x).toNat
      = ((x 0).val + p.toNat) * 64 + q.toNat := by
  have hx : (x 0).val < 16 := (x 0).isLt
  show (IntOp.addi (IntOp.muli (IntOp.addi (BitVec.ofNat 32 (0 * 16 + (x 0).val)) p) 64#32) q).toNat = _
  unfold IntOp.addi IntOp.muli
  simp only [BitVec.toNat_add, BitVec.toNat_mul, BitVec.toNat_ofNat, Nat.reducePow]
  omega

/-- Word `y` of the transposed scratch: the table's word with row and column exchanged. -/
def trWord {α : Type} (R0 : S4096.Idx → α) : S4096.Idx → α :=
  fun y => R0 (ix1 ⟨((y 0).val % 64) * 64 + (y 0).val / 64, by have : (y 0).val < 4096 := (y 0).isLt; omega⟩)

/-- One of the transpose's stores: sixteen lanes at offset `o` (a multiple of 16), gathered from the table scratch at
    the words `(x + o % 64) · 64 + o / 64`. -/
theorem agree_tr (R0 R : Vec F S4096 .f32) (hR : ∀ y, R y = R0 y) (idx : IVec S16 32)
    (hidx : ∀ a x, ((![idx] : Fin S4096.rank → IVec S16 32) a x).toNat < S4096.size a)
    (o p q : ℕ) (h : ∀ a, (![o] : Fin 1 → ℕ) a + (![16] : Fin 1 → ℕ) a ≤ S4096.size a)
    (hi : ∀ x : S16.Idx, (idx x).toNat = ((x 0).val + p) * 64 + q) (hp : p = o % 64) (hq : q = o / 64) (e16 : o % 16 = 0) :
    Agree (Val := Elt F) (e := .f32) (n := 4096) (trWord R0) ⟨Rect.unit (s := S4096) ![o] ![16] h, loadIdx R ![idx] hidx⟩ := by
  intro x
  have hx : (x 0).val < 16 := (x 0).isLt
  show R (idxAt ![idx] hidx x) = trWord R0 ((Rect.unit (s := S4096) ![o] ![16] h).emb x)
  rw [hR]
  unfold trWord
  refine congrArg R0 (funext fun a => ?_)
  match a with
  | ⟨0, _⟩ =>
  refine Fin.ext ?_
  show (idx x).toNat = ((o + 1 * (x 0).val) % 64) * 64 + (o + 1 * (x 0).val) / 64
  rw [hi x, hp, hq]
  omega

/-- The transposed scratch holds the combined table: from the table scratch's words (rows below 60) and the
    transposed scratch's (all of them, in terms of the table scratch's). -/
theorem tabT_of_words (w0 : FVec F S320 .f32) (w1 : FVec F S384 .f32) (w2 : FVec F S128 .f32) (R0 : S4096.Idx → F .f32)
    (h3 : ∀ y : S4096.Idx, (y 0).val < 3840 → R0 y = tabWord w0 w1 w2 y)
    (ft : FVec F S4096 .f32) (h4 : ∀ y : S4096.Idx, ft y = trWord R0 y) : TabT w0 w1 w2 ft := by
  intro c r hc hr
  unfold at1
  rw [h4]
  unfold trWord
  rw [h3 _ (by show (64 * c + r) % 4096 % 64 * 64 + (64 * c + r) % 4096 / 64 < 3840; omega)]
  unfold tabWord
  have e1 : ((64 * c + r) % 4096 % 64 * 64 + (64 * c + r) % 4096 / 64) / 64 = r := by omega
  have e2 : ((64 * c + r) % 4096 % 64 * 64 + (64 * c + r) % 4096 / 64) % 64 = c := by omega
  show tabVal w0 w1 w2 (((64 * c + r) % 4096 % 64 * 64 + (64 * c + r) % 4096 / 64) / 64)
      (((64 * c + r) % 4096 % 64 * 64 + (64 * c + r) % 4096 / 64) % 64) = tabVal w0 w1 w2 r c
  rw [e1, e2]

/-! ## A buffer's contents renamed, keeping what is known of them -/

section Rename
variable {nD : Nat} {τ : Topo} {sig : RefSig} {Ix : Type} [DecidableEq Ix] {Val : EltTy → Type} {Name : Type} [DecidableEq Name]
variable {U : Type} [URA U] {Lvl : Type}

/-- A buffer held at contents of which `P` is known is held at SOME contents of which `P` is known. -/
theorem pointsTo_rename {ℓ : Loc nD τ sig} (q : PosShare TreeShare) (f : Buf Val ℓ) (P : Buf Val ℓ → Prop) (h : P f) :
    (ℓ ↦{q} f : sProp (MT nD τ sig Ix Val Name U Lvl)) ⊢ iprop(∃ f', ⌜P f'⌝ ∗ ℓ ↦{q} f') := by
  iintro H; iexists f; isplitr
  · ipureintro; exact h
  · iexact H

end Rename

end Cert.Proof.KI

end
-- ==== Proof.InnerLibKI.lean ====
/-
  The inner loop of a vector subcore's chunk: forty-eight trips, one per group of sixteen edges. A trip loads the
  group's three attribute vectors from the attribute scratch, forms the combined row number e0·12 + e1·2 + e2
  lanewise, and for each of the sixty-four columns gathers the sixteen table words at row + 64·column from the
  transposed table scratch and stores them into the output scratch. With every attribute word 0 or 1 the row number
  is at most 15, so every gather index lies inside the 4096-word table (the range checks the body assumes).
  This file: the arithmetic of the row number and of the gather's indices, and what sixty-four stores of one trip
  leave in the output scratch.
-/
import proofs.«203789_g40862318854646_cont_8to1_b_1018_13_alg».proof.Proof.TileDefsKI
import proofs.«203789_g40862318854646_cont_8to1_b_1018_13_alg».proof.Proof.GoodKI
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

/-! ## The combined row number, and the gather's indices in range -/

/-- Lanewise, the combined row number is e0·12 + e1·2 + e2 on 32-bit words. -/
theorem pay1_apply (e0 e1 e2 : Vec F S16 .i32) (x : S16.Idx) :
    k0_pay1 e0 e1 e2 x = IntOp.addi (IntOp.addi (IntOp.muli (e0 x) 12#32) (IntOp.muli (e1 x) 2#32)) (e2 x) := rfl

/-- With attribute words 0 or 1 the combined row number is their weighted sum as a natural number (no wrap). -/
theorem comb_toNat {e0 e1 e2 : Vec F S16 .i32} (h0 : ∀ x, e0 x = 0#32 ∨ e0 x = 1#32) (h1 : ∀ x, e1 x = 0#32 ∨ e1 x = 1#32)
    (h2 : ∀ x, e2 x = 0#32 ∨ e2 x = 1#32) (x : S16.Idx) :
    (k0_pay1 e0 e1 e2 x).toNat = (e0 x).toNat * 12 + (e1 x).toNat * 2 + (e2 x).toNat := by
  rw [pay1_apply]
  rcases h0 x with h | h <;> rcases h1 x with h' | h' <;> rcases h2 x with h'' | h'' <;> rw [h, h', h''] <;> rfl

/-- With attribute words 0 or 1 the combined row number is at most 15. -/
theorem comb_le {e0 e1 e2 : Vec F S16 .i32} (h0 : ∀ x, e0 x = 0#32 ∨ e0 x = 1#32) (h1 : ∀ x, e1 x = 0#32 ∨ e1 x = 1#32)
    (h2 : ∀ x, e2 x = 0#32 ∨ e2 x = 1#32) (x : S16.Idx) : (k0_pay1 e0 e1 e2 x).toNat ≤ 15 := by
  rw [comb_toNat h0 h1 h2]
  rcases h0 x with h | h <;> rcases h1 x with h' | h' <;> rcases h2 x with h'' | h'' <;> rw [h, h', h''] <;> decide

/-- A row number at most 15 moved by a column offset at most 4032 stays inside the 4096-word table. -/
theorem chk_of_le {comb : IVec S16 32} {q : BitVec 32} (hc : ∀ x, (comb x).toNat ≤ 15) (hq : q.toNat ≤ 4032) :
    ∀ a x, ((![addi comb (broadcast S16 q)] : Fin 1 → IVec S16 32) a x).toNat < S4096.size a := by
  intro a x
  obtain rfl : a = 0 := Subsingleton.elim _ _
  show (comb x + q).toNat < 4096
  have := hc x
  rw [BitVec.toNat_add]
  omega

/-- The same, as the natural number the index is. -/
theorem idx_toNat {comb : IVec S16 32} {q : BitVec 32} (hc : ∀ x, (comb x).toNat ≤ 15) (hq : q.toNat ≤ 4032) (x : S16.Idx) :
    (addi comb (broadcast S16 q) x).toNat = (comb x).toNat + q.toNat := by
  show (comb x + q).toNat = _
  have := hc x
  rw [BitVec.toNat_add]
  omega

/-! ## What one trip's sixty-four stores leave

Trip `k` stores, for every column `c`, sixteen lanes `16·(k % 8) … +15` of row `(c / 8, k / 8, c % 8)` of the output
scratch: the elements of group `k` (`grp j = k`), each exactly once. If every piece holds `G` where it lands, the
scratch holds `G` on the groups up to `k` afterwards, provided it did on the groups below `k` before. -/

/-- The group of sixteen edges an element of the output scratch belongs to. -/
def grp (j : S8x6x8x128.Idx) : ℕ := 8 * (j 1).val + (j 3).val / 16

section Lists

variable {Val : EltTy → Type}

/-- A piece of trip `k`: column `c`'s sixteen lanes of group `k`, holding `G` where it lands. -/
structure PieceGood (G : S8x6x8x128.Idx → Val .f32) (k c : ℕ) (p : View.Piece Val S8x6x8x128 .f32) : Prop where
  off : p.1.off = ![c / 8, k / 8, c % 8, 16 * (k % 8)]
  size : p.1.size = ![1, 1, 1, 16]
  stride : ∀ a, p.1.stride a = 1
  val : ∀ x, p.2 x = G (p.1.emb x)

/-- The stores of a trip, last first: the head is the column numbered by the length of the tail. -/
def GoodList (G : S8x6x8x128.Idx → Val .f32) (k : ℕ) : List (View.Piece Val S8x6x8x128 .f32) → Prop
  | [] => True
  | p :: Ls => PieceGood G k Ls.length p ∧ GoodList G k Ls

theorem GoodList.val {G : S8x6x8x128.Idx → Val .f32} {k : ℕ} :
    ∀ {Ls : List (View.Piece Val S8x6x8x128 .f32)}, GoodList G k Ls → ∀ p ∈ Ls, ∀ x, p.2 x = G (p.1.emb x)
  | [], _, p, hp => absurd hp List.not_mem_nil
  | q :: Ls, h, p, hp => by
    rcases List.mem_cons.mp hp with rfl | hp
    · exact h.1.val
    · exact GoodList.val h.2 p hp

theorem GoodList.col {G : S8x6x8x128.Idx → Val .f32} {k : ℕ} :
    ∀ {Ls : List (View.Piece Val S8x6x8x128 .f32)}, GoodList G k Ls → ∀ c < Ls.length, ∃ p ∈ Ls, PieceGood G k c p
  | [], _, c, hc => absurd hc (Nat.not_lt_zero c)
  | q :: Ls, h, c, hc => by
    rcases Nat.lt_succ_iff_lt_or_eq.mp (by simpa using hc) with hlt | rfl
    · obtain ⟨p, hp, hg⟩ := GoodList.col h.2 c hlt
      exact ⟨p, List.mem_cons_of_mem _ hp, hg⟩
    · exact ⟨q, List.mem_cons_self, h.1⟩

/-- An element of group `k` in column `c` lies under column `c`'s piece. -/
theorem PieceGood.mem {G : S8x6x8x128.Idx → Val .f32} {k c : ℕ} {p : View.Piece Val S8x6x8x128 .f32} (h : PieceGood G k c p)
    {y : S8x6x8x128.Idx} (h0 : (y 0).val = c / 8) (h1 : (y 1).val = k / 8) (h2 : (y 2).val = c % 8)
    (h3 : 16 * (k % 8) ≤ (y 3).val) (h3' : (y 3).val < 16 * (k % 8) + 16) : y ∈ p.1.set := by
  refine p.1.toLoadRect.mem_set.mpr fun a => ?_
  rw [h.off, h.size, h.stride]
  match a with
  | ⟨0, _⟩ => exact ⟨0, Nat.one_pos, by show (y 0).val = c / 8 + 1 * 0; omega⟩
  | ⟨1, _⟩ => exact ⟨0, Nat.one_pos, by show (y 1).val = k / 8 + 1 * 0; omega⟩
  | ⟨2, _⟩ => exact ⟨0, Nat.one_pos, by show (y 2).val = c % 8 + 1 * 0; omega⟩
  | ⟨3, _⟩ => exact ⟨(y 3).val - 16 * (k % 8), by show (y 3).val - 16 * (k % 8) < 16; omega,
      by show (y 3).val = 16 * (k % 8) + 1 * ((y 3).val - 16 * (k % 8)); omega⟩

variable {sig' : RefSig} {κ : Kind} {sp : Space}

/-- After a trip's sixty-four good pieces the scratch holds `G` on the groups up to `k`. -/
theorem trip_val (v : View sig' κ sp S8x6x8x128 .f32) (f : v.ty.Contents Val) (G : S8x6x8x128.Idx → Val .f32) (k : ℕ)
    (Ls : List (View.Piece Val S8x6x8x128 .f32)) (hlen : Ls.length = 64) (hg : GoodList G k Ls)
    (hinv : ∀ j, grp j < k → v.read Val f j = G j) :
    ∀ j, grp j < k + 1 → v.read Val (v.writes Val f Ls) j = G j := by
  intro j hj
  by_cases hc : ∃ p ∈ Ls, j ∈ p.1.set
  · exact View.read_writes_apply_of_pieces v f G Ls hg.val j hc
  · have h0 : (j 0).val < 8 := (j 0).isLt
    have h1 : (j 1).val < 6 := (j 1).isLt
    have h2 : (j 2).val < 8 := (j 2).isLt
    have h3 : (j 3).val < 128 := (j 3).isLt
    have hlt : grp j < k := by
      by_contra hge
      have hk : 8 * (j 1).val + (j 3).val / 16 = k := by unfold grp at hj hge; omega
      obtain ⟨p, hp, hpg⟩ := hg.col (8 * (j 0).val + (j 2).val) (by rw [hlen]; omega)
      exact hc ⟨p, hp, hpg.mem (by omega) (by omega) (by omega) (by omega) (by omega)⟩
    rw [View.read_writes_apply_of_forall_not_mem v f j Ls fun p hp hm => hc ⟨p, hp, hm⟩]
    exact hinv j hlt

end Lists

end Cert.Proof.KI
end
-- ==== Proof.Inner0KI.lean ====
/-
  The first copy of the inner loop (attribute scratch 5, output scratch 7): one trip by the symbolic run, the
  sixty-four stored pieces read back at an index, and the loop by its invariant.
-/
import proofs.«203789_g40862318854646_cont_8to1_b_1018_13_alg».proof.Proof.TileDefsKI
import proofs.«203789_g40862318854646_cont_8to1_b_1018_13_alg».proof.Proof.GoodKI
import proofs.«203789_g40862318854646_cont_8to1_b_1018_13_alg».proof.Proof.InnerLibKI
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

variable [FloatOps F]
variable (d : Dev nD) (L : grid0.Coords)

/-! ## The output offsets of column c at trip k: row (c / 8, k / 8, c % 8), lanes 16·(k % 8) … +15 -/
theorem off6_eq : ∀ k : Fin k0_t2_loop.trips, k0_off6 k = ![0, k.val / 8, 0, 16 * (k.val % 8)] := by decide +kernel
instance closedOff_k0_off6 (k : Fin k0_t2_loop.trips) : ClosedOff (k0_off6 k) := ⟨![0, k.val / 8, 0, 16 * (k.val % 8)], off6_eq k⟩
theorem off7_eq : ∀ k : Fin k0_t2_loop.trips, k0_off7 k = ![0, k.val / 8, 1, 16 * (k.val % 8)] := by decide +kernel
instance closedOff_k0_off7 (k : Fin k0_t2_loop.trips) : ClosedOff (k0_off7 k) := ⟨![0, k.val / 8, 1, 16 * (k.val % 8)], off7_eq k⟩
theorem off8_eq : ∀ k : Fin k0_t2_loop.trips, k0_off8 k = ![0, k.val / 8, 2, 16 * (k.val % 8)] := by decide +kernel
instance closedOff_k0_off8 (k : Fin k0_t2_loop.trips) : ClosedOff (k0_off8 k) := ⟨![0, k.val / 8, 2, 16 * (k.val % 8)], off8_eq k⟩
theorem off9_eq : ∀ k : Fin k0_t2_loop.trips, k0_off9 k = ![0, k.val / 8, 3, 16 * (k.val % 8)] := by decide +kernel
instance closedOff_k0_off9 (k : Fin k0_t2_loop.trips) : ClosedOff (k0_off9 k) := ⟨![0, k.val / 8, 3, 16 * (k.val % 8)], off9_eq k⟩
theorem off10_eq : ∀ k : Fin k0_t2_loop.trips, k0_off10 k = ![0, k.val / 8, 4, 16 * (k.val % 8)] := by decide +kernel
instance closedOff_k0_off10 (k : Fin k0_t2_loop.trips) : ClosedOff (k0_off10 k) := ⟨![0, k.val / 8, 4, 16 * (k.val % 8)], off10_eq k⟩
theorem off11_eq : ∀ k : Fin k0_t2_loop.trips, k0_off11 k = ![0, k.val / 8, 5, 16 * (k.val % 8)] := by decide +kernel
instance closedOff_k0_off11 (k : Fin k0_t2_loop.trips) : ClosedOff (k0_off11 k) := ⟨![0, k.val / 8, 5, 16 * (k.val % 8)], off11_eq k⟩
theorem off12_eq : ∀ k : Fin k0_t2_loop.trips, k0_off12 k = ![0, k.val / 8, 6, 16 * (k.val % 8)] := by decide +kernel
instance closedOff_k0_off12 (k : Fin k0_t2_loop.trips) : ClosedOff (k0_off12 k) := ⟨![0, k.val / 8, 6, 16 * (k.val % 8)], off12_eq k⟩
theorem off13_eq : ∀ k : Fin k0_t2_loop.trips, k0_off13 k = ![0, k.val / 8, 7, 16 * (k.val % 8)] := by decide +kernel
instance closedOff_k0_off13 (k : Fin k0_t2_loop.trips) : ClosedOff (k0_off13 k) := ⟨![0, k.val / 8, 7, 16 * (k.val % 8)], off13_eq k⟩
theorem off14_eq : ∀ k : Fin k0_t2_loop.trips, k0_off14 k = ![1, k.val / 8, 0, 16 * (k.val % 8)] := by decide +kernel
instance closedOff_k0_off14 (k : Fin k0_t2_loop.trips) : ClosedOff (k0_off14 k) := ⟨![1, k.val / 8, 0, 16 * (k.val % 8)], off14_eq k⟩
theorem off15_eq : ∀ k : Fin k0_t2_loop.trips, k0_off15 k = ![1, k.val / 8, 1, 16 * (k.val % 8)] := by decide +kernel
instance closedOff_k0_off15 (k : Fin k0_t2_loop.trips) : ClosedOff (k0_off15 k) := ⟨![1, k.val / 8, 1, 16 * (k.val % 8)], off15_eq k⟩
theorem off16_eq : ∀ k : Fin k0_t2_loop.trips, k0_off16 k = ![1, k.val / 8, 2, 16 * (k.val % 8)] := by decide +kernel
instance closedOff_k0_off16 (k : Fin k0_t2_loop.trips) : ClosedOff (k0_off16 k) := ⟨![1, k.val / 8, 2, 16 * (k.val % 8)], off16_eq k⟩
theorem off17_eq : ∀ k : Fin k0_t2_loop.trips, k0_off17 k = ![1, k.val / 8, 3, 16 * (k.val % 8)] := by decide +kernel
instance closedOff_k0_off17 (k : Fin k0_t2_loop.trips) : ClosedOff (k0_off17 k) := ⟨![1, k.val / 8, 3, 16 * (k.val % 8)], off17_eq k⟩
theorem off18_eq : ∀ k : Fin k0_t2_loop.trips, k0_off18 k = ![1, k.val / 8, 4, 16 * (k.val % 8)] := by decide +kernel
instance closedOff_k0_off18 (k : Fin k0_t2_loop.trips) : ClosedOff (k0_off18 k) := ⟨![1, k.val / 8, 4, 16 * (k.val % 8)], off18_eq k⟩
theorem off19_eq : ∀ k : Fin k0_t2_loop.trips, k0_off19 k = ![1, k.val / 8, 5, 16 * (k.val % 8)] := by decide +kernel
instance closedOff_k0_off19 (k : Fin k0_t2_loop.trips) : ClosedOff (k0_off19 k) := ⟨![1, k.val / 8, 5, 16 * (k.val % 8)], off19_eq k⟩
theorem off20_eq : ∀ k : Fin k0_t2_loop.trips, k0_off20 k = ![1, k.val / 8, 6, 16 * (k.val % 8)] := by decide +kernel
instance closedOff_k0_off20 (k : Fin k0_t2_loop.trips) : ClosedOff (k0_off20 k) := ⟨![1, k.val / 8, 6, 16 * (k.val % 8)], off20_eq k⟩
theorem off21_eq : ∀ k : Fin k0_t2_loop.trips, k0_off21 k = ![1, k.val / 8, 7, 16 * (k.val % 8)] := by decide +kernel
instance closedOff_k0_off21 (k : Fin k0_t2_loop.trips) : ClosedOff (k0_off21 k) := ⟨![1, k.val / 8, 7, 16 * (k.val % 8)], off21_eq k⟩
theorem off22_eq : ∀ k : Fin k0_t2_loop.trips, k0_off22 k = ![2, k.val / 8, 0, 16 * (k.val % 8)] := by decide +kernel
instance closedOff_k0_off22 (k : Fin k0_t2_loop.trips) : ClosedOff (k0_off22 k) := ⟨![2, k.val / 8, 0, 16 * (k.val % 8)], off22_eq k⟩
theorem off23_eq : ∀ k : Fin k0_t2_loop.trips, k0_off23 k = ![2, k.val / 8, 1, 16 * (k.val % 8)] := by decide +kernel
instance closedOff_k0_off23 (k : Fin k0_t2_loop.trips) : ClosedOff (k0_off23 k) := ⟨![2, k.val / 8, 1, 16 * (k.val % 8)], off23_eq k⟩
theorem off24_eq : ∀ k : Fin k0_t2_loop.trips, k0_off24 k = ![2, k.val / 8, 2, 16 * (k.val % 8)] := by decide +kernel
instance closedOff_k0_off24 (k : Fin k0_t2_loop.trips) : ClosedOff (k0_off24 k) := ⟨![2, k.val / 8, 2, 16 * (k.val % 8)], off24_eq k⟩
theorem off25_eq : ∀ k : Fin k0_t2_loop.trips, k0_off25 k = ![2, k.val / 8, 3, 16 * (k.val % 8)] := by decide +kernel
instance closedOff_k0_off25 (k : Fin k0_t2_loop.trips) : ClosedOff (k0_off25 k) := ⟨![2, k.val / 8, 3, 16 * (k.val % 8)], off25_eq k⟩
theorem off26_eq : ∀ k : Fin k0_t2_loop.trips, k0_off26 k = ![2, k.val / 8, 4, 16 * (k.val % 8)] := by decide +kernel
instance closedOff_k0_off26 (k : Fin k0_t2_loop.trips) : ClosedOff (k0_off26 k) := ⟨![2, k.val / 8, 4, 16 * (k.val % 8)], off26_eq k⟩
theorem off27_eq : ∀ k : Fin k0_t2_loop.trips, k0_off27 k = ![2, k.val / 8, 5, 16 * (k.val % 8)] := by decide +kernel
instance closedOff_k0_off27 (k : Fin k0_t2_loop.trips) : ClosedOff (k0_off27 k) := ⟨![2, k.val / 8, 5, 16 * (k.val % 8)], off27_eq k⟩
theorem off28_eq : ∀ k : Fin k0_t2_loop.trips, k0_off28 k = ![2, k.val / 8, 6, 16 * (k.val % 8)] := by decide +kernel
instance closedOff_k0_off28 (k : Fin k0_t2_loop.trips) : ClosedOff (k0_off28 k) := ⟨![2, k.val / 8, 6, 16 * (k.val % 8)], off28_eq k⟩
theorem off29_eq : ∀ k : Fin k0_t2_loop.trips, k0_off29 k = ![2, k.val / 8, 7, 16 * (k.val % 8)] := by decide +kernel
instance closedOff_k0_off29 (k : Fin k0_t2_loop.trips) : ClosedOff (k0_off29 k) := ⟨![2, k.val / 8, 7, 16 * (k.val % 8)], off29_eq k⟩
theorem off30_eq : ∀ k : Fin k0_t2_loop.trips, k0_off30 k = ![3, k.val / 8, 0, 16 * (k.val % 8)] := by decide +kernel
instance closedOff_k0_off30 (k : Fin k0_t2_loop.trips) : ClosedOff (k0_off30 k) := ⟨![3, k.val / 8, 0, 16 * (k.val % 8)], off30_eq k⟩
theorem off31_eq : ∀ k : Fin k0_t2_loop.trips, k0_off31 k = ![3, k.val / 8, 1, 16 * (k.val % 8)] := by decide +kernel
instance closedOff_k0_off31 (k : Fin k0_t2_loop.trips) : ClosedOff (k0_off31 k) := ⟨![3, k.val / 8, 1, 16 * (k.val % 8)], off31_eq k⟩
theorem off32_eq : ∀ k : Fin k0_t2_loop.trips, k0_off32 k = ![3, k.val / 8, 2, 16 * (k.val % 8)] := by decide +kernel
instance closedOff_k0_off32 (k : Fin k0_t2_loop.trips) : ClosedOff (k0_off32 k) := ⟨![3, k.val / 8, 2, 16 * (k.val % 8)], off32_eq k⟩
theorem off33_eq : ∀ k : Fin k0_t2_loop.trips, k0_off33 k = ![3, k.val / 8, 3, 16 * (k.val % 8)] := by decide +kernel
instance closedOff_k0_off33 (k : Fin k0_t2_loop.trips) : ClosedOff (k0_off33 k) := ⟨![3, k.val / 8, 3, 16 * (k.val % 8)], off33_eq k⟩
theorem off34_eq : ∀ k : Fin k0_t2_loop.trips, k0_off34 k = ![3, k.val / 8, 4, 16 * (k.val % 8)] := by decide +kernel
instance closedOff_k0_off34 (k : Fin k0_t2_loop.trips) : ClosedOff (k0_off34 k) := ⟨![3, k.val / 8, 4, 16 * (k.val % 8)], off34_eq k⟩
theorem off35_eq : ∀ k : Fin k0_t2_loop.trips, k0_off35 k = ![3, k.val / 8, 5, 16 * (k.val % 8)] := by decide +kernel
instance closedOff_k0_off35 (k : Fin k0_t2_loop.trips) : ClosedOff (k0_off35 k) := ⟨![3, k.val / 8, 5, 16 * (k.val % 8)], off35_eq k⟩
theorem off36_eq : ∀ k : Fin k0_t2_loop.trips, k0_off36 k = ![3, k.val / 8, 6, 16 * (k.val % 8)] := by decide +kernel
instance closedOff_k0_off36 (k : Fin k0_t2_loop.trips) : ClosedOff (k0_off36 k) := ⟨![3, k.val / 8, 6, 16 * (k.val % 8)], off36_eq k⟩
theorem off37_eq : ∀ k : Fin k0_t2_loop.trips, k0_off37 k = ![3, k.val / 8, 7, 16 * (k.val % 8)] := by decide +kernel
instance closedOff_k0_off37 (k : Fin k0_t2_loop.trips) : ClosedOff (k0_off37 k) := ⟨![3, k.val / 8, 7, 16 * (k.val % 8)], off37_eq k⟩
theorem off38_eq : ∀ k : Fin k0_t2_loop.trips, k0_off38 k = ![4, k.val / 8, 0, 16 * (k.val % 8)] := by decide +kernel
instance closedOff_k0_off38 (k : Fin k0_t2_loop.trips) : ClosedOff (k0_off38 k) := ⟨![4, k.val / 8, 0, 16 * (k.val % 8)], off38_eq k⟩
theorem off39_eq : ∀ k : Fin k0_t2_loop.trips, k0_off39 k = ![4, k.val / 8, 1, 16 * (k.val % 8)] := by decide +kernel
instance closedOff_k0_off39 (k : Fin k0_t2_loop.trips) : ClosedOff (k0_off39 k) := ⟨![4, k.val / 8, 1, 16 * (k.val % 8)], off39_eq k⟩
theorem off40_eq : ∀ k : Fin k0_t2_loop.trips, k0_off40 k = ![4, k.val / 8, 2, 16 * (k.val % 8)] := by decide +kernel
instance closedOff_k0_off40 (k : Fin k0_t2_loop.trips) : ClosedOff (k0_off40 k) := ⟨![4, k.val / 8, 2, 16 * (k.val % 8)], off40_eq k⟩
theorem off41_eq : ∀ k : Fin k0_t2_loop.trips, k0_off41 k = ![4, k.val / 8, 3, 16 * (k.val % 8)] := by decide +kernel
instance closedOff_k0_off41 (k : Fin k0_t2_loop.trips) : ClosedOff (k0_off41 k) := ⟨![4, k.val / 8, 3, 16 * (k.val % 8)], off41_eq k⟩
theorem off42_eq : ∀ k : Fin k0_t2_loop.trips, k0_off42 k = ![4, k.val / 8, 4, 16 * (k.val % 8)] := by decide +kernel
instance closedOff_k0_off42 (k : Fin k0_t2_loop.trips) : ClosedOff (k0_off42 k) := ⟨![4, k.val / 8, 4, 16 * (k.val % 8)], off42_eq k⟩
theorem off43_eq : ∀ k : Fin k0_t2_loop.trips, k0_off43 k = ![4, k.val / 8, 5, 16 * (k.val % 8)] := by decide +kernel
instance closedOff_k0_off43 (k : Fin k0_t2_loop.trips) : ClosedOff (k0_off43 k) := ⟨![4, k.val / 8, 5, 16 * (k.val % 8)], off43_eq k⟩
theorem off44_eq : ∀ k : Fin k0_t2_loop.trips, k0_off44 k = ![4, k.val / 8, 6, 16 * (k.val % 8)] := by decide +kernel
instance closedOff_k0_off44 (k : Fin k0_t2_loop.trips) : ClosedOff (k0_off44 k) := ⟨![4, k.val / 8, 6, 16 * (k.val % 8)], off44_eq k⟩
theorem off45_eq : ∀ k : Fin k0_t2_loop.trips, k0_off45 k = ![4, k.val / 8, 7, 16 * (k.val % 8)] := by decide +kernel
instance closedOff_k0_off45 (k : Fin k0_t2_loop.trips) : ClosedOff (k0_off45 k) := ⟨![4, k.val / 8, 7, 16 * (k.val % 8)], off45_eq k⟩
theorem off46_eq : ∀ k : Fin k0_t2_loop.trips, k0_off46 k = ![5, k.val / 8, 0, 16 * (k.val % 8)] := by decide +kernel
instance closedOff_k0_off46 (k : Fin k0_t2_loop.trips) : ClosedOff (k0_off46 k) := ⟨![5, k.val / 8, 0, 16 * (k.val % 8)], off46_eq k⟩
theorem off47_eq : ∀ k : Fin k0_t2_loop.trips, k0_off47 k = ![5, k.val / 8, 1, 16 * (k.val % 8)] := by decide +kernel
instance closedOff_k0_off47 (k : Fin k0_t2_loop.trips) : ClosedOff (k0_off47 k) := ⟨![5, k.val / 8, 1, 16 * (k.val % 8)], off47_eq k⟩
theorem off48_eq : ∀ k : Fin k0_t2_loop.trips, k0_off48 k = ![5, k.val / 8, 2, 16 * (k.val % 8)] := by decide +kernel
instance closedOff_k0_off48 (k : Fin k0_t2_loop.trips) : ClosedOff (k0_off48 k) := ⟨![5, k.val / 8, 2, 16 * (k.val % 8)], off48_eq k⟩
theorem off49_eq : ∀ k : Fin k0_t2_loop.trips, k0_off49 k = ![5, k.val / 8, 3, 16 * (k.val % 8)] := by decide +kernel
instance closedOff_k0_off49 (k : Fin k0_t2_loop.trips) : ClosedOff (k0_off49 k) := ⟨![5, k.val / 8, 3, 16 * (k.val % 8)], off49_eq k⟩
theorem off50_eq : ∀ k : Fin k0_t2_loop.trips, k0_off50 k = ![5, k.val / 8, 4, 16 * (k.val % 8)] := by decide +kernel
instance closedOff_k0_off50 (k : Fin k0_t2_loop.trips) : ClosedOff (k0_off50 k) := ⟨![5, k.val / 8, 4, 16 * (k.val % 8)], off50_eq k⟩
theorem off51_eq : ∀ k : Fin k0_t2_loop.trips, k0_off51 k = ![5, k.val / 8, 5, 16 * (k.val % 8)] := by decide +kernel
instance closedOff_k0_off51 (k : Fin k0_t2_loop.trips) : ClosedOff (k0_off51 k) := ⟨![5, k.val / 8, 5, 16 * (k.val % 8)], off51_eq k⟩
theorem off52_eq : ∀ k : Fin k0_t2_loop.trips, k0_off52 k = ![5, k.val / 8, 6, 16 * (k.val % 8)] := by decide +kernel
instance closedOff_k0_off52 (k : Fin k0_t2_loop.trips) : ClosedOff (k0_off52 k) := ⟨![5, k.val / 8, 6, 16 * (k.val % 8)], off52_eq k⟩
theorem off53_eq : ∀ k : Fin k0_t2_loop.trips, k0_off53 k = ![5, k.val / 8, 7, 16 * (k.val % 8)] := by decide +kernel
instance closedOff_k0_off53 (k : Fin k0_t2_loop.trips) : ClosedOff (k0_off53 k) := ⟨![5, k.val / 8, 7, 16 * (k.val % 8)], off53_eq k⟩
theorem off54_eq : ∀ k : Fin k0_t2_loop.trips, k0_off54 k = ![6, k.val / 8, 0, 16 * (k.val % 8)] := by decide +kernel
instance closedOff_k0_off54 (k : Fin k0_t2_loop.trips) : ClosedOff (k0_off54 k) := ⟨![6, k.val / 8, 0, 16 * (k.val % 8)], off54_eq k⟩
theorem off55_eq : ∀ k : Fin k0_t2_loop.trips, k0_off55 k = ![6, k.val / 8, 1, 16 * (k.val % 8)] := by decide +kernel
instance closedOff_k0_off55 (k : Fin k0_t2_loop.trips) : ClosedOff (k0_off55 k) := ⟨![6, k.val / 8, 1, 16 * (k.val % 8)], off55_eq k⟩
theorem off56_eq : ∀ k : Fin k0_t2_loop.trips, k0_off56 k = ![6, k.val / 8, 2, 16 * (k.val % 8)] := by decide +kernel
instance closedOff_k0_off56 (k : Fin k0_t2_loop.trips) : ClosedOff (k0_off56 k) := ⟨![6, k.val / 8, 2, 16 * (k.val % 8)], off56_eq k⟩
theorem off57_eq : ∀ k : Fin k0_t2_loop.trips, k0_off57 k = ![6, k.val / 8, 3, 16 * (k.val % 8)] := by decide +kernel
instance closedOff_k0_off57 (k : Fin k0_t2_loop.trips) : ClosedOff (k0_off57 k) := ⟨![6, k.val / 8, 3, 16 * (k.val % 8)], off57_eq k⟩
theorem off58_eq : ∀ k : Fin k0_t2_loop.trips, k0_off58 k = ![6, k.val / 8, 4, 16 * (k.val % 8)] := by decide +kernel
instance closedOff_k0_off58 (k : Fin k0_t2_loop.trips) : ClosedOff (k0_off58 k) := ⟨![6, k.val / 8, 4, 16 * (k.val % 8)], off58_eq k⟩
theorem off59_eq : ∀ k : Fin k0_t2_loop.trips, k0_off59 k = ![6, k.val / 8, 5, 16 * (k.val % 8)] := by decide +kernel
instance closedOff_k0_off59 (k : Fin k0_t2_loop.trips) : ClosedOff (k0_off59 k) := ⟨![6, k.val / 8, 5, 16 * (k.val % 8)], off59_eq k⟩
theorem off60_eq : ∀ k : Fin k0_t2_loop.trips, k0_off60 k = ![6, k.val / 8, 6, 16 * (k.val % 8)] := by decide +kernel
instance closedOff_k0_off60 (k : Fin k0_t2_loop.trips) : ClosedOff (k0_off60 k) := ⟨![6, k.val / 8, 6, 16 * (k.val % 8)], off60_eq k⟩
theorem off61_eq : ∀ k : Fin k0_t2_loop.trips, k0_off61 k = ![6, k.val / 8, 7, 16 * (k.val % 8)] := by decide +kernel
instance closedOff_k0_off61 (k : Fin k0_t2_loop.trips) : ClosedOff (k0_off61 k) := ⟨![6, k.val / 8, 7, 16 * (k.val % 8)], off61_eq k⟩
theorem off62_eq : ∀ k : Fin k0_t2_loop.trips, k0_off62 k = ![7, k.val / 8, 0, 16 * (k.val % 8)] := by decide +kernel
instance closedOff_k0_off62 (k : Fin k0_t2_loop.trips) : ClosedOff (k0_off62 k) := ⟨![7, k.val / 8, 0, 16 * (k.val % 8)], off62_eq k⟩
theorem off63_eq : ∀ k : Fin k0_t2_loop.trips, k0_off63 k = ![7, k.val / 8, 1, 16 * (k.val % 8)] := by decide +kernel
instance closedOff_k0_off63 (k : Fin k0_t2_loop.trips) : ClosedOff (k0_off63 k) := ⟨![7, k.val / 8, 1, 16 * (k.val % 8)], off63_eq k⟩
theorem off64_eq : ∀ k : Fin k0_t2_loop.trips, k0_off64 k = ![7, k.val / 8, 2, 16 * (k.val % 8)] := by decide +kernel
instance closedOff_k0_off64 (k : Fin k0_t2_loop.trips) : ClosedOff (k0_off64 k) := ⟨![7, k.val / 8, 2, 16 * (k.val % 8)], off64_eq k⟩
theorem off65_eq : ∀ k : Fin k0_t2_loop.trips, k0_off65 k = ![7, k.val / 8, 3, 16 * (k.val % 8)] := by decide +kernel
instance closedOff_k0_off65 (k : Fin k0_t2_loop.trips) : ClosedOff (k0_off65 k) := ⟨![7, k.val / 8, 3, 16 * (k.val % 8)], off65_eq k⟩
theorem off66_eq : ∀ k : Fin k0_t2_loop.trips, k0_off66 k = ![7, k.val / 8, 4, 16 * (k.val % 8)] := by decide +kernel
instance closedOff_k0_off66 (k : Fin k0_t2_loop.trips) : ClosedOff (k0_off66 k) := ⟨![7, k.val / 8, 4, 16 * (k.val % 8)], off66_eq k⟩
theorem off67_eq : ∀ k : Fin k0_t2_loop.trips, k0_off67 k = ![7, k.val / 8, 5, 16 * (k.val % 8)] := by decide +kernel
instance closedOff_k0_off67 (k : Fin k0_t2_loop.trips) : ClosedOff (k0_off67 k) := ⟨![7, k.val / 8, 5, 16 * (k.val % 8)], off67_eq k⟩
theorem off68_eq : ∀ k : Fin k0_t2_loop.trips, k0_off68 k = ![7, k.val / 8, 6, 16 * (k.val % 8)] := by decide +kernel
instance closedOff_k0_off68 (k : Fin k0_t2_loop.trips) : ClosedOff (k0_off68 k) := ⟨![7, k.val / 8, 6, 16 * (k.val % 8)], off68_eq k⟩
theorem off69_eq : ∀ k : Fin k0_t2_loop.trips, k0_off69 k = ![7, k.val / 8, 7, 16 * (k.val % 8)] := by decide +kernel
instance closedOff_k0_off69 (k : Fin k0_t2_loop.trips) : ClosedOff (k0_off69 k) := ⟨![7, k.val / 8, 7, 16 * (k.val % 8)], off69_eq k⟩

omit [FloatOps F] in
/-- Sixteen consecutive words loaded from a scratch whose words are all 0 or 1 are 0 or 1. -/
theorem ld010 {fe : Buf (Elt F) ((V d (cV L) (jV L)).loc cc0_scratch5)} (hfe : ∀ n, fe n = 0#32 ∨ fe n = 1#32)
    (off : Fin 1 → ℕ) (inb : ∀ a, off a + S16.size a ≤ S2304.size a) (x : S16.Idx) :
    (b5W).view.readAt (Elt F) (Rect.unit (s := S2304) off S16.size inb).toLoadRect fe x = 0#32
      ∨ (b5W).view.readAt (Elt F) (Rect.unit (s := S2304) off S16.size inb).toLoadRect fe x = 1#32 := by
  simp only [View.readAt_apply, Memref.view_whole, View.read_whole]
  exact hfe _

omit [FloatOps F] in
/-- A lane of sixteen consecutive words loaded from the attribute scratch is the scratch's word at that position. -/
theorem ldApply0 (fe : Buf (Elt F) ((V d (cV L) (jV L)).loc cc0_scratch5)) (off : Fin 1 → ℕ)
    (inb : ∀ a, off a + S16.size a ≤ S2304.size a) (x : S16.Idx) (n : ℕ) (hn : off 0 + (x 0).val = n) :
    (b5W).view.readAt (Elt F) (Rect.unit (s := S2304) off S16.size inb).toLoadRect fe x = at1 (fe : IVec S2304 32) n := by
  have hlt : n < 2304 := by
    have h1 : off 0 + 16 ≤ 2304 := inb 0
    have h2 : (x 0).val < 16 := (x 0).isLt
    omega
  have hidx : ((Rect.unit (s := S2304) off S16.size inb).toLoadRect.idx x : S2304.Idx) = ix1 (Fin.ofNat 2304 n) := by
    funext a
    match a with
    | ⟨0, _⟩ =>
      refine Fin.ext ?_
      show off 0 + 1 * (x 0).val = n % 2304
      rw [Nat.mod_eq_of_lt hlt]; omega
  simp only [View.readAt_apply, Memref.view_whole, View.read_whole]
  exact congrArg (fe : IVec S2304 32) hidx

/-- The three attribute vectors of group `k`. -/
abbrev Ea0 (fe : Buf (Elt F) ((V d (cV L) (jV L)).loc cc0_scratch5)) (k : Fin k0_t2_loop.trips) : Vec F S16 .i32 :=
  (b5W).view.readAt (Elt F) (Rect.unit (s := S2304) (k0_off4 k) S16.size (k0_off4_inb k)).toLoadRect fe
abbrev Eb0 (fe : Buf (Elt F) ((V d (cV L) (jV L)).loc cc0_scratch5)) (k : Fin k0_t2_loop.trips) : Vec F S16 .i32 :=
  (b5W).view.readAt (Elt F) (Rect.unit (s := S2304) (k0_off5 k 768#32) S16.size (k0_off5_inb k 0)).toLoadRect fe
abbrev Ec0 (fe : Buf (Elt F) ((V d (cV L) (jV L)).loc cc0_scratch5)) (k : Fin k0_t2_loop.trips) : Vec F S16 .i32 :=
  (b5W).view.readAt (Elt F) (Rect.unit (s := S2304) (k0_off5 k 1536#32) S16.size (k0_off5_inb k 1)).toLoadRect fe

omit [FloatOps F] in
/-- Lane `x` of group `k`'s combined row number is the combined row of the chunk's edge `16·k + x`. -/
theorem combVal0 (fe : Buf (Elt F) ((V d (cV L) (jV L)).loc cc0_scratch5)) (hfe : ∀ n, fe n = 0#32 ∨ fe n = 1#32)
    (k : Fin k0_t2_loop.trips) (x : S16.Idx) :
    ((k0_pay1 (Ea0 d L fe k) (Eb0 d L fe k) (Ec0 d L fe k)) x).toNat = combAt (fe : IVec S2304 32) (16 * k.val + (x 0).val) := by
  rw [comb_toNat (ld010 d L hfe _ _) (ld010 d L hfe _ _) (ld010 d L hfe _ _)]
  unfold combAt
  rw [ldApply0 d L fe _ _ x (16 * k.val + (x 0).val) (by rw [k0_off4_eq k]; rfl),
    ldApply0 d L fe _ _ x (768 + (16 * k.val + (x 0).val)) (by rw [show (768#32 : BitVec 32) = BitVec.ofNat 32 (768 + 768 * (0 : Fin 2).val) from rfl, k0_off5_eq k 0]; show 768 * 0 + 16 * k.val + 768 + (x 0).val = _; omega),
    ldApply0 d L fe _ _ x (1536 + (16 * k.val + (x 0).val)) (by rw [show (1536#32 : BitVec 32) = BitVec.ofNat 32 (768 + 768 * (1 : Fin 2).val) from rfl, k0_off5_eq k 1]; show 768 * 1 + 16 * k.val + 768 + (x 0).val = _; omega)]

omit [FloatOps F] in
/-- A combined row is at most 15 when the attribute words are 0 or 1. -/
theorem combAtLe0 (fe : Buf (Elt F) ((V d (cV L) (jV L)).loc cc0_scratch5)) (hfe : ∀ n, fe n = 0#32 ∨ fe n = 1#32) (p : ℕ) :
    combAt (fe : IVec S2304 32) p ≤ 15 := by
  unfold combAt
  have h : ∀ n, (at1 (fe : IVec S2304 32) n).toNat ≤ 1 := fun n => by
    rcases hfe (ix1 (Fin.ofNat 2304 n)) with h | h
    · show (fe (ix1 (Fin.ofNat 2304 n))).toNat ≤ 1; rw [h]; decide
    · show (fe (ix1 (Fin.ofNat 2304 n))).toNat ≤ 1; rw [h]; decide
  have := h p; have := h (768 + p); have := h (1536 + p)
  omega

/-- The gathered vector of column `c` at trip `k`, laid on its sixteen lanes of the output scratch, is the chunk's
    value there. -/
theorem pieceVal0 (fe : Buf (Elt F) ((V d (cV L) (jV L)).loc cc0_scratch5)) (ft : Buf (Elt F) ((V d (cV L) (jV L)).loc cc0_scratch4))
    (hfe : ∀ n, fe n = 0#32 ∨ fe n = 1#32) (k : Fin k0_t2_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea0 d L fe k) (Eb0 d L fe k) (Ec0 d L fe k)) (broadcast S16 q)] : Fin 1 → IVec S16 32) a x).toNat < S4096.size a)
    (hcast : S16.ShapeCasts S1x1x1x16) (x : S1x1x1x16.Idx) :
    shapeCast S1x1x1x16 (loadIdx ((b4W).view.readAt (Elt F) (LoadRect.whole S4096) ft)
        ![addi (k0_pay1 (Ea0 d L fe k) (Eb0 d L fe k) (Ec0 d L fe k)) (broadcast S16 q)] h) hcast x
      = gatherVal (ft : FVec F S4096 .f32) (fe : IVec S2304 32) ((Rect.unit (s := S8x6x8x128) off S1x1x1x16.size inb).emb x) := by
  have hx0 : (x 0).val = 0 := Nat.lt_one_iff.mp (x 0).isLt
  have hx1 : (x 1).val = 0 := Nat.lt_one_iff.mp (x 1).isLt
  have hx2 : (x 2).val = 0 := Nat.lt_one_iff.mp (x 2).isLt
  have hx3 : (x 3).val < 16 := (x 3).isLt
  have hcomb := combVal0 d L fe hfe k (ix1 (x 3))
  have hle := combAtLe0 d L fe hfe (16 * k.val + (x 3).val)
  have hcle : ∀ y, ((k0_pay1 (Ea0 d L fe k) (Eb0 d L fe k) (Ec0 d L fe k)) y).toNat ≤ 15 :=
    comb_le (ld010 d L hfe _ _) (ld010 d L hfe _ _) (ld010 d L hfe _ _)
  rw [shapeCast_apply _ hcast x (ix1 (x 3)) (by
    rw [Shape.rowMajor_val_one, Shape.rowMajor_val_four]
    show (x 3).val = (((x 0).val * 1 + (x 1).val) * 1 + (x 2).val) * 16 + (x 3).val
    rw [hx0, hx1, hx2]; omega)]
  have hidx : ((LoadRect.whole S4096).idx (idxAt ![addi (k0_pay1 (Ea0 d L fe k) (Eb0 d L fe k) (Ec0 d L fe k)) (broadcast S16 q)] h (ix1 (x 3))) : S4096.Idx)
      = ix1 (Fin.ofNat 4096 (64 * (8 * ((Rect.unit (s := S8x6x8x128) off S1x1x1x16.size inb).emb x 0).val
            + ((Rect.unit (s := S8x6x8x128) off S1x1x1x16.size inb).emb x 2).val)
          + combAt (fe : IVec S2304 32) (128 * ((Rect.unit (s := S8x6x8x128) off S1x1x1x16.size inb).emb x 1).val
            + ((Rect.unit (s := S8x6x8x128) off S1x1x1x16.size inb).emb x 3).val))) := by
    funext a
    match a with
    | ⟨0, _⟩ =>
      refine Fin.ext ?_
      show 0 + 1 * (addi (k0_pay1 (Ea0 d L fe k) (Eb0 d L fe k) (Ec0 d L fe k)) (broadcast S16 q) (ix1 (x 3))).toNat
        = (64 * (8 * (off 0 + 1 * (x 0).val) + (off 2 + 1 * (x 2).val))
            + combAt (fe : IVec S2304 32) (128 * (off 1 + 1 * (x 1).val) + (off 3 + 1 * (x 3).val))) % 4096
      rw [Nat.zero_add, Nat.one_mul, idx_toNat hcle (by omega), hcomb, hq, hoff]
      show combAt (fe : IVec S2304 32) (16 * k.val + (x 3).val) + 64 * c
        = (64 * (8 * (c / 8 + 1 * (x 0).val) + (c % 8 + 1 * (x 2).val))
            + combAt (fe : IVec S2304 32) (128 * (k.val / 8 + 1 * (x 1).val) + (16 * (k.val % 8) + 1 * (x 3).val))) % 4096
      rw [hx0, hx1, hx2]
      have e1 : 128 * (k.val / 8 + 1 * 0) + (16 * (k.val % 8) + 1 * (x 3).val) = 16 * k.val + (x 3).val := by omega
      have e2 : 64 * (8 * (c / 8 + 1 * 0) + (c % 8 + 1 * 0)) = 64 * c := by omega
      rw [e1, e2, Nat.mod_eq_of_lt (by omega)]
      omega
  unfold gatherVal loadIdx
  simp only [View.readAt_apply, Memref.view_whole, View.read_whole]
  exact congrArg (ft : FVec F S4096 .f32) hidx

/-- Column `c`'s store of trip `k` is a good piece. -/
theorem pieceGood0 (fe : Buf (Elt F) ((V d (cV L) (jV L)).loc cc0_scratch5)) (ft : Buf (Elt F) ((V d (cV L) (jV L)).loc cc0_scratch4))
    (hfe : ∀ n, fe n = 0#32 ∨ fe n = 1#32) (k : Fin k0_t2_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea0 d L fe k) (Eb0 d L fe k) (Ec0 d L fe k)) (broadcast S16 q)] : Fin 1 → IVec S16 32) a x).toNat < S4096.size a)
    (hcast : S16.ShapeCasts S1x1x1x16) :
    PieceGood (Val := Elt F) (gatherVal (ft : FVec F S4096 .f32) (fe : IVec S2304 32)) k.val c
      ⟨Rect.unit (s := S8x6x8x128) off S1x1x1x16.size inb,
        shapeCast S1x1x1x16 (loadIdx ((b4W).view.readAt (Elt F) (LoadRect.whole S4096) ft)
          ![addi (k0_pay1 (Ea0 d L fe k) (Eb0 d L fe k) (Ec0 d L fe k)) (broadcast S16 q)] h) hcast⟩ where
  off := hoff
  size := rfl
  stride := fun _ => rfl
  val := fun x => pieceVal0 d L fe ft hfe k c hc q hq off hoff inb h hcast x

omit [FloatOps F] in
/-- What a trip leaves, through the output scratch's own memref: reading the whole scratch is reading its contents. -/
theorem tripValWhole0 (fo : Buf (Elt F) ((V d (cV L) (jV L)).loc cc0_scratch7)) (G : S8x6x8x128.Idx → Elt F .f32) (k : ℕ)
    (Ls : List (View.Piece (Elt F) S8x6x8x128 .f32)) (hlen : Ls.length = 64) (hg : GoodList G k Ls)
    (hinv : ∀ j : S8x6x8x128.Idx, grp j < k → fo j = G j) :
    ∀ j : S8x6x8x128.Idx, grp j < k + 1 → (b7W).view.writes (Elt F) fo Ls j = G j :=
  trip_val (b7W).view fo G k Ls hlen hg hinv

/-- Before trip `k`: the attribute scratch and the table scratch as they were, and the output scratch holding the chunk's
    values on the groups below `k`. -/
def innerInvV0 (fe : Buf (Elt F) ((V d (cV L) (jV L)).loc cc0_scratch5)) (ft : Buf (Elt F) ((V d (cV L) (jV L)).loc cc0_scratch4))
    (k : ℕ) (_ : PUnit) : sProp 𝕄 :=
  iprop(((b5W).view.loc (V d (cV L) (jV L)) ↦{fullShare} fe) ∗ ((b4W).view.loc (V d (cV L) (jV L)) ↦{fullShare} ft)
    ∗ ∃ fo, ((b7W).view.loc (V d (cV L) (jV L)) ↦{fullShare} fo)
      ∗ ⌜∀ j : S8x6x8x128.Idx, grp j < k → fo j = gatherVal (ft : FVec F S4096 .f32) (fe : IVec S2304 32) j⌝)

set_option maxHeartbeats 8000000 in
/-- One trip of the loop keeps the invariant: group `k` is written. -/
theorem inner_regionV0 (fe : Buf (Elt F) ((V d (cV L) (jV L)).loc cc0_scratch5)) (ft : Buf (Elt F) ((V d (cV L) (jV L)).loc cc0_scratch4))
    (hfe : ∀ n, fe n = 0#32 ∨ fe n = 1#32) (v3138 v3140 c0 c1 : BitVec 32) (t1 : Fin k0_t1_loop.trips) :
    ∀ (k : Fin k0_t2_loop.trips) (acc : PUnit.{1}),
      innerInvV0 (F := F) d L fe ft k acc ⊢
        wp frame (wpE (defs₀ (F := F)) 𝒱₀ (V d (cV L) (jV L)) none) Set.univ
          ((k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1) k acc)
          (innerInvV0 (F := F) d L fe ft (k + 1)) := by
  intro k _
  unfold innerInvV0
  iintro ⟨H5, H4, %fo, H7, %hinv⟩
  unfold k0_t2_body
  sl_exec (disch := (refine chk_of_le (comb_le (ld010 d L hfe _ _) (ld010 d L hfe _ _) (ld010 d L hfe _ _)) ?_; decide))
  iterate 70 (first | (rw [SparseCore.vectorLoadIdx_bind (c := V d (cV L) (jV L))]; sl_exec (disch := (refine chk_of_le (comb_le (ld010 d L hfe _ _) (ld010 d L hfe _ _) (ld010 d L hfe _ _)) ?_; decide))) | skip)
  sl_step
  isplitl [H5]; · iexact H5
  isplitl [H4]; · iexact H4
  iexists _
  isplitl [H7]; · iexact H7
  ipureintro
  refine tripValWhole0 d L fo _ k.val _ rfl ?_ hinv
  exact
    (And.intro (pieceGood0 d L fe ft hfe k 63 (by decide) _ (by decide) _ (off69_eq k) _ _ _)
    (And.intro (pieceGood0 d L fe ft hfe k 62 (by decide) _ (by decide) _ (off68_eq k) _ _ _)
    (And.intro (pieceGood0 d L fe ft hfe k 61 (by decide) _ (by decide) _ (off67_eq k) _ _ _)
    (And.intro (pieceGood0 d L fe ft hfe k 60 (by decide) _ (by decide) _ (off66_eq k) _ _ _)
    (And.intro (pieceGood0 d L fe ft hfe k 59 (by decide) _ (by decide) _ (off65_eq k) _ _ _)
    (And.intro (pieceGood0 d L fe ft hfe k 58 (by decide) _ (by decide) _ (off64_eq k) _ _ _)
    (And.intro (pieceGood0 d L fe ft hfe k 57 (by decide) _ (by decide) _ (off63_eq k) _ _ _)
    (And.intro (pieceGood0 d L fe ft hfe k 56 (by decide) _ (by decide) _ (off62_eq k) _ _ _)
    (And.intro (pieceGood0 d L fe ft hfe k 55 (by decide) _ (by decide) _ (off61_eq k) _ _ _)
    (And.intro (pieceGood0 d L fe ft hfe k 54 (by decide) _ (by decide) _ (off60_eq k) _ _ _)
    (And.intro (pieceGood0 d L fe ft hfe k 53 (by decide) _ (by decide) _ (off59_eq k) _ _ _)
    (And.intro (pieceGood0 d L fe ft hfe k 52 (by decide) _ (by decide) _ (off58_eq k) _ _ _)
    (And.intro (pieceGood0 d L fe ft hfe k 51 (by decide) _ (by decide) _ (off57_eq k) _ _ _)
    (And.intro (pieceGood0 d L fe ft hfe k 50 (by decide) _ (by decide) _ (off56_eq k) _ _ _)
    (And.intro (pieceGood0 d L fe ft hfe k 49 (by decide) _ (by decide) _ (off55_eq k) _ _ _)
    (And.intro (pieceGood0 d L fe ft hfe k 48 (by decide) _ (by decide) _ (off54_eq k) _ _ _)
    (And.intro (pieceGood0 d L fe ft hfe k 47 (by decide) _ (by decide) _ (off53_eq k) _ _ _)
    (And.intro (pieceGood0 d L fe ft hfe k 46 (by decide) _ (by decide) _ (off52_eq k) _ _ _)
    (And.intro (pieceGood0 d L fe ft hfe k 45 (by decide) _ (by decide) _ (off51_eq k) _ _ _)
    (And.intro (pieceGood0 d L fe ft hfe k 44 (by decide) _ (by decide) _ (off50_eq k) _ _ _)
    (And.intro (pieceGood0 d L fe ft hfe k 43 (by decide) _ (by decide) _ (off49_eq k) _ _ _)
    (And.intro (pieceGood0 d L fe ft hfe k 42 (by decide) _ (by decide) _ (off48_eq k) _ _ _)
    (And.intro (pieceGood0 d L fe ft hfe k 41 (by decide) _ (by decide) _ (off47_eq k) _ _ _)
    (And.intro (pieceGood0 d L fe ft hfe k 40 (by decide) _ (by decide) _ (off46_eq k) _ _ _)
    (And.intro (pieceGood0 d L fe ft hfe k 39 (by decide) _ (by decide) _ (off45_eq k) _ _ _)
    (And.intro (pieceGood0 d L fe ft hfe k 38 (by decide) _ (by decide) _ (off44_eq k) _ _ _)
    (And.intro (pieceGood0 d L fe ft hfe k 37 (by decide) _ (by decide) _ (off43_eq k) _ _ _)
    (And.intro (pieceGood0 d L fe ft hfe k 36 (by decide) _ (by decide) _ (off42_eq k) _ _ _)
    (And.intro (pieceGood0 d L fe ft hfe k 35 (by decide) _ (by decide) _ (off41_eq k) _ _ _)
    (And.intro (pieceGood0 d L fe ft hfe k 34 (by decide) _ (by decide) _ (off40_eq k) _ _ _)
    (And.intro (pieceGood0 d L fe ft hfe k 33 (by decide) _ (by decide) _ (off39_eq k) _ _ _)
    (And.intro (pieceGood0 d L fe ft hfe k 32 (by decide) _ (by decide) _ (off38_eq k) _ _ _)
    (And.intro (pieceGood0 d L fe ft hfe k 31 (by decide) _ (by decide) _ (off37_eq k) _ _ _)
    (And.intro (pieceGood0 d L fe ft hfe k 30 (by decide) _ (by decide) _ (off36_eq k) _ _ _)
    (And.intro (pieceGood0 d L fe ft hfe k 29 (by decide) _ (by decide) _ (off35_eq k) _ _ _)
    (And.intro (pieceGood0 d L fe ft hfe k 28 (by decide) _ (by decide) _ (off34_eq k) _ _ _)
    (And.intro (pieceGood0 d L fe ft hfe k 27 (by decide) _ (by decide) _ (off33_eq k) _ _ _)
    (And.intro (pieceGood0 d L fe ft hfe k 26 (by decide) _ (by decide) _ (off32_eq k) _ _ _)
    (And.intro (pieceGood0 d L fe ft hfe k 25 (by decide) _ (by decide) _ (off31_eq k) _ _ _)
    (And.intro (pieceGood0 d L fe ft hfe k 24 (by decide) _ (by decide) _ (off30_eq k) _ _ _)
    (And.intro (pieceGood0 d L fe ft hfe k 23 (by decide) _ (by decide) _ (off29_eq k) _ _ _)
    (And.intro (pieceGood0 d L fe ft hfe k 22 (by decide) _ (by decide) _ (off28_eq k) _ _ _)
    (And.intro (pieceGood0 d L fe ft hfe k 21 (by decide) _ (by decide) _ (off27_eq k) _ _ _)
    (And.intro (pieceGood0 d L fe ft hfe k 20 (by decide) _ (by decide) _ (off26_eq k) _ _ _)
    (And.intro (pieceGood0 d L fe ft hfe k 19 (by decide) _ (by decide) _ (off25_eq k) _ _ _)
    (And.intro (pieceGood0 d L fe ft hfe k 18 (by decide) _ (by decide) _ (off24_eq k) _ _ _)
    (And.intro (pieceGood0 d L fe ft hfe k 17 (by decide) _ (by decide) _ (off23_eq k) _ _ _)
    (And.intro (pieceGood0 d L fe ft hfe k 16 (by decide) _ (by decide) _ (off22_eq k) _ _ _)
    (And.intro (pieceGood0 d L fe ft hfe k 15 (by decide) _ (by decide) _ (off21_eq k) _ _ _)
    (And.intro (pieceGood0 d L fe ft hfe k 14 (by decide) _ (by decide) _ (off20_eq k) _ _ _)
    (And.intro (pieceGood0 d L fe ft hfe k 13 (by decide) _ (by decide) _ (off19_eq k) _ _ _)
    (And.intro (pieceGood0 d L fe ft hfe k 12 (by decide) _ (by decide) _ (off18_eq k) _ _ _)
    (And.intro (pieceGood0 d L fe ft hfe k 11 (by decide) _ (by decide) _ (off17_eq k) _ _ _)
    (And.intro (pieceGood0 d L fe ft hfe k 10 (by decide) _ (by decide) _ (off16_eq k) _ _ _)
    (And.intro (pieceGood0 d L fe ft hfe k 9 (by decide) _ (by decide) _ (off15_eq k) _ _ _)
    (And.intro (pieceGood0 d L fe ft hfe k 8 (by decide) _ (by decide) _ (off14_eq k) _ _ _)
    (And.intro (pieceGood0 d L fe ft hfe k 7 (by decide) _ (by decide) _ (off13_eq k) _ _ _)
    (And.intro (pieceGood0 d L fe ft hfe k 6 (by decide) _ (by decide) _ (off12_eq k) _ _ _)
    (And.intro (pieceGood0 d L fe ft hfe k 5 (by decide) _ (by decide) _ (off11_eq k) _ _ _)
    (And.intro (pieceGood0 d L fe ft hfe k 4 (by decide) _ (by decide) _ (off10_eq k) _ _ _)
    (And.intro (pieceGood0 d L fe ft hfe k 3 (by decide) _ (by decide) _ (off9_eq k) _ _ _)
    (And.intro (pieceGood0 d L fe ft hfe k 2 (by decide) _ (by decide) _ (off8_eq k) _ _ _)
    (And.intro (pieceGood0 d L fe ft hfe k 1 (by decide) _ (by decide) _ (off7_eq k) _ _ _)
    (And.intro (pieceGood0 d L fe ft hfe k 0 (by decide) _ (by decide) _ (off6_eq k) _ _ _)
    trivial))))))))))))))))))))))))))))))))))))))))))))))))))))))))))))))))

/-- The loop, run from the three scratches: afterwards the output scratch holds the chunk's values everywhere. -/
theorem innerV0_ok (fe : Buf (Elt F) ((V d (cV L) (jV L)).loc cc0_scratch5)) (ft : Buf (Elt F) ((V d (cV L) (jV L)).loc cc0_scratch4)) (fo : Buf (Elt F) ((V d (cV L) (jV L)).loc cc0_scratch7))
    (hfe : ∀ n, fe n = 0#32 ∨ fe n = 1#32) (v3138 v3140 c0 c1 : BitVec 32) (t1 : Fin k0_t1_loop.trips) :
    (iprop(((b5W).view.loc (V d (cV L) (jV L)) ↦{fullShare} fe) ∗ ((b4W).view.loc (V d (cV L) (jV L)) ↦{fullShare} ft)
        ∗ ((b7W).view.loc (V d (cV L) (jV L)) ↦{fullShare} fo)) : sProp 𝕄)
      ⊢ wp frame (wpE (defs₀ (F := F)) 𝒱₀ (V d (cV L) (jV L)) none) Set.univ
          (Scf.Loop.for k0_t2_loop Cert.KernelIdeal.Gen.k0_t2_ok ⟨⟩ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1))
          fun _ => iprop(((b5W).view.loc (V d (cV L) (jV L)) ↦{fullShare} fe) ∗ ((b4W).view.loc (V d (cV L) (jV L)) ↦{fullShare} ft)
            ∗ ∃ fo', ((b7W).view.loc (V d (cV L) (jV L)) ↦{fullShare} fo')
              ∗ ⌜∀ j : S8x6x8x128.Idx, fo' j = gatherVal (ft : FVec F S4096 .f32) (fe : IVec S2304 32) j⌝) := by
  iintro ⟨H5, H4, H7⟩
  sl_for (innerInvV0 (F := F) d L fe ft) $$ [H5 H4 H7]
  case region => exact inner_regionV0 d L fe ft hfe v3138 v3140 c0 c1 t1
  isplitl [H5 H4 H7]
  · unfold innerInvV0
    isplitl [H5]; · iexact H5
    isplitl [H4]; · iexact H4
    iexists _
    isplitl [H7]; · iexact H7
    ipureintro
    intro j hj
    exact absurd hj (Nat.not_lt_zero _)
  · iintro %_ HI
    unfold innerInvV0
    icases HI with ⟨H5, H4, %fo', H7, %hall⟩
    isplitl [H5]; · iexact H5
    isplitl [H4]; · iexact H4
    iexists _
    isplitl [H7]; · iexact H7
    ipureintro
    intro j
    refine hall j ?_
    have h1 : (j 1).val < 6 := (j 1).isLt
    have h3 : (j 3).val < 128 := (j 3).isLt
    show 8 * (j 1).val + (j 3).val / 16 < 48
    omega

/-! ## The same loop with the output scratch's contents left unstated -/

/-- Before any trip: the attribute scratch and the table scratch as they were, the output scratch at some contents. -/
def innerInv0 (fe : Buf (Elt F) ((V d (cV L) (jV L)).loc cc0_scratch5)) (ft : Buf (Elt F) ((V d (cV L) (jV L)).loc cc0_scratch4))
    (_ : ℕ) (_ : PUnit) : sProp 𝕄 :=
  iprop(((b5W).view.loc (V d (cV L) (jV L)) ↦{fullShare} fe) ∗ ((b4W).view.loc (V d (cV L) (jV L)) ↦{fullShare} ft)
    ∗ ∃ fo, (b7W).view.loc (V d (cV L) (jV L)) ↦{fullShare} fo)

set_option maxHeartbeats 4000000 in
/-- One trip keeps it. -/
theorem inner_region0 (fe : Buf (Elt F) ((V d (cV L) (jV L)).loc cc0_scratch5)) (ft : Buf (Elt F) ((V d (cV L) (jV L)).loc cc0_scratch4))
    (hfe : ∀ n, fe n = 0#32 ∨ fe n = 1#32) (v3138 v3140 c0 c1 : BitVec 32) (t1 : Fin k0_t1_loop.trips) :
    ∀ (k : Fin k0_t2_loop.trips) (acc : PUnit.{1}),
      innerInv0 (F := F) d L fe ft k acc ⊢
        wp frame (wpE (defs₀ (F := F)) 𝒱₀ (V d (cV L) (jV L)) none) Set.univ
          ((k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1) k acc)
          (innerInv0 (F := F) d L fe ft (k + 1)) := by
  intro k _
  unfold innerInv0
  iintro ⟨H5, H4, %fo, H7⟩
  unfold k0_t2_body
  sl_exec (disch := (refine chk_of_le (comb_le (ld010 d L hfe _ _) (ld010 d L hfe _ _) (ld010 d L hfe _ _)) ?_; decide))
  iterate 70 (first | (rw [SparseCore.vectorLoadIdx_bind (c := V d (cV L) (jV L))]; sl_exec (disch := (refine chk_of_le (comb_le (ld010 d L hfe _ _) (ld010 d L hfe _ _) (ld010 d L hfe _ _)) ?_; decide))) | skip)
  sl_step
  isplitl [H5]; · iexact H5
  isplitl [H4]; · iexact H4
  iexists _; iexact H7

/-- The loop, run from the three scratches. -/
theorem inner0_ok (fe : Buf (Elt F) ((V d (cV L) (jV L)).loc cc0_scratch5)) (ft : Buf (Elt F) ((V d (cV L) (jV L)).loc cc0_scratch4)) (fo : Buf (Elt F) ((V d (cV L) (jV L)).loc cc0_scratch7))
    (hfe : ∀ n, fe n = 0#32 ∨ fe n = 1#32) (v3138 v3140 c0 c1 : BitVec 32) (t1 : Fin k0_t1_loop.trips) :
    (iprop(((b5W).view.loc (V d (cV L) (jV L)) ↦{fullShare} fe) ∗ ((b4W).view.loc (V d (cV L) (jV L)) ↦{fullShare} ft)
        ∗ ((b7W).view.loc (V d (cV L) (jV L)) ↦{fullShare} fo)) : sProp 𝕄)
      ⊢ wp frame (wpE (defs₀ (F := F)) 𝒱₀ (V d (cV L) (jV L)) none) Set.univ
          (Scf.Loop.for k0_t2_loop Cert.KernelIdeal.Gen.k0_t2_ok ⟨⟩ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1))
          fun _ => iprop(((b5W).view.loc (V d (cV L) (jV L)) ↦{fullShare} fe) ∗ ((b4W).view.loc (V d (cV L) (jV L)) ↦{fullShare} ft)
            ∗ ∃ fo', (b7W).view.loc (V d (cV L) (jV L)) ↦{fullShare} fo') := by
  iintro ⟨H5, H4, H7⟩
  sl_for (innerInv0 (F := F) d L fe ft) $$ [H5 H4 H7]
  case region => exact inner_region0 d L fe ft hfe v3138 v3140 c0 c1 t1
  isplitl [H5 H4 H7]
  · unfold innerInv0
    isplitl [H5]; · iexact H5
    isplitl [H4]; · iexact H4
    iexists _; iexact H7
  · iintro %_ HI
    unfold innerInv0
    iexact HI

end Cert.Proof.KI
end
-- ==== Proof.Inner1KI.lean ====
/-
  The second copy of the inner loop (attribute scratch 6, output scratch 8): one trip by the symbolic run, the
  sixty-four stored pieces read back at an index, and the loop by its invariant.
-/
import proofs.«203789_g40862318854646_cont_8to1_b_1018_13_alg».proof.Proof.TileDefsKI
import proofs.«203789_g40862318854646_cont_8to1_b_1018_13_alg».proof.Proof.GoodKI
import proofs.«203789_g40862318854646_cont_8to1_b_1018_13_alg».proof.Proof.InnerLibKI
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

variable [FloatOps F]
variable (d : Dev nD) (L : grid0.Coords)

/-! ## The output offsets of column c at trip k: row (c / 8, k / 8, c % 8), lanes 16·(k % 8) … +15 -/
theorem off75_eq : ∀ k : Fin k0_t3_loop.trips, k0_off75 k = ![0, k.val / 8, 0, 16 * (k.val % 8)] := by decide +kernel
instance closedOff_k0_off75 (k : Fin k0_t3_loop.trips) : ClosedOff (k0_off75 k) := ⟨![0, k.val / 8, 0, 16 * (k.val % 8)], off75_eq k⟩
theorem off76_eq : ∀ k : Fin k0_t3_loop.trips, k0_off76 k = ![0, k.val / 8, 1, 16 * (k.val % 8)] := by decide +kernel
instance closedOff_k0_off76 (k : Fin k0_t3_loop.trips) : ClosedOff (k0_off76 k) := ⟨![0, k.val / 8, 1, 16 * (k.val % 8)], off76_eq k⟩
theorem off77_eq : ∀ k : Fin k0_t3_loop.trips, k0_off77 k = ![0, k.val / 8, 2, 16 * (k.val % 8)] := by decide +kernel
instance closedOff_k0_off77 (k : Fin k0_t3_loop.trips) : ClosedOff (k0_off77 k) := ⟨![0, k.val / 8, 2, 16 * (k.val % 8)], off77_eq k⟩
theorem off78_eq : ∀ k : Fin k0_t3_loop.trips, k0_off78 k = ![0, k.val / 8, 3, 16 * (k.val % 8)] := by decide +kernel
instance closedOff_k0_off78 (k : Fin k0_t3_loop.trips) : ClosedOff (k0_off78 k) := ⟨![0, k.val / 8, 3, 16 * (k.val % 8)], off78_eq k⟩
theorem off79_eq : ∀ k : Fin k0_t3_loop.trips, k0_off79 k = ![0, k.val / 8, 4, 16 * (k.val % 8)] := by decide +kernel
instance closedOff_k0_off79 (k : Fin k0_t3_loop.trips) : ClosedOff (k0_off79 k) := ⟨![0, k.val / 8, 4, 16 * (k.val % 8)], off79_eq k⟩
theorem off80_eq : ∀ k : Fin k0_t3_loop.trips, k0_off80 k = ![0, k.val / 8, 5, 16 * (k.val % 8)] := by decide +kernel
instance closedOff_k0_off80 (k : Fin k0_t3_loop.trips) : ClosedOff (k0_off80 k) := ⟨![0, k.val / 8, 5, 16 * (k.val % 8)], off80_eq k⟩
theorem off81_eq : ∀ k : Fin k0_t3_loop.trips, k0_off81 k = ![0, k.val / 8, 6, 16 * (k.val % 8)] := by decide +kernel
instance closedOff_k0_off81 (k : Fin k0_t3_loop.trips) : ClosedOff (k0_off81 k) := ⟨![0, k.val / 8, 6, 16 * (k.val % 8)], off81_eq k⟩
theorem off82_eq : ∀ k : Fin k0_t3_loop.trips, k0_off82 k = ![0, k.val / 8, 7, 16 * (k.val % 8)] := by decide +kernel
instance closedOff_k0_off82 (k : Fin k0_t3_loop.trips) : ClosedOff (k0_off82 k) := ⟨![0, k.val / 8, 7, 16 * (k.val % 8)], off82_eq k⟩
theorem off83_eq : ∀ k : Fin k0_t3_loop.trips, k0_off83 k = ![1, k.val / 8, 0, 16 * (k.val % 8)] := by decide +kernel
instance closedOff_k0_off83 (k : Fin k0_t3_loop.trips) : ClosedOff (k0_off83 k) := ⟨![1, k.val / 8, 0, 16 * (k.val % 8)], off83_eq k⟩
theorem off84_eq : ∀ k : Fin k0_t3_loop.trips, k0_off84 k = ![1, k.val / 8, 1, 16 * (k.val % 8)] := by decide +kernel
instance closedOff_k0_off84 (k : Fin k0_t3_loop.trips) : ClosedOff (k0_off84 k) := ⟨![1, k.val / 8, 1, 16 * (k.val % 8)], off84_eq k⟩
theorem off85_eq : ∀ k : Fin k0_t3_loop.trips, k0_off85 k = ![1, k.val / 8, 2, 16 * (k.val % 8)] := by decide +kernel
instance closedOff_k0_off85 (k : Fin k0_t3_loop.trips) : ClosedOff (k0_off85 k) := ⟨![1, k.val / 8, 2, 16 * (k.val % 8)], off85_eq k⟩
theorem off86_eq : ∀ k : Fin k0_t3_loop.trips, k0_off86 k = ![1, k.val / 8, 3, 16 * (k.val % 8)] := by decide +kernel
instance closedOff_k0_off86 (k : Fin k0_t3_loop.trips) : ClosedOff (k0_off86 k) := ⟨![1, k.val / 8, 3, 16 * (k.val % 8)], off86_eq k⟩
theorem off87_eq : ∀ k : Fin k0_t3_loop.trips, k0_off87 k = ![1, k.val / 8, 4, 16 * (k.val % 8)] := by decide +kernel
instance closedOff_k0_off87 (k : Fin k0_t3_loop.trips) : ClosedOff (k0_off87 k) := ⟨![1, k.val / 8, 4, 16 * (k.val % 8)], off87_eq k⟩
theorem off88_eq : ∀ k : Fin k0_t3_loop.trips, k0_off88 k = ![1, k.val / 8, 5, 16 * (k.val % 8)] := by decide +kernel
instance closedOff_k0_off88 (k : Fin k0_t3_loop.trips) : ClosedOff (k0_off88 k) := ⟨![1, k.val / 8, 5, 16 * (k.val % 8)], off88_eq k⟩
theorem off89_eq : ∀ k : Fin k0_t3_loop.trips, k0_off89 k = ![1, k.val / 8, 6, 16 * (k.val % 8)] := by decide +kernel
instance closedOff_k0_off89 (k : Fin k0_t3_loop.trips) : ClosedOff (k0_off89 k) := ⟨![1, k.val / 8, 6, 16 * (k.val % 8)], off89_eq k⟩
theorem off90_eq : ∀ k : Fin k0_t3_loop.trips, k0_off90 k = ![1, k.val / 8, 7, 16 * (k.val % 8)] := by decide +kernel
instance closedOff_k0_off90 (k : Fin k0_t3_loop.trips) : ClosedOff (k0_off90 k) := ⟨![1, k.val / 8, 7, 16 * (k.val % 8)], off90_eq k⟩
theorem off91_eq : ∀ k : Fin k0_t3_loop.trips, k0_off91 k = ![2, k.val / 8, 0, 16 * (k.val % 8)] := by decide +kernel
instance closedOff_k0_off91 (k : Fin k0_t3_loop.trips) : ClosedOff (k0_off91 k) := ⟨![2, k.val / 8, 0, 16 * (k.val % 8)], off91_eq k⟩
theorem off92_eq : ∀ k : Fin k0_t3_loop.trips, k0_off92 k = ![2, k.val / 8, 1, 16 * (k.val % 8)] := by decide +kernel
instance closedOff_k0_off92 (k : Fin k0_t3_loop.trips) : ClosedOff (k0_off92 k) := ⟨![2, k.val / 8, 1, 16 * (k.val % 8)], off92_eq k⟩
theorem off93_eq : ∀ k : Fin k0_t3_loop.trips, k0_off93 k = ![2, k.val / 8, 2, 16 * (k.val % 8)] := by decide +kernel
instance closedOff_k0_off93 (k : Fin k0_t3_loop.trips) : ClosedOff (k0_off93 k) := ⟨![2, k.val / 8, 2, 16 * (k.val % 8)], off93_eq k⟩
theorem off94_eq : ∀ k : Fin k0_t3_loop.trips, k0_off94 k = ![2, k.val / 8, 3, 16 * (k.val % 8)] := by decide +kernel
instance closedOff_k0_off94 (k : Fin k0_t3_loop.trips) : ClosedOff (k0_off94 k) := ⟨![2, k.val / 8, 3, 16 * (k.val % 8)], off94_eq k⟩
theorem off95_eq : ∀ k : Fin k0_t3_loop.trips, k0_off95 k = ![2, k.val / 8, 4, 16 * (k.val % 8)] := by decide +kernel
instance closedOff_k0_off95 (k : Fin k0_t3_loop.trips) : ClosedOff (k0_off95 k) := ⟨![2, k.val / 8, 4, 16 * (k.val % 8)], off95_eq k⟩
theorem off96_eq : ∀ k : Fin k0_t3_loop.trips, k0_off96 k = ![2, k.val / 8, 5, 16 * (k.val % 8)] := by decide +kernel
instance closedOff_k0_off96 (k : Fin k0_t3_loop.trips) : ClosedOff (k0_off96 k) := ⟨![2, k.val / 8, 5, 16 * (k.val % 8)], off96_eq k⟩
theorem off97_eq : ∀ k : Fin k0_t3_loop.trips, k0_off97 k = ![2, k.val / 8, 6, 16 * (k.val % 8)] := by decide +kernel
instance closedOff_k0_off97 (k : Fin k0_t3_loop.trips) : ClosedOff (k0_off97 k) := ⟨![2, k.val / 8, 6, 16 * (k.val % 8)], off97_eq k⟩
theorem off98_eq : ∀ k : Fin k0_t3_loop.trips, k0_off98 k = ![2, k.val / 8, 7, 16 * (k.val % 8)] := by decide +kernel
instance closedOff_k0_off98 (k : Fin k0_t3_loop.trips) : ClosedOff (k0_off98 k) := ⟨![2, k.val / 8, 7, 16 * (k.val % 8)], off98_eq k⟩
theorem off99_eq : ∀ k : Fin k0_t3_loop.trips, k0_off99 k = ![3, k.val / 8, 0, 16 * (k.val % 8)] := by decide +kernel
instance closedOff_k0_off99 (k : Fin k0_t3_loop.trips) : ClosedOff (k0_off99 k) := ⟨![3, k.val / 8, 0, 16 * (k.val % 8)], off99_eq k⟩
theorem off100_eq : ∀ k : Fin k0_t3_loop.trips, k0_off100 k = ![3, k.val / 8, 1, 16 * (k.val % 8)] := by decide +kernel
instance closedOff_k0_off100 (k : Fin k0_t3_loop.trips) : ClosedOff (k0_off100 k) := ⟨![3, k.val / 8, 1, 16 * (k.val % 8)], off100_eq k⟩
theorem off101_eq : ∀ k : Fin k0_t3_loop.trips, k0_off101 k = ![3, k.val / 8, 2, 16 * (k.val % 8)] := by decide +kernel
instance closedOff_k0_off101 (k : Fin k0_t3_loop.trips) : ClosedOff (k0_off101 k) := ⟨![3, k.val / 8, 2, 16 * (k.val % 8)], off101_eq k⟩
theorem off102_eq : ∀ k : Fin k0_t3_loop.trips, k0_off102 k = ![3, k.val / 8, 3, 16 * (k.val % 8)] := by decide +kernel
instance closedOff_k0_off102 (k : Fin k0_t3_loop.trips) : ClosedOff (k0_off102 k) := ⟨![3, k.val / 8, 3, 16 * (k.val % 8)], off102_eq k⟩
theorem off103_eq : ∀ k : Fin k0_t3_loop.trips, k0_off103 k = ![3, k.val / 8, 4, 16 * (k.val % 8)] := by decide +kernel
instance closedOff_k0_off103 (k : Fin k0_t3_loop.trips) : ClosedOff (k0_off103 k) := ⟨![3, k.val / 8, 4, 16 * (k.val % 8)], off103_eq k⟩
theorem off104_eq : ∀ k : Fin k0_t3_loop.trips, k0_off104 k = ![3, k.val / 8, 5, 16 * (k.val % 8)] := by decide +kernel
instance closedOff_k0_off104 (k : Fin k0_t3_loop.trips) : ClosedOff (k0_off104 k) := ⟨![3, k.val / 8, 5, 16 * (k.val % 8)], off104_eq k⟩
theorem off105_eq : ∀ k : Fin k0_t3_loop.trips, k0_off105 k = ![3, k.val / 8, 6, 16 * (k.val % 8)] := by decide +kernel
instance closedOff_k0_off105 (k : Fin k0_t3_loop.trips) : ClosedOff (k0_off105 k) := ⟨![3, k.val / 8, 6, 16 * (k.val % 8)], off105_eq k⟩
theorem off106_eq : ∀ k : Fin k0_t3_loop.trips, k0_off106 k = ![3, k.val / 8, 7, 16 * (k.val % 8)] := by decide +kernel
instance closedOff_k0_off106 (k : Fin k0_t3_loop.trips) : ClosedOff (k0_off106 k) := ⟨![3, k.val / 8, 7, 16 * (k.val % 8)], off106_eq k⟩
theorem off107_eq : ∀ k : Fin k0_t3_loop.trips, k0_off107 k = ![4, k.val / 8, 0, 16 * (k.val % 8)] := by decide +kernel
instance closedOff_k0_off107 (k : Fin k0_t3_loop.trips) : ClosedOff (k0_off107 k) := ⟨![4, k.val / 8, 0, 16 * (k.val % 8)], off107_eq k⟩
theorem off108_eq : ∀ k : Fin k0_t3_loop.trips, k0_off108 k = ![4, k.val / 8, 1, 16 * (k.val % 8)] := by decide +kernel
instance closedOff_k0_off108 (k : Fin k0_t3_loop.trips) : ClosedOff (k0_off108 k) := ⟨![4, k.val / 8, 1, 16 * (k.val % 8)], off108_eq k⟩
theorem off109_eq : ∀ k : Fin k0_t3_loop.trips, k0_off109 k = ![4, k.val / 8, 2, 16 * (k.val % 8)] := by decide +kernel
instance closedOff_k0_off109 (k : Fin k0_t3_loop.trips) : ClosedOff (k0_off109 k) := ⟨![4, k.val / 8, 2, 16 * (k.val % 8)], off109_eq k⟩
theorem off110_eq : ∀ k : Fin k0_t3_loop.trips, k0_off110 k = ![4, k.val / 8, 3, 16 * (k.val % 8)] := by decide +kernel
instance closedOff_k0_off110 (k : Fin k0_t3_loop.trips) : ClosedOff (k0_off110 k) := ⟨![4, k.val / 8, 3, 16 * (k.val % 8)], off110_eq k⟩
theorem off111_eq : ∀ k : Fin k0_t3_loop.trips, k0_off111 k = ![4, k.val / 8, 4, 16 * (k.val % 8)] := by decide +kernel
instance closedOff_k0_off111 (k : Fin k0_t3_loop.trips) : ClosedOff (k0_off111 k) := ⟨![4, k.val / 8, 4, 16 * (k.val % 8)], off111_eq k⟩
theorem off112_eq : ∀ k : Fin k0_t3_loop.trips, k0_off112 k = ![4, k.val / 8, 5, 16 * (k.val % 8)] := by decide +kernel
instance closedOff_k0_off112 (k : Fin k0_t3_loop.trips) : ClosedOff (k0_off112 k) := ⟨![4, k.val / 8, 5, 16 * (k.val % 8)], off112_eq k⟩
theorem off113_eq : ∀ k : Fin k0_t3_loop.trips, k0_off113 k = ![4, k.val / 8, 6, 16 * (k.val % 8)] := by decide +kernel
instance closedOff_k0_off113 (k : Fin k0_t3_loop.trips) : ClosedOff (k0_off113 k) := ⟨![4, k.val / 8, 6, 16 * (k.val % 8)], off113_eq k⟩
theorem off114_eq : ∀ k : Fin k0_t3_loop.trips, k0_off114 k = ![4, k.val / 8, 7, 16 * (k.val % 8)] := by decide +kernel
instance closedOff_k0_off114 (k : Fin k0_t3_loop.trips) : ClosedOff (k0_off114 k) := ⟨![4, k.val / 8, 7, 16 * (k.val % 8)], off114_eq k⟩
theorem off115_eq : ∀ k : Fin k0_t3_loop.trips, k0_off115 k = ![5, k.val / 8, 0, 16 * (k.val % 8)] := by decide +kernel
instance closedOff_k0_off115 (k : Fin k0_t3_loop.trips) : ClosedOff (k0_off115 k) := ⟨![5, k.val / 8, 0, 16 * (k.val % 8)], off115_eq k⟩
theorem off116_eq : ∀ k : Fin k0_t3_loop.trips, k0_off116 k = ![5, k.val / 8, 1, 16 * (k.val % 8)] := by decide +kernel
instance closedOff_k0_off116 (k : Fin k0_t3_loop.trips) : ClosedOff (k0_off116 k) := ⟨![5, k.val / 8, 1, 16 * (k.val % 8)], off116_eq k⟩
theorem off117_eq : ∀ k : Fin k0_t3_loop.trips, k0_off117 k = ![5, k.val / 8, 2, 16 * (k.val % 8)] := by decide +kernel
instance closedOff_k0_off117 (k : Fin k0_t3_loop.trips) : ClosedOff (k0_off117 k) := ⟨![5, k.val / 8, 2, 16 * (k.val % 8)], off117_eq k⟩
theorem off118_eq : ∀ k : Fin k0_t3_loop.trips, k0_off118 k = ![5, k.val / 8, 3, 16 * (k.val % 8)] := by decide +kernel
instance closedOff_k0_off118 (k : Fin k0_t3_loop.trips) : ClosedOff (k0_off118 k) := ⟨![5, k.val / 8, 3, 16 * (k.val % 8)], off118_eq k⟩
theorem off119_eq : ∀ k : Fin k0_t3_loop.trips, k0_off119 k = ![5, k.val / 8, 4, 16 * (k.val % 8)] := by decide +kernel
instance closedOff_k0_off119 (k : Fin k0_t3_loop.trips) : ClosedOff (k0_off119 k) := ⟨![5, k.val / 8, 4, 16 * (k.val % 8)], off119_eq k⟩
theorem off120_eq : ∀ k : Fin k0_t3_loop.trips, k0_off120 k = ![5, k.val / 8, 5, 16 * (k.val % 8)] := by decide +kernel
instance closedOff_k0_off120 (k : Fin k0_t3_loop.trips) : ClosedOff (k0_off120 k) := ⟨![5, k.val / 8, 5, 16 * (k.val % 8)], off120_eq k⟩
theorem off121_eq : ∀ k : Fin k0_t3_loop.trips, k0_off121 k = ![5, k.val / 8, 6, 16 * (k.val % 8)] := by decide +kernel
instance closedOff_k0_off121 (k : Fin k0_t3_loop.trips) : ClosedOff (k0_off121 k) := ⟨![5, k.val / 8, 6, 16 * (k.val % 8)], off121_eq k⟩
theorem off122_eq : ∀ k : Fin k0_t3_loop.trips, k0_off122 k = ![5, k.val / 8, 7, 16 * (k.val % 8)] := by decide +kernel
instance closedOff_k0_off122 (k : Fin k0_t3_loop.trips) : ClosedOff (k0_off122 k) := ⟨![5, k.val / 8, 7, 16 * (k.val % 8)], off122_eq k⟩
theorem off123_eq : ∀ k : Fin k0_t3_loop.trips, k0_off123 k = ![6, k.val / 8, 0, 16 * (k.val % 8)] := by decide +kernel
instance closedOff_k0_off123 (k : Fin k0_t3_loop.trips) : ClosedOff (k0_off123 k) := ⟨![6, k.val / 8, 0, 16 * (k.val % 8)], off123_eq k⟩
theorem off124_eq : ∀ k : Fin k0_t3_loop.trips, k0_off124 k = ![6, k.val / 8, 1, 16 * (k.val % 8)] := by decide +kernel
instance closedOff_k0_off124 (k : Fin k0_t3_loop.trips) : ClosedOff (k0_off124 k) := ⟨![6, k.val / 8, 1, 16 * (k.val % 8)], off124_eq k⟩
theorem off125_eq : ∀ k : Fin k0_t3_loop.trips, k0_off125 k = ![6, k.val / 8, 2, 16 * (k.val % 8)] := by decide +kernel
instance closedOff_k0_off125 (k : Fin k0_t3_loop.trips) : ClosedOff (k0_off125 k) := ⟨![6, k.val / 8, 2, 16 * (k.val % 8)], off125_eq k⟩
theorem off126_eq : ∀ k : Fin k0_t3_loop.trips, k0_off126 k = ![6, k.val / 8, 3, 16 * (k.val % 8)] := by decide +kernel
instance closedOff_k0_off126 (k : Fin k0_t3_loop.trips) : ClosedOff (k0_off126 k) := ⟨![6, k.val / 8, 3, 16 * (k.val % 8)], off126_eq k⟩
theorem off127_eq : ∀ k : Fin k0_t3_loop.trips, k0_off127 k = ![6, k.val / 8, 4, 16 * (k.val % 8)] := by decide +kernel
instance closedOff_k0_off127 (k : Fin k0_t3_loop.trips) : ClosedOff (k0_off127 k) := ⟨![6, k.val / 8, 4, 16 * (k.val % 8)], off127_eq k⟩
theorem off128_eq : ∀ k : Fin k0_t3_loop.trips, k0_off128 k = ![6, k.val / 8, 5, 16 * (k.val % 8)] := by decide +kernel
instance closedOff_k0_off128 (k : Fin k0_t3_loop.trips) : ClosedOff (k0_off128 k) := ⟨![6, k.val / 8, 5, 16 * (k.val % 8)], off128_eq k⟩
theorem off129_eq : ∀ k : Fin k0_t3_loop.trips, k0_off129 k = ![6, k.val / 8, 6, 16 * (k.val % 8)] := by decide +kernel
instance closedOff_k0_off129 (k : Fin k0_t3_loop.trips) : ClosedOff (k0_off129 k) := ⟨![6, k.val / 8, 6, 16 * (k.val % 8)], off129_eq k⟩
theorem off130_eq : ∀ k : Fin k0_t3_loop.trips, k0_off130 k = ![6, k.val / 8, 7, 16 * (k.val % 8)] := by decide +kernel
instance closedOff_k0_off130 (k : Fin k0_t3_loop.trips) : ClosedOff (k0_off130 k) := ⟨![6, k.val / 8, 7, 16 * (k.val % 8)], off130_eq k⟩
theorem off131_eq : ∀ k : Fin k0_t3_loop.trips, k0_off131 k = ![7, k.val / 8, 0, 16 * (k.val % 8)] := by decide +kernel
instance closedOff_k0_off131 (k : Fin k0_t3_loop.trips) : ClosedOff (k0_off131 k) := ⟨![7, k.val / 8, 0, 16 * (k.val % 8)], off131_eq k⟩
theorem off132_eq : ∀ k : Fin k0_t3_loop.trips, k0_off132 k = ![7, k.val / 8, 1, 16 * (k.val % 8)] := by decide +kernel
instance closedOff_k0_off132 (k : Fin k0_t3_loop.trips) : ClosedOff (k0_off132 k) := ⟨![7, k.val / 8, 1, 16 * (k.val % 8)], off132_eq k⟩
theorem off133_eq : ∀ k : Fin k0_t3_loop.trips, k0_off133 k = ![7, k.val / 8, 2, 16 * (k.val % 8)] := by decide +kernel
instance closedOff_k0_off133 (k : Fin k0_t3_loop.trips) : ClosedOff (k0_off133 k) := ⟨![7, k.val / 8, 2, 16 * (k.val % 8)], off133_eq k⟩
theorem off134_eq : ∀ k : Fin k0_t3_loop.trips, k0_off134 k = ![7, k.val / 8, 3, 16 * (k.val % 8)] := by decide +kernel
instance closedOff_k0_off134 (k : Fin k0_t3_loop.trips) : ClosedOff (k0_off134 k) := ⟨![7, k.val / 8, 3, 16 * (k.val % 8)], off134_eq k⟩
theorem off135_eq : ∀ k : Fin k0_t3_loop.trips, k0_off135 k = ![7, k.val / 8, 4, 16 * (k.val % 8)] := by decide +kernel
instance closedOff_k0_off135 (k : Fin k0_t3_loop.trips) : ClosedOff (k0_off135 k) := ⟨![7, k.val / 8, 4, 16 * (k.val % 8)], off135_eq k⟩
theorem off136_eq : ∀ k : Fin k0_t3_loop.trips, k0_off136 k = ![7, k.val / 8, 5, 16 * (k.val % 8)] := by decide +kernel
instance closedOff_k0_off136 (k : Fin k0_t3_loop.trips) : ClosedOff (k0_off136 k) := ⟨![7, k.val / 8, 5, 16 * (k.val % 8)], off136_eq k⟩
theorem off137_eq : ∀ k : Fin k0_t3_loop.trips, k0_off137 k = ![7, k.val / 8, 6, 16 * (k.val % 8)] := by decide +kernel
instance closedOff_k0_off137 (k : Fin k0_t3_loop.trips) : ClosedOff (k0_off137 k) := ⟨![7, k.val / 8, 6, 16 * (k.val % 8)], off137_eq k⟩
theorem off138_eq : ∀ k : Fin k0_t3_loop.trips, k0_off138 k = ![7, k.val / 8, 7, 16 * (k.val % 8)] := by decide +kernel
instance closedOff_k0_off138 (k : Fin k0_t3_loop.trips) : ClosedOff (k0_off138 k) := ⟨![7, k.val / 8, 7, 16 * (k.val % 8)], off138_eq k⟩

omit [FloatOps F] in
/-- Sixteen consecutive words loaded from a scratch whose words are all 0 or 1 are 0 or 1. -/
theorem ld011 {fe : Buf (Elt F) ((V d (cV L) (jV L)).loc cc0_scratch6)} (hfe : ∀ n, fe n = 0#32 ∨ fe n = 1#32)
    (off : Fin 1 → ℕ) (inb : ∀ a, off a + S16.size a ≤ S2304.size a) (x : S16.Idx) :
    (b6W).view.readAt (Elt F) (Rect.unit (s := S2304) off S16.size inb).toLoadRect fe x = 0#32
      ∨ (b6W).view.readAt (Elt F) (Rect.unit (s := S2304) off S16.size inb).toLoadRect fe x = 1#32 := by
  simp only [View.readAt_apply, Memref.view_whole, View.read_whole]
  exact hfe _

omit [FloatOps F] in
/-- A lane of sixteen consecutive words loaded from the attribute scratch is the scratch's word at that position. -/
theorem ldApply1 (fe : Buf (Elt F) ((V d (cV L) (jV L)).loc cc0_scratch6)) (off : Fin 1 → ℕ)
    (inb : ∀ a, off a + S16.size a ≤ S2304.size a) (x : S16.Idx) (n : ℕ) (hn : off 0 + (x 0).val = n) :
    (b6W).view.readAt (Elt F) (Rect.unit (s := S2304) off S16.size inb).toLoadRect fe x = at1 (fe : IVec S2304 32) n := by
  have hlt : n < 2304 := by
    have h1 : off 0 + 16 ≤ 2304 := inb 0
    have h2 : (x 0).val < 16 := (x 0).isLt
    omega
  have hidx : ((Rect.unit (s := S2304) off S16.size inb).toLoadRect.idx x : S2304.Idx) = ix1 (Fin.ofNat 2304 n) := by
    funext a
    match a with
    | ⟨0, _⟩ =>
      refine Fin.ext ?_
      show off 0 + 1 * (x 0).val = n % 2304
      rw [Nat.mod_eq_of_lt hlt]; omega
  simp only [View.readAt_apply, Memref.view_whole, View.read_whole]
  exact congrArg (fe : IVec S2304 32) hidx

/-- The three attribute vectors of group `k`. -/
abbrev Ea1 (fe : Buf (Elt F) ((V d (cV L) (jV L)).loc cc0_scratch6)) (k : Fin k0_t3_loop.trips) : Vec F S16 .i32 :=
  (b6W).view.readAt (Elt F) (Rect.unit (s := S2304) (k0_off73 k) S16.size (k0_off73_inb k)).toLoadRect fe
abbrev Eb1 (fe : Buf (Elt F) ((V d (cV L) (jV L)).loc cc0_scratch6)) (k : Fin k0_t3_loop.trips) : Vec F S16 .i32 :=
  (b6W).view.readAt (Elt F) (Rect.unit (s := S2304) (k0_off74 k 768#32) S16.size (k0_off74_inb k 0)).toLoadRect fe
abbrev Ec1 (fe : Buf (Elt F) ((V d (cV L) (jV L)).loc cc0_scratch6)) (k : Fin k0_t3_loop.trips) : Vec F S16 .i32 :=
  (b6W).view.readAt (Elt F) (Rect.unit (s := S2304) (k0_off74 k 1536#32) S16.size (k0_off74_inb k 1)).toLoadRect fe

omit [FloatOps F] in
/-- Lane `x` of group `k`'s combined row number is the combined row of the chunk's edge `16·k + x`. -/
theorem combVal1 (fe : Buf (Elt F) ((V d (cV L) (jV L)).loc cc0_scratch6)) (hfe : ∀ n, fe n = 0#32 ∨ fe n = 1#32)
    (k : Fin k0_t3_loop.trips) (x : S16.Idx) :
    ((k0_pay1 (Ea1 d L fe k) (Eb1 d L fe k) (Ec1 d L fe k)) x).toNat = combAt (fe : IVec S2304 32) (16 * k.val + (x 0).val) := by
  rw [comb_toNat (ld011 d L hfe _ _) (ld011 d L hfe _ _) (ld011 d L hfe _ _)]
  unfold combAt
  rw [ldApply1 d L fe _ _ x (16 * k.val + (x 0).val) (by rw [k0_off73_eq k]; rfl),
    ldApply1 d L fe _ _ x (768 + (16 * k.val + (x 0).val)) (by rw [show (768#32 : BitVec 32) = BitVec.ofNat 32 (768 + 768 * (0 : Fin 2).val) from rfl, k0_off74_eq k 0]; show 768 * 0 + 16 * k.val + 768 + (x 0).val = _; omega),
    ldApply1 d L fe _ _ x (1536 + (16 * k.val + (x 0).val)) (by rw [show (1536#32 : BitVec 32) = BitVec.ofNat 32 (768 + 768 * (1 : Fin 2).val) from rfl, k0_off74_eq k 1]; show 768 * 1 + 16 * k.val + 768 + (x 0).val = _; omega)]

omit [FloatOps F] in
/-- A combined row is at most 15 when the attribute words are 0 or 1. -/
theorem combAtLe1 (fe : Buf (Elt F) ((V d (cV L) (jV L)).loc cc0_scratch6)) (hfe : ∀ n, fe n = 0#32 ∨ fe n = 1#32) (p : ℕ) :
    combAt (fe : IVec S2304 32) p ≤ 15 := by
  unfold combAt
  have h : ∀ n, (at1 (fe : IVec S2304 32) n).toNat ≤ 1 := fun n => by
    rcases hfe (ix1 (Fin.ofNat 2304 n)) with h | h
    · show (fe (ix1 (Fin.ofNat 2304 n))).toNat ≤ 1; rw [h]; decide
    · show (fe (ix1 (Fin.ofNat 2304 n))).toNat ≤ 1; rw [h]; decide
  have := h p; have := h (768 + p); have := h (1536 + p)
  omega

/-- The gathered vector of column `c` at trip `k`, laid on its sixteen lanes of the output scratch, is the chunk's
    value there. -/
theorem pieceVal1 (fe : Buf (Elt F) ((V d (cV L) (jV L)).loc cc0_scratch6)) (ft : Buf (Elt F) ((V d (cV L) (jV L)).loc cc0_scratch4))
    (hfe : ∀ n, fe n = 0#32 ∨ fe n = 1#32) (k : Fin k0_t3_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea1 d L fe k) (Eb1 d L fe k) (Ec1 d L fe k)) (broadcast S16 q)] : Fin 1 → IVec S16 32) a x).toNat < S4096.size a)
    (hcast : S16.ShapeCasts S1x1x1x16) (x : S1x1x1x16.Idx) :
    shapeCast S1x1x1x16 (loadIdx ((b4W).view.readAt (Elt F) (LoadRect.whole S4096) ft)
        ![addi (k0_pay1 (Ea1 d L fe k) (Eb1 d L fe k) (Ec1 d L fe k)) (broadcast S16 q)] h) hcast x
      = gatherVal (ft : FVec F S4096 .f32) (fe : IVec S2304 32) ((Rect.unit (s := S8x6x8x128) off S1x1x1x16.size inb).emb x) := by
  have hx0 : (x 0).val = 0 := Nat.lt_one_iff.mp (x 0).isLt
  have hx1 : (x 1).val = 0 := Nat.lt_one_iff.mp (x 1).isLt
  have hx2 : (x 2).val = 0 := Nat.lt_one_iff.mp (x 2).isLt
  have hx3 : (x 3).val < 16 := (x 3).isLt
  have hcomb := combVal1 d L fe hfe k (ix1 (x 3))
  have hle := combAtLe1 d L fe hfe (16 * k.val + (x 3).val)
  have hcle : ∀ y, ((k0_pay1 (Ea1 d L fe k) (Eb1 d L fe k) (Ec1 d L fe k)) y).toNat ≤ 15 :=
    comb_le (ld011 d L hfe _ _) (ld011 d L hfe _ _) (ld011 d L hfe _ _)
  rw [shapeCast_apply _ hcast x (ix1 (x 3)) (by
    rw [Shape.rowMajor_val_one, Shape.rowMajor_val_four]
    show (x 3).val = (((x 0).val * 1 + (x 1).val) * 1 + (x 2).val) * 16 + (x 3).val
    rw [hx0, hx1, hx2]; omega)]
  have hidx : ((LoadRect.whole S4096).idx (idxAt ![addi (k0_pay1 (Ea1 d L fe k) (Eb1 d L fe k) (Ec1 d L fe k)) (broadcast S16 q)] h (ix1 (x 3))) : S4096.Idx)
      = ix1 (Fin.ofNat 4096 (64 * (8 * ((Rect.unit (s := S8x6x8x128) off S1x1x1x16.size inb).emb x 0).val
            + ((Rect.unit (s := S8x6x8x128) off S1x1x1x16.size inb).emb x 2).val)
          + combAt (fe : IVec S2304 32) (128 * ((Rect.unit (s := S8x6x8x128) off S1x1x1x16.size inb).emb x 1).val
            + ((Rect.unit (s := S8x6x8x128) off S1x1x1x16.size inb).emb x 3).val))) := by
    funext a
    match a with
    | ⟨0, _⟩ =>
      refine Fin.ext ?_
      show 0 + 1 * (addi (k0_pay1 (Ea1 d L fe k) (Eb1 d L fe k) (Ec1 d L fe k)) (broadcast S16 q) (ix1 (x 3))).toNat
        = (64 * (8 * (off 0 + 1 * (x 0).val) + (off 2 + 1 * (x 2).val))
            + combAt (fe : IVec S2304 32) (128 * (off 1 + 1 * (x 1).val) + (off 3 + 1 * (x 3).val))) % 4096
      rw [Nat.zero_add, Nat.one_mul, idx_toNat hcle (by omega), hcomb, hq, hoff]
      show combAt (fe : IVec S2304 32) (16 * k.val + (x 3).val) + 64 * c
        = (64 * (8 * (c / 8 + 1 * (x 0).val) + (c % 8 + 1 * (x 2).val))
            + combAt (fe : IVec S2304 32) (128 * (k.val / 8 + 1 * (x 1).val) + (16 * (k.val % 8) + 1 * (x 3).val))) % 4096
      rw [hx0, hx1, hx2]
      have e1 : 128 * (k.val / 8 + 1 * 0) + (16 * (k.val % 8) + 1 * (x 3).val) = 16 * k.val + (x 3).val := by omega
      have e2 : 64 * (8 * (c / 8 + 1 * 0) + (c % 8 + 1 * 0)) = 64 * c := by omega
      rw [e1, e2, Nat.mod_eq_of_lt (by omega)]
      omega
  unfold gatherVal loadIdx
  simp only [View.readAt_apply, Memref.view_whole, View.read_whole]
  exact congrArg (ft : FVec F S4096 .f32) hidx

/-- Column `c`'s store of trip `k` is a good piece. -/
theorem pieceGood1 (fe : Buf (Elt F) ((V d (cV L) (jV L)).loc cc0_scratch6)) (ft : Buf (Elt F) ((V d (cV L) (jV L)).loc cc0_scratch4))
    (hfe : ∀ n, fe n = 0#32 ∨ fe n = 1#32) (k : Fin k0_t3_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea1 d L fe k) (Eb1 d L fe k) (Ec1 d L fe k)) (broadcast S16 q)] : Fin 1 → IVec S16 32) a x).toNat < S4096.size a)
    (hcast : S16.ShapeCasts S1x1x1x16) :
    PieceGood (Val := Elt F) (gatherVal (ft : FVec F S4096 .f32) (fe : IVec S2304 32)) k.val c
      ⟨Rect.unit (s := S8x6x8x128) off S1x1x1x16.size inb,
        shapeCast S1x1x1x16 (loadIdx ((b4W).view.readAt (Elt F) (LoadRect.whole S4096) ft)
          ![addi (k0_pay1 (Ea1 d L fe k) (Eb1 d L fe k) (Ec1 d L fe k)) (broadcast S16 q)] h) hcast⟩ where
  off := hoff
  size := rfl
  stride := fun _ => rfl
  val := fun x => pieceVal1 d L fe ft hfe k c hc q hq off hoff inb h hcast x

omit [FloatOps F] in
/-- What a trip leaves, through the output scratch's own memref: reading the whole scratch is reading its contents. -/
theorem tripValWhole1 (fo : Buf (Elt F) ((V d (cV L) (jV L)).loc cc0_scratch8)) (G : S8x6x8x128.Idx → Elt F .f32) (k : ℕ)
    (Ls : List (View.Piece (Elt F) S8x6x8x128 .f32)) (hlen : Ls.length = 64) (hg : GoodList G k Ls)
    (hinv : ∀ j : S8x6x8x128.Idx, grp j < k → fo j = G j) :
    ∀ j : S8x6x8x128.Idx, grp j < k + 1 → (b8W).view.writes (Elt F) fo Ls j = G j :=
  trip_val (b8W).view fo G k Ls hlen hg hinv

/-- Before trip `k`: the attribute scratch and the table scratch as they were, and the output scratch holding the chunk's
    values on the groups below `k`. -/
def innerInvV1 (fe : Buf (Elt F) ((V d (cV L) (jV L)).loc cc0_scratch6)) (ft : Buf (Elt F) ((V d (cV L) (jV L)).loc cc0_scratch4))
    (k : ℕ) (_ : PUnit) : sProp 𝕄 :=
  iprop(((b6W).view.loc (V d (cV L) (jV L)) ↦{fullShare} fe) ∗ ((b4W).view.loc (V d (cV L) (jV L)) ↦{fullShare} ft)
    ∗ ∃ fo, ((b8W).view.loc (V d (cV L) (jV L)) ↦{fullShare} fo)
      ∗ ⌜∀ j : S8x6x8x128.Idx, grp j < k → fo j = gatherVal (ft : FVec F S4096 .f32) (fe : IVec S2304 32) j⌝)

set_option maxHeartbeats 8000000 in
/-- One trip of the loop keeps the invariant: group `k` is written. -/
theorem inner_regionV1 (fe : Buf (Elt F) ((V d (cV L) (jV L)).loc cc0_scratch6)) (ft : Buf (Elt F) ((V d (cV L) (jV L)).loc cc0_scratch4))
    (hfe : ∀ n, fe n = 0#32 ∨ fe n = 1#32) (v3138 v3140 c0 c1 : BitVec 32) (t1 : Fin k0_t1_loop.trips) :
    ∀ (k : Fin k0_t3_loop.trips) (acc : PUnit.{1}),
      innerInvV1 (F := F) d L fe ft k acc ⊢
        wp frame (wpE (defs₀ (F := F)) 𝒱₀ (V d (cV L) (jV L)) none) Set.univ
          ((k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1) k acc)
          (innerInvV1 (F := F) d L fe ft (k + 1)) := by
  intro k _
  unfold innerInvV1
  iintro ⟨H5, H4, %fo, H7, %hinv⟩
  unfold k0_t3_body
  sl_exec (disch := (refine chk_of_le (comb_le (ld011 d L hfe _ _) (ld011 d L hfe _ _) (ld011 d L hfe _ _)) ?_; decide))
  iterate 70 (first | (rw [SparseCore.vectorLoadIdx_bind (c := V d (cV L) (jV L))]; sl_exec (disch := (refine chk_of_le (comb_le (ld011 d L hfe _ _) (ld011 d L hfe _ _) (ld011 d L hfe _ _)) ?_; decide))) | skip)
  sl_step
  isplitl [H5]; · iexact H5
  isplitl [H4]; · iexact H4
  iexists _
  isplitl [H7]; · iexact H7
  ipureintro
  refine tripValWhole1 d L fo _ k.val _ rfl ?_ hinv
  exact
    (And.intro (pieceGood1 d L fe ft hfe k 63 (by decide) _ (by decide) _ (off138_eq k) _ _ _)
    (And.intro (pieceGood1 d L fe ft hfe k 62 (by decide) _ (by decide) _ (off137_eq k) _ _ _)
    (And.intro (pieceGood1 d L fe ft hfe k 61 (by decide) _ (by decide) _ (off136_eq k) _ _ _)
    (And.intro (pieceGood1 d L fe ft hfe k 60 (by decide) _ (by decide) _ (off135_eq k) _ _ _)
    (And.intro (pieceGood1 d L fe ft hfe k 59 (by decide) _ (by decide) _ (off134_eq k) _ _ _)
    (And.intro (pieceGood1 d L fe ft hfe k 58 (by decide) _ (by decide) _ (off133_eq k) _ _ _)
    (And.intro (pieceGood1 d L fe ft hfe k 57 (by decide) _ (by decide) _ (off132_eq k) _ _ _)
    (And.intro (pieceGood1 d L fe ft hfe k 56 (by decide) _ (by decide) _ (off131_eq k) _ _ _)
    (And.intro (pieceGood1 d L fe ft hfe k 55 (by decide) _ (by decide) _ (off130_eq k) _ _ _)
    (And.intro (pieceGood1 d L fe ft hfe k 54 (by decide) _ (by decide) _ (off129_eq k) _ _ _)
    (And.intro (pieceGood1 d L fe ft hfe k 53 (by decide) _ (by decide) _ (off128_eq k) _ _ _)
    (And.intro (pieceGood1 d L fe ft hfe k 52 (by decide) _ (by decide) _ (off127_eq k) _ _ _)
    (And.intro (pieceGood1 d L fe ft hfe k 51 (by decide) _ (by decide) _ (off126_eq k) _ _ _)
    (And.intro (pieceGood1 d L fe ft hfe k 50 (by decide) _ (by decide) _ (off125_eq k) _ _ _)
    (And.intro (pieceGood1 d L fe ft hfe k 49 (by decide) _ (by decide) _ (off124_eq k) _ _ _)
    (And.intro (pieceGood1 d L fe ft hfe k 48 (by decide) _ (by decide) _ (off123_eq k) _ _ _)
    (And.intro (pieceGood1 d L fe ft hfe k 47 (by decide) _ (by decide) _ (off122_eq k) _ _ _)
    (And.intro (pieceGood1 d L fe ft hfe k 46 (by decide) _ (by decide) _ (off121_eq k) _ _ _)
    (And.intro (pieceGood1 d L fe ft hfe k 45 (by decide) _ (by decide) _ (off120_eq k) _ _ _)
    (And.intro (pieceGood1 d L fe ft hfe k 44 (by decide) _ (by decide) _ (off119_eq k) _ _ _)
    (And.intro (pieceGood1 d L fe ft hfe k 43 (by decide) _ (by decide) _ (off118_eq k) _ _ _)
    (And.intro (pieceGood1 d L fe ft hfe k 42 (by decide) _ (by decide) _ (off117_eq k) _ _ _)
    (And.intro (pieceGood1 d L fe ft hfe k 41 (by decide) _ (by decide) _ (off116_eq k) _ _ _)
    (And.intro (pieceGood1 d L fe ft hfe k 40 (by decide) _ (by decide) _ (off115_eq k) _ _ _)
    (And.intro (pieceGood1 d L fe ft hfe k 39 (by decide) _ (by decide) _ (off114_eq k) _ _ _)
    (And.intro (pieceGood1 d L fe ft hfe k 38 (by decide) _ (by decide) _ (off113_eq k) _ _ _)
    (And.intro (pieceGood1 d L fe ft hfe k 37 (by decide) _ (by decide) _ (off112_eq k) _ _ _)
    (And.intro (pieceGood1 d L fe ft hfe k 36 (by decide) _ (by decide) _ (off111_eq k) _ _ _)
    (And.intro (pieceGood1 d L fe ft hfe k 35 (by decide) _ (by decide) _ (off110_eq k) _ _ _)
    (And.intro (pieceGood1 d L fe ft hfe k 34 (by decide) _ (by decide) _ (off109_eq k) _ _ _)
    (And.intro (pieceGood1 d L fe ft hfe k 33 (by decide) _ (by decide) _ (off108_eq k) _ _ _)
    (And.intro (pieceGood1 d L fe ft hfe k 32 (by decide) _ (by decide) _ (off107_eq k) _ _ _)
    (And.intro (pieceGood1 d L fe ft hfe k 31 (by decide) _ (by decide) _ (off106_eq k) _ _ _)
    (And.intro (pieceGood1 d L fe ft hfe k 30 (by decide) _ (by decide) _ (off105_eq k) _ _ _)
    (And.intro (pieceGood1 d L fe ft hfe k 29 (by decide) _ (by decide) _ (off104_eq k) _ _ _)
    (And.intro (pieceGood1 d L fe ft hfe k 28 (by decide) _ (by decide) _ (off103_eq k) _ _ _)
    (And.intro (pieceGood1 d L fe ft hfe k 27 (by decide) _ (by decide) _ (off102_eq k) _ _ _)
    (And.intro (pieceGood1 d L fe ft hfe k 26 (by decide) _ (by decide) _ (off101_eq k) _ _ _)
    (And.intro (pieceGood1 d L fe ft hfe k 25 (by decide) _ (by decide) _ (off100_eq k) _ _ _)
    (And.intro (pieceGood1 d L fe ft hfe k 24 (by decide) _ (by decide) _ (off99_eq k) _ _ _)
    (And.intro (pieceGood1 d L fe ft hfe k 23 (by decide) _ (by decide) _ (off98_eq k) _ _ _)
    (And.intro (pieceGood1 d L fe ft hfe k 22 (by decide) _ (by decide) _ (off97_eq k) _ _ _)
    (And.intro (pieceGood1 d L fe ft hfe k 21 (by decide) _ (by decide) _ (off96_eq k) _ _ _)
    (And.intro (pieceGood1 d L fe ft hfe k 20 (by decide) _ (by decide) _ (off95_eq k) _ _ _)
    (And.intro (pieceGood1 d L fe ft hfe k 19 (by decide) _ (by decide) _ (off94_eq k) _ _ _)
    (And.intro (pieceGood1 d L fe ft hfe k 18 (by decide) _ (by decide) _ (off93_eq k) _ _ _)
    (And.intro (pieceGood1 d L fe ft hfe k 17 (by decide) _ (by decide) _ (off92_eq k) _ _ _)
    (And.intro (pieceGood1 d L fe ft hfe k 16 (by decide) _ (by decide) _ (off91_eq k) _ _ _)
    (And.intro (pieceGood1 d L fe ft hfe k 15 (by decide) _ (by decide) _ (off90_eq k) _ _ _)
    (And.intro (pieceGood1 d L fe ft hfe k 14 (by decide) _ (by decide) _ (off89_eq k) _ _ _)
    (And.intro (pieceGood1 d L fe ft hfe k 13 (by decide) _ (by decide) _ (off88_eq k) _ _ _)
    (And.intro (pieceGood1 d L fe ft hfe k 12 (by decide) _ (by decide) _ (off87_eq k) _ _ _)
    (And.intro (pieceGood1 d L fe ft hfe k 11 (by decide) _ (by decide) _ (off86_eq k) _ _ _)
    (And.intro (pieceGood1 d L fe ft hfe k 10 (by decide) _ (by decide) _ (off85_eq k) _ _ _)
    (And.intro (pieceGood1 d L fe ft hfe k 9 (by decide) _ (by decide) _ (off84_eq k) _ _ _)
    (And.intro (pieceGood1 d L fe ft hfe k 8 (by decide) _ (by decide) _ (off83_eq k) _ _ _)
    (And.intro (pieceGood1 d L fe ft hfe k 7 (by decide) _ (by decide) _ (off82_eq k) _ _ _)
    (And.intro (pieceGood1 d L fe ft hfe k 6 (by decide) _ (by decide) _ (off81_eq k) _ _ _)
    (And.intro (pieceGood1 d L fe ft hfe k 5 (by decide) _ (by decide) _ (off80_eq k) _ _ _)
    (And.intro (pieceGood1 d L fe ft hfe k 4 (by decide) _ (by decide) _ (off79_eq k) _ _ _)
    (And.intro (pieceGood1 d L fe ft hfe k 3 (by decide) _ (by decide) _ (off78_eq k) _ _ _)
    (And.intro (pieceGood1 d L fe ft hfe k 2 (by decide) _ (by decide) _ (off77_eq k) _ _ _)
    (And.intro (pieceGood1 d L fe ft hfe k 1 (by decide) _ (by decide) _ (off76_eq k) _ _ _)
    (And.intro (pieceGood1 d L fe ft hfe k 0 (by decide) _ (by decide) _ (off75_eq k) _ _ _)
    trivial))))))))))))))))))))))))))))))))))))))))))))))))))))))))))))))))

/-- The loop, run from the three scratches: afterwards the output scratch holds the chunk's values everywhere. -/
theorem innerV1_ok (fe : Buf (Elt F) ((V d (cV L) (jV L)).loc cc0_scratch6)) (ft : Buf (Elt F) ((V d (cV L) (jV L)).loc cc0_scratch4)) (fo : Buf (Elt F) ((V d (cV L) (jV L)).loc cc0_scratch8))
    (hfe : ∀ n, fe n = 0#32 ∨ fe n = 1#32) (v3138 v3140 c0 c1 : BitVec 32) (t1 : Fin k0_t1_loop.trips) :
    (iprop(((b6W).view.loc (V d (cV L) (jV L)) ↦{fullShare} fe) ∗ ((b4W).view.loc (V d (cV L) (jV L)) ↦{fullShare} ft)
        ∗ ((b8W).view.loc (V d (cV L) (jV L)) ↦{fullShare} fo)) : sProp 𝕄)
      ⊢ wp frame (wpE (defs₀ (F := F)) 𝒱₀ (V d (cV L) (jV L)) none) Set.univ
          (Scf.Loop.for k0_t3_loop Cert.KernelIdeal.Gen.k0_t3_ok ⟨⟩ (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1))
          fun _ => iprop(((b6W).view.loc (V d (cV L) (jV L)) ↦{fullShare} fe) ∗ ((b4W).view.loc (V d (cV L) (jV L)) ↦{fullShare} ft)
            ∗ ∃ fo', ((b8W).view.loc (V d (cV L) (jV L)) ↦{fullShare} fo')
              ∗ ⌜∀ j : S8x6x8x128.Idx, fo' j = gatherVal (ft : FVec F S4096 .f32) (fe : IVec S2304 32) j⌝) := by
  iintro ⟨H5, H4, H7⟩
  sl_for (innerInvV1 (F := F) d L fe ft) $$ [H5 H4 H7]
  case region => exact inner_regionV1 d L fe ft hfe v3138 v3140 c0 c1 t1
  isplitl [H5 H4 H7]
  · unfold innerInvV1
    isplitl [H5]; · iexact H5
    isplitl [H4]; · iexact H4
    iexists _
    isplitl [H7]; · iexact H7
    ipureintro
    intro j hj
    exact absurd hj (Nat.not_lt_zero _)
  · iintro %_ HI
    unfold innerInvV1
    icases HI with ⟨H5, H4, %fo', H7, %hall⟩
    isplitl [H5]; · iexact H5
    isplitl [H4]; · iexact H4
    iexists _
    isplitl [H7]; · iexact H7
    ipureintro
    intro j
    refine hall j ?_
    have h1 : (j 1).val < 6 := (j 1).isLt
    have h3 : (j 3).val < 128 := (j 3).isLt
    show 8 * (j 1).val + (j 3).val / 16 < 48
    omega

end Cert.Proof.KI
end
-- ==== Proof.Inner2KI.lean ====
/-
  The third copy of the inner loop (attribute scratch 6, output scratch 8; the loop after the chunk loop): one trip by
  the symbolic run, the sixty-four stored pieces read back at an index, and the loop by its invariant.
-/
import proofs.«203789_g40862318854646_cont_8to1_b_1018_13_alg».proof.Proof.TileDefsKI
import proofs.«203789_g40862318854646_cont_8to1_b_1018_13_alg».proof.Proof.GoodKI
import proofs.«203789_g40862318854646_cont_8to1_b_1018_13_alg».proof.Proof.InnerLibKI
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

variable [FloatOps F]
variable (d : Dev nD) (L : grid0.Coords)

/-! ## The output offsets of column c at trip k: row (c / 8, k / 8, c % 8), lanes 16·(k % 8) … +15 -/
theorem off144_eq : ∀ k : Fin k0_t4_loop.trips, k0_off144 k = ![0, k.val / 8, 0, 16 * (k.val % 8)] := by decide +kernel
instance closedOff_k0_off144 (k : Fin k0_t4_loop.trips) : ClosedOff (k0_off144 k) := ⟨![0, k.val / 8, 0, 16 * (k.val % 8)], off144_eq k⟩
theorem off145_eq : ∀ k : Fin k0_t4_loop.trips, k0_off145 k = ![0, k.val / 8, 1, 16 * (k.val % 8)] := by decide +kernel
instance closedOff_k0_off145 (k : Fin k0_t4_loop.trips) : ClosedOff (k0_off145 k) := ⟨![0, k.val / 8, 1, 16 * (k.val % 8)], off145_eq k⟩
theorem off146_eq : ∀ k : Fin k0_t4_loop.trips, k0_off146 k = ![0, k.val / 8, 2, 16 * (k.val % 8)] := by decide +kernel
instance closedOff_k0_off146 (k : Fin k0_t4_loop.trips) : ClosedOff (k0_off146 k) := ⟨![0, k.val / 8, 2, 16 * (k.val % 8)], off146_eq k⟩
theorem off147_eq : ∀ k : Fin k0_t4_loop.trips, k0_off147 k = ![0, k.val / 8, 3, 16 * (k.val % 8)] := by decide +kernel
instance closedOff_k0_off147 (k : Fin k0_t4_loop.trips) : ClosedOff (k0_off147 k) := ⟨![0, k.val / 8, 3, 16 * (k.val % 8)], off147_eq k⟩
theorem off148_eq : ∀ k : Fin k0_t4_loop.trips, k0_off148 k = ![0, k.val / 8, 4, 16 * (k.val % 8)] := by decide +kernel
instance closedOff_k0_off148 (k : Fin k0_t4_loop.trips) : ClosedOff (k0_off148 k) := ⟨![0, k.val / 8, 4, 16 * (k.val % 8)], off148_eq k⟩
theorem off149_eq : ∀ k : Fin k0_t4_loop.trips, k0_off149 k = ![0, k.val / 8, 5, 16 * (k.val % 8)] := by decide +kernel
instance closedOff_k0_off149 (k : Fin k0_t4_loop.trips) : ClosedOff (k0_off149 k) := ⟨![0, k.val / 8, 5, 16 * (k.val % 8)], off149_eq k⟩
theorem off150_eq : ∀ k : Fin k0_t4_loop.trips, k0_off150 k = ![0, k.val / 8, 6, 16 * (k.val % 8)] := by decide +kernel
instance closedOff_k0_off150 (k : Fin k0_t4_loop.trips) : ClosedOff (k0_off150 k) := ⟨![0, k.val / 8, 6, 16 * (k.val % 8)], off150_eq k⟩
theorem off151_eq : ∀ k : Fin k0_t4_loop.trips, k0_off151 k = ![0, k.val / 8, 7, 16 * (k.val % 8)] := by decide +kernel
instance closedOff_k0_off151 (k : Fin k0_t4_loop.trips) : ClosedOff (k0_off151 k) := ⟨![0, k.val / 8, 7, 16 * (k.val % 8)], off151_eq k⟩
theorem off152_eq : ∀ k : Fin k0_t4_loop.trips, k0_off152 k = ![1, k.val / 8, 0, 16 * (k.val % 8)] := by decide +kernel
instance closedOff_k0_off152 (k : Fin k0_t4_loop.trips) : ClosedOff (k0_off152 k) := ⟨![1, k.val / 8, 0, 16 * (k.val % 8)], off152_eq k⟩
theorem off153_eq : ∀ k : Fin k0_t4_loop.trips, k0_off153 k = ![1, k.val / 8, 1, 16 * (k.val % 8)] := by decide +kernel
instance closedOff_k0_off153 (k : Fin k0_t4_loop.trips) : ClosedOff (k0_off153 k) := ⟨![1, k.val / 8, 1, 16 * (k.val % 8)], off153_eq k⟩
theorem off154_eq : ∀ k : Fin k0_t4_loop.trips, k0_off154 k = ![1, k.val / 8, 2, 16 * (k.val % 8)] := by decide +kernel
instance closedOff_k0_off154 (k : Fin k0_t4_loop.trips) : ClosedOff (k0_off154 k) := ⟨![1, k.val / 8, 2, 16 * (k.val % 8)], off154_eq k⟩
theorem off155_eq : ∀ k : Fin k0_t4_loop.trips, k0_off155 k = ![1, k.val / 8, 3, 16 * (k.val % 8)] := by decide +kernel
instance closedOff_k0_off155 (k : Fin k0_t4_loop.trips) : ClosedOff (k0_off155 k) := ⟨![1, k.val / 8, 3, 16 * (k.val % 8)], off155_eq k⟩
theorem off156_eq : ∀ k : Fin k0_t4_loop.trips, k0_off156 k = ![1, k.val / 8, 4, 16 * (k.val % 8)] := by decide +kernel
instance closedOff_k0_off156 (k : Fin k0_t4_loop.trips) : ClosedOff (k0_off156 k) := ⟨![1, k.val / 8, 4, 16 * (k.val % 8)], off156_eq k⟩
theorem off157_eq : ∀ k : Fin k0_t4_loop.trips, k0_off157 k = ![1, k.val / 8, 5, 16 * (k.val % 8)] := by decide +kernel
instance closedOff_k0_off157 (k : Fin k0_t4_loop.trips) : ClosedOff (k0_off157 k) := ⟨![1, k.val / 8, 5, 16 * (k.val % 8)], off157_eq k⟩
theorem off158_eq : ∀ k : Fin k0_t4_loop.trips, k0_off158 k = ![1, k.val / 8, 6, 16 * (k.val % 8)] := by decide +kernel
instance closedOff_k0_off158 (k : Fin k0_t4_loop.trips) : ClosedOff (k0_off158 k) := ⟨![1, k.val / 8, 6, 16 * (k.val % 8)], off158_eq k⟩
theorem off159_eq : ∀ k : Fin k0_t4_loop.trips, k0_off159 k = ![1, k.val / 8, 7, 16 * (k.val % 8)] := by decide +kernel
instance closedOff_k0_off159 (k : Fin k0_t4_loop.trips) : ClosedOff (k0_off159 k) := ⟨![1, k.val / 8, 7, 16 * (k.val % 8)], off159_eq k⟩
theorem off160_eq : ∀ k : Fin k0_t4_loop.trips, k0_off160 k = ![2, k.val / 8, 0, 16 * (k.val % 8)] := by decide +kernel
instance closedOff_k0_off160 (k : Fin k0_t4_loop.trips) : ClosedOff (k0_off160 k) := ⟨![2, k.val / 8, 0, 16 * (k.val % 8)], off160_eq k⟩
theorem off161_eq : ∀ k : Fin k0_t4_loop.trips, k0_off161 k = ![2, k.val / 8, 1, 16 * (k.val % 8)] := by decide +kernel
instance closedOff_k0_off161 (k : Fin k0_t4_loop.trips) : ClosedOff (k0_off161 k) := ⟨![2, k.val / 8, 1, 16 * (k.val % 8)], off161_eq k⟩
theorem off162_eq : ∀ k : Fin k0_t4_loop.trips, k0_off162 k = ![2, k.val / 8, 2, 16 * (k.val % 8)] := by decide +kernel
instance closedOff_k0_off162 (k : Fin k0_t4_loop.trips) : ClosedOff (k0_off162 k) := ⟨![2, k.val / 8, 2, 16 * (k.val % 8)], off162_eq k⟩
theorem off163_eq : ∀ k : Fin k0_t4_loop.trips, k0_off163 k = ![2, k.val / 8, 3, 16 * (k.val % 8)] := by decide +kernel
instance closedOff_k0_off163 (k : Fin k0_t4_loop.trips) : ClosedOff (k0_off163 k) := ⟨![2, k.val / 8, 3, 16 * (k.val % 8)], off163_eq k⟩
theorem off164_eq : ∀ k : Fin k0_t4_loop.trips, k0_off164 k = ![2, k.val / 8, 4, 16 * (k.val % 8)] := by decide +kernel
instance closedOff_k0_off164 (k : Fin k0_t4_loop.trips) : ClosedOff (k0_off164 k) := ⟨![2, k.val / 8, 4, 16 * (k.val % 8)], off164_eq k⟩
theorem off165_eq : ∀ k : Fin k0_t4_loop.trips, k0_off165 k = ![2, k.val / 8, 5, 16 * (k.val % 8)] := by decide +kernel
instance closedOff_k0_off165 (k : Fin k0_t4_loop.trips) : ClosedOff (k0_off165 k) := ⟨![2, k.val / 8, 5, 16 * (k.val % 8)], off165_eq k⟩
theorem off166_eq : ∀ k : Fin k0_t4_loop.trips, k0_off166 k = ![2, k.val / 8, 6, 16 * (k.val % 8)] := by decide +kernel
instance closedOff_k0_off166 (k : Fin k0_t4_loop.trips) : ClosedOff (k0_off166 k) := ⟨![2, k.val / 8, 6, 16 * (k.val % 8)], off166_eq k⟩
theorem off167_eq : ∀ k : Fin k0_t4_loop.trips, k0_off167 k = ![2, k.val / 8, 7, 16 * (k.val % 8)] := by decide +kernel
instance closedOff_k0_off167 (k : Fin k0_t4_loop.trips) : ClosedOff (k0_off167 k) := ⟨![2, k.val / 8, 7, 16 * (k.val % 8)], off167_eq k⟩
theorem off168_eq : ∀ k : Fin k0_t4_loop.trips, k0_off168 k = ![3, k.val / 8, 0, 16 * (k.val % 8)] := by decide +kernel
instance closedOff_k0_off168 (k : Fin k0_t4_loop.trips) : ClosedOff (k0_off168 k) := ⟨![3, k.val / 8, 0, 16 * (k.val % 8)], off168_eq k⟩
theorem off169_eq : ∀ k : Fin k0_t4_loop.trips, k0_off169 k = ![3, k.val / 8, 1, 16 * (k.val % 8)] := by decide +kernel
instance closedOff_k0_off169 (k : Fin k0_t4_loop.trips) : ClosedOff (k0_off169 k) := ⟨![3, k.val / 8, 1, 16 * (k.val % 8)], off169_eq k⟩
theorem off170_eq : ∀ k : Fin k0_t4_loop.trips, k0_off170 k = ![3, k.val / 8, 2, 16 * (k.val % 8)] := by decide +kernel
instance closedOff_k0_off170 (k : Fin k0_t4_loop.trips) : ClosedOff (k0_off170 k) := ⟨![3, k.val / 8, 2, 16 * (k.val % 8)], off170_eq k⟩
theorem off171_eq : ∀ k : Fin k0_t4_loop.trips, k0_off171 k = ![3, k.val / 8, 3, 16 * (k.val % 8)] := by decide +kernel
instance closedOff_k0_off171 (k : Fin k0_t4_loop.trips) : ClosedOff (k0_off171 k) := ⟨![3, k.val / 8, 3, 16 * (k.val % 8)], off171_eq k⟩
theorem off172_eq : ∀ k : Fin k0_t4_loop.trips, k0_off172 k = ![3, k.val / 8, 4, 16 * (k.val % 8)] := by decide +kernel
instance closedOff_k0_off172 (k : Fin k0_t4_loop.trips) : ClosedOff (k0_off172 k) := ⟨![3, k.val / 8, 4, 16 * (k.val % 8)], off172_eq k⟩
theorem off173_eq : ∀ k : Fin k0_t4_loop.trips, k0_off173 k = ![3, k.val / 8, 5, 16 * (k.val % 8)] := by decide +kernel
instance closedOff_k0_off173 (k : Fin k0_t4_loop.trips) : ClosedOff (k0_off173 k) := ⟨![3, k.val / 8, 5, 16 * (k.val % 8)], off173_eq k⟩
theorem off174_eq : ∀ k : Fin k0_t4_loop.trips, k0_off174 k = ![3, k.val / 8, 6, 16 * (k.val % 8)] := by decide +kernel
instance closedOff_k0_off174 (k : Fin k0_t4_loop.trips) : ClosedOff (k0_off174 k) := ⟨![3, k.val / 8, 6, 16 * (k.val % 8)], off174_eq k⟩
theorem off175_eq : ∀ k : Fin k0_t4_loop.trips, k0_off175 k = ![3, k.val / 8, 7, 16 * (k.val % 8)] := by decide +kernel
instance closedOff_k0_off175 (k : Fin k0_t4_loop.trips) : ClosedOff (k0_off175 k) := ⟨![3, k.val / 8, 7, 16 * (k.val % 8)], off175_eq k⟩
theorem off176_eq : ∀ k : Fin k0_t4_loop.trips, k0_off176 k = ![4, k.val / 8, 0, 16 * (k.val % 8)] := by decide +kernel
instance closedOff_k0_off176 (k : Fin k0_t4_loop.trips) : ClosedOff (k0_off176 k) := ⟨![4, k.val / 8, 0, 16 * (k.val % 8)], off176_eq k⟩
theorem off177_eq : ∀ k : Fin k0_t4_loop.trips, k0_off177 k = ![4, k.val / 8, 1, 16 * (k.val % 8)] := by decide +kernel
instance closedOff_k0_off177 (k : Fin k0_t4_loop.trips) : ClosedOff (k0_off177 k) := ⟨![4, k.val / 8, 1, 16 * (k.val % 8)], off177_eq k⟩
theorem off178_eq : ∀ k : Fin k0_t4_loop.trips, k0_off178 k = ![4, k.val / 8, 2, 16 * (k.val % 8)] := by decide +kernel
instance closedOff_k0_off178 (k : Fin k0_t4_loop.trips) : ClosedOff (k0_off178 k) := ⟨![4, k.val / 8, 2, 16 * (k.val % 8)], off178_eq k⟩
theorem off179_eq : ∀ k : Fin k0_t4_loop.trips, k0_off179 k = ![4, k.val / 8, 3, 16 * (k.val % 8)] := by decide +kernel
instance closedOff_k0_off179 (k : Fin k0_t4_loop.trips) : ClosedOff (k0_off179 k) := ⟨![4, k.val / 8, 3, 16 * (k.val % 8)], off179_eq k⟩
theorem off180_eq : ∀ k : Fin k0_t4_loop.trips, k0_off180 k = ![4, k.val / 8, 4, 16 * (k.val % 8)] := by decide +kernel
instance closedOff_k0_off180 (k : Fin k0_t4_loop.trips) : ClosedOff (k0_off180 k) := ⟨![4, k.val / 8, 4, 16 * (k.val % 8)], off180_eq k⟩
theorem off181_eq : ∀ k : Fin k0_t4_loop.trips, k0_off181 k = ![4, k.val / 8, 5, 16 * (k.val % 8)] := by decide +kernel
instance closedOff_k0_off181 (k : Fin k0_t4_loop.trips) : ClosedOff (k0_off181 k) := ⟨![4, k.val / 8, 5, 16 * (k.val % 8)], off181_eq k⟩
theorem off182_eq : ∀ k : Fin k0_t4_loop.trips, k0_off182 k = ![4, k.val / 8, 6, 16 * (k.val % 8)] := by decide +kernel
instance closedOff_k0_off182 (k : Fin k0_t4_loop.trips) : ClosedOff (k0_off182 k) := ⟨![4, k.val / 8, 6, 16 * (k.val % 8)], off182_eq k⟩
theorem off183_eq : ∀ k : Fin k0_t4_loop.trips, k0_off183 k = ![4, k.val / 8, 7, 16 * (k.val % 8)] := by decide +kernel
instance closedOff_k0_off183 (k : Fin k0_t4_loop.trips) : ClosedOff (k0_off183 k) := ⟨![4, k.val / 8, 7, 16 * (k.val % 8)], off183_eq k⟩
theorem off184_eq : ∀ k : Fin k0_t4_loop.trips, k0_off184 k = ![5, k.val / 8, 0, 16 * (k.val % 8)] := by decide +kernel
instance closedOff_k0_off184 (k : Fin k0_t4_loop.trips) : ClosedOff (k0_off184 k) := ⟨![5, k.val / 8, 0, 16 * (k.val % 8)], off184_eq k⟩
theorem off185_eq : ∀ k : Fin k0_t4_loop.trips, k0_off185 k = ![5, k.val / 8, 1, 16 * (k.val % 8)] := by decide +kernel
instance closedOff_k0_off185 (k : Fin k0_t4_loop.trips) : ClosedOff (k0_off185 k) := ⟨![5, k.val / 8, 1, 16 * (k.val % 8)], off185_eq k⟩
theorem off186_eq : ∀ k : Fin k0_t4_loop.trips, k0_off186 k = ![5, k.val / 8, 2, 16 * (k.val % 8)] := by decide +kernel
instance closedOff_k0_off186 (k : Fin k0_t4_loop.trips) : ClosedOff (k0_off186 k) := ⟨![5, k.val / 8, 2, 16 * (k.val % 8)], off186_eq k⟩
theorem off187_eq : ∀ k : Fin k0_t4_loop.trips, k0_off187 k = ![5, k.val / 8, 3, 16 * (k.val % 8)] := by decide +kernel
instance closedOff_k0_off187 (k : Fin k0_t4_loop.trips) : ClosedOff (k0_off187 k) := ⟨![5, k.val / 8, 3, 16 * (k.val % 8)], off187_eq k⟩
theorem off188_eq : ∀ k : Fin k0_t4_loop.trips, k0_off188 k = ![5, k.val / 8, 4, 16 * (k.val % 8)] := by decide +kernel
instance closedOff_k0_off188 (k : Fin k0_t4_loop.trips) : ClosedOff (k0_off188 k) := ⟨![5, k.val / 8, 4, 16 * (k.val % 8)], off188_eq k⟩
theorem off189_eq : ∀ k : Fin k0_t4_loop.trips, k0_off189 k = ![5, k.val / 8, 5, 16 * (k.val % 8)] := by decide +kernel
instance closedOff_k0_off189 (k : Fin k0_t4_loop.trips) : ClosedOff (k0_off189 k) := ⟨![5, k.val / 8, 5, 16 * (k.val % 8)], off189_eq k⟩
theorem off190_eq : ∀ k : Fin k0_t4_loop.trips, k0_off190 k = ![5, k.val / 8, 6, 16 * (k.val % 8)] := by decide +kernel
instance closedOff_k0_off190 (k : Fin k0_t4_loop.trips) : ClosedOff (k0_off190 k) := ⟨![5, k.val / 8, 6, 16 * (k.val % 8)], off190_eq k⟩
theorem off191_eq : ∀ k : Fin k0_t4_loop.trips, k0_off191 k = ![5, k.val / 8, 7, 16 * (k.val % 8)] := by decide +kernel
instance closedOff_k0_off191 (k : Fin k0_t4_loop.trips) : ClosedOff (k0_off191 k) := ⟨![5, k.val / 8, 7, 16 * (k.val % 8)], off191_eq k⟩
theorem off192_eq : ∀ k : Fin k0_t4_loop.trips, k0_off192 k = ![6, k.val / 8, 0, 16 * (k.val % 8)] := by decide +kernel
instance closedOff_k0_off192 (k : Fin k0_t4_loop.trips) : ClosedOff (k0_off192 k) := ⟨![6, k.val / 8, 0, 16 * (k.val % 8)], off192_eq k⟩
theorem off193_eq : ∀ k : Fin k0_t4_loop.trips, k0_off193 k = ![6, k.val / 8, 1, 16 * (k.val % 8)] := by decide +kernel
instance closedOff_k0_off193 (k : Fin k0_t4_loop.trips) : ClosedOff (k0_off193 k) := ⟨![6, k.val / 8, 1, 16 * (k.val % 8)], off193_eq k⟩
theorem off194_eq : ∀ k : Fin k0_t4_loop.trips, k0_off194 k = ![6, k.val / 8, 2, 16 * (k.val % 8)] := by decide +kernel
instance closedOff_k0_off194 (k : Fin k0_t4_loop.trips) : ClosedOff (k0_off194 k) := ⟨![6, k.val / 8, 2, 16 * (k.val % 8)], off194_eq k⟩
theorem off195_eq : ∀ k : Fin k0_t4_loop.trips, k0_off195 k = ![6, k.val / 8, 3, 16 * (k.val % 8)] := by decide +kernel
instance closedOff_k0_off195 (k : Fin k0_t4_loop.trips) : ClosedOff (k0_off195 k) := ⟨![6, k.val / 8, 3, 16 * (k.val % 8)], off195_eq k⟩
theorem off196_eq : ∀ k : Fin k0_t4_loop.trips, k0_off196 k = ![6, k.val / 8, 4, 16 * (k.val % 8)] := by decide +kernel
instance closedOff_k0_off196 (k : Fin k0_t4_loop.trips) : ClosedOff (k0_off196 k) := ⟨![6, k.val / 8, 4, 16 * (k.val % 8)], off196_eq k⟩
theorem off197_eq : ∀ k : Fin k0_t4_loop.trips, k0_off197 k = ![6, k.val / 8, 5, 16 * (k.val % 8)] := by decide +kernel
instance closedOff_k0_off197 (k : Fin k0_t4_loop.trips) : ClosedOff (k0_off197 k) := ⟨![6, k.val / 8, 5, 16 * (k.val % 8)], off197_eq k⟩
theorem off198_eq : ∀ k : Fin k0_t4_loop.trips, k0_off198 k = ![6, k.val / 8, 6, 16 * (k.val % 8)] := by decide +kernel
instance closedOff_k0_off198 (k : Fin k0_t4_loop.trips) : ClosedOff (k0_off198 k) := ⟨![6, k.val / 8, 6, 16 * (k.val % 8)], off198_eq k⟩
theorem off199_eq : ∀ k : Fin k0_t4_loop.trips, k0_off199 k = ![6, k.val / 8, 7, 16 * (k.val % 8)] := by decide +kernel
instance closedOff_k0_off199 (k : Fin k0_t4_loop.trips) : ClosedOff (k0_off199 k) := ⟨![6, k.val / 8, 7, 16 * (k.val % 8)], off199_eq k⟩
theorem off200_eq : ∀ k : Fin k0_t4_loop.trips, k0_off200 k = ![7, k.val / 8, 0, 16 * (k.val % 8)] := by decide +kernel
instance closedOff_k0_off200 (k : Fin k0_t4_loop.trips) : ClosedOff (k0_off200 k) := ⟨![7, k.val / 8, 0, 16 * (k.val % 8)], off200_eq k⟩
theorem off201_eq : ∀ k : Fin k0_t4_loop.trips, k0_off201 k = ![7, k.val / 8, 1, 16 * (k.val % 8)] := by decide +kernel
instance closedOff_k0_off201 (k : Fin k0_t4_loop.trips) : ClosedOff (k0_off201 k) := ⟨![7, k.val / 8, 1, 16 * (k.val % 8)], off201_eq k⟩
theorem off202_eq : ∀ k : Fin k0_t4_loop.trips, k0_off202 k = ![7, k.val / 8, 2, 16 * (k.val % 8)] := by decide +kernel
instance closedOff_k0_off202 (k : Fin k0_t4_loop.trips) : ClosedOff (k0_off202 k) := ⟨![7, k.val / 8, 2, 16 * (k.val % 8)], off202_eq k⟩
theorem off203_eq : ∀ k : Fin k0_t4_loop.trips, k0_off203 k = ![7, k.val / 8, 3, 16 * (k.val % 8)] := by decide +kernel
instance closedOff_k0_off203 (k : Fin k0_t4_loop.trips) : ClosedOff (k0_off203 k) := ⟨![7, k.val / 8, 3, 16 * (k.val % 8)], off203_eq k⟩
theorem off204_eq : ∀ k : Fin k0_t4_loop.trips, k0_off204 k = ![7, k.val / 8, 4, 16 * (k.val % 8)] := by decide +kernel
instance closedOff_k0_off204 (k : Fin k0_t4_loop.trips) : ClosedOff (k0_off204 k) := ⟨![7, k.val / 8, 4, 16 * (k.val % 8)], off204_eq k⟩
theorem off205_eq : ∀ k : Fin k0_t4_loop.trips, k0_off205 k = ![7, k.val / 8, 5, 16 * (k.val % 8)] := by decide +kernel
instance closedOff_k0_off205 (k : Fin k0_t4_loop.trips) : ClosedOff (k0_off205 k) := ⟨![7, k.val / 8, 5, 16 * (k.val % 8)], off205_eq k⟩
theorem off206_eq : ∀ k : Fin k0_t4_loop.trips, k0_off206 k = ![7, k.val / 8, 6, 16 * (k.val % 8)] := by decide +kernel
instance closedOff_k0_off206 (k : Fin k0_t4_loop.trips) : ClosedOff (k0_off206 k) := ⟨![7, k.val / 8, 6, 16 * (k.val % 8)], off206_eq k⟩
theorem off207_eq : ∀ k : Fin k0_t4_loop.trips, k0_off207 k = ![7, k.val / 8, 7, 16 * (k.val % 8)] := by decide +kernel
instance closedOff_k0_off207 (k : Fin k0_t4_loop.trips) : ClosedOff (k0_off207 k) := ⟨![7, k.val / 8, 7, 16 * (k.val % 8)], off207_eq k⟩

omit [FloatOps F] in
/-- Sixteen consecutive words loaded from a scratch whose words are all 0 or 1 are 0 or 1. -/
theorem ld012 {fe : Buf (Elt F) ((V d (cV L) (jV L)).loc cc0_scratch6)} (hfe : ∀ n, fe n = 0#32 ∨ fe n = 1#32)
    (off : Fin 1 → ℕ) (inb : ∀ a, off a + S16.size a ≤ S2304.size a) (x : S16.Idx) :
    (b6W).view.readAt (Elt F) (Rect.unit (s := S2304) off S16.size inb).toLoadRect fe x = 0#32
      ∨ (b6W).view.readAt (Elt F) (Rect.unit (s := S2304) off S16.size inb).toLoadRect fe x = 1#32 := by
  simp only [View.readAt_apply, Memref.view_whole, View.read_whole]
  exact hfe _

omit [FloatOps F] in
/-- A lane of sixteen consecutive words loaded from the attribute scratch is the scratch's word at that position. -/
theorem ldApply2 (fe : Buf (Elt F) ((V d (cV L) (jV L)).loc cc0_scratch6)) (off : Fin 1 → ℕ)
    (inb : ∀ a, off a + S16.size a ≤ S2304.size a) (x : S16.Idx) (n : ℕ) (hn : off 0 + (x 0).val = n) :
    (b6W).view.readAt (Elt F) (Rect.unit (s := S2304) off S16.size inb).toLoadRect fe x = at1 (fe : IVec S2304 32) n := by
  have hlt : n < 2304 := by
    have h1 : off 0 + 16 ≤ 2304 := inb 0
    have h2 : (x 0).val < 16 := (x 0).isLt
    omega
  have hidx : ((Rect.unit (s := S2304) off S16.size inb).toLoadRect.idx x : S2304.Idx) = ix1 (Fin.ofNat 2304 n) := by
    funext a
    match a with
    | ⟨0, _⟩ =>
      refine Fin.ext ?_
      show off 0 + 1 * (x 0).val = n % 2304
      rw [Nat.mod_eq_of_lt hlt]; omega
  simp only [View.readAt_apply, Memref.view_whole, View.read_whole]
  exact congrArg (fe : IVec S2304 32) hidx

/-- The three attribute vectors of group `k`. -/
abbrev Ea2 (fe : Buf (Elt F) ((V d (cV L) (jV L)).loc cc0_scratch6)) (k : Fin k0_t4_loop.trips) : Vec F S16 .i32 :=
  (b6W).view.readAt (Elt F) (Rect.unit (s := S2304) (k0_off142 k) S16.size (k0_off142_inb k)).toLoadRect fe
abbrev Eb2 (fe : Buf (Elt F) ((V d (cV L) (jV L)).loc cc0_scratch6)) (k : Fin k0_t4_loop.trips) : Vec F S16 .i32 :=
  (b6W).view.readAt (Elt F) (Rect.unit (s := S2304) (k0_off143 k 768#32) S16.size (k0_off143_inb k 0)).toLoadRect fe
abbrev Ec2 (fe : Buf (Elt F) ((V d (cV L) (jV L)).loc cc0_scratch6)) (k : Fin k0_t4_loop.trips) : Vec F S16 .i32 :=
  (b6W).view.readAt (Elt F) (Rect.unit (s := S2304) (k0_off143 k 1536#32) S16.size (k0_off143_inb k 1)).toLoadRect fe

omit [FloatOps F] in
/-- Lane `x` of group `k`'s combined row number is the combined row of the chunk's edge `16·k + x`. -/
theorem combVal2 (fe : Buf (Elt F) ((V d (cV L) (jV L)).loc cc0_scratch6)) (hfe : ∀ n, fe n = 0#32 ∨ fe n = 1#32)
    (k : Fin k0_t4_loop.trips) (x : S16.Idx) :
    ((k0_pay1 (Ea2 d L fe k) (Eb2 d L fe k) (Ec2 d L fe k)) x).toNat = combAt (fe : IVec S2304 32) (16 * k.val + (x 0).val) := by
  rw [comb_toNat (ld012 d L hfe _ _) (ld012 d L hfe _ _) (ld012 d L hfe _ _)]
  unfold combAt
  rw [ldApply2 d L fe _ _ x (16 * k.val + (x 0).val) (by rw [k0_off142_eq k]; rfl),
    ldApply2 d L fe _ _ x (768 + (16 * k.val + (x 0).val)) (by rw [show (768#32 : BitVec 32) = BitVec.ofNat 32 (768 + 768 * (0 : Fin 2).val) from rfl, k0_off143_eq k 0]; show 768 * 0 + 16 * k.val + 768 + (x 0).val = _; omega),
    ldApply2 d L fe _ _ x (1536 + (16 * k.val + (x 0).val)) (by rw [show (1536#32 : BitVec 32) = BitVec.ofNat 32 (768 + 768 * (1 : Fin 2).val) from rfl, k0_off143_eq k 1]; show 768 * 1 + 16 * k.val + 768 + (x 0).val = _; omega)]

omit [FloatOps F] in
/-- A combined row is at most 15 when the attribute words are 0 or 1. -/
theorem combAtLe2 (fe : Buf (Elt F) ((V d (cV L) (jV L)).loc cc0_scratch6)) (hfe : ∀ n, fe n = 0#32 ∨ fe n = 1#32) (p : ℕ) :
    combAt (fe : IVec S2304 32) p ≤ 15 := by
  unfold combAt
  have h : ∀ n, (at1 (fe : IVec S2304 32) n).toNat ≤ 1 := fun n => by
    rcases hfe (ix1 (Fin.ofNat 2304 n)) with h | h
    · show (fe (ix1 (Fin.ofNat 2304 n))).toNat ≤ 1; rw [h]; decide
    · show (fe (ix1 (Fin.ofNat 2304 n))).toNat ≤ 1; rw [h]; decide
  have := h p; have := h (768 + p); have := h (1536 + p)
  omega

/-- The gathered vector of column `c` at trip `k`, laid on its sixteen lanes of the output scratch, is the chunk's
    value there. -/
theorem pieceVal2 (fe : Buf (Elt F) ((V d (cV L) (jV L)).loc cc0_scratch6)) (ft : Buf (Elt F) ((V d (cV L) (jV L)).loc cc0_scratch4))
    (hfe : ∀ n, fe n = 0#32 ∨ fe n = 1#32) (k : Fin k0_t4_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea2 d L fe k) (Eb2 d L fe k) (Ec2 d L fe k)) (broadcast S16 q)] : Fin 1 → IVec S16 32) a x).toNat < S4096.size a)
    (hcast : S16.ShapeCasts S1x1x1x16) (x : S1x1x1x16.Idx) :
    shapeCast S1x1x1x16 (loadIdx ((b4W).view.readAt (Elt F) (LoadRect.whole S4096) ft)
        ![addi (k0_pay1 (Ea2 d L fe k) (Eb2 d L fe k) (Ec2 d L fe k)) (broadcast S16 q)] h) hcast x
      = gatherVal (ft : FVec F S4096 .f32) (fe : IVec S2304 32) ((Rect.unit (s := S8x6x8x128) off S1x1x1x16.size inb).emb x) := by
  have hx0 : (x 0).val = 0 := Nat.lt_one_iff.mp (x 0).isLt
  have hx1 : (x 1).val = 0 := Nat.lt_one_iff.mp (x 1).isLt
  have hx2 : (x 2).val = 0 := Nat.lt_one_iff.mp (x 2).isLt
  have hx3 : (x 3).val < 16 := (x 3).isLt
  have hcomb := combVal2 d L fe hfe k (ix1 (x 3))
  have hle := combAtLe2 d L fe hfe (16 * k.val + (x 3).val)
  have hcle : ∀ y, ((k0_pay1 (Ea2 d L fe k) (Eb2 d L fe k) (Ec2 d L fe k)) y).toNat ≤ 15 :=
    comb_le (ld012 d L hfe _ _) (ld012 d L hfe _ _) (ld012 d L hfe _ _)
  rw [shapeCast_apply _ hcast x (ix1 (x 3)) (by
    rw [Shape.rowMajor_val_one, Shape.rowMajor_val_four]
    show (x 3).val = (((x 0).val * 1 + (x 1).val) * 1 + (x 2).val) * 16 + (x 3).val
    rw [hx0, hx1, hx2]; omega)]
  have hidx : ((LoadRect.whole S4096).idx (idxAt ![addi (k0_pay1 (Ea2 d L fe k) (Eb2 d L fe k) (Ec2 d L fe k)) (broadcast S16 q)] h (ix1 (x 3))) : S4096.Idx)
      = ix1 (Fin.ofNat 4096 (64 * (8 * ((Rect.unit (s := S8x6x8x128) off S1x1x1x16.size inb).emb x 0).val
            + ((Rect.unit (s := S8x6x8x128) off S1x1x1x16.size inb).emb x 2).val)
          + combAt (fe : IVec S2304 32) (128 * ((Rect.unit (s := S8x6x8x128) off S1x1x1x16.size inb).emb x 1).val
            + ((Rect.unit (s := S8x6x8x128) off S1x1x1x16.size inb).emb x 3).val))) := by
    funext a
    match a with
    | ⟨0, _⟩ =>
      refine Fin.ext ?_
      show 0 + 1 * (addi (k0_pay1 (Ea2 d L fe k) (Eb2 d L fe k) (Ec2 d L fe k)) (broadcast S16 q) (ix1 (x 3))).toNat
        = (64 * (8 * (off 0 + 1 * (x 0).val) + (off 2 + 1 * (x 2).val))
            + combAt (fe : IVec S2304 32) (128 * (off 1 + 1 * (x 1).val) + (off 3 + 1 * (x 3).val))) % 4096
      rw [Nat.zero_add, Nat.one_mul, idx_toNat hcle (by omega), hcomb, hq, hoff]
      show combAt (fe : IVec S2304 32) (16 * k.val + (x 3).val) + 64 * c
        = (64 * (8 * (c / 8 + 1 * (x 0).val) + (c % 8 + 1 * (x 2).val))
            + combAt (fe : IVec S2304 32) (128 * (k.val / 8 + 1 * (x 1).val) + (16 * (k.val % 8) + 1 * (x 3).val))) % 4096
      rw [hx0, hx1, hx2]
      have e1 : 128 * (k.val / 8 + 1 * 0) + (16 * (k.val % 8) + 1 * (x 3).val) = 16 * k.val + (x 3).val := by omega
      have e2 : 64 * (8 * (c / 8 + 1 * 0) + (c % 8 + 1 * 0)) = 64 * c := by omega
      rw [e1, e2, Nat.mod_eq_of_lt (by omega)]
      omega
  unfold gatherVal loadIdx
  simp only [View.readAt_apply, Memref.view_whole, View.read_whole]
  exact congrArg (ft : FVec F S4096 .f32) hidx

/-- Column `c`'s store of trip `k` is a good piece. -/
theorem pieceGood2 (fe : Buf (Elt F) ((V d (cV L) (jV L)).loc cc0_scratch6)) (ft : Buf (Elt F) ((V d (cV L) (jV L)).loc cc0_scratch4))
    (hfe : ∀ n, fe n = 0#32 ∨ fe n = 1#32) (k : Fin k0_t4_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea2 d L fe k) (Eb2 d L fe k) (Ec2 d L fe k)) (broadcast S16 q)] : Fin 1 → IVec S16 32) a x).toNat < S4096.size a)
    (hcast : S16.ShapeCasts S1x1x1x16) :
    PieceGood (Val := Elt F) (gatherVal (ft : FVec F S4096 .f32) (fe : IVec S2304 32)) k.val c
      ⟨Rect.unit (s := S8x6x8x128) off S1x1x1x16.size inb,
        shapeCast S1x1x1x16 (loadIdx ((b4W).view.readAt (Elt F) (LoadRect.whole S4096) ft)
          ![addi (k0_pay1 (Ea2 d L fe k) (Eb2 d L fe k) (Ec2 d L fe k)) (broadcast S16 q)] h) hcast⟩ where
  off := hoff
  size := rfl
  stride := fun _ => rfl
  val := fun x => pieceVal2 d L fe ft hfe k c hc q hq off hoff inb h hcast x

omit [FloatOps F] in
/-- What a trip leaves, through the output scratch's own memref: reading the whole scratch is reading its contents. -/
theorem tripValWhole2 (fo : Buf (Elt F) ((V d (cV L) (jV L)).loc cc0_scratch8)) (G : S8x6x8x128.Idx → Elt F .f32) (k : ℕ)
    (Ls : List (View.Piece (Elt F) S8x6x8x128 .f32)) (hlen : Ls.length = 64) (hg : GoodList G k Ls)
    (hinv : ∀ j : S8x6x8x128.Idx, grp j < k → fo j = G j) :
    ∀ j : S8x6x8x128.Idx, grp j < k + 1 → (b8W).view.writes (Elt F) fo Ls j = G j :=
  trip_val (b8W).view fo G k Ls hlen hg hinv

/-- Before trip `k`: the attribute scratch and the table scratch as they were, and the output scratch holding the chunk's
    values on the groups below `k`. -/
def innerInvV2 (fe : Buf (Elt F) ((V d (cV L) (jV L)).loc cc0_scratch6)) (ft : Buf (Elt F) ((V d (cV L) (jV L)).loc cc0_scratch4))
    (k : ℕ) (_ : PUnit) : sProp 𝕄 :=
  iprop(((b6W).view.loc (V d (cV L) (jV L)) ↦{fullShare} fe) ∗ ((b4W).view.loc (V d (cV L) (jV L)) ↦{fullShare} ft)
    ∗ ∃ fo, ((b8W).view.loc (V d (cV L) (jV L)) ↦{fullShare} fo)
      ∗ ⌜∀ j : S8x6x8x128.Idx, grp j < k → fo j = gatherVal (ft : FVec F S4096 .f32) (fe : IVec S2304 32) j⌝)

set_option maxHeartbeats 8000000 in
/-- One trip of the loop keeps the invariant: group `k` is written. -/
theorem inner_regionV2 (fe : Buf (Elt F) ((V d (cV L) (jV L)).loc cc0_scratch6)) (ft : Buf (Elt F) ((V d (cV L) (jV L)).loc cc0_scratch4))
    (hfe : ∀ n, fe n = 0#32 ∨ fe n = 1#32) (v1 : BitVec 32) (v1082 v1966 v1967 : IVec S16 32) (c0 : BitVec 32) :
    ∀ (k : Fin k0_t4_loop.trips) (acc : PUnit.{1}),
      innerInvV2 (F := F) d L fe ft k acc ⊢
        wp frame (wpE (defs₀ (F := F)) 𝒱₀ (V d (cV L) (jV L)) none) Set.univ
          ((k0_t4_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v1 v1082 v1966 v1967 c0) k acc)
          (innerInvV2 (F := F) d L fe ft (k + 1)) := by
  intro k _
  unfold innerInvV2
  iintro ⟨H5, H4, %fo, H7, %hinv⟩
  unfold k0_t4_body
  sl_exec (disch := (refine chk_of_le (comb_le (ld012 d L hfe _ _) (ld012 d L hfe _ _) (ld012 d L hfe _ _)) ?_; decide))
  iterate 70 (first | (rw [SparseCore.vectorLoadIdx_bind (c := V d (cV L) (jV L))]; sl_exec (disch := (refine chk_of_le (comb_le (ld012 d L hfe _ _) (ld012 d L hfe _ _) (ld012 d L hfe _ _)) ?_; decide))) | skip)
  sl_step
  isplitl [H5]; · iexact H5
  isplitl [H4]; · iexact H4
  iexists _
  isplitl [H7]; · iexact H7
  ipureintro
  refine tripValWhole2 d L fo _ k.val _ rfl ?_ hinv
  exact
    (And.intro (pieceGood2 d L fe ft hfe k 63 (by decide) _ (by decide) _ (off207_eq k) _ _ _)
    (And.intro (pieceGood2 d L fe ft hfe k 62 (by decide) _ (by decide) _ (off206_eq k) _ _ _)
    (And.intro (pieceGood2 d L fe ft hfe k 61 (by decide) _ (by decide) _ (off205_eq k) _ _ _)
    (And.intro (pieceGood2 d L fe ft hfe k 60 (by decide) _ (by decide) _ (off204_eq k) _ _ _)
    (And.intro (pieceGood2 d L fe ft hfe k 59 (by decide) _ (by decide) _ (off203_eq k) _ _ _)
    (And.intro (pieceGood2 d L fe ft hfe k 58 (by decide) _ (by decide) _ (off202_eq k) _ _ _)
    (And.intro (pieceGood2 d L fe ft hfe k 57 (by decide) _ (by decide) _ (off201_eq k) _ _ _)
    (And.intro (pieceGood2 d L fe ft hfe k 56 (by decide) _ (by decide) _ (off200_eq k) _ _ _)
    (And.intro (pieceGood2 d L fe ft hfe k 55 (by decide) _ (by decide) _ (off199_eq k) _ _ _)
    (And.intro (pieceGood2 d L fe ft hfe k 54 (by decide) _ (by decide) _ (off198_eq k) _ _ _)
    (And.intro (pieceGood2 d L fe ft hfe k 53 (by decide) _ (by decide) _ (off197_eq k) _ _ _)
    (And.intro (pieceGood2 d L fe ft hfe k 52 (by decide) _ (by decide) _ (off196_eq k) _ _ _)
    (And.intro (pieceGood2 d L fe ft hfe k 51 (by decide) _ (by decide) _ (off195_eq k) _ _ _)
    (And.intro (pieceGood2 d L fe ft hfe k 50 (by decide) _ (by decide) _ (off194_eq k) _ _ _)
    (And.intro (pieceGood2 d L fe ft hfe k 49 (by decide) _ (by decide) _ (off193_eq k) _ _ _)
    (And.intro (pieceGood2 d L fe ft hfe k 48 (by decide) _ (by decide) _ (off192_eq k) _ _ _)
    (And.intro (pieceGood2 d L fe ft hfe k 47 (by decide) _ (by decide) _ (off191_eq k) _ _ _)
    (And.intro (pieceGood2 d L fe ft hfe k 46 (by decide) _ (by decide) _ (off190_eq k) _ _ _)
    (And.intro (pieceGood2 d L fe ft hfe k 45 (by decide) _ (by decide) _ (off189_eq k) _ _ _)
    (And.intro (pieceGood2 d L fe ft hfe k 44 (by decide) _ (by decide) _ (off188_eq k) _ _ _)
    (And.intro (pieceGood2 d L fe ft hfe k 43 (by decide) _ (by decide) _ (off187_eq k) _ _ _)
    (And.intro (pieceGood2 d L fe ft hfe k 42 (by decide) _ (by decide) _ (off186_eq k) _ _ _)
    (And.intro (pieceGood2 d L fe ft hfe k 41 (by decide) _ (by decide) _ (off185_eq k) _ _ _)
    (And.intro (pieceGood2 d L fe ft hfe k 40 (by decide) _ (by decide) _ (off184_eq k) _ _ _)
    (And.intro (pieceGood2 d L fe ft hfe k 39 (by decide) _ (by decide) _ (off183_eq k) _ _ _)
    (And.intro (pieceGood2 d L fe ft hfe k 38 (by decide) _ (by decide) _ (off182_eq k) _ _ _)
    (And.intro (pieceGood2 d L fe ft hfe k 37 (by decide) _ (by decide) _ (off181_eq k) _ _ _)
    (And.intro (pieceGood2 d L fe ft hfe k 36 (by decide) _ (by decide) _ (off180_eq k) _ _ _)
    (And.intro (pieceGood2 d L fe ft hfe k 35 (by decide) _ (by decide) _ (off179_eq k) _ _ _)
    (And.intro (pieceGood2 d L fe ft hfe k 34 (by decide) _ (by decide) _ (off178_eq k) _ _ _)
    (And.intro (pieceGood2 d L fe ft hfe k 33 (by decide) _ (by decide) _ (off177_eq k) _ _ _)
    (And.intro (pieceGood2 d L fe ft hfe k 32 (by decide) _ (by decide) _ (off176_eq k) _ _ _)
    (And.intro (pieceGood2 d L fe ft hfe k 31 (by decide) _ (by decide) _ (off175_eq k) _ _ _)
    (And.intro (pieceGood2 d L fe ft hfe k 30 (by decide) _ (by decide) _ (off174_eq k) _ _ _)
    (And.intro (pieceGood2 d L fe ft hfe k 29 (by decide) _ (by decide) _ (off173_eq k) _ _ _)
    (And.intro (pieceGood2 d L fe ft hfe k 28 (by decide) _ (by decide) _ (off172_eq k) _ _ _)
    (And.intro (pieceGood2 d L fe ft hfe k 27 (by decide) _ (by decide) _ (off171_eq k) _ _ _)
    (And.intro (pieceGood2 d L fe ft hfe k 26 (by decide) _ (by decide) _ (off170_eq k) _ _ _)
    (And.intro (pieceGood2 d L fe ft hfe k 25 (by decide) _ (by decide) _ (off169_eq k) _ _ _)
    (And.intro (pieceGood2 d L fe ft hfe k 24 (by decide) _ (by decide) _ (off168_eq k) _ _ _)
    (And.intro (pieceGood2 d L fe ft hfe k 23 (by decide) _ (by decide) _ (off167_eq k) _ _ _)
    (And.intro (pieceGood2 d L fe ft hfe k 22 (by decide) _ (by decide) _ (off166_eq k) _ _ _)
    (And.intro (pieceGood2 d L fe ft hfe k 21 (by decide) _ (by decide) _ (off165_eq k) _ _ _)
    (And.intro (pieceGood2 d L fe ft hfe k 20 (by decide) _ (by decide) _ (off164_eq k) _ _ _)
    (And.intro (pieceGood2 d L fe ft hfe k 19 (by decide) _ (by decide) _ (off163_eq k) _ _ _)
    (And.intro (pieceGood2 d L fe ft hfe k 18 (by decide) _ (by decide) _ (off162_eq k) _ _ _)
    (And.intro (pieceGood2 d L fe ft hfe k 17 (by decide) _ (by decide) _ (off161_eq k) _ _ _)
    (And.intro (pieceGood2 d L fe ft hfe k 16 (by decide) _ (by decide) _ (off160_eq k) _ _ _)
    (And.intro (pieceGood2 d L fe ft hfe k 15 (by decide) _ (by decide) _ (off159_eq k) _ _ _)
    (And.intro (pieceGood2 d L fe ft hfe k 14 (by decide) _ (by decide) _ (off158_eq k) _ _ _)
    (And.intro (pieceGood2 d L fe ft hfe k 13 (by decide) _ (by decide) _ (off157_eq k) _ _ _)
    (And.intro (pieceGood2 d L fe ft hfe k 12 (by decide) _ (by decide) _ (off156_eq k) _ _ _)
    (And.intro (pieceGood2 d L fe ft hfe k 11 (by decide) _ (by decide) _ (off155_eq k) _ _ _)
    (And.intro (pieceGood2 d L fe ft hfe k 10 (by decide) _ (by decide) _ (off154_eq k) _ _ _)
    (And.intro (pieceGood2 d L fe ft hfe k 9 (by decide) _ (by decide) _ (off153_eq k) _ _ _)
    (And.intro (pieceGood2 d L fe ft hfe k 8 (by decide) _ (by decide) _ (off152_eq k) _ _ _)
    (And.intro (pieceGood2 d L fe ft hfe k 7 (by decide) _ (by decide) _ (off151_eq k) _ _ _)
    (And.intro (pieceGood2 d L fe ft hfe k 6 (by decide) _ (by decide) _ (off150_eq k) _ _ _)
    (And.intro (pieceGood2 d L fe ft hfe k 5 (by decide) _ (by decide) _ (off149_eq k) _ _ _)
    (And.intro (pieceGood2 d L fe ft hfe k 4 (by decide) _ (by decide) _ (off148_eq k) _ _ _)
    (And.intro (pieceGood2 d L fe ft hfe k 3 (by decide) _ (by decide) _ (off147_eq k) _ _ _)
    (And.intro (pieceGood2 d L fe ft hfe k 2 (by decide) _ (by decide) _ (off146_eq k) _ _ _)
    (And.intro (pieceGood2 d L fe ft hfe k 1 (by decide) _ (by decide) _ (off145_eq k) _ _ _)
    (And.intro (pieceGood2 d L fe ft hfe k 0 (by decide) _ (by decide) _ (off144_eq k) _ _ _)
    trivial))))))))))))))))))))))))))))))))))))))))))))))))))))))))))))))))

/-- The loop, run from the three scratches: afterwards the output scratch holds the chunk's values everywhere. -/
theorem innerV2_ok (fe : Buf (Elt F) ((V d (cV L) (jV L)).loc cc0_scratch6)) (ft : Buf (Elt F) ((V d (cV L) (jV L)).loc cc0_scratch4)) (fo : Buf (Elt F) ((V d (cV L) (jV L)).loc cc0_scratch8))
    (hfe : ∀ n, fe n = 0#32 ∨ fe n = 1#32) (v1 : BitVec 32) (v1082 v1966 v1967 : IVec S16 32) (c0 : BitVec 32) :
    (iprop(((b6W).view.loc (V d (cV L) (jV L)) ↦{fullShare} fe) ∗ ((b4W).view.loc (V d (cV L) (jV L)) ↦{fullShare} ft)
        ∗ ((b8W).view.loc (V d (cV L) (jV L)) ↦{fullShare} fo)) : sProp 𝕄)
      ⊢ wp frame (wpE (defs₀ (F := F)) 𝒱₀ (V d (cV L) (jV L)) none) Set.univ
          (Scf.Loop.for k0_t4_loop Cert.KernelIdeal.Gen.k0_t4_ok ⟨⟩ (k0_t4_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v1 v1082 v1966 v1967 c0))
          fun _ => iprop(((b6W).view.loc (V d (cV L) (jV L)) ↦{fullShare} fe) ∗ ((b4W).view.loc (V d (cV L) (jV L)) ↦{fullShare} ft)
            ∗ ∃ fo', ((b8W).view.loc (V d (cV L) (jV L)) ↦{fullShare} fo')
              ∗ ⌜∀ j : S8x6x8x128.Idx, fo' j = gatherVal (ft : FVec F S4096 .f32) (fe : IVec S2304 32) j⌝) := by
  iintro ⟨H5, H4, H7⟩
  sl_for (innerInvV2 (F := F) d L fe ft) $$ [H5 H4 H7]
  case region => exact inner_regionV2 d L fe ft hfe v1 v1082 v1966 v1967 c0
  isplitl [H5 H4 H7]
  · unfold innerInvV2
    isplitl [H5]; · iexact H5
    isplitl [H4]; · iexact H4
    iexists _
    isplitl [H7]; · iexact H7
    ipureintro
    intro j hj
    exact absurd hj (Nat.not_lt_zero _)
  · iintro %_ HI
    unfold innerInvV2
    icases HI with ⟨H5, H4, %fo', H7, %hall⟩
    isplitl [H5]; · iexact H5
    isplitl [H4]; · iexact H4
    iexists _
    isplitl [H7]; · iexact H7
    ipureintro
    intro j
    refine hall j ?_
    have h1 : (j 1).val < 6 := (j 1).isLt
    have h3 : (j 3).val < 128 := (j 3).isLt
    show 8 * (j 1).val + (j 3).val / 16 < 48
    omega

end Cert.Proof.KI
end
-- ==== Proof.InnerKI.lean ====
/-
  The inner loop of a vector subcore's chunk, its three copies gathered: per copy the loop's invariant (the attribute
  scratch and the table scratch unchanged, the output scratch holding the chunk's values on the groups already
  written), one trip keeping it, and the whole loop from the three scratches. After the forty-eight trips every
  element of the output scratch is the table word of its column at its edge's combined row.
-/
import proofs.«203789_g40862318854646_cont_8to1_b_1018_13_alg».proof.Proof.Inner0KI
import proofs.«203789_g40862318854646_cont_8to1_b_1018_13_alg».proof.Proof.Inner1KI
import proofs.«203789_g40862318854646_cont_8to1_b_1018_13_alg».proof.Proof.Inner2KI

namespace Cert.Proof.KI

open Cert.KernelIdeal

/-- Every element of the output scratch belongs to one of the forty-eight groups. -/
theorem grp_lt (j : S8x6x8x128.Idx) : grp j < 48 := by
  have h1 : (j 1).val < 6 := (j 1).isLt
  have h3 : (j 3).val < 128 := (j 3).isLt
  unfold grp
  omega

end Cert.Proof.KI
-- ==== Proof.PlugKI.lean ====
/-
  The inner loops as the chunk loop uses them: an attribute scratch is held as its three thirds (each filled by its
  own fetch), the loop runs over the whole scratch at the contents the thirds join to, and hands the thirds back.
  A landed third holds words of the attribute array, so they are 0 or 1 and the loop's range checks pass; after the
  loop the output scratch holds the chunk's values, read off the table scratch at the joined attribute words.
-/
import proofs.«203789_g40862318854646_cont_8to1_b_1018_13_alg».proof.Proof.TileDefsKI
import proofs.«203789_g40862318854646_cont_8to1_b_1018_13_alg».proof.Proof.GoodKI
import proofs.«203789_g40862318854646_cont_8to1_b_1018_13_alg».proof.Proof.InnerKI
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

variable (m : (ℓ : Loc nD τ sig) → Buf (Elt F) ℓ)
variable [FloatOps F]
variable (d : Dev nD) (L : grid0.Coords)

/-! ## Attribute scratch 5 as its three thirds -/

abbrev u5a : Memref sig .scVector .vmem S768 .i32 := (b5W).slice (Rect.unit (s := S2304) ![0] S768.size inb_S2304_S768_0) (fun _ => rfl)
abbrev u5b : Memref sig .scVector .vmem S768 .i32 := (b5W).slice (Rect.unit (s := S2304) ![768] S768.size inb_S2304_S768_768) (fun _ => rfl)
abbrev u5c : Memref sig .scVector .vmem S768 .i32 := (b5W).slice (Rect.unit (s := S2304) ![1536] S768.size inb_S2304_S768_1536) (fun _ => rfl)

/-- A third's elements are the words from its offset on. -/
theorem third_set5 (o : ℕ) (hb : ∀ a, (![o] : Fin 1 → ℕ) a + S768.size a ≤ S2304.size a) :
    ((b5W).slice (Rect.unit (s := S2304) ![o] S768.size hb) (fun _ => rfl)).view.set
      = Finset.univ.filter (fun j : S2304.Idx => o ≤ (j 0).val ∧ (j 0).val < o + 768) := by
  show ((View.whole cc0_scratch5).slice (Rect.unit (s := S2304) ![o] S768.size hb)).set = _
  rw [View.set_slice_whole]
  ext j
  rw [Rect.mem_set_unit, Finset.mem_filter]
  constructor
  · intro h; exact ⟨Finset.mem_univ _, h 0⟩
  · rintro ⟨-, h1, h2⟩ a
    match a with
    | ⟨0, _⟩ => exact ⟨h1, h2⟩

theorem mem_u5a {i : S2304.Idx} : i ∈ (u5a).view.set ↔ (i 0).val < 768 := by
  rw [third_set5, Finset.mem_filter]; constructor
  · rintro ⟨-, -, h⟩; omega
  · intro h; exact ⟨Finset.mem_univ _, Nat.zero_le _, by omega⟩
theorem mem_u5b {i : S2304.Idx} : i ∈ (u5b).view.set ↔ 768 ≤ (i 0).val ∧ (i 0).val < 1536 := by
  rw [third_set5, Finset.mem_filter]; constructor
  · rintro ⟨-, h1, h2⟩; omega
  · intro h; exact ⟨Finset.mem_univ _, h.1, by omega⟩
theorem mem_u5c {i : S2304.Idx} : i ∈ (u5c).view.set ↔ 1536 ≤ (i 0).val := by
  rw [third_set5, Finset.mem_filter]; constructor
  · rintro ⟨-, h1, -⟩; exact h1
  · intro h; exact ⟨Finset.mem_univ _, h, by have : (i 0).val < 2304 := (i 0).isLt; omega⟩

theorem cover_u5 : (Finset.univ : Finset S2304.Idx) = (u5a).view.set ∪ ((u5b).view.set ∪ (u5c).view.set) := by
  ext i
  refine ⟨fun _ => ?_, fun _ => Finset.mem_univ _⟩
  have hi : (i 0).val < 2304 := (i 0).isLt
  by_cases h1 : (i 0).val < 768
  · exact Finset.mem_union_left _ (mem_u5a.mpr h1)
  · by_cases h2 : (i 0).val < 1536
    · exact Finset.mem_union_right _ (Finset.mem_union_left _ (mem_u5b.mpr ⟨by omega, h2⟩))
    · exact Finset.mem_union_right _ (Finset.mem_union_right _ (mem_u5c.mpr (by omega)))
theorem disj_u5_a : Disjoint (u5a).view.set ((u5b).view.set ∪ (u5c).view.set) := by
  rw [Finset.disjoint_left]; intro i h1 h2
  have ha := mem_u5a.mp h1
  rcases Finset.mem_union.mp h2 with h | h
  · have := mem_u5b.mp h; omega
  · have := mem_u5c.mp h; omega
theorem disj_u5_b : Disjoint (u5b).view.set (u5c).view.set := by
  rw [Finset.disjoint_left]; intro i h1 h2
  have hb := mem_u5b.mp h1
  have hc := mem_u5c.mp h2
  omega

/-- The scratch's contents from its thirds': words 0 …, 768 …, 1536 …. -/
def joinE5 (fa fb fc : Buf (Elt F) ((b5W).view.loc (V d (cV L) (jV L)))) : Buf (Elt F) ((b5W).view.loc (V d (cV L) (jV L))) :=
  fun i => if ((i : S2304.Idx) 0).val < 768 then fa i else if ((i : S2304.Idx) 0).val < 1536 then fb i else fc i

omit [FloatOps F] in
theorem joinE5_a (fa fb fc : Buf (Elt F) ((b5W).view.loc (V d (cV L) (jV L)))) (i : S2304.Idx) (hi : i ∈ (u5a).view.set) : joinE5 (F := F) d L fa fb fc i = fa i := by
  have h := mem_u5a.mp hi
  unfold joinE5; rw [if_pos h]
omit [FloatOps F] in
theorem joinE5_b (fa fb fc : Buf (Elt F) ((b5W).view.loc (V d (cV L) (jV L)))) (i : S2304.Idx) (hi : i ∈ (u5b).view.set) : joinE5 (F := F) d L fa fb fc i = fb i := by
  have h := mem_u5b.mp hi
  have hn : ¬ (i 0).val < 768 := by omega
  unfold joinE5; rw [if_neg hn, if_pos h.2]
omit [FloatOps F] in
theorem joinE5_c (fa fb fc : Buf (Elt F) ((b5W).view.loc (V d (cV L) (jV L)))) (i : S2304.Idx) (hi : i ∈ (u5c).view.set) : joinE5 (F := F) d L fa fb fc i = fc i := by
  have h := mem_u5c.mp hi
  have hn : ¬ (i 0).val < 768 := by omega
  have hn' : ¬ (i 0).val < 1536 := by omega
  unfold joinE5; rw [if_neg hn, if_neg hn']

set_option maxHeartbeats 2000000 in
omit [FloatOps F] in
/-- The whole scratch is its three thirds, -/
theorem thirds_split5 (f : Buf (Elt F) ((b5W).view.loc (V d (cV L) (jV L)))) :
    (((b5W).view.loc (V d (cV L) (jV L))) ↦{fullShare} f : sProp 𝕄)
      ⊢ iprop(((u5a).view.loc (V d (cV L) (jV L)) ↦[(u5a).view.set]{fullShare} f) ∗ ((u5b).view.loc (V d (cV L) (jV L)) ↦[(u5b).view.set]{fullShare} f)
        ∗ ((u5c).view.loc (V d (cV L) (jV L)) ↦[(u5c).view.set]{fullShare} f)) := by
  have h := (pointsTo_union (nD := nD) (τ := τ) (sig := sig) (Ix := HIx 1) (Val := Elt F) (Name := ℕ) (U := UU) (Lvl := ℕ) (ℓ := ((b5W).view.loc (V d (cV L) (jV L)))) (q := fullShare) (f := f) disj_u5_a).1
  have h' := (pointsTo_union (nD := nD) (τ := τ) (sig := sig) (Ix := HIx 1) (Val := Elt F) (Name := ℕ) (U := UU) (Lvl := ℕ) (ℓ := ((b5W).view.loc (V d (cV L) (jV L)))) (q := fullShare) (f := f) disj_u5_b).1
  rw [← cover_u5] at h
  exact h.trans (sep_mono_r h')

set_option maxHeartbeats 2000000 in
omit [FloatOps F] in
/-- and the thirds at one contents are the whole scratch at it. -/
theorem thirds_merge5 (f : Buf (Elt F) ((b5W).view.loc (V d (cV L) (jV L)))) :
    (iprop(((u5a).view.loc (V d (cV L) (jV L)) ↦[(u5a).view.set]{fullShare} f) ∗ ((u5b).view.loc (V d (cV L) (jV L)) ↦[(u5b).view.set]{fullShare} f)
        ∗ ((u5c).view.loc (V d (cV L) (jV L)) ↦[(u5c).view.set]{fullShare} f)) : sProp 𝕄)
      ⊢ (((b5W).view.loc (V d (cV L) (jV L))) ↦{fullShare} f) := by
  have h := (pointsTo_union (nD := nD) (τ := τ) (sig := sig) (Ix := HIx 1) (Val := Elt F) (Name := ℕ) (U := UU) (Lvl := ℕ) (ℓ := ((b5W).view.loc (V d (cV L) (jV L)))) (q := fullShare) (f := f) disj_u5_a).2
  have h' := (pointsTo_union (nD := nD) (τ := τ) (sig := sig) (Ix := HIx 1) (Val := Elt F) (Name := ℕ) (U := UU) (Lvl := ℕ) (ℓ := ((b5W).view.loc (V d (cV L) (jV L)))) (q := fullShare) (f := f) disj_u5_b).2
  rw [← cover_u5] at h
  exact (sep_mono_r h').trans h

/-! ## Slot 0: the inner loop over the scratch held as its thirds -/

/-- A third after its fetch has landed: the attribute array's words from `off` on written over what it held. -/
abbrev landT5 (o : ℕ) (hb : ∀ a, (![o] : Fin 1 → ℕ) a + S768.size a ≤ S2304.size a) (g : Buf (Elt F) ((b5W).view.loc (V d (cV L) (jV L))))
    (off : Fin 1 → ℕ) (inb : ∀ a, off a + S768.size a ≤ S2400000.size a) : Buf (Elt F) ((b5W).view.loc (V d (cV L) (jV L))) :=
  ((b5W).slice (Rect.unit (s := S2304) ![o] S768.size hb) (fun _ => rfl)).view.writes (Elt F) g
    [⟨Rect.whole S768, ReadAs.same.apply (((eaW).slice (Rect.unit (s := S2400000) off S768.size inb) (fun _ => rfl)).view.read (Elt F) (eaC m d))⟩]

omit [FloatOps F] in
/-- A landed third's words are words of the attribute array: 0 or 1. -/
theorem landed01_5 (hea : ∀ n, eaC m d n = 0#32 ∨ eaC m d n = 1#32) (o : ℕ) (hb : ∀ a, (![o] : Fin 1 → ℕ) a + S768.size a ≤ S2304.size a)
    (g : Buf (Elt F) ((b5W).view.loc (V d (cV L) (jV L)))) (off : Fin 1 → ℕ) (inb : ∀ a, off a + S768.size a ≤ S2400000.size a)
    (i : S2304.Idx) (hi : i ∈ ((b5W).slice (Rect.unit (s := S2304) ![o] S768.size hb) (fun _ => rfl)).view.set) :
    landT5 m d L o hb g off inb i = 0#32 ∨ landT5 m d L o hb g off inb i = 1#32 := by
  obtain ⟨x, -, rfl⟩ := Finset.mem_map.mp hi
  unfold landT5
  have e := View.write_univ_eq_writes_whole (Val := Elt F) ((b5W).slice (Rect.unit (s := S2304) ![o] S768.size hb) (fun _ => rfl)).view g []
    (ReadAs.same.apply (((eaW).slice (Rect.unit (s := S2400000) off S768.size inb) (fun _ => rfl)).view.read (Elt F) (eaC m d)))
  rw [View.writes_nil] at e
  rw [show (((b5W).slice (Rect.unit (s := S2304) ![o] S768.size hb) (fun _ => rfl)).view.writes (Elt F) g
      [⟨Rect.whole S768, ReadAs.same.apply (((eaW).slice (Rect.unit (s := S2400000) off S768.size inb) (fun _ => rfl)).view.read (Elt F) (eaC m d))⟩])
    = View.write (Elt F) ((b5W).slice (Rect.unit (s := S2304) ![o] S768.size hb) (fun _ => rfl)).view g
      (ReadAs.same.apply (((eaW).slice (Rect.unit (s := S2400000) off S768.size inb) (fun _ => rfl)).view.read (Elt F) (eaC m d))) Finset.univ from e.symm]
  rw [View.write_emb_of_mem _ _ (Finset.mem_univ x)]
  simp only [cast_eq, View.read_apply]
  exact hea _

/-- What the loop leaves in the output scratch: the chunk's values, from the table scratch and the attribute words. -/
def R0 (ft : Buf (Elt F) ((V d (cV L) (jV L)).loc cc0_scratch4)) (_ : Fin k0_t1_loop.trips) (fa fb fc : Buf (Elt F) ((b5W).view.loc (V d (cV L) (jV L)))) (f : Buf (Elt F) ((b7W).view.loc (V d (cV L) (jV L)))) : Prop :=
  ∀ j : S8x6x8x128.Idx, f j = gatherVal (ft : FVec F S4096 .f32) ((joinE5 (F := F) d L fa fb fc) : IVec S2304 32) j

/-- The loop's invariant over the thirds' contents: the words are 0 or 1, and the value-level invariant at the joined contents. -/
def Is0 (ft : Buf (Elt F) ((V d (cV L) (jV L)).loc cc0_scratch4)) (_ : Fin k0_t1_loop.trips) (fa fb fc : Buf (Elt F) ((b5W).view.loc (V d (cV L) (jV L)))) (k : ℕ) (acc : Unit) : sProp 𝕄 :=
  iprop(⌜∀ n, (joinE5 (F := F) d L fa fb fc) n = 0#32 ∨ (joinE5 (F := F) d L fa fb fc) n = 1#32⌝ ∗ innerInvV0 (F := F) d L (joinE5 (F := F) d L fa fb fc) ft k acc)

/-- One trip keeps it. -/
theorem plug_reg0 (ft : Buf (Elt F) ((V d (cV L) (jV L)).loc cc0_scratch4)) (v3138 v3140 : BitVec 32) (t : Fin k0_t1_loop.trips) (fa fb fc : Buf (Elt F) ((b5W).view.loc (V d (cV L) (jV L))))
    (k2 : Fin k0_t2_loop.trips) (acc : Unit) :
    Is0 (F := F) d L ft t fa fb fc k2.val acc
      ⊢ wp frame (wpE (defs₀ (F := F)) 𝒱₀ (V d (cV L) (jV L)) none) Set.univ
          (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (Is0 (F := F) d L ft t fa fb fc (k2.val + 1)) := by
  unfold Is0
  iintro ⟨%hfe, HI⟩
  ihave H := (inner_regionV0 d L (joinE5 (F := F) d L fa fb fc) ft hfe v3138 v3140 0#32 1#32 t k2 acc) $$ HI
  iapply (wp_wand_r frame (wpE (defs₀ (F := F)) 𝒱₀ (V d (cV L) (jV L)) none) Set.univ)
  isplitl [H]; · iexact H
  iintro %a Ha
  isplitr
  · ipureintro; exact hfe
  · iexact Ha

/-- Entry: the table scratch, the three landed thirds and the output scratch give the invariant before trip 0. -/
theorem plug_ent0 (hea : ∀ n, eaC m d n = 0#32 ∨ eaC m d n = 1#32) (ft : Buf (Elt F) ((V d (cV L) (jV L)).loc cc0_scratch4)) (t : Fin k0_t1_loop.trips)
    (ga gb gc : Buf (Elt F) ((b5W).view.loc (V d (cV L) (jV L)))) (oa : Fin 1 → ℕ) (ha : ∀ a, oa a + S768.size a ≤ S2400000.size a)
    (ob : Fin 1 → ℕ) (hb : ∀ a, ob a + S768.size a ≤ S2400000.size a) (oc : Fin 1 → ℕ) (hc : ∀ a, oc a + S768.size a ≤ S2400000.size a)
    (f7 : Buf (Elt F) ((b7W).view.loc (V d (cV L) (jV L)))) :
    (iprop(((b4W).view.loc (V d (cV L) (jV L)) ↦{fullShare} ft) ∗ ((u5a).view.loc (V d (cV L) (jV L)) ↦[(u5a).view.set]{fullShare} (landT5 m d L 0 inb_S2304_S768_0 ga oa ha))
        ∗ ((u5b).view.loc (V d (cV L) (jV L)) ↦[(u5b).view.set]{fullShare} (landT5 m d L 768 inb_S2304_S768_768 gb ob hb))
        ∗ ((u5c).view.loc (V d (cV L) (jV L)) ↦[(u5c).view.set]{fullShare} (landT5 m d L 1536 inb_S2304_S768_1536 gc oc hc))
        ∗ (((b7W).view.loc (V d (cV L) (jV L))) ↦{fullShare} f7)) : sProp 𝕄)
      ⊢ Is0 (F := F) d L ft t (landT5 m d L 0 inb_S2304_S768_0 ga oa ha) (landT5 m d L 768 inb_S2304_S768_768 gb ob hb) (landT5 m d L 1536 inb_S2304_S768_1536 gc oc hc) 0 () := by
  unfold Is0 innerInvV0
  iintro ⟨HT, Ha, Hb, Hc, H7⟩
  isplitr
  · ipureintro
    intro i
    by_cases h1 : ((i : S2304.Idx) 0).val < 768
    · rw [joinE5_a d L _ _ _ i (mem_u5a.mpr h1)]
      exact landed01_5 m d L hea 0 _ ga oa ha i (mem_u5a.mpr h1)
    · by_cases h2 : ((i : S2304.Idx) 0).val < 1536
      · rw [joinE5_b d L _ _ _ i (mem_u5b.mpr ⟨by omega, h2⟩)]
        exact landed01_5 m d L hea 768 _ gb ob hb i (mem_u5b.mpr ⟨by omega, h2⟩)
      · rw [joinE5_c d L _ _ _ i (mem_u5c.mpr (by omega))]
        exact landed01_5 m d L hea 1536 _ gc oc hc i (mem_u5c.mpr (by omega))
  isplitl [Ha Hb Hc]
  · iapply (thirds_merge5 (F := F) d L _)
    isplitl [Ha]
    · iapply (Entails.of_eq (pointsTo_congr (fun i hi => (joinE5_a d L _ _ _ i hi).symm))); iexact Ha
    isplitl [Hb]
    · iapply (Entails.of_eq (pointsTo_congr (fun i hi => (joinE5_b d L _ _ _ i hi).symm))); iexact Hb
    · iapply (Entails.of_eq (pointsTo_congr (fun i hi => (joinE5_c d L _ _ _ i hi).symm))); iexact Hc
  isplitl [HT]; · iexact HT
  iexists f7
  isplitl [H7]; · iexact H7
  ipureintro
  intro j hj
  exact absurd hj (Nat.not_lt_zero _)

/-- Exit: after the last trip the thirds are back at their contents and the output scratch holds the chunk's values. -/
theorem plug_ext0 (ft : Buf (Elt F) ((V d (cV L) (jV L)).loc cc0_scratch4)) (t : Fin k0_t1_loop.trips) (fa fb fc : Buf (Elt F) ((b5W).view.loc (V d (cV L) (jV L)))) (acc : Unit) :
    Is0 (F := F) d L ft t fa fb fc (Scf.trips k0_t2_loop.lb k0_t2_loop.ub k0_t2_loop.st) acc
      ⊢ (iprop(((b4W).view.loc (V d (cV L) (jV L)) ↦{fullShare} ft) ∗ ((u5a).view.loc (V d (cV L) (jV L)) ↦[(u5a).view.set]{fullShare} fa)
        ∗ ((u5b).view.loc (V d (cV L) (jV L)) ↦[(u5b).view.set]{fullShare} fb)
        ∗ ((u5c).view.loc (V d (cV L) (jV L)) ↦[(u5c).view.set]{fullShare} fc)
        ∗ (∃ f, ⌜R0 (F := F) d L ft t fa fb fc f⌝ ∗ ((b7W).view.loc (V d (cV L) (jV L))) ↦{fullShare} f)) : sProp 𝕄) := by
  unfold Is0 innerInvV0
  iintro ⟨%hfe, H5, H4, %fo, H7, %hall⟩
  isplitl [H4]; · iexact H4
  ihave H5 := (thirds_split5 (F := F) d L _) $$ H5
  icases H5 with ⟨Ha, Hb, Hc⟩
  isplitl [Ha]
  · iapply (Entails.of_eq (pointsTo_congr (fun i hi => (joinE5_a d L fa fb fc i hi)))); iexact Ha
  isplitl [Hb]
  · iapply (Entails.of_eq (pointsTo_congr (fun i hi => (joinE5_b d L fa fb fc i hi)))); iexact Hb
  isplitl [Hc]
  · iapply (Entails.of_eq (pointsTo_congr (fun i hi => (joinE5_c d L fa fb fc i hi)))); iexact Hc
  iexists fo
  isplitr
  · ipureintro
    intro j
    exact hall j (grp_lt j)
  · iexact H7

/-! ## Attribute scratch 6 as its three thirds -/

abbrev u6a : Memref sig .scVector .vmem S768 .i32 := (b6W).slice (Rect.unit (s := S2304) ![0] S768.size inb_S2304_S768_0) (fun _ => rfl)
abbrev u6b : Memref sig .scVector .vmem S768 .i32 := (b6W).slice (Rect.unit (s := S2304) ![768] S768.size inb_S2304_S768_768) (fun _ => rfl)
abbrev u6c : Memref sig .scVector .vmem S768 .i32 := (b6W).slice (Rect.unit (s := S2304) ![1536] S768.size inb_S2304_S768_1536) (fun _ => rfl)

/-- A third's elements are the words from its offset on. -/
theorem third_set6 (o : ℕ) (hb : ∀ a, (![o] : Fin 1 → ℕ) a + S768.size a ≤ S2304.size a) :
    ((b6W).slice (Rect.unit (s := S2304) ![o] S768.size hb) (fun _ => rfl)).view.set
      = Finset.univ.filter (fun j : S2304.Idx => o ≤ (j 0).val ∧ (j 0).val < o + 768) := by
  show ((View.whole cc0_scratch6).slice (Rect.unit (s := S2304) ![o] S768.size hb)).set = _
  rw [View.set_slice_whole]
  ext j
  rw [Rect.mem_set_unit, Finset.mem_filter]
  constructor
  · intro h; exact ⟨Finset.mem_univ _, h 0⟩
  · rintro ⟨-, h1, h2⟩ a
    match a with
    | ⟨0, _⟩ => exact ⟨h1, h2⟩

theorem mem_u6a {i : S2304.Idx} : i ∈ (u6a).view.set ↔ (i 0).val < 768 := by
  rw [third_set6, Finset.mem_filter]; constructor
  · rintro ⟨-, -, h⟩; omega
  · intro h; exact ⟨Finset.mem_univ _, Nat.zero_le _, by omega⟩
theorem mem_u6b {i : S2304.Idx} : i ∈ (u6b).view.set ↔ 768 ≤ (i 0).val ∧ (i 0).val < 1536 := by
  rw [third_set6, Finset.mem_filter]; constructor
  · rintro ⟨-, h1, h2⟩; omega
  · intro h; exact ⟨Finset.mem_univ _, h.1, by omega⟩
theorem mem_u6c {i : S2304.Idx} : i ∈ (u6c).view.set ↔ 1536 ≤ (i 0).val := by
  rw [third_set6, Finset.mem_filter]; constructor
  · rintro ⟨-, h1, -⟩; exact h1
  · intro h; exact ⟨Finset.mem_univ _, h, by have : (i 0).val < 2304 := (i 0).isLt; omega⟩

theorem cover_u6 : (Finset.univ : Finset S2304.Idx) = (u6a).view.set ∪ ((u6b).view.set ∪ (u6c).view.set) := by
  ext i
  refine ⟨fun _ => ?_, fun _ => Finset.mem_univ _⟩
  have hi : (i 0).val < 2304 := (i 0).isLt
  by_cases h1 : (i 0).val < 768
  · exact Finset.mem_union_left _ (mem_u6a.mpr h1)
  · by_cases h2 : (i 0).val < 1536
    · exact Finset.mem_union_right _ (Finset.mem_union_left _ (mem_u6b.mpr ⟨by omega, h2⟩))
    · exact Finset.mem_union_right _ (Finset.mem_union_right _ (mem_u6c.mpr (by omega)))
theorem disj_u6_a : Disjoint (u6a).view.set ((u6b).view.set ∪ (u6c).view.set) := by
  rw [Finset.disjoint_left]; intro i h1 h2
  have ha := mem_u6a.mp h1
  rcases Finset.mem_union.mp h2 with h | h
  · have := mem_u6b.mp h; omega
  · have := mem_u6c.mp h; omega
theorem disj_u6_b : Disjoint (u6b).view.set (u6c).view.set := by
  rw [Finset.disjoint_left]; intro i h1 h2
  have hb := mem_u6b.mp h1
  have hc := mem_u6c.mp h2
  omega

/-- The scratch's contents from its thirds': words 0 …, 768 …, 1536 …. -/
def joinE6 (fa fb fc : Buf (Elt F) ((b6W).view.loc (V d (cV L) (jV L)))) : Buf (Elt F) ((b6W).view.loc (V d (cV L) (jV L))) :=
  fun i => if ((i : S2304.Idx) 0).val < 768 then fa i else if ((i : S2304.Idx) 0).val < 1536 then fb i else fc i

omit [FloatOps F] in
theorem joinE6_a (fa fb fc : Buf (Elt F) ((b6W).view.loc (V d (cV L) (jV L)))) (i : S2304.Idx) (hi : i ∈ (u6a).view.set) : joinE6 (F := F) d L fa fb fc i = fa i := by
  have h := mem_u6a.mp hi
  unfold joinE6; rw [if_pos h]
omit [FloatOps F] in
theorem joinE6_b (fa fb fc : Buf (Elt F) ((b6W).view.loc (V d (cV L) (jV L)))) (i : S2304.Idx) (hi : i ∈ (u6b).view.set) : joinE6 (F := F) d L fa fb fc i = fb i := by
  have h := mem_u6b.mp hi
  have hn : ¬ (i 0).val < 768 := by omega
  unfold joinE6; rw [if_neg hn, if_pos h.2]
omit [FloatOps F] in
theorem joinE6_c (fa fb fc : Buf (Elt F) ((b6W).view.loc (V d (cV L) (jV L)))) (i : S2304.Idx) (hi : i ∈ (u6c).view.set) : joinE6 (F := F) d L fa fb fc i = fc i := by
  have h := mem_u6c.mp hi
  have hn : ¬ (i 0).val < 768 := by omega
  have hn' : ¬ (i 0).val < 1536 := by omega
  unfold joinE6; rw [if_neg hn, if_neg hn']

set_option maxHeartbeats 2000000 in
omit [FloatOps F] in
/-- The whole scratch is its three thirds, -/
theorem thirds_split6 (f : Buf (Elt F) ((b6W).view.loc (V d (cV L) (jV L)))) :
    (((b6W).view.loc (V d (cV L) (jV L))) ↦{fullShare} f : sProp 𝕄)
      ⊢ iprop(((u6a).view.loc (V d (cV L) (jV L)) ↦[(u6a).view.set]{fullShare} f) ∗ ((u6b).view.loc (V d (cV L) (jV L)) ↦[(u6b).view.set]{fullShare} f)
        ∗ ((u6c).view.loc (V d (cV L) (jV L)) ↦[(u6c).view.set]{fullShare} f)) := by
  have h := (pointsTo_union (nD := nD) (τ := τ) (sig := sig) (Ix := HIx 1) (Val := Elt F) (Name := ℕ) (U := UU) (Lvl := ℕ) (ℓ := ((b6W).view.loc (V d (cV L) (jV L)))) (q := fullShare) (f := f) disj_u6_a).1
  have h' := (pointsTo_union (nD := nD) (τ := τ) (sig := sig) (Ix := HIx 1) (Val := Elt F) (Name := ℕ) (U := UU) (Lvl := ℕ) (ℓ := ((b6W).view.loc (V d (cV L) (jV L)))) (q := fullShare) (f := f) disj_u6_b).1
  rw [← cover_u6] at h
  exact h.trans (sep_mono_r h')

set_option maxHeartbeats 2000000 in
omit [FloatOps F] in
/-- and the thirds at one contents are the whole scratch at it. -/
theorem thirds_merge6 (f : Buf (Elt F) ((b6W).view.loc (V d (cV L) (jV L)))) :
    (iprop(((u6a).view.loc (V d (cV L) (jV L)) ↦[(u6a).view.set]{fullShare} f) ∗ ((u6b).view.loc (V d (cV L) (jV L)) ↦[(u6b).view.set]{fullShare} f)
        ∗ ((u6c).view.loc (V d (cV L) (jV L)) ↦[(u6c).view.set]{fullShare} f)) : sProp 𝕄)
      ⊢ (((b6W).view.loc (V d (cV L) (jV L))) ↦{fullShare} f) := by
  have h := (pointsTo_union (nD := nD) (τ := τ) (sig := sig) (Ix := HIx 1) (Val := Elt F) (Name := ℕ) (U := UU) (Lvl := ℕ) (ℓ := ((b6W).view.loc (V d (cV L) (jV L)))) (q := fullShare) (f := f) disj_u6_a).2
  have h' := (pointsTo_union (nD := nD) (τ := τ) (sig := sig) (Ix := HIx 1) (Val := Elt F) (Name := ℕ) (U := UU) (Lvl := ℕ) (ℓ := ((b6W).view.loc (V d (cV L) (jV L)))) (q := fullShare) (f := f) disj_u6_b).2
  rw [← cover_u6] at h
  exact (sep_mono_r h').trans h

/-! ## Slot 1: the inner loop over the scratch held as its thirds -/

/-- A third after its fetch has landed: the attribute array's words from `off` on written over what it held. -/
abbrev landT6 (o : ℕ) (hb : ∀ a, (![o] : Fin 1 → ℕ) a + S768.size a ≤ S2304.size a) (g : Buf (Elt F) ((b6W).view.loc (V d (cV L) (jV L))))
    (off : Fin 1 → ℕ) (inb : ∀ a, off a + S768.size a ≤ S2400000.size a) : Buf (Elt F) ((b6W).view.loc (V d (cV L) (jV L))) :=
  ((b6W).slice (Rect.unit (s := S2304) ![o] S768.size hb) (fun _ => rfl)).view.writes (Elt F) g
    [⟨Rect.whole S768, ReadAs.same.apply (((eaW).slice (Rect.unit (s := S2400000) off S768.size inb) (fun _ => rfl)).view.read (Elt F) (eaC m d))⟩]

omit [FloatOps F] in
/-- A landed third's words are words of the attribute array: 0 or 1. -/
theorem landed01_6 (hea : ∀ n, eaC m d n = 0#32 ∨ eaC m d n = 1#32) (o : ℕ) (hb : ∀ a, (![o] : Fin 1 → ℕ) a + S768.size a ≤ S2304.size a)
    (g : Buf (Elt F) ((b6W).view.loc (V d (cV L) (jV L)))) (off : Fin 1 → ℕ) (inb : ∀ a, off a + S768.size a ≤ S2400000.size a)
    (i : S2304.Idx) (hi : i ∈ ((b6W).slice (Rect.unit (s := S2304) ![o] S768.size hb) (fun _ => rfl)).view.set) :
    landT6 m d L o hb g off inb i = 0#32 ∨ landT6 m d L o hb g off inb i = 1#32 := by
  obtain ⟨x, -, rfl⟩ := Finset.mem_map.mp hi
  unfold landT6
  have e := View.write_univ_eq_writes_whole (Val := Elt F) ((b6W).slice (Rect.unit (s := S2304) ![o] S768.size hb) (fun _ => rfl)).view g []
    (ReadAs.same.apply (((eaW).slice (Rect.unit (s := S2400000) off S768.size inb) (fun _ => rfl)).view.read (Elt F) (eaC m d)))
  rw [View.writes_nil] at e
  rw [show (((b6W).slice (Rect.unit (s := S2304) ![o] S768.size hb) (fun _ => rfl)).view.writes (Elt F) g
      [⟨Rect.whole S768, ReadAs.same.apply (((eaW).slice (Rect.unit (s := S2400000) off S768.size inb) (fun _ => rfl)).view.read (Elt F) (eaC m d))⟩])
    = View.write (Elt F) ((b6W).slice (Rect.unit (s := S2304) ![o] S768.size hb) (fun _ => rfl)).view g
      (ReadAs.same.apply (((eaW).slice (Rect.unit (s := S2400000) off S768.size inb) (fun _ => rfl)).view.read (Elt F) (eaC m d))) Finset.univ from e.symm]
  rw [View.write_emb_of_mem _ _ (Finset.mem_univ x)]
  simp only [cast_eq, View.read_apply]
  exact hea _

/-- What the loop leaves in the output scratch: the chunk's values, from the table scratch and the attribute words. -/
def R1 (ft : Buf (Elt F) ((V d (cV L) (jV L)).loc cc0_scratch4)) (_ : Fin k0_t1_loop.trips) (fa fb fc : Buf (Elt F) ((b6W).view.loc (V d (cV L) (jV L)))) (f : Buf (Elt F) ((b8W).view.loc (V d (cV L) (jV L)))) : Prop :=
  ∀ j : S8x6x8x128.Idx, f j = gatherVal (ft : FVec F S4096 .f32) ((joinE6 (F := F) d L fa fb fc) : IVec S2304 32) j

/-- The loop's invariant over the thirds' contents: the words are 0 or 1, and the value-level invariant at the joined contents. -/
def Is1 (ft : Buf (Elt F) ((V d (cV L) (jV L)).loc cc0_scratch4)) (_ : Fin k0_t1_loop.trips) (fa fb fc : Buf (Elt F) ((b6W).view.loc (V d (cV L) (jV L)))) (k : ℕ) (acc : Unit) : sProp 𝕄 :=
  iprop(⌜∀ n, (joinE6 (F := F) d L fa fb fc) n = 0#32 ∨ (joinE6 (F := F) d L fa fb fc) n = 1#32⌝ ∗ innerInvV1 (F := F) d L (joinE6 (F := F) d L fa fb fc) ft k acc)

/-- One trip keeps it. -/
theorem plug_reg1 (ft : Buf (Elt F) ((V d (cV L) (jV L)).loc cc0_scratch4)) (v3138 v3140 : BitVec 32) (t : Fin k0_t1_loop.trips) (fa fb fc : Buf (Elt F) ((b6W).view.loc (V d (cV L) (jV L))))
    (k2 : Fin k0_t3_loop.trips) (acc : Unit) :
    Is1 (F := F) d L ft t fa fb fc k2.val acc
      ⊢ wp frame (wpE (defs₀ (F := F)) 𝒱₀ (V d (cV L) (jV L)) none) Set.univ
          (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (Is1 (F := F) d L ft t fa fb fc (k2.val + 1)) := by
  unfold Is1
  iintro ⟨%hfe, HI⟩
  ihave H := (inner_regionV1 d L (joinE6 (F := F) d L fa fb fc) ft hfe v3138 v3140 0#32 1#32 t k2 acc) $$ HI
  iapply (wp_wand_r frame (wpE (defs₀ (F := F)) 𝒱₀ (V d (cV L) (jV L)) none) Set.univ)
  isplitl [H]; · iexact H
  iintro %a Ha
  isplitr
  · ipureintro; exact hfe
  · iexact Ha

/-- Entry: the table scratch, the three landed thirds and the output scratch give the invariant before trip 0. -/
theorem plug_ent1 (hea : ∀ n, eaC m d n = 0#32 ∨ eaC m d n = 1#32) (ft : Buf (Elt F) ((V d (cV L) (jV L)).loc cc0_scratch4)) (t : Fin k0_t1_loop.trips)
    (ga gb gc : Buf (Elt F) ((b6W).view.loc (V d (cV L) (jV L)))) (oa : Fin 1 → ℕ) (ha : ∀ a, oa a + S768.size a ≤ S2400000.size a)
    (ob : Fin 1 → ℕ) (hb : ∀ a, ob a + S768.size a ≤ S2400000.size a) (oc : Fin 1 → ℕ) (hc : ∀ a, oc a + S768.size a ≤ S2400000.size a)
    (f7 : Buf (Elt F) ((b8W).view.loc (V d (cV L) (jV L)))) :
    (iprop(((b4W).view.loc (V d (cV L) (jV L)) ↦{fullShare} ft) ∗ ((u6a).view.loc (V d (cV L) (jV L)) ↦[(u6a).view.set]{fullShare} (landT6 m d L 0 inb_S2304_S768_0 ga oa ha))
        ∗ ((u6b).view.loc (V d (cV L) (jV L)) ↦[(u6b).view.set]{fullShare} (landT6 m d L 768 inb_S2304_S768_768 gb ob hb))
        ∗ ((u6c).view.loc (V d (cV L) (jV L)) ↦[(u6c).view.set]{fullShare} (landT6 m d L 1536 inb_S2304_S768_1536 gc oc hc))
        ∗ (((b8W).view.loc (V d (cV L) (jV L))) ↦{fullShare} f7)) : sProp 𝕄)
      ⊢ Is1 (F := F) d L ft t (landT6 m d L 0 inb_S2304_S768_0 ga oa ha) (landT6 m d L 768 inb_S2304_S768_768 gb ob hb) (landT6 m d L 1536 inb_S2304_S768_1536 gc oc hc) 0 () := by
  unfold Is1 innerInvV1
  iintro ⟨HT, Ha, Hb, Hc, H7⟩
  isplitr
  · ipureintro
    intro i
    by_cases h1 : ((i : S2304.Idx) 0).val < 768
    · rw [joinE6_a d L _ _ _ i (mem_u6a.mpr h1)]
      exact landed01_6 m d L hea 0 _ ga oa ha i (mem_u6a.mpr h1)
    · by_cases h2 : ((i : S2304.Idx) 0).val < 1536
      · rw [joinE6_b d L _ _ _ i (mem_u6b.mpr ⟨by omega, h2⟩)]
        exact landed01_6 m d L hea 768 _ gb ob hb i (mem_u6b.mpr ⟨by omega, h2⟩)
      · rw [joinE6_c d L _ _ _ i (mem_u6c.mpr (by omega))]
        exact landed01_6 m d L hea 1536 _ gc oc hc i (mem_u6c.mpr (by omega))
  isplitl [Ha Hb Hc]
  · iapply (thirds_merge6 (F := F) d L _)
    isplitl [Ha]
    · iapply (Entails.of_eq (pointsTo_congr (fun i hi => (joinE6_a d L _ _ _ i hi).symm))); iexact Ha
    isplitl [Hb]
    · iapply (Entails.of_eq (pointsTo_congr (fun i hi => (joinE6_b d L _ _ _ i hi).symm))); iexact Hb
    · iapply (Entails.of_eq (pointsTo_congr (fun i hi => (joinE6_c d L _ _ _ i hi).symm))); iexact Hc
  isplitl [HT]; · iexact HT
  iexists f7
  isplitl [H7]; · iexact H7
  ipureintro
  intro j hj
  exact absurd hj (Nat.not_lt_zero _)

/-- Exit: after the last trip the thirds are back at their contents and the output scratch holds the chunk's values. -/
theorem plug_ext1 (ft : Buf (Elt F) ((V d (cV L) (jV L)).loc cc0_scratch4)) (t : Fin k0_t1_loop.trips) (fa fb fc : Buf (Elt F) ((b6W).view.loc (V d (cV L) (jV L)))) (acc : Unit) :
    Is1 (F := F) d L ft t fa fb fc (Scf.trips k0_t3_loop.lb k0_t3_loop.ub k0_t3_loop.st) acc
      ⊢ (iprop(((b4W).view.loc (V d (cV L) (jV L)) ↦{fullShare} ft) ∗ ((u6a).view.loc (V d (cV L) (jV L)) ↦[(u6a).view.set]{fullShare} fa)
        ∗ ((u6b).view.loc (V d (cV L) (jV L)) ↦[(u6b).view.set]{fullShare} fb)
        ∗ ((u6c).view.loc (V d (cV L) (jV L)) ↦[(u6c).view.set]{fullShare} fc)
        ∗ (∃ f, ⌜R1 (F := F) d L ft t fa fb fc f⌝ ∗ ((b8W).view.loc (V d (cV L) (jV L))) ↦{fullShare} f)) : sProp 𝕄) := by
  unfold Is1 innerInvV1
  iintro ⟨%hfe, H5, H4, %fo, H7, %hall⟩
  isplitl [H4]; · iexact H4
  ihave H5 := (thirds_split6 (F := F) d L _) $$ H5
  icases H5 with ⟨Ha, Hb, Hc⟩
  isplitl [Ha]
  · iapply (Entails.of_eq (pointsTo_congr (fun i hi => (joinE6_a d L fa fb fc i hi)))); iexact Ha
  isplitl [Hb]
  · iapply (Entails.of_eq (pointsTo_congr (fun i hi => (joinE6_b d L fa fb fc i hi)))); iexact Hb
  isplitl [Hc]
  · iapply (Entails.of_eq (pointsTo_congr (fun i hi => (joinE6_c d L fa fb fc i hi)))); iexact Hc
  iexists fo
  isplitr
  · ipureintro
    intro j
    exact hall j (grp_lt j)
  · iexact H7

end Cert.Proof.KI
end
-- ==== Proof.PlugTailKI.lean ====
/-
  The last chunk of a subcore's share: the third copy of the inner loop, run after the chunk loop over the attribute
  scratch of slot 1 as the last fetch left it, in the same form as the two copies inside the chunk loop.
-/
import proofs.«203789_g40862318854646_cont_8to1_b_1018_13_alg».proof.Proof.TileDefsKI
import proofs.«203789_g40862318854646_cont_8to1_b_1018_13_alg».proof.Proof.GoodKI
import proofs.«203789_g40862318854646_cont_8to1_b_1018_13_alg».proof.Proof.InnerKI
import proofs.«203789_g40862318854646_cont_8to1_b_1018_13_alg».proof.Proof.PlugKI
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

variable (m : (ℓ : Loc nD τ sig) → Buf (Elt F) ℓ)
variable [FloatOps F]
variable (d : Dev nD) (L : grid0.Coords)

/-! ## The last chunk: the third copy of the inner loop over attribute scratch 6 held as its thirds -/

/-- What the loop leaves in the output scratch: the chunk's values, from the table scratch and the attribute words. -/
def R2 (ft : Buf (Elt F) ((V d (cV L) (jV L)).loc cc0_scratch4)) (_ : Fin k0_t1_loop.trips) (fa fb fc : Buf (Elt F) ((b6W).view.loc (V d (cV L) (jV L)))) (f : Buf (Elt F) ((b8W).view.loc (V d (cV L) (jV L)))) : Prop :=
  ∀ j : S8x6x8x128.Idx, f j = gatherVal (ft : FVec F S4096 .f32) ((joinE6 (F := F) d L fa fb fc) : IVec S2304 32) j

/-- The loop's invariant over the thirds' contents: the words are 0 or 1, and the value-level invariant at the joined contents. -/
def Is2 (ft : Buf (Elt F) ((V d (cV L) (jV L)).loc cc0_scratch4)) (_ : Fin k0_t1_loop.trips) (fa fb fc : Buf (Elt F) ((b6W).view.loc (V d (cV L) (jV L)))) (k : ℕ) (acc : Unit) : sProp 𝕄 :=
  iprop(⌜∀ n, (joinE6 (F := F) d L fa fb fc) n = 0#32 ∨ (joinE6 (F := F) d L fa fb fc) n = 1#32⌝ ∗ innerInvV2 (F := F) d L (joinE6 (F := F) d L fa fb fc) ft k acc)

/-- One trip keeps it. -/
theorem plug_reg2 (ft : Buf (Elt F) ((V d (cV L) (jV L)).loc cc0_scratch4)) (v1 : BitVec 32) (v1082 v1966 v1967 : IVec S16 32) (c0 : BitVec 32) (t : Fin k0_t1_loop.trips) (fa fb fc : Buf (Elt F) ((b6W).view.loc (V d (cV L) (jV L))))
    (k2 : Fin k0_t4_loop.trips) (acc : Unit) :
    Is2 (F := F) d L ft t fa fb fc k2.val acc
      ⊢ wp frame (wpE (defs₀ (F := F)) 𝒱₀ (V d (cV L) (jV L)) none) Set.univ
          (k0_t4_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v1 v1082 v1966 v1967 c0 k2 acc) (Is2 (F := F) d L ft t fa fb fc (k2.val + 1)) := by
  unfold Is2
  iintro ⟨%hfe, HI⟩
  ihave H := (inner_regionV2 d L (joinE6 (F := F) d L fa fb fc) ft hfe v1 v1082 v1966 v1967 c0 k2 acc) $$ HI
  iapply (wp_wand_r frame (wpE (defs₀ (F := F)) 𝒱₀ (V d (cV L) (jV L)) none) Set.univ)
  isplitl [H]; · iexact H
  iintro %a Ha
  isplitr
  · ipureintro; exact hfe
  · iexact Ha

/-- Entry: the table scratch, the three landed thirds and the output scratch give the invariant before trip 0. -/
theorem plug_ent2 (hea : ∀ n, eaC m d n = 0#32 ∨ eaC m d n = 1#32) (ft : Buf (Elt F) ((V d (cV L) (jV L)).loc cc0_scratch4)) (t : Fin k0_t1_loop.trips)
    (ga gb gc : Buf (Elt F) ((b6W).view.loc (V d (cV L) (jV L)))) (oa : Fin 1 → ℕ) (ha : ∀ a, oa a + S768.size a ≤ S2400000.size a)
    (ob : Fin 1 → ℕ) (hb : ∀ a, ob a + S768.size a ≤ S2400000.size a) (oc : Fin 1 → ℕ) (hc : ∀ a, oc a + S768.size a ≤ S2400000.size a)
    (f7 : Buf (Elt F) ((b8W).view.loc (V d (cV L) (jV L)))) :
    (iprop(((b4W).view.loc (V d (cV L) (jV L)) ↦{fullShare} ft) ∗ ((u6a).view.loc (V d (cV L) (jV L)) ↦[(u6a).view.set]{fullShare} (landT6 m d L 0 inb_S2304_S768_0 ga oa ha))
        ∗ ((u6b).view.loc (V d (cV L) (jV L)) ↦[(u6b).view.set]{fullShare} (landT6 m d L 768 inb_S2304_S768_768 gb ob hb))
        ∗ ((u6c).view.loc (V d (cV L) (jV L)) ↦[(u6c).view.set]{fullShare} (landT6 m d L 1536 inb_S2304_S768_1536 gc oc hc))
        ∗ (((b8W).view.loc (V d (cV L) (jV L))) ↦{fullShare} f7)) : sProp 𝕄)
      ⊢ Is2 (F := F) d L ft t (landT6 m d L 0 inb_S2304_S768_0 ga oa ha) (landT6 m d L 768 inb_S2304_S768_768 gb ob hb) (landT6 m d L 1536 inb_S2304_S768_1536 gc oc hc) 0 () := by
  unfold Is2 innerInvV2
  iintro ⟨HT, Ha, Hb, Hc, H7⟩
  isplitr
  · ipureintro
    intro i
    by_cases h1 : ((i : S2304.Idx) 0).val < 768
    · rw [joinE6_a d L _ _ _ i (mem_u6a.mpr h1)]
      exact landed01_6 m d L hea 0 _ ga oa ha i (mem_u6a.mpr h1)
    · by_cases h2 : ((i : S2304.Idx) 0).val < 1536
      · rw [joinE6_b d L _ _ _ i (mem_u6b.mpr ⟨by omega, h2⟩)]
        exact landed01_6 m d L hea 768 _ gb ob hb i (mem_u6b.mpr ⟨by omega, h2⟩)
      · rw [joinE6_c d L _ _ _ i (mem_u6c.mpr (by omega))]
        exact landed01_6 m d L hea 1536 _ gc oc hc i (mem_u6c.mpr (by omega))
  isplitl [Ha Hb Hc]
  · iapply (thirds_merge6 (F := F) d L _)
    isplitl [Ha]
    · iapply (Entails.of_eq (pointsTo_congr (fun i hi => (joinE6_a d L _ _ _ i hi).symm))); iexact Ha
    isplitl [Hb]
    · iapply (Entails.of_eq (pointsTo_congr (fun i hi => (joinE6_b d L _ _ _ i hi).symm))); iexact Hb
    · iapply (Entails.of_eq (pointsTo_congr (fun i hi => (joinE6_c d L _ _ _ i hi).symm))); iexact Hc
  isplitl [HT]; · iexact HT
  iexists f7
  isplitl [H7]; · iexact H7
  ipureintro
  intro j hj
  exact absurd hj (Nat.not_lt_zero _)

/-- Exit: after the last trip the thirds are back at their contents and the output scratch holds the chunk's values. -/
theorem plug_ext2 (ft : Buf (Elt F) ((V d (cV L) (jV L)).loc cc0_scratch4)) (t : Fin k0_t1_loop.trips) (fa fb fc : Buf (Elt F) ((b6W).view.loc (V d (cV L) (jV L)))) (acc : Unit) :
    Is2 (F := F) d L ft t fa fb fc (Scf.trips k0_t4_loop.lb k0_t4_loop.ub k0_t4_loop.st) acc
      ⊢ (iprop(((b4W).view.loc (V d (cV L) (jV L)) ↦{fullShare} ft) ∗ ((u6a).view.loc (V d (cV L) (jV L)) ↦[(u6a).view.set]{fullShare} fa)
        ∗ ((u6b).view.loc (V d (cV L) (jV L)) ↦[(u6b).view.set]{fullShare} fb)
        ∗ ((u6c).view.loc (V d (cV L) (jV L)) ↦[(u6c).view.set]{fullShare} fc)
        ∗ (∃ f, ⌜R2 (F := F) d L ft t fa fb fc f⌝ ∗ ((b8W).view.loc (V d (cV L) (jV L))) ↦{fullShare} f)) : sProp 𝕄) := by
  unfold Is2 innerInvV2
  iintro ⟨%hfe, H5, H4, %fo, H7, %hall⟩
  isplitl [H4]; · iexact H4
  ihave H5 := (thirds_split6 (F := F) d L _) $$ H5
  icases H5 with ⟨Ha, Hb, Hc⟩
  isplitl [Ha]
  · iapply (Entails.of_eq (pointsTo_congr (fun i hi => (joinE6_a d L fa fb fc i hi)))); iexact Ha
  isplitl [Hb]
  · iapply (Entails.of_eq (pointsTo_congr (fun i hi => (joinE6_b d L fa fb fc i hi)))); iexact Hb
  isplitl [Hc]
  · iapply (Entails.of_eq (pointsTo_congr (fun i hi => (joinE6_c d L fa fb fc i hi)))); iexact Hc
  iexists fo
  isplitr
  · ipureintro
    intro j
    exact hall j (grp_lt j)
  · iexact H7

end Cert.Proof.KI
end
-- ==== Proof.PairKI.lean ====
/-
  The outer loop of a vector subcore's body (the double-buffered pipeline over the subcore's 32 chunks, two a trip): an
  invariant and the region lemma a trip satisfies, carrying the values. Per slot, a trip waits for the out copy issued
  two chunks ago and for the three attribute fetches issued two chunks ago (three transfers on one semaphore, all
  waited before the scratch is read: their deliveries name what lands, the source's words over the scratch's), runs
  the inner loop over the chunk (an abstract invariant here, leaving the out scratch related to the attribute
  scratch's contents by an abstract relation), copies the out scratch to the chunk's six blocks of the result (the
  window then holds what the relation gives) and fetches the attributes of the chunk after next. The attribute array
  is read under two read shares, one per fetch semaphore; the result is held window by window.
-/
import proofs.«203789_g40862318854646_cont_8to1_b_1018_13_alg».proof.Proof.TileDefsKI
import proofs.«203789_g40862318854646_cont_8to1_b_1018_13_alg».proof.Proof.GoodKI
import Idealize.ShloMosaic.Lib.Batch
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

variable (m : (ℓ : Loc nD τ sig) → Buf (Elt F) ℓ)
variable [FloatOps F]

namespace Pair

section Tile

variable (d : Dev nD) (L : grid0.Coords)

/-- The subcore's thread. -/
abbrev thr : Thread nD τ := V d (cV L) (jV L)

/-- The transfers' counters, in the right factor of the ghost state. -/
abbrev EC : UEmb Counters (MT nD τ sig (HIx 1) (Elt F) ℕ UU ℕ) := countersEmb

/-- The thirds of the attribute scratch of slot 0: words 0 …, 768 …, 1536 …; -/
abbrev t5a : Memref sig .scVector .vmem S768 .i32 := (b5W).slice (Rect.unit (s := S2304) ![0] S768.size inb_S2304_S768_0) (fun _ => rfl)
abbrev t5b : Memref sig .scVector .vmem S768 .i32 := (b5W).slice (Rect.unit (s := S2304) ![768] S768.size inb_S2304_S768_768) (fun _ => rfl)
abbrev t5c : Memref sig .scVector .vmem S768 .i32 := (b5W).slice (Rect.unit (s := S2304) ![1536] S768.size inb_S2304_S768_1536) (fun _ => rfl)
/-- and of slot 1. -/
abbrev t6a : Memref sig .scVector .vmem S768 .i32 := (b6W).slice (Rect.unit (s := S2304) ![0] S768.size inb_S2304_S768_0) (fun _ => rfl)
abbrev t6b : Memref sig .scVector .vmem S768 .i32 := (b6W).slice (Rect.unit (s := S2304) ![768] S768.size inb_S2304_S768_768) (fun _ => rfl)
abbrev t6c : Memref sig .scVector .vmem S768 .i32 := (b6W).slice (Rect.unit (s := S2304) ![1536] S768.size inb_S2304_S768_1536) (fun _ => rfl)

/-- 768 attribute words from offset `off` on. -/
abbrev eaS (off : Fin 1 → ℕ) (inb : ∀ a, off a + S768.size a ≤ S2400000.size a) : Memref sig .scVector .hbm S768 .i32 :=
  (eaW).slice (Rect.unit (s := S2400000) off S768.size inb) (fun _ => rfl)

/-- The six blocks of the result a chunk's copy writes: slot 0's and slot 1's of trip `t`. -/
abbrev o70 (t : Fin k0_t1_loop.trips) : Memref sig .scVector .hbm S8x6x8x128 .f32 :=
  (oW).slice (Rect.unit (s := S8x6250x8x128) (k0_off70 L t) S8x6x8x128.size (k0_off70_inb L t)) (fun _ => rfl)
abbrev o139 (t : Fin k0_t1_loop.trips) : Memref sig .scVector .hbm S8x6x8x128 .f32 :=
  (oW).slice (Rect.unit (s := S8x6250x8x128) (k0_off139 L t) S8x6x8x128.size (k0_off139_inb L t)) (fun _ => rfl)

/-- One fetch's credit, on either fetch semaphore. -/
abbrev NE0 : ℕ := (t5a).view.amount (SemLoc.dma (sig := sig) cc0_scratch11.sem)
abbrev NE1 : ℕ := (t6a).view.amount (SemLoc.dma (sig := sig) cc0_scratch12.sem)

/-- The read shares of the attribute array the two fetch semaphores' transfers take. -/
abbrev q2 : PosShare TreeShare := Transfers.shareTokN (tok (wL L)) 2
abbrev q3 : PosShare TreeShare := Transfers.shareTokN (tok (wL L)) 3

/-- A fetch's three deliveries: each third of the scratch at some contents, each source's words back. -/
abbrev delivE (q : PosShare TreeShare) (ta tb tc : Memref sig .scVector .vmem S768 .i32)
    (oa : Fin 1 → ℕ) (ha : ∀ a, oa a + S768.size a ≤ S2400000.size a) (ob : Fin 1 → ℕ) (hb : ∀ a, ob a + S768.size a ≤ S2400000.size a)
    (oc : Fin 1 → ℕ) (hc : ∀ a, oc a + S768.size a ≤ S2400000.size a) (f : Fin 3) : sProp 𝕄 :=
  match f with
  | 0 => iprop((∃ g, ta.view.loc (thr d L) ↦[ta.view.set]{fullShare} g)
    ∗ ((eaS oa ha).view.loc (thr d L) ↦[(eaS oa ha).view.set]{q} eaC m d))
  | 1 => iprop((∃ g, tb.view.loc (thr d L) ↦[tb.view.set]{fullShare} g)
    ∗ ((eaS ob hb).view.loc (thr d L) ↦[(eaS ob hb).view.set]{q} eaC m d))
  | 2 => iprop((∃ g, tc.view.loc (thr d L) ↦[tc.view.set]{fullShare} g)
    ∗ ((eaS oc hc).view.loc (thr d L) ↦[(eaS oc hc).view.set]{q} eaC m d))

instance delivE_storable (q : PosShare TreeShare) (ta tb tc : Memref sig .scVector .vmem S768 .i32)
    (oa : Fin 1 → ℕ) (ha : ∀ a, oa a + S768.size a ≤ S2400000.size a) (ob : Fin 1 → ℕ) (hb : ∀ a, ob a + S768.size a ≤ S2400000.size a)
    (oc : Fin 1 → ℕ) (hc : ∀ a, oc a + S768.size a ≤ S2400000.size a) (f : Fin 3) :
    BI.Storable (upEmb : UEmb _ 𝕄) (delivE m d L q ta tb tc oa ha ob hb oc hc f) := by
  match f with
  | 0 => exact (inferInstance : BI.Storable (upEmb : UEmb _ 𝕄) iprop((∃ g, ta.view.loc (thr d L) ↦[ta.view.set]{fullShare} g)
      ∗ ((eaS oa ha).view.loc (thr d L) ↦[(eaS oa ha).view.set]{q} eaC m d)))
  | 1 => exact (inferInstance : BI.Storable (upEmb : UEmb _ 𝕄) iprop((∃ g, tb.view.loc (thr d L) ↦[tb.view.set]{fullShare} g)
      ∗ ((eaS ob hb).view.loc (thr d L) ↦[(eaS ob hb).view.set]{q} eaC m d)))
  | 2 => exact (inferInstance : BI.Storable (upEmb : UEmb _ 𝕄) iprop((∃ g, tc.view.loc (thr d L) ↦[tc.view.set]{fullShare} g)
      ∗ ((eaS oc hc).view.loc (thr d L) ↦[(eaS oc hc).view.set]{q} eaC m d)))

/-- An out copy's delivery: the window at some contents, the out scratch back. -/
abbrev delivO (bW : Memref sig .scVector .vmem S8x6x8x128 .f32) (win : Memref sig .scVector .hbm S8x6x8x128 .f32)
    (f : Buf (Elt F) (bW.view.loc (thr d L))) : sProp 𝕄 :=
  iprop((∃ g, win.view.loc (thr d L) ↦[win.view.set]{fullShare} g) ∗ (bW.view.loc (thr d L) ↦[bW.view.set]{fullShare} f))

/-- What is left of the attribute array at a read share while three fetches borrow their words. -/
abbrev eaRest (q : PosShare TreeShare) (oa : Fin 1 → ℕ) (ha : ∀ a, oa a + S768.size a ≤ S2400000.size a) (ob : Fin 1 → ℕ)
    (hb : ∀ a, ob a + S768.size a ≤ S2400000.size a) (oc : Fin 1 → ℕ) (hc : ∀ a, oc a + S768.size a ≤ S2400000.size a) : sProp 𝕄 :=
  (eaW).view.loc (thr d L) ↦[((Finset.univ \ (eaS oa ha).view.set) \ (eaS ob hb).view.set) \ (eaS oc hc).view.set]{q} eaC m d

/-- A window of the result held by its own elements at some contents. -/
abbrev winAt (win : Memref sig .scVector .hbm S8x6x8x128 .f32) : sProp 𝕄 :=
  iprop(∃ g, win.view.loc (thr d L) ↦[win.view.set]{fullShare} g)

omit [FloatOps F] in
/-- A family over the sixteen trips with trip `j`'s member away, and that member: the whole family; -/
theorem wins_fill (Φ : Fin k0_t1_loop.trips → sProp 𝕄) (j : Fin k0_t1_loop.trips) :
    iprop((bigSep Finset.univ fun i => if i = j then iprop(emp) else Φ i) ∗ Φ j) ⊢ bigSep Finset.univ Φ := by
  iintro ⟨H, Hj⟩
  ihave H' := (bigSep_univ_update (Φ := fun i => if i = j then iprop(emp) else Φ i) (Ψ := Φ) j (fun i hi => (if_neg hi).symm)) $$ H
  icases H' with ⟨-, Hk⟩
  iapply Hk; iexact Hj
omit [FloatOps F] in
/-- and the whole family is trip `k`'s member and the family with it away. -/
theorem wins_take (Φ : Fin k0_t1_loop.trips → sProp 𝕄) (k : Fin k0_t1_loop.trips) :
    bigSep Finset.univ Φ ⊢ iprop(Φ k ∗ bigSep Finset.univ fun i => if i = k then iprop(emp) else Φ i) := by
  iintro H
  ihave H' := (bigSep_univ_update (Φ := Φ) (Ψ := fun i => if i = k then iprop(emp) else Φ i) k (fun i hi => if_neg hi)) $$ H
  icases H' with ⟨Hk, Hr⟩
  isplitl [Hk]; · iexact Hk
  iapply Hr
  rw [if_pos rfl]; iempintro

/-- A third after its fetch has landed: the source's words written over what it held. -/
abbrev landedE (ta : Memref sig .scVector .vmem S768 .i32) (g : Buf (Elt F) (ta.view.loc (thr d L)))
    (off : Fin 1 → ℕ) (inb : ∀ a, off a + S768.size a ≤ S2400000.size a) : Buf (Elt F) (ta.view.loc (thr d L)) :=
  ta.view.writes (Elt F) g [⟨Rect.whole S768, ReadAs.same.apply ((eaS off inb).view.read (Elt F) (eaC m d))⟩]

/-- A window of the result after an out copy has landed: the out scratch's words written over what it held. -/
abbrev landedO (bW : Memref sig .scVector .vmem S8x6x8x128 .f32) (win : Memref sig .scVector .hbm S8x6x8x128 .f32)
    (g : Buf (Elt F) (win.view.loc (thr d L))) (f : Buf (Elt F) (bW.view.loc (thr d L))) : Buf (Elt F) (win.view.loc (thr d L)) :=
  win.view.writes (Elt F) g [⟨Rect.whole S8x6x8x128, ReadAs.same.apply (bW.view.read (Elt F) f)⟩]

/-- A fetch's three deliveries, named: each third landed over its contents `ga`, `gb`, `gc`, each source's words back. -/
abbrev delivEV (q : PosShare TreeShare) (ta tb tc : Memref sig .scVector .vmem S768 .i32)
    (ga : Buf (Elt F) (ta.view.loc (thr d L))) (gb : Buf (Elt F) (tb.view.loc (thr d L))) (gc : Buf (Elt F) (tc.view.loc (thr d L)))
    (oa : Fin 1 → ℕ) (ha : ∀ a, oa a + S768.size a ≤ S2400000.size a) (ob : Fin 1 → ℕ) (hb : ∀ a, ob a + S768.size a ≤ S2400000.size a)
    (oc : Fin 1 → ℕ) (hc : ∀ a, oc a + S768.size a ≤ S2400000.size a) (f : Fin 3) : sProp 𝕄 :=
  match f with
  | 0 => iprop((ta.view.loc (thr d L) ↦[ta.view.set]{fullShare} landedE m d L ta ga oa ha)
    ∗ ((eaS oa ha).view.loc (thr d L) ↦[(eaS oa ha).view.set]{q} eaC m d))
  | 1 => iprop((tb.view.loc (thr d L) ↦[tb.view.set]{fullShare} landedE m d L tb gb ob hb)
    ∗ ((eaS ob hb).view.loc (thr d L) ↦[(eaS ob hb).view.set]{q} eaC m d))
  | 2 => iprop((tc.view.loc (thr d L) ↦[tc.view.set]{fullShare} landedE m d L tc gc oc hc)
    ∗ ((eaS oc hc).view.loc (thr d L) ↦[(eaS oc hc).view.set]{q} eaC m d))

instance delivEV_storable (q : PosShare TreeShare) (ta tb tc : Memref sig .scVector .vmem S768 .i32)
    (ga : Buf (Elt F) (ta.view.loc (thr d L))) (gb : Buf (Elt F) (tb.view.loc (thr d L))) (gc : Buf (Elt F) (tc.view.loc (thr d L)))
    (oa : Fin 1 → ℕ) (ha : ∀ a, oa a + S768.size a ≤ S2400000.size a) (ob : Fin 1 → ℕ) (hb : ∀ a, ob a + S768.size a ≤ S2400000.size a)
    (oc : Fin 1 → ℕ) (hc : ∀ a, oc a + S768.size a ≤ S2400000.size a) (f : Fin 3) :
    BI.Storable (upEmb : UEmb _ 𝕄) (delivEV m d L q ta tb tc ga gb gc oa ha ob hb oc hc f) := by
  match f with
  | 0 => exact (inferInstance : BI.Storable (upEmb : UEmb _ 𝕄) iprop((ta.view.loc (thr d L) ↦[ta.view.set]{fullShare} landedE m d L ta ga oa ha)
      ∗ ((eaS oa ha).view.loc (thr d L) ↦[(eaS oa ha).view.set]{q} eaC m d)))
  | 1 => exact (inferInstance : BI.Storable (upEmb : UEmb _ 𝕄) iprop((tb.view.loc (thr d L) ↦[tb.view.set]{fullShare} landedE m d L tb gb ob hb)
      ∗ ((eaS ob hb).view.loc (thr d L) ↦[(eaS ob hb).view.set]{q} eaC m d)))
  | 2 => exact (inferInstance : BI.Storable (upEmb : UEmb _ 𝕄) iprop((tc.view.loc (thr d L) ↦[tc.view.set]{fullShare} landedE m d L tc gc oc hc)
      ∗ ((eaS oc hc).view.loc (thr d L) ↦[(eaS oc hc).view.set]{q} eaC m d)))

/-- A window of the result at contents of which `P` holds. -/
abbrev winAtV (win : Memref sig .scVector .hbm S8x6x8x128 .f32) (P : Buf (Elt F) (win.view.loc (thr d L)) → Prop) : sProp 𝕄 :=
  iprop(∃ g, ⌜P g⌝ ∗ win.view.loc (thr d L) ↦[win.view.set]{fullShare} g)

omit [FloatOps F] in
/-- A wait at index `none` recorded keeps the recorded pairs within the allowed ones. -/
theorem waits_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact h p hp

omit [FloatOps F] in
/-- An out copy's delivery as the transfer builds it yields it with the window's contents forgotten. -/
theorem weakenO (bW : Memref sig .scVector .vmem S8x6x8x128 .f32) (win : Memref sig .scVector .hbm S8x6x8x128 .f32)
    (g : Buf (Elt F) (win.view.loc (thr d L))) (f : Buf (Elt F) (bW.view.loc (thr d L))) :
    iprop((win.view.loc (thr d L) ↦[win.view.set]{fullShare} g) ∗ (bW.view.loc (thr d L) ↦[bW.view.set]{fullShare} f))
      ⊢ (iprop((∃ g, win.view.loc (thr d L) ↦[win.view.set]{fullShare} g) ∗ (bW.view.loc (thr d L) ↦[bW.view.set]{fullShare} f)) : sProp 𝕄) := by
  iintro ⟨Hg, Hf⟩
  isplitl [Hg]; · iexists g; iexact Hg
  iexact Hf

omit [FloatOps F] in
/-- The attribute array through one of its slices is the attribute array. -/
theorem ea_respell (q : PosShare TreeShare) (off : Fin 1 → ℕ) (inb : ∀ a, off a + S768.size a ≤ S2400000.size a) (f : Buf (Elt F) (eaLoc d)) :
    ((eaS off inb).view.loc (thr d L) ↦{q} f : sProp 𝕄) = ((eaW).view.loc (thr d L) ↦{q} f) := rfl

omit [FloatOps F] in
/-- An out scratch held by its view's elements is held whole. -/
theorem b7_own (f : Buf (Elt F) ((b7W).view.loc (thr d L))) :
    ((b7W).view.loc (thr d L) ↦[(b7W).view.set]{fullShare} f : sProp 𝕄) = ((b7W).view.loc (thr d L) ↦{fullShare} f) := by
  rw [show (b7W).view.set = Finset.univ from by simp only [Memref.view_whole, View.set_whole]]
omit [FloatOps F] in
theorem b8_own (f : Buf (Elt F) ((b8W).view.loc (thr d L))) :
    ((b8W).view.loc (thr d L) ↦[(b8W).view.set]{fullShare} f : sProp 𝕄) = ((b8W).view.loc (thr d L) ↦{fullShare} f) := by
  rw [show (b8W).view.set = Finset.univ from by simp only [Memref.view_whole, View.set_whole]]

omit [FloatOps F] in
/-- An out copy's delivery as the transfer builds it yields the window at contents of which `P` holds, given that. -/
theorem weakenOV (bW : Memref sig .scVector .vmem S8x6x8x128 .f32) (win : Memref sig .scVector .hbm S8x6x8x128 .f32)
    (P : Buf (Elt F) (win.view.loc (thr d L)) → Prop) (g : Buf (Elt F) (win.view.loc (thr d L))) (hP : P g) (f : Buf (Elt F) (bW.view.loc (thr d L))) :
    iprop((win.view.loc (thr d L) ↦[win.view.set]{fullShare} g) ∗ (bW.view.loc (thr d L) ↦[bW.view.set]{fullShare} f))
      ⊢ (iprop((∃ g, ⌜P g⌝ ∗ win.view.loc (thr d L) ↦[win.view.set]{fullShare} g) ∗ (bW.view.loc (thr d L) ↦[bW.view.set]{fullShare} f)) : sProp 𝕄) := by
  iintro ⟨Hg, Hf⟩
  isplitl [Hg]
  · iexists g; isplitr
    · ipureintro; exact hP
    · iexact Hg
  iexact Hf

omit [FloatOps F] in
/-- The windows' family with trip `k`'s away reads the same whether "landed" means up to `k` or up to the trip before. -/
theorem fam_shift (A B : Fin k0_t1_loop.trips → sProp 𝕄) (j k : Fin k0_t1_loop.trips) (hk : k.val = j.val + 1) :
    (bigSep Finset.univ fun i : Fin k0_t1_loop.trips => if i = k then iprop(emp) else if i.val ≤ j.val then A i else B i)
      = bigSep Finset.univ fun i : Fin k0_t1_loop.trips => if i = k then iprop(emp) else if i.val ≤ k.val then A i else B i := by
  refine bigSep_congr fun i _ => ?_
  by_cases hi : i = k
  · rw [if_pos hi, if_pos hi]
  · rw [if_neg hi, if_neg hi]
    have : i.val ≠ k.val := fun h => hi (Fin.ext h)
    by_cases h1 : i.val ≤ j.val
    · rw [if_pos h1, if_pos (by omega)]
    · rw [if_neg h1, if_neg (by omega)]
omit [FloatOps F] in
/-- Before any trip no window has landed. -/
theorem fam_zero (A B : Fin k0_t1_loop.trips → sProp 𝕄) (k : Fin k0_t1_loop.trips) (hk : k.val = 0) :
    (bigSep Finset.univ fun i : Fin k0_t1_loop.trips => if i = k then iprop(emp) else B i)
      = bigSep Finset.univ fun i : Fin k0_t1_loop.trips => if i = k then iprop(emp) else if i.val ≤ k.val then A i else B i := by
  refine bigSep_congr fun i _ => ?_
  by_cases hi : i = k
  · rw [if_pos hi, if_pos hi]
  · rw [if_neg hi, if_neg hi]
    have : i.val ≠ k.val := fun h => hi (Fin.ext h)
    rw [if_neg (by omega)]

omit [FloatOps F] in
theorem wins_fill' (Φ : Fin k0_t1_loop.trips → sProp 𝕄) (j : Fin k0_t1_loop.trips) (X : sProp 𝕄) (hX : Φ j = X) :
    iprop((bigSep Finset.univ fun i => if i = j then iprop(emp) else Φ i) ∗ X) ⊢ bigSep Finset.univ Φ := by
  subst hX; exact wins_fill Φ j
omit [FloatOps F] in
theorem wins_take' (Φ : Fin k0_t1_loop.trips → sProp 𝕄) (k : Fin k0_t1_loop.trips) (X : sProp 𝕄) (hX : Φ k = X) :
    bigSep Finset.univ Φ ⊢ iprop(X ∗ bigSep Finset.univ fun i => if i = k then iprop(emp) else Φ i) := by
  subst hX; exact wins_take Φ k

omit [FloatOps F] in
/-- A buffer's contents forgotten to a name. -/
theorem pts_ex {ℓ : Loc nD τ sig} {S : Finset (Idx ℓ)} {q : PosShare TreeShare} (f : Buf (Elt F) ℓ) :
    (ℓ ↦[S]{q} f : sProp 𝕄) ⊢ iprop(∃ x, ℓ ↦[S]{q} x) := by
  iintro H; iexists f; iexact H

variable (O : CellTallies nD τ sig (HIx 1)) (W : Waits sig (HIx 1))

/-- Before trip 0: both fetches of the first two chunks in flight (issued before the loop) over the scratches' contents
    then, no out copy yet: both out semaphores at zero, both out scratches and all 32 windows of the result in hand. -/
def pairInv0 (Tbl : sProp 𝕄) : sProp 𝕄 :=
  iprop(Transfers.MayWaits (thr d L) (none : HIx 1) O
    ∗ (∃ W', ⌜∀ p ∈ W', p ∈ W ∨ p.2 = none⌝ ∗ owes (thr d L) O W')
    ∗ Tbl
    ∗ ((eaW).view.loc (thr d L) ↦[((Finset.univ \ ((eaW).slice (Rect.unit (s := S2400000) (k0_off1 L 0#32) S768.size (k0_off1_inb L 0)) (fun _ => rfl)).view.set) \ ((eaW).slice (Rect.unit (s := S2400000) (k0_off1 L 800000#32) S768.size (k0_off1_inb L 1)) (fun _ => rfl)).view.set) \ ((eaW).slice (Rect.unit (s := S2400000) (k0_off1 L 1600000#32) S768.size (k0_off1_inb L 2)) (fun _ => rfl)).view.set]{Transfers.shareTokN (tok (wL L)) 2} eaC m d)
    ∗ ((eaW).view.loc (thr d L) ↦[((Finset.univ \ ((eaW).slice (Rect.unit (s := S2400000) (k0_off2 L 0#32) S768.size (k0_off2_inb L 0)) (fun _ => rfl)).view.set) \ ((eaW).slice (Rect.unit (s := S2400000) (k0_off2 L 800000#32) S768.size (k0_off2_inb L 1)) (fun _ => rfl)).view.set) \ ((eaW).slice (Rect.unit (s := S2400000) (k0_off2 L 1600000#32) S768.size (k0_off2_inb L 2)) (fun _ => rfl)).view.set]{Transfers.shareTokN (tok (wL L)) 3} eaC m d)
    ∗ (∃ ga gb gc, Transfers.Batch (EC (F := F)) (thr d L) (.dma cc0_scratch11.sem) (none : HIx 1) NE0 (delivEV m d L (Transfers.shareTokN (tok (wL L)) 2) t5a t5b t5c ga gb gc (k0_off1 L 0#32) (k0_off1_inb L 0) (k0_off1 L 800000#32) (k0_off1_inb L 1) (k0_off1 L 1600000#32) (k0_off1_inb L 2)) 3 0)
    ∗ (∃ ga gb gc, Transfers.Batch (EC (F := F)) (thr d L) (.dma cc0_scratch12.sem) (none : HIx 1) NE1 (delivEV m d L (Transfers.shareTokN (tok (wL L)) 3) t6a t6b t6c ga gb gc (k0_off2 L 0#32) (k0_off2_inb L 0) (k0_off2 L 800000#32) (k0_off2_inb L 1) (k0_off2 L 1600000#32) (k0_off2_inb L 2)) 3 0)
    ∗ semVal (thr d L, SemLoc.dma cc0_scratch9.sem) 0 ∗ (∃ f, (b7W).view.loc (thr d L) ↦{fullShare} f)
    ∗ semVal (thr d L, SemLoc.dma cc0_scratch10.sem) 0 ∗ (∃ f, (b8W).view.loc (thr d L) ↦{fullShare} f)
    ∗ (bigSep Finset.univ fun i : Fin k0_t1_loop.trips => winAt d L (o70 L i))
    ∗ (bigSep Finset.univ fun i : Fin k0_t1_loop.trips => winAt d L (o139 L i)))

/-- After trip `j`: the two fetches it issued and its two out copies in flight; every window of the result but those
    two in hand, those of the trips before `j` holding what `Pw0` / `Pw1` say. -/
def pairInvS (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (j : Fin k0_t1_loop.trips) : sProp 𝕄 :=
  iprop(Transfers.MayWaits (thr d L) (none : HIx 1) O
    ∗ (∃ W', ⌜∀ p ∈ W', p ∈ W ∨ p.2 = none⌝ ∗ owes (thr d L) O W')
    ∗ Tbl
    ∗ ((eaW).view.loc (thr d L) ↦[((Finset.univ \ ((eaW).slice (Rect.unit (s := S2400000) (k0_off71 L j 0#32) S768.size (k0_off71_inb L j 0)) (fun _ => rfl)).view.set) \ ((eaW).slice (Rect.unit (s := S2400000) (k0_off71 L j 800000#32) S768.size (k0_off71_inb L j 1)) (fun _ => rfl)).view.set) \ ((eaW).slice (Rect.unit (s := S2400000) (k0_off71 L j 1600000#32) S768.size (k0_off71_inb L j 2)) (fun _ => rfl)).view.set]{Transfers.shareTokN (tok (wL L)) 2} eaC m d)
    ∗ ((eaW).view.loc (thr d L) ↦[((Finset.univ \ ((eaW).slice (Rect.unit (s := S2400000) (k0_off140 L j 0#32) S768.size (k0_off140_inb L j 0)) (fun _ => rfl)).view.set) \ ((eaW).slice (Rect.unit (s := S2400000) (k0_off140 L j 800000#32) S768.size (k0_off140_inb L j 1)) (fun _ => rfl)).view.set) \ ((eaW).slice (Rect.unit (s := S2400000) (k0_off140 L j 1600000#32) S768.size (k0_off140_inb L j 2)) (fun _ => rfl)).view.set]{Transfers.shareTokN (tok (wL L)) 3} eaC m d)
    ∗ (∃ ga gb gc, Transfers.Batch (EC (F := F)) (thr d L) (.dma cc0_scratch11.sem) (none : HIx 1) NE0 (delivEV m d L (Transfers.shareTokN (tok (wL L)) 2) t5a t5b t5c ga gb gc (k0_off71 L j 0#32) (k0_off71_inb L j 0) (k0_off71 L j 800000#32) (k0_off71_inb L j 1) (k0_off71 L j 1600000#32) (k0_off71_inb L j 2)) 3 0)
    ∗ (∃ ga gb gc, Transfers.Batch (EC (F := F)) (thr d L) (.dma cc0_scratch12.sem) (none : HIx 1) NE1 (delivEV m d L (Transfers.shareTokN (tok (wL L)) 3) t6a t6b t6c ga gb gc (k0_off140 L j 0#32) (k0_off140_inb L j 0) (k0_off140 L j 800000#32) (k0_off140_inb L j 1) (k0_off140 L j 1600000#32) (k0_off140_inb L j 2)) 3 0)
    ∗ (∃ f7, Transfers.Flight (EC (F := F)) (thr d L) (.dma cc0_scratch9.sem) (none : HIx 1) 1572864 iprop((∃ g, ⌜Pw0 j g⌝ ∗ (o70 L j).view.loc (thr d L) ↦[(o70 L j).view.set]{fullShare} g) ∗ ((b7W).view.loc (thr d L) ↦[(b7W).view.set]{fullShare} f7)))
    ∗ (∃ f8, Transfers.Flight (EC (F := F)) (thr d L) (.dma cc0_scratch10.sem) (none : HIx 1) 1572864 iprop((∃ g, ⌜Pw1 j g⌝ ∗ (o139 L j).view.loc (thr d L) ↦[(o139 L j).view.set]{fullShare} g) ∗ ((b8W).view.loc (thr d L) ↦[(b8W).view.set]{fullShare} f8)))
    ∗ (bigSep Finset.univ fun i : Fin k0_t1_loop.trips => if i = j then iprop(emp) else if i.val ≤ (j).val then winAtV d L (o70 L i) (Pw0 i) else winAt d L (o70 L i))
    ∗ (bigSep Finset.univ fun i : Fin k0_t1_loop.trips => if i = j then iprop(emp) else if i.val ≤ (j).val then winAtV d L (o139 L i) (Pw1 i) else winAt d L (o139 L i)))

set_option sl_exec.rejoinHeartbeats 400000 in
set_option maxHeartbeats 0 in
theorem tripS [∀ e, Nonempty (Elt F e)] (v3138 v3140 v3158 : BitVec 32) (j : Fin k0_t1_loop.trips) (hj : j.val + 1 < k0_t1_loop.trips) (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (I0 : Fin k0_t1_loop.trips → Buf (Elt F) ((t5a).view.loc (thr d L)) → Buf (Elt F) ((t5b).view.loc (thr d L)) → Buf (Elt F) ((t5c).view.loc (thr d L)) → ℕ → Unit → sProp 𝕄)
    (R0 : Fin k0_t1_loop.trips → Buf (Elt F) ((t5a).view.loc (thr d L)) → Buf (Elt F) ((t5b).view.loc (thr d L)) → Buf (Elt F) ((t5c).view.loc (thr d L)) → Buf (Elt F) ((b7W).view.loc (thr d L)) → Prop)
    (hreg0 : ∀ (t : Fin k0_t1_loop.trips) fa fb fc (k2 : Fin k0_t2_loop.trips) (acc : Unit), I0 t fa fb fc k2.val acc
      ⊢ wp frame (wpE (defs₀ (F := F)) 𝒱₀ (thr d L) none) Set.univ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I0 t fa fb fc (k2.val + 1)))
    (hent0 : ∀ (t : Fin k0_t1_loop.trips) ga gb gc oa ha ob hb oc hc f7,
      iprop(Tbl ∗ ((t5a).view.loc (thr d L) ↦[(t5a).view.set]{fullShare} landedE m d L t5a ga oa ha)
        ∗ ((t5b).view.loc (thr d L) ↦[(t5b).view.set]{fullShare} landedE m d L t5b gb ob hb)
        ∗ ((t5c).view.loc (thr d L) ↦[(t5c).view.set]{fullShare} landedE m d L t5c gc oc hc)
        ∗ ((b7W).view.loc (thr d L) ↦{fullShare} f7))
      ⊢ I0 t (landedE m d L t5a ga oa ha) (landedE m d L t5b gb ob hb) (landedE m d L t5c gc oc hc) 0 ())
    (hext0 : ∀ (t : Fin k0_t1_loop.trips) fa fb fc (acc : Unit), I0 t fa fb fc (Scf.trips k0_t2_loop.lb k0_t2_loop.ub k0_t2_loop.st) acc
      ⊢ iprop(Tbl ∗ ((t5a).view.loc (thr d L) ↦[(t5a).view.set]{fullShare} fa)
        ∗ ((t5b).view.loc (thr d L) ↦[(t5b).view.set]{fullShare} fb) ∗ ((t5c).view.loc (thr d L) ↦[(t5c).view.set]{fullShare} fc)
        ∗ (∃ f, ⌜R0 t fa fb fc f⌝ ∗ (b7W).view.loc (thr d L) ↦{fullShare} f)))
    (hland0z : ∀ (h0 : 0 < k0_t1_loop.trips) ga gb gc f gk, R0 ⟨0, h0⟩ (landedE m d L t5a ga (k0_off1 L 0#32) (k0_off1_inb L 0)) (landedE m d L t5b gb (k0_off1 L 800000#32) (k0_off1_inb L 1)) (landedE m d L t5c gc (k0_off1 L 1600000#32) (k0_off1_inb L 2)) f
      → Pw0 ⟨0, h0⟩ (landedO d L b7W (o70 L ⟨0, h0⟩) gk f))
    (hland0s : ∀ (j : Fin k0_t1_loop.trips) (hj : j.val + 1 < k0_t1_loop.trips) ga gb gc f gk, R0 ⟨j.val + 1, hj⟩ (landedE m d L t5a ga (k0_off71 L j 0#32) (k0_off71_inb L j 0)) (landedE m d L t5b gb (k0_off71 L j 800000#32) (k0_off71_inb L j 1)) (landedE m d L t5c gc (k0_off71 L j 1600000#32) (k0_off71_inb L j 2)) f
      → Pw0 ⟨j.val + 1, hj⟩ (landedO d L b7W (o70 L ⟨j.val + 1, hj⟩) gk f))
    (I1 : Fin k0_t1_loop.trips → Buf (Elt F) ((t6a).view.loc (thr d L)) → Buf (Elt F) ((t6b).view.loc (thr d L)) → Buf (Elt F) ((t6c).view.loc (thr d L)) → ℕ → Unit → sProp 𝕄)
    (R1 : Fin k0_t1_loop.trips → Buf (Elt F) ((t6a).view.loc (thr d L)) → Buf (Elt F) ((t6b).view.loc (thr d L)) → Buf (Elt F) ((t6c).view.loc (thr d L)) → Buf (Elt F) ((b8W).view.loc (thr d L)) → Prop)
    (hreg1 : ∀ (t : Fin k0_t1_loop.trips) fa fb fc (k2 : Fin k0_t3_loop.trips) (acc : Unit), I1 t fa fb fc k2.val acc
      ⊢ wp frame (wpE (defs₀ (F := F)) 𝒱₀ (thr d L) none) Set.univ (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I1 t fa fb fc (k2.val + 1)))
    (hent1 : ∀ (t : Fin k0_t1_loop.trips) ga gb gc oa ha ob hb oc hc f8,
      iprop(Tbl ∗ ((t6a).view.loc (thr d L) ↦[(t6a).view.set]{fullShare} landedE m d L t6a ga oa ha)
        ∗ ((t6b).view.loc (thr d L) ↦[(t6b).view.set]{fullShare} landedE m d L t6b gb ob hb)
        ∗ ((t6c).view.loc (thr d L) ↦[(t6c).view.set]{fullShare} landedE m d L t6c gc oc hc)
        ∗ ((b8W).view.loc (thr d L) ↦{fullShare} f8))
      ⊢ I1 t (landedE m d L t6a ga oa ha) (landedE m d L t6b gb ob hb) (landedE m d L t6c gc oc hc) 0 ())
    (hext1 : ∀ (t : Fin k0_t1_loop.trips) fa fb fc (acc : Unit), I1 t fa fb fc (Scf.trips k0_t3_loop.lb k0_t3_loop.ub k0_t3_loop.st) acc
      ⊢ iprop(Tbl ∗ ((t6a).view.loc (thr d L) ↦[(t6a).view.set]{fullShare} fa)
        ∗ ((t6b).view.loc (thr d L) ↦[(t6b).view.set]{fullShare} fb) ∗ ((t6c).view.loc (thr d L) ↦[(t6c).view.set]{fullShare} fc)
        ∗ (∃ f, ⌜R1 t fa fb fc f⌝ ∗ (b8W).view.loc (thr d L) ↦{fullShare} f)))
    (hland1z : ∀ (h0 : 0 < k0_t1_loop.trips) ga gb gc f gk, R1 ⟨0, h0⟩ (landedE m d L t6a ga (k0_off2 L 0#32) (k0_off2_inb L 0)) (landedE m d L t6b gb (k0_off2 L 800000#32) (k0_off2_inb L 1)) (landedE m d L t6c gc (k0_off2 L 1600000#32) (k0_off2_inb L 2)) f
      → Pw1 ⟨0, h0⟩ (landedO d L b8W (o139 L ⟨0, h0⟩) gk f))
    (hland1s : ∀ (j : Fin k0_t1_loop.trips) (hj : j.val + 1 < k0_t1_loop.trips) ga gb gc f gk, R1 ⟨j.val + 1, hj⟩ (landedE m d L t6a ga (k0_off140 L j 0#32) (k0_off140_inb L j 0)) (landedE m d L t6b gb (k0_off140 L j 800000#32) (k0_off140_inb L j 1)) (landedE m d L t6c gc (k0_off140 L j 1600000#32) (k0_off140_inb L j 2)) f
      → Pw1 ⟨j.val + 1, hj⟩ (landedO d L b8W (o139 L ⟨j.val + 1, hj⟩) gk f))
    :
    pairInvS m d L O W Tbl Pw0 Pw1 j
      ⊢ wp frame (wpE (defs₀ (F := F)) 𝒱₀ (thr d L) none) Set.univ
          (k0_t1_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 v3158 ⟨j.val + 1, hj⟩ ()) (fun _ => pairInvS m d L O W Tbl Pw0 Pw1 ⟨j.val + 1, hj⟩) := by
  have hc1 : k0_cond1 ⟨j.val + 1, hj⟩ = 1#1 := by revert j; decide
  have hc2 : k0_cond2 ⟨j.val + 1, hj⟩ = 1#1 := by revert j; decide
  unfold k0_t1_body
  simp only [k0_part33_eq_skeleton]; unfold k0_part33_skel
  simp only [k0_part31_eq_skeleton, k0_part32_eq_skeleton]; unfold k0_part31_skel k0_part32_skel
  delta pairInvS
  iintro ⟨#Hmw, ⟨%W', %hW', HO⟩, HT, Hea2, Hea3, ⟨%ga0, %gb0, %gc0, HB0⟩, ⟨%ga1, %gb1, %gc1, HB1⟩, ⟨%f7, HF0⟩, ⟨%f8, HF1⟩, Hw0, Hw1⟩
  sl_exec

  ihave Hw0 := (wins_fill' (F := F) (fun i : Fin k0_t1_loop.trips => if i.val ≤ (j).val then winAtV d L (o70 L i) (Pw0 i) else winAt d L (o70 L i)) j (winAtV d L (o70 L j) (Pw0 j)) (if_pos (le_refl _))) $$ [Hw0 HF0_dst]
  · isplitl [Hw0]; · iexact Hw0
    iexact HF0_dst
  ihave Hw0 := (wins_take' (F := F) (fun i : Fin k0_t1_loop.trips => if i.val ≤ (j).val then winAtV d L (o70 L i) (Pw0 i) else winAt d L (o70 L i)) ⟨j.val + 1, hj⟩ (winAt d L (o70 L ⟨j.val + 1, hj⟩)) (if_neg (show ¬ (⟨j.val + 1, hj⟩ : Fin k0_t1_loop.trips).val ≤ j.val from Nat.not_succ_le_self _))) $$ Hw0
  icases Hw0 with ⟨⟨%gk0, Hwk0⟩, Hw0⟩
  ihave HF0_src := (Entails.of_eq (b7_own (F := F) d L f7)) $$ HF0_src
  rw [bind_assoc]
  sl_for (I0 ⟨j.val + 1, hj⟩ (landedE m d L t5a ga0 (k0_off71 L j 0#32) (k0_off71_inb L j 0)) (landedE m d L t5b gb0 (k0_off71 L j 800000#32) (k0_off71_inb L j 1)) (landedE m d L t5c gc0 (k0_off71 L j 1600000#32) (k0_off71_inb L j 2))) $$ [HT HB0_dst0 HB0_dst1 HB0_dst2 HF0_src]
  case region => exact hreg0 _ _ _ _
  · iapply (hent0 ⟨j.val + 1, hj⟩ ga0 gb0 gc0 _ _ _ _ _ _ _)
    isplitl [HT]; · iexact HT
    isplitl [HB0_dst0]; · iexact HB0_dst0
    isplitl [HB0_dst1]; · iexact HB0_dst1
    isplitl [HB0_dst2]; · iexact HB0_dst2
    iexact HF0_src
  iintro %acc0 HI
  ihave HI := (hext0 ⟨j.val + 1, hj⟩ _ _ _ acc0) $$ HI
  icases HI with ⟨HT, HE0a, HE0b, HE0c, ⟨%fb0, %hR0, Hb7⟩⟩
  ihave HE0a := (pts_ex (F := F) _) $$ HE0a
  ihave HE0b := (pts_ex (F := F) _) $$ HE0b
  ihave HE0c := (pts_ex (F := F) _) $$ HE0c
  icases HE0a with ⟨%xa0, HE0a⟩
  icases HE0b with ⟨%xb0, HE0b⟩
  icases HE0c with ⟨%xc0, HE0c⟩
  imod (Transfers.batch_alloc' (EC (F := F)) (thr d L) (none : HIx 1) NE0 (delivEV m d L (Transfers.shareTokN (tok (wL L)) 2) t5a t5b t5c xa0 xb0 xc0 (k0_off71 L ⟨j.val + 1, hj⟩ 0#32) (k0_off71_inb L ⟨j.val + 1, hj⟩ 0) (k0_off71 L ⟨j.val + 1, hj⟩ 800000#32) (k0_off71_inb L ⟨j.val + 1, hj⟩ 1) (k0_off71 L ⟨j.val + 1, hj⟩ 1600000#32) (k0_off71_inb L ⟨j.val + 1, hj⟩ 2)) (sm := _) (E := Set.univ)) $$ HB0 with HB0

  ihave Hea2 := (Entails.of_eq (ea_respell (F := F) d L (Transfers.shareTokN (tok (wL L)) 2) _ _ (eaC m d))) $$ Hea2
  sl_exec

  ihave Hw1 := (wins_fill' (F := F) (fun i : Fin k0_t1_loop.trips => if i.val ≤ (j).val then winAtV d L (o139 L i) (Pw1 i) else winAt d L (o139 L i)) j (winAtV d L (o139 L j) (Pw1 j)) (if_pos (le_refl _))) $$ [Hw1 HF1_dst]
  · isplitl [Hw1]; · iexact Hw1
    iexact HF1_dst
  ihave Hw1 := (wins_take' (F := F) (fun i : Fin k0_t1_loop.trips => if i.val ≤ (j).val then winAtV d L (o139 L i) (Pw1 i) else winAt d L (o139 L i)) ⟨j.val + 1, hj⟩ (winAt d L (o139 L ⟨j.val + 1, hj⟩)) (if_neg (show ¬ (⟨j.val + 1, hj⟩ : Fin k0_t1_loop.trips).val ≤ j.val from Nat.not_succ_le_self _))) $$ Hw1
  icases Hw1 with ⟨⟨%gk1, Hwk1⟩, Hw1⟩
  ihave HF1_src := (Entails.of_eq (b8_own (F := F) d L f8)) $$ HF1_src
  rw [bind_assoc]
  sl_for (I1 ⟨j.val + 1, hj⟩ (landedE m d L t6a ga1 (k0_off140 L j 0#32) (k0_off140_inb L j 0)) (landedE m d L t6b gb1 (k0_off140 L j 800000#32) (k0_off140_inb L j 1)) (landedE m d L t6c gc1 (k0_off140 L j 1600000#32) (k0_off140_inb L j 2))) $$ [HT HB1_dst0 HB1_dst1 HB1_dst2 HF1_src]
  case region => exact hreg1 _ _ _ _
  · iapply (hent1 ⟨j.val + 1, hj⟩ ga1 gb1 gc1 _ _ _ _ _ _ _)
    isplitl [HT]; · iexact HT
    isplitl [HB1_dst0]; · iexact HB1_dst0
    isplitl [HB1_dst1]; · iexact HB1_dst1
    isplitl [HB1_dst2]; · iexact HB1_dst2
    iexact HF1_src
  iintro %acc1 HI
  ihave HI := (hext1 ⟨j.val + 1, hj⟩ _ _ _ acc1) $$ HI
  icases HI with ⟨HT, HE1a, HE1b, HE1c, ⟨%fb1, %hR1, Hb8⟩⟩
  ihave HE1a := (pts_ex (F := F) _) $$ HE1a
  ihave HE1b := (pts_ex (F := F) _) $$ HE1b
  ihave HE1c := (pts_ex (F := F) _) $$ HE1c
  icases HE1a with ⟨%xa1, HE1a⟩
  icases HE1b with ⟨%xb1, HE1b⟩
  icases HE1c with ⟨%xc1, HE1c⟩
  imod (Transfers.batch_alloc' (EC (F := F)) (thr d L) (none : HIx 1) NE1 (delivEV m d L (Transfers.shareTokN (tok (wL L)) 3) t6a t6b t6c xa1 xb1 xc1 (k0_off140 L ⟨j.val + 1, hj⟩ 0#32) (k0_off140_inb L ⟨j.val + 1, hj⟩ 0) (k0_off140 L ⟨j.val + 1, hj⟩ 800000#32) (k0_off140_inb L ⟨j.val + 1, hj⟩ 1) (k0_off140 L ⟨j.val + 1, hj⟩ 1600000#32) (k0_off140_inb L ⟨j.val + 1, hj⟩ 2)) (sm := _) (E := Set.univ)) $$ HB1 with HB1

  ihave Hea3 := (Entails.of_eq (ea_respell (F := F) d L (Transfers.shareTokN (tok (wL L)) 3) _ _ (eaC m d))) $$ Hea3
  sl_exec
  sl_step
  try delta pairInvS
  isplitr; · iexact Hmw
  isplitl [HO]
  · iexists _
    isplitr
    rotate_left
    · iexact HO
    · ipureintro; exact (waits_insert (waits_insert (waits_insert (waits_insert (waits_insert (waits_insert (waits_insert (waits_insert hW' _) _) _) _) _) _) _) _)
  isplitl [HT]; · iexact HT
  isplitl [Hea2]; · iexact Hea2
  isplitl [Hea3]; · iexact Hea3
  isplitl [HB0]; · iexists xa0, xb0, xc0; iexact HB0
  isplitl [HB1]; · iexists xa1, xb1, xc1; iexact HB1
  isplitl [HF0]
  · iexists fb0
    iapply (Transfers.Flight_mono (EC (F := F)) (thr d L) (weakenOV (F := F) d L b7W (o70 L ⟨j.val + 1, hj⟩) (Pw0 ⟨j.val + 1, hj⟩) _ (hland0s j hj ga0 gb0 gc0 fb0 gk0 hR0) fb0)); iexact HF0
  isplitl [HF1]
  · iexists fb1
    iapply (Transfers.Flight_mono (EC (F := F)) (thr d L) (weakenOV (F := F) d L b8W (o139 L ⟨j.val + 1, hj⟩) (Pw1 ⟨j.val + 1, hj⟩) _ (hland1s j hj ga1 gb1 gc1 fb1 gk1 hR1) fb1)); iexact HF1
  isplitl [Hw0]; · rw [← fam_shift (F := F) (fun i => winAtV d L (o70 L i) (Pw0 i)) (fun i => winAt d L (o70 L i)) j ⟨j.val + 1, hj⟩ rfl]; iexact Hw0
  rw [← fam_shift (F := F) (fun i => winAtV d L (o139 L i) (Pw1 i)) (fun i => winAt d L (o139 L i)) j ⟨j.val + 1, hj⟩ rfl]; iexact Hw1

set_option sl_exec.rejoinHeartbeats 400000 in
set_option maxHeartbeats 0 in
theorem trip0 [∀ e, Nonempty (Elt F e)] (v3138 v3140 v3158 : BitVec 32) (h0 : 0 < k0_t1_loop.trips) (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (I0 : Fin k0_t1_loop.trips → Buf (Elt F) ((t5a).view.loc (thr d L)) → Buf (Elt F) ((t5b).view.loc (thr d L)) → Buf (Elt F) ((t5c).view.loc (thr d L)) → ℕ → Unit → sProp 𝕄)
    (R0 : Fin k0_t1_loop.trips → Buf (Elt F) ((t5a).view.loc (thr d L)) → Buf (Elt F) ((t5b).view.loc (thr d L)) → Buf (Elt F) ((t5c).view.loc (thr d L)) → Buf (Elt F) ((b7W).view.loc (thr d L)) → Prop)
    (hreg0 : ∀ (t : Fin k0_t1_loop.trips) fa fb fc (k2 : Fin k0_t2_loop.trips) (acc : Unit), I0 t fa fb fc k2.val acc
      ⊢ wp frame (wpE (defs₀ (F := F)) 𝒱₀ (thr d L) none) Set.univ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I0 t fa fb fc (k2.val + 1)))
    (hent0 : ∀ (t : Fin k0_t1_loop.trips) ga gb gc oa ha ob hb oc hc f7,
      iprop(Tbl ∗ ((t5a).view.loc (thr d L) ↦[(t5a).view.set]{fullShare} landedE m d L t5a ga oa ha)
        ∗ ((t5b).view.loc (thr d L) ↦[(t5b).view.set]{fullShare} landedE m d L t5b gb ob hb)
        ∗ ((t5c).view.loc (thr d L) ↦[(t5c).view.set]{fullShare} landedE m d L t5c gc oc hc)
        ∗ ((b7W).view.loc (thr d L) ↦{fullShare} f7))
      ⊢ I0 t (landedE m d L t5a ga oa ha) (landedE m d L t5b gb ob hb) (landedE m d L t5c gc oc hc) 0 ())
    (hext0 : ∀ (t : Fin k0_t1_loop.trips) fa fb fc (acc : Unit), I0 t fa fb fc (Scf.trips k0_t2_loop.lb k0_t2_loop.ub k0_t2_loop.st) acc
      ⊢ iprop(Tbl ∗ ((t5a).view.loc (thr d L) ↦[(t5a).view.set]{fullShare} fa)
        ∗ ((t5b).view.loc (thr d L) ↦[(t5b).view.set]{fullShare} fb) ∗ ((t5c).view.loc (thr d L) ↦[(t5c).view.set]{fullShare} fc)
        ∗ (∃ f, ⌜R0 t fa fb fc f⌝ ∗ (b7W).view.loc (thr d L) ↦{fullShare} f)))
    (hland0z : ∀ (h0 : 0 < k0_t1_loop.trips) ga gb gc f gk, R0 ⟨0, h0⟩ (landedE m d L t5a ga (k0_off1 L 0#32) (k0_off1_inb L 0)) (landedE m d L t5b gb (k0_off1 L 800000#32) (k0_off1_inb L 1)) (landedE m d L t5c gc (k0_off1 L 1600000#32) (k0_off1_inb L 2)) f
      → Pw0 ⟨0, h0⟩ (landedO d L b7W (o70 L ⟨0, h0⟩) gk f))
    (hland0s : ∀ (j : Fin k0_t1_loop.trips) (hj : j.val + 1 < k0_t1_loop.trips) ga gb gc f gk, R0 ⟨j.val + 1, hj⟩ (landedE m d L t5a ga (k0_off71 L j 0#32) (k0_off71_inb L j 0)) (landedE m d L t5b gb (k0_off71 L j 800000#32) (k0_off71_inb L j 1)) (landedE m d L t5c gc (k0_off71 L j 1600000#32) (k0_off71_inb L j 2)) f
      → Pw0 ⟨j.val + 1, hj⟩ (landedO d L b7W (o70 L ⟨j.val + 1, hj⟩) gk f))
    (I1 : Fin k0_t1_loop.trips → Buf (Elt F) ((t6a).view.loc (thr d L)) → Buf (Elt F) ((t6b).view.loc (thr d L)) → Buf (Elt F) ((t6c).view.loc (thr d L)) → ℕ → Unit → sProp 𝕄)
    (R1 : Fin k0_t1_loop.trips → Buf (Elt F) ((t6a).view.loc (thr d L)) → Buf (Elt F) ((t6b).view.loc (thr d L)) → Buf (Elt F) ((t6c).view.loc (thr d L)) → Buf (Elt F) ((b8W).view.loc (thr d L)) → Prop)
    (hreg1 : ∀ (t : Fin k0_t1_loop.trips) fa fb fc (k2 : Fin k0_t3_loop.trips) (acc : Unit), I1 t fa fb fc k2.val acc
      ⊢ wp frame (wpE (defs₀ (F := F)) 𝒱₀ (thr d L) none) Set.univ (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I1 t fa fb fc (k2.val + 1)))
    (hent1 : ∀ (t : Fin k0_t1_loop.trips) ga gb gc oa ha ob hb oc hc f8,
      iprop(Tbl ∗ ((t6a).view.loc (thr d L) ↦[(t6a).view.set]{fullShare} landedE m d L t6a ga oa ha)
        ∗ ((t6b).view.loc (thr d L) ↦[(t6b).view.set]{fullShare} landedE m d L t6b gb ob hb)
        ∗ ((t6c).view.loc (thr d L) ↦[(t6c).view.set]{fullShare} landedE m d L t6c gc oc hc)
        ∗ ((b8W).view.loc (thr d L) ↦{fullShare} f8))
      ⊢ I1 t (landedE m d L t6a ga oa ha) (landedE m d L t6b gb ob hb) (landedE m d L t6c gc oc hc) 0 ())
    (hext1 : ∀ (t : Fin k0_t1_loop.trips) fa fb fc (acc : Unit), I1 t fa fb fc (Scf.trips k0_t3_loop.lb k0_t3_loop.ub k0_t3_loop.st) acc
      ⊢ iprop(Tbl ∗ ((t6a).view.loc (thr d L) ↦[(t6a).view.set]{fullShare} fa)
        ∗ ((t6b).view.loc (thr d L) ↦[(t6b).view.set]{fullShare} fb) ∗ ((t6c).view.loc (thr d L) ↦[(t6c).view.set]{fullShare} fc)
        ∗ (∃ f, ⌜R1 t fa fb fc f⌝ ∗ (b8W).view.loc (thr d L) ↦{fullShare} f)))
    (hland1z : ∀ (h0 : 0 < k0_t1_loop.trips) ga gb gc f gk, R1 ⟨0, h0⟩ (landedE m d L t6a ga (k0_off2 L 0#32) (k0_off2_inb L 0)) (landedE m d L t6b gb (k0_off2 L 800000#32) (k0_off2_inb L 1)) (landedE m d L t6c gc (k0_off2 L 1600000#32) (k0_off2_inb L 2)) f
      → Pw1 ⟨0, h0⟩ (landedO d L b8W (o139 L ⟨0, h0⟩) gk f))
    (hland1s : ∀ (j : Fin k0_t1_loop.trips) (hj : j.val + 1 < k0_t1_loop.trips) ga gb gc f gk, R1 ⟨j.val + 1, hj⟩ (landedE m d L t6a ga (k0_off140 L j 0#32) (k0_off140_inb L j 0)) (landedE m d L t6b gb (k0_off140 L j 800000#32) (k0_off140_inb L j 1)) (landedE m d L t6c gc (k0_off140 L j 1600000#32) (k0_off140_inb L j 2)) f
      → Pw1 ⟨j.val + 1, hj⟩ (landedO d L b8W (o139 L ⟨j.val + 1, hj⟩) gk f))
    :
    pairInv0 m d L O W Tbl
      ⊢ wp frame (wpE (defs₀ (F := F)) 𝒱₀ (thr d L) none) Set.univ
          (k0_t1_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 v3158 ⟨0, h0⟩ ()) (fun _ => pairInvS m d L O W Tbl Pw0 Pw1 ⟨0, h0⟩) := by
  have hc1 : ¬ k0_cond1 ⟨0, h0⟩ = 1#1 := by decide +revert
  have hc2 : ¬ k0_cond2 ⟨0, h0⟩ = 1#1 := by decide +revert
  unfold k0_t1_body
  simp only [k0_part33_eq_skeleton]; unfold k0_part33_skel
  simp only [k0_part31_eq_skeleton, k0_part32_eq_skeleton]; unfold k0_part31_skel k0_part32_skel
  delta pairInv0
  iintro ⟨#Hmw, ⟨%W', %hW', HO⟩, HT, Hea2, Hea3, ⟨%ga0, %gb0, %gc0, HB0⟩, ⟨%ga1, %gb1, %gc1, HB1⟩, HF0, ⟨%f7, HF0_src⟩, HF1, ⟨%f8, HF1_src⟩, Hw0, Hw1⟩
  sl_exec

  ihave Hw0 := (wins_take (F := F) (fun i => winAt d L (o70 L i)) ⟨0, h0⟩) $$ Hw0
  icases Hw0 with ⟨⟨%gk0, Hwk0⟩, Hw0⟩
  rw [bind_assoc]
  sl_for (I0 ⟨0, h0⟩ (landedE m d L t5a ga0 (k0_off1 L 0#32) (k0_off1_inb L 0)) (landedE m d L t5b gb0 (k0_off1 L 800000#32) (k0_off1_inb L 1)) (landedE m d L t5c gc0 (k0_off1 L 1600000#32) (k0_off1_inb L 2))) $$ [HT HB0_dst0 HB0_dst1 HB0_dst2 HF0_src]
  case region => exact hreg0 _ _ _ _
  · iapply (hent0 ⟨0, h0⟩ ga0 gb0 gc0 _ _ _ _ _ _ _)
    isplitl [HT]; · iexact HT
    isplitl [HB0_dst0]; · iexact HB0_dst0
    isplitl [HB0_dst1]; · iexact HB0_dst1
    isplitl [HB0_dst2]; · iexact HB0_dst2
    iexact HF0_src
  iintro %acc0 HI
  ihave HI := (hext0 ⟨0, h0⟩ _ _ _ acc0) $$ HI
  icases HI with ⟨HT, HE0a, HE0b, HE0c, ⟨%fb0, %hR0, Hb7⟩⟩
  ihave HE0a := (pts_ex (F := F) _) $$ HE0a
  ihave HE0b := (pts_ex (F := F) _) $$ HE0b
  ihave HE0c := (pts_ex (F := F) _) $$ HE0c
  icases HE0a with ⟨%xa0, HE0a⟩
  icases HE0b with ⟨%xb0, HE0b⟩
  icases HE0c with ⟨%xc0, HE0c⟩
  imod (Transfers.batch_alloc' (EC (F := F)) (thr d L) (none : HIx 1) NE0 (delivEV m d L (Transfers.shareTokN (tok (wL L)) 2) t5a t5b t5c xa0 xb0 xc0 (k0_off71 L ⟨0, h0⟩ 0#32) (k0_off71_inb L ⟨0, h0⟩ 0) (k0_off71 L ⟨0, h0⟩ 800000#32) (k0_off71_inb L ⟨0, h0⟩ 1) (k0_off71 L ⟨0, h0⟩ 1600000#32) (k0_off71_inb L ⟨0, h0⟩ 2)) (sm := _) (E := Set.univ)) $$ HB0 with HB0

  ihave Hea2 := (Entails.of_eq (ea_respell (F := F) d L (Transfers.shareTokN (tok (wL L)) 2) _ _ (eaC m d))) $$ Hea2
  sl_exec

  ihave Hw1 := (wins_take (F := F) (fun i => winAt d L (o139 L i)) ⟨0, h0⟩) $$ Hw1
  icases Hw1 with ⟨⟨%gk1, Hwk1⟩, Hw1⟩
  rw [bind_assoc]
  sl_for (I1 ⟨0, h0⟩ (landedE m d L t6a ga1 (k0_off2 L 0#32) (k0_off2_inb L 0)) (landedE m d L t6b gb1 (k0_off2 L 800000#32) (k0_off2_inb L 1)) (landedE m d L t6c gc1 (k0_off2 L 1600000#32) (k0_off2_inb L 2))) $$ [HT HB1_dst0 HB1_dst1 HB1_dst2 HF1_src]
  case region => exact hreg1 _ _ _ _
  · iapply (hent1 ⟨0, h0⟩ ga1 gb1 gc1 _ _ _ _ _ _ _)
    isplitl [HT]; · iexact HT
    isplitl [HB1_dst0]; · iexact HB1_dst0
    isplitl [HB1_dst1]; · iexact HB1_dst1
    isplitl [HB1_dst2]; · iexact HB1_dst2
    iexact HF1_src
  iintro %acc1 HI
  ihave HI := (hext1 ⟨0, h0⟩ _ _ _ acc1) $$ HI
  icases HI with ⟨HT, HE1a, HE1b, HE1c, ⟨%fb1, %hR1, Hb8⟩⟩
  ihave HE1a := (pts_ex (F := F) _) $$ HE1a
  ihave HE1b := (pts_ex (F := F) _) $$ HE1b
  ihave HE1c := (pts_ex (F := F) _) $$ HE1c
  icases HE1a with ⟨%xa1, HE1a⟩
  icases HE1b with ⟨%xb1, HE1b⟩
  icases HE1c with ⟨%xc1, HE1c⟩
  imod (Transfers.batch_alloc' (EC (F := F)) (thr d L) (none : HIx 1) NE1 (delivEV m d L (Transfers.shareTokN (tok (wL L)) 3) t6a t6b t6c xa1 xb1 xc1 (k0_off140 L ⟨0, h0⟩ 0#32) (k0_off140_inb L ⟨0, h0⟩ 0) (k0_off140 L ⟨0, h0⟩ 800000#32) (k0_off140_inb L ⟨0, h0⟩ 1) (k0_off140 L ⟨0, h0⟩ 1600000#32) (k0_off140_inb L ⟨0, h0⟩ 2)) (sm := _) (E := Set.univ)) $$ HB1 with HB1

  ihave Hea3 := (Entails.of_eq (ea_respell (F := F) d L (Transfers.shareTokN (tok (wL L)) 3) _ _ (eaC m d))) $$ Hea3
  sl_exec
  sl_step
  try delta pairInvS
  isplitr; · iexact Hmw
  isplitl [HO]
  · iexists _
    isplitr
    rotate_left
    · iexact HO
    · ipureintro; exact (waits_insert (waits_insert (waits_insert (waits_insert (waits_insert (waits_insert hW' _) _) _) _) _) _)
  isplitl [HT]; · iexact HT
  isplitl [Hea2]; · iexact Hea2
  isplitl [Hea3]; · iexact Hea3
  isplitl [HB0]; · iexists xa0, xb0, xc0; iexact HB0
  isplitl [HB1]; · iexists xa1, xb1, xc1; iexact HB1
  isplitl [HF0]
  · iexists fb0
    iapply (Transfers.Flight_mono (EC (F := F)) (thr d L) (weakenOV (F := F) d L b7W (o70 L ⟨0, h0⟩) (Pw0 ⟨0, h0⟩) _ (hland0z h0 ga0 gb0 gc0 fb0 gk0 hR0) fb0)); iexact HF0
  isplitl [HF1]
  · iexists fb1
    iapply (Transfers.Flight_mono (EC (F := F)) (thr d L) (weakenOV (F := F) d L b8W (o139 L ⟨0, h0⟩) (Pw1 ⟨0, h0⟩) _ (hland1z h0 ga1 gb1 gc1 fb1 gk1 hR1) fb1)); iexact HF1
  isplitl [Hw0]; · rw [← fam_zero (F := F) (fun i => winAtV d L (o70 L i) (Pw0 i)) (fun i => winAt d L (o70 L i)) ⟨0, h0⟩ rfl]; iexact Hw0
  rw [← fam_zero (F := F) (fun i => winAtV d L (o139 L i) (Pw1 i)) (fun i => winAt d L (o139 L i)) ⟨0, h0⟩ rfl]; iexact Hw1

/-- The outer loop's invariant: before trip 0 as the loop is entered, before trip j + 1 as trip j left things. -/
def pairInv (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (k : ℕ) (_ : Unit) : sProp 𝕄 :=
  if k = 0 then pairInv0 m d L O W Tbl
  else if h : k - 1 < k0_t1_loop.trips then pairInvS m d L O W Tbl Pw0 Pw1 ⟨k - 1, h⟩ else iprop(emp)

theorem pairInv_zero (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (acc : Unit) : pairInv m d L O W Tbl Pw0 Pw1 0 acc = pairInv0 m d L O W Tbl := if_pos rfl
theorem pairInv_succ (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (j : Fin k0_t1_loop.trips) :
    pairInv m d L O W Tbl Pw0 Pw1 (j.val + 1) = fun _ => pairInvS m d L O W Tbl Pw0 Pw1 j := by
  funext _
  unfold pairInv
  rw [if_neg (Nat.succ_ne_zero _), dif_pos (show j.val + 1 - 1 < k0_t1_loop.trips from by rw [Nat.add_sub_cancel]; exact j.isLt)]
  congr 1

set_option maxHeartbeats 0 in
/-- The region of the outer loop: a trip takes the invariant at its number to the invariant at the next. The two
    inner loops enter as abstract invariants `I0`, `I1` over the attribute scratch's three thirds' contents, with their
    own region facts (`hreg`), what they are entered from (`hent`: the thirds as the fetches landed them) and what
    they leave (`hext`: the out scratch at contents related to the thirds' by `R0`, `R1`); `hland…` turn that relation
    into what the window of the result holds once the out copy has landed (`Pw0`, `Pw1`). -/
theorem pair_region [∀ e, Nonempty (Elt F e)] (v3138 v3140 v3158 : BitVec 32) (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (I0 : Fin k0_t1_loop.trips → Buf (Elt F) ((t5a).view.loc (thr d L)) → Buf (Elt F) ((t5b).view.loc (thr d L)) → Buf (Elt F) ((t5c).view.loc (thr d L)) → ℕ → Unit → sProp 𝕄)
    (R0 : Fin k0_t1_loop.trips → Buf (Elt F) ((t5a).view.loc (thr d L)) → Buf (Elt F) ((t5b).view.loc (thr d L)) → Buf (Elt F) ((t5c).view.loc (thr d L)) → Buf (Elt F) ((b7W).view.loc (thr d L)) → Prop)
    (hreg0 : ∀ (t : Fin k0_t1_loop.trips) fa fb fc (k2 : Fin k0_t2_loop.trips) (acc : Unit), I0 t fa fb fc k2.val acc
      ⊢ wp frame (wpE (defs₀ (F := F)) 𝒱₀ (thr d L) none) Set.univ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I0 t fa fb fc (k2.val + 1)))
    (hent0 : ∀ (t : Fin k0_t1_loop.trips) ga gb gc oa ha ob hb oc hc f7,
      iprop(Tbl ∗ ((t5a).view.loc (thr d L) ↦[(t5a).view.set]{fullShare} landedE m d L t5a ga oa ha)
        ∗ ((t5b).view.loc (thr d L) ↦[(t5b).view.set]{fullShare} landedE m d L t5b gb ob hb)
        ∗ ((t5c).view.loc (thr d L) ↦[(t5c).view.set]{fullShare} landedE m d L t5c gc oc hc)
        ∗ ((b7W).view.loc (thr d L) ↦{fullShare} f7))
      ⊢ I0 t (landedE m d L t5a ga oa ha) (landedE m d L t5b gb ob hb) (landedE m d L t5c gc oc hc) 0 ())
    (hext0 : ∀ (t : Fin k0_t1_loop.trips) fa fb fc (acc : Unit), I0 t fa fb fc (Scf.trips k0_t2_loop.lb k0_t2_loop.ub k0_t2_loop.st) acc
      ⊢ iprop(Tbl ∗ ((t5a).view.loc (thr d L) ↦[(t5a).view.set]{fullShare} fa)
        ∗ ((t5b).view.loc (thr d L) ↦[(t5b).view.set]{fullShare} fb) ∗ ((t5c).view.loc (thr d L) ↦[(t5c).view.set]{fullShare} fc)
        ∗ (∃ f, ⌜R0 t fa fb fc f⌝ ∗ (b7W).view.loc (thr d L) ↦{fullShare} f)))
    (hland0z : ∀ (h0 : 0 < k0_t1_loop.trips) ga gb gc f gk, R0 ⟨0, h0⟩ (landedE m d L t5a ga (k0_off1 L 0#32) (k0_off1_inb L 0)) (landedE m d L t5b gb (k0_off1 L 800000#32) (k0_off1_inb L 1)) (landedE m d L t5c gc (k0_off1 L 1600000#32) (k0_off1_inb L 2)) f
      → Pw0 ⟨0, h0⟩ (landedO d L b7W (o70 L ⟨0, h0⟩) gk f))
    (hland0s : ∀ (j : Fin k0_t1_loop.trips) (hj : j.val + 1 < k0_t1_loop.trips) ga gb gc f gk, R0 ⟨j.val + 1, hj⟩ (landedE m d L t5a ga (k0_off71 L j 0#32) (k0_off71_inb L j 0)) (landedE m d L t5b gb (k0_off71 L j 800000#32) (k0_off71_inb L j 1)) (landedE m d L t5c gc (k0_off71 L j 1600000#32) (k0_off71_inb L j 2)) f
      → Pw0 ⟨j.val + 1, hj⟩ (landedO d L b7W (o70 L ⟨j.val + 1, hj⟩) gk f))
    (I1 : Fin k0_t1_loop.trips → Buf (Elt F) ((t6a).view.loc (thr d L)) → Buf (Elt F) ((t6b).view.loc (thr d L)) → Buf (Elt F) ((t6c).view.loc (thr d L)) → ℕ → Unit → sProp 𝕄)
    (R1 : Fin k0_t1_loop.trips → Buf (Elt F) ((t6a).view.loc (thr d L)) → Buf (Elt F) ((t6b).view.loc (thr d L)) → Buf (Elt F) ((t6c).view.loc (thr d L)) → Buf (Elt F) ((b8W).view.loc (thr d L)) → Prop)
    (hreg1 : ∀ (t : Fin k0_t1_loop.trips) fa fb fc (k2 : Fin k0_t3_loop.trips) (acc : Unit), I1 t fa fb fc k2.val acc
      ⊢ wp frame (wpE (defs₀ (F := F)) 𝒱₀ (thr d L) none) Set.univ (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I1 t fa fb fc (k2.val + 1)))
    (hent1 : ∀ (t : Fin k0_t1_loop.trips) ga gb gc oa ha ob hb oc hc f8,
      iprop(Tbl ∗ ((t6a).view.loc (thr d L) ↦[(t6a).view.set]{fullShare} landedE m d L t6a ga oa ha)
        ∗ ((t6b).view.loc (thr d L) ↦[(t6b).view.set]{fullShare} landedE m d L t6b gb ob hb)
        ∗ ((t6c).view.loc (thr d L) ↦[(t6c).view.set]{fullShare} landedE m d L t6c gc oc hc)
        ∗ ((b8W).view.loc (thr d L) ↦{fullShare} f8))
      ⊢ I1 t (landedE m d L t6a ga oa ha) (landedE m d L t6b gb ob hb) (landedE m d L t6c gc oc hc) 0 ())
    (hext1 : ∀ (t : Fin k0_t1_loop.trips) fa fb fc (acc : Unit), I1 t fa fb fc (Scf.trips k0_t3_loop.lb k0_t3_loop.ub k0_t3_loop.st) acc
      ⊢ iprop(Tbl ∗ ((t6a).view.loc (thr d L) ↦[(t6a).view.set]{fullShare} fa)
        ∗ ((t6b).view.loc (thr d L) ↦[(t6b).view.set]{fullShare} fb) ∗ ((t6c).view.loc (thr d L) ↦[(t6c).view.set]{fullShare} fc)
        ∗ (∃ f, ⌜R1 t fa fb fc f⌝ ∗ (b8W).view.loc (thr d L) ↦{fullShare} f)))
    (hland1z : ∀ (h0 : 0 < k0_t1_loop.trips) ga gb gc f gk, R1 ⟨0, h0⟩ (landedE m d L t6a ga (k0_off2 L 0#32) (k0_off2_inb L 0)) (landedE m d L t6b gb (k0_off2 L 800000#32) (k0_off2_inb L 1)) (landedE m d L t6c gc (k0_off2 L 1600000#32) (k0_off2_inb L 2)) f
      → Pw1 ⟨0, h0⟩ (landedO d L b8W (o139 L ⟨0, h0⟩) gk f))
    (hland1s : ∀ (j : Fin k0_t1_loop.trips) (hj : j.val + 1 < k0_t1_loop.trips) ga gb gc f gk, R1 ⟨j.val + 1, hj⟩ (landedE m d L t6a ga (k0_off140 L j 0#32) (k0_off140_inb L j 0)) (landedE m d L t6b gb (k0_off140 L j 800000#32) (k0_off140_inb L j 1)) (landedE m d L t6c gc (k0_off140 L j 1600000#32) (k0_off140_inb L j 2)) f
      → Pw1 ⟨j.val + 1, hj⟩ (landedO d L b8W (o139 L ⟨j.val + 1, hj⟩) gk f))
    : ∀ (k : Fin k0_t1_loop.trips) (acc : Unit), pairInv m d L O W Tbl Pw0 Pw1 k.val acc
      ⊢ wp frame (wpE (defs₀ (F := F)) 𝒱₀ (thr d L) none) Set.univ
          (k0_t1_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 v3158 k acc) (pairInv m d L O W Tbl Pw0 Pw1 (k.val + 1)) := by
  intro k acc
  cases acc
  rcases k with ⟨k, hk⟩
  cases k with
  | zero =>
    rw [pairInv_zero, pairInv_succ m d L O W Tbl Pw0 Pw1 ⟨0, hk⟩]
    exact trip0 m d L O W v3138 v3140 v3158 hk Tbl Pw0 Pw1 I0 R0 hreg0 hent0 hext0 hland0z hland0s I1 R1 hreg1 hent1 hext1 hland1z hland1s
  | succ j =>
    have hj' : j < k0_t1_loop.trips := Nat.lt_of_succ_lt hk
    rw [congrFun (pairInv_succ m d L O W Tbl Pw0 Pw1 ⟨j, hj'⟩) (), pairInv_succ m d L O W Tbl Pw0 Pw1 ⟨j + 1, hk⟩]
    exact tripS m d L O W v3138 v3140 v3158 ⟨j, hj'⟩ hk Tbl Pw0 Pw1 I0 R0 hreg0 hent0 hext0 hland0z hland0s I1 R1 hreg1 hent1 hext1 hland1z hland1s

theorem pairInv_last (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (h15 : 15 < k0_t1_loop.trips) (acc : Unit) :
    pairInv m d L O W Tbl Pw0 Pw1 (Scf.trips k0_t1_loop.lb k0_t1_loop.ub k0_t1_loop.st) acc = pairInvS m d L O W Tbl Pw0 Pw1 ⟨15, h15⟩ :=
  congrFun (pairInv_succ m d L O W Tbl Pw0 Pw1 ⟨15, h15⟩) acc

/-- What k0_part144 starts from: as before trip 0, but of slot 1's fetch only the first third is issued: its other
    two thirds are still in hand and the attribute array's second read share lacks the first source's words only. -/
def entry144 (Tbl : sProp 𝕄) : sProp 𝕄 :=
  iprop(Transfers.MayWaits (thr d L) (none : HIx 1) O
    ∗ (∃ W', ⌜∀ p ∈ W', p ∈ W ∨ p.2 = none⌝ ∗ owes (thr d L) O W')
    ∗ Tbl
    ∗ ((eaW).view.loc (thr d L) ↦[((Finset.univ \ ((eaW).slice (Rect.unit (s := S2400000) (k0_off1 L 0#32) S768.size (k0_off1_inb L 0)) (fun _ => rfl)).view.set) \ ((eaW).slice (Rect.unit (s := S2400000) (k0_off1 L 800000#32) S768.size (k0_off1_inb L 1)) (fun _ => rfl)).view.set) \ ((eaW).slice (Rect.unit (s := S2400000) (k0_off1 L 1600000#32) S768.size (k0_off1_inb L 2)) (fun _ => rfl)).view.set]{Transfers.shareTokN (tok (wL L)) 2} eaC m d)
    ∗ ((eaW).view.loc (thr d L) ↦[Finset.univ \ ((eaW).slice (Rect.unit (s := S2400000) (k0_off2 L 0#32) S768.size (k0_off2_inb L 0)) (fun _ => rfl)).view.set]{Transfers.shareTokN (tok (wL L)) 3} eaC m d)
    ∗ (∃ ga gb gc, Transfers.Batch (EC (F := F)) (thr d L) (.dma cc0_scratch11.sem) (none : HIx 1) NE0 (delivEV m d L (Transfers.shareTokN (tok (wL L)) 2) t5a t5b t5c ga gb gc (k0_off1 L 0#32) (k0_off1_inb L 0) (k0_off1 L 800000#32) (k0_off1_inb L 1) (k0_off1 L 1600000#32) (k0_off1_inb L 2)) 3 0)
    ∗ (∃ ga gb gc, Transfers.Batch (EC (F := F)) (thr d L) (.dma cc0_scratch12.sem) (none : HIx 1) NE1 (delivEV m d L (Transfers.shareTokN (tok (wL L)) 3) t6a t6b t6c ga gb gc (k0_off2 L 0#32) (k0_off2_inb L 0) (k0_off2 L 800000#32) (k0_off2_inb L 1) (k0_off2 L 1600000#32) (k0_off2_inb L 2)) 1 0
        ∗ ((t6b).view.loc (thr d L) ↦[(t6b).view.set]{fullShare} gb) ∗ ((t6c).view.loc (thr d L) ↦[(t6c).view.set]{fullShare} gc))
    ∗ semVal (thr d L, SemLoc.dma cc0_scratch9.sem) 0 ∗ (∃ f, (b7W).view.loc (thr d L) ↦{fullShare} f)
    ∗ semVal (thr d L, SemLoc.dma cc0_scratch10.sem) 0 ∗ (∃ f, (b8W).view.loc (thr d L) ↦{fullShare} f)
    ∗ (bigSep Finset.univ fun i : Fin k0_t1_loop.trips => winAt d L (o70 L i))
    ∗ (bigSep Finset.univ fun i : Fin k0_t1_loop.trips => winAt d L (o139 L i)))

/-- What k0_part144 leaves: slot 1 drained (its out copy of chunk 31 landed, its attribute scratch holding the words
    of the fetch issued in the last trip, both its semaphores at zero, the second read share whole), slot 0 still in
    flight as trip 15 left it. -/
def exit144 (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (h15 : 15 < k0_t1_loop.trips) : sProp 𝕄 :=
  iprop(Transfers.MayWaits (thr d L) (none : HIx 1) O
    ∗ (∃ W', ⌜∀ p ∈ W', p ∈ W ∨ p.2 = none⌝ ∗ owes (thr d L) O W')
    ∗ Tbl
    ∗ ((eaW).view.loc (thr d L) ↦[((Finset.univ \ ((eaW).slice (Rect.unit (s := S2400000) (k0_off71 L ⟨15, h15⟩ 0#32) S768.size (k0_off71_inb L ⟨15, h15⟩ 0)) (fun _ => rfl)).view.set) \ ((eaW).slice (Rect.unit (s := S2400000) (k0_off71 L ⟨15, h15⟩ 800000#32) S768.size (k0_off71_inb L ⟨15, h15⟩ 1)) (fun _ => rfl)).view.set) \ ((eaW).slice (Rect.unit (s := S2400000) (k0_off71 L ⟨15, h15⟩ 1600000#32) S768.size (k0_off71_inb L ⟨15, h15⟩ 2)) (fun _ => rfl)).view.set]{Transfers.shareTokN (tok (wL L)) 2} eaC m d)
    ∗ ((eaW).view.loc (thr d L) ↦{Transfers.shareTokN (tok (wL L)) 3} eaC m d)
    ∗ (∃ ga gb gc, Transfers.Batch (EC (F := F)) (thr d L) (.dma cc0_scratch11.sem) (none : HIx 1) NE0 (delivEV m d L (Transfers.shareTokN (tok (wL L)) 2) t5a t5b t5c ga gb gc (k0_off71 L ⟨15, h15⟩ 0#32) (k0_off71_inb L ⟨15, h15⟩ 0) (k0_off71 L ⟨15, h15⟩ 800000#32) (k0_off71_inb L ⟨15, h15⟩ 1) (k0_off71 L ⟨15, h15⟩ 1600000#32) (k0_off71_inb L ⟨15, h15⟩ 2)) 3 0)
    ∗ (∃ ga gb gc, ((t6a).view.loc (thr d L) ↦[(t6a).view.set]{fullShare} (landedE m d L t6a ga (k0_off140 L ⟨15, h15⟩ 0#32) (k0_off140_inb L ⟨15, h15⟩ 0)))
        ∗ ((t6b).view.loc (thr d L) ↦[(t6b).view.set]{fullShare} (landedE m d L t6b gb (k0_off140 L ⟨15, h15⟩ 800000#32) (k0_off140_inb L ⟨15, h15⟩ 1)))
        ∗ ((t6c).view.loc (thr d L) ↦[(t6c).view.set]{fullShare} (landedE m d L t6c gc (k0_off140 L ⟨15, h15⟩ 1600000#32) (k0_off140_inb L ⟨15, h15⟩ 2))))
    ∗ semVal (thr d L, SemLoc.dma cc0_scratch12.sem) 0
    ∗ (∃ f7, Transfers.Flight (EC (F := F)) (thr d L) (.dma cc0_scratch9.sem) (none : HIx 1) 1572864 iprop((∃ g, ⌜Pw0 ⟨15, h15⟩ g⌝ ∗ (o70 L ⟨15, h15⟩).view.loc (thr d L) ↦[(o70 L ⟨15, h15⟩).view.set]{fullShare} g) ∗ ((b7W).view.loc (thr d L) ↦[(b7W).view.set]{fullShare} f7)))
    ∗ semVal (thr d L, SemLoc.dma cc0_scratch10.sem) 0 ∗ (∃ f, (b8W).view.loc (thr d L) ↦{fullShare} f)
    ∗ (bigSep Finset.univ fun i : Fin k0_t1_loop.trips => if i = ⟨15, h15⟩ then iprop(emp) else if i.val ≤ (⟨15, h15⟩ : Fin k0_t1_loop.trips).val then winAtV d L (o70 L i) (Pw0 i) else winAt d L (o70 L i))
    ∗ (bigSep Finset.univ fun i : Fin k0_t1_loop.trips => if i.val ≤ (⟨15, h15⟩ : Fin k0_t1_loop.trips).val then winAtV d L (o139 L i) (Pw1 i) else winAt d L (o139 L i)))

set_option maxHeartbeats 0 in
/-- k0_part144 as a unit: slot 1's other two fetch issues, the sixteen trips by the invariant, then the wait for slot
    1's last out copy and the three for its last fetch. -/
theorem part144_unit [∀ e, Nonempty (Elt F e)] (v3138 v3140 v3158 : BitVec 32) (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (I0 : Fin k0_t1_loop.trips → Buf (Elt F) ((t5a).view.loc (thr d L)) → Buf (Elt F) ((t5b).view.loc (thr d L)) → Buf (Elt F) ((t5c).view.loc (thr d L)) → ℕ → Unit → sProp 𝕄)
    (R0 : Fin k0_t1_loop.trips → Buf (Elt F) ((t5a).view.loc (thr d L)) → Buf (Elt F) ((t5b).view.loc (thr d L)) → Buf (Elt F) ((t5c).view.loc (thr d L)) → Buf (Elt F) ((b7W).view.loc (thr d L)) → Prop)
    (hreg0 : ∀ (t : Fin k0_t1_loop.trips) fa fb fc (k2 : Fin k0_t2_loop.trips) (acc : Unit), I0 t fa fb fc k2.val acc
      ⊢ wp frame (wpE (defs₀ (F := F)) 𝒱₀ (thr d L) none) Set.univ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I0 t fa fb fc (k2.val + 1)))
    (hent0 : ∀ (t : Fin k0_t1_loop.trips) ga gb gc oa ha ob hb oc hc f7,
      iprop(Tbl ∗ ((t5a).view.loc (thr d L) ↦[(t5a).view.set]{fullShare} landedE m d L t5a ga oa ha)
        ∗ ((t5b).view.loc (thr d L) ↦[(t5b).view.set]{fullShare} landedE m d L t5b gb ob hb)
        ∗ ((t5c).view.loc (thr d L) ↦[(t5c).view.set]{fullShare} landedE m d L t5c gc oc hc)
        ∗ ((b7W).view.loc (thr d L) ↦{fullShare} f7))
      ⊢ I0 t (landedE m d L t5a ga oa ha) (landedE m d L t5b gb ob hb) (landedE m d L t5c gc oc hc) 0 ())
    (hext0 : ∀ (t : Fin k0_t1_loop.trips) fa fb fc (acc : Unit), I0 t fa fb fc (Scf.trips k0_t2_loop.lb k0_t2_loop.ub k0_t2_loop.st) acc
      ⊢ iprop(Tbl ∗ ((t5a).view.loc (thr d L) ↦[(t5a).view.set]{fullShare} fa)
        ∗ ((t5b).view.loc (thr d L) ↦[(t5b).view.set]{fullShare} fb) ∗ ((t5c).view.loc (thr d L) ↦[(t5c).view.set]{fullShare} fc)
        ∗ (∃ f, ⌜R0 t fa fb fc f⌝ ∗ (b7W).view.loc (thr d L) ↦{fullShare} f)))
    (hland0z : ∀ (h0 : 0 < k0_t1_loop.trips) ga gb gc f gk, R0 ⟨0, h0⟩ (landedE m d L t5a ga (k0_off1 L 0#32) (k0_off1_inb L 0)) (landedE m d L t5b gb (k0_off1 L 800000#32) (k0_off1_inb L 1)) (landedE m d L t5c gc (k0_off1 L 1600000#32) (k0_off1_inb L 2)) f
      → Pw0 ⟨0, h0⟩ (landedO d L b7W (o70 L ⟨0, h0⟩) gk f))
    (hland0s : ∀ (j : Fin k0_t1_loop.trips) (hj : j.val + 1 < k0_t1_loop.trips) ga gb gc f gk, R0 ⟨j.val + 1, hj⟩ (landedE m d L t5a ga (k0_off71 L j 0#32) (k0_off71_inb L j 0)) (landedE m d L t5b gb (k0_off71 L j 800000#32) (k0_off71_inb L j 1)) (landedE m d L t5c gc (k0_off71 L j 1600000#32) (k0_off71_inb L j 2)) f
      → Pw0 ⟨j.val + 1, hj⟩ (landedO d L b7W (o70 L ⟨j.val + 1, hj⟩) gk f))
    (I1 : Fin k0_t1_loop.trips → Buf (Elt F) ((t6a).view.loc (thr d L)) → Buf (Elt F) ((t6b).view.loc (thr d L)) → Buf (Elt F) ((t6c).view.loc (thr d L)) → ℕ → Unit → sProp 𝕄)
    (R1 : Fin k0_t1_loop.trips → Buf (Elt F) ((t6a).view.loc (thr d L)) → Buf (Elt F) ((t6b).view.loc (thr d L)) → Buf (Elt F) ((t6c).view.loc (thr d L)) → Buf (Elt F) ((b8W).view.loc (thr d L)) → Prop)
    (hreg1 : ∀ (t : Fin k0_t1_loop.trips) fa fb fc (k2 : Fin k0_t3_loop.trips) (acc : Unit), I1 t fa fb fc k2.val acc
      ⊢ wp frame (wpE (defs₀ (F := F)) 𝒱₀ (thr d L) none) Set.univ (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I1 t fa fb fc (k2.val + 1)))
    (hent1 : ∀ (t : Fin k0_t1_loop.trips) ga gb gc oa ha ob hb oc hc f8,
      iprop(Tbl ∗ ((t6a).view.loc (thr d L) ↦[(t6a).view.set]{fullShare} landedE m d L t6a ga oa ha)
        ∗ ((t6b).view.loc (thr d L) ↦[(t6b).view.set]{fullShare} landedE m d L t6b gb ob hb)
        ∗ ((t6c).view.loc (thr d L) ↦[(t6c).view.set]{fullShare} landedE m d L t6c gc oc hc)
        ∗ ((b8W).view.loc (thr d L) ↦{fullShare} f8))
      ⊢ I1 t (landedE m d L t6a ga oa ha) (landedE m d L t6b gb ob hb) (landedE m d L t6c gc oc hc) 0 ())
    (hext1 : ∀ (t : Fin k0_t1_loop.trips) fa fb fc (acc : Unit), I1 t fa fb fc (Scf.trips k0_t3_loop.lb k0_t3_loop.ub k0_t3_loop.st) acc
      ⊢ iprop(Tbl ∗ ((t6a).view.loc (thr d L) ↦[(t6a).view.set]{fullShare} fa)
        ∗ ((t6b).view.loc (thr d L) ↦[(t6b).view.set]{fullShare} fb) ∗ ((t6c).view.loc (thr d L) ↦[(t6c).view.set]{fullShare} fc)
        ∗ (∃ f, ⌜R1 t fa fb fc f⌝ ∗ (b8W).view.loc (thr d L) ↦{fullShare} f)))
    (hland1z : ∀ (h0 : 0 < k0_t1_loop.trips) ga gb gc f gk, R1 ⟨0, h0⟩ (landedE m d L t6a ga (k0_off2 L 0#32) (k0_off2_inb L 0)) (landedE m d L t6b gb (k0_off2 L 800000#32) (k0_off2_inb L 1)) (landedE m d L t6c gc (k0_off2 L 1600000#32) (k0_off2_inb L 2)) f
      → Pw1 ⟨0, h0⟩ (landedO d L b8W (o139 L ⟨0, h0⟩) gk f))
    (hland1s : ∀ (j : Fin k0_t1_loop.trips) (hj : j.val + 1 < k0_t1_loop.trips) ga gb gc f gk, R1 ⟨j.val + 1, hj⟩ (landedE m d L t6a ga (k0_off140 L j 0#32) (k0_off140_inb L j 0)) (landedE m d L t6b gb (k0_off140 L j 800000#32) (k0_off140_inb L j 1)) (landedE m d L t6c gc (k0_off140 L j 1600000#32) (k0_off140_inb L j 2)) f
      → Pw1 ⟨j.val + 1, hj⟩ (landedO d L b8W (o139 L ⟨j.val + 1, hj⟩) gk f))
    (h15 : 15 < k0_t1_loop.trips) :
    entry144 m d L O W Tbl
      ⊢ wp frame (wpE (defs₀ (F := F)) 𝒱₀ (thr d L) none) Set.univ
          (k0_part144 L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 v3158) (fun _ => exit144 m d L O W Tbl Pw0 Pw1 h15) := by
  simp only [k0_part144_eq_skeleton]; unfold k0_part144_skel
  delta entry144
  iintro ⟨#Hmw, ⟨%W', %hW', HO⟩, HT, Hea2, Hea3, HB0, ⟨%ga1, %gb1, %gc1, HB1, Ht6b, Ht6c⟩, HF0, Hb7, HF1, Hb8, Hw0, Hw1⟩
  sl_exec
  sl_for (pairInv m d L O W Tbl Pw0 Pw1) $$ [HO HT Hea2 Hea3 HB0 HB1 HF0 Hb7 HF1 Hb8 Hw0 Hw1]
  case region => exact pair_region m d L O W v3138 v3140 v3158 Tbl Pw0 Pw1 I0 R0 hreg0 hent0 hext0 hland0z hland0s I1 R1 hreg1 hent1 hext1 hland1z hland1s
  · rw [pairInv_zero]; delta pairInv0
    isplitr; · iexact Hmw
    isplitl [HO]
    · iexists _; isplitr
      rotate_left
      · iexact HO
      · ipureintro; exact hW'
    isplitl [HT]; · iexact HT
    isplitl [Hea2]; · iexact Hea2
    isplitl [Hea3]; · iexact Hea3
    isplitl [HB0]; · iexact HB0
    isplitl [HB1]; · iexists ga1, gb1, gc1; iexact HB1
    isplitl [HF0]; · iexact HF0
    isplitl [Hb7]; · iexact Hb7
    isplitl [HF1]; · iexact HF1
    isplitl [Hb8]; · iexact Hb8
    isplitl [Hw0]; · iexact Hw0
    iexact Hw1
  iintro %acc HI
  ihave HI := (Entails.of_eq (pairInv_last m d L O W Tbl Pw0 Pw1 h15 acc)) $$ HI
  delta pairInvS
  icases HI with ⟨-, ⟨%W2, %hW2, HO⟩, HT, Hea2, Hea3, ⟨%ga0, %gb0, %gc0, HB0⟩, ⟨%ga1, %gb1, %gc1, HB1⟩, ⟨%f7, HF0⟩, ⟨%f8, HF1⟩, Hw0, Hw1⟩
  sl_exec
  ihave Hea3 := (Entails.of_eq (ea_respell (F := F) d L (Transfers.shareTokN (tok (wL L)) 3) _ _ (eaC m d))) $$ Hea3
  ihave HF1_src := (Entails.of_eq (b8_own (F := F) d L f8)) $$ HF1_src
  ihave Hw1 := (wins_fill' (F := F) (fun i : Fin k0_t1_loop.trips => if i.val ≤ (⟨15, h15⟩ : Fin k0_t1_loop.trips).val then winAtV d L (o139 L i) (Pw1 i) else winAt d L (o139 L i)) ⟨15, h15⟩ (winAtV d L (o139 L ⟨15, h15⟩) (Pw1 ⟨15, h15⟩)) (if_pos (le_refl _))) $$ [Hw1 HF1_dst]
  · isplitl [Hw1]; · iexact Hw1
    iexact HF1_dst
  sl_step
  try delta exit144
  isplitr; · iexact Hmw
  isplitl [HO]
  · iexists _; isplitr
    rotate_left
    · iexact HO
    · ipureintro; exact (waits_insert (waits_insert (waits_insert (waits_insert hW2 _) _) _) _)
  isplitl [HT]; · iexact HT
  isplitl [Hea2]; · iexact Hea2
  isplitl [Hea3]; · iexact Hea3
  isplitl [HB0]; · iexists ga0, gb0, gc0; iexact HB0
  isplitl [HB1_dst0 HB1_dst1 HB1_dst2]
  · iexists ga1, gb1, gc1
    isplitl [HB1_dst0]; · iexact HB1_dst0
    isplitl [HB1_dst1]; · iexact HB1_dst1
    iexact HB1_dst2
  isplitl [HB1]; · iexact HB1
  isplitl [HF0]; · iexists f7; iexact HF0
  isplitl [HF1]; · iexact HF1
  isplitl [HF1_src]; · iexists f8; iexact HF1_src
  isplitl [Hw0]; · iexact Hw0
  iexact Hw1

/-- What k0_part143 starts from: both read shares of the attribute array whole, both attribute scratches as their
    thirds, all four loop semaphores at zero, both out scratches and all 32 windows of the result in hand. -/
def entry143 (Tbl : sProp 𝕄) : sProp 𝕄 :=
  iprop(Transfers.MayWaits (thr d L) (none : HIx 1) O
    ∗ (∃ W', ⌜∀ p ∈ W', p ∈ W ∨ p.2 = none⌝ ∗ owes (thr d L) O W')
    ∗ Tbl
    ∗ ((eaW).view.loc (thr d L) ↦{Transfers.shareTokN (tok (wL L)) 2} eaC m d)
    ∗ ((eaW).view.loc (thr d L) ↦{Transfers.shareTokN (tok (wL L)) 3} eaC m d)
    ∗ (∃ ga gb gc, ((t5a).view.loc (thr d L) ↦[(t5a).view.set]{fullShare} ga) ∗ ((t5b).view.loc (thr d L) ↦[(t5b).view.set]{fullShare} gb)
        ∗ ((t5c).view.loc (thr d L) ↦[(t5c).view.set]{fullShare} gc))
    ∗ semVal (thr d L, SemLoc.dma cc0_scratch11.sem) 0
    ∗ (∃ ga gb gc, ((t6a).view.loc (thr d L) ↦[(t6a).view.set]{fullShare} ga) ∗ ((t6b).view.loc (thr d L) ↦[(t6b).view.set]{fullShare} gb)
        ∗ ((t6c).view.loc (thr d L) ↦[(t6c).view.set]{fullShare} gc))
    ∗ semVal (thr d L, SemLoc.dma cc0_scratch12.sem) 0
    ∗ semVal (thr d L, SemLoc.dma cc0_scratch9.sem) 0 ∗ (∃ f, (b7W).view.loc (thr d L) ↦{fullShare} f)
    ∗ semVal (thr d L, SemLoc.dma cc0_scratch10.sem) 0 ∗ (∃ f, (b8W).view.loc (thr d L) ↦{fullShare} f)
    ∗ (bigSep Finset.univ fun i : Fin k0_t1_loop.trips => winAt d L (o70 L i))
    ∗ (bigSep Finset.univ fun i : Fin k0_t1_loop.trips => winAt d L (o139 L i)))

set_option maxHeartbeats 0 in
/-- k0_part143 as a unit: the two fetch batches are set up over the scratches' contents, slot 0's three fetches and
    slot 1's first are issued. -/
theorem part143_unit [∀ e, Nonempty (Elt F e)] (v1 v3132 c195_i32 : BitVec 32) (Tbl : sProp 𝕄) :
    entry143 m d L O W Tbl
      ⊢ wp frame (wpE (defs₀ (F := F)) 𝒱₀ (thr d L) none) Set.univ
          (k0_part143 L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v1 v3132 c195_i32) (fun _ => entry144 m d L O W Tbl) := by
  simp only [k0_part143_eq_skeleton]; unfold k0_part143_skel
  delta entry143
  iintro ⟨#Hmw, ⟨%W', %hW', HO⟩, HT, Hea2, Hea3, ⟨%ga0, %gb0, %gc0, Ht5a, Ht5b, Ht5c⟩, HB0, ⟨%ga1, %gb1, %gc1, Ht6a, Ht6b, Ht6c⟩, HB1, HF0, Hb7, HF1, Hb8, Hw0, Hw1⟩
  imod (Transfers.batch_alloc' (EC (F := F)) (thr d L) (none : HIx 1) NE0 (delivEV m d L (Transfers.shareTokN (tok (wL L)) 2) t5a t5b t5c ga0 gb0 gc0 (k0_off1 L 0#32) (k0_off1_inb L 0) (k0_off1 L 800000#32) (k0_off1_inb L 1) (k0_off1 L 1600000#32) (k0_off1_inb L 2)) (sm := _) (E := Set.univ)) $$ HB0 with HB0
  imod (Transfers.batch_alloc' (EC (F := F)) (thr d L) (none : HIx 1) NE1 (delivEV m d L (Transfers.shareTokN (tok (wL L)) 3) t6a t6b t6c ga1 gb1 gc1 (k0_off2 L 0#32) (k0_off2_inb L 0) (k0_off2 L 800000#32) (k0_off2_inb L 1) (k0_off2 L 1600000#32) (k0_off2_inb L 2)) (sm := _) (E := Set.univ)) $$ HB1 with HB1
  sl_exec
  sl_step
  try delta entry144
  isplitr; · iexact Hmw
  isplitl [HO]
  · iexists _; isplitr
    rotate_left
    · iexact HO
    · ipureintro; exact hW'
  isplitl [HT]; · iexact HT
  isplitl [Hea2]; · iexact Hea2
  isplitl [Hea3]; · iexact Hea3
  isplitl [HB0]; · iexists ga0, gb0, gc0; iexact HB0
  isplitl [HB1 Ht6b Ht6c]
  · iexists ga1, gb1, gc1
    isplitl [HB1]; · iexact HB1
    isplitl [Ht6b]; · iexact Ht6b
    iexact Ht6c
  isplitl [HF0]; · iexact HF0
  isplitl [Hb7]; · iexact Hb7
  isplitl [HF1]; · iexact HF1
  isplitl [Hb8]; · iexact Hb8
  isplitl [Hw0]; · iexact Hw0
  iexact Hw1

end Tile

end Pair

end Cert.Proof.KI

end
-- ==== Proof.ChunkKI.lean ====
/-
  One chunk of a vector subcore's work against the global value. A chunk is six consecutive blocks of 128 edges; its
  attribute scratch holds the three attribute columns of its 768 edges, and the transposed table scratch holds the
  combined table: row 12·i₀ + 2·i₁ + i₂ is the sum of rows i₀, i₁, i₂ of the three tables. Where every attribute word
  is 0 or 1 the combined row an edge names is at most 15, its three digits are the edge's three attribute words, and
  the table word the chunk gathers is the embedding the global layout asks for at the same element, the block
  shifted by the chunk's first block.
-/
import proofs.«203789_g40862318854646_cont_8to1_b_1018_13_alg».proof.Proof.GoodKI

noncomputable section

namespace Cert.Proof.KI

open Cert.KernelIdeal Cert.KernelIdeal.Gen
open Idealize.ShloMosaic Idealize.ShloMosaic.ValueIdx

variable {F : FTy → Type} [FloatOps F]

/-- The combined table at the row three attribute words 0 or 1 name: the row's digits are the three words, so the
    word read is the sum of the three tables' rows. -/
theorem tab_at_digits (w0 : FVec F S320 .f32) (w1 : FVec F S384 .f32) (w2 : FVec F S128 .f32) (ft : FVec F S4096 .f32)
    (hT : TabT w0 w1 w2 ft) (c n0 n1 n2 : ℕ) (hc : c < 64) (h0 : n0 ≤ 1) (h1 : n1 ≤ 1) (h2 : n2 ≤ 1) :
    at1 ft (64 * c + (n0 * 12 + n1 * 2 + n2))
      = FloatOps.addf (FloatOps.addf (at1 w0 (n0 * 64 + c)) (at1 w1 (n1 * 64 + c))) (at1 w2 (n2 * 64 + c)) := by
  rw [hT c _ hc (by omega)]
  unfold tabVal
  rw [show (n0 * 12 + n1 * 2 + n2) / 12 = n0 by omega, show (n0 * 12 + n1 * 2 + n2) % 12 / 2 = n1 by omega,
    show (n0 * 12 + n1 * 2 + n2) % 2 = n2 by omega, Nat.mul_comm 64 n0, Nat.mul_comm 64 n1, Nat.mul_comm 64 n2]

/-- What a chunk's output scratch holds at a local element is the embedding at the global element with the same
    coordinates, the block shifted by the chunk's first block. -/
theorem gather_eq_kerVal (ea : IVec S2400000 32) (w0 : FVec F S320 .f32) (w1 : FVec F S384 .f32) (w2 : FVec F S128 .f32)
    (ft : FVec F S4096 .f32) (fe : IVec S2304 32) (eb0 : ℕ) (heb : eb0 + 6 ≤ 6250)
    (hT : TabT w0 w1 w2 ft) (hea : ∀ n, ea n = 0#32 ∨ ea n = 1#32)
    (hfe : ∀ f p, f < 3 → p < 768 → at1 fe (768 * f + p) = at1 ea (800000 * f + 128 * eb0 + p))
    (j : S8x6x8x128.Idx) (j' : S8x6250x8x128.Idx)
    (h0 : (j' 0).val = (j 0).val) (h1 : (j' 1).val = eb0 + (j 1).val) (h2 : (j' 2).val = (j 2).val) (h3 : (j' 3).val = (j 3).val) :
    gatherVal ft fe j = kerVal ea w0 w1 w2 j' := by
  have hj0 : (j 0).val < 8 := (j 0).isLt
  have hj1 : (j 1).val < 6 := (j 1).isLt
  have hj2 : (j 2).val < 8 := (j 2).isLt
  have hj3 : (j 3).val < 128 := (j 3).isLt
  obtain ⟨p, hp⟩ : ∃ p, p = 128 * (j 1).val + (j 3).val := ⟨_, rfl⟩
  obtain ⟨c, hc⟩ : ∃ c, c = 8 * (j 0).val + (j 2).val := ⟨_, rfl⟩
  have hp768 : p < 768 := by omega
  have hc64 : c < 64 := by omega
  have tn : ∀ k, (at1 ea k).toNat ≤ 1 := fun k => by
    show (ea (ix1 (Fin.ofNat 2400000 k))).toNat ≤ 1
    rcases hea (ix1 (Fin.ofNat 2400000 k)) with h | h <;> rw [h] <;> decide
  have f0 : at1 fe p = at1 ea (128 * eb0 + p) := by
    have := hfe 0 p (by omega) hp768
    rw [show 768 * 0 + p = p by omega, show 800000 * 0 + 128 * eb0 + p = 128 * eb0 + p by omega] at this
    exact this
  have f1 : at1 fe (768 + p) = at1 ea (800000 + (128 * eb0 + p)) := by
    have := hfe 1 p (by omega) hp768
    rw [show 768 * 1 + p = 768 + p by omega, show 800000 * 1 + 128 * eb0 + p = 800000 + (128 * eb0 + p) by omega] at this
    exact this
  have f2 : at1 fe (1536 + p) = at1 ea (1600000 + (128 * eb0 + p)) := by
    have := hfe 2 p (by omega) hp768
    rw [show 768 * 2 + p = 1536 + p by omega, show 800000 * 2 + 128 * eb0 + p = 1600000 + (128 * eb0 + p) by omega] at this
    exact this
  have e1 : 128 * (j' 1).val + (j' 3).val = 128 * eb0 + p := by omega
  have e2 : 8 * (j' 0).val + (j' 2).val = c := by omega
  unfold gatherVal kerVal combAt
  rw [e1, e2, ← hp, ← hc, f0, f1, f2]
  exact tab_at_digits w0 w1 w2 ft hT c _ _ _ hc64 (tn _) (tn _) (tn _)

end Cert.Proof.KI

end
-- ==== Proof.OffsKI.lean ====
/-
  The offsets the kernel computes for its six-block slices of the result array, in closed form. Subcore number
  w = 2·(i 1) + (i 0) starts at group g₀ = 8·lo w, lo w = 195·w + min w 10; chunk k starts at group g₀ + 48·k, whose
  block is (g₀ + 48·k) / 8 = lo w + 6·k. In trip t one slot works on chunk 2·t and the other on chunk 2·t + 1; the
  last chunk ends with the subcore's share, at block lo (w + 1) − 6. All words stay far below 2³¹, so the 32-bit
  arithmetic is the integers'. Then the elements of the result under such a slice: the blocks b … b + 5, which lie
  in the subcore's share when the slice does.
-/
import proofs.«203789_g40862318854646_cont_8to1_b_1018_13_alg».proof.Proof.SetupKI
import proofs.«203789_g40862318854646_cont_8to1_b_1018_13_alg».proof.Proof.Gen.KernelIdeal
import Idealize.ShloMosaic.Lib.Affine

noncomputable section

namespace Cert.Proof.KI

open Cert.KernelIdeal Cert.KernelIdeal.Gen
open Idealize.ShloMosaic

/-! ## Words -/

/-- A logical right shift by three halves the unsigned reading three times. -/
theorem shrui3_toNat (a : BitVec 32) : (Scalar.shrui a 3#32).toNat = a.toNat / 8 := by
  unfold Scalar.shrui IntOp.shrui
  rw [if_pos (by decide)]
  rw [BitVec.ushiftRight_eq', BitVec.toNat_ushiftRight, Nat.shiftRight_eq_div_pow]
  rfl

/-- The offsets of a slice whose block is a group number shifted right by three, the group number being `8·n`. -/
theorem off_of_groups (x : BitVec 32) (n : ℕ) (hx : Affine.IsInt x (8 * (n : ℤ))) :
    (![0, (Scalar.shrui x 3#32).toNat, 0, 0] : Fin 4 → ℕ) = ![0, n, 0, 0] := by
  rw [shrui3_toNat, Affine.nat_eq hx (8 * n) (by push_cast; rfl)]
  congr 2
  omega

/-- The subcore's number as the kernel computes it … -/
def wWord (i : grid0.Coords) : BitVec 32 :=
  Scalar.addi (Scalar.muli (BitVec.ofNat 32 (i 1).val) 2#32) (BitVec.ofNat 32 (i 0).val)

/-- … and its first group. -/
def g0Word (i : grid0.Coords) : BitVec 32 :=
  Scalar.muli (Scalar.addi (Scalar.muli (wWord i) 195#32) (Scalar.minsi (wWord i) 10#32)) 8#32

theorem wWord_int (i : grid0.Coords) : Affine.IsInt (wWord i) (2 * ((i 1).val : ℤ) + ((i 0).val : ℤ)) := by
  have r_i1 : (i 1).val < 16 := (i 1).isLt
  have r_i0 : (i 0).val < 2 := (i 0).isLt
  have h_arg1 : Affine.IsInt (BitVec.ofNat 32 (i 1).val) (((i 1).val : ℤ)) := Affine.ofNat _ (by omega)
  have h_c2 : Affine.IsInt 2#32 (2) := Affine.ofNat _ (by omega)
  have h_v0 : Affine.IsInt _ (2 * ((i 1).val : ℤ)) := Affine.muli h_arg1 h_c2 (by omega)
  have h_arg0 : Affine.IsInt (BitVec.ofNat 32 (i 0).val) (((i 0).val : ℤ)) := Affine.ofNat _ (by omega)
  exact Affine.addi h_v0 h_arg0 (by omega)

theorem g0Word_int (i : grid0.Coords) : Affine.IsInt (g0Word i) (8 * ((lo (2 * (i 1).val + (i 0).val) : ℕ) : ℤ)) := by
  have r_i1 : (i 1).val < 16 := (i 1).isLt
  have r_i0 : (i 0).val < 2 := (i 0).isLt
  have h_v1 := wWord_int i
  have h_c195 : Affine.IsInt 195#32 (195) := Affine.ofNat _ (by omega)
  have h_v3135 : Affine.IsInt _ (390 * ((i 1).val : ℤ) + 195 * ((i 0).val : ℤ)) := Affine.muli h_v1 h_c195 (by omega)
  have h_c10 : Affine.IsInt 10#32 (10) := Affine.ofNat _ (by omega)
  have h_v3136 : Affine.IsInt _ (min (2 * ((i 1).val : ℤ) + ((i 0).val : ℤ)) 10) := Affine.minsi h_v1 h_c10 (by omega)
  have h_v3137 : Affine.IsInt _ (390 * ((i 1).val : ℤ) + 195 * ((i 0).val : ℤ) + min (2 * ((i 1).val : ℤ) + ((i 0).val : ℤ)) 10) :=
    Affine.addi h_v3135 h_v3136 (by omega)
  have h_c8 : Affine.IsInt 8#32 (8) := Affine.ofNat _ (by omega)
  have h_v3138 : Affine.IsInt _ (3120 * ((i 1).val : ℤ) + 1560 * ((i 0).val : ℤ) + 8 * min (2 * ((i 1).val : ℤ) + ((i 0).val : ℤ)) 10) :=
    Affine.muli h_v3137 h_c8 (by omega)
  exact Affine.relit h_v3138 (by unfold lo; push_cast; omega)

/-- The loop's variable at trip `t` is `t`, below 16. -/
theorem t1_lt (t : Fin k0_t1_loop.trips) : t.val < 16 := Nat.lt_of_lt_of_le t.isLt k0_t1_abs.2.1

theorem t1_int (t : Fin k0_t1_loop.trips) : Affine.IsInt (Scf.iv 0#32 1#32 t.val) (t.val : ℤ) := by
  have := t1_lt t
  have h_c0 : Affine.IsInt 0#32 (0) := Affine.ofNat _ (by omega)
  have h_c1 : Affine.IsInt 1#32 (1) := Affine.ofNat _ (by omega)
  exact Affine.iv h_c0 h_c1 t.val (by omega)

/-! ## The five slices' offsets -/

/-- The group chunk `2·t` starts at. -/
theorem even_groups_int (i : grid0.Coords) (t : Fin k0_t1_loop.trips) :
    Affine.IsInt (Scalar.addi (g0Word i) (Scalar.muli (Scalar.muli (Scf.iv 0#32 1#32 t.val) 2#32) 48#32))
      (8 * ((lo (2 * (i 1).val + (i 0).val) + 12 * t.val : ℕ) : ℤ)) := by
  have r_i1 : (i 1).val < 16 := (i 1).isLt
  have r_i0 : (i 0).val < 2 := (i 0).isLt
  have r_t := t1_lt t
  have h_c2 : Affine.IsInt 2#32 (2) := Affine.ofNat _ (by omega)
  have h_c48 : Affine.IsInt 48#32 (48) := Affine.ofNat _ (by omega)
  have h_v3205 : Affine.IsInt _ (2 * (t.val : ℤ)) := Affine.muli (t1_int t) h_c2 (by omega)
  have h_v3206 : Affine.IsInt _ (96 * (t.val : ℤ)) := Affine.muli h_v3205 h_c48 (by omega)
  exact Affine.addi (g0Word_int i) h_v3206 (by unfold lo; push_cast; omega)

/-- The group chunk `2·t + 1` starts at. -/
theorem odd_groups_int (i : grid0.Coords) (t : Fin k0_t1_loop.trips) :
    Affine.IsInt (Scalar.addi (g0Word i) (Scalar.muli (Scalar.addi (Scalar.muli (Scf.iv 0#32 1#32 t.val) 2#32) 1#32) 48#32))
      (8 * ((lo (2 * (i 1).val + (i 0).val) + 12 * t.val + 6 : ℕ) : ℤ)) := by
  have r_i1 : (i 1).val < 16 := (i 1).isLt
  have r_i0 : (i 0).val < 2 := (i 0).isLt
  have r_t := t1_lt t
  have h_c2 : Affine.IsInt 2#32 (2) := Affine.ofNat _ (by omega)
  have h_c1 : Affine.IsInt 1#32 (1) := Affine.ofNat _ (by omega)
  have h_c48 : Affine.IsInt 48#32 (48) := Affine.ofNat _ (by omega)
  have h_v3245 : Affine.IsInt _ (2 * (t.val : ℤ)) := Affine.muli (t1_int t) h_c2 (by omega)
  have h_v3246 : Affine.IsInt _ (2 * (t.val : ℤ) + 1) := Affine.addi h_v3245 h_c1 (by omega)
  have h_v3247 : Affine.IsInt _ (96 * (t.val : ℤ) + 48) := Affine.muli h_v3246 h_c48 (by omega)
  exact Affine.addi (g0Word_int i) h_v3247 (by unfold lo; push_cast; omega)

/-- Slot 0's copy-out of chunk `2·t`. -/
theorem k0_off70_eq (i : grid0.Coords) (t : Fin k0_t1_loop.trips) :
    k0_off70 i t = ![0, lo (2 * (i 1).val + (i 0).val) + 12 * t.val, 0, 0] :=
  off_of_groups _ _ (even_groups_int i t)

/-- Slot 0's wait for the copy-out it reuses: the same slice's descriptor. -/
theorem k0_off3_eq (i : grid0.Coords) (t : Fin k0_t1_loop.trips) :
    k0_off3 i t = ![0, lo (2 * (i 1).val + (i 0).val) + 12 * t.val, 0, 0] :=
  off_of_groups _ _ (even_groups_int i t)

/-- Slot 1's copy-out of chunk `2·t + 1`. -/
theorem k0_off139_eq (i : grid0.Coords) (t : Fin k0_t1_loop.trips) :
    k0_off139 i t = ![0, lo (2 * (i 1).val + (i 0).val) + 12 * t.val + 6, 0, 0] :=
  off_of_groups _ _ (odd_groups_int i t)

/-- Slot 1's wait: the same slice's descriptor. -/
theorem k0_off72_eq (i : grid0.Coords) (t : Fin k0_t1_loop.trips) :
    k0_off72 i t = ![0, lo (2 * (i 1).val + (i 0).val) + 12 * t.val + 6, 0, 0] :=
  off_of_groups _ _ (odd_groups_int i t)

/-- The last chunk ends with the subcore's share. -/
theorem k0_off141_eq (i : grid0.Coords) :
    k0_off141 i = ![0, lo (2 * (i 1).val + (i 0).val + 1) - 6, 0, 0] := by
  have r_i1 : (i 1).val < 16 := (i 1).isLt
  have r_i0 : (i 0).val < 2 := (i 0).isLt
  have h_v1 := wWord_int i
  have h_c195 : Affine.IsInt 195#32 (195) := Affine.ofNat _ (by omega)
  have h_c10 : Affine.IsInt 10#32 (10) := Affine.ofNat _ (by omega)
  have h_c8 : Affine.IsInt 8#32 (8) := Affine.ofNat _ (by omega)
  have h_c48 : Affine.IsInt 48#32 (48) := Affine.ofNat _ (by omega)
  rcases (show 2 * ((i 1).val : ℤ) + ((i 0).val : ℤ) ≤ 9 ∨ 10 ≤ 2 * ((i 1).val : ℤ) + ((i 0).val : ℤ) by omega) with hs | hs
  · have h_v3131 : Affine.Holds _ := Affine.slt_holds h_v1 h_c10 (by omega)
    have h_v3132 : Affine.IsInt _ (1) := Affine.extui_holds h_v3131 (by omega)
    have h_v3133 : Affine.IsInt _ (196) := Affine.addi h_c195 h_v3132 (by omega)
    have h_v3134 : Affine.IsInt _ (1568) := Affine.muli h_v3133 h_c8 (by omega)
    have h_v3139 : Affine.IsInt _ (8 * ((lo (2 * (i 1).val + (i 0).val) : ℕ) : ℤ) + 1568) :=
      Affine.addi (g0Word_int i) h_v3134 (by unfold lo; push_cast; omega)
    have h_v3140 : Affine.IsInt _ (8 * ((lo (2 * (i 1).val + (i 0).val + 1) - 6 : ℕ) : ℤ)) :=
      Affine.subi h_v3139 h_c48 (by unfold lo; push_cast; omega)
    exact off_of_groups _ _ h_v3140
  · have h_v3131 : Affine.Fails _ := Affine.slt_fails h_v1 h_c10 (by omega)
    have h_v3132 : Affine.IsInt _ (0) := Affine.extui_fails h_v3131 (by omega)
    have h_v3133 : Affine.IsInt _ (195) := Affine.addi h_c195 h_v3132 (by omega)
    have h_v3134 : Affine.IsInt _ (1560) := Affine.muli h_v3133 h_c8 (by omega)
    have h_v3139 : Affine.IsInt _ (8 * ((lo (2 * (i 1).val + (i 0).val) : ℕ) : ℤ) + 1560) :=
      Affine.addi (g0Word_int i) h_v3134 (by unfold lo; push_cast; omega)
    have h_v3140 : Affine.IsInt _ (8 * ((lo (2 * (i 1).val + (i 0).val + 1) - 6 : ℕ) : ℤ)) :=
      Affine.subi h_v3139 h_c48 (by unfold lo; push_cast; omega)
    exact off_of_groups _ _ h_v3140

/-! ## The guards -/

/-- Slot 0 waits for an earlier copy-out from the second trip on: chunk `2·t` is at least the third. -/
theorem k0_cond1_iff (t : Fin k0_t1_loop.trips) : k0_cond1 t = 1#1 ↔ 1 ≤ t.val := by
  have r_t := t1_lt t
  have h_c2 : Affine.IsInt 2#32 (2) := Affine.ofNat _ (by omega)
  have h_v3205 : Affine.IsInt (Scalar.muli (Scf.iv 0#32 1#32 t.val) 2#32) (2 * (t.val : ℤ)) := Affine.muli (t1_int t) h_c2 (by omega)
  by_cases h : 1 ≤ t.val
  · exact ⟨fun _ => h, fun _ => (Scalar.guard_iff _).mpr (Affine.sge_holds h_v3205 h_c2 (by omega))⟩
  · exact ⟨fun hh => absurd ((Scalar.guard_iff _).mp hh) (Affine.sge_fails h_v3205 h_c2 (by omega)), fun hh => absurd hh h⟩

/-- Slot 1 waits for an earlier copy-out from the second trip on: chunk `2·t + 1` is at least the third. -/
theorem k0_cond2_iff (t : Fin k0_t1_loop.trips) : k0_cond2 t = 1#1 ↔ 1 ≤ t.val := by
  have r_t := t1_lt t
  have h_c2 : Affine.IsInt 2#32 (2) := Affine.ofNat _ (by omega)
  have h_c1 : Affine.IsInt 1#32 (1) := Affine.ofNat _ (by omega)
  have h_v3245 : Affine.IsInt (Scalar.muli (Scf.iv 0#32 1#32 t.val) 2#32) (2 * (t.val : ℤ)) := Affine.muli (t1_int t) h_c2 (by omega)
  have h_v3246 : Affine.IsInt (Scalar.addi (Scalar.muli (Scf.iv 0#32 1#32 t.val) 2#32) 1#32) (2 * (t.val : ℤ) + 1) :=
    Affine.addi h_v3245 h_c1 (by omega)
  by_cases h : 1 ≤ t.val
  · exact ⟨fun _ => h, fun _ => (Scalar.guard_iff _).mpr (Affine.sge_holds h_v3246 h_c2 (by omega))⟩
  · exact ⟨fun hh => absurd ((Scalar.guard_iff _).mp hh) (Affine.sge_fails h_v3246 h_c2 (by omega)), fun hh => absurd hh h⟩

/-! ## The elements under a six-block slice -/

/-- The slice of six blocks from block `b` holds exactly the elements of those blocks. -/
theorem slice_set (b : ℕ) (hb : ∀ a, (![0, b, 0, 0] : Fin 4 → ℕ) a + S8x6x8x128.size a ≤ S8x6250x8x128.size a) :
    ((Memref.whole main_v5_scv : Memref sig .scVector .hbm S8x6250x8x128 .f32).slice
        (Rect.unit (s := S8x6250x8x128) ![0, b, 0, 0] S8x6x8x128.size hb) (fun _ => rfl)).view.set
      = Finset.univ.filter (fun j : S8x6250x8x128.Idx => b ≤ (j 1).val ∧ (j 1).val < b + 6) := by
  show ((View.whole main_v5_scv).slice (Rect.unit (s := S8x6250x8x128) ![0, b, 0, 0] S8x6x8x128.size hb)).set = _
  rw [View.set_slice_whole]
  ext j
  rw [Rect.mem_set_unit, Finset.mem_filter]
  constructor
  · intro h
    exact ⟨Finset.mem_univ _, h 1⟩
  · rintro ⟨-, h1, h2⟩ a
    match a with
    | ⟨0, _⟩ => exact ⟨Nat.zero_le _, by have : (j 0).val < 8 := (j 0).isLt; show (j 0).val < 0 + 8; omega⟩
    | ⟨1, _⟩ => exact ⟨h1, h2⟩
    | ⟨2, _⟩ => exact ⟨Nat.zero_le _, by have : (j 2).val < 8 := (j 2).isLt; show (j 2).val < 0 + 8; omega⟩
    | ⟨3, _⟩ => exact ⟨Nat.zero_le _, by have : (j 3).val < 128 := (j 3).isLt; show (j 3).val < 0 + 128; omega⟩

/-- A six-block slice inside a subcore's share lies in the subcore's blocks. -/
theorem slice_set_subset (b w : ℕ) (hb : ∀ a, (![0, b, 0, 0] : Fin 4 → ℕ) a + S8x6x8x128.size a ≤ S8x6250x8x128.size a)
    (h1 : lo w ≤ b) (h2 : b + 6 ≤ lo (w + 1)) :
    ((Memref.whole main_v5_scv : Memref sig .scVector .hbm S8x6250x8x128 .f32).slice
        (Rect.unit (s := S8x6250x8x128) ![0, b, 0, 0] S8x6x8x128.size hb) (fun _ => rfl)).view.set ⊆ blocksOf w := by
  rw [slice_set]
  intro j hj
  obtain ⟨-, h3, h4⟩ := Finset.mem_filter.mp hj
  exact Finset.mem_filter.mpr ⟨Finset.mem_univ _, by omega, by omega⟩

/-- The in-bounds evidence of a six-block slice, from its last block. -/
theorem slice_inb (b : ℕ) (h : b + 6 ≤ 6250) :
    ∀ a, (![0, b, 0, 0] : Fin 4 → ℕ) a + S8x6x8x128.size a ≤ S8x6250x8x128.size a := fun a =>
  match a with
  | ⟨0, _⟩ => by show 0 + 8 ≤ 8; omega
  | ⟨1, _⟩ => by show b + 6 ≤ 6250; omega
  | ⟨2, _⟩ => by show 0 + 8 ≤ 8; omega
  | ⟨3, _⟩ => by show 0 + 128 ≤ 128; omega

/-! ## The chunks stay inside the share -/

/-- The 32 chunks of the 16 trips end inside the share: 192 blocks of at least 195. -/
theorem chunks_le (w t : ℕ) (ht : t < 16) : lo w + 12 * t + 12 ≤ lo (w + 1) := by unfold lo; omega

/-- The last chunk starts inside the share. -/
theorem tail_ge (w : ℕ) : lo w ≤ lo (w + 1) - 6 := by unfold lo; omega

/-- The last chunk ends with the share. -/
theorem tail_end (w : ℕ) : lo (w + 1) - 6 + 6 = lo (w + 1) := by unfold lo; omega

/-- A share ends inside the array, for a subcore's number. -/
theorem lo_succ_le (w : ℕ) (hw : w < 32) : lo (w + 1) ≤ 6250 := by unfold lo; omega

end Cert.Proof.KI

end
-- ==== Proof.HlandKI.lean ====
/-
  Where a chunk's result lands. A chunk is six consecutive blocks of 128 edges. Its three attribute columns are
  fetched into the thirds of an attribute scratch from the flattened attribute array at the words
  800000·f + 128·b₀ + p (b₀ the chunk's first block); its output scratch, which holds the gathered table words, is
  copied to the six-block window of the result that starts at block b₀. Read element by element: a landed third at
  local word p is the attribute array at the fetch's offset plus p; a landed window at the image of a local element
  is the output scratch there; and, the combined table in place and every attribute word 0 or 1, that is the
  embedding at the global element. The fetch offsets and the windows' offsets are brought to the chunk's first
  block: chunks 2t and 2t+1 of trip t start at blocks lo w + 12 t and lo w + 12 t + 6, the last chunk at
  lo (w+1) - 6.
-/
import proofs.«203789_g40862318854646_cont_8to1_b_1018_13_alg».proof.Proof.ChunkKI
import proofs.«203789_g40862318854646_cont_8to1_b_1018_13_alg».proof.Proof.OffsKI
import Idealize.ShloMosaic.Lib.Writes

noncomputable section

namespace Cert.Proof.KI

open Cert.KernelIdeal Cert.KernelIdeal.Gen
open Idealize.ShloMosaic Idealize.ShloMosaic.ValueIdx
open Idealize.ShloMosaic.SparseCore (S V T)

variable {F : FTy → Type}

local notation "eaW" => (Memref.whole Cert.KernelIdeal.main_v1_scv : Memref Cert.KernelIdeal.sig Kind.scVector Space.hbm Cert.KernelIdeal.S2400000 EltTy.i32)
local notation "oW" => (Memref.whole Cert.KernelIdeal.main_v5_scv : Memref Cert.KernelIdeal.sig Kind.scVector Space.hbm Cert.KernelIdeal.S8x6250x8x128 EltTy.f32)

/-! ## One landed write, read back -/

/-- Contents written whole through a view read back the payload, whatever was there before. -/
theorem read_landed {sig : RefSig} {κ : Kind} {sp : Space} {s : Shape} {e : EltTy} {Val : EltTy → Type}
    (v : View sig κ sp s e) (g : v.ty.Contents Val) (w : (Rect.whole s).shape.Idx → Val e) (y : s.Idx) :
    v.read Val (v.writes Val g [⟨Rect.whole s, w⟩]) y = w y := by
  have h := View.read_writes_cons_emb v g (Rect.whole s) w [] y
  have he : (Rect.whole s).emb y = y := funext fun a => Fin.ext (by show 0 + 1 * (y a).val = (y a).val; omega)
  rw [he] at h
  exact h

variable [FloatOps F] (ea : IVec S2400000 32) (w0 : FVec F S320 .f32) (w1 : FVec F S384 .f32) (w2 : FVec F S128 .f32)

/-- A landed third at local word `p`: the attribute array at the fetch's offset plus `p`. -/
theorem landedE_read {κ : Kind} {sp : Space} (vt : View sig κ sp S768 .i32) (g : vt.ty.Contents (Elt F))
    (off : Fin 1 → ℕ) (inb : ∀ a, off a + S768.size a ≤ S2400000.size a) (p : ℕ) (hp : p < 768) :
    vt.read (Elt F) (vt.writes (Elt F) g [⟨Rect.whole S768, ReadAs.same.apply
        (((eaW).slice (Rect.unit (s := S2400000) off S768.size inb) (fun _ => rfl)).view.read (Elt F) ea)⟩]) (ix1 ⟨p, hp⟩)
      = at1 ea (off 0 + p) := by
  refine (read_landed _ _ _ _).trans ?_
  rw [ReadAs.apply_same, View.read_apply]
  unfold at1
  refine congrArg ea (funext fun a => ?_)
  match a with
  | ⟨0, _⟩ =>
  refine Fin.ext ?_
  have h0 : off 0 + 768 ≤ 2400000 := inb 0
  show off 0 + 1 * p = (off 0 + p) % 2400000
  omega

/-! ## A landed window is the embedding -/

/-- The window of six blocks from block `eb0`, after the output scratch of the chunk that starts at `eb0` was copied
    to it: at every element of the window, the embedding. -/
theorem landedO_kerVal (ft : FVec F S4096 .f32) (hT : TabT w0 w1 w2 ft)
    (hea : ∀ n, ea n = 0#32 ∨ ea n = 1#32) (fe : IVec S2304 32) (eb0 : ℕ) (heb : eb0 + 6 ≤ 6250)
    (hfe : ∀ f p, f < 3 → p < 768 → at1 fe (768 * f + p) = at1 ea (800000 * f + 128 * eb0 + p))
    (off : Fin 4 → ℕ) (inb : ∀ a, off a + S8x6x8x128.size a ≤ S8x6250x8x128.size a) (hoff : off = ![0, eb0, 0, 0])
    {κ : Kind} {sp : Space} (bv : View sig κ sp S8x6x8x128 .f32) (f : bv.ty.Contents (Elt F))
    (hf : ∀ y, bv.read (Elt F) f y = gatherVal ft fe y)
    (gk : ((oW).slice (Rect.unit (s := S8x6250x8x128) off S8x6x8x128.size inb) (fun _ => rfl)).view.ty.Contents (Elt F)) :
    ∀ x ∈ ((oW).slice (Rect.unit (s := S8x6250x8x128) off S8x6x8x128.size inb) (fun _ => rfl)).view.set,
      ((oW).slice (Rect.unit (s := S8x6250x8x128) off S8x6x8x128.size inb) (fun _ => rfl)).view.writes (Elt F) gk
          [⟨Rect.whole S8x6x8x128, ReadAs.same.apply (bv.read (Elt F) f)⟩] x
        = kerVal ea w0 w1 w2 x := by
  intro x hx
  obtain ⟨y, -, rfl⟩ := Finset.mem_map.mp hx
  have h1 := read_landed ((oW).slice (Rect.unit (s := S8x6250x8x128) off S8x6x8x128.size inb) (fun _ => rfl)).view gk
    (ReadAs.same.apply (bv.read (Elt F) f)) y
  rw [View.read_apply, ReadAs.apply_same, hf y] at h1
  refine (cast_eq _ _).symm.trans (h1.trans ?_)
  subst hoff
  refine gather_eq_kerVal _ _ _ _ ft fe eb0 heb hT hea hfe y _ ?_ ?_ ?_ ?_
  · show 0 + 1 * (y 0).val = (y 0).val; omega
  · show eb0 + 1 * (y 1).val = eb0 + (y 1).val; omega
  · show 0 + 1 * (y 2).val = (y 2).val; omega
  · show 0 + 1 * (y 3).val = (y 3).val; omega

/-! ## The offsets, at the chunk's first block -/

/-- The first fetch of slot 0 reads chunk 0 … -/
theorem off1_val (L : grid0.Coords) (r : Fin 3) :
    (k0_off1 L (BitVec.ofNat 32 (800000 * r.val))) 0 = 800000 * r.val + 128 * lo (2 * (L 1).val + (L 0).val) := by
  rw [k0_off1_eq]
  show 800000 * r.val + 49920 * (L 1).val + 24960 * (L 0).val + 128 * (min (2 * (L 1).val + (L 0).val) 10) = _
  unfold lo; omega
/-- … and slot 1's reads chunk 1. -/
theorem off2_val (L : grid0.Coords) (r : Fin 3) :
    (k0_off2 L (BitVec.ofNat 32 (800000 * r.val))) 0 = 800000 * r.val + 128 * (lo (2 * (L 1).val + (L 0).val) + 6) := by
  rw [k0_off2_eq]
  show 800000 * r.val + 49920 * (L 1).val + 24960 * (L 0).val + 128 * (min (2 * (L 1).val + (L 0).val) 10) + 768 = _
  unfold lo; omega
/-- The fetch slot 0 issues at trip `j` reads chunk 2 (j + 1) while there is a trip `j + 1`: the minimum with the
    last chunk's start is not attained. -/
theorem off71_val (L : grid0.Coords) (j : Fin k0_t1_loop.trips) (hj : j.val + 1 < 16) (r : Fin 3) :
    (k0_off71 L j (BitVec.ofNat 32 (800000 * r.val))) 0
      = 800000 * r.val + 128 * (lo (2 * (L 1).val + (L 0).val) + 12 * (j.val + 1)) := by
  rw [k0_off71_eq]
  show 800000 * r.val + 16 * (min (3120 * (L 1).val + 1560 * (L 0).val + 8 * (min (2 * (L 1).val + (L 0).val) 10) + 96 * j.val + 96)
      (3120 * (L 1).val + 1560 * (L 0).val + 8 * (min (2 * (L 1).val + (L 0).val) 10)
        + 8 * (if 2 * (L 1).val + (L 0).val < 10 then 1 else 0) + 1512)) = _
  unfold lo
  split <;> omega
/-- The fetch slot 1 issues at trip `j` reads chunk 2 (j + 1) + 1 while there is a trip `j + 1` … -/
theorem off140_val (L : grid0.Coords) (j : Fin k0_t1_loop.trips) (hj : j.val + 1 < 16) (r : Fin 3) :
    (k0_off140 L j (BitVec.ofNat 32 (800000 * r.val))) 0
      = 800000 * r.val + 128 * (lo (2 * (L 1).val + (L 0).val) + 12 * (j.val + 1) + 6) := by
  rw [k0_off140_eq]
  show 800000 * r.val + 16 * (min (3120 * (L 1).val + 1560 * (L 0).val + 8 * (min (2 * (L 1).val + (L 0).val) 10) + 96 * j.val + 144)
      (3120 * (L 1).val + 1560 * (L 0).val + 8 * (min (2 * (L 1).val + (L 0).val) 10)
        + 8 * (if 2 * (L 1).val + (L 0).val < 10 then 1 else 0) + 1512)) = _
  unfold lo
  split <;> omega
/-- … and at the last trip the last chunk, which ends with the subcore's share. -/
theorem off140_tail (L : grid0.Coords) (j : Fin k0_t1_loop.trips) (hj : j.val = 15) (r : Fin 3) :
    (k0_off140 L j (BitVec.ofNat 32 (800000 * r.val))) 0
      = 800000 * r.val + 128 * (lo (2 * (L 1).val + (L 0).val + 1) - 6) := by
  rw [k0_off140_eq]
  show 800000 * r.val + 16 * (min (3120 * (L 1).val + 1560 * (L 0).val + 8 * (min (2 * (L 1).val + (L 0).val) 10) + 96 * j.val + 144)
      (3120 * (L 1).val + 1560 * (L 0).val + 8 * (min (2 * (L 1).val + (L 0).val) 10)
        + 8 * (if 2 * (L 1).val + (L 0).val < 10 then 1 else 0) + 1512)) = _
  unfold lo
  split <;> omega

/-! ## The thirds of an attribute scratch, and the scratch from its thirds -/

local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)

/-- A third of attribute scratch 5, read at local word `p`: the scratch at the third's offset plus `p`. -/
theorem third5_read (o : ℕ) (hb : ∀ a, (![o] : Fin 1 → ℕ) a + S768.size a ≤ S2304.size a)
    (fa : (b5W).view.ty.Contents (Elt F)) (p : ℕ) (hp : p < 768) :
    ((b5W).slice (Rect.unit (s := S2304) ![o] S768.size hb) (fun _ => rfl)).view.read (Elt F) fa (ix1 ⟨p, hp⟩)
      = at1 (N := 2304) fa (o + p) := by
  rw [View.read_apply]
  unfold at1
  refine congrArg fa (funext fun a => ?_)
  match a with
  | ⟨0, _⟩ =>
  refine Fin.ext ?_
  have h0 : o + 768 ≤ 2304 := hb 0
  show o + 1 * p = (o + p) % 2304
  omega

/-- A third of attribute scratch 6, read at local word `p`: the scratch at the third's offset plus `p`. -/
theorem third6_read (o : ℕ) (hb : ∀ a, (![o] : Fin 1 → ℕ) a + S768.size a ≤ S2304.size a)
    (fa : (b6W).view.ty.Contents (Elt F)) (p : ℕ) (hp : p < 768) :
    ((b6W).slice (Rect.unit (s := S2304) ![o] S768.size hb) (fun _ => rfl)).view.read (Elt F) fa (ix1 ⟨p, hp⟩)
      = at1 (N := 2304) fa (o + p) := by
  rw [View.read_apply]
  unfold at1
  refine congrArg fa (funext fun a => ?_)
  match a with
  | ⟨0, _⟩ =>
  refine Fin.ext ?_
  have h0 : o + 768 ≤ 2304 := hb 0
  show o + 1 * p = (o + p) % 2304
  omega

/-- The scratch joined from its three thirds' contents holds, at word 768·f + p, the attribute array's word
    800000·f + 128·b₀ + p, when third f holds the array's words from 800000·f + 128·b₀ on. -/
theorem hfe_of_thirds (fe : IVec S2304 32) (eb0 : ℕ) (fa fb fc : IVec S2304 32)
    (hjoin : ∀ i : S2304.Idx, fe i = if (i 0).val < 768 then fa i else if (i 0).val < 1536 then fb i else fc i)
    (hA : ∀ p, p < 768 → at1 fa p = at1 ea (128 * eb0 + p))
    (hB : ∀ p, p < 768 → at1 fb (768 + p) = at1 ea (800000 + 128 * eb0 + p))
    (hC : ∀ p, p < 768 → at1 fc (1536 + p) = at1 ea (1600000 + 128 * eb0 + p)) :
    ∀ f p, f < 3 → p < 768 → at1 fe (768 * f + p) = at1 ea (800000 * f + 128 * eb0 + p) := by
  intro f p hf hp
  have hf' : f = 0 ∨ f = 1 ∨ f = 2 := by omega
  rcases hf' with rfl | rfl | rfl
  · have h := hjoin (ix1 (Fin.ofNat 2304 (768 * 0 + p)))
    rw [if_pos (by show (768 * 0 + p) % 2304 < 768; omega)] at h
    show fe (ix1 (Fin.ofNat 2304 (768 * 0 + p))) = _
    rw [h, show 768 * 0 + p = p by omega, show 800000 * 0 + 128 * eb0 + p = 128 * eb0 + p by omega]
    exact hA p hp
  · have h := hjoin (ix1 (Fin.ofNat 2304 (768 * 1 + p)))
    rw [if_neg (by show ¬ (768 * 1 + p) % 2304 < 768; omega), if_pos (by show (768 * 1 + p) % 2304 < 1536; omega)] at h
    show fe (ix1 (Fin.ofNat 2304 (768 * 1 + p))) = _
    rw [h, show 768 * 1 + p = 768 + p by omega, show 800000 * 1 + 128 * eb0 + p = 800000 + 128 * eb0 + p by omega]
    exact hB p hp
  · have h := hjoin (ix1 (Fin.ofNat 2304 (768 * 2 + p)))
    rw [if_neg (by show ¬ (768 * 2 + p) % 2304 < 768; omega), if_neg (by show ¬ (768 * 2 + p) % 2304 < 1536; omega)] at h
    show fe (ix1 (Fin.ofNat 2304 (768 * 2 + p))) = _
    rw [h, show 768 * 2 + p = 1536 + p by omega, show 800000 * 2 + 128 * eb0 + p = 1600000 + 128 * eb0 + p by omega]
    exact hC p hp

/-! ## The landing facts of the outer loop -/

/-- Trip 0, slot 0: chunk 0's window. -/
theorem hland0z (ft : FVec F S4096 .f32) (hT : TabT w0 w1 w2 ft) (hea : ∀ n, ea n = 0#32 ∨ ea n = 1#32)
    (L : grid0.Coords) (h0 : 0 < k0_t1_loop.trips)
    (ga gb gc LA LB LC : (b5W).view.ty.Contents (Elt F))
    (hLA : LA = ((b5W).slice (Rect.unit (s := S2304) ![0] S768.size inb_S2304_S768_0) (fun _ => rfl)).view.writes (Elt F) ga
            [⟨Rect.whole S768, ReadAs.same.apply (((eaW).slice (Rect.unit (s := S2400000) (k0_off1 L 0#32) S768.size (k0_off1_inb L 0)) (fun _ => rfl)).view.read (Elt F) ea)⟩])
    (hLB : LB = ((b5W).slice (Rect.unit (s := S2304) ![768] S768.size inb_S2304_S768_768) (fun _ => rfl)).view.writes (Elt F) gb
            [⟨Rect.whole S768, ReadAs.same.apply (((eaW).slice (Rect.unit (s := S2400000) (k0_off1 L 800000#32) S768.size (k0_off1_inb L 1)) (fun _ => rfl)).view.read (Elt F) ea)⟩])
    (hLC : LC = ((b5W).slice (Rect.unit (s := S2304) ![1536] S768.size inb_S2304_S768_1536) (fun _ => rfl)).view.writes (Elt F) gc
            [⟨Rect.whole S768, ReadAs.same.apply (((eaW).slice (Rect.unit (s := S2400000) (k0_off1 L 1600000#32) S768.size (k0_off1_inb L 2)) (fun _ => rfl)).view.read (Elt F) ea)⟩])
    {κ : Kind} {sp : Space} (bv : View sig κ sp S8x6x8x128 .f32) (f : bv.ty.Contents (Elt F))
    (gk : ((oW).slice (Rect.unit (s := S8x6250x8x128) (k0_off70 L ⟨0, h0⟩) S8x6x8x128.size (k0_off70_inb L ⟨0, h0⟩)) (fun _ => rfl)).view.ty.Contents (Elt F))
    (fe : IVec S2304 32)
    (hjoin : ∀ i : S2304.Idx, fe i = if (i 0).val < 768 then LA i else if (i 0).val < 1536 then LB i else LC i)
    (hR : ∀ y, bv.read (Elt F) f y = gatherVal ft fe y)
    (Wn : Finset ((oW).slice (Rect.unit (s := S8x6250x8x128) (k0_off70 L ⟨0, h0⟩) S8x6x8x128.size (k0_off70_inb L ⟨0, h0⟩)) (fun _ => rfl)).view.ty.Idx) (hW : ((oW).slice (Rect.unit (s := S8x6250x8x128) (k0_off70 L ⟨0, h0⟩) S8x6x8x128.size (k0_off70_inb L ⟨0, h0⟩)) (fun _ => rfl)).view.set = Wn) :
    ∀ x ∈ Wn, ((oW).slice (Rect.unit (s := S8x6250x8x128) (k0_off70 L ⟨0, h0⟩) S8x6x8x128.size (k0_off70_inb L ⟨0, h0⟩)) (fun _ => rfl)).view.writes (Elt F) gk
        [⟨Rect.whole S8x6x8x128, ReadAs.same.apply (bv.read (Elt F) f)⟩] x = kerVal ea w0 w1 w2 x := by
  subst hW hLA hLB hLC
  have hL1 : (L 1).val < 16 := (L 1).isLt
  have hL0 : (L 0).val < 2 := (L 0).isLt

  have heb : lo (2 * (L 1).val + (L 0).val) + 12 * 0 + 6 ≤ 6250 := by
    have := chunks_le (2 * (L 1).val + (L 0).val) 0 (by omega); have := lo_succ_le (2 * (L 1).val + (L 0).val) (by omega); omega
  have oA : (k0_off1 L 0#32) 0 = 800000 * 0 + 128 * (lo (2 * (L 1).val + (L 0).val) + 12 * 0) := (off1_val L 0).trans (by omega)
  have oB : (k0_off1 L 800000#32) 0 = 800000 * 1 + 128 * (lo (2 * (L 1).val + (L 0).val) + 12 * 0) := (off1_val L 1).trans (by omega)
  have oC : (k0_off1 L 1600000#32) 0 = 800000 * 2 + 128 * (lo (2 * (L 1).val + (L 0).val) + 12 * 0) := (off1_val L 2).trans (by omega)
  refine landedO_kerVal ea w0 w1 w2 ft hT hea fe (lo (2 * (L 1).val + (L 0).val) + 12 * 0) heb ?_ _ _ (k0_off70_eq L ⟨0, h0⟩) bv f hR gk
  refine hfe_of_thirds ea fe (lo (2 * (L 1).val + (L 0).val) + 12 * 0) _ _ _ hjoin (fun p hp => ?_) (fun p hp => ?_) (fun p hp => ?_)
  · have e1 := third5_read (F := F) 0 inb_S2304_S768_0 (((b5W).slice (Rect.unit (s := S2304) ![0] S768.size inb_S2304_S768_0) (fun _ => rfl)).view.writes (Elt F) ga
            [⟨Rect.whole S768, ReadAs.same.apply (((eaW).slice (Rect.unit (s := S2400000) (k0_off1 L 0#32) S768.size (k0_off1_inb L 0)) (fun _ => rfl)).view.read (Elt F) ea)⟩]) p hp
    have e2 := landedE_read ea ((b5W).slice (Rect.unit (s := S2304) ![0] S768.size inb_S2304_S768_0) (fun _ => rfl)).view ga (k0_off1 L 0#32) (k0_off1_inb L 0) p hp
    rw [e1, oA] at e2
    rw [show (0 + p) = p by omega] at e2
    rw [e2]; congr 1; omega
  · have e1 := third5_read (F := F) 768 inb_S2304_S768_768 (((b5W).slice (Rect.unit (s := S2304) ![768] S768.size inb_S2304_S768_768) (fun _ => rfl)).view.writes (Elt F) gb
            [⟨Rect.whole S768, ReadAs.same.apply (((eaW).slice (Rect.unit (s := S2400000) (k0_off1 L 800000#32) S768.size (k0_off1_inb L 1)) (fun _ => rfl)).view.read (Elt F) ea)⟩]) p hp
    have e2 := landedE_read ea ((b5W).slice (Rect.unit (s := S2304) ![768] S768.size inb_S2304_S768_768) (fun _ => rfl)).view gb (k0_off1 L 800000#32) (k0_off1_inb L 1) p hp
    rw [e1, oB] at e2
    rw [e2]
  · have e1 := third5_read (F := F) 1536 inb_S2304_S768_1536 (((b5W).slice (Rect.unit (s := S2304) ![1536] S768.size inb_S2304_S768_1536) (fun _ => rfl)).view.writes (Elt F) gc
            [⟨Rect.whole S768, ReadAs.same.apply (((eaW).slice (Rect.unit (s := S2400000) (k0_off1 L 1600000#32) S768.size (k0_off1_inb L 2)) (fun _ => rfl)).view.read (Elt F) ea)⟩]) p hp
    have e2 := landedE_read ea ((b5W).slice (Rect.unit (s := S2304) ![1536] S768.size inb_S2304_S768_1536) (fun _ => rfl)).view gc (k0_off1 L 1600000#32) (k0_off1_inb L 2) p hp
    rw [e1, oC] at e2
    rw [e2]

/-- Trip j + 1, slot 0: the window of chunk 2 (j + 1), fetched at trip j. -/
theorem hland0s (ft : FVec F S4096 .f32) (hT : TabT w0 w1 w2 ft) (hea : ∀ n, ea n = 0#32 ∨ ea n = 1#32)
    (L : grid0.Coords) (j : Fin k0_t1_loop.trips) (hj : j.val + 1 < k0_t1_loop.trips)
    (ga gb gc LA LB LC : (b5W).view.ty.Contents (Elt F))
    (hLA : LA = ((b5W).slice (Rect.unit (s := S2304) ![0] S768.size inb_S2304_S768_0) (fun _ => rfl)).view.writes (Elt F) ga
            [⟨Rect.whole S768, ReadAs.same.apply (((eaW).slice (Rect.unit (s := S2400000) (k0_off71 L j 0#32) S768.size (k0_off71_inb L j 0)) (fun _ => rfl)).view.read (Elt F) ea)⟩])
    (hLB : LB = ((b5W).slice (Rect.unit (s := S2304) ![768] S768.size inb_S2304_S768_768) (fun _ => rfl)).view.writes (Elt F) gb
            [⟨Rect.whole S768, ReadAs.same.apply (((eaW).slice (Rect.unit (s := S2400000) (k0_off71 L j 800000#32) S768.size (k0_off71_inb L j 1)) (fun _ => rfl)).view.read (Elt F) ea)⟩])
    (hLC : LC = ((b5W).slice (Rect.unit (s := S2304) ![1536] S768.size inb_S2304_S768_1536) (fun _ => rfl)).view.writes (Elt F) gc
            [⟨Rect.whole S768, ReadAs.same.apply (((eaW).slice (Rect.unit (s := S2400000) (k0_off71 L j 1600000#32) S768.size (k0_off71_inb L j 2)) (fun _ => rfl)).view.read (Elt F) ea)⟩])
    {κ : Kind} {sp : Space} (bv : View sig κ sp S8x6x8x128 .f32) (f : bv.ty.Contents (Elt F))
    (gk : ((oW).slice (Rect.unit (s := S8x6250x8x128) (k0_off70 L ⟨j.val + 1, hj⟩) S8x6x8x128.size (k0_off70_inb L ⟨j.val + 1, hj⟩)) (fun _ => rfl)).view.ty.Contents (Elt F))
    (fe : IVec S2304 32)
    (hjoin : ∀ i : S2304.Idx, fe i = if (i 0).val < 768 then LA i else if (i 0).val < 1536 then LB i else LC i)
    (hR : ∀ y, bv.read (Elt F) f y = gatherVal ft fe y)
    (Wn : Finset ((oW).slice (Rect.unit (s := S8x6250x8x128) (k0_off70 L ⟨j.val + 1, hj⟩) S8x6x8x128.size (k0_off70_inb L ⟨j.val + 1, hj⟩)) (fun _ => rfl)).view.ty.Idx) (hW : ((oW).slice (Rect.unit (s := S8x6250x8x128) (k0_off70 L ⟨j.val + 1, hj⟩) S8x6x8x128.size (k0_off70_inb L ⟨j.val + 1, hj⟩)) (fun _ => rfl)).view.set = Wn) :
    ∀ x ∈ Wn, ((oW).slice (Rect.unit (s := S8x6250x8x128) (k0_off70 L ⟨j.val + 1, hj⟩) S8x6x8x128.size (k0_off70_inb L ⟨j.val + 1, hj⟩)) (fun _ => rfl)).view.writes (Elt F) gk
        [⟨Rect.whole S8x6x8x128, ReadAs.same.apply (bv.read (Elt F) f)⟩] x = kerVal ea w0 w1 w2 x := by
  subst hW hLA hLB hLC
  have hL1 : (L 1).val < 16 := (L 1).isLt
  have hL0 : (L 0).val < 2 := (L 0).isLt
  have hj16 : j.val + 1 < 16 := Nat.lt_of_lt_of_le hj k0_t1_abs.2.1
  have heb : lo (2 * (L 1).val + (L 0).val) + 12 * (j.val + 1) + 6 ≤ 6250 := by
    have := chunks_le (2 * (L 1).val + (L 0).val) (j.val + 1) hj16; have := lo_succ_le (2 * (L 1).val + (L 0).val) (by omega); omega
  have oA : (k0_off71 L j 0#32) 0 = 800000 * 0 + 128 * (lo (2 * (L 1).val + (L 0).val) + 12 * (j.val + 1)) := (off71_val L j hj16 0).trans (by omega)
  have oB : (k0_off71 L j 800000#32) 0 = 800000 * 1 + 128 * (lo (2 * (L 1).val + (L 0).val) + 12 * (j.val + 1)) := (off71_val L j hj16 1).trans (by omega)
  have oC : (k0_off71 L j 1600000#32) 0 = 800000 * 2 + 128 * (lo (2 * (L 1).val + (L 0).val) + 12 * (j.val + 1)) := (off71_val L j hj16 2).trans (by omega)
  refine landedO_kerVal ea w0 w1 w2 ft hT hea fe (lo (2 * (L 1).val + (L 0).val) + 12 * (j.val + 1)) heb ?_ _ _ (k0_off70_eq L ⟨j.val + 1, hj⟩) bv f hR gk
  refine hfe_of_thirds ea fe (lo (2 * (L 1).val + (L 0).val) + 12 * (j.val + 1)) _ _ _ hjoin (fun p hp => ?_) (fun p hp => ?_) (fun p hp => ?_)
  · have e1 := third5_read (F := F) 0 inb_S2304_S768_0 (((b5W).slice (Rect.unit (s := S2304) ![0] S768.size inb_S2304_S768_0) (fun _ => rfl)).view.writes (Elt F) ga
            [⟨Rect.whole S768, ReadAs.same.apply (((eaW).slice (Rect.unit (s := S2400000) (k0_off71 L j 0#32) S768.size (k0_off71_inb L j 0)) (fun _ => rfl)).view.read (Elt F) ea)⟩]) p hp
    have e2 := landedE_read ea ((b5W).slice (Rect.unit (s := S2304) ![0] S768.size inb_S2304_S768_0) (fun _ => rfl)).view ga (k0_off71 L j 0#32) (k0_off71_inb L j 0) p hp
    rw [e1, oA] at e2
    rw [show (0 + p) = p by omega] at e2
    rw [e2]; congr 1; omega
  · have e1 := third5_read (F := F) 768 inb_S2304_S768_768 (((b5W).slice (Rect.unit (s := S2304) ![768] S768.size inb_S2304_S768_768) (fun _ => rfl)).view.writes (Elt F) gb
            [⟨Rect.whole S768, ReadAs.same.apply (((eaW).slice (Rect.unit (s := S2400000) (k0_off71 L j 800000#32) S768.size (k0_off71_inb L j 1)) (fun _ => rfl)).view.read (Elt F) ea)⟩]) p hp
    have e2 := landedE_read ea ((b5W).slice (Rect.unit (s := S2304) ![768] S768.size inb_S2304_S768_768) (fun _ => rfl)).view gb (k0_off71 L j 800000#32) (k0_off71_inb L j 1) p hp
    rw [e1, oB] at e2
    rw [e2]
  · have e1 := third5_read (F := F) 1536 inb_S2304_S768_1536 (((b5W).slice (Rect.unit (s := S2304) ![1536] S768.size inb_S2304_S768_1536) (fun _ => rfl)).view.writes (Elt F) gc
            [⟨Rect.whole S768, ReadAs.same.apply (((eaW).slice (Rect.unit (s := S2400000) (k0_off71 L j 1600000#32) S768.size (k0_off71_inb L j 2)) (fun _ => rfl)).view.read (Elt F) ea)⟩]) p hp
    have e2 := landedE_read ea ((b5W).slice (Rect.unit (s := S2304) ![1536] S768.size inb_S2304_S768_1536) (fun _ => rfl)).view gc (k0_off71 L j 1600000#32) (k0_off71_inb L j 2) p hp
    rw [e1, oC] at e2
    rw [e2]

/-- Trip 0, slot 1: chunk 1's window. -/
theorem hland1z (ft : FVec F S4096 .f32) (hT : TabT w0 w1 w2 ft) (hea : ∀ n, ea n = 0#32 ∨ ea n = 1#32)
    (L : grid0.Coords) (h0 : 0 < k0_t1_loop.trips)
    (ga gb gc LA LB LC : (b6W).view.ty.Contents (Elt F))
    (hLA : LA = ((b6W).slice (Rect.unit (s := S2304) ![0] S768.size inb_S2304_S768_0) (fun _ => rfl)).view.writes (Elt F) ga
            [⟨Rect.whole S768, ReadAs.same.apply (((eaW).slice (Rect.unit (s := S2400000) (k0_off2 L 0#32) S768.size (k0_off2_inb L 0)) (fun _ => rfl)).view.read (Elt F) ea)⟩])
    (hLB : LB = ((b6W).slice (Rect.unit (s := S2304) ![768] S768.size inb_S2304_S768_768) (fun _ => rfl)).view.writes (Elt F) gb
            [⟨Rect.whole S768, ReadAs.same.apply (((eaW).slice (Rect.unit (s := S2400000) (k0_off2 L 800000#32) S768.size (k0_off2_inb L 1)) (fun _ => rfl)).view.read (Elt F) ea)⟩])
    (hLC : LC = ((b6W).slice (Rect.unit (s := S2304) ![1536] S768.size inb_S2304_S768_1536) (fun _ => rfl)).view.writes (Elt F) gc
            [⟨Rect.whole S768, ReadAs.same.apply (((eaW).slice (Rect.unit (s := S2400000) (k0_off2 L 1600000#32) S768.size (k0_off2_inb L 2)) (fun _ => rfl)).view.read (Elt F) ea)⟩])
    {κ : Kind} {sp : Space} (bv : View sig κ sp S8x6x8x128 .f32) (f : bv.ty.Contents (Elt F))
    (gk : ((oW).slice (Rect.unit (s := S8x6250x8x128) (k0_off139 L ⟨0, h0⟩) S8x6x8x128.size (k0_off139_inb L ⟨0, h0⟩)) (fun _ => rfl)).view.ty.Contents (Elt F))
    (fe : IVec S2304 32)
    (hjoin : ∀ i : S2304.Idx, fe i = if (i 0).val < 768 then LA i else if (i 0).val < 1536 then LB i else LC i)
    (hR : ∀ y, bv.read (Elt F) f y = gatherVal ft fe y)
    (Wn : Finset ((oW).slice (Rect.unit (s := S8x6250x8x128) (k0_off139 L ⟨0, h0⟩) S8x6x8x128.size (k0_off139_inb L ⟨0, h0⟩)) (fun _ => rfl)).view.ty.Idx) (hW : ((oW).slice (Rect.unit (s := S8x6250x8x128) (k0_off139 L ⟨0, h0⟩) S8x6x8x128.size (k0_off139_inb L ⟨0, h0⟩)) (fun _ => rfl)).view.set = Wn) :
    ∀ x ∈ Wn, ((oW).slice (Rect.unit (s := S8x6250x8x128) (k0_off139 L ⟨0, h0⟩) S8x6x8x128.size (k0_off139_inb L ⟨0, h0⟩)) (fun _ => rfl)).view.writes (Elt F) gk
        [⟨Rect.whole S8x6x8x128, ReadAs.same.apply (bv.read (Elt F) f)⟩] x = kerVal ea w0 w1 w2 x := by
  subst hW hLA hLB hLC
  have hL1 : (L 1).val < 16 := (L 1).isLt
  have hL0 : (L 0).val < 2 := (L 0).isLt

  have heb : lo (2 * (L 1).val + (L 0).val) + 12 * 0 + 6 + 6 ≤ 6250 := by
    have := chunks_le (2 * (L 1).val + (L 0).val) 0 (by omega); have := lo_succ_le (2 * (L 1).val + (L 0).val) (by omega); omega
  have oA : (k0_off2 L 0#32) 0 = 800000 * 0 + 128 * (lo (2 * (L 1).val + (L 0).val) + 12 * 0 + 6) := (off2_val L 0).trans (by omega)
  have oB : (k0_off2 L 800000#32) 0 = 800000 * 1 + 128 * (lo (2 * (L 1).val + (L 0).val) + 12 * 0 + 6) := (off2_val L 1).trans (by omega)
  have oC : (k0_off2 L 1600000#32) 0 = 800000 * 2 + 128 * (lo (2 * (L 1).val + (L 0).val) + 12 * 0 + 6) := (off2_val L 2).trans (by omega)
  refine landedO_kerVal ea w0 w1 w2 ft hT hea fe (lo (2 * (L 1).val + (L 0).val) + 12 * 0 + 6) heb ?_ _ _ (k0_off139_eq L ⟨0, h0⟩) bv f hR gk
  refine hfe_of_thirds ea fe (lo (2 * (L 1).val + (L 0).val) + 12 * 0 + 6) _ _ _ hjoin (fun p hp => ?_) (fun p hp => ?_) (fun p hp => ?_)
  · have e1 := third6_read (F := F) 0 inb_S2304_S768_0 (((b6W).slice (Rect.unit (s := S2304) ![0] S768.size inb_S2304_S768_0) (fun _ => rfl)).view.writes (Elt F) ga
            [⟨Rect.whole S768, ReadAs.same.apply (((eaW).slice (Rect.unit (s := S2400000) (k0_off2 L 0#32) S768.size (k0_off2_inb L 0)) (fun _ => rfl)).view.read (Elt F) ea)⟩]) p hp
    have e2 := landedE_read ea ((b6W).slice (Rect.unit (s := S2304) ![0] S768.size inb_S2304_S768_0) (fun _ => rfl)).view ga (k0_off2 L 0#32) (k0_off2_inb L 0) p hp
    rw [e1, oA] at e2
    rw [show (0 + p) = p by omega] at e2
    rw [e2]; congr 1; omega
  · have e1 := third6_read (F := F) 768 inb_S2304_S768_768 (((b6W).slice (Rect.unit (s := S2304) ![768] S768.size inb_S2304_S768_768) (fun _ => rfl)).view.writes (Elt F) gb
            [⟨Rect.whole S768, ReadAs.same.apply (((eaW).slice (Rect.unit (s := S2400000) (k0_off2 L 800000#32) S768.size (k0_off2_inb L 1)) (fun _ => rfl)).view.read (Elt F) ea)⟩]) p hp
    have e2 := landedE_read ea ((b6W).slice (Rect.unit (s := S2304) ![768] S768.size inb_S2304_S768_768) (fun _ => rfl)).view gb (k0_off2 L 800000#32) (k0_off2_inb L 1) p hp
    rw [e1, oB] at e2
    rw [e2]
  · have e1 := third6_read (F := F) 1536 inb_S2304_S768_1536 (((b6W).slice (Rect.unit (s := S2304) ![1536] S768.size inb_S2304_S768_1536) (fun _ => rfl)).view.writes (Elt F) gc
            [⟨Rect.whole S768, ReadAs.same.apply (((eaW).slice (Rect.unit (s := S2400000) (k0_off2 L 1600000#32) S768.size (k0_off2_inb L 2)) (fun _ => rfl)).view.read (Elt F) ea)⟩]) p hp
    have e2 := landedE_read ea ((b6W).slice (Rect.unit (s := S2304) ![1536] S768.size inb_S2304_S768_1536) (fun _ => rfl)).view gc (k0_off2 L 1600000#32) (k0_off2_inb L 2) p hp
    rw [e1, oC] at e2
    rw [e2]

/-- Trip j + 1, slot 1: the window of chunk 2 (j + 1) + 1, fetched at trip j. -/
theorem hland1s (ft : FVec F S4096 .f32) (hT : TabT w0 w1 w2 ft) (hea : ∀ n, ea n = 0#32 ∨ ea n = 1#32)
    (L : grid0.Coords) (j : Fin k0_t1_loop.trips) (hj : j.val + 1 < k0_t1_loop.trips)
    (ga gb gc LA LB LC : (b6W).view.ty.Contents (Elt F))
    (hLA : LA = ((b6W).slice (Rect.unit (s := S2304) ![0] S768.size inb_S2304_S768_0) (fun _ => rfl)).view.writes (Elt F) ga
            [⟨Rect.whole S768, ReadAs.same.apply (((eaW).slice (Rect.unit (s := S2400000) (k0_off140 L j 0#32) S768.size (k0_off140_inb L j 0)) (fun _ => rfl)).view.read (Elt F) ea)⟩])
    (hLB : LB = ((b6W).slice (Rect.unit (s := S2304) ![768] S768.size inb_S2304_S768_768) (fun _ => rfl)).view.writes (Elt F) gb
            [⟨Rect.whole S768, ReadAs.same.apply (((eaW).slice (Rect.unit (s := S2400000) (k0_off140 L j 800000#32) S768.size (k0_off140_inb L j 1)) (fun _ => rfl)).view.read (Elt F) ea)⟩])
    (hLC : LC = ((b6W).slice (Rect.unit (s := S2304) ![1536] S768.size inb_S2304_S768_1536) (fun _ => rfl)).view.writes (Elt F) gc
            [⟨Rect.whole S768, ReadAs.same.apply (((eaW).slice (Rect.unit (s := S2400000) (k0_off140 L j 1600000#32) S768.size (k0_off140_inb L j 2)) (fun _ => rfl)).view.read (Elt F) ea)⟩])
    {κ : Kind} {sp : Space} (bv : View sig κ sp S8x6x8x128 .f32) (f : bv.ty.Contents (Elt F))
    (gk : ((oW).slice (Rect.unit (s := S8x6250x8x128) (k0_off139 L ⟨j.val + 1, hj⟩) S8x6x8x128.size (k0_off139_inb L ⟨j.val + 1, hj⟩)) (fun _ => rfl)).view.ty.Contents (Elt F))
    (fe : IVec S2304 32)
    (hjoin : ∀ i : S2304.Idx, fe i = if (i 0).val < 768 then LA i else if (i 0).val < 1536 then LB i else LC i)
    (hR : ∀ y, bv.read (Elt F) f y = gatherVal ft fe y)
    (Wn : Finset ((oW).slice (Rect.unit (s := S8x6250x8x128) (k0_off139 L ⟨j.val + 1, hj⟩) S8x6x8x128.size (k0_off139_inb L ⟨j.val + 1, hj⟩)) (fun _ => rfl)).view.ty.Idx) (hW : ((oW).slice (Rect.unit (s := S8x6250x8x128) (k0_off139 L ⟨j.val + 1, hj⟩) S8x6x8x128.size (k0_off139_inb L ⟨j.val + 1, hj⟩)) (fun _ => rfl)).view.set = Wn) :
    ∀ x ∈ Wn, ((oW).slice (Rect.unit (s := S8x6250x8x128) (k0_off139 L ⟨j.val + 1, hj⟩) S8x6x8x128.size (k0_off139_inb L ⟨j.val + 1, hj⟩)) (fun _ => rfl)).view.writes (Elt F) gk
        [⟨Rect.whole S8x6x8x128, ReadAs.same.apply (bv.read (Elt F) f)⟩] x = kerVal ea w0 w1 w2 x := by
  subst hW hLA hLB hLC
  have hL1 : (L 1).val < 16 := (L 1).isLt
  have hL0 : (L 0).val < 2 := (L 0).isLt
  have hj16 : j.val + 1 < 16 := Nat.lt_of_lt_of_le hj k0_t1_abs.2.1
  have heb : lo (2 * (L 1).val + (L 0).val) + 12 * (j.val + 1) + 6 + 6 ≤ 6250 := by
    have := chunks_le (2 * (L 1).val + (L 0).val) (j.val + 1) hj16; have := lo_succ_le (2 * (L 1).val + (L 0).val) (by omega); omega
  have oA : (k0_off140 L j 0#32) 0 = 800000 * 0 + 128 * (lo (2 * (L 1).val + (L 0).val) + 12 * (j.val + 1) + 6) := (off140_val L j hj16 0).trans (by omega)
  have oB : (k0_off140 L j 800000#32) 0 = 800000 * 1 + 128 * (lo (2 * (L 1).val + (L 0).val) + 12 * (j.val + 1) + 6) := (off140_val L j hj16 1).trans (by omega)
  have oC : (k0_off140 L j 1600000#32) 0 = 800000 * 2 + 128 * (lo (2 * (L 1).val + (L 0).val) + 12 * (j.val + 1) + 6) := (off140_val L j hj16 2).trans (by omega)
  refine landedO_kerVal ea w0 w1 w2 ft hT hea fe (lo (2 * (L 1).val + (L 0).val) + 12 * (j.val + 1) + 6) heb ?_ _ _ (k0_off139_eq L ⟨j.val + 1, hj⟩) bv f hR gk
  refine hfe_of_thirds ea fe (lo (2 * (L 1).val + (L 0).val) + 12 * (j.val + 1) + 6) _ _ _ hjoin (fun p hp => ?_) (fun p hp => ?_) (fun p hp => ?_)
  · have e1 := third6_read (F := F) 0 inb_S2304_S768_0 (((b6W).slice (Rect.unit (s := S2304) ![0] S768.size inb_S2304_S768_0) (fun _ => rfl)).view.writes (Elt F) ga
            [⟨Rect.whole S768, ReadAs.same.apply (((eaW).slice (Rect.unit (s := S2400000) (k0_off140 L j 0#32) S768.size (k0_off140_inb L j 0)) (fun _ => rfl)).view.read (Elt F) ea)⟩]) p hp
    have e2 := landedE_read ea ((b6W).slice (Rect.unit (s := S2304) ![0] S768.size inb_S2304_S768_0) (fun _ => rfl)).view ga (k0_off140 L j 0#32) (k0_off140_inb L j 0) p hp
    rw [e1, oA] at e2
    rw [show (0 + p) = p by omega] at e2
    rw [e2]; congr 1; omega
  · have e1 := third6_read (F := F) 768 inb_S2304_S768_768 (((b6W).slice (Rect.unit (s := S2304) ![768] S768.size inb_S2304_S768_768) (fun _ => rfl)).view.writes (Elt F) gb
            [⟨Rect.whole S768, ReadAs.same.apply (((eaW).slice (Rect.unit (s := S2400000) (k0_off140 L j 800000#32) S768.size (k0_off140_inb L j 1)) (fun _ => rfl)).view.read (Elt F) ea)⟩]) p hp
    have e2 := landedE_read ea ((b6W).slice (Rect.unit (s := S2304) ![768] S768.size inb_S2304_S768_768) (fun _ => rfl)).view gb (k0_off140 L j 800000#32) (k0_off140_inb L j 1) p hp
    rw [e1, oB] at e2
    rw [e2]
  · have e1 := third6_read (F := F) 1536 inb_S2304_S768_1536 (((b6W).slice (Rect.unit (s := S2304) ![1536] S768.size inb_S2304_S768_1536) (fun _ => rfl)).view.writes (Elt F) gc
            [⟨Rect.whole S768, ReadAs.same.apply (((eaW).slice (Rect.unit (s := S2400000) (k0_off140 L j 1600000#32) S768.size (k0_off140_inb L j 2)) (fun _ => rfl)).view.read (Elt F) ea)⟩]) p hp
    have e2 := landedE_read ea ((b6W).slice (Rect.unit (s := S2304) ![1536] S768.size inb_S2304_S768_1536) (fun _ => rfl)).view gc (k0_off140 L j 1600000#32) (k0_off140_inb L j 2) p hp
    rw [e1, oC] at e2
    rw [e2]

/-- After the loop: the last chunk's window, its attributes fetched by slot 1 at the last trip. -/
theorem hlandTail (ft : FVec F S4096 .f32) (hT : TabT w0 w1 w2 ft) (hea : ∀ n, ea n = 0#32 ∨ ea n = 1#32)
    (L : grid0.Coords) (j : Fin k0_t1_loop.trips) (hj15 : j.val = 15) (inb141 : ∀ a, (k0_off141 L) a + S8x6x8x128.size a ≤ S8x6250x8x128.size a)
    (ga gb gc LA LB LC : (b6W).view.ty.Contents (Elt F))
    (hLA : LA = ((b6W).slice (Rect.unit (s := S2304) ![0] S768.size inb_S2304_S768_0) (fun _ => rfl)).view.writes (Elt F) ga
            [⟨Rect.whole S768, ReadAs.same.apply (((eaW).slice (Rect.unit (s := S2400000) (k0_off140 L j 0#32) S768.size (k0_off140_inb L j 0)) (fun _ => rfl)).view.read (Elt F) ea)⟩])
    (hLB : LB = ((b6W).slice (Rect.unit (s := S2304) ![768] S768.size inb_S2304_S768_768) (fun _ => rfl)).view.writes (Elt F) gb
            [⟨Rect.whole S768, ReadAs.same.apply (((eaW).slice (Rect.unit (s := S2400000) (k0_off140 L j 800000#32) S768.size (k0_off140_inb L j 1)) (fun _ => rfl)).view.read (Elt F) ea)⟩])
    (hLC : LC = ((b6W).slice (Rect.unit (s := S2304) ![1536] S768.size inb_S2304_S768_1536) (fun _ => rfl)).view.writes (Elt F) gc
            [⟨Rect.whole S768, ReadAs.same.apply (((eaW).slice (Rect.unit (s := S2400000) (k0_off140 L j 1600000#32) S768.size (k0_off140_inb L j 2)) (fun _ => rfl)).view.read (Elt F) ea)⟩])
    {κ : Kind} {sp : Space} (bv : View sig κ sp S8x6x8x128 .f32) (f : bv.ty.Contents (Elt F))
    (gk : ((oW).slice (Rect.unit (s := S8x6250x8x128) (k0_off141 L) S8x6x8x128.size (inb141)) (fun _ => rfl)).view.ty.Contents (Elt F))
    (fe : IVec S2304 32)
    (hjoin : ∀ i : S2304.Idx, fe i = if (i 0).val < 768 then LA i else if (i 0).val < 1536 then LB i else LC i)
    (hR : ∀ y, bv.read (Elt F) f y = gatherVal ft fe y)
    (Wn : Finset ((oW).slice (Rect.unit (s := S8x6250x8x128) (k0_off141 L) S8x6x8x128.size (inb141)) (fun _ => rfl)).view.ty.Idx) (hW : ((oW).slice (Rect.unit (s := S8x6250x8x128) (k0_off141 L) S8x6x8x128.size (inb141)) (fun _ => rfl)).view.set = Wn) :
    ∀ x ∈ Wn, ((oW).slice (Rect.unit (s := S8x6250x8x128) (k0_off141 L) S8x6x8x128.size (inb141)) (fun _ => rfl)).view.writes (Elt F) gk
        [⟨Rect.whole S8x6x8x128, ReadAs.same.apply (bv.read (Elt F) f)⟩] x = kerVal ea w0 w1 w2 x := by
  subst hW hLA hLB hLC
  have hL1 : (L 1).val < 16 := (L 1).isLt
  have hL0 : (L 0).val < 2 := (L 0).isLt

  have heb : lo (2 * (L 1).val + (L 0).val + 1) - 6 + 6 ≤ 6250 := by
    have := tail_end (2 * (L 1).val + (L 0).val); have := lo_succ_le (2 * (L 1).val + (L 0).val) (by omega); omega
  have oA : (k0_off140 L j 0#32) 0 = 800000 * 0 + 128 * (lo (2 * (L 1).val + (L 0).val + 1) - 6) := (off140_tail L j hj15 0).trans (by omega)
  have oB : (k0_off140 L j 800000#32) 0 = 800000 * 1 + 128 * (lo (2 * (L 1).val + (L 0).val + 1) - 6) := (off140_tail L j hj15 1).trans (by omega)
  have oC : (k0_off140 L j 1600000#32) 0 = 800000 * 2 + 128 * (lo (2 * (L 1).val + (L 0).val + 1) - 6) := (off140_tail L j hj15 2).trans (by omega)
  refine landedO_kerVal ea w0 w1 w2 ft hT hea fe (lo (2 * (L 1).val + (L 0).val + 1) - 6) heb ?_ _ _ (k0_off141_eq L) bv f hR gk
  refine hfe_of_thirds ea fe (lo (2 * (L 1).val + (L 0).val + 1) - 6) _ _ _ hjoin (fun p hp => ?_) (fun p hp => ?_) (fun p hp => ?_)
  · have e1 := third6_read (F := F) 0 inb_S2304_S768_0 (((b6W).slice (Rect.unit (s := S2304) ![0] S768.size inb_S2304_S768_0) (fun _ => rfl)).view.writes (Elt F) ga
            [⟨Rect.whole S768, ReadAs.same.apply (((eaW).slice (Rect.unit (s := S2400000) (k0_off140 L j 0#32) S768.size (k0_off140_inb L j 0)) (fun _ => rfl)).view.read (Elt F) ea)⟩]) p hp
    have e2 := landedE_read ea ((b6W).slice (Rect.unit (s := S2304) ![0] S768.size inb_S2304_S768_0) (fun _ => rfl)).view ga (k0_off140 L j 0#32) (k0_off140_inb L j 0) p hp
    rw [e1, oA] at e2
    rw [show (0 + p) = p by omega] at e2
    rw [e2]; congr 1; omega
  · have e1 := third6_read (F := F) 768 inb_S2304_S768_768 (((b6W).slice (Rect.unit (s := S2304) ![768] S768.size inb_S2304_S768_768) (fun _ => rfl)).view.writes (Elt F) gb
            [⟨Rect.whole S768, ReadAs.same.apply (((eaW).slice (Rect.unit (s := S2400000) (k0_off140 L j 800000#32) S768.size (k0_off140_inb L j 1)) (fun _ => rfl)).view.read (Elt F) ea)⟩]) p hp
    have e2 := landedE_read ea ((b6W).slice (Rect.unit (s := S2304) ![768] S768.size inb_S2304_S768_768) (fun _ => rfl)).view gb (k0_off140 L j 800000#32) (k0_off140_inb L j 1) p hp
    rw [e1, oB] at e2
    rw [e2]
  · have e1 := third6_read (F := F) 1536 inb_S2304_S768_1536 (((b6W).slice (Rect.unit (s := S2304) ![1536] S768.size inb_S2304_S768_1536) (fun _ => rfl)).view.writes (Elt F) gc
            [⟨Rect.whole S768, ReadAs.same.apply (((eaW).slice (Rect.unit (s := S2400000) (k0_off140 L j 1600000#32) S768.size (k0_off140_inb L j 2)) (fun _ => rfl)).view.read (Elt F) ea)⟩]) p hp
    have e2 := landedE_read ea ((b6W).slice (Rect.unit (s := S2304) ![1536] S768.size inb_S2304_S768_1536) (fun _ => rfl)).view gc (k0_off140 L j 1600000#32) (k0_off140_inb L j 2) p hp
    rw [e1, oC] at e2
    rw [e2]

end Cert.Proof.KI

end
-- ==== Proof.WindowsKI.lean ====
/-
  A subcore's blocks as the windows its chunks write. Subcore number w owns the blocks lo w … lo (w + 1) − 1, 195 or
  196 of them. Its 32 whole chunks are the six-block windows at lo w + 6·k, k < 32 (the blocks lo w … lo w + 191):
  chunk 2·t is written through one slot and chunk 2·t + 1 through the other, t < 16. The last chunk is the window
  that ends with the share, at lo (w + 1) − 6; it overlaps the window of chunk 31. The 32 windows are pairwise apart
  and lie in the share, and together with the last window they cover it. A points-to on the share therefore splits
  into the two slots' sixteen windows each and the three or four blocks left, and joins back at whatever contents
  the windows come back with; and once the last window is rewritten, every element of the share holds the value the
  chunks were to leave.
-/
import proofs.«203789_g40862318854646_cont_8to1_b_1018_13_alg».proof.Proof.SetupKI
import proofs.«203789_g40862318854646_cont_8to1_b_1018_13_alg».proof.Proof.OffsKI
import proofs.«203789_g40862318854646_cont_8to1_b_1018_13_alg».proof.Proof.GoodKI

noncomputable section

namespace Cert.Proof.KI

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## The windows as sets -/

/-- The elements of the six blocks from block `b`. -/
def win (b : ℕ) : Finset S8x6250x8x128.Idx := Finset.univ.filter (fun j => b ≤ (j 1).val ∧ (j 1).val < b + 6)

theorem mem_win {b : ℕ} {j : S8x6250x8x128.Idx} : j ∈ win b ↔ b ≤ (j 1).val ∧ (j 1).val < b + 6 := by
  unfold win; rw [Finset.mem_filter]; exact ⟨fun h => h.2, fun h => ⟨Finset.mem_univ _, h⟩⟩

theorem mem_blocksOf {w : ℕ} {j : S8x6250x8x128.Idx} : j ∈ blocksOf w ↔ lo w ≤ (j 1).val ∧ (j 1).val < lo (w + 1) := by
  unfold blocksOf; rw [Finset.mem_filter]; exact ⟨fun h => h.2, fun h => ⟨Finset.mem_univ _, h⟩⟩

/-- Windows six or more blocks apart share no element. -/
theorem win_disjoint {a b : ℕ} (h : a + 6 ≤ b ∨ b + 6 ≤ a) : Disjoint (win a) (win b) := by
  rw [Finset.disjoint_left]
  intro j ha hb
  rw [mem_win] at ha hb
  omega

/-- A window inside a share lies in the subcore's blocks. -/
theorem win_subset {w b : ℕ} (h1 : lo w ≤ b) (h2 : b + 6 ≤ lo (w + 1)) : win b ⊆ blocksOf w := by
  intro j hj
  rw [mem_win] at hj
  rw [mem_blocksOf]
  omega

/-- The 32 chunk windows are pairwise apart … -/
theorem chunk_disjoint (w : ℕ) {k k' : ℕ} (h : k ≠ k') : Disjoint (win (lo w + 6 * k)) (win (lo w + 6 * k')) :=
  win_disjoint (by omega)

/-- … and lie in the share. -/
theorem chunk_subset (w : ℕ) {k : ℕ} (hk : k < 32) : win (lo w + 6 * k) ⊆ blocksOf w :=
  win_subset (by omega) (by unfold lo; omega)

/-- The last window lies in the share. -/
theorem tail_subset (w : ℕ) : win (lo (w + 1) - 6) ⊆ blocksOf w :=
  win_subset (tail_ge w) (by rw [tail_end])

/-- One slot's sixteen windows (chunks `2·t`) and the other's (chunks `2·t + 1`). -/
def evenWins (w : ℕ) : Finset S8x6250x8x128.Idx := (Finset.univ : Finset (Fin 16)).biUnion fun t => win (lo w + 12 * t.val)
def oddWins (w : ℕ) : Finset S8x6250x8x128.Idx := (Finset.univ : Finset (Fin 16)).biUnion fun t => win (lo w + 12 * t.val + 6)

/-- The union of the 32 chunk windows: the blocks `lo w … lo w + 191`. -/
def chunkWins (w : ℕ) : Finset S8x6250x8x128.Idx := evenWins w ∪ oddWins w

/-- The blocks of the share after the 32 chunks: three or four. -/
def chunkRest (w : ℕ) : Finset S8x6250x8x128.Idx := blocksOf w \ chunkWins w

theorem mem_evenWins {w : ℕ} {j : S8x6250x8x128.Idx} : j ∈ evenWins w ↔ ∃ t : Fin 16, j ∈ win (lo w + 12 * t.val) := by
  unfold evenWins; rw [Finset.mem_biUnion]; exact ⟨fun ⟨t, _, h⟩ => ⟨t, h⟩, fun ⟨t, h⟩ => ⟨t, Finset.mem_univ _, h⟩⟩

theorem mem_oddWins {w : ℕ} {j : S8x6250x8x128.Idx} : j ∈ oddWins w ↔ ∃ t : Fin 16, j ∈ win (lo w + 12 * t.val + 6) := by
  unfold oddWins; rw [Finset.mem_biUnion]; exact ⟨fun ⟨t, _, h⟩ => ⟨t, h⟩, fun ⟨t, h⟩ => ⟨t, Finset.mem_univ _, h⟩⟩

/-- An element of the union lies in the window of some chunk `k < 32`, and conversely. -/
theorem mem_chunkWins {w : ℕ} {j : S8x6250x8x128.Idx} : j ∈ chunkWins w ↔ ∃ k, k < 32 ∧ j ∈ win (lo w + 6 * k) := by
  unfold chunkWins
  rw [Finset.mem_union, mem_evenWins, mem_oddWins]
  constructor
  · rintro (⟨t, h⟩ | ⟨t, h⟩)
    · exact ⟨2 * t.val, by omega, by rw [show lo w + 6 * (2 * t.val) = lo w + 12 * t.val by omega]; exact h⟩
    · exact ⟨2 * t.val + 1, by omega, by rw [show lo w + 6 * (2 * t.val + 1) = lo w + 12 * t.val + 6 by omega]; exact h⟩
  · rintro ⟨k, hk, h⟩
    rcases Nat.even_or_odd' k with ⟨t, rfl | rfl⟩
    · exact .inl ⟨⟨t, by omega⟩, by rw [show lo w + 12 * t = lo w + 6 * (2 * t) by omega]; exact h⟩
    · exact .inr ⟨⟨t, by omega⟩, by rw [show lo w + 12 * t + 6 = lo w + 6 * (2 * t + 1) by omega]; exact h⟩

/-- The union of the chunk windows is the blocks `lo w … lo w + 191`. -/
theorem mem_chunkWins' {w : ℕ} {j : S8x6250x8x128.Idx} : j ∈ chunkWins w ↔ lo w ≤ (j 1).val ∧ (j 1).val < lo w + 192 := by
  rw [mem_chunkWins]
  constructor
  · rintro ⟨k, hk, h⟩; rw [mem_win] at h; omega
  · intro h; exact ⟨((j 1).val - lo w) / 6, by omega, by rw [mem_win]; omega⟩

theorem chunkWins_subset (w : ℕ) : chunkWins w ⊆ blocksOf w := by
  intro j hj
  obtain ⟨k, hk, h⟩ := mem_chunkWins.mp hj
  exact chunk_subset w hk h

/-- The share is its 32 chunk windows and the rest. -/
theorem blocksOf_eq (w : ℕ) : blocksOf w = chunkWins w ∪ chunkRest w := by
  unfold chunkRest; rw [Finset.union_sdiff_of_subset (chunkWins_subset w)]

theorem chunkRest_disjoint (w : ℕ) : Disjoint (chunkWins w) (chunkRest w) := Finset.disjoint_sdiff

theorem even_odd_disjoint (w : ℕ) : Disjoint (evenWins w) (oddWins w) := by
  rw [Finset.disjoint_left]
  intro j he ho
  obtain ⟨t, ht⟩ := mem_evenWins.mp he
  obtain ⟨t', ht'⟩ := mem_oddWins.mp ho
  rw [mem_win] at ht ht'
  omega

theorem even_pairwise (w : ℕ) : ∀ t ∈ (Finset.univ : Finset (Fin 16)), ∀ t' ∈ (Finset.univ : Finset (Fin 16)), t ≠ t' →
    Disjoint (win (lo w + 12 * t.val)) (win (lo w + 12 * t'.val)) := fun t _ t' _ h =>
  win_disjoint (by have : t.val ≠ t'.val := fun e => h (Fin.ext e); omega)

theorem odd_pairwise (w : ℕ) : ∀ t ∈ (Finset.univ : Finset (Fin 16)), ∀ t' ∈ (Finset.univ : Finset (Fin 16)), t ≠ t' →
    Disjoint (win (lo w + 12 * t.val + 6)) (win (lo w + 12 * t'.val + 6)) := fun t _ t' _ h =>
  win_disjoint (by have : t.val ≠ t'.val := fun e => h (Fin.ext e); omega)

/-- THE COVER: an element of the share lies in a chunk's window or in the last window. -/
theorem share_cover {w : ℕ} {j : S8x6250x8x128.Idx} (hj : j ∈ blocksOf w) :
    (∃ k, k < 32 ∧ j ∈ win (lo w + 6 * k)) ∨ j ∈ win (lo (w + 1) - 6) := by
  rw [mem_blocksOf] at hj
  by_cases h : (j 1).val < lo w + 192
  · exact .inl (mem_chunkWins.mp (mem_chunkWins'.mpr ⟨hj.1, h⟩))
  · refine .inr (mem_win.mpr ?_)
    have := lo_succ w
    split at this <;> omega

/-! ## A points-to on the share, by windows -/

section PointsTo
variable {F : FTy → Type}

local notation "𝕄" => MT nD τ sig (HIx 1) (Elt F) ℕ UU ℕ

variable (d : Dev nD) (w : ℕ)

/-- The share as the two slots' sixteen windows each and the rest, at one contents. -/
theorem split_eq (fo : Buf (Elt F) (oLoc d)) :
    (oLoc d ↦[blocksOf w]{fullShare} fo : sProp 𝕄)
      = iprop((bigSep Finset.univ fun t : Fin 16 => oLoc d ↦[win (lo w + 12 * t.val)]{fullShare} fo)
          ∗ (bigSep Finset.univ fun t : Fin 16 => oLoc d ↦[win (lo w + 12 * t.val + 6)]{fullShare} fo)
          ∗ (oLoc d ↦[chunkRest w]{fullShare} fo)) := by
  have h1 : (oLoc d ↦[chunkWins w ∪ chunkRest w]{fullShare} fo : sProp 𝕄)
      ⊣⊢ iprop((oLoc d ↦[chunkWins w]{fullShare} fo) ∗ (oLoc d ↦[chunkRest w]{fullShare} fo)) :=
    pointsTo_union (chunkRest_disjoint w)
  have h2 : (oLoc d ↦[evenWins w ∪ oddWins w]{fullShare} fo : sProp 𝕄)
      ⊣⊢ iprop((oLoc d ↦[evenWins w]{fullShare} fo) ∗ (oLoc d ↦[oddWins w]{fullShare} fo)) :=
    pointsTo_union (even_odd_disjoint w)
  have h3 : (oLoc d ↦[evenWins w]{fullShare} fo : sProp 𝕄)
      = bigSep Finset.univ fun t : Fin 16 => oLoc d ↦[win (lo w + 12 * t.val)]{fullShare} fo :=
    pointsTo_biUnion _ _ (even_pairwise w)
  have h4 : (oLoc d ↦[oddWins w]{fullShare} fo : sProp 𝕄)
      = bigSep Finset.univ fun t : Fin 16 => oLoc d ↦[win (lo w + 12 * t.val + 6)]{fullShare} fo :=
    pointsTo_biUnion _ _ (odd_pairwise w)
  rw [blocksOf_eq w, BI.equiv_iff.mp ⟨h1.1, h1.2⟩]
  show iprop((oLoc d ↦[evenWins w ∪ oddWins w]{fullShare} fo) ∗ (oLoc d ↦[chunkRest w]{fullShare} fo)) = _
  rw [BI.equiv_iff.mp ⟨h2.1, h2.2⟩, h3, h4]
  have h5 : ∀ A B C : sProp 𝕄, iprop((A ∗ B) ∗ C) = iprop(A ∗ B ∗ C) := fun A B C =>
    BI.equiv_iff.mp ⟨(Idealize.SL.BI.Laws.sep_assoc (PROP := sProp 𝕄) (P := A) (Q := B) (R := C)).1,
      (Idealize.SL.BI.Laws.sep_assoc (PROP := sProp 𝕄) (P := A) (Q := B) (R := C)).2⟩
  exact h5 _ _ _

/-- The same as an equivalence. -/
theorem split (fo : Buf (Elt F) (oLoc d)) :
    (oLoc d ↦[blocksOf w]{fullShare} fo : sProp 𝕄)
      ⊣⊢ iprop((bigSep Finset.univ fun t : Fin 16 => oLoc d ↦[win (lo w + 12 * t.val)]{fullShare} fo)
          ∗ (bigSep Finset.univ fun t : Fin 16 => oLoc d ↦[win (lo w + 12 * t.val + 6)]{fullShare} fo)
          ∗ (oLoc d ↦[chunkRest w]{fullShare} fo)) :=
  .of_eq (split_eq d w fo)

/-- Sixteen windows of one slot, each back at contents that hold `V` on it, join into one contents on their union. -/
theorem join_family (V : S8x6250x8x128.Idx → F .f32) (K : Fin 16 → Finset S8x6250x8x128.Idx)
    (hK : ∀ t ∈ (Finset.univ : Finset (Fin 16)), ∀ t' ∈ (Finset.univ : Finset (Fin 16)), t ≠ t' → Disjoint (K t) (K t'))
    (f₀ : Buf (Elt F) (oLoc d)) :
    (bigSep Finset.univ fun t : Fin 16 => iprop(∃ g : Buf (Elt F) (oLoc d), ⌜∀ j ∈ K t, g j = V j⌝ ∗ (oLoc d ↦[K t]{fullShare} g)))
      ⊢ (iprop(∃ g : Buf (Elt F) (oLoc d), ⌜∀ t : Fin 16, ∀ j ∈ K t, g j = V j⌝
          ∗ (oLoc d ↦[(Finset.univ : Finset (Fin 16)).biUnion K]{fullShare} g)) : sProp 𝕄) := by
  haveI : Nonempty (Buf (Elt F) (oLoc d)) := ⟨f₀⟩
  iintro H
  ihave H := (bigSep_exists_pi (Finset.univ : Finset (Fin 16))
    (fun t (g : Buf (Elt F) (oLoc d)) => iprop(⌜∀ j ∈ K t, g j = V j⌝ ∗ (oLoc d ↦[K t]{fullShare} g)))) $$ H
  icases H with ⟨%gs, H⟩
  ihave H := (bigSep_pure_sep (Finset.univ : Finset (Fin 16)) (fun t => ∀ j ∈ K t, gs t j = V j)
    (fun t => (oLoc d ↦[K t]{fullShare} gs t))) $$ H
  icases H with ⟨%hgs, H⟩
  ihave H := (pointsTo_biUnion_join (Finset.univ : Finset (Fin 16)) K gs f₀ hK) $$ H
  icases H with ⟨%g, %hg, H⟩
  iexists g
  isplitr
  · ipureintro
    intro t j hj
    rw [hg t (Finset.mem_univ _) j hj]
    exact hgs t (Finset.mem_univ _) j hj
  · iexact H

/-- THE JOIN: the two slots' windows, each back at contents that hold `V` on it, and the rest as it was, make one
    contents on the share that holds `V` on every chunk's window. -/
theorem join (V : S8x6250x8x128.Idx → F .f32) (fo : Buf (Elt F) (oLoc d)) :
    iprop((bigSep Finset.univ fun t : Fin 16 => iprop(∃ g : Buf (Elt F) (oLoc d),
            ⌜∀ j ∈ win (lo w + 12 * t.val), g j = V j⌝ ∗ (oLoc d ↦[win (lo w + 12 * t.val)]{fullShare} g)))
        ∗ (bigSep Finset.univ fun t : Fin 16 => iprop(∃ g : Buf (Elt F) (oLoc d),
            ⌜∀ j ∈ win (lo w + 12 * t.val + 6), g j = V j⌝ ∗ (oLoc d ↦[win (lo w + 12 * t.val + 6)]{fullShare} g)))
        ∗ (oLoc d ↦[chunkRest w]{fullShare} fo))
      ⊢ (iprop(∃ g : Buf (Elt F) (oLoc d), ⌜∀ k, k < 32 → ∀ j ∈ win (lo w + 6 * k), g j = V j⌝
          ∗ (oLoc d ↦[blocksOf w]{fullShare} g)) : sProp 𝕄) := by
  iintro ⟨He, Ho, Hr⟩
  ihave He := (join_family d V (fun t : Fin 16 => win (lo w + 12 * t.val)) (even_pairwise w) fo) $$ He
  icases He with ⟨%ge, %hge, He⟩
  ihave Ho := (join_family d V (fun t : Fin 16 => win (lo w + 12 * t.val + 6)) (odd_pairwise w) fo) $$ Ho
  icases Ho with ⟨%go, %hgo, Ho⟩
  ihave Heo := (pointsTo_join (ℓ := oLoc d) (I := evenWins w) (J := oddWins w) (q := fullShare) (f := ge) (g := go)
    (even_odd_disjoint w)) $$ [He Ho]
  · isplitl [He]
    · iexact He
    · iexact Ho
  ihave Hall := (pointsTo_join (ℓ := oLoc d) (I := evenWins w ∪ oddWins w) (J := chunkRest w) (q := fullShare)
    (f := (oddWins w).piecewise go ge) (g := fo) (chunkRest_disjoint w)) $$ [Heo Hr]
  · isplitl [Heo]
    · iexact Heo
    · iexact Hr
  iexists (chunkRest w).piecewise fo ((oddWins w).piecewise go ge)
  isplitr
  · ipureintro
    intro k hk j hj
    have hcw : j ∈ chunkWins w := mem_chunkWins.mpr ⟨k, hk, hj⟩
    have hnr : j ∉ chunkRest w := Finset.disjoint_left.mp (chunkRest_disjoint w) hcw
    rw [Finset.piecewise_eq_of_notMem _ _ _ hnr]
    rcases Nat.even_or_odd' k with ⟨t, rfl | rfl⟩
    · have hje : j ∈ win (lo w + 12 * (⟨t, by omega⟩ : Fin 16).val) := by
        rw [show lo w + 12 * (⟨t, by omega⟩ : Fin 16).val = lo w + 6 * (2 * t) by show lo w + 12 * t = _; omega]; exact hj
      have hno : j ∉ oddWins w :=
        Finset.disjoint_left.mp (even_odd_disjoint w) (mem_evenWins.mpr ⟨_, hje⟩)
      rw [Finset.piecewise_eq_of_notMem _ _ _ hno]
      exact hge _ j hje
    · have hjo : j ∈ win (lo w + 12 * (⟨t, by omega⟩ : Fin 16).val + 6) := by
        rw [show lo w + 12 * (⟨t, by omega⟩ : Fin 16).val + 6 = lo w + 6 * (2 * t + 1) by show lo w + 12 * t + 6 = _; omega]; exact hj
      rw [Finset.piecewise_eq_of_mem _ _ _ (mem_oddWins.mpr ⟨_, hjo⟩)]
      exact hgo _ j hjo
  · rw [blocksOf_eq w]
    iexact Hall

/-- The last window carved out of the share, and put back. -/
theorem tail (g : Buf (Elt F) (oLoc d)) :
    (oLoc d ↦[blocksOf w]{fullShare} g : sProp 𝕄)
      ⊣⊢ iprop((oLoc d ↦[win (lo (w + 1) - 6)]{fullShare} g) ∗ (oLoc d ↦[blocksOf w \ win (lo (w + 1) - 6)]{fullShare} g)) :=
  pointsTo_split_subset (tail_subset w)

/-- THE END: the share held `V` on every chunk's window; the last window comes back at contents that hold `V` on it;
    then every element of the share holds `V`. -/
theorem final (V : S8x6250x8x128.Idx → F .f32) (g g' : Buf (Elt F) (oLoc d))
    (hg : ∀ k, k < 32 → ∀ j ∈ win (lo w + 6 * k), g j = V j) (hg' : ∀ j ∈ win (lo (w + 1) - 6), g' j = V j) :
    iprop((oLoc d ↦[win (lo (w + 1) - 6)]{fullShare} g') ∗ (oLoc d ↦[blocksOf w \ win (lo (w + 1) - 6)]{fullShare} g))
      ⊢ (iprop(∃ g'' : Buf (Elt F) (oLoc d), ⌜∀ j ∈ blocksOf w, g'' j = V j⌝ ∗ (oLoc d ↦[blocksOf w]{fullShare} g'')) : sProp 𝕄) := by
  iintro H
  ihave H := (pointsTo_join_subset (ℓ := oLoc d) (q := fullShare) (f := g) (g := g') (tail_subset w)) $$ H
  iexists (win (lo (w + 1) - 6)).piecewise g' g
  isplitr
  · ipureintro
    intro j hj
    by_cases ht : j ∈ win (lo (w + 1) - 6)
    · rw [Finset.piecewise_eq_of_mem _ _ _ ht]; exact hg' j ht
    · rw [Finset.piecewise_eq_of_notMem _ _ _ ht]
      rcases share_cover hj with ⟨k, hk, hjk⟩ | h
      · exact hg k hk j hjk
      · exact absurd h ht
  · iexact H

end PointsTo

end Cert.Proof.KI

end
-- ==== Proof.WinBridgeKI.lean ====
/-
  The subcore's windows in the program's own spelling. The outer loop holds the result array as the six-block slices
  its copies name: the slice at the offsets the kernel computes for chunk 2·t, for chunk 2·t + 1, and for the last
  chunk. With the offsets in closed form each slice holds exactly the elements of a window win b, and, the slice's
  buffer being the result array itself seen from the subcore, a points-to through the slice is the points-to on that
  window. So the share enters the loop as the two families of slices and the rest, leaves it, every slice back at
  contents that hold the embedding, as one contents on the share that holds it on every chunk's window, and after the
  last chunk's slice is rewritten holds it everywhere.
-/
import proofs.«203789_g40862318854646_cont_8to1_b_1018_13_alg».proof.Proof.PairKI
import proofs.«203789_g40862318854646_cont_8to1_b_1018_13_alg».proof.Proof.WindowsKI
import proofs.«203789_g40862318854646_cont_8to1_b_1018_13_alg».proof.Proof.OffsKI
import proofs.«203789_g40862318854646_cont_8to1_b_1018_13_alg».proof.Proof.TileDefsKI

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "oW" => (Memref.whole Cert.KernelIdeal.main_v5_scv : Memref Cert.KernelIdeal.sig Kind.scVector Space.hbm Cert.KernelIdeal.S8x6250x8x128 EltTy.f32)

/-! ## The slices' elements -/

/-- The six-block slice at offsets that are `(0, b, 0, 0)`, however spelt, holds the window `win b`. -/
theorem slice_set_fn (off : Fin 4 → ℕ) (b : ℕ) (hoff : off = ![0, b, 0, 0])
    (inb : ∀ a, off a + S8x6x8x128.size a ≤ S8x6250x8x128.size a) :
    ((oW).slice (Rect.unit (s := S8x6250x8x128) off S8x6x8x128.size inb) (fun _ => rfl)).view.set = win b := by
  subst hoff
  exact slice_set b inb

/-- The slice of chunk `2·t` … -/
theorem o70_set (L : grid0.Coords) (t : Fin k0_t1_loop.trips) : (Pair.o70 L t).view.set = win (lo (wL L) + 12 * t.val) :=
  slice_set_fn _ _ (k0_off70_eq L t) _

/-- … and of chunk `2·t + 1`. -/
theorem o139_set (L : grid0.Coords) (t : Fin k0_t1_loop.trips) : (Pair.o139 L t).view.set = win (lo (wL L) + 12 * t.val + 6) :=
  slice_set_fn _ _ (k0_off139_eq L t) _

/-- The descriptors the guarded waits name are the same slices. -/
theorem off3_set (L : grid0.Coords) (t : Fin k0_t1_loop.trips) (inb : ∀ a, k0_off3 L t a + S8x6x8x128.size a ≤ S8x6250x8x128.size a) :
    ((oW).slice (Rect.unit (s := S8x6250x8x128) (k0_off3 L t) S8x6x8x128.size inb) (fun _ => rfl)).view.set
      = win (lo (wL L) + 12 * t.val) :=
  slice_set_fn _ _ (k0_off3_eq L t) _

theorem off72_set (L : grid0.Coords) (t : Fin k0_t1_loop.trips) (inb : ∀ a, k0_off72 L t a + S8x6x8x128.size a ≤ S8x6250x8x128.size a) :
    ((oW).slice (Rect.unit (s := S8x6250x8x128) (k0_off72 L t) S8x6x8x128.size inb) (fun _ => rfl)).view.set
      = win (lo (wL L) + 12 * t.val + 6) :=
  slice_set_fn _ _ (k0_off72_eq L t) _

/-- The last chunk's slice. -/
theorem off141_set (L : grid0.Coords) (inb : ∀ a, k0_off141 L a + S8x6x8x128.size a ≤ S8x6250x8x128.size a) :
    ((oW).slice (Rect.unit (s := S8x6250x8x128) (k0_off141 L) S8x6x8x128.size inb) (fun _ => rfl)).view.set
      = win (lo (wL L + 1) - 6) :=
  slice_set_fn _ _ (k0_off141_eq L) _

/-! ## A points-to through a slice is the points-to on its window -/

section Bridge
variable (d : Dev nD) (L : grid0.Coords)

/-- Through any six-block slice at offsets `(0, b, 0, 0)`: the slice's buffer is the result array. -/
theorem pts_slice (off : Fin 4 → ℕ) (b : ℕ) (hoff : off = ![0, b, 0, 0])
    (inb : ∀ a, off a + S8x6x8x128.size a ≤ S8x6250x8x128.size a) (g : Buf (Elt F) (oLoc d)) :
    (((oW).slice (Rect.unit (s := S8x6250x8x128) off S8x6x8x128.size inb) (fun _ => rfl)).view.loc (V d (cV L) (jV L))
        ↦[((oW).slice (Rect.unit (s := S8x6250x8x128) off S8x6x8x128.size inb) (fun _ => rfl)).view.set]{fullShare} g : sProp 𝕄)
      = (oLoc d ↦[win b]{fullShare} g) := by
  rw [slice_set_fn off b hoff inb]

theorem pts_o70 (t : Fin k0_t1_loop.trips) (g : Buf (Elt F) (oLoc d)) :
    ((Pair.o70 L t).view.loc (V d (cV L) (jV L)) ↦[(Pair.o70 L t).view.set]{fullShare} g : sProp 𝕄)
      = (oLoc d ↦[win (lo (wL L) + 12 * t.val)]{fullShare} g) :=
  pts_slice d L _ _ (k0_off70_eq L t) _ g

theorem pts_o139 (t : Fin k0_t1_loop.trips) (g : Buf (Elt F) (oLoc d)) :
    ((Pair.o139 L t).view.loc (V d (cV L) (jV L)) ↦[(Pair.o139 L t).view.set]{fullShare} g : sProp 𝕄)
      = (oLoc d ↦[win (lo (wL L) + 12 * t.val + 6)]{fullShare} g) :=
  pts_slice d L _ _ (k0_off139_eq L t) _ g

theorem pts_tail (inb : ∀ a, k0_off141 L a + S8x6x8x128.size a ≤ S8x6250x8x128.size a) (g : Buf (Elt F) (oLoc d)) :
    (((oW).slice (Rect.unit (s := S8x6250x8x128) (k0_off141 L) S8x6x8x128.size inb) (fun _ => rfl)).view.loc (V d (cV L) (jV L))
        ↦[((oW).slice (Rect.unit (s := S8x6250x8x128) (k0_off141 L) S8x6x8x128.size inb) (fun _ => rfl)).view.set]{fullShare} g : sProp 𝕄)
      = (oLoc d ↦[win (lo (wL L + 1) - 6)]{fullShare} g) :=
  pts_slice d L _ _ (k0_off141_eq L) inb g

end Bridge

/-! ## In and out of the outer loop -/

section InOut
variable (m : (ℓ : Loc nD τ sig) → Buf (Elt F) ℓ) (d : Dev nD) (L : grid0.Coords)

/-- The outer loop's sixteen trips. -/
theorem trips16 : k0_t1_loop.trips = 16 := by decide

/-- The share as the two slots' windows and the rest, over any index type of sixteen trips. -/
theorem split_n {n : ℕ} (hn : n = 16) (w : ℕ) (fo : Buf (Elt F) (oLoc d)) :
    (oLoc d ↦[blocksOf w]{fullShare} fo : sProp 𝕄)
      = iprop((bigSep Finset.univ fun t : Fin n => oLoc d ↦[win (lo w + 12 * t.val)]{fullShare} fo)
          ∗ (bigSep Finset.univ fun t : Fin n => oLoc d ↦[win (lo w + 12 * t.val + 6)]{fullShare} fo)
          ∗ (oLoc d ↦[chunkRest w]{fullShare} fo)) := by
  subst hn; exact split_eq d w fo

/-- The join of the windows, over any index type of sixteen trips. -/
theorem join_n {n : ℕ} (hn : n = 16) (w : ℕ) (Vf : S8x6250x8x128.Idx → F .f32) (fo : Buf (Elt F) (oLoc d)) :
    iprop((bigSep Finset.univ fun t : Fin n => iprop(∃ g : Buf (Elt F) (oLoc d),
            ⌜∀ j ∈ win (lo w + 12 * t.val), g j = Vf j⌝ ∗ (oLoc d ↦[win (lo w + 12 * t.val)]{fullShare} g)))
        ∗ (bigSep Finset.univ fun t : Fin n => iprop(∃ g : Buf (Elt F) (oLoc d),
            ⌜∀ j ∈ win (lo w + 12 * t.val + 6), g j = Vf j⌝ ∗ (oLoc d ↦[win (lo w + 12 * t.val + 6)]{fullShare} g)))
        ∗ (oLoc d ↦[chunkRest w]{fullShare} fo))
      ⊢ (iprop(∃ g : Buf (Elt F) (oLoc d), ⌜∀ k, k < 32 → ∀ j ∈ win (lo w + 6 * k), g j = Vf j⌝
          ∗ (oLoc d ↦[blocksOf w]{fullShare} g)) : sProp 𝕄) := by
  subst hn; exact join d w Vf fo

/-- A window at one contents is its slice at some contents. -/
theorem o70_in (t : Fin k0_t1_loop.trips) (fo : Buf (Elt F) (oLoc d)) :
    (oLoc d ↦[win (lo (wL L) + 12 * t.val)]{fullShare} fo : sProp 𝕄) ⊢ Pair.winAt (F := F) d L (Pair.o70 L t) := by
  iintro H; iexists fo; rw [pts_o70 d L t fo]; iexact H
theorem o139_in (t : Fin k0_t1_loop.trips) (fo : Buf (Elt F) (oLoc d)) :
    (oLoc d ↦[win (lo (wL L) + 12 * t.val + 6)]{fullShare} fo : sProp 𝕄) ⊢ Pair.winAt (F := F) d L (Pair.o139 L t) := by
  iintro H; iexists fo; rw [pts_o139 d L t fo]; iexact H

/-- ENTRY: the share enters the outer loop as the two families of slices, each at some contents, and the rest. -/
theorem wins_entry (fo : Buf (Elt F) (oLoc d)) :
    (oLoc d ↦[blocksOf (wL L)]{fullShare} fo : sProp 𝕄)
      ⊢ iprop((bigSep Finset.univ fun i : Fin k0_t1_loop.trips => Pair.winAt (F := F) d L (Pair.o70 L i))
          ∗ (bigSep Finset.univ fun i : Fin k0_t1_loop.trips => Pair.winAt (F := F) d L (Pair.o139 L i))
          ∗ (oLoc d ↦[chunkRest (wL L)]{fullShare} fo)) := by
  rw [split_n d trips16 (wL L) fo]
  iintro ⟨H0, H1, Hr⟩
  have h0 : (bigSep Finset.univ fun t : Fin k0_t1_loop.trips => (oLoc d ↦[win (lo (wL L) + 12 * t.val)]{fullShare} fo : sProp 𝕄))
      ⊢ bigSep Finset.univ fun i : Fin k0_t1_loop.trips => Pair.winAt (F := F) d L (Pair.o70 L i) :=
    bigSep_mono fun t _ => o70_in d L t fo
  have h1 : (bigSep Finset.univ fun t : Fin k0_t1_loop.trips => (oLoc d ↦[win (lo (wL L) + 12 * t.val + 6)]{fullShare} fo : sProp 𝕄))
      ⊢ bigSep Finset.univ fun i : Fin k0_t1_loop.trips => Pair.winAt (F := F) d L (Pair.o139 L i) :=
    bigSep_mono fun t _ => o139_in d L t fo
  isplitl [H0]
  · iapply h0; iexact H0
  isplitl [H1]
  · iapply h1; iexact H1
  iexact Hr

/-- What a slice of slot 0 (chunk `2·t`) or slot 1 (chunk `2·t + 1`) must hold when it is back: `V` on its window. -/
def Pw0V (Vf : S8x6250x8x128.Idx → F .f32) (i : Fin k0_t1_loop.trips) (g : Buf (Elt F) ((Pair.o70 L i).view.loc (V d (cV L) (jV L)))) : Prop :=
  ∀ j ∈ win (lo (wL L) + 12 * i.val), g j = Vf j
def Pw1V (Vf : S8x6250x8x128.Idx → F .f32) (i : Fin k0_t1_loop.trips) (g : Buf (Elt F) ((Pair.o139 L i).view.loc (V d (cV L) (jV L)))) : Prop :=
  ∀ j ∈ win (lo (wL L) + 12 * i.val + 6), g j = Vf j

/-- A slice back at contents that hold \`Vf\` on its window is the window at such contents. -/
theorem o70_out (Vf : S8x6250x8x128.Idx → F .f32) (t : Fin k0_t1_loop.trips) :
    (iprop(∃ g, ⌜Pw0V d L Vf t g⌝ ∗ ((Pair.o70 L t).view.loc (V d (cV L) (jV L)) ↦[(Pair.o70 L t).view.set]{fullShare} g)) : sProp 𝕄)
      ⊢ iprop(∃ g : Buf (Elt F) (oLoc d), ⌜∀ j ∈ win (lo (wL L) + 12 * t.val), g j = Vf j⌝ ∗ (oLoc d ↦[win (lo (wL L) + 12 * t.val)]{fullShare} g)) := by
  iintro ⟨%g, %hg, H⟩; iexists g; isplitr
  · ipureintro; exact hg
  · rw [← pts_o70 d L t g]; iexact H
theorem o139_out (Vf : S8x6250x8x128.Idx → F .f32) (t : Fin k0_t1_loop.trips) :
    (iprop(∃ g, ⌜Pw1V d L Vf t g⌝ ∗ ((Pair.o139 L t).view.loc (V d (cV L) (jV L)) ↦[(Pair.o139 L t).view.set]{fullShare} g)) : sProp 𝕄)
      ⊢ iprop(∃ g : Buf (Elt F) (oLoc d), ⌜∀ j ∈ win (lo (wL L) + 12 * t.val + 6), g j = Vf j⌝ ∗ (oLoc d ↦[win (lo (wL L) + 12 * t.val + 6)]{fullShare} g)) := by
  iintro ⟨%g, %hg, H⟩; iexists g; isplitr
  · ipureintro; exact hg
  · rw [← pts_o139 d L t g]; iexact H

/-- EXIT: every slice back at contents that hold `V` on its window, and the rest: one contents on the share that holds
    `V` on every chunk's window. -/
theorem wins_exit (Vf : S8x6250x8x128.Idx → F .f32) (fo : Buf (Elt F) (oLoc d)) :
    iprop((bigSep Finset.univ fun i : Fin k0_t1_loop.trips => iprop(∃ g, ⌜Pw0V d L Vf i g⌝
            ∗ ((Pair.o70 L i).view.loc (V d (cV L) (jV L)) ↦[(Pair.o70 L i).view.set]{fullShare} g)))
        ∗ (bigSep Finset.univ fun i : Fin k0_t1_loop.trips => iprop(∃ g, ⌜Pw1V d L Vf i g⌝
            ∗ ((Pair.o139 L i).view.loc (V d (cV L) (jV L)) ↦[(Pair.o139 L i).view.set]{fullShare} g)))
        ∗ (oLoc d ↦[chunkRest (wL L)]{fullShare} fo))
      ⊢ (iprop(∃ g : Buf (Elt F) (oLoc d), ⌜∀ k, k < 32 → ∀ j ∈ win (lo (wL L) + 6 * k), g j = Vf j⌝
          ∗ (oLoc d ↦[blocksOf (wL L)]{fullShare} g)) : sProp 𝕄) := by
  iintro ⟨H0, H1, Hr⟩
  iapply (join_n d trips16 (wL L) Vf fo)
  have h0 : (bigSep Finset.univ fun i : Fin k0_t1_loop.trips => (iprop(∃ g, ⌜Pw0V d L Vf i g⌝
            ∗ ((Pair.o70 L i).view.loc (V d (cV L) (jV L)) ↦[(Pair.o70 L i).view.set]{fullShare} g)) : sProp 𝕄))
      ⊢ bigSep Finset.univ fun t : Fin k0_t1_loop.trips => (iprop(∃ g : Buf (Elt F) (oLoc d),
            ⌜∀ j ∈ win (lo (wL L) + 12 * t.val), g j = Vf j⌝ ∗ (oLoc d ↦[win (lo (wL L) + 12 * t.val)]{fullShare} g)) : sProp 𝕄) :=
    bigSep_mono fun t _ => o70_out d L Vf t
  have h1 : (bigSep Finset.univ fun i : Fin k0_t1_loop.trips => (iprop(∃ g, ⌜Pw1V d L Vf i g⌝
            ∗ ((Pair.o139 L i).view.loc (V d (cV L) (jV L)) ↦[(Pair.o139 L i).view.set]{fullShare} g)) : sProp 𝕄))
      ⊢ bigSep Finset.univ fun t : Fin k0_t1_loop.trips => (iprop(∃ g : Buf (Elt F) (oLoc d),
            ⌜∀ j ∈ win (lo (wL L) + 12 * t.val + 6), g j = Vf j⌝ ∗ (oLoc d ↦[win (lo (wL L) + 12 * t.val + 6)]{fullShare} g)) : sProp 𝕄) :=
    bigSep_mono fun t _ => o139_out d L Vf t
  isplitl [H0]
  · iapply h0; iexact H0
  isplitl [H1]
  · iapply h1; iexact H1
  iexact Hr

/-- THE LAST CHUNK, out: the share as the last chunk's slice and the rest of the share. -/
theorem tail_out (inb : ∀ a, k0_off141 L a + S8x6x8x128.size a ≤ S8x6250x8x128.size a) (g : Buf (Elt F) (oLoc d)) :
    (oLoc d ↦[blocksOf (wL L)]{fullShare} g : sProp 𝕄)
      ⊢ iprop((((oW).slice (Rect.unit (s := S8x6250x8x128) (k0_off141 L) S8x6x8x128.size inb) (fun _ => rfl)).view.loc (V d (cV L) (jV L))
            ↦[((oW).slice (Rect.unit (s := S8x6250x8x128) (k0_off141 L) S8x6x8x128.size inb) (fun _ => rfl)).view.set]{fullShare} g)
          ∗ (oLoc d ↦[blocksOf (wL L) \ win (lo (wL L + 1) - 6)]{fullShare} g)) := by
  rw [pts_tail d L inb g]
  exact (tail d (wL L) g).1

variable [FloatOps F]

/-- THE LAST CHUNK, back: the slice at contents that hold the embedding on its window, the rest of the share at contents
    that hold it on every chunk's window: the subcore has done its work. -/
theorem tail_back (inb : ∀ a, k0_off141 L a + S8x6x8x128.size a ≤ S8x6250x8x128.size a) (g g' : Buf (Elt F) (oLoc d))
    (hg : ∀ k, k < 32 → ∀ j ∈ win (lo (wL L) + 6 * k), g j = kerVal (eaC m d) (w0C m d) (w1C m d) (w2C m d) j)
    (hg' : ∀ j ∈ win (lo (wL L + 1) - 6), g' j = kerVal (eaC m d) (w0C m d) (w1C m d) (w2C m d) j) :
    iprop((((oW).slice (Rect.unit (s := S8x6250x8x128) (k0_off141 L) S8x6x8x128.size inb) (fun _ => rfl)).view.loc (V d (cV L) (jV L))
            ↦[((oW).slice (Rect.unit (s := S8x6250x8x128) (k0_off141 L) S8x6x8x128.size inb) (fun _ => rfl)).view.set]{fullShare} g')
          ∗ (oLoc d ↦[blocksOf (wL L) \ win (lo (wL L + 1) - 6)]{fullShare} g))
      ⊢ (iprop(∃ g'' : Buf (Elt F) (oLoc d), ⌜GoodV m d g'' (wL L)⌝ ∗ (oLoc d ↦[blocksOf (wL L)]{fullShare} g'')) : sProp 𝕄) := by
  rw [pts_tail d L inb g']
  exact final d (wL L) (kerVal (eaC m d) (w0C m d) (w1C m d) (w2C m d)) g g' hg hg'

end InOut

end Cert.Proof.KI

end
-- ==== Proof.LandKI.lean ====
/-
  The chunk loop's landing facts: when an out copy lands, its window of the result holds the embedding of its edges.
  The inner loop left the chunk's values in the output scratch, read off the transposed table at the attribute words
  the fetch brought; those are the embedding's values on the window the copy writes.
-/
import proofs.«203789_g40862318854646_cont_8to1_b_1018_13_alg».proof.Proof.TileDefsKI
import proofs.«203789_g40862318854646_cont_8to1_b_1018_13_alg».proof.Proof.GoodKI
import proofs.«203789_g40862318854646_cont_8to1_b_1018_13_alg».proof.Proof.InnerKI
import proofs.«203789_g40862318854646_cont_8to1_b_1018_13_alg».proof.Proof.PlugKI
import proofs.«203789_g40862318854646_cont_8to1_b_1018_13_alg».proof.Proof.PairKI
import proofs.«203789_g40862318854646_cont_8to1_b_1018_13_alg».proof.Proof.HlandKI
import proofs.«203789_g40862318854646_cont_8to1_b_1018_13_alg».proof.Proof.WinBridgeKI
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

variable (m : (ℓ : Loc nD τ sig) → Buf (Elt F) ℓ)
variable [FloatOps F]
variable (d : Dev nD) (L : grid0.Coords)

variable (ft : Buf (Elt F) ((V d (cV L) (jV L)).loc cc0_scratch4)) (hT : TabT (w0C m d) (w1C m d) (w2C m d) (ft : FVec F S4096 .f32))
  (hea : ∀ n, eaC m d n = 0#32 ∨ eaC m d n = 1#32)
include hT hea

/-- Slot 0, the first chunk. -/
theorem land0z (h0 : 0 < k0_t1_loop.trips) (ga gb gc : Buf (Elt F) ((b5W).view.loc (V d (cV L) (jV L))))
    (f : Buf (Elt F) ((b7W).view.loc (V d (cV L) (jV L)))) (gk : Buf (Elt F) ((Pair.o70 L ⟨0, h0⟩).view.loc (V d (cV L) (jV L))))
    (hR : R0 (F := F) d L ft ⟨0, h0⟩ (Pair.landedE m d L Pair.t5a ga (k0_off1 L 0#32) (k0_off1_inb L 0))
      (Pair.landedE m d L Pair.t5b gb (k0_off1 L 800000#32) (k0_off1_inb L 1)) (Pair.landedE m d L Pair.t5c gc (k0_off1 L 1600000#32) (k0_off1_inb L 2)) f) :
    Pw0V d L (kerVal (eaC m d) (w0C m d) (w1C m d) (w2C m d)) ⟨0, h0⟩ (Pair.landedO d L b7W (Pair.o70 L ⟨0, h0⟩) gk f) := by
  unfold Pw0V
  exact hland0z (eaC m d) (w0C m d) (w1C m d) (w2C m d) ft hT hea L h0 ga gb gc _ _ _ rfl rfl rfl (b7W).view f gk
    (joinE5 (F := F) d L _ _ _) (fun _ => rfl) (fun y => hR y) _ (o70_set L ⟨0, h0⟩)

/-- Slot 0, a later chunk. -/
theorem land0s (j : Fin k0_t1_loop.trips) (hj : j.val + 1 < k0_t1_loop.trips) (ga gb gc : Buf (Elt F) ((b5W).view.loc (V d (cV L) (jV L))))
    (f : Buf (Elt F) ((b7W).view.loc (V d (cV L) (jV L)))) (gk : Buf (Elt F) ((Pair.o70 L ⟨j.val + 1, hj⟩).view.loc (V d (cV L) (jV L))))
    (hR : R0 (F := F) d L ft ⟨j.val + 1, hj⟩ (Pair.landedE m d L Pair.t5a ga (k0_off71 L j 0#32) (k0_off71_inb L j 0))
      (Pair.landedE m d L Pair.t5b gb (k0_off71 L j 800000#32) (k0_off71_inb L j 1)) (Pair.landedE m d L Pair.t5c gc (k0_off71 L j 1600000#32) (k0_off71_inb L j 2)) f) :
    Pw0V d L (kerVal (eaC m d) (w0C m d) (w1C m d) (w2C m d)) ⟨j.val + 1, hj⟩ (Pair.landedO d L b7W (Pair.o70 L ⟨j.val + 1, hj⟩) gk f) := by
  unfold Pw0V
  exact hland0s (eaC m d) (w0C m d) (w1C m d) (w2C m d) ft hT hea L j hj ga gb gc _ _ _ rfl rfl rfl (b7W).view f gk
    (joinE5 (F := F) d L _ _ _) (fun _ => rfl) (fun y => hR y) _ (o70_set L ⟨j.val + 1, hj⟩)

/-- Slot 1, the second chunk. -/
theorem land1z (h0 : 0 < k0_t1_loop.trips) (ga gb gc : Buf (Elt F) ((b6W).view.loc (V d (cV L) (jV L))))
    (f : Buf (Elt F) ((b8W).view.loc (V d (cV L) (jV L)))) (gk : Buf (Elt F) ((Pair.o139 L ⟨0, h0⟩).view.loc (V d (cV L) (jV L))))
    (hR : R1 (F := F) d L ft ⟨0, h0⟩ (Pair.landedE m d L Pair.t6a ga (k0_off2 L 0#32) (k0_off2_inb L 0))
      (Pair.landedE m d L Pair.t6b gb (k0_off2 L 800000#32) (k0_off2_inb L 1)) (Pair.landedE m d L Pair.t6c gc (k0_off2 L 1600000#32) (k0_off2_inb L 2)) f) :
    Pw1V d L (kerVal (eaC m d) (w0C m d) (w1C m d) (w2C m d)) ⟨0, h0⟩ (Pair.landedO d L b8W (Pair.o139 L ⟨0, h0⟩) gk f) := by
  unfold Pw1V
  exact hland1z (eaC m d) (w0C m d) (w1C m d) (w2C m d) ft hT hea L h0 ga gb gc _ _ _ rfl rfl rfl (b8W).view f gk
    (joinE6 (F := F) d L _ _ _) (fun _ => rfl) (fun y => hR y) _ (o139_set L ⟨0, h0⟩)

/-- Slot 1, a later chunk. -/
theorem land1s (j : Fin k0_t1_loop.trips) (hj : j.val + 1 < k0_t1_loop.trips) (ga gb gc : Buf (Elt F) ((b6W).view.loc (V d (cV L) (jV L))))
    (f : Buf (Elt F) ((b8W).view.loc (V d (cV L) (jV L)))) (gk : Buf (Elt F) ((Pair.o139 L ⟨j.val + 1, hj⟩).view.loc (V d (cV L) (jV L))))
    (hR : R1 (F := F) d L ft ⟨j.val + 1, hj⟩ (Pair.landedE m d L Pair.t6a ga (k0_off140 L j 0#32) (k0_off140_inb L j 0))
      (Pair.landedE m d L Pair.t6b gb (k0_off140 L j 800000#32) (k0_off140_inb L j 1)) (Pair.landedE m d L Pair.t6c gc (k0_off140 L j 1600000#32) (k0_off140_inb L j 2)) f) :
    Pw1V d L (kerVal (eaC m d) (w0C m d) (w1C m d) (w2C m d)) ⟨j.val + 1, hj⟩ (Pair.landedO d L b8W (Pair.o139 L ⟨j.val + 1, hj⟩) gk f) := by
  unfold Pw1V
  exact hland1s (eaC m d) (w0C m d) (w1C m d) (w2C m d) ft hT hea L j hj ga gb gc _ _ _ rfl rfl rfl (b8W).view f gk
    (joinE6 (F := F) d L _ _ _) (fun _ => rfl) (fun y => hR y) _ (o139_set L ⟨j.val + 1, hj⟩)

end Cert.Proof.KI
end
-- ==== Proof.EntryKI.lean ====
/-
  Entering the outer loop: the fetches of the first chunk and the first fetch of the second. The subcore's read share
  of the flattened attribute array is cut into four read tokens and a remainder, two of the tokens being what the
  two fetch semaphores' transfers borrow their source words at; an attribute scratch of 2304 words is held as its
  three thirds of 768 words, each by its own elements, the thirds being pairwise apart and covering the scratch.
  So what the body holds after its tables are built is rearranged into what the part before the outer loop starts
  from, the rest set aside; and at the body's end the tokens and the thirds are put back together.
-/
import proofs.«203789_g40862318854646_cont_8to1_b_1018_13_alg».proof.Proof.PairKI
import proofs.«203789_g40862318854646_cont_8to1_b_1018_13_alg».proof.Proof.TileDefsKI
import proofs.«203789_g40862318854646_cont_8to1_b_1018_13_alg».proof.Proof.WinBridgeKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)

/-! ## Four read tokens of a read share -/

section Tokens
variable {ℓ : Loc nD τ sig} {S : Finset (Idx ℓ)} {f : Buf (Elt F) ℓ}

/-- A points-to at a read share is the remainder after four tokens and the four tokens. -/
theorem toks4 (q : PosShare TreeShare) :
    (ℓ ↦[S]{q} f : sProp 𝕄) ⊣⊢ iprop((ℓ ↦[S]{Transfers.shareDrop q 4} f) ∗ (ℓ ↦[S]{Transfers.shareTokN q 0} f)
      ∗ (ℓ ↦[S]{Transfers.shareTokN q 1} f) ∗ (ℓ ↦[S]{Transfers.shareTokN q 2} f) ∗ (ℓ ↦[S]{Transfers.shareTokN q 3} f)) := by
  have h : (ℓ ↦[S]{q} f : sProp 𝕄) ⊣⊢ iprop((ℓ ↦[S]{Transfers.shareDrop q 4} f)
      ∗ BI.bigSep (Finset.range 4) (fun i => ℓ ↦[S]{Transfers.shareTokN q i} f)) := Transfers.pointsTo_toks_range q 4
  have e : BI.bigSep (Finset.range 4) (fun i => (ℓ ↦[S]{Transfers.shareTokN q i} f : sProp 𝕄))
      = iprop((ℓ ↦[S]{Transfers.shareTokN q 3} f) ∗ (ℓ ↦[S]{Transfers.shareTokN q 2} f) ∗ (ℓ ↦[S]{Transfers.shareTokN q 1} f)
          ∗ (ℓ ↦[S]{Transfers.shareTokN q 0} f) ∗ emp) := by
    rw [Finset.range_add_one, bigSep_insert (by simp), Finset.range_add_one, bigSep_insert (by simp), Finset.range_add_one, bigSep_insert (by simp),
      Finset.range_add_one, bigSep_insert (by simp), Finset.range_zero, bigSep_empty]
    rfl
  rw [e] at h
  have e1 : (iprop((ℓ ↦[S]{Transfers.shareDrop q 4} f) ∗ (ℓ ↦[S]{Transfers.shareTokN q 3} f) ∗ (ℓ ↦[S]{Transfers.shareTokN q 2} f)
        ∗ (ℓ ↦[S]{Transfers.shareTokN q 1} f) ∗ (ℓ ↦[S]{Transfers.shareTokN q 0} f) ∗ emp) : sProp 𝕄)
      ⊢ iprop((ℓ ↦[S]{Transfers.shareDrop q 4} f) ∗ (ℓ ↦[S]{Transfers.shareTokN q 0} f)
        ∗ (ℓ ↦[S]{Transfers.shareTokN q 1} f) ∗ (ℓ ↦[S]{Transfers.shareTokN q 2} f) ∗ (ℓ ↦[S]{Transfers.shareTokN q 3} f)) := by
    iintro ⟨Hr, H3, H2, H1, H0, -⟩
    isplitl [Hr]; · iexact Hr
    isplitl [H0]; · iexact H0
    isplitl [H1]; · iexact H1
    isplitl [H2]; · iexact H2
    iexact H3
  have e2 : (iprop((ℓ ↦[S]{Transfers.shareDrop q 4} f) ∗ (ℓ ↦[S]{Transfers.shareTokN q 0} f)
        ∗ (ℓ ↦[S]{Transfers.shareTokN q 1} f) ∗ (ℓ ↦[S]{Transfers.shareTokN q 2} f) ∗ (ℓ ↦[S]{Transfers.shareTokN q 3} f)) : sProp 𝕄)
      ⊢ iprop((ℓ ↦[S]{Transfers.shareDrop q 4} f) ∗ (ℓ ↦[S]{Transfers.shareTokN q 3} f) ∗ (ℓ ↦[S]{Transfers.shareTokN q 2} f)
        ∗ (ℓ ↦[S]{Transfers.shareTokN q 1} f) ∗ (ℓ ↦[S]{Transfers.shareTokN q 0} f) ∗ emp) := by
    iintro ⟨Hr, H0, H1, H2, H3⟩
    isplitl [Hr]; · iexact Hr
    isplitl [H3]; · iexact H3
    isplitl [H2]; · iexact H2
    isplitl [H1]; · iexact H1
    isplitl [H0]; · iexact H0
    iempintro
  exact ⟨h.1.trans e1, e2.trans h.2⟩

end Tokens

/-! ## An attribute scratch as its three thirds -/

section Thirds

/-- The thirds of a 2304-word buffer, as rectangles. -/
abbrev r3a : Rect S2304 := Rect.unit (s := S2304) ![0] S768.size inb_S2304_S768_0
abbrev r3b : Rect S2304 := Rect.unit (s := S2304) ![768] S768.size inb_S2304_S768_768
abbrev r3c : Rect S2304 := Rect.unit (s := S2304) ![1536] S768.size inb_S2304_S768_1536

theorem r3_ab : Disjoint (r3a).set (r3b).set := Rect.unit_disjoint 0 (Or.inl (by decide))
theorem r3_ac : Disjoint (r3a).set (r3c).set := Rect.unit_disjoint 0 (Or.inl (by decide))
theorem r3_bc : Disjoint (r3b).set (r3c).set := Rect.unit_disjoint 0 (Or.inl (by decide))

/-- The thirds cover the buffer. -/
theorem r3_cover : (r3a).set ∪ ((r3b).set ∪ (r3c).set) = Finset.univ := by
  ext i
  have hi : (i 0).val < 2304 := (i 0).isLt
  simp only [Finset.mem_union, Rect.mem_set_unit, Finset.mem_univ, iff_true]
  by_cases h1 : (i 0).val < 768
  · exact .inl fun a => by obtain rfl : a = 0 := Subsingleton.elim _ _; exact ⟨Nat.zero_le _, by show (i 0).val < 0 + 768; omega⟩
  · by_cases h2 : (i 0).val < 1536
    · exact .inr (.inl fun a => by obtain rfl : a = 0 := Subsingleton.elim _ _; exact ⟨by show 768 ≤ (i 0).val; omega, by show (i 0).val < 768 + 768; omega⟩)
    · exact .inr (.inr fun a => by obtain rfl : a = 0 := Subsingleton.elim _ _; exact ⟨by show 1536 ≤ (i 0).val; omega, by show (i 0).val < 1536 + 768; omega⟩)

/-- The thirds' elements, as the slices spell them. -/
theorem t5a_set : (Pair.t5a).view.set = (r3a).set := View.set_slice_whole _ _
theorem t5b_set : (Pair.t5b).view.set = (r3b).set := View.set_slice_whole _ _
theorem t5c_set : (Pair.t5c).view.set = (r3c).set := View.set_slice_whole _ _
theorem t6a_set : (Pair.t6a).view.set = (r3a).set := View.set_slice_whole _ _
theorem t6b_set : (Pair.t6b).view.set = (r3b).set := View.set_slice_whole _ _
theorem t6c_set : (Pair.t6c).view.set = (r3c).set := View.set_slice_whole _ _

variable (d : Dev nD) (L : grid0.Coords)

/-- Slot 0's attribute scratch held whole is its three thirds held by their own elements, at the same contents. -/
theorem thirds5 (f : Buf (Elt F) ((b5W).view.loc (V d (cV L) (jV L)))) :
    ((b5W).view.loc (V d (cV L) (jV L)) ↦{fullShare} f : sProp 𝕄)
      ⊣⊢ iprop(((Pair.t5a).view.loc (V d (cV L) (jV L)) ↦[(Pair.t5a).view.set]{fullShare} f)
        ∗ ((Pair.t5b).view.loc (V d (cV L) (jV L)) ↦[(Pair.t5b).view.set]{fullShare} f)
        ∗ ((Pair.t5c).view.loc (V d (cV L) (jV L)) ↦[(Pair.t5c).view.set]{fullShare} f)) := by
  have hu : ((b5W).view.loc (V d (cV L) (jV L)) ↦{fullShare} f : sProp 𝕄)
      = ((b5W).view.loc (V d (cV L) (jV L)) ↦[(r3a).set ∪ ((r3b).set ∪ (r3c).set)]{fullShare} f) := by rw [r3_cover]
  rw [hu, t5a_set, t5b_set, t5c_set]
  have h1 : ((b5W).view.loc (V d (cV L) (jV L)) ↦[(r3a).set ∪ ((r3b).set ∪ (r3c).set)]{fullShare} f : sProp 𝕄)
      ⊣⊢ iprop(((b5W).view.loc (V d (cV L) (jV L)) ↦[(r3a).set]{fullShare} f)
        ∗ ((b5W).view.loc (V d (cV L) (jV L)) ↦[(r3b).set ∪ (r3c).set]{fullShare} f)) :=
    pointsTo_union (Finset.disjoint_union_right.mpr ⟨r3_ab, r3_ac⟩)
  have h2 : ((b5W).view.loc (V d (cV L) (jV L)) ↦[(r3b).set ∪ (r3c).set]{fullShare} f : sProp 𝕄)
      ⊣⊢ iprop(((b5W).view.loc (V d (cV L) (jV L)) ↦[(r3b).set]{fullShare} f)
        ∗ ((b5W).view.loc (V d (cV L) (jV L)) ↦[(r3c).set]{fullShare} f)) :=
    pointsTo_union r3_bc
  exact h1.trans ⟨sep_mono_r h2.1, sep_mono_r h2.2⟩

/-- Slot 1's likewise. -/
theorem thirds6 (f : Buf (Elt F) ((b6W).view.loc (V d (cV L) (jV L)))) :
    ((b6W).view.loc (V d (cV L) (jV L)) ↦{fullShare} f : sProp 𝕄)
      ⊣⊢ iprop(((Pair.t6a).view.loc (V d (cV L) (jV L)) ↦[(Pair.t6a).view.set]{fullShare} f)
        ∗ ((Pair.t6b).view.loc (V d (cV L) (jV L)) ↦[(Pair.t6b).view.set]{fullShare} f)
        ∗ ((Pair.t6c).view.loc (V d (cV L) (jV L)) ↦[(Pair.t6c).view.set]{fullShare} f)) := by
  have hu : ((b6W).view.loc (V d (cV L) (jV L)) ↦{fullShare} f : sProp 𝕄)
      = ((b6W).view.loc (V d (cV L) (jV L)) ↦[(r3a).set ∪ ((r3b).set ∪ (r3c).set)]{fullShare} f) := by rw [r3_cover]
  rw [hu, t6a_set, t6b_set, t6c_set]
  have h1 : ((b6W).view.loc (V d (cV L) (jV L)) ↦[(r3a).set ∪ ((r3b).set ∪ (r3c).set)]{fullShare} f : sProp 𝕄)
      ⊣⊢ iprop(((b6W).view.loc (V d (cV L) (jV L)) ↦[(r3a).set]{fullShare} f)
        ∗ ((b6W).view.loc (V d (cV L) (jV L)) ↦[(r3b).set ∪ (r3c).set]{fullShare} f)) :=
    pointsTo_union (Finset.disjoint_union_right.mpr ⟨r3_ab, r3_ac⟩)
  have h2 : ((b6W).view.loc (V d (cV L) (jV L)) ↦[(r3b).set ∪ (r3c).set]{fullShare} f : sProp 𝕄)
      ⊣⊢ iprop(((b6W).view.loc (V d (cV L) (jV L)) ↦[(r3b).set]{fullShare} f)
        ∗ ((b6W).view.loc (V d (cV L) (jV L)) ↦[(r3c).set]{fullShare} f)) :=
    pointsTo_union r3_bc
  exact h1.trans ⟨sep_mono_r h2.1, sep_mono_r h2.2⟩

/-- The subcore's read share of the flattened attribute array, cut into the remainder and four read tokens, as the run
    spells the array. -/
theorem ea_toks4 (q : PosShare TreeShare) (f : Buf (Elt F) ((eaW).view.loc (V d (cV L) (jV L)))) :
    ((eaW).view.loc (V d (cV L) (jV L)) ↦{q} f : sProp 𝕄)
      ⊣⊢ iprop(((eaW).view.loc (V d (cV L) (jV L)) ↦{Transfers.shareDrop q 4} f)
        ∗ ((eaW).view.loc (V d (cV L) (jV L)) ↦{Transfers.shareTokN q 0} f)
        ∗ ((eaW).view.loc (V d (cV L) (jV L)) ↦{Transfers.shareTokN q 1} f)
        ∗ ((eaW).view.loc (V d (cV L) (jV L)) ↦{Transfers.shareTokN q 2} f)
        ∗ ((eaW).view.loc (V d (cV L) (jV L)) ↦{Transfers.shareTokN q 3} f)) :=
  toks4 q

end Thirds

/-! ## Into the part before the outer loop, and back -/

section Rearrange
variable (m : (ℓ : Loc nD τ sig) → Buf (Elt F) ℓ) (d : Dev nD) (L : grid0.Coords)
variable (O : CellTallies nD τ sig (HIx 1)) (W : Waits sig (HIx 1))

/-- Thirds at three contents are the scratch at some contents (slot 0) … -/
theorem thirds5_any (ga gb gc : Buf (Elt F) ((b5W).view.loc (V d (cV L) (jV L)))) :
    (iprop(((Pair.t5a).view.loc (V d (cV L) (jV L)) ↦[(Pair.t5a).view.set]{fullShare} ga)
        ∗ ((Pair.t5b).view.loc (V d (cV L) (jV L)) ↦[(Pair.t5b).view.set]{fullShare} gb)
        ∗ ((Pair.t5c).view.loc (V d (cV L) (jV L)) ↦[(Pair.t5c).view.set]{fullShare} gc)) : sProp 𝕄)
      ⊢ iprop(∃ f, (b5W).view.loc (V d (cV L) (jV L)) ↦{fullShare} f) := by
  rw [t5a_set, t5b_set, t5c_set]
  iintro ⟨Ha, Hb, Hc⟩
  ihave Hbc := (pointsTo_join (ℓ := (b5W).view.loc (V d (cV L) (jV L))) (I := (r3b).set) (J := (r3c).set) (q := fullShare)
    (f := gb) (g := gc) r3_bc) $$ [Hb Hc]
  · isplitl [Hb]
    · iexact Hb
    · iexact Hc
  ihave Hall := (pointsTo_join (ℓ := (b5W).view.loc (V d (cV L) (jV L))) (I := (r3a).set) (J := (r3b).set ∪ (r3c).set) (q := fullShare)
    (f := ga) (g := ((r3c).set).piecewise gc gb) (Finset.disjoint_union_right.mpr ⟨r3_ab, r3_ac⟩)) $$ [Ha Hbc]
  · isplitl [Ha]
    · iexact Ha
    · iexact Hbc
  iexists (((r3b).set ∪ (r3c).set).piecewise (((r3c).set).piecewise gc gb) ga)
  rw [r3_cover]
  iexact Hall

/-- … and slot 1. -/
theorem thirds6_any (ga gb gc : Buf (Elt F) ((b6W).view.loc (V d (cV L) (jV L)))) :
    (iprop(((Pair.t6a).view.loc (V d (cV L) (jV L)) ↦[(Pair.t6a).view.set]{fullShare} ga)
        ∗ ((Pair.t6b).view.loc (V d (cV L) (jV L)) ↦[(Pair.t6b).view.set]{fullShare} gb)
        ∗ ((Pair.t6c).view.loc (V d (cV L) (jV L)) ↦[(Pair.t6c).view.set]{fullShare} gc)) : sProp 𝕄)
      ⊢ iprop(∃ f, (b6W).view.loc (V d (cV L) (jV L)) ↦{fullShare} f) := by
  rw [t6a_set, t6b_set, t6c_set]
  iintro ⟨Ha, Hb, Hc⟩
  ihave Hbc := (pointsTo_join (ℓ := (b6W).view.loc (V d (cV L) (jV L))) (I := (r3b).set) (J := (r3c).set) (q := fullShare)
    (f := gb) (g := gc) r3_bc) $$ [Hb Hc]
  · isplitl [Hb]
    · iexact Hb
    · iexact Hc
  ihave Hall := (pointsTo_join (ℓ := (b6W).view.loc (V d (cV L) (jV L))) (I := (r3a).set) (J := (r3b).set ∪ (r3c).set) (q := fullShare)
    (f := ga) (g := ((r3c).set).piecewise gc gb) (Finset.disjoint_union_right.mpr ⟨r3_ab, r3_ac⟩)) $$ [Ha Hbc]
  · isplitl [Ha]
    · iexact Ha
    · iexact Hbc
  iexists (((r3b).set ∪ (r3c).set).piecewise (((r3c).set).piecewise gc gb) ga)
  rw [r3_cover]
  iexact Hall

/-- The tokens back together: the two fetch tokens whole again and what was set aside are the subcore's read share. -/
theorem ea_back (f : Buf (Elt F) ((eaW).view.loc (V d (cV L) (jV L)))) :
    (iprop(((eaW).view.loc (V d (cV L) (jV L)) ↦{Transfers.shareTokN (tok (wL L)) 2} f)
        ∗ ((eaW).view.loc (V d (cV L) (jV L)) ↦{Transfers.shareTokN (tok (wL L)) 3} f)
        ∗ ((eaW).view.loc (V d (cV L) (jV L)) ↦{Transfers.shareDrop (tok (wL L)) 4} f)
        ∗ ((eaW).view.loc (V d (cV L) (jV L)) ↦{Transfers.shareTokN (tok (wL L)) 0} f)
        ∗ ((eaW).view.loc (V d (cV L) (jV L)) ↦{Transfers.shareTokN (tok (wL L)) 1} f)) : sProp 𝕄)
      ⊢ ((eaW).view.loc (V d (cV L) (jV L)) ↦{tok (wL L)} f) := by
  iintro ⟨H2, H3, Hr, H0, H1⟩
  iapply (ea_toks4 (F := F) d L (tok (wL L)) f).2
  isplitl [Hr]; · iexact Hr
  isplitl [H0]; · iexact H0
  isplitl [H1]; · iexact H1
  isplitl [H2]; · iexact H2
  iexact H3

variable [FloatOps F]

/-- INTO THE PART BEFORE THE LOOP: what the body holds after its tables are built, rearranged: the two fetch tokens, the
    six thirds, the four counters, the two out scratches and the 32 windows; set aside: the rest of the read share
    and the blocks of the share after the 32 chunks. -/
theorem to_entry143 (Tbl : sProp 𝕄) (f5 : Buf (Elt F) ((b5W).view.loc (V d (cV L) (jV L)))) (f6 : Buf (Elt F) ((b6W).view.loc (V d (cV L) (jV L))))
    (f7 : Buf (Elt F) ((b7W).view.loc (V d (cV L) (jV L)))) (f8 : Buf (Elt F) ((b8W).view.loc (V d (cV L) (jV L)))) :
    iprop(Transfers.MayWaits (Pair.thr d L) (none : HIx 1) O
        ∗ (∃ W', ⌜∀ p ∈ W', p ∈ W ∨ p.2 = none⌝ ∗ owes (Pair.thr d L) O W')
        ∗ Tbl
        ∗ ((eaW).view.loc (Pair.thr d L) ↦{tok (wL L)} eaC m d)
        ∗ ((b5W).view.loc (Pair.thr d L) ↦{fullShare} f5) ∗ ((b6W).view.loc (Pair.thr d L) ↦{fullShare} f6)
        ∗ ((b7W).view.loc (Pair.thr d L) ↦{fullShare} f7) ∗ ((b8W).view.loc (Pair.thr d L) ↦{fullShare} f8)
        ∗ semVal (Pair.thr d L, SemLoc.dma cc0_scratch9.sem) 0 ∗ semVal (Pair.thr d L, SemLoc.dma cc0_scratch10.sem) 0
        ∗ semVal (Pair.thr d L, SemLoc.dma cc0_scratch11.sem) 0 ∗ semVal (Pair.thr d L, SemLoc.dma cc0_scratch12.sem) 0
        ∗ (oLoc d ↦[blocksOf (wL L)]{fullShare} oC m d))
      ⊢ (iprop(Pair.entry143 m d L O W Tbl
        ∗ ((eaW).view.loc (Pair.thr d L) ↦{Transfers.shareDrop (tok (wL L)) 4} eaC m d)
        ∗ ((eaW).view.loc (Pair.thr d L) ↦{Transfers.shareTokN (tok (wL L)) 0} eaC m d)
        ∗ ((eaW).view.loc (Pair.thr d L) ↦{Transfers.shareTokN (tok (wL L)) 1} eaC m d)
        ∗ (oLoc d ↦[chunkRest (wL L)]{fullShare} oC m d)) : sProp 𝕄) := by
  unfold Pair.entry143
  iintro ⟨Hmw, HO, HT, Hea, Hb5, Hb6, Hb7, Hb8, Hs9, Hs10, Hs11, Hs12, Ho⟩
  ihave Ht := (ea_toks4 (F := F) d L (tok (wL L)) (eaC m d)).1 $$ Hea
  icases Ht with ⟨Hear, Hea0, Hea1, Hea2, Hea3⟩
  ihave H5 := (thirds5 (F := F) d L f5).1 $$ Hb5
  icases H5 with ⟨H5a, H5b, H5c⟩
  ihave H6 := (thirds6 (F := F) d L f6).1 $$ Hb6
  icases H6 with ⟨H6a, H6b, H6c⟩
  ihave Hw := (wins_entry (F := F) d L (oC m d)) $$ Ho
  icases Hw with ⟨Hw0, Hw1, Hor⟩
  isplitr [Hear Hea0 Hea1 Hor]
  · isplitl [Hmw]; · iexact Hmw
    isplitl [HO]; · iexact HO
    isplitl [HT]; · iexact HT
    isplitl [Hea2]; · iexact Hea2
    isplitl [Hea3]; · iexact Hea3
    isplitl [H5a H5b H5c]
    · iexists f5, f5, f5
      isplitl [H5a]; · iexact H5a
      isplitl [H5b]; · iexact H5b
      iexact H5c
    isplitl [Hs11]; · iexact Hs11
    isplitl [H6a H6b H6c]
    · iexists f6, f6, f6
      isplitl [H6a]; · iexact H6a
      isplitl [H6b]; · iexact H6b
      iexact H6c
    isplitl [Hs12]; · iexact Hs12
    isplitl [Hs9]; · iexact Hs9
    isplitl [Hb7]; · iexists f7; iexact Hb7
    isplitl [Hs10]; · iexact Hs10
    isplitl [Hb8]; · iexists f8; iexact Hb8
    isplitl [Hw0]; · iexact Hw0
    iexact Hw1
  · isplitl [Hear]; · iexact Hear
    isplitl [Hea0]; · iexact Hea0
    isplitl [Hea1]; · iexact Hea1
    iexact Hor

end Rearrange

end Cert.Proof.KI

end
-- ==== Proof.TailWinKI.lean ====
/-
  The last window from the pieces held when the last chunk is copied out. At that moment the share is not held
  whole: the window of chunk 30 is still away with its copy. What is held of the share's end is the window of chunk 31
  (the blocks lo w + 186 … lo w + 191), back at contents that hold the value, and the three or four blocks after the
  chunks (lo w + 192 … lo (w + 1) − 1) at what they held at the start. The last window — the six blocks that end with
  the share — lies in the union of the two, contains the second, and does not meet chunk 30's window. So it can be
  carved out of the two pieces, and put back: chunk 31's window and the blocks after the chunks then both hold the
  value. And the two slots' windows with the blocks after the chunks at contents that hold the value make the share
  at contents that hold it everywhere.
-/
import proofs.«203789_g40862318854646_cont_8to1_b_1018_13_alg».proof.Proof.WinBridgeKI

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "oW" => (Memref.whole Cert.KernelIdeal.main_v5_scv : Memref Cert.KernelIdeal.sig Kind.scVector Space.hbm Cert.KernelIdeal.S8x6250x8x128 EltTy.f32)

/-! ## The sets -/

/-- A share has 195 or 196 blocks. -/
theorem lo_succ_bounds (w : ℕ) : lo w + 195 ≤ lo (w + 1) ∧ lo (w + 1) ≤ lo w + 196 := by
  have := lo_succ w
  split at this <;> omega

/-- The blocks after the 32 chunks. -/
theorem mem_chunkRest {w : ℕ} {j : S8x6250x8x128.Idx} : j ∈ chunkRest w ↔ lo w + 192 ≤ (j 1).val ∧ (j 1).val < lo (w + 1) := by
  unfold chunkRest
  rw [Finset.mem_sdiff, mem_blocksOf, mem_chunkWins']
  constructor
  · rintro ⟨⟨h1, h2⟩, h3⟩; omega
  · rintro ⟨h1, h2⟩; exact ⟨⟨by omega, h2⟩, by omega⟩

/-- The last window, by blocks. -/
theorem mem_tailWin {w : ℕ} {j : S8x6250x8x128.Idx} : j ∈ win (lo (w + 1) - 6) ↔ lo (w + 1) ≤ (j 1).val + 6 ∧ (j 1).val < lo (w + 1) := by
  have := lo_succ_bounds w
  rw [mem_win]
  constructor
  · rintro ⟨h1, h2⟩; omega
  · rintro ⟨h1, h2⟩; omega

/-- Chunk 31's window and the blocks after the chunks share no element … -/
theorem c31_rest_disjoint (w : ℕ) : Disjoint (win (lo w + 186)) (chunkRest w) := by
  rw [Finset.disjoint_left]
  intro j h1 h2
  rw [mem_win] at h1; rw [mem_chunkRest] at h2
  omega

/-- … the last window lies in their union … -/
theorem tail_sub_union (w : ℕ) : win (lo (w + 1) - 6) ⊆ win (lo w + 186) ∪ chunkRest w := by
  intro j hj
  have := lo_succ_bounds w
  rw [mem_tailWin] at hj
  rw [Finset.mem_union, mem_win, mem_chunkRest]
  omega

/-- … and contains the blocks after the chunks. -/
theorem rest_sub_tail (w : ℕ) : chunkRest w ⊆ win (lo (w + 1) - 6) := by
  intro j hj
  have := lo_succ_bounds w
  rw [mem_chunkRest] at hj
  rw [mem_tailWin]
  omega

/-- What the union keeps outside the last window is what chunk 31's window keeps. -/
theorem union_sdiff_tail (w : ℕ) :
    (win (lo w + 186) ∪ chunkRest w) \ win (lo (w + 1) - 6) = win (lo w + 186) \ win (lo (w + 1) - 6) := by
  ext j
  have := lo_succ_bounds w
  simp only [Finset.mem_sdiff, Finset.mem_union, mem_win (b := lo w + 186), mem_chunkRest, mem_tailWin]
  constructor
  · rintro ⟨h1 | h1, h2⟩
    · exact ⟨h1, h2⟩
    · exact absurd ⟨by omega, h1.2⟩ h2
  · rintro ⟨h1, h2⟩; exact ⟨.inl h1, h2⟩

/-- Chunk 31's window is its part outside the last window and the last window's part before the blocks after the chunks. -/
theorem c31_eq (w : ℕ) :
    (win (lo w + 186) \ win (lo (w + 1) - 6)) ∪ (win (lo (w + 1) - 6) \ chunkRest w) = win (lo w + 186) := by
  ext j
  have := lo_succ_bounds w
  simp only [Finset.mem_sdiff, Finset.mem_union, mem_win (b := lo w + 186), mem_chunkRest, mem_tailWin]
  constructor
  · rintro (⟨h1, _⟩ | ⟨h1, h2⟩)
    · exact h1
    · constructor
      · omega
      · by_contra h; exact h2 ⟨by omega, h1.2⟩
  · intro h1
    by_cases h2 : lo (w + 1) ≤ (j 1).val + 6 ∧ (j 1).val < lo (w + 1)
    · exact .inr ⟨h2, fun h3 => by omega⟩
    · exact .inl ⟨h1, h2⟩

theorem c31_parts_disjoint (w : ℕ) :
    Disjoint (win (lo w + 186) \ win (lo (w + 1) - 6)) (win (lo (w + 1) - 6) \ chunkRest w) := by
  rw [Finset.disjoint_left]
  intro j h1 h2
  exact (Finset.mem_sdiff.mp h1).2 (Finset.mem_sdiff.mp h2).1

/-! ## Carving the last window out of the two pieces, and putting it back -/

section PointsTo
variable (d : Dev nD) (w : ℕ)

/-- OUT: chunk 31's window and the blocks after the chunks give the last window, at some contents, and what chunk 31's
    window keeps. -/
theorem tail_out' (g1 fo : Buf (Elt F) (oLoc d)) :
    iprop((oLoc d ↦[win (lo w + 186)]{fullShare} g1) ∗ (oLoc d ↦[chunkRest w]{fullShare} fo))
      ⊢ (iprop(∃ g : Buf (Elt F) (oLoc d), (oLoc d ↦[win (lo (w + 1) - 6)]{fullShare} g)
          ∗ (oLoc d ↦[win (lo w + 186) \ win (lo (w + 1) - 6)]{fullShare} g1)) : sProp 𝕄) := by
  have e1 : (oLoc d ↦[(win (lo w + 186) ∪ chunkRest w) \ win (lo (w + 1) - 6)]{fullShare} (chunkRest w).piecewise fo g1 : sProp 𝕄)
      = (oLoc d ↦[win (lo w + 186) \ win (lo (w + 1) - 6)]{fullShare} g1) := by
    rw [union_sdiff_tail w]
    exact pointsTo_congr fun j hj =>
      Finset.piecewise_eq_of_notMem _ _ _ (fun hr => (Finset.mem_sdiff.mp hj).2 (rest_sub_tail w hr))
  iintro H
  ihave H := (pointsTo_join (ℓ := oLoc d) (I := win (lo w + 186)) (J := chunkRest w) (q := fullShare) (f := g1) (g := fo)
    (c31_rest_disjoint w)) $$ H
  ihave H := ((pointsTo_split_subset (ℓ := oLoc d) (q := fullShare) (f := (chunkRest w).piecewise fo g1) (tail_sub_union w)).1) $$ H
  icases H with ⟨HT, HK⟩
  ihave HK := (Entails.of_eq e1) $$ HK
  iexists (chunkRest w).piecewise fo g1
  isplitl [HT]
  · iexact HT
  · iexact HK

set_option maxHeartbeats 1000000 in
/-- BACK: the last window at contents that hold the value, and what chunk 31's window kept (which held it): chunk 31's
    window and the blocks after the chunks, each at contents that hold the value. -/
theorem tail_back' (Vf : S8x6250x8x128.Idx → F .f32) (g1 g' : Buf (Elt F) (oLoc d))
    (hg1 : ∀ j ∈ win (lo w + 186), g1 j = Vf j) (hg' : ∀ j ∈ win (lo (w + 1) - 6), g' j = Vf j) :
    iprop((oLoc d ↦[win (lo (w + 1) - 6)]{fullShare} g') ∗ (oLoc d ↦[win (lo w + 186) \ win (lo (w + 1) - 6)]{fullShare} g1))
      ⊢ (iprop((∃ g : Buf (Elt F) (oLoc d), ⌜∀ j ∈ win (lo w + 186), g j = Vf j⌝ ∗ (oLoc d ↦[win (lo w + 186)]{fullShare} g))
          ∗ (∃ gR : Buf (Elt F) (oLoc d), ⌜∀ j ∈ chunkRest w, gR j = Vf j⌝ ∗ (oLoc d ↦[chunkRest w]{fullShare} gR))) : sProp 𝕄) := by
  have e2 : (oLoc d ↦[(win (lo w + 186) \ win (lo (w + 1) - 6)) ∪ (win (lo (w + 1) - 6) \ chunkRest w)]{fullShare}
        (win (lo (w + 1) - 6) \ chunkRest w).piecewise g' g1 : sProp 𝕄)
      = (oLoc d ↦[win (lo w + 186)]{fullShare} (win (lo (w + 1) - 6) \ chunkRest w).piecewise g' g1) := by
    rw [c31_eq w]
  iintro ⟨HT, HK⟩
  ihave HT := ((pointsTo_split_subset (ℓ := oLoc d) (q := fullShare) (f := g') (rest_sub_tail w)).1) $$ HT
  icases HT with ⟨HR, HTA⟩
  ihave HA := (pointsTo_join (ℓ := oLoc d) (I := win (lo w + 186) \ win (lo (w + 1) - 6)) (J := win (lo (w + 1) - 6) \ chunkRest w)
    (q := fullShare) (f := g1) (g := g') (c31_parts_disjoint w)) $$ [HK HTA]
  · isplitl [HK]
    · iexact HK
    · iexact HTA
  ihave HA := (Entails.of_eq e2) $$ HA
  isplitl [HA]
  · iexists (win (lo (w + 1) - 6) \ chunkRest w).piecewise g' g1
    isplitr
    · ipureintro
      intro j hj
      by_cases ht : j ∈ win (lo (w + 1) - 6) \ chunkRest w
      · rw [Finset.piecewise_eq_of_mem _ _ _ ht]; exact hg' j (Finset.mem_sdiff.mp ht).1
      · rw [Finset.piecewise_eq_of_notMem _ _ _ ht]; exact hg1 j hj
    · iexact HA
  · iexists g'
    isplitr
    · ipureintro
      exact fun j hj => hg' j (rest_sub_tail w hj)
    · iexact HR

/-- THE JOIN, with the blocks after the chunks at the value too: one contents on the share that holds the value
    everywhere. -/
theorem join_full (Vf : S8x6250x8x128.Idx → F .f32) (gR : Buf (Elt F) (oLoc d)) (hR : ∀ j ∈ chunkRest w, gR j = Vf j) :
    iprop((bigSep Finset.univ fun t : Fin 16 => iprop(∃ g : Buf (Elt F) (oLoc d),
            ⌜∀ j ∈ win (lo w + 12 * t.val), g j = Vf j⌝ ∗ (oLoc d ↦[win (lo w + 12 * t.val)]{fullShare} g)))
        ∗ (bigSep Finset.univ fun t : Fin 16 => iprop(∃ g : Buf (Elt F) (oLoc d),
            ⌜∀ j ∈ win (lo w + 12 * t.val + 6), g j = Vf j⌝ ∗ (oLoc d ↦[win (lo w + 12 * t.val + 6)]{fullShare} g)))
        ∗ (oLoc d ↦[chunkRest w]{fullShare} gR))
      ⊢ (iprop(∃ g : Buf (Elt F) (oLoc d), ⌜∀ j ∈ blocksOf w, g j = Vf j⌝ ∗ (oLoc d ↦[blocksOf w]{fullShare} g)) : sProp 𝕄) := by
  iintro ⟨He, Ho, Hr⟩
  ihave He := (join_family d Vf (fun t : Fin 16 => win (lo w + 12 * t.val)) (even_pairwise w) gR) $$ He
  icases He with ⟨%ge, %hge, He⟩
  ihave Ho := (join_family d Vf (fun t : Fin 16 => win (lo w + 12 * t.val + 6)) (odd_pairwise w) gR) $$ Ho
  icases Ho with ⟨%go, %hgo, Ho⟩
  ihave Heo := (pointsTo_join (ℓ := oLoc d) (I := evenWins w) (J := oddWins w) (q := fullShare) (f := ge) (g := go)
    (even_odd_disjoint w)) $$ [He Ho]
  · isplitl [He]
    · iexact He
    · iexact Ho
  ihave Hall := (pointsTo_join (ℓ := oLoc d) (I := evenWins w ∪ oddWins w) (J := chunkRest w) (q := fullShare)
    (f := (oddWins w).piecewise go ge) (g := gR) (chunkRest_disjoint w)) $$ [Heo Hr]
  · isplitl [Heo]
    · iexact Heo
    · iexact Hr
  iexists (chunkRest w).piecewise gR ((oddWins w).piecewise go ge)
  isplitr
  · ipureintro
    intro j hj
    by_cases hr : j ∈ chunkRest w
    · rw [Finset.piecewise_eq_of_mem _ _ _ hr]; exact hR j hr
    · rw [Finset.piecewise_eq_of_notMem _ _ _ hr]
      have hcw : j ∈ chunkWins w := by
        rw [blocksOf_eq w, Finset.mem_union] at hj
        exact hj.resolve_right hr
      by_cases ho : j ∈ oddWins w
      · rw [Finset.piecewise_eq_of_mem _ _ _ ho]
        obtain ⟨t, ht⟩ := mem_oddWins.mp ho
        exact hgo t j ht
      · rw [Finset.piecewise_eq_of_notMem _ _ _ ho]
        have he : j ∈ evenWins w := (Finset.mem_union.mp hcw).resolve_right ho
        obtain ⟨t, ht⟩ := mem_evenWins.mp he
        exact hge t j ht
  · rw [blocksOf_eq w]
    iexact Hall

theorem join_full_n {n : ℕ} (hn : n = 16) (Vf : S8x6250x8x128.Idx → F .f32) (gR : Buf (Elt F) (oLoc d)) (hR : ∀ j ∈ chunkRest w, gR j = Vf j) :
    iprop((bigSep Finset.univ fun t : Fin n => iprop(∃ g : Buf (Elt F) (oLoc d),
            ⌜∀ j ∈ win (lo w + 12 * t.val), g j = Vf j⌝ ∗ (oLoc d ↦[win (lo w + 12 * t.val)]{fullShare} g)))
        ∗ (bigSep Finset.univ fun t : Fin n => iprop(∃ g : Buf (Elt F) (oLoc d),
            ⌜∀ j ∈ win (lo w + 12 * t.val + 6), g j = Vf j⌝ ∗ (oLoc d ↦[win (lo w + 12 * t.val + 6)]{fullShare} g)))
        ∗ (oLoc d ↦[chunkRest w]{fullShare} gR))
      ⊢ (iprop(∃ g : Buf (Elt F) (oLoc d), ⌜∀ j ∈ blocksOf w, g j = Vf j⌝ ∗ (oLoc d ↦[blocksOf w]{fullShare} g)) : sProp 𝕄) := by
  subst hn; exact join_full d w Vf gR hR

end PointsTo

/-! ## In the program's spelling -/

section Spelt
variable (d : Dev nD) (L : grid0.Coords)

/-- EXIT, the blocks after the chunks already at the value: every slice back at contents that hold `Vf` on its window,
    and the blocks after the chunks at contents that hold it: the share at contents that hold it everywhere. -/
theorem wins_exit_full (Vf : S8x6250x8x128.Idx → F .f32) :
    iprop((bigSep Finset.univ fun i : Fin k0_t1_loop.trips => iprop(∃ g, ⌜Pw0V d L Vf i g⌝
            ∗ ((Pair.o70 L i).view.loc (V d (cV L) (jV L)) ↦[(Pair.o70 L i).view.set]{fullShare} g)))
        ∗ (bigSep Finset.univ fun i : Fin k0_t1_loop.trips => iprop(∃ g, ⌜Pw1V d L Vf i g⌝
            ∗ ((Pair.o139 L i).view.loc (V d (cV L) (jV L)) ↦[(Pair.o139 L i).view.set]{fullShare} g)))
        ∗ (∃ gR : Buf (Elt F) (oLoc d), ⌜∀ j ∈ chunkRest (wL L), gR j = Vf j⌝ ∗ (oLoc d ↦[chunkRest (wL L)]{fullShare} gR)))
      ⊢ (iprop(∃ g'' : Buf (Elt F) (oLoc d), ⌜∀ j ∈ blocksOf (wL L), g'' j = Vf j⌝
          ∗ (oLoc d ↦[blocksOf (wL L)]{fullShare} g'')) : sProp 𝕄) := by
  iintro ⟨H0, H1, ⟨%gR, %hR, Hr⟩⟩
  iapply (join_full_n d (wL L) trips16 Vf gR hR)
  have h0 : (bigSep Finset.univ fun i : Fin k0_t1_loop.trips => (iprop(∃ g, ⌜Pw0V d L Vf i g⌝
            ∗ ((Pair.o70 L i).view.loc (V d (cV L) (jV L)) ↦[(Pair.o70 L i).view.set]{fullShare} g)) : sProp 𝕄))
      ⊢ bigSep Finset.univ fun t : Fin k0_t1_loop.trips => (iprop(∃ g : Buf (Elt F) (oLoc d),
            ⌜∀ j ∈ win (lo (wL L) + 12 * t.val), g j = Vf j⌝ ∗ (oLoc d ↦[win (lo (wL L) + 12 * t.val)]{fullShare} g)) : sProp 𝕄) :=
    bigSep_mono fun t _ => o70_out d L Vf t
  have h1 : (bigSep Finset.univ fun i : Fin k0_t1_loop.trips => (iprop(∃ g, ⌜Pw1V d L Vf i g⌝
            ∗ ((Pair.o139 L i).view.loc (V d (cV L) (jV L)) ↦[(Pair.o139 L i).view.set]{fullShare} g)) : sProp 𝕄))
      ⊢ bigSep Finset.univ fun t : Fin k0_t1_loop.trips => (iprop(∃ g : Buf (Elt F) (oLoc d),
            ⌜∀ j ∈ win (lo (wL L) + 12 * t.val + 6), g j = Vf j⌝ ∗ (oLoc d ↦[win (lo (wL L) + 12 * t.val + 6)]{fullShare} g)) : sProp 𝕄) :=
    bigSep_mono fun t _ => o139_out d L Vf t
  isplitl [H0]
  · iapply h0; iexact H0
  isplitl [H1]
  · iapply h1; iexact H1
  iexact Hr

/-- The window of chunk 31 through its slice (trip 15, slot 1) is the points-to on its blocks. -/
theorem pts_o139_last (t : Fin k0_t1_loop.trips) (ht : t.val = 15) (g : Buf (Elt F) (oLoc d)) :
    ((Pair.o139 L t).view.loc (V d (cV L) (jV L)) ↦[(Pair.o139 L t).view.set]{fullShare} g : sProp 𝕄)
      = (oLoc d ↦[win (lo (wL L) + 186)]{fullShare} g) := by
  rw [pts_o139 d L t g, ht, show lo (wL L) + 12 * 15 + 6 = lo (wL L) + 186 from by omega]

end Spelt

end Cert.Proof.KI

end
-- ==== Proof.FinishKI.lean ====
/-
  The body's closing step: what a vector subcore holds when its run ends — its blocks of the result at contents that
  hold the embedding, its read shares of the flattened arrays whole again, its nine scratches at whatever they hold,
  its eight semaphores back at zero, and what it owes — is what the launch asked it to hand back.
-/
import proofs.«203789_g40862318854646_cont_8to1_b_1018_13_alg».proof.Proof.TileDefsKI
import proofs.«203789_g40862318854646_cont_8to1_b_1018_13_alg».proof.Proof.GoodKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)

variable (m : (ℓ : Loc nD τ sig) → Buf (Elt F) ℓ) [FloatOps F] (d : Dev nD) (L : grid0.Coords)

/-- Against the handed-back resources spelt out: `Hb` and `Hs` are whatever the subcore's other buffers and semaphores
    are (`ownBufs_V` and `ownSems0_V` say what, and are passed as `hB`, `hS`; they pass through untouched). -/
theorem finish' (O : CellTallies nD τ sig (HIx 1)) (W : Waits sig (HIx 1)) (Hb Hs : sProp 𝕄) :
    iprop((∃ g, ⌜GoodV m d g (wL L)⌝ ∗ (oLoc d ↦[blocksOf (wL L)]{fullShare} g))
        ∗ ((eaW).view.loc (V d (cV L) (jV L)) ↦{tok (wL L)} eaC m d)
        ∗ ((w0W).view.loc (V d (cV L) (jV L)) ↦{tok (wL L)} w0C m d)
        ∗ ((w1W).view.loc (V d (cV L) (jV L)) ↦{tok (wL L)} w1C m d)
        ∗ ((w2W).view.loc (V d (cV L) (jV L)) ↦{tok (wL L)} w2C m d)
        ∗ (∃ f, (b0W).view.loc (V d (cV L) (jV L)) ↦{fullShare} f)
        ∗ (∃ f, (b1W).view.loc (V d (cV L) (jV L)) ↦{fullShare} f)
        ∗ (∃ f, (b2W).view.loc (V d (cV L) (jV L)) ↦{fullShare} f)
        ∗ (∃ f, (b3W).view.loc (V d (cV L) (jV L)) ↦{fullShare} f)
        ∗ (∃ f, (b4W).view.loc (V d (cV L) (jV L)) ↦{fullShare} f)
        ∗ (∃ f, (b5W).view.loc (V d (cV L) (jV L)) ↦{fullShare} f)
        ∗ (∃ f, (b6W).view.loc (V d (cV L) (jV L)) ↦{fullShare} f)
        ∗ (∃ f, (b7W).view.loc (V d (cV L) (jV L)) ↦{fullShare} f)
        ∗ (∃ f, (b8W).view.loc (V d (cV L) (jV L)) ↦{fullShare} f)
        ∗ Hb
        ∗ semVal ((V d (cV L) (jV L)), SemLoc.dma cc0_scratch9.sem) 0
        ∗ semVal ((V d (cV L) (jV L)), SemLoc.dma cc0_scratch10.sem) 0
        ∗ semVal ((V d (cV L) (jV L)), SemLoc.dma cc0_scratch11.sem) 0
        ∗ semVal ((V d (cV L) (jV L)), SemLoc.dma cc0_scratch12.sem) 0
        ∗ semVal ((V d (cV L) (jV L)), SemLoc.dma cc0_scoped0.sem) 0
        ∗ semVal ((V d (cV L) (jV L)), SemLoc.dma cc0_scoped1.sem) 0
        ∗ semVal ((V d (cV L) (jV L)), SemLoc.dma cc0_scoped2.sem) 0
        ∗ semVal ((V d (cV L) (jV L)), SemLoc.dma cc0_scoped3.sem) 0
        ∗ Hs
        ∗ (∃ W', ⌜∀ p ∈ W', p ∈ W ∨ p.2 = none⌝ ∗ owes (V d (cV L) (jV L)) O W'))
      ⊢ (iprop((∃ fo, ⌜GoodV m d fo (wL L)⌝ ∗ ((eaLoc d ↦{tok (wL L)} eaC m d) ∗ (w0Loc d ↦{tok (wL L)} w0C m d) ∗ (w1Loc d ↦{tok (wL L)} w1C m d)
            ∗ (w2Loc d ↦{tok (wL L)} w2C m d) ∗ (oLoc d ↦[blocksOf (wL L)]{fullShare} fo)))
        ∗ ((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ Hb)
        ∗ (semVal ((V d (cV L) (jV L)), SemLoc.dma cc0_scratch9.sem) 0
          ∗ semVal ((V d (cV L) (jV L)), SemLoc.dma cc0_scratch10.sem) 0
          ∗ semVal ((V d (cV L) (jV L)), SemLoc.dma cc0_scratch11.sem) 0
          ∗ semVal ((V d (cV L) (jV L)), SemLoc.dma cc0_scratch12.sem) 0
          ∗ semVal ((V d (cV L) (jV L)), SemLoc.dma cc0_scoped0.sem) 0
          ∗ semVal ((V d (cV L) (jV L)), SemLoc.dma cc0_scoped1.sem) 0
          ∗ semVal ((V d (cV L) (jV L)), SemLoc.dma cc0_scoped2.sem) 0
          ∗ semVal ((V d (cV L) (jV L)), SemLoc.dma cc0_scoped3.sem) 0
          ∗ Hs)
        ∗ ∃ W', ⌜∀ p ∈ W', p ∈ W ∨ p.2 = none⌝ ∗ owes (V d (cV L) (jV L)) O W') : sProp 𝕄) := by
  iintro ⟨⟨%g, %hg, Ho⟩, Hea, Hw0, Hw1, Hw2, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hbufs, S0, S1, S2, S3, S4, S5, S6, S7, Hsems, HO⟩
  isplitl [Ho Hea Hw0 Hw1 Hw2]
  · iexists g
    isplitr
    · ipureintro; exact hg
    isplitl [Hea]; · iapply (Entails.of_eq (pts_ea (F := F) d L _ _)); iexact Hea
    isplitl [Hw0]; · iapply (Entails.of_eq (pts_w0 (F := F) d L _ _)); iexact Hw0
    isplitl [Hw1]; · iapply (Entails.of_eq (pts_w1 (F := F) d L _ _)); iexact Hw1
    isplitl [Hw2]; · iapply (Entails.of_eq (pts_w2 (F := F) d L _ _)); iexact Hw2
    iexact Ho
  isplitl [H0 H1 H2 H3 H4 H5 H6 H7 H8 Hbufs]
  ·
    isplitl [H0]; · iexists f0; iapply (Entails.of_eq (pts_b0 (F := F) d L f0)); iexact H0
    isplitl [H1]; · iexists f1; iapply (Entails.of_eq (pts_b1 (F := F) d L f1)); iexact H1
    isplitl [H2]; · iexists f2; iapply (Entails.of_eq (pts_b2 (F := F) d L f2)); iexact H2
    isplitl [H3]; · iexists f3; iapply (Entails.of_eq (pts_b3 (F := F) d L f3)); iexact H3
    isplitl [H4]; · iexists f4; iapply (Entails.of_eq (pts_b4 (F := F) d L f4)); iexact H4
    isplitl [H5]; · iexists f5; iapply (Entails.of_eq (pts_b5 (F := F) d L f5)); iexact H5
    isplitl [H6]; · iexists f6; iapply (Entails.of_eq (pts_b6 (F := F) d L f6)); iexact H6
    isplitl [H7]; · iexists f7; iapply (Entails.of_eq (pts_b7 (F := F) d L f7)); iexact H7
    isplitl [H8]; · iexists f8; iapply (Entails.of_eq (pts_b8 (F := F) d L f8)); iexact H8
    iexact Hbufs
  isplitl [S0 S1 S2 S3 S4 S5 S6 S7 Hsems]
  ·
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact Hsems
  iexact HO

/-- Against the launch's own wording of what is handed back. -/
theorem finish (hF : (K (F := F)).Facts) (O : CellTallies nD τ sig (HIx 1)) (W : Waits sig (HIx 1)) (Hb Hs : sProp 𝕄)
    (hB : (ownBufs (V d (cV L) (jV L)) : sProp 𝕄) = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ Hb))
    (hS : (ownSems0 (V d (cV L) (jV L)) : sProp 𝕄) = iprop(semVal ((V d (cV L) (jV L)), SemLoc.dma cc0_scratch9.sem) 0
          ∗ semVal ((V d (cV L) (jV L)), SemLoc.dma cc0_scratch10.sem) 0
          ∗ semVal ((V d (cV L) (jV L)), SemLoc.dma cc0_scratch11.sem) 0
          ∗ semVal ((V d (cV L) (jV L)), SemLoc.dma cc0_scratch12.sem) 0
          ∗ semVal ((V d (cV L) (jV L)), SemLoc.dma cc0_scoped0.sem) 0
          ∗ semVal ((V d (cV L) (jV L)), SemLoc.dma cc0_scoped1.sem) 0
          ∗ semVal ((V d (cV L) (jV L)), SemLoc.dma cc0_scoped2.sem) 0
          ∗ semVal ((V d (cV L) (jV L)), SemLoc.dma cc0_scoped3.sem) 0
          ∗ Hs)) :
    iprop((∃ g, ⌜GoodV m d g (wL L)⌝ ∗ (oLoc d ↦[blocksOf (wL L)]{fullShare} g))
        ∗ ((eaW).view.loc (V d (cV L) (jV L)) ↦{tok (wL L)} eaC m d)
        ∗ ((w0W).view.loc (V d (cV L) (jV L)) ↦{tok (wL L)} w0C m d)
        ∗ ((w1W).view.loc (V d (cV L) (jV L)) ↦{tok (wL L)} w1C m d)
        ∗ ((w2W).view.loc (V d (cV L) (jV L)) ↦{tok (wL L)} w2C m d)
        ∗ (∃ f, (b0W).view.loc (V d (cV L) (jV L)) ↦{fullShare} f)
        ∗ (∃ f, (b1W).view.loc (V d (cV L) (jV L)) ↦{fullShare} f)
        ∗ (∃ f, (b2W).view.loc (V d (cV L) (jV L)) ↦{fullShare} f)
        ∗ (∃ f, (b3W).view.loc (V d (cV L) (jV L)) ↦{fullShare} f)
        ∗ (∃ f, (b4W).view.loc (V d (cV L) (jV L)) ↦{fullShare} f)
        ∗ (∃ f, (b5W).view.loc (V d (cV L) (jV L)) ↦{fullShare} f)
        ∗ (∃ f, (b6W).view.loc (V d (cV L) (jV L)) ↦{fullShare} f)
        ∗ (∃ f, (b7W).view.loc (V d (cV L) (jV L)) ↦{fullShare} f)
        ∗ (∃ f, (b8W).view.loc (V d (cV L) (jV L)) ↦{fullShare} f)
        ∗ Hb
        ∗ semVal ((V d (cV L) (jV L)), SemLoc.dma cc0_scratch9.sem) 0
        ∗ semVal ((V d (cV L) (jV L)), SemLoc.dma cc0_scratch10.sem) 0
        ∗ semVal ((V d (cV L) (jV L)), SemLoc.dma cc0_scratch11.sem) 0
        ∗ semVal ((V d (cV L) (jV L)), SemLoc.dma cc0_scratch12.sem) 0
        ∗ semVal ((V d (cV L) (jV L)), SemLoc.dma cc0_scoped0.sem) 0
        ∗ semVal ((V d (cV L) (jV L)), SemLoc.dma cc0_scoped1.sem) 0
        ∗ semVal ((V d (cV L) (jV L)), SemLoc.dma cc0_scoped2.sem) 0
        ∗ semVal ((V d (cV L) (jV L)), SemLoc.dma cc0_scoped3.sem) 0
        ∗ Hs
        ∗ (∃ W', ⌜∀ p ∈ W', p ∈ W ∨ p.2 = none⌝ ∗ owes (V d (cV L) (jV L)) O W'))
      ⊢ (iprop((∃ fo, ⌜GoodV m d fo (wL L)⌝ ∗ tileRes m d (wL L) fo) ∗ scopedBufs (V d (cV L) (jV L)) ∗ scopedSems0 (V d (cV L) (jV L))
        ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), hB, hS]
  unfold tileRes
  exact finish' m d L O W Hb Hs

/-- The same with the subcore's other buffers and semaphores as `ownBufs_V` and `ownSems0_V` name them. -/
example (hF : (K (F := F)).Facts) (O : CellTallies nD τ sig (HIx 1)) (W : Waits sig (HIx 1)) :=
  finish m d L hF O W _ _ (ownBufs_V (F := F) d L) (ownSems0_V (F := F) d L)

end Cert.Proof.KI

end
-- ==== Proof.BodyKI.lean ====
/-
  The run of the kernel's body on one vector subcore, at a symbolic grid point: from its read shares of the flattened
  attributes and tables and its own blocks of the result, it ends holding them again with every element of its blocks at
  the embedding of that element's edge and column.
-/
import proofs.«203789_g40862318854646_cont_8to1_b_1018_13_alg».proof.Proof.TileDefsKI
import proofs.«203789_g40862318854646_cont_8to1_b_1018_13_alg».proof.Proof.GoodKI
import proofs.«203789_g40862318854646_cont_8to1_b_1018_13_alg».proof.Proof.TabKI
import proofs.«203789_g40862318854646_cont_8to1_b_1018_13_alg».proof.Proof.InnerKI
import proofs.«203789_g40862318854646_cont_8to1_b_1018_13_alg».proof.Proof.PlugKI
import proofs.«203789_g40862318854646_cont_8to1_b_1018_13_alg».proof.Proof.PlugTailKI
import proofs.«203789_g40862318854646_cont_8to1_b_1018_13_alg».proof.Proof.PairKI
import proofs.«203789_g40862318854646_cont_8to1_b_1018_13_alg».proof.Proof.LandKI
import proofs.«203789_g40862318854646_cont_8to1_b_1018_13_alg».proof.Proof.WinBridgeKI
import proofs.«203789_g40862318854646_cont_8to1_b_1018_13_alg».proof.Proof.EntryKI
import proofs.«203789_g40862318854646_cont_8to1_b_1018_13_alg».proof.Proof.TailWinKI
import proofs.«203789_g40862318854646_cont_8to1_b_1018_13_alg».proof.Proof.HlandKI
import proofs.«203789_g40862318854646_cont_8to1_b_1018_13_alg».proof.Proof.FinishKI
import Idealize.ShloMosaic.Lib.Batch
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

/-- A resource set aside under another name until it is needed: the same assertion. -/
def Hid (P : sProp 𝕄) : sProp 𝕄 := P
theorem hid_eq (P : sProp 𝕄) : Hid (F := F) P = P := rfl

open Pair

variable (m : (ℓ : Loc nD τ sig) → Buf (Elt F) ℓ)
variable [FloatOps F]

set_option maxHeartbeats 0 in
theorem tile_body [∀ e, Nonempty (Elt F e)] (d : Dev nD) (L : grid0.Coords) (hea : ∀ n, eaC m d n = 0#32 ∨ eaC m d n = 1#32)
    (hF : (K (F := F)).Facts) (O : CellTallies nD τ sig (HIx 1)) (W : Waits sig (HIx 1)) (hO : ∀ g, O g none = 0) :
    iprop(levAts (K (F := F)).L (K (F := F)).lev ∗ emp ∗ tileRes m d (wL L) (oC m d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3)
          fun _ => iprop((∃ fo, ⌜GoodV m d fo (wL L)⌝ ∗ tileRes m d (wL L) fo) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold tileRes
  iintro ⟨#Hlv, -, ⟨Hea, Hw0, Hw1, Hw2, Ho⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, Hbufs⟩,
    ⟨Hos0, Hos1, Hes0, Hes1, Hr0, Hr1, Hr2, Hr3, Hsems⟩, HO⟩
  ihave Hmw := ((K (F := F)).mayWaits_none (thr := (V d (cV L) (jV L))) hO) $$ Hlv
  ihave Hea' := (Entails.of_eq (pts_ea (F := F) d L _ _).symm) $$ Hea
  ihave Hw0' := (Entails.of_eq (pts_w0 (F := F) d L _ _).symm) $$ Hw0
  ihave Hw1' := (Entails.of_eq (pts_w1 (F := F) d L _ _).symm) $$ Hw1
  ihave Hw2' := (Entails.of_eq (pts_w2 (F := F) d L _ _).symm) $$ Hw2
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  ihave Hb4' := (Entails.of_eq (pts_b4 (F := F) d L _).symm) $$ Hb4
  ihave Hb5' := (Entails.of_eq (pts_b5 (F := F) d L _).symm) $$ Hb5
  ihave Hb6' := (Entails.of_eq (pts_b6 (F := F) d L _).symm) $$ Hb6
  ihave Hb7' := (Entails.of_eq (pts_b7 (F := F) d L _).symm) $$ Hb7
  ihave Hb8' := (Entails.of_eq (pts_b8 (F := F) d L _).symm) $$ Hb8
  ihave Hes0h := (Entails.of_eq (hid_eq (F := F) _).symm) $$ Hes0
  ihave Hes1h := (Entails.of_eq (hid_eq (F := F) _).symm) $$ Hes1
  sl_exec_parts
  -- the table scratch's 240 stores read back once: word y below 3840 is row y / 64, column y % 64 of the combined table
  have hC0 : ∀ i, View.read (Elt F) (Memref.whole cc0_scratch0).view (View.write (Elt F) (Memref.whole cc0_scratch0).view f0 (tile_body.sl.dma0 m d) Finset.univ) i = w0C m d i := fun i => by
    simp only [Memref.view_whole, View.write_whole_univ, View.read_whole]; rfl
  have hC1 : ∀ i, View.read (Elt F) (Memref.whole cc0_scratch1).view (View.write (Elt F) (Memref.whole cc0_scratch1).view f1 (tile_body.sl.dma0_1 m d) Finset.univ) i = w1C m d i := fun i => by
    simp only [Memref.view_whole, View.write_whole_univ, View.read_whole]; rfl
  have hC2 : ∀ i, View.read (Elt F) (Memref.whole cc0_scratch2).view (View.write (Elt F) (Memref.whole cc0_scratch2).view f2 (tile_body.sl.dma0_2 m d) Finset.univ) i = w2C m d i := fun i => by
    simp only [Memref.view_whole, View.write_whole_univ, View.read_whole]; rfl
  ihave Hb3n : iprop(∃ ft3, ⌜∀ y : S4096.Idx, (y 0).val < 3840 → (Memref.whole cc0_scratch3).view.read (Elt F) ft3 y = tabWord (w0C m d) (w1C m d) (w2C m d) y⌝ ∗ (Memref.whole cc0_scratch3).view.loc (V d (cV L) (jV L)) ↦{fullShare} ft3) $$ [Hb3']
  · iexists _; isplitr
    rotate_left
    · iexact Hb3'
    · ipureintro
      intro y hy
      refine read_of_stack _ _ _ 240 _ ?_ y (by omega)
      repeat (refine stack_cons _ _ _ _ _ _ rfl ?_ ?_; · exact agree_tab _ _ _ _ _ _ _ _ _ hC0 hC1 hC2 _ _ _ _ _ _ _ _ (by decide) (by decide) (by decide) (by decide) (by decide))
      exact stack_nil _
  icases Hb3n with ⟨%ft3, %h3, Hb3'⟩
  iterate 300 (first | (rw [SparseCore.vectorLoadIdx_bind (c := (V d (cV L) (jV L)))]; sl_exec_parts) | skip)
  -- the transposed scratch's 256 stores read back once: word 64 c + r is the table scratch's word 64 r + c
  ihave Hb4n : iprop(∃ ft : Buf (Elt F) ((V d (cV L) (jV L)).loc cc0_scratch4), ⌜TabT (w0C m d) (w1C m d) (w2C m d) ft⌝ ∗ (Memref.whole cc0_scratch4).view.loc (V d (cV L) (jV L)) ↦{fullShare} ft) $$ [Hb4']
  · iexists _; isplitr
    rotate_left
    · iexact Hb4'
    · ipureintro
      have hrw : ∀ (g : Buf (Elt F) ((V d (cV L) (jV L)).loc cc0_scratch4)) (y : S4096.Idx), (Memref.whole cc0_scratch4).view.read (Elt F) g y = g y := fun g y => by
        simp only [Memref.view_whole, View.read_whole]
      refine tabT_of_words _ _ _ (fun y => (Memref.whole cc0_scratch3).view.read (Elt F) ft3 y) h3 _ (fun y => (hrw _ y).symm.trans ?_)
      refine read_of_stack (Memref.whole cc0_scratch4).view f4 _ 256 _ ?_ y (by have : (y 0).val < 4096 := (y 0).isLt; omega)
      repeat (refine stack_cons _ _ _ _ _ _ rfl ?_ ?_; · exact agree_tr _ _ (fun y => readAt_whole_apply _ _ y) _ _ _ _ _ _ (fun x => idx_lane _ _ (by decide) (by decide) _ x) (by decide) (by decide) (by decide))
      exact stack_nil _
  icases Hb4n with ⟨%ft, %hT, Hb4'⟩
  ihave Hes0 := (Entails.of_eq (hid_eq (F := F) _)) $$ Hes0h
  ihave Hes1 := (Entails.of_eq (hid_eq (F := F) _)) $$ Hes1h
  -- the resources as the first fetches and the chunk loop take them
  ihave HE := (to_entry143 (F := F) m d L O W ((b4W).view.loc (V d (cV L) (jV L)) ↦{fullShare} ft) f5 f6 f7 f8) $$ [HO Hb4' Hea' Hb5' Hb6' Hb7' Hb8' Hos0 Hos1 Hes0 Hes1 Ho]
  · isplitr; · iexact Hmw
    isplitl [HO]
    · iexists _; isplitr
      rotate_left
      · iexact HO
      · ipureintro; exact waits_insert (waits_insert (waits_insert (fun p hp => Or.inl hp) _) _) _
    isplitl [Hb4']; · iexact Hb4'
    isplitl [Hea']; · iexact Hea'
    isplitl [Hb5']; · iexact Hb5'
    isplitl [Hb6']; · iexact Hb6'
    isplitl [Hb7']; · iexact Hb7'
    isplitl [Hb8']; · iexact Hb8'
    isplitl [Hos0]; · iexact Hos0
    isplitl [Hos1]; · iexact Hos1
    isplitl [Hes0]; · iexact Hes0
    isplitl [Hes1]; · iexact Hes1
    iexact Ho
  delta entry143
  icases HE with ⟨⟨-, ⟨%W', %hW', HO⟩, HT, Hea2, Hea3, ⟨%ga0, %gb0, %gc0, Ht5a, Ht5b, Ht5c⟩, HB0, ⟨%ga1, %gb1, %gc1, Ht6a, Ht6b, Ht6c⟩, HB1, HF0, Hb7, HF1, Hb8, Hw0, Hw1⟩, Hdrop, Htok0, Htok1, Hrest⟩
  imod (Transfers.batch_alloc' (EC (F := F)) (thr d L) (none : HIx 1) NE0 (delivEV m d L (Transfers.shareTokN (tok (wL L)) 2) t5a t5b t5c ga0 gb0 gc0 (k0_off1 L 0#32) (k0_off1_inb L 0) (k0_off1 L 800000#32) (k0_off1_inb L 1) (k0_off1 L 1600000#32) (k0_off1_inb L 2)) (sm := _) (E := Set.univ)) $$ HB0 with HB0
  imod (Transfers.batch_alloc' (EC (F := F)) (thr d L) (none : HIx 1) NE1 (delivEV m d L (Transfers.shareTokN (tok (wL L)) 3) t6a t6b t6c ga1 gb1 gc1 (k0_off2 L 0#32) (k0_off2_inb L 0) (k0_off2 L 800000#32) (k0_off2_inb L 1) (k0_off2 L 1600000#32) (k0_off2_inb L 2)) (sm := _) (E := Set.univ)) $$ HB1 with HB1
  sl_exec_parts
  have h15 : 15 < k0_t1_loop.trips := by decide
  sl_for (pairInv m d L O W ((b4W).view.loc (V d (cV L) (jV L)) ↦{fullShare} ft) (Pw0V d L (kerVal (eaC m d) (w0C m d) (w1C m d) (w2C m d))) (Pw1V d L (kerVal (eaC m d) (w0C m d) (w1C m d) (w2C m d)))) $$ [HO HT Hea2 Hea3 HB0 HB1 HF0 Hb7 HF1 Hb8 Hw0 Hw1]
  case region =>
    exact pair_region m d L O W _ _ 0#32 ((b4W).view.loc (V d (cV L) (jV L)) ↦{fullShare} ft) (Pw0V d L (kerVal (eaC m d) (w0C m d) (w1C m d) (w2C m d))) (Pw1V d L (kerVal (eaC m d) (w0C m d) (w1C m d) (w2C m d))) (Is0 (F := F) d L ft) (R0 (F := F) d L ft)
      (fun t fa fb fc k2 acc => plug_reg0 d L ft _ _ t fa fb fc k2 acc) (plug_ent0 m d L hea ft) (plug_ext0 d L ft)
      (fun h0 ga gb gc f gk hR => land0z m d L ft hT hea h0 ga gb gc f gk hR)
      (fun j hj ga gb gc f gk hR => land0s m d L ft hT hea j hj ga gb gc f gk hR)
      (Is1 (F := F) d L ft) (R1 (F := F) d L ft)
      (fun t fa fb fc k2 acc => plug_reg1 d L ft _ _ t fa fb fc k2 acc) (plug_ent1 m d L hea ft) (plug_ext1 d L ft)
      (fun h0 ga gb gc f gk hR => land1z m d L ft hT hea h0 ga gb gc f gk hR)
      (fun j hj ga gb gc f gk hR => land1s m d L ft hT hea j hj ga gb gc f gk hR)
  · rw [pairInv_zero]; delta pairInv0
    isplitr; · iexact Hmw
    isplitl [HO]
    · iexists _; isplitr
      rotate_left
      · iexact HO
      · ipureintro; exact hW'
    isplitl [HT]; · iexact HT
    isplitl [Hea2]; · iexact Hea2
    isplitl [Hea3]; · iexact Hea3
    isplitl [HB0]; · iexists ga0, gb0, gc0; iexact HB0
    isplitl [HB1]; · iexists ga1, gb1, gc1; iexact HB1
    isplitl [HF0]; · iexact HF0
    isplitl [Hb7]; · iexact Hb7
    isplitl [HF1]; · iexact HF1
    isplitl [Hb8]; · iexact Hb8
    isplitl [Hw0]; · iexact Hw0
    iexact Hw1
  iintro %acc HI
  ihave HI := (Entails.of_eq (pairInv_last m d L O W ((b4W).view.loc (V d (cV L) (jV L)) ↦{fullShare} ft) (Pw0V d L (kerVal (eaC m d) (w0C m d) (w1C m d) (w2C m d))) (Pw1V d L (kerVal (eaC m d) (w0C m d) (w1C m d) (w2C m d))) h15 acc)) $$ HI
  delta pairInvS
  icases HI with ⟨-, ⟨%W2, %hW2, HO⟩, HT, Hea2, Hea3, ⟨%ga0', %gb0', %gc0', HB0⟩, ⟨%ga1', %gb1', %gc1', HB1⟩, ⟨%f7', HF0⟩, ⟨%f8', HF1⟩, Hw0, Hw1⟩
  sl_exec_parts
  ihave Hea3 := (Entails.of_eq (ea_respell (F := F) d L (Transfers.shareTokN (tok (wL L)) 3) _ _ (eaC m d))) $$ Hea3
  ihave HF1_src := (Entails.of_eq (b8_own (F := F) d L f8')) $$ HF1_src
  -- the last chunk's window: slot 1's last window, just landed, and the remainder of the share
  icases HF1_dst with ⟨%g1, %hg1, Hwin15⟩
  ihave Hwin15 := (Entails.of_eq (pts_o139_last (F := F) d L ⟨15, h15⟩ rfl g1)) $$ Hwin15
  ihave Htw := (tail_out' (F := F) d (wL L) g1 (oC m d)) $$ [Hwin15 Hrest]
  · isplitl [Hwin15]; · iexact Hwin15
    iexact Hrest
  icases Htw with ⟨%gt, Htail, Hleft⟩
  ihave Htail := (Entails.of_eq (pts_tail (F := F) d L (k0_off141_inb L) gt).symm) $$ Htail
  -- the third inner loop, on slot 1's scratches
  sl_for (Is2 (F := F) d L ft ⟨15, h15⟩ (landT6 m d L 0 inb_S2304_S768_0 (t6a).view.junk (k0_off140 L ⟨15, h15⟩ 0#32) (k0_off140_inb L ⟨15, h15⟩ 0)) (landT6 m d L 768 inb_S2304_S768_768 (t6b).view.junk (k0_off140 L ⟨15, h15⟩ 800000#32) (k0_off140_inb L ⟨15, h15⟩ 1)) (landT6 m d L 1536 inb_S2304_S768_1536 (t6c).view.junk (k0_off140 L ⟨15, h15⟩ 1600000#32) (k0_off140_inb L ⟨15, h15⟩ 2))) $$ [HT HB1_dst0 HB1_dst1 HB1_dst2 HF1_src]
  case region => exact fun k2 acc => plug_reg2 d L ft 0#32 (fun _ => 0#32) (fun _ => 0#32) (fun _ => 0#32) _ ⟨15, h15⟩ _ _ _ k2 acc
  · iapply (plug_ent2 m d L hea ft ⟨15, h15⟩ _ _ _ _ _ _ _ _ _ f8')
    isplitl [HT]; · iexact HT
    isplitl [HB1_dst0]; · iexact HB1_dst0
    isplitl [HB1_dst1]; · iexact HB1_dst1
    isplitl [HB1_dst2]; · iexact HB1_dst2
    iexact HF1_src
  iintro %acc2 HI
  ihave HI := (plug_ext2 d L ft ⟨15, h15⟩ _ _ _ acc2) $$ HI
  icases HI with ⟨HT, Ht6a, Ht6b, Ht6c, ⟨%f8'', %hR2, Hb8⟩⟩
  sl_exec_parts
  sl_step
  -- the attribute array's second token is whole again, spelt through its last source
  ihave Hea2 := (Entails.of_eq (ea_respell (F := F) d L (Transfers.shareTokN (tok (wL L)) 2) _ _ (eaC m d))) $$ Hea2
  -- the last chunk's window holds the embedding: what the third loop left in scratch 8, copied out
  have e186 : lo (wL L) + 12 * (⟨15, h15⟩ : Fin k0_t1_loop.trips).val + 6 = lo (wL L) + 186 := by
    show lo (wL L) + 12 * 15 + 6 = lo (wL L) + 186; omega
  ihave Htail := (Entails.of_eq (pts_tail (F := F) d L (k0_off141_inb L) _)) $$ Htail
  ihave Hback := (tail_back' (F := F) d (wL L) (kerVal (eaC m d) (w0C m d) (w1C m d) (w2C m d)) g1 _ (fun j hj => hg1 j (e186.symm ▸ hj))
      (hlandTail (eaC m d) (w0C m d) (w1C m d) (w2C m d) ft hT hea L ⟨15, h15⟩ rfl (k0_off141_inb L) (t6a).view.junk (t6b).view.junk (t6c).view.junk _ _ _ rfl rfl rfl
        (b8W).view f8'' gt (joinE6 (F := F) d L _ _ _) (fun _ => rfl) (fun y => hR2 y) _ (off141_set L (k0_off141_inb L)))) $$ [Htail Hleft]
  · isplitl [Htail]; · iexact Htail
    iexact Hleft
  icases Hback with ⟨⟨%g15, %hg15, Hwin15⟩, ⟨%gR, %hgR, HrestR⟩⟩
  ihave Hwin15 := (Entails.of_eq (pts_o139_last (F := F) d L ⟨15, h15⟩ rfl g15).symm) $$ Hwin15
  ihave Hw1 := (wins_fill' (F := F) (fun i : Fin k0_t1_loop.trips => if i.val ≤ (⟨15, h15⟩ : Fin k0_t1_loop.trips).val then winAtV d L (o139 L i) ((Pw1V d L (kerVal (eaC m d) (w0C m d) (w1C m d) (w2C m d))) i) else winAt d L (o139 L i)) ⟨15, h15⟩ (winAtV d L (o139 L ⟨15, h15⟩) ((Pw1V d L (kerVal (eaC m d) (w0C m d) (w1C m d) (w2C m d))) ⟨15, h15⟩)) (if_pos (le_refl _))) $$ [Hw1 Hwin15]
  · isplitl [Hw1]; · iexact Hw1
    iexists g15; isplitr
    · ipureintro; exact fun j hj => hg15 j (e186 ▸ hj)
    · iexact Hwin15
  ihave Hw0 := (wins_fill' (F := F) (fun i : Fin k0_t1_loop.trips => if i.val ≤ (⟨15, h15⟩ : Fin k0_t1_loop.trips).val then winAtV d L (o70 L i) ((Pw0V d L (kerVal (eaC m d) (w0C m d) (w1C m d) (w2C m d))) i) else winAt d L (o70 L i)) ⟨15, h15⟩ (winAtV d L (o70 L ⟨15, h15⟩) ((Pw0V d L (kerVal (eaC m d) (w0C m d) (w1C m d) (w2C m d))) ⟨15, h15⟩)) (if_pos (le_refl _))) $$ [Hw0 HF0_dst]
  · isplitl [Hw0]; · iexact Hw0
    iexact HF0_dst
  have hall0 : (fun i : Fin k0_t1_loop.trips => if i.val ≤ (⟨15, h15⟩ : Fin k0_t1_loop.trips).val then winAtV d L (o70 L i) ((Pw0V d L (kerVal (eaC m d) (w0C m d) (w1C m d) (w2C m d))) i) else winAt d L (o70 L i)) = (fun i : Fin k0_t1_loop.trips => winAtV d L (o70 L i) ((Pw0V d L (kerVal (eaC m d) (w0C m d) (w1C m d) (w2C m d))) i)) :=
    funext fun i => if_pos (by have h := i.isLt; have e := trips16; show i.val ≤ 15; omega)
  have hall1 : (fun i : Fin k0_t1_loop.trips => if i.val ≤ (⟨15, h15⟩ : Fin k0_t1_loop.trips).val then winAtV d L (o139 L i) ((Pw1V d L (kerVal (eaC m d) (w0C m d) (w1C m d) (w2C m d))) i) else winAt d L (o139 L i)) = (fun i : Fin k0_t1_loop.trips => winAtV d L (o139 L i) ((Pw1V d L (kerVal (eaC m d) (w0C m d) (w1C m d) (w2C m d))) i)) :=
    funext fun i => if_pos (by have h := i.isLt; have e := trips16; show i.val ≤ 15; omega)
  ihave Hw0 := (Entails.of_eq (congrArg (fun Φ : Fin k0_t1_loop.trips → sProp 𝕄 => bigSep Finset.univ Φ) hall0)) $$ Hw0
  ihave Hw1 := (Entails.of_eq (congrArg (fun Φ : Fin k0_t1_loop.trips → sProp 𝕄 => bigSep Finset.univ Φ) hall1)) $$ Hw1
  ihave HG := (wins_exit_full (F := F) d L (kerVal (eaC m d) (w0C m d) (w1C m d) (w2C m d))) $$ [Hw0 Hw1 HrestR]
  · isplitl [Hw0]; · iexact Hw0
    isplitl [Hw1]; · iexact Hw1
    iexists gR; isplitr
    · ipureintro; exact hgR
    · iexact HrestR
  icases HG with ⟨%g'', %hg'', Ho⟩
  -- the read tokens of the attribute array rejoin
  ihave Hea := (ea_back (F := F) d L (eaC m d)) $$ [Hea2 Hea3 Hdrop Htok0 Htok1]
  · isplitl [Hea2]; · iexact Hea2
    isplitl [Hea3]; · iexact Hea3
    isplitl [Hdrop]; · iexact Hdrop
    isplitl [Htok0]; · iexact Htok0
    iexact Htok1
  -- the attribute scratches are whole again
  ihave Hb5 := (thirds5_any (F := F) d L _ _ _) $$ [HB0_dst0 HB0_dst1 HB0_dst2]
  · isplitl [HB0_dst0]; · iexact HB0_dst0
    isplitl [HB0_dst1]; · iexact HB0_dst1
    iexact HB0_dst2
  ihave Hb6 := (thirds6_any (F := F) d L _ _ _) $$ [Ht6a Ht6b Ht6c]
  · isplitl [Ht6a]; · iexact Ht6a
    isplitl [Ht6b]; · iexact Ht6b
    iexact Ht6c
  ihave Hb7 := (Entails.of_eq (b7_own (F := F) d L f7')) $$ HF0_src
  iapply (finish' (F := F) m d L O W _ _)
  isplitl [Ho]
  · iexists g''; isplitr
    · ipureintro; exact hg''
    · iexact Ho
  isplitl [Hea]; · iexact Hea
  isplitl [Hw0']; · iexact Hw0'
  isplitl [Hw1']; · iexact Hw1'
  isplitl [Hw2']; · iexact Hw2'
  isplitl [Hb0']; · iexists _; iexact Hb0'
  isplitl [Hb1']; · iexists _; iexact Hb1'
  isplitl [Hb2']; · iexists _; iexact Hb2'
  isplitl [Hb3']; · iexists _; iexact Hb3'
  isplitl [HT]; · iexists _; iexact HT
  isplitl [Hb5]; · iexact Hb5
  isplitl [Hb6]; · iexact Hb6
  isplitl [Hb7]; · iexists f7'; iexact Hb7
  isplitl [Hb8]; · iexists f8''; iexact Hb8
  isplitl [Hbufs]; · iexact Hbufs
  isplitl [HF0]; · iexact HF0
  isplitl [HF1]; · iexact HF1
  isplitl [HB0]; · iexact HB0
  isplitl [HB1]; · iexact HB1
  isplitl [Hr0]; · iexact Hr0
  isplitl [Hr1]; · iexact Hr1
  isplitl [Hr2]; · iexact Hr2
  isplitl [Hr3]; · iexact Hr3
  isplitl [Hsems]; · iexact Hsems
  iexists _; isplitr
  rotate_left
  · iexact HO
  · ipureintro
    exact waits_insert (waits_insert (waits_insert (waits_insert (waits_insert (waits_insert (waits_insert (waits_insert (waits_insert hW2 _) _) _) _) _) _) _) _) _

end Cert.Proof.KI

end
-- ==== Proof.LaunchKI.lean ====
/-
  The launch of the program `KernelIdeal`: from the proof of one vector subcore's task (a hypothesis here) to the run
  of every thread of the device. @main on the TensorCore runs its five host operations, deals the call's operands to
  the 32 subcores (a read share of each of the four flattened arrays, and to subcore number w the blocks
  lo w ≤ b < lo (w+1) of the result), makes the call, joins what comes back into one result array that is good in
  every subcore's blocks, and runs its last two host operations; the final memory then holds that array, permuted
  and flattened, and the four arguments unchanged.
-/
import proofs.«203789_g40862318854646_cont_8to1_b_1018_13_alg».proof.Proof.SetupKI
import proofs.«203789_g40862318854646_cont_8to1_b_1018_13_alg».proof.Proof.GoodKI
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (Good : (d : Dev nD) → Buf (Elt F) (oLoc d) → ℕ → Prop)

/-! ## The payloads, as equations -/

theorem P_st (d : Dev nD) (c : Fin ((K (F := F)).nCore 0)) :
    (P m Good).st 0 d c = bigSep Finset.univ fun i : Fin 16 => tileRes m d (2 * i.val + c.val) (oC m d) := rfl
theorem P_dn (d : Dev nD) (c : Fin ((K (F := F)).nCore 0)) :
    (P m Good).dn 0 d c = bigSep Finset.univ fun i : Fin 16 => iprop(∃ fo, ⌜Good d fo (2 * i.val + c.val)⌝ ∗ tileRes m d (2 * i.val + c.val) fo) := rfl
theorem P_go (d : Dev nD) (c : Fin ((K (F := F)).nCore 0)) (i : Fin ((K (F := F)).nSub 0)) :
    (P m Good).go 0 d c i = tileRes m d (2 * i.val + c.val) (oC m d) := rfl
theorem P_td (d : Dev nD) (c : Fin ((K (F := F)).nCore 0)) (i : Fin ((K (F := F)).nSub 0)) :
    (P m Good).td 0 d c i = iprop(∃ fo, ⌜Good d fo (2 * i.val + c.val)⌝ ∗ tileRes m d (2 * i.val + c.val) fo) := rfl

/-! ## A SparseCore's operands are its sixteen subcores' -/

/-- What a SparseCore takes is what its subcores take, and what they hand back is what it hands back. -/
theorem vecSplit : (K (F := F)).VecSplit' (P m Good) 0 := by
  intro d c
  show (P m Good).st 0 d c ⊢ |={Set.univ}=> iprop((P m Good).st 0 d c ∗ ((P m Good).dn 0 d c -∗ (P m Good).dn 0 d c))
  iintro H; imodintro
  isplitl [H]; · iexact H
  iintro H; iexact H

/-! ## The launch element: the handshakes' rounds; the transfers' counters are dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m Good).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The deal of the blocks covers the result once -/

omit [FloatOps F] in
/-- Two subcores' blocks are apart. -/
theorem blocks_disjoint : ∀ w ∈ Finset.range 32, ∀ w' ∈ Finset.range 32, w ≠ w' → Disjoint (blocksOf w) (blocksOf w') := by
  intro w _ w' _ hne
  rw [Finset.disjoint_left]
  intro j hj hj'
  simp only [blocksOf, Finset.mem_filter, Finset.mem_univ, _root_.true_and] at hj hj'
  rcases Nat.lt_or_gt_of_ne hne with h | h
  · have := lo_mono (show w + 1 ≤ w' from h); omega
  · have := lo_mono (show w' + 1 ≤ w from h); omega

omit [FloatOps F] in
/-- Every block is some subcore's: block b < 1960 is subcore b / 196's, a later one subcore (b - 10) / 195's. -/
theorem blocks_cover : (Finset.range 32).biUnion blocksOf = Finset.univ := by
  ext j
  simp only [Finset.mem_biUnion, Finset.mem_range, Finset.mem_univ, iff_true]
  have hj : (j 1).val < 6250 := (j 1).isLt
  by_cases h : (j 1).val < 1960
  · refine ⟨(j 1).val / 196, by omega, ?_⟩
    simp only [blocksOf, Finset.mem_filter, Finset.mem_univ, _root_.true_and]; unfold lo; omega
  · refine ⟨((j 1).val - 10) / 195, by omega, ?_⟩
    simp only [blocksOf, Finset.mem_filter, Finset.mem_univ, _root_.true_and]; unfold lo; omega

omit [FloatOps F] in
/-- The result whole is its 32 shares of blocks. -/
theorem oPts_blocks (d : Dev nD) (f : Buf (Elt F) (oLoc d)) :
    (oLoc d ↦{fullShare} f : sProp 𝕄) = bigSep (Finset.range 32) fun w => oLoc d ↦[blocksOf w]{fullShare} f := by
  rw [← pointsTo_biUnion (Finset.range 32) (ℓ := oLoc d) blocksOf blocks_disjoint, blocks_cover]

/-! ## The 32 subcores, by number and by SparseCore and place -/

omit [FloatOps F] in
theorem range32_eq : Finset.range 32 = (Finset.univ : Finset (Fin 2 × Fin 16)).image fun p => 2 * p.2.val + p.1.val := by
  ext w
  simp only [Finset.mem_range, Finset.mem_image, Finset.mem_univ, _root_.true_and, Prod.exists]
  constructor
  · intro h; exact ⟨⟨w % 2, by omega⟩, ⟨w / 2, by omega⟩, by show 2 * (w / 2) + w % 2 = w; omega⟩
  · rintro ⟨c, i, rfl⟩; have := c.isLt; have := i.isLt; omega

omit [FloatOps F] in
theorem wid_injOn : Set.InjOn (fun p : Fin 2 × Fin 16 => 2 * p.2.val + p.1.val) ((Finset.univ : Finset (Fin 2 × Fin 16)) : Set (Fin 2 × Fin 16)) := by
  rintro ⟨c, i⟩ - ⟨c', i'⟩ - h
  have h' : 2 * i.val + c.val = 2 * i'.val + c'.val := h
  have := c.isLt; have := c'.isLt
  exact Prod.ext (Fin.ext (by show c.val = c'.val; omega)) (Fin.ext (by show i.val = i'.val; omega))

omit [FloatOps F] in
/-- A family over the subcores' numbers 0 … 31 is one over the two SparseCores and their sixteen places: number 2·i + c. -/
theorem bigSep_range32 (Φ : ℕ → sProp 𝕄) :
    bigSep (Finset.range 32) Φ = bigSep Finset.univ fun c : Fin 2 => bigSep Finset.univ fun i : Fin 16 => Φ (2 * i.val + c.val) := by
  rw [range32_eq, BI.bigSep_image_of_injOn wid_injOn, bigSep_univ_prod]

/-! ## The TensorCore's twelve arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v6Loc (d : Dev nD) : Loc nD τ sig := (SparseCore.T d).loc main_v6
abbrev v7Loc (d : Dev nD) : Loc nD τ sig := (SparseCore.T d).loc main_v7

/-- The TensorCore's arrays, all unscoped. -/
abbrev S12 : Finset (DevRef τ sig) := {a0', a1', a2', a3', v0', v1', v2', v3', v4', v5', v6', v7'}

omit [FloatOps F] in
theorem held_S12 (d : Dev nD) (W : Valuation τ sig (Elt F)) :
    (held (T d) S12 W : sProp 𝕄) = iprop((a0Loc d ↦{fullShare} W a0') ∗ (a1Loc d ↦{fullShare} W a1') ∗ (a2Loc d ↦{fullShare} W a2')
      ∗ (a3Loc d ↦{fullShare} W a3') ∗ (v0Loc d ↦{fullShare} W v0') ∗ (eaLoc d ↦{fullShare} W v1') ∗ (w0Loc d ↦{fullShare} W v2')
      ∗ (w1Loc d ↦{fullShare} W v3') ∗ (w2Loc d ↦{fullShare} W v4') ∗ (oLoc d ↦{fullShare} W v5') ∗ (v6Loc d ↦{fullShare} W v6')
      ∗ (v7Loc d ↦{fullShare} W v7')) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (v0Loc d ↦{fullShare} W main_v0) ∗ (eaLoc d ↦{fullShare} W main_v1) ∗ (w0Loc d ↦{fullShare} W main_v2)
      ∗ (w1Loc d ↦{fullShare} W main_v3) ∗ (w2Loc d ↦{fullShare} W main_v4) ∗ (oLoc d ↦{fullShare} W main_v5) ∗ (v6Loc d ↦{fullShare} W main_v6)
      ∗ (v7Loc d ↦{fullShare} W main_v7)) := by
  unfold unscopedBufs
  rw [show (Finset.univ.filter fun b : Ref sig .tc => ¬ b.isScoped)
      = {main_arg0, main_arg1, main_arg2, main_arg3, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S12 (V0 m d) := by
  rw [unscopedBufs_eq, held_S12]; rfl

/-! ## The host operations' buffers -/

theorem op0_sub : (op0 (F := F)).bufs ⊆ S12 := show ({a0', v0'} : Finset (DevRef τ sig)) ⊆ S12 by decide
theorem op1_sub : (op1 (F := F)).bufs ⊆ S12 := show ({v0', v1'} : Finset (DevRef τ sig)) ⊆ S12 by decide
theorem op2_sub : (op2 (F := F)).bufs ⊆ S12 := show ({a1', v2'} : Finset (DevRef τ sig)) ⊆ S12 by decide
theorem op3_sub : (op3 (F := F)).bufs ⊆ S12 := show ({a2', v3'} : Finset (DevRef τ sig)) ⊆ S12 by decide
theorem op4_sub : (op4 (F := F)).bufs ⊆ S12 := show ({a3', v4'} : Finset (DevRef τ sig)) ⊆ S12 by decide

/-! ## The deal to the 32 subcores, and the way back -/

/-- What a subcore holds, the 32 together: the read tokens array by array, and the result's blocks. -/
theorem tiles_eq (d : Dev nD) (fos : ℕ → Buf (Elt F) (oLoc d)) :
    (bigSep (Finset.range 32) fun w => tileRes m d w (fos w))
      = iprop((bigSep (Finset.range 32) fun w => eaLoc d ↦{tok w} eaC m d) ∗ (bigSep (Finset.range 32) fun w => w0Loc d ↦{tok w} w0C m d)
        ∗ (bigSep (Finset.range 32) fun w => w1Loc d ↦{tok w} w1C m d) ∗ (bigSep (Finset.range 32) fun w => w2Loc d ↦{tok w} w2C m d)
        ∗ (bigSep (Finset.range 32) fun w => oLoc d ↦[blocksOf w]{fullShare} fos w)) := by
  unfold tileRes
  rw [bigSep_sep', bigSep_sep', bigSep_sep', bigSep_sep']

/-- The call's operands over the two SparseCores are the 32 subcores' holdings. -/
theorem st0_eq (d : Dev nD) :
    (bigSep Finset.univ fun c : Fin ((K (F := F)).nCore 0) => (P m Good).st 0 d c) = bigSep (Finset.range 32) fun w => tileRes m d w (oC m d) :=
  (bigSep_range32 (F := F) fun w => tileRes m d w (oC m d)).symm
theorem dn0_eq (d : Dev nD) :
    (bigSep Finset.univ fun c : Fin ((K (F := F)).nCore 0) => (P m Good).dn 0 d c)
      = bigSep (Finset.range 32) fun w => iprop(∃ fo, ⌜Good d fo w⌝ ∗ tileRes m d w fo) :=
  (bigSep_range32 (F := F) fun w => iprop(∃ fo, ⌜Good d fo w⌝ ∗ tileRes m d w fo)).symm

/-- What stays with the TensorCore during the call: what is left of the four arrays read after 32 tokens. -/
abbrev rests (d : Dev nD) : sProp 𝕄 :=
  iprop((eaLoc d ↦{Transfers.shareDrop fullShare 32} eaC m d) ∗ (w0Loc d ↦{Transfers.shareDrop fullShare 32} w0C m d)
    ∗ (w1Loc d ↦{Transfers.shareDrop fullShare 32} w1C m d) ∗ (w2Loc d ↦{Transfers.shareDrop fullShare 32} w2C m d))

/-- The five arrays whole, dealt: a read token of each of the four to every subcore, the result's blocks to their owners. -/
theorem tiles_deal (d : Dev nD) :
    iprop((eaLoc d ↦{fullShare} eaC m d) ∗ (w0Loc d ↦{fullShare} w0C m d) ∗ (w1Loc d ↦{fullShare} w1C m d) ∗ (w2Loc d ↦{fullShare} w2C m d)
        ∗ (oLoc d ↦{fullShare} oC m d))
      ⊢ (iprop(rests m d ∗ bigSep Finset.univ fun c : Fin ((K (F := F)).nCore 0) => (P m Good).st 0 d c) : sProp 𝕄) := by
  rw [st0_eq, tiles_eq m d fun _ => oC m d, oPts_blocks]
  iintro ⟨Hea, Hw0, Hw1, Hw2, Ho⟩
  ihave Hea := (Transfers.pointsTo_toks_range (ℓ := eaLoc d) (S := Finset.univ) (f := eaC m d) fullShare 32).1 $$ Hea
  ihave Hw0 := (Transfers.pointsTo_toks_range (ℓ := w0Loc d) (S := Finset.univ) (f := w0C m d) fullShare 32).1 $$ Hw0
  ihave Hw1 := (Transfers.pointsTo_toks_range (ℓ := w1Loc d) (S := Finset.univ) (f := w1C m d) fullShare 32).1 $$ Hw1
  ihave Hw2 := (Transfers.pointsTo_toks_range (ℓ := w2Loc d) (S := Finset.univ) (f := w2C m d) fullShare 32).1 $$ Hw2
  icases Hea with ⟨Hear, Heat⟩
  icases Hw0 with ⟨Hw0r, Hw0t⟩
  icases Hw1 with ⟨Hw1r, Hw1t⟩
  icases Hw2 with ⟨Hw2r, Hw2t⟩
  isplitl [Hear Hw0r Hw1r Hw2r]
  · isplitl [Hear]; · iexact Hear
    isplitl [Hw0r]; · iexact Hw0r
    isplitl [Hw1r]; · iexact Hw1r
    iexact Hw2r
  isplitl [Heat]; · iexact Heat
  isplitl [Hw0t]; · iexact Hw0t
  isplitl [Hw1t]; · iexact Hw1t
  isplitl [Hw2t]; · iexact Hw2t
  iexact Ho

/-- The way back: the tokens rejoin what stayed, and the 32 shares of blocks, each good for its owner, join into one
    result array good for every subcore (a subcore's goodness speaks of its own blocks only: `hloc`). -/
theorem tiles_back (hloc : ∀ (d : Dev nD) (fo fo' : Buf (Elt F) (oLoc d)) (w : ℕ), (∀ j ∈ blocksOf w, fo j = fo' j) → Good d fo w → Good d fo' w)
    (d : Dev nD) :
    iprop(rests m d ∗ bigSep Finset.univ fun c : Fin ((K (F := F)).nCore 0) => (P m Good).dn 0 d c)
      ⊢ (iprop(∃ g : Buf (Elt F) (oLoc d), ⌜∀ w, w < 32 → Good d g w⌝ ∗ (eaLoc d ↦{fullShare} eaC m d) ∗ (w0Loc d ↦{fullShare} w0C m d)
          ∗ (w1Loc d ↦{fullShare} w1C m d) ∗ (w2Loc d ↦{fullShare} w2C m d) ∗ (oLoc d ↦{fullShare} g)) : sProp 𝕄) := by
  rw [dn0_eq]
  iintro ⟨⟨Hear, Hw0r, Hw1r, Hw2r⟩, Hdn⟩
  ihave Hdn := (bigSep_exists_pi (Finset.range 32) (fun w (fo : Buf (Elt F) (oLoc d)) => iprop(⌜Good d fo w⌝ ∗ tileRes m d w fo))) $$ Hdn
  icases Hdn with ⟨%fos, Hdn⟩
  ihave Hdn := (bigSep_pure_sep (Finset.range 32) (fun w => Good d (fos w) w) (fun w => tileRes m d w (fos w))) $$ Hdn
  icases Hdn with ⟨%hgood, Hts⟩
  ihave Hts := (Entails.of_eq (tiles_eq m d fos)) $$ Hts
  icases Hts with ⟨Heat, Hw0t, Hw1t, Hw2t, Hos⟩
  ihave Ho := (pointsTo_biUnion_join (Finset.range 32) blocksOf fos (fos 0) blocks_disjoint) $$ Hos
  icases Ho with ⟨%g, %hg, Ho⟩
  rw [blocks_cover]
  iexists g
  isplitr
  · ipureintro; intro w hw
    exact hloc d (fos w) g w (fun j hj => (hg w (Finset.mem_range.mpr hw) j hj).symm) (hgood w (Finset.mem_range.mpr hw))
  isplitl [Hear Heat]
  · iapply (Transfers.pointsTo_toks_range (ℓ := eaLoc d) (S := Finset.univ) (f := eaC m d) fullShare 32).2
    isplitl [Hear] <;> iassumption
  isplitl [Hw0r Hw0t]
  · iapply (Transfers.pointsTo_toks_range (ℓ := w0Loc d) (S := Finset.univ) (f := w0C m d) fullShare 32).2
    isplitl [Hw0r] <;> iassumption
  isplitl [Hw1r Hw1t]
  · iapply (Transfers.pointsTo_toks_range (ℓ := w1Loc d) (S := Finset.univ) (f := w1C m d) fullShare 32).2
    isplitl [Hw1r] <;> iassumption
  isplitl [Hw2r Hw2t]
  · iapply (Transfers.pointsTo_toks_range (ℓ := w2Loc d) (S := Finset.univ) (f := w2C m d) fullShare 32).2
    isplitl [Hw2r] <;> iassumption
  iexact Ho

/-! ## The valuations around the call -/

/-- The valuation the call leaves: the result's array at `g`, the rest as the call found it. -/
def V1 (d : Dev nD) (g : Buf (Elt F) (oLoc d)) : Valuation τ sig (Elt F) := Function.update (Vpre m d) v5' g

theorem V1_self (d : Dev nD) (g : Buf (Elt F) (oLoc d)) : V1 m d g v5' = g := Function.update_self _ _ _
theorem V1_ne (d : Dev nD) (g : Buf (Elt F) (oLoc d)) {b : DevRef τ sig} (h : b ≠ v5') : V1 m d g b = Vpre m d b := Function.update_of_ne h _ _

theorem op5_sub : (op5 (F := F)).bufs ⊆ S12 := show ({v5', v6'} : Finset (DevRef τ sig)) ⊆ S12 by decide
theorem op6_sub : (op6 (F := F)).bufs ⊆ S12 := show ({v6', v7'} : Finset (DevRef τ sig)) ⊆ S12 by decide

/-- An array no host operation before the call writes is, when the call starts, as it was launched. -/
theorem Vpre_other (d : Dev nD) {b : DevRef τ sig} (n0 : b ≠ v0') (n1 : b ≠ v1') (n2 : b ≠ v2') (n3 : b ≠ v3') (n4 : b ≠ v4') :
    Vpre m d b = V0 m d b := by
  unfold Vpre
  rw [(op4 (F := F)).result_of_not_mem _ (show b ∉ ({v4'} : Finset (DevRef τ sig)) from fun h => n4 (Finset.mem_singleton.mp h)),
    (op3 (F := F)).result_of_not_mem _ (show b ∉ ({v3'} : Finset (DevRef τ sig)) from fun h => n3 (Finset.mem_singleton.mp h)),
    (op2 (F := F)).result_of_not_mem _ (show b ∉ ({v2'} : Finset (DevRef τ sig)) from fun h => n2 (Finset.mem_singleton.mp h)),
    (op1 (F := F)).result_of_not_mem _ (show b ∉ ({v1'} : Finset (DevRef τ sig)) from fun h => n1 (Finset.mem_singleton.mp h)),
    (op0 (F := F)).result_of_not_mem _ (show b ∉ ({v0'} : Finset (DevRef τ sig)) from fun h => n0 (Finset.mem_singleton.mp h))]

/-- An array no host operation and no call writes is, at the end, as it was launched. -/
theorem Vpost_other (d : Dev nD) (g : Buf (Elt F) (oLoc d)) {b : DevRef τ sig} (n0 : b ≠ v0') (n1 : b ≠ v1') (n2 : b ≠ v2') (n3 : b ≠ v3')
    (n4 : b ≠ v4') (n5 : b ≠ v5') (n6 : b ≠ v6') (n7 : b ≠ v7') : Vpost m d g b = V0 m d b := by
  unfold Vpost
  rw [(op6 (F := F)).result_of_not_mem _ (show b ∉ ({v7'} : Finset (DevRef τ sig)) from fun h => n7 (Finset.mem_singleton.mp h)),
    (op5 (F := F)).result_of_not_mem _ (show b ∉ ({v6'} : Finset (DevRef τ sig)) from fun h => n6 (Finset.mem_singleton.mp h)),
    Function.update_of_ne n5, Vpre_other m d n0 n1 n2 n3 n4]

theorem Vpost_a0 (d : Dev nD) (g : Buf (Elt F) (oLoc d)) : Vpost m d g a0' = m (a0Loc d) :=
  Vpost_other m d g (by decide) (by decide) (by decide) (by decide) (by decide) (by decide) (by decide) (by decide)
theorem Vpost_a1 (d : Dev nD) (g : Buf (Elt F) (oLoc d)) : Vpost m d g a1' = m (a1Loc d) :=
  Vpost_other m d g (by decide) (by decide) (by decide) (by decide) (by decide) (by decide) (by decide) (by decide)
theorem Vpost_a2 (d : Dev nD) (g : Buf (Elt F) (oLoc d)) : Vpost m d g a2' = m (a2Loc d) :=
  Vpost_other m d g (by decide) (by decide) (by decide) (by decide) (by decide) (by decide) (by decide) (by decide)
theorem Vpost_a3 (d : Dev nD) (g : Buf (Elt F) (oLoc d)) : Vpost m d g a3' = m (a3Loc d) :=
  Vpost_other m d g (by decide) (by decide) (by decide) (by decide) (by decide) (by decide) (by decide) (by decide)

/-- The twelve arrays when the call starts, one by one. -/
theorem held_pre (d : Dev nD) :
    (held (T d) S12 ((op4 (F := F)).result ((op3 (F := F)).result ((op2 (F := F)).result ((op1 (F := F)).result ((op0 (F := F)).result (V0 m d)))))) : sProp 𝕄)
      = iprop((a0Loc d ↦{fullShare} Vpre m d a0') ∗ (a1Loc d ↦{fullShare} Vpre m d a1') ∗ (a2Loc d ↦{fullShare} Vpre m d a2')
        ∗ (a3Loc d ↦{fullShare} Vpre m d a3') ∗ (v0Loc d ↦{fullShare} Vpre m d v0') ∗ (eaLoc d ↦{fullShare} eaC m d) ∗ (w0Loc d ↦{fullShare} w0C m d)
        ∗ (w1Loc d ↦{fullShare} w1C m d) ∗ (w2Loc d ↦{fullShare} w2C m d) ∗ (oLoc d ↦{fullShare} oC m d) ∗ (v6Loc d ↦{fullShare} Vpre m d v6')
        ∗ (v7Loc d ↦{fullShare} Vpre m d v7')) :=
  held_S12 d (Vpre m d)

/-- The twelve arrays when the call has returned `g`. -/
theorem held_V1 (d : Dev nD) (g : Buf (Elt F) (oLoc d)) :
    (held (T d) S12 (V1 m d g) : sProp 𝕄)
      = iprop((a0Loc d ↦{fullShare} Vpre m d a0') ∗ (a1Loc d ↦{fullShare} Vpre m d a1') ∗ (a2Loc d ↦{fullShare} Vpre m d a2')
        ∗ (a3Loc d ↦{fullShare} Vpre m d a3') ∗ (v0Loc d ↦{fullShare} Vpre m d v0') ∗ (eaLoc d ↦{fullShare} eaC m d) ∗ (w0Loc d ↦{fullShare} w0C m d)
        ∗ (w1Loc d ↦{fullShare} w1C m d) ∗ (w2Loc d ↦{fullShare} w2C m d) ∗ (oLoc d ↦{fullShare} g) ∗ (v6Loc d ↦{fullShare} Vpre m d v6')
        ∗ (v7Loc d ↦{fullShare} Vpre m d v7')) := by
  rw [held_S12, V1_self, V1_ne m d g (b := a0') (by decide), V1_ne m d g (b := a1') (by decide), V1_ne m d g (b := a2') (by decide),
    V1_ne m d g (b := a3') (by decide), V1_ne m d g (b := v0') (by decide), V1_ne m d g (b := v1') (by decide), V1_ne m d g (b := v2') (by decide),
    V1_ne m d g (b := v3') (by decide), V1_ne m d g (b := v4') (by decide), V1_ne m d g (b := v6') (by decide), V1_ne m d g (b := v7') (by decide)]
  rfl

/-- The twelve arrays at the end: the arguments as launched, the others at the final valuation. -/
theorem held_post (d : Dev nD) (g : Buf (Elt F) (oLoc d)) :
    (held (T d) S12 ((op6 (F := F)).result ((op5 (F := F)).result (V1 m d g))) : sProp 𝕄)
      = iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (v0Loc d ↦{fullShare} Vpost m d g v0') ∗ (eaLoc d ↦{fullShare} Vpost m d g v1')
        ∗ (w0Loc d ↦{fullShare} Vpost m d g v2') ∗ (w1Loc d ↦{fullShare} Vpost m d g v3') ∗ (w2Loc d ↦{fullShare} Vpost m d g v4')
        ∗ (oLoc d ↦{fullShare} Vpost m d g v5') ∗ (v6Loc d ↦{fullShare} Vpost m d g v6') ∗ (v7Loc d ↦{fullShare} Vpost m d g v7')) :=
  (held_S12 d (Vpost m d g)).trans (by rw [Vpost_a0, Vpost_a1, Vpost_a2, Vpost_a3])

/-! ## @main on the TensorCore -/

/-- What @main leaves the claim: the final array, from a result good for every subcore; the four arguments as launched. -/
abbrev FIN (d : Dev nD) : sProp 𝕄 :=
  iprop((∃ fo : Buf (Elt F) (oLoc d), ⌜∀ w, w < 32 → Good d fo w⌝ ∗ (v7Loc d ↦{fullShare} Vpost m d fo v7'))
    ∗ (a0Loc d ↦{fullShare} m (a0Loc d)) ∗ (a1Loc d ↦{fullShare} m (a1Loc d)) ∗ (a2Loc d ↦{fullShare} m (a2Loc d)) ∗ (a3Loc d ↦{fullShare} m (a3Loc d)))

/-- @main on device `d`'s TensorCore: the five host operations, the deal, the call, the way back, the last two host
    operations. -/
theorem hmain (hloc : ∀ (d : Dev nD) (fo fo' : Buf (Elt F) (oLoc d)) (w : ℕ), (∀ j ∈ blocksOf w, fo j = fo' j) → Good d fo w → Good d fo' w)
    (κ : GSem nD τ sig → ℕ) (d : Dev nD) :
    iprop((K (F := F)).ctx EH (P m Good) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m Good d) := by
  unfold SparseCore.Cfg.tcRes
  rw [unscoped_held]
  simp only [main, wp_bind, wp_pure]
  iintro ⟨#Hctx, Hst, ⟨Hb, Hheld, -, -⟩, -⟩
  -- the five host operations before the call
  iapply (wp_hlo_within 𝒱 (SparseCore.T d) none Set.univ (op := op0) (S := S12) op0_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S12) op1_sub (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S12) op2_sub (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S12) op3_sub
    (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S12) op4_sub
    (V := (op3 (F := F)).result ((op2 (F := F)).result ((op1 (F := F)).result ((op0 (F := F)).result (V0 m d)))))) $$ [Hb Hheld]
  · isplitl [Hb]; · iexact Hb
    iexact Hheld
  iintro ⟨Hb, Hheld⟩
  rw [wp_ret]; imodintro
  -- the deal
  ihave Hh := (Entails.of_eq (held_pre (F := F) m d)) $$ Hheld
  icases Hh with ⟨Ha0, Ha1, Ha2, Ha3, Hv0, Hea, Hw0, Hw1, Hw2, Ho, Hv6, Hv7⟩
  ihave Hdeal := (tiles_deal m Good d) $$ [Hea Hw0 Hw1 Hw2 Ho]
  · isplitl [Hea]; · iexact Hea
    isplitl [Hw0]; · iexact Hw0
    isplitl [Hw1]; · iexact Hw1
    isplitl [Hw2]; · iexact Hw2
    iexact Ho
  icases Hdeal with ⟨Hrest, Hops⟩
  -- the call
  iapply ((K (F := F)).wp_run (D (F := F)) 𝒱 (EH := EH) (P := P m Good) κ d 0) $$ [Hst Hops Hb Ha0 Ha1 Ha2 Ha3 Hv0 Hv6 Hv7 Hrest]
  isplitr; · iexact Hctx
  isplitl [Hst]; · iexact Hst
  isplitl [Hops]; · iexact Hops
  iintro ⟨Hst, Hdn⟩
  -- the way back
  ihave Hback := (tiles_back m Good hloc d) $$ [Hrest Hdn]
  · isplitl [Hrest]; · iexact Hrest
    iexact Hdn
  icases Hback with ⟨%g, %hg, Hea, Hw0, Hw1, Hw2, Ho⟩
  -- the two host operations after the call
  iapply (wp_hlo_within 𝒱 (SparseCore.T d) none Set.univ (op := op5) (S := S12) op5_sub (V := V1 m d g)) $$ [Hb Ha0 Ha1 Ha2 Ha3 Hv0 Hea Hw0 Hw1 Hw2 Ho Hv6 Hv7]
  · isplitl [Hb]; · iexact Hb
    rw [held_V1]
    isplitl [Ha0]; · iexact Ha0
    isplitl [Ha1]; · iexact Ha1
    isplitl [Ha2]; · iexact Ha2
    isplitl [Ha3]; · iexact Ha3
    isplitl [Hv0]; · iexact Hv0
    isplitl [Hea]; · iexact Hea
    isplitl [Hw0]; · iexact Hw0
    isplitl [Hw1]; · iexact Hw1
    isplitl [Hw2]; · iexact Hw2
    isplitl [Ho]; · iexact Ho
    isplitl [Hv6]; · iexact Hv6
    iexact Hv7
  iintro ⟨Hb, Hheld⟩
  rw [wp_ret]; imodintro
  iapply (wp_hlo_within 𝒱 (SparseCore.T d) none Set.univ (op := op6) (S := S12) op6_sub (V := (op5 (F := F)).result (V1 m d g))) $$ [Hb Hheld]
  · isplitl [Hb]; · iexact Hb
    iexact Hheld
  iintro ⟨Hb, Hheld⟩
  ihave Hh := (Entails.of_eq (held_post (F := F) m d g)) $$ Hheld
  icases Hh with ⟨Ha0, Ha1, Ha2, Ha3, -, -, -, -, -, -, -, Hv7⟩
  rw [wp_ret]; imodintro; imodintro
  isplitl [Hst]; · iexact Hst
  isplitl [Hv7]
  · iexists g; isplitr
    · ipureintro; exact hg
    · iexact Hv7
  isplitl [Ha0]; · iexact Ha0
  isplitl [Ha1]; · iexact Ha1
  isplitl [Ha2]; · iexact Ha2
  iexact Ha3

/-! ## The final memory -/

/-- What the final memory of device `d` holds. -/
def fq (d : Dev nD) (s' : Phys nD τ sig (Elt F)) : Prop :=
  (∃ fo : Buf (Elt F) (oLoc d), (∀ w, w < 32 → Good d fo w) ∧ s'.mem.mem (v7Loc d) = Vpost m d fo v7')
    ∧ s'.mem.mem (a0Loc d) = m (a0Loc d) ∧ s'.mem.mem (a1Loc d) = m (a1Loc d) ∧ s'.mem.mem (a2Loc d) = m (a2Loc d)
    ∧ s'.mem.mem (a3Loc d) = m (a3Loc d)

theorem hfin (d : Dev nD) (s' : Phys nD τ sig (Elt F)) : iprop(FIN m Good d ∗ SI s') ⊢ (⌜fq m Good d s'⌝ : sProp 𝕄) := by
  iintro ⟨⟨⟨%fo, %hgood, Hv7⟩, Ha0, Ha1, Ha2, Ha3⟩, HSI⟩
  ihave H := (persistent_entails_right (SI_pointsTo_agree (st := s') (ℓ := v7Loc d) (I := Finset.univ) (q := fullShare) (f := Vpost m d fo v7'))) $$ [HSI Hv7]
  · isplitl [HSI] <;> iassumption
  icases H with ⟨%e7, HSI, -⟩
  ihave H := (persistent_entails_right (SI_pointsTo_agree (st := s') (ℓ := a0Loc d) (I := Finset.univ) (q := fullShare) (f := m (a0Loc d)))) $$ [HSI Ha0]
  · isplitl [HSI] <;> iassumption
  icases H with ⟨%e0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%e1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%e2, HSI, -⟩
  ihave H := (SI_pointsTo_agree (st := s') (ℓ := a3Loc d) (I := Finset.univ) (q := fullShare) (f := m (a3Loc d))) $$ [HSI Ha3]
  · isplitl [HSI] <;> iassumption
  icases H with %e3
  ipureintro
  exact ⟨⟨fo, hgood, funext fun i => e7 i (Finset.mem_univ i)⟩, funext fun i => e0 i (Finset.mem_univ i), funext fun i => e1 i (Finset.mem_univ i),
    funext fun i => e2 i (Finset.mem_univ i), funext fun i => e3 i (Finset.mem_univ i)⟩

/-! ## The program's run -/

/-- The claim's post: on every device the result array is the final valuation's, from a call result good for every
    subcore; the four arguments are unchanged. -/
def QC : PUnit × MemSt nD τ sig (Elt F) → Prop := fun r => ∀ c : Dev nD,
  (∃ fo : Buf (Elt F) (oLoc c), (∀ w, w < 32 → Good c fo w) ∧ r.2.mem ((SparseCore.T c).loc main_v7) = Vpost m c fo (Proc.devRef .tc (main_v7 : Ref sig .tc)))
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)

/-- Every weakly fair execution of the device's threads ends, and ends in `QC`: from the proof of one subcore's task
    (`hobl`) and the fact that a subcore's goodness speaks of its own blocks only (`hloc`). -/
theorem run_main [∀ e, Nonempty (Elt F e)] (hobl : (K (F := F)).TileObl (D (F := F)) 𝒱 (P m Good) v₀ 0)
    (hloc : ∀ (d : Dev nD) (fo fo' : Buf (Elt F) (oLoc d)) (w : ℕ), (∀ j ∈ blocksOf w, fo j = fo' j) → Good d fo w → Good d fo' w) :
    θ_run (Cert.KernelIdeal.defs (F := F)) (Cert.KernelIdeal.threads (F := F)) ⟨m, fun _ => 0, ρ⟩ (QC m Good) :=
  SparseCore.Cfg.θ_run_sc (K := K (F := F)) (D := D (F := F)) (𝒱 := 𝒱) (EH := EH) (P := P m Good) facts v₀
    (fun q hq => match q with | 0 => nomatch hq)
    (fun q _ => match q with | 0 => hobl)
    (fun q _ => match q with | 0 => SparseCore.Cfg.VecSplit.of_plain (vecSplit m Good))
    m ρ main (fun _ => iprop(emp)) (FIN m Good) (u₀ (F := F)) (sep_elim_left.trans (hu₀ m Good)) (hmain m ρ Good hloc) (fq m Good) (hfin m Good)
    (QC m Good) (fun _ h => h)

end Cert.Proof.KI

end
-- ==== Proof.ObKI.lean ====
/-
  The vector subcores' obligation of the launch theorem for `KernelIdeal`, from the body's run at a symbolic grid point.
-/
import proofs.«203789_g40862318854646_cont_8to1_b_1018_13_alg».proof.Proof.BodyKI
import proofs.«203789_g40862318854646_cont_8to1_b_1018_13_alg».proof.Proof.LaunchKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "eaW" => (Memref.whole Cert.KernelIdeal.main_v1_scv : Memref Cert.KernelIdeal.sig Kind.scVector Space.hbm Cert.KernelIdeal.S2400000 EltTy.i32)
local notation "w0W" => (Memref.whole Cert.KernelIdeal.main_v2_scv : Memref Cert.KernelIdeal.sig Kind.scVector Space.hbm Cert.KernelIdeal.S320 EltTy.f32)
local notation "w1W" => (Memref.whole Cert.KernelIdeal.main_v3_scv : Memref Cert.KernelIdeal.sig Kind.scVector Space.hbm Cert.KernelIdeal.S384 EltTy.f32)
local notation "w2W" => (Memref.whole Cert.KernelIdeal.main_v4_scv : Memref Cert.KernelIdeal.sig Kind.scVector Space.hbm Cert.KernelIdeal.S128 EltTy.f32)
local notation "oW" => (Memref.whole Cert.KernelIdeal.main_v5_scv : Memref Cert.KernelIdeal.sig Kind.scVector Space.hbm Cert.KernelIdeal.S8x6250x8x128 EltTy.f32)
local notation "b0W" => (Memref.whole Cert.KernelIdeal.cc0_scratch0 : Memref Cert.KernelIdeal.sig Kind.scVector Space.vmem Cert.KernelIdeal.S320 EltTy.f32)
local notation "b1W" => (Memref.whole Cert.KernelIdeal.cc0_scratch1 : Memref Cert.KernelIdeal.sig Kind.scVector Space.vmem Cert.KernelIdeal.S384 EltTy.f32)
local notation "b2W" => (Memref.whole Cert.KernelIdeal.cc0_scratch2 : Memref Cert.KernelIdeal.sig Kind.scVector Space.vmem Cert.KernelIdeal.S128 EltTy.f32)
local notation "b3W" => (Memref.whole Cert.KernelIdeal.cc0_scratch3 : Memref Cert.KernelIdeal.sig Kind.scVector Space.vmem Cert.KernelIdeal.S4096 EltTy.f32)
local notation "b4W" => (Memref.whole Cert.KernelIdeal.cc0_scratch4 : Memref Cert.KernelIdeal.sig Kind.scVector Space.vmem Cert.KernelIdeal.S4096 EltTy.f32)
local notation "b5W" => (Memref.whole Cert.KernelIdeal.cc0_scratch5 : Memref Cert.KernelIdeal.sig Kind.scVector Space.vmem Cert.KernelIdeal.S2304 EltTy.i32)
local notation "b6W" => (Memref.whole Cert.KernelIdeal.cc0_scratch6 : Memref Cert.KernelIdeal.sig Kind.scVector Space.vmem Cert.KernelIdeal.S2304 EltTy.i32)
local notation "b7W" => (Memref.whole Cert.KernelIdeal.cc0_scratch7 : Memref Cert.KernelIdeal.sig Kind.scVector Space.vmem Cert.KernelIdeal.S8x6x8x128 EltTy.f32)
local notation "b8W" => (Memref.whole Cert.KernelIdeal.cc0_scratch8 : Memref Cert.KernelIdeal.sig Kind.scVector Space.vmem Cert.KernelIdeal.S8x6x8x128 EltTy.f32)

variable (m : (ℓ : Loc nD τ sig) → Buf (Elt F) ℓ)
variable [FloatOps F]

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- An entailment into a weakest precondition, carried to another spelling of the same assertion, specification and
    postcondition: the three equations are then checked one by one, none through the program's run. -/
theorem wp_entails_congr {A A' : sProp 𝕄} {G G' : sWPT 𝕄 PUnit} {Q Q' : PUnit → sProp 𝕄} (hA : A = A') (hG : G = G') (hQ : Q = Q')
    (h : A ⊢ G Q) : A' ⊢ G' Q' := by subst hA hG hQ; exact h

/-- The launch theorem's obligation for the one vector-subcore call: every subcore runs the body at its own grid point. -/
theorem tileObl [∀ e, Nonempty (Elt F e)] (hea : ∀ d n, eaC m d n = 0#32 ∨ eaC m d n = 1#32) (hF : (K (F := F)).Facts) :
    (K (F := F)).TileObl (D (F := F)) 𝒱 (P m (GoodV m)) v₀ 0 := by
  intro d c i O W hO _ _
  simp only [show (P m (GoodV m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine wp_entails_congr ?_ ?_ ?_
    ((tile_body m d (coordsV ⟨_, hc.1⟩ ⟨_, hc.2⟩) (hea d) hF O W hO).trans (wp_mono frame _ _ fun _ => obl_post (q := 0)))
  all_goals rfl

end Cert.Proof.KI

end
-- ==== Proof.SetupK.lean ====
/-
  The set-up shared by the frame and the value of the program `Kernel`: the program as the SparseCore launch
  theorem sees it, the ghost state (the launch handshakes' rounds beside the local transfers' counters), the
  arrays as the TensorCore and as a vector subcore address them, how the 6250 blocks of 128 edges are dealt to
  the 32 vector subcores (subcore w = 2·s + c owns the blocks lo w ≤ b < lo (w+1), lo w = 195·w + min w 10),
  and what the one call hands each subcore and takes back: a read share of the flattened attribute array and of
  the three flattened tables, and its own blocks of the result, which come back holding the embedding.
-/
import proofs.«203789_g40862318854646_cont_8to1_b_1018_13_alg».proof.Defs
import proofs.«203789_g40862318854646_cont_8to1_b_1018_13_alg».proof.Proof.Gen.Kernel
import proofs.«203789_g40862318854646_cont_8to1_b_1018_13_alg».proof.Proof.Gen.Kernel.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The flattened attribute array, the three flattened tables and the result, as locations of device `d`. -/
abbrev eaLoc (d : Dev nD) : Loc nD τ sig := (SparseCore.T d).loc main_v1
abbrev w0Loc (d : Dev nD) : Loc nD τ sig := (SparseCore.T d).loc main_v2
abbrev w1Loc (d : Dev nD) : Loc nD τ sig := (SparseCore.T d).loc main_v3
abbrev w2Loc (d : Dev nD) : Loc nD τ sig := (SparseCore.T d).loc main_v4
abbrev oLoc (d : Dev nD) : Loc nD τ sig := (SparseCore.T d).loc main_v5

/-! ## The deal of the blocks -/

/-- The first block of subcore number `w` (and, at `w + 1`, one past its last). -/
def lo (w : ℕ) : ℕ := 195 * w + min w 10

theorem lo_zero : lo 0 = 0 := rfl
theorem lo_32 : lo 32 = 6250 := rfl
theorem lo_mono {a b : ℕ} (h : a ≤ b) : lo a ≤ lo b := by unfold lo; omega
theorem lo_succ (w : ℕ) : lo (w + 1) = lo w + 195 + (if w < 10 then 1 else 0) := by unfold lo; split <;> omega

/-- The number of the subcore `s` of SparseCore `c`. -/
def wid (c : Fin 2) (s : Fin 16) : ℕ := 2 * s.val + c.val
theorem wid_lt (c : Fin 2) (s : Fin 16) : wid c s < 32 := by unfold wid; omega

/-- The elements of the result in the blocks of subcore number `w`. -/
def blocksOf (w : ℕ) : Finset S8x6250x8x128.Idx := Finset.univ.filter fun j => lo w ≤ (j 1).val ∧ (j 1).val < lo (w + 1)

/-! ## What the call's threads hold -/

local notation "𝕄" => MT nD τ sig (HIx 1) (Elt F) ℕ UU ℕ

variable (m : (ℓ : Loc nD τ sig) → Buf (Elt F) ℓ) (ρ : Dev nD → PrngReg)
variable [FloatOps F]

/-- @main's five host operations before the call: the attribute array transposed and flattened, the tables flattened. -/
abbrev op0 : HloOp τ sig (Elt F) := StableHlo.unary main_arg0 main_v0 ((transpose S3x800000 [1, 0] · transposes_S800000x3_S3x800000_1_0) : (⟨S800000x3, .i32⟩ : BufTy).Contents (Elt F) → (⟨S3x800000, .i32⟩ : BufTy).Contents (Elt F))
abbrev op1 : HloOp τ sig (Elt F) := StableHlo.reshape main_v0 main_v1 rfl shapeCasts_S3x800000_S2400000
abbrev op2 : HloOp τ sig (Elt F) := StableHlo.reshape main_arg1 main_v2 rfl shapeCasts_S5x64_S320
abbrev op3 : HloOp τ sig (Elt F) := StableHlo.reshape main_arg2 main_v3 rfl shapeCasts_S6x64_S384
abbrev op4 : HloOp τ sig (Elt F) := StableHlo.reshape main_arg3 main_v4 rfl shapeCasts_S2x64_S128

/-- The launch valuation of device `d`, and the valuation when the call starts. -/
def V0 (d : Dev nD) : Valuation τ sig (Elt F) := fun b => m (d, b)
def Vpre (d : Dev nD) : Valuation τ sig (Elt F) :=
  (op4 (F := F)).result ((op3 (F := F)).result ((op2 (F := F)).result ((op1 (F := F)).result ((op0 (F := F)).result (V0 m d)))))

/-- The contents the call finds: the flattened attributes and tables. -/
def eaC (d : Dev nD) : Buf (Elt F) (eaLoc d) := Vpre m d (Proc.devRef .tc (main_v1 : Ref sig .tc))
def w0C (d : Dev nD) : Buf (Elt F) (w0Loc d) := Vpre m d (Proc.devRef .tc (main_v2 : Ref sig .tc))
def w1C (d : Dev nD) : Buf (Elt F) (w1Loc d) := Vpre m d (Proc.devRef .tc (main_v3 : Ref sig .tc))
def w2C (d : Dev nD) : Buf (Elt F) (w2Loc d) := Vpre m d (Proc.devRef .tc (main_v4 : Ref sig .tc))
def oC (d : Dev nD) : Buf (Elt F) (oLoc d) := Vpre m d (Proc.devRef .tc (main_v5 : Ref sig .tc))

/-- Subcore number `w`'s read share of an array every subcore reads whole. -/
abbrev tok (w : ℕ) : PosShare TreeShare := Transfers.shareTokN fullShare w

/-- What subcore number `w` holds during the call: its read shares and its own blocks of the result at `fo`. -/
def tileRes (d : Dev nD) (w : ℕ) (fo : Buf (Elt F) (oLoc d)) : sProp 𝕄 :=
  iprop((eaLoc d ↦{tok w} eaC m d) ∗ (w0Loc d ↦{tok w} w0C m d) ∗ (w1Loc d ↦{tok w} w1C m d) ∗ (w2Loc d ↦{tok w} w2C m d)
    ∗ (oLoc d ↦[blocksOf w]{fullShare} fo))

-- What the result must hold in a subcore's blocks when it ends (a parameter: the frame asks nothing, the value the embedding).
variable (Good : (d : Dev nD) → Buf (Elt F) (oLoc d) → ℕ → Prop)

/-- The one call's payloads: each SparseCore takes its sixteen subcores' holdings and hands them back, the result's blocks written. -/
def P : (K (F := F)).Pay (nD := nD) (Val := Elt F) (Name := ℕ) (U := UU) where
  st := fun _ d c => bigSep Finset.univ fun i : Fin 16 => tileRes m d (2 * i.val + c.val) (oC m d)
  dn := fun _ d c => bigSep Finset.univ fun i : Fin 16 => iprop(∃ fo, ⌜Good d fo (2 * i.val + c.val)⌝ ∗ tileRes m d (2 * i.val + c.val) fo)
  go := fun _ d c i => tileRes m d (2 * i.val + c.val) (oC m d)
  td := fun _ d c i => iprop(∃ fo, ⌜Good d fo (2 * i.val + c.val)⌝ ∗ tileRes m d (2 * i.val + c.val) fo)
  x := fun _ _ => iprop(emp)

instance P_storable : (P (F := F) m Good).IsStorable where
  st _ d c := by unfold P tileRes; infer_instance
  dn _ d c := by unfold P tileRes; infer_instance
  go _ _ _ _ := by unfold P tileRes; infer_instance
  td _ _ _ _ := by unfold P tileRes; infer_instance

end Cert.Proof.K

end
-- ==== Proof.TileDefsK.lean ====
/-
  A vector subcore's own things, named: the kernel's eight DMA semaphores among the subcore's own cells and its
  nine scratch buffers among its own buffers (each carved out of the launch's big products once), and the arrays
  and scratches in the spelling the program addresses them by.
-/
import proofs.«203789_g40862318854646_cont_8to1_b_1018_13_alg».proof.Proof.SetupK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

variable (m : (ℓ : Loc nD τ sig) → Buf (Elt F) ℓ)
variable [FloatOps F]
variable (Good : (d : Dev nD) → Buf (Elt F) (oLoc d) → ℕ → Prop)

section Tile

variable (d : Dev nD) (L : grid0.Coords)

abbrev cV (L : grid0.Coords) : Fin τ.nSC := (L 0).castLE hcore0
abbrev jV (L : grid0.Coords) : Fin τ.nSub := (L 1).castLE hsub0
/-- The number of the subcore at grid point `L`. -/
abbrev wL (L : grid0.Coords) : ℕ := 2 * (L 1).val + (L 0).val

omit [FloatOps F] in
/-- The kernel's eight DMA semaphores are among the subcore's own cells: they are them, at zero, and the rest. -/
theorem ownSems0_V :
    (ownSems0 (V d (cV L) (jV L)) : sProp 𝕄)
      = iprop(semVal ((V d (cV L) (jV L)), SemLoc.dma cc0_scratch9.sem) 0
          ∗ semVal ((V d (cV L) (jV L)), SemLoc.dma cc0_scratch10.sem) 0
          ∗ semVal ((V d (cV L) (jV L)), SemLoc.dma cc0_scratch11.sem) 0
          ∗ semVal ((V d (cV L) (jV L)), SemLoc.dma cc0_scratch12.sem) 0
          ∗ semVal ((V d (cV L) (jV L)), SemLoc.dma cc0_scoped0.sem) 0
          ∗ semVal ((V d (cV L) (jV L)), SemLoc.dma cc0_scoped1.sem) 0
          ∗ semVal ((V d (cV L) (jV L)), SemLoc.dma cc0_scoped2.sem) 0
          ∗ semVal ((V d (cV L) (jV L)), SemLoc.dma cc0_scoped3.sem) 0
          ∗ bigSep (((((((((ownCells (V d (cV L) (jV L))).erase ((V d (cV L) (jV L)), SemLoc.dma cc0_scratch9.sem)).erase ((V d (cV L) (jV L)), SemLoc.dma cc0_scratch10.sem)).erase ((V d (cV L) (jV L)), SemLoc.dma cc0_scratch11.sem)).erase ((V d (cV L) (jV L)), SemLoc.dma cc0_scratch12.sem)).erase ((V d (cV L) (jV L)), SemLoc.dma cc0_scoped0.sem)).erase ((V d (cV L) (jV L)), SemLoc.dma cc0_scoped1.sem)).erase ((V d (cV L) (jV L)), SemLoc.dma cc0_scoped2.sem)).erase ((V d (cV L) (jV L)), SemLoc.dma cc0_scoped3.sem)) fun g => semVal g 0) := by
  unfold SparseCore.Cfg.ownSems0
  rw [SparseCore.bigSep_erase' ((mem_ownCells (g := (((V d (cV L) (jV L)), SemLoc.dma cc0_scratch9.sem) : GSem nD τ sig))).mpr ⟨rfl, by show (SemLoc.dma cc0_scratch9.sem : SemLoc sig).isScoped .scVector = true; decide⟩),
    SparseCore.bigSep_erase' (Finset.mem_erase.mpr ⟨fun e => absurd (SemLoc.dma.inj (Prod.mk.inj e).2) (show (cc0_scratch10.sem : DmaSem sig) ≠ cc0_scratch9.sem by decide), (mem_ownCells (g := (((V d (cV L) (jV L)), SemLoc.dma cc0_scratch10.sem) : GSem nD τ sig))).mpr ⟨rfl, by show (SemLoc.dma cc0_scratch10.sem : SemLoc sig).isScoped .scVector = true; decide⟩⟩),
    SparseCore.bigSep_erase' (Finset.mem_erase.mpr ⟨fun e => absurd (SemLoc.dma.inj (Prod.mk.inj e).2) (show (cc0_scratch11.sem : DmaSem sig) ≠ cc0_scratch10.sem by decide), Finset.mem_erase.mpr ⟨fun e => absurd (SemLoc.dma.inj (Prod.mk.inj e).2) (show (cc0_scratch11.sem : DmaSem sig) ≠ cc0_scratch9.sem by decide), (mem_ownCells (g := (((V d (cV L) (jV L)), SemLoc.dma cc0_scratch11.sem) : GSem nD τ sig))).mpr ⟨rfl, by show (SemLoc.dma cc0_scratch11.sem : SemLoc sig).isScoped .scVector = true; decide⟩⟩⟩),
    SparseCore.bigSep_erase' (Finset.mem_erase.mpr ⟨fun e => absurd (SemLoc.dma.inj (Prod.mk.inj e).2) (show (cc0_scratch12.sem : DmaSem sig) ≠ cc0_scratch11.sem by decide), Finset.mem_erase.mpr ⟨fun e => absurd (SemLoc.dma.inj (Prod.mk.inj e).2) (show (cc0_scratch12.sem : DmaSem sig) ≠ cc0_scratch10.sem by decide), Finset.mem_erase.mpr ⟨fun e => absurd (SemLoc.dma.inj (Prod.mk.inj e).2) (show (cc0_scratch12.sem : DmaSem sig) ≠ cc0_scratch9.sem by decide), (mem_ownCells (g := (((V d (cV L) (jV L)), SemLoc.dma cc0_scratch12.sem) : GSem nD τ sig))).mpr ⟨rfl, by show (SemLoc.dma cc0_scratch12.sem : SemLoc sig).isScoped .scVector = true; decide⟩⟩⟩⟩),
    SparseCore.bigSep_erase' (Finset.mem_erase.mpr ⟨fun e => absurd (SemLoc.dma.inj (Prod.mk.inj e).2) (show (cc0_scoped0.sem : DmaSem sig) ≠ cc0_scratch12.sem by decide), Finset.mem_erase.mpr ⟨fun e => absurd (SemLoc.dma.inj (Prod.mk.inj e).2) (show (cc0_scoped0.sem : DmaSem sig) ≠ cc0_scratch11.sem by decide), Finset.mem_erase.mpr ⟨fun e => absurd (SemLoc.dma.inj (Prod.mk.inj e).2) (show (cc0_scoped0.sem : DmaSem sig) ≠ cc0_scratch10.sem by decide), Finset.mem_erase.mpr ⟨fun e => absurd (SemLoc.dma.inj (Prod.mk.inj e).2) (show (cc0_scoped0.sem : DmaSem sig) ≠ cc0_scratch9.sem by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨fun e => absurd (SemLoc.dma.inj (Prod.mk.inj e).2) (show (cc0_scoped1.sem : DmaSem sig) ≠ cc0_scoped0.sem by decide), Finset.mem_erase.mpr ⟨fun e => absurd (SemLoc.dma.inj (Prod.mk.inj e).2) (show (cc0_scoped1.sem : DmaSem sig) ≠ cc0_scratch12.sem by decide), Finset.mem_erase.mpr ⟨fun e => absurd (SemLoc.dma.inj (Prod.mk.inj e).2) (show (cc0_scoped1.sem : DmaSem sig) ≠ cc0_scratch11.sem by decide), Finset.mem_erase.mpr ⟨fun e => absurd (SemLoc.dma.inj (Prod.mk.inj e).2) (show (cc0_scoped1.sem : DmaSem sig) ≠ cc0_scratch10.sem by decide), Finset.mem_erase.mpr ⟨fun e => absurd (SemLoc.dma.inj (Prod.mk.inj e).2) (show (cc0_scoped1.sem : DmaSem sig) ≠ cc0_scratch9.sem by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨fun e => absurd (SemLoc.dma.inj (Prod.mk.inj e).2) (show (cc0_scoped2.sem : DmaSem sig) ≠ cc0_scoped1.sem by decide), Finset.mem_erase.mpr ⟨fun e => absurd (SemLoc.dma.inj (Prod.mk.inj e).2) (show (cc0_scoped2.sem : DmaSem sig) ≠ cc0_scoped0.sem by decide), Finset.mem_erase.mpr ⟨fun e => absurd (SemLoc.dma.inj (Prod.mk.inj e).2) (show (cc0_scoped2.sem : DmaSem sig) ≠ cc0_scratch12.sem by decide), Finset.mem_erase.mpr ⟨fun e => absurd (SemLoc.dma.inj (Prod.mk.inj e).2) (show (cc0_scoped2.sem : DmaSem sig) ≠ cc0_scratch11.sem by decide), Finset.mem_erase.mpr ⟨fun e => absurd (SemLoc.dma.inj (Prod.mk.inj e).2) (show (cc0_scoped2.sem : DmaSem sig) ≠ cc0_scratch10.sem by decide), Finset.mem_erase.mpr ⟨fun e => absurd (SemLoc.dma.inj (Prod.mk.inj e).2) (show (cc0_scoped2.sem : DmaSem sig) ≠ cc0_scratch9.sem by decide), (mem_ownCells (g := (((V d (cV L) (jV L)), SemLoc.dma cc0_scoped2.sem) : GSem nD τ sig))).mpr ⟨rfl, by show (SemLoc.dma cc0_scoped2.sem : SemLoc sig).isScoped .scVector = true; decide⟩⟩⟩⟩⟩⟩⟩),
    SparseCore.bigSep_erase' (Finset.mem_erase.mpr ⟨fun e => absurd (SemLoc.dma.inj (Prod.mk.inj e).2) (show (cc0_scoped3.sem : DmaSem sig) ≠ cc0_scoped2.sem by decide), Finset.mem_erase.mpr ⟨fun e => absurd (SemLoc.dma.inj (Prod.mk.inj e).2) (show (cc0_scoped3.sem : DmaSem sig) ≠ cc0_scoped1.sem by decide), Finset.mem_erase.mpr ⟨fun e => absurd (SemLoc.dma.inj (Prod.mk.inj e).2) (show (cc0_scoped3.sem : DmaSem sig) ≠ cc0_scoped0.sem by decide), Finset.mem_erase.mpr ⟨fun e => absurd (SemLoc.dma.inj (Prod.mk.inj e).2) (show (cc0_scoped3.sem : DmaSem sig) ≠ cc0_scratch12.sem by decide), Finset.mem_erase.mpr ⟨fun e => absurd (SemLoc.dma.inj (Prod.mk.inj e).2) (show (cc0_scoped3.sem : DmaSem sig) ≠ cc0_scratch11.sem by decide), Finset.mem_erase.mpr ⟨fun e => absurd (SemLoc.dma.inj (Prod.mk.inj e).2) (show (cc0_scoped3.sem : DmaSem sig) ≠ cc0_scratch10.sem by decide), Finset.mem_erase.mpr ⟨fun e => absurd (SemLoc.dma.inj (Prod.mk.inj e).2) (show (cc0_scoped3.sem : DmaSem sig) ≠ cc0_scratch9.sem by decide), (mem_ownCells (g := (((V d (cV L) (jV L)), SemLoc.dma cc0_scoped3.sem) : GSem nD τ sig))).mpr ⟨rfl, by show (SemLoc.dma cc0_scoped3.sem : SemLoc sig).isScoped .scVector = true; decide⟩⟩⟩⟩⟩⟩⟩⟩)]

omit [FloatOps F] in
/-- The kernel's nine scratch buffers are among the subcore's own: they are them, at some contents, and the rest. -/
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := ((Proc.scVector (cV L) (jV L)).devRef cc0_scratch8)) rfl⟩⟩⟩⟩⟩⟩⟩⟩)]

omit [FloatOps F] in
theorem pts_ea (q : PosShare TreeShare) (f : Buf (Elt F) (eaLoc d)) :
    ((eaW).view.loc (V d (cV L) (jV L)) ↦{q} f : sProp 𝕄) = eaLoc d ↦{q} f := by
  simp only [Memref.view_whole, View.set_whole]
omit [FloatOps F] in
theorem pts_w0 (q : PosShare TreeShare) (f : Buf (Elt F) (w0Loc d)) :
    ((w0W).view.loc (V d (cV L) (jV L)) ↦{q} f : sProp 𝕄) = w0Loc d ↦{q} f := by
  simp only [Memref.view_whole, View.set_whole]
omit [FloatOps F] in
theorem pts_w1 (q : PosShare TreeShare) (f : Buf (Elt F) (w1Loc d)) :
    ((w1W).view.loc (V d (cV L) (jV L)) ↦{q} f : sProp 𝕄) = w1Loc d ↦{q} f := by
  simp only [Memref.view_whole, View.set_whole]
omit [FloatOps F] in
theorem pts_w2 (q : PosShare TreeShare) (f : Buf (Elt F) (w2Loc d)) :
    ((w2W).view.loc (V d (cV L) (jV L)) ↦{q} f : sProp 𝕄) = w2Loc d ↦{q} f := by
  simp only [Memref.view_whole, View.set_whole]

omit [FloatOps F] in
theorem pts_b0 (f : Buf (Elt F) ((V d (cV L) (jV L)).loc cc0_scratch0)) :
    ((b0W).view.loc (V d (cV L) (jV L)) ↦{fullShare} f : sProp 𝕄) = (V d (cV L) (jV L)).loc cc0_scratch0 ↦{fullShare} f := rfl
omit [FloatOps F] in
theorem pts_b1 (f : Buf (Elt F) ((V d (cV L) (jV L)).loc cc0_scratch1)) :
    ((b1W).view.loc (V d (cV L) (jV L)) ↦{fullShare} f : sProp 𝕄) = (V d (cV L) (jV L)).loc cc0_scratch1 ↦{fullShare} f := rfl
omit [FloatOps F] in
theorem pts_b2 (f : Buf (Elt F) ((V d (cV L) (jV L)).loc cc0_scratch2)) :
    ((b2W).view.loc (V d (cV L) (jV L)) ↦{fullShare} f : sProp 𝕄) = (V d (cV L) (jV L)).loc cc0_scratch2 ↦{fullShare} f := rfl
omit [FloatOps F] in
theorem pts_b3 (f : Buf (Elt F) ((V d (cV L) (jV L)).loc cc0_scratch3)) :
    ((b3W).view.loc (V d (cV L) (jV L)) ↦{fullShare} f : sProp 𝕄) = (V d (cV L) (jV L)).loc cc0_scratch3 ↦{fullShare} f := rfl
omit [FloatOps F] in
theorem pts_b4 (f : Buf (Elt F) ((V d (cV L) (jV L)).loc cc0_scratch4)) :
    ((b4W).view.loc (V d (cV L) (jV L)) ↦{fullShare} f : sProp 𝕄) = (V d (cV L) (jV L)).loc cc0_scratch4 ↦{fullShare} f := rfl
omit [FloatOps F] in
theorem pts_b5 (f : Buf (Elt F) ((V d (cV L) (jV L)).loc cc0_scratch5)) :
    ((b5W).view.loc (V d (cV L) (jV L)) ↦{fullShare} f : sProp 𝕄) = (V d (cV L) (jV L)).loc cc0_scratch5 ↦{fullShare} f := rfl
omit [FloatOps F] in
theorem pts_b6 (f : Buf (Elt F) ((V d (cV L) (jV L)).loc cc0_scratch6)) :
    ((b6W).view.loc (V d (cV L) (jV L)) ↦{fullShare} f : sProp 𝕄) = (V d (cV L) (jV L)).loc cc0_scratch6 ↦{fullShare} f := rfl
omit [FloatOps F] in
theorem pts_b7 (f : Buf (Elt F) ((V d (cV L) (jV L)).loc cc0_scratch7)) :
    ((b7W).view.loc (V d (cV L) (jV L)) ↦{fullShare} f : sProp 𝕄) = (V d (cV L) (jV L)).loc cc0_scratch7 ↦{fullShare} f := rfl
omit [FloatOps F] in
theorem pts_b8 (f : Buf (Elt F) ((V d (cV L) (jV L)).loc cc0_scratch8)) :
    ((b8W).view.loc (V d (cV L) (jV L)) ↦{fullShare} f : sProp 𝕄) = (V d (cV L) (jV L)).loc cc0_scratch8 ↦{fullShare} f := rfl

end Tile

end Cert.Proof.K

end
-- ==== Proof.GoodK.lean ====
/-
  What a vector subcore must leave in its blocks of the result, as the kernel lays the result out: element
  (c₁, b, c₂, l) of the [8, 6250, 8, 128] array is the embedding of edge e = 128·b + l at column c = 8·c₁ + c₂,
  read off the flattened arrays the call is handed: attribute f of edge e is word f·800000 + e of the flattened
  attributes, and row r, column c of a table is word 64·r + c of the flattened table. The three table words are
  added left to right.
-/
import proofs.«203789_g40862318854646_cont_8to1_b_1018_13_alg».proof.Proof.SetupK
import Idealize.ShloMosaic.Lib.ValueIdx

noncomputable section

namespace Cert.Proof.K

open Cert.Kernel Cert.Kernel.Gen
open Idealize.ShloMosaic Idealize.ShloMosaic.ValueIdx
open Idealize.ShloMosaic.SparseCore (S V T)

variable {F : FTy → Type}

/-- Word `n` of a flat array of `N` words (the position reduced into the extent: in range wherever it is used). -/
abbrev at1 {N : ℕ} [NeZero N] {α : Type} (x : (⟨1, ![N]⟩ : Shape).Idx → α) (n : ℕ) : α := x (ix1 (Fin.ofNat N n))

/-- The embedding at an element of the result as the kernel lays it out. -/
def kerVal [FloatOps F] (ea : IVec S2400000 32) (w0 : FVec F S320 .f32) (w1 : FVec F S384 .f32) (w2 : FVec F S128 .f32)
    (j : S8x6250x8x128.Idx) : F .f32 :=
  FloatOps.addf
    (FloatOps.addf (at1 w0 ((at1 ea (128 * (j 1).val + (j 3).val)).toNat * 64 + (8 * (j 0).val + (j 2).val)))
      (at1 w1 ((at1 ea (800000 + (128 * (j 1).val + (j 3).val))).toNat * 64 + (8 * (j 0).val + (j 2).val))))
    (at1 w2 ((at1 ea (1600000 + (128 * (j 1).val + (j 3).val))).toNat * 64 + (8 * (j 0).val + (j 2).val)))

/-! ## Inside a vector subcore: the combined table and one chunk -/

/-- Row `r` = 12·i0 + 2·i1 + i2 of the combined table at column `c`: the three tables' rows i0, i1, i2 added left to
    right, read off the flattened tables. -/
def tabVal [FloatOps F] (w0 : FVec F S320 .f32) (w1 : FVec F S384 .f32) (w2 : FVec F S128 .f32) (r c : ℕ) : F .f32 :=
  FloatOps.addf (FloatOps.addf (at1 w0 (64 * (r / 12) + c)) (at1 w1 (64 * (r % 12 / 2) + c))) (at1 w2 (64 * (r % 2) + c))

/-- The transposed table scratch holds the combined table wherever the kernel reads it: word 64·c + r is row `r`,
    column `c`, for the rows r ≤ 15 that attribute words 0 and 1 can name. -/
def TabT [FloatOps F] (w0 : FVec F S320 .f32) (w1 : FVec F S384 .f32) (w2 : FVec F S128 .f32) (ft : FVec F S4096 .f32) : Prop :=
  ∀ c r : ℕ, c < 64 → r ≤ 15 → at1 ft (64 * c + r) = tabVal w0 w1 w2 r c

/-- The combined row an edge names, from the attribute scratch of one chunk (768 edges, three columns of 768 words):
    position `p` of the chunk. -/
def combAt (fe : IVec S2304 32) (p : ℕ) : ℕ := (at1 fe p).toNat * 12 + (at1 fe (768 + p)).toNat * 2 + (at1 fe (1536 + p)).toNat

/-- What one chunk's output scratch holds when its 48 groups are done: element (c₁, b, c₂, l) is the table word of
    column 8·c₁ + c₂ at the combined row of the chunk's edge 128·b + l. -/
def gatherVal (ft : FVec F S4096 .f32) (fe : IVec S2304 32) (j : S8x6x8x128.Idx) : F .f32 :=
  at1 ft (64 * (8 * (j 0).val + (j 2).val) + combAt fe (128 * (j 1).val + (j 3).val))

variable (m : (ℓ : Loc nD τ sig) → Buf (Elt F) ℓ) [FloatOps F]

/-- Subcore number `w` has done its work: every element of its blocks holds the embedding. -/
def GoodV : (d : Dev nD) → Buf (Elt F) (oLoc d) → ℕ → Prop :=
  fun d fo w => ∀ j ∈ blocksOf w, fo j = kerVal (eaC m d) (w0C m d) (w1C m d) (w2C m d) j

/-- It speaks of the subcore's own blocks only. -/
theorem GoodV_local (d : Dev nD) (fo fo' : Buf (Elt F) (oLoc d)) (w : ℕ) (h : ∀ j ∈ blocksOf w, fo j = fo' j) :
    GoodV m d fo w → GoodV m d fo' w :=
  fun hg j hj => (h j hj).symm.trans (hg j hj)

/-! ## After the call -/

/-- @main's two host operations after the call: the result's axes permuted to (block, lane, column group, column) and
    flattened to [800000, 64]. -/
abbrev op5 : HloOp τ sig (Elt F) := StableHlo.unary main_v5 main_v6 ((transpose S6250x128x8x8 [1, 3, 0, 2] · transposes_S8x6250x8x128_S6250x128x8x8_1_3_0_2) : (⟨S8x6250x8x128, .f32⟩ : BufTy).Contents (Elt F) → (⟨S6250x128x8x8, .f32⟩ : BufTy).Contents (Elt F))
abbrev op6 : HloOp τ sig (Elt F) := StableHlo.reshape main_v6 main_v7 rfl shapeCasts_S6250x128x8x8_S800000x64

/-- The valuation after @main's last two host operations, from the call's result `fo`. -/
def Vpost (d : Dev nD) (fo : Buf (Elt F) (oLoc d)) : Valuation τ sig (Elt F) :=
  (op6 (F := F)).result ((op5 (F := F)).result (Function.update (Vpre m d) (Proc.devRef .tc (main_v5 : Ref sig .tc)) fo))

end Cert.Proof.K

end
-- ==== Proof.TabK.lean ====
/-
  The combined table a vector subcore builds before its main loop, as values. Word 64·r + c of the table scratch is
  row r = 12·i0 + 2·i1 + i2, column c, of the three tables' rows added left to right; the transposed scratch holds
  the same words with row and column exchanged. The stores are followed piece by piece: each of the table's 240
  sixteen-lane stores writes the words one function of the position names, and each of the transpose's 256
  sixteen-lane stores writes the table's words at the exchanged positions.
-/
import proofs.«203789_g40862318854646_cont_8to1_b_1018_13_alg».proof.Proof.GoodK
import Idealize.ShloMosaic.Lib.Writes

noncomputable section

namespace Cert.Proof.K

open Cert.Kernel Cert.Kernel.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Pieces that agree with one function, stacked in sixteens -/

section Stack
variable {sig : RefSig} {κ : Kind} {sp : Space} {e : EltTy} {Val : EltTy → Type} {n : ℕ}

/-- A piece writes the words one function `G` of the position names. -/
def Agree (G : (⟨1, ![n]⟩ : Shape).Idx → Val e) (p : View.Piece Val ⟨1, ![n]⟩ e) : Prop :=
  ∀ x : p.1.shape.Idx, p.2 x = G (p.1.emb x)

/-- The list's pieces all agree with `G`, and between them cover the first `16 k` words. -/
def Stack (G : (⟨1, ![n]⟩ : Shape).Idx → Val e) (k : ℕ) (L : List (View.Piece Val ⟨1, ![n]⟩ e)) : Prop :=
  (∀ p ∈ L, Agree G p) ∧ ∀ y : (⟨1, ![n]⟩ : Shape).Idx, (y 0).val < 16 * k → ∃ p ∈ L, y ∈ p.1.set

theorem stack_nil (G : (⟨1, ![n]⟩ : Shape).Idx → Val e) : Stack G 0 [] :=
  ⟨fun _ h => (nomatch h), fun y h => absurd h (by omega)⟩

/-- One more sixteen on top: the piece at offset `16 k`. -/
theorem stack_cons (G : (⟨1, ![n]⟩ : Shape).Idx → Val e) (k : ℕ) (L : List (View.Piece Val ⟨1, ![n]⟩ e))
    (o : ℕ) (h : ∀ a, (![o] : Fin 1 → ℕ) a + (![16] : Fin 1 → ℕ) a ≤ (⟨1, ![n]⟩ : Shape).size a)
    (w : (Rect.unit (s := ⟨1, ![n]⟩) ![o] ![16] h).shape.Idx → Val e) (ho : o = 16 * k)
    (hw : Agree G ⟨Rect.unit ![o] ![16] h, w⟩) (hL : Stack G k L) : Stack G (k + 1) (⟨Rect.unit ![o] ![16] h, w⟩ :: L) := by
  refine ⟨fun p hp => ?_, fun y hy => ?_⟩
  · rcases List.mem_cons.mp hp with rfl | hp
    · exact hw
    · exact hL.1 p hp
  · by_cases hlt : (y 0).val < 16 * k
    · obtain ⟨p, hp, hyp⟩ := hL.2 y hlt
      exact ⟨p, List.mem_cons_of_mem _ hp, hyp⟩
    · have hm : y ∈ (Rect.unit (s := ⟨1, ![n]⟩) ![o] ![16] h).set := by
        rw [Rect.mem_set_unit]
        intro a
        match a with
        | ⟨0, _⟩ =>
          subst ho
          show 16 * k ≤ (y 0).val ∧ (y 0).val < 16 * k + 16
          omega
      exact ⟨_, List.mem_cons_self, hm⟩

/-- What a stack leaves: every word below `16 k` reads `G` there, whatever the buffer held before. -/
theorem read_of_stack (v : View sig κ sp ⟨1, ![n]⟩ e) (f : v.ty.Contents Val) (G : (⟨1, ![n]⟩ : Shape).Idx → Val e) (k : ℕ)
    (L : List (View.Piece Val ⟨1, ![n]⟩ e)) (hL : Stack G k L) (y : (⟨1, ![n]⟩ : Shape).Idx) (hy : (y 0).val < 16 * k) :
    v.read Val (v.writes Val f L) y = G y :=
  View.read_writes_apply_of_pieces v f G L hL.1 y (hL.2 y hy)

end Stack

/-! ## The table's words -/

/-- Word `y` of the combined table as the flat 64 × 64 scratch holds it: row `y / 64`, column `y % 64`. -/
def tabWord (w0 : FVec F S320 .f32) (w1 : FVec F S384 .f32) (w2 : FVec F S128 .f32) : S4096.Idx → F .f32 :=
  fun y => tabVal w0 w1 w2 ((y 0).val / 64) ((y 0).val % 64)

/-- One of the table's stores: sixteen lanes at offset `o` (a multiple of 16 below 3840), the sum of the three
    tables' sixteen lanes at the offsets the row `o / 64` and the lane group `o % 64` name, left to right. -/
theorem agree_tab (w0 : FVec F S320 .f32) (w1 : FVec F S384 .f32) (w2 : FVec F S128 .f32)
    {sig : RefSig} {κ : Kind} {sp : Space}
    (v0 : View sig κ sp S320 .f32) (v1 : View sig κ sp S384 .f32) (v2 : View sig κ sp S128 .f32)
    (C0 : v0.ty.Contents (Elt F)) (C1 : v1.ty.Contents (Elt F)) (C2 : v2.ty.Contents (Elt F))
    (hC0 : ∀ i, v0.read (Elt F) C0 i = w0 i) (hC1 : ∀ i, v1.read (Elt F) C1 i = w1 i) (hC2 : ∀ i, v2.read (Elt F) C2 i = w2 i)
    (o o0 o1 o2 : ℕ) (h : ∀ a, (![o] : Fin 1 → ℕ) a + (![16] : Fin 1 → ℕ) a ≤ S4096.size a)
    (h0 : ∀ a, (![o0] : Fin 1 → ℕ) a + S16.size a ≤ S320.size a)
    (h1 : ∀ a, (![o1] : Fin 1 → ℕ) a + S16.size a ≤ S384.size a)
    (h2 : ∀ a, (![o2] : Fin 1 → ℕ) a + S16.size a ≤ S128.size a)
    (e0 : o0 = 64 * (o / 64 / 12) + o % 64) (e1 : o1 = 64 * (o / 64 % 12 / 2) + o % 64)
    (e2 : o2 = 64 * (o / 64 % 2) + o % 64) (e16 : o % 16 = 0) (elt : o + 16 ≤ 3840) :
    Agree (Val := Elt F) (e := .f32) (n := 4096) (tabWord w0 w1 w2) ⟨Rect.unit (s := S4096) ![o] ![16] h,
      addf (addf (View.readAt (Elt F) v0 (Rect.unit (s := S320) ![o0] S16.size h0).toLoadRect C0)
          (View.readAt (Elt F) v1 (Rect.unit (s := S384) ![o1] S16.size h1).toLoadRect C1))
        (View.readAt (Elt F) v2 (Rect.unit (s := S128) ![o2] S16.size h2).toLoadRect C2)⟩ := by
  intro x
  have hx : (x 0).val < 16 := (x 0).isLt
  show FloatOps.addf (FloatOps.addf
        (v0.read (Elt F) C0 ((Rect.unit (s := S320) ![o0] S16.size h0).toLoadRect.idx x))
        (v1.read (Elt F) C1 ((Rect.unit (s := S384) ![o1] S16.size h1).toLoadRect.idx x)))
      (v2.read (Elt F) C2 ((Rect.unit (s := S128) ![o2] S16.size h2).toLoadRect.idx x))
    = tabVal w0 w1 w2 ((o + 1 * (x 0).val) / 64) ((o + 1 * (x 0).val) % 64)
  rw [hC0, hC1, hC2]
  unfold tabVal at1
  refine congrArg₂ FloatOps.addf (congrArg₂ FloatOps.addf (congrArg w0 ?_) (congrArg w1 ?_)) (congrArg w2 ?_)
  · funext a
    match a with
    | ⟨0, _⟩ =>
    refine Fin.ext ?_
    show o0 + 1 * (x 0).val = (64 * ((o + 1 * (x 0).val) / 64 / 12) + (o + 1 * (x 0).val) % 64) % 320
    omega
  · funext a
    match a with
    | ⟨0, _⟩ =>
    refine Fin.ext ?_
    show o1 + 1 * (x 0).val = (64 * ((o + 1 * (x 0).val) / 64 % 12 / 2) + (o + 1 * (x 0).val) % 64) % 384
    omega
  · funext a
    match a with
    | ⟨0, _⟩ =>
    refine Fin.ext ?_
    show o2 + 1 * (x 0).val = (64 * ((o + 1 * (x 0).val) / 64 % 2) + (o + 1 * (x 0).val) % 64) % 128
    omega

/-! ## The transposed table's words -/

/-- A load of the whole buffer reads the buffer. -/
theorem readAt_whole_apply {sig : RefSig} {κ : Kind} {sp : Space} {s : Shape} {e : EltTy} {Val : EltTy → Type}
    (v : View sig κ sp s e) (f : v.ty.Contents Val) (y : s.Idx) :
    v.readAt Val (LoadRect.whole s) f y = v.read Val f y := by
  show v.read Val f ((LoadRect.whole s).idx y) = v.read Val f y
  refine congrArg (v.read Val f) (funext fun a => Fin.ext ?_)
  show 0 + 1 * (y a).val = (y a).val
  omega

/-- The transpose's index vectors: lane `x` of `(lanes + p) · 64 + q` is the word `(x + p) · 64 + q`, nothing wrapping. -/
theorem idx_lane (p q : BitVec 32) (hp : p.toNat ≤ 48) (hq : q.toNat < 64) (hi : S16.Iotas .scVector 32 [0]) (x : S16.Idx) :
    (addi (muli (addi (iota .scVector S16 32 [0] hi) (broadcast S16 p)) (broadcast S16 64#32)) (broadcast S16 q) x).toNat
      = ((x 0).val + p.toNat) * 64 + q.toNat := by
  have hx : (x 0).val < 16 := (x 0).isLt
  show (IntOp.addi (IntOp.muli (IntOp.addi (BitVec.ofNat 32 (0 * 16 + (x 0).val)) p) 64#32) q).toNat = _
  unfold IntOp.addi IntOp.muli
  simp only [BitVec.toNat_add, BitVec.toNat_mul, BitVec.toNat_ofNat, Nat.reducePow]
  omega

/-- Word `y` of the transposed scratch: the table's word with row and column exchanged. -/
def trWord {α : Type} (R0 : S4096.Idx → α) : S4096.Idx → α :=
  fun y => R0 (ix1 ⟨((y 0).val % 64) * 64 + (y 0).val / 64, by have : (y 0).val < 4096 := (y 0).isLt; omega⟩)

/-- One of the transpose's stores: sixteen lanes at offset `o` (a multiple of 16), gathered from the table scratch at
    the words `(x + o % 64) · 64 + o / 64`. -/
theorem agree_tr (R0 R : Vec F S4096 .f32) (hR : ∀ y, R y = R0 y) (idx : IVec S16 32)
    (hidx : ∀ a x, ((![idx] : Fin S4096.rank → IVec S16 32) a x).toNat < S4096.size a)
    (o p q : ℕ) (h : ∀ a, (![o] : Fin 1 → ℕ) a + (![16] : Fin 1 → ℕ) a ≤ S4096.size a)
    (hi : ∀ x : S16.Idx, (idx x).toNat = ((x 0).val + p) * 64 + q) (hp : p = o % 64) (hq : q = o / 64) (e16 : o % 16 = 0) :
    Agree (Val := Elt F) (e := .f32) (n := 4096) (trWord R0) ⟨Rect.unit (s := S4096) ![o] ![16] h, loadIdx R ![idx] hidx⟩ := by
  intro x
  have hx : (x 0).val < 16 := (x 0).isLt
  show R (idxAt ![idx] hidx x) = trWord R0 ((Rect.unit (s := S4096) ![o] ![16] h).emb x)
  rw [hR]
  unfold trWord
  refine congrArg R0 (funext fun a => ?_)
  match a with
  | ⟨0, _⟩ =>
  refine Fin.ext ?_
  show (idx x).toNat = ((o + 1 * (x 0).val) % 64) * 64 + (o + 1 * (x 0).val) / 64
  rw [hi x, hp, hq]
  omega

/-- The transposed scratch holds the combined table: from the table scratch's words (rows below 60) and the
    transposed scratch's (all of them, in terms of the table scratch's). -/
theorem tabT_of_words (w0 : FVec F S320 .f32) (w1 : FVec F S384 .f32) (w2 : FVec F S128 .f32) (R0 : S4096.Idx → F .f32)
    (h3 : ∀ y : S4096.Idx, (y 0).val < 3840 → R0 y = tabWord w0 w1 w2 y)
    (ft : FVec F S4096 .f32) (h4 : ∀ y : S4096.Idx, ft y = trWord R0 y) : TabT w0 w1 w2 ft := by
  intro c r hc hr
  unfold at1
  rw [h4]
  unfold trWord
  rw [h3 _ (by show (64 * c + r) % 4096 % 64 * 64 + (64 * c + r) % 4096 / 64 < 3840; omega)]
  unfold tabWord
  have e1 : ((64 * c + r) % 4096 % 64 * 64 + (64 * c + r) % 4096 / 64) / 64 = r := by omega
  have e2 : ((64 * c + r) % 4096 % 64 * 64 + (64 * c + r) % 4096 / 64) % 64 = c := by omega
  show tabVal w0 w1 w2 (((64 * c + r) % 4096 % 64 * 64 + (64 * c + r) % 4096 / 64) / 64)
      (((64 * c + r) % 4096 % 64 * 64 + (64 * c + r) % 4096 / 64) % 64) = tabVal w0 w1 w2 r c
  rw [e1, e2]

/-! ## A buffer's contents renamed, keeping what is known of them -/

section Rename
variable {nD : Nat} {τ : Topo} {sig : RefSig} {Ix : Type} [DecidableEq Ix] {Val : EltTy → Type} {Name : Type} [DecidableEq Name]
variable {U : Type} [URA U] {Lvl : Type}

/-- A buffer held at contents of which `P` is known is held at SOME contents of which `P` is known. -/
theorem pointsTo_rename {ℓ : Loc nD τ sig} (q : PosShare TreeShare) (f : Buf Val ℓ) (P : Buf Val ℓ → Prop) (h : P f) :
    (ℓ ↦{q} f : sProp (MT nD τ sig Ix Val Name U Lvl)) ⊢ iprop(∃ f', ⌜P f'⌝ ∗ ℓ ↦{q} f') := by
  iintro H; iexists f; isplitr
  · ipureintro; exact h
  · iexact H

end Rename

end Cert.Proof.K

end
-- ==== Proof.InnerLibK.lean ====
/-
  The inner loop of a vector subcore's chunk: forty-eight trips, one per group of sixteen edges. A trip loads the
  group's three attribute vectors from the attribute scratch, forms the combined row number e0·12 + e1·2 + e2
  lanewise, and for each of the sixty-four columns gathers the sixteen table words at row + 64·column from the
  transposed table scratch and stores them into the output scratch. With every attribute word 0 or 1 the row number
  is at most 15, so every gather index lies inside the 4096-word table (the range checks the body assumes).
  This file: the arithmetic of the row number and of the gather's indices, and what sixty-four stores of one trip
  leave in the output scratch.
-/
import proofs.«203789_g40862318854646_cont_8to1_b_1018_13_alg».proof.Proof.TileDefsK
import proofs.«203789_g40862318854646_cont_8to1_b_1018_13_alg».proof.Proof.GoodK
import Idealize.ShloMosaic.Lib.Writes
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

/-! ## The combined row number, and the gather's indices in range -/

/-- Lanewise, the combined row number is e0·12 + e1·2 + e2 on 32-bit words. -/
theorem pay1_apply (e0 e1 e2 : Vec F S16 .i32) (x : S16.Idx) :
    k0_pay1 e0 e1 e2 x = IntOp.addi (IntOp.addi (IntOp.muli (e0 x) 12#32) (IntOp.muli (e1 x) 2#32)) (e2 x) := rfl

/-- With attribute words 0 or 1 the combined row number is their weighted sum as a natural number (no wrap). -/
theorem comb_toNat {e0 e1 e2 : Vec F S16 .i32} (h0 : ∀ x, e0 x = 0#32 ∨ e0 x = 1#32) (h1 : ∀ x, e1 x = 0#32 ∨ e1 x = 1#32)
    (h2 : ∀ x, e2 x = 0#32 ∨ e2 x = 1#32) (x : S16.Idx) :
    (k0_pay1 e0 e1 e2 x).toNat = (e0 x).toNat * 12 + (e1 x).toNat * 2 + (e2 x).toNat := by
  rw [pay1_apply]
  rcases h0 x with h | h <;> rcases h1 x with h' | h' <;> rcases h2 x with h'' | h'' <;> rw [h, h', h''] <;> rfl

/-- With attribute words 0 or 1 the combined row number is at most 15. -/
theorem comb_le {e0 e1 e2 : Vec F S16 .i32} (h0 : ∀ x, e0 x = 0#32 ∨ e0 x = 1#32) (h1 : ∀ x, e1 x = 0#32 ∨ e1 x = 1#32)
    (h2 : ∀ x, e2 x = 0#32 ∨ e2 x = 1#32) (x : S16.Idx) : (k0_pay1 e0 e1 e2 x).toNat ≤ 15 := by
  rw [comb_toNat h0 h1 h2]
  rcases h0 x with h | h <;> rcases h1 x with h' | h' <;> rcases h2 x with h'' | h'' <;> rw [h, h', h''] <;> decide

/-- A row number at most 15 moved by a column offset at most 4032 stays inside the 4096-word table. -/
theorem chk_of_le {comb : IVec S16 32} {q : BitVec 32} (hc : ∀ x, (comb x).toNat ≤ 15) (hq : q.toNat ≤ 4032) :
    ∀ a x, ((![addi comb (broadcast S16 q)] : Fin 1 → IVec S16 32) a x).toNat < S4096.size a := by
  intro a x
  obtain rfl : a = 0 := Subsingleton.elim _ _
  show (comb x + q).toNat < 4096
  have := hc x
  rw [BitVec.toNat_add]
  omega

/-- The same, as the natural number the index is. -/
theorem idx_toNat {comb : IVec S16 32} {q : BitVec 32} (hc : ∀ x, (comb x).toNat ≤ 15) (hq : q.toNat ≤ 4032) (x : S16.Idx) :
    (addi comb (broadcast S16 q) x).toNat = (comb x).toNat + q.toNat := by
  show (comb x + q).toNat = _
  have := hc x
  rw [BitVec.toNat_add]
  omega

/-! ## What one trip's sixty-four stores leave

Trip `k` stores, for every column `c`, sixteen lanes `16·(k % 8) … +15` of row `(c / 8, k / 8, c % 8)` of the output
scratch: the elements of group `k` (`grp j = k`), each exactly once. If every piece holds `G` where it lands, the
scratch holds `G` on the groups up to `k` afterwards, provided it did on the groups below `k` before. -/

/-- The group of sixteen edges an element of the output scratch belongs to. -/
def grp (j : S8x6x8x128.Idx) : ℕ := 8 * (j 1).val + (j 3).val / 16

section Lists

variable {Val : EltTy → Type}

/-- A piece of trip `k`: column `c`'s sixteen lanes of group `k`, holding `G` where it lands. -/
structure PieceGood (G : S8x6x8x128.Idx → Val .f32) (k c : ℕ) (p : View.Piece Val S8x6x8x128 .f32) : Prop where
  off : p.1.off = ![c / 8, k / 8, c % 8, 16 * (k % 8)]
  size : p.1.size = ![1, 1, 1, 16]
  stride : ∀ a, p.1.stride a = 1
  val : ∀ x, p.2 x = G (p.1.emb x)

/-- The stores of a trip, last first: the head is the column numbered by the length of the tail. -/
def GoodList (G : S8x6x8x128.Idx → Val .f32) (k : ℕ) : List (View.Piece Val S8x6x8x128 .f32) → Prop
  | [] => True
  | p :: Ls => PieceGood G k Ls.length p ∧ GoodList G k Ls

theorem GoodList.val {G : S8x6x8x128.Idx → Val .f32} {k : ℕ} :
    ∀ {Ls : List (View.Piece Val S8x6x8x128 .f32)}, GoodList G k Ls → ∀ p ∈ Ls, ∀ x, p.2 x = G (p.1.emb x)
  | [], _, p, hp => absurd hp List.not_mem_nil
  | q :: Ls, h, p, hp => by
    rcases List.mem_cons.mp hp with rfl | hp
    · exact h.1.val
    · exact GoodList.val h.2 p hp

theorem GoodList.col {G : S8x6x8x128.Idx → Val .f32} {k : ℕ} :
    ∀ {Ls : List (View.Piece Val S8x6x8x128 .f32)}, GoodList G k Ls → ∀ c < Ls.length, ∃ p ∈ Ls, PieceGood G k c p
  | [], _, c, hc => absurd hc (Nat.not_lt_zero c)
  | q :: Ls, h, c, hc => by
    rcases Nat.lt_succ_iff_lt_or_eq.mp (by simpa using hc) with hlt | rfl
    · obtain ⟨p, hp, hg⟩ := GoodList.col h.2 c hlt
      exact ⟨p, List.mem_cons_of_mem _ hp, hg⟩
    · exact ⟨q, List.mem_cons_self, h.1⟩

/-- An element of group `k` in column `c` lies under column `c`'s piece. -/
theorem PieceGood.mem {G : S8x6x8x128.Idx → Val .f32} {k c : ℕ} {p : View.Piece Val S8x6x8x128 .f32} (h : PieceGood G k c p)
    {y : S8x6x8x128.Idx} (h0 : (y 0).val = c / 8) (h1 : (y 1).val = k / 8) (h2 : (y 2).val = c % 8)
    (h3 : 16 * (k % 8) ≤ (y 3).val) (h3' : (y 3).val < 16 * (k % 8) + 16) : y ∈ p.1.set := by
  refine p.1.toLoadRect.mem_set.mpr fun a => ?_
  rw [h.off, h.size, h.stride]
  match a with
  | ⟨0, _⟩ => exact ⟨0, Nat.one_pos, by show (y 0).val = c / 8 + 1 * 0; omega⟩
  | ⟨1, _⟩ => exact ⟨0, Nat.one_pos, by show (y 1).val = k / 8 + 1 * 0; omega⟩
  | ⟨2, _⟩ => exact ⟨0, Nat.one_pos, by show (y 2).val = c % 8 + 1 * 0; omega⟩
  | ⟨3, _⟩ => exact ⟨(y 3).val - 16 * (k % 8), by show (y 3).val - 16 * (k % 8) < 16; omega,
      by show (y 3).val = 16 * (k % 8) + 1 * ((y 3).val - 16 * (k % 8)); omega⟩

variable {sig' : RefSig} {κ : Kind} {sp : Space}

/-- After a trip's sixty-four good pieces the scratch holds `G` on the groups up to `k`. -/
theorem trip_val (v : View sig' κ sp S8x6x8x128 .f32) (f : v.ty.Contents Val) (G : S8x6x8x128.Idx → Val .f32) (k : ℕ)
    (Ls : List (View.Piece Val S8x6x8x128 .f32)) (hlen : Ls.length = 64) (hg : GoodList G k Ls)
    (hinv : ∀ j, grp j < k → v.read Val f j = G j) :
    ∀ j, grp j < k + 1 → v.read Val (v.writes Val f Ls) j = G j := by
  intro j hj
  by_cases hc : ∃ p ∈ Ls, j ∈ p.1.set
  · exact View.read_writes_apply_of_pieces v f G Ls hg.val j hc
  · have h0 : (j 0).val < 8 := (j 0).isLt
    have h1 : (j 1).val < 6 := (j 1).isLt
    have h2 : (j 2).val < 8 := (j 2).isLt
    have h3 : (j 3).val < 128 := (j 3).isLt
    have hlt : grp j < k := by
      by_contra hge
      have hk : 8 * (j 1).val + (j 3).val / 16 = k := by unfold grp at hj hge; omega
      obtain ⟨p, hp, hpg⟩ := hg.col (8 * (j 0).val + (j 2).val) (by rw [hlen]; omega)
      exact hc ⟨p, hp, hpg.mem (by omega) (by omega) (by omega) (by omega) (by omega)⟩
    rw [View.read_writes_apply_of_forall_not_mem v f j Ls fun p hp hm => hc ⟨p, hp, hm⟩]
    exact hinv j hlt

end Lists

end Cert.Proof.K
end
-- ==== Proof.Inner0K.lean ====
/-
  The first copy of the inner loop (attribute scratch 5, output scratch 7): one trip by the symbolic run, the
  sixty-four stored pieces read back at an index, and the loop by its invariant.
-/
import proofs.«203789_g40862318854646_cont_8to1_b_1018_13_alg».proof.Proof.TileDefsK
import proofs.«203789_g40862318854646_cont_8to1_b_1018_13_alg».proof.Proof.GoodK
import proofs.«203789_g40862318854646_cont_8to1_b_1018_13_alg».proof.Proof.InnerLibK
import Idealize.ShloMosaic.Lib.Writes
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

variable [FloatOps F]
variable (d : Dev nD) (L : grid0.Coords)

/-! ## The output offsets of column c at trip k: row (c / 8, k / 8, c % 8), lanes 16·(k % 8) … +15 -/
theorem off6_eq : ∀ k : Fin k0_t2_loop.trips, k0_off6 k = ![0, k.val / 8, 0, 16 * (k.val % 8)] := by decide +kernel
instance closedOff_k0_off6 (k : Fin k0_t2_loop.trips) : ClosedOff (k0_off6 k) := ⟨![0, k.val / 8, 0, 16 * (k.val % 8)], off6_eq k⟩
theorem off7_eq : ∀ k : Fin k0_t2_loop.trips, k0_off7 k = ![0, k.val / 8, 1, 16 * (k.val % 8)] := by decide +kernel
instance closedOff_k0_off7 (k : Fin k0_t2_loop.trips) : ClosedOff (k0_off7 k) := ⟨![0, k.val / 8, 1, 16 * (k.val % 8)], off7_eq k⟩
theorem off8_eq : ∀ k : Fin k0_t2_loop.trips, k0_off8 k = ![0, k.val / 8, 2, 16 * (k.val % 8)] := by decide +kernel
instance closedOff_k0_off8 (k : Fin k0_t2_loop.trips) : ClosedOff (k0_off8 k) := ⟨![0, k.val / 8, 2, 16 * (k.val % 8)], off8_eq k⟩
theorem off9_eq : ∀ k : Fin k0_t2_loop.trips, k0_off9 k = ![0, k.val / 8, 3, 16 * (k.val % 8)] := by decide +kernel
instance closedOff_k0_off9 (k : Fin k0_t2_loop.trips) : ClosedOff (k0_off9 k) := ⟨![0, k.val / 8, 3, 16 * (k.val % 8)], off9_eq k⟩
theorem off10_eq : ∀ k : Fin k0_t2_loop.trips, k0_off10 k = ![0, k.val / 8, 4, 16 * (k.val % 8)] := by decide +kernel
instance closedOff_k0_off10 (k : Fin k0_t2_loop.trips) : ClosedOff (k0_off10 k) := ⟨![0, k.val / 8, 4, 16 * (k.val % 8)], off10_eq k⟩
theorem off11_eq : ∀ k : Fin k0_t2_loop.trips, k0_off11 k = ![0, k.val / 8, 5, 16 * (k.val % 8)] := by decide +kernel
instance closedOff_k0_off11 (k : Fin k0_t2_loop.trips) : ClosedOff (k0_off11 k) := ⟨![0, k.val / 8, 5, 16 * (k.val % 8)], off11_eq k⟩
theorem off12_eq : ∀ k : Fin k0_t2_loop.trips, k0_off12 k = ![0, k.val / 8, 6, 16 * (k.val % 8)] := by decide +kernel
instance closedOff_k0_off12 (k : Fin k0_t2_loop.trips) : ClosedOff (k0_off12 k) := ⟨![0, k.val / 8, 6, 16 * (k.val % 8)], off12_eq k⟩
theorem off13_eq : ∀ k : Fin k0_t2_loop.trips, k0_off13 k = ![0, k.val / 8, 7, 16 * (k.val % 8)] := by decide +kernel
instance closedOff_k0_off13 (k : Fin k0_t2_loop.trips) : ClosedOff (k0_off13 k) := ⟨![0, k.val / 8, 7, 16 * (k.val % 8)], off13_eq k⟩
theorem off14_eq : ∀ k : Fin k0_t2_loop.trips, k0_off14 k = ![1, k.val / 8, 0, 16 * (k.val % 8)] := by decide +kernel
instance closedOff_k0_off14 (k : Fin k0_t2_loop.trips) : ClosedOff (k0_off14 k) := ⟨![1, k.val / 8, 0, 16 * (k.val % 8)], off14_eq k⟩
theorem off15_eq : ∀ k : Fin k0_t2_loop.trips, k0_off15 k = ![1, k.val / 8, 1, 16 * (k.val % 8)] := by decide +kernel
instance closedOff_k0_off15 (k : Fin k0_t2_loop.trips) : ClosedOff (k0_off15 k) := ⟨![1, k.val / 8, 1, 16 * (k.val % 8)], off15_eq k⟩
theorem off16_eq : ∀ k : Fin k0_t2_loop.trips, k0_off16 k = ![1, k.val / 8, 2, 16 * (k.val % 8)] := by decide +kernel
instance closedOff_k0_off16 (k : Fin k0_t2_loop.trips) : ClosedOff (k0_off16 k) := ⟨![1, k.val / 8, 2, 16 * (k.val % 8)], off16_eq k⟩
theorem off17_eq : ∀ k : Fin k0_t2_loop.trips, k0_off17 k = ![1, k.val / 8, 3, 16 * (k.val % 8)] := by decide +kernel
instance closedOff_k0_off17 (k : Fin k0_t2_loop.trips) : ClosedOff (k0_off17 k) := ⟨![1, k.val / 8, 3, 16 * (k.val % 8)], off17_eq k⟩
theorem off18_eq : ∀ k : Fin k0_t2_loop.trips, k0_off18 k = ![1, k.val / 8, 4, 16 * (k.val % 8)] := by decide +kernel
instance closedOff_k0_off18 (k : Fin k0_t2_loop.trips) : ClosedOff (k0_off18 k) := ⟨![1, k.val / 8, 4, 16 * (k.val % 8)], off18_eq k⟩
theorem off19_eq : ∀ k : Fin k0_t2_loop.trips, k0_off19 k = ![1, k.val / 8, 5, 16 * (k.val % 8)] := by decide +kernel
instance closedOff_k0_off19 (k : Fin k0_t2_loop.trips) : ClosedOff (k0_off19 k) := ⟨![1, k.val / 8, 5, 16 * (k.val % 8)], off19_eq k⟩
theorem off20_eq : ∀ k : Fin k0_t2_loop.trips, k0_off20 k = ![1, k.val / 8, 6, 16 * (k.val % 8)] := by decide +kernel
instance closedOff_k0_off20 (k : Fin k0_t2_loop.trips) : ClosedOff (k0_off20 k) := ⟨![1, k.val / 8, 6, 16 * (k.val % 8)], off20_eq k⟩
theorem off21_eq : ∀ k : Fin k0_t2_loop.trips, k0_off21 k = ![1, k.val / 8, 7, 16 * (k.val % 8)] := by decide +kernel
instance closedOff_k0_off21 (k : Fin k0_t2_loop.trips) : ClosedOff (k0_off21 k) := ⟨![1, k.val / 8, 7, 16 * (k.val % 8)], off21_eq k⟩
theorem off22_eq : ∀ k : Fin k0_t2_loop.trips, k0_off22 k = ![2, k.val / 8, 0, 16 * (k.val % 8)] := by decide +kernel
instance closedOff_k0_off22 (k : Fin k0_t2_loop.trips) : ClosedOff (k0_off22 k) := ⟨![2, k.val / 8, 0, 16 * (k.val % 8)], off22_eq k⟩
theorem off23_eq : ∀ k : Fin k0_t2_loop.trips, k0_off23 k = ![2, k.val / 8, 1, 16 * (k.val % 8)] := by decide +kernel
instance closedOff_k0_off23 (k : Fin k0_t2_loop.trips) : ClosedOff (k0_off23 k) := ⟨![2, k.val / 8, 1, 16 * (k.val % 8)], off23_eq k⟩
theorem off24_eq : ∀ k : Fin k0_t2_loop.trips, k0_off24 k = ![2, k.val / 8, 2, 16 * (k.val % 8)] := by decide +kernel
instance closedOff_k0_off24 (k : Fin k0_t2_loop.trips) : ClosedOff (k0_off24 k) := ⟨![2, k.val / 8, 2, 16 * (k.val % 8)], off24_eq k⟩
theorem off25_eq : ∀ k : Fin k0_t2_loop.trips, k0_off25 k = ![2, k.val / 8, 3, 16 * (k.val % 8)] := by decide +kernel
instance closedOff_k0_off25 (k : Fin k0_t2_loop.trips) : ClosedOff (k0_off25 k) := ⟨![2, k.val / 8, 3, 16 * (k.val % 8)], off25_eq k⟩
theorem off26_eq : ∀ k : Fin k0_t2_loop.trips, k0_off26 k = ![2, k.val / 8, 4, 16 * (k.val % 8)] := by decide +kernel
instance closedOff_k0_off26 (k : Fin k0_t2_loop.trips) : ClosedOff (k0_off26 k) := ⟨![2, k.val / 8, 4, 16 * (k.val % 8)], off26_eq k⟩
theorem off27_eq : ∀ k : Fin k0_t2_loop.trips, k0_off27 k = ![2, k.val / 8, 5, 16 * (k.val % 8)] := by decide +kernel
instance closedOff_k0_off27 (k : Fin k0_t2_loop.trips) : ClosedOff (k0_off27 k) := ⟨![2, k.val / 8, 5, 16 * (k.val % 8)], off27_eq k⟩
theorem off28_eq : ∀ k : Fin k0_t2_loop.trips, k0_off28 k = ![2, k.val / 8, 6, 16 * (k.val % 8)] := by decide +kernel
instance closedOff_k0_off28 (k : Fin k0_t2_loop.trips) : ClosedOff (k0_off28 k) := ⟨![2, k.val / 8, 6, 16 * (k.val % 8)], off28_eq k⟩
theorem off29_eq : ∀ k : Fin k0_t2_loop.trips, k0_off29 k = ![2, k.val / 8, 7, 16 * (k.val % 8)] := by decide +kernel
instance closedOff_k0_off29 (k : Fin k0_t2_loop.trips) : ClosedOff (k0_off29 k) := ⟨![2, k.val / 8, 7, 16 * (k.val % 8)], off29_eq k⟩
theorem off30_eq : ∀ k : Fin k0_t2_loop.trips, k0_off30 k = ![3, k.val / 8, 0, 16 * (k.val % 8)] := by decide +kernel
instance closedOff_k0_off30 (k : Fin k0_t2_loop.trips) : ClosedOff (k0_off30 k) := ⟨![3, k.val / 8, 0, 16 * (k.val % 8)], off30_eq k⟩
theorem off31_eq : ∀ k : Fin k0_t2_loop.trips, k0_off31 k = ![3, k.val / 8, 1, 16 * (k.val % 8)] := by decide +kernel
instance closedOff_k0_off31 (k : Fin k0_t2_loop.trips) : ClosedOff (k0_off31 k) := ⟨![3, k.val / 8, 1, 16 * (k.val % 8)], off31_eq k⟩
theorem off32_eq : ∀ k : Fin k0_t2_loop.trips, k0_off32 k = ![3, k.val / 8, 2, 16 * (k.val % 8)] := by decide +kernel
instance closedOff_k0_off32 (k : Fin k0_t2_loop.trips) : ClosedOff (k0_off32 k) := ⟨![3, k.val / 8, 2, 16 * (k.val % 8)], off32_eq k⟩
theorem off33_eq : ∀ k : Fin k0_t2_loop.trips, k0_off33 k = ![3, k.val / 8, 3, 16 * (k.val % 8)] := by decide +kernel
instance closedOff_k0_off33 (k : Fin k0_t2_loop.trips) : ClosedOff (k0_off33 k) := ⟨![3, k.val / 8, 3, 16 * (k.val % 8)], off33_eq k⟩
theorem off34_eq : ∀ k : Fin k0_t2_loop.trips, k0_off34 k = ![3, k.val / 8, 4, 16 * (k.val % 8)] := by decide +kernel
instance closedOff_k0_off34 (k : Fin k0_t2_loop.trips) : ClosedOff (k0_off34 k) := ⟨![3, k.val / 8, 4, 16 * (k.val % 8)], off34_eq k⟩
theorem off35_eq : ∀ k : Fin k0_t2_loop.trips, k0_off35 k = ![3, k.val / 8, 5, 16 * (k.val % 8)] := by decide +kernel
instance closedOff_k0_off35 (k : Fin k0_t2_loop.trips) : ClosedOff (k0_off35 k) := ⟨![3, k.val / 8, 5, 16 * (k.val % 8)], off35_eq k⟩
theorem off36_eq : ∀ k : Fin k0_t2_loop.trips, k0_off36 k = ![3, k.val / 8, 6, 16 * (k.val % 8)] := by decide +kernel
instance closedOff_k0_off36 (k : Fin k0_t2_loop.trips) : ClosedOff (k0_off36 k) := ⟨![3, k.val / 8, 6, 16 * (k.val % 8)], off36_eq k⟩
theorem off37_eq : ∀ k : Fin k0_t2_loop.trips, k0_off37 k = ![3, k.val / 8, 7, 16 * (k.val % 8)] := by decide +kernel
instance closedOff_k0_off37 (k : Fin k0_t2_loop.trips) : ClosedOff (k0_off37 k) := ⟨![3, k.val / 8, 7, 16 * (k.val % 8)], off37_eq k⟩
theorem off38_eq : ∀ k : Fin k0_t2_loop.trips, k0_off38 k = ![4, k.val / 8, 0, 16 * (k.val % 8)] := by decide +kernel
instance closedOff_k0_off38 (k : Fin k0_t2_loop.trips) : ClosedOff (k0_off38 k) := ⟨![4, k.val / 8, 0, 16 * (k.val % 8)], off38_eq k⟩
theorem off39_eq : ∀ k : Fin k0_t2_loop.trips, k0_off39 k = ![4, k.val / 8, 1, 16 * (k.val % 8)] := by decide +kernel
instance closedOff_k0_off39 (k : Fin k0_t2_loop.trips) : ClosedOff (k0_off39 k) := ⟨![4, k.val / 8, 1, 16 * (k.val % 8)], off39_eq k⟩
theorem off40_eq : ∀ k : Fin k0_t2_loop.trips, k0_off40 k = ![4, k.val / 8, 2, 16 * (k.val % 8)] := by decide +kernel
instance closedOff_k0_off40 (k : Fin k0_t2_loop.trips) : ClosedOff (k0_off40 k) := ⟨![4, k.val / 8, 2, 16 * (k.val % 8)], off40_eq k⟩
theorem off41_eq : ∀ k : Fin k0_t2_loop.trips, k0_off41 k = ![4, k.val / 8, 3, 16 * (k.val % 8)] := by decide +kernel
instance closedOff_k0_off41 (k : Fin k0_t2_loop.trips) : ClosedOff (k0_off41 k) := ⟨![4, k.val / 8, 3, 16 * (k.val % 8)], off41_eq k⟩
theorem off42_eq : ∀ k : Fin k0_t2_loop.trips, k0_off42 k = ![4, k.val / 8, 4, 16 * (k.val % 8)] := by decide +kernel
instance closedOff_k0_off42 (k : Fin k0_t2_loop.trips) : ClosedOff (k0_off42 k) := ⟨![4, k.val / 8, 4, 16 * (k.val % 8)], off42_eq k⟩
theorem off43_eq : ∀ k : Fin k0_t2_loop.trips, k0_off43 k = ![4, k.val / 8, 5, 16 * (k.val % 8)] := by decide +kernel
instance closedOff_k0_off43 (k : Fin k0_t2_loop.trips) : ClosedOff (k0_off43 k) := ⟨![4, k.val / 8, 5, 16 * (k.val % 8)], off43_eq k⟩
theorem off44_eq : ∀ k : Fin k0_t2_loop.trips, k0_off44 k = ![4, k.val / 8, 6, 16 * (k.val % 8)] := by decide +kernel
instance closedOff_k0_off44 (k : Fin k0_t2_loop.trips) : ClosedOff (k0_off44 k) := ⟨![4, k.val / 8, 6, 16 * (k.val % 8)], off44_eq k⟩
theorem off45_eq : ∀ k : Fin k0_t2_loop.trips, k0_off45 k = ![4, k.val / 8, 7, 16 * (k.val % 8)] := by decide +kernel
instance closedOff_k0_off45 (k : Fin k0_t2_loop.trips) : ClosedOff (k0_off45 k) := ⟨![4, k.val / 8, 7, 16 * (k.val % 8)], off45_eq k⟩
theorem off46_eq : ∀ k : Fin k0_t2_loop.trips, k0_off46 k = ![5, k.val / 8, 0, 16 * (k.val % 8)] := by decide +kernel
instance closedOff_k0_off46 (k : Fin k0_t2_loop.trips) : ClosedOff (k0_off46 k) := ⟨![5, k.val / 8, 0, 16 * (k.val % 8)], off46_eq k⟩
theorem off47_eq : ∀ k : Fin k0_t2_loop.trips, k0_off47 k = ![5, k.val / 8, 1, 16 * (k.val % 8)] := by decide +kernel
instance closedOff_k0_off47 (k : Fin k0_t2_loop.trips) : ClosedOff (k0_off47 k) := ⟨![5, k.val / 8, 1, 16 * (k.val % 8)], off47_eq k⟩
theorem off48_eq : ∀ k : Fin k0_t2_loop.trips, k0_off48 k = ![5, k.val / 8, 2, 16 * (k.val % 8)] := by decide +kernel
instance closedOff_k0_off48 (k : Fin k0_t2_loop.trips) : ClosedOff (k0_off48 k) := ⟨![5, k.val / 8, 2, 16 * (k.val % 8)], off48_eq k⟩
theorem off49_eq : ∀ k : Fin k0_t2_loop.trips, k0_off49 k = ![5, k.val / 8, 3, 16 * (k.val % 8)] := by decide +kernel
instance closedOff_k0_off49 (k : Fin k0_t2_loop.trips) : ClosedOff (k0_off49 k) := ⟨![5, k.val / 8, 3, 16 * (k.val % 8)], off49_eq k⟩
theorem off50_eq : ∀ k : Fin k0_t2_loop.trips, k0_off50 k = ![5, k.val / 8, 4, 16 * (k.val % 8)] := by decide +kernel
instance closedOff_k0_off50 (k : Fin k0_t2_loop.trips) : ClosedOff (k0_off50 k) := ⟨![5, k.val / 8, 4, 16 * (k.val % 8)], off50_eq k⟩
theorem off51_eq : ∀ k : Fin k0_t2_loop.trips, k0_off51 k = ![5, k.val / 8, 5, 16 * (k.val % 8)] := by decide +kernel
instance closedOff_k0_off51 (k : Fin k0_t2_loop.trips) : ClosedOff (k0_off51 k) := ⟨![5, k.val / 8, 5, 16 * (k.val % 8)], off51_eq k⟩
theorem off52_eq : ∀ k : Fin k0_t2_loop.trips, k0_off52 k = ![5, k.val / 8, 6, 16 * (k.val % 8)] := by decide +kernel
instance closedOff_k0_off52 (k : Fin k0_t2_loop.trips) : ClosedOff (k0_off52 k) := ⟨![5, k.val / 8, 6, 16 * (k.val % 8)], off52_eq k⟩
theorem off53_eq : ∀ k : Fin k0_t2_loop.trips, k0_off53 k = ![5, k.val / 8, 7, 16 * (k.val % 8)] := by decide +kernel
instance closedOff_k0_off53 (k : Fin k0_t2_loop.trips) : ClosedOff (k0_off53 k) := ⟨![5, k.val / 8, 7, 16 * (k.val % 8)], off53_eq k⟩
theorem off54_eq : ∀ k : Fin k0_t2_loop.trips, k0_off54 k = ![6, k.val / 8, 0, 16 * (k.val % 8)] := by decide +kernel
instance closedOff_k0_off54 (k : Fin k0_t2_loop.trips) : ClosedOff (k0_off54 k) := ⟨![6, k.val / 8, 0, 16 * (k.val % 8)], off54_eq k⟩
theorem off55_eq : ∀ k : Fin k0_t2_loop.trips, k0_off55 k = ![6, k.val / 8, 1, 16 * (k.val % 8)] := by decide +kernel
instance closedOff_k0_off55 (k : Fin k0_t2_loop.trips) : ClosedOff (k0_off55 k) := ⟨![6, k.val / 8, 1, 16 * (k.val % 8)], off55_eq k⟩
theorem off56_eq : ∀ k : Fin k0_t2_loop.trips, k0_off56 k = ![6, k.val / 8, 2, 16 * (k.val % 8)] := by decide +kernel
instance closedOff_k0_off56 (k : Fin k0_t2_loop.trips) : ClosedOff (k0_off56 k) := ⟨![6, k.val / 8, 2, 16 * (k.val % 8)], off56_eq k⟩
theorem off57_eq : ∀ k : Fin k0_t2_loop.trips, k0_off57 k = ![6, k.val / 8, 3, 16 * (k.val % 8)] := by decide +kernel
instance closedOff_k0_off57 (k : Fin k0_t2_loop.trips) : ClosedOff (k0_off57 k) := ⟨![6, k.val / 8, 3, 16 * (k.val % 8)], off57_eq k⟩
theorem off58_eq : ∀ k : Fin k0_t2_loop.trips, k0_off58 k = ![6, k.val / 8, 4, 16 * (k.val % 8)] := by decide +kernel
instance closedOff_k0_off58 (k : Fin k0_t2_loop.trips) : ClosedOff (k0_off58 k) := ⟨![6, k.val / 8, 4, 16 * (k.val % 8)], off58_eq k⟩
theorem off59_eq : ∀ k : Fin k0_t2_loop.trips, k0_off59 k = ![6, k.val / 8, 5, 16 * (k.val % 8)] := by decide +kernel
instance closedOff_k0_off59 (k : Fin k0_t2_loop.trips) : ClosedOff (k0_off59 k) := ⟨![6, k.val / 8, 5, 16 * (k.val % 8)], off59_eq k⟩
theorem off60_eq : ∀ k : Fin k0_t2_loop.trips, k0_off60 k = ![6, k.val / 8, 6, 16 * (k.val % 8)] := by decide +kernel
instance closedOff_k0_off60 (k : Fin k0_t2_loop.trips) : ClosedOff (k0_off60 k) := ⟨![6, k.val / 8, 6, 16 * (k.val % 8)], off60_eq k⟩
theorem off61_eq : ∀ k : Fin k0_t2_loop.trips, k0_off61 k = ![6, k.val / 8, 7, 16 * (k.val % 8)] := by decide +kernel
instance closedOff_k0_off61 (k : Fin k0_t2_loop.trips) : ClosedOff (k0_off61 k) := ⟨![6, k.val / 8, 7, 16 * (k.val % 8)], off61_eq k⟩
theorem off62_eq : ∀ k : Fin k0_t2_loop.trips, k0_off62 k = ![7, k.val / 8, 0, 16 * (k.val % 8)] := by decide +kernel
instance closedOff_k0_off62 (k : Fin k0_t2_loop.trips) : ClosedOff (k0_off62 k) := ⟨![7, k.val / 8, 0, 16 * (k.val % 8)], off62_eq k⟩
theorem off63_eq : ∀ k : Fin k0_t2_loop.trips, k0_off63 k = ![7, k.val / 8, 1, 16 * (k.val % 8)] := by decide +kernel
instance closedOff_k0_off63 (k : Fin k0_t2_loop.trips) : ClosedOff (k0_off63 k) := ⟨![7, k.val / 8, 1, 16 * (k.val % 8)], off63_eq k⟩
theorem off64_eq : ∀ k : Fin k0_t2_loop.trips, k0_off64 k = ![7, k.val / 8, 2, 16 * (k.val % 8)] := by decide +kernel
instance closedOff_k0_off64 (k : Fin k0_t2_loop.trips) : ClosedOff (k0_off64 k) := ⟨![7, k.val / 8, 2, 16 * (k.val % 8)], off64_eq k⟩
theorem off65_eq : ∀ k : Fin k0_t2_loop.trips, k0_off65 k = ![7, k.val / 8, 3, 16 * (k.val % 8)] := by decide +kernel
instance closedOff_k0_off65 (k : Fin k0_t2_loop.trips) : ClosedOff (k0_off65 k) := ⟨![7, k.val / 8, 3, 16 * (k.val % 8)], off65_eq k⟩
theorem off66_eq : ∀ k : Fin k0_t2_loop.trips, k0_off66 k = ![7, k.val / 8, 4, 16 * (k.val % 8)] := by decide +kernel
instance closedOff_k0_off66 (k : Fin k0_t2_loop.trips) : ClosedOff (k0_off66 k) := ⟨![7, k.val / 8, 4, 16 * (k.val % 8)], off66_eq k⟩
theorem off67_eq : ∀ k : Fin k0_t2_loop.trips, k0_off67 k = ![7, k.val / 8, 5, 16 * (k.val % 8)] := by decide +kernel
instance closedOff_k0_off67 (k : Fin k0_t2_loop.trips) : ClosedOff (k0_off67 k) := ⟨![7, k.val / 8, 5, 16 * (k.val % 8)], off67_eq k⟩
theorem off68_eq : ∀ k : Fin k0_t2_loop.trips, k0_off68 k = ![7, k.val / 8, 6, 16 * (k.val % 8)] := by decide +kernel
instance closedOff_k0_off68 (k : Fin k0_t2_loop.trips) : ClosedOff (k0_off68 k) := ⟨![7, k.val / 8, 6, 16 * (k.val % 8)], off68_eq k⟩
theorem off69_eq : ∀ k : Fin k0_t2_loop.trips, k0_off69 k = ![7, k.val / 8, 7, 16 * (k.val % 8)] := by decide +kernel
instance closedOff_k0_off69 (k : Fin k0_t2_loop.trips) : ClosedOff (k0_off69 k) := ⟨![7, k.val / 8, 7, 16 * (k.val % 8)], off69_eq k⟩

omit [FloatOps F] in
/-- Sixteen consecutive words loaded from a scratch whose words are all 0 or 1 are 0 or 1. -/
theorem ld010 {fe : Buf (Elt F) ((V d (cV L) (jV L)).loc cc0_scratch5)} (hfe : ∀ n, fe n = 0#32 ∨ fe n = 1#32)
    (off : Fin 1 → ℕ) (inb : ∀ a, off a + S16.size a ≤ S2304.size a) (x : S16.Idx) :
    (b5W).view.readAt (Elt F) (Rect.unit (s := S2304) off S16.size inb).toLoadRect fe x = 0#32
      ∨ (b5W).view.readAt (Elt F) (Rect.unit (s := S2304) off S16.size inb).toLoadRect fe x = 1#32 := by
  simp only [View.readAt_apply, Memref.view_whole, View.read_whole]
  exact hfe _

omit [FloatOps F] in
/-- A lane of sixteen consecutive words loaded from the attribute scratch is the scratch's word at that position. -/
theorem ldApply0 (fe : Buf (Elt F) ((V d (cV L) (jV L)).loc cc0_scratch5)) (off : Fin 1 → ℕ)
    (inb : ∀ a, off a + S16.size a ≤ S2304.size a) (x : S16.Idx) (n : ℕ) (hn : off 0 + (x 0).val = n) :
    (b5W).view.readAt (Elt F) (Rect.unit (s := S2304) off S16.size inb).toLoadRect fe x = at1 (fe : IVec S2304 32) n := by
  have hlt : n < 2304 := by
    have h1 : off 0 + 16 ≤ 2304 := inb 0
    have h2 : (x 0).val < 16 := (x 0).isLt
    omega
  have hidx : ((Rect.unit (s := S2304) off S16.size inb).toLoadRect.idx x : S2304.Idx) = ix1 (Fin.ofNat 2304 n) := by
    funext a
    match a with
    | ⟨0, _⟩ =>
      refine Fin.ext ?_
      show off 0 + 1 * (x 0).val = n % 2304
      rw [Nat.mod_eq_of_lt hlt]; omega
  simp only [View.readAt_apply, Memref.view_whole, View.read_whole]
  exact congrArg (fe : IVec S2304 32) hidx

/-- The three attribute vectors of group `k`. -/
abbrev Ea0 (fe : Buf (Elt F) ((V d (cV L) (jV L)).loc cc0_scratch5)) (k : Fin k0_t2_loop.trips) : Vec F S16 .i32 :=
  (b5W).view.readAt (Elt F) (Rect.unit (s := S2304) (k0_off4 k) S16.size (k0_off4_inb k)).toLoadRect fe
abbrev Eb0 (fe : Buf (Elt F) ((V d (cV L) (jV L)).loc cc0_scratch5)) (k : Fin k0_t2_loop.trips) : Vec F S16 .i32 :=
  (b5W).view.readAt (Elt F) (Rect.unit (s := S2304) (k0_off5 k 768#32) S16.size (k0_off5_inb k 0)).toLoadRect fe
abbrev Ec0 (fe : Buf (Elt F) ((V d (cV L) (jV L)).loc cc0_scratch5)) (k : Fin k0_t2_loop.trips) : Vec F S16 .i32 :=
  (b5W).view.readAt (Elt F) (Rect.unit (s := S2304) (k0_off5 k 1536#32) S16.size (k0_off5_inb k 1)).toLoadRect fe

omit [FloatOps F] in
/-- Lane `x` of group `k`'s combined row number is the combined row of the chunk's edge `16·k + x`. -/
theorem combVal0 (fe : Buf (Elt F) ((V d (cV L) (jV L)).loc cc0_scratch5)) (hfe : ∀ n, fe n = 0#32 ∨ fe n = 1#32)
    (k : Fin k0_t2_loop.trips) (x : S16.Idx) :
    ((k0_pay1 (Ea0 d L fe k) (Eb0 d L fe k) (Ec0 d L fe k)) x).toNat = combAt (fe : IVec S2304 32) (16 * k.val + (x 0).val) := by
  rw [comb_toNat (ld010 d L hfe _ _) (ld010 d L hfe _ _) (ld010 d L hfe _ _)]
  unfold combAt
  rw [ldApply0 d L fe _ _ x (16 * k.val + (x 0).val) (by rw [k0_off4_eq k]; rfl),
    ldApply0 d L fe _ _ x (768 + (16 * k.val + (x 0).val)) (by rw [show (768#32 : BitVec 32) = BitVec.ofNat 32 (768 + 768 * (0 : Fin 2).val) from rfl, k0_off5_eq k 0]; show 768 * 0 + 16 * k.val + 768 + (x 0).val = _; omega),
    ldApply0 d L fe _ _ x (1536 + (16 * k.val + (x 0).val)) (by rw [show (1536#32 : BitVec 32) = BitVec.ofNat 32 (768 + 768 * (1 : Fin 2).val) from rfl, k0_off5_eq k 1]; show 768 * 1 + 16 * k.val + 768 + (x 0).val = _; omega)]

omit [FloatOps F] in
/-- A combined row is at most 15 when the attribute words are 0 or 1. -/
theorem combAtLe0 (fe : Buf (Elt F) ((V d (cV L) (jV L)).loc cc0_scratch5)) (hfe : ∀ n, fe n = 0#32 ∨ fe n = 1#32) (p : ℕ) :
    combAt (fe : IVec S2304 32) p ≤ 15 := by
  unfold combAt
  have h : ∀ n, (at1 (fe : IVec S2304 32) n).toNat ≤ 1 := fun n => by
    rcases hfe (ix1 (Fin.ofNat 2304 n)) with h | h
    · show (fe (ix1 (Fin.ofNat 2304 n))).toNat ≤ 1; rw [h]; decide
    · show (fe (ix1 (Fin.ofNat 2304 n))).toNat ≤ 1; rw [h]; decide
  have := h p; have := h (768 + p); have := h (1536 + p)
  omega

/-- The gathered vector of column `c` at trip `k`, laid on its sixteen lanes of the output scratch, is the chunk's
    value there. -/
theorem pieceVal0 (fe : Buf (Elt F) ((V d (cV L) (jV L)).loc cc0_scratch5)) (ft : Buf (Elt F) ((V d (cV L) (jV L)).loc cc0_scratch4))
    (hfe : ∀ n, fe n = 0#32 ∨ fe n = 1#32) (k : Fin k0_t2_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea0 d L fe k) (Eb0 d L fe k) (Ec0 d L fe k)) (broadcast S16 q)] : Fin 1 → IVec S16 32) a x).toNat < S4096.size a)
    (hcast : S16.ShapeCasts S1x1x1x16) (x : S1x1x1x16.Idx) :
    shapeCast S1x1x1x16 (loadIdx ((b4W).view.readAt (Elt F) (LoadRect.whole S4096) ft)
        ![addi (k0_pay1 (Ea0 d L fe k) (Eb0 d L fe k) (Ec0 d L fe k)) (broadcast S16 q)] h) hcast x
      = gatherVal (ft : FVec F S4096 .f32) (fe : IVec S2304 32) ((Rect.unit (s := S8x6x8x128) off S1x1x1x16.size inb).emb x) := by
  have hx0 : (x 0).val = 0 := Nat.lt_one_iff.mp (x 0).isLt
  have hx1 : (x 1).val = 0 := Nat.lt_one_iff.mp (x 1).isLt
  have hx2 : (x 2).val = 0 := Nat.lt_one_iff.mp (x 2).isLt
  have hx3 : (x 3).val < 16 := (x 3).isLt
  have hcomb := combVal0 d L fe hfe k (ix1 (x 3))
  have hle := combAtLe0 d L fe hfe (16 * k.val + (x 3).val)
  have hcle : ∀ y, ((k0_pay1 (Ea0 d L fe k) (Eb0 d L fe k) (Ec0 d L fe k)) y).toNat ≤ 15 :=
    comb_le (ld010 d L hfe _ _) (ld010 d L hfe _ _) (ld010 d L hfe _ _)
  rw [shapeCast_apply _ hcast x (ix1 (x 3)) (by
    rw [Shape.rowMajor_val_one, Shape.rowMajor_val_four]
    show (x 3).val = (((x 0).val * 1 + (x 1).val) * 1 + (x 2).val) * 16 + (x 3).val
    rw [hx0, hx1, hx2]; omega)]
  have hidx : ((LoadRect.whole S4096).idx (idxAt ![addi (k0_pay1 (Ea0 d L fe k) (Eb0 d L fe k) (Ec0 d L fe k)) (broadcast S16 q)] h (ix1 (x 3))) : S4096.Idx)
      = ix1 (Fin.ofNat 4096 (64 * (8 * ((Rect.unit (s := S8x6x8x128) off S1x1x1x16.size inb).emb x 0).val
            + ((Rect.unit (s := S8x6x8x128) off S1x1x1x16.size inb).emb x 2).val)
          + combAt (fe : IVec S2304 32) (128 * ((Rect.unit (s := S8x6x8x128) off S1x1x1x16.size inb).emb x 1).val
            + ((Rect.unit (s := S8x6x8x128) off S1x1x1x16.size inb).emb x 3).val))) := by
    funext a
    match a with
    | ⟨0, _⟩ =>
      refine Fin.ext ?_
      show 0 + 1 * (addi (k0_pay1 (Ea0 d L fe k) (Eb0 d L fe k) (Ec0 d L fe k)) (broadcast S16 q) (ix1 (x 3))).toNat
        = (64 * (8 * (off 0 + 1 * (x 0).val) + (off 2 + 1 * (x 2).val))
            + combAt (fe : IVec S2304 32) (128 * (off 1 + 1 * (x 1).val) + (off 3 + 1 * (x 3).val))) % 4096
      rw [Nat.zero_add, Nat.one_mul, idx_toNat hcle (by omega), hcomb, hq, hoff]
      show combAt (fe : IVec S2304 32) (16 * k.val + (x 3).val) + 64 * c
        = (64 * (8 * (c / 8 + 1 * (x 0).val) + (c % 8 + 1 * (x 2).val))
            + combAt (fe : IVec S2304 32) (128 * (k.val / 8 + 1 * (x 1).val) + (16 * (k.val % 8) + 1 * (x 3).val))) % 4096
      rw [hx0, hx1, hx2]
      have e1 : 128 * (k.val / 8 + 1 * 0) + (16 * (k.val % 8) + 1 * (x 3).val) = 16 * k.val + (x 3).val := by omega
      have e2 : 64 * (8 * (c / 8 + 1 * 0) + (c % 8 + 1 * 0)) = 64 * c := by omega
      rw [e1, e2, Nat.mod_eq_of_lt (by omega)]
      omega
  unfold gatherVal loadIdx
  simp only [View.readAt_apply, Memref.view_whole, View.read_whole]
  exact congrArg (ft : FVec F S4096 .f32) hidx

/-- Column `c`'s store of trip `k` is a good piece. -/
theorem pieceGood0 (fe : Buf (Elt F) ((V d (cV L) (jV L)).loc cc0_scratch5)) (ft : Buf (Elt F) ((V d (cV L) (jV L)).loc cc0_scratch4))
    (hfe : ∀ n, fe n = 0#32 ∨ fe n = 1#32) (k : Fin k0_t2_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea0 d L fe k) (Eb0 d L fe k) (Ec0 d L fe k)) (broadcast S16 q)] : Fin 1 → IVec S16 32) a x).toNat < S4096.size a)
    (hcast : S16.ShapeCasts S1x1x1x16) :
    PieceGood (Val := Elt F) (gatherVal (ft : FVec F S4096 .f32) (fe : IVec S2304 32)) k.val c
      ⟨Rect.unit (s := S8x6x8x128) off S1x1x1x16.size inb,
        shapeCast S1x1x1x16 (loadIdx ((b4W).view.readAt (Elt F) (LoadRect.whole S4096) ft)
          ![addi (k0_pay1 (Ea0 d L fe k) (Eb0 d L fe k) (Ec0 d L fe k)) (broadcast S16 q)] h) hcast⟩ where
  off := hoff
  size := rfl
  stride := fun _ => rfl
  val := fun x => pieceVal0 d L fe ft hfe k c hc q hq off hoff inb h hcast x

omit [FloatOps F] in
/-- What a trip leaves, through the output scratch's own memref: reading the whole scratch is reading its contents. -/
theorem tripValWhole0 (fo : Buf (Elt F) ((V d (cV L) (jV L)).loc cc0_scratch7)) (G : S8x6x8x128.Idx → Elt F .f32) (k : ℕ)
    (Ls : List (View.Piece (Elt F) S8x6x8x128 .f32)) (hlen : Ls.length = 64) (hg : GoodList G k Ls)
    (hinv : ∀ j : S8x6x8x128.Idx, grp j < k → fo j = G j) :
    ∀ j : S8x6x8x128.Idx, grp j < k + 1 → (b7W).view.writes (Elt F) fo Ls j = G j :=
  trip_val (b7W).view fo G k Ls hlen hg hinv

/-- Before trip `k`: the attribute scratch and the table scratch as they were, and the output scratch holding the chunk's
    values on the groups below `k`. -/
def innerInvV0 (fe : Buf (Elt F) ((V d (cV L) (jV L)).loc cc0_scratch5)) (ft : Buf (Elt F) ((V d (cV L) (jV L)).loc cc0_scratch4))
    (k : ℕ) (_ : PUnit) : sProp 𝕄 :=
  iprop(((b5W).view.loc (V d (cV L) (jV L)) ↦{fullShare} fe) ∗ ((b4W).view.loc (V d (cV L) (jV L)) ↦{fullShare} ft)
    ∗ ∃ fo, ((b7W).view.loc (V d (cV L) (jV L)) ↦{fullShare} fo)
      ∗ ⌜∀ j : S8x6x8x128.Idx, grp j < k → fo j = gatherVal (ft : FVec F S4096 .f32) (fe : IVec S2304 32) j⌝)

set_option maxHeartbeats 8000000 in
/-- One trip of the loop keeps the invariant: group `k` is written. -/
theorem inner_regionV0 (fe : Buf (Elt F) ((V d (cV L) (jV L)).loc cc0_scratch5)) (ft : Buf (Elt F) ((V d (cV L) (jV L)).loc cc0_scratch4))
    (hfe : ∀ n, fe n = 0#32 ∨ fe n = 1#32) (v3138 v3140 c0 c1 : BitVec 32) (t1 : Fin k0_t1_loop.trips) :
    ∀ (k : Fin k0_t2_loop.trips) (acc : PUnit.{1}),
      innerInvV0 (F := F) d L fe ft k acc ⊢
        wp frame (wpE (defs₀ (F := F)) 𝒱₀ (V d (cV L) (jV L)) none) Set.univ
          ((k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1) k acc)
          (innerInvV0 (F := F) d L fe ft (k + 1)) := by
  intro k _
  unfold innerInvV0
  iintro ⟨H5, H4, %fo, H7, %hinv⟩
  unfold k0_t2_body
  sl_exec (disch := (refine chk_of_le (comb_le (ld010 d L hfe _ _) (ld010 d L hfe _ _) (ld010 d L hfe _ _)) ?_; decide))
  iterate 70 (first | (rw [SparseCore.vectorLoadIdx_bind (c := V d (cV L) (jV L))]; sl_exec (disch := (refine chk_of_le (comb_le (ld010 d L hfe _ _) (ld010 d L hfe _ _) (ld010 d L hfe _ _)) ?_; decide))) | skip)
  sl_step
  isplitl [H5]; · iexact H5
  isplitl [H4]; · iexact H4
  iexists _
  isplitl [H7]; · iexact H7
  ipureintro
  refine tripValWhole0 d L fo _ k.val _ rfl ?_ hinv
  exact
    (And.intro (pieceGood0 d L fe ft hfe k 63 (by decide) _ (by decide) _ (off69_eq k) _ _ _)
    (And.intro (pieceGood0 d L fe ft hfe k 62 (by decide) _ (by decide) _ (off68_eq k) _ _ _)
    (And.intro (pieceGood0 d L fe ft hfe k 61 (by decide) _ (by decide) _ (off67_eq k) _ _ _)
    (And.intro (pieceGood0 d L fe ft hfe k 60 (by decide) _ (by decide) _ (off66_eq k) _ _ _)
    (And.intro (pieceGood0 d L fe ft hfe k 59 (by decide) _ (by decide) _ (off65_eq k) _ _ _)
    (And.intro (pieceGood0 d L fe ft hfe k 58 (by decide) _ (by decide) _ (off64_eq k) _ _ _)
    (And.intro (pieceGood0 d L fe ft hfe k 57 (by decide) _ (by decide) _ (off63_eq k) _ _ _)
    (And.intro (pieceGood0 d L fe ft hfe k 56 (by decide) _ (by decide) _ (off62_eq k) _ _ _)
    (And.intro (pieceGood0 d L fe ft hfe k 55 (by decide) _ (by decide) _ (off61_eq k) _ _ _)
    (And.intro (pieceGood0 d L fe ft hfe k 54 (by decide) _ (by decide) _ (off60_eq k) _ _ _)
    (And.intro (pieceGood0 d L fe ft hfe k 53 (by decide) _ (by decide) _ (off59_eq k) _ _ _)
    (And.intro (pieceGood0 d L fe ft hfe k 52 (by decide) _ (by decide) _ (off58_eq k) _ _ _)
    (And.intro (pieceGood0 d L fe ft hfe k 51 (by decide) _ (by decide) _ (off57_eq k) _ _ _)
    (And.intro (pieceGood0 d L fe ft hfe k 50 (by decide) _ (by decide) _ (off56_eq k) _ _ _)
    (And.intro (pieceGood0 d L fe ft hfe k 49 (by decide) _ (by decide) _ (off55_eq k) _ _ _)
    (And.intro (pieceGood0 d L fe ft hfe k 48 (by decide) _ (by decide) _ (off54_eq k) _ _ _)
    (And.intro (pieceGood0 d L fe ft hfe k 47 (by decide) _ (by decide) _ (off53_eq k) _ _ _)
    (And.intro (pieceGood0 d L fe ft hfe k 46 (by decide) _ (by decide) _ (off52_eq k) _ _ _)
    (And.intro (pieceGood0 d L fe ft hfe k 45 (by decide) _ (by decide) _ (off51_eq k) _ _ _)
    (And.intro (pieceGood0 d L fe ft hfe k 44 (by decide) _ (by decide) _ (off50_eq k) _ _ _)
    (And.intro (pieceGood0 d L fe ft hfe k 43 (by decide) _ (by decide) _ (off49_eq k) _ _ _)
    (And.intro (pieceGood0 d L fe ft hfe k 42 (by decide) _ (by decide) _ (off48_eq k) _ _ _)
    (And.intro (pieceGood0 d L fe ft hfe k 41 (by decide) _ (by decide) _ (off47_eq k) _ _ _)
    (And.intro (pieceGood0 d L fe ft hfe k 40 (by decide) _ (by decide) _ (off46_eq k) _ _ _)
    (And.intro (pieceGood0 d L fe ft hfe k 39 (by decide) _ (by decide) _ (off45_eq k) _ _ _)
    (And.intro (pieceGood0 d L fe ft hfe k 38 (by decide) _ (by decide) _ (off44_eq k) _ _ _)
    (And.intro (pieceGood0 d L fe ft hfe k 37 (by decide) _ (by decide) _ (off43_eq k) _ _ _)
    (And.intro (pieceGood0 d L fe ft hfe k 36 (by decide) _ (by decide) _ (off42_eq k) _ _ _)
    (And.intro (pieceGood0 d L fe ft hfe k 35 (by decide) _ (by decide) _ (off41_eq k) _ _ _)
    (And.intro (pieceGood0 d L fe ft hfe k 34 (by decide) _ (by decide) _ (off40_eq k) _ _ _)
    (And.intro (pieceGood0 d L fe ft hfe k 33 (by decide) _ (by decide) _ (off39_eq k) _ _ _)
    (And.intro (pieceGood0 d L fe ft hfe k 32 (by decide) _ (by decide) _ (off38_eq k) _ _ _)
    (And.intro (pieceGood0 d L fe ft hfe k 31 (by decide) _ (by decide) _ (off37_eq k) _ _ _)
    (And.intro (pieceGood0 d L fe ft hfe k 30 (by decide) _ (by decide) _ (off36_eq k) _ _ _)
    (And.intro (pieceGood0 d L fe ft hfe k 29 (by decide) _ (by decide) _ (off35_eq k) _ _ _)
    (And.intro (pieceGood0 d L fe ft hfe k 28 (by decide) _ (by decide) _ (off34_eq k) _ _ _)
    (And.intro (pieceGood0 d L fe ft hfe k 27 (by decide) _ (by decide) _ (off33_eq k) _ _ _)
    (And.intro (pieceGood0 d L fe ft hfe k 26 (by decide) _ (by decide) _ (off32_eq k) _ _ _)
    (And.intro (pieceGood0 d L fe ft hfe k 25 (by decide) _ (by decide) _ (off31_eq k) _ _ _)
    (And.intro (pieceGood0 d L fe ft hfe k 24 (by decide) _ (by decide) _ (off30_eq k) _ _ _)
    (And.intro (pieceGood0 d L fe ft hfe k 23 (by decide) _ (by decide) _ (off29_eq k) _ _ _)
    (And.intro (pieceGood0 d L fe ft hfe k 22 (by decide) _ (by decide) _ (off28_eq k) _ _ _)
    (And.intro (pieceGood0 d L fe ft hfe k 21 (by decide) _ (by decide) _ (off27_eq k) _ _ _)
    (And.intro (pieceGood0 d L fe ft hfe k 20 (by decide) _ (by decide) _ (off26_eq k) _ _ _)
    (And.intro (pieceGood0 d L fe ft hfe k 19 (by decide) _ (by decide) _ (off25_eq k) _ _ _)
    (And.intro (pieceGood0 d L fe ft hfe k 18 (by decide) _ (by decide) _ (off24_eq k) _ _ _)
    (And.intro (pieceGood0 d L fe ft hfe k 17 (by decide) _ (by decide) _ (off23_eq k) _ _ _)
    (And.intro (pieceGood0 d L fe ft hfe k 16 (by decide) _ (by decide) _ (off22_eq k) _ _ _)
    (And.intro (pieceGood0 d L fe ft hfe k 15 (by decide) _ (by decide) _ (off21_eq k) _ _ _)
    (And.intro (pieceGood0 d L fe ft hfe k 14 (by decide) _ (by decide) _ (off20_eq k) _ _ _)
    (And.intro (pieceGood0 d L fe ft hfe k 13 (by decide) _ (by decide) _ (off19_eq k) _ _ _)
    (And.intro (pieceGood0 d L fe ft hfe k 12 (by decide) _ (by decide) _ (off18_eq k) _ _ _)
    (And.intro (pieceGood0 d L fe ft hfe k 11 (by decide) _ (by decide) _ (off17_eq k) _ _ _)
    (And.intro (pieceGood0 d L fe ft hfe k 10 (by decide) _ (by decide) _ (off16_eq k) _ _ _)
    (And.intro (pieceGood0 d L fe ft hfe k 9 (by decide) _ (by decide) _ (off15_eq k) _ _ _)
    (And.intro (pieceGood0 d L fe ft hfe k 8 (by decide) _ (by decide) _ (off14_eq k) _ _ _)
    (And.intro (pieceGood0 d L fe ft hfe k 7 (by decide) _ (by decide) _ (off13_eq k) _ _ _)
    (And.intro (pieceGood0 d L fe ft hfe k 6 (by decide) _ (by decide) _ (off12_eq k) _ _ _)
    (And.intro (pieceGood0 d L fe ft hfe k 5 (by decide) _ (by decide) _ (off11_eq k) _ _ _)
    (And.intro (pieceGood0 d L fe ft hfe k 4 (by decide) _ (by decide) _ (off10_eq k) _ _ _)
    (And.intro (pieceGood0 d L fe ft hfe k 3 (by decide) _ (by decide) _ (off9_eq k) _ _ _)
    (And.intro (pieceGood0 d L fe ft hfe k 2 (by decide) _ (by decide) _ (off8_eq k) _ _ _)
    (And.intro (pieceGood0 d L fe ft hfe k 1 (by decide) _ (by decide) _ (off7_eq k) _ _ _)
    (And.intro (pieceGood0 d L fe ft hfe k 0 (by decide) _ (by decide) _ (off6_eq k) _ _ _)
    trivial))))))))))))))))))))))))))))))))))))))))))))))))))))))))))))))))

/-- The loop, run from the three scratches: afterwards the output scratch holds the chunk's values everywhere. -/
theorem innerV0_ok (fe : Buf (Elt F) ((V d (cV L) (jV L)).loc cc0_scratch5)) (ft : Buf (Elt F) ((V d (cV L) (jV L)).loc cc0_scratch4)) (fo : Buf (Elt F) ((V d (cV L) (jV L)).loc cc0_scratch7))
    (hfe : ∀ n, fe n = 0#32 ∨ fe n = 1#32) (v3138 v3140 c0 c1 : BitVec 32) (t1 : Fin k0_t1_loop.trips) :
    (iprop(((b5W).view.loc (V d (cV L) (jV L)) ↦{fullShare} fe) ∗ ((b4W).view.loc (V d (cV L) (jV L)) ↦{fullShare} ft)
        ∗ ((b7W).view.loc (V d (cV L) (jV L)) ↦{fullShare} fo)) : sProp 𝕄)
      ⊢ wp frame (wpE (defs₀ (F := F)) 𝒱₀ (V d (cV L) (jV L)) none) Set.univ
          (Scf.Loop.for k0_t2_loop Cert.Kernel.Gen.k0_t2_ok ⟨⟩ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1))
          fun _ => iprop(((b5W).view.loc (V d (cV L) (jV L)) ↦{fullShare} fe) ∗ ((b4W).view.loc (V d (cV L) (jV L)) ↦{fullShare} ft)
            ∗ ∃ fo', ((b7W).view.loc (V d (cV L) (jV L)) ↦{fullShare} fo')
              ∗ ⌜∀ j : S8x6x8x128.Idx, fo' j = gatherVal (ft : FVec F S4096 .f32) (fe : IVec S2304 32) j⌝) := by
  iintro ⟨H5, H4, H7⟩
  sl_for (innerInvV0 (F := F) d L fe ft) $$ [H5 H4 H7]
  case region => exact inner_regionV0 d L fe ft hfe v3138 v3140 c0 c1 t1
  isplitl [H5 H4 H7]
  · unfold innerInvV0
    isplitl [H5]; · iexact H5
    isplitl [H4]; · iexact H4
    iexists _
    isplitl [H7]; · iexact H7
    ipureintro
    intro j hj
    exact absurd hj (Nat.not_lt_zero _)
  · iintro %_ HI
    unfold innerInvV0
    icases HI with ⟨H5, H4, %fo', H7, %hall⟩
    isplitl [H5]; · iexact H5
    isplitl [H4]; · iexact H4
    iexists _
    isplitl [H7]; · iexact H7
    ipureintro
    intro j
    refine hall j ?_
    have h1 : (j 1).val < 6 := (j 1).isLt
    have h3 : (j 3).val < 128 := (j 3).isLt
    show 8 * (j 1).val + (j 3).val / 16 < 48
    omega

/-! ## The same loop with the output scratch's contents left unstated -/

/-- Before any trip: the attribute scratch and the table scratch as they were, the output scratch at some contents. -/
def innerInv0 (fe : Buf (Elt F) ((V d (cV L) (jV L)).loc cc0_scratch5)) (ft : Buf (Elt F) ((V d (cV L) (jV L)).loc cc0_scratch4))
    (_ : ℕ) (_ : PUnit) : sProp 𝕄 :=
  iprop(((b5W).view.loc (V d (cV L) (jV L)) ↦{fullShare} fe) ∗ ((b4W).view.loc (V d (cV L) (jV L)) ↦{fullShare} ft)
    ∗ ∃ fo, (b7W).view.loc (V d (cV L) (jV L)) ↦{fullShare} fo)

set_option maxHeartbeats 4000000 in
/-- One trip keeps it. -/
theorem inner_region0 (fe : Buf (Elt F) ((V d (cV L) (jV L)).loc cc0_scratch5)) (ft : Buf (Elt F) ((V d (cV L) (jV L)).loc cc0_scratch4))
    (hfe : ∀ n, fe n = 0#32 ∨ fe n = 1#32) (v3138 v3140 c0 c1 : BitVec 32) (t1 : Fin k0_t1_loop.trips) :
    ∀ (k : Fin k0_t2_loop.trips) (acc : PUnit.{1}),
      innerInv0 (F := F) d L fe ft k acc ⊢
        wp frame (wpE (defs₀ (F := F)) 𝒱₀ (V d (cV L) (jV L)) none) Set.univ
          ((k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1) k acc)
          (innerInv0 (F := F) d L fe ft (k + 1)) := by
  intro k _
  unfold innerInv0
  iintro ⟨H5, H4, %fo, H7⟩
  unfold k0_t2_body
  sl_exec (disch := (refine chk_of_le (comb_le (ld010 d L hfe _ _) (ld010 d L hfe _ _) (ld010 d L hfe _ _)) ?_; decide))
  iterate 70 (first | (rw [SparseCore.vectorLoadIdx_bind (c := V d (cV L) (jV L))]; sl_exec (disch := (refine chk_of_le (comb_le (ld010 d L hfe _ _) (ld010 d L hfe _ _) (ld010 d L hfe _ _)) ?_; decide))) | skip)
  sl_step
  isplitl [H5]; · iexact H5
  isplitl [H4]; · iexact H4
  iexists _; iexact H7

/-- The loop, run from the three scratches. -/
theorem inner0_ok (fe : Buf (Elt F) ((V d (cV L) (jV L)).loc cc0_scratch5)) (ft : Buf (Elt F) ((V d (cV L) (jV L)).loc cc0_scratch4)) (fo : Buf (Elt F) ((V d (cV L) (jV L)).loc cc0_scratch7))
    (hfe : ∀ n, fe n = 0#32 ∨ fe n = 1#32) (v3138 v3140 c0 c1 : BitVec 32) (t1 : Fin k0_t1_loop.trips) :
    (iprop(((b5W).view.loc (V d (cV L) (jV L)) ↦{fullShare} fe) ∗ ((b4W).view.loc (V d (cV L) (jV L)) ↦{fullShare} ft)
        ∗ ((b7W).view.loc (V d (cV L) (jV L)) ↦{fullShare} fo)) : sProp 𝕄)
      ⊢ wp frame (wpE (defs₀ (F := F)) 𝒱₀ (V d (cV L) (jV L)) none) Set.univ
          (Scf.Loop.for k0_t2_loop Cert.Kernel.Gen.k0_t2_ok ⟨⟩ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1))
          fun _ => iprop(((b5W).view.loc (V d (cV L) (jV L)) ↦{fullShare} fe) ∗ ((b4W).view.loc (V d (cV L) (jV L)) ↦{fullShare} ft)
            ∗ ∃ fo', (b7W).view.loc (V d (cV L) (jV L)) ↦{fullShare} fo') := by
  iintro ⟨H5, H4, H7⟩
  sl_for (innerInv0 (F := F) d L fe ft) $$ [H5 H4 H7]
  case region => exact inner_region0 d L fe ft hfe v3138 v3140 c0 c1 t1
  isplitl [H5 H4 H7]
  · unfold innerInv0
    isplitl [H5]; · iexact H5
    isplitl [H4]; · iexact H4
    iexists _; iexact H7
  · iintro %_ HI
    unfold innerInv0
    iexact HI

end Cert.Proof.K
end
-- ==== Proof.Inner1K.lean ====
/-
  The second copy of the inner loop (attribute scratch 6, output scratch 8): one trip by the symbolic run, the
  sixty-four stored pieces read back at an index, and the loop by its invariant.
-/
import proofs.«203789_g40862318854646_cont_8to1_b_1018_13_alg».proof.Proof.TileDefsK
import proofs.«203789_g40862318854646_cont_8to1_b_1018_13_alg».proof.Proof.GoodK
import proofs.«203789_g40862318854646_cont_8to1_b_1018_13_alg».proof.Proof.InnerLibK
import Idealize.ShloMosaic.Lib.Writes
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

variable [FloatOps F]
variable (d : Dev nD) (L : grid0.Coords)

/-! ## The output offsets of column c at trip k: row (c / 8, k / 8, c % 8), lanes 16·(k % 8) … +15 -/
theorem off75_eq : ∀ k : Fin k0_t3_loop.trips, k0_off75 k = ![0, k.val / 8, 0, 16 * (k.val % 8)] := by decide +kernel
instance closedOff_k0_off75 (k : Fin k0_t3_loop.trips) : ClosedOff (k0_off75 k) := ⟨![0, k.val / 8, 0, 16 * (k.val % 8)], off75_eq k⟩
theorem off76_eq : ∀ k : Fin k0_t3_loop.trips, k0_off76 k = ![0, k.val / 8, 1, 16 * (k.val % 8)] := by decide +kernel
instance closedOff_k0_off76 (k : Fin k0_t3_loop.trips) : ClosedOff (k0_off76 k) := ⟨![0, k.val / 8, 1, 16 * (k.val % 8)], off76_eq k⟩
theorem off77_eq : ∀ k : Fin k0_t3_loop.trips, k0_off77 k = ![0, k.val / 8, 2, 16 * (k.val % 8)] := by decide +kernel
instance closedOff_k0_off77 (k : Fin k0_t3_loop.trips) : ClosedOff (k0_off77 k) := ⟨![0, k.val / 8, 2, 16 * (k.val % 8)], off77_eq k⟩
theorem off78_eq : ∀ k : Fin k0_t3_loop.trips, k0_off78 k = ![0, k.val / 8, 3, 16 * (k.val % 8)] := by decide +kernel
instance closedOff_k0_off78 (k : Fin k0_t3_loop.trips) : ClosedOff (k0_off78 k) := ⟨![0, k.val / 8, 3, 16 * (k.val % 8)], off78_eq k⟩
theorem off79_eq : ∀ k : Fin k0_t3_loop.trips, k0_off79 k = ![0, k.val / 8, 4, 16 * (k.val % 8)] := by decide +kernel
instance closedOff_k0_off79 (k : Fin k0_t3_loop.trips) : ClosedOff (k0_off79 k) := ⟨![0, k.val / 8, 4, 16 * (k.val % 8)], off79_eq k⟩
theorem off80_eq : ∀ k : Fin k0_t3_loop.trips, k0_off80 k = ![0, k.val / 8, 5, 16 * (k.val % 8)] := by decide +kernel
instance closedOff_k0_off80 (k : Fin k0_t3_loop.trips) : ClosedOff (k0_off80 k) := ⟨![0, k.val / 8, 5, 16 * (k.val % 8)], off80_eq k⟩
theorem off81_eq : ∀ k : Fin k0_t3_loop.trips, k0_off81 k = ![0, k.val / 8, 6, 16 * (k.val % 8)] := by decide +kernel
instance closedOff_k0_off81 (k : Fin k0_t3_loop.trips) : ClosedOff (k0_off81 k) := ⟨![0, k.val / 8, 6, 16 * (k.val % 8)], off81_eq k⟩
theorem off82_eq : ∀ k : Fin k0_t3_loop.trips, k0_off82 k = ![0, k.val / 8, 7, 16 * (k.val % 8)] := by decide +kernel
instance closedOff_k0_off82 (k : Fin k0_t3_loop.trips) : ClosedOff (k0_off82 k) := ⟨![0, k.val / 8, 7, 16 * (k.val % 8)], off82_eq k⟩
theorem off83_eq : ∀ k : Fin k0_t3_loop.trips, k0_off83 k = ![1, k.val / 8, 0, 16 * (k.val % 8)] := by decide +kernel
instance closedOff_k0_off83 (k : Fin k0_t3_loop.trips) : ClosedOff (k0_off83 k) := ⟨![1, k.val / 8, 0, 16 * (k.val % 8)], off83_eq k⟩
theorem off84_eq : ∀ k : Fin k0_t3_loop.trips, k0_off84 k = ![1, k.val / 8, 1, 16 * (k.val % 8)] := by decide +kernel
instance closedOff_k0_off84 (k : Fin k0_t3_loop.trips) : ClosedOff (k0_off84 k) := ⟨![1, k.val / 8, 1, 16 * (k.val % 8)], off84_eq k⟩
theorem off85_eq : ∀ k : Fin k0_t3_loop.trips, k0_off85 k = ![1, k.val / 8, 2, 16 * (k.val % 8)] := by decide +kernel
instance closedOff_k0_off85 (k : Fin k0_t3_loop.trips) : ClosedOff (k0_off85 k) := ⟨![1, k.val / 8, 2, 16 * (k.val % 8)], off85_eq k⟩
theorem off86_eq : ∀ k : Fin k0_t3_loop.trips, k0_off86 k = ![1, k.val / 8, 3, 16 * (k.val % 8)] := by decide +kernel
instance closedOff_k0_off86 (k : Fin k0_t3_loop.trips) : ClosedOff (k0_off86 k) := ⟨![1, k.val / 8, 3, 16 * (k.val % 8)], off86_eq k⟩
theorem off87_eq : ∀ k : Fin k0_t3_loop.trips, k0_off87 k = ![1, k.val / 8, 4, 16 * (k.val % 8)] := by decide +kernel
instance closedOff_k0_off87 (k : Fin k0_t3_loop.trips) : ClosedOff (k0_off87 k) := ⟨![1, k.val / 8, 4, 16 * (k.val % 8)], off87_eq k⟩
theorem off88_eq : ∀ k : Fin k0_t3_loop.trips, k0_off88 k = ![1, k.val / 8, 5, 16 * (k.val % 8)] := by decide +kernel
instance closedOff_k0_off88 (k : Fin k0_t3_loop.trips) : ClosedOff (k0_off88 k) := ⟨![1, k.val / 8, 5, 16 * (k.val % 8)], off88_eq k⟩
theorem off89_eq : ∀ k : Fin k0_t3_loop.trips, k0_off89 k = ![1, k.val / 8, 6, 16 * (k.val % 8)] := by decide +kernel
instance closedOff_k0_off89 (k : Fin k0_t3_loop.trips) : ClosedOff (k0_off89 k) := ⟨![1, k.val / 8, 6, 16 * (k.val % 8)], off89_eq k⟩
theorem off90_eq : ∀ k : Fin k0_t3_loop.trips, k0_off90 k = ![1, k.val / 8, 7, 16 * (k.val % 8)] := by decide +kernel
instance closedOff_k0_off90 (k : Fin k0_t3_loop.trips) : ClosedOff (k0_off90 k) := ⟨![1, k.val / 8, 7, 16 * (k.val % 8)], off90_eq k⟩
theorem off91_eq : ∀ k : Fin k0_t3_loop.trips, k0_off91 k = ![2, k.val / 8, 0, 16 * (k.val % 8)] := by decide +kernel
instance closedOff_k0_off91 (k : Fin k0_t3_loop.trips) : ClosedOff (k0_off91 k) := ⟨![2, k.val / 8, 0, 16 * (k.val % 8)], off91_eq k⟩
theorem off92_eq : ∀ k : Fin k0_t3_loop.trips, k0_off92 k = ![2, k.val / 8, 1, 16 * (k.val % 8)] := by decide +kernel
instance closedOff_k0_off92 (k : Fin k0_t3_loop.trips) : ClosedOff (k0_off92 k) := ⟨![2, k.val / 8, 1, 16 * (k.val % 8)], off92_eq k⟩
theorem off93_eq : ∀ k : Fin k0_t3_loop.trips, k0_off93 k = ![2, k.val / 8, 2, 16 * (k.val % 8)] := by decide +kernel
instance closedOff_k0_off93 (k : Fin k0_t3_loop.trips) : ClosedOff (k0_off93 k) := ⟨![2, k.val / 8, 2, 16 * (k.val % 8)], off93_eq k⟩
theorem off94_eq : ∀ k : Fin k0_t3_loop.trips, k0_off94 k = ![2, k.val / 8, 3, 16 * (k.val % 8)] := by decide +kernel
instance closedOff_k0_off94 (k : Fin k0_t3_loop.trips) : ClosedOff (k0_off94 k) := ⟨![2, k.val / 8, 3, 16 * (k.val % 8)], off94_eq k⟩
theorem off95_eq : ∀ k : Fin k0_t3_loop.trips, k0_off95 k = ![2, k.val / 8, 4, 16 * (k.val % 8)] := by decide +kernel
instance closedOff_k0_off95 (k : Fin k0_t3_loop.trips) : ClosedOff (k0_off95 k) := ⟨![2, k.val / 8, 4, 16 * (k.val % 8)], off95_eq k⟩
theorem off96_eq : ∀ k : Fin k0_t3_loop.trips, k0_off96 k = ![2, k.val / 8, 5, 16 * (k.val % 8)] := by decide +kernel
instance closedOff_k0_off96 (k : Fin k0_t3_loop.trips) : ClosedOff (k0_off96 k) := ⟨![2, k.val / 8, 5, 16 * (k.val % 8)], off96_eq k⟩
theorem off97_eq : ∀ k : Fin k0_t3_loop.trips, k0_off97 k = ![2, k.val / 8, 6, 16 * (k.val % 8)] := by decide +kernel
instance closedOff_k0_off97 (k : Fin k0_t3_loop.trips) : ClosedOff (k0_off97 k) := ⟨![2, k.val / 8, 6, 16 * (k.val % 8)], off97_eq k⟩
theorem off98_eq : ∀ k : Fin k0_t3_loop.trips, k0_off98 k = ![2, k.val / 8, 7, 16 * (k.val % 8)] := by decide +kernel
instance closedOff_k0_off98 (k : Fin k0_t3_loop.trips) : ClosedOff (k0_off98 k) := ⟨![2, k.val / 8, 7, 16 * (k.val % 8)], off98_eq k⟩
theorem off99_eq : ∀ k : Fin k0_t3_loop.trips, k0_off99 k = ![3, k.val / 8, 0, 16 * (k.val % 8)] := by decide +kernel
instance closedOff_k0_off99 (k : Fin k0_t3_loop.trips) : ClosedOff (k0_off99 k) := ⟨![3, k.val / 8, 0, 16 * (k.val % 8)], off99_eq k⟩
theorem off100_eq : ∀ k : Fin k0_t3_loop.trips, k0_off100 k = ![3, k.val / 8, 1, 16 * (k.val % 8)] := by decide +kernel
instance closedOff_k0_off100 (k : Fin k0_t3_loop.trips) : ClosedOff (k0_off100 k) := ⟨![3, k.val / 8, 1, 16 * (k.val % 8)], off100_eq k⟩
theorem off101_eq : ∀ k : Fin k0_t3_loop.trips, k0_off101 k = ![3, k.val / 8, 2, 16 * (k.val % 8)] := by decide +kernel
instance closedOff_k0_off101 (k : Fin k0_t3_loop.trips) : ClosedOff (k0_off101 k) := ⟨![3, k.val / 8, 2, 16 * (k.val % 8)], off101_eq k⟩
theorem off102_eq : ∀ k : Fin k0_t3_loop.trips, k0_off102 k = ![3, k.val / 8, 3, 16 * (k.val % 8)] := by decide +kernel
instance closedOff_k0_off102 (k : Fin k0_t3_loop.trips) : ClosedOff (k0_off102 k) := ⟨![3, k.val / 8, 3, 16 * (k.val % 8)], off102_eq k⟩
theorem off103_eq : ∀ k : Fin k0_t3_loop.trips, k0_off103 k = ![3, k.val / 8, 4, 16 * (k.val % 8)] := by decide +kernel
instance closedOff_k0_off103 (k : Fin k0_t3_loop.trips) : ClosedOff (k0_off103 k) := ⟨![3, k.val / 8, 4, 16 * (k.val % 8)], off103_eq k⟩
theorem off104_eq : ∀ k : Fin k0_t3_loop.trips, k0_off104 k = ![3, k.val / 8, 5, 16 * (k.val % 8)] := by decide +kernel
instance closedOff_k0_off104 (k : Fin k0_t3_loop.trips) : ClosedOff (k0_off104 k) := ⟨![3, k.val / 8, 5, 16 * (k.val % 8)], off104_eq k⟩
theorem off105_eq : ∀ k : Fin k0_t3_loop.trips, k0_off105 k = ![3, k.val / 8, 6, 16 * (k.val % 8)] := by decide +kernel
instance closedOff_k0_off105 (k : Fin k0_t3_loop.trips) : ClosedOff (k0_off105 k) := ⟨![3, k.val / 8, 6, 16 * (k.val % 8)], off105_eq k⟩
theorem off106_eq : ∀ k : Fin k0_t3_loop.trips, k0_off106 k = ![3, k.val / 8, 7, 16 * (k.val % 8)] := by decide +kernel
instance closedOff_k0_off106 (k : Fin k0_t3_loop.trips) : ClosedOff (k0_off106 k) := ⟨![3, k.val / 8, 7, 16 * (k.val % 8)], off106_eq k⟩
theorem off107_eq : ∀ k : Fin k0_t3_loop.trips, k0_off107 k = ![4, k.val / 8, 0, 16 * (k.val % 8)] := by decide +kernel
instance closedOff_k0_off107 (k : Fin k0_t3_loop.trips) : ClosedOff (k0_off107 k) := ⟨![4, k.val / 8, 0, 16 * (k.val % 8)], off107_eq k⟩
theorem off108_eq : ∀ k : Fin k0_t3_loop.trips, k0_off108 k = ![4, k.val / 8, 1, 16 * (k.val % 8)] := by decide +kernel
instance closedOff_k0_off108 (k : Fin k0_t3_loop.trips) : ClosedOff (k0_off108 k) := ⟨![4, k.val / 8, 1, 16 * (k.val % 8)], off108_eq k⟩
theorem off109_eq : ∀ k : Fin k0_t3_loop.trips, k0_off109 k = ![4, k.val / 8, 2, 16 * (k.val % 8)] := by decide +kernel
instance closedOff_k0_off109 (k : Fin k0_t3_loop.trips) : ClosedOff (k0_off109 k) := ⟨![4, k.val / 8, 2, 16 * (k.val % 8)], off109_eq k⟩
theorem off110_eq : ∀ k : Fin k0_t3_loop.trips, k0_off110 k = ![4, k.val / 8, 3, 16 * (k.val % 8)] := by decide +kernel
instance closedOff_k0_off110 (k : Fin k0_t3_loop.trips) : ClosedOff (k0_off110 k) := ⟨![4, k.val / 8, 3, 16 * (k.val % 8)], off110_eq k⟩
theorem off111_eq : ∀ k : Fin k0_t3_loop.trips, k0_off111 k = ![4, k.val / 8, 4, 16 * (k.val % 8)] := by decide +kernel
instance closedOff_k0_off111 (k : Fin k0_t3_loop.trips) : ClosedOff (k0_off111 k) := ⟨![4, k.val / 8, 4, 16 * (k.val % 8)], off111_eq k⟩
theorem off112_eq : ∀ k : Fin k0_t3_loop.trips, k0_off112 k = ![4, k.val / 8, 5, 16 * (k.val % 8)] := by decide +kernel
instance closedOff_k0_off112 (k : Fin k0_t3_loop.trips) : ClosedOff (k0_off112 k) := ⟨![4, k.val / 8, 5, 16 * (k.val % 8)], off112_eq k⟩
theorem off113_eq : ∀ k : Fin k0_t3_loop.trips, k0_off113 k = ![4, k.val / 8, 6, 16 * (k.val % 8)] := by decide +kernel
instance closedOff_k0_off113 (k : Fin k0_t3_loop.trips) : ClosedOff (k0_off113 k) := ⟨![4, k.val / 8, 6, 16 * (k.val % 8)], off113_eq k⟩
theorem off114_eq : ∀ k : Fin k0_t3_loop.trips, k0_off114 k = ![4, k.val / 8, 7, 16 * (k.val % 8)] := by decide +kernel
instance closedOff_k0_off114 (k : Fin k0_t3_loop.trips) : ClosedOff (k0_off114 k) := ⟨![4, k.val / 8, 7, 16 * (k.val % 8)], off114_eq k⟩
theorem off115_eq : ∀ k : Fin k0_t3_loop.trips, k0_off115 k = ![5, k.val / 8, 0, 16 * (k.val % 8)] := by decide +kernel
instance closedOff_k0_off115 (k : Fin k0_t3_loop.trips) : ClosedOff (k0_off115 k) := ⟨![5, k.val / 8, 0, 16 * (k.val % 8)], off115_eq k⟩
theorem off116_eq : ∀ k : Fin k0_t3_loop.trips, k0_off116 k = ![5, k.val / 8, 1, 16 * (k.val % 8)] := by decide +kernel
instance closedOff_k0_off116 (k : Fin k0_t3_loop.trips) : ClosedOff (k0_off116 k) := ⟨![5, k.val / 8, 1, 16 * (k.val % 8)], off116_eq k⟩
theorem off117_eq : ∀ k : Fin k0_t3_loop.trips, k0_off117 k = ![5, k.val / 8, 2, 16 * (k.val % 8)] := by decide +kernel
instance closedOff_k0_off117 (k : Fin k0_t3_loop.trips) : ClosedOff (k0_off117 k) := ⟨![5, k.val / 8, 2, 16 * (k.val % 8)], off117_eq k⟩
theorem off118_eq : ∀ k : Fin k0_t3_loop.trips, k0_off118 k = ![5, k.val / 8, 3, 16 * (k.val % 8)] := by decide +kernel
instance closedOff_k0_off118 (k : Fin k0_t3_loop.trips) : ClosedOff (k0_off118 k) := ⟨![5, k.val / 8, 3, 16 * (k.val % 8)], off118_eq k⟩
theorem off119_eq : ∀ k : Fin k0_t3_loop.trips, k0_off119 k = ![5, k.val / 8, 4, 16 * (k.val % 8)] := by decide +kernel
instance closedOff_k0_off119 (k : Fin k0_t3_loop.trips) : ClosedOff (k0_off119 k) := ⟨![5, k.val / 8, 4, 16 * (k.val % 8)], off119_eq k⟩
theorem off120_eq : ∀ k : Fin k0_t3_loop.trips, k0_off120 k = ![5, k.val / 8, 5, 16 * (k.val % 8)] := by decide +kernel
instance closedOff_k0_off120 (k : Fin k0_t3_loop.trips) : ClosedOff (k0_off120 k) := ⟨![5, k.val / 8, 5, 16 * (k.val % 8)], off120_eq k⟩
theorem off121_eq : ∀ k : Fin k0_t3_loop.trips, k0_off121 k = ![5, k.val / 8, 6, 16 * (k.val % 8)] := by decide +kernel
instance closedOff_k0_off121 (k : Fin k0_t3_loop.trips) : ClosedOff (k0_off121 k) := ⟨![5, k.val / 8, 6, 16 * (k.val % 8)], off121_eq k⟩
theorem off122_eq : ∀ k : Fin k0_t3_loop.trips, k0_off122 k = ![5, k.val / 8, 7, 16 * (k.val % 8)] := by decide +kernel
instance closedOff_k0_off122 (k : Fin k0_t3_loop.trips) : ClosedOff (k0_off122 k) := ⟨![5, k.val / 8, 7, 16 * (k.val % 8)], off122_eq k⟩
theorem off123_eq : ∀ k : Fin k0_t3_loop.trips, k0_off123 k = ![6, k.val / 8, 0, 16 * (k.val % 8)] := by decide +kernel
instance closedOff_k0_off123 (k : Fin k0_t3_loop.trips) : ClosedOff (k0_off123 k) := ⟨![6, k.val / 8, 0, 16 * (k.val % 8)], off123_eq k⟩
theorem off124_eq : ∀ k : Fin k0_t3_loop.trips, k0_off124 k = ![6, k.val / 8, 1, 16 * (k.val % 8)] := by decide +kernel
instance closedOff_k0_off124 (k : Fin k0_t3_loop.trips) : ClosedOff (k0_off124 k) := ⟨![6, k.val / 8, 1, 16 * (k.val % 8)], off124_eq k⟩
theorem off125_eq : ∀ k : Fin k0_t3_loop.trips, k0_off125 k = ![6, k.val / 8, 2, 16 * (k.val % 8)] := by decide +kernel
instance closedOff_k0_off125 (k : Fin k0_t3_loop.trips) : ClosedOff (k0_off125 k) := ⟨![6, k.val / 8, 2, 16 * (k.val % 8)], off125_eq k⟩
theorem off126_eq : ∀ k : Fin k0_t3_loop.trips, k0_off126 k = ![6, k.val / 8, 3, 16 * (k.val % 8)] := by decide +kernel
instance closedOff_k0_off126 (k : Fin k0_t3_loop.trips) : ClosedOff (k0_off126 k) := ⟨![6, k.val / 8, 3, 16 * (k.val % 8)], off126_eq k⟩
theorem off127_eq : ∀ k : Fin k0_t3_loop.trips, k0_off127 k = ![6, k.val / 8, 4, 16 * (k.val % 8)] := by decide +kernel
instance closedOff_k0_off127 (k : Fin k0_t3_loop.trips) : ClosedOff (k0_off127 k) := ⟨![6, k.val / 8, 4, 16 * (k.val % 8)], off127_eq k⟩
theorem off128_eq : ∀ k : Fin k0_t3_loop.trips, k0_off128 k = ![6, k.val / 8, 5, 16 * (k.val % 8)] := by decide +kernel
instance closedOff_k0_off128 (k : Fin k0_t3_loop.trips) : ClosedOff (k0_off128 k) := ⟨![6, k.val / 8, 5, 16 * (k.val % 8)], off128_eq k⟩
theorem off129_eq : ∀ k : Fin k0_t3_loop.trips, k0_off129 k = ![6, k.val / 8, 6, 16 * (k.val % 8)] := by decide +kernel
instance closedOff_k0_off129 (k : Fin k0_t3_loop.trips) : ClosedOff (k0_off129 k) := ⟨![6, k.val / 8, 6, 16 * (k.val % 8)], off129_eq k⟩
theorem off130_eq : ∀ k : Fin k0_t3_loop.trips, k0_off130 k = ![6, k.val / 8, 7, 16 * (k.val % 8)] := by decide +kernel
instance closedOff_k0_off130 (k : Fin k0_t3_loop.trips) : ClosedOff (k0_off130 k) := ⟨![6, k.val / 8, 7, 16 * (k.val % 8)], off130_eq k⟩
theorem off131_eq : ∀ k : Fin k0_t3_loop.trips, k0_off131 k = ![7, k.val / 8, 0, 16 * (k.val % 8)] := by decide +kernel
instance closedOff_k0_off131 (k : Fin k0_t3_loop.trips) : ClosedOff (k0_off131 k) := ⟨![7, k.val / 8, 0, 16 * (k.val % 8)], off131_eq k⟩
theorem off132_eq : ∀ k : Fin k0_t3_loop.trips, k0_off132 k = ![7, k.val / 8, 1, 16 * (k.val % 8)] := by decide +kernel
instance closedOff_k0_off132 (k : Fin k0_t3_loop.trips) : ClosedOff (k0_off132 k) := ⟨![7, k.val / 8, 1, 16 * (k.val % 8)], off132_eq k⟩
theorem off133_eq : ∀ k : Fin k0_t3_loop.trips, k0_off133 k = ![7, k.val / 8, 2, 16 * (k.val % 8)] := by decide +kernel
instance closedOff_k0_off133 (k : Fin k0_t3_loop.trips) : ClosedOff (k0_off133 k) := ⟨![7, k.val / 8, 2, 16 * (k.val % 8)], off133_eq k⟩
theorem off134_eq : ∀ k : Fin k0_t3_loop.trips, k0_off134 k = ![7, k.val / 8, 3, 16 * (k.val % 8)] := by decide +kernel
instance closedOff_k0_off134 (k : Fin k0_t3_loop.trips) : ClosedOff (k0_off134 k) := ⟨![7, k.val / 8, 3, 16 * (k.val % 8)], off134_eq k⟩
theorem off135_eq : ∀ k : Fin k0_t3_loop.trips, k0_off135 k = ![7, k.val / 8, 4, 16 * (k.val % 8)] := by decide +kernel
instance closedOff_k0_off135 (k : Fin k0_t3_loop.trips) : ClosedOff (k0_off135 k) := ⟨![7, k.val / 8, 4, 16 * (k.val % 8)], off135_eq k⟩
theorem off136_eq : ∀ k : Fin k0_t3_loop.trips, k0_off136 k = ![7, k.val / 8, 5, 16 * (k.val % 8)] := by decide +kernel
instance closedOff_k0_off136 (k : Fin k0_t3_loop.trips) : ClosedOff (k0_off136 k) := ⟨![7, k.val / 8, 5, 16 * (k.val % 8)], off136_eq k⟩
theorem off137_eq : ∀ k : Fin k0_t3_loop.trips, k0_off137 k = ![7, k.val / 8, 6, 16 * (k.val % 8)] := by decide +kernel
instance closedOff_k0_off137 (k : Fin k0_t3_loop.trips) : ClosedOff (k0_off137 k) := ⟨![7, k.val / 8, 6, 16 * (k.val % 8)], off137_eq k⟩
theorem off138_eq : ∀ k : Fin k0_t3_loop.trips, k0_off138 k = ![7, k.val / 8, 7, 16 * (k.val % 8)] := by decide +kernel
instance closedOff_k0_off138 (k : Fin k0_t3_loop.trips) : ClosedOff (k0_off138 k) := ⟨![7, k.val / 8, 7, 16 * (k.val % 8)], off138_eq k⟩

omit [FloatOps F] in
/-- Sixteen consecutive words loaded from a scratch whose words are all 0 or 1 are 0 or 1. -/
theorem ld011 {fe : Buf (Elt F) ((V d (cV L) (jV L)).loc cc0_scratch6)} (hfe : ∀ n, fe n = 0#32 ∨ fe n = 1#32)
    (off : Fin 1 → ℕ) (inb : ∀ a, off a + S16.size a ≤ S2304.size a) (x : S16.Idx) :
    (b6W).view.readAt (Elt F) (Rect.unit (s := S2304) off S16.size inb).toLoadRect fe x = 0#32
      ∨ (b6W).view.readAt (Elt F) (Rect.unit (s := S2304) off S16.size inb).toLoadRect fe x = 1#32 := by
  simp only [View.readAt_apply, Memref.view_whole, View.read_whole]
  exact hfe _

omit [FloatOps F] in
/-- A lane of sixteen consecutive words loaded from the attribute scratch is the scratch's word at that position. -/
theorem ldApply1 (fe : Buf (Elt F) ((V d (cV L) (jV L)).loc cc0_scratch6)) (off : Fin 1 → ℕ)
    (inb : ∀ a, off a + S16.size a ≤ S2304.size a) (x : S16.Idx) (n : ℕ) (hn : off 0 + (x 0).val = n) :
    (b6W).view.readAt (Elt F) (Rect.unit (s := S2304) off S16.size inb).toLoadRect fe x = at1 (fe : IVec S2304 32) n := by
  have hlt : n < 2304 := by
    have h1 : off 0 + 16 ≤ 2304 := inb 0
    have h2 : (x 0).val < 16 := (x 0).isLt
    omega
  have hidx : ((Rect.unit (s := S2304) off S16.size inb).toLoadRect.idx x : S2304.Idx) = ix1 (Fin.ofNat 2304 n) := by
    funext a
    match a with
    | ⟨0, _⟩ =>
      refine Fin.ext ?_
      show off 0 + 1 * (x 0).val = n % 2304
      rw [Nat.mod_eq_of_lt hlt]; omega
  simp only [View.readAt_apply, Memref.view_whole, View.read_whole]
  exact congrArg (fe : IVec S2304 32) hidx

/-- The three attribute vectors of group `k`. -/
abbrev Ea1 (fe : Buf (Elt F) ((V d (cV L) (jV L)).loc cc0_scratch6)) (k : Fin k0_t3_loop.trips) : Vec F S16 .i32 :=
  (b6W).view.readAt (Elt F) (Rect.unit (s := S2304) (k0_off73 k) S16.size (k0_off73_inb k)).toLoadRect fe
abbrev Eb1 (fe : Buf (Elt F) ((V d (cV L) (jV L)).loc cc0_scratch6)) (k : Fin k0_t3_loop.trips) : Vec F S16 .i32 :=
  (b6W).view.readAt (Elt F) (Rect.unit (s := S2304) (k0_off74 k 768#32) S16.size (k0_off74_inb k 0)).toLoadRect fe
abbrev Ec1 (fe : Buf (Elt F) ((V d (cV L) (jV L)).loc cc0_scratch6)) (k : Fin k0_t3_loop.trips) : Vec F S16 .i32 :=
  (b6W).view.readAt (Elt F) (Rect.unit (s := S2304) (k0_off74 k 1536#32) S16.size (k0_off74_inb k 1)).toLoadRect fe

omit [FloatOps F] in
/-- Lane `x` of group `k`'s combined row number is the combined row of the chunk's edge `16·k + x`. -/
theorem combVal1 (fe : Buf (Elt F) ((V d (cV L) (jV L)).loc cc0_scratch6)) (hfe : ∀ n, fe n = 0#32 ∨ fe n = 1#32)
    (k : Fin k0_t3_loop.trips) (x : S16.Idx) :
    ((k0_pay1 (Ea1 d L fe k) (Eb1 d L fe k) (Ec1 d L fe k)) x).toNat = combAt (fe : IVec S2304 32) (16 * k.val + (x 0).val) := by
  rw [comb_toNat (ld011 d L hfe _ _) (ld011 d L hfe _ _) (ld011 d L hfe _ _)]
  unfold combAt
  rw [ldApply1 d L fe _ _ x (16 * k.val + (x 0).val) (by rw [k0_off73_eq k]; rfl),
    ldApply1 d L fe _ _ x (768 + (16 * k.val + (x 0).val)) (by rw [show (768#32 : BitVec 32) = BitVec.ofNat 32 (768 + 768 * (0 : Fin 2).val) from rfl, k0_off74_eq k 0]; show 768 * 0 + 16 * k.val + 768 + (x 0).val = _; omega),
    ldApply1 d L fe _ _ x (1536 + (16 * k.val + (x 0).val)) (by rw [show (1536#32 : BitVec 32) = BitVec.ofNat 32 (768 + 768 * (1 : Fin 2).val) from rfl, k0_off74_eq k 1]; show 768 * 1 + 16 * k.val + 768 + (x 0).val = _; omega)]

omit [FloatOps F] in
/-- A combined row is at most 15 when the attribute words are 0 or 1. -/
theorem combAtLe1 (fe : Buf (Elt F) ((V d (cV L) (jV L)).loc cc0_scratch6)) (hfe : ∀ n, fe n = 0#32 ∨ fe n = 1#32) (p : ℕ) :
    combAt (fe : IVec S2304 32) p ≤ 15 := by
  unfold combAt
  have h : ∀ n, (at1 (fe : IVec S2304 32) n).toNat ≤ 1 := fun n => by
    rcases hfe (ix1 (Fin.ofNat 2304 n)) with h | h
    · show (fe (ix1 (Fin.ofNat 2304 n))).toNat ≤ 1; rw [h]; decide
    · show (fe (ix1 (Fin.ofNat 2304 n))).toNat ≤ 1; rw [h]; decide
  have := h p; have := h (768 + p); have := h (1536 + p)
  omega

/-- The gathered vector of column `c` at trip `k`, laid on its sixteen lanes of the output scratch, is the chunk's
    value there. -/
theorem pieceVal1 (fe : Buf (Elt F) ((V d (cV L) (jV L)).loc cc0_scratch6)) (ft : Buf (Elt F) ((V d (cV L) (jV L)).loc cc0_scratch4))
    (hfe : ∀ n, fe n = 0#32 ∨ fe n = 1#32) (k : Fin k0_t3_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea1 d L fe k) (Eb1 d L fe k) (Ec1 d L fe k)) (broadcast S16 q)] : Fin 1 → IVec S16 32) a x).toNat < S4096.size a)
    (hcast : S16.ShapeCasts S1x1x1x16) (x : S1x1x1x16.Idx) :
    shapeCast S1x1x1x16 (loadIdx ((b4W).view.readAt (Elt F) (LoadRect.whole S4096) ft)
        ![addi (k0_pay1 (Ea1 d L fe k) (Eb1 d L fe k) (Ec1 d L fe k)) (broadcast S16 q)] h) hcast x
      = gatherVal (ft : FVec F S4096 .f32) (fe : IVec S2304 32) ((Rect.unit (s := S8x6x8x128) off S1x1x1x16.size inb).emb x) := by
  have hx0 : (x 0).val = 0 := Nat.lt_one_iff.mp (x 0).isLt
  have hx1 : (x 1).val = 0 := Nat.lt_one_iff.mp (x 1).isLt
  have hx2 : (x 2).val = 0 := Nat.lt_one_iff.mp (x 2).isLt
  have hx3 : (x 3).val < 16 := (x 3).isLt
  have hcomb := combVal1 d L fe hfe k (ix1 (x 3))
  have hle := combAtLe1 d L fe hfe (16 * k.val + (x 3).val)
  have hcle : ∀ y, ((k0_pay1 (Ea1 d L fe k) (Eb1 d L fe k) (Ec1 d L fe k)) y).toNat ≤ 15 :=
    comb_le (ld011 d L hfe _ _) (ld011 d L hfe _ _) (ld011 d L hfe _ _)
  rw [shapeCast_apply _ hcast x (ix1 (x 3)) (by
    rw [Shape.rowMajor_val_one, Shape.rowMajor_val_four]
    show (x 3).val = (((x 0).val * 1 + (x 1).val) * 1 + (x 2).val) * 16 + (x 3).val
    rw [hx0, hx1, hx2]; omega)]
  have hidx : ((LoadRect.whole S4096).idx (idxAt ![addi (k0_pay1 (Ea1 d L fe k) (Eb1 d L fe k) (Ec1 d L fe k)) (broadcast S16 q)] h (ix1 (x 3))) : S4096.Idx)
      = ix1 (Fin.ofNat 4096 (64 * (8 * ((Rect.unit (s := S8x6x8x128) off S1x1x1x16.size inb).emb x 0).val
            + ((Rect.unit (s := S8x6x8x128) off S1x1x1x16.size inb).emb x 2).val)
          + combAt (fe : IVec S2304 32) (128 * ((Rect.unit (s := S8x6x8x128) off S1x1x1x16.size inb).emb x 1).val
            + ((Rect.unit (s := S8x6x8x128) off S1x1x1x16.size inb).emb x 3).val))) := by
    funext a
    match a with
    | ⟨0, _⟩ =>
      refine Fin.ext ?_
      show 0 + 1 * (addi (k0_pay1 (Ea1 d L fe k) (Eb1 d L fe k) (Ec1 d L fe k)) (broadcast S16 q) (ix1 (x 3))).toNat
        = (64 * (8 * (off 0 + 1 * (x 0).val) + (off 2 + 1 * (x 2).val))
            + combAt (fe : IVec S2304 32) (128 * (off 1 + 1 * (x 1).val) + (off 3 + 1 * (x 3).val))) % 4096
      rw [Nat.zero_add, Nat.one_mul, idx_toNat hcle (by omega), hcomb, hq, hoff]
      show combAt (fe : IVec S2304 32) (16 * k.val + (x 3).val) + 64 * c
        = (64 * (8 * (c / 8 + 1 * (x 0).val) + (c % 8 + 1 * (x 2).val))
            + combAt (fe : IVec S2304 32) (128 * (k.val / 8 + 1 * (x 1).val) + (16 * (k.val % 8) + 1 * (x 3).val))) % 4096
      rw [hx0, hx1, hx2]
      have e1 : 128 * (k.val / 8 + 1 * 0) + (16 * (k.val % 8) + 1 * (x 3).val) = 16 * k.val + (x 3).val := by omega
      have e2 : 64 * (8 * (c / 8 + 1 * 0) + (c % 8 + 1 * 0)) = 64 * c := by omega
      rw [e1, e2, Nat.mod_eq_of_lt (by omega)]
      omega
  unfold gatherVal loadIdx
  simp only [View.readAt_apply, Memref.view_whole, View.read_whole]
  exact congrArg (ft : FVec F S4096 .f32) hidx

/-- Column `c`'s store of trip `k` is a good piece. -/
theorem pieceGood1 (fe : Buf (Elt F) ((V d (cV L) (jV L)).loc cc0_scratch6)) (ft : Buf (Elt F) ((V d (cV L) (jV L)).loc cc0_scratch4))
    (hfe : ∀ n, fe n = 0#32 ∨ fe n = 1#32) (k : Fin k0_t3_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea1 d L fe k) (Eb1 d L fe k) (Ec1 d L fe k)) (broadcast S16 q)] : Fin 1 → IVec S16 32) a x).toNat < S4096.size a)
    (hcast : S16.ShapeCasts S1x1x1x16) :
    PieceGood (Val := Elt F) (gatherVal (ft : FVec F S4096 .f32) (fe : IVec S2304 32)) k.val c
      ⟨Rect.unit (s := S8x6x8x128) off S1x1x1x16.size inb,
        shapeCast S1x1x1x16 (loadIdx ((b4W).view.readAt (Elt F) (LoadRect.whole S4096) ft)
          ![addi (k0_pay1 (Ea1 d L fe k) (Eb1 d L fe k) (Ec1 d L fe k)) (broadcast S16 q)] h) hcast⟩ where
  off := hoff
  size := rfl
  stride := fun _ => rfl
  val := fun x => pieceVal1 d L fe ft hfe k c hc q hq off hoff inb h hcast x

omit [FloatOps F] in
/-- What a trip leaves, through the output scratch's own memref: reading the whole scratch is reading its contents. -/
theorem tripValWhole1 (fo : Buf (Elt F) ((V d (cV L) (jV L)).loc cc0_scratch8)) (G : S8x6x8x128.Idx → Elt F .f32) (k : ℕ)
    (Ls : List (View.Piece (Elt F) S8x6x8x128 .f32)) (hlen : Ls.length = 64) (hg : GoodList G k Ls)
    (hinv : ∀ j : S8x6x8x128.Idx, grp j < k → fo j = G j) :
    ∀ j : S8x6x8x128.Idx, grp j < k + 1 → (b8W).view.writes (Elt F) fo Ls j = G j :=
  trip_val (b8W).view fo G k Ls hlen hg hinv

/-- Before trip `k`: the attribute scratch and the table scratch as they were, and the output scratch holding the chunk's
    values on the groups below `k`. -/
def innerInvV1 (fe : Buf (Elt F) ((V d (cV L) (jV L)).loc cc0_scratch6)) (ft : Buf (Elt F) ((V d (cV L) (jV L)).loc cc0_scratch4))
    (k : ℕ) (_ : PUnit) : sProp 𝕄 :=
  iprop(((b6W).view.loc (V d (cV L) (jV L)) ↦{fullShare} fe) ∗ ((b4W).view.loc (V d (cV L) (jV L)) ↦{fullShare} ft)
    ∗ ∃ fo, ((b8W).view.loc (V d (cV L) (jV L)) ↦{fullShare} fo)
      ∗ ⌜∀ j : S8x6x8x128.Idx, grp j < k → fo j = gatherVal (ft : FVec F S4096 .f32) (fe : IVec S2304 32) j⌝)

set_option maxHeartbeats 8000000 in
/-- One trip of the loop keeps the invariant: group `k` is written. -/
theorem inner_regionV1 (fe : Buf (Elt F) ((V d (cV L) (jV L)).loc cc0_scratch6)) (ft : Buf (Elt F) ((V d (cV L) (jV L)).loc cc0_scratch4))
    (hfe : ∀ n, fe n = 0#32 ∨ fe n = 1#32) (v3138 v3140 c0 c1 : BitVec 32) (t1 : Fin k0_t1_loop.trips) :
    ∀ (k : Fin k0_t3_loop.trips) (acc : PUnit.{1}),
      innerInvV1 (F := F) d L fe ft k acc ⊢
        wp frame (wpE (defs₀ (F := F)) 𝒱₀ (V d (cV L) (jV L)) none) Set.univ
          ((k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1) k acc)
          (innerInvV1 (F := F) d L fe ft (k + 1)) := by
  intro k _
  unfold innerInvV1
  iintro ⟨H5, H4, %fo, H7, %hinv⟩
  unfold k0_t3_body
  sl_exec (disch := (refine chk_of_le (comb_le (ld011 d L hfe _ _) (ld011 d L hfe _ _) (ld011 d L hfe _ _)) ?_; decide))
  iterate 70 (first | (rw [SparseCore.vectorLoadIdx_bind (c := V d (cV L) (jV L))]; sl_exec (disch := (refine chk_of_le (comb_le (ld011 d L hfe _ _) (ld011 d L hfe _ _) (ld011 d L hfe _ _)) ?_; decide))) | skip)
  sl_step
  isplitl [H5]; · iexact H5
  isplitl [H4]; · iexact H4
  iexists _
  isplitl [H7]; · iexact H7
  ipureintro
  refine tripValWhole1 d L fo _ k.val _ rfl ?_ hinv
  exact
    (And.intro (pieceGood1 d L fe ft hfe k 63 (by decide) _ (by decide) _ (off138_eq k) _ _ _)
    (And.intro (pieceGood1 d L fe ft hfe k 62 (by decide) _ (by decide) _ (off137_eq k) _ _ _)
    (And.intro (pieceGood1 d L fe ft hfe k 61 (by decide) _ (by decide) _ (off136_eq k) _ _ _)
    (And.intro (pieceGood1 d L fe ft hfe k 60 (by decide) _ (by decide) _ (off135_eq k) _ _ _)
    (And.intro (pieceGood1 d L fe ft hfe k 59 (by decide) _ (by decide) _ (off134_eq k) _ _ _)
    (And.intro (pieceGood1 d L fe ft hfe k 58 (by decide) _ (by decide) _ (off133_eq k) _ _ _)
    (And.intro (pieceGood1 d L fe ft hfe k 57 (by decide) _ (by decide) _ (off132_eq k) _ _ _)
    (And.intro (pieceGood1 d L fe ft hfe k 56 (by decide) _ (by decide) _ (off131_eq k) _ _ _)
    (And.intro (pieceGood1 d L fe ft hfe k 55 (by decide) _ (by decide) _ (off130_eq k) _ _ _)
    (And.intro (pieceGood1 d L fe ft hfe k 54 (by decide) _ (by decide) _ (off129_eq k) _ _ _)
    (And.intro (pieceGood1 d L fe ft hfe k 53 (by decide) _ (by decide) _ (off128_eq k) _ _ _)
    (And.intro (pieceGood1 d L fe ft hfe k 52 (by decide) _ (by decide) _ (off127_eq k) _ _ _)
    (And.intro (pieceGood1 d L fe ft hfe k 51 (by decide) _ (by decide) _ (off126_eq k) _ _ _)
    (And.intro (pieceGood1 d L fe ft hfe k 50 (by decide) _ (by decide) _ (off125_eq k) _ _ _)
    (And.intro (pieceGood1 d L fe ft hfe k 49 (by decide) _ (by decide) _ (off124_eq k) _ _ _)
    (And.intro (pieceGood1 d L fe ft hfe k 48 (by decide) _ (by decide) _ (off123_eq k) _ _ _)
    (And.intro (pieceGood1 d L fe ft hfe k 47 (by decide) _ (by decide) _ (off122_eq k) _ _ _)
    (And.intro (pieceGood1 d L fe ft hfe k 46 (by decide) _ (by decide) _ (off121_eq k) _ _ _)
    (And.intro (pieceGood1 d L fe ft hfe k 45 (by decide) _ (by decide) _ (off120_eq k) _ _ _)
    (And.intro (pieceGood1 d L fe ft hfe k 44 (by decide) _ (by decide) _ (off119_eq k) _ _ _)
    (And.intro (pieceGood1 d L fe ft hfe k 43 (by decide) _ (by decide) _ (off118_eq k) _ _ _)
    (And.intro (pieceGood1 d L fe ft hfe k 42 (by decide) _ (by decide) _ (off117_eq k) _ _ _)
    (And.intro (pieceGood1 d L fe ft hfe k 41 (by decide) _ (by decide) _ (off116_eq k) _ _ _)
    (And.intro (pieceGood1 d L fe ft hfe k 40 (by decide) _ (by decide) _ (off115_eq k) _ _ _)
    (And.intro (pieceGood1 d L fe ft hfe k 39 (by decide) _ (by decide) _ (off114_eq k) _ _ _)
    (And.intro (pieceGood1 d L fe ft hfe k 38 (by decide) _ (by decide) _ (off113_eq k) _ _ _)
    (And.intro (pieceGood1 d L fe ft hfe k 37 (by decide) _ (by decide) _ (off112_eq k) _ _ _)
    (And.intro (pieceGood1 d L fe ft hfe k 36 (by decide) _ (by decide) _ (off111_eq k) _ _ _)
    (And.intro (pieceGood1 d L fe ft hfe k 35 (by decide) _ (by decide) _ (off110_eq k) _ _ _)
    (And.intro (pieceGood1 d L fe ft hfe k 34 (by decide) _ (by decide) _ (off109_eq k) _ _ _)
    (And.intro (pieceGood1 d L fe ft hfe k 33 (by decide) _ (by decide) _ (off108_eq k) _ _ _)
    (And.intro (pieceGood1 d L fe ft hfe k 32 (by decide) _ (by decide) _ (off107_eq k) _ _ _)
    (And.intro (pieceGood1 d L fe ft hfe k 31 (by decide) _ (by decide) _ (off106_eq k) _ _ _)
    (And.intro (pieceGood1 d L fe ft hfe k 30 (by decide) _ (by decide) _ (off105_eq k) _ _ _)
    (And.intro (pieceGood1 d L fe ft hfe k 29 (by decide) _ (by decide) _ (off104_eq k) _ _ _)
    (And.intro (pieceGood1 d L fe ft hfe k 28 (by decide) _ (by decide) _ (off103_eq k) _ _ _)
    (And.intro (pieceGood1 d L fe ft hfe k 27 (by decide) _ (by decide) _ (off102_eq k) _ _ _)
    (And.intro (pieceGood1 d L fe ft hfe k 26 (by decide) _ (by decide) _ (off101_eq k) _ _ _)
    (And.intro (pieceGood1 d L fe ft hfe k 25 (by decide) _ (by decide) _ (off100_eq k) _ _ _)
    (And.intro (pieceGood1 d L fe ft hfe k 24 (by decide) _ (by decide) _ (off99_eq k) _ _ _)
    (And.intro (pieceGood1 d L fe ft hfe k 23 (by decide) _ (by decide) _ (off98_eq k) _ _ _)
    (And.intro (pieceGood1 d L fe ft hfe k 22 (by decide) _ (by decide) _ (off97_eq k) _ _ _)
    (And.intro (pieceGood1 d L fe ft hfe k 21 (by decide) _ (by decide) _ (off96_eq k) _ _ _)
    (And.intro (pieceGood1 d L fe ft hfe k 20 (by decide) _ (by decide) _ (off95_eq k) _ _ _)
    (And.intro (pieceGood1 d L fe ft hfe k 19 (by decide) _ (by decide) _ (off94_eq k) _ _ _)
    (And.intro (pieceGood1 d L fe ft hfe k 18 (by decide) _ (by decide) _ (off93_eq k) _ _ _)
    (And.intro (pieceGood1 d L fe ft hfe k 17 (by decide) _ (by decide) _ (off92_eq k) _ _ _)
    (And.intro (pieceGood1 d L fe ft hfe k 16 (by decide) _ (by decide) _ (off91_eq k) _ _ _)
    (And.intro (pieceGood1 d L fe ft hfe k 15 (by decide) _ (by decide) _ (off90_eq k) _ _ _)
    (And.intro (pieceGood1 d L fe ft hfe k 14 (by decide) _ (by decide) _ (off89_eq k) _ _ _)
    (And.intro (pieceGood1 d L fe ft hfe k 13 (by decide) _ (by decide) _ (off88_eq k) _ _ _)
    (And.intro (pieceGood1 d L fe ft hfe k 12 (by decide) _ (by decide) _ (off87_eq k) _ _ _)
    (And.intro (pieceGood1 d L fe ft hfe k 11 (by decide) _ (by decide) _ (off86_eq k) _ _ _)
    (And.intro (pieceGood1 d L fe ft hfe k 10 (by decide) _ (by decide) _ (off85_eq k) _ _ _)
    (And.intro (pieceGood1 d L fe ft hfe k 9 (by decide) _ (by decide) _ (off84_eq k) _ _ _)
    (And.intro (pieceGood1 d L fe ft hfe k 8 (by decide) _ (by decide) _ (off83_eq k) _ _ _)
    (And.intro (pieceGood1 d L fe ft hfe k 7 (by decide) _ (by decide) _ (off82_eq k) _ _ _)
    (And.intro (pieceGood1 d L fe ft hfe k 6 (by decide) _ (by decide) _ (off81_eq k) _ _ _)
    (And.intro (pieceGood1 d L fe ft hfe k 5 (by decide) _ (by decide) _ (off80_eq k) _ _ _)
    (And.intro (pieceGood1 d L fe ft hfe k 4 (by decide) _ (by decide) _ (off79_eq k) _ _ _)
    (And.intro (pieceGood1 d L fe ft hfe k 3 (by decide) _ (by decide) _ (off78_eq k) _ _ _)
    (And.intro (pieceGood1 d L fe ft hfe k 2 (by decide) _ (by decide) _ (off77_eq k) _ _ _)
    (And.intro (pieceGood1 d L fe ft hfe k 1 (by decide) _ (by decide) _ (off76_eq k) _ _ _)
    (And.intro (pieceGood1 d L fe ft hfe k 0 (by decide) _ (by decide) _ (off75_eq k) _ _ _)
    trivial))))))))))))))))))))))))))))))))))))))))))))))))))))))))))))))))

/-- The loop, run from the three scratches: afterwards the output scratch holds the chunk's values everywhere. -/
theorem innerV1_ok (fe : Buf (Elt F) ((V d (cV L) (jV L)).loc cc0_scratch6)) (ft : Buf (Elt F) ((V d (cV L) (jV L)).loc cc0_scratch4)) (fo : Buf (Elt F) ((V d (cV L) (jV L)).loc cc0_scratch8))
    (hfe : ∀ n, fe n = 0#32 ∨ fe n = 1#32) (v3138 v3140 c0 c1 : BitVec 32) (t1 : Fin k0_t1_loop.trips) :
    (iprop(((b6W).view.loc (V d (cV L) (jV L)) ↦{fullShare} fe) ∗ ((b4W).view.loc (V d (cV L) (jV L)) ↦{fullShare} ft)
        ∗ ((b8W).view.loc (V d (cV L) (jV L)) ↦{fullShare} fo)) : sProp 𝕄)
      ⊢ wp frame (wpE (defs₀ (F := F)) 𝒱₀ (V d (cV L) (jV L)) none) Set.univ
          (Scf.Loop.for k0_t3_loop Cert.Kernel.Gen.k0_t3_ok ⟨⟩ (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 c0 c1 t1))
          fun _ => iprop(((b6W).view.loc (V d (cV L) (jV L)) ↦{fullShare} fe) ∗ ((b4W).view.loc (V d (cV L) (jV L)) ↦{fullShare} ft)
            ∗ ∃ fo', ((b8W).view.loc (V d (cV L) (jV L)) ↦{fullShare} fo')
              ∗ ⌜∀ j : S8x6x8x128.Idx, fo' j = gatherVal (ft : FVec F S4096 .f32) (fe : IVec S2304 32) j⌝) := by
  iintro ⟨H5, H4, H7⟩
  sl_for (innerInvV1 (F := F) d L fe ft) $$ [H5 H4 H7]
  case region => exact inner_regionV1 d L fe ft hfe v3138 v3140 c0 c1 t1
  isplitl [H5 H4 H7]
  · unfold innerInvV1
    isplitl [H5]; · iexact H5
    isplitl [H4]; · iexact H4
    iexists _
    isplitl [H7]; · iexact H7
    ipureintro
    intro j hj
    exact absurd hj (Nat.not_lt_zero _)
  · iintro %_ HI
    unfold innerInvV1
    icases HI with ⟨H5, H4, %fo', H7, %hall⟩
    isplitl [H5]; · iexact H5
    isplitl [H4]; · iexact H4
    iexists _
    isplitl [H7]; · iexact H7
    ipureintro
    intro j
    refine hall j ?_
    have h1 : (j 1).val < 6 := (j 1).isLt
    have h3 : (j 3).val < 128 := (j 3).isLt
    show 8 * (j 1).val + (j 3).val / 16 < 48
    omega

end Cert.Proof.K
end
-- ==== Proof.Inner2K.lean ====
/-
  The third copy of the inner loop (attribute scratch 6, output scratch 8; the loop after the chunk loop): one trip by
  the symbolic run, the sixty-four stored pieces read back at an index, and the loop by its invariant.
-/
import proofs.«203789_g40862318854646_cont_8to1_b_1018_13_alg».proof.Proof.TileDefsK
import proofs.«203789_g40862318854646_cont_8to1_b_1018_13_alg».proof.Proof.GoodK
import proofs.«203789_g40862318854646_cont_8to1_b_1018_13_alg».proof.Proof.InnerLibK
import Idealize.ShloMosaic.Lib.Writes
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

variable [FloatOps F]
variable (d : Dev nD) (L : grid0.Coords)

/-! ## The output offsets of column c at trip k: row (c / 8, k / 8, c % 8), lanes 16·(k % 8) … +15 -/
theorem off144_eq : ∀ k : Fin k0_t4_loop.trips, k0_off144 k = ![0, k.val / 8, 0, 16 * (k.val % 8)] := by decide +kernel
instance closedOff_k0_off144 (k : Fin k0_t4_loop.trips) : ClosedOff (k0_off144 k) := ⟨![0, k.val / 8, 0, 16 * (k.val % 8)], off144_eq k⟩
theorem off145_eq : ∀ k : Fin k0_t4_loop.trips, k0_off145 k = ![0, k.val / 8, 1, 16 * (k.val % 8)] := by decide +kernel
instance closedOff_k0_off145 (k : Fin k0_t4_loop.trips) : ClosedOff (k0_off145 k) := ⟨![0, k.val / 8, 1, 16 * (k.val % 8)], off145_eq k⟩
theorem off146_eq : ∀ k : Fin k0_t4_loop.trips, k0_off146 k = ![0, k.val / 8, 2, 16 * (k.val % 8)] := by decide +kernel
instance closedOff_k0_off146 (k : Fin k0_t4_loop.trips) : ClosedOff (k0_off146 k) := ⟨![0, k.val / 8, 2, 16 * (k.val % 8)], off146_eq k⟩
theorem off147_eq : ∀ k : Fin k0_t4_loop.trips, k0_off147 k = ![0, k.val / 8, 3, 16 * (k.val % 8)] := by decide +kernel
instance closedOff_k0_off147 (k : Fin k0_t4_loop.trips) : ClosedOff (k0_off147 k) := ⟨![0, k.val / 8, 3, 16 * (k.val % 8)], off147_eq k⟩
theorem off148_eq : ∀ k : Fin k0_t4_loop.trips, k0_off148 k = ![0, k.val / 8, 4, 16 * (k.val % 8)] := by decide +kernel
instance closedOff_k0_off148 (k : Fin k0_t4_loop.trips) : ClosedOff (k0_off148 k) := ⟨![0, k.val / 8, 4, 16 * (k.val % 8)], off148_eq k⟩
theorem off149_eq : ∀ k : Fin k0_t4_loop.trips, k0_off149 k = ![0, k.val / 8, 5, 16 * (k.val % 8)] := by decide +kernel
instance closedOff_k0_off149 (k : Fin k0_t4_loop.trips) : ClosedOff (k0_off149 k) := ⟨![0, k.val / 8, 5, 16 * (k.val % 8)], off149_eq k⟩
theorem off150_eq : ∀ k : Fin k0_t4_loop.trips, k0_off150 k = ![0, k.val / 8, 6, 16 * (k.val % 8)] := by decide +kernel
instance closedOff_k0_off150 (k : Fin k0_t4_loop.trips) : ClosedOff (k0_off150 k) := ⟨![0, k.val / 8, 6, 16 * (k.val % 8)], off150_eq k⟩
theorem off151_eq : ∀ k : Fin k0_t4_loop.trips, k0_off151 k = ![0, k.val / 8, 7, 16 * (k.val % 8)] := by decide +kernel
instance closedOff_k0_off151 (k : Fin k0_t4_loop.trips) : ClosedOff (k0_off151 k) := ⟨![0, k.val / 8, 7, 16 * (k.val % 8)], off151_eq k⟩
theorem off152_eq : ∀ k : Fin k0_t4_loop.trips, k0_off152 k = ![1, k.val / 8, 0, 16 * (k.val % 8)] := by decide +kernel
instance closedOff_k0_off152 (k : Fin k0_t4_loop.trips) : ClosedOff (k0_off152 k) := ⟨![1, k.val / 8, 0, 16 * (k.val % 8)], off152_eq k⟩
theorem off153_eq : ∀ k : Fin k0_t4_loop.trips, k0_off153 k = ![1, k.val / 8, 1, 16 * (k.val % 8)] := by decide +kernel
instance closedOff_k0_off153 (k : Fin k0_t4_loop.trips) : ClosedOff (k0_off153 k) := ⟨![1, k.val / 8, 1, 16 * (k.val % 8)], off153_eq k⟩
theorem off154_eq : ∀ k : Fin k0_t4_loop.trips, k0_off154 k = ![1, k.val / 8, 2, 16 * (k.val % 8)] := by decide +kernel
instance closedOff_k0_off154 (k : Fin k0_t4_loop.trips) : ClosedOff (k0_off154 k) := ⟨![1, k.val / 8, 2, 16 * (k.val % 8)], off154_eq k⟩
theorem off155_eq : ∀ k : Fin k0_t4_loop.trips, k0_off155 k = ![1, k.val / 8, 3, 16 * (k.val % 8)] := by decide +kernel
instance closedOff_k0_off155 (k : Fin k0_t4_loop.trips) : ClosedOff (k0_off155 k) := ⟨![1, k.val / 8, 3, 16 * (k.val % 8)], off155_eq k⟩
theorem off156_eq : ∀ k : Fin k0_t4_loop.trips, k0_off156 k = ![1, k.val / 8, 4, 16 * (k.val % 8)] := by decide +kernel
instance closedOff_k0_off156 (k : Fin k0_t4_loop.trips) : ClosedOff (k0_off156 k) := ⟨![1, k.val / 8, 4, 16 * (k.val % 8)], off156_eq k⟩
theorem off157_eq : ∀ k : Fin k0_t4_loop.trips, k0_off157 k = ![1, k.val / 8, 5, 16 * (k.val % 8)] := by decide +kernel
instance closedOff_k0_off157 (k : Fin k0_t4_loop.trips) : ClosedOff (k0_off157 k) := ⟨![1, k.val / 8, 5, 16 * (k.val % 8)], off157_eq k⟩
theorem off158_eq : ∀ k : Fin k0_t4_loop.trips, k0_off158 k = ![1, k.val / 8, 6, 16 * (k.val % 8)] := by decide +kernel
instance closedOff_k0_off158 (k : Fin k0_t4_loop.trips) : ClosedOff (k0_off158 k) := ⟨![1, k.val / 8, 6, 16 * (k.val % 8)], off158_eq k⟩
theorem off159_eq : ∀ k : Fin k0_t4_loop.trips, k0_off159 k = ![1, k.val / 8, 7, 16 * (k.val % 8)] := by decide +kernel
instance closedOff_k0_off159 (k : Fin k0_t4_loop.trips) : ClosedOff (k0_off159 k) := ⟨![1, k.val / 8, 7, 16 * (k.val % 8)], off159_eq k⟩
theorem off160_eq : ∀ k : Fin k0_t4_loop.trips, k0_off160 k = ![2, k.val / 8, 0, 16 * (k.val % 8)] := by decide +kernel
instance closedOff_k0_off160 (k : Fin k0_t4_loop.trips) : ClosedOff (k0_off160 k) := ⟨![2, k.val / 8, 0, 16 * (k.val % 8)], off160_eq k⟩
theorem off161_eq : ∀ k : Fin k0_t4_loop.trips, k0_off161 k = ![2, k.val / 8, 1, 16 * (k.val % 8)] := by decide +kernel
instance closedOff_k0_off161 (k : Fin k0_t4_loop.trips) : ClosedOff (k0_off161 k) := ⟨![2, k.val / 8, 1, 16 * (k.val % 8)], off161_eq k⟩
theorem off162_eq : ∀ k : Fin k0_t4_loop.trips, k0_off162 k = ![2, k.val / 8, 2, 16 * (k.val % 8)] := by decide +kernel
instance closedOff_k0_off162 (k : Fin k0_t4_loop.trips) : ClosedOff (k0_off162 k) := ⟨![2, k.val / 8, 2, 16 * (k.val % 8)], off162_eq k⟩
theorem off163_eq : ∀ k : Fin k0_t4_loop.trips, k0_off163 k = ![2, k.val / 8, 3, 16 * (k.val % 8)] := by decide +kernel
instance closedOff_k0_off163 (k : Fin k0_t4_loop.trips) : ClosedOff (k0_off163 k) := ⟨![2, k.val / 8, 3, 16 * (k.val % 8)], off163_eq k⟩
theorem off164_eq : ∀ k : Fin k0_t4_loop.trips, k0_off164 k = ![2, k.val / 8, 4, 16 * (k.val % 8)] := by decide +kernel
instance closedOff_k0_off164 (k : Fin k0_t4_loop.trips) : ClosedOff (k0_off164 k) := ⟨![2, k.val / 8, 4, 16 * (k.val % 8)], off164_eq k⟩
theorem off165_eq : ∀ k : Fin k0_t4_loop.trips, k0_off165 k = ![2, k.val / 8, 5, 16 * (k.val % 8)] := by decide +kernel
instance closedOff_k0_off165 (k : Fin k0_t4_loop.trips) : ClosedOff (k0_off165 k) := ⟨![2, k.val / 8, 5, 16 * (k.val % 8)], off165_eq k⟩
theorem off166_eq : ∀ k : Fin k0_t4_loop.trips, k0_off166 k = ![2, k.val / 8, 6, 16 * (k.val % 8)] := by decide +kernel
instance closedOff_k0_off166 (k : Fin k0_t4_loop.trips) : ClosedOff (k0_off166 k) := ⟨![2, k.val / 8, 6, 16 * (k.val % 8)], off166_eq k⟩
theorem off167_eq : ∀ k : Fin k0_t4_loop.trips, k0_off167 k = ![2, k.val / 8, 7, 16 * (k.val % 8)] := by decide +kernel
instance closedOff_k0_off167 (k : Fin k0_t4_loop.trips) : ClosedOff (k0_off167 k) := ⟨![2, k.val / 8, 7, 16 * (k.val % 8)], off167_eq k⟩
theorem off168_eq : ∀ k : Fin k0_t4_loop.trips, k0_off168 k = ![3, k.val / 8, 0, 16 * (k.val % 8)] := by decide +kernel
instance closedOff_k0_off168 (k : Fin k0_t4_loop.trips) : ClosedOff (k0_off168 k) := ⟨![3, k.val / 8, 0, 16 * (k.val % 8)], off168_eq k⟩
theorem off169_eq : ∀ k : Fin k0_t4_loop.trips, k0_off169 k = ![3, k.val / 8, 1, 16 * (k.val % 8)] := by decide +kernel
instance closedOff_k0_off169 (k : Fin k0_t4_loop.trips) : ClosedOff (k0_off169 k) := ⟨![3, k.val / 8, 1, 16 * (k.val % 8)], off169_eq k⟩
theorem off170_eq : ∀ k : Fin k0_t4_loop.trips, k0_off170 k = ![3, k.val / 8, 2, 16 * (k.val % 8)] := by decide +kernel
instance closedOff_k0_off170 (k : Fin k0_t4_loop.trips) : ClosedOff (k0_off170 k) := ⟨![3, k.val / 8, 2, 16 * (k.val % 8)], off170_eq k⟩
theorem off171_eq : ∀ k : Fin k0_t4_loop.trips, k0_off171 k = ![3, k.val / 8, 3, 16 * (k.val % 8)] := by decide +kernel
instance closedOff_k0_off171 (k : Fin k0_t4_loop.trips) : ClosedOff (k0_off171 k) := ⟨![3, k.val / 8, 3, 16 * (k.val % 8)], off171_eq k⟩
theorem off172_eq : ∀ k : Fin k0_t4_loop.trips, k0_off172 k = ![3, k.val / 8, 4, 16 * (k.val % 8)] := by decide +kernel
instance closedOff_k0_off172 (k : Fin k0_t4_loop.trips) : ClosedOff (k0_off172 k) := ⟨![3, k.val / 8, 4, 16 * (k.val % 8)], off172_eq k⟩
theorem off173_eq : ∀ k : Fin k0_t4_loop.trips, k0_off173 k = ![3, k.val / 8, 5, 16 * (k.val % 8)] := by decide +kernel
instance closedOff_k0_off173 (k : Fin k0_t4_loop.trips) : ClosedOff (k0_off173 k) := ⟨![3, k.val / 8, 5, 16 * (k.val % 8)], off173_eq k⟩
theorem off174_eq : ∀ k : Fin k0_t4_loop.trips, k0_off174 k = ![3, k.val / 8, 6, 16 * (k.val % 8)] := by decide +kernel
instance closedOff_k0_off174 (k : Fin k0_t4_loop.trips) : ClosedOff (k0_off174 k) := ⟨![3, k.val / 8, 6, 16 * (k.val % 8)], off174_eq k⟩
theorem off175_eq : ∀ k : Fin k0_t4_loop.trips, k0_off175 k = ![3, k.val / 8, 7, 16 * (k.val % 8)] := by decide +kernel
instance closedOff_k0_off175 (k : Fin k0_t4_loop.trips) : ClosedOff (k0_off175 k) := ⟨![3, k.val / 8, 7, 16 * (k.val % 8)], off175_eq k⟩
theorem off176_eq : ∀ k : Fin k0_t4_loop.trips, k0_off176 k = ![4, k.val / 8, 0, 16 * (k.val % 8)] := by decide +kernel
instance closedOff_k0_off176 (k : Fin k0_t4_loop.trips) : ClosedOff (k0_off176 k) := ⟨![4, k.val / 8, 0, 16 * (k.val % 8)], off176_eq k⟩
theorem off177_eq : ∀ k : Fin k0_t4_loop.trips, k0_off177 k = ![4, k.val / 8, 1, 16 * (k.val % 8)] := by decide +kernel
instance closedOff_k0_off177 (k : Fin k0_t4_loop.trips) : ClosedOff (k0_off177 k) := ⟨![4, k.val / 8, 1, 16 * (k.val % 8)], off177_eq k⟩
theorem off178_eq : ∀ k : Fin k0_t4_loop.trips, k0_off178 k = ![4, k.val / 8, 2, 16 * (k.val % 8)] := by decide +kernel
instance closedOff_k0_off178 (k : Fin k0_t4_loop.trips) : ClosedOff (k0_off178 k) := ⟨![4, k.val / 8, 2, 16 * (k.val % 8)], off178_eq k⟩
theorem off179_eq : ∀ k : Fin k0_t4_loop.trips, k0_off179 k = ![4, k.val / 8, 3, 16 * (k.val % 8)] := by decide +kernel
instance closedOff_k0_off179 (k : Fin k0_t4_loop.trips) : ClosedOff (k0_off179 k) := ⟨![4, k.val / 8, 3, 16 * (k.val % 8)], off179_eq k⟩
theorem off180_eq : ∀ k : Fin k0_t4_loop.trips, k0_off180 k = ![4, k.val / 8, 4, 16 * (k.val % 8)] := by decide +kernel
instance closedOff_k0_off180 (k : Fin k0_t4_loop.trips) : ClosedOff (k0_off180 k) := ⟨![4, k.val / 8, 4, 16 * (k.val % 8)], off180_eq k⟩
theorem off181_eq : ∀ k : Fin k0_t4_loop.trips, k0_off181 k = ![4, k.val / 8, 5, 16 * (k.val % 8)] := by decide +kernel
instance closedOff_k0_off181 (k : Fin k0_t4_loop.trips) : ClosedOff (k0_off181 k) := ⟨![4, k.val / 8, 5, 16 * (k.val % 8)], off181_eq k⟩
theorem off182_eq : ∀ k : Fin k0_t4_loop.trips, k0_off182 k = ![4, k.val / 8, 6, 16 * (k.val % 8)] := by decide +kernel
instance closedOff_k0_off182 (k : Fin k0_t4_loop.trips) : ClosedOff (k0_off182 k) := ⟨![4, k.val / 8, 6, 16 * (k.val % 8)], off182_eq k⟩
theorem off183_eq : ∀ k : Fin k0_t4_loop.trips, k0_off183 k = ![4, k.val / 8, 7, 16 * (k.val % 8)] := by decide +kernel
instance closedOff_k0_off183 (k : Fin k0_t4_loop.trips) : ClosedOff (k0_off183 k) := ⟨![4, k.val / 8, 7, 16 * (k.val % 8)], off183_eq k⟩
theorem off184_eq : ∀ k : Fin k0_t4_loop.trips, k0_off184 k = ![5, k.val / 8, 0, 16 * (k.val % 8)] := by decide +kernel
instance closedOff_k0_off184 (k : Fin k0_t4_loop.trips) : ClosedOff (k0_off184 k) := ⟨![5, k.val / 8, 0, 16 * (k.val % 8)], off184_eq k⟩
theorem off185_eq : ∀ k : Fin k0_t4_loop.trips, k0_off185 k = ![5, k.val / 8, 1, 16 * (k.val % 8)] := by decide +kernel
instance closedOff_k0_off185 (k : Fin k0_t4_loop.trips) : ClosedOff (k0_off185 k) := ⟨![5, k.val / 8, 1, 16 * (k.val % 8)], off185_eq k⟩
theorem off186_eq : ∀ k : Fin k0_t4_loop.trips, k0_off186 k = ![5, k.val / 8, 2, 16 * (k.val % 8)] := by decide +kernel
instance closedOff_k0_off186 (k : Fin k0_t4_loop.trips) : ClosedOff (k0_off186 k) := ⟨![5, k.val / 8, 2, 16 * (k.val % 8)], off186_eq k⟩
theorem off187_eq : ∀ k : Fin k0_t4_loop.trips, k0_off187 k = ![5, k.val / 8, 3, 16 * (k.val % 8)] := by decide +kernel
instance closedOff_k0_off187 (k : Fin k0_t4_loop.trips) : ClosedOff (k0_off187 k) := ⟨![5, k.val / 8, 3, 16 * (k.val % 8)], off187_eq k⟩
theorem off188_eq : ∀ k : Fin k0_t4_loop.trips, k0_off188 k = ![5, k.val / 8, 4, 16 * (k.val % 8)] := by decide +kernel
instance closedOff_k0_off188 (k : Fin k0_t4_loop.trips) : ClosedOff (k0_off188 k) := ⟨![5, k.val / 8, 4, 16 * (k.val % 8)], off188_eq k⟩
theorem off189_eq : ∀ k : Fin k0_t4_loop.trips, k0_off189 k = ![5, k.val / 8, 5, 16 * (k.val % 8)] := by decide +kernel
instance closedOff_k0_off189 (k : Fin k0_t4_loop.trips) : ClosedOff (k0_off189 k) := ⟨![5, k.val / 8, 5, 16 * (k.val % 8)], off189_eq k⟩
theorem off190_eq : ∀ k : Fin k0_t4_loop.trips, k0_off190 k = ![5, k.val / 8, 6, 16 * (k.val % 8)] := by decide +kernel
instance closedOff_k0_off190 (k : Fin k0_t4_loop.trips) : ClosedOff (k0_off190 k) := ⟨![5, k.val / 8, 6, 16 * (k.val % 8)], off190_eq k⟩
theorem off191_eq : ∀ k : Fin k0_t4_loop.trips, k0_off191 k = ![5, k.val / 8, 7, 16 * (k.val % 8)] := by decide +kernel
instance closedOff_k0_off191 (k : Fin k0_t4_loop.trips) : ClosedOff (k0_off191 k) := ⟨![5, k.val / 8, 7, 16 * (k.val % 8)], off191_eq k⟩
theorem off192_eq : ∀ k : Fin k0_t4_loop.trips, k0_off192 k = ![6, k.val / 8, 0, 16 * (k.val % 8)] := by decide +kernel
instance closedOff_k0_off192 (k : Fin k0_t4_loop.trips) : ClosedOff (k0_off192 k) := ⟨![6, k.val / 8, 0, 16 * (k.val % 8)], off192_eq k⟩
theorem off193_eq : ∀ k : Fin k0_t4_loop.trips, k0_off193 k = ![6, k.val / 8, 1, 16 * (k.val % 8)] := by decide +kernel
instance closedOff_k0_off193 (k : Fin k0_t4_loop.trips) : ClosedOff (k0_off193 k) := ⟨![6, k.val / 8, 1, 16 * (k.val % 8)], off193_eq k⟩
theorem off194_eq : ∀ k : Fin k0_t4_loop.trips, k0_off194 k = ![6, k.val / 8, 2, 16 * (k.val % 8)] := by decide +kernel
instance closedOff_k0_off194 (k : Fin k0_t4_loop.trips) : ClosedOff (k0_off194 k) := ⟨![6, k.val / 8, 2, 16 * (k.val % 8)], off194_eq k⟩
theorem off195_eq : ∀ k : Fin k0_t4_loop.trips, k0_off195 k = ![6, k.val / 8, 3, 16 * (k.val % 8)] := by decide +kernel
instance closedOff_k0_off195 (k : Fin k0_t4_loop.trips) : ClosedOff (k0_off195 k) := ⟨![6, k.val / 8, 3, 16 * (k.val % 8)], off195_eq k⟩
theorem off196_eq : ∀ k : Fin k0_t4_loop.trips, k0_off196 k = ![6, k.val / 8, 4, 16 * (k.val % 8)] := by decide +kernel
instance closedOff_k0_off196 (k : Fin k0_t4_loop.trips) : ClosedOff (k0_off196 k) := ⟨![6, k.val / 8, 4, 16 * (k.val % 8)], off196_eq k⟩
theorem off197_eq : ∀ k : Fin k0_t4_loop.trips, k0_off197 k = ![6, k.val / 8, 5, 16 * (k.val % 8)] := by decide +kernel
instance closedOff_k0_off197 (k : Fin k0_t4_loop.trips) : ClosedOff (k0_off197 k) := ⟨![6, k.val / 8, 5, 16 * (k.val % 8)], off197_eq k⟩
theorem off198_eq : ∀ k : Fin k0_t4_loop.trips, k0_off198 k = ![6, k.val / 8, 6, 16 * (k.val % 8)] := by decide +kernel
instance closedOff_k0_off198 (k : Fin k0_t4_loop.trips) : ClosedOff (k0_off198 k) := ⟨![6, k.val / 8, 6, 16 * (k.val % 8)], off198_eq k⟩
theorem off199_eq : ∀ k : Fin k0_t4_loop.trips, k0_off199 k = ![6, k.val / 8, 7, 16 * (k.val % 8)] := by decide +kernel
instance closedOff_k0_off199 (k : Fin k0_t4_loop.trips) : ClosedOff (k0_off199 k) := ⟨![6, k.val / 8, 7, 16 * (k.val % 8)], off199_eq k⟩
theorem off200_eq : ∀ k : Fin k0_t4_loop.trips, k0_off200 k = ![7, k.val / 8, 0, 16 * (k.val % 8)] := by decide +kernel
instance closedOff_k0_off200 (k : Fin k0_t4_loop.trips) : ClosedOff (k0_off200 k) := ⟨![7, k.val / 8, 0, 16 * (k.val % 8)], off200_eq k⟩
theorem off201_eq : ∀ k : Fin k0_t4_loop.trips, k0_off201 k = ![7, k.val / 8, 1, 16 * (k.val % 8)] := by decide +kernel
instance closedOff_k0_off201 (k : Fin k0_t4_loop.trips) : ClosedOff (k0_off201 k) := ⟨![7, k.val / 8, 1, 16 * (k.val % 8)], off201_eq k⟩
theorem off202_eq : ∀ k : Fin k0_t4_loop.trips, k0_off202 k = ![7, k.val / 8, 2, 16 * (k.val % 8)] := by decide +kernel
instance closedOff_k0_off202 (k : Fin k0_t4_loop.trips) : ClosedOff (k0_off202 k) := ⟨![7, k.val / 8, 2, 16 * (k.val % 8)], off202_eq k⟩
theorem off203_eq : ∀ k : Fin k0_t4_loop.trips, k0_off203 k = ![7, k.val / 8, 3, 16 * (k.val % 8)] := by decide +kernel
instance closedOff_k0_off203 (k : Fin k0_t4_loop.trips) : ClosedOff (k0_off203 k) := ⟨![7, k.val / 8, 3, 16 * (k.val % 8)], off203_eq k⟩
theorem off204_eq : ∀ k : Fin k0_t4_loop.trips, k0_off204 k = ![7, k.val / 8, 4, 16 * (k.val % 8)] := by decide +kernel
instance closedOff_k0_off204 (k : Fin k0_t4_loop.trips) : ClosedOff (k0_off204 k) := ⟨![7, k.val / 8, 4, 16 * (k.val % 8)], off204_eq k⟩
theorem off205_eq : ∀ k : Fin k0_t4_loop.trips, k0_off205 k = ![7, k.val / 8, 5, 16 * (k.val % 8)] := by decide +kernel
instance closedOff_k0_off205 (k : Fin k0_t4_loop.trips) : ClosedOff (k0_off205 k) := ⟨![7, k.val / 8, 5, 16 * (k.val % 8)], off205_eq k⟩
theorem off206_eq : ∀ k : Fin k0_t4_loop.trips, k0_off206 k = ![7, k.val / 8, 6, 16 * (k.val % 8)] := by decide +kernel
instance closedOff_k0_off206 (k : Fin k0_t4_loop.trips) : ClosedOff (k0_off206 k) := ⟨![7, k.val / 8, 6, 16 * (k.val % 8)], off206_eq k⟩
theorem off207_eq : ∀ k : Fin k0_t4_loop.trips, k0_off207 k = ![7, k.val / 8, 7, 16 * (k.val % 8)] := by decide +kernel
instance closedOff_k0_off207 (k : Fin k0_t4_loop.trips) : ClosedOff (k0_off207 k) := ⟨![7, k.val / 8, 7, 16 * (k.val % 8)], off207_eq k⟩

omit [FloatOps F] in
/-- Sixteen consecutive words loaded from a scratch whose words are all 0 or 1 are 0 or 1. -/
theorem ld012 {fe : Buf (Elt F) ((V d (cV L) (jV L)).loc cc0_scratch6)} (hfe : ∀ n, fe n = 0#32 ∨ fe n = 1#32)
    (off : Fin 1 → ℕ) (inb : ∀ a, off a + S16.size a ≤ S2304.size a) (x : S16.Idx) :
    (b6W).view.readAt (Elt F) (Rect.unit (s := S2304) off S16.size inb).toLoadRect fe x = 0#32
      ∨ (b6W).view.readAt (Elt F) (Rect.unit (s := S2304) off S16.size inb).toLoadRect fe x = 1#32 := by
  simp only [View.readAt_apply, Memref.view_whole, View.read_whole]
  exact hfe _

omit [FloatOps F] in
/-- A lane of sixteen consecutive words loaded from the attribute scratch is the scratch's word at that position. -/
theorem ldApply2 (fe : Buf (Elt F) ((V d (cV L) (jV L)).loc cc0_scratch6)) (off : Fin 1 → ℕ)
    (inb : ∀ a, off a + S16.size a ≤ S2304.size a) (x : S16.Idx) (n : ℕ) (hn : off 0 + (x 0).val = n) :
    (b6W).view.readAt (Elt F) (Rect.unit (s := S2304) off S16.size inb).toLoadRect fe x = at1 (fe : IVec S2304 32) n := by
  have hlt : n < 2304 := by
    have h1 : off 0 + 16 ≤ 2304 := inb 0
    have h2 : (x 0).val < 16 := (x 0).isLt
    omega
  have hidx : ((Rect.unit (s := S2304) off S16.size inb).toLoadRect.idx x : S2304.Idx) = ix1 (Fin.ofNat 2304 n) := by
    funext a
    match a with
    | ⟨0, _⟩ =>
      refine Fin.ext ?_
      show off 0 + 1 * (x 0).val = n % 2304
      rw [Nat.mod_eq_of_lt hlt]; omega
  simp only [View.readAt_apply, Memref.view_whole, View.read_whole]
  exact congrArg (fe : IVec S2304 32) hidx

/-- The three attribute vectors of group `k`. -/
abbrev Ea2 (fe : Buf (Elt F) ((V d (cV L) (jV L)).loc cc0_scratch6)) (k : Fin k0_t4_loop.trips) : Vec F S16 .i32 :=
  (b6W).view.readAt (Elt F) (Rect.unit (s := S2304) (k0_off142 k) S16.size (k0_off142_inb k)).toLoadRect fe
abbrev Eb2 (fe : Buf (Elt F) ((V d (cV L) (jV L)).loc cc0_scratch6)) (k : Fin k0_t4_loop.trips) : Vec F S16 .i32 :=
  (b6W).view.readAt (Elt F) (Rect.unit (s := S2304) (k0_off143 k 768#32) S16.size (k0_off143_inb k 0)).toLoadRect fe
abbrev Ec2 (fe : Buf (Elt F) ((V d (cV L) (jV L)).loc cc0_scratch6)) (k : Fin k0_t4_loop.trips) : Vec F S16 .i32 :=
  (b6W).view.readAt (Elt F) (Rect.unit (s := S2304) (k0_off143 k 1536#32) S16.size (k0_off143_inb k 1)).toLoadRect fe

omit [FloatOps F] in
/-- Lane `x` of group `k`'s combined row number is the combined row of the chunk's edge `16·k + x`. -/
theorem combVal2 (fe : Buf (Elt F) ((V d (cV L) (jV L)).loc cc0_scratch6)) (hfe : ∀ n, fe n = 0#32 ∨ fe n = 1#32)
    (k : Fin k0_t4_loop.trips) (x : S16.Idx) :
    ((k0_pay1 (Ea2 d L fe k) (Eb2 d L fe k) (Ec2 d L fe k)) x).toNat = combAt (fe : IVec S2304 32) (16 * k.val + (x 0).val) := by
  rw [comb_toNat (ld012 d L hfe _ _) (ld012 d L hfe _ _) (ld012 d L hfe _ _)]
  unfold combAt
  rw [ldApply2 d L fe _ _ x (16 * k.val + (x 0).val) (by rw [k0_off142_eq k]; rfl),
    ldApply2 d L fe _ _ x (768 + (16 * k.val + (x 0).val)) (by rw [show (768#32 : BitVec 32) = BitVec.ofNat 32 (768 + 768 * (0 : Fin 2).val) from rfl, k0_off143_eq k 0]; show 768 * 0 + 16 * k.val + 768 + (x 0).val = _; omega),
    ldApply2 d L fe _ _ x (1536 + (16 * k.val + (x 0).val)) (by rw [show (1536#32 : BitVec 32) = BitVec.ofNat 32 (768 + 768 * (1 : Fin 2).val) from rfl, k0_off143_eq k 1]; show 768 * 1 + 16 * k.val + 768 + (x 0).val = _; omega)]

omit [FloatOps F] in
/-- A combined row is at most 15 when the attribute words are 0 or 1. -/
theorem combAtLe2 (fe : Buf (Elt F) ((V d (cV L) (jV L)).loc cc0_scratch6)) (hfe : ∀ n, fe n = 0#32 ∨ fe n = 1#32) (p : ℕ) :
    combAt (fe : IVec S2304 32) p ≤ 15 := by
  unfold combAt
  have h : ∀ n, (at1 (fe : IVec S2304 32) n).toNat ≤ 1 := fun n => by
    rcases hfe (ix1 (Fin.ofNat 2304 n)) with h | h
    · show (fe (ix1 (Fin.ofNat 2304 n))).toNat ≤ 1; rw [h]; decide
    · show (fe (ix1 (Fin.ofNat 2304 n))).toNat ≤ 1; rw [h]; decide
  have := h p; have := h (768 + p); have := h (1536 + p)
  omega

/-- The gathered vector of column `c` at trip `k`, laid on its sixteen lanes of the output scratch, is the chunk's
    value there. -/
theorem pieceVal2 (fe : Buf (Elt F) ((V d (cV L) (jV L)).loc cc0_scratch6)) (ft : Buf (Elt F) ((V d (cV L) (jV L)).loc cc0_scratch4))
    (hfe : ∀ n, fe n = 0#32 ∨ fe n = 1#32) (k : Fin k0_t4_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea2 d L fe k) (Eb2 d L fe k) (Ec2 d L fe k)) (broadcast S16 q)] : Fin 1 → IVec S16 32) a x).toNat < S4096.size a)
    (hcast : S16.ShapeCasts S1x1x1x16) (x : S1x1x1x16.Idx) :
    shapeCast S1x1x1x16 (loadIdx ((b4W).view.readAt (Elt F) (LoadRect.whole S4096) ft)
        ![addi (k0_pay1 (Ea2 d L fe k) (Eb2 d L fe k) (Ec2 d L fe k)) (broadcast S16 q)] h) hcast x
      = gatherVal (ft : FVec F S4096 .f32) (fe : IVec S2304 32) ((Rect.unit (s := S8x6x8x128) off S1x1x1x16.size inb).emb x) := by
  have hx0 : (x 0).val = 0 := Nat.lt_one_iff.mp (x 0).isLt
  have hx1 : (x 1).val = 0 := Nat.lt_one_iff.mp (x 1).isLt
  have hx2 : (x 2).val = 0 := Nat.lt_one_iff.mp (x 2).isLt
  have hx3 : (x 3).val < 16 := (x 3).isLt
  have hcomb := combVal2 d L fe hfe k (ix1 (x 3))
  have hle := combAtLe2 d L fe hfe (16 * k.val + (x 3).val)
  have hcle : ∀ y, ((k0_pay1 (Ea2 d L fe k) (Eb2 d L fe k) (Ec2 d L fe k)) y).toNat ≤ 15 :=
    comb_le (ld012 d L hfe _ _) (ld012 d L hfe _ _) (ld012 d L hfe _ _)
  rw [shapeCast_apply _ hcast x (ix1 (x 3)) (by
    rw [Shape.rowMajor_val_one, Shape.rowMajor_val_four]
    show (x 3).val = (((x 0).val * 1 + (x 1).val) * 1 + (x 2).val) * 16 + (x 3).val
    rw [hx0, hx1, hx2]; omega)]
  have hidx : ((LoadRect.whole S4096).idx (idxAt ![addi (k0_pay1 (Ea2 d L fe k) (Eb2 d L fe k) (Ec2 d L fe k)) (broadcast S16 q)] h (ix1 (x 3))) : S4096.Idx)
      = ix1 (Fin.ofNat 4096 (64 * (8 * ((Rect.unit (s := S8x6x8x128) off S1x1x1x16.size inb).emb x 0).val
            + ((Rect.unit (s := S8x6x8x128) off S1x1x1x16.size inb).emb x 2).val)
          + combAt (fe : IVec S2304 32) (128 * ((Rect.unit (s := S8x6x8x128) off S1x1x1x16.size inb).emb x 1).val
            + ((Rect.unit (s := S8x6x8x128) off S1x1x1x16.size inb).emb x 3).val))) := by
    funext a
    match a with
    | ⟨0, _⟩ =>
      refine Fin.ext ?_
      show 0 + 1 * (addi (k0_pay1 (Ea2 d L fe k) (Eb2 d L fe k) (Ec2 d L fe k)) (broadcast S16 q) (ix1 (x 3))).toNat
        = (64 * (8 * (off 0 + 1 * (x 0).val) + (off 2 + 1 * (x 2).val))
            + combAt (fe : IVec S2304 32) (128 * (off 1 + 1 * (x 1).val) + (off 3 + 1 * (x 3).val))) % 4096
      rw [Nat.zero_add, Nat.one_mul, idx_toNat hcle (by omega), hcomb, hq, hoff]
      show combAt (fe : IVec S2304 32) (16 * k.val + (x 3).val) + 64 * c
        = (64 * (8 * (c / 8 + 1 * (x 0).val) + (c % 8 + 1 * (x 2).val))
            + combAt (fe : IVec S2304 32) (128 * (k.val / 8 + 1 * (x 1).val) + (16 * (k.val % 8) + 1 * (x 3).val))) % 4096
      rw [hx0, hx1, hx2]
      have e1 : 128 * (k.val / 8 + 1 * 0) + (16 * (k.val % 8) + 1 * (x 3).val) = 16 * k.val + (x 3).val := by omega
      have e2 : 64 * (8 * (c / 8 + 1 * 0) + (c % 8 + 1 * 0)) = 64 * c := by omega
      rw [e1, e2, Nat.mod_eq_of_lt (by omega)]
      omega
  unfold gatherVal loadIdx
  simp only [View.readAt_apply, Memref.view_whole, View.read_whole]
  exact congrArg (ft : FVec F S4096 .f32) hidx

/-- Column `c`'s store of trip `k` is a good piece. -/
theorem pieceGood2 (fe : Buf (Elt F) ((V d (cV L) (jV L)).loc cc0_scratch6)) (ft : Buf (Elt F) ((V d (cV L) (jV L)).loc cc0_scratch4))
    (hfe : ∀ n, fe n = 0#32 ∨ fe n = 1#32) (k : Fin k0_t4_loop.trips) (c : ℕ) (hc : c < 64) (q : BitVec 32) (hq : q.toNat = 64 * c)
    (off : Fin 4 → ℕ) (hoff : off = ![c / 8, k.val / 8, c % 8, 16 * (k.val % 8)])
    (inb : ∀ a, off a + S1x1x1x16.size a ≤ S8x6x8x128.size a)
    (h : ∀ a x, ((![addi (k0_pay1 (Ea2 d L fe k) (Eb2 d L fe k) (Ec2 d L fe k)) (broadcast S16 q)] : Fin 1 → IVec S16 32) a x).toNat < S4096.size a)
    (hcast : S16.ShapeCasts S1x1x1x16) :
    PieceGood (Val := Elt F) (gatherVal (ft : FVec F S4096 .f32) (fe : IVec S2304 32)) k.val c
      ⟨Rect.unit (s := S8x6x8x128) off S1x1x1x16.size inb,
        shapeCast S1x1x1x16 (loadIdx ((b4W).view.readAt (Elt F) (LoadRect.whole S4096) ft)
          ![addi (k0_pay1 (Ea2 d L fe k) (Eb2 d L fe k) (Ec2 d L fe k)) (broadcast S16 q)] h) hcast⟩ where
  off := hoff
  size := rfl
  stride := fun _ => rfl
  val := fun x => pieceVal2 d L fe ft hfe k c hc q hq off hoff inb h hcast x

omit [FloatOps F] in
/-- What a trip leaves, through the output scratch's own memref: reading the whole scratch is reading its contents. -/
theorem tripValWhole2 (fo : Buf (Elt F) ((V d (cV L) (jV L)).loc cc0_scratch8)) (G : S8x6x8x128.Idx → Elt F .f32) (k : ℕ)
    (Ls : List (View.Piece (Elt F) S8x6x8x128 .f32)) (hlen : Ls.length = 64) (hg : GoodList G k Ls)
    (hinv : ∀ j : S8x6x8x128.Idx, grp j < k → fo j = G j) :
    ∀ j : S8x6x8x128.Idx, grp j < k + 1 → (b8W).view.writes (Elt F) fo Ls j = G j :=
  trip_val (b8W).view fo G k Ls hlen hg hinv

/-- Before trip `k`: the attribute scratch and the table scratch as they were, and the output scratch holding the chunk's
    values on the groups below `k`. -/
def innerInvV2 (fe : Buf (Elt F) ((V d (cV L) (jV L)).loc cc0_scratch6)) (ft : Buf (Elt F) ((V d (cV L) (jV L)).loc cc0_scratch4))
    (k : ℕ) (_ : PUnit) : sProp 𝕄 :=
  iprop(((b6W).view.loc (V d (cV L) (jV L)) ↦{fullShare} fe) ∗ ((b4W).view.loc (V d (cV L) (jV L)) ↦{fullShare} ft)
    ∗ ∃ fo, ((b8W).view.loc (V d (cV L) (jV L)) ↦{fullShare} fo)
      ∗ ⌜∀ j : S8x6x8x128.Idx, grp j < k → fo j = gatherVal (ft : FVec F S4096 .f32) (fe : IVec S2304 32) j⌝)

set_option maxHeartbeats 8000000 in
/-- One trip of the loop keeps the invariant: group `k` is written. -/
theorem inner_regionV2 (fe : Buf (Elt F) ((V d (cV L) (jV L)).loc cc0_scratch6)) (ft : Buf (Elt F) ((V d (cV L) (jV L)).loc cc0_scratch4))
    (hfe : ∀ n, fe n = 0#32 ∨ fe n = 1#32) (v1 : BitVec 32) (v1082 v1966 v1967 : IVec S16 32) (c0 : BitVec 32) :
    ∀ (k : Fin k0_t4_loop.trips) (acc : PUnit.{1}),
      innerInvV2 (F := F) d L fe ft k acc ⊢
        wp frame (wpE (defs₀ (F := F)) 𝒱₀ (V d (cV L) (jV L)) none) Set.univ
          ((k0_t4_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v1 v1082 v1966 v1967 c0) k acc)
          (innerInvV2 (F := F) d L fe ft (k + 1)) := by
  intro k _
  unfold innerInvV2
  iintro ⟨H5, H4, %fo, H7, %hinv⟩
  unfold k0_t4_body
  sl_exec (disch := (refine chk_of_le (comb_le (ld012 d L hfe _ _) (ld012 d L hfe _ _) (ld012 d L hfe _ _)) ?_; decide))
  iterate 70 (first | (rw [SparseCore.vectorLoadIdx_bind (c := V d (cV L) (jV L))]; sl_exec (disch := (refine chk_of_le (comb_le (ld012 d L hfe _ _) (ld012 d L hfe _ _) (ld012 d L hfe _ _)) ?_; decide))) | skip)
  sl_step
  isplitl [H5]; · iexact H5
  isplitl [H4]; · iexact H4
  iexists _
  isplitl [H7]; · iexact H7
  ipureintro
  refine tripValWhole2 d L fo _ k.val _ rfl ?_ hinv
  exact
    (And.intro (pieceGood2 d L fe ft hfe k 63 (by decide) _ (by decide) _ (off207_eq k) _ _ _)
    (And.intro (pieceGood2 d L fe ft hfe k 62 (by decide) _ (by decide) _ (off206_eq k) _ _ _)
    (And.intro (pieceGood2 d L fe ft hfe k 61 (by decide) _ (by decide) _ (off205_eq k) _ _ _)
    (And.intro (pieceGood2 d L fe ft hfe k 60 (by decide) _ (by decide) _ (off204_eq k) _ _ _)
    (And.intro (pieceGood2 d L fe ft hfe k 59 (by decide) _ (by decide) _ (off203_eq k) _ _ _)
    (And.intro (pieceGood2 d L fe ft hfe k 58 (by decide) _ (by decide) _ (off202_eq k) _ _ _)
    (And.intro (pieceGood2 d L fe ft hfe k 57 (by decide) _ (by decide) _ (off201_eq k) _ _ _)
    (And.intro (pieceGood2 d L fe ft hfe k 56 (by decide) _ (by decide) _ (off200_eq k) _ _ _)
    (And.intro (pieceGood2 d L fe ft hfe k 55 (by decide) _ (by decide) _ (off199_eq k) _ _ _)
    (And.intro (pieceGood2 d L fe ft hfe k 54 (by decide) _ (by decide) _ (off198_eq k) _ _ _)
    (And.intro (pieceGood2 d L fe ft hfe k 53 (by decide) _ (by decide) _ (off197_eq k) _ _ _)
    (And.intro (pieceGood2 d L fe ft hfe k 52 (by decide) _ (by decide) _ (off196_eq k) _ _ _)
    (And.intro (pieceGood2 d L fe ft hfe k 51 (by decide) _ (by decide) _ (off195_eq k) _ _ _)
    (And.intro (pieceGood2 d L fe ft hfe k 50 (by decide) _ (by decide) _ (off194_eq k) _ _ _)
    (And.intro (pieceGood2 d L fe ft hfe k 49 (by decide) _ (by decide) _ (off193_eq k) _ _ _)
    (And.intro (pieceGood2 d L fe ft hfe k 48 (by decide) _ (by decide) _ (off192_eq k) _ _ _)
    (And.intro (pieceGood2 d L fe ft hfe k 47 (by decide) _ (by decide) _ (off191_eq k) _ _ _)
    (And.intro (pieceGood2 d L fe ft hfe k 46 (by decide) _ (by decide) _ (off190_eq k) _ _ _)
    (And.intro (pieceGood2 d L fe ft hfe k 45 (by decide) _ (by decide) _ (off189_eq k) _ _ _)
    (And.intro (pieceGood2 d L fe ft hfe k 44 (by decide) _ (by decide) _ (off188_eq k) _ _ _)
    (And.intro (pieceGood2 d L fe ft hfe k 43 (by decide) _ (by decide) _ (off187_eq k) _ _ _)
    (And.intro (pieceGood2 d L fe ft hfe k 42 (by decide) _ (by decide) _ (off186_eq k) _ _ _)
    (And.intro (pieceGood2 d L fe ft hfe k 41 (by decide) _ (by decide) _ (off185_eq k) _ _ _)
    (And.intro (pieceGood2 d L fe ft hfe k 40 (by decide) _ (by decide) _ (off184_eq k) _ _ _)
    (And.intro (pieceGood2 d L fe ft hfe k 39 (by decide) _ (by decide) _ (off183_eq k) _ _ _)
    (And.intro (pieceGood2 d L fe ft hfe k 38 (by decide) _ (by decide) _ (off182_eq k) _ _ _)
    (And.intro (pieceGood2 d L fe ft hfe k 37 (by decide) _ (by decide) _ (off181_eq k) _ _ _)
    (And.intro (pieceGood2 d L fe ft hfe k 36 (by decide) _ (by decide) _ (off180_eq k) _ _ _)
    (And.intro (pieceGood2 d L fe ft hfe k 35 (by decide) _ (by decide) _ (off179_eq k) _ _ _)
    (And.intro (pieceGood2 d L fe ft hfe k 34 (by decide) _ (by decide) _ (off178_eq k) _ _ _)
    (And.intro (pieceGood2 d L fe ft hfe k 33 (by decide) _ (by decide) _ (off177_eq k) _ _ _)
    (And.intro (pieceGood2 d L fe ft hfe k 32 (by decide) _ (by decide) _ (off176_eq k) _ _ _)
    (And.intro (pieceGood2 d L fe ft hfe k 31 (by decide) _ (by decide) _ (off175_eq k) _ _ _)
    (And.intro (pieceGood2 d L fe ft hfe k 30 (by decide) _ (by decide) _ (off174_eq k) _ _ _)
    (And.intro (pieceGood2 d L fe ft hfe k 29 (by decide) _ (by decide) _ (off173_eq k) _ _ _)
    (And.intro (pieceGood2 d L fe ft hfe k 28 (by decide) _ (by decide) _ (off172_eq k) _ _ _)
    (And.intro (pieceGood2 d L fe ft hfe k 27 (by decide) _ (by decide) _ (off171_eq k) _ _ _)
    (And.intro (pieceGood2 d L fe ft hfe k 26 (by decide) _ (by decide) _ (off170_eq k) _ _ _)
    (And.intro (pieceGood2 d L fe ft hfe k 25 (by decide) _ (by decide) _ (off169_eq k) _ _ _)
    (And.intro (pieceGood2 d L fe ft hfe k 24 (by decide) _ (by decide) _ (off168_eq k) _ _ _)
    (And.intro (pieceGood2 d L fe ft hfe k 23 (by decide) _ (by decide) _ (off167_eq k) _ _ _)
    (And.intro (pieceGood2 d L fe ft hfe k 22 (by decide) _ (by decide) _ (off166_eq k) _ _ _)
    (And.intro (pieceGood2 d L fe ft hfe k 21 (by decide) _ (by decide) _ (off165_eq k) _ _ _)
    (And.intro (pieceGood2 d L fe ft hfe k 20 (by decide) _ (by decide) _ (off164_eq k) _ _ _)
    (And.intro (pieceGood2 d L fe ft hfe k 19 (by decide) _ (by decide) _ (off163_eq k) _ _ _)
    (And.intro (pieceGood2 d L fe ft hfe k 18 (by decide) _ (by decide) _ (off162_eq k) _ _ _)
    (And.intro (pieceGood2 d L fe ft hfe k 17 (by decide) _ (by decide) _ (off161_eq k) _ _ _)
    (And.intro (pieceGood2 d L fe ft hfe k 16 (by decide) _ (by decide) _ (off160_eq k) _ _ _)
    (And.intro (pieceGood2 d L fe ft hfe k 15 (by decide) _ (by decide) _ (off159_eq k) _ _ _)
    (And.intro (pieceGood2 d L fe ft hfe k 14 (by decide) _ (by decide) _ (off158_eq k) _ _ _)
    (And.intro (pieceGood2 d L fe ft hfe k 13 (by decide) _ (by decide) _ (off157_eq k) _ _ _)
    (And.intro (pieceGood2 d L fe ft hfe k 12 (by decide) _ (by decide) _ (off156_eq k) _ _ _)
    (And.intro (pieceGood2 d L fe ft hfe k 11 (by decide) _ (by decide) _ (off155_eq k) _ _ _)
    (And.intro (pieceGood2 d L fe ft hfe k 10 (by decide) _ (by decide) _ (off154_eq k) _ _ _)
    (And.intro (pieceGood2 d L fe ft hfe k 9 (by decide) _ (by decide) _ (off153_eq k) _ _ _)
    (And.intro (pieceGood2 d L fe ft hfe k 8 (by decide) _ (by decide) _ (off152_eq k) _ _ _)
    (And.intro (pieceGood2 d L fe ft hfe k 7 (by decide) _ (by decide) _ (off151_eq k) _ _ _)
    (And.intro (pieceGood2 d L fe ft hfe k 6 (by decide) _ (by decide) _ (off150_eq k) _ _ _)
    (And.intro (pieceGood2 d L fe ft hfe k 5 (by decide) _ (by decide) _ (off149_eq k) _ _ _)
    (And.intro (pieceGood2 d L fe ft hfe k 4 (by decide) _ (by decide) _ (off148_eq k) _ _ _)
    (And.intro (pieceGood2 d L fe ft hfe k 3 (by decide) _ (by decide) _ (off147_eq k) _ _ _)
    (And.intro (pieceGood2 d L fe ft hfe k 2 (by decide) _ (by decide) _ (off146_eq k) _ _ _)
    (And.intro (pieceGood2 d L fe ft hfe k 1 (by decide) _ (by decide) _ (off145_eq k) _ _ _)
    (And.intro (pieceGood2 d L fe ft hfe k 0 (by decide) _ (by decide) _ (off144_eq k) _ _ _)
    trivial))))))))))))))))))))))))))))))))))))))))))))))))))))))))))))))))

/-- The loop, run from the three scratches: afterwards the output scratch holds the chunk's values everywhere. -/
theorem innerV2_ok (fe : Buf (Elt F) ((V d (cV L) (jV L)).loc cc0_scratch6)) (ft : Buf (Elt F) ((V d (cV L) (jV L)).loc cc0_scratch4)) (fo : Buf (Elt F) ((V d (cV L) (jV L)).loc cc0_scratch8))
    (hfe : ∀ n, fe n = 0#32 ∨ fe n = 1#32) (v1 : BitVec 32) (v1082 v1966 v1967 : IVec S16 32) (c0 : BitVec 32) :
    (iprop(((b6W).view.loc (V d (cV L) (jV L)) ↦{fullShare} fe) ∗ ((b4W).view.loc (V d (cV L) (jV L)) ↦{fullShare} ft)
        ∗ ((b8W).view.loc (V d (cV L) (jV L)) ↦{fullShare} fo)) : sProp 𝕄)
      ⊢ wp frame (wpE (defs₀ (F := F)) 𝒱₀ (V d (cV L) (jV L)) none) Set.univ
          (Scf.Loop.for k0_t4_loop Cert.Kernel.Gen.k0_t4_ok ⟨⟩ (k0_t4_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v1 v1082 v1966 v1967 c0))
          fun _ => iprop(((b6W).view.loc (V d (cV L) (jV L)) ↦{fullShare} fe) ∗ ((b4W).view.loc (V d (cV L) (jV L)) ↦{fullShare} ft)
            ∗ ∃ fo', ((b8W).view.loc (V d (cV L) (jV L)) ↦{fullShare} fo')
              ∗ ⌜∀ j : S8x6x8x128.Idx, fo' j = gatherVal (ft : FVec F S4096 .f32) (fe : IVec S2304 32) j⌝) := by
  iintro ⟨H5, H4, H7⟩
  sl_for (innerInvV2 (F := F) d L fe ft) $$ [H5 H4 H7]
  case region => exact inner_regionV2 d L fe ft hfe v1 v1082 v1966 v1967 c0
  isplitl [H5 H4 H7]
  · unfold innerInvV2
    isplitl [H5]; · iexact H5
    isplitl [H4]; · iexact H4
    iexists _
    isplitl [H7]; · iexact H7
    ipureintro
    intro j hj
    exact absurd hj (Nat.not_lt_zero _)
  · iintro %_ HI
    unfold innerInvV2
    icases HI with ⟨H5, H4, %fo', H7, %hall⟩
    isplitl [H5]; · iexact H5
    isplitl [H4]; · iexact H4
    iexists _
    isplitl [H7]; · iexact H7
    ipureintro
    intro j
    refine hall j ?_
    have h1 : (j 1).val < 6 := (j 1).isLt
    have h3 : (j 3).val < 128 := (j 3).isLt
    show 8 * (j 1).val + (j 3).val / 16 < 48
    omega

end Cert.Proof.K
end
-- ==== Proof.InnerK.lean ====
/-
  The inner loop of a vector subcore's chunk, its three copies gathered: per copy the loop's invariant (the attribute
  scratch and the table scratch unchanged, the output scratch holding the chunk's values on the groups already
  written), one trip keeping it, and the whole loop from the three scratches. After the forty-eight trips every
  element of the output scratch is the table word of its column at its edge's combined row.
-/
import proofs.«203789_g40862318854646_cont_8to1_b_1018_13_alg».proof.Proof.Inner0K
import proofs.«203789_g40862318854646_cont_8to1_b_1018_13_alg».proof.Proof.Inner1K
import proofs.«203789_g40862318854646_cont_8to1_b_1018_13_alg».proof.Proof.Inner2K

namespace Cert.Proof.K

open Cert.Kernel

/-- Every element of the output scratch belongs to one of the forty-eight groups. -/
theorem grp_lt (j : S8x6x8x128.Idx) : grp j < 48 := by
  have h1 : (j 1).val < 6 := (j 1).isLt
  have h3 : (j 3).val < 128 := (j 3).isLt
  unfold grp
  omega

end Cert.Proof.K
-- ==== Proof.PlugK.lean ====
/-
  The inner loops as the chunk loop uses them: an attribute scratch is held as its three thirds (each filled by its
  own fetch), the loop runs over the whole scratch at the contents the thirds join to, and hands the thirds back.
  A landed third holds words of the attribute array, so they are 0 or 1 and the loop's range checks pass; after the
  loop the output scratch holds the chunk's values, read off the table scratch at the joined attribute words.
-/
import proofs.«203789_g40862318854646_cont_8to1_b_1018_13_alg».proof.Proof.TileDefsK
import proofs.«203789_g40862318854646_cont_8to1_b_1018_13_alg».proof.Proof.GoodK
import proofs.«203789_g40862318854646_cont_8to1_b_1018_13_alg».proof.Proof.InnerK
import Idealize.ShloMosaic.Lib.Writes
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

variable (m : (ℓ : Loc nD τ sig) → Buf (Elt F) ℓ)
variable [FloatOps F]
variable (d : Dev nD) (L : grid0.Coords)

/-! ## Attribute scratch 5 as its three thirds -/

abbrev u5a : Memref sig .scVector .vmem S768 .i32 := (b5W).slice (Rect.unit (s := S2304) ![0] S768.size inb_S2304_S768_0) (fun _ => rfl)
abbrev u5b : Memref sig .scVector .vmem S768 .i32 := (b5W).slice (Rect.unit (s := S2304) ![768] S768.size inb_S2304_S768_768) (fun _ => rfl)
abbrev u5c : Memref sig .scVector .vmem S768 .i32 := (b5W).slice (Rect.unit (s := S2304) ![1536] S768.size inb_S2304_S768_1536) (fun _ => rfl)

/-- A third's elements are the words from its offset on. -/
theorem third_set5 (o : ℕ) (hb : ∀ a, (![o] : Fin 1 → ℕ) a + S768.size a ≤ S2304.size a) :
    ((b5W).slice (Rect.unit (s := S2304) ![o] S768.size hb) (fun _ => rfl)).view.set
      = Finset.univ.filter (fun j : S2304.Idx => o ≤ (j 0).val ∧ (j 0).val < o + 768) := by
  show ((View.whole cc0_scratch5).slice (Rect.unit (s := S2304) ![o] S768.size hb)).set = _
  rw [View.set_slice_whole]
  ext j
  rw [Rect.mem_set_unit, Finset.mem_filter]
  constructor
  · intro h; exact ⟨Finset.mem_univ _, h 0⟩
  · rintro ⟨-, h1, h2⟩ a
    match a with
    | ⟨0, _⟩ => exact ⟨h1, h2⟩

theorem mem_u5a {i : S2304.Idx} : i ∈ (u5a).view.set ↔ (i 0).val < 768 := by
  rw [third_set5, Finset.mem_filter]; constructor
  · rintro ⟨-, -, h⟩; omega
  · intro h; exact ⟨Finset.mem_univ _, Nat.zero_le _, by omega⟩
theorem mem_u5b {i : S2304.Idx} : i ∈ (u5b).view.set ↔ 768 ≤ (i 0).val ∧ (i 0).val < 1536 := by
  rw [third_set5, Finset.mem_filter]; constructor
  · rintro ⟨-, h1, h2⟩; omega
  · intro h; exact ⟨Finset.mem_univ _, h.1, by omega⟩
theorem mem_u5c {i : S2304.Idx} : i ∈ (u5c).view.set ↔ 1536 ≤ (i 0).val := by
  rw [third_set5, Finset.mem_filter]; constructor
  · rintro ⟨-, h1, -⟩; exact h1
  · intro h; exact ⟨Finset.mem_univ _, h, by have : (i 0).val < 2304 := (i 0).isLt; omega⟩

theorem cover_u5 : (Finset.univ : Finset S2304.Idx) = (u5a).view.set ∪ ((u5b).view.set ∪ (u5c).view.set) := by
  ext i
  refine ⟨fun _ => ?_, fun _ => Finset.mem_univ _⟩
  have hi : (i 0).val < 2304 := (i 0).isLt
  by_cases h1 : (i 0).val < 768
  · exact Finset.mem_union_left _ (mem_u5a.mpr h1)
  · by_cases h2 : (i 0).val < 1536
    · exact Finset.mem_union_right _ (Finset.mem_union_left _ (mem_u5b.mpr ⟨by omega, h2⟩))
    · exact Finset.mem_union_right _ (Finset.mem_union_right _ (mem_u5c.mpr (by omega)))
theorem disj_u5_a : Disjoint (u5a).view.set ((u5b).view.set ∪ (u5c).view.set) := by
  rw [Finset.disjoint_left]; intro i h1 h2
  have ha := mem_u5a.mp h1
  rcases Finset.mem_union.mp h2 with h | h
  · have := mem_u5b.mp h; omega
  · have := mem_u5c.mp h; omega
theorem disj_u5_b : Disjoint (u5b).view.set (u5c).view.set := by
  rw [Finset.disjoint_left]; intro i h1 h2
  have hb := mem_u5b.mp h1
  have hc := mem_u5c.mp h2
  omega

/-- The scratch's contents from its thirds': words 0 …, 768 …, 1536 …. -/
def joinE5 (fa fb fc : Buf (Elt F) ((b5W).view.loc (V d (cV L) (jV L)))) : Buf (Elt F) ((b5W).view.loc (V d (cV L) (jV L))) :=
  fun i => if ((i : S2304.Idx) 0).val < 768 then fa i else if ((i : S2304.Idx) 0).val < 1536 then fb i else fc i

omit [FloatOps F] in
theorem joinE5_a (fa fb fc : Buf (Elt F) ((b5W).view.loc (V d (cV L) (jV L)))) (i : S2304.Idx) (hi : i ∈ (u5a).view.set) : joinE5 (F := F) d L fa fb fc i = fa i := by
  have h := mem_u5a.mp hi
  unfold joinE5; rw [if_pos h]
omit [FloatOps F] in
theorem joinE5_b (fa fb fc : Buf (Elt F) ((b5W).view.loc (V d (cV L) (jV L)))) (i : S2304.Idx) (hi : i ∈ (u5b).view.set) : joinE5 (F := F) d L fa fb fc i = fb i := by
  have h := mem_u5b.mp hi
  have hn : ¬ (i 0).val < 768 := by omega
  unfold joinE5; rw [if_neg hn, if_pos h.2]
omit [FloatOps F] in
theorem joinE5_c (fa fb fc : Buf (Elt F) ((b5W).view.loc (V d (cV L) (jV L)))) (i : S2304.Idx) (hi : i ∈ (u5c).view.set) : joinE5 (F := F) d L fa fb fc i = fc i := by
  have h := mem_u5c.mp hi
  have hn : ¬ (i 0).val < 768 := by omega
  have hn' : ¬ (i 0).val < 1536 := by omega
  unfold joinE5; rw [if_neg hn, if_neg hn']

set_option maxHeartbeats 2000000 in
omit [FloatOps F] in
/-- The whole scratch is its three thirds, -/
theorem thirds_split5 (f : Buf (Elt F) ((b5W).view.loc (V d (cV L) (jV L)))) :
    (((b5W).view.loc (V d (cV L) (jV L))) ↦{fullShare} f : sProp 𝕄)
      ⊢ iprop(((u5a).view.loc (V d (cV L) (jV L)) ↦[(u5a).view.set]{fullShare} f) ∗ ((u5b).view.loc (V d (cV L) (jV L)) ↦[(u5b).view.set]{fullShare} f)
        ∗ ((u5c).view.loc (V d (cV L) (jV L)) ↦[(u5c).view.set]{fullShare} f)) := by
  have h := (pointsTo_union (nD := nD) (τ := τ) (sig := sig) (Ix := HIx 1) (Val := Elt F) (Name := ℕ) (U := UU) (Lvl := ℕ) (ℓ := ((b5W).view.loc (V d (cV L) (jV L)))) (q := fullShare) (f := f) disj_u5_a).1
  have h' := (pointsTo_union (nD := nD) (τ := τ) (sig := sig) (Ix := HIx 1) (Val := Elt F) (Name := ℕ) (U := UU) (Lvl := ℕ) (ℓ := ((b5W).view.loc (V d (cV L) (jV L)))) (q := fullShare) (f := f) disj_u5_b).1
  rw [← cover_u5] at h
  exact h.trans (sep_mono_r h')

set_option maxHeartbeats 2000000 in
omit [FloatOps F] in
/-- and the thirds at one contents are the whole scratch at it. -/
theorem thirds_merge5 (f : Buf (Elt F) ((b5W).view.loc (V d (cV L) (jV L)))) :
    (iprop(((u5a).view.loc (V d (cV L) (jV L)) ↦[(u5a).view.set]{fullShare} f) ∗ ((u5b).view.loc (V d (cV L) (jV L)) ↦[(u5b).view.set]{fullShare} f)
        ∗ ((u5c).view.loc (V d (cV L) (jV L)) ↦[(u5c).view.set]{fullShare} f)) : sProp 𝕄)
      ⊢ (((b5W).view.loc (V d (cV L) (jV L))) ↦{fullShare} f) := by
  have h := (pointsTo_union (nD := nD) (τ := τ) (sig := sig) (Ix := HIx 1) (Val := Elt F) (Name := ℕ) (U := UU) (Lvl := ℕ) (ℓ := ((b5W).view.loc (V d (cV L) (jV L)))) (q := fullShare) (f := f) disj_u5_a).2
  have h' := (pointsTo_union (nD := nD) (τ := τ) (sig := sig) (Ix := HIx 1) (Val := Elt F) (Name := ℕ) (U := UU) (Lvl := ℕ) (ℓ := ((b5W).view.loc (V d (cV L) (jV L)))) (q := fullShare) (f := f) disj_u5_b).2
  rw [← cover_u5] at h
  exact (sep_mono_r h').trans h

/-! ## Slot 0: the inner loop over the scratch held as its thirds -/

/-- A third after its fetch has landed: the attribute array's words from `off` on written over what it held. -/
abbrev landT5 (o : ℕ) (hb : ∀ a, (![o] : Fin 1 → ℕ) a + S768.size a ≤ S2304.size a) (g : Buf (Elt F) ((b5W).view.loc (V d (cV L) (jV L))))
    (off : Fin 1 → ℕ) (inb : ∀ a, off a + S768.size a ≤ S2400000.size a) : Buf (Elt F) ((b5W).view.loc (V d (cV L) (jV L))) :=
  ((b5W).slice (Rect.unit (s := S2304) ![o] S768.size hb) (fun _ => rfl)).view.writes (Elt F) g
    [⟨Rect.whole S768, ReadAs.same.apply (((eaW).slice (Rect.unit (s := S2400000) off S768.size inb) (fun _ => rfl)).view.read (Elt F) (eaC m d))⟩]

omit [FloatOps F] in
/-- A landed third's words are words of the attribute array: 0 or 1. -/
theorem landed01_5 (hea : ∀ n, eaC m d n = 0#32 ∨ eaC m d n = 1#32) (o : ℕ) (hb : ∀ a, (![o] : Fin 1 → ℕ) a + S768.size a ≤ S2304.size a)
    (g : Buf (Elt F) ((b5W).view.loc (V d (cV L) (jV L)))) (off : Fin 1 → ℕ) (inb : ∀ a, off a + S768.size a ≤ S2400000.size a)
    (i : S2304.Idx) (hi : i ∈ ((b5W).slice (Rect.unit (s := S2304) ![o] S768.size hb) (fun _ => rfl)).view.set) :
    landT5 m d L o hb g off inb i = 0#32 ∨ landT5 m d L o hb g off inb i = 1#32 := by
  obtain ⟨x, -, rfl⟩ := Finset.mem_map.mp hi
  unfold landT5
  have e := View.write_univ_eq_writes_whole (Val := Elt F) ((b5W).slice (Rect.unit (s := S2304) ![o] S768.size hb) (fun _ => rfl)).view g []
    (ReadAs.same.apply (((eaW).slice (Rect.unit (s := S2400000) off S768.size inb) (fun _ => rfl)).view.read (Elt F) (eaC m d)))
  rw [View.writes_nil] at e
  rw [show (((b5W).slice (Rect.unit (s := S2304) ![o] S768.size hb) (fun _ => rfl)).view.writes (Elt F) g
      [⟨Rect.whole S768, ReadAs.same.apply (((eaW).slice (Rect.unit (s := S2400000) off S768.size inb) (fun _ => rfl)).view.read (Elt F) (eaC m d))⟩])
    = View.write (Elt F) ((b5W).slice (Rect.unit (s := S2304) ![o] S768.size hb) (fun _ => rfl)).view g
      (ReadAs.same.apply (((eaW).slice (Rect.unit (s := S2400000) off S768.size inb) (fun _ => rfl)).view.read (Elt F) (eaC m d))) Finset.univ from e.symm]
  rw [View.write_emb_of_mem _ _ (Finset.mem_univ x)]
  simp only [cast_eq, View.read_apply]
  exact hea _

/-- What the loop leaves in the output scratch: the chunk's values, from the table scratch and the attribute words. -/
def R0 (ft : Buf (Elt F) ((V d (cV L) (jV L)).loc cc0_scratch4)) (_ : Fin k0_t1_loop.trips) (fa fb fc : Buf (Elt F) ((b5W).view.loc (V d (cV L) (jV L)))) (f : Buf (Elt F) ((b7W).view.loc (V d (cV L) (jV L)))) : Prop :=
  ∀ j : S8x6x8x128.Idx, f j = gatherVal (ft : FVec F S4096 .f32) ((joinE5 (F := F) d L fa fb fc) : IVec S2304 32) j

/-- The loop's invariant over the thirds' contents: the words are 0 or 1, and the value-level invariant at the joined contents. -/
def Is0 (ft : Buf (Elt F) ((V d (cV L) (jV L)).loc cc0_scratch4)) (_ : Fin k0_t1_loop.trips) (fa fb fc : Buf (Elt F) ((b5W).view.loc (V d (cV L) (jV L)))) (k : ℕ) (acc : Unit) : sProp 𝕄 :=
  iprop(⌜∀ n, (joinE5 (F := F) d L fa fb fc) n = 0#32 ∨ (joinE5 (F := F) d L fa fb fc) n = 1#32⌝ ∗ innerInvV0 (F := F) d L (joinE5 (F := F) d L fa fb fc) ft k acc)

/-- One trip keeps it. -/
theorem plug_reg0 (ft : Buf (Elt F) ((V d (cV L) (jV L)).loc cc0_scratch4)) (v3138 v3140 : BitVec 32) (t : Fin k0_t1_loop.trips) (fa fb fc : Buf (Elt F) ((b5W).view.loc (V d (cV L) (jV L))))
    (k2 : Fin k0_t2_loop.trips) (acc : Unit) :
    Is0 (F := F) d L ft t fa fb fc k2.val acc
      ⊢ wp frame (wpE (defs₀ (F := F)) 𝒱₀ (V d (cV L) (jV L)) none) Set.univ
          (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (Is0 (F := F) d L ft t fa fb fc (k2.val + 1)) := by
  unfold Is0
  iintro ⟨%hfe, HI⟩
  ihave H := (inner_regionV0 d L (joinE5 (F := F) d L fa fb fc) ft hfe v3138 v3140 0#32 1#32 t k2 acc) $$ HI
  iapply (wp_wand_r frame (wpE (defs₀ (F := F)) 𝒱₀ (V d (cV L) (jV L)) none) Set.univ)
  isplitl [H]; · iexact H
  iintro %a Ha
  isplitr
  · ipureintro; exact hfe
  · iexact Ha

/-- Entry: the table scratch, the three landed thirds and the output scratch give the invariant before trip 0. -/
theorem plug_ent0 (hea : ∀ n, eaC m d n = 0#32 ∨ eaC m d n = 1#32) (ft : Buf (Elt F) ((V d (cV L) (jV L)).loc cc0_scratch4)) (t : Fin k0_t1_loop.trips)
    (ga gb gc : Buf (Elt F) ((b5W).view.loc (V d (cV L) (jV L)))) (oa : Fin 1 → ℕ) (ha : ∀ a, oa a + S768.size a ≤ S2400000.size a)
    (ob : Fin 1 → ℕ) (hb : ∀ a, ob a + S768.size a ≤ S2400000.size a) (oc : Fin 1 → ℕ) (hc : ∀ a, oc a + S768.size a ≤ S2400000.size a)
    (f7 : Buf (Elt F) ((b7W).view.loc (V d (cV L) (jV L)))) :
    (iprop(((b4W).view.loc (V d (cV L) (jV L)) ↦{fullShare} ft) ∗ ((u5a).view.loc (V d (cV L) (jV L)) ↦[(u5a).view.set]{fullShare} (landT5 m d L 0 inb_S2304_S768_0 ga oa ha))
        ∗ ((u5b).view.loc (V d (cV L) (jV L)) ↦[(u5b).view.set]{fullShare} (landT5 m d L 768 inb_S2304_S768_768 gb ob hb))
        ∗ ((u5c).view.loc (V d (cV L) (jV L)) ↦[(u5c).view.set]{fullShare} (landT5 m d L 1536 inb_S2304_S768_1536 gc oc hc))
        ∗ (((b7W).view.loc (V d (cV L) (jV L))) ↦{fullShare} f7)) : sProp 𝕄)
      ⊢ Is0 (F := F) d L ft t (landT5 m d L 0 inb_S2304_S768_0 ga oa ha) (landT5 m d L 768 inb_S2304_S768_768 gb ob hb) (landT5 m d L 1536 inb_S2304_S768_1536 gc oc hc) 0 () := by
  unfold Is0 innerInvV0
  iintro ⟨HT, Ha, Hb, Hc, H7⟩
  isplitr
  · ipureintro
    intro i
    by_cases h1 : ((i : S2304.Idx) 0).val < 768
    · rw [joinE5_a d L _ _ _ i (mem_u5a.mpr h1)]
      exact landed01_5 m d L hea 0 _ ga oa ha i (mem_u5a.mpr h1)
    · by_cases h2 : ((i : S2304.Idx) 0).val < 1536
      · rw [joinE5_b d L _ _ _ i (mem_u5b.mpr ⟨by omega, h2⟩)]
        exact landed01_5 m d L hea 768 _ gb ob hb i (mem_u5b.mpr ⟨by omega, h2⟩)
      · rw [joinE5_c d L _ _ _ i (mem_u5c.mpr (by omega))]
        exact landed01_5 m d L hea 1536 _ gc oc hc i (mem_u5c.mpr (by omega))
  isplitl [Ha Hb Hc]
  · iapply (thirds_merge5 (F := F) d L _)
    isplitl [Ha]
    · iapply (Entails.of_eq (pointsTo_congr (fun i hi => (joinE5_a d L _ _ _ i hi).symm))); iexact Ha
    isplitl [Hb]
    · iapply (Entails.of_eq (pointsTo_congr (fun i hi => (joinE5_b d L _ _ _ i hi).symm))); iexact Hb
    · iapply (Entails.of_eq (pointsTo_congr (fun i hi => (joinE5_c d L _ _ _ i hi).symm))); iexact Hc
  isplitl [HT]; · iexact HT
  iexists f7
  isplitl [H7]; · iexact H7
  ipureintro
  intro j hj
  exact absurd hj (Nat.not_lt_zero _)

/-- Exit: after the last trip the thirds are back at their contents and the output scratch holds the chunk's values. -/
theorem plug_ext0 (ft : Buf (Elt F) ((V d (cV L) (jV L)).loc cc0_scratch4)) (t : Fin k0_t1_loop.trips) (fa fb fc : Buf (Elt F) ((b5W).view.loc (V d (cV L) (jV L)))) (acc : Unit) :
    Is0 (F := F) d L ft t fa fb fc (Scf.trips k0_t2_loop.lb k0_t2_loop.ub k0_t2_loop.st) acc
      ⊢ (iprop(((b4W).view.loc (V d (cV L) (jV L)) ↦{fullShare} ft) ∗ ((u5a).view.loc (V d (cV L) (jV L)) ↦[(u5a).view.set]{fullShare} fa)
        ∗ ((u5b).view.loc (V d (cV L) (jV L)) ↦[(u5b).view.set]{fullShare} fb)
        ∗ ((u5c).view.loc (V d (cV L) (jV L)) ↦[(u5c).view.set]{fullShare} fc)
        ∗ (∃ f, ⌜R0 (F := F) d L ft t fa fb fc f⌝ ∗ ((b7W).view.loc (V d (cV L) (jV L))) ↦{fullShare} f)) : sProp 𝕄) := by
  unfold Is0 innerInvV0
  iintro ⟨%hfe, H5, H4, %fo, H7, %hall⟩
  isplitl [H4]; · iexact H4
  ihave H5 := (thirds_split5 (F := F) d L _) $$ H5
  icases H5 with ⟨Ha, Hb, Hc⟩
  isplitl [Ha]
  · iapply (Entails.of_eq (pointsTo_congr (fun i hi => (joinE5_a d L fa fb fc i hi)))); iexact Ha
  isplitl [Hb]
  · iapply (Entails.of_eq (pointsTo_congr (fun i hi => (joinE5_b d L fa fb fc i hi)))); iexact Hb
  isplitl [Hc]
  · iapply (Entails.of_eq (pointsTo_congr (fun i hi => (joinE5_c d L fa fb fc i hi)))); iexact Hc
  iexists fo
  isplitr
  · ipureintro
    intro j
    exact hall j (grp_lt j)
  · iexact H7

/-! ## Attribute scratch 6 as its three thirds -/

abbrev u6a : Memref sig .scVector .vmem S768 .i32 := (b6W).slice (Rect.unit (s := S2304) ![0] S768.size inb_S2304_S768_0) (fun _ => rfl)
abbrev u6b : Memref sig .scVector .vmem S768 .i32 := (b6W).slice (Rect.unit (s := S2304) ![768] S768.size inb_S2304_S768_768) (fun _ => rfl)
abbrev u6c : Memref sig .scVector .vmem S768 .i32 := (b6W).slice (Rect.unit (s := S2304) ![1536] S768.size inb_S2304_S768_1536) (fun _ => rfl)

/-- A third's elements are the words from its offset on. -/
theorem third_set6 (o : ℕ) (hb : ∀ a, (![o] : Fin 1 → ℕ) a + S768.size a ≤ S2304.size a) :
    ((b6W).slice (Rect.unit (s := S2304) ![o] S768.size hb) (fun _ => rfl)).view.set
      = Finset.univ.filter (fun j : S2304.Idx => o ≤ (j 0).val ∧ (j 0).val < o + 768) := by
  show ((View.whole cc0_scratch6).slice (Rect.unit (s := S2304) ![o] S768.size hb)).set = _
  rw [View.set_slice_whole]
  ext j
  rw [Rect.mem_set_unit, Finset.mem_filter]
  constructor
  · intro h; exact ⟨Finset.mem_univ _, h 0⟩
  · rintro ⟨-, h1, h2⟩ a
    match a with
    | ⟨0, _⟩ => exact ⟨h1, h2⟩

theorem mem_u6a {i : S2304.Idx} : i ∈ (u6a).view.set ↔ (i 0).val < 768 := by
  rw [third_set6, Finset.mem_filter]; constructor
  · rintro ⟨-, -, h⟩; omega
  · intro h; exact ⟨Finset.mem_univ _, Nat.zero_le _, by omega⟩
theorem mem_u6b {i : S2304.Idx} : i ∈ (u6b).view.set ↔ 768 ≤ (i 0).val ∧ (i 0).val < 1536 := by
  rw [third_set6, Finset.mem_filter]; constructor
  · rintro ⟨-, h1, h2⟩; omega
  · intro h; exact ⟨Finset.mem_univ _, h.1, by omega⟩
theorem mem_u6c {i : S2304.Idx} : i ∈ (u6c).view.set ↔ 1536 ≤ (i 0).val := by
  rw [third_set6, Finset.mem_filter]; constructor
  · rintro ⟨-, h1, -⟩; exact h1
  · intro h; exact ⟨Finset.mem_univ _, h, by have : (i 0).val < 2304 := (i 0).isLt; omega⟩

theorem cover_u6 : (Finset.univ : Finset S2304.Idx) = (u6a).view.set ∪ ((u6b).view.set ∪ (u6c).view.set) := by
  ext i
  refine ⟨fun _ => ?_, fun _ => Finset.mem_univ _⟩
  have hi : (i 0).val < 2304 := (i 0).isLt
  by_cases h1 : (i 0).val < 768
  · exact Finset.mem_union_left _ (mem_u6a.mpr h1)
  · by_cases h2 : (i 0).val < 1536
    · exact Finset.mem_union_right _ (Finset.mem_union_left _ (mem_u6b.mpr ⟨by omega, h2⟩))
    · exact Finset.mem_union_right _ (Finset.mem_union_right _ (mem_u6c.mpr (by omega)))
theorem disj_u6_a : Disjoint (u6a).view.set ((u6b).view.set ∪ (u6c).view.set) := by
  rw [Finset.disjoint_left]; intro i h1 h2
  have ha := mem_u6a.mp h1
  rcases Finset.mem_union.mp h2 with h | h
  · have := mem_u6b.mp h; omega
  · have := mem_u6c.mp h; omega
theorem disj_u6_b : Disjoint (u6b).view.set (u6c).view.set := by
  rw [Finset.disjoint_left]; intro i h1 h2
  have hb := mem_u6b.mp h1
  have hc := mem_u6c.mp h2
  omega

/-- The scratch's contents from its thirds': words 0 …, 768 …, 1536 …. -/
def joinE6 (fa fb fc : Buf (Elt F) ((b6W).view.loc (V d (cV L) (jV L)))) : Buf (Elt F) ((b6W).view.loc (V d (cV L) (jV L))) :=
  fun i => if ((i : S2304.Idx) 0).val < 768 then fa i else if ((i : S2304.Idx) 0).val < 1536 then fb i else fc i

omit [FloatOps F] in
theorem joinE6_a (fa fb fc : Buf (Elt F) ((b6W).view.loc (V d (cV L) (jV L)))) (i : S2304.Idx) (hi : i ∈ (u6a).view.set) : joinE6 (F := F) d L fa fb fc i = fa i := by
  have h := mem_u6a.mp hi
  unfold joinE6; rw [if_pos h]
omit [FloatOps F] in
theorem joinE6_b (fa fb fc : Buf (Elt F) ((b6W).view.loc (V d (cV L) (jV L)))) (i : S2304.Idx) (hi : i ∈ (u6b).view.set) : joinE6 (F := F) d L fa fb fc i = fb i := by
  have h := mem_u6b.mp hi
  have hn : ¬ (i 0).val < 768 := by omega
  unfold joinE6; rw [if_neg hn, if_pos h.2]
omit [FloatOps F] in
theorem joinE6_c (fa fb fc : Buf (Elt F) ((b6W).view.loc (V d (cV L) (jV L)))) (i : S2304.Idx) (hi : i ∈ (u6c).view.set) : joinE6 (F := F) d L fa fb fc i = fc i := by
  have h := mem_u6c.mp hi
  have hn : ¬ (i 0).val < 768 := by omega
  have hn' : ¬ (i 0).val < 1536 := by omega
  unfold joinE6; rw [if_neg hn, if_neg hn']

set_option maxHeartbeats 2000000 in
omit [FloatOps F] in
/-- The whole scratch is its three thirds, -/
theorem thirds_split6 (f : Buf (Elt F) ((b6W).view.loc (V d (cV L) (jV L)))) :
    (((b6W).view.loc (V d (cV L) (jV L))) ↦{fullShare} f : sProp 𝕄)
      ⊢ iprop(((u6a).view.loc (V d (cV L) (jV L)) ↦[(u6a).view.set]{fullShare} f) ∗ ((u6b).view.loc (V d (cV L) (jV L)) ↦[(u6b).view.set]{fullShare} f)
        ∗ ((u6c).view.loc (V d (cV L) (jV L)) ↦[(u6c).view.set]{fullShare} f)) := by
  have h := (pointsTo_union (nD := nD) (τ := τ) (sig := sig) (Ix := HIx 1) (Val := Elt F) (Name := ℕ) (U := UU) (Lvl := ℕ) (ℓ := ((b6W).view.loc (V d (cV L) (jV L)))) (q := fullShare) (f := f) disj_u6_a).1
  have h' := (pointsTo_union (nD := nD) (τ := τ) (sig := sig) (Ix := HIx 1) (Val := Elt F) (Name := ℕ) (U := UU) (Lvl := ℕ) (ℓ := ((b6W).view.loc (V d (cV L) (jV L)))) (q := fullShare) (f := f) disj_u6_b).1
  rw [← cover_u6] at h
  exact h.trans (sep_mono_r h')

set_option maxHeartbeats 2000000 in
omit [FloatOps F] in
/-- and the thirds at one contents are the whole scratch at it. -/
theorem thirds_merge6 (f : Buf (Elt F) ((b6W).view.loc (V d (cV L) (jV L)))) :
    (iprop(((u6a).view.loc (V d (cV L) (jV L)) ↦[(u6a).view.set]{fullShare} f) ∗ ((u6b).view.loc (V d (cV L) (jV L)) ↦[(u6b).view.set]{fullShare} f)
        ∗ ((u6c).view.loc (V d (cV L) (jV L)) ↦[(u6c).view.set]{fullShare} f)) : sProp 𝕄)
      ⊢ (((b6W).view.loc (V d (cV L) (jV L))) ↦{fullShare} f) := by
  have h := (pointsTo_union (nD := nD) (τ := τ) (sig := sig) (Ix := HIx 1) (Val := Elt F) (Name := ℕ) (U := UU) (Lvl := ℕ) (ℓ := ((b6W).view.loc (V d (cV L) (jV L)))) (q := fullShare) (f := f) disj_u6_a).2
  have h' := (pointsTo_union (nD := nD) (τ := τ) (sig := sig) (Ix := HIx 1) (Val := Elt F) (Name := ℕ) (U := UU) (Lvl := ℕ) (ℓ := ((b6W).view.loc (V d (cV L) (jV L)))) (q := fullShare) (f := f) disj_u6_b).2
  rw [← cover_u6] at h
  exact (sep_mono_r h').trans h

/-! ## Slot 1: the inner loop over the scratch held as its thirds -/

/-- A third after its fetch has landed: the attribute array's words from `off` on written over what it held. -/
abbrev landT6 (o : ℕ) (hb : ∀ a, (![o] : Fin 1 → ℕ) a + S768.size a ≤ S2304.size a) (g : Buf (Elt F) ((b6W).view.loc (V d (cV L) (jV L))))
    (off : Fin 1 → ℕ) (inb : ∀ a, off a + S768.size a ≤ S2400000.size a) : Buf (Elt F) ((b6W).view.loc (V d (cV L) (jV L))) :=
  ((b6W).slice (Rect.unit (s := S2304) ![o] S768.size hb) (fun _ => rfl)).view.writes (Elt F) g
    [⟨Rect.whole S768, ReadAs.same.apply (((eaW).slice (Rect.unit (s := S2400000) off S768.size inb) (fun _ => rfl)).view.read (Elt F) (eaC m d))⟩]

omit [FloatOps F] in
/-- A landed third's words are words of the attribute array: 0 or 1. -/
theorem landed01_6 (hea : ∀ n, eaC m d n = 0#32 ∨ eaC m d n = 1#32) (o : ℕ) (hb : ∀ a, (![o] : Fin 1 → ℕ) a + S768.size a ≤ S2304.size a)
    (g : Buf (Elt F) ((b6W).view.loc (V d (cV L) (jV L)))) (off : Fin 1 → ℕ) (inb : ∀ a, off a + S768.size a ≤ S2400000.size a)
    (i : S2304.Idx) (hi : i ∈ ((b6W).slice (Rect.unit (s := S2304) ![o] S768.size hb) (fun _ => rfl)).view.set) :
    landT6 m d L o hb g off inb i = 0#32 ∨ landT6 m d L o hb g off inb i = 1#32 := by
  obtain ⟨x, -, rfl⟩ := Finset.mem_map.mp hi
  unfold landT6
  have e := View.write_univ_eq_writes_whole (Val := Elt F) ((b6W).slice (Rect.unit (s := S2304) ![o] S768.size hb) (fun _ => rfl)).view g []
    (ReadAs.same.apply (((eaW).slice (Rect.unit (s := S2400000) off S768.size inb) (fun _ => rfl)).view.read (Elt F) (eaC m d)))
  rw [View.writes_nil] at e
  rw [show (((b6W).slice (Rect.unit (s := S2304) ![o] S768.size hb) (fun _ => rfl)).view.writes (Elt F) g
      [⟨Rect.whole S768, ReadAs.same.apply (((eaW).slice (Rect.unit (s := S2400000) off S768.size inb) (fun _ => rfl)).view.read (Elt F) (eaC m d))⟩])
    = View.write (Elt F) ((b6W).slice (Rect.unit (s := S2304) ![o] S768.size hb) (fun _ => rfl)).view g
      (ReadAs.same.apply (((eaW).slice (Rect.unit (s := S2400000) off S768.size inb) (fun _ => rfl)).view.read (Elt F) (eaC m d))) Finset.univ from e.symm]
  rw [View.write_emb_of_mem _ _ (Finset.mem_univ x)]
  simp only [cast_eq, View.read_apply]
  exact hea _

/-- What the loop leaves in the output scratch: the chunk's values, from the table scratch and the attribute words. -/
def R1 (ft : Buf (Elt F) ((V d (cV L) (jV L)).loc cc0_scratch4)) (_ : Fin k0_t1_loop.trips) (fa fb fc : Buf (Elt F) ((b6W).view.loc (V d (cV L) (jV L)))) (f : Buf (Elt F) ((b8W).view.loc (V d (cV L) (jV L)))) : Prop :=
  ∀ j : S8x6x8x128.Idx, f j = gatherVal (ft : FVec F S4096 .f32) ((joinE6 (F := F) d L fa fb fc) : IVec S2304 32) j

/-- The loop's invariant over the thirds' contents: the words are 0 or 1, and the value-level invariant at the joined contents. -/
def Is1 (ft : Buf (Elt F) ((V d (cV L) (jV L)).loc cc0_scratch4)) (_ : Fin k0_t1_loop.trips) (fa fb fc : Buf (Elt F) ((b6W).view.loc (V d (cV L) (jV L)))) (k : ℕ) (acc : Unit) : sProp 𝕄 :=
  iprop(⌜∀ n, (joinE6 (F := F) d L fa fb fc) n = 0#32 ∨ (joinE6 (F := F) d L fa fb fc) n = 1#32⌝ ∗ innerInvV1 (F := F) d L (joinE6 (F := F) d L fa fb fc) ft k acc)

/-- One trip keeps it. -/
theorem plug_reg1 (ft : Buf (Elt F) ((V d (cV L) (jV L)).loc cc0_scratch4)) (v3138 v3140 : BitVec 32) (t : Fin k0_t1_loop.trips) (fa fb fc : Buf (Elt F) ((b6W).view.loc (V d (cV L) (jV L))))
    (k2 : Fin k0_t3_loop.trips) (acc : Unit) :
    Is1 (F := F) d L ft t fa fb fc k2.val acc
      ⊢ wp frame (wpE (defs₀ (F := F)) 𝒱₀ (V d (cV L) (jV L)) none) Set.univ
          (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (Is1 (F := F) d L ft t fa fb fc (k2.val + 1)) := by
  unfold Is1
  iintro ⟨%hfe, HI⟩
  ihave H := (inner_regionV1 d L (joinE6 (F := F) d L fa fb fc) ft hfe v3138 v3140 0#32 1#32 t k2 acc) $$ HI
  iapply (wp_wand_r frame (wpE (defs₀ (F := F)) 𝒱₀ (V d (cV L) (jV L)) none) Set.univ)
  isplitl [H]; · iexact H
  iintro %a Ha
  isplitr
  · ipureintro; exact hfe
  · iexact Ha

/-- Entry: the table scratch, the three landed thirds and the output scratch give the invariant before trip 0. -/
theorem plug_ent1 (hea : ∀ n, eaC m d n = 0#32 ∨ eaC m d n = 1#32) (ft : Buf (Elt F) ((V d (cV L) (jV L)).loc cc0_scratch4)) (t : Fin k0_t1_loop.trips)
    (ga gb gc : Buf (Elt F) ((b6W).view.loc (V d (cV L) (jV L)))) (oa : Fin 1 → ℕ) (ha : ∀ a, oa a + S768.size a ≤ S2400000.size a)
    (ob : Fin 1 → ℕ) (hb : ∀ a, ob a + S768.size a ≤ S2400000.size a) (oc : Fin 1 → ℕ) (hc : ∀ a, oc a + S768.size a ≤ S2400000.size a)
    (f7 : Buf (Elt F) ((b8W).view.loc (V d (cV L) (jV L)))) :
    (iprop(((b4W).view.loc (V d (cV L) (jV L)) ↦{fullShare} ft) ∗ ((u6a).view.loc (V d (cV L) (jV L)) ↦[(u6a).view.set]{fullShare} (landT6 m d L 0 inb_S2304_S768_0 ga oa ha))
        ∗ ((u6b).view.loc (V d (cV L) (jV L)) ↦[(u6b).view.set]{fullShare} (landT6 m d L 768 inb_S2304_S768_768 gb ob hb))
        ∗ ((u6c).view.loc (V d (cV L) (jV L)) ↦[(u6c).view.set]{fullShare} (landT6 m d L 1536 inb_S2304_S768_1536 gc oc hc))
        ∗ (((b8W).view.loc (V d (cV L) (jV L))) ↦{fullShare} f7)) : sProp 𝕄)
      ⊢ Is1 (F := F) d L ft t (landT6 m d L 0 inb_S2304_S768_0 ga oa ha) (landT6 m d L 768 inb_S2304_S768_768 gb ob hb) (landT6 m d L 1536 inb_S2304_S768_1536 gc oc hc) 0 () := by
  unfold Is1 innerInvV1
  iintro ⟨HT, Ha, Hb, Hc, H7⟩
  isplitr
  · ipureintro
    intro i
    by_cases h1 : ((i : S2304.Idx) 0).val < 768
    · rw [joinE6_a d L _ _ _ i (mem_u6a.mpr h1)]
      exact landed01_6 m d L hea 0 _ ga oa ha i (mem_u6a.mpr h1)
    · by_cases h2 : ((i : S2304.Idx) 0).val < 1536
      · rw [joinE6_b d L _ _ _ i (mem_u6b.mpr ⟨by omega, h2⟩)]
        exact landed01_6 m d L hea 768 _ gb ob hb i (mem_u6b.mpr ⟨by omega, h2⟩)
      · rw [joinE6_c d L _ _ _ i (mem_u6c.mpr (by omega))]
        exact landed01_6 m d L hea 1536 _ gc oc hc i (mem_u6c.mpr (by omega))
  isplitl [Ha Hb Hc]
  · iapply (thirds_merge6 (F := F) d L _)
    isplitl [Ha]
    · iapply (Entails.of_eq (pointsTo_congr (fun i hi => (joinE6_a d L _ _ _ i hi).symm))); iexact Ha
    isplitl [Hb]
    · iapply (Entails.of_eq (pointsTo_congr (fun i hi => (joinE6_b d L _ _ _ i hi).symm))); iexact Hb
    · iapply (Entails.of_eq (pointsTo_congr (fun i hi => (joinE6_c d L _ _ _ i hi).symm))); iexact Hc
  isplitl [HT]; · iexact HT
  iexists f7
  isplitl [H7]; · iexact H7
  ipureintro
  intro j hj
  exact absurd hj (Nat.not_lt_zero _)

/-- Exit: after the last trip the thirds are back at their contents and the output scratch holds the chunk's values. -/
theorem plug_ext1 (ft : Buf (Elt F) ((V d (cV L) (jV L)).loc cc0_scratch4)) (t : Fin k0_t1_loop.trips) (fa fb fc : Buf (Elt F) ((b6W).view.loc (V d (cV L) (jV L)))) (acc : Unit) :
    Is1 (F := F) d L ft t fa fb fc (Scf.trips k0_t3_loop.lb k0_t3_loop.ub k0_t3_loop.st) acc
      ⊢ (iprop(((b4W).view.loc (V d (cV L) (jV L)) ↦{fullShare} ft) ∗ ((u6a).view.loc (V d (cV L) (jV L)) ↦[(u6a).view.set]{fullShare} fa)
        ∗ ((u6b).view.loc (V d (cV L) (jV L)) ↦[(u6b).view.set]{fullShare} fb)
        ∗ ((u6c).view.loc (V d (cV L) (jV L)) ↦[(u6c).view.set]{fullShare} fc)
        ∗ (∃ f, ⌜R1 (F := F) d L ft t fa fb fc f⌝ ∗ ((b8W).view.loc (V d (cV L) (jV L))) ↦{fullShare} f)) : sProp 𝕄) := by
  unfold Is1 innerInvV1
  iintro ⟨%hfe, H5, H4, %fo, H7, %hall⟩
  isplitl [H4]; · iexact H4
  ihave H5 := (thirds_split6 (F := F) d L _) $$ H5
  icases H5 with ⟨Ha, Hb, Hc⟩
  isplitl [Ha]
  · iapply (Entails.of_eq (pointsTo_congr (fun i hi => (joinE6_a d L fa fb fc i hi)))); iexact Ha
  isplitl [Hb]
  · iapply (Entails.of_eq (pointsTo_congr (fun i hi => (joinE6_b d L fa fb fc i hi)))); iexact Hb
  isplitl [Hc]
  · iapply (Entails.of_eq (pointsTo_congr (fun i hi => (joinE6_c d L fa fb fc i hi)))); iexact Hc
  iexists fo
  isplitr
  · ipureintro
    intro j
    exact hall j (grp_lt j)
  · iexact H7

end Cert.Proof.K
end
-- ==== Proof.PlugTailK.lean ====
/-
  The last chunk of a subcore's share: the third copy of the inner loop, run after the chunk loop over the attribute
  scratch of slot 1 as the last fetch left it, in the same form as the two copies inside the chunk loop.
-/
import proofs.«203789_g40862318854646_cont_8to1_b_1018_13_alg».proof.Proof.TileDefsK
import proofs.«203789_g40862318854646_cont_8to1_b_1018_13_alg».proof.Proof.GoodK
import proofs.«203789_g40862318854646_cont_8to1_b_1018_13_alg».proof.Proof.InnerK
import proofs.«203789_g40862318854646_cont_8to1_b_1018_13_alg».proof.Proof.PlugK
import Idealize.ShloMosaic.Lib.Writes
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

variable (m : (ℓ : Loc nD τ sig) → Buf (Elt F) ℓ)
variable [FloatOps F]
variable (d : Dev nD) (L : grid0.Coords)

/-! ## The last chunk: the third copy of the inner loop over attribute scratch 6 held as its thirds -/

/-- What the loop leaves in the output scratch: the chunk's values, from the table scratch and the attribute words. -/
def R2 (ft : Buf (Elt F) ((V d (cV L) (jV L)).loc cc0_scratch4)) (_ : Fin k0_t1_loop.trips) (fa fb fc : Buf (Elt F) ((b6W).view.loc (V d (cV L) (jV L)))) (f : Buf (Elt F) ((b8W).view.loc (V d (cV L) (jV L)))) : Prop :=
  ∀ j : S8x6x8x128.Idx, f j = gatherVal (ft : FVec F S4096 .f32) ((joinE6 (F := F) d L fa fb fc) : IVec S2304 32) j

/-- The loop's invariant over the thirds' contents: the words are 0 or 1, and the value-level invariant at the joined contents. -/
def Is2 (ft : Buf (Elt F) ((V d (cV L) (jV L)).loc cc0_scratch4)) (_ : Fin k0_t1_loop.trips) (fa fb fc : Buf (Elt F) ((b6W).view.loc (V d (cV L) (jV L)))) (k : ℕ) (acc : Unit) : sProp 𝕄 :=
  iprop(⌜∀ n, (joinE6 (F := F) d L fa fb fc) n = 0#32 ∨ (joinE6 (F := F) d L fa fb fc) n = 1#32⌝ ∗ innerInvV2 (F := F) d L (joinE6 (F := F) d L fa fb fc) ft k acc)

/-- One trip keeps it. -/
theorem plug_reg2 (ft : Buf (Elt F) ((V d (cV L) (jV L)).loc cc0_scratch4)) (v1 : BitVec 32) (v1082 v1966 v1967 : IVec S16 32) (c0 : BitVec 32) (t : Fin k0_t1_loop.trips) (fa fb fc : Buf (Elt F) ((b6W).view.loc (V d (cV L) (jV L))))
    (k2 : Fin k0_t4_loop.trips) (acc : Unit) :
    Is2 (F := F) d L ft t fa fb fc k2.val acc
      ⊢ wp frame (wpE (defs₀ (F := F)) 𝒱₀ (V d (cV L) (jV L)) none) Set.univ
          (k0_t4_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v1 v1082 v1966 v1967 c0 k2 acc) (Is2 (F := F) d L ft t fa fb fc (k2.val + 1)) := by
  unfold Is2
  iintro ⟨%hfe, HI⟩
  ihave H := (inner_regionV2 d L (joinE6 (F := F) d L fa fb fc) ft hfe v1 v1082 v1966 v1967 c0 k2 acc) $$ HI
  iapply (wp_wand_r frame (wpE (defs₀ (F := F)) 𝒱₀ (V d (cV L) (jV L)) none) Set.univ)
  isplitl [H]; · iexact H
  iintro %a Ha
  isplitr
  · ipureintro; exact hfe
  · iexact Ha

/-- Entry: the table scratch, the three landed thirds and the output scratch give the invariant before trip 0. -/
theorem plug_ent2 (hea : ∀ n, eaC m d n = 0#32 ∨ eaC m d n = 1#32) (ft : Buf (Elt F) ((V d (cV L) (jV L)).loc cc0_scratch4)) (t : Fin k0_t1_loop.trips)
    (ga gb gc : Buf (Elt F) ((b6W).view.loc (V d (cV L) (jV L)))) (oa : Fin 1 → ℕ) (ha : ∀ a, oa a + S768.size a ≤ S2400000.size a)
    (ob : Fin 1 → ℕ) (hb : ∀ a, ob a + S768.size a ≤ S2400000.size a) (oc : Fin 1 → ℕ) (hc : ∀ a, oc a + S768.size a ≤ S2400000.size a)
    (f7 : Buf (Elt F) ((b8W).view.loc (V d (cV L) (jV L)))) :
    (iprop(((b4W).view.loc (V d (cV L) (jV L)) ↦{fullShare} ft) ∗ ((u6a).view.loc (V d (cV L) (jV L)) ↦[(u6a).view.set]{fullShare} (landT6 m d L 0 inb_S2304_S768_0 ga oa ha))
        ∗ ((u6b).view.loc (V d (cV L) (jV L)) ↦[(u6b).view.set]{fullShare} (landT6 m d L 768 inb_S2304_S768_768 gb ob hb))
        ∗ ((u6c).view.loc (V d (cV L) (jV L)) ↦[(u6c).view.set]{fullShare} (landT6 m d L 1536 inb_S2304_S768_1536 gc oc hc))
        ∗ (((b8W).view.loc (V d (cV L) (jV L))) ↦{fullShare} f7)) : sProp 𝕄)
      ⊢ Is2 (F := F) d L ft t (landT6 m d L 0 inb_S2304_S768_0 ga oa ha) (landT6 m d L 768 inb_S2304_S768_768 gb ob hb) (landT6 m d L 1536 inb_S2304_S768_1536 gc oc hc) 0 () := by
  unfold Is2 innerInvV2
  iintro ⟨HT, Ha, Hb, Hc, H7⟩
  isplitr
  · ipureintro
    intro i
    by_cases h1 : ((i : S2304.Idx) 0).val < 768
    · rw [joinE6_a d L _ _ _ i (mem_u6a.mpr h1)]
      exact landed01_6 m d L hea 0 _ ga oa ha i (mem_u6a.mpr h1)
    · by_cases h2 : ((i : S2304.Idx) 0).val < 1536
      · rw [joinE6_b d L _ _ _ i (mem_u6b.mpr ⟨by omega, h2⟩)]
        exact landed01_6 m d L hea 768 _ gb ob hb i (mem_u6b.mpr ⟨by omega, h2⟩)
      · rw [joinE6_c d L _ _ _ i (mem_u6c.mpr (by omega))]
        exact landed01_6 m d L hea 1536 _ gc oc hc i (mem_u6c.mpr (by omega))
  isplitl [Ha Hb Hc]
  · iapply (thirds_merge6 (F := F) d L _)
    isplitl [Ha]
    · iapply (Entails.of_eq (pointsTo_congr (fun i hi => (joinE6_a d L _ _ _ i hi).symm))); iexact Ha
    isplitl [Hb]
    · iapply (Entails.of_eq (pointsTo_congr (fun i hi => (joinE6_b d L _ _ _ i hi).symm))); iexact Hb
    · iapply (Entails.of_eq (pointsTo_congr (fun i hi => (joinE6_c d L _ _ _ i hi).symm))); iexact Hc
  isplitl [HT]; · iexact HT
  iexists f7
  isplitl [H7]; · iexact H7
  ipureintro
  intro j hj
  exact absurd hj (Nat.not_lt_zero _)

/-- Exit: after the last trip the thirds are back at their contents and the output scratch holds the chunk's values. -/
theorem plug_ext2 (ft : Buf (Elt F) ((V d (cV L) (jV L)).loc cc0_scratch4)) (t : Fin k0_t1_loop.trips) (fa fb fc : Buf (Elt F) ((b6W).view.loc (V d (cV L) (jV L)))) (acc : Unit) :
    Is2 (F := F) d L ft t fa fb fc (Scf.trips k0_t4_loop.lb k0_t4_loop.ub k0_t4_loop.st) acc
      ⊢ (iprop(((b4W).view.loc (V d (cV L) (jV L)) ↦{fullShare} ft) ∗ ((u6a).view.loc (V d (cV L) (jV L)) ↦[(u6a).view.set]{fullShare} fa)
        ∗ ((u6b).view.loc (V d (cV L) (jV L)) ↦[(u6b).view.set]{fullShare} fb)
        ∗ ((u6c).view.loc (V d (cV L) (jV L)) ↦[(u6c).view.set]{fullShare} fc)
        ∗ (∃ f, ⌜R2 (F := F) d L ft t fa fb fc f⌝ ∗ ((b8W).view.loc (V d (cV L) (jV L))) ↦{fullShare} f)) : sProp 𝕄) := by
  unfold Is2 innerInvV2
  iintro ⟨%hfe, H5, H4, %fo, H7, %hall⟩
  isplitl [H4]; · iexact H4
  ihave H5 := (thirds_split6 (F := F) d L _) $$ H5
  icases H5 with ⟨Ha, Hb, Hc⟩
  isplitl [Ha]
  · iapply (Entails.of_eq (pointsTo_congr (fun i hi => (joinE6_a d L fa fb fc i hi)))); iexact Ha
  isplitl [Hb]
  · iapply (Entails.of_eq (pointsTo_congr (fun i hi => (joinE6_b d L fa fb fc i hi)))); iexact Hb
  isplitl [Hc]
  · iapply (Entails.of_eq (pointsTo_congr (fun i hi => (joinE6_c d L fa fb fc i hi)))); iexact Hc
  iexists fo
  isplitr
  · ipureintro
    intro j
    exact hall j (grp_lt j)
  · iexact H7

end Cert.Proof.K
end
-- ==== Proof.PairK.lean ====
/-
  The outer loop of a vector subcore's body (the double-buffered pipeline over the subcore's 32 chunks, two a trip): an
  invariant and the region lemma a trip satisfies, carrying the values. Per slot, a trip waits for the out copy issued
  two chunks ago and for the three attribute fetches issued two chunks ago (three transfers on one semaphore, all
  waited before the scratch is read: their deliveries name what lands, the source's words over the scratch's), runs
  the inner loop over the chunk (an abstract invariant here, leaving the out scratch related to the attribute
  scratch's contents by an abstract relation), copies the out scratch to the chunk's six blocks of the result (the
  window then holds what the relation gives) and fetches the attributes of the chunk after next. The attribute array
  is read under two read shares, one per fetch semaphore; the result is held window by window.
-/
import proofs.«203789_g40862318854646_cont_8to1_b_1018_13_alg».proof.Proof.TileDefsK
import proofs.«203789_g40862318854646_cont_8to1_b_1018_13_alg».proof.Proof.GoodK
import Idealize.ShloMosaic.Lib.Batch
import Idealize.ShloMosaic.Lib.Transfers
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

variable (m : (ℓ : Loc nD τ sig) → Buf (Elt F) ℓ)
variable [FloatOps F]

namespace Pair

section Tile

variable (d : Dev nD) (L : grid0.Coords)

/-- The subcore's thread. -/
abbrev thr : Thread nD τ := V d (cV L) (jV L)

/-- The transfers' counters, in the right factor of the ghost state. -/
abbrev EC : UEmb Counters (MT nD τ sig (HIx 1) (Elt F) ℕ UU ℕ) := countersEmb

/-- The thirds of the attribute scratch of slot 0: words 0 …, 768 …, 1536 …; -/
abbrev t5a : Memref sig .scVector .vmem S768 .i32 := (b5W).slice (Rect.unit (s := S2304) ![0] S768.size inb_S2304_S768_0) (fun _ => rfl)
abbrev t5b : Memref sig .scVector .vmem S768 .i32 := (b5W).slice (Rect.unit (s := S2304) ![768] S768.size inb_S2304_S768_768) (fun _ => rfl)
abbrev t5c : Memref sig .scVector .vmem S768 .i32 := (b5W).slice (Rect.unit (s := S2304) ![1536] S768.size inb_S2304_S768_1536) (fun _ => rfl)
/-- and of slot 1. -/
abbrev t6a : Memref sig .scVector .vmem S768 .i32 := (b6W).slice (Rect.unit (s := S2304) ![0] S768.size inb_S2304_S768_0) (fun _ => rfl)
abbrev t6b : Memref sig .scVector .vmem S768 .i32 := (b6W).slice (Rect.unit (s := S2304) ![768] S768.size inb_S2304_S768_768) (fun _ => rfl)
abbrev t6c : Memref sig .scVector .vmem S768 .i32 := (b6W).slice (Rect.unit (s := S2304) ![1536] S768.size inb_S2304_S768_1536) (fun _ => rfl)

/-- 768 attribute words from offset `off` on. -/
abbrev eaS (off : Fin 1 → ℕ) (inb : ∀ a, off a + S768.size a ≤ S2400000.size a) : Memref sig .scVector .hbm S768 .i32 :=
  (eaW).slice (Rect.unit (s := S2400000) off S768.size inb) (fun _ => rfl)

/-- The six blocks of the result a chunk's copy writes: slot 0's and slot 1's of trip `t`. -/
abbrev o70 (t : Fin k0_t1_loop.trips) : Memref sig .scVector .hbm S8x6x8x128 .f32 :=
  (oW).slice (Rect.unit (s := S8x6250x8x128) (k0_off70 L t) S8x6x8x128.size (k0_off70_inb L t)) (fun _ => rfl)
abbrev o139 (t : Fin k0_t1_loop.trips) : Memref sig .scVector .hbm S8x6x8x128 .f32 :=
  (oW).slice (Rect.unit (s := S8x6250x8x128) (k0_off139 L t) S8x6x8x128.size (k0_off139_inb L t)) (fun _ => rfl)

/-- One fetch's credit, on either fetch semaphore. -/
abbrev NE0 : ℕ := (t5a).view.amount (SemLoc.dma (sig := sig) cc0_scratch11.sem)
abbrev NE1 : ℕ := (t6a).view.amount (SemLoc.dma (sig := sig) cc0_scratch12.sem)

/-- The read shares of the attribute array the two fetch semaphores' transfers take. -/
abbrev q2 : PosShare TreeShare := Transfers.shareTokN (tok (wL L)) 2
abbrev q3 : PosShare TreeShare := Transfers.shareTokN (tok (wL L)) 3

/-- A fetch's three deliveries: each third of the scratch at some contents, each source's words back. -/
abbrev delivE (q : PosShare TreeShare) (ta tb tc : Memref sig .scVector .vmem S768 .i32)
    (oa : Fin 1 → ℕ) (ha : ∀ a, oa a + S768.size a ≤ S2400000.size a) (ob : Fin 1 → ℕ) (hb : ∀ a, ob a + S768.size a ≤ S2400000.size a)
    (oc : Fin 1 → ℕ) (hc : ∀ a, oc a + S768.size a ≤ S2400000.size a) (f : Fin 3) : sProp 𝕄 :=
  match f with
  | 0 => iprop((∃ g, ta.view.loc (thr d L) ↦[ta.view.set]{fullShare} g)
    ∗ ((eaS oa ha).view.loc (thr d L) ↦[(eaS oa ha).view.set]{q} eaC m d))
  | 1 => iprop((∃ g, tb.view.loc (thr d L) ↦[tb.view.set]{fullShare} g)
    ∗ ((eaS ob hb).view.loc (thr d L) ↦[(eaS ob hb).view.set]{q} eaC m d))
  | 2 => iprop((∃ g, tc.view.loc (thr d L) ↦[tc.view.set]{fullShare} g)
    ∗ ((eaS oc hc).view.loc (thr d L) ↦[(eaS oc hc).view.set]{q} eaC m d))

instance delivE_storable (q : PosShare TreeShare) (ta tb tc : Memref sig .scVector .vmem S768 .i32)
    (oa : Fin 1 → ℕ) (ha : ∀ a, oa a + S768.size a ≤ S2400000.size a) (ob : Fin 1 → ℕ) (hb : ∀ a, ob a + S768.size a ≤ S2400000.size a)
    (oc : Fin 1 → ℕ) (hc : ∀ a, oc a + S768.size a ≤ S2400000.size a) (f : Fin 3) :
    BI.Storable (upEmb : UEmb _ 𝕄) (delivE m d L q ta tb tc oa ha ob hb oc hc f) := by
  match f with
  | 0 => exact (inferInstance : BI.Storable (upEmb : UEmb _ 𝕄) iprop((∃ g, ta.view.loc (thr d L) ↦[ta.view.set]{fullShare} g)
      ∗ ((eaS oa ha).view.loc (thr d L) ↦[(eaS oa ha).view.set]{q} eaC m d)))
  | 1 => exact (inferInstance : BI.Storable (upEmb : UEmb _ 𝕄) iprop((∃ g, tb.view.loc (thr d L) ↦[tb.view.set]{fullShare} g)
      ∗ ((eaS ob hb).view.loc (thr d L) ↦[(eaS ob hb).view.set]{q} eaC m d)))
  | 2 => exact (inferInstance : BI.Storable (upEmb : UEmb _ 𝕄) iprop((∃ g, tc.view.loc (thr d L) ↦[tc.view.set]{fullShare} g)
      ∗ ((eaS oc hc).view.loc (thr d L) ↦[(eaS oc hc).view.set]{q} eaC m d)))

/-- An out copy's delivery: the window at some contents, the out scratch back. -/
abbrev delivO (bW : Memref sig .scVector .vmem S8x6x8x128 .f32) (win : Memref sig .scVector .hbm S8x6x8x128 .f32)
    (f : Buf (Elt F) (bW.view.loc (thr d L))) : sProp 𝕄 :=
  iprop((∃ g, win.view.loc (thr d L) ↦[win.view.set]{fullShare} g) ∗ (bW.view.loc (thr d L) ↦[bW.view.set]{fullShare} f))

/-- What is left of the attribute array at a read share while three fetches borrow their words. -/
abbrev eaRest (q : PosShare TreeShare) (oa : Fin 1 → ℕ) (ha : ∀ a, oa a + S768.size a ≤ S2400000.size a) (ob : Fin 1 → ℕ)
    (hb : ∀ a, ob a + S768.size a ≤ S2400000.size a) (oc : Fin 1 → ℕ) (hc : ∀ a, oc a + S768.size a ≤ S2400000.size a) : sProp 𝕄 :=
  (eaW).view.loc (thr d L) ↦[((Finset.univ \ (eaS oa ha).view.set) \ (eaS ob hb).view.set) \ (eaS oc hc).view.set]{q} eaC m d

/-- A window of the result held by its own elements at some contents. -/
abbrev winAt (win : Memref sig .scVector .hbm S8x6x8x128 .f32) : sProp 𝕄 :=
  iprop(∃ g, win.view.loc (thr d L) ↦[win.view.set]{fullShare} g)

omit [FloatOps F] in
/-- A family over the sixteen trips with trip `j`'s member away, and that member: the whole family; -/
theorem wins_fill (Φ : Fin k0_t1_loop.trips → sProp 𝕄) (j : Fin k0_t1_loop.trips) :
    iprop((bigSep Finset.univ fun i => if i = j then iprop(emp) else Φ i) ∗ Φ j) ⊢ bigSep Finset.univ Φ := by
  iintro ⟨H, Hj⟩
  ihave H' := (bigSep_univ_update (Φ := fun i => if i = j then iprop(emp) else Φ i) (Ψ := Φ) j (fun i hi => (if_neg hi).symm)) $$ H
  icases H' with ⟨-, Hk⟩
  iapply Hk; iexact Hj
omit [FloatOps F] in
/-- and the whole family is trip `k`'s member and the family with it away. -/
theorem wins_take (Φ : Fin k0_t1_loop.trips → sProp 𝕄) (k : Fin k0_t1_loop.trips) :
    bigSep Finset.univ Φ ⊢ iprop(Φ k ∗ bigSep Finset.univ fun i => if i = k then iprop(emp) else Φ i) := by
  iintro H
  ihave H' := (bigSep_univ_update (Φ := Φ) (Ψ := fun i => if i = k then iprop(emp) else Φ i) k (fun i hi => if_neg hi)) $$ H
  icases H' with ⟨Hk, Hr⟩
  isplitl [Hk]; · iexact Hk
  iapply Hr
  rw [if_pos rfl]; iempintro

/-- A third after its fetch has landed: the source's words written over what it held. -/
abbrev landedE (ta : Memref sig .scVector .vmem S768 .i32) (g : Buf (Elt F) (ta.view.loc (thr d L)))
    (off : Fin 1 → ℕ) (inb : ∀ a, off a + S768.size a ≤ S2400000.size a) : Buf (Elt F) (ta.view.loc (thr d L)) :=
  ta.view.writes (Elt F) g [⟨Rect.whole S768, ReadAs.same.apply ((eaS off inb).view.read (Elt F) (eaC m d))⟩]

/-- A window of the result after an out copy has landed: the out scratch's words written over what it held. -/
abbrev landedO (bW : Memref sig .scVector .vmem S8x6x8x128 .f32) (win : Memref sig .scVector .hbm S8x6x8x128 .f32)
    (g : Buf (Elt F) (win.view.loc (thr d L))) (f : Buf (Elt F) (bW.view.loc (thr d L))) : Buf (Elt F) (win.view.loc (thr d L)) :=
  win.view.writes (Elt F) g [⟨Rect.whole S8x6x8x128, ReadAs.same.apply (bW.view.read (Elt F) f)⟩]

/-- A fetch's three deliveries, named: each third landed over its contents `ga`, `gb`, `gc`, each source's words back. -/
abbrev delivEV (q : PosShare TreeShare) (ta tb tc : Memref sig .scVector .vmem S768 .i32)
    (ga : Buf (Elt F) (ta.view.loc (thr d L))) (gb : Buf (Elt F) (tb.view.loc (thr d L))) (gc : Buf (Elt F) (tc.view.loc (thr d L)))
    (oa : Fin 1 → ℕ) (ha : ∀ a, oa a + S768.size a ≤ S2400000.size a) (ob : Fin 1 → ℕ) (hb : ∀ a, ob a + S768.size a ≤ S2400000.size a)
    (oc : Fin 1 → ℕ) (hc : ∀ a, oc a + S768.size a ≤ S2400000.size a) (f : Fin 3) : sProp 𝕄 :=
  match f with
  | 0 => iprop((ta.view.loc (thr d L) ↦[ta.view.set]{fullShare} landedE m d L ta ga oa ha)
    ∗ ((eaS oa ha).view.loc (thr d L) ↦[(eaS oa ha).view.set]{q} eaC m d))
  | 1 => iprop((tb.view.loc (thr d L) ↦[tb.view.set]{fullShare} landedE m d L tb gb ob hb)
    ∗ ((eaS ob hb).view.loc (thr d L) ↦[(eaS ob hb).view.set]{q} eaC m d))
  | 2 => iprop((tc.view.loc (thr d L) ↦[tc.view.set]{fullShare} landedE m d L tc gc oc hc)
    ∗ ((eaS oc hc).view.loc (thr d L) ↦[(eaS oc hc).view.set]{q} eaC m d))

instance delivEV_storable (q : PosShare TreeShare) (ta tb tc : Memref sig .scVector .vmem S768 .i32)
    (ga : Buf (Elt F) (ta.view.loc (thr d L))) (gb : Buf (Elt F) (tb.view.loc (thr d L))) (gc : Buf (Elt F) (tc.view.loc (thr d L)))
    (oa : Fin 1 → ℕ) (ha : ∀ a, oa a + S768.size a ≤ S2400000.size a) (ob : Fin 1 → ℕ) (hb : ∀ a, ob a + S768.size a ≤ S2400000.size a)
    (oc : Fin 1 → ℕ) (hc : ∀ a, oc a + S768.size a ≤ S2400000.size a) (f : Fin 3) :
    BI.Storable (upEmb : UEmb _ 𝕄) (delivEV m d L q ta tb tc ga gb gc oa ha ob hb oc hc f) := by
  match f with
  | 0 => exact (inferInstance : BI.Storable (upEmb : UEmb _ 𝕄) iprop((ta.view.loc (thr d L) ↦[ta.view.set]{fullShare} landedE m d L ta ga oa ha)
      ∗ ((eaS oa ha).view.loc (thr d L) ↦[(eaS oa ha).view.set]{q} eaC m d)))
  | 1 => exact (inferInstance : BI.Storable (upEmb : UEmb _ 𝕄) iprop((tb.view.loc (thr d L) ↦[tb.view.set]{fullShare} landedE m d L tb gb ob hb)
      ∗ ((eaS ob hb).view.loc (thr d L) ↦[(eaS ob hb).view.set]{q} eaC m d)))
  | 2 => exact (inferInstance : BI.Storable (upEmb : UEmb _ 𝕄) iprop((tc.view.loc (thr d L) ↦[tc.view.set]{fullShare} landedE m d L tc gc oc hc)
      ∗ ((eaS oc hc).view.loc (thr d L) ↦[(eaS oc hc).view.set]{q} eaC m d)))

/-- A window of the result at contents of which `P` holds. -/
abbrev winAtV (win : Memref sig .scVector .hbm S8x6x8x128 .f32) (P : Buf (Elt F) (win.view.loc (thr d L)) → Prop) : sProp 𝕄 :=
  iprop(∃ g, ⌜P g⌝ ∗ win.view.loc (thr d L) ↦[win.view.set]{fullShare} g)

omit [FloatOps F] in
/-- A wait at index `none` recorded keeps the recorded pairs within the allowed ones. -/
theorem waits_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact h p hp

omit [FloatOps F] in
/-- An out copy's delivery as the transfer builds it yields it with the window's contents forgotten. -/
theorem weakenO (bW : Memref sig .scVector .vmem S8x6x8x128 .f32) (win : Memref sig .scVector .hbm S8x6x8x128 .f32)
    (g : Buf (Elt F) (win.view.loc (thr d L))) (f : Buf (Elt F) (bW.view.loc (thr d L))) :
    iprop((win.view.loc (thr d L) ↦[win.view.set]{fullShare} g) ∗ (bW.view.loc (thr d L) ↦[bW.view.set]{fullShare} f))
      ⊢ (iprop((∃ g, win.view.loc (thr d L) ↦[win.view.set]{fullShare} g) ∗ (bW.view.loc (thr d L) ↦[bW.view.set]{fullShare} f)) : sProp 𝕄) := by
  iintro ⟨Hg, Hf⟩
  isplitl [Hg]; · iexists g; iexact Hg
  iexact Hf

omit [FloatOps F] in
/-- The attribute array through one of its slices is the attribute array. -/
theorem ea_respell (q : PosShare TreeShare) (off : Fin 1 → ℕ) (inb : ∀ a, off a + S768.size a ≤ S2400000.size a) (f : Buf (Elt F) (eaLoc d)) :
    ((eaS off inb).view.loc (thr d L) ↦{q} f : sProp 𝕄) = ((eaW).view.loc (thr d L) ↦{q} f) := rfl

omit [FloatOps F] in
/-- An out scratch held by its view's elements is held whole. -/
theorem b7_own (f : Buf (Elt F) ((b7W).view.loc (thr d L))) :
    ((b7W).view.loc (thr d L) ↦[(b7W).view.set]{fullShare} f : sProp 𝕄) = ((b7W).view.loc (thr d L) ↦{fullShare} f) := by
  rw [show (b7W).view.set = Finset.univ from by simp only [Memref.view_whole, View.set_whole]]
omit [FloatOps F] in
theorem b8_own (f : Buf (Elt F) ((b8W).view.loc (thr d L))) :
    ((b8W).view.loc (thr d L) ↦[(b8W).view.set]{fullShare} f : sProp 𝕄) = ((b8W).view.loc (thr d L) ↦{fullShare} f) := by
  rw [show (b8W).view.set = Finset.univ from by simp only [Memref.view_whole, View.set_whole]]

omit [FloatOps F] in
/-- An out copy's delivery as the transfer builds it yields the window at contents of which `P` holds, given that. -/
theorem weakenOV (bW : Memref sig .scVector .vmem S8x6x8x128 .f32) (win : Memref sig .scVector .hbm S8x6x8x128 .f32)
    (P : Buf (Elt F) (win.view.loc (thr d L)) → Prop) (g : Buf (Elt F) (win.view.loc (thr d L))) (hP : P g) (f : Buf (Elt F) (bW.view.loc (thr d L))) :
    iprop((win.view.loc (thr d L) ↦[win.view.set]{fullShare} g) ∗ (bW.view.loc (thr d L) ↦[bW.view.set]{fullShare} f))
      ⊢ (iprop((∃ g, ⌜P g⌝ ∗ win.view.loc (thr d L) ↦[win.view.set]{fullShare} g) ∗ (bW.view.loc (thr d L) ↦[bW.view.set]{fullShare} f)) : sProp 𝕄) := by
  iintro ⟨Hg, Hf⟩
  isplitl [Hg]
  · iexists g; isplitr
    · ipureintro; exact hP
    · iexact Hg
  iexact Hf

omit [FloatOps F] in
/-- The windows' family with trip `k`'s away reads the same whether "landed" means up to `k` or up to the trip before. -/
theorem fam_shift (A B : Fin k0_t1_loop.trips → sProp 𝕄) (j k : Fin k0_t1_loop.trips) (hk : k.val = j.val + 1) :
    (bigSep Finset.univ fun i : Fin k0_t1_loop.trips => if i = k then iprop(emp) else if i.val ≤ j.val then A i else B i)
      = bigSep Finset.univ fun i : Fin k0_t1_loop.trips => if i = k then iprop(emp) else if i.val ≤ k.val then A i else B i := by
  refine bigSep_congr fun i _ => ?_
  by_cases hi : i = k
  · rw [if_pos hi, if_pos hi]
  · rw [if_neg hi, if_neg hi]
    have : i.val ≠ k.val := fun h => hi (Fin.ext h)
    by_cases h1 : i.val ≤ j.val
    · rw [if_pos h1, if_pos (by omega)]
    · rw [if_neg h1, if_neg (by omega)]
omit [FloatOps F] in
/-- Before any trip no window has landed. -/
theorem fam_zero (A B : Fin k0_t1_loop.trips → sProp 𝕄) (k : Fin k0_t1_loop.trips) (hk : k.val = 0) :
    (bigSep Finset.univ fun i : Fin k0_t1_loop.trips => if i = k then iprop(emp) else B i)
      = bigSep Finset.univ fun i : Fin k0_t1_loop.trips => if i = k then iprop(emp) else if i.val ≤ k.val then A i else B i := by
  refine bigSep_congr fun i _ => ?_
  by_cases hi : i = k
  · rw [if_pos hi, if_pos hi]
  · rw [if_neg hi, if_neg hi]
    have : i.val ≠ k.val := fun h => hi (Fin.ext h)
    rw [if_neg (by omega)]

omit [FloatOps F] in
theorem wins_fill' (Φ : Fin k0_t1_loop.trips → sProp 𝕄) (j : Fin k0_t1_loop.trips) (X : sProp 𝕄) (hX : Φ j = X) :
    iprop((bigSep Finset.univ fun i => if i = j then iprop(emp) else Φ i) ∗ X) ⊢ bigSep Finset.univ Φ := by
  subst hX; exact wins_fill Φ j
omit [FloatOps F] in
theorem wins_take' (Φ : Fin k0_t1_loop.trips → sProp 𝕄) (k : Fin k0_t1_loop.trips) (X : sProp 𝕄) (hX : Φ k = X) :
    bigSep Finset.univ Φ ⊢ iprop(X ∗ bigSep Finset.univ fun i => if i = k then iprop(emp) else Φ i) := by
  subst hX; exact wins_take Φ k

omit [FloatOps F] in
/-- A buffer's contents forgotten to a name. -/
theorem pts_ex {ℓ : Loc nD τ sig} {S : Finset (Idx ℓ)} {q : PosShare TreeShare} (f : Buf (Elt F) ℓ) :
    (ℓ ↦[S]{q} f : sProp 𝕄) ⊢ iprop(∃ x, ℓ ↦[S]{q} x) := by
  iintro H; iexists f; iexact H

variable (O : CellTallies nD τ sig (HIx 1)) (W : Waits sig (HIx 1))

/-- Before trip 0: both fetches of the first two chunks in flight (issued before the loop) over the scratches' contents
    then, no out copy yet: both out semaphores at zero, both out scratches and all 32 windows of the result in hand. -/
def pairInv0 (Tbl : sProp 𝕄) : sProp 𝕄 :=
  iprop(Transfers.MayWaits (thr d L) (none : HIx 1) O
    ∗ (∃ W', ⌜∀ p ∈ W', p ∈ W ∨ p.2 = none⌝ ∗ owes (thr d L) O W')
    ∗ Tbl
    ∗ ((eaW).view.loc (thr d L) ↦[((Finset.univ \ ((eaW).slice (Rect.unit (s := S2400000) (k0_off1 L 0#32) S768.size (k0_off1_inb L 0)) (fun _ => rfl)).view.set) \ ((eaW).slice (Rect.unit (s := S2400000) (k0_off1 L 800000#32) S768.size (k0_off1_inb L 1)) (fun _ => rfl)).view.set) \ ((eaW).slice (Rect.unit (s := S2400000) (k0_off1 L 1600000#32) S768.size (k0_off1_inb L 2)) (fun _ => rfl)).view.set]{Transfers.shareTokN (tok (wL L)) 2} eaC m d)
    ∗ ((eaW).view.loc (thr d L) ↦[((Finset.univ \ ((eaW).slice (Rect.unit (s := S2400000) (k0_off2 L 0#32) S768.size (k0_off2_inb L 0)) (fun _ => rfl)).view.set) \ ((eaW).slice (Rect.unit (s := S2400000) (k0_off2 L 800000#32) S768.size (k0_off2_inb L 1)) (fun _ => rfl)).view.set) \ ((eaW).slice (Rect.unit (s := S2400000) (k0_off2 L 1600000#32) S768.size (k0_off2_inb L 2)) (fun _ => rfl)).view.set]{Transfers.shareTokN (tok (wL L)) 3} eaC m d)
    ∗ (∃ ga gb gc, Transfers.Batch (EC (F := F)) (thr d L) (.dma cc0_scratch11.sem) (none : HIx 1) NE0 (delivEV m d L (Transfers.shareTokN (tok (wL L)) 2) t5a t5b t5c ga gb gc (k0_off1 L 0#32) (k0_off1_inb L 0) (k0_off1 L 800000#32) (k0_off1_inb L 1) (k0_off1 L 1600000#32) (k0_off1_inb L 2)) 3 0)
    ∗ (∃ ga gb gc, Transfers.Batch (EC (F := F)) (thr d L) (.dma cc0_scratch12.sem) (none : HIx 1) NE1 (delivEV m d L (Transfers.shareTokN (tok (wL L)) 3) t6a t6b t6c ga gb gc (k0_off2 L 0#32) (k0_off2_inb L 0) (k0_off2 L 800000#32) (k0_off2_inb L 1) (k0_off2 L 1600000#32) (k0_off2_inb L 2)) 3 0)
    ∗ semVal (thr d L, SemLoc.dma cc0_scratch9.sem) 0 ∗ (∃ f, (b7W).view.loc (thr d L) ↦{fullShare} f)
    ∗ semVal (thr d L, SemLoc.dma cc0_scratch10.sem) 0 ∗ (∃ f, (b8W).view.loc (thr d L) ↦{fullShare} f)
    ∗ (bigSep Finset.univ fun i : Fin k0_t1_loop.trips => winAt d L (o70 L i))
    ∗ (bigSep Finset.univ fun i : Fin k0_t1_loop.trips => winAt d L (o139 L i)))

/-- After trip `j`: the two fetches it issued and its two out copies in flight; every window of the result but those
    two in hand, those of the trips before `j` holding what `Pw0` / `Pw1` say. -/
def pairInvS (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (j : Fin k0_t1_loop.trips) : sProp 𝕄 :=
  iprop(Transfers.MayWaits (thr d L) (none : HIx 1) O
    ∗ (∃ W', ⌜∀ p ∈ W', p ∈ W ∨ p.2 = none⌝ ∗ owes (thr d L) O W')
    ∗ Tbl
    ∗ ((eaW).view.loc (thr d L) ↦[((Finset.univ \ ((eaW).slice (Rect.unit (s := S2400000) (k0_off71 L j 0#32) S768.size (k0_off71_inb L j 0)) (fun _ => rfl)).view.set) \ ((eaW).slice (Rect.unit (s := S2400000) (k0_off71 L j 800000#32) S768.size (k0_off71_inb L j 1)) (fun _ => rfl)).view.set) \ ((eaW).slice (Rect.unit (s := S2400000) (k0_off71 L j 1600000#32) S768.size (k0_off71_inb L j 2)) (fun _ => rfl)).view.set]{Transfers.shareTokN (tok (wL L)) 2} eaC m d)
    ∗ ((eaW).view.loc (thr d L) ↦[((Finset.univ \ ((eaW).slice (Rect.unit (s := S2400000) (k0_off140 L j 0#32) S768.size (k0_off140_inb L j 0)) (fun _ => rfl)).view.set) \ ((eaW).slice (Rect.unit (s := S2400000) (k0_off140 L j 800000#32) S768.size (k0_off140_inb L j 1)) (fun _ => rfl)).view.set) \ ((eaW).slice (Rect.unit (s := S2400000) (k0_off140 L j 1600000#32) S768.size (k0_off140_inb L j 2)) (fun _ => rfl)).view.set]{Transfers.shareTokN (tok (wL L)) 3} eaC m d)
    ∗ (∃ ga gb gc, Transfers.Batch (EC (F := F)) (thr d L) (.dma cc0_scratch11.sem) (none : HIx 1) NE0 (delivEV m d L (Transfers.shareTokN (tok (wL L)) 2) t5a t5b t5c ga gb gc (k0_off71 L j 0#32) (k0_off71_inb L j 0) (k0_off71 L j 800000#32) (k0_off71_inb L j 1) (k0_off71 L j 1600000#32) (k0_off71_inb L j 2)) 3 0)
    ∗ (∃ ga gb gc, Transfers.Batch (EC (F := F)) (thr d L) (.dma cc0_scratch12.sem) (none : HIx 1) NE1 (delivEV m d L (Transfers.shareTokN (tok (wL L)) 3) t6a t6b t6c ga gb gc (k0_off140 L j 0#32) (k0_off140_inb L j 0) (k0_off140 L j 800000#32) (k0_off140_inb L j 1) (k0_off140 L j 1600000#32) (k0_off140_inb L j 2)) 3 0)
    ∗ (∃ f7, Transfers.Flight (EC (F := F)) (thr d L) (.dma cc0_scratch9.sem) (none : HIx 1) 1572864 iprop((∃ g, ⌜Pw0 j g⌝ ∗ (o70 L j).view.loc (thr d L) ↦[(o70 L j).view.set]{fullShare} g) ∗ ((b7W).view.loc (thr d L) ↦[(b7W).view.set]{fullShare} f7)))
    ∗ (∃ f8, Transfers.Flight (EC (F := F)) (thr d L) (.dma cc0_scratch10.sem) (none : HIx 1) 1572864 iprop((∃ g, ⌜Pw1 j g⌝ ∗ (o139 L j).view.loc (thr d L) ↦[(o139 L j).view.set]{fullShare} g) ∗ ((b8W).view.loc (thr d L) ↦[(b8W).view.set]{fullShare} f8)))
    ∗ (bigSep Finset.univ fun i : Fin k0_t1_loop.trips => if i = j then iprop(emp) else if i.val ≤ (j).val then winAtV d L (o70 L i) (Pw0 i) else winAt d L (o70 L i))
    ∗ (bigSep Finset.univ fun i : Fin k0_t1_loop.trips => if i = j then iprop(emp) else if i.val ≤ (j).val then winAtV d L (o139 L i) (Pw1 i) else winAt d L (o139 L i)))

set_option sl_exec.rejoinHeartbeats 400000 in
set_option maxHeartbeats 0 in
theorem tripS [∀ e, Nonempty (Elt F e)] (v3138 v3140 v3158 : BitVec 32) (j : Fin k0_t1_loop.trips) (hj : j.val + 1 < k0_t1_loop.trips) (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (I0 : Fin k0_t1_loop.trips → Buf (Elt F) ((t5a).view.loc (thr d L)) → Buf (Elt F) ((t5b).view.loc (thr d L)) → Buf (Elt F) ((t5c).view.loc (thr d L)) → ℕ → Unit → sProp 𝕄)
    (R0 : Fin k0_t1_loop.trips → Buf (Elt F) ((t5a).view.loc (thr d L)) → Buf (Elt F) ((t5b).view.loc (thr d L)) → Buf (Elt F) ((t5c).view.loc (thr d L)) → Buf (Elt F) ((b7W).view.loc (thr d L)) → Prop)
    (hreg0 : ∀ (t : Fin k0_t1_loop.trips) fa fb fc (k2 : Fin k0_t2_loop.trips) (acc : Unit), I0 t fa fb fc k2.val acc
      ⊢ wp frame (wpE (defs₀ (F := F)) 𝒱₀ (thr d L) none) Set.univ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I0 t fa fb fc (k2.val + 1)))
    (hent0 : ∀ (t : Fin k0_t1_loop.trips) ga gb gc oa ha ob hb oc hc f7,
      iprop(Tbl ∗ ((t5a).view.loc (thr d L) ↦[(t5a).view.set]{fullShare} landedE m d L t5a ga oa ha)
        ∗ ((t5b).view.loc (thr d L) ↦[(t5b).view.set]{fullShare} landedE m d L t5b gb ob hb)
        ∗ ((t5c).view.loc (thr d L) ↦[(t5c).view.set]{fullShare} landedE m d L t5c gc oc hc)
        ∗ ((b7W).view.loc (thr d L) ↦{fullShare} f7))
      ⊢ I0 t (landedE m d L t5a ga oa ha) (landedE m d L t5b gb ob hb) (landedE m d L t5c gc oc hc) 0 ())
    (hext0 : ∀ (t : Fin k0_t1_loop.trips) fa fb fc (acc : Unit), I0 t fa fb fc (Scf.trips k0_t2_loop.lb k0_t2_loop.ub k0_t2_loop.st) acc
      ⊢ iprop(Tbl ∗ ((t5a).view.loc (thr d L) ↦[(t5a).view.set]{fullShare} fa)
        ∗ ((t5b).view.loc (thr d L) ↦[(t5b).view.set]{fullShare} fb) ∗ ((t5c).view.loc (thr d L) ↦[(t5c).view.set]{fullShare} fc)
        ∗ (∃ f, ⌜R0 t fa fb fc f⌝ ∗ (b7W).view.loc (thr d L) ↦{fullShare} f)))
    (hland0z : ∀ (h0 : 0 < k0_t1_loop.trips) ga gb gc f gk, R0 ⟨0, h0⟩ (landedE m d L t5a ga (k0_off1 L 0#32) (k0_off1_inb L 0)) (landedE m d L t5b gb (k0_off1 L 800000#32) (k0_off1_inb L 1)) (landedE m d L t5c gc (k0_off1 L 1600000#32) (k0_off1_inb L 2)) f
      → Pw0 ⟨0, h0⟩ (landedO d L b7W (o70 L ⟨0, h0⟩) gk f))
    (hland0s : ∀ (j : Fin k0_t1_loop.trips) (hj : j.val + 1 < k0_t1_loop.trips) ga gb gc f gk, R0 ⟨j.val + 1, hj⟩ (landedE m d L t5a ga (k0_off71 L j 0#32) (k0_off71_inb L j 0)) (landedE m d L t5b gb (k0_off71 L j 800000#32) (k0_off71_inb L j 1)) (landedE m d L t5c gc (k0_off71 L j 1600000#32) (k0_off71_inb L j 2)) f
      → Pw0 ⟨j.val + 1, hj⟩ (landedO d L b7W (o70 L ⟨j.val + 1, hj⟩) gk f))
    (I1 : Fin k0_t1_loop.trips → Buf (Elt F) ((t6a).view.loc (thr d L)) → Buf (Elt F) ((t6b).view.loc (thr d L)) → Buf (Elt F) ((t6c).view.loc (thr d L)) → ℕ → Unit → sProp 𝕄)
    (R1 : Fin k0_t1_loop.trips → Buf (Elt F) ((t6a).view.loc (thr d L)) → Buf (Elt F) ((t6b).view.loc (thr d L)) → Buf (Elt F) ((t6c).view.loc (thr d L)) → Buf (Elt F) ((b8W).view.loc (thr d L)) → Prop)
    (hreg1 : ∀ (t : Fin k0_t1_loop.trips) fa fb fc (k2 : Fin k0_t3_loop.trips) (acc : Unit), I1 t fa fb fc k2.val acc
      ⊢ wp frame (wpE (defs₀ (F := F)) 𝒱₀ (thr d L) none) Set.univ (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I1 t fa fb fc (k2.val + 1)))
    (hent1 : ∀ (t : Fin k0_t1_loop.trips) ga gb gc oa ha ob hb oc hc f8,
      iprop(Tbl ∗ ((t6a).view.loc (thr d L) ↦[(t6a).view.set]{fullShare} landedE m d L t6a ga oa ha)
        ∗ ((t6b).view.loc (thr d L) ↦[(t6b).view.set]{fullShare} landedE m d L t6b gb ob hb)
        ∗ ((t6c).view.loc (thr d L) ↦[(t6c).view.set]{fullShare} landedE m d L t6c gc oc hc)
        ∗ ((b8W).view.loc (thr d L) ↦{fullShare} f8))
      ⊢ I1 t (landedE m d L t6a ga oa ha) (landedE m d L t6b gb ob hb) (landedE m d L t6c gc oc hc) 0 ())
    (hext1 : ∀ (t : Fin k0_t1_loop.trips) fa fb fc (acc : Unit), I1 t fa fb fc (Scf.trips k0_t3_loop.lb k0_t3_loop.ub k0_t3_loop.st) acc
      ⊢ iprop(Tbl ∗ ((t6a).view.loc (thr d L) ↦[(t6a).view.set]{fullShare} fa)
        ∗ ((t6b).view.loc (thr d L) ↦[(t6b).view.set]{fullShare} fb) ∗ ((t6c).view.loc (thr d L) ↦[(t6c).view.set]{fullShare} fc)
        ∗ (∃ f, ⌜R1 t fa fb fc f⌝ ∗ (b8W).view.loc (thr d L) ↦{fullShare} f)))
    (hland1z : ∀ (h0 : 0 < k0_t1_loop.trips) ga gb gc f gk, R1 ⟨0, h0⟩ (landedE m d L t6a ga (k0_off2 L 0#32) (k0_off2_inb L 0)) (landedE m d L t6b gb (k0_off2 L 800000#32) (k0_off2_inb L 1)) (landedE m d L t6c gc (k0_off2 L 1600000#32) (k0_off2_inb L 2)) f
      → Pw1 ⟨0, h0⟩ (landedO d L b8W (o139 L ⟨0, h0⟩) gk f))
    (hland1s : ∀ (j : Fin k0_t1_loop.trips) (hj : j.val + 1 < k0_t1_loop.trips) ga gb gc f gk, R1 ⟨j.val + 1, hj⟩ (landedE m d L t6a ga (k0_off140 L j 0#32) (k0_off140_inb L j 0)) (landedE m d L t6b gb (k0_off140 L j 800000#32) (k0_off140_inb L j 1)) (landedE m d L t6c gc (k0_off140 L j 1600000#32) (k0_off140_inb L j 2)) f
      → Pw1 ⟨j.val + 1, hj⟩ (landedO d L b8W (o139 L ⟨j.val + 1, hj⟩) gk f))
    :
    pairInvS m d L O W Tbl Pw0 Pw1 j
      ⊢ wp frame (wpE (defs₀ (F := F)) 𝒱₀ (thr d L) none) Set.univ
          (k0_t1_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 v3158 ⟨j.val + 1, hj⟩ ()) (fun _ => pairInvS m d L O W Tbl Pw0 Pw1 ⟨j.val + 1, hj⟩) := by
  have hc1 : k0_cond1 ⟨j.val + 1, hj⟩ = 1#1 := by revert j; decide
  have hc2 : k0_cond2 ⟨j.val + 1, hj⟩ = 1#1 := by revert j; decide
  unfold k0_t1_body
  simp only [k0_part33_eq_skeleton]; unfold k0_part33_skel
  simp only [k0_part31_eq_skeleton, k0_part32_eq_skeleton]; unfold k0_part31_skel k0_part32_skel
  delta pairInvS
  iintro ⟨#Hmw, ⟨%W', %hW', HO⟩, HT, Hea2, Hea3, ⟨%ga0, %gb0, %gc0, HB0⟩, ⟨%ga1, %gb1, %gc1, HB1⟩, ⟨%f7, HF0⟩, ⟨%f8, HF1⟩, Hw0, Hw1⟩
  sl_exec

  ihave Hw0 := (wins_fill' (F := F) (fun i : Fin k0_t1_loop.trips => if i.val ≤ (j).val then winAtV d L (o70 L i) (Pw0 i) else winAt d L (o70 L i)) j (winAtV d L (o70 L j) (Pw0 j)) (if_pos (le_refl _))) $$ [Hw0 HF0_dst]
  · isplitl [Hw0]; · iexact Hw0
    iexact HF0_dst
  ihave Hw0 := (wins_take' (F := F) (fun i : Fin k0_t1_loop.trips => if i.val ≤ (j).val then winAtV d L (o70 L i) (Pw0 i) else winAt d L (o70 L i)) ⟨j.val + 1, hj⟩ (winAt d L (o70 L ⟨j.val + 1, hj⟩)) (if_neg (show ¬ (⟨j.val + 1, hj⟩ : Fin k0_t1_loop.trips).val ≤ j.val from Nat.not_succ_le_self _))) $$ Hw0
  icases Hw0 with ⟨⟨%gk0, Hwk0⟩, Hw0⟩
  ihave HF0_src := (Entails.of_eq (b7_own (F := F) d L f7)) $$ HF0_src
  rw [bind_assoc]
  sl_for (I0 ⟨j.val + 1, hj⟩ (landedE m d L t5a ga0 (k0_off71 L j 0#32) (k0_off71_inb L j 0)) (landedE m d L t5b gb0 (k0_off71 L j 800000#32) (k0_off71_inb L j 1)) (landedE m d L t5c gc0 (k0_off71 L j 1600000#32) (k0_off71_inb L j 2))) $$ [HT HB0_dst0 HB0_dst1 HB0_dst2 HF0_src]
  case region => exact hreg0 _ _ _ _
  · iapply (hent0 ⟨j.val + 1, hj⟩ ga0 gb0 gc0 _ _ _ _ _ _ _)
    isplitl [HT]; · iexact HT
    isplitl [HB0_dst0]; · iexact HB0_dst0
    isplitl [HB0_dst1]; · iexact HB0_dst1
    isplitl [HB0_dst2]; · iexact HB0_dst2
    iexact HF0_src
  iintro %acc0 HI
  ihave HI := (hext0 ⟨j.val + 1, hj⟩ _ _ _ acc0) $$ HI
  icases HI with ⟨HT, HE0a, HE0b, HE0c, ⟨%fb0, %hR0, Hb7⟩⟩
  ihave HE0a := (pts_ex (F := F) _) $$ HE0a
  ihave HE0b := (pts_ex (F := F) _) $$ HE0b
  ihave HE0c := (pts_ex (F := F) _) $$ HE0c
  icases HE0a with ⟨%xa0, HE0a⟩
  icases HE0b with ⟨%xb0, HE0b⟩
  icases HE0c with ⟨%xc0, HE0c⟩
  imod (Transfers.batch_alloc' (EC (F := F)) (thr d L) (none : HIx 1) NE0 (delivEV m d L (Transfers.shareTokN (tok (wL L)) 2) t5a t5b t5c xa0 xb0 xc0 (k0_off71 L ⟨j.val + 1, hj⟩ 0#32) (k0_off71_inb L ⟨j.val + 1, hj⟩ 0) (k0_off71 L ⟨j.val + 1, hj⟩ 800000#32) (k0_off71_inb L ⟨j.val + 1, hj⟩ 1) (k0_off71 L ⟨j.val + 1, hj⟩ 1600000#32) (k0_off71_inb L ⟨j.val + 1, hj⟩ 2)) (sm := _) (E := Set.univ)) $$ HB0 with HB0

  ihave Hea2 := (Entails.of_eq (ea_respell (F := F) d L (Transfers.shareTokN (tok (wL L)) 2) _ _ (eaC m d))) $$ Hea2
  sl_exec

  ihave Hw1 := (wins_fill' (F := F) (fun i : Fin k0_t1_loop.trips => if i.val ≤ (j).val then winAtV d L (o139 L i) (Pw1 i) else winAt d L (o139 L i)) j (winAtV d L (o139 L j) (Pw1 j)) (if_pos (le_refl _))) $$ [Hw1 HF1_dst]
  · isplitl [Hw1]; · iexact Hw1
    iexact HF1_dst
  ihave Hw1 := (wins_take' (F := F) (fun i : Fin k0_t1_loop.trips => if i.val ≤ (j).val then winAtV d L (o139 L i) (Pw1 i) else winAt d L (o139 L i)) ⟨j.val + 1, hj⟩ (winAt d L (o139 L ⟨j.val + 1, hj⟩)) (if_neg (show ¬ (⟨j.val + 1, hj⟩ : Fin k0_t1_loop.trips).val ≤ j.val from Nat.not_succ_le_self _))) $$ Hw1
  icases Hw1 with ⟨⟨%gk1, Hwk1⟩, Hw1⟩
  ihave HF1_src := (Entails.of_eq (b8_own (F := F) d L f8)) $$ HF1_src
  rw [bind_assoc]
  sl_for (I1 ⟨j.val + 1, hj⟩ (landedE m d L t6a ga1 (k0_off140 L j 0#32) (k0_off140_inb L j 0)) (landedE m d L t6b gb1 (k0_off140 L j 800000#32) (k0_off140_inb L j 1)) (landedE m d L t6c gc1 (k0_off140 L j 1600000#32) (k0_off140_inb L j 2))) $$ [HT HB1_dst0 HB1_dst1 HB1_dst2 HF1_src]
  case region => exact hreg1 _ _ _ _
  · iapply (hent1 ⟨j.val + 1, hj⟩ ga1 gb1 gc1 _ _ _ _ _ _ _)
    isplitl [HT]; · iexact HT
    isplitl [HB1_dst0]; · iexact HB1_dst0
    isplitl [HB1_dst1]; · iexact HB1_dst1
    isplitl [HB1_dst2]; · iexact HB1_dst2
    iexact HF1_src
  iintro %acc1 HI
  ihave HI := (hext1 ⟨j.val + 1, hj⟩ _ _ _ acc1) $$ HI
  icases HI with ⟨HT, HE1a, HE1b, HE1c, ⟨%fb1, %hR1, Hb8⟩⟩
  ihave HE1a := (pts_ex (F := F) _) $$ HE1a
  ihave HE1b := (pts_ex (F := F) _) $$ HE1b
  ihave HE1c := (pts_ex (F := F) _) $$ HE1c
  icases HE1a with ⟨%xa1, HE1a⟩
  icases HE1b with ⟨%xb1, HE1b⟩
  icases HE1c with ⟨%xc1, HE1c⟩
  imod (Transfers.batch_alloc' (EC (F := F)) (thr d L) (none : HIx 1) NE1 (delivEV m d L (Transfers.shareTokN (tok (wL L)) 3) t6a t6b t6c xa1 xb1 xc1 (k0_off140 L ⟨j.val + 1, hj⟩ 0#32) (k0_off140_inb L ⟨j.val + 1, hj⟩ 0) (k0_off140 L ⟨j.val + 1, hj⟩ 800000#32) (k0_off140_inb L ⟨j.val + 1, hj⟩ 1) (k0_off140 L ⟨j.val + 1, hj⟩ 1600000#32) (k0_off140_inb L ⟨j.val + 1, hj⟩ 2)) (sm := _) (E := Set.univ)) $$ HB1 with HB1

  ihave Hea3 := (Entails.of_eq (ea_respell (F := F) d L (Transfers.shareTokN (tok (wL L)) 3) _ _ (eaC m d))) $$ Hea3
  sl_exec
  sl_step
  try delta pairInvS
  isplitr; · iexact Hmw
  isplitl [HO]
  · iexists _
    isplitr
    rotate_left
    · iexact HO
    · ipureintro; exact (waits_insert (waits_insert (waits_insert (waits_insert (waits_insert (waits_insert (waits_insert (waits_insert hW' _) _) _) _) _) _) _) _)
  isplitl [HT]; · iexact HT
  isplitl [Hea2]; · iexact Hea2
  isplitl [Hea3]; · iexact Hea3
  isplitl [HB0]; · iexists xa0, xb0, xc0; iexact HB0
  isplitl [HB1]; · iexists xa1, xb1, xc1; iexact HB1
  isplitl [HF0]
  · iexists fb0
    iapply (Transfers.Flight_mono (EC (F := F)) (thr d L) (weakenOV (F := F) d L b7W (o70 L ⟨j.val + 1, hj⟩) (Pw0 ⟨j.val + 1, hj⟩) _ (hland0s j hj ga0 gb0 gc0 fb0 gk0 hR0) fb0)); iexact HF0
  isplitl [HF1]
  · iexists fb1
    iapply (Transfers.Flight_mono (EC (F := F)) (thr d L) (weakenOV (F := F) d L b8W (o139 L ⟨j.val + 1, hj⟩) (Pw1 ⟨j.val + 1, hj⟩) _ (hland1s j hj ga1 gb1 gc1 fb1 gk1 hR1) fb1)); iexact HF1
  isplitl [Hw0]; · rw [← fam_shift (F := F) (fun i => winAtV d L (o70 L i) (Pw0 i)) (fun i => winAt d L (o70 L i)) j ⟨j.val + 1, hj⟩ rfl]; iexact Hw0
  rw [← fam_shift (F := F) (fun i => winAtV d L (o139 L i) (Pw1 i)) (fun i => winAt d L (o139 L i)) j ⟨j.val + 1, hj⟩ rfl]; iexact Hw1

set_option sl_exec.rejoinHeartbeats 400000 in
set_option maxHeartbeats 0 in
theorem trip0 [∀ e, Nonempty (Elt F e)] (v3138 v3140 v3158 : BitVec 32) (h0 : 0 < k0_t1_loop.trips) (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (I0 : Fin k0_t1_loop.trips → Buf (Elt F) ((t5a).view.loc (thr d L)) → Buf (Elt F) ((t5b).view.loc (thr d L)) → Buf (Elt F) ((t5c).view.loc (thr d L)) → ℕ → Unit → sProp 𝕄)
    (R0 : Fin k0_t1_loop.trips → Buf (Elt F) ((t5a).view.loc (thr d L)) → Buf (Elt F) ((t5b).view.loc (thr d L)) → Buf (Elt F) ((t5c).view.loc (thr d L)) → Buf (Elt F) ((b7W).view.loc (thr d L)) → Prop)
    (hreg0 : ∀ (t : Fin k0_t1_loop.trips) fa fb fc (k2 : Fin k0_t2_loop.trips) (acc : Unit), I0 t fa fb fc k2.val acc
      ⊢ wp frame (wpE (defs₀ (F := F)) 𝒱₀ (thr d L) none) Set.univ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I0 t fa fb fc (k2.val + 1)))
    (hent0 : ∀ (t : Fin k0_t1_loop.trips) ga gb gc oa ha ob hb oc hc f7,
      iprop(Tbl ∗ ((t5a).view.loc (thr d L) ↦[(t5a).view.set]{fullShare} landedE m d L t5a ga oa ha)
        ∗ ((t5b).view.loc (thr d L) ↦[(t5b).view.set]{fullShare} landedE m d L t5b gb ob hb)
        ∗ ((t5c).view.loc (thr d L) ↦[(t5c).view.set]{fullShare} landedE m d L t5c gc oc hc)
        ∗ ((b7W).view.loc (thr d L) ↦{fullShare} f7))
      ⊢ I0 t (landedE m d L t5a ga oa ha) (landedE m d L t5b gb ob hb) (landedE m d L t5c gc oc hc) 0 ())
    (hext0 : ∀ (t : Fin k0_t1_loop.trips) fa fb fc (acc : Unit), I0 t fa fb fc (Scf.trips k0_t2_loop.lb k0_t2_loop.ub k0_t2_loop.st) acc
      ⊢ iprop(Tbl ∗ ((t5a).view.loc (thr d L) ↦[(t5a).view.set]{fullShare} fa)
        ∗ ((t5b).view.loc (thr d L) ↦[(t5b).view.set]{fullShare} fb) ∗ ((t5c).view.loc (thr d L) ↦[(t5c).view.set]{fullShare} fc)
        ∗ (∃ f, ⌜R0 t fa fb fc f⌝ ∗ (b7W).view.loc (thr d L) ↦{fullShare} f)))
    (hland0z : ∀ (h0 : 0 < k0_t1_loop.trips) ga gb gc f gk, R0 ⟨0, h0⟩ (landedE m d L t5a ga (k0_off1 L 0#32) (k0_off1_inb L 0)) (landedE m d L t5b gb (k0_off1 L 800000#32) (k0_off1_inb L 1)) (landedE m d L t5c gc (k0_off1 L 1600000#32) (k0_off1_inb L 2)) f
      → Pw0 ⟨0, h0⟩ (landedO d L b7W (o70 L ⟨0, h0⟩) gk f))
    (hland0s : ∀ (j : Fin k0_t1_loop.trips) (hj : j.val + 1 < k0_t1_loop.trips) ga gb gc f gk, R0 ⟨j.val + 1, hj⟩ (landedE m d L t5a ga (k0_off71 L j 0#32) (k0_off71_inb L j 0)) (landedE m d L t5b gb (k0_off71 L j 800000#32) (k0_off71_inb L j 1)) (landedE m d L t5c gc (k0_off71 L j 1600000#32) (k0_off71_inb L j 2)) f
      → Pw0 ⟨j.val + 1, hj⟩ (landedO d L b7W (o70 L ⟨j.val + 1, hj⟩) gk f))
    (I1 : Fin k0_t1_loop.trips → Buf (Elt F) ((t6a).view.loc (thr d L)) → Buf (Elt F) ((t6b).view.loc (thr d L)) → Buf (Elt F) ((t6c).view.loc (thr d L)) → ℕ → Unit → sProp 𝕄)
    (R1 : Fin k0_t1_loop.trips → Buf (Elt F) ((t6a).view.loc (thr d L)) → Buf (Elt F) ((t6b).view.loc (thr d L)) → Buf (Elt F) ((t6c).view.loc (thr d L)) → Buf (Elt F) ((b8W).view.loc (thr d L)) → Prop)
    (hreg1 : ∀ (t : Fin k0_t1_loop.trips) fa fb fc (k2 : Fin k0_t3_loop.trips) (acc : Unit), I1 t fa fb fc k2.val acc
      ⊢ wp frame (wpE (defs₀ (F := F)) 𝒱₀ (thr d L) none) Set.univ (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I1 t fa fb fc (k2.val + 1)))
    (hent1 : ∀ (t : Fin k0_t1_loop.trips) ga gb gc oa ha ob hb oc hc f8,
      iprop(Tbl ∗ ((t6a).view.loc (thr d L) ↦[(t6a).view.set]{fullShare} landedE m d L t6a ga oa ha)
        ∗ ((t6b).view.loc (thr d L) ↦[(t6b).view.set]{fullShare} landedE m d L t6b gb ob hb)
        ∗ ((t6c).view.loc (thr d L) ↦[(t6c).view.set]{fullShare} landedE m d L t6c gc oc hc)
        ∗ ((b8W).view.loc (thr d L) ↦{fullShare} f8))
      ⊢ I1 t (landedE m d L t6a ga oa ha) (landedE m d L t6b gb ob hb) (landedE m d L t6c gc oc hc) 0 ())
    (hext1 : ∀ (t : Fin k0_t1_loop.trips) fa fb fc (acc : Unit), I1 t fa fb fc (Scf.trips k0_t3_loop.lb k0_t3_loop.ub k0_t3_loop.st) acc
      ⊢ iprop(Tbl ∗ ((t6a).view.loc (thr d L) ↦[(t6a).view.set]{fullShare} fa)
        ∗ ((t6b).view.loc (thr d L) ↦[(t6b).view.set]{fullShare} fb) ∗ ((t6c).view.loc (thr d L) ↦[(t6c).view.set]{fullShare} fc)
        ∗ (∃ f, ⌜R1 t fa fb fc f⌝ ∗ (b8W).view.loc (thr d L) ↦{fullShare} f)))
    (hland1z : ∀ (h0 : 0 < k0_t1_loop.trips) ga gb gc f gk, R1 ⟨0, h0⟩ (landedE m d L t6a ga (k0_off2 L 0#32) (k0_off2_inb L 0)) (landedE m d L t6b gb (k0_off2 L 800000#32) (k0_off2_inb L 1)) (landedE m d L t6c gc (k0_off2 L 1600000#32) (k0_off2_inb L 2)) f
      → Pw1 ⟨0, h0⟩ (landedO d L b8W (o139 L ⟨0, h0⟩) gk f))
    (hland1s : ∀ (j : Fin k0_t1_loop.trips) (hj : j.val + 1 < k0_t1_loop.trips) ga gb gc f gk, R1 ⟨j.val + 1, hj⟩ (landedE m d L t6a ga (k0_off140 L j 0#32) (k0_off140_inb L j 0)) (landedE m d L t6b gb (k0_off140 L j 800000#32) (k0_off140_inb L j 1)) (landedE m d L t6c gc (k0_off140 L j 1600000#32) (k0_off140_inb L j 2)) f
      → Pw1 ⟨j.val + 1, hj⟩ (landedO d L b8W (o139 L ⟨j.val + 1, hj⟩) gk f))
    :
    pairInv0 m d L O W Tbl
      ⊢ wp frame (wpE (defs₀ (F := F)) 𝒱₀ (thr d L) none) Set.univ
          (k0_t1_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 v3158 ⟨0, h0⟩ ()) (fun _ => pairInvS m d L O W Tbl Pw0 Pw1 ⟨0, h0⟩) := by
  have hc1 : ¬ k0_cond1 ⟨0, h0⟩ = 1#1 := by decide +revert
  have hc2 : ¬ k0_cond2 ⟨0, h0⟩ = 1#1 := by decide +revert
  unfold k0_t1_body
  simp only [k0_part33_eq_skeleton]; unfold k0_part33_skel
  simp only [k0_part31_eq_skeleton, k0_part32_eq_skeleton]; unfold k0_part31_skel k0_part32_skel
  delta pairInv0
  iintro ⟨#Hmw, ⟨%W', %hW', HO⟩, HT, Hea2, Hea3, ⟨%ga0, %gb0, %gc0, HB0⟩, ⟨%ga1, %gb1, %gc1, HB1⟩, HF0, ⟨%f7, HF0_src⟩, HF1, ⟨%f8, HF1_src⟩, Hw0, Hw1⟩
  sl_exec

  ihave Hw0 := (wins_take (F := F) (fun i => winAt d L (o70 L i)) ⟨0, h0⟩) $$ Hw0
  icases Hw0 with ⟨⟨%gk0, Hwk0⟩, Hw0⟩
  rw [bind_assoc]
  sl_for (I0 ⟨0, h0⟩ (landedE m d L t5a ga0 (k0_off1 L 0#32) (k0_off1_inb L 0)) (landedE m d L t5b gb0 (k0_off1 L 800000#32) (k0_off1_inb L 1)) (landedE m d L t5c gc0 (k0_off1 L 1600000#32) (k0_off1_inb L 2))) $$ [HT HB0_dst0 HB0_dst1 HB0_dst2 HF0_src]
  case region => exact hreg0 _ _ _ _
  · iapply (hent0 ⟨0, h0⟩ ga0 gb0 gc0 _ _ _ _ _ _ _)
    isplitl [HT]; · iexact HT
    isplitl [HB0_dst0]; · iexact HB0_dst0
    isplitl [HB0_dst1]; · iexact HB0_dst1
    isplitl [HB0_dst2]; · iexact HB0_dst2
    iexact HF0_src
  iintro %acc0 HI
  ihave HI := (hext0 ⟨0, h0⟩ _ _ _ acc0) $$ HI
  icases HI with ⟨HT, HE0a, HE0b, HE0c, ⟨%fb0, %hR0, Hb7⟩⟩
  ihave HE0a := (pts_ex (F := F) _) $$ HE0a
  ihave HE0b := (pts_ex (F := F) _) $$ HE0b
  ihave HE0c := (pts_ex (F := F) _) $$ HE0c
  icases HE0a with ⟨%xa0, HE0a⟩
  icases HE0b with ⟨%xb0, HE0b⟩
  icases HE0c with ⟨%xc0, HE0c⟩
  imod (Transfers.batch_alloc' (EC (F := F)) (thr d L) (none : HIx 1) NE0 (delivEV m d L (Transfers.shareTokN (tok (wL L)) 2) t5a t5b t5c xa0 xb0 xc0 (k0_off71 L ⟨0, h0⟩ 0#32) (k0_off71_inb L ⟨0, h0⟩ 0) (k0_off71 L ⟨0, h0⟩ 800000#32) (k0_off71_inb L ⟨0, h0⟩ 1) (k0_off71 L ⟨0, h0⟩ 1600000#32) (k0_off71_inb L ⟨0, h0⟩ 2)) (sm := _) (E := Set.univ)) $$ HB0 with HB0

  ihave Hea2 := (Entails.of_eq (ea_respell (F := F) d L (Transfers.shareTokN (tok (wL L)) 2) _ _ (eaC m d))) $$ Hea2
  sl_exec

  ihave Hw1 := (wins_take (F := F) (fun i => winAt d L (o139 L i)) ⟨0, h0⟩) $$ Hw1
  icases Hw1 with ⟨⟨%gk1, Hwk1⟩, Hw1⟩
  rw [bind_assoc]
  sl_for (I1 ⟨0, h0⟩ (landedE m d L t6a ga1 (k0_off2 L 0#32) (k0_off2_inb L 0)) (landedE m d L t6b gb1 (k0_off2 L 800000#32) (k0_off2_inb L 1)) (landedE m d L t6c gc1 (k0_off2 L 1600000#32) (k0_off2_inb L 2))) $$ [HT HB1_dst0 HB1_dst1 HB1_dst2 HF1_src]
  case region => exact hreg1 _ _ _ _
  · iapply (hent1 ⟨0, h0⟩ ga1 gb1 gc1 _ _ _ _ _ _ _)
    isplitl [HT]; · iexact HT
    isplitl [HB1_dst0]; · iexact HB1_dst0
    isplitl [HB1_dst1]; · iexact HB1_dst1
    isplitl [HB1_dst2]; · iexact HB1_dst2
    iexact HF1_src
  iintro %acc1 HI
  ihave HI := (hext1 ⟨0, h0⟩ _ _ _ acc1) $$ HI
  icases HI with ⟨HT, HE1a, HE1b, HE1c, ⟨%fb1, %hR1, Hb8⟩⟩
  ihave HE1a := (pts_ex (F := F) _) $$ HE1a
  ihave HE1b := (pts_ex (F := F) _) $$ HE1b
  ihave HE1c := (pts_ex (F := F) _) $$ HE1c
  icases HE1a with ⟨%xa1, HE1a⟩
  icases HE1b with ⟨%xb1, HE1b⟩
  icases HE1c with ⟨%xc1, HE1c⟩
  imod (Transfers.batch_alloc' (EC (F := F)) (thr d L) (none : HIx 1) NE1 (delivEV m d L (Transfers.shareTokN (tok (wL L)) 3) t6a t6b t6c xa1 xb1 xc1 (k0_off140 L ⟨0, h0⟩ 0#32) (k0_off140_inb L ⟨0, h0⟩ 0) (k0_off140 L ⟨0, h0⟩ 800000#32) (k0_off140_inb L ⟨0, h0⟩ 1) (k0_off140 L ⟨0, h0⟩ 1600000#32) (k0_off140_inb L ⟨0, h0⟩ 2)) (sm := _) (E := Set.univ)) $$ HB1 with HB1

  ihave Hea3 := (Entails.of_eq (ea_respell (F := F) d L (Transfers.shareTokN (tok (wL L)) 3) _ _ (eaC m d))) $$ Hea3
  sl_exec
  sl_step
  try delta pairInvS
  isplitr; · iexact Hmw
  isplitl [HO]
  · iexists _
    isplitr
    rotate_left
    · iexact HO
    · ipureintro; exact (waits_insert (waits_insert (waits_insert (waits_insert (waits_insert (waits_insert hW' _) _) _) _) _) _)
  isplitl [HT]; · iexact HT
  isplitl [Hea2]; · iexact Hea2
  isplitl [Hea3]; · iexact Hea3
  isplitl [HB0]; · iexists xa0, xb0, xc0; iexact HB0
  isplitl [HB1]; · iexists xa1, xb1, xc1; iexact HB1
  isplitl [HF0]
  · iexists fb0
    iapply (Transfers.Flight_mono (EC (F := F)) (thr d L) (weakenOV (F := F) d L b7W (o70 L ⟨0, h0⟩) (Pw0 ⟨0, h0⟩) _ (hland0z h0 ga0 gb0 gc0 fb0 gk0 hR0) fb0)); iexact HF0
  isplitl [HF1]
  · iexists fb1
    iapply (Transfers.Flight_mono (EC (F := F)) (thr d L) (weakenOV (F := F) d L b8W (o139 L ⟨0, h0⟩) (Pw1 ⟨0, h0⟩) _ (hland1z h0 ga1 gb1 gc1 fb1 gk1 hR1) fb1)); iexact HF1
  isplitl [Hw0]; · rw [← fam_zero (F := F) (fun i => winAtV d L (o70 L i) (Pw0 i)) (fun i => winAt d L (o70 L i)) ⟨0, h0⟩ rfl]; iexact Hw0
  rw [← fam_zero (F := F) (fun i => winAtV d L (o139 L i) (Pw1 i)) (fun i => winAt d L (o139 L i)) ⟨0, h0⟩ rfl]; iexact Hw1

/-- The outer loop's invariant: before trip 0 as the loop is entered, before trip j + 1 as trip j left things. -/
def pairInv (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (k : ℕ) (_ : Unit) : sProp 𝕄 :=
  if k = 0 then pairInv0 m d L O W Tbl
  else if h : k - 1 < k0_t1_loop.trips then pairInvS m d L O W Tbl Pw0 Pw1 ⟨k - 1, h⟩ else iprop(emp)

theorem pairInv_zero (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (acc : Unit) : pairInv m d L O W Tbl Pw0 Pw1 0 acc = pairInv0 m d L O W Tbl := if_pos rfl
theorem pairInv_succ (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (j : Fin k0_t1_loop.trips) :
    pairInv m d L O W Tbl Pw0 Pw1 (j.val + 1) = fun _ => pairInvS m d L O W Tbl Pw0 Pw1 j := by
  funext _
  unfold pairInv
  rw [if_neg (Nat.succ_ne_zero _), dif_pos (show j.val + 1 - 1 < k0_t1_loop.trips from by rw [Nat.add_sub_cancel]; exact j.isLt)]
  congr 1

set_option maxHeartbeats 0 in
/-- The region of the outer loop: a trip takes the invariant at its number to the invariant at the next. The two
    inner loops enter as abstract invariants `I0`, `I1` over the attribute scratch's three thirds' contents, with their
    own region facts (`hreg`), what they are entered from (`hent`: the thirds as the fetches landed them) and what
    they leave (`hext`: the out scratch at contents related to the thirds' by `R0`, `R1`); `hland…` turn that relation
    into what the window of the result holds once the out copy has landed (`Pw0`, `Pw1`). -/
theorem pair_region [∀ e, Nonempty (Elt F e)] (v3138 v3140 v3158 : BitVec 32) (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (I0 : Fin k0_t1_loop.trips → Buf (Elt F) ((t5a).view.loc (thr d L)) → Buf (Elt F) ((t5b).view.loc (thr d L)) → Buf (Elt F) ((t5c).view.loc (thr d L)) → ℕ → Unit → sProp 𝕄)
    (R0 : Fin k0_t1_loop.trips → Buf (Elt F) ((t5a).view.loc (thr d L)) → Buf (Elt F) ((t5b).view.loc (thr d L)) → Buf (Elt F) ((t5c).view.loc (thr d L)) → Buf (Elt F) ((b7W).view.loc (thr d L)) → Prop)
    (hreg0 : ∀ (t : Fin k0_t1_loop.trips) fa fb fc (k2 : Fin k0_t2_loop.trips) (acc : Unit), I0 t fa fb fc k2.val acc
      ⊢ wp frame (wpE (defs₀ (F := F)) 𝒱₀ (thr d L) none) Set.univ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I0 t fa fb fc (k2.val + 1)))
    (hent0 : ∀ (t : Fin k0_t1_loop.trips) ga gb gc oa ha ob hb oc hc f7,
      iprop(Tbl ∗ ((t5a).view.loc (thr d L) ↦[(t5a).view.set]{fullShare} landedE m d L t5a ga oa ha)
        ∗ ((t5b).view.loc (thr d L) ↦[(t5b).view.set]{fullShare} landedE m d L t5b gb ob hb)
        ∗ ((t5c).view.loc (thr d L) ↦[(t5c).view.set]{fullShare} landedE m d L t5c gc oc hc)
        ∗ ((b7W).view.loc (thr d L) ↦{fullShare} f7))
      ⊢ I0 t (landedE m d L t5a ga oa ha) (landedE m d L t5b gb ob hb) (landedE m d L t5c gc oc hc) 0 ())
    (hext0 : ∀ (t : Fin k0_t1_loop.trips) fa fb fc (acc : Unit), I0 t fa fb fc (Scf.trips k0_t2_loop.lb k0_t2_loop.ub k0_t2_loop.st) acc
      ⊢ iprop(Tbl ∗ ((t5a).view.loc (thr d L) ↦[(t5a).view.set]{fullShare} fa)
        ∗ ((t5b).view.loc (thr d L) ↦[(t5b).view.set]{fullShare} fb) ∗ ((t5c).view.loc (thr d L) ↦[(t5c).view.set]{fullShare} fc)
        ∗ (∃ f, ⌜R0 t fa fb fc f⌝ ∗ (b7W).view.loc (thr d L) ↦{fullShare} f)))
    (hland0z : ∀ (h0 : 0 < k0_t1_loop.trips) ga gb gc f gk, R0 ⟨0, h0⟩ (landedE m d L t5a ga (k0_off1 L 0#32) (k0_off1_inb L 0)) (landedE m d L t5b gb (k0_off1 L 800000#32) (k0_off1_inb L 1)) (landedE m d L t5c gc (k0_off1 L 1600000#32) (k0_off1_inb L 2)) f
      → Pw0 ⟨0, h0⟩ (landedO d L b7W (o70 L ⟨0, h0⟩) gk f))
    (hland0s : ∀ (j : Fin k0_t1_loop.trips) (hj : j.val + 1 < k0_t1_loop.trips) ga gb gc f gk, R0 ⟨j.val + 1, hj⟩ (landedE m d L t5a ga (k0_off71 L j 0#32) (k0_off71_inb L j 0)) (landedE m d L t5b gb (k0_off71 L j 800000#32) (k0_off71_inb L j 1)) (landedE m d L t5c gc (k0_off71 L j 1600000#32) (k0_off71_inb L j 2)) f
      → Pw0 ⟨j.val + 1, hj⟩ (landedO d L b7W (o70 L ⟨j.val + 1, hj⟩) gk f))
    (I1 : Fin k0_t1_loop.trips → Buf (Elt F) ((t6a).view.loc (thr d L)) → Buf (Elt F) ((t6b).view.loc (thr d L)) → Buf (Elt F) ((t6c).view.loc (thr d L)) → ℕ → Unit → sProp 𝕄)
    (R1 : Fin k0_t1_loop.trips → Buf (Elt F) ((t6a).view.loc (thr d L)) → Buf (Elt F) ((t6b).view.loc (thr d L)) → Buf (Elt F) ((t6c).view.loc (thr d L)) → Buf (Elt F) ((b8W).view.loc (thr d L)) → Prop)
    (hreg1 : ∀ (t : Fin k0_t1_loop.trips) fa fb fc (k2 : Fin k0_t3_loop.trips) (acc : Unit), I1 t fa fb fc k2.val acc
      ⊢ wp frame (wpE (defs₀ (F := F)) 𝒱₀ (thr d L) none) Set.univ (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I1 t fa fb fc (k2.val + 1)))
    (hent1 : ∀ (t : Fin k0_t1_loop.trips) ga gb gc oa ha ob hb oc hc f8,
      iprop(Tbl ∗ ((t6a).view.loc (thr d L) ↦[(t6a).view.set]{fullShare} landedE m d L t6a ga oa ha)
        ∗ ((t6b).view.loc (thr d L) ↦[(t6b).view.set]{fullShare} landedE m d L t6b gb ob hb)
        ∗ ((t6c).view.loc (thr d L) ↦[(t6c).view.set]{fullShare} landedE m d L t6c gc oc hc)
        ∗ ((b8W).view.loc (thr d L) ↦{fullShare} f8))
      ⊢ I1 t (landedE m d L t6a ga oa ha) (landedE m d L t6b gb ob hb) (landedE m d L t6c gc oc hc) 0 ())
    (hext1 : ∀ (t : Fin k0_t1_loop.trips) fa fb fc (acc : Unit), I1 t fa fb fc (Scf.trips k0_t3_loop.lb k0_t3_loop.ub k0_t3_loop.st) acc
      ⊢ iprop(Tbl ∗ ((t6a).view.loc (thr d L) ↦[(t6a).view.set]{fullShare} fa)
        ∗ ((t6b).view.loc (thr d L) ↦[(t6b).view.set]{fullShare} fb) ∗ ((t6c).view.loc (thr d L) ↦[(t6c).view.set]{fullShare} fc)
        ∗ (∃ f, ⌜R1 t fa fb fc f⌝ ∗ (b8W).view.loc (thr d L) ↦{fullShare} f)))
    (hland1z : ∀ (h0 : 0 < k0_t1_loop.trips) ga gb gc f gk, R1 ⟨0, h0⟩ (landedE m d L t6a ga (k0_off2 L 0#32) (k0_off2_inb L 0)) (landedE m d L t6b gb (k0_off2 L 800000#32) (k0_off2_inb L 1)) (landedE m d L t6c gc (k0_off2 L 1600000#32) (k0_off2_inb L 2)) f
      → Pw1 ⟨0, h0⟩ (landedO d L b8W (o139 L ⟨0, h0⟩) gk f))
    (hland1s : ∀ (j : Fin k0_t1_loop.trips) (hj : j.val + 1 < k0_t1_loop.trips) ga gb gc f gk, R1 ⟨j.val + 1, hj⟩ (landedE m d L t6a ga (k0_off140 L j 0#32) (k0_off140_inb L j 0)) (landedE m d L t6b gb (k0_off140 L j 800000#32) (k0_off140_inb L j 1)) (landedE m d L t6c gc (k0_off140 L j 1600000#32) (k0_off140_inb L j 2)) f
      → Pw1 ⟨j.val + 1, hj⟩ (landedO d L b8W (o139 L ⟨j.val + 1, hj⟩) gk f))
    : ∀ (k : Fin k0_t1_loop.trips) (acc : Unit), pairInv m d L O W Tbl Pw0 Pw1 k.val acc
      ⊢ wp frame (wpE (defs₀ (F := F)) 𝒱₀ (thr d L) none) Set.univ
          (k0_t1_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 v3158 k acc) (pairInv m d L O W Tbl Pw0 Pw1 (k.val + 1)) := by
  intro k acc
  cases acc
  rcases k with ⟨k, hk⟩
  cases k with
  | zero =>
    rw [pairInv_zero, pairInv_succ m d L O W Tbl Pw0 Pw1 ⟨0, hk⟩]
    exact trip0 m d L O W v3138 v3140 v3158 hk Tbl Pw0 Pw1 I0 R0 hreg0 hent0 hext0 hland0z hland0s I1 R1 hreg1 hent1 hext1 hland1z hland1s
  | succ j =>
    have hj' : j < k0_t1_loop.trips := Nat.lt_of_succ_lt hk
    rw [congrFun (pairInv_succ m d L O W Tbl Pw0 Pw1 ⟨j, hj'⟩) (), pairInv_succ m d L O W Tbl Pw0 Pw1 ⟨j + 1, hk⟩]
    exact tripS m d L O W v3138 v3140 v3158 ⟨j, hj'⟩ hk Tbl Pw0 Pw1 I0 R0 hreg0 hent0 hext0 hland0z hland0s I1 R1 hreg1 hent1 hext1 hland1z hland1s

theorem pairInv_last (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (h15 : 15 < k0_t1_loop.trips) (acc : Unit) :
    pairInv m d L O W Tbl Pw0 Pw1 (Scf.trips k0_t1_loop.lb k0_t1_loop.ub k0_t1_loop.st) acc = pairInvS m d L O W Tbl Pw0 Pw1 ⟨15, h15⟩ :=
  congrFun (pairInv_succ m d L O W Tbl Pw0 Pw1 ⟨15, h15⟩) acc

/-- What k0_part144 starts from: as before trip 0, but of slot 1's fetch only the first third is issued: its other
    two thirds are still in hand and the attribute array's second read share lacks the first source's words only. -/
def entry144 (Tbl : sProp 𝕄) : sProp 𝕄 :=
  iprop(Transfers.MayWaits (thr d L) (none : HIx 1) O
    ∗ (∃ W', ⌜∀ p ∈ W', p ∈ W ∨ p.2 = none⌝ ∗ owes (thr d L) O W')
    ∗ Tbl
    ∗ ((eaW).view.loc (thr d L) ↦[((Finset.univ \ ((eaW).slice (Rect.unit (s := S2400000) (k0_off1 L 0#32) S768.size (k0_off1_inb L 0)) (fun _ => rfl)).view.set) \ ((eaW).slice (Rect.unit (s := S2400000) (k0_off1 L 800000#32) S768.size (k0_off1_inb L 1)) (fun _ => rfl)).view.set) \ ((eaW).slice (Rect.unit (s := S2400000) (k0_off1 L 1600000#32) S768.size (k0_off1_inb L 2)) (fun _ => rfl)).view.set]{Transfers.shareTokN (tok (wL L)) 2} eaC m d)
    ∗ ((eaW).view.loc (thr d L) ↦[Finset.univ \ ((eaW).slice (Rect.unit (s := S2400000) (k0_off2 L 0#32) S768.size (k0_off2_inb L 0)) (fun _ => rfl)).view.set]{Transfers.shareTokN (tok (wL L)) 3} eaC m d)
    ∗ (∃ ga gb gc, Transfers.Batch (EC (F := F)) (thr d L) (.dma cc0_scratch11.sem) (none : HIx 1) NE0 (delivEV m d L (Transfers.shareTokN (tok (wL L)) 2) t5a t5b t5c ga gb gc (k0_off1 L 0#32) (k0_off1_inb L 0) (k0_off1 L 800000#32) (k0_off1_inb L 1) (k0_off1 L 1600000#32) (k0_off1_inb L 2)) 3 0)
    ∗ (∃ ga gb gc, Transfers.Batch (EC (F := F)) (thr d L) (.dma cc0_scratch12.sem) (none : HIx 1) NE1 (delivEV m d L (Transfers.shareTokN (tok (wL L)) 3) t6a t6b t6c ga gb gc (k0_off2 L 0#32) (k0_off2_inb L 0) (k0_off2 L 800000#32) (k0_off2_inb L 1) (k0_off2 L 1600000#32) (k0_off2_inb L 2)) 1 0
        ∗ ((t6b).view.loc (thr d L) ↦[(t6b).view.set]{fullShare} gb) ∗ ((t6c).view.loc (thr d L) ↦[(t6c).view.set]{fullShare} gc))
    ∗ semVal (thr d L, SemLoc.dma cc0_scratch9.sem) 0 ∗ (∃ f, (b7W).view.loc (thr d L) ↦{fullShare} f)
    ∗ semVal (thr d L, SemLoc.dma cc0_scratch10.sem) 0 ∗ (∃ f, (b8W).view.loc (thr d L) ↦{fullShare} f)
    ∗ (bigSep Finset.univ fun i : Fin k0_t1_loop.trips => winAt d L (o70 L i))
    ∗ (bigSep Finset.univ fun i : Fin k0_t1_loop.trips => winAt d L (o139 L i)))

/-- What k0_part144 leaves: slot 1 drained (its out copy of chunk 31 landed, its attribute scratch holding the words
    of the fetch issued in the last trip, both its semaphores at zero, the second read share whole), slot 0 still in
    flight as trip 15 left it. -/
def exit144 (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (h15 : 15 < k0_t1_loop.trips) : sProp 𝕄 :=
  iprop(Transfers.MayWaits (thr d L) (none : HIx 1) O
    ∗ (∃ W', ⌜∀ p ∈ W', p ∈ W ∨ p.2 = none⌝ ∗ owes (thr d L) O W')
    ∗ Tbl
    ∗ ((eaW).view.loc (thr d L) ↦[((Finset.univ \ ((eaW).slice (Rect.unit (s := S2400000) (k0_off71 L ⟨15, h15⟩ 0#32) S768.size (k0_off71_inb L ⟨15, h15⟩ 0)) (fun _ => rfl)).view.set) \ ((eaW).slice (Rect.unit (s := S2400000) (k0_off71 L ⟨15, h15⟩ 800000#32) S768.size (k0_off71_inb L ⟨15, h15⟩ 1)) (fun _ => rfl)).view.set) \ ((eaW).slice (Rect.unit (s := S2400000) (k0_off71 L ⟨15, h15⟩ 1600000#32) S768.size (k0_off71_inb L ⟨15, h15⟩ 2)) (fun _ => rfl)).view.set]{Transfers.shareTokN (tok (wL L)) 2} eaC m d)
    ∗ ((eaW).view.loc (thr d L) ↦{Transfers.shareTokN (tok (wL L)) 3} eaC m d)
    ∗ (∃ ga gb gc, Transfers.Batch (EC (F := F)) (thr d L) (.dma cc0_scratch11.sem) (none : HIx 1) NE0 (delivEV m d L (Transfers.shareTokN (tok (wL L)) 2) t5a t5b t5c ga gb gc (k0_off71 L ⟨15, h15⟩ 0#32) (k0_off71_inb L ⟨15, h15⟩ 0) (k0_off71 L ⟨15, h15⟩ 800000#32) (k0_off71_inb L ⟨15, h15⟩ 1) (k0_off71 L ⟨15, h15⟩ 1600000#32) (k0_off71_inb L ⟨15, h15⟩ 2)) 3 0)
    ∗ (∃ ga gb gc, ((t6a).view.loc (thr d L) ↦[(t6a).view.set]{fullShare} (landedE m d L t6a ga (k0_off140 L ⟨15, h15⟩ 0#32) (k0_off140_inb L ⟨15, h15⟩ 0)))
        ∗ ((t6b).view.loc (thr d L) ↦[(t6b).view.set]{fullShare} (landedE m d L t6b gb (k0_off140 L ⟨15, h15⟩ 800000#32) (k0_off140_inb L ⟨15, h15⟩ 1)))
        ∗ ((t6c).view.loc (thr d L) ↦[(t6c).view.set]{fullShare} (landedE m d L t6c gc (k0_off140 L ⟨15, h15⟩ 1600000#32) (k0_off140_inb L ⟨15, h15⟩ 2))))
    ∗ semVal (thr d L, SemLoc.dma cc0_scratch12.sem) 0
    ∗ (∃ f7, Transfers.Flight (EC (F := F)) (thr d L) (.dma cc0_scratch9.sem) (none : HIx 1) 1572864 iprop((∃ g, ⌜Pw0 ⟨15, h15⟩ g⌝ ∗ (o70 L ⟨15, h15⟩).view.loc (thr d L) ↦[(o70 L ⟨15, h15⟩).view.set]{fullShare} g) ∗ ((b7W).view.loc (thr d L) ↦[(b7W).view.set]{fullShare} f7)))
    ∗ semVal (thr d L, SemLoc.dma cc0_scratch10.sem) 0 ∗ (∃ f, (b8W).view.loc (thr d L) ↦{fullShare} f)
    ∗ (bigSep Finset.univ fun i : Fin k0_t1_loop.trips => if i = ⟨15, h15⟩ then iprop(emp) else if i.val ≤ (⟨15, h15⟩ : Fin k0_t1_loop.trips).val then winAtV d L (o70 L i) (Pw0 i) else winAt d L (o70 L i))
    ∗ (bigSep Finset.univ fun i : Fin k0_t1_loop.trips => if i.val ≤ (⟨15, h15⟩ : Fin k0_t1_loop.trips).val then winAtV d L (o139 L i) (Pw1 i) else winAt d L (o139 L i)))

set_option maxHeartbeats 0 in
/-- k0_part144 as a unit: slot 1's other two fetch issues, the sixteen trips by the invariant, then the wait for slot
    1's last out copy and the three for its last fetch. -/
theorem part144_unit [∀ e, Nonempty (Elt F e)] (v3138 v3140 v3158 : BitVec 32) (Tbl : sProp 𝕄)
    (Pw0 : (i : Fin k0_t1_loop.trips) → Buf (Elt F) ((o70 L i).view.loc (thr d L)) → Prop)
    (Pw1 : (i : Fin k0_t1_loop.trips) → Buf (Elt F) ((o139 L i).view.loc (thr d L)) → Prop)
    (I0 : Fin k0_t1_loop.trips → Buf (Elt F) ((t5a).view.loc (thr d L)) → Buf (Elt F) ((t5b).view.loc (thr d L)) → Buf (Elt F) ((t5c).view.loc (thr d L)) → ℕ → Unit → sProp 𝕄)
    (R0 : Fin k0_t1_loop.trips → Buf (Elt F) ((t5a).view.loc (thr d L)) → Buf (Elt F) ((t5b).view.loc (thr d L)) → Buf (Elt F) ((t5c).view.loc (thr d L)) → Buf (Elt F) ((b7W).view.loc (thr d L)) → Prop)
    (hreg0 : ∀ (t : Fin k0_t1_loop.trips) fa fb fc (k2 : Fin k0_t2_loop.trips) (acc : Unit), I0 t fa fb fc k2.val acc
      ⊢ wp frame (wpE (defs₀ (F := F)) 𝒱₀ (thr d L) none) Set.univ (k0_t2_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I0 t fa fb fc (k2.val + 1)))
    (hent0 : ∀ (t : Fin k0_t1_loop.trips) ga gb gc oa ha ob hb oc hc f7,
      iprop(Tbl ∗ ((t5a).view.loc (thr d L) ↦[(t5a).view.set]{fullShare} landedE m d L t5a ga oa ha)
        ∗ ((t5b).view.loc (thr d L) ↦[(t5b).view.set]{fullShare} landedE m d L t5b gb ob hb)
        ∗ ((t5c).view.loc (thr d L) ↦[(t5c).view.set]{fullShare} landedE m d L t5c gc oc hc)
        ∗ ((b7W).view.loc (thr d L) ↦{fullShare} f7))
      ⊢ I0 t (landedE m d L t5a ga oa ha) (landedE m d L t5b gb ob hb) (landedE m d L t5c gc oc hc) 0 ())
    (hext0 : ∀ (t : Fin k0_t1_loop.trips) fa fb fc (acc : Unit), I0 t fa fb fc (Scf.trips k0_t2_loop.lb k0_t2_loop.ub k0_t2_loop.st) acc
      ⊢ iprop(Tbl ∗ ((t5a).view.loc (thr d L) ↦[(t5a).view.set]{fullShare} fa)
        ∗ ((t5b).view.loc (thr d L) ↦[(t5b).view.set]{fullShare} fb) ∗ ((t5c).view.loc (thr d L) ↦[(t5c).view.set]{fullShare} fc)
        ∗ (∃ f, ⌜R0 t fa fb fc f⌝ ∗ (b7W).view.loc (thr d L) ↦{fullShare} f)))
    (hland0z : ∀ (h0 : 0 < k0_t1_loop.trips) ga gb gc f gk, R0 ⟨0, h0⟩ (landedE m d L t5a ga (k0_off1 L 0#32) (k0_off1_inb L 0)) (landedE m d L t5b gb (k0_off1 L 800000#32) (k0_off1_inb L 1)) (landedE m d L t5c gc (k0_off1 L 1600000#32) (k0_off1_inb L 2)) f
      → Pw0 ⟨0, h0⟩ (landedO d L b7W (o70 L ⟨0, h0⟩) gk f))
    (hland0s : ∀ (j : Fin k0_t1_loop.trips) (hj : j.val + 1 < k0_t1_loop.trips) ga gb gc f gk, R0 ⟨j.val + 1, hj⟩ (landedE m d L t5a ga (k0_off71 L j 0#32) (k0_off71_inb L j 0)) (landedE m d L t5b gb (k0_off71 L j 800000#32) (k0_off71_inb L j 1)) (landedE m d L t5c gc (k0_off71 L j 1600000#32) (k0_off71_inb L j 2)) f
      → Pw0 ⟨j.val + 1, hj⟩ (landedO d L b7W (o70 L ⟨j.val + 1, hj⟩) gk f))
    (I1 : Fin k0_t1_loop.trips → Buf (Elt F) ((t6a).view.loc (thr d L)) → Buf (Elt F) ((t6b).view.loc (thr d L)) → Buf (Elt F) ((t6c).view.loc (thr d L)) → ℕ → Unit → sProp 𝕄)
    (R1 : Fin k0_t1_loop.trips → Buf (Elt F) ((t6a).view.loc (thr d L)) → Buf (Elt F) ((t6b).view.loc (thr d L)) → Buf (Elt F) ((t6c).view.loc (thr d L)) → Buf (Elt F) ((b8W).view.loc (thr d L)) → Prop)
    (hreg1 : ∀ (t : Fin k0_t1_loop.trips) fa fb fc (k2 : Fin k0_t3_loop.trips) (acc : Unit), I1 t fa fb fc k2.val acc
      ⊢ wp frame (wpE (defs₀ (F := F)) 𝒱₀ (thr d L) none) Set.univ (k0_t3_body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 0#32 1#32 t k2 acc) (I1 t fa fb fc (k2.val + 1)))
    (hent1 : ∀ (t : Fin k0_t1_loop.trips) ga gb gc oa ha ob hb oc hc f8,
      iprop(Tbl ∗ ((t6a).view.loc (thr d L) ↦[(t6a).view.set]{fullShare} landedE m d L t6a ga oa ha)
        ∗ ((t6b).view.loc (thr d L) ↦[(t6b).view.set]{fullShare} landedE m d L t6b gb ob hb)
        ∗ ((t6c).view.loc (thr d L) ↦[(t6c).view.set]{fullShare} landedE m d L t6c gc oc hc)
        ∗ ((b8W).view.loc (thr d L) ↦{fullShare} f8))
      ⊢ I1 t (landedE m d L t6a ga oa ha) (landedE m d L t6b gb ob hb) (landedE m d L t6c gc oc hc) 0 ())
    (hext1 : ∀ (t : Fin k0_t1_loop.trips) fa fb fc (acc : Unit), I1 t fa fb fc (Scf.trips k0_t3_loop.lb k0_t3_loop.ub k0_t3_loop.st) acc
      ⊢ iprop(Tbl ∗ ((t6a).view.loc (thr d L) ↦[(t6a).view.set]{fullShare} fa)
        ∗ ((t6b).view.loc (thr d L) ↦[(t6b).view.set]{fullShare} fb) ∗ ((t6c).view.loc (thr d L) ↦[(t6c).view.set]{fullShare} fc)
        ∗ (∃ f, ⌜R1 t fa fb fc f⌝ ∗ (b8W).view.loc (thr d L) ↦{fullShare} f)))
    (hland1z : ∀ (h0 : 0 < k0_t1_loop.trips) ga gb gc f gk, R1 ⟨0, h0⟩ (landedE m d L t6a ga (k0_off2 L 0#32) (k0_off2_inb L 0)) (landedE m d L t6b gb (k0_off2 L 800000#32) (k0_off2_inb L 1)) (landedE m d L t6c gc (k0_off2 L 1600000#32) (k0_off2_inb L 2)) f
      → Pw1 ⟨0, h0⟩ (landedO d L b8W (o139 L ⟨0, h0⟩) gk f))
    (hland1s : ∀ (j : Fin k0_t1_loop.trips) (hj : j.val + 1 < k0_t1_loop.trips) ga gb gc f gk, R1 ⟨j.val + 1, hj⟩ (landedE m d L t6a ga (k0_off140 L j 0#32) (k0_off140_inb L j 0)) (landedE m d L t6b gb (k0_off140 L j 800000#32) (k0_off140_inb L j 1)) (landedE m d L t6c gc (k0_off140 L j 1600000#32) (k0_off140_inb L j 2)) f
      → Pw1 ⟨j.val + 1, hj⟩ (landedO d L b8W (o139 L ⟨j.val + 1, hj⟩) gk f))
    (h15 : 15 < k0_t1_loop.trips) :
    entry144 m d L O W Tbl
      ⊢ wp frame (wpE (defs₀ (F := F)) 𝒱₀ (thr d L) none) Set.univ
          (k0_part144 L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v3138 v3140 v3158) (fun _ => exit144 m d L O W Tbl Pw0 Pw1 h15) := by
  simp only [k0_part144_eq_skeleton]; unfold k0_part144_skel
  delta entry144
  iintro ⟨#Hmw, ⟨%W', %hW', HO⟩, HT, Hea2, Hea3, HB0, ⟨%ga1, %gb1, %gc1, HB1, Ht6b, Ht6c⟩, HF0, Hb7, HF1, Hb8, Hw0, Hw1⟩
  sl_exec
  sl_for (pairInv m d L O W Tbl Pw0 Pw1) $$ [HO HT Hea2 Hea3 HB0 HB1 HF0 Hb7 HF1 Hb8 Hw0 Hw1]
  case region => exact pair_region m d L O W v3138 v3140 v3158 Tbl Pw0 Pw1 I0 R0 hreg0 hent0 hext0 hland0z hland0s I1 R1 hreg1 hent1 hext1 hland1z hland1s
  · rw [pairInv_zero]; delta pairInv0
    isplitr; · iexact Hmw
    isplitl [HO]
    · iexists _; isplitr
      rotate_left
      · iexact HO
      · ipureintro; exact hW'
    isplitl [HT]; · iexact HT
    isplitl [Hea2]; · iexact Hea2
    isplitl [Hea3]; · iexact Hea3
    isplitl [HB0]; · iexact HB0
    isplitl [HB1]; · iexists ga1, gb1, gc1; iexact HB1
    isplitl [HF0]; · iexact HF0
    isplitl [Hb7]; · iexact Hb7
    isplitl [HF1]; · iexact HF1
    isplitl [Hb8]; · iexact Hb8
    isplitl [Hw0]; · iexact Hw0
    iexact Hw1
  iintro %acc HI
  ihave HI := (Entails.of_eq (pairInv_last m d L O W Tbl Pw0 Pw1 h15 acc)) $$ HI
  delta pairInvS
  icases HI with ⟨-, ⟨%W2, %hW2, HO⟩, HT, Hea2, Hea3, ⟨%ga0, %gb0, %gc0, HB0⟩, ⟨%ga1, %gb1, %gc1, HB1⟩, ⟨%f7, HF0⟩, ⟨%f8, HF1⟩, Hw0, Hw1⟩
  sl_exec
  ihave Hea3 := (Entails.of_eq (ea_respell (F := F) d L (Transfers.shareTokN (tok (wL L)) 3) _ _ (eaC m d))) $$ Hea3
  ihave HF1_src := (Entails.of_eq (b8_own (F := F) d L f8)) $$ HF1_src
  ihave Hw1 := (wins_fill' (F := F) (fun i : Fin k0_t1_loop.trips => if i.val ≤ (⟨15, h15⟩ : Fin k0_t1_loop.trips).val then winAtV d L (o139 L i) (Pw1 i) else winAt d L (o139 L i)) ⟨15, h15⟩ (winAtV d L (o139 L ⟨15, h15⟩) (Pw1 ⟨15, h15⟩)) (if_pos (le_refl _))) $$ [Hw1 HF1_dst]
  · isplitl [Hw1]; · iexact Hw1
    iexact HF1_dst
  sl_step
  try delta exit144
  isplitr; · iexact Hmw
  isplitl [HO]
  · iexists _; isplitr
    rotate_left
    · iexact HO
    · ipureintro; exact (waits_insert (waits_insert (waits_insert (waits_insert hW2 _) _) _) _)
  isplitl [HT]; · iexact HT
  isplitl [Hea2]; · iexact Hea2
  isplitl [Hea3]; · iexact Hea3
  isplitl [HB0]; · iexists ga0, gb0, gc0; iexact HB0
  isplitl [HB1_dst0 HB1_dst1 HB1_dst2]
  · iexists ga1, gb1, gc1
    isplitl [HB1_dst0]; · iexact HB1_dst0
    isplitl [HB1_dst1]; · iexact HB1_dst1
    iexact HB1_dst2
  isplitl [HB1]; · iexact HB1
  isplitl [HF0]; · iexists f7; iexact HF0
  isplitl [HF1]; · iexact HF1
  isplitl [HF1_src]; · iexists f8; iexact HF1_src
  isplitl [Hw0]; · iexact Hw0
  iexact Hw1

/-- What k0_part143 starts from: both read shares of the attribute array whole, both attribute scratches as their
    thirds, all four loop semaphores at zero, both out scratches and all 32 windows of the result in hand. -/
def entry143 (Tbl : sProp 𝕄) : sProp 𝕄 :=
  iprop(Transfers.MayWaits (thr d L) (none : HIx 1) O
    ∗ (∃ W', ⌜∀ p ∈ W', p ∈ W ∨ p.2 = none⌝ ∗ owes (thr d L) O W')
    ∗ Tbl
    ∗ ((eaW).view.loc (thr d L) ↦{Transfers.shareTokN (tok (wL L)) 2} eaC m d)
    ∗ ((eaW).view.loc (thr d L) ↦{Transfers.shareTokN (tok (wL L)) 3} eaC m d)
    ∗ (∃ ga gb gc, ((t5a).view.loc (thr d L) ↦[(t5a).view.set]{fullShare} ga) ∗ ((t5b).view.loc (thr d L) ↦[(t5b).view.set]{fullShare} gb)
        ∗ ((t5c).view.loc (thr d L) ↦[(t5c).view.set]{fullShare} gc))
    ∗ semVal (thr d L, SemLoc.dma cc0_scratch11.sem) 0
    ∗ (∃ ga gb gc, ((t6a).view.loc (thr d L) ↦[(t6a).view.set]{fullShare} ga) ∗ ((t6b).view.loc (thr d L) ↦[(t6b).view.set]{fullShare} gb)
        ∗ ((t6c).view.loc (thr d L) ↦[(t6c).view.set]{fullShare} gc))
    ∗ semVal (thr d L, SemLoc.dma cc0_scratch12.sem) 0
    ∗ semVal (thr d L, SemLoc.dma cc0_scratch9.sem) 0 ∗ (∃ f, (b7W).view.loc (thr d L) ↦{fullShare} f)
    ∗ semVal (thr d L, SemLoc.dma cc0_scratch10.sem) 0 ∗ (∃ f, (b8W).view.loc (thr d L) ↦{fullShare} f)
    ∗ (bigSep Finset.univ fun i : Fin k0_t1_loop.trips => winAt d L (o70 L i))
    ∗ (bigSep Finset.univ fun i : Fin k0_t1_loop.trips => winAt d L (o139 L i)))

set_option maxHeartbeats 0 in
/-- k0_part143 as a unit: the two fetch batches are set up over the scratches' contents, slot 0's three fetches and
    slot 1's first are issued. -/
theorem part143_unit [∀ e, Nonempty (Elt F e)] (v1 v3132 c195_i32 : BitVec 32) (Tbl : sProp 𝕄) :
    entry143 m d L O W Tbl
      ⊢ wp frame (wpE (defs₀ (F := F)) 𝒱₀ (thr d L) none) Set.univ
          (k0_part143 L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3 v1 v3132 c195_i32) (fun _ => entry144 m d L O W Tbl) := by
  simp only [k0_part143_eq_skeleton]; unfold k0_part143_skel
  delta entry143
  iintro ⟨#Hmw, ⟨%W', %hW', HO⟩, HT, Hea2, Hea3, ⟨%ga0, %gb0, %gc0, Ht5a, Ht5b, Ht5c⟩, HB0, ⟨%ga1, %gb1, %gc1, Ht6a, Ht6b, Ht6c⟩, HB1, HF0, Hb7, HF1, Hb8, Hw0, Hw1⟩
  imod (Transfers.batch_alloc' (EC (F := F)) (thr d L) (none : HIx 1) NE0 (delivEV m d L (Transfers.shareTokN (tok (wL L)) 2) t5a t5b t5c ga0 gb0 gc0 (k0_off1 L 0#32) (k0_off1_inb L 0) (k0_off1 L 800000#32) (k0_off1_inb L 1) (k0_off1 L 1600000#32) (k0_off1_inb L 2)) (sm := _) (E := Set.univ)) $$ HB0 with HB0
  imod (Transfers.batch_alloc' (EC (F := F)) (thr d L) (none : HIx 1) NE1 (delivEV m d L (Transfers.shareTokN (tok (wL L)) 3) t6a t6b t6c ga1 gb1 gc1 (k0_off2 L 0#32) (k0_off2_inb L 0) (k0_off2 L 800000#32) (k0_off2_inb L 1) (k0_off2 L 1600000#32) (k0_off2_inb L 2)) (sm := _) (E := Set.univ)) $$ HB1 with HB1
  sl_exec
  sl_step
  try delta entry144
  isplitr; · iexact Hmw
  isplitl [HO]
  · iexists _; isplitr
    rotate_left
    · iexact HO
    · ipureintro; exact hW'
  isplitl [HT]; · iexact HT
  isplitl [Hea2]; · iexact Hea2
  isplitl [Hea3]; · iexact Hea3
  isplitl [HB0]; · iexists ga0, gb0, gc0; iexact HB0
  isplitl [HB1 Ht6b Ht6c]
  · iexists ga1, gb1, gc1
    isplitl [HB1]; · iexact HB1
    isplitl [Ht6b]; · iexact Ht6b
    iexact Ht6c
  isplitl [HF0]; · iexact HF0
  isplitl [Hb7]; · iexact Hb7
  isplitl [HF1]; · iexact HF1
  isplitl [Hb8]; · iexact Hb8
  isplitl [Hw0]; · iexact Hw0
  iexact Hw1

end Tile

end Pair

end Cert.Proof.K

end
-- ==== Proof.ChunkK.lean ====
/-
  One chunk of a vector subcore's work against the global value. A chunk is six consecutive blocks of 128 edges; its
  attribute scratch holds the three attribute columns of its 768 edges, and the transposed table scratch holds the
  combined table: row 12·i₀ + 2·i₁ + i₂ is the sum of rows i₀, i₁, i₂ of the three tables. Where every attribute word
  is 0 or 1 the combined row an edge names is at most 15, its three digits are the edge's three attribute words, and
  the table word the chunk gathers is the embedding the global layout asks for at the same element, the block
  shifted by the chunk's first block.
-/
import proofs.«203789_g40862318854646_cont_8to1_b_1018_13_alg».proof.Proof.GoodK

noncomputable section

namespace Cert.Proof.K

open Cert.Kernel Cert.Kernel.Gen
open Idealize.ShloMosaic Idealize.ShloMosaic.ValueIdx

variable {F : FTy → Type} [FloatOps F]

/-- The combined table at the row three attribute words 0 or 1 name: the row's digits are the three words, so the
    word read is the sum of the three tables' rows. -/
theorem tab_at_digits (w0 : FVec F S320 .f32) (w1 : FVec F S384 .f32) (w2 : FVec F S128 .f32) (ft : FVec F S4096 .f32)
    (hT : TabT w0 w1 w2 ft) (c n0 n1 n2 : ℕ) (hc : c < 64) (h0 : n0 ≤ 1) (h1 : n1 ≤ 1) (h2 : n2 ≤ 1) :
    at1 ft (64 * c + (n0 * 12 + n1 * 2 + n2))
      = FloatOps.addf (FloatOps.addf (at1 w0 (n0 * 64 + c)) (at1 w1 (n1 * 64 + c))) (at1 w2 (n2 * 64 + c)) := by
  rw [hT c _ hc (by omega)]
  unfold tabVal
  rw [show (n0 * 12 + n1 * 2 + n2) / 12 = n0 by omega, show (n0 * 12 + n1 * 2 + n2) % 12 / 2 = n1 by omega,
    show (n0 * 12 + n1 * 2 + n2) % 2 = n2 by omega, Nat.mul_comm 64 n0, Nat.mul_comm 64 n1, Nat.mul_comm 64 n2]

/-- What a chunk's output scratch holds at a local element is the embedding at the global element with the same
    coordinates, the block shifted by the chunk's first block. -/
theorem gather_eq_kerVal (ea : IVec S2400000 32) (w0 : FVec F S320 .f32) (w1 : FVec F S384 .f32) (w2 : FVec F S128 .f32)
    (ft : FVec F S4096 .f32) (fe : IVec S2304 32) (eb0 : ℕ) (heb : eb0 + 6 ≤ 6250)
    (hT : TabT w0 w1 w2 ft) (hea : ∀ n, ea n = 0#32 ∨ ea n = 1#32)
    (hfe : ∀ f p, f < 3 → p < 768 → at1 fe (768 * f + p) = at1 ea (800000 * f + 128 * eb0 + p))
    (j : S8x6x8x128.Idx) (j' : S8x6250x8x128.Idx)
    (h0 : (j' 0).val = (j 0).val) (h1 : (j' 1).val = eb0 + (j 1).val) (h2 : (j' 2).val = (j 2).val) (h3 : (j' 3).val = (j 3).val) :
    gatherVal ft fe j = kerVal ea w0 w1 w2 j' := by
  have hj0 : (j 0).val < 8 := (j 0).isLt
  have hj1 : (j 1).val < 6 := (j 1).isLt
  have hj2 : (j 2).val < 8 := (j 2).isLt
  have hj3 : (j 3).val < 128 := (j 3).isLt
  obtain ⟨p, hp⟩ : ∃ p, p = 128 * (j 1).val + (j 3).val := ⟨_, rfl⟩
  obtain ⟨c, hc⟩ : ∃ c, c = 8 * (j 0).val + (j 2).val := ⟨_, rfl⟩
  have hp768 : p < 768 := by omega
  have hc64 : c < 64 := by omega
  have tn : ∀ k, (at1 ea k).toNat ≤ 1 := fun k => by
    show (ea (ix1 (Fin.ofNat 2400000 k))).toNat ≤ 1
    rcases hea (ix1 (Fin.ofNat 2400000 k)) with h | h <;> rw [h] <;> decide
  have f0 : at1 fe p = at1 ea (128 * eb0 + p) := by
    have := hfe 0 p (by omega) hp768
    rw [show 768 * 0 + p = p by omega, show 800000 * 0 + 128 * eb0 + p = 128 * eb0 + p by omega] at this
    exact this
  have f1 : at1 fe (768 + p) = at1 ea (800000 + (128 * eb0 + p)) := by
    have := hfe 1 p (by omega) hp768
    rw [show 768 * 1 + p = 768 + p by omega, show 800000 * 1 + 128 * eb0 + p = 800000 + (128 * eb0 + p) by omega] at this
    exact this
  have f2 : at1 fe (1536 + p) = at1 ea (1600000 + (128 * eb0 + p)) := by
    have := hfe 2 p (by omega) hp768
    rw [show 768 * 2 + p = 1536 + p by omega, show 800000 * 2 + 128 * eb0 + p = 1600000 + (128 * eb0 + p) by omega] at this
    exact this
  have e1 : 128 * (j' 1).val + (j' 3).val = 128 * eb0 + p := by omega
  have e2 : 8 * (j' 0).val + (j' 2).val = c := by omega
  unfold gatherVal kerVal combAt
  rw [e1, e2, ← hp, ← hc, f0, f1, f2]
  exact tab_at_digits w0 w1 w2 ft hT c _ _ _ hc64 (tn _) (tn _) (tn _)

end Cert.Proof.K

end
-- ==== Proof.OffsK.lean ====
/-
  The offsets the kernel computes for its six-block slices of the result array, in closed form. Subcore number
  w = 2·(i 1) + (i 0) starts at group g₀ = 8·lo w, lo w = 195·w + min w 10; chunk k starts at group g₀ + 48·k, whose
  block is (g₀ + 48·k) / 8 = lo w + 6·k. In trip t one slot works on chunk 2·t and the other on chunk 2·t + 1; the
  last chunk ends with the subcore's share, at block lo (w + 1) − 6. All words stay far below 2³¹, so the 32-bit
  arithmetic is the integers'. Then the elements of the result under such a slice: the blocks b … b + 5, which lie
  in the subcore's share when the slice does.
-/
import proofs.«203789_g40862318854646_cont_8to1_b_1018_13_alg».proof.Proof.SetupK
import proofs.«203789_g40862318854646_cont_8to1_b_1018_13_alg».proof.Proof.Gen.Kernel
import Idealize.ShloMosaic.Lib.Affine

noncomputable section

namespace Cert.Proof.K

open Cert.Kernel Cert.Kernel.Gen
open Idealize.ShloMosaic

/-! ## Words -/

/-- A logical right shift by three halves the unsigned reading three times. -/
theorem shrui3_toNat (a : BitVec 32) : (Scalar.shrui a 3#32).toNat = a.toNat / 8 := by
  unfold Scalar.shrui IntOp.shrui
  rw [if_pos (by decide)]
  rw [BitVec.ushiftRight_eq', BitVec.toNat_ushiftRight, Nat.shiftRight_eq_div_pow]
  rfl

/-- The offsets of a slice whose block is a group number shifted right by three, the group number being `8·n`. -/
theorem off_of_groups (x : BitVec 32) (n : ℕ) (hx : Affine.IsInt x (8 * (n : ℤ))) :
    (![0, (Scalar.shrui x 3#32).toNat, 0, 0] : Fin 4 → ℕ) = ![0, n, 0, 0] := by
  rw [shrui3_toNat, Affine.nat_eq hx (8 * n) (by push_cast; rfl)]
  congr 2
  omega

/-- The subcore's number as the kernel computes it … -/
def wWord (i : grid0.Coords) : BitVec 32 :=
  Scalar.addi (Scalar.muli (BitVec.ofNat 32 (i 1).val) 2#32) (BitVec.ofNat 32 (i 0).val)

/-- … and its first group. -/
def g0Word (i : grid0.Coords) : BitVec 32 :=
  Scalar.muli (Scalar.addi (Scalar.muli (wWord i) 195#32) (Scalar.minsi (wWord i) 10#32)) 8#32

theorem wWord_int (i : grid0.Coords) : Affine.IsInt (wWord i) (2 * ((i 1).val : ℤ) + ((i 0).val : ℤ)) := by
  have r_i1 : (i 1).val < 16 := (i 1).isLt
  have r_i0 : (i 0).val < 2 := (i 0).isLt
  have h_arg1 : Affine.IsInt (BitVec.ofNat 32 (i 1).val) (((i 1).val : ℤ)) := Affine.ofNat _ (by omega)
  have h_c2 : Affine.IsInt 2#32 (2) := Affine.ofNat _ (by omega)
  have h_v0 : Affine.IsInt _ (2 * ((i 1).val : ℤ)) := Affine.muli h_arg1 h_c2 (by omega)
  have h_arg0 : Affine.IsInt (BitVec.ofNat 32 (i 0).val) (((i 0).val : ℤ)) := Affine.ofNat _ (by omega)
  exact Affine.addi h_v0 h_arg0 (by omega)

theorem g0Word_int (i : grid0.Coords) : Affine.IsInt (g0Word i) (8 * ((lo (2 * (i 1).val + (i 0).val) : ℕ) : ℤ)) := by
  have r_i1 : (i 1).val < 16 := (i 1).isLt
  have r_i0 : (i 0).val < 2 := (i 0).isLt
  have h_v1 := wWord_int i
  have h_c195 : Affine.IsInt 195#32 (195) := Affine.ofNat _ (by omega)
  have h_v3135 : Affine.IsInt _ (390 * ((i 1).val : ℤ) + 195 * ((i 0).val : ℤ)) := Affine.muli h_v1 h_c195 (by omega)
  have h_c10 : Affine.IsInt 10#32 (10) := Affine.ofNat _ (by omega)
  have h_v3136 : Affine.IsInt _ (min (2 * ((i 1).val : ℤ) + ((i 0).val : ℤ)) 10) := Affine.minsi h_v1 h_c10 (by omega)
  have h_v3137 : Affine.IsInt _ (390 * ((i 1).val : ℤ) + 195 * ((i 0).val : ℤ) + min (2 * ((i 1).val : ℤ) + ((i 0).val : ℤ)) 10) :=
    Affine.addi h_v3135 h_v3136 (by omega)
  have h_c8 : Affine.IsInt 8#32 (8) := Affine.ofNat _ (by omega)
  have h_v3138 : Affine.IsInt _ (3120 * ((i 1).val : ℤ) + 1560 * ((i 0).val : ℤ) + 8 * min (2 * ((i 1).val : ℤ) + ((i 0).val : ℤ)) 10) :=
    Affine.muli h_v3137 h_c8 (by omega)
  exact Affine.relit h_v3138 (by unfold lo; push_cast; omega)

/-- The loop's variable at trip `t` is `t`, below 16. -/
theorem t1_lt (t : Fin k0_t1_loop.trips) : t.val < 16 := Nat.lt_of_lt_of_le t.isLt k0_t1_abs.2.1

theorem t1_int (t : Fin k0_t1_loop.trips) : Affine.IsInt (Scf.iv 0#32 1#32 t.val) (t.val : ℤ) := by
  have := t1_lt t
  have h_c0 : Affine.IsInt 0#32 (0) := Affine.ofNat _ (by omega)
  have h_c1 : Affine.IsInt 1#32 (1) := Affine.ofNat _ (by omega)
  exact Affine.iv h_c0 h_c1 t.val (by omega)

/-! ## The five slices' offsets -/

/-- The group chunk `2·t` starts at. -/
theorem even_groups_int (i : grid0.Coords) (t : Fin k0_t1_loop.trips) :
    Affine.IsInt (Scalar.addi (g0Word i) (Scalar.muli (Scalar.muli (Scf.iv 0#32 1#32 t.val) 2#32) 48#32))
      (8 * ((lo (2 * (i 1).val + (i 0).val) + 12 * t.val : ℕ) : ℤ)) := by
  have r_i1 : (i 1).val < 16 := (i 1).isLt
  have r_i0 : (i 0).val < 2 := (i 0).isLt
  have r_t := t1_lt t
  have h_c2 : Affine.IsInt 2#32 (2) := Affine.ofNat _ (by omega)
  have h_c48 : Affine.IsInt 48#32 (48) := Affine.ofNat _ (by omega)
  have h_v3205 : Affine.IsInt _ (2 * (t.val : ℤ)) := Affine.muli (t1_int t) h_c2 (by omega)
  have h_v3206 : Affine.IsInt _ (96 * (t.val : ℤ)) := Affine.muli h_v3205 h_c48 (by omega)
  exact Affine.addi (g0Word_int i) h_v3206 (by unfold lo; push_cast; omega)

/-- The group chunk `2·t + 1` starts at. -/
theorem odd_groups_int (i : grid0.Coords) (t : Fin k0_t1_loop.trips) :
    Affine.IsInt (Scalar.addi (g0Word i) (Scalar.muli (Scalar.addi (Scalar.muli (Scf.iv 0#32 1#32 t.val) 2#32) 1#32) 48#32))
      (8 * ((lo (2 * (i 1).val + (i 0).val) + 12 * t.val + 6 : ℕ) : ℤ)) := by
  have r_i1 : (i 1).val < 16 := (i 1).isLt
  have r_i0 : (i 0).val < 2 := (i 0).isLt
  have r_t := t1_lt t
  have h_c2 : Affine.IsInt 2#32 (2) := Affine.ofNat _ (by omega)
  have h_c1 : Affine.IsInt 1#32 (1) := Affine.ofNat _ (by omega)
  have h_c48 : Affine.IsInt 48#32 (48) := Affine.ofNat _ (by omega)
  have h_v3245 : Affine.IsInt _ (2 * (t.val : ℤ)) := Affine.muli (t1_int t) h_c2 (by omega)
  have h_v3246 : Affine.IsInt _ (2 * (t.val : ℤ) + 1) := Affine.addi h_v3245 h_c1 (by omega)
  have h_v3247 : Affine.IsInt _ (96 * (t.val : ℤ) + 48) := Affine.muli h_v3246 h_c48 (by omega)
  exact Affine.addi (g0Word_int i) h_v3247 (by unfold lo; push_cast; omega)

/-- Slot 0's copy-out of chunk `2·t`. -/
theorem k0_off70_eq (i : grid0.Coords) (t : Fin k0_t1_loop.trips) :
    k0_off70 i t = ![0, lo (2 * (i 1).val + (i 0).val) + 12 * t.val, 0, 0] :=
  off_of_groups _ _ (even_groups_int i t)

/-- Slot 0's wait for the copy-out it reuses: the same slice's descriptor. -/
theorem k0_off3_eq (i : grid0.Coords) (t : Fin k0_t1_loop.trips) :
    k0_off3 i t = ![0, lo (2 * (i 1).val + (i 0).val) + 12 * t.val, 0, 0] :=
  off_of_groups _ _ (even_groups_int i t)

/-- Slot 1's copy-out of chunk `2·t + 1`. -/
theorem k0_off139_eq (i : grid0.Coords) (t : Fin k0_t1_loop.trips) :
    k0_off139 i t = ![0, lo (2 * (i 1).val + (i 0).val) + 12 * t.val + 6, 0, 0] :=
  off_of_groups _ _ (odd_groups_int i t)

/-- Slot 1's wait: the same slice's descriptor. -/
theorem k0_off72_eq (i : grid0.Coords) (t : Fin k0_t1_loop.trips) :
    k0_off72 i t = ![0, lo (2 * (i 1).val + (i 0).val) + 12 * t.val + 6, 0, 0] :=
  off_of_groups _ _ (odd_groups_int i t)

/-- The last chunk ends with the subcore's share. -/
theorem k0_off141_eq (i : grid0.Coords) :
    k0_off141 i = ![0, lo (2 * (i 1).val + (i 0).val + 1) - 6, 0, 0] := by
  have r_i1 : (i 1).val < 16 := (i 1).isLt
  have r_i0 : (i 0).val < 2 := (i 0).isLt
  have h_v1 := wWord_int i
  have h_c195 : Affine.IsInt 195#32 (195) := Affine.ofNat _ (by omega)
  have h_c10 : Affine.IsInt 10#32 (10) := Affine.ofNat _ (by omega)
  have h_c8 : Affine.IsInt 8#32 (8) := Affine.ofNat _ (by omega)
  have h_c48 : Affine.IsInt 48#32 (48) := Affine.ofNat _ (by omega)
  rcases (show 2 * ((i 1).val : ℤ) + ((i 0).val : ℤ) ≤ 9 ∨ 10 ≤ 2 * ((i 1).val : ℤ) + ((i 0).val : ℤ) by omega) with hs | hs
  · have h_v3131 : Affine.Holds _ := Affine.slt_holds h_v1 h_c10 (by omega)
    have h_v3132 : Affine.IsInt _ (1) := Affine.extui_holds h_v3131 (by omega)
    have h_v3133 : Affine.IsInt _ (196) := Affine.addi h_c195 h_v3132 (by omega)
    have h_v3134 : Affine.IsInt _ (1568) := Affine.muli h_v3133 h_c8 (by omega)
    have h_v3139 : Affine.IsInt _ (8 * ((lo (2 * (i 1).val + (i 0).val) : ℕ) : ℤ) + 1568) :=
      Affine.addi (g0Word_int i) h_v3134 (by unfold lo; push_cast; omega)
    have h_v3140 : Affine.IsInt _ (8 * ((lo (2 * (i 1).val + (i 0).val + 1) - 6 : ℕ) : ℤ)) :=
      Affine.subi h_v3139 h_c48 (by unfold lo; push_cast; omega)
    exact off_of_groups _ _ h_v3140
  · have h_v3131 : Affine.Fails _ := Affine.slt_fails h_v1 h_c10 (by omega)
    have h_v3132 : Affine.IsInt _ (0) := Affine.extui_fails h_v3131 (by omega)
    have h_v3133 : Affine.IsInt _ (195) := Affine.addi h_c195 h_v3132 (by omega)
    have h_v3134 : Affine.IsInt _ (1560) := Affine.muli h_v3133 h_c8 (by omega)
    have h_v3139 : Affine.IsInt _ (8 * ((lo (2 * (i 1).val + (i 0).val) : ℕ) : ℤ) + 1560) :=
      Affine.addi (g0Word_int i) h_v3134 (by unfold lo; push_cast; omega)
    have h_v3140 : Affine.IsInt _ (8 * ((lo (2 * (i 1).val + (i 0).val + 1) - 6 : ℕ) : ℤ)) :=
      Affine.subi h_v3139 h_c48 (by unfold lo; push_cast; omega)
    exact off_of_groups _ _ h_v3140

/-! ## The guards -/

/-- Slot 0 waits for an earlier copy-out from the second trip on: chunk `2·t` is at least the third. -/
theorem k0_cond1_iff (t : Fin k0_t1_loop.trips) : k0_cond1 t = 1#1 ↔ 1 ≤ t.val := by
  have r_t := t1_lt t
  have h_c2 : Affine.IsInt 2#32 (2) := Affine.ofNat _ (by omega)
  have h_v3205 : Affine.IsInt (Scalar.muli (Scf.iv 0#32 1#32 t.val) 2#32) (2 * (t.val : ℤ)) := Affine.muli (t1_int t) h_c2 (by omega)
  by_cases h : 1 ≤ t.val
  · exact ⟨fun _ => h, fun _ => (Scalar.guard_iff _).mpr (Affine.sge_holds h_v3205 h_c2 (by omega))⟩
  · exact ⟨fun hh => absurd ((Scalar.guard_iff _).mp hh) (Affine.sge_fails h_v3205 h_c2 (by omega)), fun hh => absurd hh h⟩

/-- Slot 1 waits for an earlier copy-out from the second trip on: chunk `2·t + 1` is at least the third. -/
theorem k0_cond2_iff (t : Fin k0_t1_loop.trips) : k0_cond2 t = 1#1 ↔ 1 ≤ t.val := by
  have r_t := t1_lt t
  have h_c2 : Affine.IsInt 2#32 (2) := Affine.ofNat _ (by omega)
  have h_c1 : Affine.IsInt 1#32 (1) := Affine.ofNat _ (by omega)
  have h_v3245 : Affine.IsInt (Scalar.muli (Scf.iv 0#32 1#32 t.val) 2#32) (2 * (t.val : ℤ)) := Affine.muli (t1_int t) h_c2 (by omega)
  have h_v3246 : Affine.IsInt (Scalar.addi (Scalar.muli (Scf.iv 0#32 1#32 t.val) 2#32) 1#32) (2 * (t.val : ℤ) + 1) :=
    Affine.addi h_v3245 h_c1 (by omega)
  by_cases h : 1 ≤ t.val
  · exact ⟨fun _ => h, fun _ => (Scalar.guard_iff _).mpr (Affine.sge_holds h_v3246 h_c2 (by omega))⟩
  · exact ⟨fun hh => absurd ((Scalar.guard_iff _).mp hh) (Affine.sge_fails h_v3246 h_c2 (by omega)), fun hh => absurd hh h⟩

/-! ## The elements under a six-block slice -/

/-- The slice of six blocks from block `b` holds exactly the elements of those blocks. -/
theorem slice_set (b : ℕ) (hb : ∀ a, (![0, b, 0, 0] : Fin 4 → ℕ) a + S8x6x8x128.size a ≤ S8x6250x8x128.size a) :
    ((Memref.whole main_v5_scv : Memref sig .scVector .hbm S8x6250x8x128 .f32).slice
        (Rect.unit (s := S8x6250x8x128) ![0, b, 0, 0] S8x6x8x128.size hb) (fun _ => rfl)).view.set
      = Finset.univ.filter (fun j : S8x6250x8x128.Idx => b ≤ (j 1).val ∧ (j 1).val < b + 6) := by
  show ((View.whole main_v5_scv).slice (Rect.unit (s := S8x6250x8x128) ![0, b, 0, 0] S8x6x8x128.size hb)).set = _
  rw [View.set_slice_whole]
  ext j
  rw [Rect.mem_set_unit, Finset.mem_filter]
  constructor
  · intro h
    exact ⟨Finset.mem_univ _, h 1⟩
  · rintro ⟨-, h1, h2⟩ a
    match a with
    | ⟨0, _⟩ => exact ⟨Nat.zero_le _, by have : (j 0).val < 8 := (j 0).isLt; show (j 0).val < 0 + 8; omega⟩
    | ⟨1, _⟩ => exact ⟨h1, h2⟩
    | ⟨2, _⟩ => exact ⟨Nat.zero_le _, by have : (j 2).val < 8 := (j 2).isLt; show (j 2).val < 0 + 8; omega⟩
    | ⟨3, _⟩ => exact ⟨Nat.zero_le _, by have : (j 3).val < 128 := (j 3).isLt; show (j 3).val < 0 + 128; omega⟩

/-- A six-block slice inside a subcore's share lies in the subcore's blocks. -/
theorem slice_set_subset (b w : ℕ) (hb : ∀ a, (![0, b, 0, 0] : Fin 4 → ℕ) a + S8x6x8x128.size a ≤ S8x6250x8x128.size a)
    (h1 : lo w ≤ b) (h2 : b + 6 ≤ lo (w + 1)) :
    ((Memref.whole main_v5_scv : Memref sig .scVector .hbm S8x6250x8x128 .f32).slice
        (Rect.unit (s := S8x6250x8x128) ![0, b, 0, 0] S8x6x8x128.size hb) (fun _ => rfl)).view.set ⊆ blocksOf w := by
  rw [slice_set]
  intro j hj
  obtain ⟨-, h3, h4⟩ := Finset.mem_filter.mp hj
  exact Finset.mem_filter.mpr ⟨Finset.mem_univ _, by omega, by omega⟩

/-- The in-bounds evidence of a six-block slice, from its last block. -/
theorem slice_inb (b : ℕ) (h : b + 6 ≤ 6250) :
    ∀ a, (![0, b, 0, 0] : Fin 4 → ℕ) a + S8x6x8x128.size a ≤ S8x6250x8x128.size a := fun a =>
  match a with
  | ⟨0, _⟩ => by show 0 + 8 ≤ 8; omega
  | ⟨1, _⟩ => by show b + 6 ≤ 6250; omega
  | ⟨2, _⟩ => by show 0 + 8 ≤ 8; omega
  | ⟨3, _⟩ => by show 0 + 128 ≤ 128; omega

/-! ## The chunks stay inside the share -/

/-- The 32 chunks of the 16 trips end inside the share: 192 blocks of at least 195. -/
theorem chunks_le (w t : ℕ) (ht : t < 16) : lo w + 12 * t + 12 ≤ lo (w + 1) := by unfold lo; omega

/-- The last chunk starts inside the share. -/
theorem tail_ge (w : ℕ) : lo w ≤ lo (w + 1) - 6 := by unfold lo; omega

/-- The last chunk ends with the share. -/
theorem tail_end (w : ℕ) : lo (w + 1) - 6 + 6 = lo (w + 1) := by unfold lo; omega

/-- A share ends inside the array, for a subcore's number. -/
theorem lo_succ_le (w : ℕ) (hw : w < 32) : lo (w + 1) ≤ 6250 := by unfold lo; omega

end Cert.Proof.K

end
-- ==== Proof.HlandK.lean ====
/-
  Where a chunk's result lands. A chunk is six consecutive blocks of 128 edges. Its three attribute columns are
  fetched into the thirds of an attribute scratch from the flattened attribute array at the words
  800000·f + 128·b₀ + p (b₀ the chunk's first block); its output scratch, which holds the gathered table words, is
  copied to the six-block window of the result that starts at block b₀. Read element by element: a landed third at
  local word p is the attribute array at the fetch's offset plus p; a landed window at the image of a local element
  is the output scratch there; and, the combined table in place and every attribute word 0 or 1, that is the
  embedding at the global element. The fetch offsets and the windows' offsets are brought to the chunk's first
  block: chunks 2t and 2t+1 of trip t start at blocks lo w + 12 t and lo w + 12 t + 6, the last chunk at
  lo (w+1) - 6.
-/
import proofs.«203789_g40862318854646_cont_8to1_b_1018_13_alg».proof.Proof.ChunkK
import proofs.«203789_g40862318854646_cont_8to1_b_1018_13_alg».proof.Proof.OffsK
import Idealize.ShloMosaic.Lib.Writes

noncomputable section

namespace Cert.Proof.K

open Cert.Kernel Cert.Kernel.Gen
open Idealize.ShloMosaic Idealize.ShloMosaic.ValueIdx
open Idealize.ShloMosaic.SparseCore (S V T)

variable {F : FTy → Type}

local notation "eaW" => (Memref.whole Cert.Kernel.main_v1_scv : Memref Cert.Kernel.sig Kind.scVector Space.hbm Cert.Kernel.S2400000 EltTy.i32)
local notation "oW" => (Memref.whole Cert.Kernel.main_v5_scv : Memref Cert.Kernel.sig Kind.scVector Space.hbm Cert.Kernel.S8x6250x8x128 EltTy.f32)

/-! ## One landed write, read back -/

/-- Contents written whole through a view read back the payload, whatever was there before. -/
theorem read_landed {sig : RefSig} {κ : Kind} {sp : Space} {s : Shape} {e : EltTy} {Val : EltTy → Type}
    (v : View sig κ sp s e) (g : v.ty.Contents Val) (w : (Rect.whole s).shape.Idx → Val e) (y : s.Idx) :
    v.read Val (v.writes Val g [⟨Rect.whole s, w⟩]) y = w y := by
  have h := View.read_writes_cons_emb v g (Rect.whole s) w [] y
  have he : (Rect.whole s).emb y = y := funext fun a => Fin.ext (by show 0 + 1 * (y a).val = (y a).val; omega)
  rw [he] at h
  exact h

variable [FloatOps F] (ea : IVec S2400000 32) (w0 : FVec F S320 .f32) (w1 : FVec F S384 .f32) (w2 : FVec F S128 .f32)

/-- A landed third at local word `p`: the attribute array at the fetch's offset plus `p`. -/
theorem landedE_read {κ : Kind} {sp : Space} (vt : View sig κ sp S768 .i32) (g : vt.ty.Contents (Elt F))
    (off : Fin 1 → ℕ) (inb : ∀ a, off a + S768.size a ≤ S2400000.size a) (p : ℕ) (hp : p < 768) :
    vt.read (Elt F) (vt.writes (Elt F) g [⟨Rect.whole S768, ReadAs.same.apply
        (((eaW).slice (Rect.unit (s := S2400000) off S768.size inb) (fun _ => rfl)).view.read (Elt F) ea)⟩]) (ix1 ⟨p, hp⟩)
      = at1 ea (off 0 + p) := by
  refine (read_landed _ _ _ _).trans ?_
  rw [ReadAs.apply_same, View.read_apply]
  unfold at1
  refine congrArg ea (funext fun a => ?_)
  match a with
  | ⟨0, _⟩ =>
  refine Fin.ext ?_
  have h0 : off 0 + 768 ≤ 2400000 := inb 0
  show off 0 + 1 * p = (off 0 + p) % 2400000
  omega

/-! ## A landed window is the embedding -/

/-- The window of six blocks from block `eb0`, after the output scratch of the chunk that starts at `eb0` was copied
    to it: at every element of the window, the embedding. -/
theorem landedO_kerVal (ft : FVec F S4096 .f32) (hT : TabT w0 w1 w2 ft)
    (hea : ∀ n, ea n = 0#32 ∨ ea n = 1#32) (fe : IVec S2304 32) (eb0 : ℕ) (heb : eb0 + 6 ≤ 6250)
    (hfe : ∀ f p, f < 3 → p < 768 → at1 fe (768 * f + p) = at1 ea (800000 * f + 128 * eb0 + p))
    (off : Fin 4 → ℕ) (inb : ∀ a, off a + S8x6x8x128.size a ≤ S8x6250x8x128.size a) (hoff : off = ![0, eb0, 0, 0])
    {κ : Kind} {sp : Space} (bv : View sig κ sp S8x6x8x128 .f32) (f : bv.ty.Contents (Elt F))
    (hf : ∀ y, bv.read (Elt F) f y = gatherVal ft fe y)
    (gk : ((oW).slice (Rect.unit (s := S8x6250x8x128) off S8x6x8x128.size inb) (fun _ => rfl)).view.ty.Contents (Elt F)) :
    ∀ x ∈ ((oW).slice (Rect.unit (s := S8x6250x8x128) off S8x6x8x128.size inb) (fun _ => rfl)).view.set,
      ((oW).slice (Rect.unit (s := S8x6250x8x128) off S8x6x8x128.size inb) (fun _ => rfl)).view.writes (Elt F) gk
          [⟨Rect.whole S8x6x8x128, ReadAs.same.apply (bv.read (Elt F) f)⟩] x
        = kerVal ea w0 w1 w2 x := by
  intro x hx
  obtain ⟨y, -, rfl⟩ := Finset.mem_map.mp hx
  have h1 := read_landed ((oW).slice (Rect.unit (s := S8x6250x8x128) off S8x6x8x128.size inb) (fun _ => rfl)).view gk
    (ReadAs.same.apply (bv.read (Elt F) f)) y
  rw [View.read_apply, ReadAs.apply_same, hf y] at h1
  refine (cast_eq _ _).symm.trans (h1.trans ?_)
  subst hoff
  refine gather_eq_kerVal _ _ _ _ ft fe eb0 heb hT hea hfe y _ ?_ ?_ ?_ ?_
  · show 0 + 1 * (y 0).val = (y 0).val; omega
  · show eb0 + 1 * (y 1).val = eb0 + (y 1).val; omega
  · show 0 + 1 * (y 2).val = (y 2).val; omega
  · show 0 + 1 * (y 3).val = (y 3).val; omega

/-! ## The offsets, at the chunk's first block -/

/-- The first fetch of slot 0 reads chunk 0 … -/
theorem off1_val (L : grid0.Coords) (r : Fin 3) :
    (k0_off1 L (BitVec.ofNat 32 (800000 * r.val))) 0 = 800000 * r.val + 128 * lo (2 * (L 1).val + (L 0).val) := by
  rw [k0_off1_eq]
  show 800000 * r.val + 49920 * (L 1).val + 24960 * (L 0).val + 128 * (min (2 * (L 1).val + (L 0).val) 10) = _
  unfold lo; omega
/-- … and slot 1's reads chunk 1. -/
theorem off2_val (L : grid0.Coords) (r : Fin 3) :
    (k0_off2 L (BitVec.ofNat 32 (800000 * r.val))) 0 = 800000 * r.val + 128 * (lo (2 * (L 1).val + (L 0).val) + 6) := by
  rw [k0_off2_eq]
  show 800000 * r.val + 49920 * (L 1).val + 24960 * (L 0).val + 128 * (min (2 * (L 1).val + (L 0).val) 10) + 768 = _
  unfold lo; omega
/-- The fetch slot 0 issues at trip `j` reads chunk 2 (j + 1) while there is a trip `j + 1`: the minimum with the
    last chunk's start is not attained. -/
theorem off71_val (L : grid0.Coords) (j : Fin k0_t1_loop.trips) (hj : j.val + 1 < 16) (r : Fin 3) :
    (k0_off71 L j (BitVec.ofNat 32 (800000 * r.val))) 0
      = 800000 * r.val + 128 * (lo (2 * (L 1).val + (L 0).val) + 12 * (j.val + 1)) := by
  rw [k0_off71_eq]
  show 800000 * r.val + 16 * (min (3120 * (L 1).val + 1560 * (L 0).val + 8 * (min (2 * (L 1).val + (L 0).val) 10) + 96 * j.val + 96)
      (3120 * (L 1).val + 1560 * (L 0).val + 8 * (min (2 * (L 1).val + (L 0).val) 10)
        + 8 * (if 2 * (L 1).val + (L 0).val < 10 then 1 else 0) + 1512)) = _
  unfold lo
  split <;> omega
/-- The fetch slot 1 issues at trip `j` reads chunk 2 (j + 1) + 1 while there is a trip `j + 1` … -/
theorem off140_val (L : grid0.Coords) (j : Fin k0_t1_loop.trips) (hj : j.val + 1 < 16) (r : Fin 3) :
    (k0_off140 L j (BitVec.ofNat 32 (800000 * r.val))) 0
      = 800000 * r.val + 128 * (lo (2 * (L 1).val + (L 0).val) + 12 * (j.val + 1) + 6) := by
  rw [k0_off140_eq]
  show 800000 * r.val + 16 * (min (3120 * (L 1).val + 1560 * (L 0).val + 8 * (min (2 * (L 1).val + (L 0).val) 10) + 96 * j.val + 144)
      (3120 * (L 1).val + 1560 * (L 0).val + 8 * (min (2 * (L 1).val + (L 0).val) 10)
        + 8 * (if 2 * (L 1).val + (L 0).val < 10 then 1 else 0) + 1512)) = _
  unfold lo
  split <;> omega
/-- … and at the last trip the last chunk, which ends with the subcore's share. -/
theorem off140_tail (L : grid0.Coords) (j : Fin k0_t1_loop.trips) (hj : j.val = 15) (r : Fin 3) :
    (k0_off140 L j (BitVec.ofNat 32 (800000 * r.val))) 0
      = 800000 * r.val + 128 * (lo (2 * (L 1).val + (L 0).val + 1) - 6) := by
  rw [k0_off140_eq]
  show 800000 * r.val + 16 * (min (3120 * (L 1).val + 1560 * (L 0).val + 8 * (min (2 * (L 1).val + (L 0).val) 10) + 96 * j.val + 144)
      (3120 * (L 1).val + 1560 * (L 0).val + 8 * (min (2 * (L 1).val + (L 0).val) 10)
        + 8 * (if 2 * (L 1).val + (L 0).val < 10 then 1 else 0) + 1512)) = _
  unfold lo
  split <;> omega

/-! ## The thirds of an attribute scratch, and the scratch from its thirds -/

local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)

/-- A third of attribute scratch 5, read at local word `p`: the scratch at the third's offset plus `p`. -/
theorem third5_read (o : ℕ) (hb : ∀ a, (![o] : Fin 1 → ℕ) a + S768.size a ≤ S2304.size a)
    (fa : (b5W).view.ty.Contents (Elt F)) (p : ℕ) (hp : p < 768) :
    ((b5W).slice (Rect.unit (s := S2304) ![o] S768.size hb) (fun _ => rfl)).view.read (Elt F) fa (ix1 ⟨p, hp⟩)
      = at1 (N := 2304) fa (o + p) := by
  rw [View.read_apply]
  unfold at1
  refine congrArg fa (funext fun a => ?_)
  match a with
  | ⟨0, _⟩ =>
  refine Fin.ext ?_
  have h0 : o + 768 ≤ 2304 := hb 0
  show o + 1 * p = (o + p) % 2304
  omega

/-- A third of attribute scratch 6, read at local word `p`: the scratch at the third's offset plus `p`. -/
theorem third6_read (o : ℕ) (hb : ∀ a, (![o] : Fin 1 → ℕ) a + S768.size a ≤ S2304.size a)
    (fa : (b6W).view.ty.Contents (Elt F)) (p : ℕ) (hp : p < 768) :
    ((b6W).slice (Rect.unit (s := S2304) ![o] S768.size hb) (fun _ => rfl)).view.read (Elt F) fa (ix1 ⟨p, hp⟩)
      = at1 (N := 2304) fa (o + p) := by
  rw [View.read_apply]
  unfold at1
  refine congrArg fa (funext fun a => ?_)
  match a with
  | ⟨0, _⟩ =>
  refine Fin.ext ?_
  have h0 : o + 768 ≤ 2304 := hb 0
  show o + 1 * p = (o + p) % 2304
  omega

/-- The scratch joined from its three thirds' contents holds, at word 768·f + p, the attribute array's word
    800000·f + 128·b₀ + p, when third f holds the array's words from 800000·f + 128·b₀ on. -/
theorem hfe_of_thirds (fe : IVec S2304 32) (eb0 : ℕ) (fa fb fc : IVec S2304 32)
    (hjoin : ∀ i : S2304.Idx, fe i = if (i 0).val < 768 then fa i else if (i 0).val < 1536 then fb i else fc i)
    (hA : ∀ p, p < 768 → at1 fa p = at1 ea (128 * eb0 + p))
    (hB : ∀ p, p < 768 → at1 fb (768 + p) = at1 ea (800000 + 128 * eb0 + p))
    (hC : ∀ p, p < 768 → at1 fc (1536 + p) = at1 ea (1600000 + 128 * eb0 + p)) :
    ∀ f p, f < 3 → p < 768 → at1 fe (768 * f + p) = at1 ea (800000 * f + 128 * eb0 + p) := by
  intro f p hf hp
  have hf' : f = 0 ∨ f = 1 ∨ f = 2 := by omega
  rcases hf' with rfl | rfl | rfl
  · have h := hjoin (ix1 (Fin.ofNat 2304 (768 * 0 + p)))
    rw [if_pos (by show (768 * 0 + p) % 2304 < 768; omega)] at h
    show fe (ix1 (Fin.ofNat 2304 (768 * 0 + p))) = _
    rw [h, show 768 * 0 + p = p by omega, show 800000 * 0 + 128 * eb0 + p = 128 * eb0 + p by omega]
    exact hA p hp
  · have h := hjoin (ix1 (Fin.ofNat 2304 (768 * 1 + p)))
    rw [if_neg (by show ¬ (768 * 1 + p) % 2304 < 768; omega), if_pos (by show (768 * 1 + p) % 2304 < 1536; omega)] at h
    show fe (ix1 (Fin.ofNat 2304 (768 * 1 + p))) = _
    rw [h, show 768 * 1 + p = 768 + p by omega, show 800000 * 1 + 128 * eb0 + p = 800000 + 128 * eb0 + p by omega]
    exact hB p hp
  · have h := hjoin (ix1 (Fin.ofNat 2304 (768 * 2 + p)))
    rw [if_neg (by show ¬ (768 * 2 + p) % 2304 < 768; omega), if_neg (by show ¬ (768 * 2 + p) % 2304 < 1536; omega)] at h
    show fe (ix1 (Fin.ofNat 2304 (768 * 2 + p))) = _
    rw [h, show 768 * 2 + p = 1536 + p by omega, show 800000 * 2 + 128 * eb0 + p = 1600000 + 128 * eb0 + p by omega]
    exact hC p hp

/-! ## The landing facts of the outer loop -/

/-- Trip 0, slot 0: chunk 0's window. -/
theorem hland0z (ft : FVec F S4096 .f32) (hT : TabT w0 w1 w2 ft) (hea : ∀ n, ea n = 0#32 ∨ ea n = 1#32)
    (L : grid0.Coords) (h0 : 0 < k0_t1_loop.trips)
    (ga gb gc LA LB LC : (b5W).view.ty.Contents (Elt F))
    (hLA : LA = ((b5W).slice (Rect.unit (s := S2304) ![0] S768.size inb_S2304_S768_0) (fun _ => rfl)).view.writes (Elt F) ga
            [⟨Rect.whole S768, ReadAs.same.apply (((eaW).slice (Rect.unit (s := S2400000) (k0_off1 L 0#32) S768.size (k0_off1_inb L 0)) (fun _ => rfl)).view.read (Elt F) ea)⟩])
    (hLB : LB = ((b5W).slice (Rect.unit (s := S2304) ![768] S768.size inb_S2304_S768_768) (fun _ => rfl)).view.writes (Elt F) gb
            [⟨Rect.whole S768, ReadAs.same.apply (((eaW).slice (Rect.unit (s := S2400000) (k0_off1 L 800000#32) S768.size (k0_off1_inb L 1)) (fun _ => rfl)).view.read (Elt F) ea)⟩])
    (hLC : LC = ((b5W).slice (Rect.unit (s := S2304) ![1536] S768.size inb_S2304_S768_1536) (fun _ => rfl)).view.writes (Elt F) gc
            [⟨Rect.whole S768, ReadAs.same.apply (((eaW).slice (Rect.unit (s := S2400000) (k0_off1 L 1600000#32) S768.size (k0_off1_inb L 2)) (fun _ => rfl)).view.read (Elt F) ea)⟩])
    {κ : Kind} {sp : Space} (bv : View sig κ sp S8x6x8x128 .f32) (f : bv.ty.Contents (Elt F))
    (gk : ((oW).slice (Rect.unit (s := S8x6250x8x128) (k0_off70 L ⟨0, h0⟩) S8x6x8x128.size (k0_off70_inb L ⟨0, h0⟩)) (fun _ => rfl)).view.ty.Contents (Elt F))
    (fe : IVec S2304 32)
    (hjoin : ∀ i : S2304.Idx, fe i = if (i 0).val < 768 then LA i else if (i 0).val < 1536 then LB i else LC i)
    (hR : ∀ y, bv.read (Elt F) f y = gatherVal ft fe y)
    (Wn : Finset ((oW).slice (Rect.unit (s := S8x6250x8x128) (k0_off70 L ⟨0, h0⟩) S8x6x8x128.size (k0_off70_inb L ⟨0, h0⟩)) (fun _ => rfl)).view.ty.Idx) (hW : ((oW).slice (Rect.unit (s := S8x6250x8x128) (k0_off70 L ⟨0, h0⟩) S8x6x8x128.size (k0_off70_inb L ⟨0, h0⟩)) (fun _ => rfl)).view.set = Wn) :
    ∀ x ∈ Wn, ((oW).slice (Rect.unit (s := S8x6250x8x128) (k0_off70 L ⟨0, h0⟩) S8x6x8x128.size (k0_off70_inb L ⟨0, h0⟩)) (fun _ => rfl)).view.writes (Elt F) gk
        [⟨Rect.whole S8x6x8x128, ReadAs.same.apply (bv.read (Elt F) f)⟩] x = kerVal ea w0 w1 w2 x := by
  subst hW hLA hLB hLC
  have hL1 : (L 1).val < 16 := (L 1).isLt
  have hL0 : (L 0).val < 2 := (L 0).isLt

  have heb : lo (2 * (L 1).val + (L 0).val) + 12 * 0 + 6 ≤ 6250 := by
    have := chunks_le (2 * (L 1).val + (L 0).val) 0 (by omega); have := lo_succ_le (2 * (L 1).val + (L 0).val) (by omega); omega
  have oA : (k0_off1 L 0#32) 0 = 800000 * 0 + 128 * (lo (2 * (L 1).val + (L 0).val) + 12 * 0) := (off1_val L 0).trans (by omega)
  have oB : (k0_off1 L 800000#32) 0 = 800000 * 1 + 128 * (lo (2 * (L 1).val + (L 0).val) + 12 * 0) := (off1_val L 1).trans (by omega)
  have oC : (k0_off1 L 1600000#32) 0 = 800000 * 2 + 128 * (lo (2 * (L 1).val + (L 0).val) + 12 * 0) := (off1_val L 2).trans (by omega)
  refine landedO_kerVal ea w0 w1 w2 ft hT hea fe (lo (2 * (L 1).val + (L 0).val) + 12 * 0) heb ?_ _ _ (k0_off70_eq L ⟨0, h0⟩) bv f hR gk
  refine hfe_of_thirds ea fe (lo (2 * (L 1).val + (L 0).val) + 12 * 0) _ _ _ hjoin (fun p hp => ?_) (fun p hp => ?_) (fun p hp => ?_)
  · have e1 := third5_read (F := F) 0 inb_S2304_S768_0 (((b5W).slice (Rect.unit (s := S2304) ![0] S768.size inb_S2304_S768_0) (fun _ => rfl)).view.writes (Elt F) ga
            [⟨Rect.whole S768, ReadAs.same.apply (((eaW).slice (Rect.unit (s := S2400000) (k0_off1 L 0#32) S768.size (k0_off1_inb L 0)) (fun _ => rfl)).view.read (Elt F) ea)⟩]) p hp
    have e2 := landedE_read ea ((b5W).slice (Rect.unit (s := S2304) ![0] S768.size inb_S2304_S768_0) (fun _ => rfl)).view ga (k0_off1 L 0#32) (k0_off1_inb L 0) p hp
    rw [e1, oA] at e2
    rw [show (0 + p) = p by omega] at e2
    rw [e2]; congr 1; omega
  · have e1 := third5_read (F := F) 768 inb_S2304_S768_768 (((b5W).slice (Rect.unit (s := S2304) ![768] S768.size inb_S2304_S768_768) (fun _ => rfl)).view.writes (Elt F) gb
            [⟨Rect.whole S768, ReadAs.same.apply (((eaW).slice (Rect.unit (s := S2400000) (k0_off1 L 800000#32) S768.size (k0_off1_inb L 1)) (fun _ => rfl)).view.read (Elt F) ea)⟩]) p hp
    have e2 := landedE_read ea ((b5W).slice (Rect.unit (s := S2304) ![768] S768.size inb_S2304_S768_768) (fun _ => rfl)).view gb (k0_off1 L 800000#32) (k0_off1_inb L 1) p hp
    rw [e1, oB] at e2
    rw [e2]
  · have e1 := third5_read (F := F) 1536 inb_S2304_S768_1536 (((b5W).slice (Rect.unit (s := S2304) ![1536] S768.size inb_S2304_S768_1536) (fun _ => rfl)).view.writes (Elt F) gc
            [⟨Rect.whole S768, ReadAs.same.apply (((eaW).slice (Rect.unit (s := S2400000) (k0_off1 L 1600000#32) S768.size (k0_off1_inb L 2)) (fun _ => rfl)).view.read (Elt F) ea)⟩]) p hp
    have e2 := landedE_read ea ((b5W).slice (Rect.unit (s := S2304) ![1536] S768.size inb_S2304_S768_1536) (fun _ => rfl)).view gc (k0_off1 L 1600000#32) (k0_off1_inb L 2) p hp
    rw [e1, oC] at e2
    rw [e2]

/-- Trip j + 1, slot 0: the window of chunk 2 (j + 1), fetched at trip j. -/
theorem hland0s (ft : FVec F S4096 .f32) (hT : TabT w0 w1 w2 ft) (hea : ∀ n, ea n = 0#32 ∨ ea n = 1#32)
    (L : grid0.Coords) (j : Fin k0_t1_loop.trips) (hj : j.val + 1 < k0_t1_loop.trips)
    (ga gb gc LA LB LC : (b5W).view.ty.Contents (Elt F))
    (hLA : LA = ((b5W).slice (Rect.unit (s := S2304) ![0] S768.size inb_S2304_S768_0) (fun _ => rfl)).view.writes (Elt F) ga
            [⟨Rect.whole S768, ReadAs.same.apply (((eaW).slice (Rect.unit (s := S2400000) (k0_off71 L j 0#32) S768.size (k0_off71_inb L j 0)) (fun _ => rfl)).view.read (Elt F) ea)⟩])
    (hLB : LB = ((b5W).slice (Rect.unit (s := S2304) ![768] S768.size inb_S2304_S768_768) (fun _ => rfl)).view.writes (Elt F) gb
            [⟨Rect.whole S768, ReadAs.same.apply (((eaW).slice (Rect.unit (s := S2400000) (k0_off71 L j 800000#32) S768.size (k0_off71_inb L j 1)) (fun _ => rfl)).view.read (Elt F) ea)⟩])
    (hLC : LC = ((b5W).slice (Rect.unit (s := S2304) ![1536] S768.size inb_S2304_S768_1536) (fun _ => rfl)).view.writes (Elt F) gc
            [⟨Rect.whole S768, ReadAs.same.apply (((eaW).slice (Rect.unit (s := S2400000) (k0_off71 L j 1600000#32) S768.size (k0_off71_inb L j 2)) (fun _ => rfl)).view.read (Elt F) ea)⟩])
    {κ : Kind} {sp : Space} (bv : View sig κ sp S8x6x8x128 .f32) (f : bv.ty.Contents (Elt F))
    (gk : ((oW).slice (Rect.unit (s := S8x6250x8x128) (k0_off70 L ⟨j.val + 1, hj⟩) S8x6x8x128.size (k0_off70_inb L ⟨j.val + 1, hj⟩)) (fun _ => rfl)).view.ty.Contents (Elt F))
    (fe : IVec S2304 32)
    (hjoin : ∀ i : S2304.Idx, fe i = if (i 0).val < 768 then LA i else if (i 0).val < 1536 then LB i else LC i)
    (hR : ∀ y, bv.read (Elt F) f y = gatherVal ft fe y)
    (Wn : Finset ((oW).slice (Rect.unit (s := S8x6250x8x128) (k0_off70 L ⟨j.val + 1, hj⟩) S8x6x8x128.size (k0_off70_inb L ⟨j.val + 1, hj⟩)) (fun _ => rfl)).view.ty.Idx) (hW : ((oW).slice (Rect.unit (s := S8x6250x8x128) (k0_off70 L ⟨j.val + 1, hj⟩) S8x6x8x128.size (k0_off70_inb L ⟨j.val + 1, hj⟩)) (fun _ => rfl)).view.set = Wn) :
    ∀ x ∈ Wn, ((oW).slice (Rect.unit (s := S8x6250x8x128) (k0_off70 L ⟨j.val + 1, hj⟩) S8x6x8x128.size (k0_off70_inb L ⟨j.val + 1, hj⟩)) (fun _ => rfl)).view.writes (Elt F) gk
        [⟨Rect.whole S8x6x8x128, ReadAs.same.apply (bv.read (Elt F) f)⟩] x = kerVal ea w0 w1 w2 x := by
  subst hW hLA hLB hLC
  have hL1 : (L 1).val < 16 := (L 1).isLt
  have hL0 : (L 0).val < 2 := (L 0).isLt
  have hj16 : j.val + 1 < 16 := Nat.lt_of_lt_of_le hj k0_t1_abs.2.1
  have heb : lo (2 * (L 1).val + (L 0).val) + 12 * (j.val + 1) + 6 ≤ 6250 := by
    have := chunks_le (2 * (L 1).val + (L 0).val) (j.val + 1) hj16; have := lo_succ_le (2 * (L 1).val + (L 0).val) (by omega); omega
  have oA : (k0_off71 L j 0#32) 0 = 800000 * 0 + 128 * (lo (2 * (L 1).val + (L 0).val) + 12 * (j.val + 1)) := (off71_val L j hj16 0).trans (by omega)
  have oB : (k0_off71 L j 800000#32) 0 = 800000 * 1 + 128 * (lo (2 * (L 1).val + (L 0).val) + 12 * (j.val + 1)) := (off71_val L j hj16 1).trans (by omega)
  have oC : (k0_off71 L j 1600000#32) 0 = 800000 * 2 + 128 * (lo (2 * (L 1).val + (L 0).val) + 12 * (j.val + 1)) := (off71_val L j hj16 2).trans (by omega)
  refine landedO_kerVal ea w0 w1 w2 ft hT hea fe (lo (2 * (L 1).val + (L 0).val) + 12 * (j.val + 1)) heb ?_ _ _ (k0_off70_eq L ⟨j.val + 1, hj⟩) bv f hR gk
  refine hfe_of_thirds ea fe (lo (2 * (L 1).val + (L 0).val) + 12 * (j.val + 1)) _ _ _ hjoin (fun p hp => ?_) (fun p hp => ?_) (fun p hp => ?_)
  · have e1 := third5_read (F := F) 0 inb_S2304_S768_0 (((b5W).slice (Rect.unit (s := S2304) ![0] S768.size inb_S2304_S768_0) (fun _ => rfl)).view.writes (Elt F) ga
            [⟨Rect.whole S768, ReadAs.same.apply (((eaW).slice (Rect.unit (s := S2400000) (k0_off71 L j 0#32) S768.size (k0_off71_inb L j 0)) (fun _ => rfl)).view.read (Elt F) ea)⟩]) p hp
    have e2 := landedE_read ea ((b5W).slice (Rect.unit (s := S2304) ![0] S768.size inb_S2304_S768_0) (fun _ => rfl)).view ga (k0_off71 L j 0#32) (k0_off71_inb L j 0) p hp
    rw [e1, oA] at e2
    rw [show (0 + p) = p by omega] at e2
    rw [e2]; congr 1; omega
  · have e1 := third5_read (F := F) 768 inb_S2304_S768_768 (((b5W).slice (Rect.unit (s := S2304) ![768] S768.size inb_S2304_S768_768) (fun _ => rfl)).view.writes (Elt F) gb
            [⟨Rect.whole S768, ReadAs.same.apply (((eaW).slice (Rect.unit (s := S2400000) (k0_off71 L j 800000#32) S768.size (k0_off71_inb L j 1)) (fun _ => rfl)).view.read (Elt F) ea)⟩]) p hp
    have e2 := landedE_read ea ((b5W).slice (Rect.unit (s := S2304) ![768] S768.size inb_S2304_S768_768) (fun _ => rfl)).view gb (k0_off71 L j 800000#32) (k0_off71_inb L j 1) p hp
    rw [e1, oB] at e2
    rw [e2]
  · have e1 := third5_read (F := F) 1536 inb_S2304_S768_1536 (((b5W).slice (Rect.unit (s := S2304) ![1536] S768.size inb_S2304_S768_1536) (fun _ => rfl)).view.writes (Elt F) gc
            [⟨Rect.whole S768, ReadAs.same.apply (((eaW).slice (Rect.unit (s := S2400000) (k0_off71 L j 1600000#32) S768.size (k0_off71_inb L j 2)) (fun _ => rfl)).view.read (Elt F) ea)⟩]) p hp
    have e2 := landedE_read ea ((b5W).slice (Rect.unit (s := S2304) ![1536] S768.size inb_S2304_S768_1536) (fun _ => rfl)).view gc (k0_off71 L j 1600000#32) (k0_off71_inb L j 2) p hp
    rw [e1, oC] at e2
    rw [e2]

/-- Trip 0, slot 1: chunk 1's window. -/
theorem hland1z (ft : FVec F S4096 .f32) (hT : TabT w0 w1 w2 ft) (hea : ∀ n, ea n = 0#32 ∨ ea n = 1#32)
    (L : grid0.Coords) (h0 : 0 < k0_t1_loop.trips)
    (ga gb gc LA LB LC : (b6W).view.ty.Contents (Elt F))
    (hLA : LA = ((b6W).slice (Rect.unit (s := S2304) ![0] S768.size inb_S2304_S768_0) (fun _ => rfl)).view.writes (Elt F) ga
            [⟨Rect.whole S768, ReadAs.same.apply (((eaW).slice (Rect.unit (s := S2400000) (k0_off2 L 0#32) S768.size (k0_off2_inb L 0)) (fun _ => rfl)).view.read (Elt F) ea)⟩])
    (hLB : LB = ((b6W).slice (Rect.unit (s := S2304) ![768] S768.size inb_S2304_S768_768) (fun _ => rfl)).view.writes (Elt F) gb
            [⟨Rect.whole S768, ReadAs.same.apply (((eaW).slice (Rect.unit (s := S2400000) (k0_off2 L 800000#32) S768.size (k0_off2_inb L 1)) (fun _ => rfl)).view.read (Elt F) ea)⟩])
    (hLC : LC = ((b6W).slice (Rect.unit (s := S2304) ![1536] S768.size inb_S2304_S768_1536) (fun _ => rfl)).view.writes (Elt F) gc
            [⟨Rect.whole S768, ReadAs.same.apply (((eaW).slice (Rect.unit (s := S2400000) (k0_off2 L 1600000#32) S768.size (k0_off2_inb L 2)) (fun _ => rfl)).view.read (Elt F) ea)⟩])
    {κ : Kind} {sp : Space} (bv : View sig κ sp S8x6x8x128 .f32) (f : bv.ty.Contents (Elt F))
    (gk : ((oW).slice (Rect.unit (s := S8x6250x8x128) (k0_off139 L ⟨0, h0⟩) S8x6x8x128.size (k0_off139_inb L ⟨0, h0⟩)) (fun _ => rfl)).view.ty.Contents (Elt F))
    (fe : IVec S2304 32)
    (hjoin : ∀ i : S2304.Idx, fe i = if (i 0).val < 768 then LA i else if (i 0).val < 1536 then LB i else LC i)
    (hR : ∀ y, bv.read (Elt F) f y = gatherVal ft fe y)
    (Wn : Finset ((oW).slice (Rect.unit (s := S8x6250x8x128) (k0_off139 L ⟨0, h0⟩) S8x6x8x128.size (k0_off139_inb L ⟨0, h0⟩)) (fun _ => rfl)).view.ty.Idx) (hW : ((oW).slice (Rect.unit (s := S8x6250x8x128) (k0_off139 L ⟨0, h0⟩) S8x6x8x128.size (k0_off139_inb L ⟨0, h0⟩)) (fun _ => rfl)).view.set = Wn) :
    ∀ x ∈ Wn, ((oW).slice (Rect.unit (s := S8x6250x8x128) (k0_off139 L ⟨0, h0⟩) S8x6x8x128.size (k0_off139_inb L ⟨0, h0⟩)) (fun _ => rfl)).view.writes (Elt F) gk
        [⟨Rect.whole S8x6x8x128, ReadAs.same.apply (bv.read (Elt F) f)⟩] x = kerVal ea w0 w1 w2 x := by
  subst hW hLA hLB hLC
  have hL1 : (L 1).val < 16 := (L 1).isLt
  have hL0 : (L 0).val < 2 := (L 0).isLt

  have heb : lo (2 * (L 1).val + (L 0).val) + 12 * 0 + 6 + 6 ≤ 6250 := by
    have := chunks_le (2 * (L 1).val + (L 0).val) 0 (by omega); have := lo_succ_le (2 * (L 1).val + (L 0).val) (by omega); omega
  have oA : (k0_off2 L 0#32) 0 = 800000 * 0 + 128 * (lo (2 * (L 1).val + (L 0).val) + 12 * 0 + 6) := (off2_val L 0).trans (by omega)
  have oB : (k0_off2 L 800000#32) 0 = 800000 * 1 + 128 * (lo (2 * (L 1).val + (L 0).val) + 12 * 0 + 6) := (off2_val L 1).trans (by omega)
  have oC : (k0_off2 L 1600000#32) 0 = 800000 * 2 + 128 * (lo (2 * (L 1).val + (L 0).val) + 12 * 0 + 6) := (off2_val L 2).trans (by omega)
  refine landedO_kerVal ea w0 w1 w2 ft hT hea fe (lo (2 * (L 1).val + (L 0).val) + 12 * 0 + 6) heb ?_ _ _ (k0_off139_eq L ⟨0, h0⟩) bv f hR gk
  refine hfe_of_thirds ea fe (lo (2 * (L 1).val + (L 0).val) + 12 * 0 + 6) _ _ _ hjoin (fun p hp => ?_) (fun p hp => ?_) (fun p hp => ?_)
  · have e1 := third6_read (F := F) 0 inb_S2304_S768_0 (((b6W).slice (Rect.unit (s := S2304) ![0] S768.size inb_S2304_S768_0) (fun _ => rfl)).view.writes (Elt F) ga
            [⟨Rect.whole S768, ReadAs.same.apply (((eaW).slice (Rect.unit (s := S2400000) (k0_off2 L 0#32) S768.size (k0_off2_inb L 0)) (fun _ => rfl)).view.read (Elt F) ea)⟩]) p hp
    have e2 := landedE_read ea ((b6W).slice (Rect.unit (s := S2304) ![0] S768.size inb_S2304_S768_0) (fun _ => rfl)).view ga (k0_off2 L 0#32) (k0_off2_inb L 0) p hp
    rw [e1, oA] at e2
    rw [show (0 + p) = p by omega] at e2
    rw [e2]; congr 1; omega
  · have e1 := third6_read (F := F) 768 inb_S2304_S768_768 (((b6W).slice (Rect.unit (s := S2304) ![768] S768.size inb_S2304_S768_768) (fun _ => rfl)).view.writes (Elt F) gb
            [⟨Rect.whole S768, ReadAs.same.apply (((eaW).slice (Rect.unit (s := S2400000) (k0_off2 L 800000#32) S768.size (k0_off2_inb L 1)) (fun _ => rfl)).view.read (Elt F) ea)⟩]) p hp
    have e2 := landedE_read ea ((b6W).slice (Rect.unit (s := S2304) ![768] S768.size inb_S2304_S768_768) (fun _ => rfl)).view gb (k0_off2 L 800000#32) (k0_off2_inb L 1) p hp
    rw [e1, oB] at e2
    rw [e2]
  · have e1 := third6_read (F := F) 1536 inb_S2304_S768_1536 (((b6W).slice (Rect.unit (s := S2304) ![1536] S768.size inb_S2304_S768_1536) (fun _ => rfl)).view.writes (Elt F) gc
            [⟨Rect.whole S768, ReadAs.same.apply (((eaW).slice (Rect.unit (s := S2400000) (k0_off2 L 1600000#32) S768.size (k0_off2_inb L 2)) (fun _ => rfl)).view.read (Elt F) ea)⟩]) p hp
    have e2 := landedE_read ea ((b6W).slice (Rect.unit (s := S2304) ![1536] S768.size inb_S2304_S768_1536) (fun _ => rfl)).view gc (k0_off2 L 1600000#32) (k0_off2_inb L 2) p hp
    rw [e1, oC] at e2
    rw [e2]

/-- Trip j + 1, slot 1: the window of chunk 2 (j + 1) + 1, fetched at trip j. -/
theorem hland1s (ft : FVec F S4096 .f32) (hT : TabT w0 w1 w2 ft) (hea : ∀ n, ea n = 0#32 ∨ ea n = 1#32)
    (L : grid0.Coords) (j : Fin k0_t1_loop.trips) (hj : j.val + 1 < k0_t1_loop.trips)
    (ga gb gc LA LB LC : (b6W).view.ty.Contents (Elt F))
    (hLA : LA = ((b6W).slice (Rect.unit (s := S2304) ![0] S768.size inb_S2304_S768_0) (fun _ => rfl)).view.writes (Elt F) ga
            [⟨Rect.whole S768, ReadAs.same.apply (((eaW).slice (Rect.unit (s := S2400000) (k0_off140 L j 0#32) S768.size (k0_off140_inb L j 0)) (fun _ => rfl)).view.read (Elt F) ea)⟩])
    (hLB : LB = ((b6W).slice (Rect.unit (s := S2304) ![768] S768.size inb_S2304_S768_768) (fun _ => rfl)).view.writes (Elt F) gb
            [⟨Rect.whole S768, ReadAs.same.apply (((eaW).slice (Rect.unit (s := S2400000) (k0_off140 L j 800000#32) S768.size (k0_off140_inb L j 1)) (fun _ => rfl)).view.read (Elt F) ea)⟩])
    (hLC : LC = ((b6W).slice (Rect.unit (s := S2304) ![1536] S768.size inb_S2304_S768_1536) (fun _ => rfl)).view.writes (Elt F) gc
            [⟨Rect.whole S768, ReadAs.same.apply (((eaW).slice (Rect.unit (s := S2400000) (k0_off140 L j 1600000#32) S768.size (k0_off140_inb L j 2)) (fun _ => rfl)).view.read (Elt F) ea)⟩])
    {κ : Kind} {sp : Space} (bv : View sig κ sp S8x6x8x128 .f32) (f : bv.ty.Contents (Elt F))
    (gk : ((oW).slice (Rect.unit (s := S8x6250x8x128) (k0_off139 L ⟨j.val + 1, hj⟩) S8x6x8x128.size (k0_off139_inb L ⟨j.val + 1, hj⟩)) (fun _ => rfl)).view.ty.Contents (Elt F))
    (fe : IVec S2304 32)
    (hjoin : ∀ i : S2304.Idx, fe i = if (i 0).val < 768 then LA i else if (i 0).val < 1536 then LB i else LC i)
    (hR : ∀ y, bv.read (Elt F) f y = gatherVal ft fe y)
    (Wn : Finset ((oW).slice (Rect.unit (s := S8x6250x8x128) (k0_off139 L ⟨j.val + 1, hj⟩) S8x6x8x128.size (k0_off139_inb L ⟨j.val + 1, hj⟩)) (fun _ => rfl)).view.ty.Idx) (hW : ((oW).slice (Rect.unit (s := S8x6250x8x128) (k0_off139 L ⟨j.val + 1, hj⟩) S8x6x8x128.size (k0_off139_inb L ⟨j.val + 1, hj⟩)) (fun _ => rfl)).view.set = Wn) :
    ∀ x ∈ Wn, ((oW).slice (Rect.unit (s := S8x6250x8x128) (k0_off139 L ⟨j.val + 1, hj⟩) S8x6x8x128.size (k0_off139_inb L ⟨j.val + 1, hj⟩)) (fun _ => rfl)).view.writes (Elt F) gk
        [⟨Rect.whole S8x6x8x128, ReadAs.same.apply (bv.read (Elt F) f)⟩] x = kerVal ea w0 w1 w2 x := by
  subst hW hLA hLB hLC
  have hL1 : (L 1).val < 16 := (L 1).isLt
  have hL0 : (L 0).val < 2 := (L 0).isLt
  have hj16 : j.val + 1 < 16 := Nat.lt_of_lt_of_le hj k0_t1_abs.2.1
  have heb : lo (2 * (L 1).val + (L 0).val) + 12 * (j.val + 1) + 6 + 6 ≤ 6250 := by
    have := chunks_le (2 * (L 1).val + (L 0).val) (j.val + 1) hj16; have := lo_succ_le (2 * (L 1).val + (L 0).val) (by omega); omega
  have oA : (k0_off140 L j 0#32) 0 = 800000 * 0 + 128 * (lo (2 * (L 1).val + (L 0).val) + 12 * (j.val + 1) + 6) := (off140_val L j hj16 0).trans (by omega)
  have oB : (k0_off140 L j 800000#32) 0 = 800000 * 1 + 128 * (lo (2 * (L 1).val + (L 0).val) + 12 * (j.val + 1) + 6) := (off140_val L j hj16 1).trans (by omega)
  have oC : (k0_off140 L j 1600000#32) 0 = 800000 * 2 + 128 * (lo (2 * (L 1).val + (L 0).val) + 12 * (j.val + 1) + 6) := (off140_val L j hj16 2).trans (by omega)
  refine landedO_kerVal ea w0 w1 w2 ft hT hea fe (lo (2 * (L 1).val + (L 0).val) + 12 * (j.val + 1) + 6) heb ?_ _ _ (k0_off139_eq L ⟨j.val + 1, hj⟩) bv f hR gk
  refine hfe_of_thirds ea fe (lo (2 * (L 1).val + (L 0).val) + 12 * (j.val + 1) + 6) _ _ _ hjoin (fun p hp => ?_) (fun p hp => ?_) (fun p hp => ?_)
  · have e1 := third6_read (F := F) 0 inb_S2304_S768_0 (((b6W).slice (Rect.unit (s := S2304) ![0] S768.size inb_S2304_S768_0) (fun _ => rfl)).view.writes (Elt F) ga
            [⟨Rect.whole S768, ReadAs.same.apply (((eaW).slice (Rect.unit (s := S2400000) (k0_off140 L j 0#32) S768.size (k0_off140_inb L j 0)) (fun _ => rfl)).view.read (Elt F) ea)⟩]) p hp
    have e2 := landedE_read ea ((b6W).slice (Rect.unit (s := S2304) ![0] S768.size inb_S2304_S768_0) (fun _ => rfl)).view ga (k0_off140 L j 0#32) (k0_off140_inb L j 0) p hp
    rw [e1, oA] at e2
    rw [show (0 + p) = p by omega] at e2
    rw [e2]; congr 1; omega
  · have e1 := third6_read (F := F) 768 inb_S2304_S768_768 (((b6W).slice (Rect.unit (s := S2304) ![768] S768.size inb_S2304_S768_768) (fun _ => rfl)).view.writes (Elt F) gb
            [⟨Rect.whole S768, ReadAs.same.apply (((eaW).slice (Rect.unit (s := S2400000) (k0_off140 L j 800000#32) S768.size (k0_off140_inb L j 1)) (fun _ => rfl)).view.read (Elt F) ea)⟩]) p hp
    have e2 := landedE_read ea ((b6W).slice (Rect.unit (s := S2304) ![768] S768.size inb_S2304_S768_768) (fun _ => rfl)).view gb (k0_off140 L j 800000#32) (k0_off140_inb L j 1) p hp
    rw [e1, oB] at e2
    rw [e2]
  · have e1 := third6_read (F := F) 1536 inb_S2304_S768_1536 (((b6W).slice (Rect.unit (s := S2304) ![1536] S768.size inb_S2304_S768_1536) (fun _ => rfl)).view.writes (Elt F) gc
            [⟨Rect.whole S768, ReadAs.same.apply (((eaW).slice (Rect.unit (s := S2400000) (k0_off140 L j 1600000#32) S768.size (k0_off140_inb L j 2)) (fun _ => rfl)).view.read (Elt F) ea)⟩]) p hp
    have e2 := landedE_read ea ((b6W).slice (Rect.unit (s := S2304) ![1536] S768.size inb_S2304_S768_1536) (fun _ => rfl)).view gc (k0_off140 L j 1600000#32) (k0_off140_inb L j 2) p hp
    rw [e1, oC] at e2
    rw [e2]

/-- After the loop: the last chunk's window, its attributes fetched by slot 1 at the last trip. -/
theorem hlandTail (ft : FVec F S4096 .f32) (hT : TabT w0 w1 w2 ft) (hea : ∀ n, ea n = 0#32 ∨ ea n = 1#32)
    (L : grid0.Coords) (j : Fin k0_t1_loop.trips) (hj15 : j.val = 15) (inb141 : ∀ a, (k0_off141 L) a + S8x6x8x128.size a ≤ S8x6250x8x128.size a)
    (ga gb gc LA LB LC : (b6W).view.ty.Contents (Elt F))
    (hLA : LA = ((b6W).slice (Rect.unit (s := S2304) ![0] S768.size inb_S2304_S768_0) (fun _ => rfl)).view.writes (Elt F) ga
            [⟨Rect.whole S768, ReadAs.same.apply (((eaW).slice (Rect.unit (s := S2400000) (k0_off140 L j 0#32) S768.size (k0_off140_inb L j 0)) (fun _ => rfl)).view.read (Elt F) ea)⟩])
    (hLB : LB = ((b6W).slice (Rect.unit (s := S2304) ![768] S768.size inb_S2304_S768_768) (fun _ => rfl)).view.writes (Elt F) gb
            [⟨Rect.whole S768, ReadAs.same.apply (((eaW).slice (Rect.unit (s := S2400000) (k0_off140 L j 800000#32) S768.size (k0_off140_inb L j 1)) (fun _ => rfl)).view.read (Elt F) ea)⟩])
    (hLC : LC = ((b6W).slice (Rect.unit (s := S2304) ![1536] S768.size inb_S2304_S768_1536) (fun _ => rfl)).view.writes (Elt F) gc
            [⟨Rect.whole S768, ReadAs.same.apply (((eaW).slice (Rect.unit (s := S2400000) (k0_off140 L j 1600000#32) S768.size (k0_off140_inb L j 2)) (fun _ => rfl)).view.read (Elt F) ea)⟩])
    {κ : Kind} {sp : Space} (bv : View sig κ sp S8x6x8x128 .f32) (f : bv.ty.Contents (Elt F))
    (gk : ((oW).slice (Rect.unit (s := S8x6250x8x128) (k0_off141 L) S8x6x8x128.size (inb141)) (fun _ => rfl)).view.ty.Contents (Elt F))
    (fe : IVec S2304 32)
    (hjoin : ∀ i : S2304.Idx, fe i = if (i 0).val < 768 then LA i else if (i 0).val < 1536 then LB i else LC i)
    (hR : ∀ y, bv.read (Elt F) f y = gatherVal ft fe y)
    (Wn : Finset ((oW).slice (Rect.unit (s := S8x6250x8x128) (k0_off141 L) S8x6x8x128.size (inb141)) (fun _ => rfl)).view.ty.Idx) (hW : ((oW).slice (Rect.unit (s := S8x6250x8x128) (k0_off141 L) S8x6x8x128.size (inb141)) (fun _ => rfl)).view.set = Wn) :
    ∀ x ∈ Wn, ((oW).slice (Rect.unit (s := S8x6250x8x128) (k0_off141 L) S8x6x8x128.size (inb141)) (fun _ => rfl)).view.writes (Elt F) gk
        [⟨Rect.whole S8x6x8x128, ReadAs.same.apply (bv.read (Elt F) f)⟩] x = kerVal ea w0 w1 w2 x := by
  subst hW hLA hLB hLC
  have hL1 : (L 1).val < 16 := (L 1).isLt
  have hL0 : (L 0).val < 2 := (L 0).isLt

  have heb : lo (2 * (L 1).val + (L 0).val + 1) - 6 + 6 ≤ 6250 := by
    have := tail_end (2 * (L 1).val + (L 0).val); have := lo_succ_le (2 * (L 1).val + (L 0).val) (by omega); omega
  have oA : (k0_off140 L j 0#32) 0 = 800000 * 0 + 128 * (lo (2 * (L 1).val + (L 0).val + 1) - 6) := (off140_tail L j hj15 0).trans (by omega)
  have oB : (k0_off140 L j 800000#32) 0 = 800000 * 1 + 128 * (lo (2 * (L 1).val + (L 0).val + 1) - 6) := (off140_tail L j hj15 1).trans (by omega)
  have oC : (k0_off140 L j 1600000#32) 0 = 800000 * 2 + 128 * (lo (2 * (L 1).val + (L 0).val + 1) - 6) := (off140_tail L j hj15 2).trans (by omega)
  refine landedO_kerVal ea w0 w1 w2 ft hT hea fe (lo (2 * (L 1).val + (L 0).val + 1) - 6) heb ?_ _ _ (k0_off141_eq L) bv f hR gk
  refine hfe_of_thirds ea fe (lo (2 * (L 1).val + (L 0).val + 1) - 6) _ _ _ hjoin (fun p hp => ?_) (fun p hp => ?_) (fun p hp => ?_)
  · have e1 := third6_read (F := F) 0 inb_S2304_S768_0 (((b6W).slice (Rect.unit (s := S2304) ![0] S768.size inb_S2304_S768_0) (fun _ => rfl)).view.writes (Elt F) ga
            [⟨Rect.whole S768, ReadAs.same.apply (((eaW).slice (Rect.unit (s := S2400000) (k0_off140 L j 0#32) S768.size (k0_off140_inb L j 0)) (fun _ => rfl)).view.read (Elt F) ea)⟩]) p hp
    have e2 := landedE_read ea ((b6W).slice (Rect.unit (s := S2304) ![0] S768.size inb_S2304_S768_0) (fun _ => rfl)).view ga (k0_off140 L j 0#32) (k0_off140_inb L j 0) p hp
    rw [e1, oA] at e2
    rw [show (0 + p) = p by omega] at e2
    rw [e2]; congr 1; omega
  · have e1 := third6_read (F := F) 768 inb_S2304_S768_768 (((b6W).slice (Rect.unit (s := S2304) ![768] S768.size inb_S2304_S768_768) (fun _ => rfl)).view.writes (Elt F) gb
            [⟨Rect.whole S768, ReadAs.same.apply (((eaW).slice (Rect.unit (s := S2400000) (k0_off140 L j 800000#32) S768.size (k0_off140_inb L j 1)) (fun _ => rfl)).view.read (Elt F) ea)⟩]) p hp
    have e2 := landedE_read ea ((b6W).slice (Rect.unit (s := S2304) ![768] S768.size inb_S2304_S768_768) (fun _ => rfl)).view gb (k0_off140 L j 800000#32) (k0_off140_inb L j 1) p hp
    rw [e1, oB] at e2
    rw [e2]
  · have e1 := third6_read (F := F) 1536 inb_S2304_S768_1536 (((b6W).slice (Rect.unit (s := S2304) ![1536] S768.size inb_S2304_S768_1536) (fun _ => rfl)).view.writes (Elt F) gc
            [⟨Rect.whole S768, ReadAs.same.apply (((eaW).slice (Rect.unit (s := S2400000) (k0_off140 L j 1600000#32) S768.size (k0_off140_inb L j 2)) (fun _ => rfl)).view.read (Elt F) ea)⟩]) p hp
    have e2 := landedE_read ea ((b6W).slice (Rect.unit (s := S2304) ![1536] S768.size inb_S2304_S768_1536) (fun _ => rfl)).view gc (k0_off140 L j 1600000#32) (k0_off140_inb L j 2) p hp
    rw [e1, oC] at e2
    rw [e2]

end Cert.Proof.K

end
-- ==== Proof.WindowsK.lean ====
/-
  A subcore's blocks as the windows its chunks write. Subcore number w owns the blocks lo w … lo (w + 1) − 1, 195 or
  196 of them. Its 32 whole chunks are the six-block windows at lo w + 6·k, k < 32 (the blocks lo w … lo w + 191):
  chunk 2·t is written through one slot and chunk 2·t + 1 through the other, t < 16. The last chunk is the window
  that ends with the share, at lo (w + 1) − 6; it overlaps the window of chunk 31. The 32 windows are pairwise apart
  and lie in the share, and together with the last window they cover it. A points-to on the share therefore splits
  into the two slots' sixteen windows each and the three or four blocks left, and joins back at whatever contents
  the windows come back with; and once the last window is rewritten, every element of the share holds the value the
  chunks were to leave.
-/
import proofs.«203789_g40862318854646_cont_8to1_b_1018_13_alg».proof.Proof.SetupK
import proofs.«203789_g40862318854646_cont_8to1_b_1018_13_alg».proof.Proof.OffsK
import proofs.«203789_g40862318854646_cont_8to1_b_1018_13_alg».proof.Proof.GoodK

noncomputable section

namespace Cert.Proof.K

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## The windows as sets -/

/-- The elements of the six blocks from block `b`. -/
def win (b : ℕ) : Finset S8x6250x8x128.Idx := Finset.univ.filter (fun j => b ≤ (j 1).val ∧ (j 1).val < b + 6)

theorem mem_win {b : ℕ} {j : S8x6250x8x128.Idx} : j ∈ win b ↔ b ≤ (j 1).val ∧ (j 1).val < b + 6 := by
  unfold win; rw [Finset.mem_filter]; exact ⟨fun h => h.2, fun h => ⟨Finset.mem_univ _, h⟩⟩

theorem mem_blocksOf {w : ℕ} {j : S8x6250x8x128.Idx} : j ∈ blocksOf w ↔ lo w ≤ (j 1).val ∧ (j 1).val < lo (w + 1) := by
  unfold blocksOf; rw [Finset.mem_filter]; exact ⟨fun h => h.2, fun h => ⟨Finset.mem_univ _, h⟩⟩

/-- Windows six or more blocks apart share no element. -/
theorem win_disjoint {a b : ℕ} (h : a + 6 ≤ b ∨ b + 6 ≤ a) : Disjoint (win a) (win b) := by
  rw [Finset.disjoint_left]
  intro j ha hb
  rw [mem_win] at ha hb
  omega

/-- A window inside a share lies in the subcore's blocks. -/
theorem win_subset {w b : ℕ} (h1 : lo w ≤ b) (h2 : b + 6 ≤ lo (w + 1)) : win b ⊆ blocksOf w := by
  intro j hj
  rw [mem_win] at hj
  rw [mem_blocksOf]
  omega

/-- The 32 chunk windows are pairwise apart … -/
theorem chunk_disjoint (w : ℕ) {k k' : ℕ} (h : k ≠ k') : Disjoint (win (lo w + 6 * k)) (win (lo w + 6 * k')) :=
  win_disjoint (by omega)

/-- … and lie in the share. -/
theorem chunk_subset (w : ℕ) {k : ℕ} (hk : k < 32) : win (lo w + 6 * k) ⊆ blocksOf w :=
  win_subset (by omega) (by unfold lo; omega)

/-- The last window lies in the share. -/
theorem tail_subset (w : ℕ) : win (lo (w + 1) - 6) ⊆ blocksOf w :=
  win_subset (tail_ge w) (by rw [tail_end])

/-- One slot's sixteen windows (chunks `2·t`) and the other's (chunks `2·t + 1`). -/
def evenWins (w : ℕ) : Finset S8x6250x8x128.Idx := (Finset.univ : Finset (Fin 16)).biUnion fun t => win (lo w + 12 * t.val)
def oddWins (w : ℕ) : Finset S8x6250x8x128.Idx := (Finset.univ : Finset (Fin 16)).biUnion fun t => win (lo w + 12 * t.val + 6)

/-- The union of the 32 chunk windows: the blocks `lo w … lo w + 191`. -/
def chunkWins (w : ℕ) : Finset S8x6250x8x128.Idx := evenWins w ∪ oddWins w

/-- The blocks of the share after the 32 chunks: three or four. -/
def chunkRest (w : ℕ) : Finset S8x6250x8x128.Idx := blocksOf w \ chunkWins w

theorem mem_evenWins {w : ℕ} {j : S8x6250x8x128.Idx} : j ∈ evenWins w ↔ ∃ t : Fin 16, j ∈ win (lo w + 12 * t.val) := by
  unfold evenWins; rw [Finset.mem_biUnion]; exact ⟨fun ⟨t, _, h⟩ => ⟨t, h⟩, fun ⟨t, h⟩ => ⟨t, Finset.mem_univ _, h⟩⟩

theorem mem_oddWins {w : ℕ} {j : S8x6250x8x128.Idx} : j ∈ oddWins w ↔ ∃ t : Fin 16, j ∈ win (lo w + 12 * t.val + 6) := by
  unfold oddWins; rw [Finset.mem_biUnion]; exact ⟨fun ⟨t, _, h⟩ => ⟨t, h⟩, fun ⟨t, h⟩ => ⟨t, Finset.mem_univ _, h⟩⟩

/-- An element of the union lies in the window of some chunk `k < 32`, and conversely. -/
theorem mem_chunkWins {w : ℕ} {j : S8x6250x8x128.Idx} : j ∈ chunkWins w ↔ ∃ k, k < 32 ∧ j ∈ win (lo w + 6 * k) := by
  unfold chunkWins
  rw [Finset.mem_union, mem_evenWins, mem_oddWins]
  constructor
  · rintro (⟨t, h⟩ | ⟨t, h⟩)
    · exact ⟨2 * t.val, by omega, by rw [show lo w + 6 * (2 * t.val) = lo w + 12 * t.val by omega]; exact h⟩
    · exact ⟨2 * t.val + 1, by omega, by rw [show lo w + 6 * (2 * t.val + 1) = lo w + 12 * t.val + 6 by omega]; exact h⟩
  · rintro ⟨k, hk, h⟩
    rcases Nat.even_or_odd' k with ⟨t, rfl | rfl⟩
    · exact .inl ⟨⟨t, by omega⟩, by rw [show lo w + 12 * t = lo w + 6 * (2 * t) by omega]; exact h⟩
    · exact .inr ⟨⟨t, by omega⟩, by rw [show lo w + 12 * t + 6 = lo w + 6 * (2 * t + 1) by omega]; exact h⟩

/-- The union of the chunk windows is the blocks `lo w … lo w + 191`. -/
theorem mem_chunkWins' {w : ℕ} {j : S8x6250x8x128.Idx} : j ∈ chunkWins w ↔ lo w ≤ (j 1).val ∧ (j 1).val < lo w + 192 := by
  rw [mem_chunkWins]
  constructor
  · rintro ⟨k, hk, h⟩; rw [mem_win] at h; omega
  · intro h; exact ⟨((j 1).val - lo w) / 6, by omega, by rw [mem_win]; omega⟩

theorem chunkWins_subset (w : ℕ) : chunkWins w ⊆ blocksOf w := by
  intro j hj
  obtain ⟨k, hk, h⟩ := mem_chunkWins.mp hj
  exact chunk_subset w hk h

/-- The share is its 32 chunk windows and the rest. -/
theorem blocksOf_eq (w : ℕ) : blocksOf w = chunkWins w ∪ chunkRest w := by
  unfold chunkRest; rw [Finset.union_sdiff_of_subset (chunkWins_subset w)]

theorem chunkRest_disjoint (w : ℕ) : Disjoint (chunkWins w) (chunkRest w) := Finset.disjoint_sdiff

theorem even_odd_disjoint (w : ℕ) : Disjoint (evenWins w) (oddWins w) := by
  rw [Finset.disjoint_left]
  intro j he ho
  obtain ⟨t, ht⟩ := mem_evenWins.mp he
  obtain ⟨t', ht'⟩ := mem_oddWins.mp ho
  rw [mem_win] at ht ht'
  omega

theorem even_pairwise (w : ℕ) : ∀ t ∈ (Finset.univ : Finset (Fin 16)), ∀ t' ∈ (Finset.univ : Finset (Fin 16)), t ≠ t' →
    Disjoint (win (lo w + 12 * t.val)) (win (lo w + 12 * t'.val)) := fun t _ t' _ h =>
  win_disjoint (by have : t.val ≠ t'.val := fun e => h (Fin.ext e); omega)

theorem odd_pairwise (w : ℕ) : ∀ t ∈ (Finset.univ : Finset (Fin 16)), ∀ t' ∈ (Finset.univ : Finset (Fin 16)), t ≠ t' →
    Disjoint (win (lo w + 12 * t.val + 6)) (win (lo w + 12 * t'.val + 6)) := fun t _ t' _ h =>
  win_disjoint (by have : t.val ≠ t'.val := fun e => h (Fin.ext e); omega)

/-- THE COVER: an element of the share lies in a chunk's window or in the last window. -/
theorem share_cover {w : ℕ} {j : S8x6250x8x128.Idx} (hj : j ∈ blocksOf w) :
    (∃ k, k < 32 ∧ j ∈ win (lo w + 6 * k)) ∨ j ∈ win (lo (w + 1) - 6) := by
  rw [mem_blocksOf] at hj
  by_cases h : (j 1).val < lo w + 192
  · exact .inl (mem_chunkWins.mp (mem_chunkWins'.mpr ⟨hj.1, h⟩))
  · refine .inr (mem_win.mpr ?_)
    have := lo_succ w
    split at this <;> omega

/-! ## A points-to on the share, by windows -/

section PointsTo
variable {F : FTy → Type}

local notation "𝕄" => MT nD τ sig (HIx 1) (Elt F) ℕ UU ℕ

variable (d : Dev nD) (w : ℕ)

/-- The share as the two slots' sixteen windows each and the rest, at one contents. -/
theorem split_eq (fo : Buf (Elt F) (oLoc d)) :
    (oLoc d ↦[blocksOf w]{fullShare} fo : sProp 𝕄)
      = iprop((bigSep Finset.univ fun t : Fin 16 => oLoc d ↦[win (lo w + 12 * t.val)]{fullShare} fo)
          ∗ (bigSep Finset.univ fun t : Fin 16 => oLoc d ↦[win (lo w + 12 * t.val + 6)]{fullShare} fo)
          ∗ (oLoc d ↦[chunkRest w]{fullShare} fo)) := by
  have h1 : (oLoc d ↦[chunkWins w ∪ chunkRest w]{fullShare} fo : sProp 𝕄)
      ⊣⊢ iprop((oLoc d ↦[chunkWins w]{fullShare} fo) ∗ (oLoc d ↦[chunkRest w]{fullShare} fo)) :=
    pointsTo_union (chunkRest_disjoint w)
  have h2 : (oLoc d ↦[evenWins w ∪ oddWins w]{fullShare} fo : sProp 𝕄)
      ⊣⊢ iprop((oLoc d ↦[evenWins w]{fullShare} fo) ∗ (oLoc d ↦[oddWins w]{fullShare} fo)) :=
    pointsTo_union (even_odd_disjoint w)
  have h3 : (oLoc d ↦[evenWins w]{fullShare} fo : sProp 𝕄)
      = bigSep Finset.univ fun t : Fin 16 => oLoc d ↦[win (lo w + 12 * t.val)]{fullShare} fo :=
    pointsTo_biUnion _ _ (even_pairwise w)
  have h4 : (oLoc d ↦[oddWins w]{fullShare} fo : sProp 𝕄)
      = bigSep Finset.univ fun t : Fin 16 => oLoc d ↦[win (lo w + 12 * t.val + 6)]{fullShare} fo :=
    pointsTo_biUnion _ _ (odd_pairwise w)
  rw [blocksOf_eq w, BI.equiv_iff.mp ⟨h1.1, h1.2⟩]
  show iprop((oLoc d ↦[evenWins w ∪ oddWins w]{fullShare} fo) ∗ (oLoc d ↦[chunkRest w]{fullShare} fo)) = _
  rw [BI.equiv_iff.mp ⟨h2.1, h2.2⟩, h3, h4]
  have h5 : ∀ A B C : sProp 𝕄, iprop((A ∗ B) ∗ C) = iprop(A ∗ B ∗ C) := fun A B C =>
    BI.equiv_iff.mp ⟨(Idealize.SL.BI.Laws.sep_assoc (PROP := sProp 𝕄) (P := A) (Q := B) (R := C)).1,
      (Idealize.SL.BI.Laws.sep_assoc (PROP := sProp 𝕄) (P := A) (Q := B) (R := C)).2⟩
  exact h5 _ _ _

/-- The same as an equivalence. -/
theorem split (fo : Buf (Elt F) (oLoc d)) :
    (oLoc d ↦[blocksOf w]{fullShare} fo : sProp 𝕄)
      ⊣⊢ iprop((bigSep Finset.univ fun t : Fin 16 => oLoc d ↦[win (lo w + 12 * t.val)]{fullShare} fo)
          ∗ (bigSep Finset.univ fun t : Fin 16 => oLoc d ↦[win (lo w + 12 * t.val + 6)]{fullShare} fo)
          ∗ (oLoc d ↦[chunkRest w]{fullShare} fo)) :=
  .of_eq (split_eq d w fo)

/-- Sixteen windows of one slot, each back at contents that hold `V` on it, join into one contents on their union. -/
theorem join_family (V : S8x6250x8x128.Idx → F .f32) (K : Fin 16 → Finset S8x6250x8x128.Idx)
    (hK : ∀ t ∈ (Finset.univ : Finset (Fin 16)), ∀ t' ∈ (Finset.univ : Finset (Fin 16)), t ≠ t' → Disjoint (K t) (K t'))
    (f₀ : Buf (Elt F) (oLoc d)) :
    (bigSep Finset.univ fun t : Fin 16 => iprop(∃ g : Buf (Elt F) (oLoc d), ⌜∀ j ∈ K t, g j = V j⌝ ∗ (oLoc d ↦[K t]{fullShare} g)))
      ⊢ (iprop(∃ g : Buf (Elt F) (oLoc d), ⌜∀ t : Fin 16, ∀ j ∈ K t, g j = V j⌝
          ∗ (oLoc d ↦[(Finset.univ : Finset (Fin 16)).biUnion K]{fullShare} g)) : sProp 𝕄) := by
  haveI : Nonempty (Buf (Elt F) (oLoc d)) := ⟨f₀⟩
  iintro H
  ihave H := (bigSep_exists_pi (Finset.univ : Finset (Fin 16))
    (fun t (g : Buf (Elt F) (oLoc d)) => iprop(⌜∀ j ∈ K t, g j = V j⌝ ∗ (oLoc d ↦[K t]{fullShare} g)))) $$ H
  icases H with ⟨%gs, H⟩
  ihave H := (bigSep_pure_sep (Finset.univ : Finset (Fin 16)) (fun t => ∀ j ∈ K t, gs t j = V j)
    (fun t => (oLoc d ↦[K t]{fullShare} gs t))) $$ H
  icases H with ⟨%hgs, H⟩
  ihave H := (pointsTo_biUnion_join (Finset.univ : Finset (Fin 16)) K gs f₀ hK) $$ H
  icases H with ⟨%g, %hg, H⟩
  iexists g
  isplitr
  · ipureintro
    intro t j hj
    rw [hg t (Finset.mem_univ _) j hj]
    exact hgs t (Finset.mem_univ _) j hj
  · iexact H

/-- THE JOIN: the two slots' windows, each back at contents that hold `V` on it, and the rest as it was, make one
    contents on the share that holds `V` on every chunk's window. -/
theorem join (V : S8x6250x8x128.Idx → F .f32) (fo : Buf (Elt F) (oLoc d)) :
    iprop((bigSep Finset.univ fun t : Fin 16 => iprop(∃ g : Buf (Elt F) (oLoc d),
            ⌜∀ j ∈ win (lo w + 12 * t.val), g j = V j⌝ ∗ (oLoc d ↦[win (lo w + 12 * t.val)]{fullShare} g)))
        ∗ (bigSep Finset.univ fun t : Fin 16 => iprop(∃ g : Buf (Elt F) (oLoc d),
            ⌜∀ j ∈ win (lo w + 12 * t.val + 6), g j = V j⌝ ∗ (oLoc d ↦[win (lo w + 12 * t.val + 6)]{fullShare} g)))
        ∗ (oLoc d ↦[chunkRest w]{fullShare} fo))
      ⊢ (iprop(∃ g : Buf (Elt F) (oLoc d), ⌜∀ k, k < 32 → ∀ j ∈ win (lo w + 6 * k), g j = V j⌝
          ∗ (oLoc d ↦[blocksOf w]{fullShare} g)) : sProp 𝕄) := by
  iintro ⟨He, Ho, Hr⟩
  ihave He := (join_family d V (fun t : Fin 16 => win (lo w + 12 * t.val)) (even_pairwise w) fo) $$ He
  icases He with ⟨%ge, %hge, He⟩
  ihave Ho := (join_family d V (fun t : Fin 16 => win (lo w + 12 * t.val + 6)) (odd_pairwise w) fo) $$ Ho
  icases Ho with ⟨%go, %hgo, Ho⟩
  ihave Heo := (pointsTo_join (ℓ := oLoc d) (I := evenWins w) (J := oddWins w) (q := fullShare) (f := ge) (g := go)
    (even_odd_disjoint w)) $$ [He Ho]
  · isplitl [He]
    · iexact He
    · iexact Ho
  ihave Hall := (pointsTo_join (ℓ := oLoc d) (I := evenWins w ∪ oddWins w) (J := chunkRest w) (q := fullShare)
    (f := (oddWins w).piecewise go ge) (g := fo) (chunkRest_disjoint w)) $$ [Heo Hr]
  · isplitl [Heo]
    · iexact Heo
    · iexact Hr
  iexists (chunkRest w).piecewise fo ((oddWins w).piecewise go ge)
  isplitr
  · ipureintro
    intro k hk j hj
    have hcw : j ∈ chunkWins w := mem_chunkWins.mpr ⟨k, hk, hj⟩
    have hnr : j ∉ chunkRest w := Finset.disjoint_left.mp (chunkRest_disjoint w) hcw
    rw [Finset.piecewise_eq_of_notMem _ _ _ hnr]
    rcases Nat.even_or_odd' k with ⟨t, rfl | rfl⟩
    · have hje : j ∈ win (lo w + 12 * (⟨t, by omega⟩ : Fin 16).val) := by
        rw [show lo w + 12 * (⟨t, by omega⟩ : Fin 16).val = lo w + 6 * (2 * t) by show lo w + 12 * t = _; omega]; exact hj
      have hno : j ∉ oddWins w :=
        Finset.disjoint_left.mp (even_odd_disjoint w) (mem_evenWins.mpr ⟨_, hje⟩)
      rw [Finset.piecewise_eq_of_notMem _ _ _ hno]
      exact hge _ j hje
    · have hjo : j ∈ win (lo w + 12 * (⟨t, by omega⟩ : Fin 16).val + 6) := by
        rw [show lo w + 12 * (⟨t, by omega⟩ : Fin 16).val + 6 = lo w + 6 * (2 * t + 1) by show lo w + 12 * t + 6 = _; omega]; exact hj
      rw [Finset.piecewise_eq_of_mem _ _ _ (mem_oddWins.mpr ⟨_, hjo⟩)]
      exact hgo _ j hjo
  · rw [blocksOf_eq w]
    iexact Hall

/-- The last window carved out of the share, and put back. -/
theorem tail (g : Buf (Elt F) (oLoc d)) :
    (oLoc d ↦[blocksOf w]{fullShare} g : sProp 𝕄)
      ⊣⊢ iprop((oLoc d ↦[win (lo (w + 1) - 6)]{fullShare} g) ∗ (oLoc d ↦[blocksOf w \ win (lo (w + 1) - 6)]{fullShare} g)) :=
  pointsTo_split_subset (tail_subset w)

/-- THE END: the share held `V` on every chunk's window; the last window comes back at contents that hold `V` on it;
    then every element of the share holds `V`. -/
theorem final (V : S8x6250x8x128.Idx → F .f32) (g g' : Buf (Elt F) (oLoc d))
    (hg : ∀ k, k < 32 → ∀ j ∈ win (lo w + 6 * k), g j = V j) (hg' : ∀ j ∈ win (lo (w + 1) - 6), g' j = V j) :
    iprop((oLoc d ↦[win (lo (w + 1) - 6)]{fullShare} g') ∗ (oLoc d ↦[blocksOf w \ win (lo (w + 1) - 6)]{fullShare} g))
      ⊢ (iprop(∃ g'' : Buf (Elt F) (oLoc d), ⌜∀ j ∈ blocksOf w, g'' j = V j⌝ ∗ (oLoc d ↦[blocksOf w]{fullShare} g'')) : sProp 𝕄) := by
  iintro H
  ihave H := (pointsTo_join_subset (ℓ := oLoc d) (q := fullShare) (f := g) (g := g') (tail_subset w)) $$ H
  iexists (win (lo (w + 1) - 6)).piecewise g' g
  isplitr
  · ipureintro
    intro j hj
    by_cases ht : j ∈ win (lo (w + 1) - 6)
    · rw [Finset.piecewise_eq_of_mem _ _ _ ht]; exact hg' j ht
    · rw [Finset.piecewise_eq_of_notMem _ _ _ ht]
      rcases share_cover hj with ⟨k, hk, hjk⟩ | h
      · exact hg k hk j hjk
      · exact absurd h ht
  · iexact H

end PointsTo

end Cert.Proof.K

end
-- ==== Proof.WinBridgeK.lean ====
/-
  The subcore's windows in the program's own spelling. The outer loop holds the result array as the six-block slices
  its copies name: the slice at the offsets the kernel computes for chunk 2·t, for chunk 2·t + 1, and for the last
  chunk. With the offsets in closed form each slice holds exactly the elements of a window win b, and, the slice's
  buffer being the result array itself seen from the subcore, a points-to through the slice is the points-to on that
  window. So the share enters the loop as the two families of slices and the rest, leaves it, every slice back at
  contents that hold the embedding, as one contents on the share that holds it on every chunk's window, and after the
  last chunk's slice is rewritten holds it everywhere.
-/
import proofs.«203789_g40862318854646_cont_8to1_b_1018_13_alg».proof.Proof.PairK
import proofs.«203789_g40862318854646_cont_8to1_b_1018_13_alg».proof.Proof.WindowsK
import proofs.«203789_g40862318854646_cont_8to1_b_1018_13_alg».proof.Proof.OffsK
import proofs.«203789_g40862318854646_cont_8to1_b_1018_13_alg».proof.Proof.TileDefsK

noncomputable section

namespace Cert.Proof.K

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "oW" => (Memref.whole Cert.Kernel.main_v5_scv : Memref Cert.Kernel.sig Kind.scVector Space.hbm Cert.Kernel.S8x6250x8x128 EltTy.f32)

/-! ## The slices' elements -/

/-- The six-block slice at offsets that are `(0, b, 0, 0)`, however spelt, holds the window `win b`. -/
theorem slice_set_fn (off : Fin 4 → ℕ) (b : ℕ) (hoff : off = ![0, b, 0, 0])
    (inb : ∀ a, off a + S8x6x8x128.size a ≤ S8x6250x8x128.size a) :
    ((oW).slice (Rect.unit (s := S8x6250x8x128) off S8x6x8x128.size inb) (fun _ => rfl)).view.set = win b := by
  subst hoff
  exact slice_set b inb

/-- The slice of chunk `2·t` … -/
theorem o70_set (L : grid0.Coords) (t : Fin k0_t1_loop.trips) : (Pair.o70 L t).view.set = win (lo (wL L) + 12 * t.val) :=
  slice_set_fn _ _ (k0_off70_eq L t) _

/-- … and of chunk `2·t + 1`. -/
theorem o139_set (L : grid0.Coords) (t : Fin k0_t1_loop.trips) : (Pair.o139 L t).view.set = win (lo (wL L) + 12 * t.val + 6) :=
  slice_set_fn _ _ (k0_off139_eq L t) _

/-- The descriptors the guarded waits name are the same slices. -/
theorem off3_set (L : grid0.Coords) (t : Fin k0_t1_loop.trips) (inb : ∀ a, k0_off3 L t a + S8x6x8x128.size a ≤ S8x6250x8x128.size a) :
    ((oW).slice (Rect.unit (s := S8x6250x8x128) (k0_off3 L t) S8x6x8x128.size inb) (fun _ => rfl)).view.set
      = win (lo (wL L) + 12 * t.val) :=
  slice_set_fn _ _ (k0_off3_eq L t) _

theorem off72_set (L : grid0.Coords) (t : Fin k0_t1_loop.trips) (inb : ∀ a, k0_off72 L t a + S8x6x8x128.size a ≤ S8x6250x8x128.size a) :
    ((oW).slice (Rect.unit (s := S8x6250x8x128) (k0_off72 L t) S8x6x8x128.size inb) (fun _ => rfl)).view.set
      = win (lo (wL L) + 12 * t.val + 6) :=
  slice_set_fn _ _ (k0_off72_eq L t) _

/-- The last chunk's slice. -/
theorem off141_set (L : grid0.Coords) (inb : ∀ a, k0_off141 L a + S8x6x8x128.size a ≤ S8x6250x8x128.size a) :
    ((oW).slice (Rect.unit (s := S8x6250x8x128) (k0_off141 L) S8x6x8x128.size inb) (fun _ => rfl)).view.set
      = win (lo (wL L + 1) - 6) :=
  slice_set_fn _ _ (k0_off141_eq L) _

/-! ## A points-to through a slice is the points-to on its window -/

section Bridge
variable (d : Dev nD) (L : grid0.Coords)

/-- Through any six-block slice at offsets `(0, b, 0, 0)`: the slice's buffer is the result array. -/
theorem pts_slice (off : Fin 4 → ℕ) (b : ℕ) (hoff : off = ![0, b, 0, 0])
    (inb : ∀ a, off a + S8x6x8x128.size a ≤ S8x6250x8x128.size a) (g : Buf (Elt F) (oLoc d)) :
    (((oW).slice (Rect.unit (s := S8x6250x8x128) off S8x6x8x128.size inb) (fun _ => rfl)).view.loc (V d (cV L) (jV L))
        ↦[((oW).slice (Rect.unit (s := S8x6250x8x128) off S8x6x8x128.size inb) (fun _ => rfl)).view.set]{fullShare} g : sProp 𝕄)
      = (oLoc d ↦[win b]{fullShare} g) := by
  rw [slice_set_fn off b hoff inb]

theorem pts_o70 (t : Fin k0_t1_loop.trips) (g : Buf (Elt F) (oLoc d)) :
    ((Pair.o70 L t).view.loc (V d (cV L) (jV L)) ↦[(Pair.o70 L t).view.set]{fullShare} g : sProp 𝕄)
      = (oLoc d ↦[win (lo (wL L) + 12 * t.val)]{fullShare} g) :=
  pts_slice d L _ _ (k0_off70_eq L t) _ g

theorem pts_o139 (t : Fin k0_t1_loop.trips) (g : Buf (Elt F) (oLoc d)) :
    ((Pair.o139 L t).view.loc (V d (cV L) (jV L)) ↦[(Pair.o139 L t).view.set]{fullShare} g : sProp 𝕄)
      = (oLoc d ↦[win (lo (wL L) + 12 * t.val + 6)]{fullShare} g) :=
  pts_slice d L _ _ (k0_off139_eq L t) _ g

theorem pts_tail (inb : ∀ a, k0_off141 L a + S8x6x8x128.size a ≤ S8x6250x8x128.size a) (g : Buf (Elt F) (oLoc d)) :
    (((oW).slice (Rect.unit (s := S8x6250x8x128) (k0_off141 L) S8x6x8x128.size inb) (fun _ => rfl)).view.loc (V d (cV L) (jV L))
        ↦[((oW).slice (Rect.unit (s := S8x6250x8x128) (k0_off141 L) S8x6x8x128.size inb) (fun _ => rfl)).view.set]{fullShare} g : sProp 𝕄)
      = (oLoc d ↦[win (lo (wL L + 1) - 6)]{fullShare} g) :=
  pts_slice d L _ _ (k0_off141_eq L) inb g

end Bridge

/-! ## In and out of the outer loop -/

section InOut
variable (m : (ℓ : Loc nD τ sig) → Buf (Elt F) ℓ) (d : Dev nD) (L : grid0.Coords)

/-- The outer loop's sixteen trips. -/
theorem trips16 : k0_t1_loop.trips = 16 := by decide

/-- The share as the two slots' windows and the rest, over any index type of sixteen trips. -/
theorem split_n {n : ℕ} (hn : n = 16) (w : ℕ) (fo : Buf (Elt F) (oLoc d)) :
    (oLoc d ↦[blocksOf w]{fullShare} fo : sProp 𝕄)
      = iprop((bigSep Finset.univ fun t : Fin n => oLoc d ↦[win (lo w + 12 * t.val)]{fullShare} fo)
          ∗ (bigSep Finset.univ fun t : Fin n => oLoc d ↦[win (lo w + 12 * t.val + 6)]{fullShare} fo)
          ∗ (oLoc d ↦[chunkRest w]{fullShare} fo)) := by
  subst hn; exact split_eq d w fo

/-- The join of the windows, over any index type of sixteen trips. -/
theorem join_n {n : ℕ} (hn : n = 16) (w : ℕ) (Vf : S8x6250x8x128.Idx → F .f32) (fo : Buf (Elt F) (oLoc d)) :
    iprop((bigSep Finset.univ fun t : Fin n => iprop(∃ g : Buf (Elt F) (oLoc d),
            ⌜∀ j ∈ win (lo w + 12 * t.val), g j = Vf j⌝ ∗ (oLoc d ↦[win (lo w + 12 * t.val)]{fullShare} g)))
        ∗ (bigSep Finset.univ fun t : Fin n => iprop(∃ g : Buf (Elt F) (oLoc d),
            ⌜∀ j ∈ win (lo w + 12 * t.val + 6), g j = Vf j⌝ ∗ (oLoc d ↦[win (lo w + 12 * t.val + 6)]{fullShare} g)))
        ∗ (oLoc d ↦[chunkRest w]{fullShare} fo))
      ⊢ (iprop(∃ g : Buf (Elt F) (oLoc d), ⌜∀ k, k < 32 → ∀ j ∈ win (lo w + 6 * k), g j = Vf j⌝
          ∗ (oLoc d ↦[blocksOf w]{fullShare} g)) : sProp 𝕄) := by
  subst hn; exact join d w Vf fo

/-- A window at one contents is its slice at some contents. -/
theorem o70_in (t : Fin k0_t1_loop.trips) (fo : Buf (Elt F) (oLoc d)) :
    (oLoc d ↦[win (lo (wL L) + 12 * t.val)]{fullShare} fo : sProp 𝕄) ⊢ Pair.winAt (F := F) d L (Pair.o70 L t) := by
  iintro H; iexists fo; rw [pts_o70 d L t fo]; iexact H
theorem o139_in (t : Fin k0_t1_loop.trips) (fo : Buf (Elt F) (oLoc d)) :
    (oLoc d ↦[win (lo (wL L) + 12 * t.val + 6)]{fullShare} fo : sProp 𝕄) ⊢ Pair.winAt (F := F) d L (Pair.o139 L t) := by
  iintro H; iexists fo; rw [pts_o139 d L t fo]; iexact H

/-- ENTRY: the share enters the outer loop as the two families of slices, each at some contents, and the rest. -/
theorem wins_entry (fo : Buf (Elt F) (oLoc d)) :
    (oLoc d ↦[blocksOf (wL L)]{fullShare} fo : sProp 𝕄)
      ⊢ iprop((bigSep Finset.univ fun i : Fin k0_t1_loop.trips => Pair.winAt (F := F) d L (Pair.o70 L i))
          ∗ (bigSep Finset.univ fun i : Fin k0_t1_loop.trips => Pair.winAt (F := F) d L (Pair.o139 L i))
          ∗ (oLoc d ↦[chunkRest (wL L)]{fullShare} fo)) := by
  rw [split_n d trips16 (wL L) fo]
  iintro ⟨H0, H1, Hr⟩
  have h0 : (bigSep Finset.univ fun t : Fin k0_t1_loop.trips => (oLoc d ↦[win (lo (wL L) + 12 * t.val)]{fullShare} fo : sProp 𝕄))
      ⊢ bigSep Finset.univ fun i : Fin k0_t1_loop.trips => Pair.winAt (F := F) d L (Pair.o70 L i) :=
    bigSep_mono fun t _ => o70_in d L t fo
  have h1 : (bigSep Finset.univ fun t : Fin k0_t1_loop.trips => (oLoc d ↦[win (lo (wL L) + 12 * t.val + 6)]{fullShare} fo : sProp 𝕄))
      ⊢ bigSep Finset.univ fun i : Fin k0_t1_loop.trips => Pair.winAt (F := F) d L (Pair.o139 L i) :=
    bigSep_mono fun t _ => o139_in d L t fo
  isplitl [H0]
  · iapply h0; iexact H0
  isplitl [H1]
  · iapply h1; iexact H1
  iexact Hr

/-- What a slice of slot 0 (chunk `2·t`) or slot 1 (chunk `2·t + 1`) must hold when it is back: `V` on its window. -/
def Pw0V (Vf : S8x6250x8x128.Idx → F .f32) (i : Fin k0_t1_loop.trips) (g : Buf (Elt F) ((Pair.o70 L i).view.loc (V d (cV L) (jV L)))) : Prop :=
  ∀ j ∈ win (lo (wL L) + 12 * i.val), g j = Vf j
def Pw1V (Vf : S8x6250x8x128.Idx → F .f32) (i : Fin k0_t1_loop.trips) (g : Buf (Elt F) ((Pair.o139 L i).view.loc (V d (cV L) (jV L)))) : Prop :=
  ∀ j ∈ win (lo (wL L) + 12 * i.val + 6), g j = Vf j

/-- A slice back at contents that hold \`Vf\` on its window is the window at such contents. -/
theorem o70_out (Vf : S8x6250x8x128.Idx → F .f32) (t : Fin k0_t1_loop.trips) :
    (iprop(∃ g, ⌜Pw0V d L Vf t g⌝ ∗ ((Pair.o70 L t).view.loc (V d (cV L) (jV L)) ↦[(Pair.o70 L t).view.set]{fullShare} g)) : sProp 𝕄)
      ⊢ iprop(∃ g : Buf (Elt F) (oLoc d), ⌜∀ j ∈ win (lo (wL L) + 12 * t.val), g j = Vf j⌝ ∗ (oLoc d ↦[win (lo (wL L) + 12 * t.val)]{fullShare} g)) := by
  iintro ⟨%g, %hg, H⟩; iexists g; isplitr
  · ipureintro; exact hg
  · rw [← pts_o70 d L t g]; iexact H
theorem o139_out (Vf : S8x6250x8x128.Idx → F .f32) (t : Fin k0_t1_loop.trips) :
    (iprop(∃ g, ⌜Pw1V d L Vf t g⌝ ∗ ((Pair.o139 L t).view.loc (V d (cV L) (jV L)) ↦[(Pair.o139 L t).view.set]{fullShare} g)) : sProp 𝕄)
      ⊢ iprop(∃ g : Buf (Elt F) (oLoc d), ⌜∀ j ∈ win (lo (wL L) + 12 * t.val + 6), g j = Vf j⌝ ∗ (oLoc d ↦[win (lo (wL L) + 12 * t.val + 6)]{fullShare} g)) := by
  iintro ⟨%g, %hg, H⟩; iexists g; isplitr
  · ipureintro; exact hg
  · rw [← pts_o139 d L t g]; iexact H

/-- EXIT: every slice back at contents that hold `V` on its window, and the rest: one contents on the share that holds
    `V` on every chunk's window. -/
theorem wins_exit (Vf : S8x6250x8x128.Idx → F .f32) (fo : Buf (Elt F) (oLoc d)) :
    iprop((bigSep Finset.univ fun i : Fin k0_t1_loop.trips => iprop(∃ g, ⌜Pw0V d L Vf i g⌝
            ∗ ((Pair.o70 L i).view.loc (V d (cV L) (jV L)) ↦[(Pair.o70 L i).view.set]{fullShare} g)))
        ∗ (bigSep Finset.univ fun i : Fin k0_t1_loop.trips => iprop(∃ g, ⌜Pw1V d L Vf i g⌝
            ∗ ((Pair.o139 L i).view.loc (V d (cV L) (jV L)) ↦[(Pair.o139 L i).view.set]{fullShare} g)))
        ∗ (oLoc d ↦[chunkRest (wL L)]{fullShare} fo))
      ⊢ (iprop(∃ g : Buf (Elt F) (oLoc d), ⌜∀ k, k < 32 → ∀ j ∈ win (lo (wL L) + 6 * k), g j = Vf j⌝
          ∗ (oLoc d ↦[blocksOf (wL L)]{fullShare} g)) : sProp 𝕄) := by
  iintro ⟨H0, H1, Hr⟩
  iapply (join_n d trips16 (wL L) Vf fo)
  have h0 : (bigSep Finset.univ fun i : Fin k0_t1_loop.trips => (iprop(∃ g, ⌜Pw0V d L Vf i g⌝
            ∗ ((Pair.o70 L i).view.loc (V d (cV L) (jV L)) ↦[(Pair.o70 L i).view.set]{fullShare} g)) : sProp 𝕄))
      ⊢ bigSep Finset.univ fun t : Fin k0_t1_loop.trips => (iprop(∃ g : Buf (Elt F) (oLoc d),
            ⌜∀ j ∈ win (lo (wL L) + 12 * t.val), g j = Vf j⌝ ∗ (oLoc d ↦[win (lo (wL L) + 12 * t.val)]{fullShare} g)) : sProp 𝕄) :=
    bigSep_mono fun t _ => o70_out d L Vf t
  have h1 : (bigSep Finset.univ fun i : Fin k0_t1_loop.trips => (iprop(∃ g, ⌜Pw1V d L Vf i g⌝
            ∗ ((Pair.o139 L i).view.loc (V d (cV L) (jV L)) ↦[(Pair.o139 L i).view.set]{fullShare} g)) : sProp 𝕄))
      ⊢ bigSep Finset.univ fun t : Fin k0_t1_loop.trips => (iprop(∃ g : Buf (Elt F) (oLoc d),
            ⌜∀ j ∈ win (lo (wL L) + 12 * t.val + 6), g j = Vf j⌝ ∗ (oLoc d ↦[win (lo (wL L) + 12 * t.val + 6)]{fullShare} g)) : sProp 𝕄) :=
    bigSep_mono fun t _ => o139_out d L Vf t
  isplitl [H0]
  · iapply h0; iexact H0
  isplitl [H1]
  · iapply h1; iexact H1
  iexact Hr

/-- THE LAST CHUNK, out: the share as the last chunk's slice and the rest of the share. -/
theorem tail_out (inb : ∀ a, k0_off141 L a + S8x6x8x128.size a ≤ S8x6250x8x128.size a) (g : Buf (Elt F) (oLoc d)) :
    (oLoc d ↦[blocksOf (wL L)]{fullShare} g : sProp 𝕄)
      ⊢ iprop((((oW).slice (Rect.unit (s := S8x6250x8x128) (k0_off141 L) S8x6x8x128.size inb) (fun _ => rfl)).view.loc (V d (cV L) (jV L))
            ↦[((oW).slice (Rect.unit (s := S8x6250x8x128) (k0_off141 L) S8x6x8x128.size inb) (fun _ => rfl)).view.set]{fullShare} g)
          ∗ (oLoc d ↦[blocksOf (wL L) \ win (lo (wL L + 1) - 6)]{fullShare} g)) := by
  rw [pts_tail d L inb g]
  exact (tail d (wL L) g).1

variable [FloatOps F]

/-- THE LAST CHUNK, back: the slice at contents that hold the embedding on its window, the rest of the share at contents
    that hold it on every chunk's window: the subcore has done its work. -/
theorem tail_back (inb : ∀ a, k0_off141 L a + S8x6x8x128.size a ≤ S8x6250x8x128.size a) (g g' : Buf (Elt F) (oLoc d))
    (hg : ∀ k, k < 32 → ∀ j ∈ win (lo (wL L) + 6 * k), g j = kerVal (eaC m d) (w0C m d) (w1C m d) (w2C m d) j)
    (hg' : ∀ j ∈ win (lo (wL L + 1) - 6), g' j = kerVal (eaC m d) (w0C m d) (w1C m d) (w2C m d) j) :
    iprop((((oW).slice (Rect.unit (s := S8x6250x8x128) (k0_off141 L) S8x6x8x128.size inb) (fun _ => rfl)).view.loc (V d (cV L) (jV L))
            ↦[((oW).slice (Rect.unit (s := S8x6250x8x128) (k0_off141 L) S8x6x8x128.size inb) (fun _ => rfl)).view.set]{fullShare} g')
          ∗ (oLoc d ↦[blocksOf (wL L) \ win (lo (wL L + 1) - 6)]{fullShare} g))
      ⊢ (iprop(∃ g'' : Buf (Elt F) (oLoc d), ⌜GoodV m d g'' (wL L)⌝ ∗ (oLoc d ↦[blocksOf (wL L)]{fullShare} g'')) : sProp 𝕄) := by
  rw [pts_tail d L inb g']
  exact final d (wL L) (kerVal (eaC m d) (w0C m d) (w1C m d) (w2C m d)) g g' hg hg'

end InOut

end Cert.Proof.K

end
-- ==== Proof.LandK.lean ====
/-
  The chunk loop's landing facts: when an out copy lands, its window of the result holds the embedding of its edges.
  The inner loop left the chunk's values in the output scratch, read off the transposed table at the attribute words
  the fetch brought; those are the embedding's values on the window the copy writes.
-/
import proofs.«203789_g40862318854646_cont_8to1_b_1018_13_alg».proof.Proof.TileDefsK
import proofs.«203789_g40862318854646_cont_8to1_b_1018_13_alg».proof.Proof.GoodK
import proofs.«203789_g40862318854646_cont_8to1_b_1018_13_alg».proof.Proof.InnerK
import proofs.«203789_g40862318854646_cont_8to1_b_1018_13_alg».proof.Proof.PlugK
import proofs.«203789_g40862318854646_cont_8to1_b_1018_13_alg».proof.Proof.PairK
import proofs.«203789_g40862318854646_cont_8to1_b_1018_13_alg».proof.Proof.HlandK
import proofs.«203789_g40862318854646_cont_8to1_b_1018_13_alg».proof.Proof.WinBridgeK
import Idealize.ShloMosaic.Lib.Writes
import Idealize.ShloMosaic.Lib.Pipeline.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

variable (m : (ℓ : Loc nD τ sig) → Buf (Elt F) ℓ)
variable [FloatOps F]
variable (d : Dev nD) (L : grid0.Coords)

variable (ft : Buf (Elt F) ((V d (cV L) (jV L)).loc cc0_scratch4)) (hT : TabT (w0C m d) (w1C m d) (w2C m d) (ft : FVec F S4096 .f32))
  (hea : ∀ n, eaC m d n = 0#32 ∨ eaC m d n = 1#32)
include hT hea

/-- Slot 0, the first chunk. -/
theorem land0z (h0 : 0 < k0_t1_loop.trips) (ga gb gc : Buf (Elt F) ((b5W).view.loc (V d (cV L) (jV L))))
    (f : Buf (Elt F) ((b7W).view.loc (V d (cV L) (jV L)))) (gk : Buf (Elt F) ((Pair.o70 L ⟨0, h0⟩).view.loc (V d (cV L) (jV L))))
    (hR : R0 (F := F) d L ft ⟨0, h0⟩ (Pair.landedE m d L Pair.t5a ga (k0_off1 L 0#32) (k0_off1_inb L 0))
      (Pair.landedE m d L Pair.t5b gb (k0_off1 L 800000#32) (k0_off1_inb L 1)) (Pair.landedE m d L Pair.t5c gc (k0_off1 L 1600000#32) (k0_off1_inb L 2)) f) :
    Pw0V d L (kerVal (eaC m d) (w0C m d) (w1C m d) (w2C m d)) ⟨0, h0⟩ (Pair.landedO d L b7W (Pair.o70 L ⟨0, h0⟩) gk f) := by
  unfold Pw0V
  exact hland0z (eaC m d) (w0C m d) (w1C m d) (w2C m d) ft hT hea L h0 ga gb gc _ _ _ rfl rfl rfl (b7W).view f gk
    (joinE5 (F := F) d L _ _ _) (fun _ => rfl) (fun y => hR y) _ (o70_set L ⟨0, h0⟩)

/-- Slot 0, a later chunk. -/
theorem land0s (j : Fin k0_t1_loop.trips) (hj : j.val + 1 < k0_t1_loop.trips) (ga gb gc : Buf (Elt F) ((b5W).view.loc (V d (cV L) (jV L))))
    (f : Buf (Elt F) ((b7W).view.loc (V d (cV L) (jV L)))) (gk : Buf (Elt F) ((Pair.o70 L ⟨j.val + 1, hj⟩).view.loc (V d (cV L) (jV L))))
    (hR : R0 (F := F) d L ft ⟨j.val + 1, hj⟩ (Pair.landedE m d L Pair.t5a ga (k0_off71 L j 0#32) (k0_off71_inb L j 0))
      (Pair.landedE m d L Pair.t5b gb (k0_off71 L j 800000#32) (k0_off71_inb L j 1)) (Pair.landedE m d L Pair.t5c gc (k0_off71 L j 1600000#32) (k0_off71_inb L j 2)) f) :
    Pw0V d L (kerVal (eaC m d) (w0C m d) (w1C m d) (w2C m d)) ⟨j.val + 1, hj⟩ (Pair.landedO d L b7W (Pair.o70 L ⟨j.val + 1, hj⟩) gk f) := by
  unfold Pw0V
  exact hland0s (eaC m d) (w0C m d) (w1C m d) (w2C m d) ft hT hea L j hj ga gb gc _ _ _ rfl rfl rfl (b7W).view f gk
    (joinE5 (F := F) d L _ _ _) (fun _ => rfl) (fun y => hR y) _ (o70_set L ⟨j.val + 1, hj⟩)

/-- Slot 1, the second chunk. -/
theorem land1z (h0 : 0 < k0_t1_loop.trips) (ga gb gc : Buf (Elt F) ((b6W).view.loc (V d (cV L) (jV L))))
    (f : Buf (Elt F) ((b8W).view.loc (V d (cV L) (jV L)))) (gk : Buf (Elt F) ((Pair.o139 L ⟨0, h0⟩).view.loc (V d (cV L) (jV L))))
    (hR : R1 (F := F) d L ft ⟨0, h0⟩ (Pair.landedE m d L Pair.t6a ga (k0_off2 L 0#32) (k0_off2_inb L 0))
      (Pair.landedE m d L Pair.t6b gb (k0_off2 L 800000#32) (k0_off2_inb L 1)) (Pair.landedE m d L Pair.t6c gc (k0_off2 L 1600000#32) (k0_off2_inb L 2)) f) :
    Pw1V d L (kerVal (eaC m d) (w0C m d) (w1C m d) (w2C m d)) ⟨0, h0⟩ (Pair.landedO d L b8W (Pair.o139 L ⟨0, h0⟩) gk f) := by
  unfold Pw1V
  exact hland1z (eaC m d) (w0C m d) (w1C m d) (w2C m d) ft hT hea L h0 ga gb gc _ _ _ rfl rfl rfl (b8W).view f gk
    (joinE6 (F := F) d L _ _ _) (fun _ => rfl) (fun y => hR y) _ (o139_set L ⟨0, h0⟩)

/-- Slot 1, a later chunk. -/
theorem land1s (j : Fin k0_t1_loop.trips) (hj : j.val + 1 < k0_t1_loop.trips) (ga gb gc : Buf (Elt F) ((b6W).view.loc (V d (cV L) (jV L))))
    (f : Buf (Elt F) ((b8W).view.loc (V d (cV L) (jV L)))) (gk : Buf (Elt F) ((Pair.o139 L ⟨j.val + 1, hj⟩).view.loc (V d (cV L) (jV L))))
    (hR : R1 (F := F) d L ft ⟨j.val + 1, hj⟩ (Pair.landedE m d L Pair.t6a ga (k0_off140 L j 0#32) (k0_off140_inb L j 0))
      (Pair.landedE m d L Pair.t6b gb (k0_off140 L j 800000#32) (k0_off140_inb L j 1)) (Pair.landedE m d L Pair.t6c gc (k0_off140 L j 1600000#32) (k0_off140_inb L j 2)) f) :
    Pw1V d L (kerVal (eaC m d) (w0C m d) (w1C m d) (w2C m d)) ⟨j.val + 1, hj⟩ (Pair.landedO d L b8W (Pair.o139 L ⟨j.val + 1, hj⟩) gk f) := by
  unfold Pw1V
  exact hland1s (eaC m d) (w0C m d) (w1C m d) (w2C m d) ft hT hea L j hj ga gb gc _ _ _ rfl rfl rfl (b8W).view f gk
    (joinE6 (F := F) d L _ _ _) (fun _ => rfl) (fun y => hR y) _ (o139_set L ⟨j.val + 1, hj⟩)

end Cert.Proof.K
end
-- ==== Proof.EntryK.lean ====
/-
  Entering the outer loop: the fetches of the first chunk and the first fetch of the second. The subcore's read share
  of the flattened attribute array is cut into four read tokens and a remainder, two of the tokens being what the
  two fetch semaphores' transfers borrow their source words at; an attribute scratch of 2304 words is held as its
  three thirds of 768 words, each by its own elements, the thirds being pairwise apart and covering the scratch.
  So what the body holds after its tables are built is rearranged into what the part before the outer loop starts
  from, the rest set aside; and at the body's end the tokens and the thirds are put back together.
-/
import proofs.«203789_g40862318854646_cont_8to1_b_1018_13_alg».proof.Proof.PairK
import proofs.«203789_g40862318854646_cont_8to1_b_1018_13_alg».proof.Proof.TileDefsK
import proofs.«203789_g40862318854646_cont_8to1_b_1018_13_alg».proof.Proof.WinBridgeK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)

/-! ## Four read tokens of a read share -/

section Tokens
variable {ℓ : Loc nD τ sig} {S : Finset (Idx ℓ)} {f : Buf (Elt F) ℓ}

/-- A points-to at a read share is the remainder after four tokens and the four tokens. -/
theorem toks4 (q : PosShare TreeShare) :
    (ℓ ↦[S]{q} f : sProp 𝕄) ⊣⊢ iprop((ℓ ↦[S]{Transfers.shareDrop q 4} f) ∗ (ℓ ↦[S]{Transfers.shareTokN q 0} f)
      ∗ (ℓ ↦[S]{Transfers.shareTokN q 1} f) ∗ (ℓ ↦[S]{Transfers.shareTokN q 2} f) ∗ (ℓ ↦[S]{Transfers.shareTokN q 3} f)) := by
  have h : (ℓ ↦[S]{q} f : sProp 𝕄) ⊣⊢ iprop((ℓ ↦[S]{Transfers.shareDrop q 4} f)
      ∗ BI.bigSep (Finset.range 4) (fun i => ℓ ↦[S]{Transfers.shareTokN q i} f)) := Transfers.pointsTo_toks_range q 4
  have e : BI.bigSep (Finset.range 4) (fun i => (ℓ ↦[S]{Transfers.shareTokN q i} f : sProp 𝕄))
      = iprop((ℓ ↦[S]{Transfers.shareTokN q 3} f) ∗ (ℓ ↦[S]{Transfers.shareTokN q 2} f) ∗ (ℓ ↦[S]{Transfers.shareTokN q 1} f)
          ∗ (ℓ ↦[S]{Transfers.shareTokN q 0} f) ∗ emp) := by
    rw [Finset.range_add_one, bigSep_insert (by simp), Finset.range_add_one, bigSep_insert (by simp), Finset.range_add_one, bigSep_insert (by simp),
      Finset.range_add_one, bigSep_insert (by simp), Finset.range_zero, bigSep_empty]
    rfl
  rw [e] at h
  have e1 : (iprop((ℓ ↦[S]{Transfers.shareDrop q 4} f) ∗ (ℓ ↦[S]{Transfers.shareTokN q 3} f) ∗ (ℓ ↦[S]{Transfers.shareTokN q 2} f)
        ∗ (ℓ ↦[S]{Transfers.shareTokN q 1} f) ∗ (ℓ ↦[S]{Transfers.shareTokN q 0} f) ∗ emp) : sProp 𝕄)
      ⊢ iprop((ℓ ↦[S]{Transfers.shareDrop q 4} f) ∗ (ℓ ↦[S]{Transfers.shareTokN q 0} f)
        ∗ (ℓ ↦[S]{Transfers.shareTokN q 1} f) ∗ (ℓ ↦[S]{Transfers.shareTokN q 2} f) ∗ (ℓ ↦[S]{Transfers.shareTokN q 3} f)) := by
    iintro ⟨Hr, H3, H2, H1, H0, -⟩
    isplitl [Hr]; · iexact Hr
    isplitl [H0]; · iexact H0
    isplitl [H1]; · iexact H1
    isplitl [H2]; · iexact H2
    iexact H3
  have e2 : (iprop((ℓ ↦[S]{Transfers.shareDrop q 4} f) ∗ (ℓ ↦[S]{Transfers.shareTokN q 0} f)
        ∗ (ℓ ↦[S]{Transfers.shareTokN q 1} f) ∗ (ℓ ↦[S]{Transfers.shareTokN q 2} f) ∗ (ℓ ↦[S]{Transfers.shareTokN q 3} f)) : sProp 𝕄)
      ⊢ iprop((ℓ ↦[S]{Transfers.shareDrop q 4} f) ∗ (ℓ ↦[S]{Transfers.shareTokN q 3} f) ∗ (ℓ ↦[S]{Transfers.shareTokN q 2} f)
        ∗ (ℓ ↦[S]{Transfers.shareTokN q 1} f) ∗ (ℓ ↦[S]{Transfers.shareTokN q 0} f) ∗ emp) := by
    iintro ⟨Hr, H0, H1, H2, H3⟩
    isplitl [Hr]; · iexact Hr
    isplitl [H3]; · iexact H3
    isplitl [H2]; · iexact H2
    isplitl [H1]; · iexact H1
    isplitl [H0]; · iexact H0
    iempintro
  exact ⟨h.1.trans e1, e2.trans h.2⟩

end Tokens

/-! ## An attribute scratch as its three thirds -/

section Thirds

/-- The thirds of a 2304-word buffer, as rectangles. -/
abbrev r3a : Rect S2304 := Rect.unit (s := S2304) ![0] S768.size inb_S2304_S768_0
abbrev r3b : Rect S2304 := Rect.unit (s := S2304) ![768] S768.size inb_S2304_S768_768
abbrev r3c : Rect S2304 := Rect.unit (s := S2304) ![1536] S768.size inb_S2304_S768_1536

theorem r3_ab : Disjoint (r3a).set (r3b).set := Rect.unit_disjoint 0 (Or.inl (by decide))
theorem r3_ac : Disjoint (r3a).set (r3c).set := Rect.unit_disjoint 0 (Or.inl (by decide))
theorem r3_bc : Disjoint (r3b).set (r3c).set := Rect.unit_disjoint 0 (Or.inl (by decide))

/-- The thirds cover the buffer. -/
theorem r3_cover : (r3a).set ∪ ((r3b).set ∪ (r3c).set) = Finset.univ := by
  ext i
  have hi : (i 0).val < 2304 := (i 0).isLt
  simp only [Finset.mem_union, Rect.mem_set_unit, Finset.mem_univ, iff_true]
  by_cases h1 : (i 0).val < 768
  · exact .inl fun a => by obtain rfl : a = 0 := Subsingleton.elim _ _; exact ⟨Nat.zero_le _, by show (i 0).val < 0 + 768; omega⟩
  · by_cases h2 : (i 0).val < 1536
    · exact .inr (.inl fun a => by obtain rfl : a = 0 := Subsingleton.elim _ _; exact ⟨by show 768 ≤ (i 0).val; omega, by show (i 0).val < 768 + 768; omega⟩)
    · exact .inr (.inr fun a => by obtain rfl : a = 0 := Subsingleton.elim _ _; exact ⟨by show 1536 ≤ (i 0).val; omega, by show (i 0).val < 1536 + 768; omega⟩)

/-- The thirds' elements, as the slices spell them. -/
theorem t5a_set : (Pair.t5a).view.set = (r3a).set := View.set_slice_whole _ _
theorem t5b_set : (Pair.t5b).view.set = (r3b).set := View.set_slice_whole _ _
theorem t5c_set : (Pair.t5c).view.set = (r3c).set := View.set_slice_whole _ _
theorem t6a_set : (Pair.t6a).view.set = (r3a).set := View.set_slice_whole _ _
theorem t6b_set : (Pair.t6b).view.set = (r3b).set := View.set_slice_whole _ _
theorem t6c_set : (Pair.t6c).view.set = (r3c).set := View.set_slice_whole _ _

variable (d : Dev nD) (L : grid0.Coords)

/-- Slot 0's attribute scratch held whole is its three thirds held by their own elements, at the same contents. -/
theorem thirds5 (f : Buf (Elt F) ((b5W).view.loc (V d (cV L) (jV L)))) :
    ((b5W).view.loc (V d (cV L) (jV L)) ↦{fullShare} f : sProp 𝕄)
      ⊣⊢ iprop(((Pair.t5a).view.loc (V d (cV L) (jV L)) ↦[(Pair.t5a).view.set]{fullShare} f)
        ∗ ((Pair.t5b).view.loc (V d (cV L) (jV L)) ↦[(Pair.t5b).view.set]{fullShare} f)
        ∗ ((Pair.t5c).view.loc (V d (cV L) (jV L)) ↦[(Pair.t5c).view.set]{fullShare} f)) := by
  have hu : ((b5W).view.loc (V d (cV L) (jV L)) ↦{fullShare} f : sProp 𝕄)
      = ((b5W).view.loc (V d (cV L) (jV L)) ↦[(r3a).set ∪ ((r3b).set ∪ (r3c).set)]{fullShare} f) := by rw [r3_cover]
  rw [hu, t5a_set, t5b_set, t5c_set]
  have h1 : ((b5W).view.loc (V d (cV L) (jV L)) ↦[(r3a).set ∪ ((r3b).set ∪ (r3c).set)]{fullShare} f : sProp 𝕄)
      ⊣⊢ iprop(((b5W).view.loc (V d (cV L) (jV L)) ↦[(r3a).set]{fullShare} f)
        ∗ ((b5W).view.loc (V d (cV L) (jV L)) ↦[(r3b).set ∪ (r3c).set]{fullShare} f)) :=
    pointsTo_union (Finset.disjoint_union_right.mpr ⟨r3_ab, r3_ac⟩)
  have h2 : ((b5W).view.loc (V d (cV L) (jV L)) ↦[(r3b).set ∪ (r3c).set]{fullShare} f : sProp 𝕄)
      ⊣⊢ iprop(((b5W).view.loc (V d (cV L) (jV L)) ↦[(r3b).set]{fullShare} f)
        ∗ ((b5W).view.loc (V d (cV L) (jV L)) ↦[(r3c).set]{fullShare} f)) :=
    pointsTo_union r3_bc
  exact h1.trans ⟨sep_mono_r h2.1, sep_mono_r h2.2⟩

/-- Slot 1's likewise. -/
theorem thirds6 (f : Buf (Elt F) ((b6W).view.loc (V d (cV L) (jV L)))) :
    ((b6W).view.loc (V d (cV L) (jV L)) ↦{fullShare} f : sProp 𝕄)
      ⊣⊢ iprop(((Pair.t6a).view.loc (V d (cV L) (jV L)) ↦[(Pair.t6a).view.set]{fullShare} f)
        ∗ ((Pair.t6b).view.loc (V d (cV L) (jV L)) ↦[(Pair.t6b).view.set]{fullShare} f)
        ∗ ((Pair.t6c).view.loc (V d (cV L) (jV L)) ↦[(Pair.t6c).view.set]{fullShare} f)) := by
  have hu : ((b6W).view.loc (V d (cV L) (jV L)) ↦{fullShare} f : sProp 𝕄)
      = ((b6W).view.loc (V d (cV L) (jV L)) ↦[(r3a).set ∪ ((r3b).set ∪ (r3c).set)]{fullShare} f) := by rw [r3_cover]
  rw [hu, t6a_set, t6b_set, t6c_set]
  have h1 : ((b6W).view.loc (V d (cV L) (jV L)) ↦[(r3a).set ∪ ((r3b).set ∪ (r3c).set)]{fullShare} f : sProp 𝕄)
      ⊣⊢ iprop(((b6W).view.loc (V d (cV L) (jV L)) ↦[(r3a).set]{fullShare} f)
        ∗ ((b6W).view.loc (V d (cV L) (jV L)) ↦[(r3b).set ∪ (r3c).set]{fullShare} f)) :=
    pointsTo_union (Finset.disjoint_union_right.mpr ⟨r3_ab, r3_ac⟩)
  have h2 : ((b6W).view.loc (V d (cV L) (jV L)) ↦[(r3b).set ∪ (r3c).set]{fullShare} f : sProp 𝕄)
      ⊣⊢ iprop(((b6W).view.loc (V d (cV L) (jV L)) ↦[(r3b).set]{fullShare} f)
        ∗ ((b6W).view.loc (V d (cV L) (jV L)) ↦[(r3c).set]{fullShare} f)) :=
    pointsTo_union r3_bc
  exact h1.trans ⟨sep_mono_r h2.1, sep_mono_r h2.2⟩

/-- The subcore's read share of the flattened attribute array, cut into the remainder and four read tokens, as the run
    spells the array. -/
theorem ea_toks4 (q : PosShare TreeShare) (f : Buf (Elt F) ((eaW).view.loc (V d (cV L) (jV L)))) :
    ((eaW).view.loc (V d (cV L) (jV L)) ↦{q} f : sProp 𝕄)
      ⊣⊢ iprop(((eaW).view.loc (V d (cV L) (jV L)) ↦{Transfers.shareDrop q 4} f)
        ∗ ((eaW).view.loc (V d (cV L) (jV L)) ↦{Transfers.shareTokN q 0} f)
        ∗ ((eaW).view.loc (V d (cV L) (jV L)) ↦{Transfers.shareTokN q 1} f)
        ∗ ((eaW).view.loc (V d (cV L) (jV L)) ↦{Transfers.shareTokN q 2} f)
        ∗ ((eaW).view.loc (V d (cV L) (jV L)) ↦{Transfers.shareTokN q 3} f)) :=
  toks4 q

end Thirds

/-! ## Into the part before the outer loop, and back -/

section Rearrange
variable (m : (ℓ : Loc nD τ sig) → Buf (Elt F) ℓ) (d : Dev nD) (L : grid0.Coords)
variable (O : CellTallies nD τ sig (HIx 1)) (W : Waits sig (HIx 1))

/-- Thirds at three contents are the scratch at some contents (slot 0) … -/
theorem thirds5_any (ga gb gc : Buf (Elt F) ((b5W).view.loc (V d (cV L) (jV L)))) :
    (iprop(((Pair.t5a).view.loc (V d (cV L) (jV L)) ↦[(Pair.t5a).view.set]{fullShare} ga)
        ∗ ((Pair.t5b).view.loc (V d (cV L) (jV L)) ↦[(Pair.t5b).view.set]{fullShare} gb)
        ∗ ((Pair.t5c).view.loc (V d (cV L) (jV L)) ↦[(Pair.t5c).view.set]{fullShare} gc)) : sProp 𝕄)
      ⊢ iprop(∃ f, (b5W).view.loc (V d (cV L) (jV L)) ↦{fullShare} f) := by
  rw [t5a_set, t5b_set, t5c_set]
  iintro ⟨Ha, Hb, Hc⟩
  ihave Hbc := (pointsTo_join (ℓ := (b5W).view.loc (V d (cV L) (jV L))) (I := (r3b).set) (J := (r3c).set) (q := fullShare)
    (f := gb) (g := gc) r3_bc) $$ [Hb Hc]
  · isplitl [Hb]
    · iexact Hb
    · iexact Hc
  ihave Hall := (pointsTo_join (ℓ := (b5W).view.loc (V d (cV L) (jV L))) (I := (r3a).set) (J := (r3b).set ∪ (r3c).set) (q := fullShare)
    (f := ga) (g := ((r3c).set).piecewise gc gb) (Finset.disjoint_union_right.mpr ⟨r3_ab, r3_ac⟩)) $$ [Ha Hbc]
  · isplitl [Ha]
    · iexact Ha
    · iexact Hbc
  iexists (((r3b).set ∪ (r3c).set).piecewise (((r3c).set).piecewise gc gb) ga)
  rw [r3_cover]
  iexact Hall

/-- … and slot 1. -/
theorem thirds6_any (ga gb gc : Buf (Elt F) ((b6W).view.loc (V d (cV L) (jV L)))) :
    (iprop(((Pair.t6a).view.loc (V d (cV L) (jV L)) ↦[(Pair.t6a).view.set]{fullShare} ga)
        ∗ ((Pair.t6b).view.loc (V d (cV L) (jV L)) ↦[(Pair.t6b).view.set]{fullShare} gb)
        ∗ ((Pair.t6c).view.loc (V d (cV L) (jV L)) ↦[(Pair.t6c).view.set]{fullShare} gc)) : sProp 𝕄)
      ⊢ iprop(∃ f, (b6W).view.loc (V d (cV L) (jV L)) ↦{fullShare} f) := by
  rw [t6a_set, t6b_set, t6c_set]
  iintro ⟨Ha, Hb, Hc⟩
  ihave Hbc := (pointsTo_join (ℓ := (b6W).view.loc (V d (cV L) (jV L))) (I := (r3b).set) (J := (r3c).set) (q := fullShare)
    (f := gb) (g := gc) r3_bc) $$ [Hb Hc]
  · isplitl [Hb]
    · iexact Hb
    · iexact Hc
  ihave Hall := (pointsTo_join (ℓ := (b6W).view.loc (V d (cV L) (jV L))) (I := (r3a).set) (J := (r3b).set ∪ (r3c).set) (q := fullShare)
    (f := ga) (g := ((r3c).set).piecewise gc gb) (Finset.disjoint_union_right.mpr ⟨r3_ab, r3_ac⟩)) $$ [Ha Hbc]
  · isplitl [Ha]
    · iexact Ha
    · iexact Hbc
  iexists (((r3b).set ∪ (r3c).set).piecewise (((r3c).set).piecewise gc gb) ga)
  rw [r3_cover]
  iexact Hall

/-- The tokens back together: the two fetch tokens whole again and what was set aside are the subcore's read share. -/
theorem ea_back (f : Buf (Elt F) ((eaW).view.loc (V d (cV L) (jV L)))) :
    (iprop(((eaW).view.loc (V d (cV L) (jV L)) ↦{Transfers.shareTokN (tok (wL L)) 2} f)
        ∗ ((eaW).view.loc (V d (cV L) (jV L)) ↦{Transfers.shareTokN (tok (wL L)) 3} f)
        ∗ ((eaW).view.loc (V d (cV L) (jV L)) ↦{Transfers.shareDrop (tok (wL L)) 4} f)
        ∗ ((eaW).view.loc (V d (cV L) (jV L)) ↦{Transfers.shareTokN (tok (wL L)) 0} f)
        ∗ ((eaW).view.loc (V d (cV L) (jV L)) ↦{Transfers.shareTokN (tok (wL L)) 1} f)) : sProp 𝕄)
      ⊢ ((eaW).view.loc (V d (cV L) (jV L)) ↦{tok (wL L)} f) := by
  iintro ⟨H2, H3, Hr, H0, H1⟩
  iapply (ea_toks4 (F := F) d L (tok (wL L)) f).2
  isplitl [Hr]; · iexact Hr
  isplitl [H0]; · iexact H0
  isplitl [H1]; · iexact H1
  isplitl [H2]; · iexact H2
  iexact H3

variable [FloatOps F]

/-- INTO THE PART BEFORE THE LOOP: what the body holds after its tables are built, rearranged: the two fetch tokens, the
    six thirds, the four counters, the two out scratches and the 32 windows; set aside: the rest of the read share
    and the blocks of the share after the 32 chunks. -/
theorem to_entry143 (Tbl : sProp 𝕄) (f5 : Buf (Elt F) ((b5W).view.loc (V d (cV L) (jV L)))) (f6 : Buf (Elt F) ((b6W).view.loc (V d (cV L) (jV L))))
    (f7 : Buf (Elt F) ((b7W).view.loc (V d (cV L) (jV L)))) (f8 : Buf (Elt F) ((b8W).view.loc (V d (cV L) (jV L)))) :
    iprop(Transfers.MayWaits (Pair.thr d L) (none : HIx 1) O
        ∗ (∃ W', ⌜∀ p ∈ W', p ∈ W ∨ p.2 = none⌝ ∗ owes (Pair.thr d L) O W')
        ∗ Tbl
        ∗ ((eaW).view.loc (Pair.thr d L) ↦{tok (wL L)} eaC m d)
        ∗ ((b5W).view.loc (Pair.thr d L) ↦{fullShare} f5) ∗ ((b6W).view.loc (Pair.thr d L) ↦{fullShare} f6)
        ∗ ((b7W).view.loc (Pair.thr d L) ↦{fullShare} f7) ∗ ((b8W).view.loc (Pair.thr d L) ↦{fullShare} f8)
        ∗ semVal (Pair.thr d L, SemLoc.dma cc0_scratch9.sem) 0 ∗ semVal (Pair.thr d L, SemLoc.dma cc0_scratch10.sem) 0
        ∗ semVal (Pair.thr d L, SemLoc.dma cc0_scratch11.sem) 0 ∗ semVal (Pair.thr d L, SemLoc.dma cc0_scratch12.sem) 0
        ∗ (oLoc d ↦[blocksOf (wL L)]{fullShare} oC m d))
      ⊢ (iprop(Pair.entry143 m d L O W Tbl
        ∗ ((eaW).view.loc (Pair.thr d L) ↦{Transfers.shareDrop (tok (wL L)) 4} eaC m d)
        ∗ ((eaW).view.loc (Pair.thr d L) ↦{Transfers.shareTokN (tok (wL L)) 0} eaC m d)
        ∗ ((eaW).view.loc (Pair.thr d L) ↦{Transfers.shareTokN (tok (wL L)) 1} eaC m d)
        ∗ (oLoc d ↦[chunkRest (wL L)]{fullShare} oC m d)) : sProp 𝕄) := by
  unfold Pair.entry143
  iintro ⟨Hmw, HO, HT, Hea, Hb5, Hb6, Hb7, Hb8, Hs9, Hs10, Hs11, Hs12, Ho⟩
  ihave Ht := (ea_toks4 (F := F) d L (tok (wL L)) (eaC m d)).1 $$ Hea
  icases Ht with ⟨Hear, Hea0, Hea1, Hea2, Hea3⟩
  ihave H5 := (thirds5 (F := F) d L f5).1 $$ Hb5
  icases H5 with ⟨H5a, H5b, H5c⟩
  ihave H6 := (thirds6 (F := F) d L f6).1 $$ Hb6
  icases H6 with ⟨H6a, H6b, H6c⟩
  ihave Hw := (wins_entry (F := F) d L (oC m d)) $$ Ho
  icases Hw with ⟨Hw0, Hw1, Hor⟩
  isplitr [Hear Hea0 Hea1 Hor]
  · isplitl [Hmw]; · iexact Hmw
    isplitl [HO]; · iexact HO
    isplitl [HT]; · iexact HT
    isplitl [Hea2]; · iexact Hea2
    isplitl [Hea3]; · iexact Hea3
    isplitl [H5a H5b H5c]
    · iexists f5, f5, f5
      isplitl [H5a]; · iexact H5a
      isplitl [H5b]; · iexact H5b
      iexact H5c
    isplitl [Hs11]; · iexact Hs11
    isplitl [H6a H6b H6c]
    · iexists f6, f6, f6
      isplitl [H6a]; · iexact H6a
      isplitl [H6b]; · iexact H6b
      iexact H6c
    isplitl [Hs12]; · iexact Hs12
    isplitl [Hs9]; · iexact Hs9
    isplitl [Hb7]; · iexists f7; iexact Hb7
    isplitl [Hs10]; · iexact Hs10
    isplitl [Hb8]; · iexists f8; iexact Hb8
    isplitl [Hw0]; · iexact Hw0
    iexact Hw1
  · isplitl [Hear]; · iexact Hear
    isplitl [Hea0]; · iexact Hea0
    isplitl [Hea1]; · iexact Hea1
    iexact Hor

end Rearrange

end Cert.Proof.K

end
-- ==== Proof.TailWinK.lean ====
/-
  The last window from the pieces held when the last chunk is copied out. At that moment the share is not held
  whole: the window of chunk 30 is still away with its copy. What is held of the share's end is the window of chunk 31
  (the blocks lo w + 186 … lo w + 191), back at contents that hold the value, and the three or four blocks after the
  chunks (lo w + 192 … lo (w + 1) − 1) at what they held at the start. The last window — the six blocks that end with
  the share — lies in the union of the two, contains the second, and does not meet chunk 30's window. So it can be
  carved out of the two pieces, and put back: chunk 31's window and the blocks after the chunks then both hold the
  value. And the two slots' windows with the blocks after the chunks at contents that hold the value make the share
  at contents that hold it everywhere.
-/
import proofs.«203789_g40862318854646_cont_8to1_b_1018_13_alg».proof.Proof.WinBridgeK

noncomputable section

namespace Cert.Proof.K

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "oW" => (Memref.whole Cert.Kernel.main_v5_scv : Memref Cert.Kernel.sig Kind.scVector Space.hbm Cert.Kernel.S8x6250x8x128 EltTy.f32)

/-! ## The sets -/

/-- A share has 195 or 196 blocks. -/
theorem lo_succ_bounds (w : ℕ) : lo w + 195 ≤ lo (w + 1) ∧ lo (w + 1) ≤ lo w + 196 := by
  have := lo_succ w
  split at this <;> omega

/-- The blocks after the 32 chunks. -/
theorem mem_chunkRest {w : ℕ} {j : S8x6250x8x128.Idx} : j ∈ chunkRest w ↔ lo w + 192 ≤ (j 1).val ∧ (j 1).val < lo (w + 1) := by
  unfold chunkRest
  rw [Finset.mem_sdiff, mem_blocksOf, mem_chunkWins']
  constructor
  · rintro ⟨⟨h1, h2⟩, h3⟩; omega
  · rintro ⟨h1, h2⟩; exact ⟨⟨by omega, h2⟩, by omega⟩

/-- The last window, by blocks. -/
theorem mem_tailWin {w : ℕ} {j : S8x6250x8x128.Idx} : j ∈ win (lo (w + 1) - 6) ↔ lo (w + 1) ≤ (j 1).val + 6 ∧ (j 1).val < lo (w + 1) := by
  have := lo_succ_bounds w
  rw [mem_win]
  constructor
  · rintro ⟨h1, h2⟩; omega
  · rintro ⟨h1, h2⟩; omega

/-- Chunk 31's window and the blocks after the chunks share no element … -/
theorem c31_rest_disjoint (w : ℕ) : Disjoint (win (lo w + 186)) (chunkRest w) := by
  rw [Finset.disjoint_left]
  intro j h1 h2
  rw [mem_win] at h1; rw [mem_chunkRest] at h2
  omega

/-- … the last window lies in their union … -/
theorem tail_sub_union (w : ℕ) : win (lo (w + 1) - 6) ⊆ win (lo w + 186) ∪ chunkRest w := by
  intro j hj
  have := lo_succ_bounds w
  rw [mem_tailWin] at hj
  rw [Finset.mem_union, mem_win, mem_chunkRest]
  omega

/-- … and contains the blocks after the chunks. -/
theorem rest_sub_tail (w : ℕ) : chunkRest w ⊆ win (lo (w + 1) - 6) := by
  intro j hj
  have := lo_succ_bounds w
  rw [mem_chunkRest] at hj
  rw [mem_tailWin]
  omega

/-- What the union keeps outside the last window is what chunk 31's window keeps. -/
theorem union_sdiff_tail (w : ℕ) :
    (win (lo w + 186) ∪ chunkRest w) \ win (lo (w + 1) - 6) = win (lo w + 186) \ win (lo (w + 1) - 6) := by
  ext j
  have := lo_succ_bounds w
  simp only [Finset.mem_sdiff, Finset.mem_union, mem_win (b := lo w + 186), mem_chunkRest, mem_tailWin]
  constructor
  · rintro ⟨h1 | h1, h2⟩
    · exact ⟨h1, h2⟩
    · exact absurd ⟨by omega, h1.2⟩ h2
  · rintro ⟨h1, h2⟩; exact ⟨.inl h1, h2⟩

/-- Chunk 31's window is its part outside the last window and the last window's part before the blocks after the chunks. -/
theorem c31_eq (w : ℕ) :
    (win (lo w + 186) \ win (lo (w + 1) - 6)) ∪ (win (lo (w + 1) - 6) \ chunkRest w) = win (lo w + 186) := by
  ext j
  have := lo_succ_bounds w
  simp only [Finset.mem_sdiff, Finset.mem_union, mem_win (b := lo w + 186), mem_chunkRest, mem_tailWin]
  constructor
  · rintro (⟨h1, _⟩ | ⟨h1, h2⟩)
    · exact h1
    · constructor
      · omega
      · by_contra h; exact h2 ⟨by omega, h1.2⟩
  · intro h1
    by_cases h2 : lo (w + 1) ≤ (j 1).val + 6 ∧ (j 1).val < lo (w + 1)
    · exact .inr ⟨h2, fun h3 => by omega⟩
    · exact .inl ⟨h1, h2⟩

theorem c31_parts_disjoint (w : ℕ) :
    Disjoint (win (lo w + 186) \ win (lo (w + 1) - 6)) (win (lo (w + 1) - 6) \ chunkRest w) := by
  rw [Finset.disjoint_left]
  intro j h1 h2
  exact (Finset.mem_sdiff.mp h1).2 (Finset.mem_sdiff.mp h2).1

/-! ## Carving the last window out of the two pieces, and putting it back -/

section PointsTo
variable (d : Dev nD) (w : ℕ)

/-- OUT: chunk 31's window and the blocks after the chunks give the last window, at some contents, and what chunk 31's
    window keeps. -/
theorem tail_out' (g1 fo : Buf (Elt F) (oLoc d)) :
    iprop((oLoc d ↦[win (lo w + 186)]{fullShare} g1) ∗ (oLoc d ↦[chunkRest w]{fullShare} fo))
      ⊢ (iprop(∃ g : Buf (Elt F) (oLoc d), (oLoc d ↦[win (lo (w + 1) - 6)]{fullShare} g)
          ∗ (oLoc d ↦[win (lo w + 186) \ win (lo (w + 1) - 6)]{fullShare} g1)) : sProp 𝕄) := by
  have e1 : (oLoc d ↦[(win (lo w + 186) ∪ chunkRest w) \ win (lo (w + 1) - 6)]{fullShare} (chunkRest w).piecewise fo g1 : sProp 𝕄)
      = (oLoc d ↦[win (lo w + 186) \ win (lo (w + 1) - 6)]{fullShare} g1) := by
    rw [union_sdiff_tail w]
    exact pointsTo_congr fun j hj =>
      Finset.piecewise_eq_of_notMem _ _ _ (fun hr => (Finset.mem_sdiff.mp hj).2 (rest_sub_tail w hr))
  iintro H
  ihave H := (pointsTo_join (ℓ := oLoc d) (I := win (lo w + 186)) (J := chunkRest w) (q := fullShare) (f := g1) (g := fo)
    (c31_rest_disjoint w)) $$ H
  ihave H := ((pointsTo_split_subset (ℓ := oLoc d) (q := fullShare) (f := (chunkRest w).piecewise fo g1) (tail_sub_union w)).1) $$ H
  icases H with ⟨HT, HK⟩
  ihave HK := (Entails.of_eq e1) $$ HK
  iexists (chunkRest w).piecewise fo g1
  isplitl [HT]
  · iexact HT
  · iexact HK

set_option maxHeartbeats 1000000 in
/-- BACK: the last window at contents that hold the value, and what chunk 31's window kept (which held it): chunk 31's
    window and the blocks after the chunks, each at contents that hold the value. -/
theorem tail_back' (Vf : S8x6250x8x128.Idx → F .f32) (g1 g' : Buf (Elt F) (oLoc d))
    (hg1 : ∀ j ∈ win (lo w + 186), g1 j = Vf j) (hg' : ∀ j ∈ win (lo (w + 1) - 6), g' j = Vf j) :
    iprop((oLoc d ↦[win (lo (w + 1) - 6)]{fullShare} g') ∗ (oLoc d ↦[win (lo w + 186) \ win (lo (w + 1) - 6)]{fullShare} g1))
      ⊢ (iprop((∃ g : Buf (Elt F) (oLoc d), ⌜∀ j ∈ win (lo w + 186), g j = Vf j⌝ ∗ (oLoc d ↦[win (lo w + 186)]{fullShare} g))
          ∗ (∃ gR : Buf (Elt F) (oLoc d), ⌜∀ j ∈ chunkRest w, gR j = Vf j⌝ ∗ (oLoc d ↦[chunkRest w]{fullShare} gR))) : sProp 𝕄) := by
  have e2 : (oLoc d ↦[(win (lo w + 186) \ win (lo (w + 1) - 6)) ∪ (win (lo (w + 1) - 6) \ chunkRest w)]{fullShare}
        (win (lo (w + 1) - 6) \ chunkRest w).piecewise g' g1 : sProp 𝕄)
      = (oLoc d ↦[win (lo w + 186)]{fullShare} (win (lo (w + 1) - 6) \ chunkRest w).piecewise g' g1) := by
    rw [c31_eq w]
  iintro ⟨HT, HK⟩
  ihave HT := ((pointsTo_split_subset (ℓ := oLoc d) (q := fullShare) (f := g') (rest_sub_tail w)).1) $$ HT
  icases HT with ⟨HR, HTA⟩
  ihave HA := (pointsTo_join (ℓ := oLoc d) (I := win (lo w + 186) \ win (lo (w + 1) - 6)) (J := win (lo (w + 1) - 6) \ chunkRest w)
    (q := fullShare) (f := g1) (g := g') (c31_parts_disjoint w)) $$ [HK HTA]
  · isplitl [HK]
    · iexact HK
    · iexact HTA
  ihave HA := (Entails.of_eq e2) $$ HA
  isplitl [HA]
  · iexists (win (lo (w + 1) - 6) \ chunkRest w).piecewise g' g1
    isplitr
    · ipureintro
      intro j hj
      by_cases ht : j ∈ win (lo (w + 1) - 6) \ chunkRest w
      · rw [Finset.piecewise_eq_of_mem _ _ _ ht]; exact hg' j (Finset.mem_sdiff.mp ht).1
      · rw [Finset.piecewise_eq_of_notMem _ _ _ ht]; exact hg1 j hj
    · iexact HA
  · iexists g'
    isplitr
    · ipureintro
      exact fun j hj => hg' j (rest_sub_tail w hj)
    · iexact HR

/-- THE JOIN, with the blocks after the chunks at the value too: one contents on the share that holds the value
    everywhere. -/
theorem join_full (Vf : S8x6250x8x128.Idx → F .f32) (gR : Buf (Elt F) (oLoc d)) (hR : ∀ j ∈ chunkRest w, gR j = Vf j) :
    iprop((bigSep Finset.univ fun t : Fin 16 => iprop(∃ g : Buf (Elt F) (oLoc d),
            ⌜∀ j ∈ win (lo w + 12 * t.val), g j = Vf j⌝ ∗ (oLoc d ↦[win (lo w + 12 * t.val)]{fullShare} g)))
        ∗ (bigSep Finset.univ fun t : Fin 16 => iprop(∃ g : Buf (Elt F) (oLoc d),
            ⌜∀ j ∈ win (lo w + 12 * t.val + 6), g j = Vf j⌝ ∗ (oLoc d ↦[win (lo w + 12 * t.val + 6)]{fullShare} g)))
        ∗ (oLoc d ↦[chunkRest w]{fullShare} gR))
      ⊢ (iprop(∃ g : Buf (Elt F) (oLoc d), ⌜∀ j ∈ blocksOf w, g j = Vf j⌝ ∗ (oLoc d ↦[blocksOf w]{fullShare} g)) : sProp 𝕄) := by
  iintro ⟨He, Ho, Hr⟩
  ihave He := (join_family d Vf (fun t : Fin 16 => win (lo w + 12 * t.val)) (even_pairwise w) gR) $$ He
  icases He with ⟨%ge, %hge, He⟩
  ihave Ho := (join_family d Vf (fun t : Fin 16 => win (lo w + 12 * t.val + 6)) (odd_pairwise w) gR) $$ Ho
  icases Ho with ⟨%go, %hgo, Ho⟩
  ihave Heo := (pointsTo_join (ℓ := oLoc d) (I := evenWins w) (J := oddWins w) (q := fullShare) (f := ge) (g := go)
    (even_odd_disjoint w)) $$ [He Ho]
  · isplitl [He]
    · iexact He
    · iexact Ho
  ihave Hall := (pointsTo_join (ℓ := oLoc d) (I := evenWins w ∪ oddWins w) (J := chunkRest w) (q := fullShare)
    (f := (oddWins w).piecewise go ge) (g := gR) (chunkRest_disjoint w)) $$ [Heo Hr]
  · isplitl [Heo]
    · iexact Heo
    · iexact Hr
  iexists (chunkRest w).piecewise gR ((oddWins w).piecewise go ge)
  isplitr
  · ipureintro
    intro j hj
    by_cases hr : j ∈ chunkRest w
    · rw [Finset.piecewise_eq_of_mem _ _ _ hr]; exact hR j hr
    · rw [Finset.piecewise_eq_of_notMem _ _ _ hr]
      have hcw : j ∈ chunkWins w := by
        rw [blocksOf_eq w, Finset.mem_union] at hj
        exact hj.resolve_right hr
      by_cases ho : j ∈ oddWins w
      · rw [Finset.piecewise_eq_of_mem _ _ _ ho]
        obtain ⟨t, ht⟩ := mem_oddWins.mp ho
        exact hgo t j ht
      · rw [Finset.piecewise_eq_of_notMem _ _ _ ho]
        have he : j ∈ evenWins w := (Finset.mem_union.mp hcw).resolve_right ho
        obtain ⟨t, ht⟩ := mem_evenWins.mp he
        exact hge t j ht
  · rw [blocksOf_eq w]
    iexact Hall

theorem join_full_n {n : ℕ} (hn : n = 16) (Vf : S8x6250x8x128.Idx → F .f32) (gR : Buf (Elt F) (oLoc d)) (hR : ∀ j ∈ chunkRest w, gR j = Vf j) :
    iprop((bigSep Finset.univ fun t : Fin n => iprop(∃ g : Buf (Elt F) (oLoc d),
            ⌜∀ j ∈ win (lo w + 12 * t.val), g j = Vf j⌝ ∗ (oLoc d ↦[win (lo w + 12 * t.val)]{fullShare} g)))
        ∗ (bigSep Finset.univ fun t : Fin n => iprop(∃ g : Buf (Elt F) (oLoc d),
            ⌜∀ j ∈ win (lo w + 12 * t.val + 6), g j = Vf j⌝ ∗ (oLoc d ↦[win (lo w + 12 * t.val + 6)]{fullShare} g)))
        ∗ (oLoc d ↦[chunkRest w]{fullShare} gR))
      ⊢ (iprop(∃ g : Buf (Elt F) (oLoc d), ⌜∀ j ∈ blocksOf w, g j = Vf j⌝ ∗ (oLoc d ↦[blocksOf w]{fullShare} g)) : sProp 𝕄) := by
  subst hn; exact join_full d w Vf gR hR

end PointsTo

/-! ## In the program's spelling -/

section Spelt
variable (d : Dev nD) (L : grid0.Coords)

/-- EXIT, the blocks after the chunks already at the value: every slice back at contents that hold `Vf` on its window,
    and the blocks after the chunks at contents that hold it: the share at contents that hold it everywhere. -/
theorem wins_exit_full (Vf : S8x6250x8x128.Idx → F .f32) :
    iprop((bigSep Finset.univ fun i : Fin k0_t1_loop.trips => iprop(∃ g, ⌜Pw0V d L Vf i g⌝
            ∗ ((Pair.o70 L i).view.loc (V d (cV L) (jV L)) ↦[(Pair.o70 L i).view.set]{fullShare} g)))
        ∗ (bigSep Finset.univ fun i : Fin k0_t1_loop.trips => iprop(∃ g, ⌜Pw1V d L Vf i g⌝
            ∗ ((Pair.o139 L i).view.loc (V d (cV L) (jV L)) ↦[(Pair.o139 L i).view.set]{fullShare} g)))
        ∗ (∃ gR : Buf (Elt F) (oLoc d), ⌜∀ j ∈ chunkRest (wL L), gR j = Vf j⌝ ∗ (oLoc d ↦[chunkRest (wL L)]{fullShare} gR)))
      ⊢ (iprop(∃ g'' : Buf (Elt F) (oLoc d), ⌜∀ j ∈ blocksOf (wL L), g'' j = Vf j⌝
          ∗ (oLoc d ↦[blocksOf (wL L)]{fullShare} g'')) : sProp 𝕄) := by
  iintro ⟨H0, H1, ⟨%gR, %hR, Hr⟩⟩
  iapply (join_full_n d (wL L) trips16 Vf gR hR)
  have h0 : (bigSep Finset.univ fun i : Fin k0_t1_loop.trips => (iprop(∃ g, ⌜Pw0V d L Vf i g⌝
            ∗ ((Pair.o70 L i).view.loc (V d (cV L) (jV L)) ↦[(Pair.o70 L i).view.set]{fullShare} g)) : sProp 𝕄))
      ⊢ bigSep Finset.univ fun t : Fin k0_t1_loop.trips => (iprop(∃ g : Buf (Elt F) (oLoc d),
            ⌜∀ j ∈ win (lo (wL L) + 12 * t.val), g j = Vf j⌝ ∗ (oLoc d ↦[win (lo (wL L) + 12 * t.val)]{fullShare} g)) : sProp 𝕄) :=
    bigSep_mono fun t _ => o70_out d L Vf t
  have h1 : (bigSep Finset.univ fun i : Fin k0_t1_loop.trips => (iprop(∃ g, ⌜Pw1V d L Vf i g⌝
            ∗ ((Pair.o139 L i).view.loc (V d (cV L) (jV L)) ↦[(Pair.o139 L i).view.set]{fullShare} g)) : sProp 𝕄))
      ⊢ bigSep Finset.univ fun t : Fin k0_t1_loop.trips => (iprop(∃ g : Buf (Elt F) (oLoc d),
            ⌜∀ j ∈ win (lo (wL L) + 12 * t.val + 6), g j = Vf j⌝ ∗ (oLoc d ↦[win (lo (wL L) + 12 * t.val + 6)]{fullShare} g)) : sProp 𝕄) :=
    bigSep_mono fun t _ => o139_out d L Vf t
  isplitl [H0]
  · iapply h0; iexact H0
  isplitl [H1]
  · iapply h1; iexact H1
  iexact Hr

/-- The window of chunk 31 through its slice (trip 15, slot 1) is the points-to on its blocks. -/
theorem pts_o139_last (t : Fin k0_t1_loop.trips) (ht : t.val = 15) (g : Buf (Elt F) (oLoc d)) :
    ((Pair.o139 L t).view.loc (V d (cV L) (jV L)) ↦[(Pair.o139 L t).view.set]{fullShare} g : sProp 𝕄)
      = (oLoc d ↦[win (lo (wL L) + 186)]{fullShare} g) := by
  rw [pts_o139 d L t g, ht, show lo (wL L) + 12 * 15 + 6 = lo (wL L) + 186 from by omega]

end Spelt

end Cert.Proof.K

end
-- ==== Proof.FinishK.lean ====
/-
  The body's closing step: what a vector subcore holds when its run ends — its blocks of the result at contents that
  hold the embedding, its read shares of the flattened arrays whole again, its nine scratches at whatever they hold,
  its eight semaphores back at zero, and what it owes — is what the launch asked it to hand back.
-/
import proofs.«203789_g40862318854646_cont_8to1_b_1018_13_alg».proof.Proof.TileDefsK
import proofs.«203789_g40862318854646_cont_8to1_b_1018_13_alg».proof.Proof.GoodK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)

variable (m : (ℓ : Loc nD τ sig) → Buf (Elt F) ℓ) [FloatOps F] (d : Dev nD) (L : grid0.Coords)

/-- Against the handed-back resources spelt out: `Hb` and `Hs` are whatever the subcore's other buffers and semaphores
    are (`ownBufs_V` and `ownSems0_V` say what, and are passed as `hB`, `hS`; they pass through untouched). -/
theorem finish' (O : CellTallies nD τ sig (HIx 1)) (W : Waits sig (HIx 1)) (Hb Hs : sProp 𝕄) :
    iprop((∃ g, ⌜GoodV m d g (wL L)⌝ ∗ (oLoc d ↦[blocksOf (wL L)]{fullShare} g))
        ∗ ((eaW).view.loc (V d (cV L) (jV L)) ↦{tok (wL L)} eaC m d)
        ∗ ((w0W).view.loc (V d (cV L) (jV L)) ↦{tok (wL L)} w0C m d)
        ∗ ((w1W).view.loc (V d (cV L) (jV L)) ↦{tok (wL L)} w1C m d)
        ∗ ((w2W).view.loc (V d (cV L) (jV L)) ↦{tok (wL L)} w2C m d)
        ∗ (∃ f, (b0W).view.loc (V d (cV L) (jV L)) ↦{fullShare} f)
        ∗ (∃ f, (b1W).view.loc (V d (cV L) (jV L)) ↦{fullShare} f)
        ∗ (∃ f, (b2W).view.loc (V d (cV L) (jV L)) ↦{fullShare} f)
        ∗ (∃ f, (b3W).view.loc (V d (cV L) (jV L)) ↦{fullShare} f)
        ∗ (∃ f, (b4W).view.loc (V d (cV L) (jV L)) ↦{fullShare} f)
        ∗ (∃ f, (b5W).view.loc (V d (cV L) (jV L)) ↦{fullShare} f)
        ∗ (∃ f, (b6W).view.loc (V d (cV L) (jV L)) ↦{fullShare} f)
        ∗ (∃ f, (b7W).view.loc (V d (cV L) (jV L)) ↦{fullShare} f)
        ∗ (∃ f, (b8W).view.loc (V d (cV L) (jV L)) ↦{fullShare} f)
        ∗ Hb
        ∗ semVal ((V d (cV L) (jV L)), SemLoc.dma cc0_scratch9.sem) 0
        ∗ semVal ((V d (cV L) (jV L)), SemLoc.dma cc0_scratch10.sem) 0
        ∗ semVal ((V d (cV L) (jV L)), SemLoc.dma cc0_scratch11.sem) 0
        ∗ semVal ((V d (cV L) (jV L)), SemLoc.dma cc0_scratch12.sem) 0
        ∗ semVal ((V d (cV L) (jV L)), SemLoc.dma cc0_scoped0.sem) 0
        ∗ semVal ((V d (cV L) (jV L)), SemLoc.dma cc0_scoped1.sem) 0
        ∗ semVal ((V d (cV L) (jV L)), SemLoc.dma cc0_scoped2.sem) 0
        ∗ semVal ((V d (cV L) (jV L)), SemLoc.dma cc0_scoped3.sem) 0
        ∗ Hs
        ∗ (∃ W', ⌜∀ p ∈ W', p ∈ W ∨ p.2 = none⌝ ∗ owes (V d (cV L) (jV L)) O W'))
      ⊢ (iprop((∃ fo, ⌜GoodV m d fo (wL L)⌝ ∗ ((eaLoc d ↦{tok (wL L)} eaC m d) ∗ (w0Loc d ↦{tok (wL L)} w0C m d) ∗ (w1Loc d ↦{tok (wL L)} w1C m d)
            ∗ (w2Loc d ↦{tok (wL L)} w2C m d) ∗ (oLoc d ↦[blocksOf (wL L)]{fullShare} fo)))
        ∗ ((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ Hb)
        ∗ (semVal ((V d (cV L) (jV L)), SemLoc.dma cc0_scratch9.sem) 0
          ∗ semVal ((V d (cV L) (jV L)), SemLoc.dma cc0_scratch10.sem) 0
          ∗ semVal ((V d (cV L) (jV L)), SemLoc.dma cc0_scratch11.sem) 0
          ∗ semVal ((V d (cV L) (jV L)), SemLoc.dma cc0_scratch12.sem) 0
          ∗ semVal ((V d (cV L) (jV L)), SemLoc.dma cc0_scoped0.sem) 0
          ∗ semVal ((V d (cV L) (jV L)), SemLoc.dma cc0_scoped1.sem) 0
          ∗ semVal ((V d (cV L) (jV L)), SemLoc.dma cc0_scoped2.sem) 0
          ∗ semVal ((V d (cV L) (jV L)), SemLoc.dma cc0_scoped3.sem) 0
          ∗ Hs)
        ∗ ∃ W', ⌜∀ p ∈ W', p ∈ W ∨ p.2 = none⌝ ∗ owes (V d (cV L) (jV L)) O W') : sProp 𝕄) := by
  iintro ⟨⟨%g, %hg, Ho⟩, Hea, Hw0, Hw1, Hw2, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hbufs, S0, S1, S2, S3, S4, S5, S6, S7, Hsems, HO⟩
  isplitl [Ho Hea Hw0 Hw1 Hw2]
  · iexists g
    isplitr
    · ipureintro; exact hg
    isplitl [Hea]; · iapply (Entails.of_eq (pts_ea (F := F) d L _ _)); iexact Hea
    isplitl [Hw0]; · iapply (Entails.of_eq (pts_w0 (F := F) d L _ _)); iexact Hw0
    isplitl [Hw1]; · iapply (Entails.of_eq (pts_w1 (F := F) d L _ _)); iexact Hw1
    isplitl [Hw2]; · iapply (Entails.of_eq (pts_w2 (F := F) d L _ _)); iexact Hw2
    iexact Ho
  isplitl [H0 H1 H2 H3 H4 H5 H6 H7 H8 Hbufs]
  ·
    isplitl [H0]; · iexists f0; iapply (Entails.of_eq (pts_b0 (F := F) d L f0)); iexact H0
    isplitl [H1]; · iexists f1; iapply (Entails.of_eq (pts_b1 (F := F) d L f1)); iexact H1
    isplitl [H2]; · iexists f2; iapply (Entails.of_eq (pts_b2 (F := F) d L f2)); iexact H2
    isplitl [H3]; · iexists f3; iapply (Entails.of_eq (pts_b3 (F := F) d L f3)); iexact H3
    isplitl [H4]; · iexists f4; iapply (Entails.of_eq (pts_b4 (F := F) d L f4)); iexact H4
    isplitl [H5]; · iexists f5; iapply (Entails.of_eq (pts_b5 (F := F) d L f5)); iexact H5
    isplitl [H6]; · iexists f6; iapply (Entails.of_eq (pts_b6 (F := F) d L f6)); iexact H6
    isplitl [H7]; · iexists f7; iapply (Entails.of_eq (pts_b7 (F := F) d L f7)); iexact H7
    isplitl [H8]; · iexists f8; iapply (Entails.of_eq (pts_b8 (F := F) d L f8)); iexact H8
    iexact Hbufs
  isplitl [S0 S1 S2 S3 S4 S5 S6 S7 Hsems]
  ·
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact Hsems
  iexact HO

/-- Against the launch's own wording of what is handed back. -/
theorem finish (hF : (K (F := F)).Facts) (O : CellTallies nD τ sig (HIx 1)) (W : Waits sig (HIx 1)) (Hb Hs : sProp 𝕄)
    (hB : (ownBufs (V d (cV L) (jV L)) : sProp 𝕄) = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ Hb))
    (hS : (ownSems0 (V d (cV L) (jV L)) : sProp 𝕄) = iprop(semVal ((V d (cV L) (jV L)), SemLoc.dma cc0_scratch9.sem) 0
          ∗ semVal ((V d (cV L) (jV L)), SemLoc.dma cc0_scratch10.sem) 0
          ∗ semVal ((V d (cV L) (jV L)), SemLoc.dma cc0_scratch11.sem) 0
          ∗ semVal ((V d (cV L) (jV L)), SemLoc.dma cc0_scratch12.sem) 0
          ∗ semVal ((V d (cV L) (jV L)), SemLoc.dma cc0_scoped0.sem) 0
          ∗ semVal ((V d (cV L) (jV L)), SemLoc.dma cc0_scoped1.sem) 0
          ∗ semVal ((V d (cV L) (jV L)), SemLoc.dma cc0_scoped2.sem) 0
          ∗ semVal ((V d (cV L) (jV L)), SemLoc.dma cc0_scoped3.sem) 0
          ∗ Hs)) :
    iprop((∃ g, ⌜GoodV m d g (wL L)⌝ ∗ (oLoc d ↦[blocksOf (wL L)]{fullShare} g))
        ∗ ((eaW).view.loc (V d (cV L) (jV L)) ↦{tok (wL L)} eaC m d)
        ∗ ((w0W).view.loc (V d (cV L) (jV L)) ↦{tok (wL L)} w0C m d)
        ∗ ((w1W).view.loc (V d (cV L) (jV L)) ↦{tok (wL L)} w1C m d)
        ∗ ((w2W).view.loc (V d (cV L) (jV L)) ↦{tok (wL L)} w2C m d)
        ∗ (∃ f, (b0W).view.loc (V d (cV L) (jV L)) ↦{fullShare} f)
        ∗ (∃ f, (b1W).view.loc (V d (cV L) (jV L)) ↦{fullShare} f)
        ∗ (∃ f, (b2W).view.loc (V d (cV L) (jV L)) ↦{fullShare} f)
        ∗ (∃ f, (b3W).view.loc (V d (cV L) (jV L)) ↦{fullShare} f)
        ∗ (∃ f, (b4W).view.loc (V d (cV L) (jV L)) ↦{fullShare} f)
        ∗ (∃ f, (b5W).view.loc (V d (cV L) (jV L)) ↦{fullShare} f)
        ∗ (∃ f, (b6W).view.loc (V d (cV L) (jV L)) ↦{fullShare} f)
        ∗ (∃ f, (b7W).view.loc (V d (cV L) (jV L)) ↦{fullShare} f)
        ∗ (∃ f, (b8W).view.loc (V d (cV L) (jV L)) ↦{fullShare} f)
        ∗ Hb
        ∗ semVal ((V d (cV L) (jV L)), SemLoc.dma cc0_scratch9.sem) 0
        ∗ semVal ((V d (cV L) (jV L)), SemLoc.dma cc0_scratch10.sem) 0
        ∗ semVal ((V d (cV L) (jV L)), SemLoc.dma cc0_scratch11.sem) 0
        ∗ semVal ((V d (cV L) (jV L)), SemLoc.dma cc0_scratch12.sem) 0
        ∗ semVal ((V d (cV L) (jV L)), SemLoc.dma cc0_scoped0.sem) 0
        ∗ semVal ((V d (cV L) (jV L)), SemLoc.dma cc0_scoped1.sem) 0
        ∗ semVal ((V d (cV L) (jV L)), SemLoc.dma cc0_scoped2.sem) 0
        ∗ semVal ((V d (cV L) (jV L)), SemLoc.dma cc0_scoped3.sem) 0
        ∗ Hs
        ∗ (∃ W', ⌜∀ p ∈ W', p ∈ W ∨ p.2 = none⌝ ∗ owes (V d (cV L) (jV L)) O W'))
      ⊢ (iprop((∃ fo, ⌜GoodV m d fo (wL L)⌝ ∗ tileRes m d (wL L) fo) ∗ scopedBufs (V d (cV L) (jV L)) ∗ scopedSems0 (V d (cV L) (jV L))
        ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), hB, hS]
  unfold tileRes
  exact finish' m d L O W Hb Hs

/-- The same with the subcore's other buffers and semaphores as `ownBufs_V` and `ownSems0_V` name them. -/
example (hF : (K (F := F)).Facts) (O : CellTallies nD τ sig (HIx 1)) (W : Waits sig (HIx 1)) :=
  finish m d L hF O W _ _ (ownBufs_V (F := F) d L) (ownSems0_V (F := F) d L)

end Cert.Proof.K

end
-- ==== Proof.BodyK.lean ====
/-
  The run of the kernel's body on one vector subcore, at a symbolic grid point: from its read shares of the flattened
  attributes and tables and its own blocks of the result, it ends holding them again with every element of its blocks at
  the embedding of that element's edge and column.
-/
import proofs.«203789_g40862318854646_cont_8to1_b_1018_13_alg».proof.Proof.TileDefsK
import proofs.«203789_g40862318854646_cont_8to1_b_1018_13_alg».proof.Proof.GoodK
import proofs.«203789_g40862318854646_cont_8to1_b_1018_13_alg».proof.Proof.TabK
import proofs.«203789_g40862318854646_cont_8to1_b_1018_13_alg».proof.Proof.InnerK
import proofs.«203789_g40862318854646_cont_8to1_b_1018_13_alg».proof.Proof.PlugK
import proofs.«203789_g40862318854646_cont_8to1_b_1018_13_alg».proof.Proof.PlugTailK
import proofs.«203789_g40862318854646_cont_8to1_b_1018_13_alg».proof.Proof.PairK
import proofs.«203789_g40862318854646_cont_8to1_b_1018_13_alg».proof.Proof.LandK
import proofs.«203789_g40862318854646_cont_8to1_b_1018_13_alg».proof.Proof.WinBridgeK
import proofs.«203789_g40862318854646_cont_8to1_b_1018_13_alg».proof.Proof.EntryK
import proofs.«203789_g40862318854646_cont_8to1_b_1018_13_alg».proof.Proof.TailWinK
import proofs.«203789_g40862318854646_cont_8to1_b_1018_13_alg».proof.Proof.HlandK
import proofs.«203789_g40862318854646_cont_8to1_b_1018_13_alg».proof.Proof.FinishK
import Idealize.ShloMosaic.Lib.Batch
import Idealize.ShloMosaic.Lib.Transfers

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

/-- A resource set aside under another name until it is needed: the same assertion. -/
def Hid (P : sProp 𝕄) : sProp 𝕄 := P
theorem hid_eq (P : sProp 𝕄) : Hid (F := F) P = P := rfl

open Pair

variable (m : (ℓ : Loc nD τ sig) → Buf (Elt F) ℓ)
variable [FloatOps F]

set_option maxHeartbeats 0 in
theorem tile_body [∀ e, Nonempty (Elt F e)] (d : Dev nD) (L : grid0.Coords) (hea : ∀ n, eaC m d n = 0#32 ∨ eaC m d n = 1#32)
    (hF : (K (F := F)).Facts) (O : CellTallies nD τ sig (HIx 1)) (W : Waits sig (HIx 1)) (hO : ∀ g, O g none = 0) :
    iprop(levAts (K (F := F)).L (K (F := F)).lev ∗ emp ∗ tileRes m d (wL L) (oC m d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3)
          fun _ => iprop((∃ fo, ⌜GoodV m d fo (wL L)⌝ ∗ tileRes m d (wL L) fo) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold tileRes
  iintro ⟨#Hlv, -, ⟨Hea, Hw0, Hw1, Hw2, Ho⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, Hbufs⟩,
    ⟨Hos0, Hos1, Hes0, Hes1, Hr0, Hr1, Hr2, Hr3, Hsems⟩, HO⟩
  ihave Hmw := ((K (F := F)).mayWaits_none (thr := (V d (cV L) (jV L))) hO) $$ Hlv
  ihave Hea' := (Entails.of_eq (pts_ea (F := F) d L _ _).symm) $$ Hea
  ihave Hw0' := (Entails.of_eq (pts_w0 (F := F) d L _ _).symm) $$ Hw0
  ihave Hw1' := (Entails.of_eq (pts_w1 (F := F) d L _ _).symm) $$ Hw1
  ihave Hw2' := (Entails.of_eq (pts_w2 (F := F) d L _ _).symm) $$ Hw2
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  ihave Hb4' := (Entails.of_eq (pts_b4 (F := F) d L _).symm) $$ Hb4
  ihave Hb5' := (Entails.of_eq (pts_b5 (F := F) d L _).symm) $$ Hb5
  ihave Hb6' := (Entails.of_eq (pts_b6 (F := F) d L _).symm) $$ Hb6
  ihave Hb7' := (Entails.of_eq (pts_b7 (F := F) d L _).symm) $$ Hb7
  ihave Hb8' := (Entails.of_eq (pts_b8 (F := F) d L _).symm) $$ Hb8
  ihave Hes0h := (Entails.of_eq (hid_eq (F := F) _).symm) $$ Hes0
  ihave Hes1h := (Entails.of_eq (hid_eq (F := F) _).symm) $$ Hes1
  sl_exec_parts
  -- the table scratch's 240 stores read back once: word y below 3840 is row y / 64, column y % 64 of the combined table
  have hC0 : ∀ i, View.read (Elt F) (Memref.whole cc0_scratch0).view (View.write (Elt F) (Memref.whole cc0_scratch0).view f0 (tile_body.sl.dma0 m d) Finset.univ) i = w0C m d i := fun i => by
    simp only [Memref.view_whole, View.write_whole_univ, View.read_whole]; rfl
  have hC1 : ∀ i, View.read (Elt F) (Memref.whole cc0_scratch1).view (View.write (Elt F) (Memref.whole cc0_scratch1).view f1 (tile_body.sl.dma0_1 m d) Finset.univ) i = w1C m d i := fun i => by
    simp only [Memref.view_whole, View.write_whole_univ, View.read_whole]; rfl
  have hC2 : ∀ i, View.read (Elt F) (Memref.whole cc0_scratch2).view (View.write (Elt F) (Memref.whole cc0_scratch2).view f2 (tile_body.sl.dma0_2 m d) Finset.univ) i = w2C m d i := fun i => by
    simp only [Memref.view_whole, View.write_whole_univ, View.read_whole]; rfl
  ihave Hb3n : iprop(∃ ft3, ⌜∀ y : S4096.Idx, (y 0).val < 3840 → (Memref.whole cc0_scratch3).view.read (Elt F) ft3 y = tabWord (w0C m d) (w1C m d) (w2C m d) y⌝ ∗ (Memref.whole cc0_scratch3).view.loc (V d (cV L) (jV L)) ↦{fullShare} ft3) $$ [Hb3']
  · iexists _; isplitr
    rotate_left
    · iexact Hb3'
    · ipureintro
      intro y hy
      refine read_of_stack _ _ _ 240 _ ?_ y (by omega)
      repeat (refine stack_cons _ _ _ _ _ _ rfl ?_ ?_; · exact agree_tab _ _ _ _ _ _ _ _ _ hC0 hC1 hC2 _ _ _ _ _ _ _ _ (by decide) (by decide) (by decide) (by decide) (by decide))
      exact stack_nil _
  icases Hb3n with ⟨%ft3, %h3, Hb3'⟩
  iterate 300 (first | (rw [SparseCore.vectorLoadIdx_bind (c := (V d (cV L) (jV L)))]; sl_exec_parts) | skip)
  -- the transposed scratch's 256 stores read back once: word 64 c + r is the table scratch's word 64 r + c
  ihave Hb4n : iprop(∃ ft : Buf (Elt F) ((V d (cV L) (jV L)).loc cc0_scratch4), ⌜TabT (w0C m d) (w1C m d) (w2C m d) ft⌝ ∗ (Memref.whole cc0_scratch4).view.loc (V d (cV L) (jV L)) ↦{fullShare} ft) $$ [Hb4']
  · iexists _; isplitr
    rotate_left
    · iexact Hb4'
    · ipureintro
      have hrw : ∀ (g : Buf (Elt F) ((V d (cV L) (jV L)).loc cc0_scratch4)) (y : S4096.Idx), (Memref.whole cc0_scratch4).view.read (Elt F) g y = g y := fun g y => by
        simp only [Memref.view_whole, View.read_whole]
      refine tabT_of_words _ _ _ (fun y => (Memref.whole cc0_scratch3).view.read (Elt F) ft3 y) h3 _ (fun y => (hrw _ y).symm.trans ?_)
      refine read_of_stack (Memref.whole cc0_scratch4).view f4 _ 256 _ ?_ y (by have : (y 0).val < 4096 := (y 0).isLt; omega)
      repeat (refine stack_cons _ _ _ _ _ _ rfl ?_ ?_; · exact agree_tr _ _ (fun y => readAt_whole_apply _ _ y) _ _ _ _ _ _ (fun x => idx_lane _ _ (by decide) (by decide) _ x) (by decide) (by decide) (by decide))
      exact stack_nil _
  icases Hb4n with ⟨%ft, %hT, Hb4'⟩
  ihave Hes0 := (Entails.of_eq (hid_eq (F := F) _)) $$ Hes0h
  ihave Hes1 := (Entails.of_eq (hid_eq (F := F) _)) $$ Hes1h
  -- the resources as the first fetches and the chunk loop take them
  ihave HE := (to_entry143 (F := F) m d L O W ((b4W).view.loc (V d (cV L) (jV L)) ↦{fullShare} ft) f5 f6 f7 f8) $$ [HO Hb4' Hea' Hb5' Hb6' Hb7' Hb8' Hos0 Hos1 Hes0 Hes1 Ho]
  · isplitr; · iexact Hmw
    isplitl [HO]
    · iexists _; isplitr
      rotate_left
      · iexact HO
      · ipureintro; exact waits_insert (waits_insert (waits_insert (fun p hp => Or.inl hp) _) _) _
    isplitl [Hb4']; · iexact Hb4'
    isplitl [Hea']; · iexact Hea'
    isplitl [Hb5']; · iexact Hb5'
    isplitl [Hb6']; · iexact Hb6'
    isplitl [Hb7']; · iexact Hb7'
    isplitl [Hb8']; · iexact Hb8'
    isplitl [Hos0]; · iexact Hos0
    isplitl [Hos1]; · iexact Hos1
    isplitl [Hes0]; · iexact Hes0
    isplitl [Hes1]; · iexact Hes1
    iexact Ho
  delta entry143
  icases HE with ⟨⟨-, ⟨%W', %hW', HO⟩, HT, Hea2, Hea3, ⟨%ga0, %gb0, %gc0, Ht5a, Ht5b, Ht5c⟩, HB0, ⟨%ga1, %gb1, %gc1, Ht6a, Ht6b, Ht6c⟩, HB1, HF0, Hb7, HF1, Hb8, Hw0, Hw1⟩, Hdrop, Htok0, Htok1, Hrest⟩
  imod (Transfers.batch_alloc' (EC (F := F)) (thr d L) (none : HIx 1) NE0 (delivEV m d L (Transfers.shareTokN (tok (wL L)) 2) t5a t5b t5c ga0 gb0 gc0 (k0_off1 L 0#32) (k0_off1_inb L 0) (k0_off1 L 800000#32) (k0_off1_inb L 1) (k0_off1 L 1600000#32) (k0_off1_inb L 2)) (sm := _) (E := Set.univ)) $$ HB0 with HB0
  imod (Transfers.batch_alloc' (EC (F := F)) (thr d L) (none : HIx 1) NE1 (delivEV m d L (Transfers.shareTokN (tok (wL L)) 3) t6a t6b t6c ga1 gb1 gc1 (k0_off2 L 0#32) (k0_off2_inb L 0) (k0_off2 L 800000#32) (k0_off2_inb L 1) (k0_off2 L 1600000#32) (k0_off2_inb L 2)) (sm := _) (E := Set.univ)) $$ HB1 with HB1
  sl_exec_parts
  have h15 : 15 < k0_t1_loop.trips := by decide
  sl_for (pairInv m d L O W ((b4W).view.loc (V d (cV L) (jV L)) ↦{fullShare} ft) (Pw0V d L (kerVal (eaC m d) (w0C m d) (w1C m d) (w2C m d))) (Pw1V d L (kerVal (eaC m d) (w0C m d) (w1C m d) (w2C m d)))) $$ [HO HT Hea2 Hea3 HB0 HB1 HF0 Hb7 HF1 Hb8 Hw0 Hw1]
  case region =>
    exact pair_region m d L O W _ _ 0#32 ((b4W).view.loc (V d (cV L) (jV L)) ↦{fullShare} ft) (Pw0V d L (kerVal (eaC m d) (w0C m d) (w1C m d) (w2C m d))) (Pw1V d L (kerVal (eaC m d) (w0C m d) (w1C m d) (w2C m d))) (Is0 (F := F) d L ft) (R0 (F := F) d L ft)
      (fun t fa fb fc k2 acc => plug_reg0 d L ft _ _ t fa fb fc k2 acc) (plug_ent0 m d L hea ft) (plug_ext0 d L ft)
      (fun h0 ga gb gc f gk hR => land0z m d L ft hT hea h0 ga gb gc f gk hR)
      (fun j hj ga gb gc f gk hR => land0s m d L ft hT hea j hj ga gb gc f gk hR)
      (Is1 (F := F) d L ft) (R1 (F := F) d L ft)
      (fun t fa fb fc k2 acc => plug_reg1 d L ft _ _ t fa fb fc k2 acc) (plug_ent1 m d L hea ft) (plug_ext1 d L ft)
      (fun h0 ga gb gc f gk hR => land1z m d L ft hT hea h0 ga gb gc f gk hR)
      (fun j hj ga gb gc f gk hR => land1s m d L ft hT hea j hj ga gb gc f gk hR)
  · rw [pairInv_zero]; delta pairInv0
    isplitr; · iexact Hmw
    isplitl [HO]
    · iexists _; isplitr
      rotate_left
      · iexact HO
      · ipureintro; exact hW'
    isplitl [HT]; · iexact HT
    isplitl [Hea2]; · iexact Hea2
    isplitl [Hea3]; · iexact Hea3
    isplitl [HB0]; · iexists ga0, gb0, gc0; iexact HB0
    isplitl [HB1]; · iexists ga1, gb1, gc1; iexact HB1
    isplitl [HF0]; · iexact HF0
    isplitl [Hb7]; · iexact Hb7
    isplitl [HF1]; · iexact HF1
    isplitl [Hb8]; · iexact Hb8
    isplitl [Hw0]; · iexact Hw0
    iexact Hw1
  iintro %acc HI
  ihave HI := (Entails.of_eq (pairInv_last m d L O W ((b4W).view.loc (V d (cV L) (jV L)) ↦{fullShare} ft) (Pw0V d L (kerVal (eaC m d) (w0C m d) (w1C m d) (w2C m d))) (Pw1V d L (kerVal (eaC m d) (w0C m d) (w1C m d) (w2C m d))) h15 acc)) $$ HI
  delta pairInvS
  icases HI with ⟨-, ⟨%W2, %hW2, HO⟩, HT, Hea2, Hea3, ⟨%ga0', %gb0', %gc0', HB0⟩, ⟨%ga1', %gb1', %gc1', HB1⟩, ⟨%f7', HF0⟩, ⟨%f8', HF1⟩, Hw0, Hw1⟩
  sl_exec_parts
  ihave Hea3 := (Entails.of_eq (ea_respell (F := F) d L (Transfers.shareTokN (tok (wL L)) 3) _ _ (eaC m d))) $$ Hea3
  ihave HF1_src := (Entails.of_eq (b8_own (F := F) d L f8')) $$ HF1_src
  -- the last chunk's window: slot 1's last window, just landed, and the remainder of the share
  icases HF1_dst with ⟨%g1, %hg1, Hwin15⟩
  ihave Hwin15 := (Entails.of_eq (pts_o139_last (F := F) d L ⟨15, h15⟩ rfl g1)) $$ Hwin15
  ihave Htw := (tail_out' (F := F) d (wL L) g1 (oC m d)) $$ [Hwin15 Hrest]
  · isplitl [Hwin15]; · iexact Hwin15
    iexact Hrest
  icases Htw with ⟨%gt, Htail, Hleft⟩
  ihave Htail := (Entails.of_eq (pts_tail (F := F) d L (k0_off141_inb L) gt).symm) $$ Htail
  -- the third inner loop, on slot 1's scratches
  sl_for (Is2 (F := F) d L ft ⟨15, h15⟩ (landT6 m d L 0 inb_S2304_S768_0 (t6a).view.junk (k0_off140 L ⟨15, h15⟩ 0#32) (k0_off140_inb L ⟨15, h15⟩ 0)) (landT6 m d L 768 inb_S2304_S768_768 (t6b).view.junk (k0_off140 L ⟨15, h15⟩ 800000#32) (k0_off140_inb L ⟨15, h15⟩ 1)) (landT6 m d L 1536 inb_S2304_S768_1536 (t6c).view.junk (k0_off140 L ⟨15, h15⟩ 1600000#32) (k0_off140_inb L ⟨15, h15⟩ 2))) $$ [HT HB1_dst0 HB1_dst1 HB1_dst2 HF1_src]
  case region => exact fun k2 acc => plug_reg2 d L ft 0#32 (fun _ => 0#32) (fun _ => 0#32) (fun _ => 0#32) _ ⟨15, h15⟩ _ _ _ k2 acc
  · iapply (plug_ent2 m d L hea ft ⟨15, h15⟩ _ _ _ _ _ _ _ _ _ f8')
    isplitl [HT]; · iexact HT
    isplitl [HB1_dst0]; · iexact HB1_dst0
    isplitl [HB1_dst1]; · iexact HB1_dst1
    isplitl [HB1_dst2]; · iexact HB1_dst2
    iexact HF1_src
  iintro %acc2 HI
  ihave HI := (plug_ext2 d L ft ⟨15, h15⟩ _ _ _ acc2) $$ HI
  icases HI with ⟨HT, Ht6a, Ht6b, Ht6c, ⟨%f8'', %hR2, Hb8⟩⟩
  sl_exec_parts
  sl_step
  -- the attribute array's second token is whole again, spelt through its last source
  ihave Hea2 := (Entails.of_eq (ea_respell (F := F) d L (Transfers.shareTokN (tok (wL L)) 2) _ _ (eaC m d))) $$ Hea2
  -- the last chunk's window holds the embedding: what the third loop left in scratch 8, copied out
  have e186 : lo (wL L) + 12 * (⟨15, h15⟩ : Fin k0_t1_loop.trips).val + 6 = lo (wL L) + 186 := by
    show lo (wL L) + 12 * 15 + 6 = lo (wL L) + 186; omega
  ihave Htail := (Entails.of_eq (pts_tail (F := F) d L (k0_off141_inb L) _)) $$ Htail
  ihave Hback := (tail_back' (F := F) d (wL L) (kerVal (eaC m d) (w0C m d) (w1C m d) (w2C m d)) g1 _ (fun j hj => hg1 j (e186.symm ▸ hj))
      (hlandTail (eaC m d) (w0C m d) (w1C m d) (w2C m d) ft hT hea L ⟨15, h15⟩ rfl (k0_off141_inb L) (t6a).view.junk (t6b).view.junk (t6c).view.junk _ _ _ rfl rfl rfl
        (b8W).view f8'' gt (joinE6 (F := F) d L _ _ _) (fun _ => rfl) (fun y => hR2 y) _ (off141_set L (k0_off141_inb L)))) $$ [Htail Hleft]
  · isplitl [Htail]; · iexact Htail
    iexact Hleft
  icases Hback with ⟨⟨%g15, %hg15, Hwin15⟩, ⟨%gR, %hgR, HrestR⟩⟩
  ihave Hwin15 := (Entails.of_eq (pts_o139_last (F := F) d L ⟨15, h15⟩ rfl g15).symm) $$ Hwin15
  ihave Hw1 := (wins_fill' (F := F) (fun i : Fin k0_t1_loop.trips => if i.val ≤ (⟨15, h15⟩ : Fin k0_t1_loop.trips).val then winAtV d L (o139 L i) ((Pw1V d L (kerVal (eaC m d) (w0C m d) (w1C m d) (w2C m d))) i) else winAt d L (o139 L i)) ⟨15, h15⟩ (winAtV d L (o139 L ⟨15, h15⟩) ((Pw1V d L (kerVal (eaC m d) (w0C m d) (w1C m d) (w2C m d))) ⟨15, h15⟩)) (if_pos (le_refl _))) $$ [Hw1 Hwin15]
  · isplitl [Hw1]; · iexact Hw1
    iexists g15; isplitr
    · ipureintro; exact fun j hj => hg15 j (e186 ▸ hj)
    · iexact Hwin15
  ihave Hw0 := (wins_fill' (F := F) (fun i : Fin k0_t1_loop.trips => if i.val ≤ (⟨15, h15⟩ : Fin k0_t1_loop.trips).val then winAtV d L (o70 L i) ((Pw0V d L (kerVal (eaC m d) (w0C m d) (w1C m d) (w2C m d))) i) else winAt d L (o70 L i)) ⟨15, h15⟩ (winAtV d L (o70 L ⟨15, h15⟩) ((Pw0V d L (kerVal (eaC m d) (w0C m d) (w1C m d) (w2C m d))) ⟨15, h15⟩)) (if_pos (le_refl _))) $$ [Hw0 HF0_dst]
  · isplitl [Hw0]; · iexact Hw0
    iexact HF0_dst
  have hall0 : (fun i : Fin k0_t1_loop.trips => if i.val ≤ (⟨15, h15⟩ : Fin k0_t1_loop.trips).val then winAtV d L (o70 L i) ((Pw0V d L (kerVal (eaC m d) (w0C m d) (w1C m d) (w2C m d))) i) else winAt d L (o70 L i)) = (fun i : Fin k0_t1_loop.trips => winAtV d L (o70 L i) ((Pw0V d L (kerVal (eaC m d) (w0C m d) (w1C m d) (w2C m d))) i)) :=
    funext fun i => if_pos (by have h := i.isLt; have e := trips16; show i.val ≤ 15; omega)
  have hall1 : (fun i : Fin k0_t1_loop.trips => if i.val ≤ (⟨15, h15⟩ : Fin k0_t1_loop.trips).val then winAtV d L (o139 L i) ((Pw1V d L (kerVal (eaC m d) (w0C m d) (w1C m d) (w2C m d))) i) else winAt d L (o139 L i)) = (fun i : Fin k0_t1_loop.trips => winAtV d L (o139 L i) ((Pw1V d L (kerVal (eaC m d) (w0C m d) (w1C m d) (w2C m d))) i)) :=
    funext fun i => if_pos (by have h := i.isLt; have e := trips16; show i.val ≤ 15; omega)
  ihave Hw0 := (Entails.of_eq (congrArg (fun Φ : Fin k0_t1_loop.trips → sProp 𝕄 => bigSep Finset.univ Φ) hall0)) $$ Hw0
  ihave Hw1 := (Entails.of_eq (congrArg (fun Φ : Fin k0_t1_loop.trips → sProp 𝕄 => bigSep Finset.univ Φ) hall1)) $$ Hw1
  ihave HG := (wins_exit_full (F := F) d L (kerVal (eaC m d) (w0C m d) (w1C m d) (w2C m d))) $$ [Hw0 Hw1 HrestR]
  · isplitl [Hw0]; · iexact Hw0
    isplitl [Hw1]; · iexact Hw1
    iexists gR; isplitr
    · ipureintro; exact hgR
    · iexact HrestR
  icases HG with ⟨%g'', %hg'', Ho⟩
  -- the read tokens of the attribute array rejoin
  ihave Hea := (ea_back (F := F) d L (eaC m d)) $$ [Hea2 Hea3 Hdrop Htok0 Htok1]
  · isplitl [Hea2]; · iexact Hea2
    isplitl [Hea3]; · iexact Hea3
    isplitl [Hdrop]; · iexact Hdrop
    isplitl [Htok0]; · iexact Htok0
    iexact Htok1
  -- the attribute scratches are whole again
  ihave Hb5 := (thirds5_any (F := F) d L _ _ _) $$ [HB0_dst0 HB0_dst1 HB0_dst2]
  · isplitl [HB0_dst0]; · iexact HB0_dst0
    isplitl [HB0_dst1]; · iexact HB0_dst1
    iexact HB0_dst2
  ihave Hb6 := (thirds6_any (F := F) d L _ _ _) $$ [Ht6a Ht6b Ht6c]
  · isplitl [Ht6a]; · iexact Ht6a
    isplitl [Ht6b]; · iexact Ht6b
    iexact Ht6c
  ihave Hb7 := (Entails.of_eq (b7_own (F := F) d L f7')) $$ HF0_src
  iapply (finish' (F := F) m d L O W _ _)
  isplitl [Ho]
  · iexists g''; isplitr
    · ipureintro; exact hg''
    · iexact Ho
  isplitl [Hea]; · iexact Hea
  isplitl [Hw0']; · iexact Hw0'
  isplitl [Hw1']; · iexact Hw1'
  isplitl [Hw2']; · iexact Hw2'
  isplitl [Hb0']; · iexists _; iexact Hb0'
  isplitl [Hb1']; · iexists _; iexact Hb1'
  isplitl [Hb2']; · iexists _; iexact Hb2'
  isplitl [Hb3']; · iexists _; iexact Hb3'
  isplitl [HT]; · iexists _; iexact HT
  isplitl [Hb5]; · iexact Hb5
  isplitl [Hb6]; · iexact Hb6
  isplitl [Hb7]; · iexists f7'; iexact Hb7
  isplitl [Hb8]; · iexists f8''; iexact Hb8
  isplitl [Hbufs]; · iexact Hbufs
  isplitl [HF0]; · iexact HF0
  isplitl [HF1]; · iexact HF1
  isplitl [HB0]; · iexact HB0
  isplitl [HB1]; · iexact HB1
  isplitl [Hr0]; · iexact Hr0
  isplitl [Hr1]; · iexact Hr1
  isplitl [Hr2]; · iexact Hr2
  isplitl [Hr3]; · iexact Hr3
  isplitl [Hsems]; · iexact Hsems
  iexists _; isplitr
  rotate_left
  · iexact HO
  · ipureintro
    exact waits_insert (waits_insert (waits_insert (waits_insert (waits_insert (waits_insert (waits_insert (waits_insert (waits_insert hW2 _) _) _) _) _) _) _) _) _

end Cert.Proof.K

end
-- ==== Proof.LaunchK.lean ====
/-
  The launch of the program `Kernel`: from the proof of one vector subcore's task (a hypothesis here) to the run
  of every thread of the device. @main on the TensorCore runs its five host operations, deals the call's operands to
  the 32 subcores (a read share of each of the four flattened arrays, and to subcore number w the blocks
  lo w ≤ b < lo (w+1) of the result), makes the call, joins what comes back into one result array that is good in
  every subcore's blocks, and runs its last two host operations; the final memory then holds that array, permuted
  and flattened, and the four arguments unchanged.
-/
import proofs.«203789_g40862318854646_cont_8to1_b_1018_13_alg».proof.Proof.SetupK
import proofs.«203789_g40862318854646_cont_8to1_b_1018_13_alg».proof.Proof.GoodK
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]
variable (Good : (d : Dev nD) → Buf (Elt F) (oLoc d) → ℕ → Prop)

/-! ## The payloads, as equations -/

theorem P_st (d : Dev nD) (c : Fin ((K (F := F)).nCore 0)) :
    (P m Good).st 0 d c = bigSep Finset.univ fun i : Fin 16 => tileRes m d (2 * i.val + c.val) (oC m d) := rfl
theorem P_dn (d : Dev nD) (c : Fin ((K (F := F)).nCore 0)) :
    (P m Good).dn 0 d c = bigSep Finset.univ fun i : Fin 16 => iprop(∃ fo, ⌜Good d fo (2 * i.val + c.val)⌝ ∗ tileRes m d (2 * i.val + c.val) fo) := rfl
theorem P_go (d : Dev nD) (c : Fin ((K (F := F)).nCore 0)) (i : Fin ((K (F := F)).nSub 0)) :
    (P m Good).go 0 d c i = tileRes m d (2 * i.val + c.val) (oC m d) := rfl
theorem P_td (d : Dev nD) (c : Fin ((K (F := F)).nCore 0)) (i : Fin ((K (F := F)).nSub 0)) :
    (P m Good).td 0 d c i = iprop(∃ fo, ⌜Good d fo (2 * i.val + c.val)⌝ ∗ tileRes m d (2 * i.val + c.val) fo) := rfl

/-! ## A SparseCore's operands are its sixteen subcores' -/

/-- What a SparseCore takes is what its subcores take, and what they hand back is what it hands back. -/
theorem vecSplit : (K (F := F)).VecSplit' (P m Good) 0 := by
  intro d c
  show (P m Good).st 0 d c ⊢ |={Set.univ}=> iprop((P m Good).st 0 d c ∗ ((P m Good).dn 0 d c -∗ (P m Good).dn 0 d c))
  iintro H; imodintro
  isplitl [H]; · iexact H
  iintro H; iexact H

/-! ## The launch element: the handshakes' rounds; the transfers' counters are dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m Good).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The deal of the blocks covers the result once -/

omit [FloatOps F] in
/-- Two subcores' blocks are apart. -/
theorem blocks_disjoint : ∀ w ∈ Finset.range 32, ∀ w' ∈ Finset.range 32, w ≠ w' → Disjoint (blocksOf w) (blocksOf w') := by
  intro w _ w' _ hne
  rw [Finset.disjoint_left]
  intro j hj hj'
  simp only [blocksOf, Finset.mem_filter, Finset.mem_univ, _root_.true_and] at hj hj'
  rcases Nat.lt_or_gt_of_ne hne with h | h
  · have := lo_mono (show w + 1 ≤ w' from h); omega
  · have := lo_mono (show w' + 1 ≤ w from h); omega

omit [FloatOps F] in
/-- Every block is some subcore's: block b < 1960 is subcore b / 196's, a later one subcore (b - 10) / 195's. -/
theorem blocks_cover : (Finset.range 32).biUnion blocksOf = Finset.univ := by
  ext j
  simp only [Finset.mem_biUnion, Finset.mem_range, Finset.mem_univ, iff_true]
  have hj : (j 1).val < 6250 := (j 1).isLt
  by_cases h : (j 1).val < 1960
  · refine ⟨(j 1).val / 196, by omega, ?_⟩
    simp only [blocksOf, Finset.mem_filter, Finset.mem_univ, _root_.true_and]; unfold lo; omega
  · refine ⟨((j 1).val - 10) / 195, by omega, ?_⟩
    simp only [blocksOf, Finset.mem_filter, Finset.mem_univ, _root_.true_and]; unfold lo; omega

omit [FloatOps F] in
/-- The result whole is its 32 shares of blocks. -/
theorem oPts_blocks (d : Dev nD) (f : Buf (Elt F) (oLoc d)) :
    (oLoc d ↦{fullShare} f : sProp 𝕄) = bigSep (Finset.range 32) fun w => oLoc d ↦[blocksOf w]{fullShare} f := by
  rw [← pointsTo_biUnion (Finset.range 32) (ℓ := oLoc d) blocksOf blocks_disjoint, blocks_cover]

/-! ## The 32 subcores, by number and by SparseCore and place -/

omit [FloatOps F] in
theorem range32_eq : Finset.range 32 = (Finset.univ : Finset (Fin 2 × Fin 16)).image fun p => 2 * p.2.val + p.1.val := by
  ext w
  simp only [Finset.mem_range, Finset.mem_image, Finset.mem_univ, _root_.true_and, Prod.exists]
  constructor
  · intro h; exact ⟨⟨w % 2, by omega⟩, ⟨w / 2, by omega⟩, by show 2 * (w / 2) + w % 2 = w; omega⟩
  · rintro ⟨c, i, rfl⟩; have := c.isLt; have := i.isLt; omega

omit [FloatOps F] in
theorem wid_injOn : Set.InjOn (fun p : Fin 2 × Fin 16 => 2 * p.2.val + p.1.val) ((Finset.univ : Finset (Fin 2 × Fin 16)) : Set (Fin 2 × Fin 16)) := by
  rintro ⟨c, i⟩ - ⟨c', i'⟩ - h
  have h' : 2 * i.val + c.val = 2 * i'.val + c'.val := h
  have := c.isLt; have := c'.isLt
  exact Prod.ext (Fin.ext (by show c.val = c'.val; omega)) (Fin.ext (by show i.val = i'.val; omega))

omit [FloatOps F] in
/-- A family over the subcores' numbers 0 … 31 is one over the two SparseCores and their sixteen places: number 2·i + c. -/
theorem bigSep_range32 (Φ : ℕ → sProp 𝕄) :
    bigSep (Finset.range 32) Φ = bigSep Finset.univ fun c : Fin 2 => bigSep Finset.univ fun i : Fin 16 => Φ (2 * i.val + c.val) := by
  rw [range32_eq, BI.bigSep_image_of_injOn wid_injOn, bigSep_univ_prod]

/-! ## The TensorCore's twelve arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v6Loc (d : Dev nD) : Loc nD τ sig := (SparseCore.T d).loc main_v6
abbrev v7Loc (d : Dev nD) : Loc nD τ sig := (SparseCore.T d).loc main_v7

/-- The TensorCore's arrays, all unscoped. -/
abbrev S12 : Finset (DevRef τ sig) := {a0', a1', a2', a3', v0', v1', v2', v3', v4', v5', v6', v7'}

omit [FloatOps F] in
theorem held_S12 (d : Dev nD) (W : Valuation τ sig (Elt F)) :
    (held (T d) S12 W : sProp 𝕄) = iprop((a0Loc d ↦{fullShare} W a0') ∗ (a1Loc d ↦{fullShare} W a1') ∗ (a2Loc d ↦{fullShare} W a2')
      ∗ (a3Loc d ↦{fullShare} W a3') ∗ (v0Loc d ↦{fullShare} W v0') ∗ (eaLoc d ↦{fullShare} W v1') ∗ (w0Loc d ↦{fullShare} W v2')
      ∗ (w1Loc d ↦{fullShare} W v3') ∗ (w2Loc d ↦{fullShare} W v4') ∗ (oLoc d ↦{fullShare} W v5') ∗ (v6Loc d ↦{fullShare} W v6')
      ∗ (v7Loc d ↦{fullShare} W v7')) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (v0Loc d ↦{fullShare} W main_v0) ∗ (eaLoc d ↦{fullShare} W main_v1) ∗ (w0Loc d ↦{fullShare} W main_v2)
      ∗ (w1Loc d ↦{fullShare} W main_v3) ∗ (w2Loc d ↦{fullShare} W main_v4) ∗ (oLoc d ↦{fullShare} W main_v5) ∗ (v6Loc d ↦{fullShare} W main_v6)
      ∗ (v7Loc d ↦{fullShare} W main_v7)) := by
  unfold unscopedBufs
  rw [show (Finset.univ.filter fun b : Ref sig .tc => ¬ b.isScoped)
      = {main_arg0, main_arg1, main_arg2, main_arg3, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S12 (V0 m d) := by
  rw [unscopedBufs_eq, held_S12]; rfl

/-! ## The host operations' buffers -/

theorem op0_sub : (op0 (F := F)).bufs ⊆ S12 := show ({a0', v0'} : Finset (DevRef τ sig)) ⊆ S12 by decide
theorem op1_sub : (op1 (F := F)).bufs ⊆ S12 := show ({v0', v1'} : Finset (DevRef τ sig)) ⊆ S12 by decide
theorem op2_sub : (op2 (F := F)).bufs ⊆ S12 := show ({a1', v2'} : Finset (DevRef τ sig)) ⊆ S12 by decide
theorem op3_sub : (op3 (F := F)).bufs ⊆ S12 := show ({a2', v3'} : Finset (DevRef τ sig)) ⊆ S12 by decide
theorem op4_sub : (op4 (F := F)).bufs ⊆ S12 := show ({a3', v4'} : Finset (DevRef τ sig)) ⊆ S12 by decide

/-! ## The deal to the 32 subcores, and the way back -/

/-- What a subcore holds, the 32 together: the read tokens array by array, and the result's blocks. -/
theorem tiles_eq (d : Dev nD) (fos : ℕ → Buf (Elt F) (oLoc d)) :
    (bigSep (Finset.range 32) fun w => tileRes m d w (fos w))
      = iprop((bigSep (Finset.range 32) fun w => eaLoc d ↦{tok w} eaC m d) ∗ (bigSep (Finset.range 32) fun w => w0Loc d ↦{tok w} w0C m d)
        ∗ (bigSep (Finset.range 32) fun w => w1Loc d ↦{tok w} w1C m d) ∗ (bigSep (Finset.range 32) fun w => w2Loc d ↦{tok w} w2C m d)
        ∗ (bigSep (Finset.range 32) fun w => oLoc d ↦[blocksOf w]{fullShare} fos w)) := by
  unfold tileRes
  rw [bigSep_sep', bigSep_sep', bigSep_sep', bigSep_sep']

/-- The call's operands over the two SparseCores are the 32 subcores' holdings. -/
theorem st0_eq (d : Dev nD) :
    (bigSep Finset.univ fun c : Fin ((K (F := F)).nCore 0) => (P m Good).st 0 d c) = bigSep (Finset.range 32) fun w => tileRes m d w (oC m d) :=
  (bigSep_range32 (F := F) fun w => tileRes m d w (oC m d)).symm
theorem dn0_eq (d : Dev nD) :
    (bigSep Finset.univ fun c : Fin ((K (F := F)).nCore 0) => (P m Good).dn 0 d c)
      = bigSep (Finset.range 32) fun w => iprop(∃ fo, ⌜Good d fo w⌝ ∗ tileRes m d w fo) :=
  (bigSep_range32 (F := F) fun w => iprop(∃ fo, ⌜Good d fo w⌝ ∗ tileRes m d w fo)).symm

/-- What stays with the TensorCore during the call: what is left of the four arrays read after 32 tokens. -/
abbrev rests (d : Dev nD) : sProp 𝕄 :=
  iprop((eaLoc d ↦{Transfers.shareDrop fullShare 32} eaC m d) ∗ (w0Loc d ↦{Transfers.shareDrop fullShare 32} w0C m d)
    ∗ (w1Loc d ↦{Transfers.shareDrop fullShare 32} w1C m d) ∗ (w2Loc d ↦{Transfers.shareDrop fullShare 32} w2C m d))

/-- The five arrays whole, dealt: a read token of each of the four to every subcore, the result's blocks to their owners. -/
theorem tiles_deal (d : Dev nD) :
    iprop((eaLoc d ↦{fullShare} eaC m d) ∗ (w0Loc d ↦{fullShare} w0C m d) ∗ (w1Loc d ↦{fullShare} w1C m d) ∗ (w2Loc d ↦{fullShare} w2C m d)
        ∗ (oLoc d ↦{fullShare} oC m d))
      ⊢ (iprop(rests m d ∗ bigSep Finset.univ fun c : Fin ((K (F := F)).nCore 0) => (P m Good).st 0 d c) : sProp 𝕄) := by
  rw [st0_eq, tiles_eq m d fun _ => oC m d, oPts_blocks]
  iintro ⟨Hea, Hw0, Hw1, Hw2, Ho⟩
  ihave Hea := (Transfers.pointsTo_toks_range (ℓ := eaLoc d) (S := Finset.univ) (f := eaC m d) fullShare 32).1 $$ Hea
  ihave Hw0 := (Transfers.pointsTo_toks_range (ℓ := w0Loc d) (S := Finset.univ) (f := w0C m d) fullShare 32).1 $$ Hw0
  ihave Hw1 := (Transfers.pointsTo_toks_range (ℓ := w1Loc d) (S := Finset.univ) (f := w1C m d) fullShare 32).1 $$ Hw1
  ihave Hw2 := (Transfers.pointsTo_toks_range (ℓ := w2Loc d) (S := Finset.univ) (f := w2C m d) fullShare 32).1 $$ Hw2
  icases Hea with ⟨Hear, Heat⟩
  icases Hw0 with ⟨Hw0r, Hw0t⟩
  icases Hw1 with ⟨Hw1r, Hw1t⟩
  icases Hw2 with ⟨Hw2r, Hw2t⟩
  isplitl [Hear Hw0r Hw1r Hw2r]
  · isplitl [Hear]; · iexact Hear
    isplitl [Hw0r]; · iexact Hw0r
    isplitl [Hw1r]; · iexact Hw1r
    iexact Hw2r
  isplitl [Heat]; · iexact Heat
  isplitl [Hw0t]; · iexact Hw0t
  isplitl [Hw1t]; · iexact Hw1t
  isplitl [Hw2t]; · iexact Hw2t
  iexact Ho

/-- The way back: the tokens rejoin what stayed, and the 32 shares of blocks, each good for its owner, join into one
    result array good for every subcore (a subcore's goodness speaks of its own blocks only: `hloc`). -/
theorem tiles_back (hloc : ∀ (d : Dev nD) (fo fo' : Buf (Elt F) (oLoc d)) (w : ℕ), (∀ j ∈ blocksOf w, fo j = fo' j) → Good d fo w → Good d fo' w)
    (d : Dev nD) :
    iprop(rests m d ∗ bigSep Finset.univ fun c : Fin ((K (F := F)).nCore 0) => (P m Good).dn 0 d c)
      ⊢ (iprop(∃ g : Buf (Elt F) (oLoc d), ⌜∀ w, w < 32 → Good d g w⌝ ∗ (eaLoc d ↦{fullShare} eaC m d) ∗ (w0Loc d ↦{fullShare} w0C m d)
          ∗ (w1Loc d ↦{fullShare} w1C m d) ∗ (w2Loc d ↦{fullShare} w2C m d) ∗ (oLoc d ↦{fullShare} g)) : sProp 𝕄) := by
  rw [dn0_eq]
  iintro ⟨⟨Hear, Hw0r, Hw1r, Hw2r⟩, Hdn⟩
  ihave Hdn := (bigSep_exists_pi (Finset.range 32) (fun w (fo : Buf (Elt F) (oLoc d)) => iprop(⌜Good d fo w⌝ ∗ tileRes m d w fo))) $$ Hdn
  icases Hdn with ⟨%fos, Hdn⟩
  ihave Hdn := (bigSep_pure_sep (Finset.range 32) (fun w => Good d (fos w) w) (fun w => tileRes m d w (fos w))) $$ Hdn
  icases Hdn with ⟨%hgood, Hts⟩
  ihave Hts := (Entails.of_eq (tiles_eq m d fos)) $$ Hts
  icases Hts with ⟨Heat, Hw0t, Hw1t, Hw2t, Hos⟩
  ihave Ho := (pointsTo_biUnion_join (Finset.range 32) blocksOf fos (fos 0) blocks_disjoint) $$ Hos
  icases Ho with ⟨%g, %hg, Ho⟩
  rw [blocks_cover]
  iexists g
  isplitr
  · ipureintro; intro w hw
    exact hloc d (fos w) g w (fun j hj => (hg w (Finset.mem_range.mpr hw) j hj).symm) (hgood w (Finset.mem_range.mpr hw))
  isplitl [Hear Heat]
  · iapply (Transfers.pointsTo_toks_range (ℓ := eaLoc d) (S := Finset.univ) (f := eaC m d) fullShare 32).2
    isplitl [Hear] <;> iassumption
  isplitl [Hw0r Hw0t]
  · iapply (Transfers.pointsTo_toks_range (ℓ := w0Loc d) (S := Finset.univ) (f := w0C m d) fullShare 32).2
    isplitl [Hw0r] <;> iassumption
  isplitl [Hw1r Hw1t]
  · iapply (Transfers.pointsTo_toks_range (ℓ := w1Loc d) (S := Finset.univ) (f := w1C m d) fullShare 32).2
    isplitl [Hw1r] <;> iassumption
  isplitl [Hw2r Hw2t]
  · iapply (Transfers.pointsTo_toks_range (ℓ := w2Loc d) (S := Finset.univ) (f := w2C m d) fullShare 32).2
    isplitl [Hw2r] <;> iassumption
  iexact Ho

/-! ## The valuations around the call -/

/-- The valuation the call leaves: the result's array at `g`, the rest as the call found it. -/
def V1 (d : Dev nD) (g : Buf (Elt F) (oLoc d)) : Valuation τ sig (Elt F) := Function.update (Vpre m d) v5' g

theorem V1_self (d : Dev nD) (g : Buf (Elt F) (oLoc d)) : V1 m d g v5' = g := Function.update_self _ _ _
theorem V1_ne (d : Dev nD) (g : Buf (Elt F) (oLoc d)) {b : DevRef τ sig} (h : b ≠ v5') : V1 m d g b = Vpre m d b := Function.update_of_ne h _ _

theorem op5_sub : (op5 (F := F)).bufs ⊆ S12 := show ({v5', v6'} : Finset (DevRef τ sig)) ⊆ S12 by decide
theorem op6_sub : (op6 (F := F)).bufs ⊆ S12 := show ({v6', v7'} : Finset (DevRef τ sig)) ⊆ S12 by decide

/-- An array no host operation before the call writes is, when the call starts, as it was launched. -/
theorem Vpre_other (d : Dev nD) {b : DevRef τ sig} (n0 : b ≠ v0') (n1 : b ≠ v1') (n2 : b ≠ v2') (n3 : b ≠ v3') (n4 : b ≠ v4') :
    Vpre m d b = V0 m d b := by
  unfold Vpre
  rw [(op4 (F := F)).result_of_not_mem _ (show b ∉ ({v4'} : Finset (DevRef τ sig)) from fun h => n4 (Finset.mem_singleton.mp h)),
    (op3 (F := F)).result_of_not_mem _ (show b ∉ ({v3'} : Finset (DevRef τ sig)) from fun h => n3 (Finset.mem_singleton.mp h)),
    (op2 (F := F)).result_of_not_mem _ (show b ∉ ({v2'} : Finset (DevRef τ sig)) from fun h => n2 (Finset.mem_singleton.mp h)),
    (op1 (F := F)).result_of_not_mem _ (show b ∉ ({v1'} : Finset (DevRef τ sig)) from fun h => n1 (Finset.mem_singleton.mp h)),
    (op0 (F := F)).result_of_not_mem _ (show b ∉ ({v0'} : Finset (DevRef τ sig)) from fun h => n0 (Finset.mem_singleton.mp h))]

/-- An array no host operation and no call writes is, at the end, as it was launched. -/
theorem Vpost_other (d : Dev nD) (g : Buf (Elt F) (oLoc d)) {b : DevRef τ sig} (n0 : b ≠ v0') (n1 : b ≠ v1') (n2 : b ≠ v2') (n3 : b ≠ v3')
    (n4 : b ≠ v4') (n5 : b ≠ v5') (n6 : b ≠ v6') (n7 : b ≠ v7') : Vpost m d g b = V0 m d b := by
  unfold Vpost
  rw [(op6 (F := F)).result_of_not_mem _ (show b ∉ ({v7'} : Finset (DevRef τ sig)) from fun h => n7 (Finset.mem_singleton.mp h)),
    (op5 (F := F)).result_of_not_mem _ (show b ∉ ({v6'} : Finset (DevRef τ sig)) from fun h => n6 (Finset.mem_singleton.mp h)),
    Function.update_of_ne n5, Vpre_other m d n0 n1 n2 n3 n4]

theorem Vpost_a0 (d : Dev nD) (g : Buf (Elt F) (oLoc d)) : Vpost m d g a0' = m (a0Loc d) :=
  Vpost_other m d g (by decide) (by decide) (by decide) (by decide) (by decide) (by decide) (by decide) (by decide)
theorem Vpost_a1 (d : Dev nD) (g : Buf (Elt F) (oLoc d)) : Vpost m d g a1' = m (a1Loc d) :=
  Vpost_other m d g (by decide) (by decide) (by decide) (by decide) (by decide) (by decide) (by decide) (by decide)
theorem Vpost_a2 (d : Dev nD) (g : Buf (Elt F) (oLoc d)) : Vpost m d g a2' = m (a2Loc d) :=
  Vpost_other m d g (by decide) (by decide) (by decide) (by decide) (by decide) (by decide) (by decide) (by decide)
theorem Vpost_a3 (d : Dev nD) (g : Buf (Elt F) (oLoc d)) : Vpost m d g a3' = m (a3Loc d) :=
  Vpost_other m d g (by decide) (by decide) (by decide) (by decide) (by decide) (by decide) (by decide) (by decide)

/-- The twelve arrays when the call starts, one by one. -/
theorem held_pre (d : Dev nD) :
    (held (T d) S12 ((op4 (F := F)).result ((op3 (F := F)).result ((op2 (F := F)).result ((op1 (F := F)).result ((op0 (F := F)).result (V0 m d)))))) : sProp 𝕄)
      = iprop((a0Loc d ↦{fullShare} Vpre m d a0') ∗ (a1Loc d ↦{fullShare} Vpre m d a1') ∗ (a2Loc d ↦{fullShare} Vpre m d a2')
        ∗ (a3Loc d ↦{fullShare} Vpre m d a3') ∗ (v0Loc d ↦{fullShare} Vpre m d v0') ∗ (eaLoc d ↦{fullShare} eaC m d) ∗ (w0Loc d ↦{fullShare} w0C m d)
        ∗ (w1Loc d ↦{fullShare} w1C m d) ∗ (w2Loc d ↦{fullShare} w2C m d) ∗ (oLoc d ↦{fullShare} oC m d) ∗ (v6Loc d ↦{fullShare} Vpre m d v6')
        ∗ (v7Loc d ↦{fullShare} Vpre m d v7')) :=
  held_S12 d (Vpre m d)

/-- The twelve arrays when the call has returned `g`. -/
theorem held_V1 (d : Dev nD) (g : Buf (Elt F) (oLoc d)) :
    (held (T d) S12 (V1 m d g) : sProp 𝕄)
      = iprop((a0Loc d ↦{fullShare} Vpre m d a0') ∗ (a1Loc d ↦{fullShare} Vpre m d a1') ∗ (a2Loc d ↦{fullShare} Vpre m d a2')
        ∗ (a3Loc d ↦{fullShare} Vpre m d a3') ∗ (v0Loc d ↦{fullShare} Vpre m d v0') ∗ (eaLoc d ↦{fullShare} eaC m d) ∗ (w0Loc d ↦{fullShare} w0C m d)
        ∗ (w1Loc d ↦{fullShare} w1C m d) ∗ (w2Loc d ↦{fullShare} w2C m d) ∗ (oLoc d ↦{fullShare} g) ∗ (v6Loc d ↦{fullShare} Vpre m d v6')
        ∗ (v7Loc d ↦{fullShare} Vpre m d v7')) := by
  rw [held_S12, V1_self, V1_ne m d g (b := a0') (by decide), V1_ne m d g (b := a1') (by decide), V1_ne m d g (b := a2') (by decide),
    V1_ne m d g (b := a3') (by decide), V1_ne m d g (b := v0') (by decide), V1_ne m d g (b := v1') (by decide), V1_ne m d g (b := v2') (by decide),
    V1_ne m d g (b := v3') (by decide), V1_ne m d g (b := v4') (by decide), V1_ne m d g (b := v6') (by decide), V1_ne m d g (b := v7') (by decide)]
  rfl

/-- The twelve arrays at the end: the arguments as launched, the others at the final valuation. -/
theorem held_post (d : Dev nD) (g : Buf (Elt F) (oLoc d)) :
    (held (T d) S12 ((op6 (F := F)).result ((op5 (F := F)).result (V1 m d g))) : sProp 𝕄)
      = iprop((a0Loc d ↦{fullShare} m (a0Loc d)) ∗ (a1Loc d ↦{fullShare} m (a1Loc d)) ∗ (a2Loc d ↦{fullShare} m (a2Loc d))
        ∗ (a3Loc d ↦{fullShare} m (a3Loc d)) ∗ (v0Loc d ↦{fullShare} Vpost m d g v0') ∗ (eaLoc d ↦{fullShare} Vpost m d g v1')
        ∗ (w0Loc d ↦{fullShare} Vpost m d g v2') ∗ (w1Loc d ↦{fullShare} Vpost m d g v3') ∗ (w2Loc d ↦{fullShare} Vpost m d g v4')
        ∗ (oLoc d ↦{fullShare} Vpost m d g v5') ∗ (v6Loc d ↦{fullShare} Vpost m d g v6') ∗ (v7Loc d ↦{fullShare} Vpost m d g v7')) :=
  (held_S12 d (Vpost m d g)).trans (by rw [Vpost_a0, Vpost_a1, Vpost_a2, Vpost_a3])

/-! ## @main on the TensorCore -/

/-- What @main leaves the claim: the final array, from a result good for every subcore; the four arguments as launched. -/
abbrev FIN (d : Dev nD) : sProp 𝕄 :=
  iprop((∃ fo : Buf (Elt F) (oLoc d), ⌜∀ w, w < 32 → Good d fo w⌝ ∗ (v7Loc d ↦{fullShare} Vpost m d fo v7'))
    ∗ (a0Loc d ↦{fullShare} m (a0Loc d)) ∗ (a1Loc d ↦{fullShare} m (a1Loc d)) ∗ (a2Loc d ↦{fullShare} m (a2Loc d)) ∗ (a3Loc d ↦{fullShare} m (a3Loc d)))

/-- @main on device `d`'s TensorCore: the five host operations, the deal, the call, the way back, the last two host
    operations. -/
theorem hmain (hloc : ∀ (d : Dev nD) (fo fo' : Buf (Elt F) (oLoc d)) (w : ℕ), (∀ j ∈ blocksOf w, fo j = fo' j) → Good d fo w → Good d fo' w)
    (κ : GSem nD τ sig → ℕ) (d : Dev nD) :
    iprop((K (F := F)).ctx EH (P m Good) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m Good d) := by
  unfold SparseCore.Cfg.tcRes
  rw [unscoped_held]
  simp only [main, wp_bind, wp_pure]
  iintro ⟨#Hctx, Hst, ⟨Hb, Hheld, -, -⟩, -⟩
  -- the five host operations before the call
  iapply (wp_hlo_within 𝒱 (SparseCore.T d) none Set.univ (op := op0) (S := S12) op0_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S12) op1_sub (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S12) op2_sub (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S12) op3_sub
    (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S12) op4_sub
    (V := (op3 (F := F)).result ((op2 (F := F)).result ((op1 (F := F)).result ((op0 (F := F)).result (V0 m d)))))) $$ [Hb Hheld]
  · isplitl [Hb]; · iexact Hb
    iexact Hheld
  iintro ⟨Hb, Hheld⟩
  rw [wp_ret]; imodintro
  -- the deal
  ihave Hh := (Entails.of_eq (held_pre (F := F) m d)) $$ Hheld
  icases Hh with ⟨Ha0, Ha1, Ha2, Ha3, Hv0, Hea, Hw0, Hw1, Hw2, Ho, Hv6, Hv7⟩
  ihave Hdeal := (tiles_deal m Good d) $$ [Hea Hw0 Hw1 Hw2 Ho]
  · isplitl [Hea]; · iexact Hea
    isplitl [Hw0]; · iexact Hw0
    isplitl [Hw1]; · iexact Hw1
    isplitl [Hw2]; · iexact Hw2
    iexact Ho
  icases Hdeal with ⟨Hrest, Hops⟩
  -- the call
  iapply ((K (F := F)).wp_run (D (F := F)) 𝒱 (EH := EH) (P := P m Good) κ d 0) $$ [Hst Hops Hb Ha0 Ha1 Ha2 Ha3 Hv0 Hv6 Hv7 Hrest]
  isplitr; · iexact Hctx
  isplitl [Hst]; · iexact Hst
  isplitl [Hops]; · iexact Hops
  iintro ⟨Hst, Hdn⟩
  -- the way back
  ihave Hback := (tiles_back m Good hloc d) $$ [Hrest Hdn]
  · isplitl [Hrest]; · iexact Hrest
    iexact Hdn
  icases Hback with ⟨%g, %hg, Hea, Hw0, Hw1, Hw2, Ho⟩
  -- the two host operations after the call
  iapply (wp_hlo_within 𝒱 (SparseCore.T d) none Set.univ (op := op5) (S := S12) op5_sub (V := V1 m d g)) $$ [Hb Ha0 Ha1 Ha2 Ha3 Hv0 Hea Hw0 Hw1 Hw2 Ho Hv6 Hv7]
  · isplitl [Hb]; · iexact Hb
    rw [held_V1]
    isplitl [Ha0]; · iexact Ha0
    isplitl [Ha1]; · iexact Ha1
    isplitl [Ha2]; · iexact Ha2
    isplitl [Ha3]; · iexact Ha3
    isplitl [Hv0]; · iexact Hv0
    isplitl [Hea]; · iexact Hea
    isplitl [Hw0]; · iexact Hw0
    isplitl [Hw1]; · iexact Hw1
    isplitl [Hw2]; · iexact Hw2
    isplitl [Ho]; · iexact Ho
    isplitl [Hv6]; · iexact Hv6
    iexact Hv7
  iintro ⟨Hb, Hheld⟩
  rw [wp_ret]; imodintro
  iapply (wp_hlo_within 𝒱 (SparseCore.T d) none Set.univ (op := op6) (S := S12) op6_sub (V := (op5 (F := F)).result (V1 m d g))) $$ [Hb Hheld]
  · isplitl [Hb]; · iexact Hb
    iexact Hheld
  iintro ⟨Hb, Hheld⟩
  ihave Hh := (Entails.of_eq (held_post (F := F) m d g)) $$ Hheld
  icases Hh with ⟨Ha0, Ha1, Ha2, Ha3, -, -, -, -, -, -, -, Hv7⟩
  rw [wp_ret]; imodintro; imodintro
  isplitl [Hst]; · iexact Hst
  isplitl [Hv7]
  · iexists g; isplitr
    · ipureintro; exact hg
    · iexact Hv7
  isplitl [Ha0]; · iexact Ha0
  isplitl [Ha1]; · iexact Ha1
  isplitl [Ha2]; · iexact Ha2
  iexact Ha3

/-! ## The final memory -/

/-- What the final memory of device `d` holds. -/
def fq (d : Dev nD) (s' : Phys nD τ sig (Elt F)) : Prop :=
  (∃ fo : Buf (Elt F) (oLoc d), (∀ w, w < 32 → Good d fo w) ∧ s'.mem.mem (v7Loc d) = Vpost m d fo v7')
    ∧ s'.mem.mem (a0Loc d) = m (a0Loc d) ∧ s'.mem.mem (a1Loc d) = m (a1Loc d) ∧ s'.mem.mem (a2Loc d) = m (a2Loc d)
    ∧ s'.mem.mem (a3Loc d) = m (a3Loc d)

theorem hfin (d : Dev nD) (s' : Phys nD τ sig (Elt F)) : iprop(FIN m Good d ∗ SI s') ⊢ (⌜fq m Good d s'⌝ : sProp 𝕄) := by
  iintro ⟨⟨⟨%fo, %hgood, Hv7⟩, Ha0, Ha1, Ha2, Ha3⟩, HSI⟩
  ihave H := (persistent_entails_right (SI_pointsTo_agree (st := s') (ℓ := v7Loc d) (I := Finset.univ) (q := fullShare) (f := Vpost m d fo v7'))) $$ [HSI Hv7]
  · isplitl [HSI] <;> iassumption
  icases H with ⟨%e7, HSI, -⟩
  ihave H := (persistent_entails_right (SI_pointsTo_agree (st := s') (ℓ := a0Loc d) (I := Finset.univ) (q := fullShare) (f := m (a0Loc d)))) $$ [HSI Ha0]
  · isplitl [HSI] <;> iassumption
  icases H with ⟨%e0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%e1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%e2, HSI, -⟩
  ihave H := (SI_pointsTo_agree (st := s') (ℓ := a3Loc d) (I := Finset.univ) (q := fullShare) (f := m (a3Loc d))) $$ [HSI Ha3]
  · isplitl [HSI] <;> iassumption
  icases H with %e3
  ipureintro
  exact ⟨⟨fo, hgood, funext fun i => e7 i (Finset.mem_univ i)⟩, funext fun i => e0 i (Finset.mem_univ i), funext fun i => e1 i (Finset.mem_univ i),
    funext fun i => e2 i (Finset.mem_univ i), funext fun i => e3 i (Finset.mem_univ i)⟩

/-! ## The program's run -/

/-- The claim's post: on every device the result array is the final valuation's, from a call result good for every
    subcore; the four arguments are unchanged. -/
def QC : PUnit × MemSt nD τ sig (Elt F) → Prop := fun r => ∀ c : Dev nD,
  (∃ fo : Buf (Elt F) (oLoc c), (∀ w, w < 32 → Good c fo w) ∧ r.2.mem ((SparseCore.T c).loc main_v7) = Vpost m c fo (Proc.devRef .tc (main_v7 : Ref sig .tc)))
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)

/-- Every weakly fair execution of the device's threads ends, and ends in `QC`: from the proof of one subcore's task
    (`hobl`) and the fact that a subcore's goodness speaks of its own blocks only (`hloc`). -/
theorem run_main [∀ e, Nonempty (Elt F e)] (hobl : (K (F := F)).TileObl (D (F := F)) 𝒱 (P m Good) v₀ 0)
    (hloc : ∀ (d : Dev nD) (fo fo' : Buf (Elt F) (oLoc d)) (w : ℕ), (∀ j ∈ blocksOf w, fo j = fo' j) → Good d fo w → Good d fo' w) :
    θ_run (Cert.Kernel.defs (F := F)) (Cert.Kernel.threads (F := F)) ⟨m, fun _ => 0, ρ⟩ (QC m Good) :=
  SparseCore.Cfg.θ_run_sc (K := K (F := F)) (D := D (F := F)) (𝒱 := 𝒱) (EH := EH) (P := P m Good) facts v₀
    (fun q hq => match q with | 0 => nomatch hq)
    (fun q _ => match q with | 0 => hobl)
    (fun q _ => match q with | 0 => SparseCore.Cfg.VecSplit.of_plain (vecSplit m Good))
    m ρ main (fun _ => iprop(emp)) (FIN m Good) (u₀ (F := F)) (sep_elim_left.trans (hu₀ m Good)) (hmain m ρ Good hloc) (fq m Good) (hfin m Good)
    (QC m Good) (fun _ h => h)

end Cert.Proof.K

end
-- ==== Proof.ObK.lean ====
/-
  The vector subcores' obligation of the launch theorem for `Kernel`, from the body's run at a symbolic grid point.
-/
import proofs.«203789_g40862318854646_cont_8to1_b_1018_13_alg».proof.Proof.BodyK
import proofs.«203789_g40862318854646_cont_8to1_b_1018_13_alg».proof.Proof.LaunchK

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "eaW" => (Memref.whole Cert.Kernel.main_v1_scv : Memref Cert.Kernel.sig Kind.scVector Space.hbm Cert.Kernel.S2400000 EltTy.i32)
local notation "w0W" => (Memref.whole Cert.Kernel.main_v2_scv : Memref Cert.Kernel.sig Kind.scVector Space.hbm Cert.Kernel.S320 EltTy.f32)
local notation "w1W" => (Memref.whole Cert.Kernel.main_v3_scv : Memref Cert.Kernel.sig Kind.scVector Space.hbm Cert.Kernel.S384 EltTy.f32)
local notation "w2W" => (Memref.whole Cert.Kernel.main_v4_scv : Memref Cert.Kernel.sig Kind.scVector Space.hbm Cert.Kernel.S128 EltTy.f32)
local notation "oW" => (Memref.whole Cert.Kernel.main_v5_scv : Memref Cert.Kernel.sig Kind.scVector Space.hbm Cert.Kernel.S8x6250x8x128 EltTy.f32)
local notation "b0W" => (Memref.whole Cert.Kernel.cc0_scratch0 : Memref Cert.Kernel.sig Kind.scVector Space.vmem Cert.Kernel.S320 EltTy.f32)
local notation "b1W" => (Memref.whole Cert.Kernel.cc0_scratch1 : Memref Cert.Kernel.sig Kind.scVector Space.vmem Cert.Kernel.S384 EltTy.f32)
local notation "b2W" => (Memref.whole Cert.Kernel.cc0_scratch2 : Memref Cert.Kernel.sig Kind.scVector Space.vmem Cert.Kernel.S128 EltTy.f32)
local notation "b3W" => (Memref.whole Cert.Kernel.cc0_scratch3 : Memref Cert.Kernel.sig Kind.scVector Space.vmem Cert.Kernel.S4096 EltTy.f32)
local notation "b4W" => (Memref.whole Cert.Kernel.cc0_scratch4 : Memref Cert.Kernel.sig Kind.scVector Space.vmem Cert.Kernel.S4096 EltTy.f32)
local notation "b5W" => (Memref.whole Cert.Kernel.cc0_scratch5 : Memref Cert.Kernel.sig Kind.scVector Space.vmem Cert.Kernel.S2304 EltTy.i32)
local notation "b6W" => (Memref.whole Cert.Kernel.cc0_scratch6 : Memref Cert.Kernel.sig Kind.scVector Space.vmem Cert.Kernel.S2304 EltTy.i32)
local notation "b7W" => (Memref.whole Cert.Kernel.cc0_scratch7 : Memref Cert.Kernel.sig Kind.scVector Space.vmem Cert.Kernel.S8x6x8x128 EltTy.f32)
local notation "b8W" => (Memref.whole Cert.Kernel.cc0_scratch8 : Memref Cert.Kernel.sig Kind.scVector Space.vmem Cert.Kernel.S8x6x8x128 EltTy.f32)

variable (m : (ℓ : Loc nD τ sig) → Buf (Elt F) ℓ)
variable [FloatOps F]

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          eaW (Memref.isWhole_whole _) w0W (Memref.isWhole_whole _) w1W (Memref.isWhole_whole _) w2W (Memref.isWhole_whole _) oW (Memref.isWhole_whole _) b0W (Memref.isWhole_whole _) b1W (Memref.isWhole_whole _) b2W (Memref.isWhole_whole _) b3W (Memref.isWhole_whole _) b4W (Memref.isWhole_whole _) b5W (Memref.isWhole_whole _) b6W (Memref.isWhole_whole _) b7W (Memref.isWhole_whole _) b8W (Memref.isWhole_whole _) cc0_scratch9 cc0_scratch10 cc0_scratch11 cc0_scratch12 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- An entailment into a weakest precondition, carried to another spelling of the same assertion, specification and
    postcondition: the three equations are then checked one by one, none through the program's run. -/
theorem wp_entails_congr {A A' : sProp 𝕄} {G G' : sWPT 𝕄 PUnit} {Q Q' : PUnit → sProp 𝕄} (hA : A = A') (hG : G = G') (hQ : Q = Q')
    (h : A ⊢ G Q) : A' ⊢ G' Q' := by subst hA hG hQ; exact h

/-- The launch theorem's obligation for the one vector-subcore call: every subcore runs the body at its own grid point. -/
theorem tileObl [∀ e, Nonempty (Elt F e)] (hea : ∀ d n, eaC m d n = 0#32 ∨ eaC m d n = 1#32) (hF : (K (F := F)).Facts) :
    (K (F := F)).TileObl (D (F := F)) 𝒱 (P m (GoodV m)) v₀ 0 := by
  intro d c i O W hO _ _
  simp only [show (P m (GoodV m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine wp_entails_congr ?_ ?_ ?_
    ((tile_body m d (coordsV ⟨_, hc.1⟩ ⟨_, hc.2⟩) (hea d) hF O W hO).trans (wp_mono frame _ _ fun _ => obl_post (q := 0)))
  all_goals rfl

end Cert.Proof.K

end
-- ==== Proof.ValueKI.lean ====
/-
  The value of the program `KernelIdeal` read off its layout operations. The call's result array is laid out
  [8, 6250, 8, 128]: element (c₁, b, c₂, l) holds the embedding of edge e = 128·b + l at column c = 8·c₁ + c₂. Every
  block b lies in exactly the share of one of the 32 subcores, so the whole array holds the embedding. The host
  operations around the call only move elements: the attribute array is transposed and flattened (attribute f of
  edge e becomes word f·800000 + e), each table is flattened (row r, column c becomes word 64·r + c), and the result
  is permuted to (block, lane, column group, column) and flattened to [800000, 64], so that element (e, c) of the
  program's result is element (c / 8, e / 128, c % 8, e % 128) of the call's. Where every attribute word is 0 or 1
  the flat positions are in range and name the rows the specification names, and the three table words are added in
  the specification's order.
-/
import proofs.«203789_g40862318854646_cont_8to1_b_1018_13_alg».proof.Proof.GoodKI
import proofs.«203789_g40862318854646_cont_8to1_b_1018_13_alg».proof.Proof.Spec
import Idealize.ShloMosaic.Lib.StableHlo.Run
import Idealize.ShloMosaic.Lib.Pipeline.Value
import Idealize.ShloMosaic.Lib.ValueLayout

noncomputable section

namespace Cert.Proof.KI

open Cert.KernelIdeal Cert.KernelIdeal.Gen
open Idealize.ShloMosaic Idealize.ShloMosaic.ValueIdx

/-! ## Every block belongs to a subcore -/

/-- The shares `lo w ≤ b < lo (w + 1)`, `w < 32`, cover the 6250 blocks: the first ten shares have 196 blocks, the
    others 195. -/
theorem cover (j : S8x6250x8x128.Idx) : ∃ w, w < 32 ∧ j ∈ blocksOf w := by
  have hb : (j 1).val < 6250 := (j 1).isLt
  by_cases h : (j 1).val < 1960
  · refine ⟨(j 1).val / 196, by omega, ?_⟩
    refine Finset.mem_filter.mpr ⟨Finset.mem_univ _, ?_⟩
    unfold lo
    omega
  · refine ⟨10 + ((j 1).val - 1960) / 195, by omega, ?_⟩
    refine Finset.mem_filter.mpr ⟨Finset.mem_univ _, ?_⟩
    unfold lo
    omega

/-! ## The layout operations read at an index -/

section Layout
variable {α : Type}

/-- The attribute array transposed and flattened: word `f·800000 + e` is attribute `f` of edge `e`. -/
theorem flat_attr_apply (a : S800000x3.Idx → α) (e : Fin 800000) (f : Fin 3) (n : ℕ) (hn : n = f.val * 800000 + e.val) :
    at1 (shapeCast S2400000 (transpose S3x800000 [1, 0] a transposes_S800000x3_S3x800000_1_0) shapeCasts_S3x800000_S2400000) n
      = a (ix2 e f) := by
  have hlt : n < 2400000 := by have := e.isLt; have := f.isLt; omega
  show shapeCast S2400000 _ _ (ix1 (Fin.ofNat 2400000 n)) = _
  refine (shapeCast_apply _ _ (ix1 (Fin.ofNat 2400000 n)) (ix2 f e) ?_).trans ?_
  · rw [Shape.rowMajor_val_two, Shape.rowMajor_val_one]
    show f.val * 800000 + e.val = n % 2400000
    rw [Nat.mod_eq_of_lt hlt]; exact hn.symm
  · exact transpose_ix2_apply a _ f e

/-- A table of 64 columns flattened: word `64·r + c` is row `r`, column `c`. -/
theorem flat_table_apply {R N : ℕ} [NeZero N] (W : (⟨2, ![R, 64]⟩ : Shape).Idx → α)
    (h : (⟨2, ![R, 64]⟩ : Shape).ShapeCasts ⟨1, ![N]⟩) (hN : R * 64 = N) (r : Fin R) (c : Fin 64) (n : ℕ)
    (hn : n = r.val * 64 + c.val) :
    at1 (shapeCast ⟨1, ![N]⟩ W h) n = W (ix2 r c) := by
  have hlt : n < N := by have := r.isLt; have := c.isLt; omega
  show shapeCast _ W h (ix1 (Fin.ofNat N n)) = _
  refine shapeCast_apply W h (ix1 (Fin.ofNat N n)) (ix2 r c) ?_
  rw [Shape.rowMajor_val_two, Shape.rowMajor_val_one]
  show r.val * 64 + c.val = n % N
  rw [Nat.mod_eq_of_lt hlt]; exact hn.symm

/-- The call's result permuted to (block, lane, column group, column) and flattened to [800000, 64]: element
    `(e, c)` is element `(c / 8, e / 128, c % 8, e % 128)` of the call's result. -/
theorem result_apply (fo : S8x6250x8x128.Idx → α) (e : Fin 800000) (c : Fin 64) :
    shapeCast S800000x64 (transpose S6250x128x8x8 [1, 3, 0, 2] fo transposes_S8x6250x8x128_S6250x128x8x8_1_3_0_2)
        shapeCasts_S6250x128x8x8_S800000x64 (ix2 e c)
      = fo (ix4 (⟨c.val / 8, by have := c.isLt; omega⟩ : Fin 8) (⟨e.val / 128, by have := e.isLt; omega⟩ : Fin 6250)
          (⟨c.val % 8, by omega⟩ : Fin 8) (⟨e.val % 128, by omega⟩ : Fin 128)) := by
  refine (shapeCast_apply _ _ (ix2 e c)
    (ix4 (⟨e.val / 128, by have := e.isLt; omega⟩ : Fin 6250) (⟨e.val % 128, by omega⟩ : Fin 128)
      (⟨c.val / 8, by have := c.isLt; omega⟩ : Fin 8) (⟨c.val % 8, by omega⟩ : Fin 8)) ?_).trans ?_
  · rw [Shape.rowMajor_val_four, Shape.rowMajor_val_two]
    show ((e.val / 128 * 128 + e.val % 128) * 8 + c.val / 8) * 8 + c.val % 8 = e.val * 64 + c.val
    omega
  · exact transpose_apply _ fo _ _ _ fun b => match b with
      | ⟨0, _⟩ => rfl | ⟨1, _⟩ => rfl | ⟨2, _⟩ => rfl | ⟨3, _⟩ => rfl

end Layout

/-! ## The valuations read back -/

section ReadBack
variable {F : FTy → Type} [FloatOps F]
variable (m : (ℓ : Loc nD τ sig) → Buf (Elt F) ℓ) (d : Dev nD)

/-- The call finds the attribute array transposed and flattened … -/
theorem eaC_eq : eaC (F := F) m d
    = shapeCast S2400000 (transpose S3x800000 [1, 0] (m ((SparseCore.T d).loc main_arg0) : IVec S800000x3 32)
        transposes_S800000x3_S3x800000_1_0) shapeCasts_S3x800000_S2400000 := by
  show StableHlo.after [op0 (F := F), op1, op2, op3, op4] (V0 m d) (Proc.devRef .tc (main_v1 : Ref sig .tc)) = _
  after_results
  rfl

/-- … and each table flattened. -/
theorem w0C_eq : w0C (F := F) m d
    = shapeCast S320 (m ((SparseCore.T d).loc main_arg1) : FVec F S5x64 .f32) shapeCasts_S5x64_S320 := by
  show StableHlo.after [op0 (F := F), op1, op2, op3, op4] (V0 m d) (Proc.devRef .tc (main_v2 : Ref sig .tc)) = _
  after_results
  rfl

theorem w1C_eq : w1C (F := F) m d
    = shapeCast S384 (m ((SparseCore.T d).loc main_arg2) : FVec F S6x64 .f32) shapeCasts_S6x64_S384 := by
  show StableHlo.after [op0 (F := F), op1, op2, op3, op4] (V0 m d) (Proc.devRef .tc (main_v3 : Ref sig .tc)) = _
  after_results
  rfl

theorem w2C_eq : w2C (F := F) m d
    = shapeCast S128 (m ((SparseCore.T d).loc main_arg3) : FVec F S2x64 .f32) shapeCasts_S2x64_S128 := by
  show StableHlo.after [op0 (F := F), op1, op2, op3, op4] (V0 m d) (Proc.devRef .tc (main_v4 : Ref sig .tc)) = _
  after_results
  rfl

/-- The program's result is the call's result permuted and flattened. -/
theorem vpost_eq (fo : Buf (Elt F) (oLoc d)) : Vpost (F := F) m d fo (Proc.devRef .tc (main_v7 : Ref sig .tc))
    = shapeCast S800000x64 (transpose S6250x128x8x8 [1, 3, 0, 2] (fo : FVec F S8x6250x8x128 .f32)
        transposes_S8x6250x8x128_S6250x128x8x8_1_3_0_2) shapeCasts_S6250x128x8x8_S800000x64 := by
  show StableHlo.after [op5 (F := F), op6]
    (Function.update (Vpre m d) (Proc.devRef .tc (main_v5 : Ref sig .tc)) fo) (Proc.devRef .tc (main_v7 : Ref sig .tc)) = _
  after_results
  rw [Function.update_self]
  rfl

end ReadBack

/-! ## The embedding at the element the program's result reads -/

/-- At element `(c / 8, e / 128, c % 8, e % 128)` the kernel's embedding is that of edge `e` at column `c`. -/
theorem kerVal_ix {F : FTy → Type} [FloatOps F] (ea : IVec S2400000 32) (w0 : FVec F S320 .f32) (w1 : FVec F S384 .f32)
    (w2 : FVec F S128 .f32) (e : Fin 800000) (c : Fin 64) :
    kerVal ea w0 w1 w2 (ix4 (⟨c.val / 8, by have := c.isLt; omega⟩ : Fin 8) (⟨e.val / 128, by have := e.isLt; omega⟩ : Fin 6250)
        (⟨c.val % 8, by omega⟩ : Fin 8) (⟨e.val % 128, by omega⟩ : Fin 128))
      = FloatOps.addf
          (FloatOps.addf (at1 w0 ((at1 ea e.val).toNat * 64 + c.val)) (at1 w1 ((at1 ea (800000 + e.val)).toNat * 64 + c.val)))
          (at1 w2 ((at1 ea (1600000 + e.val)).toNat * 64 + c.val)) := by
  have he : 128 * (e.val / 128) + e.val % 128 = e.val := Nat.div_add_mod _ _
  have hc : 8 * (c.val / 8) + c.val % 8 = c.val := Nat.div_add_mod _ _
  unfold kerVal
  show FloatOps.addf
      (FloatOps.addf (at1 w0 ((at1 ea (128 * (e.val / 128) + e.val % 128)).toNat * 64 + (8 * (c.val / 8) + c.val % 8)))
        (at1 w1 ((at1 ea (800000 + (128 * (e.val / 128) + e.val % 128))).toNat * 64 + (8 * (c.val / 8) + c.val % 8))))
      (at1 w2 ((at1 ea (1600000 + (128 * (e.val / 128) + e.val % 128))).toNat * 64 + (8 * (c.val / 8) + c.val % 8))) = _
  rw [he, hc]

/-! ## The value -/

/-- Where every subcore has left the embedding in its blocks and every attribute word is 0 or 1, the program's result is
    the specification's. -/
theorem value_eq (m : (ℓ : Loc nD τ sig) → Buf (Elt Ideal) ℓ) (d : Dev nD) (fo : Buf (Elt Ideal) (oLoc d))
    (hgood : ∀ w, w < 32 → GoodV (F := Ideal) m d fo w)
    (hr : Cert.Spec.InRange (m ((SparseCore.T d).loc main_arg0))) :
    Vpost (F := Ideal) m d fo (Proc.devRef .tc (main_v7 : Ref sig .tc))
      = Cert.Spec.out (m ((SparseCore.T d).loc main_arg0)) (m ((SparseCore.T d).loc main_arg1))
          (m ((SparseCore.T d).loc main_arg2)) (m ((SparseCore.T d).loc main_arg3)) := by
  rw [vpost_eq]
  funext i
  obtain ⟨e, c, rfl⟩ : ∃ (e : Fin 800000) (c : Fin 64), i = ix2 e c := ⟨i 0, i 1, eq_ix2 i⟩
  rw [Cert.Spec.out_apply, result_apply]
  obtain ⟨w, hw, hj⟩ := cover (ix4 (⟨c.val / 8, by have := c.isLt; omega⟩ : Fin 8) (⟨e.val / 128, by have := e.isLt; omega⟩ : Fin 6250)
        (⟨c.val % 8, by omega⟩ : Fin 8) (⟨e.val % 128, by omega⟩ : Fin 128))
  rw [hgood w hw _ hj, kerVal_ix, eaC_eq, w0C_eq, w1C_eq, w2C_eq]
  have h0 := hr e 0
  have h1 := hr e 1
  have h2 := hr e 2
  rw [flat_attr_apply _ e 0 e.val (by show e.val = 0 * 800000 + e.val; omega),
    flat_attr_apply _ e 1 (800000 + e.val) (by show 800000 + e.val = 1 * 800000 + e.val; omega),
    flat_attr_apply _ e 2 (1600000 + e.val) (by show 1600000 + e.val = 2 * 800000 + e.val; omega)]
  rw [flat_table_apply _ _ rfl (Cert.Spec.rowOf 5 (m ((SparseCore.T d).loc main_arg0) (ix2 e 0))) c _
      (by rw [Cert.Spec.rowOf_val (by omega) h0]),
    flat_table_apply _ _ rfl (Cert.Spec.rowOf 6 (m ((SparseCore.T d).loc main_arg0) (ix2 e 1))) c _
      (by rw [Cert.Spec.rowOf_val (by omega) h1]),
    flat_table_apply _ _ rfl (Cert.Spec.rowOf 2 (m ((SparseCore.T d).loc main_arg0) (ix2 e 2))) c _
      (by rw [Cert.Spec.rowOf_val (by omega) h2])]
  rfl

end Cert.Proof.KI
end
-- ==== Proof.EaRangeKI.lean ====
/-
  The flattened attribute array the call is handed holds only the words 0 and 1 when the attribute array does: word n
  of it is attribute n / 800000 of edge n % 800000.
-/
import proofs.«203789_g40862318854646_cont_8to1_b_1018_13_alg».proof.Proof.ValueKI

noncomputable section

namespace Cert.Proof.KI

open Cert.KernelIdeal Cert.KernelIdeal.Gen
open Idealize.ShloMosaic Idealize.ShloMosaic.ValueIdx

/-- Every word of the transposed and flattened attribute array is a word of the attribute array. -/
theorem eaC_range {F : FTy → Type} [FloatOps F] (m : (ℓ : Loc nD τ sig) → Buf (Elt F) ℓ) (d : Dev nD)
    (hr : Cert.Spec.InRange (m ((SparseCore.T d).loc main_arg0))) : ∀ n, eaC m d n = 0#32 ∨ eaC m d n = 1#32 := by
  intro n
  obtain ⟨k, rfl⟩ : ∃ k : Fin 2400000, n = ix1 k := ⟨n 0, eq_ix1 n⟩
  have hk := k.isLt
  have hk' : Fin.ofNat 2400000 k.val = k := Fin.ext (Nat.mod_eq_of_lt hk)
  have key : eaC m d (ix1 k)
      = (m ((SparseCore.T d).loc main_arg0) : IVec S800000x3 32)
          (ix2 (⟨k.val % 800000, by omega⟩ : Fin 800000) (⟨k.val / 800000, by omega⟩ : Fin 3)) := by
    rw [eaC_eq]
    refine Eq.trans ?_ (flat_attr_apply (m ((SparseCore.T d).loc main_arg0) : IVec S800000x3 32)
      (⟨k.val % 800000, by omega⟩ : Fin 800000) (⟨k.val / 800000, by omega⟩ : Fin 3) k.val
      (by show k.val = k.val / 800000 * 800000 + k.val % 800000; omega))
    show _ = shapeCast S2400000 _ _ (ix1 (Fin.ofNat 2400000 k.val))
    rw [hk']
  rw [key]
  exact hr _ _

end Cert.Proof.KI

end
-- ==== Proof.ValueK.lean ====
/-
  The value of the program `Kernel` read off its layout operations. The call's result array is laid out
  [8, 6250, 8, 128]: element (c₁, b, c₂, l) holds the embedding of edge e = 128·b + l at column c = 8·c₁ + c₂. Every
  block b lies in exactly the share of one of the 32 subcores, so the whole array holds the embedding. The host
  operations around the call only move elements: the attribute array is transposed and flattened (attribute f of
  edge e becomes word f·800000 + e), each table is flattened (row r, column c becomes word 64·r + c), and the result
  is permuted to (block, lane, column group, column) and flattened to [800000, 64], so that element (e, c) of the
  program's result is element (c / 8, e / 128, c % 8, e % 128) of the call's. Where every attribute word is 0 or 1
  the flat positions are in range and name the rows the specification names, and the three table words are added in
  the specification's order.
-/
import proofs.«203789_g40862318854646_cont_8to1_b_1018_13_alg».proof.Proof.GoodK
import proofs.«203789_g40862318854646_cont_8to1_b_1018_13_alg».proof.Proof.Spec
import Idealize.ShloMosaic.Lib.StableHlo.Run
import Idealize.ShloMosaic.Lib.Pipeline.Value
import Idealize.ShloMosaic.Lib.ValueLayout

noncomputable section

namespace Cert.Proof.K

open Cert.Kernel Cert.Kernel.Gen
open Idealize.ShloMosaic Idealize.ShloMosaic.ValueIdx

/-! ## Every block belongs to a subcore -/

/-- The shares `lo w ≤ b < lo (w + 1)`, `w < 32`, cover the 6250 blocks: the first ten shares have 196 blocks, the
    others 195. -/
theorem cover (j : S8x6250x8x128.Idx) : ∃ w, w < 32 ∧ j ∈ blocksOf w := by
  have hb : (j 1).val < 6250 := (j 1).isLt
  by_cases h : (j 1).val < 1960
  · refine ⟨(j 1).val / 196, by omega, ?_⟩
    refine Finset.mem_filter.mpr ⟨Finset.mem_univ _, ?_⟩
    unfold lo
    omega
  · refine ⟨10 + ((j 1).val - 1960) / 195, by omega, ?_⟩
    refine Finset.mem_filter.mpr ⟨Finset.mem_univ _, ?_⟩
    unfold lo
    omega

/-! ## The layout operations read at an index -/

section Layout
variable {α : Type}

/-- The attribute array transposed and flattened: word `f·800000 + e` is attribute `f` of edge `e`. -/
theorem flat_attr_apply (a : S800000x3.Idx → α) (e : Fin 800000) (f : Fin 3) (n : ℕ) (hn : n = f.val * 800000 + e.val) :
    at1 (shapeCast S2400000 (transpose S3x800000 [1, 0] a transposes_S800000x3_S3x800000_1_0) shapeCasts_S3x800000_S2400000) n
      = a (ix2 e f) := by
  have hlt : n < 2400000 := by have := e.isLt; have := f.isLt; omega
  show shapeCast S2400000 _ _ (ix1 (Fin.ofNat 2400000 n)) = _
  refine (shapeCast_apply _ _ (ix1 (Fin.ofNat 2400000 n)) (ix2 f e) ?_).trans ?_
  · rw [Shape.rowMajor_val_two, Shape.rowMajor_val_one]
    show f.val * 800000 + e.val = n % 2400000
    rw [Nat.mod_eq_of_lt hlt]; exact hn.symm
  · exact transpose_ix2_apply a _ f e

/-- A table of 64 columns flattened: word `64·r + c` is row `r`, column `c`. -/
theorem flat_table_apply {R N : ℕ} [NeZero N] (W : (⟨2, ![R, 64]⟩ : Shape).Idx → α)
    (h : (⟨2, ![R, 64]⟩ : Shape).ShapeCasts ⟨1, ![N]⟩) (hN : R * 64 = N) (r : Fin R) (c : Fin 64) (n : ℕ)
    (hn : n = r.val * 64 + c.val) :
    at1 (shapeCast ⟨1, ![N]⟩ W h) n = W (ix2 r c) := by
  have hlt : n < N := by have := r.isLt; have := c.isLt; omega
  show shapeCast _ W h (ix1 (Fin.ofNat N n)) = _
  refine shapeCast_apply W h (ix1 (Fin.ofNat N n)) (ix2 r c) ?_
  rw [Shape.rowMajor_val_two, Shape.rowMajor_val_one]
  show r.val * 64 + c.val = n % N
  rw [Nat.mod_eq_of_lt hlt]; exact hn.symm

/-- The call's result permuted to (block, lane, column group, column) and flattened to [800000, 64]: element
    `(e, c)` is element `(c / 8, e / 128, c % 8, e % 128)` of the call's result. -/
theorem result_apply (fo : S8x6250x8x128.Idx → α) (e : Fin 800000) (c : Fin 64) :
    shapeCast S800000x64 (transpose S6250x128x8x8 [1, 3, 0, 2] fo transposes_S8x6250x8x128_S6250x128x8x8_1_3_0_2)
        shapeCasts_S6250x128x8x8_S800000x64 (ix2 e c)
      = fo (ix4 (⟨c.val / 8, by have := c.isLt; omega⟩ : Fin 8) (⟨e.val / 128, by have := e.isLt; omega⟩ : Fin 6250)
          (⟨c.val % 8, by omega⟩ : Fin 8) (⟨e.val % 128, by omega⟩ : Fin 128)) := by
  refine (shapeCast_apply _ _ (ix2 e c)
    (ix4 (⟨e.val / 128, by have := e.isLt; omega⟩ : Fin 6250) (⟨e.val % 128, by omega⟩ : Fin 128)
      (⟨c.val / 8, by have := c.isLt; omega⟩ : Fin 8) (⟨c.val % 8, by omega⟩ : Fin 8)) ?_).trans ?_
  · rw [Shape.rowMajor_val_four, Shape.rowMajor_val_two]
    show ((e.val / 128 * 128 + e.val % 128) * 8 + c.val / 8) * 8 + c.val % 8 = e.val * 64 + c.val
    omega
  · exact transpose_apply _ fo _ _ _ fun b => match b with
      | ⟨0, _⟩ => rfl | ⟨1, _⟩ => rfl | ⟨2, _⟩ => rfl | ⟨3, _⟩ => rfl

end Layout

/-! ## The valuations read back -/

section ReadBack
variable {F : FTy → Type} [FloatOps F]
variable (m : (ℓ : Loc nD τ sig) → Buf (Elt F) ℓ) (d : Dev nD)

/-- The call finds the attribute array transposed and flattened … -/
theorem eaC_eq : eaC (F := F) m d
    = shapeCast S2400000 (transpose S3x800000 [1, 0] (m ((SparseCore.T d).loc main_arg0) : IVec S800000x3 32)
        transposes_S800000x3_S3x800000_1_0) shapeCasts_S3x800000_S2400000 := by
  show StableHlo.after [op0 (F := F), op1, op2, op3, op4] (V0 m d) (Proc.devRef .tc (main_v1 : Ref sig .tc)) = _
  after_results
  rfl

/-- … and each table flattened. -/
theorem w0C_eq : w0C (F := F) m d
    = shapeCast S320 (m ((SparseCore.T d).loc main_arg1) : FVec F S5x64 .f32) shapeCasts_S5x64_S320 := by
  show StableHlo.after [op0 (F := F), op1, op2, op3, op4] (V0 m d) (Proc.devRef .tc (main_v2 : Ref sig .tc)) = _
  after_results
  rfl

theorem w1C_eq : w1C (F := F) m d
    = shapeCast S384 (m ((SparseCore.T d).loc main_arg2) : FVec F S6x64 .f32) shapeCasts_S6x64_S384 := by
  show StableHlo.after [op0 (F := F), op1, op2, op3, op4] (V0 m d) (Proc.devRef .tc (main_v3 : Ref sig .tc)) = _
  after_results
  rfl

theorem w2C_eq : w2C (F := F) m d
    = shapeCast S128 (m ((SparseCore.T d).loc main_arg3) : FVec F S2x64 .f32) shapeCasts_S2x64_S128 := by
  show StableHlo.after [op0 (F := F), op1, op2, op3, op4] (V0 m d) (Proc.devRef .tc (main_v4 : Ref sig .tc)) = _
  after_results
  rfl

/-- The program's result is the call's result permuted and flattened. -/
theorem vpost_eq (fo : Buf (Elt F) (oLoc d)) : Vpost (F := F) m d fo (Proc.devRef .tc (main_v7 : Ref sig .tc))
    = shapeCast S800000x64 (transpose S6250x128x8x8 [1, 3, 0, 2] (fo : FVec F S8x6250x8x128 .f32)
        transposes_S8x6250x8x128_S6250x128x8x8_1_3_0_2) shapeCasts_S6250x128x8x8_S800000x64 := by
  show StableHlo.after [op5 (F := F), op6]
    (Function.update (Vpre m d) (Proc.devRef .tc (main_v5 : Ref sig .tc)) fo) (Proc.devRef .tc (main_v7 : Ref sig .tc)) = _
  after_results
  rw [Function.update_self]
  rfl

end ReadBack

/-! ## The embedding at the element the program's result reads -/

/-- At element `(c / 8, e / 128, c % 8, e % 128)` the kernel's embedding is that of edge `e` at column `c`. -/
theorem kerVal_ix {F : FTy → Type} [FloatOps F] (ea : IVec S2400000 32) (w0 : FVec F S320 .f32) (w1 : FVec F S384 .f32)
    (w2 : FVec F S128 .f32) (e : Fin 800000) (c : Fin 64) :
    kerVal ea w0 w1 w2 (ix4 (⟨c.val / 8, by have := c.isLt; omega⟩ : Fin 8) (⟨e.val / 128, by have := e.isLt; omega⟩ : Fin 6250)
        (⟨c.val % 8, by omega⟩ : Fin 8) (⟨e.val % 128, by omega⟩ : Fin 128))
      = FloatOps.addf
          (FloatOps.addf (at1 w0 ((at1 ea e.val).toNat * 64 + c.val)) (at1 w1 ((at1 ea (800000 + e.val)).toNat * 64 + c.val)))
          (at1 w2 ((at1 ea (1600000 + e.val)).toNat * 64 + c.val)) := by
  have he : 128 * (e.val / 128) + e.val % 128 = e.val := Nat.div_add_mod _ _
  have hc : 8 * (c.val / 8) + c.val % 8 = c.val := Nat.div_add_mod _ _
  unfold kerVal
  show FloatOps.addf
      (FloatOps.addf (at1 w0 ((at1 ea (128 * (e.val / 128) + e.val % 128)).toNat * 64 + (8 * (c.val / 8) + c.val % 8)))
        (at1 w1 ((at1 ea (800000 + (128 * (e.val / 128) + e.val % 128))).toNat * 64 + (8 * (c.val / 8) + c.val % 8))))
      (at1 w2 ((at1 ea (1600000 + (128 * (e.val / 128) + e.val % 128))).toNat * 64 + (8 * (c.val / 8) + c.val % 8))) = _
  rw [he, hc]

/-! ## The value -/

/-- Where every subcore has left the embedding in its blocks and every attribute word is 0 or 1, the program's result is
    the specification's. -/
theorem value_eq (m : (ℓ : Loc nD τ sig) → Buf (Elt Ideal) ℓ) (d : Dev nD) (fo : Buf (Elt Ideal) (oLoc d))
    (hgood : ∀ w, w < 32 → GoodV (F := Ideal) m d fo w)
    (hr : Cert.Spec.InRange (m ((SparseCore.T d).loc main_arg0))) :
    Vpost (F := Ideal) m d fo (Proc.devRef .tc (main_v7 : Ref sig .tc))
      = Cert.Spec.out (m ((SparseCore.T d).loc main_arg0)) (m ((SparseCore.T d).loc main_arg1))
          (m ((SparseCore.T d).loc main_arg2)) (m ((SparseCore.T d).loc main_arg3)) := by
  rw [vpost_eq]
  funext i
  obtain ⟨e, c, rfl⟩ : ∃ (e : Fin 800000) (c : Fin 64), i = ix2 e c := ⟨i 0, i 1, eq_ix2 i⟩
  rw [Cert.Spec.out_apply, result_apply]
  obtain ⟨w, hw, hj⟩ := cover (ix4 (⟨c.val / 8, by have := c.isLt; omega⟩ : Fin 8) (⟨e.val / 128, by have := e.isLt; omega⟩ : Fin 6250)
        (⟨c.val % 8, by omega⟩ : Fin 8) (⟨e.val % 128, by omega⟩ : Fin 128))
  rw [hgood w hw _ hj, kerVal_ix, eaC_eq, w0C_eq, w1C_eq, w2C_eq]
  have h0 := hr e 0
  have h1 := hr e 1
  have h2 := hr e 2
  rw [flat_attr_apply _ e 0 e.val (by show e.val = 0 * 800000 + e.val; omega),
    flat_attr_apply _ e 1 (800000 + e.val) (by show 800000 + e.val = 1 * 800000 + e.val; omega),
    flat_attr_apply _ e 2 (1600000 + e.val) (by show 1600000 + e.val = 2 * 800000 + e.val; omega)]
  rw [flat_table_apply _ _ rfl (Cert.Spec.rowOf 5 (m ((SparseCore.T d).loc main_arg0) (ix2 e 0))) c _
      (by rw [Cert.Spec.rowOf_val (by omega) h0]),
    flat_table_apply _ _ rfl (Cert.Spec.rowOf 6 (m ((SparseCore.T d).loc main_arg0) (ix2 e 1))) c _
      (by rw [Cert.Spec.rowOf_val (by omega) h1]),
    flat_table_apply _ _ rfl (Cert.Spec.rowOf 2 (m ((SparseCore.T d).loc main_arg0) (ix2 e 2))) c _
      (by rw [Cert.Spec.rowOf_val (by omega) h2])]
  rfl

end Cert.Proof.K
end
-- ==== Proof.EaRangeK.lean ====
/-
  The flattened attribute array the call is handed holds only the words 0 and 1 when the attribute array does: word n
  of it is attribute n / 800000 of edge n % 800000.
-/
import proofs.«203789_g40862318854646_cont_8to1_b_1018_13_alg».proof.Proof.ValueK

noncomputable section

namespace Cert.Proof.K

open Cert.Kernel Cert.Kernel.Gen
open Idealize.ShloMosaic Idealize.ShloMosaic.ValueIdx

/-- Every word of the transposed and flattened attribute array is a word of the attribute array. -/
theorem eaC_range {F : FTy → Type} [FloatOps F] (m : (ℓ : Loc nD τ sig) → Buf (Elt F) ℓ) (d : Dev nD)
    (hr : Cert.Spec.InRange (m ((SparseCore.T d).loc main_arg0))) : ∀ n, eaC m d n = 0#32 ∨ eaC m d n = 1#32 := by
  intro n
  obtain ⟨k, rfl⟩ : ∃ k : Fin 2400000, n = ix1 k := ⟨n 0, eq_ix1 n⟩
  have hk := k.isLt
  have hk' : Fin.ofNat 2400000 k.val = k := Fin.ext (Nat.mod_eq_of_lt hk)
  have key : eaC m d (ix1 k)
      = (m ((SparseCore.T d).loc main_arg0) : IVec S800000x3 32)
          (ix2 (⟨k.val % 800000, by omega⟩ : Fin 800000) (⟨k.val / 800000, by omega⟩ : Fin 3)) := by
    rw [eaC_eq]
    refine Eq.trans ?_ (flat_attr_apply (m ((SparseCore.T d).loc main_arg0) : IVec S800000x3 32)
      (⟨k.val % 800000, by omega⟩ : Fin 800000) (⟨k.val / 800000, by omega⟩ : Fin 3) k.val
      (by show k.val = k.val / 800000 * 800000 + k.val % 800000; omega))
    show _ = shapeCast S2400000 _ _ (ix1 (Fin.ofNat 2400000 k.val))
    rw [hk']
  rw [key]
  exact hr _ _

end Cert.Proof.K

end
-- ==== Proof.lean ====
/-
  The five claims for the bond-embedding kernel against its reference program.
  Both idealized programs compute, for edge e and column c, the sum of the rows that the edge's three attribute words
  name in the three tables: the reference as ((0 + W0(a(e,0),c)) + W1(a(e,1),c)) + W2(a(e,2),c) by three table lookups;
  the kernel, on each of 32 vector subcores, by a combined table (W0(i0,c) + W1(i1,c)) + W2(i2,c) over all row triples,
  gathered at the combined row 12·a(e,0) + 2·a(e,1) + a(e,2). On the extended reals the two differ by the leading zero
  only (zero_add); no finiteness is used. The precondition's integer range 0 ≤ a ≤ 1 keeps every lookup and every gather
  inside its table.
  The frames: each kernel program's run is the SparseCore launch over its vector subcores' body; the reference's is its
  host operations' run. preserves is trivial (the ideal pass rewrote nothing).
-/
import proofs.«203789_g40862318854646_cont_8to1_b_1018_13_alg».proof.Defs
import proofs.«203789_g40862318854646_cont_8to1_b_1018_13_alg».proof.Proof.Gen.Kernel
import proofs.«203789_g40862318854646_cont_8to1_b_1018_13_alg».proof.Proof.Gen.Kernel.Skeleton
import proofs.«203789_g40862318854646_cont_8to1_b_1018_13_alg».proof.Proof.Gen.KernelIdeal
import proofs.«203789_g40862318854646_cont_8to1_b_1018_13_alg».proof.Proof.Gen.KernelIdeal.Skeleton
import proofs.«203789_g40862318854646_cont_8to1_b_1018_13_alg».proof.Proof.Gen.ReferenceIdeal
import proofs.«203789_g40862318854646_cont_8to1_b_1018_13_alg».proof.Proof.Gen.Pre_input_domain
import proofs.«203789_g40862318854646_cont_8to1_b_1018_13_alg».proof.Proof.PreRange
import proofs.«203789_g40862318854646_cont_8to1_b_1018_13_alg».proof.Proof.RefRun
import proofs.«203789_g40862318854646_cont_8to1_b_1018_13_alg».proof.Proof.ObKI
import proofs.«203789_g40862318854646_cont_8to1_b_1018_13_alg».proof.Proof.ObK
import proofs.«203789_g40862318854646_cont_8to1_b_1018_13_alg».proof.Proof.LaunchKI
import proofs.«203789_g40862318854646_cont_8to1_b_1018_13_alg».proof.Proof.LaunchK
import proofs.«203789_g40862318854646_cont_8to1_b_1018_13_alg».proof.Proof.ValueKI
import proofs.«203789_g40862318854646_cont_8to1_b_1018_13_alg».proof.Proof.EaRangeKI
import proofs.«203789_g40862318854646_cont_8to1_b_1018_13_alg».proof.Proof.EaRangeK
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_input_domain := Cert.Pre_input_domain.Gen.facts) :=
  fun m ρ hpre =>
    (θ_run (Cert.Kernel.defs (F := Bits)) _ _).mono (fun _ h c => (h c).2)
      (Cert.Proof.K.run_main (F := Bits) m ρ (Cert.Proof.K.GoodV m)
        (Cert.Proof.K.tileObl m (fun d => Cert.Proof.K.eaC_range m d (Cert.PreRange.inRange _ _ _ _ (hpre d))) Cert.Proof.K.facts)
        (Cert.Proof.K.GoodV_local m))

/-- The idealized kernel runs and leaves its arguments unchanged. -/
theorem frame_kernelIdeal : Cert.frame_KernelIdeal (hKernelIdeal := Cert.KernelIdeal.Gen.facts) (hPre_input_domain := Cert.Pre_input_domain.Gen.facts) :=
  fun m ρ hpre =>
    (θ_run (Cert.KernelIdeal.defs (F := Ideal)) _ _).mono (fun _ h c => (h c).2)
      (Cert.Proof.KI.run_main (F := Ideal) m ρ (Cert.Proof.KI.GoodV m)
        (Cert.Proof.KI.tileObl m (fun d => Cert.Proof.KI.eaC_range m d (Cert.PreRange.inRange _ _ _ _ (hpre d))) Cert.Proof.KI.facts)
        (Cert.Proof.KI.GoodV_local m))

/-- The reference runs and leaves its arguments unchanged. -/
theorem frame_reference : Cert.frame_ReferenceIdeal (hReferenceIdeal := Cert.ReferenceIdeal.Gen.facts) (hPre_input_domain := Cert.Pre_input_domain.Gen.facts) :=
  fun m ρ _ => (θ_run (Cert.ReferenceIdeal.defs (F := Ideal)) _ _).mono (fun _ h c => (h c).2) (Cert.RefRun.run m ρ)

/-- Both idealized programs end with the embedding `Cert.Spec.out` of their (agreeing) arguments. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  have hr : ∀ c : Dev Cert.KernelIdeal.nD, Cert.Spec.InRange (m ((c.tc : Thread Cert.KernelIdeal.nD Cert.KernelIdeal.τ).loc Cert.KernelIdeal.main_arg0)) :=
    fun c => Cert.PreRange.inRange _ _ _ _ (hpre c)
  refine ⟨fun c => Cert.Spec.out (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · refine (θ_run (Cert.KernelIdeal.defs (F := Ideal)) _ _).mono (fun _ h c => ?_)
      (Cert.Proof.KI.run_main (F := Ideal) m ρ (Cert.Proof.KI.GoodV m)
        (Cert.Proof.KI.tileObl m (fun d => Cert.Proof.KI.eaC_range m d (hr d)) Cert.Proof.KI.facts) (Cert.Proof.KI.GoodV_local m))
    obtain ⟨⟨fo, hgood, hv⟩, hargs⟩ := h c
    exact ⟨hv.trans (Cert.Proof.KI.value_eq m c fo hgood (hr c)), hargs⟩
  · refine (θ_run (Cert.ReferenceIdeal.defs (F := Ideal)) _ _).mono (fun _ h c => ?_) (Cert.RefRun.run m' ρ')
    obtain ⟨hv, hargs⟩ := h c
    refine ⟨hv.trans ?_, hargs⟩
    rw [(hagree c).1, (hagree c).2.1, (hagree c).2.2.1, (hagree c).2.2.2]
    exact Cert.RefRun.refOut_eq_spec _ _ _ _ (hr c)

theorem claim : Cert.Claim :=
  ⟨Cert.Kernel.Gen.facts, Cert.KernelIdeal.Gen.facts, Cert.ReferenceIdeal.Gen.facts, Cert.Pre_input_domain.Gen.facts,
    frame_kernel, frame_kernelIdeal, frame_reference, trivial, algebraic⟩

end Cert.Proof

end
